-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v442)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v442) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v694) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x96 : Shape := ⟨2, ![100000, 96]⟩
abbrev S2x1000000 : Shape := ⟨2, ![2, 1000000]⟩
abbrev S96x80 : Shape := ⟨2, ![96, 80]⟩
abbrev S80 : Shape := ⟨1, ![80]⟩
abbrev S6x80x80 : Shape := ⟨3, ![6, 80, 80]⟩
abbrev S6x80 : Shape := ⟨2, ![6, 80]⟩
abbrev S7x80 : Shape := ⟨2, ![7, 80]⟩
abbrev S176x48 : Shape := ⟨2, ![176, 48]⟩
abbrev S48 : Shape := ⟨1, ![48]⟩
abbrev S_ : Shape := ⟨0, ![]⟩

class Facts : Prop where
  bcast_S_S100000x96 : S_.BroadcastsInDim S100000x96 (![] : Fin 0 → Fin S100000x96.rank)
  reducesTo_S100000x96_S_d0_1 : S100000x96.ReducesTo [0, 1] S_
  h_S_ : 0 < S_.numel
  bcast_S_S96x80 : S_.BroadcastsInDim S96x80 (![] : Fin 0 → Fin S96x80.rank)
  reducesTo_S96x80_S_d0_1 : S96x80.ReducesTo [0, 1] S_
  bcast_S_S80 : S_.BroadcastsInDim S80 (![] : Fin 0 → Fin S80.rank)
  reducesTo_S80_S_d0 : S80.ReducesTo [0] S_
  bcast_S_S6x80x80 : S_.BroadcastsInDim S6x80x80 (![] : Fin 0 → Fin S6x80x80.rank)
  reducesTo_S6x80x80_S_d0_1_2 : S6x80x80.ReducesTo [0, 1, 2] S_
  bcast_S_S6x80 : S_.BroadcastsInDim S6x80 (![] : Fin 0 → Fin S6x80.rank)
  reducesTo_S6x80_S_d0_1 : S6x80.ReducesTo [0, 1] S_
  bcast_S_S7x80 : S_.BroadcastsInDim S7x80 (![] : Fin 0 → Fin S7x80.rank)
  reducesTo_S7x80_S_d0_1 : S7x80.ReducesTo [0, 1] S_
  bcast_S_S176x48 : S_.BroadcastsInDim S176x48 (![] : Fin 0 → Fin S176x48.rank)
  reducesTo_S176x48_S_d0_1 : S176x48.ReducesTo [0, 1] S_
  bcast_S_S48 : S_.BroadcastsInDim S48 (![] : Fin 0 → Fin S48.rank)
  reducesTo_S48_S_d0 : S48.ReducesTo [0] S_

variable [Facts]

def fn_part3 {F : FTy → Type} [FloatOps F] (main_arg12 : FVec F S176x48 .f32) (main_arg13 : FVec F S48 .f32) (main_v48 : IVec S_ 1) (main_v49 : FVec F S7x80 .f32) (main_v50 : FVec F S7x80 .f32) : IVec S_ 1 :=
  let main_v51 : IVec S7x80 1 := cmpf .olt main_v49 main_v50
  let main_c_19 : IVec S_ 1 := constantI S_ 1 1#1
  let main_v52 : IVec S_ 1 := (fun x v => Host.reduce IntOp.andi x v reducesTo_S7x80_S_d0_1 h_S_) main_v51 main_c_19
  let main_v53 : IVec S_ 1 := andi main_v48 main_v52
  let main_v54 : FVec F S176x48 .f32 := Host.absf main_arg12
  let main_cst_20 : FVec F S_ .f32 := constant S_ .f32 0x7F800000#32
  let main_v55 : FVec F S176x48 .f32 := broadcastInDim S176x48 ![] bcast_S_S176x48 main_cst_20
  let main_v56 : IVec S176x48 1 := cmpf .olt main_v54 main_v55
  let main_c_21 : IVec S_ 1 := constantI S_ 1 1#1
  let main_v57 : IVec S_ 1 := (fun x v => Host.reduce IntOp.andi x v reducesTo_S176x48_S_d0_1 h_S_) main_v56 main_c_21
  let main_v58 : IVec S_ 1 := andi main_v53 main_v57
  let main_v59 : FVec F S48 .f32 := Host.absf main_arg13
  let main_cst_22 : FVec F S_ .f32 := constant S_ .f32 0x7F800000#32
  let main_v60 : FVec F S48 .f32 := broadcastInDim S48 ![] bcast_S_S48 main_cst_22
  let main_v61 : IVec S48 1 := cmpf .olt main_v59 main_v60
  let main_c_23 : IVec S_ 1 := constantI S_ 1 1#1
  let main_v62 : IVec S_ 1 := (fun x v => Host.reduce IntOp.andi x v reducesTo_S48_S_d0 h_S_) main_v61 main_c_23
  let main_v63 : IVec S_ 1 := andi main_v58 main_v62
  main_v63

def fn_part2 {F : FTy → Type} [FloatOps F] (main_arg8 : FVec F S6x80x80 .f32) (main_arg9 : FVec F S6x80 .f32) (main_arg10 : FVec F S7x80 .f32) (main_arg11 : FVec F S7x80 .f32) (main_arg12 : FVec F S176x48 .f32) (main_arg13 : FVec F S48 .f32) (main_v33 : IVec S_ 1) : IVec S_ 1 :=
  let main_v34 : FVec F S6x80x80 .f32 := Host.absf main_arg8
  let main_cst_12 : FVec F S_ .f32 := constant S_ .f32 0x7F800000#32
  let main_v35 : FVec F S6x80x80 .f32 := broadcastInDim S6x80x80 ![] bcast_S_S6x80x80 main_cst_12
  let main_v36 : IVec S6x80x80 1 := cmpf .olt main_v34 main_v35
  let main_c_13 : IVec S_ 1 := constantI S_ 1 1#1
  let main_v37 : IVec S_ 1 := (fun x v => Host.reduce IntOp.andi x v reducesTo_S6x80x80_S_d0_1_2 h_S_) main_v36 main_c_13
  let main_v38 : IVec S_ 1 := andi main_v33 main_v37
  let main_v39 : FVec F S6x80 .f32 := Host.absf main_arg9
  let main_cst_14 : FVec F S_ .f32 := constant S_ .f32 0x7F800000#32
  let main_v40 : FVec F S6x80 .f32 := broadcastInDim S6x80 ![] bcast_S_S6x80 main_cst_14
  let main_v41 : IVec S6x80 1 := cmpf .olt main_v39 main_v40
  let main_c_15 : IVec S_ 1 := constantI S_ 1 1#1
  let main_v42 : IVec S_ 1 := (fun x v => Host.reduce IntOp.andi x v reducesTo_S6x80_S_d0_1 h_S_) main_v41 main_c_15
  let main_v43 : IVec S_ 1 := andi main_v38 main_v42
  let main_v44 : FVec F S7x80 .f32 := Host.absf main_arg10
  let main_cst_16 : FVec F S_ .f32 := constant S_ .f32 0x7F800000#32
  let main_v45 : FVec F S7x80 .f32 := broadcastInDim S7x80 ![] bcast_S_S7x80 main_cst_16
  let main_v46 : IVec S7x80 1 := cmpf .olt main_v44 main_v45
  let main_c_17 : IVec S_ 1 := constantI S_ 1 1#1
  let main_v47 : IVec S_ 1 := (fun x v => Host.reduce IntOp.andi x v reducesTo_S7x80_S_d0_1 h_S_) main_v46 main_c_17
  let main_v48 : IVec S_ 1 := andi main_v43 main_v47
  let main_v49 : FVec F S7x80 .f32 := Host.absf main_arg11
  let main_cst_18 : FVec F S_ .f32 := constant S_ .f32 0x7F800000#32
  let main_v50 : FVec F S7x80 .f32 := broadcastInDim S7x80 ![] bcast_S_S7x80 main_cst_18
  fn_part3 (F := F) main_arg12 main_arg13 main_v48 main_v49 main_v50

def fn_part1 {F : FTy → Type} [FloatOps F] (main_arg5 : FVec F S80 .f32) (main_arg6 : FVec F S6x80x80 .f32) (main_arg7 : FVec F S6x80 .f32) (main_arg8 : FVec F S6x80x80 .f32) (main_arg9 : FVec F S6x80 .f32) (main_arg10 : FVec F S7x80 .f32) (main_arg11 : FVec F S7x80 .f32) (main_arg12 : FVec F S176x48 .f32) (main_arg13 : FVec F S48 .f32) (main_v13 : IVec S_ 1) (main_v16 : IVec S96x80 1) : IVec S_ 1 :=
  let main_c_5 : IVec S_ 1 := constantI S_ 1 1#1
  let main_v17 : IVec S_ 1 := (fun x v => Host.reduce IntOp.andi x v reducesTo_S96x80_S_d0_1 h_S_) main_v16 main_c_5
  let main_v18 : IVec S_ 1 := andi main_v13 main_v17
  let main_v19 : FVec F S80 .f32 := Host.absf main_arg5
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  let main_v24 : FVec F S6x80x80 .f32 := Host.absf main_arg6
  let main_cst_8 : FVec F S_ .f32 := constant S_ .f32 0x7F800000#32
  let main_v25 : FVec F S6x80x80 .f32 := broadcastInDim S6x80x80 ![] bcast_S_S6x80x80 main_cst_8
  let main_v26 : IVec S6x80x80 1 := cmpf .olt main_v24 main_v25
  let main_c_9 : IVec S_ 1 := constantI S_ 1 1#1
  let main_v27 : IVec S_ 1 := (fun x v => Host.reduce IntOp.andi x v reducesTo_S6x80x80_S_d0_1_2 h_S_) main_v26 main_c_9
  let main_v28 : IVec S_ 1 := andi main_v23 main_v27
  let main_v29 : FVec F S6x80 .f32 := Host.absf main_arg7
  let main_cst_10 : FVec F S_ .f32 := constant S_ .f32 0x7F800000#32
  let main_v30 : FVec F S6x80 .f32 := broadcastInDim S6x80 ![] bcast_S_S6x80 main_cst_10
  let main_v31 : IVec S6x80 1 := cmpf .olt main_v29 main_v30
  let main_c_11 : IVec S_ 1 := constantI S_ 1 1#1
  let main_v32 : IVec S_ 1 := (fun x v => Host.reduce IntOp.andi x v reducesTo_S6x80_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x96 .f32) (main_arg1 : IVec S2x1000000 32) (main_arg2 : FVec F S96x80 .f32) (main_arg3 : FVec F S80 .f32) (main_arg4 : FVec F S96x80 .f32) (main_arg5 : FVec F S80 .f32) (main_arg6 : FVec F S6x80x80 .f32) (main_arg7 : FVec F S6x80 .f32) (main_arg8 : FVec F S6x80x80 .f32) (main_arg9 : FVec F S6x80 .f32) (main_arg10 : FVec F S7x80 .f32) (main_arg11 : FVec F S7x80 .f32) (main_arg12 : FVec F S176x48 .f32) (main_arg13 : FVec F S48 .f32) : IVec S_ 1 :=
  let main_v0 : FVec F S100000x96 .f32 := Host.absf main_arg0
  let main_cst : FVec F S_ .f32 := constant S_ .f32 0x7F800000#32
  let main_v1 : FVec F S100000x96 .f32 := broadcastInDim S100000x96 ![] bcast_S_S100000x96 main_cst
  let main_v2 : IVec S100000x96 1 := cmpf .olt main_v0 main_v1
  let main_c : IVec S_ 1 := constantI S_ 1 1#1
  let main_v3 : IVec S_ 1 := (fun x v => Host.reduce IntOp.andi x v reducesTo_S100000x96_S_d0_1 h_S_) main_v2 main_c
  let main_v4 : FVec F S96x80 .f32 := Host.absf main_arg2
  let main_cst_0 : FVec F S_ .f32 := constant S_ .f32 0x7F800000#32
  let main_v5 : FVec F S96x80 .f32 := broadcastInDim S96x80 ![] bcast_S_S96x80 main_cst_0
  let main_v6 : IVec S96x80 1 := cmpf .olt main_v4 main_v5
  let main_c_1 : IVec S_ 1 := constantI S_ 1 1#1
  let main_v7 : IVec S_ 1 := (fun x v => Host.reduce IntOp.andi x v reducesTo_S96x80_S_d0_1 h_S_) main_v6 main_c_1
  let main_v8 : IVec S_ 1 := andi main_v3 main_v7
  let main_v9 : FVec F S80 .f32 := Host.absf main_arg3
  let main_cst_2 : FVec F S_ .f32 := constant S_ .f32 0x7F800000#32
  let main_v10 : FVec F S80 .f32 := broadcastInDim S80 ![] bcast_S_S80 main_cst_2
  let main_v11 : IVec S80 1 := cmpf .olt main_v9 main_v10
  let main_c_3 : IVec S_ 1 := constantI S_ 1 1#1
  let main_v12 : IVec S_ 1 := (fun x v => Host.reduce IntOp.andi x v reducesTo_S80_S_d0 h_S_) main_v11 main_c_3
  let main_v13 : IVec S_ 1 := andi main_v8 main_v12
  let main_v14 : FVec F S96x80 .f32 := Host.absf main_arg4
  let main_cst_4 : FVec F S_ .f32 := constant S_ .f32 0x7F800000#32
  let main_v15 : FVec F S96x80 .f32 := broadcastInDim S96x80 ![] bcast_S_S96x80 main_cst_4
  let main_v16 : IVec S96x80 1 := cmpf .olt main_v14 main_v15
  fn_part1 (F := F) main_arg5 main_arg6 main_arg7 main_arg8 main_arg9 main_arg10 main_arg11 main_arg12 main_arg13 main_v13 main_v16
-- ==== Kernel.lean ====
abbrev S100000x96 : Shape := ⟨2, ![100000, 96]⟩
abbrev S2x1000000 : Shape := ⟨2, ![2, 1000000]⟩
abbrev S96x80 : Shape := ⟨2, ![96, 80]⟩
abbrev S80 : Shape := ⟨1, ![80]⟩
abbrev S6x80x80 : Shape := ⟨3, ![6, 80, 80]⟩
abbrev S6x80 : Shape := ⟨2, ![6, 80]⟩
abbrev S7x80 : Shape := ⟨2, ![7, 80]⟩
abbrev S176x48 : Shape := ⟨2, ![176, 48]⟩
abbrev S48 : Shape := ⟨1, ![48]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S20000 : Shape := ⟨1, ![20000]⟩
abbrev S96x160 : Shape := ⟨2, ![96, 160]⟩
abbrev S100000x160 : Shape := ⟨2, ![100000, 160]⟩
abbrev S10000x96 : Shape := ⟨2, ![10000, 96]⟩
abbrev S10000x160 : Shape := ⟨2, ![10000, 160]⟩
abbrev S1000000x160 : Shape := ⟨2, ![1000000, 160]⟩
abbrev S20000x160 : Shape := ⟨2, ![20000, 160]⟩
abbrev S20000x1 : Shape := ⟨2, ![20000, 1]⟩
abbrev S100000x1 : Shape := ⟨2, ![100000, 1]⟩
abbrev S100000x80 : Shape := ⟨2, ![100000, 80]⟩
abbrev S1x80 : Shape := ⟨2, ![1, 80]⟩
abbrev S10000x80 : Shape := ⟨2, ![10000, 80]⟩
abbrev S1x80x80 : Shape := ⟨3, ![1, 80, 80]⟩
abbrev S80x80 : Shape := ⟨2, ![80, 80]⟩
abbrev S80x160 : Shape := ⟨2, ![80, 160]⟩
abbrev S100000x176 : Shape := ⟨2, ![100000, 176]⟩
abbrev S100000x48 : Shape := ⟨2, ![100000, 48]⟩
abbrev S10000x176 : Shape := ⟨2, ![10000, 176]⟩
abbrev S10000x48 : Shape := ⟨2, ![10000, 48]⟩
abbrev S1000000x48 : Shape := ⟨2, ![1000000, 48]⟩
abbrev S20000x48 : Shape := ⟨2, ![20000, 48]⟩
abbrev S1x48 : Shape := ⟨2, ![1, 48]⟩

abbrev nBuf : Space → Nat
  | .hbm => 686
  | .vmem => 110
  | .smem => 0
  | _ => 0

abbrev hbmTy0_0 (i : Nat) : BufTy := match i % 128 with
  | 0 => ⟨S100000x96, .f32⟩
  | 1 => ⟨S2x1000000, .i32⟩
  | 2 => ⟨S96x80, .f32⟩
  | 3 => ⟨S80, .f32⟩
  | 4 => ⟨S96x80, .f32⟩
  | 5 => ⟨S80, .f32⟩
  | 6 => ⟨S6x80x80, .f32⟩
  | 7 => ⟨S6x80, .f32⟩
  | 8 => ⟨S6x80x80, .f32⟩
  | 9 => ⟨S6x80, .f32⟩
  | 10 => ⟨S7x80, .f32⟩
  | 11 => ⟨S7x80, .f32⟩
  | 12 => ⟨S176x48, .f32⟩
  | 13 => ⟨S48, .f32⟩
  | 14 => ⟨S1x1000000, .i32⟩
  | 15 => ⟨S1000000, .i32⟩
  | 16 => ⟨S1x1000000, .i32⟩
  | 17 => ⟨S1000000, .i32⟩
  | 18 => ⟨S_, .f32⟩
  | 19 => ⟨S1000000, .f32⟩
  | 20 => ⟨S_, .f32⟩
  | 21 => ⟨S100000, .f32⟩
  | 22 => ⟨S1000000x1, .i32⟩
  | 23 => ⟨S100000, .f32⟩
  | 24 => ⟨S_, .f32⟩
  | 25 => ⟨S20000, .f32⟩
  | 26 => ⟨S1000000x1, .i32⟩
  | 27 => ⟨S20000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .f32⟩
  | 39 => ⟨S20000, .f32⟩
  | 40 => ⟨S20000, .i1⟩
  | 41 => ⟨S_, .f32⟩
  | 42 => ⟨S20000, .f32⟩
  | 43 => ⟨S20000, .f32⟩
  | 44 => ⟨S_, .f32⟩
  | 45 => ⟨S_, .f32⟩
  | 46 => ⟨S20000, .f32⟩
  | 47 => ⟨S20000, .f32⟩
  | 48 => ⟨S96x160, .f32⟩
  | 49 => ⟨S100000x160, .f32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000x160, .f32⟩
  | 59 => ⟨S_, .f32⟩
  | 60 => ⟨S20000x160, .f32⟩
  | 61 => ⟨S1000000x1, .i32⟩
  | 62 => ⟨S20000x160, .f32⟩
  | 63 => ⟨S20000x1, .f32⟩
  | 64 => ⟨S20000x160, .f32⟩
  | 65 => ⟨S20000x160, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x160, .f32⟩
  | 75 => ⟨S_, .f32⟩
  | 76 => ⟨S100000x160, .f32⟩
  | 77 => ⟨S1000000x1, .i32⟩
  | 78 => ⟨S100000x160, .f32⟩
  | 79 => ⟨S100000x1, .f32⟩
  | 80 => ⟨S100000x160, .f32⟩
  | 81 => ⟨S100000x160, .f32⟩
  | 82 => ⟨S100000x80, .f32⟩
  | 83 => ⟨S1x80, .f32⟩
  | 84 => ⟨S100000x80, .f32⟩
  | 85 => ⟨S100000x80, .f32⟩
  | 86 => ⟨S100000x80, .f32⟩
  | 87 => ⟨S1x80, .f32⟩
  | 88 => ⟨S100000x80, .f32⟩
  | 89 => ⟨S100000x80, .f32⟩
  | 90 => ⟨S_, .f32⟩
  | 91 => ⟨S80, .f32⟩
  | 92 => ⟨S_, .f32⟩
  | 93 => ⟨S80, .f32⟩
  | 94 => ⟨S80, .f32⟩
  | 95 => ⟨S_, .i32⟩
  | 96 => ⟨S_, .f32⟩
  | 97 => ⟨S80, .f32⟩
  | 98 => ⟨S1x80, .f32⟩
  | 99 => ⟨S_, .f32⟩
  | 100 => ⟨S1x80, .f32⟩
  | 101 => ⟨S1x80, .f32⟩
  | 102 => ⟨S100000x80, .f32⟩
  | 103 => ⟨S100000x80, .f32⟩
  | 104 => ⟨S100000x80, .f32⟩
  | 105 => ⟨S_, .f32⟩
  | 106 => ⟨S_, .f32⟩
  | 107 => ⟨S_, .f32⟩
  | 108 => ⟨S_, .f32⟩
  | 109 => ⟨S80, .f32⟩
  | 110 => ⟨S80, .f32⟩
  | 111 => ⟨S80, .f32⟩
  | 112 => ⟨S_, .f32⟩
  | 113 => ⟨S_, .i1⟩
  | 114 => ⟨S_, .f32⟩
  | 115 => ⟨S_, .f32⟩
  | 116 => ⟨S80, .f32⟩
  | 117 => ⟨S80, .f32⟩
  | 118 => ⟨S1x80, .f32⟩
  | 119 => ⟨S80, .f32⟩
  | 120 => ⟨S1x80, .f32⟩
  | 121 => ⟨S80, .f32⟩
  | 122 => ⟨S1x80, .f32⟩
  | 123 => ⟨S1x80, .f32⟩
  | 124 => ⟨S1x80, .f32⟩
  | 125 => ⟨S1x80, .f32⟩
  | 126 => ⟨S100000x80, .f32⟩
  | 127 => ⟨S1x80x80, .f32⟩
  | _ => ⟨S100000x96, .f32⟩

abbrev hbmTy0_1 (i : Nat) : BufTy := match i % 128 with
  | 0 => ⟨S80x80, .f32⟩
  | 1 => ⟨S1x80x80, .f32⟩
  | 2 => ⟨S80x80, .f32⟩
  | 3 => ⟨S80x160, .f32⟩
  | 4 => ⟨S100000x160, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x160, .f32⟩
  | 14 => ⟨S_, .f32⟩
  | 15 => ⟨S20000x160, .f32⟩
  | 16 => ⟨S1000000x1, .i32⟩
  | 17 => ⟨S20000x160, .f32⟩
  | 18 => ⟨S20000x1, .f32⟩
  | 19 => ⟨S20000x160, .f32⟩
  | 20 => ⟨S20000x160, .f32⟩
  | 21 => ⟨S_, .i32⟩
  | 22 => ⟨S1000000, .i32⟩
  | 23 => ⟨S1000000, .i1⟩
  | 24 => ⟨S_, .i32⟩
  | 25 => ⟨S1000000, .i32⟩
  | 26 => ⟨S1000000, .i32⟩
  | 27 => ⟨S1000000, .i32⟩
  | 28 => ⟨S1000000x1, .i32⟩
  | 29 => ⟨S1000000x160, .f32⟩
  | 30 => ⟨S_, .f32⟩
  | 31 => ⟨S100000x160, .f32⟩
  | 32 => ⟨S1000000x1, .i32⟩
  | 33 => ⟨S100000x160, .f32⟩
  | 34 => ⟨S100000x1, .f32⟩
  | 35 => ⟨S100000x160, .f32⟩
  | 36 => ⟨S100000x160, .f32⟩
  | 37 => ⟨S100000x80, .f32⟩
  | 38 => ⟨S1x80, .f32⟩
  | 39 => ⟨S80, .f32⟩
  | 40 => ⟨S1x80, .f32⟩
  | 41 => ⟨S100000x80, .f32⟩
  | 42 => ⟨S100000x80, .f32⟩
  | 43 => ⟨S100000x80, .f32⟩
  | 44 => ⟨S1x80, .f32⟩
  | 45 => ⟨S80, .f32⟩
  | 46 => ⟨S1x80, .f32⟩
  | 47 => ⟨S100000x80, .f32⟩
  | 48 => ⟨S100000x80, .f32⟩
  | 49 => ⟨S_, .f32⟩
  | 50 => ⟨S80, .f32⟩
  | 51 => ⟨S_, .f32⟩
  | 52 => ⟨S80, .f32⟩
  | 53 => ⟨S80, .f32⟩
  | 54 => ⟨S_, .i32⟩
  | 55 => ⟨S_, .f32⟩
  | 56 => ⟨S80, .f32⟩
  | 57 => ⟨S1x80, .f32⟩
  | 58 => ⟨S_, .f32⟩
  | 59 => ⟨S1x80, .f32⟩
  | 60 => ⟨S1x80, .f32⟩
  | 61 => ⟨S100000x80, .f32⟩
  | 62 => ⟨S100000x80, .f32⟩
  | 63 => ⟨S100000x80, .f32⟩
  | 64 => ⟨S_, .f32⟩
  | 65 => ⟨S_, .f32⟩
  | 66 => ⟨S_, .f32⟩
  | 67 => ⟨S_, .f32⟩
  | 68 => ⟨S80, .f32⟩
  | 69 => ⟨S80, .f32⟩
  | 70 => ⟨S80, .f32⟩
  | 71 => ⟨S_, .f32⟩
  | 72 => ⟨S_, .i1⟩
  | 73 => ⟨S_, .f32⟩
  | 74 => ⟨S_, .f32⟩
  | 75 => ⟨S80, .f32⟩
  | 76 => ⟨S80, .f32⟩
  | 77 => ⟨S1x80, .f32⟩
  | 78 => ⟨S80, .f32⟩
  | 79 => ⟨S1x80, .f32⟩
  | 80 => ⟨S80, .f32⟩
  | 81 => ⟨S1x80, .f32⟩
  | 82 => ⟨S1x80, .f32⟩
  | 83 => ⟨S1x80, .f32⟩
  | 84 => ⟨S1x80, .f32⟩
  | 85 => ⟨S100000x80, .f32⟩
  | 86 => ⟨S1x80x80, .f32⟩
  | 87 => ⟨S80x80, .f32⟩
  | 88 => ⟨S1x80x80, .f32⟩
  | 89 => ⟨S80x80, .f32⟩
  | 90 => ⟨S80x160, .f32⟩
  | 91 => ⟨S100000x160, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1000000x160, .f32⟩
  | 101 => ⟨S_, .f32⟩
  | 102 => ⟨S20000x160, .f32⟩
  | 103 => ⟨S1000000x1, .i32⟩
  | 104 => ⟨S20000x160, .f32⟩
  | 105 => ⟨S20000x1, .f32⟩
  | 106 => ⟨S20000x160, .f32⟩
  | 107 => ⟨S20000x160, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x160, .f32⟩
  | 117 => ⟨S_, .f32⟩
  | 118 => ⟨S100000x160, .f32⟩
  | 119 => ⟨S1000000x1, .i32⟩
  | 120 => ⟨S100000x160, .f32⟩
  | 121 => ⟨S100000x1, .f32⟩
  | 122 => ⟨S100000x160, .f32⟩
  | 123 => ⟨S100000x160, .f32⟩
  | 124 => ⟨S100000x80, .f32⟩
  | 125 => ⟨S1x80, .f32⟩
  | 126 => ⟨S80, .f32⟩
  | 127 => ⟨S1x80, .f32⟩
  | _ => ⟨S100000x96, .f32⟩

abbrev hbmTy0_2 (i : Nat) : BufTy := match i % 128 with
  | 0 => ⟨S100000x80, .f32⟩
  | 1 => ⟨S100000x80, .f32⟩
  | 2 => ⟨S100000x80, .f32⟩
  | 3 => ⟨S1x80, .f32⟩
  | 4 => ⟨S80, .f32⟩
  | 5 => ⟨S1x80, .f32⟩
  | 6 => ⟨S100000x80, .f32⟩
  | 7 => ⟨S100000x80, .f32⟩
  | 8 => ⟨S_, .f32⟩
  | 9 => ⟨S80, .f32⟩
  | 10 => ⟨S_, .f32⟩
  | 11 => ⟨S80, .f32⟩
  | 12 => ⟨S80, .f32⟩
  | 13 => ⟨S_, .i32⟩
  | 14 => ⟨S_, .f32⟩
  | 15 => ⟨S80, .f32⟩
  | 16 => ⟨S1x80, .f32⟩
  | 17 => ⟨S_, .f32⟩
  | 18 => ⟨S1x80, .f32⟩
  | 19 => ⟨S1x80, .f32⟩
  | 20 => ⟨S100000x80, .f32⟩
  | 21 => ⟨S100000x80, .f32⟩
  | 22 => ⟨S100000x80, .f32⟩
  | 23 => ⟨S_, .f32⟩
  | 24 => ⟨S_, .f32⟩
  | 25 => ⟨S_, .f32⟩
  | 26 => ⟨S_, .f32⟩
  | 27 => ⟨S80, .f32⟩
  | 28 => ⟨S80, .f32⟩
  | 29 => ⟨S80, .f32⟩
  | 30 => ⟨S_, .f32⟩
  | 31 => ⟨S_, .i1⟩
  | 32 => ⟨S_, .f32⟩
  | 33 => ⟨S_, .f32⟩
  | 34 => ⟨S80, .f32⟩
  | 35 => ⟨S80, .f32⟩
  | 36 => ⟨S1x80, .f32⟩
  | 37 => ⟨S80, .f32⟩
  | 38 => ⟨S1x80, .f32⟩
  | 39 => ⟨S80, .f32⟩
  | 40 => ⟨S1x80, .f32⟩
  | 41 => ⟨S1x80, .f32⟩
  | 42 => ⟨S1x80, .f32⟩
  | 43 => ⟨S1x80, .f32⟩
  | 44 => ⟨S100000x80, .f32⟩
  | 45 => ⟨S1x80x80, .f32⟩
  | 46 => ⟨S80x80, .f32⟩
  | 47 => ⟨S1x80x80, .f32⟩
  | 48 => ⟨S80x80, .f32⟩
  | 49 => ⟨S80x160, .f32⟩
  | 50 => ⟨S100000x160, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x160, .f32⟩
  | 60 => ⟨S_, .f32⟩
  | 61 => ⟨S20000x160, .f32⟩
  | 62 => ⟨S1000000x1, .i32⟩
  | 63 => ⟨S20000x160, .f32⟩
  | 64 => ⟨S20000x1, .f32⟩
  | 65 => ⟨S20000x160, .f32⟩
  | 66 => ⟨S20000x160, .f32⟩
  | 67 => ⟨S_, .i32⟩
  | 68 => ⟨S1000000, .i32⟩
  | 69 => ⟨S1000000, .i1⟩
  | 70 => ⟨S_, .i32⟩
  | 71 => ⟨S1000000, .i32⟩
  | 72 => ⟨S1000000, .i32⟩
  | 73 => ⟨S1000000, .i32⟩
  | 74 => ⟨S1000000x1, .i32⟩
  | 75 => ⟨S1000000x160, .f32⟩
  | 76 => ⟨S_, .f32⟩
  | 77 => ⟨S100000x160, .f32⟩
  | 78 => ⟨S1000000x1, .i32⟩
  | 79 => ⟨S100000x160, .f32⟩
  | 80 => ⟨S100000x1, .f32⟩
  | 81 => ⟨S100000x160, .f32⟩
  | 82 => ⟨S100000x160, .f32⟩
  | 83 => ⟨S100000x80, .f32⟩
  | 84 => ⟨S1x80, .f32⟩
  | 85 => ⟨S80, .f32⟩
  | 86 => ⟨S1x80, .f32⟩
  | 87 => ⟨S100000x80, .f32⟩
  | 88 => ⟨S100000x80, .f32⟩
  | 89 => ⟨S100000x80, .f32⟩
  | 90 => ⟨S1x80, .f32⟩
  | 91 => ⟨S80, .f32⟩
  | 92 => ⟨S1x80, .f32⟩
  | 93 => ⟨S100000x80, .f32⟩
  | 94 => ⟨S100000x80, .f32⟩
  | 95 => ⟨S_, .f32⟩
  | 96 => ⟨S80, .f32⟩
  | 97 => ⟨S_, .f32⟩
  | 98 => ⟨S80, .f32⟩
  | 99 => ⟨S80, .f32⟩
  | 100 => ⟨S_, .i32⟩
  | 101 => ⟨S_, .f32⟩
  | 102 => ⟨S80, .f32⟩
  | 103 => ⟨S1x80, .f32⟩
  | 104 => ⟨S_, .f32⟩
  | 105 => ⟨S1x80, .f32⟩
  | 106 => ⟨S1x80, .f32⟩
  | 107 => ⟨S100000x80, .f32⟩
  | 108 => ⟨S100000x80, .f32⟩
  | 109 => ⟨S100000x80, .f32⟩
  | 110 => ⟨S_, .f32⟩
  | 111 => ⟨S_, .f32⟩
  | 112 => ⟨S_, .f32⟩
  | 113 => ⟨S_, .f32⟩
  | 114 => ⟨S80, .f32⟩
  | 115 => ⟨S80, .f32⟩
  | 116 => ⟨S80, .f32⟩
  | 117 => ⟨S_, .f32⟩
  | 118 => ⟨S_, .i1⟩
  | 119 => ⟨S_, .f32⟩
  | 120 => ⟨S_, .f32⟩
  | 121 => ⟨S80, .f32⟩
  | 122 => ⟨S80, .f32⟩
  | 123 => ⟨S1x80, .f32⟩
  | 124 => ⟨S80, .f32⟩
  | 125 => ⟨S1x80, .f32⟩
  | 126 => ⟨S80, .f32⟩
  | 127 => ⟨S1x80, .f32⟩
  | _ => ⟨S100000x96, .f32⟩

abbrev hbmTy0_3 (i : Nat) : BufTy := match i % 128 with
  | 0 => ⟨S1x80, .f32⟩
  | 1 => ⟨S1x80, .f32⟩
  | 2 => ⟨S1x80, .f32⟩
  | 3 => ⟨S100000x80, .f32⟩
  | 4 => ⟨S1x80x80, .f32⟩
  | 5 => ⟨S80x80, .f32⟩
  | 6 => ⟨S1x80x80, .f32⟩
  | 7 => ⟨S80x80, .f32⟩
  | 8 => ⟨S80x160, .f32⟩
  | 9 => ⟨S100000x160, .f32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000x160, .f32⟩
  | 19 => ⟨S_, .f32⟩
  | 20 => ⟨S20000x160, .f32⟩
  | 21 => ⟨S1000000x1, .i32⟩
  | 22 => ⟨S20000x160, .f32⟩
  | 23 => ⟨S20000x1, .f32⟩
  | 24 => ⟨S20000x160, .f32⟩
  | 25 => ⟨S20000x160, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x160, .f32⟩
  | 35 => ⟨S_, .f32⟩
  | 36 => ⟨S100000x160, .f32⟩
  | 37 => ⟨S1000000x1, .i32⟩
  | 38 => ⟨S100000x160, .f32⟩
  | 39 => ⟨S100000x1, .f32⟩
  | 40 => ⟨S100000x160, .f32⟩
  | 41 => ⟨S100000x160, .f32⟩
  | 42 => ⟨S100000x80, .f32⟩
  | 43 => ⟨S1x80, .f32⟩
  | 44 => ⟨S80, .f32⟩
  | 45 => ⟨S1x80, .f32⟩
  | 46 => ⟨S100000x80, .f32⟩
  | 47 => ⟨S100000x80, .f32⟩
  | 48 => ⟨S100000x80, .f32⟩
  | 49 => ⟨S1x80, .f32⟩
  | 50 => ⟨S80, .f32⟩
  | 51 => ⟨S1x80, .f32⟩
  | 52 => ⟨S100000x80, .f32⟩
  | 53 => ⟨S100000x80, .f32⟩
  | 54 => ⟨S_, .f32⟩
  | 55 => ⟨S80, .f32⟩
  | 56 => ⟨S_, .f32⟩
  | 57 => ⟨S80, .f32⟩
  | 58 => ⟨S80, .f32⟩
  | 59 => ⟨S_, .i32⟩
  | 60 => ⟨S_, .f32⟩
  | 61 => ⟨S80, .f32⟩
  | 62 => ⟨S1x80, .f32⟩
  | 63 => ⟨S_, .f32⟩
  | 64 => ⟨S1x80, .f32⟩
  | 65 => ⟨S1x80, .f32⟩
  | 66 => ⟨S100000x80, .f32⟩
  | 67 => ⟨S100000x80, .f32⟩
  | 68 => ⟨S100000x80, .f32⟩
  | 69 => ⟨S_, .f32⟩
  | 70 => ⟨S_, .f32⟩
  | 71 => ⟨S_, .f32⟩
  | 72 => ⟨S_, .f32⟩
  | 73 => ⟨S80, .f32⟩
  | 74 => ⟨S80, .f32⟩
  | 75 => ⟨S80, .f32⟩
  | 76 => ⟨S_, .f32⟩
  | 77 => ⟨S_, .i1⟩
  | 78 => ⟨S_, .f32⟩
  | 79 => ⟨S_, .f32⟩
  | 80 => ⟨S80, .f32⟩
  | 81 => ⟨S80, .f32⟩
  | 82 => ⟨S1x80, .f32⟩
  | 83 => ⟨S80, .f32⟩
  | 84 => ⟨S1x80, .f32⟩
  | 85 => ⟨S80, .f32⟩
  | 86 => ⟨S1x80, .f32⟩
  | 87 => ⟨S1x80, .f32⟩
  | 88 => ⟨S1x80, .f32⟩
  | 89 => ⟨S1x80, .f32⟩
  | 90 => ⟨S100000x80, .f32⟩
  | 91 => ⟨S1x80x80, .f32⟩
  | 92 => ⟨S80x80, .f32⟩
  | 93 => ⟨S1x80x80, .f32⟩
  | 94 => ⟨S80x80, .f32⟩
  | 95 => ⟨S80x160, .f32⟩
  | 96 => ⟨S100000x160, .f32⟩
  | 97 => ⟨S_, .i32⟩
  | 98 => ⟨S1000000, .i32⟩
  | 99 => ⟨S1000000, .i1⟩
  | 100 => ⟨S_, .i32⟩
  | 101 => ⟨S1000000, .i32⟩
  | 102 => ⟨S1000000, .i32⟩
  | 103 => ⟨S1000000, .i32⟩
  | 104 => ⟨S1000000x1, .i32⟩
  | 105 => ⟨S1000000x160, .f32⟩
  | 106 => ⟨S_, .f32⟩
  | 107 => ⟨S20000x160, .f32⟩
  | 108 => ⟨S1000000x1, .i32⟩
  | 109 => ⟨S20000x160, .f32⟩
  | 110 => ⟨S20000x1, .f32⟩
  | 111 => ⟨S20000x160, .f32⟩
  | 112 => ⟨S20000x160, .f32⟩
  | 113 => ⟨S_, .i32⟩
  | 114 => ⟨S1000000, .i32⟩
  | 115 => ⟨S1000000, .i1⟩
  | 116 => ⟨S_, .i32⟩
  | 117 => ⟨S1000000, .i32⟩
  | 118 => ⟨S1000000, .i32⟩
  | 119 => ⟨S1000000, .i32⟩
  | 120 => ⟨S1000000x1, .i32⟩
  | 121 => ⟨S1000000x160, .f32⟩
  | 122 => ⟨S_, .f32⟩
  | 123 => ⟨S100000x160, .f32⟩
  | 124 => ⟨S1000000x1, .i32⟩
  | 125 => ⟨S100000x160, .f32⟩
  | 126 => ⟨S100000x1, .f32⟩
  | 127 => ⟨S100000x160, .f32⟩
  | _ => ⟨S100000x96, .f32⟩

abbrev hbmTy0_4 (i : Nat) : BufTy := match i % 128 with
  | 0 => ⟨S100000x160, .f32⟩
  | 1 => ⟨S100000x80, .f32⟩
  | 2 => ⟨S1x80, .f32⟩
  | 3 => ⟨S80, .f32⟩
  | 4 => ⟨S1x80, .f32⟩
  | 5 => ⟨S100000x80, .f32⟩
  | 6 => ⟨S100000x80, .f32⟩
  | 7 => ⟨S100000x80, .f32⟩
  | 8 => ⟨S1x80, .f32⟩
  | 9 => ⟨S80, .f32⟩
  | 10 => ⟨S1x80, .f32⟩
  | 11 => ⟨S100000x80, .f32⟩
  | 12 => ⟨S100000x80, .f32⟩
  | 13 => ⟨S_, .f32⟩
  | 14 => ⟨S80, .f32⟩
  | 15 => ⟨S_, .f32⟩
  | 16 => ⟨S80, .f32⟩
  | 17 => ⟨S80, .f32⟩
  | 18 => ⟨S_, .i32⟩
  | 19 => ⟨S_, .f32⟩
  | 20 => ⟨S80, .f32⟩
  | 21 => ⟨S1x80, .f32⟩
  | 22 => ⟨S_, .f32⟩
  | 23 => ⟨S1x80, .f32⟩
  | 24 => ⟨S1x80, .f32⟩
  | 25 => ⟨S100000x80, .f32⟩
  | 26 => ⟨S100000x80, .f32⟩
  | 27 => ⟨S100000x80, .f32⟩
  | 28 => ⟨S_, .f32⟩
  | 29 => ⟨S_, .f32⟩
  | 30 => ⟨S_, .f32⟩
  | 31 => ⟨S_, .f32⟩
  | 32 => ⟨S80, .f32⟩
  | 33 => ⟨S80, .f32⟩
  | 34 => ⟨S80, .f32⟩
  | 35 => ⟨S_, .f32⟩
  | 36 => ⟨S_, .i1⟩
  | 37 => ⟨S_, .f32⟩
  | 38 => ⟨S_, .f32⟩
  | 39 => ⟨S80, .f32⟩
  | 40 => ⟨S80, .f32⟩
  | 41 => ⟨S1x80, .f32⟩
  | 42 => ⟨S80, .f32⟩
  | 43 => ⟨S1x80, .f32⟩
  | 44 => ⟨S80, .f32⟩
  | 45 => ⟨S1x80, .f32⟩
  | 46 => ⟨S1x80, .f32⟩
  | 47 => ⟨S1x80, .f32⟩
  | 48 => ⟨S1x80, .f32⟩
  | 49 => ⟨S100000x80, .f32⟩
  | 50 => ⟨S1x80x80, .f32⟩
  | 51 => ⟨S80x80, .f32⟩
  | 52 => ⟨S1x80x80, .f32⟩
  | 53 => ⟨S80x80, .f32⟩
  | 54 => ⟨S80x160, .f32⟩
  | 55 => ⟨S100000x160, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x160, .f32⟩
  | 65 => ⟨S_, .f32⟩
  | 66 => ⟨S20000x160, .f32⟩
  | 67 => ⟨S1000000x1, .i32⟩
  | 68 => ⟨S20000x160, .f32⟩
  | 69 => ⟨S20000x1, .f32⟩
  | 70 => ⟨S20000x160, .f32⟩
  | 71 => ⟨S20000x160, .f32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000x160, .f32⟩
  | 81 => ⟨S_, .f32⟩
  | 82 => ⟨S100000x160, .f32⟩
  | 83 => ⟨S1000000x1, .i32⟩
  | 84 => ⟨S100000x160, .f32⟩
  | 85 => ⟨S100000x1, .f32⟩
  | 86 => ⟨S100000x160, .f32⟩
  | 87 => ⟨S100000x160, .f32⟩
  | 88 => ⟨S100000x80, .f32⟩
  | 89 => ⟨S1x80, .f32⟩
  | 90 => ⟨S80, .f32⟩
  | 91 => ⟨S1x80, .f32⟩
  | 92 => ⟨S100000x80, .f32⟩
  | 93 => ⟨S100000x80, .f32⟩
  | 94 => ⟨S100000x80, .f32⟩
  | 95 => ⟨S1x80, .f32⟩
  | 96 => ⟨S80, .f32⟩
  | 97 => ⟨S1x80, .f32⟩
  | 98 => ⟨S100000x80, .f32⟩
  | 99 => ⟨S100000x80, .f32⟩
  | 100 => ⟨S_, .f32⟩
  | 101 => ⟨S80, .f32⟩
  | 102 => ⟨S_, .f32⟩
  | 103 => ⟨S80, .f32⟩
  | 104 => ⟨S80, .f32⟩
  | 105 => ⟨S_, .i32⟩
  | 106 => ⟨S_, .f32⟩
  | 107 => ⟨S80, .f32⟩
  | 108 => ⟨S1x80, .f32⟩
  | 109 => ⟨S_, .f32⟩
  | 110 => ⟨S1x80, .f32⟩
  | 111 => ⟨S1x80, .f32⟩
  | 112 => ⟨S100000x80, .f32⟩
  | 113 => ⟨S100000x80, .f32⟩
  | 114 => ⟨S100000x80, .f32⟩
  | 115 => ⟨S_, .f32⟩
  | 116 => ⟨S_, .f32⟩
  | 117 => ⟨S_, .f32⟩
  | 118 => ⟨S_, .f32⟩
  | 119 => ⟨S80, .f32⟩
  | 120 => ⟨S80, .f32⟩
  | 121 => ⟨S80, .f32⟩
  | 122 => ⟨S_, .f32⟩
  | 123 => ⟨S_, .i1⟩
  | 124 => ⟨S_, .f32⟩
  | 125 => ⟨S_, .f32⟩
  | 126 => ⟨S80, .f32⟩
  | 127 => ⟨S80, .f32⟩
  | _ => ⟨S100000x96, .f32⟩

abbrev hbmTy0_5 (i : Nat) : BufTy := match i % 128 with
  | 0 => ⟨S1x80, .f32⟩
  | 1 => ⟨S80, .f32⟩
  | 2 => ⟨S1x80, .f32⟩
  | 3 => ⟨S80, .f32⟩
  | 4 => ⟨S1x80, .f32⟩
  | 5 => ⟨S1x80, .f32⟩
  | 6 => ⟨S1x80, .f32⟩
  | 7 => ⟨S1x80, .f32⟩
  | 8 => ⟨S100000x80, .f32⟩
  | 9 => ⟨S100000x176, .f32⟩
  | 10 => ⟨S100000x48, .f32⟩
  | 11 => ⟨S_, .i32⟩
  | 12 => ⟨S1000000, .i32⟩
  | 13 => ⟨S1000000, .i1⟩
  | 14 => ⟨S_, .i32⟩
  | 15 => ⟨S1000000, .i32⟩
  | 16 => ⟨S1000000, .i32⟩
  | 17 => ⟨S1000000, .i32⟩
  | 18 => ⟨S1000000x1, .i32⟩
  | 19 => ⟨S1000000x48, .f32⟩
  | 20 => ⟨S_, .f32⟩
  | 21 => ⟨S20000x48, .f32⟩
  | 22 => ⟨S1000000x1, .i32⟩
  | 23 => ⟨S20000x48, .f32⟩
  | 24 => ⟨S20000x1, .f32⟩
  | 25 => ⟨S20000x48, .f32⟩
  | 26 => ⟨S20000x48, .f32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000x48, .f32⟩
  | 36 => ⟨S_, .f32⟩
  | 37 => ⟨S100000x48, .f32⟩
  | 38 => ⟨S1000000x1, .i32⟩
  | 39 => ⟨S100000x48, .f32⟩
  | 40 => ⟨S100000x1, .f32⟩
  | 41 => ⟨S100000x48, .f32⟩
  | 42 => ⟨S100000x48, .f32⟩
  | 43 => ⟨S1x48, .f32⟩
  | 44 => ⟨S100000x48, .f32⟩
  | 45 => ⟨S100000x48, .f32⟩
  | _ => ⟨S100000x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x96, .f32⟩

abbrev bufTy : (tb : Table) → Fin (tcTables nBuf tb) → BufTy
  | .hbm, ⟨i, _⟩ => hbmTy i
  | .local _ .vmem, ⟨0, _⟩ => ⟨S10000x96, .f32⟩
  | .local _ .vmem, ⟨1, _⟩ => ⟨S10000x96, .f32⟩
  | .local _ .vmem, ⟨2, _⟩ => ⟨S96x160, .f32⟩
  | .local _ .vmem, ⟨3, _⟩ => ⟨S10000x160, .f32⟩
  | .local _ .vmem, ⟨4, _⟩ => ⟨S10000x160, .f32⟩
  | .local _ .vmem, ⟨5, _⟩ => ⟨S10000x80, .f32⟩
  | .local _ .vmem, ⟨6, _⟩ => ⟨S10000x80, .f32⟩
  | .local _ .vmem, ⟨7, _⟩ => ⟨S10000x80, .f32⟩
  | .local _ .vmem, ⟨8, _⟩ => ⟨S10000x80, .f32⟩
  | .local _ .vmem, ⟨9, _⟩ => ⟨S1x80, .f32⟩
  | .local _ .vmem, ⟨10, _⟩ => ⟨S1x80, .f32⟩
  | .local _ .vmem, ⟨11, _⟩ => ⟨S1x80, .f32⟩
  | .local _ .vmem, ⟨12, _⟩ => ⟨S1x80, .f32⟩
  | .local _ .vmem, ⟨13, _⟩ => ⟨S10000x80, .f32⟩
  | .local _ .vmem, ⟨14, _⟩ => ⟨S10000x80, .f32⟩
  | .local _ .vmem, ⟨15, _⟩ => ⟨S10000x80, .f32⟩
  | .local _ .vmem, ⟨16, _⟩ => ⟨S10000x80, .f32⟩
  | .local _ .vmem, ⟨17, _⟩ => ⟨S80x160, .f32⟩
  | .local _ .vmem, ⟨18, _⟩ => ⟨S10000x160, .f32⟩
  | .local _ .vmem, ⟨19, _⟩ => ⟨S10000x160, .f32⟩
  | .local _ .vmem, ⟨20, _⟩ => ⟨S10000x80, .f32⟩
  | .local _ .vmem, ⟨21, _⟩ => ⟨S10000x80, .f32⟩
  | .local _ .vmem, ⟨22, _⟩ => ⟨S10000x80, .f32⟩
  | .local _ .vmem, ⟨23, _⟩ => ⟨S10000x80, .f32⟩
  | .local _ .vmem, ⟨24, _⟩ => ⟨S1x80, .f32⟩
  | .local _ .vmem, ⟨25, _⟩ => ⟨S1x80, .f32⟩
  | .local _ .vmem, ⟨26, _⟩ => ⟨S1x80, .f32⟩
  | .local _ .vmem, ⟨27, _⟩ => ⟨S1x80, .f32⟩
  | .local _ .vmem, ⟨28, _⟩ => ⟨S10000x80, .f32⟩
  | .local _ .vmem, ⟨29, _⟩ => ⟨S10000x80, .f32⟩
  | .local _ .vmem, ⟨30, _⟩ => ⟨S10000x80, .f32⟩
  | .local _ .vmem, ⟨31, _⟩ => ⟨S10000x80, .f32⟩
  | .local _ .vmem, ⟨32, _⟩ => ⟨S80x160, .f32⟩
  | .local _ .vmem, ⟨33, _⟩ => ⟨S10000x160, .f32⟩
  | .local _ .vmem, ⟨34, _⟩ => ⟨S10000x160, .f32⟩
  | .local _ .vmem, ⟨35, _⟩ => ⟨S10000x80, .f32⟩
  | .local _ .vmem, ⟨36, _⟩ => ⟨S10000x80, .f32⟩
  | .local _ .vmem, ⟨37, _⟩ => ⟨S10000x80, .f32⟩
  | .local _ .vmem, ⟨38, _⟩ => ⟨S10000x80, .f32⟩
  | .local _ .vmem, ⟨39, _⟩ => ⟨S1x80, .f32⟩
  | .local _ .vmem, ⟨40, _⟩ => ⟨S1x80, .f32⟩
  | .local _ .vmem, ⟨41, _⟩ => ⟨S1x80, .f32⟩
  | .local _ .vmem, ⟨42, _⟩ => ⟨S1x80, .f32⟩
  | .local _ .vmem, ⟨43, _⟩ => ⟨S10000x80, .f32⟩
  | .local _ .vmem, ⟨44, _⟩ => ⟨S10000x80, .f32⟩
  | .local _ .vmem, ⟨45, _⟩ => ⟨S10000x80, .f32⟩
  | .local _ .vmem, ⟨46, _⟩ => ⟨S10000x80, .f32⟩
  | .local _ .vmem, ⟨47, _⟩ => ⟨S80x160, .f32⟩
  | .local _ .vmem, ⟨48, _⟩ => ⟨S10000x160, .f32⟩
  | .local _ .vmem, ⟨49, _⟩ => ⟨S10000x160, .f32⟩
  | .local _ .vmem, ⟨50, _⟩ => ⟨S10000x80, .f32⟩
  | .local _ .vmem, ⟨51, _⟩ => ⟨S10000x80, .f32⟩
  | .local _ .vmem, ⟨52, _⟩ => ⟨S10000x80, .f32⟩
  | .local _ .vmem, ⟨53, _⟩ => ⟨S10000x80, .f32⟩
  | .local _ .vmem, ⟨54, _⟩ => ⟨S1x80, .f32⟩
  | .local _ .vmem, ⟨55, _⟩ => ⟨S1x80, .f32⟩
  | .local _ .vmem, ⟨56, _⟩ => ⟨S1x80, .f32⟩
  | .local _ .vmem, ⟨57, _⟩ => ⟨S1x80, .f32⟩
  | .local _ .vmem, ⟨58, _⟩ => ⟨S10000x80, .f32⟩
  | .local _ .vmem, ⟨59, _⟩ => ⟨S10000x80, .f32⟩
  | .local _ .vmem, ⟨60, _⟩ => ⟨S10000x80, .f32⟩
  | .local _ .vmem, ⟨61, _⟩ => ⟨S10000x80, .f32⟩
  | .local _ .vmem, ⟨62, _⟩ => ⟨S80x160, .f32⟩
  | .local _ .vmem, ⟨63, _⟩ => ⟨S10000x160, .f32⟩
  | .local _ .vmem, ⟨64, _⟩ => ⟨S10000x160, .f32⟩
  | .local _ .vmem, ⟨65, _⟩ => ⟨S10000x80, .f32⟩
  | .local _ .vmem, ⟨66, _⟩ => ⟨S10000x80, .f32⟩
  | .local _ .vmem, ⟨67, _⟩ => ⟨S10000x80, .f32⟩
  | .local _ .vmem, ⟨68, _⟩ => ⟨S10000x80, .f32⟩
  | .local _ .vmem, ⟨69, _⟩ => ⟨S1x80, .f32⟩
  | .local _ .vmem, ⟨70, _⟩ => ⟨S1x80, .f32⟩
  | .local _ .vmem, ⟨71, _⟩ => ⟨S1x80, .f32⟩
  | .local _ .vmem, ⟨72, _⟩ => ⟨S1x80, .f32⟩
  | .local _ .vmem, ⟨73, _⟩ => ⟨S10000x80, .f32⟩
  | .local _ .vmem, ⟨74, _⟩ => ⟨S10000x80, .f32⟩
  | .local _ .vmem, ⟨75, _⟩ => ⟨S10000x80, .f32⟩
  | .local _ .vmem, ⟨76, _⟩ => ⟨S10000x80, .f32⟩
  | .local _ .vmem, ⟨77, _⟩ => ⟨S80x160, .f32⟩
  | .local _ .vmem, ⟨78, _⟩ => ⟨S10000x160, .f32⟩
  | .local _ .vmem, ⟨79, _⟩ => ⟨S10000x160, .f32⟩
  | .local _ .vmem, ⟨80, _⟩ => ⟨S10000x80, .f32⟩
  | .local _ .vmem, ⟨81, _⟩ => ⟨S10000x80, .f32⟩
  | .local _ .vmem, ⟨82, _⟩ => ⟨S10000x80, .f32⟩
  | .local _ .vmem, ⟨83, _⟩ => ⟨S10000x80, .f32⟩
  | .local _ .vmem, ⟨84, _⟩ => ⟨S1x80, .f32⟩
  | .local _ .vmem, ⟨85, _⟩ => ⟨S1x80, .f32⟩
  | .local _ .vmem, ⟨86, _⟩ => ⟨S1x80, .f32⟩
  | .local _ .vmem, ⟨87, _⟩ => ⟨S1x80, .f32⟩
  | .local _ .vmem, ⟨88, _⟩ => ⟨S10000x80, .f32⟩
  | .local _ .vmem, ⟨89, _⟩ => ⟨S10000x80, .f32⟩
  | .local _ .vmem, ⟨90, _⟩ => ⟨S10000x80, .f32⟩
  | .local _ .vmem, ⟨91, _⟩ => ⟨S10000x80, .f32⟩
  | .local _ .vmem, ⟨92, _⟩ => ⟨S80x160, .f32⟩
  | .local _ .vmem, ⟨93, _⟩ => ⟨S10000x160, .f32⟩
  | .local _ .vmem, ⟨94, _⟩ => ⟨S10000x160, .f32⟩
  | .local _ .vmem, ⟨95, _⟩ => ⟨S10000x80, .f32⟩
  | .local _ .vmem, ⟨96, _⟩ => ⟨S10000x80, .f32⟩
  | .local _ .vmem, ⟨97, _⟩ => ⟨S10000x80, .f32⟩
  | .local _ .vmem, ⟨98, _⟩ => ⟨S10000x80, .f32⟩
  | .local _ .vmem, ⟨99, _⟩ => ⟨S1x80, .f32⟩
  | .local _ .vmem, ⟨100, _⟩ => ⟨S1x80, .f32⟩
  | .local _ .vmem, ⟨101, _⟩ => ⟨S1x80, .f32⟩
  | .local _ .vmem, ⟨102, _⟩ => ⟨S1x80, .f32⟩
  | .local _ .vmem, ⟨103, _⟩ => ⟨S10000x80, .f32⟩
  | .local _ .vmem, ⟨104, _⟩ => ⟨S10000x80, .f32⟩
  | .local _ .vmem, ⟨105, _⟩ => ⟨S10000x176, .f32⟩
  | .local _ .vmem, ⟨106, _⟩ => ⟨S10000x176, .f32⟩
  | .local _ .vmem, ⟨107, _⟩ => ⟨S176x48, .f32⟩
  | .local _ .vmem, ⟨108, _⟩ => ⟨S10000x48, .f32⟩
  | .local _ .vmem, ⟨109, _⟩ => ⟨S10000x48, .f32⟩
  | _, _ => ⟨S100000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | _, _ => false

abbrev semScoped : Fin 0 → Bool
  | ⟨_, h⟩ => absurd h (Nat.not_lt_zero _)

abbrev dmaSemScoped : Fin 110 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | _ => false

abbrev sig : RefSig :=
  ofTc nBuf bufTy 0 110 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c : Ref sig .tc := ⟨.hbm, 50, rfl⟩
abbrev main_v23 : Ref sig .tc := ⟨.hbm, 51, rfl⟩
abbrev main_v24 : Ref sig .tc := ⟨.hbm, 52, rfl⟩
abbrev main_c_8 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_9 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_10 : Ref sig .tc := ⟨.hbm, 66, rfl⟩
abbrev main_v36 : Ref sig .tc := ⟨.hbm, 67, rfl⟩
abbrev main_v37 : Ref sig .tc := ⟨.hbm, 68, rfl⟩
abbrev main_c_11 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_12 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_c_15 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_cst_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_cst_1 : Ref sig .tc := ⟨.hbm, 106, rfl⟩
abbrev main_call2_v8 : Ref sig .tc := ⟨.hbm, 107, rfl⟩
abbrev main_call2_cst_2 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_cst_3 : Ref sig .tc := ⟨.hbm, 112, rfl⟩
abbrev main_call2_v12 : Ref sig .tc := ⟨.hbm, 113, rfl⟩
abbrev main_call2_cst_4 : Ref sig .tc := ⟨.hbm, 114, rfl⟩
abbrev main_call2_call0_v0 : Ref sig .tc := ⟨.hbm, 115, rfl⟩
abbrev main_call2_call0_v1 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_c_16 : Ref sig .tc := ⟨.hbm, 133, rfl⟩
abbrev main_v76 : Ref sig .tc := ⟨.hbm, 134, rfl⟩
abbrev main_v77 : Ref sig .tc := ⟨.hbm, 135, rfl⟩
abbrev main_c_17 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_18 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_c_19 : Ref sig .tc := ⟨.hbm, 149, rfl⟩
abbrev main_v89 : Ref sig .tc := ⟨.hbm, 150, rfl⟩
abbrev main_v90 : Ref sig .tc := ⟨.hbm, 151, rfl⟩
abbrev main_c_20 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_21 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_22 : Ref sig .tc := ⟨.hbm, 177, rfl⟩
abbrev main_v114 : Ref sig .tc := ⟨.hbm, 178, rfl⟩
abbrev main_cst_23 : Ref sig .tc := ⟨.hbm, 179, rfl⟩
abbrev main_v115 : Ref sig .tc := ⟨.hbm, 180, rfl⟩
abbrev main_v116 : Ref sig .tc := ⟨.hbm, 181, rfl⟩
abbrev main_c_24 : Ref sig .tc := ⟨.hbm, 182, rfl⟩
abbrev main_call3_cst : Ref sig .tc := ⟨.hbm, 183, rfl⟩
abbrev main_call3_v0 : Ref sig .tc := ⟨.hbm, 184, rfl⟩
abbrev main_call3_v1 : Ref sig .tc := ⟨.hbm, 185, rfl⟩
abbrev main_call3_cst_0 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_call3_v5 : Ref sig .tc := ⟨.hbm, 190, rfl⟩
abbrev main_call3_v6 : Ref sig .tc := ⟨.hbm, 191, rfl⟩
abbrev main_call3_v7 : Ref sig .tc := ⟨.hbm, 192, rfl⟩
abbrev main_call3_cst_1 : Ref sig .tc := ⟨.hbm, 193, rfl⟩
abbrev main_call3_v8 : Ref sig .tc := ⟨.hbm, 194, rfl⟩
abbrev main_call3_cst_2 : Ref sig .tc := ⟨.hbm, 195, rfl⟩
abbrev main_call3_v9 : Ref sig .tc := ⟨.hbm, 196, rfl⟩
abbrev main_call3_v10 : Ref sig .tc := ⟨.hbm, 197, rfl⟩
abbrev main_call3_v11 : Ref sig .tc := ⟨.hbm, 198, rfl⟩
abbrev main_call3_cst_3 : Ref sig .tc := ⟨.hbm, 199, rfl⟩
abbrev main_call3_v12 : Ref sig .tc := ⟨.hbm, 200, rfl⟩
abbrev main_call3_cst_4 : Ref sig .tc := ⟨.hbm, 201, rfl⟩
abbrev main_call3_call0_v0 : Ref sig .tc := ⟨.hbm, 202, rfl⟩
abbrev main_call3_call0_v1 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_c_25 : Ref sig .tc := ⟨.hbm, 220, rfl⟩
abbrev main_v133 : Ref sig .tc := ⟨.hbm, 221, rfl⟩
abbrev main_v134 : Ref sig .tc := ⟨.hbm, 222, rfl⟩
abbrev main_c_26 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_cst_27 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_c_28 : Ref sig .tc := ⟨.hbm, 236, rfl⟩
abbrev main_v146 : Ref sig .tc := ⟨.hbm, 237, rfl⟩
abbrev main_v147 : Ref sig .tc := ⟨.hbm, 238, rfl⟩
abbrev main_c_29 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_cst_30 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_cst_31 : Ref sig .tc := ⟨.hbm, 264, rfl⟩
abbrev main_v171 : Ref sig .tc := ⟨.hbm, 265, rfl⟩
abbrev main_cst_32 : Ref sig .tc := ⟨.hbm, 266, rfl⟩
abbrev main_v172 : Ref sig .tc := ⟨.hbm, 267, rfl⟩
abbrev main_v173 : Ref sig .tc := ⟨.hbm, 268, rfl⟩
abbrev main_c_33 : Ref sig .tc := ⟨.hbm, 269, rfl⟩
abbrev main_call4_cst : Ref sig .tc := ⟨.hbm, 270, rfl⟩
abbrev main_call4_v0 : Ref sig .tc := ⟨.hbm, 271, rfl⟩
abbrev main_call4_v1 : Ref sig .tc := ⟨.hbm, 272, rfl⟩
abbrev main_call4_cst_0 : Ref sig .tc := ⟨.hbm, 273, rfl⟩
abbrev main_call4_v2 : Ref sig .tc := ⟨.hbm, 274, rfl⟩
abbrev main_call4_v3 : Ref sig .tc := ⟨.hbm, 275, rfl⟩
abbrev main_call4_v4 : Ref sig .tc := ⟨.hbm, 276, rfl⟩
abbrev main_call4_v5 : Ref sig .tc := ⟨.hbm, 277, rfl⟩
abbrev main_call4_v6 : Ref sig .tc := ⟨.hbm, 278, rfl⟩
abbrev main_call4_v7 : Ref sig .tc := ⟨.hbm, 279, rfl⟩
abbrev main_call4_cst_1 : Ref sig .tc := ⟨.hbm, 280, rfl⟩
abbrev main_call4_v8 : Ref sig .tc := ⟨.hbm, 281, rfl⟩
abbrev main_call4_cst_2 : Ref sig .tc := ⟨.hbm, 282, rfl⟩
abbrev main_call4_v9 : Ref sig .tc := ⟨.hbm, 283, rfl⟩
abbrev main_call4_v10 : Ref sig .tc := ⟨.hbm, 284, rfl⟩
abbrev main_call4_v11 : Ref sig .tc := ⟨.hbm, 285, rfl⟩
abbrev main_call4_cst_3 : Ref sig .tc := ⟨.hbm, 286, rfl⟩
abbrev main_call4_v12 : Ref sig .tc := ⟨.hbm, 287, rfl⟩
abbrev main_call4_cst_4 : Ref sig .tc := ⟨.hbm, 288, rfl⟩
abbrev main_call4_call0_v0 : Ref sig .tc := ⟨.hbm, 289, rfl⟩
abbrev main_call4_call0_v1 : Ref sig .tc := ⟨.hbm, 290, rfl⟩
abbrev main_v174 : Ref sig .tc := ⟨.hbm, 291, rfl⟩
abbrev main_v175 : Ref sig .tc := ⟨.hbm, 292, rfl⟩
abbrev main_v176 : Ref sig .tc := ⟨.hbm, 293, rfl⟩
abbrev main_v177 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_v188 : Ref sig .tc := ⟨.hbm, 305, rfl⟩
abbrev main_v189 : Ref sig .tc := ⟨.hbm, 306, rfl⟩
abbrev main_c_34 : Ref sig .tc := ⟨.hbm, 307, rfl⟩
abbrev main_v190 : Ref sig .tc := ⟨.hbm, 308, rfl⟩
abbrev main_v191 : Ref sig .tc := ⟨.hbm, 309, rfl⟩
abbrev main_c_35 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_v196 : Ref sig .tc := ⟨.hbm, 315, rfl⟩
abbrev main_cst_36 : Ref sig .tc := ⟨.hbm, 316, rfl⟩
abbrev main_v197 : Ref sig .tc := ⟨.hbm, 317, rfl⟩
abbrev main_v198 : Ref sig .tc := ⟨.hbm, 318, rfl⟩
abbrev main_v199 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_c_37 : Ref sig .tc := ⟨.hbm, 323, rfl⟩
abbrev main_v203 : Ref sig .tc := ⟨.hbm, 324, rfl⟩
abbrev main_v204 : Ref sig .tc := ⟨.hbm, 325, rfl⟩
abbrev main_c_38 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_cst_39 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_v215 : Ref sig .tc := ⟨.hbm, 338, rfl⟩
abbrev main_v216 : Ref sig .tc := ⟨.hbm, 339, rfl⟩
abbrev main_v217 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_v221 : Ref sig .tc := ⟨.hbm, 344, rfl⟩
abbrev main_v222 : Ref sig .tc := ⟨.hbm, 345, rfl⟩
abbrev main_v223 : Ref sig .tc := ⟨.hbm, 346, rfl⟩
abbrev main_v224 : Ref sig .tc := ⟨.hbm, 347, rfl⟩
abbrev main_v225 : Ref sig .tc := ⟨.hbm, 348, rfl⟩
abbrev main_v226 : Ref sig .tc := ⟨.hbm, 349, rfl⟩
abbrev main_v227 : Ref sig .tc := ⟨.hbm, 350, rfl⟩
abbrev main_cst_40 : Ref sig .tc := ⟨.hbm, 351, rfl⟩
abbrev main_v228 : Ref sig .tc := ⟨.hbm, 352, rfl⟩
abbrev main_cst_41 : Ref sig .tc := ⟨.hbm, 353, rfl⟩
abbrev main_v229 : Ref sig .tc := ⟨.hbm, 354, rfl⟩
abbrev main_v230 : Ref sig .tc := ⟨.hbm, 355, rfl⟩
abbrev main_c_42 : Ref sig .tc := ⟨.hbm, 356, rfl⟩
abbrev main_call5_cst : Ref sig .tc := ⟨.hbm, 357, rfl⟩
abbrev main_call5_v0 : Ref sig .tc := ⟨.hbm, 358, rfl⟩
abbrev main_call5_v1 : Ref sig .tc := ⟨.hbm, 359, rfl⟩
abbrev main_call5_cst_0 : Ref sig .tc := ⟨.hbm, 360, rfl⟩
abbrev main_call5_v2 : Ref sig .tc := ⟨.hbm, 361, rfl⟩
abbrev main_call5_v3 : Ref sig .tc := ⟨.hbm, 362, rfl⟩
abbrev main_call5_v4 : Ref sig .tc := ⟨.hbm, 363, rfl⟩
abbrev main_call5_v5 : Ref sig .tc := ⟨.hbm, 364, rfl⟩
abbrev main_call5_v6 : Ref sig .tc := ⟨.hbm, 365, rfl⟩
abbrev main_call5_v7 : Ref sig .tc := ⟨.hbm, 366, rfl⟩
abbrev main_call5_cst_1 : Ref sig .tc := ⟨.hbm, 367, rfl⟩
abbrev main_call5_v8 : Ref sig .tc := ⟨.hbm, 368, rfl⟩
abbrev main_call5_cst_2 : Ref sig .tc := ⟨.hbm, 369, rfl⟩
abbrev main_call5_v9 : Ref sig .tc := ⟨.hbm, 370, rfl⟩
abbrev main_call5_v10 : Ref sig .tc := ⟨.hbm, 371, rfl⟩
abbrev main_call5_v11 : Ref sig .tc := ⟨.hbm, 372, rfl⟩
abbrev main_call5_cst_3 : Ref sig .tc := ⟨.hbm, 373, rfl⟩
abbrev main_call5_v12 : Ref sig .tc := ⟨.hbm, 374, rfl⟩
abbrev main_call5_cst_4 : Ref sig .tc := ⟨.hbm, 375, rfl⟩
abbrev main_call5_call0_v0 : Ref sig .tc := ⟨.hbm, 376, rfl⟩
abbrev main_call5_call0_v1 : Ref sig .tc := ⟨.hbm, 377, rfl⟩
abbrev main_v231 : Ref sig .tc := ⟨.hbm, 378, rfl⟩
abbrev main_v232 : Ref sig .tc := ⟨.hbm, 379, rfl⟩
abbrev main_v233 : Ref sig .tc := ⟨.hbm, 380, rfl⟩
abbrev main_v234 : Ref sig .tc := ⟨.hbm, 381, rfl⟩
abbrev main_v235 : Ref sig .tc := ⟨.hbm, 382, rfl⟩
abbrev main_v236 : Ref sig .tc := ⟨.hbm, 383, rfl⟩
abbrev main_v237 : Ref sig .tc := ⟨.hbm, 384, rfl⟩
abbrev main_v238 : Ref sig .tc := ⟨.hbm, 385, rfl⟩
abbrev main_v239 : Ref sig .tc := ⟨.hbm, 386, rfl⟩
abbrev main_v240 : Ref sig .tc := ⟨.hbm, 387, rfl⟩
abbrev main_v241 : Ref sig .tc := ⟨.hbm, 388, rfl⟩
abbrev main_v242 : Ref sig .tc := ⟨.hbm, 389, rfl⟩
abbrev main_v243 : Ref sig .tc := ⟨.hbm, 390, rfl⟩
abbrev main_v244 : Ref sig .tc := ⟨.hbm, 391, rfl⟩
abbrev main_v245 : Ref sig .tc := ⟨.hbm, 392, rfl⟩
abbrev main_v246 : Ref sig .tc := ⟨.hbm, 393, rfl⟩
abbrev main_c_43 : Ref sig .tc := ⟨.hbm, 394, rfl⟩
abbrev main_v247 : Ref sig .tc := ⟨.hbm, 395, rfl⟩
abbrev main_v248 : Ref sig .tc := ⟨.hbm, 396, rfl⟩
abbrev main_c_44 : Ref sig .tc := ⟨.hbm, 397, rfl⟩
abbrev main_v249 : Ref sig .tc := ⟨.hbm, 398, rfl⟩
abbrev main_v250 : Ref sig .tc := ⟨.hbm, 399, rfl⟩
abbrev main_v251 : Ref sig .tc := ⟨.hbm, 400, rfl⟩
abbrev main_v252 : Ref sig .tc := ⟨.hbm, 401, rfl⟩
abbrev main_v253 : Ref sig .tc := ⟨.hbm, 402, rfl⟩
abbrev main_cst_45 : Ref sig .tc := ⟨.hbm, 403, rfl⟩
abbrev main_v254 : Ref sig .tc := ⟨.hbm, 404, rfl⟩
abbrev main_v255 : Ref sig .tc := ⟨.hbm, 405, rfl⟩
abbrev main_v256 : Ref sig .tc := ⟨.hbm, 406, rfl⟩
abbrev main_v257 : Ref sig .tc := ⟨.hbm, 407, rfl⟩
abbrev main_v258 : Ref sig .tc := ⟨.hbm, 408, rfl⟩
abbrev main_v259 : Ref sig .tc := ⟨.hbm, 409, rfl⟩
abbrev main_c_46 : Ref sig .tc := ⟨.hbm, 410, rfl⟩
abbrev main_v260 : Ref sig .tc := ⟨.hbm, 411, rfl⟩
abbrev main_v261 : Ref sig .tc := ⟨.hbm, 412, rfl⟩
abbrev main_c_47 : Ref sig .tc := ⟨.hbm, 413, rfl⟩
abbrev main_v262 : Ref sig .tc := ⟨.hbm, 414, rfl⟩
abbrev main_v263 : Ref sig .tc := ⟨.hbm, 415, rfl⟩
abbrev main_v264 : Ref sig .tc := ⟨.hbm, 416, rfl⟩
abbrev main_v265 : Ref sig .tc := ⟨.hbm, 417, rfl⟩
abbrev main_v266 : Ref sig .tc := ⟨.hbm, 418, rfl⟩
abbrev main_cst_48 : Ref sig .tc := ⟨.hbm, 419, rfl⟩
abbrev main_v267 : Ref sig .tc := ⟨.hbm, 420, rfl⟩
abbrev main_v268 : Ref sig .tc := ⟨.hbm, 421, rfl⟩
abbrev main_v269 : Ref sig .tc := ⟨.hbm, 422, rfl⟩
abbrev main_v270 : Ref sig .tc := ⟨.hbm, 423, rfl⟩
abbrev main_v271 : Ref sig .tc := ⟨.hbm, 424, rfl⟩
abbrev main_v272 : Ref sig .tc := ⟨.hbm, 425, rfl⟩
abbrev main_v273 : Ref sig .tc := ⟨.hbm, 426, rfl⟩
abbrev main_v274 : Ref sig .tc := ⟨.hbm, 427, rfl⟩
abbrev main_v275 : Ref sig .tc := ⟨.hbm, 428, rfl⟩
abbrev main_v276 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_v280 : Ref sig .tc := ⟨.hbm, 433, rfl⟩
abbrev main_v281 : Ref sig .tc := ⟨.hbm, 434, rfl⟩
abbrev main_v282 : Ref sig .tc := ⟨.hbm, 435, rfl⟩
abbrev main_v283 : Ref sig .tc := ⟨.hbm, 436, rfl⟩
abbrev main_v284 : Ref sig .tc := ⟨.hbm, 437, rfl⟩
abbrev main_cst_49 : Ref sig .tc := ⟨.hbm, 438, rfl⟩
abbrev main_v285 : Ref sig .tc := ⟨.hbm, 439, rfl⟩
abbrev main_cst_50 : Ref sig .tc := ⟨.hbm, 440, rfl⟩
abbrev main_v286 : Ref sig .tc := ⟨.hbm, 441, rfl⟩
abbrev main_v287 : Ref sig .tc := ⟨.hbm, 442, rfl⟩
abbrev main_c_51 : Ref sig .tc := ⟨.hbm, 443, rfl⟩
abbrev main_call6_cst : Ref sig .tc := ⟨.hbm, 444, rfl⟩
abbrev main_call6_v0 : Ref sig .tc := ⟨.hbm, 445, rfl⟩
abbrev main_call6_v1 : Ref sig .tc := ⟨.hbm, 446, rfl⟩
abbrev main_call6_cst_0 : Ref sig .tc := ⟨.hbm, 447, rfl⟩
abbrev main_call6_v2 : Ref sig .tc := ⟨.hbm, 448, rfl⟩
abbrev main_call6_v3 : Ref sig .tc := ⟨.hbm, 449, rfl⟩
abbrev main_call6_v4 : Ref sig .tc := ⟨.hbm, 450, rfl⟩
abbrev main_call6_v5 : Ref sig .tc := ⟨.hbm, 451, rfl⟩
abbrev main_call6_v6 : Ref sig .tc := ⟨.hbm, 452, rfl⟩
abbrev main_call6_v7 : Ref sig .tc := ⟨.hbm, 453, rfl⟩
abbrev main_call6_cst_1 : Ref sig .tc := ⟨.hbm, 454, rfl⟩
abbrev main_call6_v8 : Ref sig .tc := ⟨.hbm, 455, rfl⟩
abbrev main_call6_cst_2 : Ref sig .tc := ⟨.hbm, 456, rfl⟩
abbrev main_call6_v9 : Ref sig .tc := ⟨.hbm, 457, rfl⟩
abbrev main_call6_v10 : Ref sig .tc := ⟨.hbm, 458, rfl⟩
abbrev main_call6_v11 : Ref sig .tc := ⟨.hbm, 459, rfl⟩
abbrev main_call6_cst_3 : Ref sig .tc := ⟨.hbm, 460, rfl⟩
abbrev main_call6_v12 : Ref sig .tc := ⟨.hbm, 461, rfl⟩
abbrev main_call6_cst_4 : Ref sig .tc := ⟨.hbm, 462, rfl⟩
abbrev main_call6_call0_v0 : Ref sig .tc := ⟨.hbm, 463, rfl⟩
abbrev main_call6_call0_v1 : Ref sig .tc := ⟨.hbm, 464, rfl⟩
abbrev main_v288 : Ref sig .tc := ⟨.hbm, 465, rfl⟩
abbrev main_v289 : Ref sig .tc := ⟨.hbm, 466, rfl⟩
abbrev main_v290 : Ref sig .tc := ⟨.hbm, 467, rfl⟩
abbrev main_v291 : Ref sig .tc := ⟨.hbm, 468, rfl⟩
abbrev main_v292 : Ref sig .tc := ⟨.hbm, 469, rfl⟩
abbrev main_v293 : Ref sig .tc := ⟨.hbm, 470, rfl⟩
abbrev main_v294 : Ref sig .tc := ⟨.hbm, 471, rfl⟩
abbrev main_v295 : Ref sig .tc := ⟨.hbm, 472, rfl⟩
abbrev main_v296 : Ref sig .tc := ⟨.hbm, 473, rfl⟩
abbrev main_v297 : Ref sig .tc := ⟨.hbm, 474, rfl⟩
abbrev main_v298 : Ref sig .tc := ⟨.hbm, 475, rfl⟩
abbrev main_v299 : Ref sig .tc := ⟨.hbm, 476, rfl⟩
abbrev main_v300 : Ref sig .tc := ⟨.hbm, 477, rfl⟩
abbrev main_v301 : Ref sig .tc := ⟨.hbm, 478, rfl⟩
abbrev main_v302 : Ref sig .tc := ⟨.hbm, 479, rfl⟩
abbrev main_v303 : Ref sig .tc := ⟨.hbm, 480, rfl⟩
abbrev main_c_52 : Ref sig .tc := ⟨.hbm, 481, rfl⟩
abbrev main_v304 : Ref sig .tc := ⟨.hbm, 482, rfl⟩
abbrev main_v305 : Ref sig .tc := ⟨.hbm, 483, rfl⟩
abbrev main_c_53 : Ref sig .tc := ⟨.hbm, 484, rfl⟩
abbrev main_v306 : Ref sig .tc := ⟨.hbm, 485, rfl⟩
abbrev main_v307 : Ref sig .tc := ⟨.hbm, 486, rfl⟩
abbrev main_v308 : Ref sig .tc := ⟨.hbm, 487, rfl⟩
abbrev main_v309 : Ref sig .tc := ⟨.hbm, 488, rfl⟩
abbrev main_v310 : Ref sig .tc := ⟨.hbm, 489, rfl⟩
abbrev main_cst_54 : Ref sig .tc := ⟨.hbm, 490, rfl⟩
abbrev main_v311 : Ref sig .tc := ⟨.hbm, 491, rfl⟩
abbrev main_v312 : Ref sig .tc := ⟨.hbm, 492, rfl⟩
abbrev main_v313 : Ref sig .tc := ⟨.hbm, 493, rfl⟩
abbrev main_v314 : Ref sig .tc := ⟨.hbm, 494, rfl⟩
abbrev main_v315 : Ref sig .tc := ⟨.hbm, 495, rfl⟩
abbrev main_v316 : Ref sig .tc := ⟨.hbm, 496, rfl⟩
abbrev main_c_55 : Ref sig .tc := ⟨.hbm, 497, rfl⟩
abbrev main_v317 : Ref sig .tc := ⟨.hbm, 498, rfl⟩
abbrev main_v318 : Ref sig .tc := ⟨.hbm, 499, rfl⟩
abbrev main_c_56 : Ref sig .tc := ⟨.hbm, 500, rfl⟩
abbrev main_v319 : Ref sig .tc := ⟨.hbm, 501, rfl⟩
abbrev main_v320 : Ref sig .tc := ⟨.hbm, 502, rfl⟩
abbrev main_v321 : Ref sig .tc := ⟨.hbm, 503, rfl⟩
abbrev main_v322 : Ref sig .tc := ⟨.hbm, 504, rfl⟩
abbrev main_v323 : Ref sig .tc := ⟨.hbm, 505, rfl⟩
abbrev main_cst_57 : Ref sig .tc := ⟨.hbm, 506, rfl⟩
abbrev main_v324 : Ref sig .tc := ⟨.hbm, 507, rfl⟩
abbrev main_v325 : Ref sig .tc := ⟨.hbm, 508, rfl⟩
abbrev main_v326 : Ref sig .tc := ⟨.hbm, 509, rfl⟩
abbrev main_v327 : Ref sig .tc := ⟨.hbm, 510, rfl⟩
abbrev main_v328 : Ref sig .tc := ⟨.hbm, 511, rfl⟩
abbrev main_v329 : Ref sig .tc := ⟨.hbm, 512, rfl⟩
abbrev main_v330 : Ref sig .tc := ⟨.hbm, 513, rfl⟩
abbrev main_v331 : Ref sig .tc := ⟨.hbm, 514, rfl⟩
abbrev main_v332 : Ref sig .tc := ⟨.hbm, 515, rfl⟩
abbrev main_v333 : Ref sig .tc := ⟨.hbm, 516, rfl⟩
abbrev main_v334 : Ref sig .tc := ⟨.hbm, 517, rfl⟩
abbrev main_v335 : Ref sig .tc := ⟨.hbm, 518, rfl⟩
abbrev main_v336 : Ref sig .tc := ⟨.hbm, 519, rfl⟩
abbrev main_v337 : Ref sig .tc := ⟨.hbm, 520, rfl⟩
abbrev main_v338 : Ref sig .tc := ⟨.hbm, 521, rfl⟩
abbrev main_v339 : Ref sig .tc := ⟨.hbm, 522, rfl⟩
abbrev main_v340 : Ref sig .tc := ⟨.hbm, 523, rfl⟩
abbrev main_v341 : Ref sig .tc := ⟨.hbm, 524, rfl⟩
abbrev main_cst_58 : Ref sig .tc := ⟨.hbm, 525, rfl⟩
abbrev main_v342 : Ref sig .tc := ⟨.hbm, 526, rfl⟩
abbrev main_cst_59 : Ref sig .tc := ⟨.hbm, 527, rfl⟩
abbrev main_v343 : Ref sig .tc := ⟨.hbm, 528, rfl⟩
abbrev main_v344 : Ref sig .tc := ⟨.hbm, 529, rfl⟩
abbrev main_c_60 : Ref sig .tc := ⟨.hbm, 530, rfl⟩
abbrev main_call7_cst : Ref sig .tc := ⟨.hbm, 531, rfl⟩
abbrev main_call7_v0 : Ref sig .tc := ⟨.hbm, 532, rfl⟩
abbrev main_call7_v1 : Ref sig .tc := ⟨.hbm, 533, rfl⟩
abbrev main_call7_cst_0 : Ref sig .tc := ⟨.hbm, 534, rfl⟩
abbrev main_call7_v2 : Ref sig .tc := ⟨.hbm, 535, rfl⟩
abbrev main_call7_v3 : Ref sig .tc := ⟨.hbm, 536, rfl⟩
abbrev main_call7_v4 : Ref sig .tc := ⟨.hbm, 537, rfl⟩
abbrev main_call7_v5 : Ref sig .tc := ⟨.hbm, 538, rfl⟩
abbrev main_call7_v6 : Ref sig .tc := ⟨.hbm, 539, rfl⟩
abbrev main_call7_v7 : Ref sig .tc := ⟨.hbm, 540, rfl⟩
abbrev main_call7_cst_1 : Ref sig .tc := ⟨.hbm, 541, rfl⟩
abbrev main_call7_v8 : Ref sig .tc := ⟨.hbm, 542, rfl⟩
abbrev main_call7_cst_2 : Ref sig .tc := ⟨.hbm, 543, rfl⟩
abbrev main_call7_v9 : Ref sig .tc := ⟨.hbm, 544, rfl⟩
abbrev main_call7_v10 : Ref sig .tc := ⟨.hbm, 545, rfl⟩
abbrev main_call7_v11 : Ref sig .tc := ⟨.hbm, 546, rfl⟩
abbrev main_call7_cst_3 : Ref sig .tc := ⟨.hbm, 547, rfl⟩
abbrev main_call7_v12 : Ref sig .tc := ⟨.hbm, 548, rfl⟩
abbrev main_call7_cst_4 : Ref sig .tc := ⟨.hbm, 549, rfl⟩
abbrev main_call7_call0_v0 : Ref sig .tc := ⟨.hbm, 550, rfl⟩
abbrev main_call7_call0_v1 : Ref sig .tc := ⟨.hbm, 551, rfl⟩
abbrev main_v345 : Ref sig .tc := ⟨.hbm, 552, rfl⟩
abbrev main_v346 : Ref sig .tc := ⟨.hbm, 553, rfl⟩
abbrev main_v347 : Ref sig .tc := ⟨.hbm, 554, rfl⟩
abbrev main_v348 : Ref sig .tc := ⟨.hbm, 555, rfl⟩
abbrev main_v349 : Ref sig .tc := ⟨.hbm, 556, rfl⟩
abbrev main_v350 : Ref sig .tc := ⟨.hbm, 557, rfl⟩
abbrev main_v351 : Ref sig .tc := ⟨.hbm, 558, rfl⟩
abbrev main_v352 : Ref sig .tc := ⟨.hbm, 559, rfl⟩
abbrev main_v353 : Ref sig .tc := ⟨.hbm, 560, rfl⟩
abbrev main_v354 : Ref sig .tc := ⟨.hbm, 561, rfl⟩
abbrev main_v355 : Ref sig .tc := ⟨.hbm, 562, rfl⟩
abbrev main_v356 : Ref sig .tc := ⟨.hbm, 563, rfl⟩
abbrev main_v357 : Ref sig .tc := ⟨.hbm, 564, rfl⟩
abbrev main_v358 : Ref sig .tc := ⟨.hbm, 565, rfl⟩
abbrev main_v359 : Ref sig .tc := ⟨.hbm, 566, rfl⟩
abbrev main_v360 : Ref sig .tc := ⟨.hbm, 567, rfl⟩
abbrev main_c_61 : Ref sig .tc := ⟨.hbm, 568, rfl⟩
abbrev main_v361 : Ref sig .tc := ⟨.hbm, 569, rfl⟩
abbrev main_v362 : Ref sig .tc := ⟨.hbm, 570, rfl⟩
abbrev main_c_62 : Ref sig .tc := ⟨.hbm, 571, rfl⟩
abbrev main_v363 : Ref sig .tc := ⟨.hbm, 572, rfl⟩
abbrev main_v364 : Ref sig .tc := ⟨.hbm, 573, rfl⟩
abbrev main_v365 : Ref sig .tc := ⟨.hbm, 574, rfl⟩
abbrev main_v366 : Ref sig .tc := ⟨.hbm, 575, rfl⟩
abbrev main_v367 : Ref sig .tc := ⟨.hbm, 576, rfl⟩
abbrev main_cst_63 : Ref sig .tc := ⟨.hbm, 577, rfl⟩
abbrev main_v368 : Ref sig .tc := ⟨.hbm, 578, rfl⟩
abbrev main_v369 : Ref sig .tc := ⟨.hbm, 579, rfl⟩
abbrev main_v370 : Ref sig .tc := ⟨.hbm, 580, rfl⟩
abbrev main_v371 : Ref sig .tc := ⟨.hbm, 581, rfl⟩
abbrev main_v372 : Ref sig .tc := ⟨.hbm, 582, rfl⟩
abbrev main_v373 : Ref sig .tc := ⟨.hbm, 583, rfl⟩
abbrev main_c_64 : Ref sig .tc := ⟨.hbm, 584, rfl⟩
abbrev main_v374 : Ref sig .tc := ⟨.hbm, 585, rfl⟩
abbrev main_v375 : Ref sig .tc := ⟨.hbm, 586, rfl⟩
abbrev main_c_65 : Ref sig .tc := ⟨.hbm, 587, rfl⟩
abbrev main_v376 : Ref sig .tc := ⟨.hbm, 588, rfl⟩
abbrev main_v377 : Ref sig .tc := ⟨.hbm, 589, rfl⟩
abbrev main_v378 : Ref sig .tc := ⟨.hbm, 590, rfl⟩
abbrev main_v379 : Ref sig .tc := ⟨.hbm, 591, rfl⟩
abbrev main_v380 : Ref sig .tc := ⟨.hbm, 592, rfl⟩
abbrev main_cst_66 : Ref sig .tc := ⟨.hbm, 593, rfl⟩
abbrev main_v381 : Ref sig .tc := ⟨.hbm, 594, rfl⟩
abbrev main_v382 : Ref sig .tc := ⟨.hbm, 595, rfl⟩
abbrev main_v383 : Ref sig .tc := ⟨.hbm, 596, rfl⟩
abbrev main_v384 : Ref sig .tc := ⟨.hbm, 597, rfl⟩
abbrev main_v385 : Ref sig .tc := ⟨.hbm, 598, rfl⟩
abbrev main_v386 : Ref sig .tc := ⟨.hbm, 599, rfl⟩
abbrev main_v387 : Ref sig .tc := ⟨.hbm, 600, rfl⟩
abbrev main_v388 : Ref sig .tc := ⟨.hbm, 601, rfl⟩
abbrev main_v389 : Ref sig .tc := ⟨.hbm, 602, rfl⟩
abbrev main_v390 : Ref sig .tc := ⟨.hbm, 603, rfl⟩
abbrev main_v391 : Ref sig .tc := ⟨.hbm, 604, rfl⟩
abbrev main_v392 : Ref sig .tc := ⟨.hbm, 605, rfl⟩
abbrev main_v393 : Ref sig .tc := ⟨.hbm, 606, rfl⟩
abbrev main_v394 : Ref sig .tc := ⟨.hbm, 607, rfl⟩
abbrev main_v395 : Ref sig .tc := ⟨.hbm, 608, rfl⟩
abbrev main_v396 : Ref sig .tc := ⟨.hbm, 609, rfl⟩
abbrev main_v397 : Ref sig .tc := ⟨.hbm, 610, rfl⟩
abbrev main_v398 : Ref sig .tc := ⟨.hbm, 611, rfl⟩
abbrev main_cst_67 : Ref sig .tc := ⟨.hbm, 612, rfl⟩
abbrev main_v399 : Ref sig .tc := ⟨.hbm, 613, rfl⟩
abbrev main_cst_68 : Ref sig .tc := ⟨.hbm, 614, rfl⟩
abbrev main_v400 : Ref sig .tc := ⟨.hbm, 615, rfl⟩
abbrev main_v401 : Ref sig .tc := ⟨.hbm, 616, rfl⟩
abbrev main_c_69 : Ref sig .tc := ⟨.hbm, 617, rfl⟩
abbrev main_call8_cst : Ref sig .tc := ⟨.hbm, 618, rfl⟩
abbrev main_call8_v0 : Ref sig .tc := ⟨.hbm, 619, rfl⟩
abbrev main_call8_v1 : Ref sig .tc := ⟨.hbm, 620, rfl⟩
abbrev main_call8_cst_0 : Ref sig .tc := ⟨.hbm, 621, rfl⟩
abbrev main_call8_v2 : Ref sig .tc := ⟨.hbm, 622, rfl⟩
abbrev main_call8_v3 : Ref sig .tc := ⟨.hbm, 623, rfl⟩
abbrev main_call8_v4 : Ref sig .tc := ⟨.hbm, 624, rfl⟩
abbrev main_call8_v5 : Ref sig .tc := ⟨.hbm, 625, rfl⟩
abbrev main_call8_v6 : Ref sig .tc := ⟨.hbm, 626, rfl⟩
abbrev main_call8_v7 : Ref sig .tc := ⟨.hbm, 627, rfl⟩
abbrev main_call8_cst_1 : Ref sig .tc := ⟨.hbm, 628, rfl⟩
abbrev main_call8_v8 : Ref sig .tc := ⟨.hbm, 629, rfl⟩
abbrev main_call8_cst_2 : Ref sig .tc := ⟨.hbm, 630, rfl⟩
abbrev main_call8_v9 : Ref sig .tc := ⟨.hbm, 631, rfl⟩
abbrev main_call8_v10 : Ref sig .tc := ⟨.hbm, 632, rfl⟩
abbrev main_call8_v11 : Ref sig .tc := ⟨.hbm, 633, rfl⟩
abbrev main_call8_cst_3 : Ref sig .tc := ⟨.hbm, 634, rfl⟩
abbrev main_call8_v12 : Ref sig .tc := ⟨.hbm, 635, rfl⟩
abbrev main_call8_cst_4 : Ref sig .tc := ⟨.hbm, 636, rfl⟩
abbrev main_call8_call0_v0 : Ref sig .tc := ⟨.hbm, 637, rfl⟩
abbrev main_call8_call0_v1 : Ref sig .tc := ⟨.hbm, 638, rfl⟩
abbrev main_v402 : Ref sig .tc := ⟨.hbm, 639, rfl⟩
abbrev main_v403 : Ref sig .tc := ⟨.hbm, 640, rfl⟩
abbrev main_v404 : Ref sig .tc := ⟨.hbm, 641, rfl⟩
abbrev main_v405 : Ref sig .tc := ⟨.hbm, 642, rfl⟩
abbrev main_v406 : Ref sig .tc := ⟨.hbm, 643, rfl⟩
abbrev main_v407 : Ref sig .tc := ⟨.hbm, 644, rfl⟩
abbrev main_v408 : Ref sig .tc := ⟨.hbm, 645, rfl⟩
abbrev main_v409 : Ref sig .tc := ⟨.hbm, 646, rfl⟩
abbrev main_v410 : Ref sig .tc := ⟨.hbm, 647, rfl⟩
abbrev main_v411 : Ref sig .tc := ⟨.hbm, 648, rfl⟩
abbrev main_v412 : Ref sig .tc := ⟨.hbm, 649, rfl⟩
abbrev main_v413 : Ref sig .tc := ⟨.hbm, 650, rfl⟩
abbrev main_c_70 : Ref sig .tc := ⟨.hbm, 651, rfl⟩
abbrev main_v414 : Ref sig .tc := ⟨.hbm, 652, rfl⟩
abbrev main_v415 : Ref sig .tc := ⟨.hbm, 653, rfl⟩
abbrev main_c_71 : Ref sig .tc := ⟨.hbm, 654, rfl⟩
abbrev main_v416 : Ref sig .tc := ⟨.hbm, 655, rfl⟩
abbrev main_v417 : Ref sig .tc := ⟨.hbm, 656, rfl⟩
abbrev main_v418 : Ref sig .tc := ⟨.hbm, 657, rfl⟩
abbrev main_v419 : Ref sig .tc := ⟨.hbm, 658, rfl⟩
abbrev main_v420 : Ref sig .tc := ⟨.hbm, 659, rfl⟩
abbrev main_cst_72 : Ref sig .tc := ⟨.hbm, 660, rfl⟩
abbrev main_v421 : Ref sig .tc := ⟨.hbm, 661, rfl⟩
abbrev main_v422 : Ref sig .tc := ⟨.hbm, 662, rfl⟩
abbrev main_v423 : Ref sig .tc := ⟨.hbm, 663, rfl⟩
abbrev main_v424 : Ref sig .tc := ⟨.hbm, 664, rfl⟩
abbrev main_v425 : Ref sig .tc := ⟨.hbm, 665, rfl⟩
abbrev main_v426 : Ref sig .tc := ⟨.hbm, 666, rfl⟩
abbrev main_c_73 : Ref sig .tc := ⟨.hbm, 667, rfl⟩
abbrev main_v427 : Ref sig .tc := ⟨.hbm, 668, rfl⟩
abbrev main_v428 : Ref sig .tc := ⟨.hbm, 669, rfl⟩
abbrev main_c_74 : Ref sig .tc := ⟨.hbm, 670, rfl⟩
abbrev main_v429 : Ref sig .tc := ⟨.hbm, 671, rfl⟩
abbrev main_v430 : Ref sig .tc := ⟨.hbm, 672, rfl⟩
abbrev main_v431 : Ref sig .tc := ⟨.hbm, 673, rfl⟩
abbrev main_v432 : Ref sig .tc := ⟨.hbm, 674, rfl⟩
abbrev main_v433 : Ref sig .tc := ⟨.hbm, 675, rfl⟩
abbrev main_cst_75 : Ref sig .tc := ⟨.hbm, 676, rfl⟩
abbrev main_v434 : Ref sig .tc := ⟨.hbm, 677, rfl⟩
abbrev main_v435 : Ref sig .tc := ⟨.hbm, 678, rfl⟩
abbrev main_v436 : Ref sig .tc := ⟨.hbm, 679, rfl⟩
abbrev main_v437 : Ref sig .tc := ⟨.hbm, 680, rfl⟩
abbrev main_v438 : Ref sig .tc := ⟨.hbm, 681, rfl⟩
abbrev main_v439 : Ref sig .tc := ⟨.hbm, 682, rfl⟩
abbrev main_v440 : Ref sig .tc := ⟨.hbm, 683, rfl⟩
abbrev main_v441 : Ref sig .tc := ⟨.hbm, 684, rfl⟩
abbrev main_v442 : Ref sig .tc := ⟨.hbm, 685, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg1_1 : Ref sig .tc := ⟨.vmem, 68, rfl⟩
abbrev cc9_stg2_0 : Ref sig .tc := ⟨.vmem, 69, rfl⟩
abbrev cc9_stg3_0 : Ref sig .tc := ⟨.vmem, 70, rfl⟩
abbrev cc9_stg4_0 : Ref sig .tc := ⟨.vmem, 71, rfl⟩
abbrev cc9_stg5_0 : Ref sig .tc := ⟨.vmem, 72, rfl⟩
abbrev cc9_stg6_0 : Ref sig .tc := ⟨.vmem, 73, rfl⟩
abbrev cc9_stg6_1 : Ref sig .tc := ⟨.vmem, 74, rfl⟩
abbrev cc10_stg0_0 : Ref sig .tc := ⟨.vmem, 75, rfl⟩
abbrev cc10_stg0_1 : Ref sig .tc := ⟨.vmem, 76, rfl⟩
abbrev cc10_stg1_0 : Ref sig .tc := ⟨.vmem, 77, rfl⟩
abbrev cc10_stg2_0 : Ref sig .tc := ⟨.vmem, 78, rfl⟩
abbrev cc10_stg2_1 : Ref sig .tc := ⟨.vmem, 79, rfl⟩
abbrev cc11_stg0_0 : Ref sig .tc := ⟨.vmem, 80, rfl⟩
abbrev cc11_stg0_1 : Ref sig .tc := ⟨.vmem, 81, rfl⟩
abbrev cc11_stg1_0 : Ref sig .tc := ⟨.vmem, 82, rfl⟩
abbrev cc11_stg1_1 : Ref sig .tc := ⟨.vmem, 83, rfl⟩
abbrev cc11_stg2_0 : Ref sig .tc := ⟨.vmem, 84, rfl⟩
abbrev cc11_stg3_0 : Ref sig .tc := ⟨.vmem, 85, rfl⟩
abbrev cc11_stg4_0 : Ref sig .tc := ⟨.vmem, 86, rfl⟩
abbrev cc11_stg5_0 : Ref sig .tc := ⟨.vmem, 87, rfl⟩
abbrev cc11_stg6_0 : Ref sig .tc := ⟨.vmem, 88, rfl⟩
abbrev cc11_stg6_1 : Ref sig .tc := ⟨.vmem, 89, rfl⟩
abbrev cc12_stg0_0 : Ref sig .tc := ⟨.vmem, 90, rfl⟩
abbrev cc12_stg0_1 : Ref sig .tc := ⟨.vmem, 91, rfl⟩
abbrev cc12_stg1_0 : Ref sig .tc := ⟨.vmem, 92, rfl⟩
abbrev cc12_stg2_0 : Ref sig .tc := ⟨.vmem, 93, rfl⟩
abbrev cc12_stg2_1 : Ref sig .tc := ⟨.vmem, 94, rfl⟩
abbrev cc13_stg0_0 : Ref sig .tc := ⟨.vmem, 95, rfl⟩
abbrev cc13_stg0_1 : Ref sig .tc := ⟨.vmem, 96, rfl⟩
abbrev cc13_stg1_0 : Ref sig .tc := ⟨.vmem, 97, rfl⟩
abbrev cc13_stg1_1 : Ref sig .tc := ⟨.vmem, 98, rfl⟩
abbrev cc13_stg2_0 : Ref sig .tc := ⟨.vmem, 99, rfl⟩
abbrev cc13_stg3_0 : Ref sig .tc := ⟨.vmem, 100, rfl⟩
abbrev cc13_stg4_0 : Ref sig .tc := ⟨.vmem, 101, rfl⟩
abbrev cc13_stg5_0 : Ref sig .tc := ⟨.vmem, 102, rfl⟩
abbrev cc13_stg6_0 : Ref sig .tc := ⟨.vmem, 103, rfl⟩
abbrev cc13_stg6_1 : Ref sig .tc := ⟨.vmem, 104, rfl⟩
abbrev cc14_stg0_0 : Ref sig .tc := ⟨.vmem, 105, rfl⟩
abbrev cc14_stg0_1 : Ref sig .tc := ⟨.vmem, 106, rfl⟩
abbrev cc14_stg1_0 : Ref sig .tc := ⟨.vmem, 107, rfl⟩
abbrev cc14_stg2_0 : Ref sig .tc := ⟨.vmem, 108, rfl⟩
abbrev cc14_stg2_1 : Ref sig .tc := ⟨.vmem, 109, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc7_sem0_0 : DmaSem sig := 50
abbrev cc7_sem0_1 : DmaSem sig := 51
abbrev cc7_sem1_0 : DmaSem sig := 52
abbrev cc7_sem1_1 : DmaSem sig := 53
abbrev cc7_sem2_0 : DmaSem sig := 54
abbrev cc7_sem3_0 : DmaSem sig := 55
abbrev cc7_sem4_0 : DmaSem sig := 56
abbrev cc7_sem5_0 : DmaSem sig := 57
abbrev cc7_sem6_0 : DmaSem sig := 58
abbrev cc7_sem6_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem2_1 : DmaSem sig := 64
abbrev cc9_sem0_0 : DmaSem sig := 65
abbrev cc9_sem0_1 : DmaSem sig := 66
abbrev cc9_sem1_0 : DmaSem sig := 67
abbrev cc9_sem1_1 : DmaSem sig := 68
abbrev cc9_sem2_0 : DmaSem sig := 69
abbrev cc9_sem3_0 : DmaSem sig := 70
abbrev cc9_sem4_0 : DmaSem sig := 71
abbrev cc9_sem5_0 : DmaSem sig := 72
abbrev cc9_sem6_0 : DmaSem sig := 73
abbrev cc9_sem6_1 : DmaSem sig := 74
abbrev cc10_sem0_0 : DmaSem sig := 75
abbrev cc10_sem0_1 : DmaSem sig := 76
abbrev cc10_sem1_0 : DmaSem sig := 77
abbrev cc10_sem2_0 : DmaSem sig := 78
abbrev cc10_sem2_1 : DmaSem sig := 79
abbrev cc11_sem0_0 : DmaSem sig := 80
abbrev cc11_sem0_1 : DmaSem sig := 81
abbrev cc11_sem1_0 : DmaSem sig := 82
abbrev cc11_sem1_1 : DmaSem sig := 83
abbrev cc11_sem2_0 : DmaSem sig := 84
abbrev cc11_sem3_0 : DmaSem sig := 85
abbrev cc11_sem4_0 : DmaSem sig := 86
abbrev cc11_sem5_0 : DmaSem sig := 87
abbrev cc11_sem6_0 : DmaSem sig := 88
abbrev cc11_sem6_1 : DmaSem sig := 89
abbrev cc12_sem0_0 : DmaSem sig := 90
abbrev cc12_sem0_1 : DmaSem sig := 91
abbrev cc12_sem1_0 : DmaSem sig := 92
abbrev cc12_sem2_0 : DmaSem sig := 93
abbrev cc12_sem2_1 : DmaSem sig := 94
abbrev cc13_sem0_0 : DmaSem sig := 95
abbrev cc13_sem0_1 : DmaSem sig := 96
abbrev cc13_sem1_0 : DmaSem sig := 97
abbrev cc13_sem1_1 : DmaSem sig := 98
abbrev cc13_sem2_0 : DmaSem sig := 99
abbrev cc13_sem3_0 : DmaSem sig := 100
abbrev cc13_sem4_0 : DmaSem sig := 101
abbrev cc13_sem5_0 : DmaSem sig := 102
abbrev cc13_sem6_0 : DmaSem sig := 103
abbrev cc13_sem6_1 : DmaSem sig := 104
abbrev cc14_sem0_0 : DmaSem sig := 105
abbrev cc14_sem0_1 : DmaSem sig := 106
abbrev cc14_sem1_0 : DmaSem sig := 107
abbrev cc14_sem2_0 : DmaSem sig := 108
abbrev cc14_sem2_1 : DmaSem sig := 109

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x80 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x80 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x80 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x80 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x80 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S80x160 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x160 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x80 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x80 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x80 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x80 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x80 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x80 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x80 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x80 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S80x160 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x160 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x80 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x80 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x80 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x80 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x80 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x80 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x80 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x80 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S80x160 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x160 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x80 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x80 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x80 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x80 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x80 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x80 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S10000x80 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x80 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S80x160 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x160 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x80 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x80 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x80 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x80 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x80 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x80 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S10000x80 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x80 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S80x160 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S10000x160 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x80 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x80 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x80 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x80 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x80 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x80 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S10000x80 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x80 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S80x160 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S10000x160 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x80 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S10000x80 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x80 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x80 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x80 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x80 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S10000x80 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x176 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S176x48 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S10000x48 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S20000 : S_.BroadcastsInDim S20000 (![] : Fin 0 → Fin S20000.rank)
  concatenates_S96x80_S96x80_S96x160_d1 : Shape.Concatenates [S96x80, S96x80] S96x160 1
  inb_S10000x96_S10000x96_0_0 : ∀ a, (![0, 0] : Fin 2 → Nat) a + S10000x96.size a ≤ S10000x96.size a
  h_S10000x96 : 0 < S10000x96.numel
  bitsLt_bf16_f32 : FTy.bits .bf16 < FTy.bits .f32
  inb_S96x160_S96x160_0_0 : ∀ a, (![0, 0] : Fin 2 → Nat) a + S96x160.size a ≤ S96x160.size a
  h_S96x160 : 0 < S96x160.numel
  shapeCasts_S96x160_S96x160 : S96x160.ShapeCasts S96x160
  inb_S10000x160_S10000x160_0_0 : ∀ a, (![0, 0] : Fin 2 → Nat) a + S10000x160.size a ≤ S10000x160.size a
  h_S10000x160 : 0 < S10000x160.numel
  bcast_S_S20000x160 : S_.BroadcastsInDim S20000x160 (![] : Fin 0 → Fin S20000x160.rank)
  bcast_S20000_S20000x1_0 : S20000.BroadcastsInDim S20000x1 (![0] : Fin 1 → Fin S20000x1.rank)
  bcast_S20000x1_S20000x160_0_1 : S20000x1.BroadcastsInDim S20000x160 (![0, 1] : Fin 2 → Fin S20000x160.rank)
  bcast_S_S100000x160 : S_.BroadcastsInDim S100000x160 (![] : Fin 0 → Fin S100000x160.rank)
  bcast_S100000_S100000x1_0 : S100000.BroadcastsInDim S100000x1 (![0] : Fin 1 → Fin S100000x1.rank)
  bcast_S100000x1_S100000x160_0_1 : S100000x1.BroadcastsInDim S100000x160 (![0, 1] : Fin 2 → Fin S100000x160.rank)
  slices_S100000x160_S100000x80_0_0 : S100000x160.Slices ![0, 0] S100000x80
  bcast_S80_S1x80_1 : S80.BroadcastsInDim S1x80 (![1] : Fin 1 → Fin S1x80.rank)
  bcast_S1x80_S100000x80_0_1 : S1x80.BroadcastsInDim S100000x80 (![0, 1] : Fin 2 → Fin S100000x80.rank)
  slices_S100000x160_S100000x80_0_80 : S100000x160.Slices ![0, 80] S100000x80
  reducesTo_S100000x80_S80_d0 : S100000x80.ReducesTo [0] S80
  h_S_ : 0 < S_.numel
  bcast_S_S80 : S_.BroadcastsInDim S80 (![] : Fin 0 → Fin S80.rank)
  bcast_S_S1x80 : S_.BroadcastsInDim S1x80 (![] : Fin 0 → Fin S1x80.rank)
  slices_S7x80_S1x80_0_0 : S7x80.Slices ![0, 0] S1x80
  shapeCasts_S1x80_S80 : S1x80.ShapeCasts S80
  shapeCasts_S80_S1x80 : S80.ShapeCasts S1x80
  inb_S10000x80_S10000x80_0_0 : ∀ a, (![0, 0] : Fin 2 → Nat) a + S10000x80.size a ≤ S10000x80.size a
  h_S10000x80 : 0 < S10000x80.numel
  shapeCasts_S10000x80_S10000x80 : S10000x80.ShapeCasts S10000x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S10000x80 : S1x80.Broadcasts S10000x80
  slices_S6x80x80_S1x80x80_0_0_0 : S6x80x80.Slices ![0, 0, 0] S1x80x80
  shapeCasts_S1x80x80_S80x80 : S1x80x80.ShapeCasts S80x80
  concatenates_S80x80_S80x80_S80x160_d1 : Shape.Concatenates [S80x80, S80x80] S80x160 1
  inb_S80x160_S80x160_0_0 : ∀ a, (![0, 0] : Fin 2 → Nat) a + S80x160.size a ≤ S80x160.size a
  h_S80x160 : 0 < S80x160.numel
  shapeCasts_S80x160_S80x160 : S80x160.ShapeCasts S80x160
  slices_S6x80_S1x80_0_0 : S6x80.Slices ![0, 0] S1x80
  slices_S7x80_S1x80_1_0 : S7x80.Slices ![1, 0] S1x80
  slices_S6x80x80_S1x80x80_1_0_0 : S6x80x80.Slices ![1, 0, 0] S1x80x80
  slices_S6x80_S1x80_1_0 : S6x80.Slices ![1, 0] S1x80
  slices_S7x80_S1x80_2_0 : S7x80.Slices ![2, 0] S1x80
  slices_S6x80x80_S1x80x80_2_0_0 : S6x80x80.Slices ![2, 0, 0] S1x80x80
  slices_S6x80_S1x80_2_0 : S6x80.Slices ![2, 0] S1x80
  slices_S7x80_S1x80_3_0 : S7x80.Slices ![3, 0] S1x80
  slices_S6x80x80_S1x80x80_3_0_0 : S6x80x80.Slices ![3, 0, 0] S1x80x80
  slices_S6x80_S1x80_3_0 : S6x80.Slices ![3, 0] S1x80
  slices_S7x80_S1x80_4_0 : S7x80.Slices ![4, 0] S1x80
  slices_S6x80x80_S1x80x80_4_0_0 : S6x80x80.Slices ![4, 0, 0] S1x80x80
  slices_S6x80_S1x80_4_0 : S6x80.Slices ![4, 0] S1x80
  slices_S7x80_S1x80_5_0 : S7x80.Slices ![5, 0] S1x80
  slices_S6x80x80_S1x80x80_5_0_0 : S6x80x80.Slices ![5, 0, 0] S1x80x80
  slices_S6x80_S1x80_5_0 : S6x80.Slices ![5, 0] S1x80
  slices_S7x80_S1x80_6_0 : S7x80.Slices ![6, 0] S1x80
  concatenates_S100000x80_S100000x96_S100000x176_d1 : Shape.Concatenates [S100000x80, S100000x96] S100000x176 1
  inb_S10000x176_S10000x176_0_0 : ∀ a, (![0, 0] : Fin 2 → Nat) a + S10000x176.size a ≤ S10000x176.size a
  h_S10000x176 : 0 < S10000x176.numel
  shapeCasts_S10000x176_S10000x176 : S10000x176.ShapeCasts S10000x176
  inb_S176x48_S176x48_0_0 : ∀ a, (![0, 0] : Fin 2 → Nat) a + S176x48.size a ≤ S176x48.size a
  h_S176x48 : 0 < S176x48.numel
  inb_S10000x48_S10000x48_0_0 : ∀ a, (![0, 0] : Fin 2 → Nat) a + S10000x48.size a ≤ S10000x48.size a
  h_S10000x48 : 0 < S10000x48.numel
  bcast_S_S20000x48 : S_.BroadcastsInDim S20000x48 (![] : Fin 0 → Fin S20000x48.rank)
  bcast_S20000x1_S20000x48_0_1 : S20000x1.BroadcastsInDim S20000x48 (![0, 1] : Fin 2 → Fin S20000x48.rank)
  bcast_S_S100000x48 : S_.BroadcastsInDim S100000x48 (![] : Fin 0 → Fin S100000x48.rank)
  bcast_S100000x1_S100000x48_0_1 : S100000x1.BroadcastsInDim S100000x48 (![0, 1] : Fin 2 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  scatter_S100000_S1000000x1_S1000000_n_0_0_1_wf : ScatterDims.WF S100000 S1000000x1 S1000000 [] [0] [0] 1
  scatter_S20000_S1000000x1_S1000000_n_0_0_1_wf : ScatterDims.WF S20000 S1000000x1 S1000000 [] [0] [0] 1
  dot_S10000x96_S96x160_S10000x160_1_0_0_1_n_n_wf : DotDims.WF S10000x96 S96x160 S10000x160 [1] [0] [0] [1] [] []
  gather_S100000x160_S1000000x1_S1000000x160_1_0_n_n_0_1_1160_wf : GatherDims.WF S100000x160 S1000000x1 S1000000x160 [1] [0] [] [0] [] 1 ![1, 160]
  scatter_S20000x160_S1000000x1_S1000000x160_1_0_0_1_wf : ScatterDims.WF S20000x160 S1000000x1 S1000000x160 [1] [0] [0] 1
  gather_S20000x160_S1000000x1_S1000000x160_1_0_n_n_0_1_1160_wf : GatherDims.WF S20000x160 S1000000x1 S1000000x160 [1] [0] [] [0] [] 1 ![1, 160]
  scatter_S100000x160_S1000000x1_S1000000x160_1_0_0_1_wf : ScatterDims.WF S100000x160 S1000000x1 S1000000x160 [1] [0] [0] 1
  dot_S10000x80_S80x160_S10000x160_1_0_0_1_n_n_wf : DotDims.WF S10000x80 S80x160 S10000x160 [1] [0] [0] [1] [] []
  dot_S10000x176_S176x48_S10000x48_1_0_0_1_n_n_wf : DotDims.WF S10000x176 S176x48 S10000x48 [1] [0] [0] [1] [] []
  gather_S100000x48_S1000000x1_S1000000x48_1_0_n_n_0_1_148_wf : GatherDims.WF S100000x48 S1000000x1 S1000000x48 [1] [0] [] [0] [] 1 ![1, 48]
  scatter_S20000x48_S1000000x1_S1000000x48_1_0_0_1_wf : ScatterDims.WF S20000x48 S1000000x1 S1000000x48 [1] [0] [0] 1
  gather_S20000x48_S1000000x1_S1000000x48_1_0_n_n_0_1_148_wf : GatherDims.WF S20000x48 S1000000x1 S1000000x48 [1] [0] [] [0] [] 1 ![1, 48]
  scatter_S100000x48_S1000000x1_S1000000x48_1_0_0_1_wf : ScatterDims.WF S100000x48 S1000000x1 S1000000x48 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x96.size a ≤ S100000x96.size a
  hwx0_0 : ∀ i : grid0.Coords, EltTy.bits .f32 = 32 ∨ (Rect.block (s := S100000x96) S10000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x160.size a ≤ S96x160.size a
  hwx0_1 : ∀ i : grid0.Coords, EltTy.bits .f32 = 32 ∨ (Rect.block (s := S96x160) S96x160.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x160.size a ≤ S100000x160.size a
  hwx0_2 : ∀ i : grid0.Coords, EltTy.bits .f32 = 32 ∨ (Rect.block (s := S100000x160) S10000x160.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x80.size a ≤ S100000x80.size a
  hwx1_0 : ∀ i : grid1.Coords, EltTy.bits .f32 = 32 ∨ (Rect.block (s := S100000x80) S10000x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x80.size a ≤ S100000x80.size a
  hwx1_1 : ∀ i : grid1.Coords, EltTy.bits .f32 = 32 ∨ (Rect.block (s := S100000x80) S10000x80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x80.size a ≤ S1x80.size a
  hwx1_2 : ∀ i : grid1.Coords, EltTy.bits .f32 = 32 ∨ (Rect.block (s := S1x80) S1x80.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x80.size a ≤ S1x80.size a
  hwx1_3 : ∀ i : grid1.Coords, EltTy.bits .f32 = 32 ∨ (Rect.block (s := S1x80) S1x80.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x80.size a ≤ S1x80.size a
  hwx1_4 : ∀ i : grid1.Coords, EltTy.bits .f32 = 32 ∨ (Rect.block (s := S1x80) S1x80.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x80.size a ≤ S1x80.size a
  hwx1_5 : ∀ i : grid1.Coords, EltTy.bits .f32 = 32 ∨ (Rect.block (s := S1x80) S1x80.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x80.size a ≤ S100000x80.size a
  hwx1_6 : ∀ i : grid1.Coords, EltTy.bits .f32 = 32 ∨ (Rect.block (s := S100000x80) S10000x80.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x80.size a ≤ S100000x80.size a
  hwx2_0 : ∀ i : grid2.Coords, EltTy.bits .f32 = 32 ∨ (Rect.block (s := S100000x80) S10000x80.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S80x160.size a ≤ S80x160.size a
  hwx2_1 : ∀ i : grid2.Coords, EltTy.bits .f32 = 32 ∨ (Rect.block (s := S80x160) S80x160.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x160.size a ≤ S100000x160.size a
  hwx2_2 : ∀ i : grid2.Coords, EltTy.bits .f32 = 32 ∨ (Rect.block (s := S100000x160) S10000x160.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x80.size a ≤ S100000x80.size a
  hwx3_0 : ∀ i : grid3.Coords, EltTy.bits .f32 = 32 ∨ (Rect.block (s := S100000x80) S10000x80.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x80.size a ≤ S100000x80.size a
  hwx3_1 : ∀ i : grid3.Coords, EltTy.bits .f32 = 32 ∨ (Rect.block (s := S100000x80) S10000x80.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x80.size a ≤ S1x80.size a
  hwx3_2 : ∀ i : grid3.Coords, EltTy.bits .f32 = 32 ∨ (Rect.block (s := S1x80) S1x80.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x80.size a ≤ S1x80.size a
  hwx3_3 : ∀ i : grid3.Coords, EltTy.bits .f32 = 32 ∨ (Rect.block (s := S1x80) S1x80.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x80.size a ≤ S1x80.size a
  hwx3_4 : ∀ i : grid3.Coords, EltTy.bits .f32 = 32 ∨ (Rect.block (s := S1x80) S1x80.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x80.size a ≤ S1x80.size a
  hwx3_5 : ∀ i : grid3.Coords, EltTy.bits .f32 = 32 ∨ (Rect.block (s := S1x80) S1x80.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x80.size a ≤ S100000x80.size a
  hwx3_6 : ∀ i : grid3.Coords, EltTy.bits .f32 = 32 ∨ (Rect.block (s := S100000x80) S10000x80.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x80.size a ≤ S100000x80.size a
  hwx4_0 : ∀ i : grid4.Coords, EltTy.bits .f32 = 32 ∨ (Rect.block (s := S100000x80) S10000x80.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S80x160.size a ≤ S80x160.size a
  hwx4_1 : ∀ i : grid4.Coords, EltTy.bits .f32 = 32 ∨ (Rect.block (s := S80x160) S80x160.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x160.size a ≤ S100000x160.size a
  hwx4_2 : ∀ i : grid4.Coords, EltTy.bits .f32 = 32 ∨ (Rect.block (s := S100000x160) S10000x160.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x80.size a ≤ S100000x80.size a
  hwx5_0 : ∀ i : grid5.Coords, EltTy.bits .f32 = 32 ∨ (Rect.block (s := S100000x80) S10000x80.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x80.size a ≤ S100000x80.size a
  hwx5_1 : ∀ i : grid5.Coords, EltTy.bits .f32 = 32 ∨ (Rect.block (s := S100000x80) S10000x80.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x80.size a ≤ S1x80.size a
  hwx5_2 : ∀ i : grid5.Coords, EltTy.bits .f32 = 32 ∨ (Rect.block (s := S1x80) S1x80.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x80.size a ≤ S1x80.size a
  hwx5_3 : ∀ i : grid5.Coords, EltTy.bits .f32 = 32 ∨ (Rect.block (s := S1x80) S1x80.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x80.size a ≤ S1x80.size a
  hwx5_4 : ∀ i : grid5.Coords, EltTy.bits .f32 = 32 ∨ (Rect.block (s := S1x80) S1x80.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x80.size a ≤ S1x80.size a
  hwx5_5 : ∀ i : grid5.Coords, EltTy.bits .f32 = 32 ∨ (Rect.block (s := S1x80) S1x80.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x80.size a ≤ S100000x80.size a
  hwx5_6 : ∀ i : grid5.Coords, EltTy.bits .f32 = 32 ∨ (Rect.block (s := S100000x80) S10000x80.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x80.size a ≤ S100000x80.size a
  hwx6_0 : ∀ i : grid6.Coords, EltTy.bits .f32 = 32 ∨ (Rect.block (s := S100000x80) S10000x80.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S80x160.size a ≤ S80x160.size a
  hwx6_1 : ∀ i : grid6.Coords, EltTy.bits .f32 = 32 ∨ (Rect.block (s := S80x160) S80x160.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x160.size a ≤ S100000x160.size a
  hwx6_2 : ∀ i : grid6.Coords, EltTy.bits .f32 = 32 ∨ (Rect.block (s := S100000x160) S10000x160.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x80.size a ≤ S100000x80.size a
  hwx7_0 : ∀ i : grid7.Coords, EltTy.bits .f32 = 32 ∨ (Rect.block (s := S100000x80) S10000x80.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x80.size a ≤ S100000x80.size a
  hwx7_1 : ∀ i : grid7.Coords, EltTy.bits .f32 = 32 ∨ (Rect.block (s := S100000x80) S10000x80.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x80.size a ≤ S1x80.size a
  hwx7_2 : ∀ i : grid7.Coords, EltTy.bits .f32 = 32 ∨ (Rect.block (s := S1x80) S1x80.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x80.size a ≤ S1x80.size a
  hwx7_3 : ∀ i : grid7.Coords, EltTy.bits .f32 = 32 ∨ (Rect.block (s := S1x80) S1x80.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x80.size a ≤ S1x80.size a
  hwx7_4 : ∀ i : grid7.Coords, EltTy.bits .f32 = 32 ∨ (Rect.block (s := S1x80) S1x80.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x80.size a ≤ S1x80.size a
  hwx7_5 : ∀ i : grid7.Coords, EltTy.bits .f32 = 32 ∨ (Rect.block (s := S1x80) S1x80.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S10000x80.size a ≤ S100000x80.size a
  hwx7_6 : ∀ i : grid7.Coords, EltTy.bits .f32 = 32 ∨ (Rect.block (s := S100000x80) S10000x80.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x80.size a ≤ S100000x80.size a
  hwx8_0 : ∀ i : grid8.Coords, EltTy.bits .f32 = 32 ∨ (Rect.block (s := S100000x80) S10000x80.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S80x160.size a ≤ S80x160.size a
  hwx8_1 : ∀ i : grid8.Coords, EltTy.bits .f32 = 32 ∨ (Rect.block (s := S80x160) S80x160.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x160.size a ≤ S100000x160.size a
  hwx8_2 : ∀ i : grid8.Coords, EltTy.bits .f32 = 32 ∨ (Rect.block (s := S100000x160) S10000x160.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x80.size a ≤ S100000x80.size a
  hwx9_0 : ∀ i : grid9.Coords, EltTy.bits .f32 = 32 ∨ (Rect.block (s := S100000x80) S10000x80.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x80.size a ≤ S100000x80.size a
  hwx9_1 : ∀ i : grid9.Coords, EltTy.bits .f32 = 32 ∨ (Rect.block (s := S100000x80) S10000x80.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x80.size a ≤ S1x80.size a
  hwx9_2 : ∀ i : grid9.Coords, EltTy.bits .f32 = 32 ∨ (Rect.block (s := S1x80) S1x80.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x80.size a ≤ S1x80.size a
  hwx9_3 : ∀ i : grid9.Coords, EltTy.bits .f32 = 32 ∨ (Rect.block (s := S1x80) S1x80.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x80.size a ≤ S1x80.size a
  hwx9_4 : ∀ i : grid9.Coords, EltTy.bits .f32 = 32 ∨ (Rect.block (s := S1x80) S1x80.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x80.size a ≤ S1x80.size a
  hwx9_5 : ∀ i : grid9.Coords, EltTy.bits .f32 = 32 ∨ (Rect.block (s := S1x80) S1x80.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S10000x80.size a ≤ S100000x80.size a
  hwx9_6 : ∀ i : grid9.Coords, EltTy.bits .f32 = 32 ∨ (Rect.block (s := S100000x80) S10000x80.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x80.size a ≤ S100000x80.size a
  hwx10_0 : ∀ i : grid10.Coords, EltTy.bits .f32 = 32 ∨ (Rect.block (s := S100000x80) S10000x80.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S80x160.size a ≤ S80x160.size a
  hwx10_1 : ∀ i : grid10.Coords, EltTy.bits .f32 = 32 ∨ (Rect.block (s := S80x160) S80x160.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x160.size a ≤ S100000x160.size a
  hwx10_2 : ∀ i : grid10.Coords, EltTy.bits .f32 = 32 ∨ (Rect.block (s := S100000x160) S10000x160.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x80.size a ≤ S100000x80.size a
  hwx11_0 : ∀ i : grid11.Coords, EltTy.bits .f32 = 32 ∨ (Rect.block (s := S100000x80) S10000x80.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x80.size a ≤ S100000x80.size a
  hwx11_1 : ∀ i : grid11.Coords, EltTy.bits .f32 = 32 ∨ (Rect.block (s := S100000x80) S10000x80.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x80.size a ≤ S1x80.size a
  hwx11_2 : ∀ i : grid11.Coords, EltTy.bits .f32 = 32 ∨ (Rect.block (s := S1x80) S1x80.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x80.size a ≤ S1x80.size a
  hwx11_3 : ∀ i : grid11.Coords, EltTy.bits .f32 = 32 ∨ (Rect.block (s := S1x80) S1x80.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x80.size a ≤ S1x80.size a
  hwx11_4 : ∀ i : grid11.Coords, EltTy.bits .f32 = 32 ∨ (Rect.block (s := S1x80) S1x80.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x80.size a ≤ S1x80.size a
  hwx11_5 : ∀ i : grid11.Coords, EltTy.bits .f32 = 32 ∨ (Rect.block (s := S1x80) S1x80.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S10000x80.size a ≤ S100000x80.size a
  hwx11_6 : ∀ i : grid11.Coords, EltTy.bits .f32 = 32 ∨ (Rect.block (s := S100000x80) S10000x80.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x80.size a ≤ S100000x80.size a
  hwx12_0 : ∀ i : grid12.Coords, EltTy.bits .f32 = 32 ∨ (Rect.block (s := S100000x80) S10000x80.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S80x160.size a ≤ S80x160.size a
  hwx12_1 : ∀ i : grid12.Coords, EltTy.bits .f32 = 32 ∨ (Rect.block (s := S80x160) S80x160.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x160.size a ≤ S100000x160.size a
  hwx12_2 : ∀ i : grid12.Coords, EltTy.bits .f32 = 32 ∨ (Rect.block (s := S100000x160) S10000x160.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x80.size a ≤ S100000x80.size a
  hwx13_0 : ∀ i : grid13.Coords, EltTy.bits .f32 = 32 ∨ (Rect.block (s := S100000x80) S10000x80.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S10000x80.size a ≤ S100000x80.size a
  hwx13_1 : ∀ i : grid13.Coords, EltTy.bits .f32 = 32 ∨ (Rect.block (s := S100000x80) S10000x80.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x80.size a ≤ S1x80.size a
  hwx13_2 : ∀ i : grid13.Coords, EltTy.bits .f32 = 32 ∨ (Rect.block (s := S1x80) S1x80.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x80.size a ≤ S1x80.size a
  hwx13_3 : ∀ i : grid13.Coords, EltTy.bits .f32 = 32 ∨ (Rect.block (s := S1x80) S1x80.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x80.size a ≤ S1x80.size a
  hwx13_4 : ∀ i : grid13.Coords, EltTy.bits .f32 = 32 ∨ (Rect.block (s := S1x80) S1x80.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x80.size a ≤ S1x80.size a
  hwx13_5 : ∀ i : grid13.Coords, EltTy.bits .f32 = 32 ∨ (Rect.block (s := S1x80) S1x80.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S10000x80.size a ≤ S100000x80.size a
  hwx13_6 : ∀ i : grid13.Coords, EltTy.bits .f32 = 32 ∨ (Rect.block (s := S100000x80) S10000x80.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x176.size a ≤ S100000x176.size a
  hwx14_0 : ∀ i : grid14.Coords, EltTy.bits .f32 = 32 ∨ (Rect.block (s := S100000x176) S10000x176.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S176x48.size a ≤ S176x48.size a
  hwx14_1 : ∀ i : grid14.Coords, EltTy.bits .f32 = 32 ∨ (Rect.block (s := S176x48) S176x48.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S10000x48.size a ≤ S100000x48.size a
  hwx14_2 : ∀ i : grid14.Coords, EltTy.bits .f32 = 32 ∨ (Rect.block (s := S100000x48) S10000x48.size (cc14_transform_2 i) (hinb14_2 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S10000x96_S96x160_S10000x160_1_0_0_1_n_n : DotDims S10000x96 S96x160 S10000x160 where
  lhsContracting := [1]
  rhsContracting := [0]
  lhsNonContracting := [0]
  rhsNonContracting := [1]
  lhsBatch := []
  rhsBatch := []
  wf := dot_S10000x96_S96x160_S10000x160_1_0_0_1_n_n_wf
def gather_S100000x160_S1000000x1_S1000000x160_1_0_n_n_0_1_1160 : GatherDims S100000x160 S1000000x1 S1000000x160 where
  offsetDims := [1]
  collapsedSliceDims := [0]
  operandBatchingDims := []
  startIndicesBatchingDims := []
  startIndexMap := [0]
  indexVectorDim := 1
  sliceSizes := ![1, 160]
  wf := gather_S100000x160_S1000000x1_S1000000x160_1_0_n_n_0_1_1160_wf
def scatter_S20000x160_S1000000x1_S1000000x160_1_0_0_1 : ScatterDims S20000x160 S1000000x1 S1000000x160 where
  updateWindowDims := [1]
  insertedWindowDims := [0]
  scatterDimsToOperandDims := [0]
  indexVectorDim := 1
  wf := scatter_S20000x160_S1000000x1_S1000000x160_1_0_0_1_wf
def gather_S20000x160_S1000000x1_S1000000x160_1_0_n_n_0_1_1160 : GatherDims S20000x160 S1000000x1 S1000000x160 where
  offsetDims := [1]
  collapsedSliceDims := [0]
  operandBatchingDims := []
  startIndicesBatchingDims := []
  startIndexMap := [0]
  indexVectorDim := 1
  sliceSizes := ![1, 160]
  wf := gather_S20000x160_S1000000x1_S1000000x160_1_0_n_n_0_1_1160_wf
def scatter_S100000x160_S1000000x1_S1000000x160_1_0_0_1 : ScatterDims S100000x160 S1000000x1 S1000000x160 where
  updateWindowDims := [1]
  insertedWindowDims := [0]
  scatterDimsToOperandDims := [0]
  indexVectorDim := 1
  wf := scatter_S100000x160_S1000000x1_S1000000x160_1_0_0_1_wf
def dot_S10000x80_S80x160_S10000x160_1_0_0_1_n_n : DotDims S10000x80 S80x160 S10000x160 where
  lhsContracting := [1]
  rhsContracting := [0]
  lhsNonContracting := [0]
  rhsNonContracting := [1]
  lhsBatch := []
  rhsBatch := []
  wf := dot_S10000x80_S80x160_S10000x160_1_0_0_1_n_n_wf
def dot_S10000x176_S176x48_S10000x48_1_0_0_1_n_n : DotDims S10000x176 S176x48 S10000x48 where
  lhsContracting := [1]
  rhsContracting := [0]
  lhsNonContracting := [0]
  rhsNonContracting := [1]
  lhsBatch := []
  rhsBatch := []
  wf := dot_S10000x176_S176x48_S10000x48_1_0_0_1_n_n_wf
def gather_S100000x48_S1000000x1_S1000000x48_1_0_n_n_0_1_148 : GatherDims S100000x48 S1000000x1 S1000000x48 where
  offsetDims := [1]
  collapsedSliceDims := [0]
  operandBatchingDims := []
  startIndicesBatchingDims := []
  startIndexMap := [0]
  indexVectorDim := 1
  sliceSizes := ![1, 48]
  wf := gather_S100000x48_S1000000x1_S1000000x48_1_0_n_n_0_1_148_wf
def scatter_S20000x48_S1000000x1_S1000000x48_1_0_0_1 : ScatterDims S20000x48 S1000000x1 S1000000x48 where
  updateWindowDims := [1]
  insertedWindowDims := [0]
  scatterDimsToOperandDims := [0]
  indexVectorDim := 1
  wf := scatter_S20000x48_S1000000x1_S1000000x48_1_0_0_1_wf
def gather_S20000x48_S1000000x1_S1000000x48_1_0_n_n_0_1_148 : GatherDims S20000x48 S1000000x1 S1000000x48 where
  offsetDims := [1]
  collapsedSliceDims := [0]
  operandBatchingDims := []
  startIndicesBatchingDims := []
  startIndexMap := [0]
  indexVectorDim := 1
  sliceSizes := ![1, 48]
  wf := gather_S20000x48_S1000000x1_S1000000x48_1_0_n_n_0_1_148_wf
def scatter_S100000x48_S1000000x1_S1000000x48_1_0_0_1 : ScatterDims S100000x48 S1000000x1 S1000000x48 where
  updateWindowDims := [1]
  insertedWindowDims := [0]
  scatterDimsToOperandDims := [0]
  indexVectorDim := 1
  wf := scatter_S100000x48_S1000000x1_S1000000x48_1_0_0_1_wf

abbrev win0_0 : Pipeline.Window sig grid0 :=
  Pipeline.Window.ofSpec (Memref.whole main_arg0) S10000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S96x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S10000x160.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S10000x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S1x80.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S1x80.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x80.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S1x80.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v69) S10000x80.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v69) S10000x80.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S80x160.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S10000x160.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v107) S10000x80.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v113) S10000x80.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v122) S1x80.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v123) S1x80.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v124) S1x80.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v125) S1x80.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v126) S10000x80.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v126) S10000x80.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v131) S80x160.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v132) S10000x160.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v164) S10000x80.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v170) S10000x80.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v179) S1x80.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v180) S1x80.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v181) S1x80.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v182) S1x80.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v183) S10000x80.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v183) S10000x80.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v188) S80x160.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v189) S10000x160.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v221) S10000x80.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v227) S10000x80.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v236) S1x80.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v237) S1x80.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v238) S1x80.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v239) S1x80.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v240) S10000x80.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v240) S10000x80.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v245) S80x160.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v246) S10000x160.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v278) S10000x80.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v284) S10000x80.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v293) S1x80.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v294) S1x80.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v295) S1x80.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v296) S1x80.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v297) S10000x80.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev win10_0 : Pipeline.Window sig grid10 :=
  Pipeline.Window.ofSpec (Memref.whole main_v297) S10000x80.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v302) S80x160.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v303) S10000x160.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v335) S10000x80.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v341) S10000x80.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v350) S1x80.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v351) S1x80.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v352) S1x80.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v353) S1x80.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v354) S10000x80.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v354) S10000x80.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v359) S80x160.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v360) S10000x160.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v392) S10000x80.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v398) S10000x80.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v407) S1x80.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v408) S1x80.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v409) S1x80.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v410) S1x80.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v411) S10000x80.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v412) S10000x176.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg12) S176x48.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v413) S10000x48.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

class Facts : Prop extends Facts₀ where

variable [Facts]
-- ==== ReferenceIdeal.lean ====
abbrev S100000x96 : Shape := ⟨2, ![100000, 96]⟩
abbrev S2x1000000 : Shape := ⟨2, ![2, 1000000]⟩
abbrev S96x80 : Shape := ⟨2, ![96, 80]⟩
abbrev S80 : Shape := ⟨1, ![80]⟩
abbrev S6x80x80 : Shape := ⟨3, ![6, 80, 80]⟩
abbrev S6x80 : Shape := ⟨2, ![6, 80]⟩
abbrev S7x80 : Shape := ⟨2, ![7, 80]⟩
abbrev S176x48 : Shape := ⟨2, ![176, 48]⟩
abbrev S48 : Shape := ⟨1, ![48]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S20000 : Shape := ⟨1, ![20000]⟩
abbrev S100000x80 : Shape := ⟨2, ![100000, 80]⟩
abbrev S1000000x80 : Shape := ⟨2, ![1000000, 80]⟩
abbrev S20000x80 : Shape := ⟨2, ![20000, 80]⟩
abbrev S20000x1 : Shape := ⟨2, ![20000, 1]⟩
abbrev S100000x1 : Shape := ⟨2, ![100000, 1]⟩
abbrev S1x80 : Shape := ⟨2, ![1, 80]⟩
abbrev S1x80x80 : Shape := ⟨3, ![1, 80, 80]⟩
abbrev S80x80 : Shape := ⟨2, ![80, 80]⟩
abbrev S100000x176 : Shape := ⟨2, ![100000, 176]⟩
abbrev S100000x48 : Shape := ⟨2, ![100000, 48]⟩
abbrev S1000000x48 : Shape := ⟨2, ![1000000, 48]⟩
abbrev S20000x48 : Shape := ⟨2, ![20000, 48]⟩
abbrev S1x48 : Shape := ⟨2, ![1, 48]⟩

abbrev nBuf : Space → Nat
  | .hbm => 1001
  | .vmem => 0
  | .smem => 0
  | _ => 0

abbrev hbmTy0_0 (i : Nat) : BufTy := match i % 128 with
  | 0 => ⟨S100000x96, .f32⟩
  | 1 => ⟨S2x1000000, .i32⟩
  | 2 => ⟨S96x80, .f32⟩
  | 3 => ⟨S80, .f32⟩
  | 4 => ⟨S96x80, .f32⟩
  | 5 => ⟨S80, .f32⟩
  | 6 => ⟨S6x80x80, .f32⟩
  | 7 => ⟨S6x80, .f32⟩
  | 8 => ⟨S6x80x80, .f32⟩
  | 9 => ⟨S6x80, .f32⟩
  | 10 => ⟨S7x80, .f32⟩
  | 11 => ⟨S7x80, .f32⟩
  | 12 => ⟨S176x48, .f32⟩
  | 13 => ⟨S48, .f32⟩
  | 14 => ⟨S1x1000000, .i32⟩
  | 15 => ⟨S1000000, .i32⟩
  | 16 => ⟨S1x1000000, .i32⟩
  | 17 => ⟨S1000000, .i32⟩
  | 18 => ⟨S_, .f32⟩
  | 19 => ⟨S1000000, .f32⟩
  | 20 => ⟨S_, .f32⟩
  | 21 => ⟨S100000, .f32⟩
  | 22 => ⟨S1000000x1, .i32⟩
  | 23 => ⟨S100000, .f32⟩
  | 24 => ⟨S_, .f32⟩
  | 25 => ⟨S20000, .f32⟩
  | 26 => ⟨S1000000x1, .i32⟩
  | 27 => ⟨S20000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .f32⟩
  | 39 => ⟨S20000, .f32⟩
  | 40 => ⟨S20000, .i1⟩
  | 41 => ⟨S_, .f32⟩
  | 42 => ⟨S20000, .f32⟩
  | 43 => ⟨S20000, .f32⟩
  | 44 => ⟨S_, .f32⟩
  | 45 => ⟨S_, .f32⟩
  | 46 => ⟨S20000, .f32⟩
  | 47 => ⟨S20000, .f32⟩
  | 48 => ⟨S100000x80, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x80, .f32⟩
  | 58 => ⟨S_, .f32⟩
  | 59 => ⟨S20000x80, .f32⟩
  | 60 => ⟨S1000000x1, .i32⟩
  | 61 => ⟨S20000x80, .f32⟩
  | 62 => ⟨S20000x1, .f32⟩
  | 63 => ⟨S20000x80, .f32⟩
  | 64 => ⟨S20000x80, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x80, .f32⟩
  | 74 => ⟨S_, .f32⟩
  | 75 => ⟨S100000x80, .f32⟩
  | 76 => ⟨S1000000x1, .i32⟩
  | 77 => ⟨S100000x80, .f32⟩
  | 78 => ⟨S100000x1, .f32⟩
  | 79 => ⟨S100000x80, .f32⟩
  | 80 => ⟨S100000x80, .f32⟩
  | 81 => ⟨S1x80, .f32⟩
  | 82 => ⟨S100000x80, .f32⟩
  | 83 => ⟨S100000x80, .f32⟩
  | 84 => ⟨S1x80, .f32⟩
  | 85 => ⟨S80, .f32⟩
  | 86 => ⟨S1x80, .f32⟩
  | 87 => ⟨S80, .f32⟩
  | 88 => ⟨S_, .f32⟩
  | 89 => ⟨S80, .f32⟩
  | 90 => ⟨S_, .f32⟩
  | 91 => ⟨S80, .f32⟩
  | 92 => ⟨S80, .f32⟩
  | 93 => ⟨S_, .i32⟩
  | 94 => ⟨S_, .f32⟩
  | 95 => ⟨S80, .f32⟩
  | 96 => ⟨S1x80, .f32⟩
  | 97 => ⟨S_, .f32⟩
  | 98 => ⟨S1x80, .f32⟩
  | 99 => ⟨S1x80, .f32⟩
  | 100 => ⟨S100000x80, .f32⟩
  | 101 => ⟨S100000x80, .f32⟩
  | 102 => ⟨S100000x80, .f32⟩
  | 103 => ⟨S_, .f32⟩
  | 104 => ⟨S_, .f32⟩
  | 105 => ⟨S_, .f32⟩
  | 106 => ⟨S_, .f32⟩
  | 107 => ⟨S80, .f32⟩
  | 108 => ⟨S80, .f32⟩
  | 109 => ⟨S80, .f32⟩
  | 110 => ⟨S_, .f32⟩
  | 111 => ⟨S_, .i1⟩
  | 112 => ⟨S_, .f32⟩
  | 113 => ⟨S_, .f32⟩
  | 114 => ⟨S80, .f32⟩
  | 115 => ⟨S80, .f32⟩
  | 116 => ⟨S1x80, .f32⟩
  | 117 => ⟨S100000x80, .f32⟩
  | 118 => ⟨S100000x80, .f32⟩
  | 119 => ⟨S1x80, .f32⟩
  | 120 => ⟨S100000x80, .f32⟩
  | 121 => ⟨S100000x80, .f32⟩
  | 122 => ⟨S_, .f32⟩
  | 123 => ⟨S80, .f32⟩
  | 124 => ⟨S80, .f32⟩
  | 125 => ⟨S80, .f32⟩
  | 126 => ⟨S1x80, .f32⟩
  | 127 => ⟨S100000x80, .f32⟩
  | _ => ⟨S100000x96, .f32⟩

abbrev hbmTy0_1 (i : Nat) : BufTy := match i % 128 with
  | 0 => ⟨S100000x80, .f32⟩
  | 1 => ⟨S1x80, .f32⟩
  | 2 => ⟨S100000x80, .f32⟩
  | 3 => ⟨S100000x80, .f32⟩
  | 4 => ⟨S_, .f32⟩
  | 5 => ⟨S100000x80, .f32⟩
  | 6 => ⟨S100000x80, .f32⟩
  | 7 => ⟨S100000x80, .f32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x80, .f32⟩
  | 17 => ⟨S_, .f32⟩
  | 18 => ⟨S20000x80, .f32⟩
  | 19 => ⟨S1000000x1, .i32⟩
  | 20 => ⟨S20000x80, .f32⟩
  | 21 => ⟨S20000x1, .f32⟩
  | 22 => ⟨S20000x80, .f32⟩
  | 23 => ⟨S20000x80, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x80, .f32⟩
  | 33 => ⟨S_, .f32⟩
  | 34 => ⟨S100000x80, .f32⟩
  | 35 => ⟨S1000000x1, .i32⟩
  | 36 => ⟨S100000x80, .f32⟩
  | 37 => ⟨S100000x1, .f32⟩
  | 38 => ⟨S100000x80, .f32⟩
  | 39 => ⟨S100000x80, .f32⟩
  | 40 => ⟨S1x80, .f32⟩
  | 41 => ⟨S100000x80, .f32⟩
  | 42 => ⟨S100000x80, .f32⟩
  | 43 => ⟨S100000x80, .f32⟩
  | 44 => ⟨S1x80x80, .f32⟩
  | 45 => ⟨S80x80, .f32⟩
  | 46 => ⟨S1x80, .f32⟩
  | 47 => ⟨S80, .f32⟩
  | 48 => ⟨S100000x80, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x80, .f32⟩
  | 58 => ⟨S_, .f32⟩
  | 59 => ⟨S20000x80, .f32⟩
  | 60 => ⟨S1000000x1, .i32⟩
  | 61 => ⟨S20000x80, .f32⟩
  | 62 => ⟨S20000x1, .f32⟩
  | 63 => ⟨S20000x80, .f32⟩
  | 64 => ⟨S20000x80, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x80, .f32⟩
  | 74 => ⟨S_, .f32⟩
  | 75 => ⟨S100000x80, .f32⟩
  | 76 => ⟨S1000000x1, .i32⟩
  | 77 => ⟨S100000x80, .f32⟩
  | 78 => ⟨S100000x1, .f32⟩
  | 79 => ⟨S100000x80, .f32⟩
  | 80 => ⟨S100000x80, .f32⟩
  | 81 => ⟨S1x80, .f32⟩
  | 82 => ⟨S100000x80, .f32⟩
  | 83 => ⟨S100000x80, .f32⟩
  | 84 => ⟨S1x80, .f32⟩
  | 85 => ⟨S80, .f32⟩
  | 86 => ⟨S1x80, .f32⟩
  | 87 => ⟨S80, .f32⟩
  | 88 => ⟨S_, .f32⟩
  | 89 => ⟨S80, .f32⟩
  | 90 => ⟨S_, .f32⟩
  | 91 => ⟨S80, .f32⟩
  | 92 => ⟨S80, .f32⟩
  | 93 => ⟨S_, .i32⟩
  | 94 => ⟨S_, .f32⟩
  | 95 => ⟨S80, .f32⟩
  | 96 => ⟨S1x80, .f32⟩
  | 97 => ⟨S_, .f32⟩
  | 98 => ⟨S1x80, .f32⟩
  | 99 => ⟨S1x80, .f32⟩
  | 100 => ⟨S100000x80, .f32⟩
  | 101 => ⟨S100000x80, .f32⟩
  | 102 => ⟨S100000x80, .f32⟩
  | 103 => ⟨S_, .f32⟩
  | 104 => ⟨S_, .f32⟩
  | 105 => ⟨S_, .f32⟩
  | 106 => ⟨S_, .f32⟩
  | 107 => ⟨S80, .f32⟩
  | 108 => ⟨S80, .f32⟩
  | 109 => ⟨S80, .f32⟩
  | 110 => ⟨S_, .f32⟩
  | 111 => ⟨S_, .i1⟩
  | 112 => ⟨S_, .f32⟩
  | 113 => ⟨S_, .f32⟩
  | 114 => ⟨S80, .f32⟩
  | 115 => ⟨S80, .f32⟩
  | 116 => ⟨S1x80, .f32⟩
  | 117 => ⟨S100000x80, .f32⟩
  | 118 => ⟨S100000x80, .f32⟩
  | 119 => ⟨S1x80, .f32⟩
  | 120 => ⟨S100000x80, .f32⟩
  | 121 => ⟨S100000x80, .f32⟩
  | 122 => ⟨S_, .f32⟩
  | 123 => ⟨S80, .f32⟩
  | 124 => ⟨S80, .f32⟩
  | 125 => ⟨S80, .f32⟩
  | 126 => ⟨S1x80, .f32⟩
  | 127 => ⟨S100000x80, .f32⟩
  | _ => ⟨S100000x96, .f32⟩

abbrev hbmTy0_2 (i : Nat) : BufTy := match i % 128 with
  | 0 => ⟨S100000x80, .f32⟩
  | 1 => ⟨S1x80, .f32⟩
  | 2 => ⟨S100000x80, .f32⟩
  | 3 => ⟨S100000x80, .f32⟩
  | 4 => ⟨S_, .f32⟩
  | 5 => ⟨S100000x80, .f32⟩
  | 6 => ⟨S100000x80, .f32⟩
  | 7 => ⟨S1x80x80, .f32⟩
  | 8 => ⟨S80x80, .f32⟩
  | 9 => ⟨S1x80, .f32⟩
  | 10 => ⟨S80, .f32⟩
  | 11 => ⟨S100000x80, .f32⟩
  | 12 => ⟨S_, .i32⟩
  | 13 => ⟨S1000000, .i32⟩
  | 14 => ⟨S1000000, .i1⟩
  | 15 => ⟨S_, .i32⟩
  | 16 => ⟨S1000000, .i32⟩
  | 17 => ⟨S1000000, .i32⟩
  | 18 => ⟨S1000000, .i32⟩
  | 19 => ⟨S1000000x1, .i32⟩
  | 20 => ⟨S1000000x80, .f32⟩
  | 21 => ⟨S_, .f32⟩
  | 22 => ⟨S20000x80, .f32⟩
  | 23 => ⟨S1000000x1, .i32⟩
  | 24 => ⟨S20000x80, .f32⟩
  | 25 => ⟨S20000x1, .f32⟩
  | 26 => ⟨S20000x80, .f32⟩
  | 27 => ⟨S20000x80, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x80, .f32⟩
  | 37 => ⟨S_, .f32⟩
  | 38 => ⟨S100000x80, .f32⟩
  | 39 => ⟨S1000000x1, .i32⟩
  | 40 => ⟨S100000x80, .f32⟩
  | 41 => ⟨S100000x1, .f32⟩
  | 42 => ⟨S100000x80, .f32⟩
  | 43 => ⟨S100000x80, .f32⟩
  | 44 => ⟨S1x80, .f32⟩
  | 45 => ⟨S100000x80, .f32⟩
  | 46 => ⟨S100000x80, .f32⟩
  | 47 => ⟨S100000x80, .f32⟩
  | 48 => ⟨S1x80x80, .f32⟩
  | 49 => ⟨S80x80, .f32⟩
  | 50 => ⟨S1x80, .f32⟩
  | 51 => ⟨S80, .f32⟩
  | 52 => ⟨S100000x80, .f32⟩
  | 53 => ⟨S_, .i32⟩
  | 54 => ⟨S1000000, .i32⟩
  | 55 => ⟨S1000000, .i1⟩
  | 56 => ⟨S_, .i32⟩
  | 57 => ⟨S1000000, .i32⟩
  | 58 => ⟨S1000000, .i32⟩
  | 59 => ⟨S1000000, .i32⟩
  | 60 => ⟨S1000000x1, .i32⟩
  | 61 => ⟨S1000000x80, .f32⟩
  | 62 => ⟨S_, .f32⟩
  | 63 => ⟨S20000x80, .f32⟩
  | 64 => ⟨S1000000x1, .i32⟩
  | 65 => ⟨S20000x80, .f32⟩
  | 66 => ⟨S20000x1, .f32⟩
  | 67 => ⟨S20000x80, .f32⟩
  | 68 => ⟨S20000x80, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000x80, .f32⟩
  | 78 => ⟨S_, .f32⟩
  | 79 => ⟨S100000x80, .f32⟩
  | 80 => ⟨S1000000x1, .i32⟩
  | 81 => ⟨S100000x80, .f32⟩
  | 82 => ⟨S100000x1, .f32⟩
  | 83 => ⟨S100000x80, .f32⟩
  | 84 => ⟨S100000x80, .f32⟩
  | 85 => ⟨S1x80, .f32⟩
  | 86 => ⟨S100000x80, .f32⟩
  | 87 => ⟨S100000x80, .f32⟩
  | 88 => ⟨S1x80, .f32⟩
  | 89 => ⟨S80, .f32⟩
  | 90 => ⟨S1x80, .f32⟩
  | 91 => ⟨S80, .f32⟩
  | 92 => ⟨S_, .f32⟩
  | 93 => ⟨S80, .f32⟩
  | 94 => ⟨S_, .f32⟩
  | 95 => ⟨S80, .f32⟩
  | 96 => ⟨S80, .f32⟩
  | 97 => ⟨S_, .i32⟩
  | 98 => ⟨S_, .f32⟩
  | 99 => ⟨S80, .f32⟩
  | 100 => ⟨S1x80, .f32⟩
  | 101 => ⟨S_, .f32⟩
  | 102 => ⟨S1x80, .f32⟩
  | 103 => ⟨S1x80, .f32⟩
  | 104 => ⟨S100000x80, .f32⟩
  | 105 => ⟨S100000x80, .f32⟩
  | 106 => ⟨S100000x80, .f32⟩
  | 107 => ⟨S_, .f32⟩
  | 108 => ⟨S_, .f32⟩
  | 109 => ⟨S_, .f32⟩
  | 110 => ⟨S_, .f32⟩
  | 111 => ⟨S80, .f32⟩
  | 112 => ⟨S80, .f32⟩
  | 113 => ⟨S80, .f32⟩
  | 114 => ⟨S_, .f32⟩
  | 115 => ⟨S_, .i1⟩
  | 116 => ⟨S_, .f32⟩
  | 117 => ⟨S_, .f32⟩
  | 118 => ⟨S80, .f32⟩
  | 119 => ⟨S80, .f32⟩
  | 120 => ⟨S1x80, .f32⟩
  | 121 => ⟨S100000x80, .f32⟩
  | 122 => ⟨S100000x80, .f32⟩
  | 123 => ⟨S1x80, .f32⟩
  | 124 => ⟨S100000x80, .f32⟩
  | 125 => ⟨S100000x80, .f32⟩
  | 126 => ⟨S_, .f32⟩
  | 127 => ⟨S80, .f32⟩
  | _ => ⟨S100000x96, .f32⟩

abbrev hbmTy0_3 (i : Nat) : BufTy := match i % 128 with
  | 0 => ⟨S80, .f32⟩
  | 1 => ⟨S80, .f32⟩
  | 2 => ⟨S1x80, .f32⟩
  | 3 => ⟨S100000x80, .f32⟩
  | 4 => ⟨S100000x80, .f32⟩
  | 5 => ⟨S1x80, .f32⟩
  | 6 => ⟨S100000x80, .f32⟩
  | 7 => ⟨S100000x80, .f32⟩
  | 8 => ⟨S_, .f32⟩
  | 9 => ⟨S100000x80, .f32⟩
  | 10 => ⟨S100000x80, .f32⟩
  | 11 => ⟨S1x80x80, .f32⟩
  | 12 => ⟨S80x80, .f32⟩
  | 13 => ⟨S1x80, .f32⟩
  | 14 => ⟨S80, .f32⟩
  | 15 => ⟨S100000x80, .f32⟩
  | 16 => ⟨S_, .i32⟩
  | 17 => ⟨S1000000, .i32⟩
  | 18 => ⟨S1000000, .i1⟩
  | 19 => ⟨S_, .i32⟩
  | 20 => ⟨S1000000, .i32⟩
  | 21 => ⟨S1000000, .i32⟩
  | 22 => ⟨S1000000, .i32⟩
  | 23 => ⟨S1000000x1, .i32⟩
  | 24 => ⟨S1000000x80, .f32⟩
  | 25 => ⟨S_, .f32⟩
  | 26 => ⟨S20000x80, .f32⟩
  | 27 => ⟨S1000000x1, .i32⟩
  | 28 => ⟨S20000x80, .f32⟩
  | 29 => ⟨S20000x1, .f32⟩
  | 30 => ⟨S20000x80, .f32⟩
  | 31 => ⟨S20000x80, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x80, .f32⟩
  | 41 => ⟨S_, .f32⟩
  | 42 => ⟨S100000x80, .f32⟩
  | 43 => ⟨S1000000x1, .i32⟩
  | 44 => ⟨S100000x80, .f32⟩
  | 45 => ⟨S100000x1, .f32⟩
  | 46 => ⟨S100000x80, .f32⟩
  | 47 => ⟨S100000x80, .f32⟩
  | 48 => ⟨S1x80, .f32⟩
  | 49 => ⟨S100000x80, .f32⟩
  | 50 => ⟨S100000x80, .f32⟩
  | 51 => ⟨S100000x80, .f32⟩
  | 52 => ⟨S1x80x80, .f32⟩
  | 53 => ⟨S80x80, .f32⟩
  | 54 => ⟨S1x80, .f32⟩
  | 55 => ⟨S80, .f32⟩
  | 56 => ⟨S100000x80, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x80, .f32⟩
  | 66 => ⟨S_, .f32⟩
  | 67 => ⟨S20000x80, .f32⟩
  | 68 => ⟨S1000000x1, .i32⟩
  | 69 => ⟨S20000x80, .f32⟩
  | 70 => ⟨S20000x1, .f32⟩
  | 71 => ⟨S20000x80, .f32⟩
  | 72 => ⟨S20000x80, .f32⟩
  | 73 => ⟨S_, .i32⟩
  | 74 => ⟨S1000000, .i32⟩
  | 75 => ⟨S1000000, .i1⟩
  | 76 => ⟨S_, .i32⟩
  | 77 => ⟨S1000000, .i32⟩
  | 78 => ⟨S1000000, .i32⟩
  | 79 => ⟨S1000000, .i32⟩
  | 80 => ⟨S1000000x1, .i32⟩
  | 81 => ⟨S1000000x80, .f32⟩
  | 82 => ⟨S_, .f32⟩
  | 83 => ⟨S100000x80, .f32⟩
  | 84 => ⟨S1000000x1, .i32⟩
  | 85 => ⟨S100000x80, .f32⟩
  | 86 => ⟨S100000x1, .f32⟩
  | 87 => ⟨S100000x80, .f32⟩
  | 88 => ⟨S100000x80, .f32⟩
  | 89 => ⟨S1x80, .f32⟩
  | 90 => ⟨S100000x80, .f32⟩
  | 91 => ⟨S100000x80, .f32⟩
  | 92 => ⟨S1x80, .f32⟩
  | 93 => ⟨S80, .f32⟩
  | 94 => ⟨S1x80, .f32⟩
  | 95 => ⟨S80, .f32⟩
  | 96 => ⟨S_, .f32⟩
  | 97 => ⟨S80, .f32⟩
  | 98 => ⟨S_, .f32⟩
  | 99 => ⟨S80, .f32⟩
  | 100 => ⟨S80, .f32⟩
  | 101 => ⟨S_, .i32⟩
  | 102 => ⟨S_, .f32⟩
  | 103 => ⟨S80, .f32⟩
  | 104 => ⟨S1x80, .f32⟩
  | 105 => ⟨S_, .f32⟩
  | 106 => ⟨S1x80, .f32⟩
  | 107 => ⟨S1x80, .f32⟩
  | 108 => ⟨S100000x80, .f32⟩
  | 109 => ⟨S100000x80, .f32⟩
  | 110 => ⟨S100000x80, .f32⟩
  | 111 => ⟨S_, .f32⟩
  | 112 => ⟨S_, .f32⟩
  | 113 => ⟨S_, .f32⟩
  | 114 => ⟨S_, .f32⟩
  | 115 => ⟨S80, .f32⟩
  | 116 => ⟨S80, .f32⟩
  | 117 => ⟨S80, .f32⟩
  | 118 => ⟨S_, .f32⟩
  | 119 => ⟨S_, .i1⟩
  | 120 => ⟨S_, .f32⟩
  | 121 => ⟨S_, .f32⟩
  | 122 => ⟨S80, .f32⟩
  | 123 => ⟨S80, .f32⟩
  | 124 => ⟨S1x80, .f32⟩
  | 125 => ⟨S100000x80, .f32⟩
  | 126 => ⟨S100000x80, .f32⟩
  | 127 => ⟨S1x80, .f32⟩
  | _ => ⟨S100000x96, .f32⟩

abbrev hbmTy0_4 (i : Nat) : BufTy := match i % 128 with
  | 0 => ⟨S100000x80, .f32⟩
  | 1 => ⟨S100000x80, .f32⟩
  | 2 => ⟨S_, .f32⟩
  | 3 => ⟨S80, .f32⟩
  | 4 => ⟨S80, .f32⟩
  | 5 => ⟨S80, .f32⟩
  | 6 => ⟨S1x80, .f32⟩
  | 7 => ⟨S100000x80, .f32⟩
  | 8 => ⟨S100000x80, .f32⟩
  | 9 => ⟨S1x80, .f32⟩
  | 10 => ⟨S100000x80, .f32⟩
  | 11 => ⟨S100000x80, .f32⟩
  | 12 => ⟨S_, .f32⟩
  | 13 => ⟨S100000x80, .f32⟩
  | 14 => ⟨S100000x80, .f32⟩
  | 15 => ⟨S1x80x80, .f32⟩
  | 16 => ⟨S80x80, .f32⟩
  | 17 => ⟨S1x80, .f32⟩
  | 18 => ⟨S80, .f32⟩
  | 19 => ⟨S100000x80, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x80, .f32⟩
  | 29 => ⟨S_, .f32⟩
  | 30 => ⟨S20000x80, .f32⟩
  | 31 => ⟨S1000000x1, .i32⟩
  | 32 => ⟨S20000x80, .f32⟩
  | 33 => ⟨S20000x1, .f32⟩
  | 34 => ⟨S20000x80, .f32⟩
  | 35 => ⟨S20000x80, .f32⟩
  | 36 => ⟨S_, .i32⟩
  | 37 => ⟨S1000000, .i32⟩
  | 38 => ⟨S1000000, .i1⟩
  | 39 => ⟨S_, .i32⟩
  | 40 => ⟨S1000000, .i32⟩
  | 41 => ⟨S1000000, .i32⟩
  | 42 => ⟨S1000000, .i32⟩
  | 43 => ⟨S1000000x1, .i32⟩
  | 44 => ⟨S1000000x80, .f32⟩
  | 45 => ⟨S_, .f32⟩
  | 46 => ⟨S100000x80, .f32⟩
  | 47 => ⟨S1000000x1, .i32⟩
  | 48 => ⟨S100000x80, .f32⟩
  | 49 => ⟨S100000x1, .f32⟩
  | 50 => ⟨S100000x80, .f32⟩
  | 51 => ⟨S100000x80, .f32⟩
  | 52 => ⟨S1x80, .f32⟩
  | 53 => ⟨S100000x80, .f32⟩
  | 54 => ⟨S100000x80, .f32⟩
  | 55 => ⟨S100000x80, .f32⟩
  | 56 => ⟨S1x80x80, .f32⟩
  | 57 => ⟨S80x80, .f32⟩
  | 58 => ⟨S1x80, .f32⟩
  | 59 => ⟨S80, .f32⟩
  | 60 => ⟨S100000x80, .f32⟩
  | 61 => ⟨S_, .i32⟩
  | 62 => ⟨S1000000, .i32⟩
  | 63 => ⟨S1000000, .i1⟩
  | 64 => ⟨S_, .i32⟩
  | 65 => ⟨S1000000, .i32⟩
  | 66 => ⟨S1000000, .i32⟩
  | 67 => ⟨S1000000, .i32⟩
  | 68 => ⟨S1000000x1, .i32⟩
  | 69 => ⟨S1000000x80, .f32⟩
  | 70 => ⟨S_, .f32⟩
  | 71 => ⟨S20000x80, .f32⟩
  | 72 => ⟨S1000000x1, .i32⟩
  | 73 => ⟨S20000x80, .f32⟩
  | 74 => ⟨S20000x1, .f32⟩
  | 75 => ⟨S20000x80, .f32⟩
  | 76 => ⟨S20000x80, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x80, .f32⟩
  | 86 => ⟨S_, .f32⟩
  | 87 => ⟨S100000x80, .f32⟩
  | 88 => ⟨S1000000x1, .i32⟩
  | 89 => ⟨S100000x80, .f32⟩
  | 90 => ⟨S100000x1, .f32⟩
  | 91 => ⟨S100000x80, .f32⟩
  | 92 => ⟨S100000x80, .f32⟩
  | 93 => ⟨S1x80, .f32⟩
  | 94 => ⟨S100000x80, .f32⟩
  | 95 => ⟨S100000x80, .f32⟩
  | 96 => ⟨S1x80, .f32⟩
  | 97 => ⟨S80, .f32⟩
  | 98 => ⟨S1x80, .f32⟩
  | 99 => ⟨S80, .f32⟩
  | 100 => ⟨S_, .f32⟩
  | 101 => ⟨S80, .f32⟩
  | 102 => ⟨S_, .f32⟩
  | 103 => ⟨S80, .f32⟩
  | 104 => ⟨S80, .f32⟩
  | 105 => ⟨S_, .i32⟩
  | 106 => ⟨S_, .f32⟩
  | 107 => ⟨S80, .f32⟩
  | 108 => ⟨S1x80, .f32⟩
  | 109 => ⟨S_, .f32⟩
  | 110 => ⟨S1x80, .f32⟩
  | 111 => ⟨S1x80, .f32⟩
  | 112 => ⟨S100000x80, .f32⟩
  | 113 => ⟨S100000x80, .f32⟩
  | 114 => ⟨S100000x80, .f32⟩
  | 115 => ⟨S_, .f32⟩
  | 116 => ⟨S_, .f32⟩
  | 117 => ⟨S_, .f32⟩
  | 118 => ⟨S_, .f32⟩
  | 119 => ⟨S80, .f32⟩
  | 120 => ⟨S80, .f32⟩
  | 121 => ⟨S80, .f32⟩
  | 122 => ⟨S_, .f32⟩
  | 123 => ⟨S_, .i1⟩
  | 124 => ⟨S_, .f32⟩
  | 125 => ⟨S_, .f32⟩
  | 126 => ⟨S80, .f32⟩
  | 127 => ⟨S80, .f32⟩
  | _ => ⟨S100000x96, .f32⟩

abbrev hbmTy0_5 (i : Nat) : BufTy := match i % 128 with
  | 0 => ⟨S1x80, .f32⟩
  | 1 => ⟨S100000x80, .f32⟩
  | 2 => ⟨S100000x80, .f32⟩
  | 3 => ⟨S1x80, .f32⟩
  | 4 => ⟨S100000x80, .f32⟩
  | 5 => ⟨S100000x80, .f32⟩
  | 6 => ⟨S_, .f32⟩
  | 7 => ⟨S80, .f32⟩
  | 8 => ⟨S80, .f32⟩
  | 9 => ⟨S80, .f32⟩
  | 10 => ⟨S1x80, .f32⟩
  | 11 => ⟨S100000x80, .f32⟩
  | 12 => ⟨S100000x80, .f32⟩
  | 13 => ⟨S1x80, .f32⟩
  | 14 => ⟨S100000x80, .f32⟩
  | 15 => ⟨S100000x80, .f32⟩
  | 16 => ⟨S_, .f32⟩
  | 17 => ⟨S100000x80, .f32⟩
  | 18 => ⟨S100000x80, .f32⟩
  | 19 => ⟨S1x80x80, .f32⟩
  | 20 => ⟨S80x80, .f32⟩
  | 21 => ⟨S1x80, .f32⟩
  | 22 => ⟨S80, .f32⟩
  | 23 => ⟨S100000x80, .f32⟩
  | 24 => ⟨S_, .i32⟩
  | 25 => ⟨S1000000, .i32⟩
  | 26 => ⟨S1000000, .i1⟩
  | 27 => ⟨S_, .i32⟩
  | 28 => ⟨S1000000, .i32⟩
  | 29 => ⟨S1000000, .i32⟩
  | 30 => ⟨S1000000, .i32⟩
  | 31 => ⟨S1000000x1, .i32⟩
  | 32 => ⟨S1000000x80, .f32⟩
  | 33 => ⟨S_, .f32⟩
  | 34 => ⟨S20000x80, .f32⟩
  | 35 => ⟨S1000000x1, .i32⟩
  | 36 => ⟨S20000x80, .f32⟩
  | 37 => ⟨S20000x1, .f32⟩
  | 38 => ⟨S20000x80, .f32⟩
  | 39 => ⟨S20000x80, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000x80, .f32⟩
  | 49 => ⟨S_, .f32⟩
  | 50 => ⟨S100000x80, .f32⟩
  | 51 => ⟨S1000000x1, .i32⟩
  | 52 => ⟨S100000x80, .f32⟩
  | 53 => ⟨S100000x1, .f32⟩
  | 54 => ⟨S100000x80, .f32⟩
  | 55 => ⟨S100000x80, .f32⟩
  | 56 => ⟨S1x80, .f32⟩
  | 57 => ⟨S100000x80, .f32⟩
  | 58 => ⟨S100000x80, .f32⟩
  | 59 => ⟨S100000x80, .f32⟩
  | 60 => ⟨S1x80x80, .f32⟩
  | 61 => ⟨S80x80, .f32⟩
  | 62 => ⟨S1x80, .f32⟩
  | 63 => ⟨S80, .f32⟩
  | 64 => ⟨S100000x80, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x80, .f32⟩
  | 74 => ⟨S_, .f32⟩
  | 75 => ⟨S20000x80, .f32⟩
  | 76 => ⟨S1000000x1, .i32⟩
  | 77 => ⟨S20000x80, .f32⟩
  | 78 => ⟨S20000x1, .f32⟩
  | 79 => ⟨S20000x80, .f32⟩
  | 80 => ⟨S20000x80, .f32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x80, .f32⟩
  | 90 => ⟨S_, .f32⟩
  | 91 => ⟨S100000x80, .f32⟩
  | 92 => ⟨S1000000x1, .i32⟩
  | 93 => ⟨S100000x80, .f32⟩
  | 94 => ⟨S100000x1, .f32⟩
  | 95 => ⟨S100000x80, .f32⟩
  | 96 => ⟨S100000x80, .f32⟩
  | 97 => ⟨S1x80, .f32⟩
  | 98 => ⟨S100000x80, .f32⟩
  | 99 => ⟨S100000x80, .f32⟩
  | 100 => ⟨S1x80, .f32⟩
  | 101 => ⟨S80, .f32⟩
  | 102 => ⟨S1x80, .f32⟩
  | 103 => ⟨S80, .f32⟩
  | 104 => ⟨S_, .f32⟩
  | 105 => ⟨S80, .f32⟩
  | 106 => ⟨S_, .f32⟩
  | 107 => ⟨S80, .f32⟩
  | 108 => ⟨S80, .f32⟩
  | 109 => ⟨S_, .i32⟩
  | 110 => ⟨S_, .f32⟩
  | 111 => ⟨S80, .f32⟩
  | 112 => ⟨S1x80, .f32⟩
  | 113 => ⟨S_, .f32⟩
  | 114 => ⟨S1x80, .f32⟩
  | 115 => ⟨S1x80, .f32⟩
  | 116 => ⟨S100000x80, .f32⟩
  | 117 => ⟨S100000x80, .f32⟩
  | 118 => ⟨S100000x80, .f32⟩
  | 119 => ⟨S_, .f32⟩
  | 120 => ⟨S_, .f32⟩
  | 121 => ⟨S_, .f32⟩
  | 122 => ⟨S_, .f32⟩
  | 123 => ⟨S80, .f32⟩
  | 124 => ⟨S80, .f32⟩
  | 125 => ⟨S80, .f32⟩
  | 126 => ⟨S_, .f32⟩
  | 127 => ⟨S_, .i1⟩
  | _ => ⟨S100000x96, .f32⟩

abbrev hbmTy0_6 (i : Nat) : BufTy := match i % 128 with
  | 0 => ⟨S_, .f32⟩
  | 1 => ⟨S_, .f32⟩
  | 2 => ⟨S80, .f32⟩
  | 3 => ⟨S80, .f32⟩
  | 4 => ⟨S1x80, .f32⟩
  | 5 => ⟨S100000x80, .f32⟩
  | 6 => ⟨S100000x80, .f32⟩
  | 7 => ⟨S1x80, .f32⟩
  | 8 => ⟨S100000x80, .f32⟩
  | 9 => ⟨S100000x80, .f32⟩
  | 10 => ⟨S_, .f32⟩
  | 11 => ⟨S80, .f32⟩
  | 12 => ⟨S80, .f32⟩
  | 13 => ⟨S80, .f32⟩
  | 14 => ⟨S1x80, .f32⟩
  | 15 => ⟨S100000x80, .f32⟩
  | 16 => ⟨S100000x80, .f32⟩
  | 17 => ⟨S1x80, .f32⟩
  | 18 => ⟨S100000x80, .f32⟩
  | 19 => ⟨S100000x80, .f32⟩
  | 20 => ⟨S_, .f32⟩
  | 21 => ⟨S100000x80, .f32⟩
  | 22 => ⟨S100000x80, .f32⟩
  | 23 => ⟨S1x80x80, .f32⟩
  | 24 => ⟨S80x80, .f32⟩
  | 25 => ⟨S1x80, .f32⟩
  | 26 => ⟨S80, .f32⟩
  | 27 => ⟨S100000x80, .f32⟩
  | 28 => ⟨S_, .i32⟩
  | 29 => ⟨S1000000, .i32⟩
  | 30 => ⟨S1000000, .i1⟩
  | 31 => ⟨S_, .i32⟩
  | 32 => ⟨S1000000, .i32⟩
  | 33 => ⟨S1000000, .i32⟩
  | 34 => ⟨S1000000, .i32⟩
  | 35 => ⟨S1000000x1, .i32⟩
  | 36 => ⟨S1000000x80, .f32⟩
  | 37 => ⟨S_, .f32⟩
  | 38 => ⟨S20000x80, .f32⟩
  | 39 => ⟨S1000000x1, .i32⟩
  | 40 => ⟨S20000x80, .f32⟩
  | 41 => ⟨S20000x1, .f32⟩
  | 42 => ⟨S20000x80, .f32⟩
  | 43 => ⟨S20000x80, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x80, .f32⟩
  | 53 => ⟨S_, .f32⟩
  | 54 => ⟨S100000x80, .f32⟩
  | 55 => ⟨S1000000x1, .i32⟩
  | 56 => ⟨S100000x80, .f32⟩
  | 57 => ⟨S100000x1, .f32⟩
  | 58 => ⟨S100000x80, .f32⟩
  | 59 => ⟨S100000x80, .f32⟩
  | 60 => ⟨S1x80, .f32⟩
  | 61 => ⟨S100000x80, .f32⟩
  | 62 => ⟨S100000x80, .f32⟩
  | 63 => ⟨S100000x80, .f32⟩
  | 64 => ⟨S1x80x80, .f32⟩
  | 65 => ⟨S80x80, .f32⟩
  | 66 => ⟨S1x80, .f32⟩
  | 67 => ⟨S80, .f32⟩
  | 68 => ⟨S100000x80, .f32⟩
  | 69 => ⟨S_, .i32⟩
  | 70 => ⟨S1000000, .i32⟩
  | 71 => ⟨S1000000, .i1⟩
  | 72 => ⟨S_, .i32⟩
  | 73 => ⟨S1000000, .i32⟩
  | 74 => ⟨S1000000, .i32⟩
  | 75 => ⟨S1000000, .i32⟩
  | 76 => ⟨S1000000x1, .i32⟩
  | 77 => ⟨S1000000x80, .f32⟩
  | 78 => ⟨S_, .f32⟩
  | 79 => ⟨S20000x80, .f32⟩
  | 80 => ⟨S1000000x1, .i32⟩
  | 81 => ⟨S20000x80, .f32⟩
  | 82 => ⟨S20000x1, .f32⟩
  | 83 => ⟨S20000x80, .f32⟩
  | 84 => ⟨S20000x80, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000x80, .f32⟩
  | 94 => ⟨S_, .f32⟩
  | 95 => ⟨S100000x80, .f32⟩
  | 96 => ⟨S1000000x1, .i32⟩
  | 97 => ⟨S100000x80, .f32⟩
  | 98 => ⟨S100000x1, .f32⟩
  | 99 => ⟨S100000x80, .f32⟩
  | 100 => ⟨S100000x80, .f32⟩
  | 101 => ⟨S1x80, .f32⟩
  | 102 => ⟨S100000x80, .f32⟩
  | 103 => ⟨S100000x80, .f32⟩
  | 104 => ⟨S1x80, .f32⟩
  | 105 => ⟨S80, .f32⟩
  | 106 => ⟨S1x80, .f32⟩
  | 107 => ⟨S80, .f32⟩
  | 108 => ⟨S_, .f32⟩
  | 109 => ⟨S80, .f32⟩
  | 110 => ⟨S_, .f32⟩
  | 111 => ⟨S80, .f32⟩
  | 112 => ⟨S80, .f32⟩
  | 113 => ⟨S_, .i32⟩
  | 114 => ⟨S_, .f32⟩
  | 115 => ⟨S80, .f32⟩
  | 116 => ⟨S1x80, .f32⟩
  | 117 => ⟨S_, .f32⟩
  | 118 => ⟨S1x80, .f32⟩
  | 119 => ⟨S1x80, .f32⟩
  | 120 => ⟨S100000x80, .f32⟩
  | 121 => ⟨S100000x80, .f32⟩
  | 122 => ⟨S100000x80, .f32⟩
  | 123 => ⟨S_, .f32⟩
  | 124 => ⟨S_, .f32⟩
  | 125 => ⟨S_, .f32⟩
  | 126 => ⟨S_, .f32⟩
  | 127 => ⟨S80, .f32⟩
  | _ => ⟨S100000x96, .f32⟩

abbrev hbmTy0_7 (i : Nat) : BufTy := match i % 128 with
  | 0 => ⟨S80, .f32⟩
  | 1 => ⟨S80, .f32⟩
  | 2 => ⟨S_, .f32⟩
  | 3 => ⟨S_, .i1⟩
  | 4 => ⟨S_, .f32⟩
  | 5 => ⟨S_, .f32⟩
  | 6 => ⟨S80, .f32⟩
  | 7 => ⟨S80, .f32⟩
  | 8 => ⟨S1x80, .f32⟩
  | 9 => ⟨S100000x80, .f32⟩
  | 10 => ⟨S100000x80, .f32⟩
  | 11 => ⟨S1x80, .f32⟩
  | 12 => ⟨S100000x80, .f32⟩
  | 13 => ⟨S100000x80, .f32⟩
  | 14 => ⟨S_, .f32⟩
  | 15 => ⟨S80, .f32⟩
  | 16 => ⟨S80, .f32⟩
  | 17 => ⟨S80, .f32⟩
  | 18 => ⟨S1x80, .f32⟩
  | 19 => ⟨S100000x80, .f32⟩
  | 20 => ⟨S100000x80, .f32⟩
  | 21 => ⟨S1x80, .f32⟩
  | 22 => ⟨S100000x80, .f32⟩
  | 23 => ⟨S100000x80, .f32⟩
  | 24 => ⟨S_, .f32⟩
  | 25 => ⟨S100000x80, .f32⟩
  | 26 => ⟨S100000x80, .f32⟩
  | 27 => ⟨S1x80x80, .f32⟩
  | 28 => ⟨S80x80, .f32⟩
  | 29 => ⟨S1x80, .f32⟩
  | 30 => ⟨S80, .f32⟩
  | 31 => ⟨S100000x80, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x80, .f32⟩
  | 41 => ⟨S_, .f32⟩
  | 42 => ⟨S20000x80, .f32⟩
  | 43 => ⟨S1000000x1, .i32⟩
  | 44 => ⟨S20000x80, .f32⟩
  | 45 => ⟨S20000x1, .f32⟩
  | 46 => ⟨S20000x80, .f32⟩
  | 47 => ⟨S20000x80, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x80, .f32⟩
  | 57 => ⟨S_, .f32⟩
  | 58 => ⟨S100000x80, .f32⟩
  | 59 => ⟨S1000000x1, .i32⟩
  | 60 => ⟨S100000x80, .f32⟩
  | 61 => ⟨S100000x1, .f32⟩
  | 62 => ⟨S100000x80, .f32⟩
  | 63 => ⟨S100000x80, .f32⟩
  | 64 => ⟨S1x80, .f32⟩
  | 65 => ⟨S100000x80, .f32⟩
  | 66 => ⟨S100000x80, .f32⟩
  | 67 => ⟨S100000x80, .f32⟩
  | 68 => ⟨S100000x176, .f32⟩
  | 69 => ⟨S100000x48, .f32⟩
  | 70 => ⟨S_, .i32⟩
  | 71 => ⟨S1000000, .i32⟩
  | 72 => ⟨S1000000, .i1⟩
  | 73 => ⟨S_, .i32⟩
  | 74 => ⟨S1000000, .i32⟩
  | 75 => ⟨S1000000, .i32⟩
  | 76 => ⟨S1000000, .i32⟩
  | 77 => ⟨S1000000x1, .i32⟩
  | 78 => ⟨S1000000x48, .f32⟩
  | 79 => ⟨S_, .f32⟩
  | 80 => ⟨S20000x48, .f32⟩
  | 81 => ⟨S1000000x1, .i32⟩
  | 82 => ⟨S20000x48, .f32⟩
  | 83 => ⟨S20000x1, .f32⟩
  | 84 => ⟨S20000x48, .f32⟩
  | 85 => ⟨S20000x48, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x48, .f32⟩
  | 95 => ⟨S_, .f32⟩
  | 96 => ⟨S100000x48, .f32⟩
  | 97 => ⟨S1000000x1, .i32⟩
  | 98 => ⟨S100000x48, .f32⟩
  | 99 => ⟨S100000x1, .f32⟩
  | 100 => ⟨S100000x48, .f32⟩
  | 101 => ⟨S100000x48, .f32⟩
  | 102 => ⟨S1x48, .f32⟩
  | 103 => ⟨S100000x48, .f32⟩
  | 104 => ⟨S100000x48, .f32⟩
  | _ => ⟨S100000x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S100000x96, .f32⟩

abbrev bufTy : (tb : Table) → Fin (tcTables nBuf tb) → BufTy
  | .hbm, ⟨i, _⟩ => hbmTy i
  | _, _ => ⟨S100000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_v13 : Ref sig .tc := ⟨.hbm, 32, rfl⟩
abbrev main_v14 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_v20 : Ref sig .tc := ⟨.hbm, 47, rfl⟩
abbrev main_v21 : Ref sig .tc := ⟨.hbm, 48, rfl⟩
abbrev main_c : Ref sig .tc := ⟨.hbm, 49, rfl⟩
abbrev main_v22 : Ref sig .tc := ⟨.hbm, 50, rfl⟩
abbrev main_v23 : Ref sig .tc := ⟨.hbm, 51, rfl⟩
abbrev main_c_8 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_9 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_10 : Ref sig .tc := ⟨.hbm, 65, rfl⟩
abbrev main_v35 : Ref sig .tc := ⟨.hbm, 66, rfl⟩
abbrev main_v36 : Ref sig .tc := ⟨.hbm, 67, rfl⟩
abbrev main_c_11 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_12 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_cst_14 : Ref sig .tc := ⟨.hbm, 90, rfl⟩
abbrev main_v56 : Ref sig .tc := ⟨.hbm, 91, rfl⟩
abbrev main_v57 : Ref sig .tc := ⟨.hbm, 92, rfl⟩
abbrev main_c_15 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_cst_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_cst_1 : Ref sig .tc := ⟨.hbm, 104, rfl⟩
abbrev main_call2_v8 : Ref sig .tc := ⟨.hbm, 105, rfl⟩
abbrev main_call2_cst_2 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_cst_3 : Ref sig .tc := ⟨.hbm, 110, rfl⟩
abbrev main_call2_v12 : Ref sig .tc := ⟨.hbm, 111, rfl⟩
abbrev main_call2_cst_4 : Ref sig .tc := ⟨.hbm, 112, rfl⟩
abbrev main_call2_call0_v0 : Ref sig .tc := ⟨.hbm, 113, rfl⟩
abbrev main_call2_call0_v1 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_16 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_call3_cst : Ref sig .tc := ⟨.hbm, 132, rfl⟩
abbrev main_call3_v0 : Ref sig .tc := ⟨.hbm, 133, rfl⟩
abbrev main_v74 : Ref sig .tc := ⟨.hbm, 134, rfl⟩
abbrev main_v75 : Ref sig .tc := ⟨.hbm, 135, rfl⟩
abbrev main_c_17 : Ref sig .tc := ⟨.hbm, 136, rfl⟩
abbrev main_v76 : Ref sig .tc := ⟨.hbm, 137, rfl⟩
abbrev main_v77 : Ref sig .tc := ⟨.hbm, 138, rfl⟩
abbrev main_c_18 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_19 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_c_20 : Ref sig .tc := ⟨.hbm, 152, rfl⟩
abbrev main_v89 : Ref sig .tc := ⟨.hbm, 153, rfl⟩
abbrev main_v90 : Ref sig .tc := ⟨.hbm, 154, rfl⟩
abbrev main_c_21 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_cst_22 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_c_23 : Ref sig .tc := ⟨.hbm, 177, rfl⟩
abbrev main_v111 : Ref sig .tc := ⟨.hbm, 178, rfl⟩
abbrev main_v112 : Ref sig .tc := ⟨.hbm, 179, rfl⟩
abbrev main_c_24 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_25 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_c_26 : Ref sig .tc := ⟨.hbm, 193, rfl⟩
abbrev main_v124 : Ref sig .tc := ⟨.hbm, 194, rfl⟩
abbrev main_v125 : Ref sig .tc := ⟨.hbm, 195, rfl⟩
abbrev main_c_27 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_cst_28 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_cst_29 : Ref sig .tc := ⟨.hbm, 216, rfl⟩
abbrev main_v144 : Ref sig .tc := ⟨.hbm, 217, rfl⟩
abbrev main_cst_30 : Ref sig .tc := ⟨.hbm, 218, rfl⟩
abbrev main_v145 : Ref sig .tc := ⟨.hbm, 219, rfl⟩
abbrev main_v146 : Ref sig .tc := ⟨.hbm, 220, rfl⟩
abbrev main_c_31 : Ref sig .tc := ⟨.hbm, 221, rfl⟩
abbrev main_call4_cst : Ref sig .tc := ⟨.hbm, 222, rfl⟩
abbrev main_call4_v0 : Ref sig .tc := ⟨.hbm, 223, rfl⟩
abbrev main_call4_v1 : Ref sig .tc := ⟨.hbm, 224, rfl⟩
abbrev main_call4_cst_0 : Ref sig .tc := ⟨.hbm, 225, rfl⟩
abbrev main_call4_v2 : Ref sig .tc := ⟨.hbm, 226, rfl⟩
abbrev main_call4_v3 : Ref sig .tc := ⟨.hbm, 227, rfl⟩
abbrev main_call4_v4 : Ref sig .tc := ⟨.hbm, 228, rfl⟩
abbrev main_call4_v5 : Ref sig .tc := ⟨.hbm, 229, rfl⟩
abbrev main_call4_v6 : Ref sig .tc := ⟨.hbm, 230, rfl⟩
abbrev main_call4_v7 : Ref sig .tc := ⟨.hbm, 231, rfl⟩
abbrev main_call4_cst_1 : Ref sig .tc := ⟨.hbm, 232, rfl⟩
abbrev main_call4_v8 : Ref sig .tc := ⟨.hbm, 233, rfl⟩
abbrev main_call4_cst_2 : Ref sig .tc := ⟨.hbm, 234, rfl⟩
abbrev main_call4_v9 : Ref sig .tc := ⟨.hbm, 235, rfl⟩
abbrev main_call4_v10 : Ref sig .tc := ⟨.hbm, 236, rfl⟩
abbrev main_call4_v11 : Ref sig .tc := ⟨.hbm, 237, rfl⟩
abbrev main_call4_cst_3 : Ref sig .tc := ⟨.hbm, 238, rfl⟩
abbrev main_call4_v12 : Ref sig .tc := ⟨.hbm, 239, rfl⟩
abbrev main_call4_cst_4 : Ref sig .tc := ⟨.hbm, 240, rfl⟩
abbrev main_call4_call0_v0 : Ref sig .tc := ⟨.hbm, 241, rfl⟩
abbrev main_call4_call0_v1 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_cst_32 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_call5_cst : Ref sig .tc := ⟨.hbm, 260, rfl⟩
abbrev main_call5_v0 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_c_33 : Ref sig .tc := ⟨.hbm, 268, rfl⟩
abbrev main_v169 : Ref sig .tc := ⟨.hbm, 269, rfl⟩
abbrev main_v170 : Ref sig .tc := ⟨.hbm, 270, rfl⟩
abbrev main_c_34 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_cst_35 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_v180 : Ref sig .tc := ⟨.hbm, 282, rfl⟩
abbrev main_v181 : Ref sig .tc := ⟨.hbm, 283, rfl⟩
abbrev main_c_36 : Ref sig .tc := ⟨.hbm, 284, rfl⟩
abbrev main_v182 : Ref sig .tc := ⟨.hbm, 285, rfl⟩
abbrev main_v183 : Ref sig .tc := ⟨.hbm, 286, rfl⟩
abbrev main_c_37 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_cst_38 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_c_39 : Ref sig .tc := ⟨.hbm, 309, rfl⟩
abbrev main_v204 : Ref sig .tc := ⟨.hbm, 310, rfl⟩
abbrev main_v205 : Ref sig .tc := ⟨.hbm, 311, rfl⟩
abbrev main_c_40 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_v209 : Ref sig .tc := ⟨.hbm, 316, rfl⟩
abbrev main_v210 : Ref sig .tc := ⟨.hbm, 317, rfl⟩
abbrev main_cst_41 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_c_42 : Ref sig .tc := ⟨.hbm, 325, rfl⟩
abbrev main_v217 : Ref sig .tc := ⟨.hbm, 326, rfl⟩
abbrev main_v218 : Ref sig .tc := ⟨.hbm, 327, rfl⟩
abbrev main_c_43 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_cst_44 : Ref sig .tc := ⟨.hbm, 334, rfl⟩
abbrev main_v224 : Ref sig .tc := ⟨.hbm, 335, rfl⟩
abbrev main_v225 : Ref sig .tc := ⟨.hbm, 336, rfl⟩
abbrev main_v226 : Ref sig .tc := ⟨.hbm, 337, rfl⟩
abbrev main_v227 : Ref sig .tc := ⟨.hbm, 338, rfl⟩
abbrev main_v228 : Ref sig .tc := ⟨.hbm, 339, rfl⟩
abbrev main_v229 : Ref sig .tc := ⟨.hbm, 340, rfl⟩
abbrev main_v230 : Ref sig .tc := ⟨.hbm, 341, rfl⟩
abbrev main_v231 : Ref sig .tc := ⟨.hbm, 342, rfl⟩
abbrev main_v232 : Ref sig .tc := ⟨.hbm, 343, rfl⟩
abbrev main_v233 : Ref sig .tc := ⟨.hbm, 344, rfl⟩
abbrev main_v234 : Ref sig .tc := ⟨.hbm, 345, rfl⟩
abbrev main_v235 : Ref sig .tc := ⟨.hbm, 346, rfl⟩
abbrev main_v236 : Ref sig .tc := ⟨.hbm, 347, rfl⟩
abbrev main_cst_45 : Ref sig .tc := ⟨.hbm, 348, rfl⟩
abbrev main_v237 : Ref sig .tc := ⟨.hbm, 349, rfl⟩
abbrev main_cst_46 : Ref sig .tc := ⟨.hbm, 350, rfl⟩
abbrev main_v238 : Ref sig .tc := ⟨.hbm, 351, rfl⟩
abbrev main_v239 : Ref sig .tc := ⟨.hbm, 352, rfl⟩
abbrev main_c_47 : Ref sig .tc := ⟨.hbm, 353, rfl⟩
abbrev main_call6_cst : Ref sig .tc := ⟨.hbm, 354, rfl⟩
abbrev main_call6_v0 : Ref sig .tc := ⟨.hbm, 355, rfl⟩
abbrev main_call6_v1 : Ref sig .tc := ⟨.hbm, 356, rfl⟩
abbrev main_call6_cst_0 : Ref sig .tc := ⟨.hbm, 357, rfl⟩
abbrev main_call6_v2 : Ref sig .tc := ⟨.hbm, 358, rfl⟩
abbrev main_call6_v3 : Ref sig .tc := ⟨.hbm, 359, rfl⟩
abbrev main_call6_v4 : Ref sig .tc := ⟨.hbm, 360, rfl⟩
abbrev main_call6_v5 : Ref sig .tc := ⟨.hbm, 361, rfl⟩
abbrev main_call6_v6 : Ref sig .tc := ⟨.hbm, 362, rfl⟩
abbrev main_call6_v7 : Ref sig .tc := ⟨.hbm, 363, rfl⟩
abbrev main_call6_cst_1 : Ref sig .tc := ⟨.hbm, 364, rfl⟩
abbrev main_call6_v8 : Ref sig .tc := ⟨.hbm, 365, rfl⟩
abbrev main_call6_cst_2 : Ref sig .tc := ⟨.hbm, 366, rfl⟩
abbrev main_call6_v9 : Ref sig .tc := ⟨.hbm, 367, rfl⟩
abbrev main_call6_v10 : Ref sig .tc := ⟨.hbm, 368, rfl⟩
abbrev main_call6_v11 : Ref sig .tc := ⟨.hbm, 369, rfl⟩
abbrev main_call6_cst_3 : Ref sig .tc := ⟨.hbm, 370, rfl⟩
abbrev main_call6_v12 : Ref sig .tc := ⟨.hbm, 371, rfl⟩
abbrev main_call6_cst_4 : Ref sig .tc := ⟨.hbm, 372, rfl⟩
abbrev main_call6_call0_v0 : Ref sig .tc := ⟨.hbm, 373, rfl⟩
abbrev main_call6_call0_v1 : Ref sig .tc := ⟨.hbm, 374, rfl⟩
abbrev main_v240 : Ref sig .tc := ⟨.hbm, 375, rfl⟩
abbrev main_v241 : Ref sig .tc := ⟨.hbm, 376, rfl⟩
abbrev main_v242 : Ref sig .tc := ⟨.hbm, 377, rfl⟩
abbrev main_v243 : Ref sig .tc := ⟨.hbm, 378, rfl⟩
abbrev main_v244 : Ref sig .tc := ⟨.hbm, 379, rfl⟩
abbrev main_v245 : Ref sig .tc := ⟨.hbm, 380, rfl⟩
abbrev main_v246 : Ref sig .tc := ⟨.hbm, 381, rfl⟩
abbrev main_cst_48 : Ref sig .tc := ⟨.hbm, 382, rfl⟩
abbrev main_v247 : Ref sig .tc := ⟨.hbm, 383, rfl⟩
abbrev main_v248 : Ref sig .tc := ⟨.hbm, 384, rfl⟩
abbrev main_v249 : Ref sig .tc := ⟨.hbm, 385, rfl⟩
abbrev main_v250 : Ref sig .tc := ⟨.hbm, 386, rfl⟩
abbrev main_v251 : Ref sig .tc := ⟨.hbm, 387, rfl⟩
abbrev main_v252 : Ref sig .tc := ⟨.hbm, 388, rfl⟩
abbrev main_v253 : Ref sig .tc := ⟨.hbm, 389, rfl⟩
abbrev main_v254 : Ref sig .tc := ⟨.hbm, 390, rfl⟩
abbrev main_v255 : Ref sig .tc := ⟨.hbm, 391, rfl⟩
abbrev main_call7_cst : Ref sig .tc := ⟨.hbm, 392, rfl⟩
abbrev main_call7_v0 : Ref sig .tc := ⟨.hbm, 393, rfl⟩
abbrev main_v256 : Ref sig .tc := ⟨.hbm, 394, rfl⟩
abbrev main_v257 : Ref sig .tc := ⟨.hbm, 395, rfl⟩
abbrev main_v258 : Ref sig .tc := ⟨.hbm, 396, rfl⟩
abbrev main_v259 : Ref sig .tc := ⟨.hbm, 397, rfl⟩
abbrev main_v260 : Ref sig .tc := ⟨.hbm, 398, rfl⟩
abbrev main_v261 : Ref sig .tc := ⟨.hbm, 399, rfl⟩
abbrev main_c_49 : Ref sig .tc := ⟨.hbm, 400, rfl⟩
abbrev main_v262 : Ref sig .tc := ⟨.hbm, 401, rfl⟩
abbrev main_v263 : Ref sig .tc := ⟨.hbm, 402, rfl⟩
abbrev main_c_50 : Ref sig .tc := ⟨.hbm, 403, rfl⟩
abbrev main_v264 : Ref sig .tc := ⟨.hbm, 404, rfl⟩
abbrev main_v265 : Ref sig .tc := ⟨.hbm, 405, rfl⟩
abbrev main_v266 : Ref sig .tc := ⟨.hbm, 406, rfl⟩
abbrev main_v267 : Ref sig .tc := ⟨.hbm, 407, rfl⟩
abbrev main_v268 : Ref sig .tc := ⟨.hbm, 408, rfl⟩
abbrev main_cst_51 : Ref sig .tc := ⟨.hbm, 409, rfl⟩
abbrev main_v269 : Ref sig .tc := ⟨.hbm, 410, rfl⟩
abbrev main_v270 : Ref sig .tc := ⟨.hbm, 411, rfl⟩
abbrev main_v271 : Ref sig .tc := ⟨.hbm, 412, rfl⟩
abbrev main_v272 : Ref sig .tc := ⟨.hbm, 413, rfl⟩
abbrev main_v273 : Ref sig .tc := ⟨.hbm, 414, rfl⟩
abbrev main_v274 : Ref sig .tc := ⟨.hbm, 415, rfl⟩
abbrev main_c_52 : Ref sig .tc := ⟨.hbm, 416, rfl⟩
abbrev main_v275 : Ref sig .tc := ⟨.hbm, 417, rfl⟩
abbrev main_v276 : Ref sig .tc := ⟨.hbm, 418, rfl⟩
abbrev main_c_53 : Ref sig .tc := ⟨.hbm, 419, rfl⟩
abbrev main_v277 : Ref sig .tc := ⟨.hbm, 420, rfl⟩
abbrev main_v278 : Ref sig .tc := ⟨.hbm, 421, rfl⟩
abbrev main_v279 : Ref sig .tc := ⟨.hbm, 422, rfl⟩
abbrev main_v280 : Ref sig .tc := ⟨.hbm, 423, rfl⟩
abbrev main_v281 : Ref sig .tc := ⟨.hbm, 424, rfl⟩
abbrev main_cst_54 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_v285 : Ref sig .tc := ⟨.hbm, 429, rfl⟩
abbrev main_v286 : Ref sig .tc := ⟨.hbm, 430, rfl⟩
abbrev main_v287 : Ref sig .tc := ⟨.hbm, 431, rfl⟩
abbrev main_v288 : Ref sig .tc := ⟨.hbm, 432, rfl⟩
abbrev main_v289 : Ref sig .tc := ⟨.hbm, 433, rfl⟩
abbrev main_v290 : Ref sig .tc := ⟨.hbm, 434, rfl⟩
abbrev main_v291 : Ref sig .tc := ⟨.hbm, 435, rfl⟩
abbrev main_v292 : Ref sig .tc := ⟨.hbm, 436, rfl⟩
abbrev main_v293 : Ref sig .tc := ⟨.hbm, 437, rfl⟩
abbrev main_v294 : Ref sig .tc := ⟨.hbm, 438, rfl⟩
abbrev main_v295 : Ref sig .tc := ⟨.hbm, 439, rfl⟩
abbrev main_v296 : Ref sig .tc := ⟨.hbm, 440, rfl⟩
abbrev main_c_55 : Ref sig .tc := ⟨.hbm, 441, rfl⟩
abbrev main_v297 : Ref sig .tc := ⟨.hbm, 442, rfl⟩
abbrev main_v298 : Ref sig .tc := ⟨.hbm, 443, rfl⟩
abbrev main_c_56 : Ref sig .tc := ⟨.hbm, 444, rfl⟩
abbrev main_v299 : Ref sig .tc := ⟨.hbm, 445, rfl⟩
abbrev main_v300 : Ref sig .tc := ⟨.hbm, 446, rfl⟩
abbrev main_v301 : Ref sig .tc := ⟨.hbm, 447, rfl⟩
abbrev main_v302 : Ref sig .tc := ⟨.hbm, 448, rfl⟩
abbrev main_v303 : Ref sig .tc := ⟨.hbm, 449, rfl⟩
abbrev main_cst_57 : Ref sig .tc := ⟨.hbm, 450, rfl⟩
abbrev main_v304 : Ref sig .tc := ⟨.hbm, 451, rfl⟩
abbrev main_v305 : Ref sig .tc := ⟨.hbm, 452, rfl⟩
abbrev main_v306 : Ref sig .tc := ⟨.hbm, 453, rfl⟩
abbrev main_v307 : Ref sig .tc := ⟨.hbm, 454, rfl⟩
abbrev main_v308 : Ref sig .tc := ⟨.hbm, 455, rfl⟩
abbrev main_v309 : Ref sig .tc := ⟨.hbm, 456, rfl⟩
abbrev main_c_58 : Ref sig .tc := ⟨.hbm, 457, rfl⟩
abbrev main_v310 : Ref sig .tc := ⟨.hbm, 458, rfl⟩
abbrev main_v311 : Ref sig .tc := ⟨.hbm, 459, rfl⟩
abbrev main_c_59 : Ref sig .tc := ⟨.hbm, 460, rfl⟩
abbrev main_v312 : Ref sig .tc := ⟨.hbm, 461, rfl⟩
abbrev main_v313 : Ref sig .tc := ⟨.hbm, 462, rfl⟩
abbrev main_v314 : Ref sig .tc := ⟨.hbm, 463, rfl⟩
abbrev main_v315 : Ref sig .tc := ⟨.hbm, 464, rfl⟩
abbrev main_v316 : Ref sig .tc := ⟨.hbm, 465, rfl⟩
abbrev main_cst_60 : Ref sig .tc := ⟨.hbm, 466, rfl⟩
abbrev main_v317 : Ref sig .tc := ⟨.hbm, 467, rfl⟩
abbrev main_v318 : Ref sig .tc := ⟨.hbm, 468, rfl⟩
abbrev main_v319 : Ref sig .tc := ⟨.hbm, 469, rfl⟩
abbrev main_v320 : Ref sig .tc := ⟨.hbm, 470, rfl⟩
abbrev main_v321 : Ref sig .tc := ⟨.hbm, 471, rfl⟩
abbrev main_v322 : Ref sig .tc := ⟨.hbm, 472, rfl⟩
abbrev main_v323 : Ref sig .tc := ⟨.hbm, 473, rfl⟩
abbrev main_v324 : Ref sig .tc := ⟨.hbm, 474, rfl⟩
abbrev main_v325 : Ref sig .tc := ⟨.hbm, 475, rfl⟩
abbrev main_v326 : Ref sig .tc := ⟨.hbm, 476, rfl⟩
abbrev main_v327 : Ref sig .tc := ⟨.hbm, 477, rfl⟩
abbrev main_v328 : Ref sig .tc := ⟨.hbm, 478, rfl⟩
abbrev main_v329 : Ref sig .tc := ⟨.hbm, 479, rfl⟩
abbrev main_cst_61 : Ref sig .tc := ⟨.hbm, 480, rfl⟩
abbrev main_v330 : Ref sig .tc := ⟨.hbm, 481, rfl⟩
abbrev main_cst_62 : Ref sig .tc := ⟨.hbm, 482, rfl⟩
abbrev main_v331 : Ref sig .tc := ⟨.hbm, 483, rfl⟩
abbrev main_v332 : Ref sig .tc := ⟨.hbm, 484, rfl⟩
abbrev main_c_63 : Ref sig .tc := ⟨.hbm, 485, rfl⟩
abbrev main_call8_cst : Ref sig .tc := ⟨.hbm, 486, rfl⟩
abbrev main_call8_v0 : Ref sig .tc := ⟨.hbm, 487, rfl⟩
abbrev main_call8_v1 : Ref sig .tc := ⟨.hbm, 488, rfl⟩
abbrev main_call8_cst_0 : Ref sig .tc := ⟨.hbm, 489, rfl⟩
abbrev main_call8_v2 : Ref sig .tc := ⟨.hbm, 490, rfl⟩
abbrev main_call8_v3 : Ref sig .tc := ⟨.hbm, 491, rfl⟩
abbrev main_call8_v4 : Ref sig .tc := ⟨.hbm, 492, rfl⟩
abbrev main_call8_v5 : Ref sig .tc := ⟨.hbm, 493, rfl⟩
abbrev main_call8_v6 : Ref sig .tc := ⟨.hbm, 494, rfl⟩
abbrev main_call8_v7 : Ref sig .tc := ⟨.hbm, 495, rfl⟩
abbrev main_call8_cst_1 : Ref sig .tc := ⟨.hbm, 496, rfl⟩
abbrev main_call8_v8 : Ref sig .tc := ⟨.hbm, 497, rfl⟩
abbrev main_call8_cst_2 : Ref sig .tc := ⟨.hbm, 498, rfl⟩
abbrev main_call8_v9 : Ref sig .tc := ⟨.hbm, 499, rfl⟩
abbrev main_call8_v10 : Ref sig .tc := ⟨.hbm, 500, rfl⟩
abbrev main_call8_v11 : Ref sig .tc := ⟨.hbm, 501, rfl⟩
abbrev main_call8_cst_3 : Ref sig .tc := ⟨.hbm, 502, rfl⟩
abbrev main_call8_v12 : Ref sig .tc := ⟨.hbm, 503, rfl⟩
abbrev main_call8_cst_4 : Ref sig .tc := ⟨.hbm, 504, rfl⟩
abbrev main_call8_call0_v0 : Ref sig .tc := ⟨.hbm, 505, rfl⟩
abbrev main_call8_call0_v1 : Ref sig .tc := ⟨.hbm, 506, rfl⟩
abbrev main_v333 : Ref sig .tc := ⟨.hbm, 507, rfl⟩
abbrev main_v334 : Ref sig .tc := ⟨.hbm, 508, rfl⟩
abbrev main_v335 : Ref sig .tc := ⟨.hbm, 509, rfl⟩
abbrev main_v336 : Ref sig .tc := ⟨.hbm, 510, rfl⟩
abbrev main_v337 : Ref sig .tc := ⟨.hbm, 511, rfl⟩
abbrev main_v338 : Ref sig .tc := ⟨.hbm, 512, rfl⟩
abbrev main_v339 : Ref sig .tc := ⟨.hbm, 513, rfl⟩
abbrev main_cst_64 : Ref sig .tc := ⟨.hbm, 514, rfl⟩
abbrev main_v340 : Ref sig .tc := ⟨.hbm, 515, rfl⟩
abbrev main_v341 : Ref sig .tc := ⟨.hbm, 516, rfl⟩
abbrev main_v342 : Ref sig .tc := ⟨.hbm, 517, rfl⟩
abbrev main_v343 : Ref sig .tc := ⟨.hbm, 518, rfl⟩
abbrev main_v344 : Ref sig .tc := ⟨.hbm, 519, rfl⟩
abbrev main_v345 : Ref sig .tc := ⟨.hbm, 520, rfl⟩
abbrev main_v346 : Ref sig .tc := ⟨.hbm, 521, rfl⟩
abbrev main_v347 : Ref sig .tc := ⟨.hbm, 522, rfl⟩
abbrev main_v348 : Ref sig .tc := ⟨.hbm, 523, rfl⟩
abbrev main_call9_cst : Ref sig .tc := ⟨.hbm, 524, rfl⟩
abbrev main_call9_v0 : Ref sig .tc := ⟨.hbm, 525, rfl⟩
abbrev main_v349 : Ref sig .tc := ⟨.hbm, 526, rfl⟩
abbrev main_v350 : Ref sig .tc := ⟨.hbm, 527, rfl⟩
abbrev main_v351 : Ref sig .tc := ⟨.hbm, 528, rfl⟩
abbrev main_v352 : Ref sig .tc := ⟨.hbm, 529, rfl⟩
abbrev main_v353 : Ref sig .tc := ⟨.hbm, 530, rfl⟩
abbrev main_v354 : Ref sig .tc := ⟨.hbm, 531, rfl⟩
abbrev main_c_65 : Ref sig .tc := ⟨.hbm, 532, rfl⟩
abbrev main_v355 : Ref sig .tc := ⟨.hbm, 533, rfl⟩
abbrev main_v356 : Ref sig .tc := ⟨.hbm, 534, rfl⟩
abbrev main_c_66 : Ref sig .tc := ⟨.hbm, 535, rfl⟩
abbrev main_v357 : Ref sig .tc := ⟨.hbm, 536, rfl⟩
abbrev main_v358 : Ref sig .tc := ⟨.hbm, 537, rfl⟩
abbrev main_v359 : Ref sig .tc := ⟨.hbm, 538, rfl⟩
abbrev main_v360 : Ref sig .tc := ⟨.hbm, 539, rfl⟩
abbrev main_v361 : Ref sig .tc := ⟨.hbm, 540, rfl⟩
abbrev main_cst_67 : Ref sig .tc := ⟨.hbm, 541, rfl⟩
abbrev main_v362 : Ref sig .tc := ⟨.hbm, 542, rfl⟩
abbrev main_v363 : Ref sig .tc := ⟨.hbm, 543, rfl⟩
abbrev main_v364 : Ref sig .tc := ⟨.hbm, 544, rfl⟩
abbrev main_v365 : Ref sig .tc := ⟨.hbm, 545, rfl⟩
abbrev main_v366 : Ref sig .tc := ⟨.hbm, 546, rfl⟩
abbrev main_v367 : Ref sig .tc := ⟨.hbm, 547, rfl⟩
abbrev main_c_68 : Ref sig .tc := ⟨.hbm, 548, rfl⟩
abbrev main_v368 : Ref sig .tc := ⟨.hbm, 549, rfl⟩
abbrev main_v369 : Ref sig .tc := ⟨.hbm, 550, rfl⟩
abbrev main_c_69 : Ref sig .tc := ⟨.hbm, 551, rfl⟩
abbrev main_v370 : Ref sig .tc := ⟨.hbm, 552, rfl⟩
abbrev main_v371 : Ref sig .tc := ⟨.hbm, 553, rfl⟩
abbrev main_v372 : Ref sig .tc := ⟨.hbm, 554, rfl⟩
abbrev main_v373 : Ref sig .tc := ⟨.hbm, 555, rfl⟩
abbrev main_v374 : Ref sig .tc := ⟨.hbm, 556, rfl⟩
abbrev main_cst_70 : Ref sig .tc := ⟨.hbm, 557, rfl⟩
abbrev main_v375 : Ref sig .tc := ⟨.hbm, 558, rfl⟩
abbrev main_v376 : Ref sig .tc := ⟨.hbm, 559, rfl⟩
abbrev main_v377 : Ref sig .tc := ⟨.hbm, 560, rfl⟩
abbrev main_v378 : Ref sig .tc := ⟨.hbm, 561, rfl⟩
abbrev main_v379 : Ref sig .tc := ⟨.hbm, 562, rfl⟩
abbrev main_v380 : Ref sig .tc := ⟨.hbm, 563, rfl⟩
abbrev main_v381 : Ref sig .tc := ⟨.hbm, 564, rfl⟩
abbrev main_v382 : Ref sig .tc := ⟨.hbm, 565, rfl⟩
abbrev main_v383 : Ref sig .tc := ⟨.hbm, 566, rfl⟩
abbrev main_v384 : Ref sig .tc := ⟨.hbm, 567, rfl⟩
abbrev main_v385 : Ref sig .tc := ⟨.hbm, 568, rfl⟩
abbrev main_v386 : Ref sig .tc := ⟨.hbm, 569, rfl⟩
abbrev main_v387 : Ref sig .tc := ⟨.hbm, 570, rfl⟩
abbrev main_v388 : Ref sig .tc := ⟨.hbm, 571, rfl⟩
abbrev main_v389 : Ref sig .tc := ⟨.hbm, 572, rfl⟩
abbrev main_c_71 : Ref sig .tc := ⟨.hbm, 573, rfl⟩
abbrev main_v390 : Ref sig .tc := ⟨.hbm, 574, rfl⟩
abbrev main_v391 : Ref sig .tc := ⟨.hbm, 575, rfl⟩
abbrev main_c_72 : Ref sig .tc := ⟨.hbm, 576, rfl⟩
abbrev main_v392 : Ref sig .tc := ⟨.hbm, 577, rfl⟩
abbrev main_v393 : Ref sig .tc := ⟨.hbm, 578, rfl⟩
abbrev main_v394 : Ref sig .tc := ⟨.hbm, 579, rfl⟩
abbrev main_v395 : Ref sig .tc := ⟨.hbm, 580, rfl⟩
abbrev main_v396 : Ref sig .tc := ⟨.hbm, 581, rfl⟩
abbrev main_cst_73 : Ref sig .tc := ⟨.hbm, 582, rfl⟩
abbrev main_v397 : Ref sig .tc := ⟨.hbm, 583, rfl⟩
abbrev main_v398 : Ref sig .tc := ⟨.hbm, 584, rfl⟩
abbrev main_v399 : Ref sig .tc := ⟨.hbm, 585, rfl⟩
abbrev main_v400 : Ref sig .tc := ⟨.hbm, 586, rfl⟩
abbrev main_v401 : Ref sig .tc := ⟨.hbm, 587, rfl⟩
abbrev main_v402 : Ref sig .tc := ⟨.hbm, 588, rfl⟩
abbrev main_c_74 : Ref sig .tc := ⟨.hbm, 589, rfl⟩
abbrev main_v403 : Ref sig .tc := ⟨.hbm, 590, rfl⟩
abbrev main_v404 : Ref sig .tc := ⟨.hbm, 591, rfl⟩
abbrev main_c_75 : Ref sig .tc := ⟨.hbm, 592, rfl⟩
abbrev main_v405 : Ref sig .tc := ⟨.hbm, 593, rfl⟩
abbrev main_v406 : Ref sig .tc := ⟨.hbm, 594, rfl⟩
abbrev main_v407 : Ref sig .tc := ⟨.hbm, 595, rfl⟩
abbrev main_v408 : Ref sig .tc := ⟨.hbm, 596, rfl⟩
abbrev main_v409 : Ref sig .tc := ⟨.hbm, 597, rfl⟩
abbrev main_cst_76 : Ref sig .tc := ⟨.hbm, 598, rfl⟩
abbrev main_v410 : Ref sig .tc := ⟨.hbm, 599, rfl⟩
abbrev main_v411 : Ref sig .tc := ⟨.hbm, 600, rfl⟩
abbrev main_v412 : Ref sig .tc := ⟨.hbm, 601, rfl⟩
abbrev main_v413 : Ref sig .tc := ⟨.hbm, 602, rfl⟩
abbrev main_v414 : Ref sig .tc := ⟨.hbm, 603, rfl⟩
abbrev main_v415 : Ref sig .tc := ⟨.hbm, 604, rfl⟩
abbrev main_v416 : Ref sig .tc := ⟨.hbm, 605, rfl⟩
abbrev main_v417 : Ref sig .tc := ⟨.hbm, 606, rfl⟩
abbrev main_v418 : Ref sig .tc := ⟨.hbm, 607, rfl⟩
abbrev main_v419 : Ref sig .tc := ⟨.hbm, 608, rfl⟩
abbrev main_v420 : Ref sig .tc := ⟨.hbm, 609, rfl⟩
abbrev main_v421 : Ref sig .tc := ⟨.hbm, 610, rfl⟩
abbrev main_v422 : Ref sig .tc := ⟨.hbm, 611, rfl⟩
abbrev main_cst_77 : Ref sig .tc := ⟨.hbm, 612, rfl⟩
abbrev main_v423 : Ref sig .tc := ⟨.hbm, 613, rfl⟩
abbrev main_cst_78 : Ref sig .tc := ⟨.hbm, 614, rfl⟩
abbrev main_v424 : Ref sig .tc := ⟨.hbm, 615, rfl⟩
abbrev main_v425 : Ref sig .tc := ⟨.hbm, 616, rfl⟩
abbrev main_c_79 : Ref sig .tc := ⟨.hbm, 617, rfl⟩
abbrev main_call10_cst : Ref sig .tc := ⟨.hbm, 618, rfl⟩
abbrev main_call10_v0 : Ref sig .tc := ⟨.hbm, 619, rfl⟩
abbrev main_call10_v1 : Ref sig .tc := ⟨.hbm, 620, rfl⟩
abbrev main_call10_cst_0 : Ref sig .tc := ⟨.hbm, 621, rfl⟩
abbrev main_call10_v2 : Ref sig .tc := ⟨.hbm, 622, rfl⟩
abbrev main_call10_v3 : Ref sig .tc := ⟨.hbm, 623, rfl⟩
abbrev main_call10_v4 : Ref sig .tc := ⟨.hbm, 624, rfl⟩
abbrev main_call10_v5 : Ref sig .tc := ⟨.hbm, 625, rfl⟩
abbrev main_call10_v6 : Ref sig .tc := ⟨.hbm, 626, rfl⟩
abbrev main_call10_v7 : Ref sig .tc := ⟨.hbm, 627, rfl⟩
abbrev main_call10_cst_1 : Ref sig .tc := ⟨.hbm, 628, rfl⟩
abbrev main_call10_v8 : Ref sig .tc := ⟨.hbm, 629, rfl⟩
abbrev main_call10_cst_2 : Ref sig .tc := ⟨.hbm, 630, rfl⟩
abbrev main_call10_v9 : Ref sig .tc := ⟨.hbm, 631, rfl⟩
abbrev main_call10_v10 : Ref sig .tc := ⟨.hbm, 632, rfl⟩
abbrev main_call10_v11 : Ref sig .tc := ⟨.hbm, 633, rfl⟩
abbrev main_call10_cst_3 : Ref sig .tc := ⟨.hbm, 634, rfl⟩
abbrev main_call10_v12 : Ref sig .tc := ⟨.hbm, 635, rfl⟩
abbrev main_call10_cst_4 : Ref sig .tc := ⟨.hbm, 636, rfl⟩
abbrev main_call10_call0_v0 : Ref sig .tc := ⟨.hbm, 637, rfl⟩
abbrev main_call10_call0_v1 : Ref sig .tc := ⟨.hbm, 638, rfl⟩
abbrev main_v426 : Ref sig .tc := ⟨.hbm, 639, rfl⟩
abbrev main_v427 : Ref sig .tc := ⟨.hbm, 640, rfl⟩
abbrev main_v428 : Ref sig .tc := ⟨.hbm, 641, rfl⟩
abbrev main_v429 : Ref sig .tc := ⟨.hbm, 642, rfl⟩
abbrev main_v430 : Ref sig .tc := ⟨.hbm, 643, rfl⟩
abbrev main_v431 : Ref sig .tc := ⟨.hbm, 644, rfl⟩
abbrev main_v432 : Ref sig .tc := ⟨.hbm, 645, rfl⟩
abbrev main_cst_80 : Ref sig .tc := ⟨.hbm, 646, rfl⟩
abbrev main_v433 : Ref sig .tc := ⟨.hbm, 647, rfl⟩
abbrev main_v434 : Ref sig .tc := ⟨.hbm, 648, rfl⟩
abbrev main_v435 : Ref sig .tc := ⟨.hbm, 649, rfl⟩
abbrev main_v436 : Ref sig .tc := ⟨.hbm, 650, rfl⟩
abbrev main_v437 : Ref sig .tc := ⟨.hbm, 651, rfl⟩
abbrev main_v438 : Ref sig .tc := ⟨.hbm, 652, rfl⟩
abbrev main_v439 : Ref sig .tc := ⟨.hbm, 653, rfl⟩
abbrev main_v440 : Ref sig .tc := ⟨.hbm, 654, rfl⟩
abbrev main_v441 : Ref sig .tc := ⟨.hbm, 655, rfl⟩
abbrev main_call11_cst : Ref sig .tc := ⟨.hbm, 656, rfl⟩
abbrev main_call11_v0 : Ref sig .tc := ⟨.hbm, 657, rfl⟩
abbrev main_v442 : Ref sig .tc := ⟨.hbm, 658, rfl⟩
abbrev main_v443 : Ref sig .tc := ⟨.hbm, 659, rfl⟩
abbrev main_v444 : Ref sig .tc := ⟨.hbm, 660, rfl⟩
abbrev main_v445 : Ref sig .tc := ⟨.hbm, 661, rfl⟩
abbrev main_v446 : Ref sig .tc := ⟨.hbm, 662, rfl⟩
abbrev main_v447 : Ref sig .tc := ⟨.hbm, 663, rfl⟩
abbrev main_c_81 : Ref sig .tc := ⟨.hbm, 664, rfl⟩
abbrev main_v448 : Ref sig .tc := ⟨.hbm, 665, rfl⟩
abbrev main_v449 : Ref sig .tc := ⟨.hbm, 666, rfl⟩
abbrev main_c_82 : Ref sig .tc := ⟨.hbm, 667, rfl⟩
abbrev main_v450 : Ref sig .tc := ⟨.hbm, 668, rfl⟩
abbrev main_v451 : Ref sig .tc := ⟨.hbm, 669, rfl⟩
abbrev main_v452 : Ref sig .tc := ⟨.hbm, 670, rfl⟩
abbrev main_v453 : Ref sig .tc := ⟨.hbm, 671, rfl⟩
abbrev main_v454 : Ref sig .tc := ⟨.hbm, 672, rfl⟩
abbrev main_cst_83 : Ref sig .tc := ⟨.hbm, 673, rfl⟩
abbrev main_v455 : Ref sig .tc := ⟨.hbm, 674, rfl⟩
abbrev main_v456 : Ref sig .tc := ⟨.hbm, 675, rfl⟩
abbrev main_v457 : Ref sig .tc := ⟨.hbm, 676, rfl⟩
abbrev main_v458 : Ref sig .tc := ⟨.hbm, 677, rfl⟩
abbrev main_v459 : Ref sig .tc := ⟨.hbm, 678, rfl⟩
abbrev main_v460 : Ref sig .tc := ⟨.hbm, 679, rfl⟩
abbrev main_c_84 : Ref sig .tc := ⟨.hbm, 680, rfl⟩
abbrev main_v461 : Ref sig .tc := ⟨.hbm, 681, rfl⟩
abbrev main_v462 : Ref sig .tc := ⟨.hbm, 682, rfl⟩
abbrev main_c_85 : Ref sig .tc := ⟨.hbm, 683, rfl⟩
abbrev main_v463 : Ref sig .tc := ⟨.hbm, 684, rfl⟩
abbrev main_v464 : Ref sig .tc := ⟨.hbm, 685, rfl⟩
abbrev main_v465 : Ref sig .tc := ⟨.hbm, 686, rfl⟩
abbrev main_v466 : Ref sig .tc := ⟨.hbm, 687, rfl⟩
abbrev main_v467 : Ref sig .tc := ⟨.hbm, 688, rfl⟩
abbrev main_cst_86 : Ref sig .tc := ⟨.hbm, 689, rfl⟩
abbrev main_v468 : Ref sig .tc := ⟨.hbm, 690, rfl⟩
abbrev main_v469 : Ref sig .tc := ⟨.hbm, 691, rfl⟩
abbrev main_v470 : Ref sig .tc := ⟨.hbm, 692, rfl⟩
abbrev main_v471 : Ref sig .tc := ⟨.hbm, 693, rfl⟩
abbrev main_v472 : Ref sig .tc := ⟨.hbm, 694, rfl⟩
abbrev main_v473 : Ref sig .tc := ⟨.hbm, 695, rfl⟩
abbrev main_v474 : Ref sig .tc := ⟨.hbm, 696, rfl⟩
abbrev main_v475 : Ref sig .tc := ⟨.hbm, 697, rfl⟩
abbrev main_v476 : Ref sig .tc := ⟨.hbm, 698, rfl⟩
abbrev main_v477 : Ref sig .tc := ⟨.hbm, 699, rfl⟩
abbrev main_v478 : Ref sig .tc := ⟨.hbm, 700, rfl⟩
abbrev main_v479 : Ref sig .tc := ⟨.hbm, 701, rfl⟩
abbrev main_v480 : Ref sig .tc := ⟨.hbm, 702, rfl⟩
abbrev main_v481 : Ref sig .tc := ⟨.hbm, 703, rfl⟩
abbrev main_v482 : Ref sig .tc := ⟨.hbm, 704, rfl⟩
abbrev main_c_87 : Ref sig .tc := ⟨.hbm, 705, rfl⟩
abbrev main_v483 : Ref sig .tc := ⟨.hbm, 706, rfl⟩
abbrev main_v484 : Ref sig .tc := ⟨.hbm, 707, rfl⟩
abbrev main_c_88 : Ref sig .tc := ⟨.hbm, 708, rfl⟩
abbrev main_v485 : Ref sig .tc := ⟨.hbm, 709, rfl⟩
abbrev main_v486 : Ref sig .tc := ⟨.hbm, 710, rfl⟩
abbrev main_v487 : Ref sig .tc := ⟨.hbm, 711, rfl⟩
abbrev main_v488 : Ref sig .tc := ⟨.hbm, 712, rfl⟩
abbrev main_v489 : Ref sig .tc := ⟨.hbm, 713, rfl⟩
abbrev main_cst_89 : Ref sig .tc := ⟨.hbm, 714, rfl⟩
abbrev main_v490 : Ref sig .tc := ⟨.hbm, 715, rfl⟩
abbrev main_v491 : Ref sig .tc := ⟨.hbm, 716, rfl⟩
abbrev main_v492 : Ref sig .tc := ⟨.hbm, 717, rfl⟩
abbrev main_v493 : Ref sig .tc := ⟨.hbm, 718, rfl⟩
abbrev main_v494 : Ref sig .tc := ⟨.hbm, 719, rfl⟩
abbrev main_v495 : Ref sig .tc := ⟨.hbm, 720, rfl⟩
abbrev main_c_90 : Ref sig .tc := ⟨.hbm, 721, rfl⟩
abbrev main_v496 : Ref sig .tc := ⟨.hbm, 722, rfl⟩
abbrev main_v497 : Ref sig .tc := ⟨.hbm, 723, rfl⟩
abbrev main_c_91 : Ref sig .tc := ⟨.hbm, 724, rfl⟩
abbrev main_v498 : Ref sig .tc := ⟨.hbm, 725, rfl⟩
abbrev main_v499 : Ref sig .tc := ⟨.hbm, 726, rfl⟩
abbrev main_v500 : Ref sig .tc := ⟨.hbm, 727, rfl⟩
abbrev main_v501 : Ref sig .tc := ⟨.hbm, 728, rfl⟩
abbrev main_v502 : Ref sig .tc := ⟨.hbm, 729, rfl⟩
abbrev main_cst_92 : Ref sig .tc := ⟨.hbm, 730, rfl⟩
abbrev main_v503 : Ref sig .tc := ⟨.hbm, 731, rfl⟩
abbrev main_v504 : Ref sig .tc := ⟨.hbm, 732, rfl⟩
abbrev main_v505 : Ref sig .tc := ⟨.hbm, 733, rfl⟩
abbrev main_v506 : Ref sig .tc := ⟨.hbm, 734, rfl⟩
abbrev main_v507 : Ref sig .tc := ⟨.hbm, 735, rfl⟩
abbrev main_v508 : Ref sig .tc := ⟨.hbm, 736, rfl⟩
abbrev main_v509 : Ref sig .tc := ⟨.hbm, 737, rfl⟩
abbrev main_v510 : Ref sig .tc := ⟨.hbm, 738, rfl⟩
abbrev main_v511 : Ref sig .tc := ⟨.hbm, 739, rfl⟩
abbrev main_v512 : Ref sig .tc := ⟨.hbm, 740, rfl⟩
abbrev main_v513 : Ref sig .tc := ⟨.hbm, 741, rfl⟩
abbrev main_v514 : Ref sig .tc := ⟨.hbm, 742, rfl⟩
abbrev main_v515 : Ref sig .tc := ⟨.hbm, 743, rfl⟩
abbrev main_cst_93 : Ref sig .tc := ⟨.hbm, 744, rfl⟩
abbrev main_v516 : Ref sig .tc := ⟨.hbm, 745, rfl⟩
abbrev main_cst_94 : Ref sig .tc := ⟨.hbm, 746, rfl⟩
abbrev main_v517 : Ref sig .tc := ⟨.hbm, 747, rfl⟩
abbrev main_v518 : Ref sig .tc := ⟨.hbm, 748, rfl⟩
abbrev main_c_95 : Ref sig .tc := ⟨.hbm, 749, rfl⟩
abbrev main_call12_cst : Ref sig .tc := ⟨.hbm, 750, rfl⟩
abbrev main_call12_v0 : Ref sig .tc := ⟨.hbm, 751, rfl⟩
abbrev main_call12_v1 : Ref sig .tc := ⟨.hbm, 752, rfl⟩
abbrev main_call12_cst_0 : Ref sig .tc := ⟨.hbm, 753, rfl⟩
abbrev main_call12_v2 : Ref sig .tc := ⟨.hbm, 754, rfl⟩
abbrev main_call12_v3 : Ref sig .tc := ⟨.hbm, 755, rfl⟩
abbrev main_call12_v4 : Ref sig .tc := ⟨.hbm, 756, rfl⟩
abbrev main_call12_v5 : Ref sig .tc := ⟨.hbm, 757, rfl⟩
abbrev main_call12_v6 : Ref sig .tc := ⟨.hbm, 758, rfl⟩
abbrev main_call12_v7 : Ref sig .tc := ⟨.hbm, 759, rfl⟩
abbrev main_call12_cst_1 : Ref sig .tc := ⟨.hbm, 760, rfl⟩
abbrev main_call12_v8 : Ref sig .tc := ⟨.hbm, 761, rfl⟩
abbrev main_call12_cst_2 : Ref sig .tc := ⟨.hbm, 762, rfl⟩
abbrev main_call12_v9 : Ref sig .tc := ⟨.hbm, 763, rfl⟩
abbrev main_call12_v10 : Ref sig .tc := ⟨.hbm, 764, rfl⟩
abbrev main_call12_v11 : Ref sig .tc := ⟨.hbm, 765, rfl⟩
abbrev main_call12_cst_3 : Ref sig .tc := ⟨.hbm, 766, rfl⟩
abbrev main_call12_v12 : Ref sig .tc := ⟨.hbm, 767, rfl⟩
abbrev main_call12_cst_4 : Ref sig .tc := ⟨.hbm, 768, rfl⟩
abbrev main_call12_call0_v0 : Ref sig .tc := ⟨.hbm, 769, rfl⟩
abbrev main_call12_call0_v1 : Ref sig .tc := ⟨.hbm, 770, rfl⟩
abbrev main_v519 : Ref sig .tc := ⟨.hbm, 771, rfl⟩
abbrev main_v520 : Ref sig .tc := ⟨.hbm, 772, rfl⟩
abbrev main_v521 : Ref sig .tc := ⟨.hbm, 773, rfl⟩
abbrev main_v522 : Ref sig .tc := ⟨.hbm, 774, rfl⟩
abbrev main_v523 : Ref sig .tc := ⟨.hbm, 775, rfl⟩
abbrev main_v524 : Ref sig .tc := ⟨.hbm, 776, rfl⟩
abbrev main_v525 : Ref sig .tc := ⟨.hbm, 777, rfl⟩
abbrev main_cst_96 : Ref sig .tc := ⟨.hbm, 778, rfl⟩
abbrev main_v526 : Ref sig .tc := ⟨.hbm, 779, rfl⟩
abbrev main_v527 : Ref sig .tc := ⟨.hbm, 780, rfl⟩
abbrev main_v528 : Ref sig .tc := ⟨.hbm, 781, rfl⟩
abbrev main_v529 : Ref sig .tc := ⟨.hbm, 782, rfl⟩
abbrev main_v530 : Ref sig .tc := ⟨.hbm, 783, rfl⟩
abbrev main_v531 : Ref sig .tc := ⟨.hbm, 784, rfl⟩
abbrev main_v532 : Ref sig .tc := ⟨.hbm, 785, rfl⟩
abbrev main_v533 : Ref sig .tc := ⟨.hbm, 786, rfl⟩
abbrev main_v534 : Ref sig .tc := ⟨.hbm, 787, rfl⟩
abbrev main_call13_cst : Ref sig .tc := ⟨.hbm, 788, rfl⟩
abbrev main_call13_v0 : Ref sig .tc := ⟨.hbm, 789, rfl⟩
abbrev main_v535 : Ref sig .tc := ⟨.hbm, 790, rfl⟩
abbrev main_v536 : Ref sig .tc := ⟨.hbm, 791, rfl⟩
abbrev main_v537 : Ref sig .tc := ⟨.hbm, 792, rfl⟩
abbrev main_v538 : Ref sig .tc := ⟨.hbm, 793, rfl⟩
abbrev main_v539 : Ref sig .tc := ⟨.hbm, 794, rfl⟩
abbrev main_v540 : Ref sig .tc := ⟨.hbm, 795, rfl⟩
abbrev main_c_97 : Ref sig .tc := ⟨.hbm, 796, rfl⟩
abbrev main_v541 : Ref sig .tc := ⟨.hbm, 797, rfl⟩
abbrev main_v542 : Ref sig .tc := ⟨.hbm, 798, rfl⟩
abbrev main_c_98 : Ref sig .tc := ⟨.hbm, 799, rfl⟩
abbrev main_v543 : Ref sig .tc := ⟨.hbm, 800, rfl⟩
abbrev main_v544 : Ref sig .tc := ⟨.hbm, 801, rfl⟩
abbrev main_v545 : Ref sig .tc := ⟨.hbm, 802, rfl⟩
abbrev main_v546 : Ref sig .tc := ⟨.hbm, 803, rfl⟩
abbrev main_v547 : Ref sig .tc := ⟨.hbm, 804, rfl⟩
abbrev main_cst_99 : Ref sig .tc := ⟨.hbm, 805, rfl⟩
abbrev main_v548 : Ref sig .tc := ⟨.hbm, 806, rfl⟩
abbrev main_v549 : Ref sig .tc := ⟨.hbm, 807, rfl⟩
abbrev main_v550 : Ref sig .tc := ⟨.hbm, 808, rfl⟩
abbrev main_v551 : Ref sig .tc := ⟨.hbm, 809, rfl⟩
abbrev main_v552 : Ref sig .tc := ⟨.hbm, 810, rfl⟩
abbrev main_v553 : Ref sig .tc := ⟨.hbm, 811, rfl⟩
abbrev main_c_100 : Ref sig .tc := ⟨.hbm, 812, rfl⟩
abbrev main_v554 : Ref sig .tc := ⟨.hbm, 813, rfl⟩
abbrev main_v555 : Ref sig .tc := ⟨.hbm, 814, rfl⟩
abbrev main_c_101 : Ref sig .tc := ⟨.hbm, 815, rfl⟩
abbrev main_v556 : Ref sig .tc := ⟨.hbm, 816, rfl⟩
abbrev main_v557 : Ref sig .tc := ⟨.hbm, 817, rfl⟩
abbrev main_v558 : Ref sig .tc := ⟨.hbm, 818, rfl⟩
abbrev main_v559 : Ref sig .tc := ⟨.hbm, 819, rfl⟩
abbrev main_v560 : Ref sig .tc := ⟨.hbm, 820, rfl⟩
abbrev main_cst_102 : Ref sig .tc := ⟨.hbm, 821, rfl⟩
abbrev main_v561 : Ref sig .tc := ⟨.hbm, 822, rfl⟩
abbrev main_v562 : Ref sig .tc := ⟨.hbm, 823, rfl⟩
abbrev main_v563 : Ref sig .tc := ⟨.hbm, 824, rfl⟩
abbrev main_v564 : Ref sig .tc := ⟨.hbm, 825, rfl⟩
abbrev main_v565 : Ref sig .tc := ⟨.hbm, 826, rfl⟩
abbrev main_v566 : Ref sig .tc := ⟨.hbm, 827, rfl⟩
abbrev main_v567 : Ref sig .tc := ⟨.hbm, 828, rfl⟩
abbrev main_v568 : Ref sig .tc := ⟨.hbm, 829, rfl⟩
abbrev main_v569 : Ref sig .tc := ⟨.hbm, 830, rfl⟩
abbrev main_v570 : Ref sig .tc := ⟨.hbm, 831, rfl⟩
abbrev main_v571 : Ref sig .tc := ⟨.hbm, 832, rfl⟩
abbrev main_v572 : Ref sig .tc := ⟨.hbm, 833, rfl⟩
abbrev main_v573 : Ref sig .tc := ⟨.hbm, 834, rfl⟩
abbrev main_v574 : Ref sig .tc := ⟨.hbm, 835, rfl⟩
abbrev main_v575 : Ref sig .tc := ⟨.hbm, 836, rfl⟩
abbrev main_c_103 : Ref sig .tc := ⟨.hbm, 837, rfl⟩
abbrev main_v576 : Ref sig .tc := ⟨.hbm, 838, rfl⟩
abbrev main_v577 : Ref sig .tc := ⟨.hbm, 839, rfl⟩
abbrev main_c_104 : Ref sig .tc := ⟨.hbm, 840, rfl⟩
abbrev main_v578 : Ref sig .tc := ⟨.hbm, 841, rfl⟩
abbrev main_v579 : Ref sig .tc := ⟨.hbm, 842, rfl⟩
abbrev main_v580 : Ref sig .tc := ⟨.hbm, 843, rfl⟩
abbrev main_v581 : Ref sig .tc := ⟨.hbm, 844, rfl⟩
abbrev main_v582 : Ref sig .tc := ⟨.hbm, 845, rfl⟩
abbrev main_cst_105 : Ref sig .tc := ⟨.hbm, 846, rfl⟩
abbrev main_v583 : Ref sig .tc := ⟨.hbm, 847, rfl⟩
abbrev main_v584 : Ref sig .tc := ⟨.hbm, 848, rfl⟩
abbrev main_v585 : Ref sig .tc := ⟨.hbm, 849, rfl⟩
abbrev main_v586 : Ref sig .tc := ⟨.hbm, 850, rfl⟩
abbrev main_v587 : Ref sig .tc := ⟨.hbm, 851, rfl⟩
abbrev main_v588 : Ref sig .tc := ⟨.hbm, 852, rfl⟩
abbrev main_c_106 : Ref sig .tc := ⟨.hbm, 853, rfl⟩
abbrev main_v589 : Ref sig .tc := ⟨.hbm, 854, rfl⟩
abbrev main_v590 : Ref sig .tc := ⟨.hbm, 855, rfl⟩
abbrev main_c_107 : Ref sig .tc := ⟨.hbm, 856, rfl⟩
abbrev main_v591 : Ref sig .tc := ⟨.hbm, 857, rfl⟩
abbrev main_v592 : Ref sig .tc := ⟨.hbm, 858, rfl⟩
abbrev main_v593 : Ref sig .tc := ⟨.hbm, 859, rfl⟩
abbrev main_v594 : Ref sig .tc := ⟨.hbm, 860, rfl⟩
abbrev main_v595 : Ref sig .tc := ⟨.hbm, 861, rfl⟩
abbrev main_cst_108 : Ref sig .tc := ⟨.hbm, 862, rfl⟩
abbrev main_v596 : Ref sig .tc := ⟨.hbm, 863, rfl⟩
abbrev main_v597 : Ref sig .tc := ⟨.hbm, 864, rfl⟩
abbrev main_v598 : Ref sig .tc := ⟨.hbm, 865, rfl⟩
abbrev main_v599 : Ref sig .tc := ⟨.hbm, 866, rfl⟩
abbrev main_v600 : Ref sig .tc := ⟨.hbm, 867, rfl⟩
abbrev main_v601 : Ref sig .tc := ⟨.hbm, 868, rfl⟩
abbrev main_v602 : Ref sig .tc := ⟨.hbm, 869, rfl⟩
abbrev main_v603 : Ref sig .tc := ⟨.hbm, 870, rfl⟩
abbrev main_v604 : Ref sig .tc := ⟨.hbm, 871, rfl⟩
abbrev main_v605 : Ref sig .tc := ⟨.hbm, 872, rfl⟩
abbrev main_v606 : Ref sig .tc := ⟨.hbm, 873, rfl⟩
abbrev main_v607 : Ref sig .tc := ⟨.hbm, 874, rfl⟩
abbrev main_v608 : Ref sig .tc := ⟨.hbm, 875, rfl⟩
abbrev main_cst_109 : Ref sig .tc := ⟨.hbm, 876, rfl⟩
abbrev main_v609 : Ref sig .tc := ⟨.hbm, 877, rfl⟩
abbrev main_cst_110 : Ref sig .tc := ⟨.hbm, 878, rfl⟩
abbrev main_v610 : Ref sig .tc := ⟨.hbm, 879, rfl⟩
abbrev main_v611 : Ref sig .tc := ⟨.hbm, 880, rfl⟩
abbrev main_c_111 : Ref sig .tc := ⟨.hbm, 881, rfl⟩
abbrev main_call14_cst : Ref sig .tc := ⟨.hbm, 882, rfl⟩
abbrev main_call14_v0 : Ref sig .tc := ⟨.hbm, 883, rfl⟩
abbrev main_call14_v1 : Ref sig .tc := ⟨.hbm, 884, rfl⟩
abbrev main_call14_cst_0 : Ref sig .tc := ⟨.hbm, 885, rfl⟩
abbrev main_call14_v2 : Ref sig .tc := ⟨.hbm, 886, rfl⟩
abbrev main_call14_v3 : Ref sig .tc := ⟨.hbm, 887, rfl⟩
abbrev main_call14_v4 : Ref sig .tc := ⟨.hbm, 888, rfl⟩
abbrev main_call14_v5 : Ref sig .tc := ⟨.hbm, 889, rfl⟩
abbrev main_call14_v6 : Ref sig .tc := ⟨.hbm, 890, rfl⟩
abbrev main_call14_v7 : Ref sig .tc := ⟨.hbm, 891, rfl⟩
abbrev main_call14_cst_1 : Ref sig .tc := ⟨.hbm, 892, rfl⟩
abbrev main_call14_v8 : Ref sig .tc := ⟨.hbm, 893, rfl⟩
abbrev main_call14_cst_2 : Ref sig .tc := ⟨.hbm, 894, rfl⟩
abbrev main_call14_v9 : Ref sig .tc := ⟨.hbm, 895, rfl⟩
abbrev main_call14_v10 : Ref sig .tc := ⟨.hbm, 896, rfl⟩
abbrev main_call14_v11 : Ref sig .tc := ⟨.hbm, 897, rfl⟩
abbrev main_call14_cst_3 : Ref sig .tc := ⟨.hbm, 898, rfl⟩
abbrev main_call14_v12 : Ref sig .tc := ⟨.hbm, 899, rfl⟩
abbrev main_call14_cst_4 : Ref sig .tc := ⟨.hbm, 900, rfl⟩
abbrev main_call14_call0_v0 : Ref sig .tc := ⟨.hbm, 901, rfl⟩
abbrev main_call14_call0_v1 : Ref sig .tc := ⟨.hbm, 902, rfl⟩
abbrev main_v612 : Ref sig .tc := ⟨.hbm, 903, rfl⟩
abbrev main_v613 : Ref sig .tc := ⟨.hbm, 904, rfl⟩
abbrev main_v614 : Ref sig .tc := ⟨.hbm, 905, rfl⟩
abbrev main_v615 : Ref sig .tc := ⟨.hbm, 906, rfl⟩
abbrev main_v616 : Ref sig .tc := ⟨.hbm, 907, rfl⟩
abbrev main_v617 : Ref sig .tc := ⟨.hbm, 908, rfl⟩
abbrev main_v618 : Ref sig .tc := ⟨.hbm, 909, rfl⟩
abbrev main_cst_112 : Ref sig .tc := ⟨.hbm, 910, rfl⟩
abbrev main_v619 : Ref sig .tc := ⟨.hbm, 911, rfl⟩
abbrev main_v620 : Ref sig .tc := ⟨.hbm, 912, rfl⟩
abbrev main_v621 : Ref sig .tc := ⟨.hbm, 913, rfl⟩
abbrev main_v622 : Ref sig .tc := ⟨.hbm, 914, rfl⟩
abbrev main_v623 : Ref sig .tc := ⟨.hbm, 915, rfl⟩
abbrev main_v624 : Ref sig .tc := ⟨.hbm, 916, rfl⟩
abbrev main_v625 : Ref sig .tc := ⟨.hbm, 917, rfl⟩
abbrev main_v626 : Ref sig .tc := ⟨.hbm, 918, rfl⟩
abbrev main_v627 : Ref sig .tc := ⟨.hbm, 919, rfl⟩
abbrev main_call15_cst : Ref sig .tc := ⟨.hbm, 920, rfl⟩
abbrev main_call15_v0 : Ref sig .tc := ⟨.hbm, 921, rfl⟩
abbrev main_v628 : Ref sig .tc := ⟨.hbm, 922, rfl⟩
abbrev main_v629 : Ref sig .tc := ⟨.hbm, 923, rfl⟩
abbrev main_v630 : Ref sig .tc := ⟨.hbm, 924, rfl⟩
abbrev main_v631 : Ref sig .tc := ⟨.hbm, 925, rfl⟩
abbrev main_v632 : Ref sig .tc := ⟨.hbm, 926, rfl⟩
abbrev main_v633 : Ref sig .tc := ⟨.hbm, 927, rfl⟩
abbrev main_c_113 : Ref sig .tc := ⟨.hbm, 928, rfl⟩
abbrev main_v634 : Ref sig .tc := ⟨.hbm, 929, rfl⟩
abbrev main_v635 : Ref sig .tc := ⟨.hbm, 930, rfl⟩
abbrev main_c_114 : Ref sig .tc := ⟨.hbm, 931, rfl⟩
abbrev main_v636 : Ref sig .tc := ⟨.hbm, 932, rfl⟩
abbrev main_v637 : Ref sig .tc := ⟨.hbm, 933, rfl⟩
abbrev main_v638 : Ref sig .tc := ⟨.hbm, 934, rfl⟩
abbrev main_v639 : Ref sig .tc := ⟨.hbm, 935, rfl⟩
abbrev main_v640 : Ref sig .tc := ⟨.hbm, 936, rfl⟩
abbrev main_cst_115 : Ref sig .tc := ⟨.hbm, 937, rfl⟩
abbrev main_v641 : Ref sig .tc := ⟨.hbm, 938, rfl⟩
abbrev main_v642 : Ref sig .tc := ⟨.hbm, 939, rfl⟩
abbrev main_v643 : Ref sig .tc := ⟨.hbm, 940, rfl⟩
abbrev main_v644 : Ref sig .tc := ⟨.hbm, 941, rfl⟩
abbrev main_v645 : Ref sig .tc := ⟨.hbm, 942, rfl⟩
abbrev main_v646 : Ref sig .tc := ⟨.hbm, 943, rfl⟩
abbrev main_c_116 : Ref sig .tc := ⟨.hbm, 944, rfl⟩
abbrev main_v647 : Ref sig .tc := ⟨.hbm, 945, rfl⟩
abbrev main_v648 : Ref sig .tc := ⟨.hbm, 946, rfl⟩
abbrev main_c_117 : Ref sig .tc := ⟨.hbm, 947, rfl⟩
abbrev main_v649 : Ref sig .tc := ⟨.hbm, 948, rfl⟩
abbrev main_v650 : Ref sig .tc := ⟨.hbm, 949, rfl⟩
abbrev main_v651 : Ref sig .tc := ⟨.hbm, 950, rfl⟩
abbrev main_v652 : Ref sig .tc := ⟨.hbm, 951, rfl⟩
abbrev main_v653 : Ref sig .tc := ⟨.hbm, 952, rfl⟩
abbrev main_cst_118 : Ref sig .tc := ⟨.hbm, 953, rfl⟩
abbrev main_v654 : Ref sig .tc := ⟨.hbm, 954, rfl⟩
abbrev main_v655 : Ref sig .tc := ⟨.hbm, 955, rfl⟩
abbrev main_v656 : Ref sig .tc := ⟨.hbm, 956, rfl⟩
abbrev main_v657 : Ref sig .tc := ⟨.hbm, 957, rfl⟩
abbrev main_v658 : Ref sig .tc := ⟨.hbm, 958, rfl⟩
abbrev main_v659 : Ref sig .tc := ⟨.hbm, 959, rfl⟩
abbrev main_v660 : Ref sig .tc := ⟨.hbm, 960, rfl⟩
abbrev main_v661 : Ref sig .tc := ⟨.hbm, 961, rfl⟩
abbrev main_v662 : Ref sig .tc := ⟨.hbm, 962, rfl⟩
abbrev main_v663 : Ref sig .tc := ⟨.hbm, 963, rfl⟩
abbrev main_v664 : Ref sig .tc := ⟨.hbm, 964, rfl⟩
abbrev main_v665 : Ref sig .tc := ⟨.hbm, 965, rfl⟩
abbrev main_c_119 : Ref sig .tc := ⟨.hbm, 966, rfl⟩
abbrev main_v666 : Ref sig .tc := ⟨.hbm, 967, rfl⟩
abbrev main_v667 : Ref sig .tc := ⟨.hbm, 968, rfl⟩
abbrev main_c_120 : Ref sig .tc := ⟨.hbm, 969, rfl⟩
abbrev main_v668 : Ref sig .tc := ⟨.hbm, 970, rfl⟩
abbrev main_v669 : Ref sig .tc := ⟨.hbm, 971, rfl⟩
abbrev main_v670 : Ref sig .tc := ⟨.hbm, 972, rfl⟩
abbrev main_v671 : Ref sig .tc := ⟨.hbm, 973, rfl⟩
abbrev main_v672 : Ref sig .tc := ⟨.hbm, 974, rfl⟩
abbrev main_cst_121 : Ref sig .tc := ⟨.hbm, 975, rfl⟩
abbrev main_v673 : Ref sig .tc := ⟨.hbm, 976, rfl⟩
abbrev main_v674 : Ref sig .tc := ⟨.hbm, 977, rfl⟩
abbrev main_v675 : Ref sig .tc := ⟨.hbm, 978, rfl⟩
abbrev main_v676 : Ref sig .tc := ⟨.hbm, 979, rfl⟩
abbrev main_v677 : Ref sig .tc := ⟨.hbm, 980, rfl⟩
abbrev main_v678 : Ref sig .tc := ⟨.hbm, 981, rfl⟩
abbrev main_c_122 : Ref sig .tc := ⟨.hbm, 982, rfl⟩
abbrev main_v679 : Ref sig .tc := ⟨.hbm, 983, rfl⟩
abbrev main_v680 : Ref sig .tc := ⟨.hbm, 984, rfl⟩
abbrev main_c_123 : Ref sig .tc := ⟨.hbm, 985, rfl⟩
abbrev main_v681 : Ref sig .tc := ⟨.hbm, 986, rfl⟩
abbrev main_v682 : Ref sig .tc := ⟨.hbm, 987, rfl⟩
abbrev main_v683 : Ref sig .tc := ⟨.hbm, 988, rfl⟩
abbrev main_v684 : Ref sig .tc := ⟨.hbm, 989, rfl⟩
abbrev main_v685 : Ref sig .tc := ⟨.hbm, 990, rfl⟩
abbrev main_cst_124 : Ref sig .tc := ⟨.hbm, 991, rfl⟩
abbrev main_v686 : Ref sig .tc := ⟨.hbm, 992, rfl⟩
abbrev main_v687 : Ref sig .tc := ⟨.hbm, 993, rfl⟩
abbrev main_v688 : Ref sig .tc := ⟨.hbm, 994, rfl⟩
abbrev main_v689 : Ref sig .tc := ⟨.hbm, 995, rfl⟩
abbrev main_v690 : Ref sig .tc := ⟨.hbm, 996, rfl⟩
abbrev main_v691 : Ref sig .tc := ⟨.hbm, 997, rfl⟩
abbrev main_v692 : Ref sig .tc := ⟨.hbm, 998, rfl⟩
abbrev main_v693 : Ref sig .tc := ⟨.hbm, 999, rfl⟩
abbrev main_v694 : Ref sig .tc := ⟨.hbm, 1000, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S_S20000 : S_.BroadcastsInDim S20000 (![] : Fin 0 → Fin S20000.rank)
  bcast_S_S20000x80 : S_.BroadcastsInDim S20000x80 (![] : Fin 0 → Fin S20000x80.rank)
  bcast_S20000_S20000x1_0 : S20000.BroadcastsInDim S20000x1 (![0] : Fin 1 → Fin S20000x1.rank)
  bcast_S20000x1_S20000x80_0_1 : S20000x1.BroadcastsInDim S20000x80 (![0, 1] : Fin 2 → Fin S20000x80.rank)
  bcast_S_S100000x80 : S_.BroadcastsInDim S100000x80 (![] : Fin 0 → Fin S100000x80.rank)
  bcast_S100000_S100000x1_0 : S100000.BroadcastsInDim S100000x1 (![0] : Fin 1 → Fin S100000x1.rank)
  bcast_S100000x1_S100000x80_0_1 : S100000x1.BroadcastsInDim S100000x80 (![0, 1] : Fin 2 → Fin S100000x80.rank)
  bcast_S80_S1x80_1 : S80.BroadcastsInDim S1x80 (![1] : Fin 1 → Fin S1x80.rank)
  bcast_S1x80_S100000x80_0_1 : S1x80.BroadcastsInDim S100000x80 (![0, 1] : Fin 2 → Fin S100000x80.rank)
  slices_S7x80_S1x80_0_0 : S7x80.Slices ![0, 0] S1x80
  shapeCasts_S1x80_S80 : S1x80.ShapeCasts S80
  reducesTo_S100000x80_S80_d0 : S100000x80.ReducesTo [0] S80
  h_S_ : 0 < S_.numel
  bcast_S_S80 : S_.BroadcastsInDim S80 (![] : Fin 0 → Fin S80.rank)
  bcast_S_S1x80 : S_.BroadcastsInDim S1x80 (![] : Fin 0 → Fin S1x80.rank)
  slices_S6x80x80_S1x80x80_0_0_0 : S6x80x80.Slices ![0, 0, 0] S1x80x80
  shapeCasts_S1x80x80_S80x80 : S1x80x80.ShapeCasts S80x80
  slices_S6x80_S1x80_0_0 : S6x80.Slices ![0, 0] S1x80
  slices_S7x80_S1x80_1_0 : S7x80.Slices ![1, 0] S1x80
  slices_S6x80x80_S1x80x80_1_0_0 : S6x80x80.Slices ![1, 0, 0] S1x80x80
  slices_S6x80_S1x80_1_0 : S6x80.Slices ![1, 0] S1x80
  slices_S7x80_S1x80_2_0 : S7x80.Slices ![2, 0] S1x80
  slices_S6x80x80_S1x80x80_2_0_0 : S6x80x80.Slices ![2, 0, 0] S1x80x80
  slices_S6x80_S1x80_2_0 : S6x80.Slices ![2, 0] S1x80
  slices_S7x80_S1x80_3_0 : S7x80.Slices ![3, 0] S1x80
  slices_S6x80x80_S1x80x80_3_0_0 : S6x80x80.Slices ![3, 0, 0] S1x80x80
  slices_S6x80_S1x80_3_0 : S6x80.Slices ![3, 0] S1x80
  slices_S7x80_S1x80_4_0 : S7x80.Slices ![4, 0] S1x80
  slices_S6x80x80_S1x80x80_4_0_0 : S6x80x80.Slices ![4, 0, 0] S1x80x80
  slices_S6x80_S1x80_4_0 : S6x80.Slices ![4, 0] S1x80
  slices_S7x80_S1x80_5_0 : S7x80.Slices ![5, 0] S1x80
  slices_S6x80x80_S1x80x80_5_0_0 : S6x80x80.Slices ![5, 0, 0] S1x80x80
  slices_S6x80_S1x80_5_0 : S6x80.Slices ![5, 0] S1x80
  slices_S7x80_S1x80_6_0 : S7x80.Slices ![6, 0] S1x80
  concatenates_S100000x80_S100000x96_S100000x176_d1 : Shape.Concatenates [S100000x80, S100000x96] S100000x176 1
  bcast_S_S20000x48 : S_.BroadcastsInDim S20000x48 (![] : Fin 0 → Fin S20000x48.rank)
  bcast_S20000x1_S20000x48_0_1 : S20000x1.BroadcastsInDim S20000x48 (![0, 1] : Fin 2 → Fin S20000x48.rank)
  bcast_S_S100000x48 : S_.BroadcastsInDim S100000x48 (![] : Fin 0 → Fin S100000x48.rank)
  bcast_S100000x1_S100000x48_0_1 : S100000x1.BroadcastsInDim S100000x48 (![0, 1] : Fin 2 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  scatter_S100000_S1000000x1_S1000000_n_0_0_1_wf : ScatterDims.WF S100000 S1000000x1 S1000000 [] [0] [0] 1
  scatter_S20000_S1000000x1_S1000000_n_0_0_1_wf : ScatterDims.WF S20000 S1000000x1 S1000000 [] [0] [0] 1
  dot_S100000x96_S96x80_S100000x80_1_0_0_1_n_n_wf : DotDims.WF S100000x96 S96x80 S100000x80 [1] [0] [0] [1] [] []
  gather_S100000x80_S1000000x1_S1000000x80_1_0_n_n_0_1_180_wf : GatherDims.WF S100000x80 S1000000x1 S1000000x80 [1] [0] [] [0] [] 1 ![1, 80]
  scatter_S20000x80_S1000000x1_S1000000x80_1_0_0_1_wf : ScatterDims.WF S20000x80 S1000000x1 S1000000x80 [1] [0] [0] 1
  gather_S20000x80_S1000000x1_S1000000x80_1_0_n_n_0_1_180_wf : GatherDims.WF S20000x80 S1000000x1 S1000000x80 [1] [0] [] [0] [] 1 ![1, 80]
  scatter_S100000x80_S1000000x1_S1000000x80_1_0_0_1_wf : ScatterDims.WF S100000x80 S1000000x1 S1000000x80 [1] [0] [0] 1
  dot_S100000x80_S80x80_S100000x80_1_0_0_1_n_n_wf : DotDims.WF S100000x80 S80x80 S100000x80 [1] [0] [0] [1] [] []
  dot_S100000x176_S176x48_S100000x48_1_0_0_1_n_n_wf : DotDims.WF S100000x176 S176x48 S100000x48 [1] [0] [0] [1] [] []
  gather_S100000x48_S1000000x1_S1000000x48_1_0_n_n_0_1_148_wf : GatherDims.WF S100000x48 S1000000x1 S1000000x48 [1] [0] [] [0] [] 1 ![1, 48]
  scatter_S20000x48_S1000000x1_S1000000x48_1_0_0_1_wf : ScatterDims.WF S20000x48 S1000000x1 S1000000x48 [1] [0] [0] 1
  gather_S20000x48_S1000000x1_S1000000x48_1_0_n_n_0_1_148_wf : GatherDims.WF S20000x48 S1000000x1 S1000000x48 [1] [0] [] [0] [] 1 ![1, 48]
  scatter_S100000x48_S1000000x1_S1000000x48_1_0_0_1_wf : ScatterDims.WF S100000x48 S1000000x1 S1000000x48 [1] [0] [0] 1

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S100000x96_S96x80_S100000x80_1_0_0_1_n_n : DotDims S100000x96 S96x80 S100000x80 where
  lhsContracting := [1]
  rhsContracting := [0]
  lhsNonContracting := [0]
  rhsNonContracting := [1]
  lhsBatch := []
  rhsBatch := []
  wf := dot_S100000x96_S96x80_S100000x80_1_0_0_1_n_n_wf
def gather_S100000x80_S1000000x1_S1000000x80_1_0_n_n_0_1_180 : GatherDims S100000x80 S1000000x1 S1000000x80 where
  offsetDims := [1]
  collapsedSliceDims := [0]
  operandBatchingDims := []
  startIndicesBatchingDims := []
  startIndexMap := [0]
  indexVectorDim := 1
  sliceSizes := ![1, 80]
  wf := gather_S100000x80_S1000000x1_S1000000x80_1_0_n_n_0_1_180_wf
def scatter_S20000x80_S1000000x1_S1000000x80_1_0_0_1 : ScatterDims S20000x80 S1000000x1 S1000000x80 where
  updateWindowDims := [1]
  insertedWindowDims := [0]
  scatterDimsToOperandDims := [0]
  indexVectorDim := 1
  wf := scatter_S20000x80_S1000000x1_S1000000x80_1_0_0_1_wf
def gather_S20000x80_S1000000x1_S1000000x80_1_0_n_n_0_1_180 : GatherDims S20000x80 S1000000x1 S1000000x80 where
  offsetDims := [1]
  collapsedSliceDims := [0]
  operandBatchingDims := []
  startIndicesBatchingDims := []
  startIndexMap := [0]
  indexVectorDim := 1
  sliceSizes := ![1, 80]
  wf := gather_S20000x80_S1000000x1_S1000000x80_1_0_n_n_0_1_180_wf
def scatter_S100000x80_S1000000x1_S1000000x80_1_0_0_1 : ScatterDims S100000x80 S1000000x1 S1000000x80 where
  updateWindowDims := [1]
  insertedWindowDims := [0]
  scatterDimsToOperandDims := [0]
  indexVectorDim := 1
  wf := scatter_S100000x80_S1000000x1_S1000000x80_1_0_0_1_wf
def dot_S100000x80_S80x80_S100000x80_1_0_0_1_n_n : DotDims S100000x80 S80x80 S100000x80 where
  lhsContracting := [1]
  rhsContracting := [0]
  lhsNonContracting := [0]
  rhsNonContracting := [1]
  lhsBatch := []
  rhsBatch := []
  wf := dot_S100000x80_S80x80_S100000x80_1_0_0_1_n_n_wf
def dot_S100000x176_S176x48_S100000x48_1_0_0_1_n_n : DotDims S100000x176 S176x48 S100000x48 where
  lhsContracting := [1]
  rhsContracting := [0]
  lhsNonContracting := [0]
  rhsNonContracting := [1]
  lhsBatch := []
  rhsBatch := []
  wf := dot_S100000x176_S176x48_S100000x48_1_0_0_1_n_n_wf
def gather_S100000x48_S1000000x1_S1000000x48_1_0_n_n_0_1_148 : GatherDims S100000x48 S1000000x1 S1000000x48 where
  offsetDims := [1]
  collapsedSliceDims := [0]
  operandBatchingDims := []
  startIndicesBatchingDims := []
  startIndexMap := [0]
  indexVectorDim := 1
  sliceSizes := ![1, 48]
  wf := gather_S100000x48_S1000000x1_S1000000x48_1_0_n_n_0_1_148_wf
def scatter_S20000x48_S1000000x1_S1000000x48_1_0_0_1 : ScatterDims S20000x48 S1000000x1 S1000000x48 where
  updateWindowDims := [1]
  insertedWindowDims := [0]
  scatterDimsToOperandDims := [0]
  indexVectorDim := 1
  wf := scatter_S20000x48_S1000000x1_S1000000x48_1_0_0_1_wf
def gather_S20000x48_S1000000x1_S1000000x48_1_0_n_n_0_1_148 : GatherDims S20000x48 S1000000x1 S1000000x48 where
  offsetDims := [1]
  collapsedSliceDims := [0]
  operandBatchingDims := []
  startIndicesBatchingDims := []
  startIndexMap := [0]
  indexVectorDim := 1
  sliceSizes := ![1, 48]
  wf := gather_S20000x48_S1000000x1_S1000000x48_1_0_n_n_0_1_148_wf
def scatter_S100000x48_S1000000x1_S1000000x48_1_0_0_1 : ScatterDims S100000x48 S1000000x1 S1000000x48 where
  updateWindowDims := [1]
  insertedWindowDims := [0]
  scatterDimsToOperandDims := [0]
  indexVectorDim := 1
  wf := scatter_S100000x48_S1000000x1_S1000000x48_1_0_0_1_wf

class Facts : Prop extends Facts₀ where

variable [Facts]
-- ==== Proof.KRun.lean ====
/- The kernel program's run with its result named: every weakly fair execution terminates, nothing faulting, with the result buffer at the contents the last segment boundary gives it and the argument arrays as launched. -/
import proofs.«127768_j9405978378358_1_alg».proof.Proof.FrameKernelIdealP

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, the last thread state read against the final state: the result buffer is
    unscoped, so its final contents are the last boundary's. -/
theorem run_result : θ_run defs (onTc (τ := τ) (main (F := F))) ⟨m, fun _ => 0, ρ⟩ (fun r => ∀ c : Dev nD,
      r.2.mem ((c.tc : Thread nD τ).loc main_v442) = W49 m ρ c (Proc.devRef .tc main_v442)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W49 m ρ c b)
    (hfin := fun c s' => by
      iintro ⟨⟨Hh, -⟩, HSI⟩
      unfold StableHlo.held
      imodintro
      iapply (pointsTo_read_all (Pipeline.ucRefs τ sig) (fun b => (((c : Thread nD τ)).1, b)) (W49 m ρ c) s')
      isplitl [Hh] <;> iassumption)
    (hQ := fun s h c =>
      ⟨h c _ (mem_uc main_v442 (by decide)),
       (h c _ (mem_uc main_arg0 (by decide))).trans (W49_main_arg0 m ρ c),
       (h c _ (mem_uc main_arg1 (by decide))).trans (W49_main_arg1 m ρ c),
       (h c _ (mem_uc main_arg2 (by decide))).trans (W49_main_arg2 m ρ c),
       (h c _ (mem_uc main_arg3 (by decide))).trans (W49_main_arg3 m ρ c),
       (h c _ (mem_uc main_arg4 (by decide))).trans (W49_main_arg4 m ρ c),
       (h c _ (mem_uc main_arg5 (by decide))).trans (W49_main_arg5 m ρ c),
       (h c _ (mem_uc main_arg6 (by decide))).trans (W49_main_arg6 m ρ c),
       (h c _ (mem_uc main_arg7 (by decide))).trans (W49_main_arg7 m ρ c),
       (h c _ (mem_uc main_arg8 (by decide))).trans (W49_main_arg8 m ρ c),
       (h c _ (mem_uc main_arg9 (by decide))).trans (W49_main_arg9 m ρ c),
       (h c _ (mem_uc main_arg10 (by decide))).trans (W49_main_arg10 m ρ c),
       (h c _ (mem_uc main_arg11 (by decide))).trans (W49_main_arg11 m ρ c),
       (h c _ (mem_uc main_arg12 (by decide))).trans (W49_main_arg12 m ρ c),
       (h c _ (mem_uc main_arg13 (by decide))).trans (W49_main_arg13 m ρ c)⟩)

end Cert.KernelIdeal.Val

end
-- ==== Proof.KFun.lean ====
/- The host-side stages of this program as pure functions of their operands: each is the composition of the program's own operations between two named values, spelled with the program's own operation terms. -/
import proofs.«127768_j9405978378358_1_alg».proof.KernelIdeal
import proofs.«127768_j9405978378358_1_alg».proof.Proof.Gen.KernelIdeal
import Idealize.ShloMosaic.Lib.StableHlo.Run

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- Stage 0: the value named by 1 buffer of the program, as a function of the named values it is computed from. -/
def kf0 (x0 : (⟨S100000x48, .f32⟩ : BufTy).Contents (Elt F)) (x1 : (⟨S48, .f32⟩ : BufTy).Contents (Elt F)) : (⟨S100000x48, .f32⟩ : BufTy).Contents (Elt F) :=
  ((addf : (⟨S100000x48, .f32⟩ : BufTy).Contents (Elt F) → (⟨S100000x48, .f32⟩ : BufTy).Contents (Elt F) → (⟨S100000x48, .f32⟩ : BufTy).Contents (Elt F)) x0 ((broadcastInDim S100000x48 ![0, 1] bcast_S1x48_S100000x48_0_1 : (⟨S1x48, .f32⟩ : BufTy).Contents (Elt F) → (⟨S100000x48, .f32⟩ : BufTy).Contents (Elt F)) ((broadcastInDim S1x48 ![1] bcast_S48_S1x48_1 : (⟨S48, .f32⟩ : BufTy).Contents (Elt F) → (⟨S1x48, .f32⟩ : BufTy).Contents (Elt F)) x1)))

/-- Stage 1: the value named by 1 buffer of the program, as a function of the named values it is computed from. -/
def kf1 (x0 : (⟨S2x1000000, .i32⟩ : BufTy).Contents (Elt F)) : (⟨S1000000, .i32⟩ : BufTy).Contents (Elt F) :=
  (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) x0) shapeCasts_S1x1000000_S1000000)

/-- Stage 2: the value named by 1 buffer of the program, as a function of the named values it is computed from. -/
def kf2 (x0 : (⟨S2x1000000, .i32⟩ : BufTy).Contents (Elt F)) : (⟨S1000000, .i32⟩ : BufTy).Contents (Elt F) :=
  (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) x0) shapeCasts_S1x1000000_S1000000)

/-- Stage 3: the value named by 1 buffer of the program, as a function of the named values it is computed from. -/
def kf3  : (⟨S1000000, .f32⟩ : BufTy).Contents (Elt F) :=
  ((broadcastInDim S1000000 ![] bcast_S_S1000000 : (⟨S_, .f32⟩ : BufTy).Contents (Elt F) → (⟨S1000000, .f32⟩ : BufTy).Contents (Elt F)) ((constant S_ .f32 0x3F800000#32) : (⟨S_, .f32⟩ : BufTy).Contents (Elt F)))

/-- Stage 4: the value named by 1 buffer of the program, as a function of the named values it is computed from. -/
def kf4 (x0 : (⟨S1000000, .i32⟩ : BufTy).Contents (Elt F)) (x1 : (⟨S1000000, .f32⟩ : BufTy).Contents (Elt F)) : (⟨S100000, .f32⟩ : BufTy).Contents (Elt F) :=
  (((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32) : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) x0) x1)

/-- Stage 5: the value named by 1 buffer of the program, as a function of the named values it is computed from. -/
def kf5 (x0 : (⟨S1000000, .i32⟩ : BufTy).Contents (Elt F)) (x1 : (⟨S1000000, .f32⟩ : BufTy).Contents (Elt F)) : (⟨S20000, .f32⟩ : BufTy).Contents (Elt F) :=
  (((fun x i u => Host.scatterAdd scatter_S20000_S1000000x1_S1000000_n_0_0_1 x i u) : (⟨S20000, .f32⟩ : BufTy).Contents (Elt F) → (⟨S1000000x1, .i32⟩ : BufTy).Contents (Elt F) → (⟨S1000000, .f32⟩ : BufTy).Contents (Elt F) → (⟨S20000, .f32⟩ : BufTy).Contents (Elt F)) ((broadcastInDim S20000 ![] bcast_S_S20000 : (⟨S_, .f32⟩ : BufTy).Contents (Elt F) → (⟨S20000, .f32⟩ : BufTy).Contents (Elt F)) ((constant S_ .f32 0x00000000#32) : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) x0) x1)

/-- Stage 6: the value named by 1 buffer of the program, as a function of the named values it is computed from. -/
def kf6 (x0 : (⟨S100000, .f32⟩ : BufTy).Contents (Elt F)) : (⟨S100000, .i1⟩ : BufTy).Contents (Elt F) :=
  ((cmpf .ogt : (⟨S100000, .f32⟩ : BufTy).Contents (Elt F) → (⟨S100000, .f32⟩ : BufTy).Contents (Elt F) → (⟨S100000, .i1⟩ : BufTy).Contents (Elt F)) x0 ((broadcastInDim S100000 ![] bcast_S_S100000 : (⟨S_, .f32⟩ : BufTy).Contents (Elt F) → (⟨S100000, .f32⟩ : BufTy).Contents (Elt F)) ((constant S_ .f32 0x00000000#32) : (⟨S_, .f32⟩ : BufTy).Contents (Elt F))))

/-- Stage 7: the value named by 1 buffer of the program, as a function of the named values it is computed from. -/
def kf7 (x0 : (⟨S100000, .f32⟩ : BufTy).Contents (Elt F)) : (⟨S100000, .f32⟩ : BufTy).Contents (Elt F) :=
  ((Host.divf : (⟨S100000, .f32⟩ : BufTy).Contents (Elt F) → (⟨S100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x3F800000#32) : (⟨S_, .f32⟩ : BufTy).Contents (Elt F))) x0)

/-- Stage 8: the value named by 2 buffers of the program, as a function of the named values it is computed from. -/
def kf8  : (⟨S_, .f32⟩ : BufTy).Contents (Elt F) :=
  ((constant S_ .f32 0x00000000#32) : (⟨S_, .f32⟩ : BufTy).Contents (Elt F))

/-- Stage 9: the value named by 1 buffer of the program, as a function of the named values it is computed from. -/
def kf9 (x0 : (⟨S100000, .i1⟩ : BufTy).Contents (Elt F)) (x1 : (⟨S100000, .f32⟩ : BufTy).Contents (Elt F)) (x2 : (⟨S_, .f32⟩ : BufTy).Contents (Elt F)) : (⟨S100000, .f32⟩ : BufTy).Contents (Elt F) :=
  ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) x0 x1 (((broadcastInDim S100000 ![] bcast_S_S100000) : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) x2)))

/-- Stage 10: the value named by 1 buffer of the program, as a function of the named values it is computed from. -/
def kf10 (x0 : (⟨S20000, .f32⟩ : BufTy).Contents (Elt F)) : (⟨S20000, .i1⟩ : BufTy).Contents (Elt F) :=
  ((cmpf .ogt : (⟨S20000, .f32⟩ : BufTy).Contents (Elt F) → (⟨S20000, .f32⟩ : BufTy).Contents (Elt F) → (⟨S20000, .i1⟩ : BufTy).Contents (Elt F)) x0 ((broadcastInDim S20000 ![] bcast_S_S20000 : (⟨S_, .f32⟩ : BufTy).Contents (Elt F) → (⟨S20000, .f32⟩ : BufTy).Contents (Elt F)) ((constant S_ .f32 0x00000000#32) : (⟨S_, .f32⟩ : BufTy).Contents (Elt F))))

/-- Stage 11: the value named by 1 buffer of the program, as a function of the named values it is computed from. -/
def kf11 (x0 : (⟨S20000, .f32⟩ : BufTy).Contents (Elt F)) : (⟨S20000, .f32⟩ : BufTy).Contents (Elt F) :=
  ((Host.divf : (⟨S20000, .f32⟩ : BufTy).Contents (Elt F) → (⟨S20000, .f32⟩ : BufTy).Contents (Elt F) → (⟨S20000, .f32⟩ : BufTy).Contents (Elt F)) ((broadcastInDim S20000 ![] bcast_S_S20000 : (⟨S_, .f32⟩ : BufTy).Contents (Elt F) → (⟨S20000, .f32⟩ : BufTy).Contents (Elt F)) ((constant S_ .f32 0x3F800000#32) : (⟨S_, .f32⟩ : BufTy).Contents (Elt F))) x0)

/-- Stage 12: the value named by 1 buffer of the program, as a function of the named values it is computed from. -/
def kf12 (x0 : (⟨S20000, .i1⟩ : BufTy).Contents (Elt F)) (x1 : (⟨S20000, .f32⟩ : BufTy).Contents (Elt F)) (x2 : (⟨S_, .f32⟩ : BufTy).Contents (Elt F)) : (⟨S20000, .f32⟩ : BufTy).Contents (Elt F) :=
  ((select : (⟨S20000, .i1⟩ : BufTy).Contents (Elt F) → (⟨S20000, .f32⟩ : BufTy).Contents (Elt F) → (⟨S20000, .f32⟩ : BufTy).Contents (Elt F) → (⟨S20000, .f32⟩ : BufTy).Contents (Elt F)) x0 x1 (((broadcastInDim S20000 ![] bcast_S_S20000) : (⟨S_, .f32⟩ : BufTy).Contents (Elt F) → (⟨S20000, .f32⟩ : BufTy).Contents (Elt F)) ((id : (⟨S_, .f32⟩ : BufTy).Contents (Elt F) → (⟨S_, .f32⟩ : BufTy).Contents (Elt F)) x2)))

/-- Stage 13: the value named by 1 buffer of the program, as a function of the named values it is computed from. -/
def kf13 (x0 : (⟨S96x80, .f32⟩ : BufTy).Contents (Elt F)) (x1 : (⟨S96x80, .f32⟩ : BufTy).Contents (Elt F)) : (⟨S96x160, .f32⟩ : BufTy).Contents (Elt F) :=
  (((fun a b => concatenate S96x160 1 [⟨S96x80, a⟩, ⟨S96x80, b⟩] concatenates_S96x80_S96x80_S96x160_d1) : (⟨S96x80, .f32⟩ : BufTy).Contents (Elt F) → (⟨S96x80, .f32⟩ : BufTy).Contents (Elt F) → (⟨S96x160, .f32⟩ : BufTy).Contents (Elt F)) x0 x1)

/-- Stage 14: the value named by 7 buffers of the program, as a function of the named values it is computed from. -/
def kf14 (x0 : (⟨S1000000, .i32⟩ : BufTy).Contents (Elt F)) (x1 : (⟨S1000000, .i32⟩ : BufTy).Contents (Elt F)) (x2 : (⟨S100000x160, .f32⟩ : BufTy).Contents (Elt F)) (x3 : (⟨S20000, .f32⟩ : BufTy).Contents (Elt F)) (x4 : (⟨S100000, .f32⟩ : BufTy).Contents (Elt F)) : (⟨S100000x160, .f32⟩ : BufTy).Contents (Elt F) :=
  ((mulf : (⟨S100000x160, .f32⟩ : BufTy).Contents (Elt F) → (⟨S100000x160, .f32⟩ : BufTy).Contents (Elt F) → (⟨S100000x160, .f32⟩ : BufTy).Contents (Elt F)) (((fun x i u => Host.scatterAdd scatter_S100000x160_S1000000x1_S1000000x160_1_0_0_1 x i u) : (⟨S100000x160, .f32⟩ : BufTy).Contents (Elt F) → (⟨S1000000x1, .i32⟩ : BufTy).Contents (Elt F) → (⟨S1000000x160, .f32⟩ : BufTy).Contents (Elt F) → (⟨S100000x160, .f32⟩ : BufTy).Contents (Elt F)) ((broadcastInDim S100000x160 ![] bcast_S_S100000x160 : (⟨S_, .f32⟩ : BufTy).Contents (Elt F) → (⟨S100000x160, .f32⟩ : BufTy).Contents (Elt F)) ((constant S_ .f32 0x00000000#32) : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) x0) (((fun x i => Host.gather gather_S20000x160_S1000000x1_S1000000x160_1_0_n_n_0_1_1160 x i) : (⟨S20000x160, .f32⟩ : BufTy).Contents (Elt F) → (⟨S1000000x1, .i32⟩ : BufTy).Contents (Elt F) → (⟨S1000000x160, .f32⟩ : BufTy).Contents (Elt F)) ((mulf : (⟨S20000x160, .f32⟩ : BufTy).Contents (Elt F) → (⟨S20000x160, .f32⟩ : BufTy).Contents (Elt F) → (⟨S20000x160, .f32⟩ : BufTy).Contents (Elt F)) (((fun x i u => Host.scatterAdd scatter_S20000x160_S1000000x1_S1000000x160_1_0_0_1 x i u) : (⟨S20000x160, .f32⟩ : BufTy).Contents (Elt F) → (⟨S1000000x1, .i32⟩ : BufTy).Contents (Elt F) → (⟨S1000000x160, .f32⟩ : BufTy).Contents (Elt F) → (⟨S20000x160, .f32⟩ : BufTy).Contents (Elt F)) ((broadcastInDim S20000x160 ![] bcast_S_S20000x160 : (⟨S_, .f32⟩ : BufTy).Contents (Elt F) → (⟨S20000x160, .f32⟩ : BufTy).Contents (Elt F)) ((constant S_ .f32 0x00000000#32) : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) x1) (((fun x i => Host.gather gather_S100000x160_S1000000x1_S1000000x160_1_0_n_n_0_1_1160 x i) : (⟨S100000x160, .f32⟩ : BufTy).Contents (Elt F) → (⟨S1000000x1, .i32⟩ : BufTy).Contents (Elt F) → (⟨S1000000x160, .f32⟩ : BufTy).Contents (Elt F)) x2 ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) x0 ((broadcastInDim S1000000 ![] bcast_S_S1000000 : (⟨S_, .i32⟩ : BufTy).Contents (Elt F) → (⟨S1000000, .i32⟩ : BufTy).Contents (Elt F)) ((constantI S_ 32 0#32) : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) x0 ((broadcastInDim S1000000 ![] bcast_S_S1000000 : (⟨S_, .i32⟩ : BufTy).Contents (Elt F) → (⟨S1000000, .i32⟩ : BufTy).Contents (Elt F)) ((constantI S_ 32 100000#32) : (⟨S_, .i32⟩ : BufTy).Contents (Elt F)))) x0)))) ((broadcastInDim S20000x160 ![0, 1] bcast_S20000x1_S20000x160_0_1 : (⟨S20000x1, .f32⟩ : BufTy).Contents (Elt F) → (⟨S20000x160, .f32⟩ : BufTy).Contents (Elt F)) ((broadcastInDim S20000x1 ![0] bcast_S20000_S20000x1_0 : (⟨S20000, .f32⟩ : BufTy).Contents (Elt F) → (⟨S20000x1, .f32⟩ : BufTy).Contents (Elt F)) x3))) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) x1 ((broadcastInDim S1000000 ![] bcast_S_S1000000 : (⟨S_, .i32⟩ : BufTy).Contents (Elt F) → (⟨S1000000, .i32⟩ : BufTy).Contents (Elt F)) ((constantI S_ 32 0#32) : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) x1 ((broadcastInDim S1000000 ![] bcast_S_S1000000 : (⟨S_, .i32⟩ : BufTy).Contents (Elt F) → (⟨S1000000, .i32⟩ : BufTy).Contents (Elt F)) ((constantI S_ 32 20000#32) : (⟨S_, .i32⟩ : BufTy).Contents (Elt F)))) x1)))) ((broadcastInDim S100000x160 ![0, 1] bcast_S100000x1_S100000x160_0_1 : (⟨S100000x1, .f32⟩ : BufTy).Contents (Elt F) → (⟨S100000x160, .f32⟩ : BufTy).Contents (Elt F)) ((broadcastInDim S100000x1 ![0] bcast_S100000_S100000x1_0 : (⟨S100000, .f32⟩ : BufTy).Contents (Elt F) → (⟨S100000x1, .f32⟩ : BufTy).Contents (Elt F)) x4)))

/-- Stage 15: the value named by 7 buffers of the program, as a function of the named values it is computed from. -/
def kf15 (x0 : (⟨S100000x160, .f32⟩ : BufTy).Contents (Elt F)) (x1 : (⟨S80, .f32⟩ : BufTy).Contents (Elt F)) : (⟨S100000x80, .f32⟩ : BufTy).Contents (Elt F) :=
  ((addf : (⟨S100000x80, .f32⟩ : BufTy).Contents (Elt F) → (⟨S100000x80, .f32⟩ : BufTy).Contents (Elt F) → (⟨S100000x80, .f32⟩ : BufTy).Contents (Elt F)) (((extractStridedSlice S100000x80 ![0, 0] · slices_S100000x160_S100000x80_0_0) : (⟨S100000x160, .f32⟩ : BufTy).Contents (Elt F) → (⟨S100000x80, .f32⟩ : BufTy).Contents (Elt F)) x0) ((broadcastInDim S100000x80 ![0, 1] bcast_S1x80_S100000x80_0_1 : (⟨S1x80, .f32⟩ : BufTy).Contents (Elt F) → (⟨S100000x80, .f32⟩ : BufTy).Contents (Elt F)) ((broadcastInDim S1x80 ![1] bcast_S80_S1x80_1 : (⟨S80, .f32⟩ : BufTy).Contents (Elt F) → (⟨S1x80, .f32⟩ : BufTy).Contents (Elt F)) x1)))

/-- Stage 16: the value named by 7 buffers of the program, as a function of the named values it is computed from. -/
def kf16 (x0 : (⟨S100000x160, .f32⟩ : BufTy).Contents (Elt F)) (x1 : (⟨S80, .f32⟩ : BufTy).Contents (Elt F)) : (⟨S100000x80, .f32⟩ : BufTy).Contents (Elt F) :=
  ((addf : (⟨S100000x80, .f32⟩ : BufTy).Contents (Elt F) → (⟨S100000x80, .f32⟩ : BufTy).Contents (Elt F) → (⟨S100000x80, .f32⟩ : BufTy).Contents (Elt F)) (((extractStridedSlice S100000x80 ![0, 80] · slices_S100000x160_S100000x80_0_80) : (⟨S100000x160, .f32⟩ : BufTy).Contents (Elt F) → (⟨S100000x80, .f32⟩ : BufTy).Contents (Elt F)) x0) ((broadcastInDim S100000x80 ![0, 1] bcast_S1x80_S100000x80_0_1 : (⟨S1x80, .f32⟩ : BufTy).Contents (Elt F) → (⟨S100000x80, .f32⟩ : BufTy).Contents (Elt F)) ((broadcastInDim S1x80 ![1] bcast_S80_S1x80_1 : (⟨S80, .f32⟩ : BufTy).Contents (Elt F) → (⟨S1x80, .f32⟩ : BufTy).Contents (Elt F)) x1)))

/-- Stage 17: the value named by 7 buffers of the program, as a function of the named values it is computed from. -/
def kf17 (x0 : (⟨S100000x80, .f32⟩ : BufTy).Contents (Elt F)) : (⟨S80, .f32⟩ : BufTy).Contents (Elt F) :=
  ((Host.divf : (⟨S80, .f32⟩ : BufTy).Contents (Elt F) → (⟨S80, .f32⟩ : BufTy).Contents (Elt F) → (⟨S80, .f32⟩ : BufTy).Contents (Elt F)) (((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)) x0 ((constant S_ .f32 0x00000000#32) : (⟨S_, .f32⟩ : BufTy).Contents (Elt F))) ((broadcastInDim S80 ![] bcast_S_S80 : (⟨S_, .f32⟩ : BufTy).Contents (Elt F) → (⟨S80, .f32⟩ : BufTy).Contents (Elt F)) ((constant S_ .f32 0x47C35000#32) : (⟨S_, .f32⟩ : BufTy).Contents (Elt F))))

/-- Stage 18: the value named by 7 buffers of the program, as a function of the named values it is computed from. -/
def kf18  : (⟨S_, .i32⟩ : BufTy).Contents (Elt F) :=
  ((constantI S_ 32 0#32) : (⟨S_, .i32⟩ : BufTy).Contents (Elt F))

/-- Stage 19: the value named by 7 buffers of the program, as a function of the named values it is computed from. -/
def kf19 (x0 : (⟨S100000x80, .f32⟩ : BufTy).Contents (Elt F)) : (⟨S100000x80, .f32⟩ : BufTy).Contents (Elt F) :=
  ((subf : (⟨S100000x80, .f32⟩ : BufTy).Contents (Elt F) → (⟨S100000x80, .f32⟩ : BufTy).Contents (Elt F) → (⟨S100000x80, .f32⟩ : BufTy).Contents (Elt F)) x0 (((broadcastInDim S100000x80 ![0, 1] bcast_S1x80_S100000x80_0_1) : (⟨S1x80, .f32⟩ : BufTy).Contents (Elt F) → (⟨S100000x80, .f32⟩ : BufTy).Contents (Elt F)) ((Host.divf : (⟨S1x80, .f32⟩ : BufTy).Contents (Elt F) → (⟨S1x80, .f32⟩ : BufTy).Contents (Elt F) → (⟨S1x80, .f32⟩ : BufTy).Contents (Elt F)) (((broadcastInDim S1x80 ![1] bcast_S80_S1x80_1) : (⟨S80, .f32⟩ : BufTy).Contents (Elt F) → (⟨S1x80, .f32⟩ : BufTy).Contents (Elt F)) (((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)) x0 ((constant S_ .f32 0x00000000#32) : (⟨S_, .f32⟩ : BufTy).Contents (Elt F)))) (((broadcastInDim S1x80 ![] bcast_S_S1x80) : (⟨S_, .f32⟩ : BufTy).Contents (Elt F) → (⟨S1x80, .f32⟩ : BufTy).Contents (Elt F)) ((constant S_ .f32 0x47C35000#32) : (⟨S_, .f32⟩ : BufTy).Contents (Elt F))))))

/-- Stage 20: the value named by 7 buffers of the program, as a function of the named values it is computed from. -/
def kf20 (x0 : (⟨S_, .i32⟩ : BufTy).Contents (Elt F)) : (⟨S_, .f32⟩ : BufTy).Contents (Elt F) :=
  ((subf : (⟨S_, .f32⟩ : BufTy).Contents (Elt F) → (⟨S_, .f32⟩ : BufTy).Contents (Elt F) → (⟨S_, .f32⟩ : BufTy).Contents (Elt F)) ((constant S_ .f32 0x47C35000#32) : (⟨S_, .f32⟩ : BufTy).Contents (Elt F)) (((sitofp .f32) : (⟨S_, .i32⟩ : BufTy).Contents (Elt F) → (⟨S_, .f32⟩ : BufTy).Contents (Elt F)) x0))

/-- Stage 21: the value named by 7 buffers of the program, as a function of the named values it is computed from. -/
def kf21 (x0 : (⟨S100000x80, .f32⟩ : BufTy).Contents (Elt F)) (x1 : (⟨S_, .f32⟩ : BufTy).Contents (Elt F)) : (⟨S80, .f32⟩ : BufTy).Contents (Elt F) :=
  ((Host.divf : (⟨S80, .f32⟩ : BufTy).Contents (Elt F) → (⟨S80, .f32⟩ : BufTy).Contents (Elt F) → (⟨S80, .f32⟩ : BufTy).Contents (Elt F)) (((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)) ((mulf : (⟨S100000x80, .f32⟩ : BufTy).Contents (Elt F) → (⟨S100000x80, .f32⟩ : BufTy).Contents (Elt F) → (⟨S100000x80, .f32⟩ : BufTy).Contents (Elt F)) x0 x0) ((constant S_ .f32 0x00000000#32) : (⟨S_, .f32⟩ : BufTy).Contents (Elt F))) (((broadcastInDim S80 ![] bcast_S_S80) : (⟨S_, .f32⟩ : BufTy).Contents (Elt F) → (⟨S80, .f32⟩ : BufTy).Contents (Elt F)) x1))

/-- Stage 22: the value named by 7 buffers of the program, as a function of the named values it is computed from. -/
def kf22 (x0 : (⟨S_, .f32⟩ : BufTy).Contents (Elt F)) (x1 : (⟨S80, .f32⟩ : BufTy).Contents (Elt F)) : (⟨S80, .f32⟩ : BufTy).Contents (Elt F) :=
  (((fun p a b => select (broadcastInDim S80 ![] bcast_S_S80 p) a b) : (⟨S_, .i1⟩ : BufTy).Contents (Elt F) → (⟨S80, .f32⟩ : BufTy).Contents (Elt F) → (⟨S80, .f32⟩ : BufTy).Contents (Elt F) → (⟨S80, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) x0 ((constant S_ .f32 0x00000000#32) : (⟨S_, .f32⟩ : BufTy).Contents (Elt F))) x1 (((broadcastInDim S80 ![] bcast_S_S80) : (⟨S_, .f32⟩ : BufTy).Contents (Elt F) → (⟨S80, .f32⟩ : BufTy).Contents (Elt F)) ((id : (⟨S_, .f32⟩ : BufTy).Contents (Elt F) → (⟨S_, .f32⟩ : BufTy).Contents (Elt F)) ((constant S_ .f32 0x7FC00000#32) : (⟨S_, .f32⟩ : BufTy).Contents (Elt F)))))

/-- Stage 23: the value named by 2 buffers of the program, as a function of the named values it is computed from. -/
def kf23 (x0 : (⟨S7x80, .f32⟩ : BufTy).Contents (Elt F)) : (⟨S80, .f32⟩ : BufTy).Contents (Elt F) :=
  (shapeCast S80 (((extractStridedSlice S1x80 ![0, 0] · slices_S7x80_S1x80_0_0) : (⟨S7x80, .f32⟩ : BufTy).Contents (Elt F) → (⟨S1x80, .f32⟩ : BufTy).Contents (Elt F)) x0) shapeCasts_S1x80_S80)

/-- Stage 24: the value named by 28 buffers of the program, as a function of the named values it is computed from. -/
def kf24 (x0 : (⟨S80, .f32⟩ : BufTy).Contents (Elt F)) : (⟨S1x80, .f32⟩ : BufTy).Contents (Elt F) :=
  (shapeCast S1x80 x0 shapeCasts_S80_S1x80)

/-- Stage 25: the value named by 2 buffers of the program, as a function of the named values it is computed from. -/
def kf25 (x0 : (⟨S6x80x80, .f32⟩ : BufTy).Contents (Elt F)) : (⟨S80x80, .f32⟩ : BufTy).Contents (Elt F) :=
  (shapeCast S80x80 (((extractStridedSlice S1x80x80 ![0, 0, 0] · slices_S6x80x80_S1x80x80_0_0_0) : (⟨S6x80x80, .f32⟩ : BufTy).Contents (Elt F) → (⟨S1x80x80, .f32⟩ : BufTy).Contents (Elt F)) x0) shapeCasts_S1x80x80_S80x80)

/-- Stage 26: the value named by 6 buffers of the program, as a function of the named values it is computed from. -/
def kf26 (x0 : (⟨S80x80, .f32⟩ : BufTy).Contents (Elt F)) (x1 : (⟨S80x80, .f32⟩ : BufTy).Contents (Elt F)) : (⟨S80x160, .f32⟩ : BufTy).Contents (Elt F) :=
  (((fun a b => concatenate S80x160 1 [⟨S80x80, a⟩, ⟨S80x80, b⟩] concatenates_S80x80_S80x80_S80x160_d1) : (⟨S80x80, .f32⟩ : BufTy).Contents (Elt F) → (⟨S80x80, .f32⟩ : BufTy).Contents (Elt F) → (⟨S80x160, .f32⟩ : BufTy).Contents (Elt F)) x0 x1)

/-- Stage 27: the value named by 2 buffers of the program, as a function of the named values it is computed from. -/
def kf27 (x0 : (⟨S6x80, .f32⟩ : BufTy).Contents (Elt F)) : (⟨S80, .f32⟩ : BufTy).Contents (Elt F) :=
  (shapeCast S80 (((extractStridedSlice S1x80 ![0, 0] · slices_S6x80_S1x80_0_0) : (⟨S6x80, .f32⟩ : BufTy).Contents (Elt F) → (⟨S1x80, .f32⟩ : BufTy).Contents (Elt F)) x0) shapeCasts_S1x80_S80)

/-- Stage 28: the value named by 2 buffers of the program, as a function of the named values it is computed from. -/
def kf28 (x0 : (⟨S7x80, .f32⟩ : BufTy).Contents (Elt F)) : (⟨S80, .f32⟩ : BufTy).Contents (Elt F) :=
  (shapeCast S80 (((extractStridedSlice S1x80 ![1, 0] · slices_S7x80_S1x80_1_0) : (⟨S7x80, .f32⟩ : BufTy).Contents (Elt F) → (⟨S1x80, .f32⟩ : BufTy).Contents (Elt F)) x0) shapeCasts_S1x80_S80)

/-- Stage 29: the value named by 2 buffers of the program, as a function of the named values it is computed from. -/
def kf29 (x0 : (⟨S6x80x80, .f32⟩ : BufTy).Contents (Elt F)) : (⟨S80x80, .f32⟩ : BufTy).Contents (Elt F) :=
  (shapeCast S80x80 (((extractStridedSlice S1x80x80 ![1, 0, 0] · slices_S6x80x80_S1x80x80_1_0_0) : (⟨S6x80x80, .f32⟩ : BufTy).Contents (Elt F) → (⟨S1x80x80, .f32⟩ : BufTy).Contents (Elt F)) x0) shapeCasts_S1x80x80_S80x80)

/-- Stage 30: the value named by 2 buffers of the program, as a function of the named values it is computed from. -/
def kf30 (x0 : (⟨S6x80, .f32⟩ : BufTy).Contents (Elt F)) : (⟨S80, .f32⟩ : BufTy).Contents (Elt F) :=
  (shapeCast S80 (((extractStridedSlice S1x80 ![1, 0] · slices_S6x80_S1x80_1_0) : (⟨S6x80, .f32⟩ : BufTy).Contents (Elt F) → (⟨S1x80, .f32⟩ : BufTy).Contents (Elt F)) x0) shapeCasts_S1x80_S80)

/-- Stage 31: the value named by 2 buffers of the program, as a function of the named values it is computed from. -/
def kf31 (x0 : (⟨S7x80, .f32⟩ : BufTy).Contents (Elt F)) : (⟨S80, .f32⟩ : BufTy).Contents (Elt F) :=
  (shapeCast S80 (((extractStridedSlice S1x80 ![2, 0] · slices_S7x80_S1x80_2_0) : (⟨S7x80, .f32⟩ : BufTy).Contents (Elt F) → (⟨S1x80, .f32⟩ : BufTy).Contents (Elt F)) x0) shapeCasts_S1x80_S80)

/-- Stage 32: the value named by 2 buffers of the program, as a function of the named values it is computed from. -/
def kf32 (x0 : (⟨S6x80x80, .f32⟩ : BufTy).Contents (Elt F)) : (⟨S80x80, .f32⟩ : BufTy).Contents (Elt F) :=
  (shapeCast S80x80 (((extractStridedSlice S1x80x80 ![2, 0, 0] · slices_S6x80x80_S1x80x80_2_0_0) : (⟨S6x80x80, .f32⟩ : BufTy).Contents (Elt F) → (⟨S1x80x80, .f32⟩ : BufTy).Contents (Elt F)) x0) shapeCasts_S1x80x80_S80x80)

/-- Stage 33: the value named by 2 buffers of the program, as a function of the named values it is computed from. -/
def kf33 (x0 : (⟨S6x80, .f32⟩ : BufTy).Contents (Elt F)) : (⟨S80, .f32⟩ : BufTy).Contents (Elt F) :=
  (shapeCast S80 (((extractStridedSlice S1x80 ![2, 0] · slices_S6x80_S1x80_2_0) : (⟨S6x80, .f32⟩ : BufTy).Contents (Elt F) → (⟨S1x80, .f32⟩ : BufTy).Contents (Elt F)) x0) shapeCasts_S1x80_S80)

/-- Stage 34: the value named by 2 buffers of the program, as a function of the named values it is computed from. -/
def kf34 (x0 : (⟨S7x80, .f32⟩ : BufTy).Contents (Elt F)) : (⟨S80, .f32⟩ : BufTy).Contents (Elt F) :=
  (shapeCast S80 (((extractStridedSlice S1x80 ![3, 0] · slices_S7x80_S1x80_3_0) : (⟨S7x80, .f32⟩ : BufTy).Contents (Elt F) → (⟨S1x80, .f32⟩ : BufTy).Contents (Elt F)) x0) shapeCasts_S1x80_S80)

/-- Stage 35: the value named by 2 buffers of the program, as a function of the named values it is computed from. -/
def kf35 (x0 : (⟨S6x80x80, .f32⟩ : BufTy).Contents (Elt F)) : (⟨S80x80, .f32⟩ : BufTy).Contents (Elt F) :=
  (shapeCast S80x80 (((extractStridedSlice S1x80x80 ![3, 0, 0] · slices_S6x80x80_S1x80x80_3_0_0) : (⟨S6x80x80, .f32⟩ : BufTy).Contents (Elt F) → (⟨S1x80x80, .f32⟩ : BufTy).Contents (Elt F)) x0) shapeCasts_S1x80x80_S80x80)

/-- Stage 36: the value named by 2 buffers of the program, as a function of the named values it is computed from. -/
def kf36 (x0 : (⟨S6x80, .f32⟩ : BufTy).Contents (Elt F)) : (⟨S80, .f32⟩ : BufTy).Contents (Elt F) :=
  (shapeCast S80 (((extractStridedSlice S1x80 ![3, 0] · slices_S6x80_S1x80_3_0) : (⟨S6x80, .f32⟩ : BufTy).Contents (Elt F) → (⟨S1x80, .f32⟩ : BufTy).Contents (Elt F)) x0) shapeCasts_S1x80_S80)

/-- Stage 37: the value named by 2 buffers of the program, as a function of the named values it is computed from. -/
def kf37 (x0 : (⟨S7x80, .f32⟩ : BufTy).Contents (Elt F)) : (⟨S80, .f32⟩ : BufTy).Contents (Elt F) :=
  (shapeCast S80 (((extractStridedSlice S1x80 ![4, 0] · slices_S7x80_S1x80_4_0) : (⟨S7x80, .f32⟩ : BufTy).Contents (Elt F) → (⟨S1x80, .f32⟩ : BufTy).Contents (Elt F)) x0) shapeCasts_S1x80_S80)

/-- Stage 38: the value named by 2 buffers of the program, as a function of the named values it is computed from. -/
def kf38 (x0 : (⟨S6x80x80, .f32⟩ : BufTy).Contents (Elt F)) : (⟨S80x80, .f32⟩ : BufTy).Contents (Elt F) :=
  (shapeCast S80x80 (((extractStridedSlice S1x80x80 ![4, 0, 0] · slices_S6x80x80_S1x80x80_4_0_0) : (⟨S6x80x80, .f32⟩ : BufTy).Contents (Elt F) → (⟨S1x80x80, .f32⟩ : BufTy).Contents (Elt F)) x0) shapeCasts_S1x80x80_S80x80)

/-- Stage 39: the value named by 2 buffers of the program, as a function of the named values it is computed from. -/
def kf39 (x0 : (⟨S6x80, .f32⟩ : BufTy).Contents (Elt F)) : (⟨S80, .f32⟩ : BufTy).Contents (Elt F) :=
  (shapeCast S80 (((extractStridedSlice S1x80 ![4, 0] · slices_S6x80_S1x80_4_0) : (⟨S6x80, .f32⟩ : BufTy).Contents (Elt F) → (⟨S1x80, .f32⟩ : BufTy).Contents (Elt F)) x0) shapeCasts_S1x80_S80)

/-- Stage 40: the value named by 2 buffers of the program, as a function of the named values it is computed from. -/
def kf40 (x0 : (⟨S7x80, .f32⟩ : BufTy).Contents (Elt F)) : (⟨S80, .f32⟩ : BufTy).Contents (Elt F) :=
  (shapeCast S80 (((extractStridedSlice S1x80 ![5, 0] · slices_S7x80_S1x80_5_0) : (⟨S7x80, .f32⟩ : BufTy).Contents (Elt F) → (⟨S1x80, .f32⟩ : BufTy).Contents (Elt F)) x0) shapeCasts_S1x80_S80)

/-- Stage 41: the value named by 2 buffers of the program, as a function of the named values it is computed from. -/
def kf41 (x0 : (⟨S6x80x80, .f32⟩ : BufTy).Contents (Elt F)) : (⟨S80x80, .f32⟩ : BufTy).Contents (Elt F) :=
  (shapeCast S80x80 (((extractStridedSlice S1x80x80 ![5, 0, 0] · slices_S6x80x80_S1x80x80_5_0_0) : (⟨S6x80x80, .f32⟩ : BufTy).Contents (Elt F) → (⟨S1x80x80, .f32⟩ : BufTy).Contents (Elt F)) x0) shapeCasts_S1x80x80_S80x80)

/-- Stage 42: the value named by 2 buffers of the program, as a function of the named values it is computed from. -/
def kf42 (x0 : (⟨S6x80, .f32⟩ : BufTy).Contents (Elt F)) : (⟨S80, .f32⟩ : BufTy).Contents (Elt F) :=
  (shapeCast S80 (((extractStridedSlice S1x80 ![5, 0] · slices_S6x80_S1x80_5_0) : (⟨S6x80, .f32⟩ : BufTy).Contents (Elt F) → (⟨S1x80, .f32⟩ : BufTy).Contents (Elt F)) x0) shapeCasts_S1x80_S80)

/-- Stage 43: the value named by 2 buffers of the program, as a function of the named values it is computed from. -/
def kf43 (x0 : (⟨S7x80, .f32⟩ : BufTy).Contents (Elt F)) : (⟨S80, .f32⟩ : BufTy).Contents (Elt F) :=
  (shapeCast S80 (((extractStridedSlice S1x80 ![6, 0] · slices_S7x80_S1x80_6_0) : (⟨S7x80, .f32⟩ : BufTy).Contents (Elt F) → (⟨S1x80, .f32⟩ : BufTy).Contents (Elt F)) x0) shapeCasts_S1x80_S80)

/-- Stage 44: the value named by 1 buffer of the program, as a function of the named values it is computed from. -/
def kf44 (x0 : (⟨S100000x80, .f32⟩ : BufTy).Contents (Elt F)) (x1 : (⟨S100000x96, .f32⟩ : BufTy).Contents (Elt F)) : (⟨S100000x176, .f32⟩ : BufTy).Contents (Elt F) :=
  (((fun a b => concatenate S100000x176 1 [⟨S100000x80, a⟩, ⟨S100000x96, b⟩] concatenates_S100000x80_S100000x96_S100000x176_d1) : (⟨S100000x80, .f32⟩ : BufTy).Contents (Elt F) → (⟨S100000x96, .f32⟩ : BufTy).Contents (Elt F) → (⟨S100000x176, .f32⟩ : BufTy).Contents (Elt F)) x0 x1)

/-- Stage 45: the value named by 1 buffer of the program, as a function of the named values it is computed from. -/
def kf45 (x0 : (⟨S1000000, .i32⟩ : BufTy).Contents (Elt F)) (x1 : (⟨S1000000, .i32⟩ : BufTy).Contents (Elt F)) (x2 : (⟨S100000x48, .f32⟩ : BufTy).Contents (Elt F)) (x3 : (⟨S20000, .f32⟩ : BufTy).Contents (Elt F)) (x4 : (⟨S100000, .f32⟩ : BufTy).Contents (Elt F)) : (⟨S100000x48, .f32⟩ : BufTy).Contents (Elt F) :=
  ((mulf : (⟨S100000x48, .f32⟩ : BufTy).Contents (Elt F) → (⟨S100000x48, .f32⟩ : BufTy).Contents (Elt F) → (⟨S100000x48, .f32⟩ : BufTy).Contents (Elt F)) (((fun x i u => Host.scatterAdd scatter_S100000x48_S1000000x1_S1000000x48_1_0_0_1 x i u) : (⟨S100000x48, .f32⟩ : BufTy).Contents (Elt F) → (⟨S1000000x1, .i32⟩ : BufTy).Contents (Elt F) → (⟨S1000000x48, .f32⟩ : BufTy).Contents (Elt F) → (⟨S100000x48, .f32⟩ : BufTy).Contents (Elt F)) ((broadcastInDim S100000x48 ![] bcast_S_S100000x48 : (⟨S_, .f32⟩ : BufTy).Contents (Elt F) → (⟨S100000x48, .f32⟩ : BufTy).Contents (Elt F)) ((constant S_ .f32 0x00000000#32) : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) x0) (((fun x i => Host.gather gather_S20000x48_S1000000x1_S1000000x48_1_0_n_n_0_1_148 x i) : (⟨S20000x48, .f32⟩ : BufTy).Contents (Elt F) → (⟨S1000000x1, .i32⟩ : BufTy).Contents (Elt F) → (⟨S1000000x48, .f32⟩ : BufTy).Contents (Elt F)) ((mulf : (⟨S20000x48, .f32⟩ : BufTy).Contents (Elt F) → (⟨S20000x48, .f32⟩ : BufTy).Contents (Elt F) → (⟨S20000x48, .f32⟩ : BufTy).Contents (Elt F)) (((fun x i u => Host.scatterAdd scatter_S20000x48_S1000000x1_S1000000x48_1_0_0_1 x i u) : (⟨S20000x48, .f32⟩ : BufTy).Contents (Elt F) → (⟨S1000000x1, .i32⟩ : BufTy).Contents (Elt F) → (⟨S1000000x48, .f32⟩ : BufTy).Contents (Elt F) → (⟨S20000x48, .f32⟩ : BufTy).Contents (Elt F)) ((broadcastInDim S20000x48 ![] bcast_S_S20000x48 : (⟨S_, .f32⟩ : BufTy).Contents (Elt F) → (⟨S20000x48, .f32⟩ : BufTy).Contents (Elt F)) ((constant S_ .f32 0x00000000#32) : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) x1) (((fun x i => Host.gather gather_S100000x48_S1000000x1_S1000000x48_1_0_n_n_0_1_148 x i) : (⟨S100000x48, .f32⟩ : BufTy).Contents (Elt F) → (⟨S1000000x1, .i32⟩ : BufTy).Contents (Elt F) → (⟨S1000000x48, .f32⟩ : BufTy).Contents (Elt F)) x2 ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) x0 ((broadcastInDim S1000000 ![] bcast_S_S1000000 : (⟨S_, .i32⟩ : BufTy).Contents (Elt F) → (⟨S1000000, .i32⟩ : BufTy).Contents (Elt F)) ((constantI S_ 32 0#32) : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) x0 ((broadcastInDim S1000000 ![] bcast_S_S1000000 : (⟨S_, .i32⟩ : BufTy).Contents (Elt F) → (⟨S1000000, .i32⟩ : BufTy).Contents (Elt F)) ((constantI S_ 32 100000#32) : (⟨S_, .i32⟩ : BufTy).Contents (Elt F)))) x0)))) ((broadcastInDim S20000x48 ![0, 1] bcast_S20000x1_S20000x48_0_1 : (⟨S20000x1, .f32⟩ : BufTy).Contents (Elt F) → (⟨S20000x48, .f32⟩ : BufTy).Contents (Elt F)) ((broadcastInDim S20000x1 ![0] bcast_S20000_S20000x1_0 : (⟨S20000, .f32⟩ : BufTy).Contents (Elt F) → (⟨S20000x1, .f32⟩ : BufTy).Contents (Elt F)) x3))) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) x1 ((broadcastInDim S1000000 ![] bcast_S_S1000000 : (⟨S_, .i32⟩ : BufTy).Contents (Elt F) → (⟨S1000000, .i32⟩ : BufTy).Contents (Elt F)) ((constantI S_ 32 0#32) : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) x1 ((broadcastInDim S1000000 ![] bcast_S_S1000000 : (⟨S_, .i32⟩ : BufTy).Contents (Elt F) → (⟨S1000000, .i32⟩ : BufTy).Contents (Elt F)) ((constantI S_ 32 20000#32) : (⟨S_, .i32⟩ : BufTy).Contents (Elt F)))) x1)))) ((broadcastInDim S100000x48 ![0, 1] bcast_S100000x1_S100000x48_0_1 : (⟨S100000x1, .f32⟩ : BufTy).Contents (Elt F) → (⟨S100000x48, .f32⟩ : BufTy).Contents (Elt F)) ((broadcastInDim S100000x1 ![0] bcast_S100000_S100000x1_0 : (⟨S100000, .f32⟩ : BufTy).Contents (Elt F) → (⟨S100000x1, .f32⟩ : BufTy).Contents (Elt F)) x4)))

end Cert.KernelIdeal.Val

end
-- ==== Proof.SpecInputs.lean ====
/- The fourteen argument arrays of the two programs as one record: node features, the incidence pairs, the first block's weights and biases, the stacked weights and biases of blocks two to seven, the batch-norm scales and shifts, and the mixing layer's weights and bias. -/
import Idealize.ShloMosaic.PureOps
import Idealize.ShloMosaic.PureOps.Ideal
import Idealize.ShloMosaic.Lib.StableHlo

set_option maxRecDepth 16384

noncomputable section

namespace Cert.Spec

open Idealize.ShloMosaic

/-- The argument arrays, in the order both programs take them. -/
structure Inputs (F : FTy → Type) [FloatOps F] where
  a0 : (⟨⟨2, ![100000, 96]⟩, .f32⟩ : BufTy).Contents (Elt F)
  a1 : (⟨⟨2, ![2, 1000000]⟩, .i32⟩ : BufTy).Contents (Elt F)
  a2 : (⟨⟨2, ![96, 80]⟩, .f32⟩ : BufTy).Contents (Elt F)
  a3 : (⟨⟨1, ![80]⟩, .f32⟩ : BufTy).Contents (Elt F)
  a4 : (⟨⟨2, ![96, 80]⟩, .f32⟩ : BufTy).Contents (Elt F)
  a5 : (⟨⟨1, ![80]⟩, .f32⟩ : BufTy).Contents (Elt F)
  a6 : (⟨⟨3, ![6, 80, 80]⟩, .f32⟩ : BufTy).Contents (Elt F)
  a7 : (⟨⟨2, ![6, 80]⟩, .f32⟩ : BufTy).Contents (Elt F)
  a8 : (⟨⟨3, ![6, 80, 80]⟩, .f32⟩ : BufTy).Contents (Elt F)
  a9 : (⟨⟨2, ![6, 80]⟩, .f32⟩ : BufTy).Contents (Elt F)
  a10 : (⟨⟨2, ![7, 80]⟩, .f32⟩ : BufTy).Contents (Elt F)
  a11 : (⟨⟨2, ![7, 80]⟩, .f32⟩ : BufTy).Contents (Elt F)
  a12 : (⟨⟨2, ![176, 48]⟩, .f32⟩ : BufTy).Contents (Elt F)
  a13 : (⟨⟨1, ![48]⟩, .f32⟩ : BufTy).Contents (Elt F)

end Cert.Spec

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.KBnSpec.lean ====
/-
  A normalising layer on the extended reals, over rank-2 arrays.

  `bn om os mu var g be` is, at row `p` and column `q`,
      max (g q · ((om (p, q) − mu q) · rsqrt (var q + ε)) + be q, 0) + os (p, q),
  where the four statistics are one-row arrays read at column `q`, `ε` is the single-precision word 0x3727C5AC and
  `rsqrt` is the reciprocal square root of the extended reals. Every row is treated alike and an entry depends on
  its own row of `om` and `os` only, so a block of consecutive rows of the result is the same function of that block of
  rows. `bnK` is `bn` at the extents 100000 × 80. The last lemma reads the vector unit's form of the layer (each
  one-row statistic broadcast to every row, pointwise arithmetic, the maximum with a zero splat) as `bn`.
-/
import Idealize.ShloMosaic.PureOps.Ideal.Laws
import Idealize.ShloMosaic.Lib.ValueIdx
import Idealize.ShloMosaic.Lib.ValueLayout
import proofs.«127768_j9405978378358_1_alg».proof.Proof.LibDense

noncomputable section

namespace Cert.KernelIdeal.RegionValue

open Idealize.ShloMosaic Idealize.ShloMosaic.ValueIdx Cert.Dense

/-- The normalising layer with a rectifier and a residual, at any extents. -/
def bn {M N : ℕ} (om os : Mat M N) (mu var g be : Mat 1 N) : Mat M N := fun i =>
  max (g (ix2 (0 : Fin 1) (c1 i)) * ((om i - mu (ix2 (0 : Fin 1) (c1 i))) * Ideal.rsqrt (var (ix2 (0 : Fin 1) (c1 i)) + Ideal.ofBits .f32 0x3727C5AC#32)) + be (ix2 (0 : Fin 1) (c1 i))) 0 + os i

theorem bn_apply {M N : ℕ} (om os : Mat M N) (mu var g be : Mat 1 N) (p : Fin M) (q : Fin N) :
    bn om os mu var g be (ix2 p q)
      = max (g (ix2 (0 : Fin 1) q) * ((om (ix2 p q) - mu (ix2 (0 : Fin 1) q)) * Ideal.rsqrt (var (ix2 (0 : Fin 1) q) + Ideal.ofBits .f32 0x3727C5AC#32)) + be (ix2 (0 : Fin 1) q)) 0 + os (ix2 p q) := rfl

/-- The layer at the extents 100000 × 80. -/
def bnK (om os : Mat 100000 80) (mu var g be : Mat 1 80) : Mat 100000 80 := fun i =>
  max (g (ix2 (0 : Fin 1) (c1 i)) * ((om i - mu (ix2 (0 : Fin 1) (c1 i))) * Ideal.rsqrt (var (ix2 (0 : Fin 1) (c1 i)) + Ideal.ofBits .f32 0x3727C5AC#32)) + be (ix2 (0 : Fin 1) (c1 i))) 0 + os i

theorem bnK_eq_bn (om os : Mat 100000 80) (mu var g be : Mat 1 80) : bnK om os mu var g be = bn om os mu var g be := rfl

/-- An entry of the layer over a block of rows is the entry of the layer over all rows at the row the block's row
    sits at: the statistics are shared, the two row arrays agree there, and the column is the same. -/
theorem bn_rows {M M' N : ℕ} (om os : Mat M N) (om' os' : Mat M' N) (mu var g be mu' var' g' be' : Mat 1 N)
    (j : (⟨2, ![M', N]⟩ : Shape).Idx) (i : (⟨2, ![M, N]⟩ : Shape).Idx)
    (hom : om' j = om i) (hos : os' j = os i) (hq : (i 1).val = (j 1).val)
    (hmu : mu' = mu) (hvar : var' = var) (hg : g' = g) (hbe : be' = be) :
    bn om' os' mu' var' g' be' j = bn om os mu var g be i := by
  subst hmu hvar hg hbe
  have hc : c1 j = c1 i := Fin.ext hq.symm
  unfold bn
  rw [hom, hos, hc]

/-- The vector unit's form: each one-row statistic broadcast to every row, the arithmetic pointwise, the maximum taken
    with a zero splat. -/
theorem vecBn {M N : ℕ} (om os : FVec Ideal ⟨2, ![M, N]⟩ .f32) (mu var g be : FVec Ideal ⟨2, ![1, N]⟩ .f32)
    (h : (⟨2, ![1, N]⟩ : Shape).Broadcasts ⟨2, ![M, N]⟩) :
    addf (maximumf (addf (mulf (broadcastTo ⟨2, ![M, N]⟩ g h) (mulf (subf om (broadcastTo ⟨2, ![M, N]⟩ mu h))
          (broadcastTo ⟨2, ![M, N]⟩ (rsqrt (addf var (broadcast ⟨2, ![1, N]⟩ (Scalar.ofBits (F := Ideal) .f32 0x3727C5AC#32)))) h)))
        (broadcastTo ⟨2, ![M, N]⟩ be h)) (broadcast ⟨2, ![M, N]⟩ (Scalar.ofBits (F := Ideal) .f32 0x00000000#32))) os
      = bn om os mu var g be := by
  funext i
  obtain ⟨p, q, rfl⟩ : ∃ (p : Fin M) (q : Fin N), i = ix2 p q := ⟨i 0, i 1, eq_ix2 i⟩
  show max (broadcastTo ⟨2, ![M, N]⟩ g h (ix2 p q) * ((om (ix2 p q) - broadcastTo ⟨2, ![M, N]⟩ mu h (ix2 p q))
        * broadcastTo ⟨2, ![M, N]⟩ (rsqrt (addf var (broadcast ⟨2, ![1, N]⟩ (Scalar.ofBits (F := Ideal) .f32 0x3727C5AC#32)))) h (ix2 p q))
      + broadcastTo ⟨2, ![M, N]⟩ be h (ix2 p q)) (Ideal.ofBits .f32 0x00000000#32) + os (ix2 p q) = _
  rw [broadcastTo_1b_ab_apply, broadcastTo_1b_ab_apply, broadcastTo_1b_ab_apply, broadcastTo_1b_ab_apply, Ideal.ofBits_zero_f32]
  rfl

end Cert.KernelIdeal.RegionValue

end
-- ==== Proof.KVals.lean ====
/- Every named value of the program as a function of the fourteen argument arrays: each is its stage function applied to the named values before it. -/
import proofs.«127768_j9405978378358_1_alg».proof.Proof.KFun
import proofs.«127768_j9405978378358_1_alg».proof.Proof.SpecInputs
import proofs.«127768_j9405978378358_1_alg».proof.Proof.LibDense
import proofs.«127768_j9405978378358_1_alg».proof.Proof.KBnSpec

set_option maxRecDepth 16384

noncomputable section

namespace Cert.KernelIdeal.Val

open Cert.KernelIdeal Cert.KernelIdeal.Gen Idealize.ShloMosaic Idealize.ShloMosaic.TcCoe Idealize.ShloMosaic.StableHlo

def kv_main_v1 (a : Cert.Spec.Inputs Ideal) : (⟨S1000000, .i32⟩ : BufTy).Contents (Elt Ideal) :=
  kf1 (F := Ideal) a.a1

def kv_main_v3 (a : Cert.Spec.Inputs Ideal) : (⟨S1000000, .i32⟩ : BufTy).Contents (Elt Ideal) :=
  kf2 (F := Ideal) a.a1

def kv_main_v4 (a : Cert.Spec.Inputs Ideal) : (⟨S1000000, .f32⟩ : BufTy).Contents (Elt Ideal) :=
  kf3 (F := Ideal)

def kv_main_v7 (a : Cert.Spec.Inputs Ideal) : (⟨S100000, .f32⟩ : BufTy).Contents (Elt Ideal) :=
  kf4 (F := Ideal) (kv_main_v1 a) (kv_main_v4 a)

def kv_main_v10 (a : Cert.Spec.Inputs Ideal) : (⟨S20000, .f32⟩ : BufTy).Contents (Elt Ideal) :=
  kf5 (F := Ideal) (kv_main_v3 a) (kv_main_v4 a)

def kv_main_v12 (a : Cert.Spec.Inputs Ideal) : (⟨S100000, .i1⟩ : BufTy).Contents (Elt Ideal) :=
  kf6 (F := Ideal) (kv_main_v7 a)

def kv_main_v14 (a : Cert.Spec.Inputs Ideal) : (⟨S100000, .f32⟩ : BufTy).Contents (Elt Ideal) :=
  kf7 (F := Ideal) (kv_main_v7 a)

def kv_main_cst_4 (a : Cert.Spec.Inputs Ideal) : (⟨S_, .f32⟩ : BufTy).Contents (Elt Ideal) :=
  kf8 (F := Ideal)

def kv_main_v15 (a : Cert.Spec.Inputs Ideal) : (⟨S100000, .f32⟩ : BufTy).Contents (Elt Ideal) :=
  kf9 (F := Ideal) (kv_main_v12 a) (kv_main_v14 a) (kv_main_cst_4 a)

def kv_main_v17 (a : Cert.Spec.Inputs Ideal) : (⟨S20000, .i1⟩ : BufTy).Contents (Elt Ideal) :=
  kf10 (F := Ideal) (kv_main_v10 a)

def kv_main_v19 (a : Cert.Spec.Inputs Ideal) : (⟨S20000, .f32⟩ : BufTy).Contents (Elt Ideal) :=
  kf11 (F := Ideal) (kv_main_v10 a)

def kv_main_cst_7 (a : Cert.Spec.Inputs Ideal) : (⟨S_, .f32⟩ : BufTy).Contents (Elt Ideal) :=
  kf8 (F := Ideal)

def kv_main_v20 (a : Cert.Spec.Inputs Ideal) : (⟨S20000, .f32⟩ : BufTy).Contents (Elt Ideal) :=
  kf12 (F := Ideal) (kv_main_v17 a) (kv_main_v19 a) (kv_main_cst_7 a)

def kv_main_v21 (a : Cert.Spec.Inputs Ideal) : (⟨S96x160, .f32⟩ : BufTy).Contents (Elt Ideal) :=
  kf13 (F := Ideal) a.a2 a.a4

def kv_main_v22 (a : Cert.Spec.Inputs Ideal) : (⟨S100000x160, .f32⟩ : BufTy).Contents (Elt Ideal) :=
  Cert.Dense.mm a.a0 (kv_main_v21 a)

def kv_main_v48 (a : Cert.Spec.Inputs Ideal) : (⟨S100000x160, .f32⟩ : BufTy).Contents (Elt Ideal) :=
  kf14 (F := Ideal) (kv_main_v1 a) (kv_main_v3 a) (kv_main_v22 a) (kv_main_v20 a) (kv_main_v15 a)

def kv_main_v52 (a : Cert.Spec.Inputs Ideal) : (⟨S100000x80, .f32⟩ : BufTy).Contents (Elt Ideal) :=
  kf15 (F := Ideal) (kv_main_v48 a) a.a3

def kv_main_v56 (a : Cert.Spec.Inputs Ideal) : (⟨S100000x80, .f32⟩ : BufTy).Contents (Elt Ideal) :=
  kf16 (F := Ideal) (kv_main_v48 a) a.a5

def kv_main_v59 (a : Cert.Spec.Inputs Ideal) : (⟨S80, .f32⟩ : BufTy).Contents (Elt Ideal) :=
  kf17 (F := Ideal) (kv_main_v52 a)

def kv_main_c_15 (a : Cert.Spec.Inputs Ideal) : (⟨S_, .i32⟩ : BufTy).Contents (Elt Ideal) :=
  kf18 (F := Ideal)

def kv_main_call2_v5 (a : Cert.Spec.Inputs Ideal) : (⟨S100000x80, .f32⟩ : BufTy).Contents (Elt Ideal) :=
  kf19 (F := Ideal) (kv_main_v52 a)

def kv_main_call2_v8 (a : Cert.Spec.Inputs Ideal) : (⟨S_, .f32⟩ : BufTy).Contents (Elt Ideal) :=
  kf20 (F := Ideal) (kv_main_c_15 a)

def kv_main_call2_v11 (a : Cert.Spec.Inputs Ideal) : (⟨S80, .f32⟩ : BufTy).Contents (Elt Ideal) :=
  kf21 (F := Ideal) (kv_main_call2_v5 a) (kv_main_call2_v8 a)

def kv_main_v60 (a : Cert.Spec.Inputs Ideal) : (⟨S80, .f32⟩ : BufTy).Contents (Elt Ideal) :=
  kf22 (F := Ideal) (kv_main_call2_v8 a) (kv_main_call2_v11 a)

def kv_main_v62 (a : Cert.Spec.Inputs Ideal) : (⟨S80, .f32⟩ : BufTy).Contents (Elt Ideal) :=
  kf23 (F := Ideal) a.a10

def kv_main_v64 (a : Cert.Spec.Inputs Ideal) : (⟨S80, .f32⟩ : BufTy).Contents (Elt Ideal) :=
  kf23 (F := Ideal) a.a11

def kv_main_v65 (a : Cert.Spec.Inputs Ideal) : (⟨S1x80, .f32⟩ : BufTy).Contents (Elt Ideal) :=
  kf24 (F := Ideal) (kv_main_v59 a)

def kv_main_v66 (a : Cert.Spec.Inputs Ideal) : (⟨S1x80, .f32⟩ : BufTy).Contents (Elt Ideal) :=
  kf24 (F := Ideal) (kv_main_v60 a)

def kv_main_v67 (a : Cert.Spec.Inputs Ideal) : (⟨S1x80, .f32⟩ : BufTy).Contents (Elt Ideal) :=
  kf24 (F := Ideal) (kv_main_v62 a)

def kv_main_v68 (a : Cert.Spec.Inputs Ideal) : (⟨S1x80, .f32⟩ : BufTy).Contents (Elt Ideal) :=
  kf24 (F := Ideal) (kv_main_v64 a)

def kv_main_v69 (a : Cert.Spec.Inputs Ideal) : (⟨S100000x80, .f32⟩ : BufTy).Contents (Elt Ideal) :=
  Cert.KernelIdeal.RegionValue.bnK (kv_main_v52 a) (kv_main_v56 a) (kv_main_v65 a) (kv_main_v66 a) (kv_main_v67 a) (kv_main_v68 a)

def kv_main_v71 (a : Cert.Spec.Inputs Ideal) : (⟨S80x80, .f32⟩ : BufTy).Contents (Elt Ideal) :=
  kf25 (F := Ideal) a.a6

def kv_main_v73 (a : Cert.Spec.Inputs Ideal) : (⟨S80x80, .f32⟩ : BufTy).Contents (Elt Ideal) :=
  kf25 (F := Ideal) a.a8

def kv_main_v74 (a : Cert.Spec.Inputs Ideal) : (⟨S80x160, .f32⟩ : BufTy).Contents (Elt Ideal) :=
  kf26 (F := Ideal) (kv_main_v71 a) (kv_main_v73 a)

def kv_main_v75 (a : Cert.Spec.Inputs Ideal) : (⟨S100000x160, .f32⟩ : BufTy).Contents (Elt Ideal) :=
  Cert.Dense.mm (kv_main_v69 a) (kv_main_v74 a)

def kv_main_v101 (a : Cert.Spec.Inputs Ideal) : (⟨S100000x160, .f32⟩ : BufTy).Contents (Elt Ideal) :=
  kf14 (F := Ideal) (kv_main_v1 a) (kv_main_v3 a) (kv_main_v75 a) (kv_main_v20 a) (kv_main_v15 a)

def kv_main_v104 (a : Cert.Spec.Inputs Ideal) : (⟨S80, .f32⟩ : BufTy).Contents (Elt Ideal) :=
  kf27 (F := Ideal) a.a7

def kv_main_v107 (a : Cert.Spec.Inputs Ideal) : (⟨S100000x80, .f32⟩ : BufTy).Contents (Elt Ideal) :=
  kf15 (F := Ideal) (kv_main_v101 a) (kv_main_v104 a)

def kv_main_v110 (a : Cert.Spec.Inputs Ideal) : (⟨S80, .f32⟩ : BufTy).Contents (Elt Ideal) :=
  kf27 (F := Ideal) a.a9

def kv_main_v113 (a : Cert.Spec.Inputs Ideal) : (⟨S100000x80, .f32⟩ : BufTy).Contents (Elt Ideal) :=
  kf16 (F := Ideal) (kv_main_v101 a) (kv_main_v110 a)

def kv_main_v116 (a : Cert.Spec.Inputs Ideal) : (⟨S80, .f32⟩ : BufTy).Contents (Elt Ideal) :=
  kf17 (F := Ideal) (kv_main_v107 a)

def kv_main_c_24 (a : Cert.Spec.Inputs Ideal) : (⟨S_, .i32⟩ : BufTy).Contents (Elt Ideal) :=
  kf18 (F := Ideal)

def kv_main_call3_v5 (a : Cert.Spec.Inputs Ideal) : (⟨S100000x80, .f32⟩ : BufTy).Contents (Elt Ideal) :=
  kf19 (F := Ideal) (kv_main_v107 a)

def kv_main_call3_v8 (a : Cert.Spec.Inputs Ideal) : (⟨S_, .f32⟩ : BufTy).Contents (Elt Ideal) :=
  kf20 (F := Ideal) (kv_main_c_24 a)

def kv_main_call3_v11 (a : Cert.Spec.Inputs Ideal) : (⟨S80, .f32⟩ : BufTy).Contents (Elt Ideal) :=
  kf21 (F := Ideal) (kv_main_call3_v5 a) (kv_main_call3_v8 a)

def kv_main_v117 (a : Cert.Spec.Inputs Ideal) : (⟨S80, .f32⟩ : BufTy).Contents (Elt Ideal) :=
  kf22 (F := Ideal) (kv_main_call3_v8 a) (kv_main_call3_v11 a)

def kv_main_v119 (a : Cert.Spec.Inputs Ideal) : (⟨S80, .f32⟩ : BufTy).Contents (Elt Ideal) :=
  kf28 (F := Ideal) a.a10

def kv_main_v121 (a : Cert.Spec.Inputs Ideal) : (⟨S80, .f32⟩ : BufTy).Contents (Elt Ideal) :=
  kf28 (F := Ideal) a.a11

def kv_main_v122 (a : Cert.Spec.Inputs Ideal) : (⟨S1x80, .f32⟩ : BufTy).Contents (Elt Ideal) :=
  kf24 (F := Ideal) (kv_main_v116 a)

def kv_main_v123 (a : Cert.Spec.Inputs Ideal) : (⟨S1x80, .f32⟩ : BufTy).Contents (Elt Ideal) :=
  kf24 (F := Ideal) (kv_main_v117 a)

def kv_main_v124 (a : Cert.Spec.Inputs Ideal) : (⟨S1x80, .f32⟩ : BufTy).Contents (Elt Ideal) :=
  kf24 (F := Ideal) (kv_main_v119 a)

def kv_main_v125 (a : Cert.Spec.Inputs Ideal) : (⟨S1x80, .f32⟩ : BufTy).Contents (Elt Ideal) :=
  kf24 (F := Ideal) (kv_main_v121 a)

def kv_main_v126 (a : Cert.Spec.Inputs Ideal) : (⟨S100000x80, .f32⟩ : BufTy).Contents (Elt Ideal) :=
  Cert.KernelIdeal.RegionValue.bnK (kv_main_v107 a) (kv_main_v113 a) (kv_main_v122 a) (kv_main_v123 a) (kv_main_v124 a) (kv_main_v125 a)

def kv_main_v128 (a : Cert.Spec.Inputs Ideal) : (⟨S80x80, .f32⟩ : BufTy).Contents (Elt Ideal) :=
  kf29 (F := Ideal) a.a6

def kv_main_v130 (a : Cert.Spec.Inputs Ideal) : (⟨S80x80, .f32⟩ : BufTy).Contents (Elt Ideal) :=
  kf29 (F := Ideal) a.a8

def kv_main_v131 (a : Cert.Spec.Inputs Ideal) : (⟨S80x160, .f32⟩ : BufTy).Contents (Elt Ideal) :=
  kf26 (F := Ideal) (kv_main_v128 a) (kv_main_v130 a)

def kv_main_v132 (a : Cert.Spec.Inputs Ideal) : (⟨S100000x160, .f32⟩ : BufTy).Contents (Elt Ideal) :=
  Cert.Dense.mm (kv_main_v126 a) (kv_main_v131 a)

def kv_main_v158 (a : Cert.Spec.Inputs Ideal) : (⟨S100000x160, .f32⟩ : BufTy).Contents (Elt Ideal) :=
  kf14 (F := Ideal) (kv_main_v1 a) (kv_main_v3 a) (kv_main_v132 a) (kv_main_v20 a) (kv_main_v15 a)

def kv_main_v161 (a : Cert.Spec.Inputs Ideal) : (⟨S80, .f32⟩ : BufTy).Contents (Elt Ideal) :=
  kf30 (F := Ideal) a.a7

def kv_main_v164 (a : Cert.Spec.Inputs Ideal) : (⟨S100000x80, .f32⟩ : BufTy).Contents (Elt Ideal) :=
  kf15 (F := Ideal) (kv_main_v158 a) (kv_main_v161 a)

def kv_main_v167 (a : Cert.Spec.Inputs Ideal) : (⟨S80, .f32⟩ : BufTy).Contents (Elt Ideal) :=
  kf30 (F := Ideal) a.a9

def kv_main_v170 (a : Cert.Spec.Inputs Ideal) : (⟨S100000x80, .f32⟩ : BufTy).Contents (Elt Ideal) :=
  kf16 (F := Ideal) (kv_main_v158 a) (kv_main_v167 a)

def kv_main_v173 (a : Cert.Spec.Inputs Ideal) : (⟨S80, .f32⟩ : BufTy).Contents (Elt Ideal) :=
  kf17 (F := Ideal) (kv_main_v164 a)

def kv_main_c_33 (a : Cert.Spec.Inputs Ideal) : (⟨S_, .i32⟩ : BufTy).Contents (Elt Ideal) :=
  kf18 (F := Ideal)

def kv_main_call4_v5 (a : Cert.Spec.Inputs Ideal) : (⟨S100000x80, .f32⟩ : BufTy).Contents (Elt Ideal) :=
  kf19 (F := Ideal) (kv_main_v164 a)

def kv_main_call4_v8 (a : Cert.Spec.Inputs Ideal) : (⟨S_, .f32⟩ : BufTy).Contents (Elt Ideal) :=
  kf20 (F := Ideal) (kv_main_c_33 a)

def kv_main_call4_v11 (a : Cert.Spec.Inputs Ideal) : (⟨S80, .f32⟩ : BufTy).Contents (Elt Ideal) :=
  kf21 (F := Ideal) (kv_main_call4_v5 a) (kv_main_call4_v8 a)

def kv_main_v174 (a : Cert.Spec.Inputs Ideal) : (⟨S80, .f32⟩ : BufTy).Contents (Elt Ideal) :=
  kf22 (F := Ideal) (kv_main_call4_v8 a) (kv_main_call4_v11 a)

def kv_main_v176 (a : Cert.Spec.Inputs Ideal) : (⟨S80, .f32⟩ : BufTy).Contents (Elt Ideal) :=
  kf31 (F := Ideal) a.a10

def kv_main_v178 (a : Cert.Spec.Inputs Ideal) : (⟨S80, .f32⟩ : BufTy).Contents (Elt Ideal) :=
  kf31 (F := Ideal) a.a11

def kv_main_v179 (a : Cert.Spec.Inputs Ideal) : (⟨S1x80, .f32⟩ : BufTy).Contents (Elt Ideal) :=
  kf24 (F := Ideal) (kv_main_v173 a)

def kv_main_v180 (a : Cert.Spec.Inputs Ideal) : (⟨S1x80, .f32⟩ : BufTy).Contents (Elt Ideal) :=
  kf24 (F := Ideal) (kv_main_v174 a)

def kv_main_v181 (a : Cert.Spec.Inputs Ideal) : (⟨S1x80, .f32⟩ : BufTy).Contents (Elt Ideal) :=
  kf24 (F := Ideal) (kv_main_v176 a)

def kv_main_v182 (a : Cert.Spec.Inputs Ideal) : (⟨S1x80, .f32⟩ : BufTy).Contents (Elt Ideal) :=
  kf24 (F := Ideal) (kv_main_v178 a)

def kv_main_v183 (a : Cert.Spec.Inputs Ideal) : (⟨S100000x80, .f32⟩ : BufTy).Contents (Elt Ideal) :=
  Cert.KernelIdeal.RegionValue.bnK (kv_main_v164 a) (kv_main_v170 a) (kv_main_v179 a) (kv_main_v180 a) (kv_main_v181 a) (kv_main_v182 a)

def kv_main_v185 (a : Cert.Spec.Inputs Ideal) : (⟨S80x80, .f32⟩ : BufTy).Contents (Elt Ideal) :=
  kf32 (F := Ideal) a.a6

def kv_main_v187 (a : Cert.Spec.Inputs Ideal) : (⟨S80x80, .f32⟩ : BufTy).Contents (Elt Ideal) :=
  kf32 (F := Ideal) a.a8

def kv_main_v188 (a : Cert.Spec.Inputs Ideal) : (⟨S80x160, .f32⟩ : BufTy).Contents (Elt Ideal) :=
  kf26 (F := Ideal) (kv_main_v185 a) (kv_main_v187 a)

def kv_main_v189 (a : Cert.Spec.Inputs Ideal) : (⟨S100000x160, .f32⟩ : BufTy).Contents (Elt Ideal) :=
  Cert.Dense.mm (kv_main_v183 a) (kv_main_v188 a)

def kv_main_v215 (a : Cert.Spec.Inputs Ideal) : (⟨S100000x160, .f32⟩ : BufTy).Contents (Elt Ideal) :=
  kf14 (F := Ideal) (kv_main_v1 a) (kv_main_v3 a) (kv_main_v189 a) (kv_main_v20 a) (kv_main_v15 a)

def kv_main_v218 (a : Cert.Spec.Inputs Ideal) : (⟨S80, .f32⟩ : BufTy).Contents (Elt Ideal) :=
  kf33 (F := Ideal) a.a7

def kv_main_v221 (a : Cert.Spec.Inputs Ideal) : (⟨S100000x80, .f32⟩ : BufTy).Contents (Elt Ideal) :=
  kf15 (F := Ideal) (kv_main_v215 a) (kv_main_v218 a)

def kv_main_v224 (a : Cert.Spec.Inputs Ideal) : (⟨S80, .f32⟩ : BufTy).Contents (Elt Ideal) :=
  kf33 (F := Ideal) a.a9

def kv_main_v227 (a : Cert.Spec.Inputs Ideal) : (⟨S100000x80, .f32⟩ : BufTy).Contents (Elt Ideal) :=
  kf16 (F := Ideal) (kv_main_v215 a) (kv_main_v224 a)

def kv_main_v230 (a : Cert.Spec.Inputs Ideal) : (⟨S80, .f32⟩ : BufTy).Contents (Elt Ideal) :=
  kf17 (F := Ideal) (kv_main_v221 a)

def kv_main_c_42 (a : Cert.Spec.Inputs Ideal) : (⟨S_, .i32⟩ : BufTy).Contents (Elt Ideal) :=
  kf18 (F := Ideal)

def kv_main_call5_v5 (a : Cert.Spec.Inputs Ideal) : (⟨S100000x80, .f32⟩ : BufTy).Contents (Elt Ideal) :=
  kf19 (F := Ideal) (kv_main_v221 a)

def kv_main_call5_v8 (a : Cert.Spec.Inputs Ideal) : (⟨S_, .f32⟩ : BufTy).Contents (Elt Ideal) :=
  kf20 (F := Ideal) (kv_main_c_42 a)

def kv_main_call5_v11 (a : Cert.Spec.Inputs Ideal) : (⟨S80, .f32⟩ : BufTy).Contents (Elt Ideal) :=
  kf21 (F := Ideal) (kv_main_call5_v5 a) (kv_main_call5_v8 a)

def kv_main_v231 (a : Cert.Spec.Inputs Ideal) : (⟨S80, .f32⟩ : BufTy).Contents (Elt Ideal) :=
  kf22 (F := Ideal) (kv_main_call5_v8 a) (kv_main_call5_v11 a)

def kv_main_v233 (a : Cert.Spec.Inputs Ideal) : (⟨S80, .f32⟩ : BufTy).Contents (Elt Ideal) :=
  kf34 (F := Ideal) a.a10

def kv_main_v235 (a : Cert.Spec.Inputs Ideal) : (⟨S80, .f32⟩ : BufTy).Contents (Elt Ideal) :=
  kf34 (F := Ideal) a.a11

def kv_main_v236 (a : Cert.Spec.Inputs Ideal) : (⟨S1x80, .f32⟩ : BufTy).Contents (Elt Ideal) :=
  kf24 (F := Ideal) (kv_main_v230 a)

def kv_main_v237 (a : Cert.Spec.Inputs Ideal) : (⟨S1x80, .f32⟩ : BufTy).Contents (Elt Ideal) :=
  kf24 (F := Ideal) (kv_main_v231 a)

def kv_main_v238 (a : Cert.Spec.Inputs Ideal) : (⟨S1x80, .f32⟩ : BufTy).Contents (Elt Ideal) :=
  kf24 (F := Ideal) (kv_main_v233 a)

def kv_main_v239 (a : Cert.Spec.Inputs Ideal) : (⟨S1x80, .f32⟩ : BufTy).Contents (Elt Ideal) :=
  kf24 (F := Ideal) (kv_main_v235 a)

def kv_main_v240 (a : Cert.Spec.Inputs Ideal) : (⟨S100000x80, .f32⟩ : BufTy).Contents (Elt Ideal) :=
  Cert.KernelIdeal.RegionValue.bnK (kv_main_v221 a) (kv_main_v227 a) (kv_main_v236 a) (kv_main_v237 a) (kv_main_v238 a) (kv_main_v239 a)

def kv_main_v242 (a : Cert.Spec.Inputs Ideal) : (⟨S80x80, .f32⟩ : BufTy).Contents (Elt Ideal) :=
  kf35 (F := Ideal) a.a6

def kv_main_v244 (a : Cert.Spec.Inputs Ideal) : (⟨S80x80, .f32⟩ : BufTy).Contents (Elt Ideal) :=
  kf35 (F := Ideal) a.a8

def kv_main_v245 (a : Cert.Spec.Inputs Ideal) : (⟨S80x160, .f32⟩ : BufTy).Contents (Elt Ideal) :=
  kf26 (F := Ideal) (kv_main_v242 a) (kv_main_v244 a)

def kv_main_v246 (a : Cert.Spec.Inputs Ideal) : (⟨S100000x160, .f32⟩ : BufTy).Contents (Elt Ideal) :=
  Cert.Dense.mm (kv_main_v240 a) (kv_main_v245 a)

def kv_main_v272 (a : Cert.Spec.Inputs Ideal) : (⟨S100000x160, .f32⟩ : BufTy).Contents (Elt Ideal) :=
  kf14 (F := Ideal) (kv_main_v1 a) (kv_main_v3 a) (kv_main_v246 a) (kv_main_v20 a) (kv_main_v15 a)

def kv_main_v275 (a : Cert.Spec.Inputs Ideal) : (⟨S80, .f32⟩ : BufTy).Contents (Elt Ideal) :=
  kf36 (F := Ideal) a.a7

def kv_main_v278 (a : Cert.Spec.Inputs Ideal) : (⟨S100000x80, .f32⟩ : BufTy).Contents (Elt Ideal) :=
  kf15 (F := Ideal) (kv_main_v272 a) (kv_main_v275 a)

def kv_main_v281 (a : Cert.Spec.Inputs Ideal) : (⟨S80, .f32⟩ : BufTy).Contents (Elt Ideal) :=
  kf36 (F := Ideal) a.a9

def kv_main_v284 (a : Cert.Spec.Inputs Ideal) : (⟨S100000x80, .f32⟩ : BufTy).Contents (Elt Ideal) :=
  kf16 (F := Ideal) (kv_main_v272 a) (kv_main_v281 a)

def kv_main_v287 (a : Cert.Spec.Inputs Ideal) : (⟨S80, .f32⟩ : BufTy).Contents (Elt Ideal) :=
  kf17 (F := Ideal) (kv_main_v278 a)

def kv_main_c_51 (a : Cert.Spec.Inputs Ideal) : (⟨S_, .i32⟩ : BufTy).Contents (Elt Ideal) :=
  kf18 (F := Ideal)

def kv_main_call6_v5 (a : Cert.Spec.Inputs Ideal) : (⟨S100000x80, .f32⟩ : BufTy).Contents (Elt Ideal) :=
  kf19 (F := Ideal) (kv_main_v278 a)

def kv_main_call6_v8 (a : Cert.Spec.Inputs Ideal) : (⟨S_, .f32⟩ : BufTy).Contents (Elt Ideal) :=
  kf20 (F := Ideal) (kv_main_c_51 a)

def kv_main_call6_v11 (a : Cert.Spec.Inputs Ideal) : (⟨S80, .f32⟩ : BufTy).Contents (Elt Ideal) :=
  kf21 (F := Ideal) (kv_main_call6_v5 a) (kv_main_call6_v8 a)

def kv_main_v288 (a : Cert.Spec.Inputs Ideal) : (⟨S80, .f32⟩ : BufTy).Contents (Elt Ideal) :=
  kf22 (F := Ideal) (kv_main_call6_v8 a) (kv_main_call6_v11 a)

def kv_main_v290 (a : Cert.Spec.Inputs Ideal) : (⟨S80, .f32⟩ : BufTy).Contents (Elt Ideal) :=
  kf37 (F := Ideal) a.a10

def kv_main_v292 (a : Cert.Spec.Inputs Ideal) : (⟨S80, .f32⟩ : BufTy).Contents (Elt Ideal) :=
  kf37 (F := Ideal) a.a11

def kv_main_v293 (a : Cert.Spec.Inputs Ideal) : (⟨S1x80, .f32⟩ : BufTy).Contents (Elt Ideal) :=
  kf24 (F := Ideal) (kv_main_v287 a)

def kv_main_v294 (a : Cert.Spec.Inputs Ideal) : (⟨S1x80, .f32⟩ : BufTy).Contents (Elt Ideal) :=
  kf24 (F := Ideal) (kv_main_v288 a)

def kv_main_v295 (a : Cert.Spec.Inputs Ideal) : (⟨S1x80, .f32⟩ : BufTy).Contents (Elt Ideal) :=
  kf24 (F := Ideal) (kv_main_v290 a)

def kv_main_v296 (a : Cert.Spec.Inputs Ideal) : (⟨S1x80, .f32⟩ : BufTy).Contents (Elt Ideal) :=
  kf24 (F := Ideal) (kv_main_v292 a)

def kv_main_v297 (a : Cert.Spec.Inputs Ideal) : (⟨S100000x80, .f32⟩ : BufTy).Contents (Elt Ideal) :=
  Cert.KernelIdeal.RegionValue.bnK (kv_main_v278 a) (kv_main_v284 a) (kv_main_v293 a) (kv_main_v294 a) (kv_main_v295 a) (kv_main_v296 a)

def kv_main_v299 (a : Cert.Spec.Inputs Ideal) : (⟨S80x80, .f32⟩ : BufTy).Contents (Elt Ideal) :=
  kf38 (F := Ideal) a.a6

def kv_main_v301 (a : Cert.Spec.Inputs Ideal) : (⟨S80x80, .f32⟩ : BufTy).Contents (Elt Ideal) :=
  kf38 (F := Ideal) a.a8

def kv_main_v302 (a : Cert.Spec.Inputs Ideal) : (⟨S80x160, .f32⟩ : BufTy).Contents (Elt Ideal) :=
  kf26 (F := Ideal) (kv_main_v299 a) (kv_main_v301 a)

def kv_main_v303 (a : Cert.Spec.Inputs Ideal) : (⟨S100000x160, .f32⟩ : BufTy).Contents (Elt Ideal) :=
  Cert.Dense.mm (kv_main_v297 a) (kv_main_v302 a)

def kv_main_v329 (a : Cert.Spec.Inputs Ideal) : (⟨S100000x160, .f32⟩ : BufTy).Contents (Elt Ideal) :=
  kf14 (F := Ideal) (kv_main_v1 a) (kv_main_v3 a) (kv_main_v303 a) (kv_main_v20 a) (kv_main_v15 a)

def kv_main_v332 (a : Cert.Spec.Inputs Ideal) : (⟨S80, .f32⟩ : BufTy).Contents (Elt Ideal) :=
  kf39 (F := Ideal) a.a7

def kv_main_v335 (a : Cert.Spec.Inputs Ideal) : (⟨S100000x80, .f32⟩ : BufTy).Contents (Elt Ideal) :=
  kf15 (F := Ideal) (kv_main_v329 a) (kv_main_v332 a)

def kv_main_v338 (a : Cert.Spec.Inputs Ideal) : (⟨S80, .f32⟩ : BufTy).Contents (Elt Ideal) :=
  kf39 (F := Ideal) a.a9

def kv_main_v341 (a : Cert.Spec.Inputs Ideal) : (⟨S100000x80, .f32⟩ : BufTy).Contents (Elt Ideal) :=
  kf16 (F := Ideal) (kv_main_v329 a) (kv_main_v338 a)

def kv_main_v344 (a : Cert.Spec.Inputs Ideal) : (⟨S80, .f32⟩ : BufTy).Contents (Elt Ideal) :=
  kf17 (F := Ideal) (kv_main_v335 a)

def kv_main_c_60 (a : Cert.Spec.Inputs Ideal) : (⟨S_, .i32⟩ : BufTy).Contents (Elt Ideal) :=
  kf18 (F := Ideal)

def kv_main_call7_v5 (a : Cert.Spec.Inputs Ideal) : (⟨S100000x80, .f32⟩ : BufTy).Contents (Elt Ideal) :=
  kf19 (F := Ideal) (kv_main_v335 a)

def kv_main_call7_v8 (a : Cert.Spec.Inputs Ideal) : (⟨S_, .f32⟩ : BufTy).Contents (Elt Ideal) :=
  kf20 (F := Ideal) (kv_main_c_60 a)

def kv_main_call7_v11 (a : Cert.Spec.Inputs Ideal) : (⟨S80, .f32⟩ : BufTy).Contents (Elt Ideal) :=
  kf21 (F := Ideal) (kv_main_call7_v5 a) (kv_main_call7_v8 a)

def kv_main_v345 (a : Cert.Spec.Inputs Ideal) : (⟨S80, .f32⟩ : BufTy).Contents (Elt Ideal) :=
  kf22 (F := Ideal) (kv_main_call7_v8 a) (kv_main_call7_v11 a)

def kv_main_v347 (a : Cert.Spec.Inputs Ideal) : (⟨S80, .f32⟩ : BufTy).Contents (Elt Ideal) :=
  kf40 (F := Ideal) a.a10

def kv_main_v349 (a : Cert.Spec.Inputs Ideal) : (⟨S80, .f32⟩ : BufTy).Contents (Elt Ideal) :=
  kf40 (F := Ideal) a.a11

def kv_main_v350 (a : Cert.Spec.Inputs Ideal) : (⟨S1x80, .f32⟩ : BufTy).Contents (Elt Ideal) :=
  kf24 (F := Ideal) (kv_main_v344 a)

def kv_main_v351 (a : Cert.Spec.Inputs Ideal) : (⟨S1x80, .f32⟩ : BufTy).Contents (Elt Ideal) :=
  kf24 (F := Ideal) (kv_main_v345 a)

def kv_main_v352 (a : Cert.Spec.Inputs Ideal) : (⟨S1x80, .f32⟩ : BufTy).Contents (Elt Ideal) :=
  kf24 (F := Ideal) (kv_main_v347 a)

def kv_main_v353 (a : Cert.Spec.Inputs Ideal) : (⟨S1x80, .f32⟩ : BufTy).Contents (Elt Ideal) :=
  kf24 (F := Ideal) (kv_main_v349 a)

def kv_main_v354 (a : Cert.Spec.Inputs Ideal) : (⟨S100000x80, .f32⟩ : BufTy).Contents (Elt Ideal) :=
  Cert.KernelIdeal.RegionValue.bnK (kv_main_v335 a) (kv_main_v341 a) (kv_main_v350 a) (kv_main_v351 a) (kv_main_v352 a) (kv_main_v353 a)

def kv_main_v356 (a : Cert.Spec.Inputs Ideal) : (⟨S80x80, .f32⟩ : BufTy).Contents (Elt Ideal) :=
  kf41 (F := Ideal) a.a6

def kv_main_v358 (a : Cert.Spec.Inputs Ideal) : (⟨S80x80, .f32⟩ : BufTy).Contents (Elt Ideal) :=
  kf41 (F := Ideal) a.a8

def kv_main_v359 (a : Cert.Spec.Inputs Ideal) : (⟨S80x160, .f32⟩ : BufTy).Contents (Elt Ideal) :=
  kf26 (F := Ideal) (kv_main_v356 a) (kv_main_v358 a)

def kv_main_v360 (a : Cert.Spec.Inputs Ideal) : (⟨S100000x160, .f32⟩ : BufTy).Contents (Elt Ideal) :=
  Cert.Dense.mm (kv_main_v354 a) (kv_main_v359 a)

def kv_main_v386 (a : Cert.Spec.Inputs Ideal) : (⟨S100000x160, .f32⟩ : BufTy).Contents (Elt Ideal) :=
  kf14 (F := Ideal) (kv_main_v1 a) (kv_main_v3 a) (kv_main_v360 a) (kv_main_v20 a) (kv_main_v15 a)

def kv_main_v389 (a : Cert.Spec.Inputs Ideal) : (⟨S80, .f32⟩ : BufTy).Contents (Elt Ideal) :=
  kf42 (F := Ideal) a.a7

def kv_main_v392 (a : Cert.Spec.Inputs Ideal) : (⟨S100000x80, .f32⟩ : BufTy).Contents (Elt Ideal) :=
  kf15 (F := Ideal) (kv_main_v386 a) (kv_main_v389 a)

def kv_main_v395 (a : Cert.Spec.Inputs Ideal) : (⟨S80, .f32⟩ : BufTy).Contents (Elt Ideal) :=
  kf42 (F := Ideal) a.a9

def kv_main_v398 (a : Cert.Spec.Inputs Ideal) : (⟨S100000x80, .f32⟩ : BufTy).Contents (Elt Ideal) :=
  kf16 (F := Ideal) (kv_main_v386 a) (kv_main_v395 a)

def kv_main_v401 (a : Cert.Spec.Inputs Ideal) : (⟨S80, .f32⟩ : BufTy).Contents (Elt Ideal) :=
  kf17 (F := Ideal) (kv_main_v392 a)

def kv_main_c_69 (a : Cert.Spec.Inputs Ideal) : (⟨S_, .i32⟩ : BufTy).Contents (Elt Ideal) :=
  kf18 (F := Ideal)

def kv_main_call8_v5 (a : Cert.Spec.Inputs Ideal) : (⟨S100000x80, .f32⟩ : BufTy).Contents (Elt Ideal) :=
  kf19 (F := Ideal) (kv_main_v392 a)

def kv_main_call8_v8 (a : Cert.Spec.Inputs Ideal) : (⟨S_, .f32⟩ : BufTy).Contents (Elt Ideal) :=
  kf20 (F := Ideal) (kv_main_c_69 a)

def kv_main_call8_v11 (a : Cert.Spec.Inputs Ideal) : (⟨S80, .f32⟩ : BufTy).Contents (Elt Ideal) :=
  kf21 (F := Ideal) (kv_main_call8_v5 a) (kv_main_call8_v8 a)

def kv_main_v402 (a : Cert.Spec.Inputs Ideal) : (⟨S80, .f32⟩ : BufTy).Contents (Elt Ideal) :=
  kf22 (F := Ideal) (kv_main_call8_v8 a) (kv_main_call8_v11 a)

def kv_main_v404 (a : Cert.Spec.Inputs Ideal) : (⟨S80, .f32⟩ : BufTy).Contents (Elt Ideal) :=
  kf43 (F := Ideal) a.a10

def kv_main_v406 (a : Cert.Spec.Inputs Ideal) : (⟨S80, .f32⟩ : BufTy).Contents (Elt Ideal) :=
  kf43 (F := Ideal) a.a11

def kv_main_v407 (a : Cert.Spec.Inputs Ideal) : (⟨S1x80, .f32⟩ : BufTy).Contents (Elt Ideal) :=
  kf24 (F := Ideal) (kv_main_v401 a)

def kv_main_v408 (a : Cert.Spec.Inputs Ideal) : (⟨S1x80, .f32⟩ : BufTy).Contents (Elt Ideal) :=
  kf24 (F := Ideal) (kv_main_v402 a)

def kv_main_v409 (a : Cert.Spec.Inputs Ideal) : (⟨S1x80, .f32⟩ : BufTy).Contents (Elt Ideal) :=
  kf24 (F := Ideal) (kv_main_v404 a)

def kv_main_v410 (a : Cert.Spec.Inputs Ideal) : (⟨S1x80, .f32⟩ : BufTy).Contents (Elt Ideal) :=
  kf24 (F := Ideal) (kv_main_v406 a)

def kv_main_v411 (a : Cert.Spec.Inputs Ideal) : (⟨S100000x80, .f32⟩ : BufTy).Contents (Elt Ideal) :=
  Cert.KernelIdeal.RegionValue.bnK (kv_main_v392 a) (kv_main_v398 a) (kv_main_v407 a) (kv_main_v408 a) (kv_main_v409 a) (kv_main_v410 a)

def kv_main_v412 (a : Cert.Spec.Inputs Ideal) : (⟨S100000x176, .f32⟩ : BufTy).Contents (Elt Ideal) :=
  kf44 (F := Ideal) (kv_main_v411 a) a.a0

def kv_main_v413 (a : Cert.Spec.Inputs Ideal) : (⟨S100000x48, .f32⟩ : BufTy).Contents (Elt Ideal) :=
  Cert.Dense.mm (kv_main_v412 a) a.a12

def kv_main_v439 (a : Cert.Spec.Inputs Ideal) : (⟨S100000x48, .f32⟩ : BufTy).Contents (Elt Ideal) :=
  kf45 (F := Ideal) (kv_main_v1 a) (kv_main_v3 a) (kv_main_v413 a) (kv_main_v20 a) (kv_main_v15 a)

def kv_main_v442 (a : Cert.Spec.Inputs Ideal) : (⟨S100000x48, .f32⟩ : BufTy).Contents (Elt Ideal) :=
  kf0 (F := Ideal) (kv_main_v439 a) a.a13

end Cert.KernelIdeal.Val

end
-- ==== Proof.KSeg_hostOps14.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps14 : List (Ref sig .tc) := [main_v412]

/-- A buffer the piece does not write keeps its contents. -/
theorem keep_hostOps14 (V : Valuation τ sig (Elt F)) (b : Ref sig .tc) (hb : ∀ y ∈ wr_hostOps14, b ≠ y) :
    after (hostOps14 (F := F)) V (Proc.devRef .tc b) = V (Proc.devRef .tc b) :=
  after_of_forall_not_mem (b := Proc.devRef .tc b) _ _ (List.forall_iff_forall_mem.mp (by
    simp only [hostOps14, List.Forall, StableHlo.nullary_writes, StableHlo.unary_writes, StableHlo.binary_writes, StableHlo.ternary_writes, StableHlo.quaternary_writes, StableHlo.reshape_writes, Finset.mem_singleton]
    skip
    all_goals exact devRef_ne_of_ne (hb _ (by decide))))

theorem c_main_v412 (V : Valuation τ sig (Elt F)) :
    (after (hostOps14 (F := F)) V) (Proc.devRef .tc main_v412) = kf44 (V (Proc.devRef .tc main_v411)) (V (Proc.devRef .tc main_arg0)) := by
  unfold kf44
  dsimp only [hostOps14]
  after_results_simp <;> rfl

end Cert.KernelIdeal.Val

end
-- ==== Proof.KSeg_hostOps15.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps15 : List (Ref sig .tc) := [main_c_70, main_v414, main_v415, main_c_71, main_v416, main_v417, main_v418, main_v419, main_v420, main_cst_72, main_v421, main_v422, main_v423, main_v424, main_v425, main_v426, main_c_73, main_v427, main_v428, main_c_74, main_v429, main_v430, main_v431, main_v432, main_v433, main_cst_75, main_v434, main_v435, main_v436, main_v437, main_v438, main_v439, main_v440, main_v441, main_v442]

/-- A buffer the piece does not write keeps its contents. -/
theorem keep_hostOps15 (V : Valuation τ sig (Elt F)) (b : Ref sig .tc) (hb : ∀ y ∈ wr_hostOps15, b ≠ y) :
    after (hostOps15 (F := F)) V (Proc.devRef .tc b) = V (Proc.devRef .tc b) :=
  after_of_forall_not_mem (b := Proc.devRef .tc b) _ _ (List.forall_iff_forall_mem.mp (by
    simp only [hostOps15, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v439 (V : Valuation τ sig (Elt F)) :
    (after (hostOps15 (F := F)) V) (Proc.devRef .tc main_v439) = kf45 (V (Proc.devRef .tc main_v1)) (V (Proc.devRef .tc main_v3)) (V (Proc.devRef .tc main_v413)) (V (Proc.devRef .tc main_v20)) (V (Proc.devRef .tc main_v15)) := by
  unfold kf45
  dsimp only [hostOps15]
  after_results_simp <;> rfl

theorem c_main_v442 (V : Valuation τ sig (Elt F)) :
    (after (hostOps15 (F := F)) V) (Proc.devRef .tc main_v442) = kf0 ((after (hostOps15 (F := F)) V) (Proc.devRef .tc main_v439)) (V (Proc.devRef .tc main_arg13)) := by
  unfold kf0
  dsimp only [hostOps15]
  after_results_simp <;> rfl

end Cert.KernelIdeal.Val

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«127768_j9405978378358_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.KReg14.lean ====
/-
  Region 14: the value of its output array.

  The grid has ten points; point `t` stages rows `10000 t … 10000 t + 9999` of the left operand, all of the weights, and
  writes back the same rows of the output. The body rounds both operands to a narrower format (no change on the extended
  reals) and multiplies them into a zero accumulator, so what point `t` writes back is the product of its block of rows
  with the weights. A row of a matrix product depends on the same row of the left operand only, so that block is rows
  `10000 t …` of the product of the whole left operand with the weights; the ten blocks cover every row (row `r` lies in
  the block of point `r / 10000`), and the array ends holding that product.
-/
import proofs.«127768_j9405978378358_1_alg».proof.Proof.FrameKernelIdealP
import proofs.«127768_j9405978378358_1_alg».proof.Proof.LibDense
import proofs.«127768_j9405978378358_1_alg».proof.Proof.LibBiasRow
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin14 : (![0, 0] : Fin 2 → Nat) = fun _ => 0 := funext fun a => by fin_cases a <;> rfl

/-- The body's value: the block of rows times the weights. -/
theorem payload14 (x0 : Vec Ideal S10000x176 .f32) (x1 : Vec Ideal S176x48 .f32) :
    k14_pay1 (F := Ideal) x0 x1 = mm (M := 10000) (K := 176) (N := 48) x0 x1 := by
  unfold k14_pay1
  simp only [shapeCast_self]
  exact matmul_zero_eq_mm _ rfl rfl rfl rfl rfl rfl none _ _

/-- What the body leaves in the output's staging buffer. -/
theorem block14 (x0 : Vec Ideal S10000x176 .f32) (x1 : Vec Ideal S176x48 .f32) :
    out14_2 (F := Ideal) x0 x1 = mm (M := 10000) (K := 176) (N := 48) x0 x1 := by
  unfold out14_2
  rw [View.canon_unit_zero origin14]
  simp only [View.ld_unit_zero (S := S10000x176) origin14, View.ld_unit_zero (S := S176x48) origin14]
  exact payload14 x0 x1

/-- The block indices over the grid: the row-tiled windows sit at block `(t, 0)`, the weights at block `(0, 0)`. -/
theorem index14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = t.val ∧ win14_2.index t (1 : Fin 2) = 0 :=
  (by decide +kernel : ∀ t : Fin grid14.N, _)

/-- What point `t` writes back is block `t` of the product of the whole arrays. -/
theorem written14 (c : Dev nD) (t : Fin cfg14.N) :
    (dat14 (F := Ideal) V c).flushed 2 t
      = ((cfg14.win 2).blk t).view.read (Elt Ideal)
          (mm (M := 100000) (K := 176) (N := 48) (V c (Pipeline.arrRef spec14 0)) (V c (Pipeline.arrRef spec14 1))) := by
  show (cfg14.win 2).cut (grid14.coords t) ((dat14 V c).after 2 t) = _
  rw [after14_2, block14]
  obtain ⟨e00, e01, e10, e11, e20, e21⟩ := index14 t
  funext j
  show mm (M := 10000) (K := 176) (N := 48) (iblk14 V c 0 t) (iblk14 V c 1 t) j
      = mm (M := 100000) (K := 176) (N := 48) (V c (Pipeline.arrRef spec14 0)) (V c (Pipeline.arrRef spec14 1))
          (((cfg14.win 2).blk t).view.emb j)
  refine Cert.BiasRow.mm_at _ _ _ _ j _ (fun k => ?_) (fun k => ?_)
  · show V c (Pipeline.arrRef spec14 0) (((cfg14.win 0).blk t).view.emb (ix2 (c0 j) k))
        = V c (Pipeline.arrRef spec14 0) (ix2 (c0 (((cfg14.win 2).blk t).view.emb j)) k)
    refine congrArg _ (funext fun a => Fin.ext ?_)
    match a with
    | ⟨0, _⟩ =>
      show win14_0.index t (0 : Fin 2) * 10000 + 1 * (j 0).val = win14_2.index t (0 : Fin 2) * 10000 + 1 * (j 0).val
      omega
    | ⟨1, _⟩ =>
      show win14_0.index t (1 : Fin 2) * 176 + 1 * k.val = k.val
      omega
  · show V c (Pipeline.arrRef spec14 1) (((cfg14.win 1).blk t).view.emb (ix2 k (c1 j)))
        = V c (Pipeline.arrRef spec14 1) (ix2 k (c1 (((cfg14.win 2).blk t).view.emb j)))
    refine congrArg _ (funext fun a => Fin.ext ?_)
    match a with
    | ⟨0, _⟩ =>
      show win14_1.index t (0 : Fin 2) * 176 + 1 * k.val = k.val
      omega
    | ⟨1, _⟩ =>
      show win14_1.index t (1 : Fin 2) * 48 + 1 * (j 1).val = win14_2.index t (1 : Fin 2) * 48 + 1 * (j 1).val
      omega

/-- An index of the output array lies in point `t`'s block iff each coordinate lies in the block's range on its axis. -/
theorem inBlock14 (t : Fin cfg14.N) (i : S100000x48.Idx) :
    i ∈ ((cfg14.win 2).blk t).view.set
      ↔ ∀ a : Fin 2, win14_2.index t a * S10000x48.size a ≤ (i a).val
          ∧ (i a).val < win14_2.index t a * S10000x48.size a + S10000x48.size a := by
  show i ∈ ((View.whole (Pipeline.arrRef spec14 2)).slice (win14_2.rect t)).set ↔ _
  rw [View.set_slice_whole, Rect.mem_set_unit]
  exact Iff.rfl

/-- Every row of the output lies in the block of the point its row number divided by 10000 names. -/
theorem covered14 (i : S100000x48.Idx) :
    ∃ t : Fin cfg14.N, (cfg14.win 2).flush t = true ∧ i ∈ ((cfg14.win 2).blk t).view.set := by
  have hN : cfg14.N = 10 := N_14
  have hi0 : (i 0).val < 100000 := (i 0).isLt
  have hi1 : (i 1).val < 48 := (i 1).isLt
  refine ⟨⟨(i 0).val / 10000, by rw [hN]; omega⟩, flush14_2 _, ?_⟩
  obtain ⟨-, -, -, -, e20, e21⟩ := index14 ⟨(i 0).val / 10000, by rw [hN]; omega⟩
  rw [inBlock14]
  intro a
  match a with
  | ⟨0, _⟩ =>
    show win14_2.index _ (0 : Fin 2) * 10000 ≤ (i 0).val ∧ (i 0).val < win14_2.index _ (0 : Fin 2) * 10000 + 10000
    rw [e20]
    show (i 0).val / 10000 * 10000 ≤ (i 0).val ∧ (i 0).val < (i 0).val / 10000 * 10000 + 10000
    omega
  | ⟨1, _⟩ =>
    show win14_2.index _ (1 : Fin 2) * 48 ≤ (i 1).val ∧ (i 1).val < win14_2.index _ (1 : Fin 2) * 48 + 48
    rw [e21]
    omega

/-- THE OUTPUT ARRAY after the region: the product of the two input arrays as the region finds them. -/
theorem arr14 (c : Dev nD) :
    (dat14 (F := Ideal) V c).arrAt 2 cfg14.N
      = mm (M := 100000) (K := 176) (N := 48) (V c (Pipeline.arrRef spec14 0)) (V c (Pipeline.arrRef spec14 1)) :=
  (dat14 (F := Ideal) V c).arrAt_eq_of_cover 2 _ (fun t _ => written14 V c t) (covered14)

end Cert.KernelIdeal.RegionValue

end
-- ==== Proof.KSeg_hostOps12.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps12 : List (Ref sig .tc) := [main_v355, main_v356, main_v357, main_v358, main_v359]

/-- A buffer the piece does not write keeps its contents. -/
theorem keep_hostOps12 (V : Valuation τ sig (Elt F)) (b : Ref sig .tc) (hb : ∀ y ∈ wr_hostOps12, b ≠ y) :
    after (hostOps12 (F := F)) V (Proc.devRef .tc b) = V (Proc.devRef .tc b) :=
  after_of_forall_not_mem (b := Proc.devRef .tc b) _ _ (List.forall_iff_forall_mem.mp (by
    simp only [hostOps12, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v356 (V : Valuation τ sig (Elt F)) :
    (after (hostOps12 (F := F)) V) (Proc.devRef .tc main_v356) = kf41 (V (Proc.devRef .tc main_arg6)) := by
  unfold kf41
  dsimp only [hostOps12]
  after_results_simp <;> rfl

theorem c_main_v358 (V : Valuation τ sig (Elt F)) :
    (after (hostOps12 (F := F)) V) (Proc.devRef .tc main_v358) = kf41 (V (Proc.devRef .tc main_arg8)) := by
  unfold kf41
  dsimp only [hostOps12]
  after_results_simp <;> rfl

theorem c_main_v359 (V : Valuation τ sig (Elt F)) :
    (after (hostOps12 (F := F)) V) (Proc.devRef .tc main_v359) = kf26 ((after (hostOps12 (F := F)) V) (Proc.devRef .tc main_v356)) ((after (hostOps12 (F := F)) V) (Proc.devRef .tc main_v358)) := by
  unfold kf26
  dsimp only [hostOps12]
  after_results_simp <;> rfl

end Cert.KernelIdeal.Val

end
-- ==== Proof.KSeg_hostOps13.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps13 : List (Ref sig .tc) := [main_c_61, main_v361, main_v362, main_c_62, main_v363, main_v364, main_v365, main_v366, main_v367, main_cst_63, main_v368, main_v369, main_v370, main_v371, main_v372, main_v373, main_c_64, main_v374, main_v375, main_c_65, main_v376, main_v377, main_v378, main_v379, main_v380, main_cst_66, main_v381, main_v382, main_v383, main_v384, main_v385, main_v386, main_v387, main_v388, main_v389, main_v390, main_v391, main_v392, main_v393, main_v394, main_v395, main_v396, main_v397, main_v398, main_cst_67, main_v399, main_cst_68, main_v400, main_v401, main_c_69]

/-- A buffer the piece does not write keeps its contents. -/
theorem keep_hostOps13 (V : Valuation τ sig (Elt F)) (b : Ref sig .tc) (hb : ∀ y ∈ wr_hostOps13, b ≠ y) :
    after (hostOps13 (F := F)) V (Proc.devRef .tc b) = V (Proc.devRef .tc b) :=
  after_of_forall_not_mem (b := Proc.devRef .tc b) _ _ (List.forall_iff_forall_mem.mp (by
    simp only [hostOps13, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v386 (V : Valuation τ sig (Elt F)) :
    (after (hostOps13 (F := F)) V) (Proc.devRef .tc main_v386) = kf14 (V (Proc.devRef .tc main_v1)) (V (Proc.devRef .tc main_v3)) (V (Proc.devRef .tc main_v360)) (V (Proc.devRef .tc main_v20)) (V (Proc.devRef .tc main_v15)) := by
  unfold kf14
  dsimp only [hostOps13]
  after_results_simp <;> rfl

theorem c_main_v389 (V : Valuation τ sig (Elt F)) :
    (after (hostOps13 (F := F)) V) (Proc.devRef .tc main_v389) = kf42 (V (Proc.devRef .tc main_arg7)) := by
  unfold kf42
  dsimp only [hostOps13]
  after_results_simp <;> rfl

theorem c_main_v392 (V : Valuation τ sig (Elt F)) :
    (after (hostOps13 (F := F)) V) (Proc.devRef .tc main_v392) = kf15 ((after (hostOps13 (F := F)) V) (Proc.devRef .tc main_v386)) ((after (hostOps13 (F := F)) V) (Proc.devRef .tc main_v389)) := by
  unfold kf15
  dsimp only [hostOps13]
  after_results_simp <;> rfl

theorem c_main_v395 (V : Valuation τ sig (Elt F)) :
    (after (hostOps13 (F := F)) V) (Proc.devRef .tc main_v395) = kf42 (V (Proc.devRef .tc main_arg9)) := by
  unfold kf42
  dsimp only [hostOps13]
  after_results_simp <;> rfl

theorem c_main_v398 (V : Valuation τ sig (Elt F)) :
    (after (hostOps13 (F := F)) V) (Proc.devRef .tc main_v398) = kf16 ((after (hostOps13 (F := F)) V) (Proc.devRef .tc main_v386)) ((after (hostOps13 (F := F)) V) (Proc.devRef .tc main_v395)) := by
  unfold kf16
  dsimp only [hostOps13]
  after_results_simp <;> rfl

theorem c_main_v401 (V : Valuation τ sig (Elt F)) :
    (after (hostOps13 (F := F)) V) (Proc.devRef .tc main_v401) = kf17 ((after (hostOps13 (F := F)) V) (Proc.devRef .tc main_v392)) := by
  unfold kf17
  dsimp only [hostOps13]
  after_results_simp <;> rfl

theorem c_main_c_69 (V : Valuation τ sig (Elt F)) :
    (after (hostOps13 (F := F)) V) (Proc.devRef .tc main_c_69) = kf18  := by
  unfold kf18
  dsimp only [hostOps13]
  after_results_simp <;> rfl

end Cert.KernelIdeal.Val

end
-- ==== Proof.KSeg_hostOps13_1.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps13_1 : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v402]

/-- A buffer the piece does not write keeps its contents. -/
theorem keep_hostOps13_1 (V : Valuation τ sig (Elt F)) (b : Ref sig .tc) (hb : ∀ y ∈ wr_hostOps13_1, b ≠ y) :
    after (hostOps13_1 (F := F)) V (Proc.devRef .tc b) = V (Proc.devRef .tc b) :=
  after_of_forall_not_mem (b := Proc.devRef .tc b) _ _ (List.forall_iff_forall_mem.mp (by
    simp only [hostOps13_1, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_call8_v5 (V : Valuation τ sig (Elt F)) :
    (after (hostOps13_1 (F := F)) V) (Proc.devRef .tc main_call8_v5) = kf19 (V (Proc.devRef .tc main_v392)) := by
  unfold kf19
  dsimp only [hostOps13_1]
  after_results_simp <;> rfl

theorem c_main_call8_v8 (V : Valuation τ sig (Elt F)) :
    (after (hostOps13_1 (F := F)) V) (Proc.devRef .tc main_call8_v8) = kf20 (V (Proc.devRef .tc main_c_69)) := by
  unfold kf20
  dsimp only [hostOps13_1]
  after_results_simp <;> rfl

theorem c_main_call8_v11 (V : Valuation τ sig (Elt F)) :
    (after (hostOps13_1 (F := F)) V) (Proc.devRef .tc main_call8_v11) = kf21 ((after (hostOps13_1 (F := F)) V) (Proc.devRef .tc main_call8_v5)) ((after (hostOps13_1 (F := F)) V) (Proc.devRef .tc main_call8_v8)) := by
  unfold kf21
  dsimp only [hostOps13_1]
  after_results_simp <;> rfl

theorem c_main_v402 (V : Valuation τ sig (Elt F)) :
    (after (hostOps13_1 (F := F)) V) (Proc.devRef .tc main_v402) = kf22 ((after (hostOps13_1 (F := F)) V) (Proc.devRef .tc main_call8_v8)) ((after (hostOps13_1 (F := F)) V) (Proc.devRef .tc main_call8_v11)) := by
  unfold kf22
  dsimp only [hostOps13_1]
  after_results_simp <;> rfl

end Cert.KernelIdeal.Val

end
-- ==== Proof.KSeg_hostOps13_2.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps13_2 : List (Ref sig .tc) := [main_v403, main_v404, main_v405, main_v406, main_v407, main_v408, main_v409, main_v410]

/-- A buffer the piece does not write keeps its contents. -/
theorem keep_hostOps13_2 (V : Valuation τ sig (Elt F)) (b : Ref sig .tc) (hb : ∀ y ∈ wr_hostOps13_2, b ≠ y) :
    after (hostOps13_2 (F := F)) V (Proc.devRef .tc b) = V (Proc.devRef .tc b) :=
  after_of_forall_not_mem (b := Proc.devRef .tc b) _ _ (List.forall_iff_forall_mem.mp (by
    simp only [hostOps13_2, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v404 (V : Valuation τ sig (Elt F)) :
    (after (hostOps13_2 (F := F)) V) (Proc.devRef .tc main_v404) = kf43 (V (Proc.devRef .tc main_arg10)) := by
  unfold kf43
  dsimp only [hostOps13_2]
  after_results_simp <;> rfl

theorem c_main_v406 (V : Valuation τ sig (Elt F)) :
    (after (hostOps13_2 (F := F)) V) (Proc.devRef .tc main_v406) = kf43 (V (Proc.devRef .tc main_arg11)) := by
  unfold kf43
  dsimp only [hostOps13_2]
  after_results_simp <;> rfl

theorem c_main_v407 (V : Valuation τ sig (Elt F)) :
    (after (hostOps13_2 (F := F)) V) (Proc.devRef .tc main_v407) = kf24 (V (Proc.devRef .tc main_v401)) := by
  unfold kf24
  dsimp only [hostOps13_2]
  after_results_simp <;> rfl

theorem c_main_v408 (V : Valuation τ sig (Elt F)) :
    (after (hostOps13_2 (F := F)) V) (Proc.devRef .tc main_v408) = kf24 (V (Proc.devRef .tc main_v402)) := by
  unfold kf24
  dsimp only [hostOps13_2]
  after_results_simp <;> rfl

theorem c_main_v409 (V : Valuation τ sig (Elt F)) :
    (after (hostOps13_2 (F := F)) V) (Proc.devRef .tc main_v409) = kf24 ((after (hostOps13_2 (F := F)) V) (Proc.devRef .tc main_v404)) := by
  unfold kf24
  dsimp only [hostOps13_2]
  after_results_simp <;> rfl

theorem c_main_v410 (V : Valuation τ sig (Elt F)) :
    (after (hostOps13_2 (F := F)) V) (Proc.devRef .tc main_v410) = kf24 ((after (hostOps13_2 (F := F)) V) (Proc.devRef .tc main_v406)) := by
  unfold kf24
  dsimp only [hostOps13_2]
  after_results_simp <;> rfl

end Cert.KernelIdeal.Val

end
-- ==== Proof.KReg12.lean ====
/-
  Region 12: the value of its output array.

  The grid has ten points; point `t` stages rows `10000 t … 10000 t + 9999` of the left operand, all of the weights, and
  writes back the same rows of the output. The body rounds both operands to a narrower format (no change on the extended
  reals) and multiplies them into a zero accumulator, so what point `t` writes back is the product of its block of rows
  with the weights. A row of a matrix product depends on the same row of the left operand only, so that block is rows
  `10000 t …` of the product of the whole left operand with the weights; the ten blocks cover every row (row `r` lies in
  the block of point `r / 10000`), and the array ends holding that product.
-/
import proofs.«127768_j9405978378358_1_alg».proof.Proof.FrameKernelIdealP
import proofs.«127768_j9405978378358_1_alg».proof.Proof.LibDense
import proofs.«127768_j9405978378358_1_alg».proof.Proof.LibBiasRow
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin12 : (![0, 0] : Fin 2 → Nat) = fun _ => 0 := funext fun a => by fin_cases a <;> rfl

/-- The body's value: the block of rows times the weights. -/
theorem payload12 (x0 : Vec Ideal S10000x80 .f32) (x1 : Vec Ideal S80x160 .f32) :
    k12_pay1 (F := Ideal) x0 x1 = mm (M := 10000) (K := 80) (N := 160) x0 x1 := by
  unfold k12_pay1
  simp only [shapeCast_self]
  exact matmul_zero_eq_mm _ rfl rfl rfl rfl rfl rfl none _ _

/-- What the body leaves in the output's staging buffer. -/
theorem block12 (x0 : Vec Ideal S10000x80 .f32) (x1 : Vec Ideal S80x160 .f32) :
    out12_2 (F := Ideal) x0 x1 = mm (M := 10000) (K := 80) (N := 160) x0 x1 := by
  unfold out12_2
  rw [View.canon_unit_zero origin12]
  simp only [View.ld_unit_zero (S := S10000x80) origin12, View.ld_unit_zero (S := S80x160) origin12]
  exact payload12 x0 x1

/-- The block indices over the grid: the row-tiled windows sit at block `(t, 0)`, the weights at block `(0, 0)`. -/
theorem index12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

/-- What point `t` writes back is block `t` of the product of the whole arrays. -/
theorem written12 (c : Dev nD) (t : Fin cfg12.N) :
    (dat12 (F := Ideal) V c).flushed 2 t
      = ((cfg12.win 2).blk t).view.read (Elt Ideal)
          (mm (M := 100000) (K := 80) (N := 160) (V c (Pipeline.arrRef spec12 0)) (V c (Pipeline.arrRef spec12 1))) := by
  show (cfg12.win 2).cut (grid12.coords t) ((dat12 V c).after 2 t) = _
  rw [after12_2, block12]
  obtain ⟨e00, e01, e10, e11, e20, e21⟩ := index12 t
  funext j
  show mm (M := 10000) (K := 80) (N := 160) (iblk12 V c 0 t) (iblk12 V c 1 t) j
      = mm (M := 100000) (K := 80) (N := 160) (V c (Pipeline.arrRef spec12 0)) (V c (Pipeline.arrRef spec12 1))
          (((cfg12.win 2).blk t).view.emb j)
  refine Cert.BiasRow.mm_at _ _ _ _ j _ (fun k => ?_) (fun k => ?_)
  · show V c (Pipeline.arrRef spec12 0) (((cfg12.win 0).blk t).view.emb (ix2 (c0 j) k))
        = V c (Pipeline.arrRef spec12 0) (ix2 (c0 (((cfg12.win 2).blk t).view.emb j)) k)
    refine congrArg _ (funext fun a => Fin.ext ?_)
    match a with
    | ⟨0, _⟩ =>
      show win12_0.index t (0 : Fin 2) * 10000 + 1 * (j 0).val = win12_2.index t (0 : Fin 2) * 10000 + 1 * (j 0).val
      omega
    | ⟨1, _⟩ =>
      show win12_0.index t (1 : Fin 2) * 80 + 1 * k.val = k.val
      omega
  · show V c (Pipeline.arrRef spec12 1) (((cfg12.win 1).blk t).view.emb (ix2 k (c1 j)))
        = V c (Pipeline.arrRef spec12 1) (ix2 k (c1 (((cfg12.win 2).blk t).view.emb j)))
    refine congrArg _ (funext fun a => Fin.ext ?_)
    match a with
    | ⟨0, _⟩ =>
      show win12_1.index t (0 : Fin 2) * 80 + 1 * k.val = k.val
      omega
    | ⟨1, _⟩ =>
      show win12_1.index t (1 : Fin 2) * 160 + 1 * (j 1).val = win12_2.index t (1 : Fin 2) * 160 + 1 * (j 1).val
      omega

/-- An index of the output array lies in point `t`'s block iff each coordinate lies in the block's range on its axis. -/
theorem inBlock12 (t : Fin cfg12.N) (i : S100000x160.Idx) :
    i ∈ ((cfg12.win 2).blk t).view.set
      ↔ ∀ a : Fin 2, win12_2.index t a * S10000x160.size a ≤ (i a).val
          ∧ (i a).val < win12_2.index t a * S10000x160.size a + S10000x160.size a := by
  show i ∈ ((View.whole (Pipeline.arrRef spec12 2)).slice (win12_2.rect t)).set ↔ _
  rw [View.set_slice_whole, Rect.mem_set_unit]
  exact Iff.rfl

/-- Every row of the output lies in the block of the point its row number divided by 10000 names. -/
theorem covered12 (i : S100000x160.Idx) :
    ∃ t : Fin cfg12.N, (cfg12.win 2).flush t = true ∧ i ∈ ((cfg12.win 2).blk t).view.set := by
  have hN : cfg12.N = 10 := N_12
  have hi0 : (i 0).val < 100000 := (i 0).isLt
  have hi1 : (i 1).val < 160 := (i 1).isLt
  refine ⟨⟨(i 0).val / 10000, by rw [hN]; omega⟩, flush12_2 _, ?_⟩
  obtain ⟨-, -, -, -, e20, e21⟩ := index12 ⟨(i 0).val / 10000, by rw [hN]; omega⟩
  rw [inBlock12]
  intro a
  match a with
  | ⟨0, _⟩ =>
    show win12_2.index _ (0 : Fin 2) * 10000 ≤ (i 0).val ∧ (i 0).val < win12_2.index _ (0 : Fin 2) * 10000 + 10000
    rw [e20]
    show (i 0).val / 10000 * 10000 ≤ (i 0).val ∧ (i 0).val < (i 0).val / 10000 * 10000 + 10000
    omega
  | ⟨1, _⟩ =>
    show win12_2.index _ (1 : Fin 2) * 160 ≤ (i 1).val ∧ (i 1).val < win12_2.index _ (1 : Fin 2) * 160 + 160
    rw [e21]
    omega

/-- THE OUTPUT ARRAY after the region: the product of the two input arrays as the region finds them. -/
theorem arr12 (c : Dev nD) :
    (dat12 (F := Ideal) V c).arrAt 2 cfg12.N
      = mm (M := 100000) (K := 80) (N := 160) (V c (Pipeline.arrRef spec12 0)) (V c (Pipeline.arrRef spec12 1)) :=
  (dat12 (F := Ideal) V c).arrAt_eq_of_cover 2 _ (fun t _ => written12 V c t) (covered12)

end Cert.KernelIdeal.RegionValue

end
-- ==== Proof.KReg13.lean ====
/-
  Region 13: the value of its output array.

  The grid has ten points; point `t` stages rows `10000 t … 10000 t + 9999` of the two row arrays, all of each of the four
  one-row statistics, and writes back the same rows of the output. The body is the normalising layer `bn` of its blocks
  (each statistic broadcast to every row, then pointwise arithmetic). An entry of `bn` depends on the entry of each row
  array at the same place and on the statistics of its column, so what point `t` writes back is rows `10000 t …` of `bn`
  of the whole arrays; the ten blocks cover every row (row `r` lies in the block of point `r / 10000`), and the array
  ends holding `bn` of the arrays the region finds.
-/
import proofs.«127768_j9405978378358_1_alg».proof.Proof.FrameKernelIdealP
import proofs.«127768_j9405978378358_1_alg».proof.Proof.LibDense
import proofs.«127768_j9405978378358_1_alg».proof.Proof.KBnSpec
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin13 : (![0, 0] : Fin 2 → Nat) = fun _ => 0 := funext fun a => by fin_cases a <;> rfl

/-- The body's value: the normalising layer of its blocks. -/
theorem payload13 (x0 x1 : Vec Ideal S10000x80 .f32) (x2 x3 x4 x5 : Vec Ideal S1x80 .f32) :
    k13_pay1 (F := Ideal) x0 x1 x2 x3 x4 x5 = bn (M := 10000) (N := 80) x0 x1 x2 x3 x4 x5 := by
  unfold k13_pay1
  simp only [shapeCast_self]
  exact vecBn x0 x1 x2 x3 x4 x5 _

/-- What the body leaves in the output's staging buffer. -/
theorem block13 (x0 x1 : Vec Ideal S10000x80 .f32) (x2 x3 x4 x5 : Vec Ideal S1x80 .f32) :
    out13_6 (F := Ideal) x0 x1 x2 x3 x4 x5 = bn (M := 10000) (N := 80) x0 x1 x2 x3 x4 x5 := by
  unfold out13_6
  rw [View.canon_unit_zero origin13]
  simp only [View.ld_unit_zero (S := S10000x80) origin13, View.ld_unit_zero (S := S1x80) origin13]
  exact payload13 x0 x1 x2 x3 x4 x5

/-! The block indices over the grid, window by window: the row-tiled windows (the two row arrays and the output) sit at
    block `(t, 0)` at point `t`, each one-row statistic at block `(0, 0)`. -/

theorem index13_6 : ∀ t : Fin cfg13.N, win13_6.index t (0 : Fin 2) = t.val ∧ win13_6.index t (1 : Fin 2) = 0 :=
  (by decide +kernel : ∀ t : Fin grid13.N, _)

theorem index13_0 : ∀ t : Fin cfg13.N, win13_0.index t (0 : Fin 2) = t.val ∧ win13_0.index t (1 : Fin 2) = 0 :=
  (by decide +kernel : ∀ t : Fin grid13.N, _)

/-- Window 0's block at point `t` lies over the same rows and columns of its array as the output's block does of its own. -/
theorem place13_0 (t : Fin cfg13.N) (j : S10000x80.Idx) : (win13_0.blk t).view.emb j = (win13_6.blk t).view.emb j := by
  have h := index13_0 t
  have h6 := index13_6 t
  funext a
  apply Fin.ext
  match a with
  | ⟨0, _⟩ =>
    show win13_0.index t (0 : Fin 2) * 10000 + 1 * (j 0).val = win13_6.index t (0 : Fin 2) * 10000 + 1 * (j 0).val
    omega
  | ⟨1, _⟩ =>
    show win13_0.index t (1 : Fin 2) * 80 + 1 * (j 1).val = win13_6.index t (1 : Fin 2) * 80 + 1 * (j 1).val
    omega

set_option maxHeartbeats 1000000 in
/-- So an entry of window 0's block is the array's entry under the output block's index. -/
theorem rows13_0 (c : Dev nD) (t : Fin cfg13.N) (j : S10000x80.Idx) :
    iblk13 V c 0 t j = V c (Pipeline.arrRef spec13 0) ((win13_6.blk t).view.emb j) :=
  congrArg (V c (Pipeline.arrRef spec13 0)) (place13_0 t j)

theorem index13_1 : ∀ t : Fin cfg13.N, win13_1.index t (0 : Fin 2) = t.val ∧ win13_1.index t (1 : Fin 2) = 0 :=
  (by decide +kernel : ∀ t : Fin grid13.N, _)

/-- Window 1's block at point `t` lies over the same rows and columns of its array as the output's block does of its own. -/
theorem place13_1 (t : Fin cfg13.N) (j : S10000x80.Idx) : (win13_1.blk t).view.emb j = (win13_6.blk t).view.emb j := by
  have h := index13_1 t
  have h6 := index13_6 t
  funext a
  apply Fin.ext
  match a with
  | ⟨0, _⟩ =>
    show win13_1.index t (0 : Fin 2) * 10000 + 1 * (j 0).val = win13_6.index t (0 : Fin 2) * 10000 + 1 * (j 0).val
    omega
  | ⟨1, _⟩ =>
    show win13_1.index t (1 : Fin 2) * 80 + 1 * (j 1).val = win13_6.index t (1 : Fin 2) * 80 + 1 * (j 1).val
    omega

set_option maxHeartbeats 1000000 in
/-- So an entry of window 1's block is the array's entry under the output block's index. -/
theorem rows13_1 (c : Dev nD) (t : Fin cfg13.N) (j : S10000x80.Idx) :
    iblk13 V c 1 t j = V c (Pipeline.arrRef spec13 1) ((win13_6.blk t).view.emb j) :=
  congrArg (V c (Pipeline.arrRef spec13 1)) (place13_1 t j)

theorem index13_2 : ∀ t : Fin cfg13.N, win13_2.index t (0 : Fin 2) = 0 ∧ win13_2.index t (1 : Fin 2) = 0 :=
  (by decide +kernel : ∀ t : Fin grid13.N, _)

/-- The one block of window 2 sits at the array's origin: an index inside the block is the same index of the array. -/
theorem place13_2 (t : Fin cfg13.N) (y : S1x80.Idx) : (win13_2.blk t).view.emb y = y := by
  have h := index13_2 t
  funext a
  apply Fin.ext
  match a with
  | ⟨0, _⟩ => show win13_2.index t (0 : Fin 2) * 1 + 1 * (y 0).val = (y 0).val; omega
  | ⟨1, _⟩ => show win13_2.index t (1 : Fin 2) * 80 + 1 * (y 1).val = (y 1).val; omega

set_option maxHeartbeats 1000000 in
/-- So window 2's block at any point is the whole one-row array. -/
theorem stat13_2 (c : Dev nD) (t : Fin cfg13.N) : iblk13 V c 2 t = V c (Pipeline.arrRef spec13 2) :=
  funext fun y => congrArg (V c (Pipeline.arrRef spec13 2)) (place13_2 t y)

theorem index13_3 : ∀ t : Fin cfg13.N, win13_3.index t (0 : Fin 2) = 0 ∧ win13_3.index t (1 : Fin 2) = 0 :=
  (by decide +kernel : ∀ t : Fin grid13.N, _)

/-- The one block of window 3 sits at the array's origin: an index inside the block is the same index of the array. -/
theorem place13_3 (t : Fin cfg13.N) (y : S1x80.Idx) : (win13_3.blk t).view.emb y = y := by
  have h := index13_3 t
  funext a
  apply Fin.ext
  match a with
  | ⟨0, _⟩ => show win13_3.index t (0 : Fin 2) * 1 + 1 * (y 0).val = (y 0).val; omega
  | ⟨1, _⟩ => show win13_3.index t (1 : Fin 2) * 80 + 1 * (y 1).val = (y 1).val; omega

set_option maxHeartbeats 1000000 in
/-- So window 3's block at any point is the whole one-row array. -/
theorem stat13_3 (c : Dev nD) (t : Fin cfg13.N) : iblk13 V c 3 t = V c (Pipeline.arrRef spec13 3) :=
  funext fun y => congrArg (V c (Pipeline.arrRef spec13 3)) (place13_3 t y)

theorem index13_4 : ∀ t : Fin cfg13.N, win13_4.index t (0 : Fin 2) = 0 ∧ win13_4.index t (1 : Fin 2) = 0 :=
  (by decide +kernel : ∀ t : Fin grid13.N, _)

/-- The one block of window 4 sits at the array's origin: an index inside the block is the same index of the array. -/
theorem place13_4 (t : Fin cfg13.N) (y : S1x80.Idx) : (win13_4.blk t).view.emb y = y := by
  have h := index13_4 t
  funext a
  apply Fin.ext
  match a with
  | ⟨0, _⟩ => show win13_4.index t (0 : Fin 2) * 1 + 1 * (y 0).val = (y 0).val; omega
  | ⟨1, _⟩ => show win13_4.index t (1 : Fin 2) * 80 + 1 * (y 1).val = (y 1).val; omega

set_option maxHeartbeats 1000000 in
/-- So window 4's block at any point is the whole one-row array. -/
theorem stat13_4 (c : Dev nD) (t : Fin cfg13.N) : iblk13 V c 4 t = V c (Pipeline.arrRef spec13 4) :=
  funext fun y => congrArg (V c (Pipeline.arrRef spec13 4)) (place13_4 t y)

theorem index13_5 : ∀ t : Fin cfg13.N, win13_5.index t (0 : Fin 2) = 0 ∧ win13_5.index t (1 : Fin 2) = 0 :=
  (by decide +kernel : ∀ t : Fin grid13.N, _)

/-- The one block of window 5 sits at the array's origin: an index inside the block is the same index of the array. -/
theorem place13_5 (t : Fin cfg13.N) (y : S1x80.Idx) : (win13_5.blk t).view.emb y = y := by
  have h := index13_5 t
  funext a
  apply Fin.ext
  match a with
  | ⟨0, _⟩ => show win13_5.index t (0 : Fin 2) * 1 + 1 * (y 0).val = (y 0).val; omega
  | ⟨1, _⟩ => show win13_5.index t (1 : Fin 2) * 80 + 1 * (y 1).val = (y 1).val; omega

set_option maxHeartbeats 1000000 in
/-- So window 5's block at any point is the whole one-row array. -/
theorem stat13_5 (c : Dev nD) (t : Fin cfg13.N) : iblk13 V c 5 t = V c (Pipeline.arrRef spec13 5) :=
  funext fun y => congrArg (V c (Pipeline.arrRef spec13 5)) (place13_5 t y)

/-- The output block's columns are the array's columns. -/
theorem column13 (t : Fin cfg13.N) (j : S10000x80.Idx) : ((win13_6.blk t).view.emb j 1).val = (j 1).val := by
  have h6 := index13_6 t
  show win13_6.index t (1 : Fin 2) * 80 + 1 * (j 1).val = (j 1).val
  omega

set_option maxHeartbeats 1000000 in
/-- What point `t` writes back is block `t` of the layer of the whole arrays. -/
theorem written13 (c : Dev nD) (t : Fin cfg13.N) :
    (dat13 (F := Ideal) V c).flushed 6 t
      = ((cfg13.win 6).blk t).view.read (Elt Ideal)
          (bnK (V c (Pipeline.arrRef spec13 0)) (V c (Pipeline.arrRef spec13 1)) (V c (Pipeline.arrRef spec13 2))
            (V c (Pipeline.arrRef spec13 3)) (V c (Pipeline.arrRef spec13 4)) (V c (Pipeline.arrRef spec13 5))) := by
  show (cfg13.win 6).cut (grid13.coords t) ((dat13 V c).after 6 t) = _
  rw [after13_6, block13]
  funext j
  show bn (M := 10000) (N := 80) (iblk13 V c 0 t) (iblk13 V c 1 t) (iblk13 V c 2 t) (iblk13 V c 3 t) (iblk13 V c 4 t) (iblk13 V c 5 t) j
      = bn (M := 100000) (N := 80) (V c (Pipeline.arrRef spec13 0)) (V c (Pipeline.arrRef spec13 1)) (V c (Pipeline.arrRef spec13 2))
          (V c (Pipeline.arrRef spec13 3)) (V c (Pipeline.arrRef spec13 4)) (V c (Pipeline.arrRef spec13 5))
          ((win13_6.blk t).view.emb j)
  exact bn_rows _ _ _ _ _ _ _ _ _ _ _ _ j _ (rows13_0 V c t j) (rows13_1 V c t j) (column13 t j)
    (stat13_2 V c t) (stat13_3 V c t) (stat13_4 V c t) (stat13_5 V c t)

/-- An index of the output array lies in point `t`'s block iff each coordinate lies in the block's range on its axis. -/
theorem inBlock13 (t : Fin cfg13.N) (i : S100000x80.Idx) :
    i ∈ ((cfg13.win 6).blk t).view.set
      ↔ ∀ a : Fin 2, win13_6.index t a * S10000x80.size a ≤ (i a).val
          ∧ (i a).val < win13_6.index t a * S10000x80.size a + S10000x80.size a := by
  show i ∈ ((View.whole (Pipeline.arrRef spec13 6)).slice (win13_6.rect t)).set ↔ _
  rw [View.set_slice_whole, Rect.mem_set_unit]
  exact Iff.rfl

/-- Every row of the output lies in the block of the point its row number divided by 10000 names. -/
theorem covered13 (i : S100000x80.Idx) :
    ∃ t : Fin cfg13.N, (cfg13.win 6).flush t = true ∧ i ∈ ((cfg13.win 6).blk t).view.set := by
  have hN : cfg13.N = 10 := N_13
  have hi0 : (i 0).val < 100000 := (i 0).isLt
  have hi1 : (i 1).val < 80 := (i 1).isLt
  refine ⟨⟨(i 0).val / 10000, by rw [hN]; omega⟩, flush13_6 _, ?_⟩
  obtain ⟨e60, e61⟩ := index13_6 ⟨(i 0).val / 10000, by rw [hN]; omega⟩
  rw [inBlock13]
  intro a
  match a with
  | ⟨0, _⟩ =>
    show win13_6.index _ (0 : Fin 2) * 10000 ≤ (i 0).val ∧ (i 0).val < win13_6.index _ (0 : Fin 2) * 10000 + 10000
    rw [e60]
    show (i 0).val / 10000 * 10000 ≤ (i 0).val ∧ (i 0).val < (i 0).val / 10000 * 10000 + 10000
    omega
  | ⟨1, _⟩ =>
    show win13_6.index _ (1 : Fin 2) * 80 ≤ (i 1).val ∧ (i 1).val < win13_6.index _ (1 : Fin 2) * 80 + 80
    rw [e61]
    omega

/-- THE OUTPUT ARRAY after the region: the layer of the six input arrays as the region finds them. -/
theorem arr13 (c : Dev nD) :
    (dat13 (F := Ideal) V c).arrAt 6 cfg13.N
      = bnK (V c (Pipeline.arrRef spec13 0)) (V c (Pipeline.arrRef spec13 1)) (V c (Pipeline.arrRef spec13 2))
          (V c (Pipeline.arrRef spec13 3)) (V c (Pipeline.arrRef spec13 4)) (V c (Pipeline.arrRef spec13 5)) :=
  (dat13 (F := Ideal) V c).arrAt_eq_of_cover 6 _ (fun t _ => written13 V c t) (covered13)

end Cert.KernelIdeal.RegionValue

end
-- ==== Proof.KSeg_hostOps10.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps10 : List (Ref sig .tc) := [main_v298, main_v299, main_v300, main_v301, main_v302]

/-- A buffer the piece does not write keeps its contents. -/
theorem keep_hostOps10 (V : Valuation τ sig (Elt F)) (b : Ref sig .tc) (hb : ∀ y ∈ wr_hostOps10, b ≠ y) :
    after (hostOps10 (F := F)) V (Proc.devRef .tc b) = V (Proc.devRef .tc b) :=
  after_of_forall_not_mem (b := Proc.devRef .tc b) _ _ (List.forall_iff_forall_mem.mp (by
    simp only [hostOps10, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v299 (V : Valuation τ sig (Elt F)) :
    (after (hostOps10 (F := F)) V) (Proc.devRef .tc main_v299) = kf38 (V (Proc.devRef .tc main_arg6)) := by
  unfold kf38
  dsimp only [hostOps10]
  after_results_simp <;> rfl

theorem c_main_v301 (V : Valuation τ sig (Elt F)) :
    (after (hostOps10 (F := F)) V) (Proc.devRef .tc main_v301) = kf38 (V (Proc.devRef .tc main_arg8)) := by
  unfold kf38
  dsimp only [hostOps10]
  after_results_simp <;> rfl

theorem c_main_v302 (V : Valuation τ sig (Elt F)) :
    (after (hostOps10 (F := F)) V) (Proc.devRef .tc main_v302) = kf26 ((after (hostOps10 (F := F)) V) (Proc.devRef .tc main_v299)) ((after (hostOps10 (F := F)) V) (Proc.devRef .tc main_v301)) := by
  unfold kf26
  dsimp only [hostOps10]
  after_results_simp <;> rfl

end Cert.KernelIdeal.Val

end
-- ==== Proof.KSeg_hostOps11.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps11 : List (Ref sig .tc) := [main_c_52, main_v304, main_v305, main_c_53, main_v306, main_v307, main_v308, main_v309, main_v310, main_cst_54, main_v311, main_v312, main_v313, main_v314, main_v315, main_v316, main_c_55, main_v317, main_v318, main_c_56, main_v319, main_v320, main_v321, main_v322, main_v323, main_cst_57, main_v324, main_v325, main_v326, main_v327, main_v328, main_v329, main_v330, main_v331, main_v332, main_v333, main_v334, main_v335, main_v336, main_v337, main_v338, main_v339, main_v340, main_v341, main_cst_58, main_v342, main_cst_59, main_v343, main_v344, main_c_60]

/-- A buffer the piece does not write keeps its contents. -/
theorem keep_hostOps11 (V : Valuation τ sig (Elt F)) (b : Ref sig .tc) (hb : ∀ y ∈ wr_hostOps11, b ≠ y) :
    after (hostOps11 (F := F)) V (Proc.devRef .tc b) = V (Proc.devRef .tc b) :=
  after_of_forall_not_mem (b := Proc.devRef .tc b) _ _ (List.forall_iff_forall_mem.mp (by
    simp only [hostOps11, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v329 (V : Valuation τ sig (Elt F)) :
    (after (hostOps11 (F := F)) V) (Proc.devRef .tc main_v329) = kf14 (V (Proc.devRef .tc main_v1)) (V (Proc.devRef .tc main_v3)) (V (Proc.devRef .tc main_v303)) (V (Proc.devRef .tc main_v20)) (V (Proc.devRef .tc main_v15)) := by
  unfold kf14
  dsimp only [hostOps11]
  after_results_simp <;> rfl

theorem c_main_v332 (V : Valuation τ sig (Elt F)) :
    (after (hostOps11 (F := F)) V) (Proc.devRef .tc main_v332) = kf39 (V (Proc.devRef .tc main_arg7)) := by
  unfold kf39
  dsimp only [hostOps11]
  after_results_simp <;> rfl

theorem c_main_v335 (V : Valuation τ sig (Elt F)) :
    (after (hostOps11 (F := F)) V) (Proc.devRef .tc main_v335) = kf15 ((after (hostOps11 (F := F)) V) (Proc.devRef .tc main_v329)) ((after (hostOps11 (F := F)) V) (Proc.devRef .tc main_v332)) := by
  unfold kf15
  dsimp only [hostOps11]
  after_results_simp <;> rfl

theorem c_main_v338 (V : Valuation τ sig (Elt F)) :
    (after (hostOps11 (F := F)) V) (Proc.devRef .tc main_v338) = kf39 (V (Proc.devRef .tc main_arg9)) := by
  unfold kf39
  dsimp only [hostOps11]
  after_results_simp <;> rfl

theorem c_main_v341 (V : Valuation τ sig (Elt F)) :
    (after (hostOps11 (F := F)) V) (Proc.devRef .tc main_v341) = kf16 ((after (hostOps11 (F := F)) V) (Proc.devRef .tc main_v329)) ((after (hostOps11 (F := F)) V) (Proc.devRef .tc main_v338)) := by
  unfold kf16
  dsimp only [hostOps11]
  after_results_simp <;> rfl

theorem c_main_v344 (V : Valuation τ sig (Elt F)) :
    (after (hostOps11 (F := F)) V) (Proc.devRef .tc main_v344) = kf17 ((after (hostOps11 (F := F)) V) (Proc.devRef .tc main_v335)) := by
  unfold kf17
  dsimp only [hostOps11]
  after_results_simp <;> rfl

theorem c_main_c_60 (V : Valuation τ sig (Elt F)) :
    (after (hostOps11 (F := F)) V) (Proc.devRef .tc main_c_60) = kf18  := by
  unfold kf18
  dsimp only [hostOps11]
  after_results_simp <;> rfl

end Cert.KernelIdeal.Val

end
-- ==== Proof.KSeg_hostOps11_1.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps11_1 : List (Ref sig .tc) := [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v345]

/-- A buffer the piece does not write keeps its contents. -/
theorem keep_hostOps11_1 (V : Valuation τ sig (Elt F)) (b : Ref sig .tc) (hb : ∀ y ∈ wr_hostOps11_1, b ≠ y) :
    after (hostOps11_1 (F := F)) V (Proc.devRef .tc b) = V (Proc.devRef .tc b) :=
  after_of_forall_not_mem (b := Proc.devRef .tc b) _ _ (List.forall_iff_forall_mem.mp (by
    simp only [hostOps11_1, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_call7_v5 (V : Valuation τ sig (Elt F)) :
    (after (hostOps11_1 (F := F)) V) (Proc.devRef .tc main_call7_v5) = kf19 (V (Proc.devRef .tc main_v335)) := by
  unfold kf19
  dsimp only [hostOps11_1]
  after_results_simp <;> rfl

theorem c_main_call7_v8 (V : Valuation τ sig (Elt F)) :
    (after (hostOps11_1 (F := F)) V) (Proc.devRef .tc main_call7_v8) = kf20 (V (Proc.devRef .tc main_c_60)) := by
  unfold kf20
  dsimp only [hostOps11_1]
  after_results_simp <;> rfl

theorem c_main_call7_v11 (V : Valuation τ sig (Elt F)) :
    (after (hostOps11_1 (F := F)) V) (Proc.devRef .tc main_call7_v11) = kf21 ((after (hostOps11_1 (F := F)) V) (Proc.devRef .tc main_call7_v5)) ((after (hostOps11_1 (F := F)) V) (Proc.devRef .tc main_call7_v8)) := by
  unfold kf21
  dsimp only [hostOps11_1]
  after_results_simp <;> rfl

theorem c_main_v345 (V : Valuation τ sig (Elt F)) :
    (after (hostOps11_1 (F := F)) V) (Proc.devRef .tc main_v345) = kf22 ((after (hostOps11_1 (F := F)) V) (Proc.devRef .tc main_call7_v8)) ((after (hostOps11_1 (F := F)) V) (Proc.devRef .tc main_call7_v11)) := by
  unfold kf22
  dsimp only [hostOps11_1]
  after_results_simp <;> rfl

end Cert.KernelIdeal.Val

end
-- ==== Proof.KSeg_hostOps11_2.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps11_2 : List (Ref sig .tc) := [main_v346, main_v347, main_v348, main_v349, main_v350, main_v351, main_v352, main_v353]

/-- A buffer the piece does not write keeps its contents. -/
theorem keep_hostOps11_2 (V : Valuation τ sig (Elt F)) (b : Ref sig .tc) (hb : ∀ y ∈ wr_hostOps11_2, b ≠ y) :
    after (hostOps11_2 (F := F)) V (Proc.devRef .tc b) = V (Proc.devRef .tc b) :=
  after_of_forall_not_mem (b := Proc.devRef .tc b) _ _ (List.forall_iff_forall_mem.mp (by
    simp only [hostOps11_2, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v347 (V : Valuation τ sig (Elt F)) :
    (after (hostOps11_2 (F := F)) V) (Proc.devRef .tc main_v347) = kf40 (V (Proc.devRef .tc main_arg10)) := by
  unfold kf40
  dsimp only [hostOps11_2]
  after_results_simp <;> rfl

theorem c_main_v349 (V : Valuation τ sig (Elt F)) :
    (after (hostOps11_2 (F := F)) V) (Proc.devRef .tc main_v349) = kf40 (V (Proc.devRef .tc main_arg11)) := by
  unfold kf40
  dsimp only [hostOps11_2]
  after_results_simp <;> rfl

theorem c_main_v350 (V : Valuation τ sig (Elt F)) :
    (after (hostOps11_2 (F := F)) V) (Proc.devRef .tc main_v350) = kf24 (V (Proc.devRef .tc main_v344)) := by
  unfold kf24
  dsimp only [hostOps11_2]
  after_results_simp <;> rfl

theorem c_main_v351 (V : Valuation τ sig (Elt F)) :
    (after (hostOps11_2 (F := F)) V) (Proc.devRef .tc main_v351) = kf24 (V (Proc.devRef .tc main_v345)) := by
  unfold kf24
  dsimp only [hostOps11_2]
  after_results_simp <;> rfl

theorem c_main_v352 (V : Valuation τ sig (Elt F)) :
    (after (hostOps11_2 (F := F)) V) (Proc.devRef .tc main_v352) = kf24 ((after (hostOps11_2 (F := F)) V) (Proc.devRef .tc main_v347)) := by
  unfold kf24
  dsimp only [hostOps11_2]
  after_results_simp <;> rfl

theorem c_main_v353 (V : Valuation τ sig (Elt F)) :
    (after (hostOps11_2 (F := F)) V) (Proc.devRef .tc main_v353) = kf24 ((after (hostOps11_2 (F := F)) V) (Proc.devRef .tc main_v349)) := by
  unfold kf24
  dsimp only [hostOps11_2]
  after_results_simp <;> rfl

end Cert.KernelIdeal.Val

end
-- ==== Proof.KReg10.lean ====
/-
  Region 10: the value of its output array.

  The grid has ten points; point `t` stages rows `10000 t … 10000 t + 9999` of the left operand, all of the weights, and
  writes back the same rows of the output. The body rounds both operands to a narrower format (no change on the extended
  reals) and multiplies them into a zero accumulator, so what point `t` writes back is the product of its block of rows
  with the weights. A row of a matrix product depends on the same row of the left operand only, so that block is rows
  `10000 t …` of the product of the whole left operand with the weights; the ten blocks cover every row (row `r` lies in
  the block of point `r / 10000`), and the array ends holding that product.
-/
import proofs.«127768_j9405978378358_1_alg».proof.Proof.FrameKernelIdealP
import proofs.«127768_j9405978378358_1_alg».proof.Proof.LibDense
import proofs.«127768_j9405978378358_1_alg».proof.Proof.LibBiasRow
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin10 : (![0, 0] : Fin 2 → Nat) = fun _ => 0 := funext fun a => by fin_cases a <;> rfl

/-- The body's value: the block of rows times the weights. -/
theorem payload10 (x0 : Vec Ideal S10000x80 .f32) (x1 : Vec Ideal S80x160 .f32) :
    k10_pay1 (F := Ideal) x0 x1 = mm (M := 10000) (K := 80) (N := 160) x0 x1 := by
  unfold k10_pay1
  simp only [shapeCast_self]
  exact matmul_zero_eq_mm _ rfl rfl rfl rfl rfl rfl none _ _

/-- What the body leaves in the output's staging buffer. -/
theorem block10 (x0 : Vec Ideal S10000x80 .f32) (x1 : Vec Ideal S80x160 .f32) :
    out10_2 (F := Ideal) x0 x1 = mm (M := 10000) (K := 80) (N := 160) x0 x1 := by
  unfold out10_2
  rw [View.canon_unit_zero origin10]
  simp only [View.ld_unit_zero (S := S10000x80) origin10, View.ld_unit_zero (S := S80x160) origin10]
  exact payload10 x0 x1

/-- The block indices over the grid: the row-tiled windows sit at block `(t, 0)`, the weights at block `(0, 0)`. -/
theorem index10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

/-- What point `t` writes back is block `t` of the product of the whole arrays. -/
theorem written10 (c : Dev nD) (t : Fin cfg10.N) :
    (dat10 (F := Ideal) V c).flushed 2 t
      = ((cfg10.win 2).blk t).view.read (Elt Ideal)
          (mm (M := 100000) (K := 80) (N := 160) (V c (Pipeline.arrRef spec10 0)) (V c (Pipeline.arrRef spec10 1))) := by
  show (cfg10.win 2).cut (grid10.coords t) ((dat10 V c).after 2 t) = _
  rw [after10_2, block10]
  obtain ⟨e00, e01, e10, e11, e20, e21⟩ := index10 t
  funext j
  show mm (M := 10000) (K := 80) (N := 160) (iblk10 V c 0 t) (iblk10 V c 1 t) j
      = mm (M := 100000) (K := 80) (N := 160) (V c (Pipeline.arrRef spec10 0)) (V c (Pipeline.arrRef spec10 1))
          (((cfg10.win 2).blk t).view.emb j)
  refine Cert.BiasRow.mm_at _ _ _ _ j _ (fun k => ?_) (fun k => ?_)
  · show V c (Pipeline.arrRef spec10 0) (((cfg10.win 0).blk t).view.emb (ix2 (c0 j) k))
        = V c (Pipeline.arrRef spec10 0) (ix2 (c0 (((cfg10.win 2).blk t).view.emb j)) k)
    refine congrArg _ (funext fun a => Fin.ext ?_)
    match a with
    | ⟨0, _⟩ =>
      show win10_0.index t (0 : Fin 2) * 10000 + 1 * (j 0).val = win10_2.index t (0 : Fin 2) * 10000 + 1 * (j 0).val
      omega
    | ⟨1, _⟩ =>
      show win10_0.index t (1 : Fin 2) * 80 + 1 * k.val = k.val
      omega
  · show V c (Pipeline.arrRef spec10 1) (((cfg10.win 1).blk t).view.emb (ix2 k (c1 j)))
        = V c (Pipeline.arrRef spec10 1) (ix2 k (c1 (((cfg10.win 2).blk t).view.emb j)))
    refine congrArg _ (funext fun a => Fin.ext ?_)
    match a with
    | ⟨0, _⟩ =>
      show win10_1.index t (0 : Fin 2) * 80 + 1 * k.val = k.val
      omega
    | ⟨1, _⟩ =>
      show win10_1.index t (1 : Fin 2) * 160 + 1 * (j 1).val = win10_2.index t (1 : Fin 2) * 160 + 1 * (j 1).val
      omega

/-- An index of the output array lies in point `t`'s block iff each coordinate lies in the block's range on its axis. -/
theorem inBlock10 (t : Fin cfg10.N) (i : S100000x160.Idx) :
    i ∈ ((cfg10.win 2).blk t).view.set
      ↔ ∀ a : Fin 2, win10_2.index t a * S10000x160.size a ≤ (i a).val
          ∧ (i a).val < win10_2.index t a * S10000x160.size a + S10000x160.size a := by
  show i ∈ ((View.whole (Pipeline.arrRef spec10 2)).slice (win10_2.rect t)).set ↔ _
  rw [View.set_slice_whole, Rect.mem_set_unit]
  exact Iff.rfl

/-- Every row of the output lies in the block of the point its row number divided by 10000 names. -/
theorem covered10 (i : S100000x160.Idx) :
    ∃ t : Fin cfg10.N, (cfg10.win 2).flush t = true ∧ i ∈ ((cfg10.win 2).blk t).view.set := by
  have hN : cfg10.N = 10 := N_10
  have hi0 : (i 0).val < 100000 := (i 0).isLt
  have hi1 : (i 1).val < 160 := (i 1).isLt
  refine ⟨⟨(i 0).val / 10000, by rw [hN]; omega⟩, flush10_2 _, ?_⟩
  obtain ⟨-, -, -, -, e20, e21⟩ := index10 ⟨(i 0).val / 10000, by rw [hN]; omega⟩
  rw [inBlock10]
  intro a
  match a with
  | ⟨0, _⟩ =>
    show win10_2.index _ (0 : Fin 2) * 10000 ≤ (i 0).val ∧ (i 0).val < win10_2.index _ (0 : Fin 2) * 10000 + 10000
    rw [e20]
    show (i 0).val / 10000 * 10000 ≤ (i 0).val ∧ (i 0).val < (i 0).val / 10000 * 10000 + 10000
    omega
  | ⟨1, _⟩ =>
    show win10_2.index _ (1 : Fin 2) * 160 ≤ (i 1).val ∧ (i 1).val < win10_2.index _ (1 : Fin 2) * 160 + 160
    rw [e21]
    omega

/-- THE OUTPUT ARRAY after the region: the product of the two input arrays as the region finds them. -/
theorem arr10 (c : Dev nD) :
    (dat10 (F := Ideal) V c).arrAt 2 cfg10.N
      = mm (M := 100000) (K := 80) (N := 160) (V c (Pipeline.arrRef spec10 0)) (V c (Pipeline.arrRef spec10 1)) :=
  (dat10 (F := Ideal) V c).arrAt_eq_of_cover 2 _ (fun t _ => written10 V c t) (covered10)

end Cert.KernelIdeal.RegionValue

end
-- ==== Proof.KReg11.lean ====
/-
  Region 11: the value of its output array.

  The grid has ten points; point `t` stages rows `10000 t … 10000 t + 9999` of the two row arrays, all of each of the four
  one-row statistics, and writes back the same rows of the output. The body is the normalising layer `bn` of its blocks
  (each statistic broadcast to every row, then pointwise arithmetic). An entry of `bn` depends on the entry of each row
  array at the same place and on the statistics of its column, so what point `t` writes back is rows `10000 t …` of `bn`
  of the whole arrays; the ten blocks cover every row (row `r` lies in the block of point `r / 10000`), and the array
  ends holding `bn` of the arrays the region finds.
-/
import proofs.«127768_j9405978378358_1_alg».proof.Proof.FrameKernelIdealP
import proofs.«127768_j9405978378358_1_alg».proof.Proof.LibDense
import proofs.«127768_j9405978378358_1_alg».proof.Proof.KBnSpec
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin11 : (![0, 0] : Fin 2 → Nat) = fun _ => 0 := funext fun a => by fin_cases a <;> rfl

/-- The body's value: the normalising layer of its blocks. -/
theorem payload11 (x0 x1 : Vec Ideal S10000x80 .f32) (x2 x3 x4 x5 : Vec Ideal S1x80 .f32) :
    k11_pay1 (F := Ideal) x0 x1 x2 x3 x4 x5 = bn (M := 10000) (N := 80) x0 x1 x2 x3 x4 x5 := by
  unfold k11_pay1
  simp only [shapeCast_self]
  exact vecBn x0 x1 x2 x3 x4 x5 _

/-- What the body leaves in the output's staging buffer. -/
theorem block11 (x0 x1 : Vec Ideal S10000x80 .f32) (x2 x3 x4 x5 : Vec Ideal S1x80 .f32) :
    out11_6 (F := Ideal) x0 x1 x2 x3 x4 x5 = bn (M := 10000) (N := 80) x0 x1 x2 x3 x4 x5 := by
  unfold out11_6
  rw [View.canon_unit_zero origin11]
  simp only [View.ld_unit_zero (S := S10000x80) origin11, View.ld_unit_zero (S := S1x80) origin11]
  exact payload11 x0 x1 x2 x3 x4 x5

/-! The block indices over the grid, window by window: the row-tiled windows (the two row arrays and the output) sit at
    block `(t, 0)` at point `t`, each one-row statistic at block `(0, 0)`. -/

theorem index11_6 : ∀ t : Fin cfg11.N, win11_6.index t (0 : Fin 2) = t.val ∧ win11_6.index t (1 : Fin 2) = 0 :=
  (by decide +kernel : ∀ t : Fin grid11.N, _)

theorem index11_0 : ∀ t : Fin cfg11.N, win11_0.index t (0 : Fin 2) = t.val ∧ win11_0.index t (1 : Fin 2) = 0 :=
  (by decide +kernel : ∀ t : Fin grid11.N, _)

/-- Window 0's block at point `t` lies over the same rows and columns of its array as the output's block does of its own. -/
theorem place11_0 (t : Fin cfg11.N) (j : S10000x80.Idx) : (win11_0.blk t).view.emb j = (win11_6.blk t).view.emb j := by
  have h := index11_0 t
  have h6 := index11_6 t
  funext a
  apply Fin.ext
  match a with
  | ⟨0, _⟩ =>
    show win11_0.index t (0 : Fin 2) * 10000 + 1 * (j 0).val = win11_6.index t (0 : Fin 2) * 10000 + 1 * (j 0).val
    omega
  | ⟨1, _⟩ =>
    show win11_0.index t (1 : Fin 2) * 80 + 1 * (j 1).val = win11_6.index t (1 : Fin 2) * 80 + 1 * (j 1).val
    omega

set_option maxHeartbeats 1000000 in
/-- So an entry of window 0's block is the array's entry under the output block's index. -/
theorem rows11_0 (c : Dev nD) (t : Fin cfg11.N) (j : S10000x80.Idx) :
    iblk11 V c 0 t j = V c (Pipeline.arrRef spec11 0) ((win11_6.blk t).view.emb j) :=
  congrArg (V c (Pipeline.arrRef spec11 0)) (place11_0 t j)

theorem index11_1 : ∀ t : Fin cfg11.N, win11_1.index t (0 : Fin 2) = t.val ∧ win11_1.index t (1 : Fin 2) = 0 :=
  (by decide +kernel : ∀ t : Fin grid11.N, _)

/-- Window 1's block at point `t` lies over the same rows and columns of its array as the output's block does of its own. -/
theorem place11_1 (t : Fin cfg11.N) (j : S10000x80.Idx) : (win11_1.blk t).view.emb j = (win11_6.blk t).view.emb j := by
  have h := index11_1 t
  have h6 := index11_6 t
  funext a
  apply Fin.ext
  match a with
  | ⟨0, _⟩ =>
    show win11_1.index t (0 : Fin 2) * 10000 + 1 * (j 0).val = win11_6.index t (0 : Fin 2) * 10000 + 1 * (j 0).val
    omega
  | ⟨1, _⟩ =>
    show win11_1.index t (1 : Fin 2) * 80 + 1 * (j 1).val = win11_6.index t (1 : Fin 2) * 80 + 1 * (j 1).val
    omega

set_option maxHeartbeats 1000000 in
/-- So an entry of window 1's block is the array's entry under the output block's index. -/
theorem rows11_1 (c : Dev nD) (t : Fin cfg11.N) (j : S10000x80.Idx) :
    iblk11 V c 1 t j = V c (Pipeline.arrRef spec11 1) ((win11_6.blk t).view.emb j) :=
  congrArg (V c (Pipeline.arrRef spec11 1)) (place11_1 t j)

theorem index11_2 : ∀ t : Fin cfg11.N, win11_2.index t (0 : Fin 2) = 0 ∧ win11_2.index t (1 : Fin 2) = 0 :=
  (by decide +kernel : ∀ t : Fin grid11.N, _)

/-- The one block of window 2 sits at the array's origin: an index inside the block is the same index of the array. -/
theorem place11_2 (t : Fin cfg11.N) (y : S1x80.Idx) : (win11_2.blk t).view.emb y = y := by
  have h := index11_2 t
  funext a
  apply Fin.ext
  match a with
  | ⟨0, _⟩ => show win11_2.index t (0 : Fin 2) * 1 + 1 * (y 0).val = (y 0).val; omega
  | ⟨1, _⟩ => show win11_2.index t (1 : Fin 2) * 80 + 1 * (y 1).val = (y 1).val; omega

set_option maxHeartbeats 1000000 in
/-- So window 2's block at any point is the whole one-row array. -/
theorem stat11_2 (c : Dev nD) (t : Fin cfg11.N) : iblk11 V c 2 t = V c (Pipeline.arrRef spec11 2) :=
  funext fun y => congrArg (V c (Pipeline.arrRef spec11 2)) (place11_2 t y)

theorem index11_3 : ∀ t : Fin cfg11.N, win11_3.index t (0 : Fin 2) = 0 ∧ win11_3.index t (1 : Fin 2) = 0 :=
  (by decide +kernel : ∀ t : Fin grid11.N, _)

/-- The one block of window 3 sits at the array's origin: an index inside the block is the same index of the array. -/
theorem place11_3 (t : Fin cfg11.N) (y : S1x80.Idx) : (win11_3.blk t).view.emb y = y := by
  have h := index11_3 t
  funext a
  apply Fin.ext
  match a with
  | ⟨0, _⟩ => show win11_3.index t (0 : Fin 2) * 1 + 1 * (y 0).val = (y 0).val; omega
  | ⟨1, _⟩ => show win11_3.index t (1 : Fin 2) * 80 + 1 * (y 1).val = (y 1).val; omega

set_option maxHeartbeats 1000000 in
/-- So window 3's block at any point is the whole one-row array. -/
theorem stat11_3 (c : Dev nD) (t : Fin cfg11.N) : iblk11 V c 3 t = V c (Pipeline.arrRef spec11 3) :=
  funext fun y => congrArg (V c (Pipeline.arrRef spec11 3)) (place11_3 t y)

theorem index11_4 : ∀ t : Fin cfg11.N, win11_4.index t (0 : Fin 2) = 0 ∧ win11_4.index t (1 : Fin 2) = 0 :=
  (by decide +kernel : ∀ t : Fin grid11.N, _)

/-- The one block of window 4 sits at the array's origin: an index inside the block is the same index of the array. -/
theorem place11_4 (t : Fin cfg11.N) (y : S1x80.Idx) : (win11_4.blk t).view.emb y = y := by
  have h := index11_4 t
  funext a
  apply Fin.ext
  match a with
  | ⟨0, _⟩ => show win11_4.index t (0 : Fin 2) * 1 + 1 * (y 0).val = (y 0).val; omega
  | ⟨1, _⟩ => show win11_4.index t (1 : Fin 2) * 80 + 1 * (y 1).val = (y 1).val; omega

set_option maxHeartbeats 1000000 in
/-- So window 4's block at any point is the whole one-row array. -/
theorem stat11_4 (c : Dev nD) (t : Fin cfg11.N) : iblk11 V c 4 t = V c (Pipeline.arrRef spec11 4) :=
  funext fun y => congrArg (V c (Pipeline.arrRef spec11 4)) (place11_4 t y)

theorem index11_5 : ∀ t : Fin cfg11.N, win11_5.index t (0 : Fin 2) = 0 ∧ win11_5.index t (1 : Fin 2) = 0 :=
  (by decide +kernel : ∀ t : Fin grid11.N, _)

/-- The one block of window 5 sits at the array's origin: an index inside the block is the same index of the array. -/
theorem place11_5 (t : Fin cfg11.N) (y : S1x80.Idx) : (win11_5.blk t).view.emb y = y := by
  have h := index11_5 t
  funext a
  apply Fin.ext
  match a with
  | ⟨0, _⟩ => show win11_5.index t (0 : Fin 2) * 1 + 1 * (y 0).val = (y 0).val; omega
  | ⟨1, _⟩ => show win11_5.index t (1 : Fin 2) * 80 + 1 * (y 1).val = (y 1).val; omega

set_option maxHeartbeats 1000000 in
/-- So window 5's block at any point is the whole one-row array. -/
theorem stat11_5 (c : Dev nD) (t : Fin cfg11.N) : iblk11 V c 5 t = V c (Pipeline.arrRef spec11 5) :=
  funext fun y => congrArg (V c (Pipeline.arrRef spec11 5)) (place11_5 t y)

/-- The output block's columns are the array's columns. -/
theorem column11 (t : Fin cfg11.N) (j : S10000x80.Idx) : ((win11_6.blk t).view.emb j 1).val = (j 1).val := by
  have h6 := index11_6 t
  show win11_6.index t (1 : Fin 2) * 80 + 1 * (j 1).val = (j 1).val
  omega

set_option maxHeartbeats 1000000 in
/-- What point `t` writes back is block `t` of the layer of the whole arrays. -/
theorem written11 (c : Dev nD) (t : Fin cfg11.N) :
    (dat11 (F := Ideal) V c).flushed 6 t
      = ((cfg11.win 6).blk t).view.read (Elt Ideal)
          (bnK (V c (Pipeline.arrRef spec11 0)) (V c (Pipeline.arrRef spec11 1)) (V c (Pipeline.arrRef spec11 2))
            (V c (Pipeline.arrRef spec11 3)) (V c (Pipeline.arrRef spec11 4)) (V c (Pipeline.arrRef spec11 5))) := by
  show (cfg11.win 6).cut (grid11.coords t) ((dat11 V c).after 6 t) = _
  rw [after11_6, block11]
  funext j
  show bn (M := 10000) (N := 80) (iblk11 V c 0 t) (iblk11 V c 1 t) (iblk11 V c 2 t) (iblk11 V c 3 t) (iblk11 V c 4 t) (iblk11 V c 5 t) j
      = bn (M := 100000) (N := 80) (V c (Pipeline.arrRef spec11 0)) (V c (Pipeline.arrRef spec11 1)) (V c (Pipeline.arrRef spec11 2))
          (V c (Pipeline.arrRef spec11 3)) (V c (Pipeline.arrRef spec11 4)) (V c (Pipeline.arrRef spec11 5))
          ((win11_6.blk t).view.emb j)
  exact bn_rows _ _ _ _ _ _ _ _ _ _ _ _ j _ (rows11_0 V c t j) (rows11_1 V c t j) (column11 t j)
    (stat11_2 V c t) (stat11_3 V c t) (stat11_4 V c t) (stat11_5 V c t)

/-- An index of the output array lies in point `t`'s block iff each coordinate lies in the block's range on its axis. -/
theorem inBlock11 (t : Fin cfg11.N) (i : S100000x80.Idx) :
    i ∈ ((cfg11.win 6).blk t).view.set
      ↔ ∀ a : Fin 2, win11_6.index t a * S10000x80.size a ≤ (i a).val
          ∧ (i a).val < win11_6.index t a * S10000x80.size a + S10000x80.size a := by
  show i ∈ ((View.whole (Pipeline.arrRef spec11 6)).slice (win11_6.rect t)).set ↔ _
  rw [View.set_slice_whole, Rect.mem_set_unit]
  exact Iff.rfl

/-- Every row of the output lies in the block of the point its row number divided by 10000 names. -/
theorem covered11 (i : S100000x80.Idx) :
    ∃ t : Fin cfg11.N, (cfg11.win 6).flush t = true ∧ i ∈ ((cfg11.win 6).blk t).view.set := by
  have hN : cfg11.N = 10 := N_11
  have hi0 : (i 0).val < 100000 := (i 0).isLt
  have hi1 : (i 1).val < 80 := (i 1).isLt
  refine ⟨⟨(i 0).val / 10000, by rw [hN]; omega⟩, flush11_6 _, ?_⟩
  obtain ⟨e60, e61⟩ := index11_6 ⟨(i 0).val / 10000, by rw [hN]; omega⟩
  rw [inBlock11]
  intro a
  match a with
  | ⟨0, _⟩ =>
    show win11_6.index _ (0 : Fin 2) * 10000 ≤ (i 0).val ∧ (i 0).val < win11_6.index _ (0 : Fin 2) * 10000 + 10000
    rw [e60]
    show (i 0).val / 10000 * 10000 ≤ (i 0).val ∧ (i 0).val < (i 0).val / 10000 * 10000 + 10000
    omega
  | ⟨1, _⟩ =>
    show win11_6.index _ (1 : Fin 2) * 80 ≤ (i 1).val ∧ (i 1).val < win11_6.index _ (1 : Fin 2) * 80 + 80
    rw [e61]
    omega

/-- THE OUTPUT ARRAY after the region: the layer of the six input arrays as the region finds them. -/
theorem arr11 (c : Dev nD) :
    (dat11 (F := Ideal) V c).arrAt 6 cfg11.N
      = bnK (V c (Pipeline.arrRef spec11 0)) (V c (Pipeline.arrRef spec11 1)) (V c (Pipeline.arrRef spec11 2))
          (V c (Pipeline.arrRef spec11 3)) (V c (Pipeline.arrRef spec11 4)) (V c (Pipeline.arrRef spec11 5)) :=
  (dat11 (F := Ideal) V c).arrAt_eq_of_cover 6 _ (fun t _ => written11 V c t) (covered11)

end Cert.KernelIdeal.RegionValue

end
-- ==== Proof.KSeg_hostOps8.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps8 : List (Ref sig .tc) := [main_v241, main_v242, main_v243, main_v244, main_v245]

/-- A buffer the piece does not write keeps its contents. -/
theorem keep_hostOps8 (V : Valuation τ sig (Elt F)) (b : Ref sig .tc) (hb : ∀ y ∈ wr_hostOps8, b ≠ y) :
    after (hostOps8 (F := F)) V (Proc.devRef .tc b) = V (Proc.devRef .tc b) :=
  after_of_forall_not_mem (b := Proc.devRef .tc b) _ _ (List.forall_iff_forall_mem.mp (by
    simp only [hostOps8, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v242 (V : Valuation τ sig (Elt F)) :
    (after (hostOps8 (F := F)) V) (Proc.devRef .tc main_v242) = kf35 (V (Proc.devRef .tc main_arg6)) := by
  unfold kf35
  dsimp only [hostOps8]
  after_results_simp <;> rfl

theorem c_main_v244 (V : Valuation τ sig (Elt F)) :
    (after (hostOps8 (F := F)) V) (Proc.devRef .tc main_v244) = kf35 (V (Proc.devRef .tc main_arg8)) := by
  unfold kf35
  dsimp only [hostOps8]
  after_results_simp <;> rfl

theorem c_main_v245 (V : Valuation τ sig (Elt F)) :
    (after (hostOps8 (F := F)) V) (Proc.devRef .tc main_v245) = kf26 ((after (hostOps8 (F := F)) V) (Proc.devRef .tc main_v242)) ((after (hostOps8 (F := F)) V) (Proc.devRef .tc main_v244)) := by
  unfold kf26
  dsimp only [hostOps8]
  after_results_simp <;> rfl

end Cert.KernelIdeal.Val

end
-- ==== Proof.KSeg_hostOps9.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps9 : List (Ref sig .tc) := [main_c_43, main_v247, main_v248, main_c_44, main_v249, main_v250, main_v251, main_v252, main_v253, main_cst_45, main_v254, main_v255, main_v256, main_v257, main_v258, main_v259, main_c_46, main_v260, main_v261, main_c_47, main_v262, main_v263, main_v264, main_v265, main_v266, main_cst_48, main_v267, main_v268, main_v269, main_v270, main_v271, main_v272, main_v273, main_v274, main_v275, main_v276, main_v277, main_v278, main_v279, main_v280, main_v281, main_v282, main_v283, main_v284, main_cst_49, main_v285, main_cst_50, main_v286, main_v287, main_c_51]

/-- A buffer the piece does not write keeps its contents. -/
theorem keep_hostOps9 (V : Valuation τ sig (Elt F)) (b : Ref sig .tc) (hb : ∀ y ∈ wr_hostOps9, b ≠ y) :
    after (hostOps9 (F := F)) V (Proc.devRef .tc b) = V (Proc.devRef .tc b) :=
  after_of_forall_not_mem (b := Proc.devRef .tc b) _ _ (List.forall_iff_forall_mem.mp (by
    simp only [hostOps9, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v272 (V : Valuation τ sig (Elt F)) :
    (after (hostOps9 (F := F)) V) (Proc.devRef .tc main_v272) = kf14 (V (Proc.devRef .tc main_v1)) (V (Proc.devRef .tc main_v3)) (V (Proc.devRef .tc main_v246)) (V (Proc.devRef .tc main_v20)) (V (Proc.devRef .tc main_v15)) := by
  unfold kf14
  dsimp only [hostOps9]
  after_results_simp <;> rfl

theorem c_main_v275 (V : Valuation τ sig (Elt F)) :
    (after (hostOps9 (F := F)) V) (Proc.devRef .tc main_v275) = kf36 (V (Proc.devRef .tc main_arg7)) := by
  unfold kf36
  dsimp only [hostOps9]
  after_results_simp <;> rfl

theorem c_main_v278 (V : Valuation τ sig (Elt F)) :
    (after (hostOps9 (F := F)) V) (Proc.devRef .tc main_v278) = kf15 ((after (hostOps9 (F := F)) V) (Proc.devRef .tc main_v272)) ((after (hostOps9 (F := F)) V) (Proc.devRef .tc main_v275)) := by
  unfold kf15
  dsimp only [hostOps9]
  after_results_simp <;> rfl

theorem c_main_v281 (V : Valuation τ sig (Elt F)) :
    (after (hostOps9 (F := F)) V) (Proc.devRef .tc main_v281) = kf36 (V (Proc.devRef .tc main_arg9)) := by
  unfold kf36
  dsimp only [hostOps9]
  after_results_simp <;> rfl

theorem c_main_v284 (V : Valuation τ sig (Elt F)) :
    (after (hostOps9 (F := F)) V) (Proc.devRef .tc main_v284) = kf16 ((after (hostOps9 (F := F)) V) (Proc.devRef .tc main_v272)) ((after (hostOps9 (F := F)) V) (Proc.devRef .tc main_v281)) := by
  unfold kf16
  dsimp only [hostOps9]
  after_results_simp <;> rfl

theorem c_main_v287 (V : Valuation τ sig (Elt F)) :
    (after (hostOps9 (F := F)) V) (Proc.devRef .tc main_v287) = kf17 ((after (hostOps9 (F := F)) V) (Proc.devRef .tc main_v278)) := by
  unfold kf17
  dsimp only [hostOps9]
  after_results_simp <;> rfl

theorem c_main_c_51 (V : Valuation τ sig (Elt F)) :
    (after (hostOps9 (F := F)) V) (Proc.devRef .tc main_c_51) = kf18  := by
  unfold kf18
  dsimp only [hostOps9]
  after_results_simp <;> rfl

end Cert.KernelIdeal.Val

end
-- ==== Proof.KSeg_hostOps9_1.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps9_1 : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v288]

/-- A buffer the piece does not write keeps its contents. -/
theorem keep_hostOps9_1 (V : Valuation τ sig (Elt F)) (b : Ref sig .tc) (hb : ∀ y ∈ wr_hostOps9_1, b ≠ y) :
    after (hostOps9_1 (F := F)) V (Proc.devRef .tc b) = V (Proc.devRef .tc b) :=
  after_of_forall_not_mem (b := Proc.devRef .tc b) _ _ (List.forall_iff_forall_mem.mp (by
    simp only [hostOps9_1, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_call6_v5 (V : Valuation τ sig (Elt F)) :
    (after (hostOps9_1 (F := F)) V) (Proc.devRef .tc main_call6_v5) = kf19 (V (Proc.devRef .tc main_v278)) := by
  unfold kf19
  dsimp only [hostOps9_1]
  after_results_simp <;> rfl

theorem c_main_call6_v8 (V : Valuation τ sig (Elt F)) :
    (after (hostOps9_1 (F := F)) V) (Proc.devRef .tc main_call6_v8) = kf20 (V (Proc.devRef .tc main_c_51)) := by
  unfold kf20
  dsimp only [hostOps9_1]
  after_results_simp <;> rfl

theorem c_main_call6_v11 (V : Valuation τ sig (Elt F)) :
    (after (hostOps9_1 (F := F)) V) (Proc.devRef .tc main_call6_v11) = kf21 ((after (hostOps9_1 (F := F)) V) (Proc.devRef .tc main_call6_v5)) ((after (hostOps9_1 (F := F)) V) (Proc.devRef .tc main_call6_v8)) := by
  unfold kf21
  dsimp only [hostOps9_1]
  after_results_simp <;> rfl

theorem c_main_v288 (V : Valuation τ sig (Elt F)) :
    (after (hostOps9_1 (F := F)) V) (Proc.devRef .tc main_v288) = kf22 ((after (hostOps9_1 (F := F)) V) (Proc.devRef .tc main_call6_v8)) ((after (hostOps9_1 (F := F)) V) (Proc.devRef .tc main_call6_v11)) := by
  unfold kf22
  dsimp only [hostOps9_1]
  after_results_simp <;> rfl

end Cert.KernelIdeal.Val

end
-- ==== Proof.KSeg_hostOps9_2.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps9_2 : List (Ref sig .tc) := [main_v289, main_v290, main_v291, main_v292, main_v293, main_v294, main_v295, main_v296]

/-- A buffer the piece does not write keeps its contents. -/
theorem keep_hostOps9_2 (V : Valuation τ sig (Elt F)) (b : Ref sig .tc) (hb : ∀ y ∈ wr_hostOps9_2, b ≠ y) :
    after (hostOps9_2 (F := F)) V (Proc.devRef .tc b) = V (Proc.devRef .tc b) :=
  after_of_forall_not_mem (b := Proc.devRef .tc b) _ _ (List.forall_iff_forall_mem.mp (by
    simp only [hostOps9_2, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v290 (V : Valuation τ sig (Elt F)) :
    (after (hostOps9_2 (F := F)) V) (Proc.devRef .tc main_v290) = kf37 (V (Proc.devRef .tc main_arg10)) := by
  unfold kf37
  dsimp only [hostOps9_2]
  after_results_simp <;> rfl

theorem c_main_v292 (V : Valuation τ sig (Elt F)) :
    (after (hostOps9_2 (F := F)) V) (Proc.devRef .tc main_v292) = kf37 (V (Proc.devRef .tc main_arg11)) := by
  unfold kf37
  dsimp only [hostOps9_2]
  after_results_simp <;> rfl

theorem c_main_v293 (V : Valuation τ sig (Elt F)) :
    (after (hostOps9_2 (F := F)) V) (Proc.devRef .tc main_v293) = kf24 (V (Proc.devRef .tc main_v287)) := by
  unfold kf24
  dsimp only [hostOps9_2]
  after_results_simp <;> rfl

theorem c_main_v294 (V : Valuation τ sig (Elt F)) :
    (after (hostOps9_2 (F := F)) V) (Proc.devRef .tc main_v294) = kf24 (V (Proc.devRef .tc main_v288)) := by
  unfold kf24
  dsimp only [hostOps9_2]
  after_results_simp <;> rfl

theorem c_main_v295 (V : Valuation τ sig (Elt F)) :
    (after (hostOps9_2 (F := F)) V) (Proc.devRef .tc main_v295) = kf24 ((after (hostOps9_2 (F := F)) V) (Proc.devRef .tc main_v290)) := by
  unfold kf24
  dsimp only [hostOps9_2]
  after_results_simp <;> rfl

theorem c_main_v296 (V : Valuation τ sig (Elt F)) :
    (after (hostOps9_2 (F := F)) V) (Proc.devRef .tc main_v296) = kf24 ((after (hostOps9_2 (F := F)) V) (Proc.devRef .tc main_v292)) := by
  unfold kf24
  dsimp only [hostOps9_2]
  after_results_simp <;> rfl

end Cert.KernelIdeal.Val

end
-- ==== Proof.KReg8.lean ====
/-
  Region 8: the value of its output array.

  The grid has ten points; point `t` stages rows `10000 t … 10000 t + 9999` of the left operand, all of the weights, and
  writes back the same rows of the output. The body rounds both operands to a narrower format (no change on the extended
  reals) and multiplies them into a zero accumulator, so what point `t` writes back is the product of its block of rows
  with the weights. A row of a matrix product depends on the same row of the left operand only, so that block is rows
  `10000 t …` of the product of the whole left operand with the weights; the ten blocks cover every row (row `r` lies in
  the block of point `r / 10000`), and the array ends holding that product.
-/
import proofs.«127768_j9405978378358_1_alg».proof.Proof.FrameKernelIdealP
import proofs.«127768_j9405978378358_1_alg».proof.Proof.LibDense
import proofs.«127768_j9405978378358_1_alg».proof.Proof.LibBiasRow
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin8 : (![0, 0] : Fin 2 → Nat) = fun _ => 0 := funext fun a => by fin_cases a <;> rfl

/-- The body's value: the block of rows times the weights. -/
theorem payload8 (x0 : Vec Ideal S10000x80 .f32) (x1 : Vec Ideal S80x160 .f32) :
    k8_pay1 (F := Ideal) x0 x1 = mm (M := 10000) (K := 80) (N := 160) x0 x1 := by
  unfold k8_pay1
  simp only [shapeCast_self]
  exact matmul_zero_eq_mm _ rfl rfl rfl rfl rfl rfl none _ _

/-- What the body leaves in the output's staging buffer. -/
theorem block8 (x0 : Vec Ideal S10000x80 .f32) (x1 : Vec Ideal S80x160 .f32) :
    out8_2 (F := Ideal) x0 x1 = mm (M := 10000) (K := 80) (N := 160) x0 x1 := by
  unfold out8_2
  rw [View.canon_unit_zero origin8]
  simp only [View.ld_unit_zero (S := S10000x80) origin8, View.ld_unit_zero (S := S80x160) origin8]
  exact payload8 x0 x1

/-- The block indices over the grid: the row-tiled windows sit at block `(t, 0)`, the weights at block `(0, 0)`. -/
theorem index8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- What point `t` writes back is block `t` of the product of the whole arrays. -/
theorem written8 (c : Dev nD) (t : Fin cfg8.N) :
    (dat8 (F := Ideal) V c).flushed 2 t
      = ((cfg8.win 2).blk t).view.read (Elt Ideal)
          (mm (M := 100000) (K := 80) (N := 160) (V c (Pipeline.arrRef spec8 0)) (V c (Pipeline.arrRef spec8 1))) := by
  show (cfg8.win 2).cut (grid8.coords t) ((dat8 V c).after 2 t) = _
  rw [after8_2, block8]
  obtain ⟨e00, e01, e10, e11, e20, e21⟩ := index8 t
  funext j
  show mm (M := 10000) (K := 80) (N := 160) (iblk8 V c 0 t) (iblk8 V c 1 t) j
      = mm (M := 100000) (K := 80) (N := 160) (V c (Pipeline.arrRef spec8 0)) (V c (Pipeline.arrRef spec8 1))
          (((cfg8.win 2).blk t).view.emb j)
  refine Cert.BiasRow.mm_at _ _ _ _ j _ (fun k => ?_) (fun k => ?_)
  · show V c (Pipeline.arrRef spec8 0) (((cfg8.win 0).blk t).view.emb (ix2 (c0 j) k))
        = V c (Pipeline.arrRef spec8 0) (ix2 (c0 (((cfg8.win 2).blk t).view.emb j)) k)
    refine congrArg _ (funext fun a => Fin.ext ?_)
    match a with
    | ⟨0, _⟩ =>
      show win8_0.index t (0 : Fin 2) * 10000 + 1 * (j 0).val = win8_2.index t (0 : Fin 2) * 10000 + 1 * (j 0).val
      omega
    | ⟨1, _⟩ =>
      show win8_0.index t (1 : Fin 2) * 80 + 1 * k.val = k.val
      omega
  · show V c (Pipeline.arrRef spec8 1) (((cfg8.win 1).blk t).view.emb (ix2 k (c1 j)))
        = V c (Pipeline.arrRef spec8 1) (ix2 k (c1 (((cfg8.win 2).blk t).view.emb j)))
    refine congrArg _ (funext fun a => Fin.ext ?_)
    match a with
    | ⟨0, _⟩ =>
      show win8_1.index t (0 : Fin 2) * 80 + 1 * k.val = k.val
      omega
    | ⟨1, _⟩ =>
      show win8_1.index t (1 : Fin 2) * 160 + 1 * (j 1).val = win8_2.index t (1 : Fin 2) * 160 + 1 * (j 1).val
      omega

/-- An index of the output array lies in point `t`'s block iff each coordinate lies in the block's range on its axis. -/
theorem inBlock8 (t : Fin cfg8.N) (i : S100000x160.Idx) :
    i ∈ ((cfg8.win 2).blk t).view.set
      ↔ ∀ a : Fin 2, win8_2.index t a * S10000x160.size a ≤ (i a).val
          ∧ (i a).val < win8_2.index t a * S10000x160.size a + S10000x160.size a := by
  show i ∈ ((View.whole (Pipeline.arrRef spec8 2)).slice (win8_2.rect t)).set ↔ _
  rw [View.set_slice_whole, Rect.mem_set_unit]
  exact Iff.rfl

/-- Every row of the output lies in the block of the point its row number divided by 10000 names. -/
theorem covered8 (i : S100000x160.Idx) :
    ∃ t : Fin cfg8.N, (cfg8.win 2).flush t = true ∧ i ∈ ((cfg8.win 2).blk t).view.set := by
  have hN : cfg8.N = 10 := N_8
  have hi0 : (i 0).val < 100000 := (i 0).isLt
  have hi1 : (i 1).val < 160 := (i 1).isLt
  refine ⟨⟨(i 0).val / 10000, by rw [hN]; omega⟩, flush8_2 _, ?_⟩
  obtain ⟨-, -, -, -, e20, e21⟩ := index8 ⟨(i 0).val / 10000, by rw [hN]; omega⟩
  rw [inBlock8]
  intro a
  match a with
  | ⟨0, _⟩ =>
    show win8_2.index _ (0 : Fin 2) * 10000 ≤ (i 0).val ∧ (i 0).val < win8_2.index _ (0 : Fin 2) * 10000 + 10000
    rw [e20]
    show (i 0).val / 10000 * 10000 ≤ (i 0).val ∧ (i 0).val < (i 0).val / 10000 * 10000 + 10000
    omega
  | ⟨1, _⟩ =>
    show win8_2.index _ (1 : Fin 2) * 160 ≤ (i 1).val ∧ (i 1).val < win8_2.index _ (1 : Fin 2) * 160 + 160
    rw [e21]
    omega

/-- THE OUTPUT ARRAY after the region: the product of the two input arrays as the region finds them. -/
theorem arr8 (c : Dev nD) :
    (dat8 (F := Ideal) V c).arrAt 2 cfg8.N
      = mm (M := 100000) (K := 80) (N := 160) (V c (Pipeline.arrRef spec8 0)) (V c (Pipeline.arrRef spec8 1)) :=
  (dat8 (F := Ideal) V c).arrAt_eq_of_cover 2 _ (fun t _ => written8 V c t) (covered8)

end Cert.KernelIdeal.RegionValue

end
-- ==== Proof.KReg9.lean ====
/-
  Region 9: the value of its output array.

  The grid has ten points; point `t` stages rows `10000 t … 10000 t + 9999` of the two row arrays, all of each of the four
  one-row statistics, and writes back the same rows of the output. The body is the normalising layer `bn` of its blocks
  (each statistic broadcast to every row, then pointwise arithmetic). An entry of `bn` depends on the entry of each row
  array at the same place and on the statistics of its column, so what point `t` writes back is rows `10000 t …` of `bn`
  of the whole arrays; the ten blocks cover every row (row `r` lies in the block of point `r / 10000`), and the array
  ends holding `bn` of the arrays the region finds.
-/
import proofs.«127768_j9405978378358_1_alg».proof.Proof.FrameKernelIdealP
import proofs.«127768_j9405978378358_1_alg».proof.Proof.LibDense
import proofs.«127768_j9405978378358_1_alg».proof.Proof.KBnSpec
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin9 : (![0, 0] : Fin 2 → Nat) = fun _ => 0 := funext fun a => by fin_cases a <;> rfl

/-- The body's value: the normalising layer of its blocks. -/
theorem payload9 (x0 x1 : Vec Ideal S10000x80 .f32) (x2 x3 x4 x5 : Vec Ideal S1x80 .f32) :
    k9_pay1 (F := Ideal) x0 x1 x2 x3 x4 x5 = bn (M := 10000) (N := 80) x0 x1 x2 x3 x4 x5 := by
  unfold k9_pay1
  simp only [shapeCast_self]
  exact vecBn x0 x1 x2 x3 x4 x5 _

/-- What the body leaves in the output's staging buffer. -/
theorem block9 (x0 x1 : Vec Ideal S10000x80 .f32) (x2 x3 x4 x5 : Vec Ideal S1x80 .f32) :
    out9_6 (F := Ideal) x0 x1 x2 x3 x4 x5 = bn (M := 10000) (N := 80) x0 x1 x2 x3 x4 x5 := by
  unfold out9_6
  rw [View.canon_unit_zero origin9]
  simp only [View.ld_unit_zero (S := S10000x80) origin9, View.ld_unit_zero (S := S1x80) origin9]
  exact payload9 x0 x1 x2 x3 x4 x5

/-! The block indices over the grid, window by window: the row-tiled windows (the two row arrays and the output) sit at
    block `(t, 0)` at point `t`, each one-row statistic at block `(0, 0)`. -/

theorem index9_6 : ∀ t : Fin cfg9.N, win9_6.index t (0 : Fin 2) = t.val ∧ win9_6.index t (1 : Fin 2) = 0 :=
  (by decide +kernel : ∀ t : Fin grid9.N, _)

theorem index9_0 : ∀ t : Fin cfg9.N, win9_0.index t (0 : Fin 2) = t.val ∧ win9_0.index t (1 : Fin 2) = 0 :=
  (by decide +kernel : ∀ t : Fin grid9.N, _)

/-- Window 0's block at point `t` lies over the same rows and columns of its array as the output's block does of its own. -/
theorem place9_0 (t : Fin cfg9.N) (j : S10000x80.Idx) : (win9_0.blk t).view.emb j = (win9_6.blk t).view.emb j := by
  have h := index9_0 t
  have h6 := index9_6 t
  funext a
  apply Fin.ext
  match a with
  | ⟨0, _⟩ =>
    show win9_0.index t (0 : Fin 2) * 10000 + 1 * (j 0).val = win9_6.index t (0 : Fin 2) * 10000 + 1 * (j 0).val
    omega
  | ⟨1, _⟩ =>
    show win9_0.index t (1 : Fin 2) * 80 + 1 * (j 1).val = win9_6.index t (1 : Fin 2) * 80 + 1 * (j 1).val
    omega

set_option maxHeartbeats 1000000 in
/-- So an entry of window 0's block is the array's entry under the output block's index. -/
theorem rows9_0 (c : Dev nD) (t : Fin cfg9.N) (j : S10000x80.Idx) :
    iblk9 V c 0 t j = V c (Pipeline.arrRef spec9 0) ((win9_6.blk t).view.emb j) :=
  congrArg (V c (Pipeline.arrRef spec9 0)) (place9_0 t j)

theorem index9_1 : ∀ t : Fin cfg9.N, win9_1.index t (0 : Fin 2) = t.val ∧ win9_1.index t (1 : Fin 2) = 0 :=
  (by decide +kernel : ∀ t : Fin grid9.N, _)

/-- Window 1's block at point `t` lies over the same rows and columns of its array as the output's block does of its own. -/
theorem place9_1 (t : Fin cfg9.N) (j : S10000x80.Idx) : (win9_1.blk t).view.emb j = (win9_6.blk t).view.emb j := by
  have h := index9_1 t
  have h6 := index9_6 t
  funext a
  apply Fin.ext
  match a with
  | ⟨0, _⟩ =>
    show win9_1.index t (0 : Fin 2) * 10000 + 1 * (j 0).val = win9_6.index t (0 : Fin 2) * 10000 + 1 * (j 0).val
    omega
  | ⟨1, _⟩ =>
    show win9_1.index t (1 : Fin 2) * 80 + 1 * (j 1).val = win9_6.index t (1 : Fin 2) * 80 + 1 * (j 1).val
    omega

set_option maxHeartbeats 1000000 in
/-- So an entry of window 1's block is the array's entry under the output block's index. -/
theorem rows9_1 (c : Dev nD) (t : Fin cfg9.N) (j : S10000x80.Idx) :
    iblk9 V c 1 t j = V c (Pipeline.arrRef spec9 1) ((win9_6.blk t).view.emb j) :=
  congrArg (V c (Pipeline.arrRef spec9 1)) (place9_1 t j)

theorem index9_2 : ∀ t : Fin cfg9.N, win9_2.index t (0 : Fin 2) = 0 ∧ win9_2.index t (1 : Fin 2) = 0 :=
  (by decide +kernel : ∀ t : Fin grid9.N, _)

/-- The one block of window 2 sits at the array's origin: an index inside the block is the same index of the array. -/
theorem place9_2 (t : Fin cfg9.N) (y : S1x80.Idx) : (win9_2.blk t).view.emb y = y := by
  have h := index9_2 t
  funext a
  apply Fin.ext
  match a with
  | ⟨0, _⟩ => show win9_2.index t (0 : Fin 2) * 1 + 1 * (y 0).val = (y 0).val; omega
  | ⟨1, _⟩ => show win9_2.index t (1 : Fin 2) * 80 + 1 * (y 1).val = (y 1).val; omega

set_option maxHeartbeats 1000000 in
/-- So window 2's block at any point is the whole one-row array. -/
theorem stat9_2 (c : Dev nD) (t : Fin cfg9.N) : iblk9 V c 2 t = V c (Pipeline.arrRef spec9 2) :=
  funext fun y => congrArg (V c (Pipeline.arrRef spec9 2)) (place9_2 t y)

theorem index9_3 : ∀ t : Fin cfg9.N, win9_3.index t (0 : Fin 2) = 0 ∧ win9_3.index t (1 : Fin 2) = 0 :=
  (by decide +kernel : ∀ t : Fin grid9.N, _)

/-- The one block of window 3 sits at the array's origin: an index inside the block is the same index of the array. -/
theorem place9_3 (t : Fin cfg9.N) (y : S1x80.Idx) : (win9_3.blk t).view.emb y = y := by
  have h := index9_3 t
  funext a
  apply Fin.ext
  match a with
  | ⟨0, _⟩ => show win9_3.index t (0 : Fin 2) * 1 + 1 * (y 0).val = (y 0).val; omega
  | ⟨1, _⟩ => show win9_3.index t (1 : Fin 2) * 80 + 1 * (y 1).val = (y 1).val; omega

set_option maxHeartbeats 1000000 in
/-- So window 3's block at any point is the whole one-row array. -/
theorem stat9_3 (c : Dev nD) (t : Fin cfg9.N) : iblk9 V c 3 t = V c (Pipeline.arrRef spec9 3) :=
  funext fun y => congrArg (V c (Pipeline.arrRef spec9 3)) (place9_3 t y)

theorem index9_4 : ∀ t : Fin cfg9.N, win9_4.index t (0 : Fin 2) = 0 ∧ win9_4.index t (1 : Fin 2) = 0 :=
  (by decide +kernel : ∀ t : Fin grid9.N, _)

/-- The one block of window 4 sits at the array's origin: an index inside the block is the same index of the array. -/
theorem place9_4 (t : Fin cfg9.N) (y : S1x80.Idx) : (win9_4.blk t).view.emb y = y := by
  have h := index9_4 t
  funext a
  apply Fin.ext
  match a with
  | ⟨0, _⟩ => show win9_4.index t (0 : Fin 2) * 1 + 1 * (y 0).val = (y 0).val; omega
  | ⟨1, _⟩ => show win9_4.index t (1 : Fin 2) * 80 + 1 * (y 1).val = (y 1).val; omega

set_option maxHeartbeats 1000000 in
/-- So window 4's block at any point is the whole one-row array. -/
theorem stat9_4 (c : Dev nD) (t : Fin cfg9.N) : iblk9 V c 4 t = V c (Pipeline.arrRef spec9 4) :=
  funext fun y => congrArg (V c (Pipeline.arrRef spec9 4)) (place9_4 t y)

theorem index9_5 : ∀ t : Fin cfg9.N, win9_5.index t (0 : Fin 2) = 0 ∧ win9_5.index t (1 : Fin 2) = 0 :=
  (by decide +kernel : ∀ t : Fin grid9.N, _)

/-- The one block of window 5 sits at the array's origin: an index inside the block is the same index of the array. -/
theorem place9_5 (t : Fin cfg9.N) (y : S1x80.Idx) : (win9_5.blk t).view.emb y = y := by
  have h := index9_5 t
  funext a
  apply Fin.ext
  match a with
  | ⟨0, _⟩ => show win9_5.index t (0 : Fin 2) * 1 + 1 * (y 0).val = (y 0).val; omega
  | ⟨1, _⟩ => show win9_5.index t (1 : Fin 2) * 80 + 1 * (y 1).val = (y 1).val; omega

set_option maxHeartbeats 1000000 in
/-- So window 5's block at any point is the whole one-row array. -/
theorem stat9_5 (c : Dev nD) (t : Fin cfg9.N) : iblk9 V c 5 t = V c (Pipeline.arrRef spec9 5) :=
  funext fun y => congrArg (V c (Pipeline.arrRef spec9 5)) (place9_5 t y)

/-- The output block's columns are the array's columns. -/
theorem column9 (t : Fin cfg9.N) (j : S10000x80.Idx) : ((win9_6.blk t).view.emb j 1).val = (j 1).val := by
  have h6 := index9_6 t
  show win9_6.index t (1 : Fin 2) * 80 + 1 * (j 1).val = (j 1).val
  omega

set_option maxHeartbeats 1000000 in
/-- What point `t` writes back is block `t` of the layer of the whole arrays. -/
theorem written9 (c : Dev nD) (t : Fin cfg9.N) :
    (dat9 (F := Ideal) V c).flushed 6 t
      = ((cfg9.win 6).blk t).view.read (Elt Ideal)
          (bnK (V c (Pipeline.arrRef spec9 0)) (V c (Pipeline.arrRef spec9 1)) (V c (Pipeline.arrRef spec9 2))
            (V c (Pipeline.arrRef spec9 3)) (V c (Pipeline.arrRef spec9 4)) (V c (Pipeline.arrRef spec9 5))) := by
  show (cfg9.win 6).cut (grid9.coords t) ((dat9 V c).after 6 t) = _
  rw [after9_6, block9]
  funext j
  show bn (M := 10000) (N := 80) (iblk9 V c 0 t) (iblk9 V c 1 t) (iblk9 V c 2 t) (iblk9 V c 3 t) (iblk9 V c 4 t) (iblk9 V c 5 t) j
      = bn (M := 100000) (N := 80) (V c (Pipeline.arrRef spec9 0)) (V c (Pipeline.arrRef spec9 1)) (V c (Pipeline.arrRef spec9 2))
          (V c (Pipeline.arrRef spec9 3)) (V c (Pipeline.arrRef spec9 4)) (V c (Pipeline.arrRef spec9 5))
          ((win9_6.blk t).view.emb j)
  exact bn_rows _ _ _ _ _ _ _ _ _ _ _ _ j _ (rows9_0 V c t j) (rows9_1 V c t j) (column9 t j)
    (stat9_2 V c t) (stat9_3 V c t) (stat9_4 V c t) (stat9_5 V c t)

/-- An index of the output array lies in point `t`'s block iff each coordinate lies in the block's range on its axis. -/
theorem inBlock9 (t : Fin cfg9.N) (i : S100000x80.Idx) :
    i ∈ ((cfg9.win 6).blk t).view.set
      ↔ ∀ a : Fin 2, win9_6.index t a * S10000x80.size a ≤ (i a).val
          ∧ (i a).val < win9_6.index t a * S10000x80.size a + S10000x80.size a := by
  show i ∈ ((View.whole (Pipeline.arrRef spec9 6)).slice (win9_6.rect t)).set ↔ _
  rw [View.set_slice_whole, Rect.mem_set_unit]
  exact Iff.rfl

/-- Every row of the output lies in the block of the point its row number divided by 10000 names. -/
theorem covered9 (i : S100000x80.Idx) :
    ∃ t : Fin cfg9.N, (cfg9.win 6).flush t = true ∧ i ∈ ((cfg9.win 6).blk t).view.set := by
  have hN : cfg9.N = 10 := N_9
  have hi0 : (i 0).val < 100000 := (i 0).isLt
  have hi1 : (i 1).val < 80 := (i 1).isLt
  refine ⟨⟨(i 0).val / 10000, by rw [hN]; omega⟩, flush9_6 _, ?_⟩
  obtain ⟨e60, e61⟩ := index9_6 ⟨(i 0).val / 10000, by rw [hN]; omega⟩
  rw [inBlock9]
  intro a
  match a with
  | ⟨0, _⟩ =>
    show win9_6.index _ (0 : Fin 2) * 10000 ≤ (i 0).val ∧ (i 0).val < win9_6.index _ (0 : Fin 2) * 10000 + 10000
    rw [e60]
    show (i 0).val / 10000 * 10000 ≤ (i 0).val ∧ (i 0).val < (i 0).val / 10000 * 10000 + 10000
    omega
  | ⟨1, _⟩ =>
    show win9_6.index _ (1 : Fin 2) * 80 ≤ (i 1).val ∧ (i 1).val < win9_6.index _ (1 : Fin 2) * 80 + 80
    rw [e61]
    omega

/-- THE OUTPUT ARRAY after the region: the layer of the six input arrays as the region finds them. -/
theorem arr9 (c : Dev nD) :
    (dat9 (F := Ideal) V c).arrAt 6 cfg9.N
      = bnK (V c (Pipeline.arrRef spec9 0)) (V c (Pipeline.arrRef spec9 1)) (V c (Pipeline.arrRef spec9 2))
          (V c (Pipeline.arrRef spec9 3)) (V c (Pipeline.arrRef spec9 4)) (V c (Pipeline.arrRef spec9 5)) :=
  (dat9 (F := Ideal) V c).arrAt_eq_of_cover 6 _ (fun t _ => written9 V c t) (covered9)

end Cert.KernelIdeal.RegionValue

end
-- ==== Proof.KSeg_hostOps6.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps6 : List (Ref sig .tc) := [main_v184, main_v185, main_v186, main_v187, main_v188]

/-- A buffer the piece does not write keeps its contents. -/
theorem keep_hostOps6 (V : Valuation τ sig (Elt F)) (b : Ref sig .tc) (hb : ∀ y ∈ wr_hostOps6, b ≠ y) :
    after (hostOps6 (F := F)) V (Proc.devRef .tc b) = V (Proc.devRef .tc b) :=
  after_of_forall_not_mem (b := Proc.devRef .tc b) _ _ (List.forall_iff_forall_mem.mp (by
    simp only [hostOps6, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v185 (V : Valuation τ sig (Elt F)) :
    (after (hostOps6 (F := F)) V) (Proc.devRef .tc main_v185) = kf32 (V (Proc.devRef .tc main_arg6)) := by
  unfold kf32
  dsimp only [hostOps6]
  after_results_simp <;> rfl

theorem c_main_v187 (V : Valuation τ sig (Elt F)) :
    (after (hostOps6 (F := F)) V) (Proc.devRef .tc main_v187) = kf32 (V (Proc.devRef .tc main_arg8)) := by
  unfold kf32
  dsimp only [hostOps6]
  after_results_simp <;> rfl

theorem c_main_v188 (V : Valuation τ sig (Elt F)) :
    (after (hostOps6 (F := F)) V) (Proc.devRef .tc main_v188) = kf26 ((after (hostOps6 (F := F)) V) (Proc.devRef .tc main_v185)) ((after (hostOps6 (F := F)) V) (Proc.devRef .tc main_v187)) := by
  unfold kf26
  dsimp only [hostOps6]
  after_results_simp <;> rfl

end Cert.KernelIdeal.Val

end
-- ==== Proof.KSeg_hostOps7.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps7 : List (Ref sig .tc) := [main_c_34, main_v190, main_v191, main_c_35, main_v192, main_v193, main_v194, main_v195, main_v196, main_cst_36, main_v197, main_v198, main_v199, main_v200, main_v201, main_v202, main_c_37, main_v203, main_v204, main_c_38, main_v205, main_v206, main_v207, main_v208, main_v209, main_cst_39, main_v210, main_v211, main_v212, main_v213, main_v214, main_v215, main_v216, main_v217, main_v218, main_v219, main_v220, main_v221, main_v222, main_v223, main_v224, main_v225, main_v226, main_v227, main_cst_40, main_v228, main_cst_41, main_v229, main_v230, main_c_42]

/-- A buffer the piece does not write keeps its contents. -/
theorem keep_hostOps7 (V : Valuation τ sig (Elt F)) (b : Ref sig .tc) (hb : ∀ y ∈ wr_hostOps7, b ≠ y) :
    after (hostOps7 (F := F)) V (Proc.devRef .tc b) = V (Proc.devRef .tc b) :=
  after_of_forall_not_mem (b := Proc.devRef .tc b) _ _ (List.forall_iff_forall_mem.mp (by
    simp only [hostOps7, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v215 (V : Valuation τ sig (Elt F)) :
    (after (hostOps7 (F := F)) V) (Proc.devRef .tc main_v215) = kf14 (V (Proc.devRef .tc main_v1)) (V (Proc.devRef .tc main_v3)) (V (Proc.devRef .tc main_v189)) (V (Proc.devRef .tc main_v20)) (V (Proc.devRef .tc main_v15)) := by
  unfold kf14
  dsimp only [hostOps7]
  after_results_simp <;> rfl

theorem c_main_v218 (V : Valuation τ sig (Elt F)) :
    (after (hostOps7 (F := F)) V) (Proc.devRef .tc main_v218) = kf33 (V (Proc.devRef .tc main_arg7)) := by
  unfold kf33
  dsimp only [hostOps7]
  after_results_simp <;> rfl

theorem c_main_v221 (V : Valuation τ sig (Elt F)) :
    (after (hostOps7 (F := F)) V) (Proc.devRef .tc main_v221) = kf15 ((after (hostOps7 (F := F)) V) (Proc.devRef .tc main_v215)) ((after (hostOps7 (F := F)) V) (Proc.devRef .tc main_v218)) := by
  unfold kf15
  dsimp only [hostOps7]
  after_results_simp <;> rfl

theorem c_main_v224 (V : Valuation τ sig (Elt F)) :
    (after (hostOps7 (F := F)) V) (Proc.devRef .tc main_v224) = kf33 (V (Proc.devRef .tc main_arg9)) := by
  unfold kf33
  dsimp only [hostOps7]
  after_results_simp <;> rfl

theorem c_main_v227 (V : Valuation τ sig (Elt F)) :
    (after (hostOps7 (F := F)) V) (Proc.devRef .tc main_v227) = kf16 ((after (hostOps7 (F := F)) V) (Proc.devRef .tc main_v215)) ((after (hostOps7 (F := F)) V) (Proc.devRef .tc main_v224)) := by
  unfold kf16
  dsimp only [hostOps7]
  after_results_simp <;> rfl

theorem c_main_v230 (V : Valuation τ sig (Elt F)) :
    (after (hostOps7 (F := F)) V) (Proc.devRef .tc main_v230) = kf17 ((after (hostOps7 (F := F)) V) (Proc.devRef .tc main_v221)) := by
  unfold kf17
  dsimp only [hostOps7]
  after_results_simp <;> rfl

theorem c_main_c_42 (V : Valuation τ sig (Elt F)) :
    (after (hostOps7 (F := F)) V) (Proc.devRef .tc main_c_42) = kf18  := by
  unfold kf18
  dsimp only [hostOps7]
  after_results_simp <;> rfl

end Cert.KernelIdeal.Val

end
-- ==== Proof.KSeg_hostOps7_1.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps7_1 : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v231]

/-- A buffer the piece does not write keeps its contents. -/
theorem keep_hostOps7_1 (V : Valuation τ sig (Elt F)) (b : Ref sig .tc) (hb : ∀ y ∈ wr_hostOps7_1, b ≠ y) :
    after (hostOps7_1 (F := F)) V (Proc.devRef .tc b) = V (Proc.devRef .tc b) :=
  after_of_forall_not_mem (b := Proc.devRef .tc b) _ _ (List.forall_iff_forall_mem.mp (by
    simp only [hostOps7_1, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_call5_v5 (V : Valuation τ sig (Elt F)) :
    (after (hostOps7_1 (F := F)) V) (Proc.devRef .tc main_call5_v5) = kf19 (V (Proc.devRef .tc main_v221)) := by
  unfold kf19
  dsimp only [hostOps7_1]
  after_results_simp <;> rfl

theorem c_main_call5_v8 (V : Valuation τ sig (Elt F)) :
    (after (hostOps7_1 (F := F)) V) (Proc.devRef .tc main_call5_v8) = kf20 (V (Proc.devRef .tc main_c_42)) := by
  unfold kf20
  dsimp only [hostOps7_1]
  after_results_simp <;> rfl

theorem c_main_call5_v11 (V : Valuation τ sig (Elt F)) :
    (after (hostOps7_1 (F := F)) V) (Proc.devRef .tc main_call5_v11) = kf21 ((after (hostOps7_1 (F := F)) V) (Proc.devRef .tc main_call5_v5)) ((after (hostOps7_1 (F := F)) V) (Proc.devRef .tc main_call5_v8)) := by
  unfold kf21
  dsimp only [hostOps7_1]
  after_results_simp <;> rfl

theorem c_main_v231 (V : Valuation τ sig (Elt F)) :
    (after (hostOps7_1 (F := F)) V) (Proc.devRef .tc main_v231) = kf22 ((after (hostOps7_1 (F := F)) V) (Proc.devRef .tc main_call5_v8)) ((after (hostOps7_1 (F := F)) V) (Proc.devRef .tc main_call5_v11)) := by
  unfold kf22
  dsimp only [hostOps7_1]
  after_results_simp <;> rfl

end Cert.KernelIdeal.Val

end
-- ==== Proof.KSeg_hostOps7_2.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps7_2 : List (Ref sig .tc) := [main_v232, main_v233, main_v234, main_v235, main_v236, main_v237, main_v238, main_v239]

/-- A buffer the piece does not write keeps its contents. -/
theorem keep_hostOps7_2 (V : Valuation τ sig (Elt F)) (b : Ref sig .tc) (hb : ∀ y ∈ wr_hostOps7_2, b ≠ y) :
    after (hostOps7_2 (F := F)) V (Proc.devRef .tc b) = V (Proc.devRef .tc b) :=
  after_of_forall_not_mem (b := Proc.devRef .tc b) _ _ (List.forall_iff_forall_mem.mp (by
    simp only [hostOps7_2, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v233 (V : Valuation τ sig (Elt F)) :
    (after (hostOps7_2 (F := F)) V) (Proc.devRef .tc main_v233) = kf34 (V (Proc.devRef .tc main_arg10)) := by
  unfold kf34
  dsimp only [hostOps7_2]
  after_results_simp <;> rfl

theorem c_main_v235 (V : Valuation τ sig (Elt F)) :
    (after (hostOps7_2 (F := F)) V) (Proc.devRef .tc main_v235) = kf34 (V (Proc.devRef .tc main_arg11)) := by
  unfold kf34
  dsimp only [hostOps7_2]
  after_results_simp <;> rfl

theorem c_main_v236 (V : Valuation τ sig (Elt F)) :
    (after (hostOps7_2 (F := F)) V) (Proc.devRef .tc main_v236) = kf24 (V (Proc.devRef .tc main_v230)) := by
  unfold kf24
  dsimp only [hostOps7_2]
  after_results_simp <;> rfl

theorem c_main_v237 (V : Valuation τ sig (Elt F)) :
    (after (hostOps7_2 (F := F)) V) (Proc.devRef .tc main_v237) = kf24 (V (Proc.devRef .tc main_v231)) := by
  unfold kf24
  dsimp only [hostOps7_2]
  after_results_simp <;> rfl

theorem c_main_v238 (V : Valuation τ sig (Elt F)) :
    (after (hostOps7_2 (F := F)) V) (Proc.devRef .tc main_v238) = kf24 ((after (hostOps7_2 (F := F)) V) (Proc.devRef .tc main_v233)) := by
  unfold kf24
  dsimp only [hostOps7_2]
  after_results_simp <;> rfl

theorem c_main_v239 (V : Valuation τ sig (Elt F)) :
    (after (hostOps7_2 (F := F)) V) (Proc.devRef .tc main_v239) = kf24 ((after (hostOps7_2 (F := F)) V) (Proc.devRef .tc main_v235)) := by
  unfold kf24
  dsimp only [hostOps7_2]
  after_results_simp <;> rfl

end Cert.KernelIdeal.Val

end
-- ==== Proof.KReg6.lean ====
/-
  Region 6: the value of its output array.

  The grid has ten points; point `t` stages rows `10000 t … 10000 t + 9999` of the left operand, all of the weights, and
  writes back the same rows of the output. The body rounds both operands to a narrower format (no change on the extended
  reals) and multiplies them into a zero accumulator, so what point `t` writes back is the product of its block of rows
  with the weights. A row of a matrix product depends on the same row of the left operand only, so that block is rows
  `10000 t …` of the product of the whole left operand with the weights; the ten blocks cover every row (row `r` lies in
  the block of point `r / 10000`), and the array ends holding that product.
-/
import proofs.«127768_j9405978378358_1_alg».proof.Proof.FrameKernelIdealP
import proofs.«127768_j9405978378358_1_alg».proof.Proof.LibDense
import proofs.«127768_j9405978378358_1_alg».proof.Proof.LibBiasRow
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin6 : (![0, 0] : Fin 2 → Nat) = fun _ => 0 := funext fun a => by fin_cases a <;> rfl

/-- The body's value: the block of rows times the weights. -/
theorem payload6 (x0 : Vec Ideal S10000x80 .f32) (x1 : Vec Ideal S80x160 .f32) :
    k6_pay1 (F := Ideal) x0 x1 = mm (M := 10000) (K := 80) (N := 160) x0 x1 := by
  unfold k6_pay1
  simp only [shapeCast_self]
  exact matmul_zero_eq_mm _ rfl rfl rfl rfl rfl rfl none _ _

/-- What the body leaves in the output's staging buffer. -/
theorem block6 (x0 : Vec Ideal S10000x80 .f32) (x1 : Vec Ideal S80x160 .f32) :
    out6_2 (F := Ideal) x0 x1 = mm (M := 10000) (K := 80) (N := 160) x0 x1 := by
  unfold out6_2
  rw [View.canon_unit_zero origin6]
  simp only [View.ld_unit_zero (S := S10000x80) origin6, View.ld_unit_zero (S := S80x160) origin6]
  exact payload6 x0 x1

/-- The block indices over the grid: the row-tiled windows sit at block `(t, 0)`, the weights at block `(0, 0)`. -/
theorem index6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the product of the whole arrays. -/
theorem written6 (c : Dev nD) (t : Fin cfg6.N) :
    (dat6 (F := Ideal) V c).flushed 2 t
      = ((cfg6.win 2).blk t).view.read (Elt Ideal)
          (mm (M := 100000) (K := 80) (N := 160) (V c (Pipeline.arrRef spec6 0)) (V c (Pipeline.arrRef spec6 1))) := by
  show (cfg6.win 2).cut (grid6.coords t) ((dat6 V c).after 2 t) = _
  rw [after6_2, block6]
  obtain ⟨e00, e01, e10, e11, e20, e21⟩ := index6 t
  funext j
  show mm (M := 10000) (K := 80) (N := 160) (iblk6 V c 0 t) (iblk6 V c 1 t) j
      = mm (M := 100000) (K := 80) (N := 160) (V c (Pipeline.arrRef spec6 0)) (V c (Pipeline.arrRef spec6 1))
          (((cfg6.win 2).blk t).view.emb j)
  refine Cert.BiasRow.mm_at _ _ _ _ j _ (fun k => ?_) (fun k => ?_)
  · show V c (Pipeline.arrRef spec6 0) (((cfg6.win 0).blk t).view.emb (ix2 (c0 j) k))
        = V c (Pipeline.arrRef spec6 0) (ix2 (c0 (((cfg6.win 2).blk t).view.emb j)) k)
    refine congrArg _ (funext fun a => Fin.ext ?_)
    match a with
    | ⟨0, _⟩ =>
      show win6_0.index t (0 : Fin 2) * 10000 + 1 * (j 0).val = win6_2.index t (0 : Fin 2) * 10000 + 1 * (j 0).val
      omega
    | ⟨1, _⟩ =>
      show win6_0.index t (1 : Fin 2) * 80 + 1 * k.val = k.val
      omega
  · show V c (Pipeline.arrRef spec6 1) (((cfg6.win 1).blk t).view.emb (ix2 k (c1 j)))
        = V c (Pipeline.arrRef spec6 1) (ix2 k (c1 (((cfg6.win 2).blk t).view.emb j)))
    refine congrArg _ (funext fun a => Fin.ext ?_)
    match a with
    | ⟨0, _⟩ =>
      show win6_1.index t (0 : Fin 2) * 80 + 1 * k.val = k.val
      omega
    | ⟨1, _⟩ =>
      show win6_1.index t (1 : Fin 2) * 160 + 1 * (j 1).val = win6_2.index t (1 : Fin 2) * 160 + 1 * (j 1).val
      omega

/-- An index of the output array lies in point `t`'s block iff each coordinate lies in the block's range on its axis. -/
theorem inBlock6 (t : Fin cfg6.N) (i : S100000x160.Idx) :
    i ∈ ((cfg6.win 2).blk t).view.set
      ↔ ∀ a : Fin 2, win6_2.index t a * S10000x160.size a ≤ (i a).val
          ∧ (i a).val < win6_2.index t a * S10000x160.size a + S10000x160.size a := by
  show i ∈ ((View.whole (Pipeline.arrRef spec6 2)).slice (win6_2.rect t)).set ↔ _
  rw [View.set_slice_whole, Rect.mem_set_unit]
  exact Iff.rfl

/-- Every row of the output lies in the block of the point its row number divided by 10000 names. -/
theorem covered6 (i : S100000x160.Idx) :
    ∃ t : Fin cfg6.N, (cfg6.win 2).flush t = true ∧ i ∈ ((cfg6.win 2).blk t).view.set := by
  have hN : cfg6.N = 10 := N_6
  have hi0 : (i 0).val < 100000 := (i 0).isLt
  have hi1 : (i 1).val < 160 := (i 1).isLt
  refine ⟨⟨(i 0).val / 10000, by rw [hN]; omega⟩, flush6_2 _, ?_⟩
  obtain ⟨-, -, -, -, e20, e21⟩ := index6 ⟨(i 0).val / 10000, by rw [hN]; omega⟩
  rw [inBlock6]
  intro a
  match a with
  | ⟨0, _⟩ =>
    show win6_2.index _ (0 : Fin 2) * 10000 ≤ (i 0).val ∧ (i 0).val < win6_2.index _ (0 : Fin 2) * 10000 + 10000
    rw [e20]
    show (i 0).val / 10000 * 10000 ≤ (i 0).val ∧ (i 0).val < (i 0).val / 10000 * 10000 + 10000
    omega
  | ⟨1, _⟩ =>
    show win6_2.index _ (1 : Fin 2) * 160 ≤ (i 1).val ∧ (i 1).val < win6_2.index _ (1 : Fin 2) * 160 + 160
    rw [e21]
    omega

/-- THE OUTPUT ARRAY after the region: the product of the two input arrays as the region finds them. -/
theorem arr6 (c : Dev nD) :
    (dat6 (F := Ideal) V c).arrAt 2 cfg6.N
      = mm (M := 100000) (K := 80) (N := 160) (V c (Pipeline.arrRef spec6 0)) (V c (Pipeline.arrRef spec6 1)) :=
  (dat6 (F := Ideal) V c).arrAt_eq_of_cover 2 _ (fun t _ => written6 V c t) (covered6)

end Cert.KernelIdeal.RegionValue

end
-- ==== Proof.KReg7.lean ====
/-
  Region 7: the value of its output array.

  The grid has ten points; point `t` stages rows `10000 t … 10000 t + 9999` of the two row arrays, all of each of the four
  one-row statistics, and writes back the same rows of the output. The body is the normalising layer `bn` of its blocks
  (each statistic broadcast to every row, then pointwise arithmetic). An entry of `bn` depends on the entry of each row
  array at the same place and on the statistics of its column, so what point `t` writes back is rows `10000 t …` of `bn`
  of the whole arrays; the ten blocks cover every row (row `r` lies in the block of point `r / 10000`), and the array
  ends holding `bn` of the arrays the region finds.
-/
import proofs.«127768_j9405978378358_1_alg».proof.Proof.FrameKernelIdealP
import proofs.«127768_j9405978378358_1_alg».proof.Proof.LibDense
import proofs.«127768_j9405978378358_1_alg».proof.Proof.KBnSpec
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin7 : (![0, 0] : Fin 2 → Nat) = fun _ => 0 := funext fun a => by fin_cases a <;> rfl

/-- The body's value: the normalising layer of its blocks. -/
theorem payload7 (x0 x1 : Vec Ideal S10000x80 .f32) (x2 x3 x4 x5 : Vec Ideal S1x80 .f32) :
    k7_pay1 (F := Ideal) x0 x1 x2 x3 x4 x5 = bn (M := 10000) (N := 80) x0 x1 x2 x3 x4 x5 := by
  unfold k7_pay1
  simp only [shapeCast_self]
  exact vecBn x0 x1 x2 x3 x4 x5 _

/-- What the body leaves in the output's staging buffer. -/
theorem block7 (x0 x1 : Vec Ideal S10000x80 .f32) (x2 x3 x4 x5 : Vec Ideal S1x80 .f32) :
    out7_6 (F := Ideal) x0 x1 x2 x3 x4 x5 = bn (M := 10000) (N := 80) x0 x1 x2 x3 x4 x5 := by
  unfold out7_6
  rw [View.canon_unit_zero origin7]
  simp only [View.ld_unit_zero (S := S10000x80) origin7, View.ld_unit_zero (S := S1x80) origin7]
  exact payload7 x0 x1 x2 x3 x4 x5

/-! The block indices over the grid, window by window: the row-tiled windows (the two row arrays and the output) sit at
    block `(t, 0)` at point `t`, each one-row statistic at block `(0, 0)`. -/

theorem index7_6 : ∀ t : Fin cfg7.N, win7_6.index t (0 : Fin 2) = t.val ∧ win7_6.index t (1 : Fin 2) = 0 :=
  (by decide +kernel : ∀ t : Fin grid7.N, _)

theorem index7_0 : ∀ t : Fin cfg7.N, win7_0.index t (0 : Fin 2) = t.val ∧ win7_0.index t (1 : Fin 2) = 0 :=
  (by decide +kernel : ∀ t : Fin grid7.N, _)

/-- Window 0's block at point `t` lies over the same rows and columns of its array as the output's block does of its own. -/
theorem place7_0 (t : Fin cfg7.N) (j : S10000x80.Idx) : (win7_0.blk t).view.emb j = (win7_6.blk t).view.emb j := by
  have h := index7_0 t
  have h6 := index7_6 t
  funext a
  apply Fin.ext
  match a with
  | ⟨0, _⟩ =>
    show win7_0.index t (0 : Fin 2) * 10000 + 1 * (j 0).val = win7_6.index t (0 : Fin 2) * 10000 + 1 * (j 0).val
    omega
  | ⟨1, _⟩ =>
    show win7_0.index t (1 : Fin 2) * 80 + 1 * (j 1).val = win7_6.index t (1 : Fin 2) * 80 + 1 * (j 1).val
    omega

set_option maxHeartbeats 1000000 in
/-- So an entry of window 0's block is the array's entry under the output block's index. -/
theorem rows7_0 (c : Dev nD) (t : Fin cfg7.N) (j : S10000x80.Idx) :
    iblk7 V c 0 t j = V c (Pipeline.arrRef spec7 0) ((win7_6.blk t).view.emb j) :=
  congrArg (V c (Pipeline.arrRef spec7 0)) (place7_0 t j)

theorem index7_1 : ∀ t : Fin cfg7.N, win7_1.index t (0 : Fin 2) = t.val ∧ win7_1.index t (1 : Fin 2) = 0 :=
  (by decide +kernel : ∀ t : Fin grid7.N, _)

/-- Window 1's block at point `t` lies over the same rows and columns of its array as the output's block does of its own. -/
theorem place7_1 (t : Fin cfg7.N) (j : S10000x80.Idx) : (win7_1.blk t).view.emb j = (win7_6.blk t).view.emb j := by
  have h := index7_1 t
  have h6 := index7_6 t
  funext a
  apply Fin.ext
  match a with
  | ⟨0, _⟩ =>
    show win7_1.index t (0 : Fin 2) * 10000 + 1 * (j 0).val = win7_6.index t (0 : Fin 2) * 10000 + 1 * (j 0).val
    omega
  | ⟨1, _⟩ =>
    show win7_1.index t (1 : Fin 2) * 80 + 1 * (j 1).val = win7_6.index t (1 : Fin 2) * 80 + 1 * (j 1).val
    omega

set_option maxHeartbeats 1000000 in
/-- So an entry of window 1's block is the array's entry under the output block's index. -/
theorem rows7_1 (c : Dev nD) (t : Fin cfg7.N) (j : S10000x80.Idx) :
    iblk7 V c 1 t j = V c (Pipeline.arrRef spec7 1) ((win7_6.blk t).view.emb j) :=
  congrArg (V c (Pipeline.arrRef spec7 1)) (place7_1 t j)

theorem index7_2 : ∀ t : Fin cfg7.N, win7_2.index t (0 : Fin 2) = 0 ∧ win7_2.index t (1 : Fin 2) = 0 :=
  (by decide +kernel : ∀ t : Fin grid7.N, _)

/-- The one block of window 2 sits at the array's origin: an index inside the block is the same index of the array. -/
theorem place7_2 (t : Fin cfg7.N) (y : S1x80.Idx) : (win7_2.blk t).view.emb y = y := by
  have h := index7_2 t
  funext a
  apply Fin.ext
  match a with
  | ⟨0, _⟩ => show win7_2.index t (0 : Fin 2) * 1 + 1 * (y 0).val = (y 0).val; omega
  | ⟨1, _⟩ => show win7_2.index t (1 : Fin 2) * 80 + 1 * (y 1).val = (y 1).val; omega

set_option maxHeartbeats 1000000 in
/-- So window 2's block at any point is the whole one-row array. -/
theorem stat7_2 (c : Dev nD) (t : Fin cfg7.N) : iblk7 V c 2 t = V c (Pipeline.arrRef spec7 2) :=
  funext fun y => congrArg (V c (Pipeline.arrRef spec7 2)) (place7_2 t y)

theorem index7_3 : ∀ t : Fin cfg7.N, win7_3.index t (0 : Fin 2) = 0 ∧ win7_3.index t (1 : Fin 2) = 0 :=
  (by decide +kernel : ∀ t : Fin grid7.N, _)

/-- The one block of window 3 sits at the array's origin: an index inside the block is the same index of the array. -/
theorem place7_3 (t : Fin cfg7.N) (y : S1x80.Idx) : (win7_3.blk t).view.emb y = y := by
  have h := index7_3 t
  funext a
  apply Fin.ext
  match a with
  | ⟨0, _⟩ => show win7_3.index t (0 : Fin 2) * 1 + 1 * (y 0).val = (y 0).val; omega
  | ⟨1, _⟩ => show win7_3.index t (1 : Fin 2) * 80 + 1 * (y 1).val = (y 1).val; omega

set_option maxHeartbeats 1000000 in
/-- So window 3's block at any point is the whole one-row array. -/
theorem stat7_3 (c : Dev nD) (t : Fin cfg7.N) : iblk7 V c 3 t = V c (Pipeline.arrRef spec7 3) :=
  funext fun y => congrArg (V c (Pipeline.arrRef spec7 3)) (place7_3 t y)

theorem index7_4 : ∀ t : Fin cfg7.N, win7_4.index t (0 : Fin 2) = 0 ∧ win7_4.index t (1 : Fin 2) = 0 :=
  (by decide +kernel : ∀ t : Fin grid7.N, _)

/-- The one block of window 4 sits at the array's origin: an index inside the block is the same index of the array. -/
theorem place7_4 (t : Fin cfg7.N) (y : S1x80.Idx) : (win7_4.blk t).view.emb y = y := by
  have h := index7_4 t
  funext a
  apply Fin.ext
  match a with
  | ⟨0, _⟩ => show win7_4.index t (0 : Fin 2) * 1 + 1 * (y 0).val = (y 0).val; omega
  | ⟨1, _⟩ => show win7_4.index t (1 : Fin 2) * 80 + 1 * (y 1).val = (y 1).val; omega

set_option maxHeartbeats 1000000 in
/-- So window 4's block at any point is the whole one-row array. -/
theorem stat7_4 (c : Dev nD) (t : Fin cfg7.N) : iblk7 V c 4 t = V c (Pipeline.arrRef spec7 4) :=
  funext fun y => congrArg (V c (Pipeline.arrRef spec7 4)) (place7_4 t y)

theorem index7_5 : ∀ t : Fin cfg7.N, win7_5.index t (0 : Fin 2) = 0 ∧ win7_5.index t (1 : Fin 2) = 0 :=
  (by decide +kernel : ∀ t : Fin grid7.N, _)

/-- The one block of window 5 sits at the array's origin: an index inside the block is the same index of the array. -/
theorem place7_5 (t : Fin cfg7.N) (y : S1x80.Idx) : (win7_5.blk t).view.emb y = y := by
  have h := index7_5 t
  funext a
  apply Fin.ext
  match a with
  | ⟨0, _⟩ => show win7_5.index t (0 : Fin 2) * 1 + 1 * (y 0).val = (y 0).val; omega
  | ⟨1, _⟩ => show win7_5.index t (1 : Fin 2) * 80 + 1 * (y 1).val = (y 1).val; omega

set_option maxHeartbeats 1000000 in
/-- So window 5's block at any point is the whole one-row array. -/
theorem stat7_5 (c : Dev nD) (t : Fin cfg7.N) : iblk7 V c 5 t = V c (Pipeline.arrRef spec7 5) :=
  funext fun y => congrArg (V c (Pipeline.arrRef spec7 5)) (place7_5 t y)

/-- The output block's columns are the array's columns. -/
theorem column7 (t : Fin cfg7.N) (j : S10000x80.Idx) : ((win7_6.blk t).view.emb j 1).val = (j 1).val := by
  have h6 := index7_6 t
  show win7_6.index t (1 : Fin 2) * 80 + 1 * (j 1).val = (j 1).val
  omega

set_option maxHeartbeats 1000000 in
/-- What point `t` writes back is block `t` of the layer of the whole arrays. -/
theorem written7 (c : Dev nD) (t : Fin cfg7.N) :
    (dat7 (F := Ideal) V c).flushed 6 t
      = ((cfg7.win 6).blk t).view.read (Elt Ideal)
          (bnK (V c (Pipeline.arrRef spec7 0)) (V c (Pipeline.arrRef spec7 1)) (V c (Pipeline.arrRef spec7 2))
            (V c (Pipeline.arrRef spec7 3)) (V c (Pipeline.arrRef spec7 4)) (V c (Pipeline.arrRef spec7 5))) := by
  show (cfg7.win 6).cut (grid7.coords t) ((dat7 V c).after 6 t) = _
  rw [after7_6, block7]
  funext j
  show bn (M := 10000) (N := 80) (iblk7 V c 0 t) (iblk7 V c 1 t) (iblk7 V c 2 t) (iblk7 V c 3 t) (iblk7 V c 4 t) (iblk7 V c 5 t) j
      = bn (M := 100000) (N := 80) (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))
          ((win7_6.blk t).view.emb j)
  exact bn_rows _ _ _ _ _ _ _ _ _ _ _ _ j _ (rows7_0 V c t j) (rows7_1 V c t j) (column7 t j)
    (stat7_2 V c t) (stat7_3 V c t) (stat7_4 V c t) (stat7_5 V c t)

/-- An index of the output array lies in point `t`'s block iff each coordinate lies in the block's range on its axis. -/
theorem inBlock7 (t : Fin cfg7.N) (i : S100000x80.Idx) :
    i ∈ ((cfg7.win 6).blk t).view.set
      ↔ ∀ a : Fin 2, win7_6.index t a * S10000x80.size a ≤ (i a).val
          ∧ (i a).val < win7_6.index t a * S10000x80.size a + S10000x80.size a := by
  show i ∈ ((View.whole (Pipeline.arrRef spec7 6)).slice (win7_6.rect t)).set ↔ _
  rw [View.set_slice_whole, Rect.mem_set_unit]
  exact Iff.rfl

/-- Every row of the output lies in the block of the point its row number divided by 10000 names. -/
theorem covered7 (i : S100000x80.Idx) :
    ∃ t : Fin cfg7.N, (cfg7.win 6).flush t = true ∧ i ∈ ((cfg7.win 6).blk t).view.set := by
  have hN : cfg7.N = 10 := N_7
  have hi0 : (i 0).val < 100000 := (i 0).isLt
  have hi1 : (i 1).val < 80 := (i 1).isLt
  refine ⟨⟨(i 0).val / 10000, by rw [hN]; omega⟩, flush7_6 _, ?_⟩
  obtain ⟨e60, e61⟩ := index7_6 ⟨(i 0).val / 10000, by rw [hN]; omega⟩
  rw [inBlock7]
  intro a
  match a with
  | ⟨0, _⟩ =>
    show win7_6.index _ (0 : Fin 2) * 10000 ≤ (i 0).val ∧ (i 0).val < win7_6.index _ (0 : Fin 2) * 10000 + 10000
    rw [e60]
    show (i 0).val / 10000 * 10000 ≤ (i 0).val ∧ (i 0).val < (i 0).val / 10000 * 10000 + 10000
    omega
  | ⟨1, _⟩ =>
    show win7_6.index _ (1 : Fin 2) * 80 ≤ (i 1).val ∧ (i 1).val < win7_6.index _ (1 : Fin 2) * 80 + 80
    rw [e61]
    omega

/-- THE OUTPUT ARRAY after the region: the layer of the six input arrays as the region finds them. -/
theorem arr7 (c : Dev nD) :
    (dat7 (F := Ideal) V c).arrAt 6 cfg7.N
      = bnK (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5)) :=
  (dat7 (F := Ideal) V c).arrAt_eq_of_cover 6 _ (fun t _ => written7 V c t) (covered7)

end Cert.KernelIdeal.RegionValue

end
-- ==== Proof.KSeg_hostOps4.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps4 : List (Ref sig .tc) := [main_v127, main_v128, main_v129, main_v130, main_v131]

/-- A buffer the piece does not write keeps its contents. -/
theorem keep_hostOps4 (V : Valuation τ sig (Elt F)) (b : Ref sig .tc) (hb : ∀ y ∈ wr_hostOps4, b ≠ y) :
    after (hostOps4 (F := F)) V (Proc.devRef .tc b) = V (Proc.devRef .tc b) :=
  after_of_forall_not_mem (b := Proc.devRef .tc b) _ _ (List.forall_iff_forall_mem.mp (by
    simp only [hostOps4, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v128 (V : Valuation τ sig (Elt F)) :
    (after (hostOps4 (F := F)) V) (Proc.devRef .tc main_v128) = kf29 (V (Proc.devRef .tc main_arg6)) := by
  unfold kf29
  dsimp only [hostOps4]
  after_results_simp <;> rfl

theorem c_main_v130 (V : Valuation τ sig (Elt F)) :
    (after (hostOps4 (F := F)) V) (Proc.devRef .tc main_v130) = kf29 (V (Proc.devRef .tc main_arg8)) := by
  unfold kf29
  dsimp only [hostOps4]
  after_results_simp <;> rfl

theorem c_main_v131 (V : Valuation τ sig (Elt F)) :
    (after (hostOps4 (F := F)) V) (Proc.devRef .tc main_v131) = kf26 ((after (hostOps4 (F := F)) V) (Proc.devRef .tc main_v128)) ((after (hostOps4 (F := F)) V) (Proc.devRef .tc main_v130)) := by
  unfold kf26
  dsimp only [hostOps4]
  after_results_simp <;> rfl

end Cert.KernelIdeal.Val

end
-- ==== Proof.KSeg_hostOps5.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps5 : List (Ref sig .tc) := [main_c_25, main_v133, main_v134, main_c_26, main_v135, main_v136, main_v137, main_v138, main_v139, main_cst_27, main_v140, main_v141, main_v142, main_v143, main_v144, main_v145, main_c_28, main_v146, main_v147, main_c_29, main_v148, main_v149, main_v150, main_v151, main_v152, main_cst_30, main_v153, main_v154, main_v155, main_v156, main_v157, main_v158, main_v159, main_v160, main_v161, main_v162, main_v163, main_v164, main_v165, main_v166, main_v167, main_v168, main_v169, main_v170, main_cst_31, main_v171, main_cst_32, main_v172, main_v173, main_c_33]

/-- A buffer the piece does not write keeps its contents. -/
theorem keep_hostOps5 (V : Valuation τ sig (Elt F)) (b : Ref sig .tc) (hb : ∀ y ∈ wr_hostOps5, b ≠ y) :
    after (hostOps5 (F := F)) V (Proc.devRef .tc b) = V (Proc.devRef .tc b) :=
  after_of_forall_not_mem (b := Proc.devRef .tc b) _ _ (List.forall_iff_forall_mem.mp (by
    simp only [hostOps5, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v158 (V : Valuation τ sig (Elt F)) :
    (after (hostOps5 (F := F)) V) (Proc.devRef .tc main_v158) = kf14 (V (Proc.devRef .tc main_v1)) (V (Proc.devRef .tc main_v3)) (V (Proc.devRef .tc main_v132)) (V (Proc.devRef .tc main_v20)) (V (Proc.devRef .tc main_v15)) := by
  unfold kf14
  dsimp only [hostOps5]
  after_results_simp <;> rfl

theorem c_main_v161 (V : Valuation τ sig (Elt F)) :
    (after (hostOps5 (F := F)) V) (Proc.devRef .tc main_v161) = kf30 (V (Proc.devRef .tc main_arg7)) := by
  unfold kf30
  dsimp only [hostOps5]
  after_results_simp <;> rfl

theorem c_main_v164 (V : Valuation τ sig (Elt F)) :
    (after (hostOps5 (F := F)) V) (Proc.devRef .tc main_v164) = kf15 ((after (hostOps5 (F := F)) V) (Proc.devRef .tc main_v158)) ((after (hostOps5 (F := F)) V) (Proc.devRef .tc main_v161)) := by
  unfold kf15
  dsimp only [hostOps5]
  after_results_simp <;> rfl

theorem c_main_v167 (V : Valuation τ sig (Elt F)) :
    (after (hostOps5 (F := F)) V) (Proc.devRef .tc main_v167) = kf30 (V (Proc.devRef .tc main_arg9)) := by
  unfold kf30
  dsimp only [hostOps5]
  after_results_simp <;> rfl

theorem c_main_v170 (V : Valuation τ sig (Elt F)) :
    (after (hostOps5 (F := F)) V) (Proc.devRef .tc main_v170) = kf16 ((after (hostOps5 (F := F)) V) (Proc.devRef .tc main_v158)) ((after (hostOps5 (F := F)) V) (Proc.devRef .tc main_v167)) := by
  unfold kf16
  dsimp only [hostOps5]
  after_results_simp <;> rfl

theorem c_main_v173 (V : Valuation τ sig (Elt F)) :
    (after (hostOps5 (F := F)) V) (Proc.devRef .tc main_v173) = kf17 ((after (hostOps5 (F := F)) V) (Proc.devRef .tc main_v164)) := by
  unfold kf17
  dsimp only [hostOps5]
  after_results_simp <;> rfl

theorem c_main_c_33 (V : Valuation τ sig (Elt F)) :
    (after (hostOps5 (F := F)) V) (Proc.devRef .tc main_c_33) = kf18  := by
  unfold kf18
  dsimp only [hostOps5]
  after_results_simp <;> rfl

end Cert.KernelIdeal.Val

end
-- ==== Proof.KSeg_hostOps5_1.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps5_1 : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v174]

/-- A buffer the piece does not write keeps its contents. -/
theorem keep_hostOps5_1 (V : Valuation τ sig (Elt F)) (b : Ref sig .tc) (hb : ∀ y ∈ wr_hostOps5_1, b ≠ y) :
    after (hostOps5_1 (F := F)) V (Proc.devRef .tc b) = V (Proc.devRef .tc b) :=
  after_of_forall_not_mem (b := Proc.devRef .tc b) _ _ (List.forall_iff_forall_mem.mp (by
    simp only [hostOps5_1, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_call4_v5 (V : Valuation τ sig (Elt F)) :
    (after (hostOps5_1 (F := F)) V) (Proc.devRef .tc main_call4_v5) = kf19 (V (Proc.devRef .tc main_v164)) := by
  unfold kf19
  dsimp only [hostOps5_1]
  after_results_simp <;> rfl

theorem c_main_call4_v8 (V : Valuation τ sig (Elt F)) :
    (after (hostOps5_1 (F := F)) V) (Proc.devRef .tc main_call4_v8) = kf20 (V (Proc.devRef .tc main_c_33)) := by
  unfold kf20
  dsimp only [hostOps5_1]
  after_results_simp <;> rfl

theorem c_main_call4_v11 (V : Valuation τ sig (Elt F)) :
    (after (hostOps5_1 (F := F)) V) (Proc.devRef .tc main_call4_v11) = kf21 ((after (hostOps5_1 (F := F)) V) (Proc.devRef .tc main_call4_v5)) ((after (hostOps5_1 (F := F)) V) (Proc.devRef .tc main_call4_v8)) := by
  unfold kf21
  dsimp only [hostOps5_1]
  after_results_simp <;> rfl

theorem c_main_v174 (V : Valuation τ sig (Elt F)) :
    (after (hostOps5_1 (F := F)) V) (Proc.devRef .tc main_v174) = kf22 ((after (hostOps5_1 (F := F)) V) (Proc.devRef .tc main_call4_v8)) ((after (hostOps5_1 (F := F)) V) (Proc.devRef .tc main_call4_v11)) := by
  unfold kf22
  dsimp only [hostOps5_1]
  after_results_simp <;> rfl

end Cert.KernelIdeal.Val

end
-- ==== Proof.KSeg_hostOps5_2.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps5_2 : List (Ref sig .tc) := [main_v175, main_v176, main_v177, main_v178, main_v179, main_v180, main_v181, main_v182]

/-- A buffer the piece does not write keeps its contents. -/
theorem keep_hostOps5_2 (V : Valuation τ sig (Elt F)) (b : Ref sig .tc) (hb : ∀ y ∈ wr_hostOps5_2, b ≠ y) :
    after (hostOps5_2 (F := F)) V (Proc.devRef .tc b) = V (Proc.devRef .tc b) :=
  after_of_forall_not_mem (b := Proc.devRef .tc b) _ _ (List.forall_iff_forall_mem.mp (by
    simp only [hostOps5_2, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v176 (V : Valuation τ sig (Elt F)) :
    (after (hostOps5_2 (F := F)) V) (Proc.devRef .tc main_v176) = kf31 (V (Proc.devRef .tc main_arg10)) := by
  unfold kf31
  dsimp only [hostOps5_2]
  after_results_simp <;> rfl

theorem c_main_v178 (V : Valuation τ sig (Elt F)) :
    (after (hostOps5_2 (F := F)) V) (Proc.devRef .tc main_v178) = kf31 (V (Proc.devRef .tc main_arg11)) := by
  unfold kf31
  dsimp only [hostOps5_2]
  after_results_simp <;> rfl

theorem c_main_v179 (V : Valuation τ sig (Elt F)) :
    (after (hostOps5_2 (F := F)) V) (Proc.devRef .tc main_v179) = kf24 (V (Proc.devRef .tc main_v173)) := by
  unfold kf24
  dsimp only [hostOps5_2]
  after_results_simp <;> rfl

theorem c_main_v180 (V : Valuation τ sig (Elt F)) :
    (after (hostOps5_2 (F := F)) V) (Proc.devRef .tc main_v180) = kf24 (V (Proc.devRef .tc main_v174)) := by
  unfold kf24
  dsimp only [hostOps5_2]
  after_results_simp <;> rfl

theorem c_main_v181 (V : Valuation τ sig (Elt F)) :
    (after (hostOps5_2 (F := F)) V) (Proc.devRef .tc main_v181) = kf24 ((after (hostOps5_2 (F := F)) V) (Proc.devRef .tc main_v176)) := by
  unfold kf24
  dsimp only [hostOps5_2]
  after_results_simp <;> rfl

theorem c_main_v182 (V : Valuation τ sig (Elt F)) :
    (after (hostOps5_2 (F := F)) V) (Proc.devRef .tc main_v182) = kf24 ((after (hostOps5_2 (F := F)) V) (Proc.devRef .tc main_v178)) := by
  unfold kf24
  dsimp only [hostOps5_2]
  after_results_simp <;> rfl

end Cert.KernelIdeal.Val

end
-- ==== Proof.KReg4.lean ====
/-
  Region 4: the value of its output array.

  The grid has ten points; point `t` stages rows `10000 t … 10000 t + 9999` of the left operand, all of the weights, and
  writes back the same rows of the output. The body rounds both operands to a narrower format (no change on the extended
  reals) and multiplies them into a zero accumulator, so what point `t` writes back is the product of its block of rows
  with the weights. A row of a matrix product depends on the same row of the left operand only, so that block is rows
  `10000 t …` of the product of the whole left operand with the weights; the ten blocks cover every row (row `r` lies in
  the block of point `r / 10000`), and the array ends holding that product.
-/
import proofs.«127768_j9405978378358_1_alg».proof.Proof.FrameKernelIdealP
import proofs.«127768_j9405978378358_1_alg».proof.Proof.LibDense
import proofs.«127768_j9405978378358_1_alg».proof.Proof.LibBiasRow
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin4 : (![0, 0] : Fin 2 → Nat) = fun _ => 0 := funext fun a => by fin_cases a <;> rfl

/-- The body's value: the block of rows times the weights. -/
theorem payload4 (x0 : Vec Ideal S10000x80 .f32) (x1 : Vec Ideal S80x160 .f32) :
    k4_pay1 (F := Ideal) x0 x1 = mm (M := 10000) (K := 80) (N := 160) x0 x1 := by
  unfold k4_pay1
  simp only [shapeCast_self]
  exact matmul_zero_eq_mm _ rfl rfl rfl rfl rfl rfl none _ _

/-- What the body leaves in the output's staging buffer. -/
theorem block4 (x0 : Vec Ideal S10000x80 .f32) (x1 : Vec Ideal S80x160 .f32) :
    out4_2 (F := Ideal) x0 x1 = mm (M := 10000) (K := 80) (N := 160) x0 x1 := by
  unfold out4_2
  rw [View.canon_unit_zero origin4]
  simp only [View.ld_unit_zero (S := S10000x80) origin4, View.ld_unit_zero (S := S80x160) origin4]
  exact payload4 x0 x1

/-- The block indices over the grid: the row-tiled windows sit at block `(t, 0)`, the weights at block `(0, 0)`. -/
theorem index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the whole arrays. -/
theorem written4 (c : Dev nD) (t : Fin cfg4.N) :
    (dat4 (F := Ideal) V c).flushed 2 t
      = ((cfg4.win 2).blk t).view.read (Elt Ideal)
          (mm (M := 100000) (K := 80) (N := 160) (V c (Pipeline.arrRef spec4 0)) (V c (Pipeline.arrRef spec4 1))) := by
  show (cfg4.win 2).cut (grid4.coords t) ((dat4 V c).after 2 t) = _
  rw [after4_2, block4]
  obtain ⟨e00, e01, e10, e11, e20, e21⟩ := index4 t
  funext j
  show mm (M := 10000) (K := 80) (N := 160) (iblk4 V c 0 t) (iblk4 V c 1 t) j
      = mm (M := 100000) (K := 80) (N := 160) (V c (Pipeline.arrRef spec4 0)) (V c (Pipeline.arrRef spec4 1))
          (((cfg4.win 2).blk t).view.emb j)
  refine Cert.BiasRow.mm_at _ _ _ _ j _ (fun k => ?_) (fun k => ?_)
  · show V c (Pipeline.arrRef spec4 0) (((cfg4.win 0).blk t).view.emb (ix2 (c0 j) k))
        = V c (Pipeline.arrRef spec4 0) (ix2 (c0 (((cfg4.win 2).blk t).view.emb j)) k)
    refine congrArg _ (funext fun a => Fin.ext ?_)
    match a with
    | ⟨0, _⟩ =>
      show win4_0.index t (0 : Fin 2) * 10000 + 1 * (j 0).val = win4_2.index t (0 : Fin 2) * 10000 + 1 * (j 0).val
      omega
    | ⟨1, _⟩ =>
      show win4_0.index t (1 : Fin 2) * 80 + 1 * k.val = k.val
      omega
  · show V c (Pipeline.arrRef spec4 1) (((cfg4.win 1).blk t).view.emb (ix2 k (c1 j)))
        = V c (Pipeline.arrRef spec4 1) (ix2 k (c1 (((cfg4.win 2).blk t).view.emb j)))
    refine congrArg _ (funext fun a => Fin.ext ?_)
    match a with
    | ⟨0, _⟩ =>
      show win4_1.index t (0 : Fin 2) * 80 + 1 * k.val = k.val
      omega
    | ⟨1, _⟩ =>
      show win4_1.index t (1 : Fin 2) * 160 + 1 * (j 1).val = win4_2.index t (1 : Fin 2) * 160 + 1 * (j 1).val
      omega

/-- An index of the output array lies in point `t`'s block iff each coordinate lies in the block's range on its axis. -/
theorem inBlock4 (t : Fin cfg4.N) (i : S100000x160.Idx) :
    i ∈ ((cfg4.win 2).blk t).view.set
      ↔ ∀ a : Fin 2, win4_2.index t a * S10000x160.size a ≤ (i a).val
          ∧ (i a).val < win4_2.index t a * S10000x160.size a + S10000x160.size a := by
  show i ∈ ((View.whole (Pipeline.arrRef spec4 2)).slice (win4_2.rect t)).set ↔ _
  rw [View.set_slice_whole, Rect.mem_set_unit]
  exact Iff.rfl

/-- Every row of the output lies in the block of the point its row number divided by 10000 names. -/
theorem covered4 (i : S100000x160.Idx) :
    ∃ t : Fin cfg4.N, (cfg4.win 2).flush t = true ∧ i ∈ ((cfg4.win 2).blk t).view.set := by
  have hN : cfg4.N = 10 := N_4
  have hi0 : (i 0).val < 100000 := (i 0).isLt
  have hi1 : (i 1).val < 160 := (i 1).isLt
  refine ⟨⟨(i 0).val / 10000, by rw [hN]; omega⟩, flush4_2 _, ?_⟩
  obtain ⟨-, -, -, -, e20, e21⟩ := index4 ⟨(i 0).val / 10000, by rw [hN]; omega⟩
  rw [inBlock4]
  intro a
  match a with
  | ⟨0, _⟩ =>
    show win4_2.index _ (0 : Fin 2) * 10000 ≤ (i 0).val ∧ (i 0).val < win4_2.index _ (0 : Fin 2) * 10000 + 10000
    rw [e20]
    show (i 0).val / 10000 * 10000 ≤ (i 0).val ∧ (i 0).val < (i 0).val / 10000 * 10000 + 10000
    omega
  | ⟨1, _⟩ =>
    show win4_2.index _ (1 : Fin 2) * 160 ≤ (i 1).val ∧ (i 1).val < win4_2.index _ (1 : Fin 2) * 160 + 160
    rw [e21]
    omega

/-- THE OUTPUT ARRAY after the region: the product of the two input arrays as the region finds them. -/
theorem arr4 (c : Dev nD) :
    (dat4 (F := Ideal) V c).arrAt 2 cfg4.N
      = mm (M := 100000) (K := 80) (N := 160) (V c (Pipeline.arrRef spec4 0)) (V c (Pipeline.arrRef spec4 1)) :=
  (dat4 (F := Ideal) V c).arrAt_eq_of_cover 2 _ (fun t _ => written4 V c t) (covered4)

end Cert.KernelIdeal.RegionValue

end
-- ==== Proof.KReg5.lean ====
/-
  Region 5: the value of its output array.

  The grid has ten points; point `t` stages rows `10000 t … 10000 t + 9999` of the two row arrays, all of each of the four
  one-row statistics, and writes back the same rows of the output. The body is the normalising layer `bn` of its blocks
  (each statistic broadcast to every row, then pointwise arithmetic). An entry of `bn` depends on the entry of each row
  array at the same place and on the statistics of its column, so what point `t` writes back is rows `10000 t …` of `bn`
  of the whole arrays; the ten blocks cover every row (row `r` lies in the block of point `r / 10000`), and the array
  ends holding `bn` of the arrays the region finds.
-/
import proofs.«127768_j9405978378358_1_alg».proof.Proof.FrameKernelIdealP
import proofs.«127768_j9405978378358_1_alg».proof.Proof.LibDense
import proofs.«127768_j9405978378358_1_alg».proof.Proof.KBnSpec
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin5 : (![0, 0] : Fin 2 → Nat) = fun _ => 0 := funext fun a => by fin_cases a <;> rfl

/-- The body's value: the normalising layer of its blocks. -/
theorem payload5 (x0 x1 : Vec Ideal S10000x80 .f32) (x2 x3 x4 x5 : Vec Ideal S1x80 .f32) :
    k5_pay1 (F := Ideal) x0 x1 x2 x3 x4 x5 = bn (M := 10000) (N := 80) x0 x1 x2 x3 x4 x5 := by
  unfold k5_pay1
  simp only [shapeCast_self]
  exact vecBn x0 x1 x2 x3 x4 x5 _

/-- What the body leaves in the output's staging buffer. -/
theorem block5 (x0 x1 : Vec Ideal S10000x80 .f32) (x2 x3 x4 x5 : Vec Ideal S1x80 .f32) :
    out5_6 (F := Ideal) x0 x1 x2 x3 x4 x5 = bn (M := 10000) (N := 80) x0 x1 x2 x3 x4 x5 := by
  unfold out5_6
  rw [View.canon_unit_zero origin5]
  simp only [View.ld_unit_zero (S := S10000x80) origin5, View.ld_unit_zero (S := S1x80) origin5]
  exact payload5 x0 x1 x2 x3 x4 x5

/-! The block indices over the grid, window by window: the row-tiled windows (the two row arrays and the output) sit at
    block `(t, 0)` at point `t`, each one-row statistic at block `(0, 0)`. -/

theorem index5_6 : ∀ t : Fin cfg5.N, win5_6.index t (0 : Fin 2) = t.val ∧ win5_6.index t (1 : Fin 2) = 0 :=
  (by decide +kernel : ∀ t : Fin grid5.N, _)

theorem index5_0 : ∀ t : Fin cfg5.N, win5_0.index t (0 : Fin 2) = t.val ∧ win5_0.index t (1 : Fin 2) = 0 :=
  (by decide +kernel : ∀ t : Fin grid5.N, _)

/-- Window 0's block at point `t` lies over the same rows and columns of its array as the output's block does of its own. -/
theorem place5_0 (t : Fin cfg5.N) (j : S10000x80.Idx) : (win5_0.blk t).view.emb j = (win5_6.blk t).view.emb j := by
  have h := index5_0 t
  have h6 := index5_6 t
  funext a
  apply Fin.ext
  match a with
  | ⟨0, _⟩ =>
    show win5_0.index t (0 : Fin 2) * 10000 + 1 * (j 0).val = win5_6.index t (0 : Fin 2) * 10000 + 1 * (j 0).val
    omega
  | ⟨1, _⟩ =>
    show win5_0.index t (1 : Fin 2) * 80 + 1 * (j 1).val = win5_6.index t (1 : Fin 2) * 80 + 1 * (j 1).val
    omega

set_option maxHeartbeats 1000000 in
/-- So an entry of window 0's block is the array's entry under the output block's index. -/
theorem rows5_0 (c : Dev nD) (t : Fin cfg5.N) (j : S10000x80.Idx) :
    iblk5 V c 0 t j = V c (Pipeline.arrRef spec5 0) ((win5_6.blk t).view.emb j) :=
  congrArg (V c (Pipeline.arrRef spec5 0)) (place5_0 t j)

theorem index5_1 : ∀ t : Fin cfg5.N, win5_1.index t (0 : Fin 2) = t.val ∧ win5_1.index t (1 : Fin 2) = 0 :=
  (by decide +kernel : ∀ t : Fin grid5.N, _)

/-- Window 1's block at point `t` lies over the same rows and columns of its array as the output's block does of its own. -/
theorem place5_1 (t : Fin cfg5.N) (j : S10000x80.Idx) : (win5_1.blk t).view.emb j = (win5_6.blk t).view.emb j := by
  have h := index5_1 t
  have h6 := index5_6 t
  funext a
  apply Fin.ext
  match a with
  | ⟨0, _⟩ =>
    show win5_1.index t (0 : Fin 2) * 10000 + 1 * (j 0).val = win5_6.index t (0 : Fin 2) * 10000 + 1 * (j 0).val
    omega
  | ⟨1, _⟩ =>
    show win5_1.index t (1 : Fin 2) * 80 + 1 * (j 1).val = win5_6.index t (1 : Fin 2) * 80 + 1 * (j 1).val
    omega

set_option maxHeartbeats 1000000 in
/-- So an entry of window 1's block is the array's entry under the output block's index. -/
theorem rows5_1 (c : Dev nD) (t : Fin cfg5.N) (j : S10000x80.Idx) :
    iblk5 V c 1 t j = V c (Pipeline.arrRef spec5 1) ((win5_6.blk t).view.emb j) :=
  congrArg (V c (Pipeline.arrRef spec5 1)) (place5_1 t j)

theorem index5_2 : ∀ t : Fin cfg5.N, win5_2.index t (0 : Fin 2) = 0 ∧ win5_2.index t (1 : Fin 2) = 0 :=
  (by decide +kernel : ∀ t : Fin grid5.N, _)

/-- The one block of window 2 sits at the array's origin: an index inside the block is the same index of the array. -/
theorem place5_2 (t : Fin cfg5.N) (y : S1x80.Idx) : (win5_2.blk t).view.emb y = y := by
  have h := index5_2 t
  funext a
  apply Fin.ext
  match a with
  | ⟨0, _⟩ => show win5_2.index t (0 : Fin 2) * 1 + 1 * (y 0).val = (y 0).val; omega
  | ⟨1, _⟩ => show win5_2.index t (1 : Fin 2) * 80 + 1 * (y 1).val = (y 1).val; omega

set_option maxHeartbeats 1000000 in
/-- So window 2's block at any point is the whole one-row array. -/
theorem stat5_2 (c : Dev nD) (t : Fin cfg5.N) : iblk5 V c 2 t = V c (Pipeline.arrRef spec5 2) :=
  funext fun y => congrArg (V c (Pipeline.arrRef spec5 2)) (place5_2 t y)

theorem index5_3 : ∀ t : Fin cfg5.N, win5_3.index t (0 : Fin 2) = 0 ∧ win5_3.index t (1 : Fin 2) = 0 :=
  (by decide +kernel : ∀ t : Fin grid5.N, _)

/-- The one block of window 3 sits at the array's origin: an index inside the block is the same index of the array. -/
theorem place5_3 (t : Fin cfg5.N) (y : S1x80.Idx) : (win5_3.blk t).view.emb y = y := by
  have h := index5_3 t
  funext a
  apply Fin.ext
  match a with
  | ⟨0, _⟩ => show win5_3.index t (0 : Fin 2) * 1 + 1 * (y 0).val = (y 0).val; omega
  | ⟨1, _⟩ => show win5_3.index t (1 : Fin 2) * 80 + 1 * (y 1).val = (y 1).val; omega

set_option maxHeartbeats 1000000 in
/-- So window 3's block at any point is the whole one-row array. -/
theorem stat5_3 (c : Dev nD) (t : Fin cfg5.N) : iblk5 V c 3 t = V c (Pipeline.arrRef spec5 3) :=
  funext fun y => congrArg (V c (Pipeline.arrRef spec5 3)) (place5_3 t y)

theorem index5_4 : ∀ t : Fin cfg5.N, win5_4.index t (0 : Fin 2) = 0 ∧ win5_4.index t (1 : Fin 2) = 0 :=
  (by decide +kernel : ∀ t : Fin grid5.N, _)

/-- The one block of window 4 sits at the array's origin: an index inside the block is the same index of the array. -/
theorem place5_4 (t : Fin cfg5.N) (y : S1x80.Idx) : (win5_4.blk t).view.emb y = y := by
  have h := index5_4 t
  funext a
  apply Fin.ext
  match a with
  | ⟨0, _⟩ => show win5_4.index t (0 : Fin 2) * 1 + 1 * (y 0).val = (y 0).val; omega
  | ⟨1, _⟩ => show win5_4.index t (1 : Fin 2) * 80 + 1 * (y 1).val = (y 1).val; omega

set_option maxHeartbeats 1000000 in
/-- So window 4's block at any point is the whole one-row array. -/
theorem stat5_4 (c : Dev nD) (t : Fin cfg5.N) : iblk5 V c 4 t = V c (Pipeline.arrRef spec5 4) :=
  funext fun y => congrArg (V c (Pipeline.arrRef spec5 4)) (place5_4 t y)

theorem index5_5 : ∀ t : Fin cfg5.N, win5_5.index t (0 : Fin 2) = 0 ∧ win5_5.index t (1 : Fin 2) = 0 :=
  (by decide +kernel : ∀ t : Fin grid5.N, _)

/-- The one block of window 5 sits at the array's origin: an index inside the block is the same index of the array. -/
theorem place5_5 (t : Fin cfg5.N) (y : S1x80.Idx) : (win5_5.blk t).view.emb y = y := by
  have h := index5_5 t
  funext a
  apply Fin.ext
  match a with
  | ⟨0, _⟩ => show win5_5.index t (0 : Fin 2) * 1 + 1 * (y 0).val = (y 0).val; omega
  | ⟨1, _⟩ => show win5_5.index t (1 : Fin 2) * 80 + 1 * (y 1).val = (y 1).val; omega

set_option maxHeartbeats 1000000 in
/-- So window 5's block at any point is the whole one-row array. -/
theorem stat5_5 (c : Dev nD) (t : Fin cfg5.N) : iblk5 V c 5 t = V c (Pipeline.arrRef spec5 5) :=
  funext fun y => congrArg (V c (Pipeline.arrRef spec5 5)) (place5_5 t y)

/-- The output block's columns are the array's columns. -/
theorem column5 (t : Fin cfg5.N) (j : S10000x80.Idx) : ((win5_6.blk t).view.emb j 1).val = (j 1).val := by
  have h6 := index5_6 t
  show win5_6.index t (1 : Fin 2) * 80 + 1 * (j 1).val = (j 1).val
  omega

set_option maxHeartbeats 1000000 in
/-- What point `t` writes back is block `t` of the layer of the whole arrays. -/
theorem written5 (c : Dev nD) (t : Fin cfg5.N) :
    (dat5 (F := Ideal) V c).flushed 6 t
      = ((cfg5.win 6).blk t).view.read (Elt Ideal)
          (bnK (V c (Pipeline.arrRef spec5 0)) (V c (Pipeline.arrRef spec5 1)) (V c (Pipeline.arrRef spec5 2))
            (V c (Pipeline.arrRef spec5 3)) (V c (Pipeline.arrRef spec5 4)) (V c (Pipeline.arrRef spec5 5))) := by
  show (cfg5.win 6).cut (grid5.coords t) ((dat5 V c).after 6 t) = _
  rw [after5_6, block5]
  funext j
  show bn (M := 10000) (N := 80) (iblk5 V c 0 t) (iblk5 V c 1 t) (iblk5 V c 2 t) (iblk5 V c 3 t) (iblk5 V c 4 t) (iblk5 V c 5 t) j
      = bn (M := 100000) (N := 80) (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5))
          ((win5_6.blk t).view.emb j)
  exact bn_rows _ _ _ _ _ _ _ _ _ _ _ _ j _ (rows5_0 V c t j) (rows5_1 V c t j) (column5 t j)
    (stat5_2 V c t) (stat5_3 V c t) (stat5_4 V c t) (stat5_5 V c t)

/-- An index of the output array lies in point `t`'s block iff each coordinate lies in the block's range on its axis. -/
theorem inBlock5 (t : Fin cfg5.N) (i : S100000x80.Idx) :
    i ∈ ((cfg5.win 6).blk t).view.set
      ↔ ∀ a : Fin 2, win5_6.index t a * S10000x80.size a ≤ (i a).val
          ∧ (i a).val < win5_6.index t a * S10000x80.size a + S10000x80.size a := by
  show i ∈ ((View.whole (Pipeline.arrRef spec5 6)).slice (win5_6.rect t)).set ↔ _
  rw [View.set_slice_whole, Rect.mem_set_unit]
  exact Iff.rfl

/-- Every row of the output lies in the block of the point its row number divided by 10000 names. -/
theorem covered5 (i : S100000x80.Idx) :
    ∃ t : Fin cfg5.N, (cfg5.win 6).flush t = true ∧ i ∈ ((cfg5.win 6).blk t).view.set := by
  have hN : cfg5.N = 10 := N_5
  have hi0 : (i 0).val < 100000 := (i 0).isLt
  have hi1 : (i 1).val < 80 := (i 1).isLt
  refine ⟨⟨(i 0).val / 10000, by rw [hN]; omega⟩, flush5_6 _, ?_⟩
  obtain ⟨e60, e61⟩ := index5_6 ⟨(i 0).val / 10000, by rw [hN]; omega⟩
  rw [inBlock5]
  intro a
  match a with
  | ⟨0, _⟩ =>
    show win5_6.index _ (0 : Fin 2) * 10000 ≤ (i 0).val ∧ (i 0).val < win5_6.index _ (0 : Fin 2) * 10000 + 10000
    rw [e60]
    show (i 0).val / 10000 * 10000 ≤ (i 0).val ∧ (i 0).val < (i 0).val / 10000 * 10000 + 10000
    omega
  | ⟨1, _⟩ =>
    show win5_6.index _ (1 : Fin 2) * 80 ≤ (i 1).val ∧ (i 1).val < win5_6.index _ (1 : Fin 2) * 80 + 80
    rw [e61]
    omega

/-- THE OUTPUT ARRAY after the region: the layer of the six input arrays as the region finds them. -/
theorem arr5 (c : Dev nD) :
    (dat5 (F := Ideal) V c).arrAt 6 cfg5.N
      = bnK (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) :=
  (dat5 (F := Ideal) V c).arrAt_eq_of_cover 6 _ (fun t _ => written5 V c t) (covered5)

end Cert.KernelIdeal.RegionValue

end
-- ==== Proof.KSeg_hostOps2.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps2 : List (Ref sig .tc) := [main_v70, main_v71, main_v72, main_v73, main_v74]

/-- A buffer the piece does not write keeps its contents. -/
theorem keep_hostOps2 (V : Valuation τ sig (Elt F)) (b : Ref sig .tc) (hb : ∀ y ∈ wr_hostOps2, b ≠ y) :
    after (hostOps2 (F := F)) V (Proc.devRef .tc b) = V (Proc.devRef .tc b) :=
  after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v71 (V : Valuation τ sig (Elt F)) :
    (after (hostOps2 (F := F)) V) (Proc.devRef .tc main_v71) = kf25 (V (Proc.devRef .tc main_arg6)) := by
  unfold kf25
  dsimp only [hostOps2]
  after_results_simp <;> rfl

theorem c_main_v73 (V : Valuation τ sig (Elt F)) :
    (after (hostOps2 (F := F)) V) (Proc.devRef .tc main_v73) = kf25 (V (Proc.devRef .tc main_arg8)) := by
  unfold kf25
  dsimp only [hostOps2]
  after_results_simp <;> rfl

theorem c_main_v74 (V : Valuation τ sig (Elt F)) :
    (after (hostOps2 (F := F)) V) (Proc.devRef .tc main_v74) = kf26 ((after (hostOps2 (F := F)) V) (Proc.devRef .tc main_v71)) ((after (hostOps2 (F := F)) V) (Proc.devRef .tc main_v73)) := by
  unfold kf26
  dsimp only [hostOps2]
  after_results_simp <;> rfl

end Cert.KernelIdeal.Val

end
-- ==== Proof.KSeg_hostOps3.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps3 : List (Ref sig .tc) := [main_c_16, main_v76, main_v77, main_c_17, main_v78, main_v79, main_v80, main_v81, main_v82, main_cst_18, main_v83, main_v84, main_v85, main_v86, main_v87, main_v88, main_c_19, main_v89, main_v90, main_c_20, main_v91, main_v92, main_v93, main_v94, main_v95, main_cst_21, main_v96, main_v97, main_v98, main_v99, main_v100, main_v101, main_v102, main_v103, main_v104, main_v105, main_v106, main_v107, main_v108, main_v109, main_v110, main_v111, main_v112, main_v113, main_cst_22, main_v114, main_cst_23, main_v115, main_v116, main_c_24]

/-- A buffer the piece does not write keeps its contents. -/
theorem keep_hostOps3 (V : Valuation τ sig (Elt F)) (b : Ref sig .tc) (hb : ∀ y ∈ wr_hostOps3, b ≠ y) :
    after (hostOps3 (F := F)) V (Proc.devRef .tc b) = V (Proc.devRef .tc b) :=
  after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v101 (V : Valuation τ sig (Elt F)) :
    (after (hostOps3 (F := F)) V) (Proc.devRef .tc main_v101) = kf14 (V (Proc.devRef .tc main_v1)) (V (Proc.devRef .tc main_v3)) (V (Proc.devRef .tc main_v75)) (V (Proc.devRef .tc main_v20)) (V (Proc.devRef .tc main_v15)) := by
  unfold kf14
  dsimp only [hostOps3]
  after_results_simp <;> rfl

theorem c_main_v104 (V : Valuation τ sig (Elt F)) :
    (after (hostOps3 (F := F)) V) (Proc.devRef .tc main_v104) = kf27 (V (Proc.devRef .tc main_arg7)) := by
  unfold kf27
  dsimp only [hostOps3]
  after_results_simp <;> rfl

theorem c_main_v107 (V : Valuation τ sig (Elt F)) :
    (after (hostOps3 (F := F)) V) (Proc.devRef .tc main_v107) = kf15 ((after (hostOps3 (F := F)) V) (Proc.devRef .tc main_v101)) ((after (hostOps3 (F := F)) V) (Proc.devRef .tc main_v104)) := by
  unfold kf15
  dsimp only [hostOps3]
  after_results_simp <;> rfl

theorem c_main_v110 (V : Valuation τ sig (Elt F)) :
    (after (hostOps3 (F := F)) V) (Proc.devRef .tc main_v110) = kf27 (V (Proc.devRef .tc main_arg9)) := by
  unfold kf27
  dsimp only [hostOps3]
  after_results_simp <;> rfl

theorem c_main_v113 (V : Valuation τ sig (Elt F)) :
    (after (hostOps3 (F := F)) V) (Proc.devRef .tc main_v113) = kf16 ((after (hostOps3 (F := F)) V) (Proc.devRef .tc main_v101)) ((after (hostOps3 (F := F)) V) (Proc.devRef .tc main_v110)) := by
  unfold kf16
  dsimp only [hostOps3]
  after_results_simp <;> rfl

theorem c_main_v116 (V : Valuation τ sig (Elt F)) :
    (after (hostOps3 (F := F)) V) (Proc.devRef .tc main_v116) = kf17 ((after (hostOps3 (F := F)) V) (Proc.devRef .tc main_v107)) := by
  unfold kf17
  dsimp only [hostOps3]
  after_results_simp <;> rfl

theorem c_main_c_24 (V : Valuation τ sig (Elt F)) :
    (after (hostOps3 (F := F)) V) (Proc.devRef .tc main_c_24) = kf18  := by
  unfold kf18
  dsimp only [hostOps3]
  after_results_simp <;> rfl

end Cert.KernelIdeal.Val

end
-- ==== Proof.KSeg_hostOps3_1.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps3_1 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v117]

/-- A buffer the piece does not write keeps its contents. -/
theorem keep_hostOps3_1 (V : Valuation τ sig (Elt F)) (b : Ref sig .tc) (hb : ∀ y ∈ wr_hostOps3_1, b ≠ y) :
    after (hostOps3_1 (F := F)) V (Proc.devRef .tc b) = V (Proc.devRef .tc b) :=
  after_of_forall_not_mem (b := Proc.devRef .tc b) _ _ (List.forall_iff_forall_mem.mp (by
    simp only [hostOps3_1, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_call3_v5 (V : Valuation τ sig (Elt F)) :
    (after (hostOps3_1 (F := F)) V) (Proc.devRef .tc main_call3_v5) = kf19 (V (Proc.devRef .tc main_v107)) := by
  unfold kf19
  dsimp only [hostOps3_1]
  after_results_simp <;> rfl

theorem c_main_call3_v8 (V : Valuation τ sig (Elt F)) :
    (after (hostOps3_1 (F := F)) V) (Proc.devRef .tc main_call3_v8) = kf20 (V (Proc.devRef .tc main_c_24)) := by
  unfold kf20
  dsimp only [hostOps3_1]
  after_results_simp <;> rfl

theorem c_main_call3_v11 (V : Valuation τ sig (Elt F)) :
    (after (hostOps3_1 (F := F)) V) (Proc.devRef .tc main_call3_v11) = kf21 ((after (hostOps3_1 (F := F)) V) (Proc.devRef .tc main_call3_v5)) ((after (hostOps3_1 (F := F)) V) (Proc.devRef .tc main_call3_v8)) := by
  unfold kf21
  dsimp only [hostOps3_1]
  after_results_simp <;> rfl

theorem c_main_v117 (V : Valuation τ sig (Elt F)) :
    (after (hostOps3_1 (F := F)) V) (Proc.devRef .tc main_v117) = kf22 ((after (hostOps3_1 (F := F)) V) (Proc.devRef .tc main_call3_v8)) ((after (hostOps3_1 (F := F)) V) (Proc.devRef .tc main_call3_v11)) := by
  unfold kf22
  dsimp only [hostOps3_1]
  after_results_simp <;> rfl

end Cert.KernelIdeal.Val

end
-- ==== Proof.KSeg_hostOps3_2.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps3_2 : List (Ref sig .tc) := [main_v118, main_v119, main_v120, main_v121, main_v122, main_v123, main_v124, main_v125]

/-- A buffer the piece does not write keeps its contents. -/
theorem keep_hostOps3_2 (V : Valuation τ sig (Elt F)) (b : Ref sig .tc) (hb : ∀ y ∈ wr_hostOps3_2, b ≠ y) :
    after (hostOps3_2 (F := F)) V (Proc.devRef .tc b) = V (Proc.devRef .tc b) :=
  after_of_forall_not_mem (b := Proc.devRef .tc b) _ _ (List.forall_iff_forall_mem.mp (by
    simp only [hostOps3_2, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v119 (V : Valuation τ sig (Elt F)) :
    (after (hostOps3_2 (F := F)) V) (Proc.devRef .tc main_v119) = kf28 (V (Proc.devRef .tc main_arg10)) := by
  unfold kf28
  dsimp only [hostOps3_2]
  after_results_simp <;> rfl

theorem c_main_v121 (V : Valuation τ sig (Elt F)) :
    (after (hostOps3_2 (F := F)) V) (Proc.devRef .tc main_v121) = kf28 (V (Proc.devRef .tc main_arg11)) := by
  unfold kf28
  dsimp only [hostOps3_2]
  after_results_simp <;> rfl

theorem c_main_v122 (V : Valuation τ sig (Elt F)) :
    (after (hostOps3_2 (F := F)) V) (Proc.devRef .tc main_v122) = kf24 (V (Proc.devRef .tc main_v116)) := by
  unfold kf24
  dsimp only [hostOps3_2]
  after_results_simp <;> rfl

theorem c_main_v123 (V : Valuation τ sig (Elt F)) :
    (after (hostOps3_2 (F := F)) V) (Proc.devRef .tc main_v123) = kf24 (V (Proc.devRef .tc main_v117)) := by
  unfold kf24
  dsimp only [hostOps3_2]
  after_results_simp <;> rfl

theorem c_main_v124 (V : Valuation τ sig (Elt F)) :
    (after (hostOps3_2 (F := F)) V) (Proc.devRef .tc main_v124) = kf24 ((after (hostOps3_2 (F := F)) V) (Proc.devRef .tc main_v119)) := by
  unfold kf24
  dsimp only [hostOps3_2]
  after_results_simp <;> rfl

theorem c_main_v125 (V : Valuation τ sig (Elt F)) :
    (after (hostOps3_2 (F := F)) V) (Proc.devRef .tc main_v125) = kf24 ((after (hostOps3_2 (F := F)) V) (Proc.devRef .tc main_v121)) := by
  unfold kf24
  dsimp only [hostOps3_2]
  after_results_simp <;> rfl

end Cert.KernelIdeal.Val

end
-- ==== Proof.KReg2.lean ====
/-
  Region 2: the value of its output array.

  The grid has ten points; point `t` stages rows `10000 t … 10000 t + 9999` of the left operand, all of the weights, and
  writes back the same rows of the output. The body rounds both operands to a narrower format (no change on the extended
  reals) and multiplies them into a zero accumulator, so what point `t` writes back is the product of its block of rows
  with the weights. A row of a matrix product depends on the same row of the left operand only, so that block is rows
  `10000 t …` of the product of the whole left operand with the weights; the ten blocks cover every row (row `r` lies in
  the block of point `r / 10000`), and the array ends holding that product.
-/
import proofs.«127768_j9405978378358_1_alg».proof.Proof.FrameKernelIdealP
import proofs.«127768_j9405978378358_1_alg».proof.Proof.LibDense
import proofs.«127768_j9405978378358_1_alg».proof.Proof.LibBiasRow
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The body's value: the block of rows times the weights. -/
theorem payload2 (x0 : Vec Ideal S10000x80 .f32) (x1 : Vec Ideal S80x160 .f32) :
    k2_pay1 (F := Ideal) x0 x1 = mm (M := 10000) (K := 80) (N := 160) x0 x1 := by
  unfold k2_pay1
  simp only [shapeCast_self]
  exact matmul_zero_eq_mm _ rfl rfl rfl rfl rfl rfl none _ _

/-- What the body leaves in the output's staging buffer. -/
theorem block2 (x0 : Vec Ideal S10000x80 .f32) (x1 : Vec Ideal S80x160 .f32) :
    out2_2 (F := Ideal) x0 x1 = mm (M := 10000) (K := 80) (N := 160) x0 x1 := by
  unfold out2_2
  rw [View.canon_unit_zero origin2]
  simp only [View.ld_unit_zero (S := S10000x80) origin2, View.ld_unit_zero (S := S80x160) origin2]
  exact payload2 x0 x1

/-- The block indices over the grid: the row-tiled windows sit at block `(t, 0)`, the weights at block `(0, 0)`. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the whole arrays. -/
theorem written2 (c : Dev nD) (t : Fin cfg2.N) :
    (dat2 (F := Ideal) V c).flushed 2 t
      = ((cfg2.win 2).blk t).view.read (Elt Ideal)
          (mm (M := 100000) (K := 80) (N := 160) (V c (Pipeline.arrRef spec2 0)) (V c (Pipeline.arrRef spec2 1))) := by
  show (cfg2.win 2).cut (grid2.coords t) ((dat2 V c).after 2 t) = _
  rw [after2_2, block2]
  obtain ⟨e00, e01, e10, e11, e20, e21⟩ := index2 t
  funext j
  show mm (M := 10000) (K := 80) (N := 160) (iblk2 V c 0 t) (iblk2 V c 1 t) j
      = mm (M := 100000) (K := 80) (N := 160) (V c (Pipeline.arrRef spec2 0)) (V c (Pipeline.arrRef spec2 1))
          (((cfg2.win 2).blk t).view.emb j)
  refine Cert.BiasRow.mm_at _ _ _ _ j _ (fun k => ?_) (fun k => ?_)
  · show V c (Pipeline.arrRef spec2 0) (((cfg2.win 0).blk t).view.emb (ix2 (c0 j) k))
        = V c (Pipeline.arrRef spec2 0) (ix2 (c0 (((cfg2.win 2).blk t).view.emb j)) k)
    refine congrArg _ (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 80 + 1 * k.val = k.val
      omega
  · show V c (Pipeline.arrRef spec2 1) (((cfg2.win 1).blk t).view.emb (ix2 k (c1 j)))
        = V c (Pipeline.arrRef spec2 1) (ix2 k (c1 (((cfg2.win 2).blk t).view.emb j)))
    refine congrArg _ (funext fun a => Fin.ext ?_)
    match a with
    | ⟨0, _⟩ =>
      show win2_1.index t (0 : Fin 2) * 80 + 1 * k.val = k.val
      omega
    | ⟨1, _⟩ =>
      show win2_1.index t (1 : Fin 2) * 160 + 1 * (j 1).val = win2_2.index t (1 : Fin 2) * 160 + 1 * (j 1).val
      omega

/-- An index of the output array lies in point `t`'s block iff each coordinate lies in the block's range on its axis. -/
theorem inBlock2 (t : Fin cfg2.N) (i : S100000x160.Idx) :
    i ∈ ((cfg2.win 2).blk t).view.set
      ↔ ∀ a : Fin 2, win2_2.index t a * S10000x160.size a ≤ (i a).val
          ∧ (i a).val < win2_2.index t a * S10000x160.size a + S10000x160.size a := by
  show i ∈ ((View.whole (Pipeline.arrRef spec2 2)).slice (win2_2.rect t)).set ↔ _
  rw [View.set_slice_whole, Rect.mem_set_unit]
  exact Iff.rfl

/-- Every row of the output lies in the block of the point its row number divided by 10000 names. -/
theorem covered2 (i : S100000x160.Idx) :
    ∃ t : Fin cfg2.N, (cfg2.win 2).flush t = true ∧ i ∈ ((cfg2.win 2).blk t).view.set := by
  have hN : cfg2.N = 10 := N_2
  have hi0 : (i 0).val < 100000 := (i 0).isLt
  have hi1 : (i 1).val < 160 := (i 1).isLt
  refine ⟨⟨(i 0).val / 10000, by rw [hN]; omega⟩, flush2_2 _, ?_⟩
  obtain ⟨-, -, -, -, e20, e21⟩ := index2 ⟨(i 0).val / 10000, by rw [hN]; omega⟩
  rw [inBlock2]
  intro a
  match a with
  | ⟨0, _⟩ =>
    show win2_2.index _ (0 : Fin 2) * 10000 ≤ (i 0).val ∧ (i 0).val < win2_2.index _ (0 : Fin 2) * 10000 + 10000
    rw [e20]
    show (i 0).val / 10000 * 10000 ≤ (i 0).val ∧ (i 0).val < (i 0).val / 10000 * 10000 + 10000
    omega
  | ⟨1, _⟩ =>
    show win2_2.index _ (1 : Fin 2) * 160 ≤ (i 1).val ∧ (i 1).val < win2_2.index _ (1 : Fin 2) * 160 + 160
    rw [e21]
    omega

/-- THE OUTPUT ARRAY after the region: the product of the two input arrays as the region finds them. -/
theorem arr2 (c : Dev nD) :
    (dat2 (F := Ideal) V c).arrAt 2 cfg2.N
      = mm (M := 100000) (K := 80) (N := 160) (V c (Pipeline.arrRef spec2 0)) (V c (Pipeline.arrRef spec2 1)) :=
  (dat2 (F := Ideal) V c).arrAt_eq_of_cover 2 _ (fun t _ => written2 V c t) (covered2)

end Cert.KernelIdeal.RegionValue

end
-- ==== Proof.KReg3.lean ====
/-
  Region 3: the value of its output array.

  The grid has ten points; point `t` stages rows `10000 t … 10000 t + 9999` of the two row arrays, all of each of the four
  one-row statistics, and writes back the same rows of the output. The body is the normalising layer `bn` of its blocks
  (each statistic broadcast to every row, then pointwise arithmetic). An entry of `bn` depends on the entry of each row
  array at the same place and on the statistics of its column, so what point `t` writes back is rows `10000 t …` of `bn`
  of the whole arrays; the ten blocks cover every row (row `r` lies in the block of point `r / 10000`), and the array
  ends holding `bn` of the arrays the region finds.
-/
import proofs.«127768_j9405978378358_1_alg».proof.Proof.FrameKernelIdealP
import proofs.«127768_j9405978378358_1_alg».proof.Proof.LibDense
import proofs.«127768_j9405978378358_1_alg».proof.Proof.KBnSpec
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin3 : (![0, 0] : Fin 2 → Nat) = fun _ => 0 := funext fun a => by fin_cases a <;> rfl

/-- The body's value: the normalising layer of its blocks. -/
theorem payload3 (x0 x1 : Vec Ideal S10000x80 .f32) (x2 x3 x4 x5 : Vec Ideal S1x80 .f32) :
    k3_pay1 (F := Ideal) x0 x1 x2 x3 x4 x5 = bn (M := 10000) (N := 80) x0 x1 x2 x3 x4 x5 := by
  unfold k3_pay1
  simp only [shapeCast_self]
  exact vecBn x0 x1 x2 x3 x4 x5 _

/-- What the body leaves in the output's staging buffer. -/
theorem block3 (x0 x1 : Vec Ideal S10000x80 .f32) (x2 x3 x4 x5 : Vec Ideal S1x80 .f32) :
    out3_6 (F := Ideal) x0 x1 x2 x3 x4 x5 = bn (M := 10000) (N := 80) x0 x1 x2 x3 x4 x5 := by
  unfold out3_6
  rw [View.canon_unit_zero origin3]
  simp only [View.ld_unit_zero (S := S10000x80) origin3, View.ld_unit_zero (S := S1x80) origin3]
  exact payload3 x0 x1 x2 x3 x4 x5

/-! The block indices over the grid, window by window: the row-tiled windows (the two row arrays and the output) sit at
    block `(t, 0)` at point `t`, each one-row statistic at block `(0, 0)`. -/

theorem index3_6 : ∀ t : Fin cfg3.N, win3_6.index t (0 : Fin 2) = t.val ∧ win3_6.index t (1 : Fin 2) = 0 :=
  (by decide +kernel : ∀ t : Fin grid3.N, _)

theorem index3_0 : ∀ t : Fin cfg3.N, win3_0.index t (0 : Fin 2) = t.val ∧ win3_0.index t (1 : Fin 2) = 0 :=
  (by decide +kernel : ∀ t : Fin grid3.N, _)

/-- Window 0's block at point `t` lies over the same rows and columns of its array as the output's block does of its own. -/
theorem place3_0 (t : Fin cfg3.N) (j : S10000x80.Idx) : (win3_0.blk t).view.emb j = (win3_6.blk t).view.emb j := by
  have h := index3_0 t
  have h6 := index3_6 t
  funext a
  apply Fin.ext
  match a with
  | ⟨0, _⟩ =>
    show win3_0.index t (0 : Fin 2) * 10000 + 1 * (j 0).val = win3_6.index t (0 : Fin 2) * 10000 + 1 * (j 0).val
    omega
  | ⟨1, _⟩ =>
    show win3_0.index t (1 : Fin 2) * 80 + 1 * (j 1).val = win3_6.index t (1 : Fin 2) * 80 + 1 * (j 1).val
    omega

set_option maxHeartbeats 1000000 in
/-- So an entry of window 0's block is the array's entry under the output block's index. -/
theorem rows3_0 (c : Dev nD) (t : Fin cfg3.N) (j : S10000x80.Idx) :
    iblk3 V c 0 t j = V c (Pipeline.arrRef spec3 0) ((win3_6.blk t).view.emb j) :=
  congrArg (V c (Pipeline.arrRef spec3 0)) (place3_0 t j)

theorem index3_1 : ∀ t : Fin cfg3.N, win3_1.index t (0 : Fin 2) = t.val ∧ win3_1.index t (1 : Fin 2) = 0 :=
  (by decide +kernel : ∀ t : Fin grid3.N, _)

/-- Window 1's block at point `t` lies over the same rows and columns of its array as the output's block does of its own. -/
theorem place3_1 (t : Fin cfg3.N) (j : S10000x80.Idx) : (win3_1.blk t).view.emb j = (win3_6.blk t).view.emb j := by
  have h := index3_1 t
  have h6 := index3_6 t
  funext a
  apply Fin.ext
  match a with
  | ⟨0, _⟩ =>
    show win3_1.index t (0 : Fin 2) * 10000 + 1 * (j 0).val = win3_6.index t (0 : Fin 2) * 10000 + 1 * (j 0).val
    omega
  | ⟨1, _⟩ =>
    show win3_1.index t (1 : Fin 2) * 80 + 1 * (j 1).val = win3_6.index t (1 : Fin 2) * 80 + 1 * (j 1).val
    omega

set_option maxHeartbeats 1000000 in
/-- So an entry of window 1's block is the array's entry under the output block's index. -/
theorem rows3_1 (c : Dev nD) (t : Fin cfg3.N) (j : S10000x80.Idx) :
    iblk3 V c 1 t j = V c (Pipeline.arrRef spec3 1) ((win3_6.blk t).view.emb j) :=
  congrArg (V c (Pipeline.arrRef spec3 1)) (place3_1 t j)

theorem index3_2 : ∀ t : Fin cfg3.N, win3_2.index t (0 : Fin 2) = 0 ∧ win3_2.index t (1 : Fin 2) = 0 :=
  (by decide +kernel : ∀ t : Fin grid3.N, _)

/-- The one block of window 2 sits at the array's origin: an index inside the block is the same index of the array. -/
theorem place3_2 (t : Fin cfg3.N) (y : S1x80.Idx) : (win3_2.blk t).view.emb y = y := by
  have h := index3_2 t
  funext a
  apply Fin.ext
  match a with
  | ⟨0, _⟩ => show win3_2.index t (0 : Fin 2) * 1 + 1 * (y 0).val = (y 0).val; omega
  | ⟨1, _⟩ => show win3_2.index t (1 : Fin 2) * 80 + 1 * (y 1).val = (y 1).val; omega

set_option maxHeartbeats 1000000 in
/-- So window 2's block at any point is the whole one-row array. -/
theorem stat3_2 (c : Dev nD) (t : Fin cfg3.N) : iblk3 V c 2 t = V c (Pipeline.arrRef spec3 2) :=
  funext fun y => congrArg (V c (Pipeline.arrRef spec3 2)) (place3_2 t y)

theorem index3_3 : ∀ t : Fin cfg3.N, win3_3.index t (0 : Fin 2) = 0 ∧ win3_3.index t (1 : Fin 2) = 0 :=
  (by decide +kernel : ∀ t : Fin grid3.N, _)

/-- The one block of window 3 sits at the array's origin: an index inside the block is the same index of the array. -/
theorem place3_3 (t : Fin cfg3.N) (y : S1x80.Idx) : (win3_3.blk t).view.emb y = y := by
  have h := index3_3 t
  funext a
  apply Fin.ext
  match a with
  | ⟨0, _⟩ => show win3_3.index t (0 : Fin 2) * 1 + 1 * (y 0).val = (y 0).val; omega
  | ⟨1, _⟩ => show win3_3.index t (1 : Fin 2) * 80 + 1 * (y 1).val = (y 1).val; omega

set_option maxHeartbeats 1000000 in
/-- So window 3's block at any point is the whole one-row array. -/
theorem stat3_3 (c : Dev nD) (t : Fin cfg3.N) : iblk3 V c 3 t = V c (Pipeline.arrRef spec3 3) :=
  funext fun y => congrArg (V c (Pipeline.arrRef spec3 3)) (place3_3 t y)

theorem index3_4 : ∀ t : Fin cfg3.N, win3_4.index t (0 : Fin 2) = 0 ∧ win3_4.index t (1 : Fin 2) = 0 :=
  (by decide +kernel : ∀ t : Fin grid3.N, _)

/-- The one block of window 4 sits at the array's origin: an index inside the block is the same index of the array. -/
theorem place3_4 (t : Fin cfg3.N) (y : S1x80.Idx) : (win3_4.blk t).view.emb y = y := by
  have h := index3_4 t
  funext a
  apply Fin.ext
  match a with
  | ⟨0, _⟩ => show win3_4.index t (0 : Fin 2) * 1 + 1 * (y 0).val = (y 0).val; omega
  | ⟨1, _⟩ => show win3_4.index t (1 : Fin 2) * 80 + 1 * (y 1).val = (y 1).val; omega

set_option maxHeartbeats 1000000 in
/-- So window 4's block at any point is the whole one-row array. -/
theorem stat3_4 (c : Dev nD) (t : Fin cfg3.N) : iblk3 V c 4 t = V c (Pipeline.arrRef spec3 4) :=
  funext fun y => congrArg (V c (Pipeline.arrRef spec3 4)) (place3_4 t y)

theorem index3_5 : ∀ t : Fin cfg3.N, win3_5.index t (0 : Fin 2) = 0 ∧ win3_5.index t (1 : Fin 2) = 0 :=
  (by decide +kernel : ∀ t : Fin grid3.N, _)

/-- The one block of window 5 sits at the array's origin: an index inside the block is the same index of the array. -/
theorem place3_5 (t : Fin cfg3.N) (y : S1x80.Idx) : (win3_5.blk t).view.emb y = y := by
  have h := index3_5 t
  funext a
  apply Fin.ext
  match a with
  | ⟨0, _⟩ => show win3_5.index t (0 : Fin 2) * 1 + 1 * (y 0).val = (y 0).val; omega
  | ⟨1, _⟩ => show win3_5.index t (1 : Fin 2) * 80 + 1 * (y 1).val = (y 1).val; omega

set_option maxHeartbeats 1000000 in
/-- So window 5's block at any point is the whole one-row array. -/
theorem stat3_5 (c : Dev nD) (t : Fin cfg3.N) : iblk3 V c 5 t = V c (Pipeline.arrRef spec3 5) :=
  funext fun y => congrArg (V c (Pipeline.arrRef spec3 5)) (place3_5 t y)

/-- The output block's columns are the array's columns. -/
theorem column3 (t : Fin cfg3.N) (j : S10000x80.Idx) : ((win3_6.blk t).view.emb j 1).val = (j 1).val := by
  have h6 := index3_6 t
  show win3_6.index t (1 : Fin 2) * 80 + 1 * (j 1).val = (j 1).val
  omega

set_option maxHeartbeats 1000000 in
/-- What point `t` writes back is block `t` of the layer of the whole arrays. -/
theorem written3 (c : Dev nD) (t : Fin cfg3.N) :
    (dat3 (F := Ideal) V c).flushed 6 t
      = ((cfg3.win 6).blk t).view.read (Elt Ideal)
          (bnK (V c (Pipeline.arrRef spec3 0)) (V c (Pipeline.arrRef spec3 1)) (V c (Pipeline.arrRef spec3 2))
            (V c (Pipeline.arrRef spec3 3)) (V c (Pipeline.arrRef spec3 4)) (V c (Pipeline.arrRef spec3 5))) := by
  show (cfg3.win 6).cut (grid3.coords t) ((dat3 V c).after 6 t) = _
  rw [after3_6, block3]
  funext j
  show bn (M := 10000) (N := 80) (iblk3 V c 0 t) (iblk3 V c 1 t) (iblk3 V c 2 t) (iblk3 V c 3 t) (iblk3 V c 4 t) (iblk3 V c 5 t) j
      = bn (M := 100000) (N := 80) (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5))
          ((win3_6.blk t).view.emb j)
  exact bn_rows _ _ _ _ _ _ _ _ _ _ _ _ j _ (rows3_0 V c t j) (rows3_1 V c t j) (column3 t j)
    (stat3_2 V c t) (stat3_3 V c t) (stat3_4 V c t) (stat3_5 V c t)

/-- An index of the output array lies in point `t`'s block iff each coordinate lies in the block's range on its axis. -/
theorem inBlock3 (t : Fin cfg3.N) (i : S100000x80.Idx) :
    i ∈ ((cfg3.win 6).blk t).view.set
      ↔ ∀ a : Fin 2, win3_6.index t a * S10000x80.size a ≤ (i a).val
          ∧ (i a).val < win3_6.index t a * S10000x80.size a + S10000x80.size a := by
  show i ∈ ((View.whole (Pipeline.arrRef spec3 6)).slice (win3_6.rect t)).set ↔ _
  rw [View.set_slice_whole, Rect.mem_set_unit]
  exact Iff.rfl

/-- Every row of the output lies in the block of the point its row number divided by 10000 names. -/
theorem covered3 (i : S100000x80.Idx) :
    ∃ t : Fin cfg3.N, (cfg3.win 6).flush t = true ∧ i ∈ ((cfg3.win 6).blk t).view.set := by
  have hN : cfg3.N = 10 := N_3
  have hi0 : (i 0).val < 100000 := (i 0).isLt
  have hi1 : (i 1).val < 80 := (i 1).isLt
  refine ⟨⟨(i 0).val / 10000, by rw [hN]; omega⟩, flush3_6 _, ?_⟩
  obtain ⟨e60, e61⟩ := index3_6 ⟨(i 0).val / 10000, by rw [hN]; omega⟩
  rw [inBlock3]
  intro a
  match a with
  | ⟨0, _⟩ =>
    show win3_6.index _ (0 : Fin 2) * 10000 ≤ (i 0).val ∧ (i 0).val < win3_6.index _ (0 : Fin 2) * 10000 + 10000
    rw [e60]
    show (i 0).val / 10000 * 10000 ≤ (i 0).val ∧ (i 0).val < (i 0).val / 10000 * 10000 + 10000
    omega
  | ⟨1, _⟩ =>
    show win3_6.index _ (1 : Fin 2) * 80 ≤ (i 1).val ∧ (i 1).val < win3_6.index _ (1 : Fin 2) * 80 + 80
    rw [e61]
    omega

/-- THE OUTPUT ARRAY after the region: the layer of the six input arrays as the region finds them. -/
theorem arr3 (c : Dev nD) :
    (dat3 (F := Ideal) V c).arrAt 6 cfg3.N
      = bnK (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 (F := Ideal) V c).arrAt_eq_of_cover 6 _ (fun t _ => written3 V c t) (covered3)

end Cert.KernelIdeal.RegionValue

end
-- ==== Proof.KIn.lean ====
/- The kernel program's argument arrays as launched on a device, as one record. -/
import proofs.«127768_j9405978378358_1_alg».proof.KernelIdeal
import proofs.«127768_j9405978378358_1_alg».proof.Proof.SpecInputs

set_option maxRecDepth 16384

noncomputable section

namespace Cert.KernelIdeal.Val

open Cert.KernelIdeal Idealize.ShloMosaic Idealize.ShloMosaic.TcCoe Idealize.SL.Sem

/-- The argument arrays as launched on a device. -/
noncomputable def inK (m : (ℓ : Loc nD τ sig) → Buf (Elt Ideal) ℓ) (c : Dev nD) : Cert.Spec.Inputs Ideal :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13)⟩

end Cert.KernelIdeal.Val

end
-- ==== Proof.KSeg_hostOps0.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps0 : List (Ref sig .tc) := [main_v0, main_v1, main_v2, main_v3, main_cst, main_v4, main_cst_0, main_v5, main_v6, main_v7, main_cst_1, main_v8, main_v9, main_v10, main_cst_2, main_v11, main_v12, main_cst_3, main_v13, main_v14, main_cst_4]

/-- A buffer the piece does not write keeps its contents. -/
theorem keep_hostOps0 (V : Valuation τ sig (Elt F)) (b : Ref sig .tc) (hb : ∀ y ∈ wr_hostOps0, b ≠ y) :
    after (hostOps0 (F := F)) V (Proc.devRef .tc b) = V (Proc.devRef .tc b) :=
  after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v1 (V : Valuation τ sig (Elt F)) :
    (after (hostOps0 (F := F)) V) (Proc.devRef .tc main_v1) = kf1 (V (Proc.devRef .tc main_arg1)) := by
  unfold kf1
  dsimp only [hostOps0]
  after_results_simp <;> rfl

theorem c_main_v3 (V : Valuation τ sig (Elt F)) :
    (after (hostOps0 (F := F)) V) (Proc.devRef .tc main_v3) = kf2 (V (Proc.devRef .tc main_arg1)) := by
  unfold kf2
  dsimp only [hostOps0]
  after_results_simp <;> rfl

theorem c_main_v4 (V : Valuation τ sig (Elt F)) :
    (after (hostOps0 (F := F)) V) (Proc.devRef .tc main_v4) = kf3  := by
  unfold kf3
  dsimp only [hostOps0]
  after_results_simp <;> rfl

theorem c_main_v7 (V : Valuation τ sig (Elt F)) :
    (after (hostOps0 (F := F)) V) (Proc.devRef .tc main_v7) = kf4 ((after (hostOps0 (F := F)) V) (Proc.devRef .tc main_v1)) ((after (hostOps0 (F := F)) V) (Proc.devRef .tc main_v4)) := by
  unfold kf4
  dsimp only [hostOps0]
  after_results_simp <;> rfl

theorem c_main_v10 (V : Valuation τ sig (Elt F)) :
    (after (hostOps0 (F := F)) V) (Proc.devRef .tc main_v10) = kf5 ((after (hostOps0 (F := F)) V) (Proc.devRef .tc main_v3)) ((after (hostOps0 (F := F)) V) (Proc.devRef .tc main_v4)) := by
  unfold kf5
  dsimp only [hostOps0]
  after_results_simp <;> rfl

theorem c_main_v12 (V : Valuation τ sig (Elt F)) :
    (after (hostOps0 (F := F)) V) (Proc.devRef .tc main_v12) = kf6 ((after (hostOps0 (F := F)) V) (Proc.devRef .tc main_v7)) := by
  unfold kf6
  dsimp only [hostOps0]
  after_results_simp <;> rfl

theorem c_main_v14 (V : Valuation τ sig (Elt F)) :
    (after (hostOps0 (F := F)) V) (Proc.devRef .tc main_v14) = kf7 ((after (hostOps0 (F := F)) V) (Proc.devRef .tc main_v7)) := by
  unfold kf7
  dsimp only [hostOps0]
  after_results_simp <;> rfl

theorem c_main_cst_4 (V : Valuation τ sig (Elt F)) :
    (after (hostOps0 (F := F)) V) (Proc.devRef .tc main_cst_4) = kf8  := by
  unfold kf8
  dsimp only [hostOps0]
  after_results_simp <;> rfl

end Cert.KernelIdeal.Val

end
-- ==== Proof.KSeg_hostOps0_1.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps0_1 : List (Ref sig .tc) := [main_call0_v0, main_call0_v1, main_v15]

/-- A buffer the piece does not write keeps its contents. -/
theorem keep_hostOps0_1 (V : Valuation τ sig (Elt F)) (b : Ref sig .tc) (hb : ∀ y ∈ wr_hostOps0_1, b ≠ y) :
    after (hostOps0_1 (F := F)) V (Proc.devRef .tc b) = V (Proc.devRef .tc b) :=
  after_of_forall_not_mem (b := Proc.devRef .tc b) _ _ (List.forall_iff_forall_mem.mp (by
    simp only [hostOps0_1, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v15 (V : Valuation τ sig (Elt F)) :
    (after (hostOps0_1 (F := F)) V) (Proc.devRef .tc main_v15) = kf9 (V (Proc.devRef .tc main_v12)) (V (Proc.devRef .tc main_v14)) (V (Proc.devRef .tc main_cst_4)) := by
  unfold kf9
  dsimp only [hostOps0_1]
  after_results_simp <;> rfl

end Cert.KernelIdeal.Val

end
-- ==== Proof.KSeg_hostOps0_2.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps0_2 : List (Ref sig .tc) := [main_cst_5, main_v16, main_v17, main_cst_6, main_v18, main_v19, main_cst_7]

/-- A buffer the piece does not write keeps its contents. -/
theorem keep_hostOps0_2 (V : Valuation τ sig (Elt F)) (b : Ref sig .tc) (hb : ∀ y ∈ wr_hostOps0_2, b ≠ y) :
    after (hostOps0_2 (F := F)) V (Proc.devRef .tc b) = V (Proc.devRef .tc b) :=
  after_of_forall_not_mem (b := Proc.devRef .tc b) _ _ (List.forall_iff_forall_mem.mp (by
    simp only [hostOps0_2, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v17 (V : Valuation τ sig (Elt F)) :
    (after (hostOps0_2 (F := F)) V) (Proc.devRef .tc main_v17) = kf10 (V (Proc.devRef .tc main_v10)) := by
  unfold kf10
  dsimp only [hostOps0_2]
  after_results_simp <;> rfl

theorem c_main_v19 (V : Valuation τ sig (Elt F)) :
    (after (hostOps0_2 (F := F)) V) (Proc.devRef .tc main_v19) = kf11 (V (Proc.devRef .tc main_v10)) := by
  unfold kf11
  dsimp only [hostOps0_2]
  after_results_simp <;> rfl

theorem c_main_cst_7 (V : Valuation τ sig (Elt F)) :
    (after (hostOps0_2 (F := F)) V) (Proc.devRef .tc main_cst_7) = kf8  := by
  unfold kf8
  dsimp only [hostOps0_2]
  after_results_simp <;> rfl

end Cert.KernelIdeal.Val

end
-- ==== Proof.KSeg_hostOps0_3.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps0_3 : List (Ref sig .tc) := [main_call1_v0, main_call1_v1, main_v20]

/-- A buffer the piece does not write keeps its contents. -/
theorem keep_hostOps0_3 (V : Valuation τ sig (Elt F)) (b : Ref sig .tc) (hb : ∀ y ∈ wr_hostOps0_3, b ≠ y) :
    after (hostOps0_3 (F := F)) V (Proc.devRef .tc b) = V (Proc.devRef .tc b) :=
  after_of_forall_not_mem (b := Proc.devRef .tc b) _ _ (List.forall_iff_forall_mem.mp (by
    simp only [hostOps0_3, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v20 (V : Valuation τ sig (Elt F)) :
    (after (hostOps0_3 (F := F)) V) (Proc.devRef .tc main_v20) = kf12 (V (Proc.devRef .tc main_v17)) (V (Proc.devRef .tc main_v19)) (V (Proc.devRef .tc main_cst_7)) := by
  unfold kf12
  dsimp only [hostOps0_3]
  after_results_simp <;> rfl

end Cert.KernelIdeal.Val

end
-- ==== Proof.KSeg_hostOps0_4.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps0_4 : List (Ref sig .tc) := [main_v21]

/-- A buffer the piece does not write keeps its contents. -/
theorem keep_hostOps0_4 (V : Valuation τ sig (Elt F)) (b : Ref sig .tc) (hb : ∀ y ∈ wr_hostOps0_4, b ≠ y) :
    after (hostOps0_4 (F := F)) V (Proc.devRef .tc b) = V (Proc.devRef .tc b) :=
  after_of_forall_not_mem (b := Proc.devRef .tc b) _ _ (List.forall_iff_forall_mem.mp (by
    simp only [hostOps0_4, List.Forall, StableHlo.nullary_writes, StableHlo.unary_writes, StableHlo.binary_writes, StableHlo.ternary_writes, StableHlo.quaternary_writes, StableHlo.reshape_writes, Finset.mem_singleton]
    skip
    all_goals exact devRef_ne_of_ne (hb _ (by decide))))

theorem c_main_v21 (V : Valuation τ sig (Elt F)) :
    (after (hostOps0_4 (F := F)) V) (Proc.devRef .tc main_v21) = kf13 (V (Proc.devRef .tc main_arg2)) (V (Proc.devRef .tc main_arg4)) := by
  unfold kf13
  dsimp only [hostOps0_4]
  after_results_simp <;> rfl

end Cert.KernelIdeal.Val

end
-- ==== Proof.KSeg_hostOps1.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps1 : List (Ref sig .tc) := [main_c, main_v23, main_v24, main_c_8, main_v25, main_v26, main_v27, main_v28, main_v29, main_cst_9, main_v30, main_v31, main_v32, main_v33, main_v34, main_v35, main_c_10, main_v36, main_v37, main_c_11, main_v38, main_v39, main_v40, main_v41, main_v42, main_cst_12, main_v43, main_v44, main_v45, main_v46, main_v47, main_v48, main_v49, main_v50, main_v51, main_v52, main_v53, main_v54, main_v55, main_v56, main_cst_13, main_v57, main_cst_14, main_v58, main_v59, main_c_15]

/-- A buffer the piece does not write keeps its contents. -/
theorem keep_hostOps1 (V : Valuation τ sig (Elt F)) (b : Ref sig .tc) (hb : ∀ y ∈ wr_hostOps1, b ≠ y) :
    after (hostOps1 (F := F)) V (Proc.devRef .tc b) = V (Proc.devRef .tc b) :=
  after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v48 (V : Valuation τ sig (Elt F)) :
    (after (hostOps1 (F := F)) V) (Proc.devRef .tc main_v48) = kf14 (V (Proc.devRef .tc main_v1)) (V (Proc.devRef .tc main_v3)) (V (Proc.devRef .tc main_v22)) (V (Proc.devRef .tc main_v20)) (V (Proc.devRef .tc main_v15)) := by
  unfold kf14
  dsimp only [hostOps1]
  after_results_simp <;> rfl

theorem c_main_v52 (V : Valuation τ sig (Elt F)) :
    (after (hostOps1 (F := F)) V) (Proc.devRef .tc main_v52) = kf15 ((after (hostOps1 (F := F)) V) (Proc.devRef .tc main_v48)) (V (Proc.devRef .tc main_arg3)) := by
  unfold kf15
  dsimp only [hostOps1]
  after_results_simp <;> rfl

theorem c_main_v56 (V : Valuation τ sig (Elt F)) :
    (after (hostOps1 (F := F)) V) (Proc.devRef .tc main_v56) = kf16 ((after (hostOps1 (F := F)) V) (Proc.devRef .tc main_v48)) (V (Proc.devRef .tc main_arg5)) := by
  unfold kf16
  dsimp only [hostOps1]
  after_results_simp <;> rfl

theorem c_main_v59 (V : Valuation τ sig (Elt F)) :
    (after (hostOps1 (F := F)) V) (Proc.devRef .tc main_v59) = kf17 ((after (hostOps1 (F := F)) V) (Proc.devRef .tc main_v52)) := by
  unfold kf17
  dsimp only [hostOps1]
  after_results_simp <;> rfl

theorem c_main_c_15 (V : Valuation τ sig (Elt F)) :
    (after (hostOps1 (F := F)) V) (Proc.devRef .tc main_c_15) = kf18  := by
  unfold kf18
  dsimp only [hostOps1]
  after_results_simp <;> rfl

end Cert.KernelIdeal.Val

end
-- ==== Proof.KSeg_hostOps1_1.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps1_1 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v60]

/-- A buffer the piece does not write keeps its contents. -/
theorem keep_hostOps1_1 (V : Valuation τ sig (Elt F)) (b : Ref sig .tc) (hb : ∀ y ∈ wr_hostOps1_1, b ≠ y) :
    after (hostOps1_1 (F := F)) V (Proc.devRef .tc b) = V (Proc.devRef .tc b) :=
  after_of_forall_not_mem (b := Proc.devRef .tc b) _ _ (List.forall_iff_forall_mem.mp (by
    simp only [hostOps1_1, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_call2_v5 (V : Valuation τ sig (Elt F)) :
    (after (hostOps1_1 (F := F)) V) (Proc.devRef .tc main_call2_v5) = kf19 (V (Proc.devRef .tc main_v52)) := by
  unfold kf19
  dsimp only [hostOps1_1]
  after_results_simp <;> rfl

theorem c_main_call2_v8 (V : Valuation τ sig (Elt F)) :
    (after (hostOps1_1 (F := F)) V) (Proc.devRef .tc main_call2_v8) = kf20 (V (Proc.devRef .tc main_c_15)) := by
  unfold kf20
  dsimp only [hostOps1_1]
  after_results_simp <;> rfl

theorem c_main_call2_v11 (V : Valuation τ sig (Elt F)) :
    (after (hostOps1_1 (F := F)) V) (Proc.devRef .tc main_call2_v11) = kf21 ((after (hostOps1_1 (F := F)) V) (Proc.devRef .tc main_call2_v5)) ((after (hostOps1_1 (F := F)) V) (Proc.devRef .tc main_call2_v8)) := by
  unfold kf21
  dsimp only [hostOps1_1]
  after_results_simp <;> rfl

theorem c_main_v60 (V : Valuation τ sig (Elt F)) :
    (after (hostOps1_1 (F := F)) V) (Proc.devRef .tc main_v60) = kf22 ((after (hostOps1_1 (F := F)) V) (Proc.devRef .tc main_call2_v8)) ((after (hostOps1_1 (F := F)) V) (Proc.devRef .tc main_call2_v11)) := by
  unfold kf22
  dsimp only [hostOps1_1]
  after_results_simp <;> rfl

end Cert.KernelIdeal.Val

end
-- ==== Proof.KSeg_hostOps1_2.lean ====
/- One stretch of the program's host operations: every value the stretch names is the stage function of the values it is computed from, and a buffer the stretch does not write keeps its contents. -/
import proofs.«127768_j9405978378358_1_alg».proof.Proof.Gen.KernelIdeal.Launch
import proofs.«127768_j9405978378358_1_alg».proof.Proof.KFun

set_option maxRecDepth 16384

noncomputable section

namespace Cert.KernelIdeal.Val

open Cert.KernelIdeal Cert.KernelIdeal.Gen Idealize.ShloMosaic Idealize.ShloMosaic.TcCoe Idealize.ShloMosaic.StableHlo

variable {F : FTy → Type} [FloatOps F]

/-- The buffers the piece writes. -/
abbrev wr_hostOps1_2 : List (Ref sig .tc) := [main_v61, main_v62, main_v63, main_v64, main_v65, main_v66, main_v67, main_v68]

/-- A buffer the piece does not write keeps its contents. -/
theorem keep_hostOps1_2 (V : Valuation τ sig (Elt F)) (b : Ref sig .tc) (hb : ∀ y ∈ wr_hostOps1_2, b ≠ y) :
    after (hostOps1_2 (F := F)) V (Proc.devRef .tc b) = V (Proc.devRef .tc b) :=
  after_of_forall_not_mem (b := Proc.devRef .tc b) _ _ (List.forall_iff_forall_mem.mp (by
    simp only [hostOps1_2, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v62 (V : Valuation τ sig (Elt F)) :
    (after (hostOps1_2 (F := F)) V) (Proc.devRef .tc main_v62) = kf23 (V (Proc.devRef .tc main_arg10)) := by
  unfold kf23
  dsimp only [hostOps1_2]
  after_results_simp <;> rfl

theorem c_main_v64 (V : Valuation τ sig (Elt F)) :
    (after (hostOps1_2 (F := F)) V) (Proc.devRef .tc main_v64) = kf23 (V (Proc.devRef .tc main_arg11)) := by
  unfold kf23
  dsimp only [hostOps1_2]
  after_results_simp <;> rfl

theorem c_main_v65 (V : Valuation τ sig (Elt F)) :
    (after (hostOps1_2 (F := F)) V) (Proc.devRef .tc main_v65) = kf24 (V (Proc.devRef .tc main_v59)) := by
  unfold kf24
  dsimp only [hostOps1_2]
  after_results_simp <;> rfl

theorem c_main_v66 (V : Valuation τ sig (Elt F)) :
    (after (hostOps1_2 (F := F)) V) (Proc.devRef .tc main_v66) = kf24 (V (Proc.devRef .tc main_v60)) := by
  unfold kf24
  dsimp only [hostOps1_2]
  after_results_simp <;> rfl

theorem c_main_v67 (V : Valuation τ sig (Elt F)) :
    (after (hostOps1_2 (F := F)) V) (Proc.devRef .tc main_v67) = kf24 ((after (hostOps1_2 (F := F)) V) (Proc.devRef .tc main_v62)) := by
  unfold kf24
  dsimp only [hostOps1_2]
  after_results_simp <;> rfl

theorem c_main_v68 (V : Valuation τ sig (Elt F)) :
    (after (hostOps1_2 (F := F)) V) (Proc.devRef .tc main_v68) = kf24 ((after (hostOps1_2 (F := F)) V) (Proc.devRef .tc main_v64)) := by
  unfold kf24
  dsimp only [hostOps1_2]
  after_results_simp <;> rfl

end Cert.KernelIdeal.Val

end
-- ==== Proof.KReg0.lean ====
/-
  Region 0: the value of its output array.

  The grid has ten points; point `t` stages rows `10000 t … 10000 t + 9999` of the left operand, all of the weights, and
  writes back the same rows of the output. The body rounds both operands to a narrower format (no change on the extended
  reals) and multiplies them into a zero accumulator, so what point `t` writes back is the product of its block of rows
  with the weights. A row of a matrix product depends on the same row of the left operand only, so that block is rows
  `10000 t …` of the product of the whole left operand with the weights; the ten blocks cover every row (row `r` lies in
  the block of point `r / 10000`), and the array ends holding that product.
-/
import proofs.«127768_j9405978378358_1_alg».proof.Proof.FrameKernelIdealP
import proofs.«127768_j9405978378358_1_alg».proof.Proof.LibDense
import proofs.«127768_j9405978378358_1_alg».proof.Proof.LibBiasRow
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin0 : (![0, 0] : Fin 2 → Nat) = fun _ => 0 := funext fun a => by fin_cases a <;> rfl

/-- The body's value: the block of rows times the weights. -/
theorem payload0 (x0 : Vec Ideal S10000x96 .f32) (x1 : Vec Ideal S96x160 .f32) :
    k0_pay1 (F := Ideal) x0 x1 = mm (M := 10000) (K := 96) (N := 160) x0 x1 := by
  unfold k0_pay1
  simp only [shapeCast_self]
  exact matmul_zero_eq_mm _ rfl rfl rfl rfl rfl rfl none _ _

/-- What the body leaves in the output's staging buffer. -/
theorem block0 (x0 : Vec Ideal S10000x96 .f32) (x1 : Vec Ideal S96x160 .f32) :
    out0_2 (F := Ideal) x0 x1 = mm (M := 10000) (K := 96) (N := 160) x0 x1 := by
  unfold out0_2
  rw [View.canon_unit_zero origin0]
  simp only [View.ld_unit_zero (S := S10000x96) origin0, View.ld_unit_zero (S := S96x160) origin0]
  exact payload0 x0 x1

/-- The block indices over the grid: the row-tiled windows sit at block `(t, 0)`, the weights at block `(0, 0)`. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the whole arrays. -/
theorem written0 (c : Dev nD) (t : Fin cfg0.N) :
    (dat0 (F := Ideal) V c).flushed 2 t
      = ((cfg0.win 2).blk t).view.read (Elt Ideal)
          (mm (M := 100000) (K := 96) (N := 160) (V c (Pipeline.arrRef spec0 0)) (V c (Pipeline.arrRef spec0 1))) := by
  show (cfg0.win 2).cut (grid0.coords t) ((dat0 V c).after 2 t) = _
  rw [after0_2, block0]
  obtain ⟨e00, e01, e10, e11, e20, e21⟩ := index0 t
  funext j
  show mm (M := 10000) (K := 96) (N := 160) (iblk0 V c 0 t) (iblk0 V c 1 t) j
      = mm (M := 100000) (K := 96) (N := 160) (V c (Pipeline.arrRef spec0 0)) (V c (Pipeline.arrRef spec0 1))
          (((cfg0.win 2).blk t).view.emb j)
  refine Cert.BiasRow.mm_at _ _ _ _ j _ (fun k => ?_) (fun k => ?_)
  · show V c (Pipeline.arrRef spec0 0) (((cfg0.win 0).blk t).view.emb (ix2 (c0 j) k))
        = V c (Pipeline.arrRef spec0 0) (ix2 (c0 (((cfg0.win 2).blk t).view.emb j)) k)
    refine congrArg _ (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 96 + 1 * k.val = k.val
      omega
  · show V c (Pipeline.arrRef spec0 1) (((cfg0.win 1).blk t).view.emb (ix2 k (c1 j)))
        = V c (Pipeline.arrRef spec0 1) (ix2 k (c1 (((cfg0.win 2).blk t).view.emb j)))
    refine congrArg _ (funext fun a => Fin.ext ?_)
    match a with
    | ⟨0, _⟩ =>
      show win0_1.index t (0 : Fin 2) * 96 + 1 * k.val = k.val
      omega
    | ⟨1, _⟩ =>
      show win0_1.index t (1 : Fin 2) * 160 + 1 * (j 1).val = win0_2.index t (1 : Fin 2) * 160 + 1 * (j 1).val
      omega

/-- An index of the output array lies in point `t`'s block iff each coordinate lies in the block's range on its axis. -/
theorem inBlock0 (t : Fin cfg0.N) (i : S100000x160.Idx) :
    i ∈ ((cfg0.win 2).blk t).view.set
      ↔ ∀ a : Fin 2, win0_2.index t a * S10000x160.size a ≤ (i a).val
          ∧ (i a).val < win0_2.index t a * S10000x160.size a + S10000x160.size a := by
  show i ∈ ((View.whole (Pipeline.arrRef spec0 2)).slice (win0_2.rect t)).set ↔ _
  rw [View.set_slice_whole, Rect.mem_set_unit]
  exact Iff.rfl

/-- Every row of the output lies in the block of the point its row number divided by 10000 names. -/
theorem covered0 (i : S100000x160.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 160 := (i 1).isLt
  refine ⟨⟨(i 0).val / 10000, by rw [hN]; omega⟩, flush0_2 _, ?_⟩
  obtain ⟨-, -, -, -, e20, e21⟩ := index0 ⟨(i 0).val / 10000, by rw [hN]; omega⟩
  rw [inBlock0]
  intro a
  match a with
  | ⟨0, _⟩ =>
    show win0_2.index _ (0 : Fin 2) * 10000 ≤ (i 0).val ∧ (i 0).val < win0_2.index _ (0 : Fin 2) * 10000 + 10000
    rw [e20]
    show (i 0).val / 10000 * 10000 ≤ (i 0).val ∧ (i 0).val < (i 0).val / 10000 * 10000 + 10000
    omega
  | ⟨1, _⟩ =>
    show win0_2.index _ (1 : Fin 2) * 160 ≤ (i 1).val ∧ (i 1).val < win0_2.index _ (1 : Fin 2) * 160 + 160
    rw [e21]
    omega

/-- THE OUTPUT ARRAY after the region: the product of the two input arrays as the region finds them. -/
theorem arr0 (c : Dev nD) :
    (dat0 (F := Ideal) V c).arrAt 2 cfg0.N
      = mm (M := 100000) (K := 96) (N := 160) (V c (Pipeline.arrRef spec0 0)) (V c (Pipeline.arrRef spec0 1)) :=
  (dat0 (F := Ideal) V c).arrAt_eq_of_cover 2 _ (fun t _ => written0 V c t) (covered0)

end Cert.KernelIdeal.RegionValue

end
-- ==== Proof.KReg1.lean ====
/-
  Region 1: the value of its output array.

  The grid has ten points; point `t` stages rows `10000 t … 10000 t + 9999` of the two row arrays, all of each of the four
  one-row statistics, and writes back the same rows of the output. The body is the normalising layer `bn` of its blocks
  (each statistic broadcast to every row, then pointwise arithmetic). An entry of `bn` depends on the entry of each row
  array at the same place and on the statistics of its column, so what point `t` writes back is rows `10000 t …` of `bn`
  of the whole arrays; the ten blocks cover every row (row `r` lies in the block of point `r / 10000`), and the array
  ends holding `bn` of the arrays the region finds.
-/
import proofs.«127768_j9405978378358_1_alg».proof.Proof.FrameKernelIdealP
import proofs.«127768_j9405978378358_1_alg».proof.Proof.LibDense
import proofs.«127768_j9405978378358_1_alg».proof.Proof.KBnSpec
import Idealize.ShloMosaic.Lib.Pipeline.Value

noncomputable section

namespace Cert.KernelIdeal.RegionValue

open Cert.KernelIdeal Cert.KernelIdeal.Gen Cert.KernelIdeal.GenP Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem origin1 : (![0, 0] : Fin 2 → Nat) = fun _ => 0 := funext fun a => by fin_cases a <;> rfl

/-- The body's value: the normalising layer of its blocks. -/
theorem payload1 (x0 x1 : Vec Ideal S10000x80 .f32) (x2 x3 x4 x5 : Vec Ideal S1x80 .f32) :
    k1_pay1 (F := Ideal) x0 x1 x2 x3 x4 x5 = bn (M := 10000) (N := 80) x0 x1 x2 x3 x4 x5 := by
  unfold k1_pay1
  simp only [shapeCast_self]
  exact vecBn x0 x1 x2 x3 x4 x5 _

/-- What the body leaves in the output's staging buffer. -/
theorem block1 (x0 x1 : Vec Ideal S10000x80 .f32) (x2 x3 x4 x5 : Vec Ideal S1x80 .f32) :
    out1_6 (F := Ideal) x0 x1 x2 x3 x4 x5 = bn (M := 10000) (N := 80) x0 x1 x2 x3 x4 x5 := by
  unfold out1_6
  rw [View.canon_unit_zero origin1]
  simp only [View.ld_unit_zero (S := S10000x80) origin1, View.ld_unit_zero (S := S1x80) origin1]
  exact payload1 x0 x1 x2 x3 x4 x5

/-! The block indices over the grid, window by window: the row-tiled windows (the two row arrays and the output) sit at
    block `(t, 0)` at point `t`, each one-row statistic at block `(0, 0)`. -/

theorem index1_6 : ∀ t : Fin cfg1.N, win1_6.index t (0 : Fin 2) = t.val ∧ win1_6.index t (1 : Fin 2) = 0 :=
  (by decide +kernel : ∀ t : Fin grid1.N, _)

theorem index1_0 : ∀ t : Fin cfg1.N, win1_0.index t (0 : Fin 2) = t.val ∧ win1_0.index t (1 : Fin 2) = 0 :=
  (by decide +kernel : ∀ t : Fin grid1.N, _)

/-- Window 0's block at point `t` lies over the same rows and columns of its array as the output's block does of its own. -/
theorem place1_0 (t : Fin cfg1.N) (j : S10000x80.Idx) : (win1_0.blk t).view.emb j = (win1_6.blk t).view.emb j := by
  have h := index1_0 t
  have h6 := index1_6 t
  funext a
  apply Fin.ext
  match a with
  | ⟨0, _⟩ =>
    show win1_0.index t (0 : Fin 2) * 10000 + 1 * (j 0).val = win1_6.index t (0 : Fin 2) * 10000 + 1 * (j 0).val
    omega
  | ⟨1, _⟩ =>
    show win1_0.index t (1 : Fin 2) * 80 + 1 * (j 1).val = win1_6.index t (1 : Fin 2) * 80 + 1 * (j 1).val
    omega

set_option maxHeartbeats 1000000 in
/-- So an entry of window 0's block is the array's entry under the output block's index. -/
theorem rows1_0 (c : Dev nD) (t : Fin cfg1.N) (j : S10000x80.Idx) :
    iblk1 V c 0 t j = V c (Pipeline.arrRef spec1 0) ((win1_6.blk t).view.emb j) :=
  congrArg (V c (Pipeline.arrRef spec1 0)) (place1_0 t j)

theorem index1_1 : ∀ t : Fin cfg1.N, win1_1.index t (0 : Fin 2) = t.val ∧ win1_1.index t (1 : Fin 2) = 0 :=
  (by decide +kernel : ∀ t : Fin grid1.N, _)

/-- Window 1's block at point `t` lies over the same rows and columns of its array as the output's block does of its own. -/
theorem place1_1 (t : Fin cfg1.N) (j : S10000x80.Idx) : (win1_1.blk t).view.emb j = (win1_6.blk t).view.emb j := by
  have h := index1_1 t
  have h6 := index1_6 t
  funext a
  apply Fin.ext
  match a with
  | ⟨0, _⟩ =>
    show win1_1.index t (0 : Fin 2) * 10000 + 1 * (j 0).val = win1_6.index t (0 : Fin 2) * 10000 + 1 * (j 0).val
    omega
  | ⟨1, _⟩ =>
    show win1_1.index t (1 : Fin 2) * 80 + 1 * (j 1).val = win1_6.index t (1 : Fin 2) * 80 + 1 * (j 1).val
    omega

set_option maxHeartbeats 1000000 in
/-- So an entry of window 1's block is the array's entry under the output block's index. -/
theorem rows1_1 (c : Dev nD) (t : Fin cfg1.N) (j : S10000x80.Idx) :
    iblk1 V c 1 t j = V c (Pipeline.arrRef spec1 1) ((win1_6.blk t).view.emb j) :=
  congrArg (V c (Pipeline.arrRef spec1 1)) (place1_1 t j)

theorem index1_2 : ∀ t : Fin cfg1.N, win1_2.index t (0 : Fin 2) = 0 ∧ win1_2.index t (1 : Fin 2) = 0 :=
  (by decide +kernel : ∀ t : Fin grid1.N, _)

/-- The one block of window 2 sits at the array's origin: an index inside the block is the same index of the array. -/
theorem place1_2 (t : Fin cfg1.N) (y : S1x80.Idx) : (win1_2.blk t).view.emb y = y := by
  have h := index1_2 t
  funext a
  apply Fin.ext
  match a with
  | ⟨0, _⟩ => show win1_2.index t (0 : Fin 2) * 1 + 1 * (y 0).val = (y 0).val; omega
  | ⟨1, _⟩ => show win1_2.index t (1 : Fin 2) * 80 + 1 * (y 1).val = (y 1).val; omega

set_option maxHeartbeats 1000000 in
/-- So window 2's block at any point is the whole one-row array. -/
theorem stat1_2 (c : Dev nD) (t : Fin cfg1.N) : iblk1 V c 2 t = V c (Pipeline.arrRef spec1 2) :=
  funext fun y => congrArg (V c (Pipeline.arrRef spec1 2)) (place1_2 t y)

theorem index1_3 : ∀ t : Fin cfg1.N, win1_3.index t (0 : Fin 2) = 0 ∧ win1_3.index t (1 : Fin 2) = 0 :=
  (by decide +kernel : ∀ t : Fin grid1.N, _)

/-- The one block of window 3 sits at the array's origin: an index inside the block is the same index of the array. -/
theorem place1_3 (t : Fin cfg1.N) (y : S1x80.Idx) : (win1_3.blk t).view.emb y = y := by
  have h := index1_3 t
  funext a
  apply Fin.ext
  match a with
  | ⟨0, _⟩ => show win1_3.index t (0 : Fin 2) * 1 + 1 * (y 0).val = (y 0).val; omega
  | ⟨1, _⟩ => show win1_3.index t (1 : Fin 2) * 80 + 1 * (y 1).val = (y 1).val; omega

set_option maxHeartbeats 1000000 in
/-- So window 3's block at any point is the whole one-row array. -/
theorem stat1_3 (c : Dev nD) (t : Fin cfg1.N) : iblk1 V c 3 t = V c (Pipeline.arrRef spec1 3) :=
  funext fun y => congrArg (V c (Pipeline.arrRef spec1 3)) (place1_3 t y)

theorem index1_4 : ∀ t : Fin cfg1.N, win1_4.index t (0 : Fin 2) = 0 ∧ win1_4.index t (1 : Fin 2) = 0 :=
  (by decide +kernel : ∀ t : Fin grid1.N, _)

/-- The one block of window 4 sits at the array's origin: an index inside the block is the same index of the array. -/
theorem place1_4 (t : Fin cfg1.N) (y : S1x80.Idx) : (win1_4.blk t).view.emb y = y := by
  have h := index1_4 t
  funext a
  apply Fin.ext
  match a with
  | ⟨0, _⟩ => show win1_4.index t (0 : Fin 2) * 1 + 1 * (y 0).val = (y 0).val; omega
  | ⟨1, _⟩ => show win1_4.index t (1 : Fin 2) * 80 + 1 * (y 1).val = (y 1).val; omega

set_option maxHeartbeats 1000000 in
/-- So window 4's block at any point is the whole one-row array. -/
theorem stat1_4 (c : Dev nD) (t : Fin cfg1.N) : iblk1 V c 4 t = V c (Pipeline.arrRef spec1 4) :=
  funext fun y => congrArg (V c (Pipeline.arrRef spec1 4)) (place1_4 t y)

theorem index1_5 : ∀ t : Fin cfg1.N, win1_5.index t (0 : Fin 2) = 0 ∧ win1_5.index t (1 : Fin 2) = 0 :=
  (by decide +kernel : ∀ t : Fin grid1.N, _)

/-- The one block of window 5 sits at the array's origin: an index inside the block is the same index of the array. -/
theorem place1_5 (t : Fin cfg1.N) (y : S1x80.Idx) : (win1_5.blk t).view.emb y = y := by
  have h := index1_5 t
  funext a
  apply Fin.ext
  match a with
  | ⟨0, _⟩ => show win1_5.index t (0 : Fin 2) * 1 + 1 * (y 0).val = (y 0).val; omega
  | ⟨1, _⟩ => show win1_5.index t (1 : Fin 2) * 80 + 1 * (y 1).val = (y 1).val; omega

set_option maxHeartbeats 1000000 in
/-- So window 5's block at any point is the whole one-row array. -/
theorem stat1_5 (c : Dev nD) (t : Fin cfg1.N) : iblk1 V c 5 t = V c (Pipeline.arrRef spec1 5) :=
  funext fun y => congrArg (V c (Pipeline.arrRef spec1 5)) (place1_5 t y)

/-- The output block's columns are the array's columns. -/
theorem column1 (t : Fin cfg1.N) (j : S10000x80.Idx) : ((win1_6.blk t).view.emb j 1).val = (j 1).val := by
  have h6 := index1_6 t
  show win1_6.index t (1 : Fin 2) * 80 + 1 * (j 1).val = (j 1).val
  omega

set_option maxHeartbeats 1000000 in
/-- What point `t` writes back is block `t` of the layer of the whole arrays. -/
theorem written1 (c : Dev nD) (t : Fin cfg1.N) :
    (dat1 (F := Ideal) V c).flushed 6 t
      = ((cfg1.win 6).blk t).view.read (Elt Ideal)
          (bnK (V c (Pipeline.arrRef spec1 0)) (V c (Pipeline.arrRef spec1 1)) (V c (Pipeline.arrRef spec1 2))
            (V c (Pipeline.arrRef spec1 3)) (V c (Pipeline.arrRef spec1 4)) (V c (Pipeline.arrRef spec1 5))) := by
  show (cfg1.win 6).cut (grid1.coords t) ((dat1 V c).after 6 t) = _
  rw [after1_6, block1]
  funext j
  show bn (M := 10000) (N := 80) (iblk1 V c 0 t) (iblk1 V c 1 t) (iblk1 V c 2 t) (iblk1 V c 3 t) (iblk1 V c 4 t) (iblk1 V c 5 t) j
      = bn (M := 100000) (N := 80) (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          ((win1_6.blk t).view.emb j)
  exact bn_rows _ _ _ _ _ _ _ _ _ _ _ _ j _ (rows1_0 V c t j) (rows1_1 V c t j) (column1 t j)
    (stat1_2 V c t) (stat1_3 V c t) (stat1_4 V c t) (stat1_5 V c t)

/-- An index of the output array lies in point `t`'s block iff each coordinate lies in the block's range on its axis. -/
theorem inBlock1 (t : Fin cfg1.N) (i : S100000x80.Idx) :
    i ∈ ((cfg1.win 6).blk t).view.set
      ↔ ∀ a : Fin 2, win1_6.index t a * S10000x80.size a ≤ (i a).val
          ∧ (i a).val < win1_6.index t a * S10000x80.size a + S10000x80.size a := by
  show i ∈ ((View.whole (Pipeline.arrRef spec1 6)).slice (win1_6.rect t)).set ↔ _
  rw [View.set_slice_whole, Rect.mem_set_unit]
  exact Iff.rfl

/-- Every row of the output lies in the block of the point its row number divided by 10000 names. -/
theorem covered1 (i : S100000x80.Idx) :
    ∃ t : Fin cfg1.N, (cfg1.win 6).flush t = true ∧ i ∈ ((cfg1.win 6).blk t).view.set := by
  have hN : cfg1.N = 10 := N_1
  have hi0 : (i 0).val < 100000 := (i 0).isLt
  have hi1 : (i 1).val < 80 := (i 1).isLt
  refine ⟨⟨(i 0).val / 10000, by rw [hN]; omega⟩, flush1_6 _, ?_⟩
  obtain ⟨e60, e61⟩ := index1_6 ⟨(i 0).val / 10000, by rw [hN]; omega⟩
  rw [inBlock1]
  intro a
  match a with
  | ⟨0, _⟩ =>
    show win1_6.index _ (0 : Fin 2) * 10000 ≤ (i 0).val ∧ (i 0).val < win1_6.index _ (0 : Fin 2) * 10000 + 10000
    rw [e60]
    show (i 0).val / 10000 * 10000 ≤ (i 0).val ∧ (i 0).val < (i 0).val / 10000 * 10000 + 10000
    omega
  | ⟨1, _⟩ =>
    show win1_6.index _ (1 : Fin 2) * 80 ≤ (i 1).val ∧ (i 1).val < win1_6.index _ (1 : Fin 2) * 80 + 80
    rw [e61]
    omega

/-- THE OUTPUT ARRAY after the region: the layer of the six input arrays as the region finds them. -/
theorem arr1 (c : Dev nD) :
    (dat1 (F := Ideal) V c).arrAt 6 cfg1.N
      = bnK (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 (F := Ideal) V c).arrAt_eq_of_cover 6 _ (fun t _ => written1 V c t) (covered1)

end Cert.KernelIdeal.RegionValue

end
-- ==== Proof.RefTac.lean ====
/- A reference is outside a literal list of references when it differs from each member: the list is peeled one
   member at a time, each inequality decided by itself. -/
import Idealize.ShloMosaic.Lib.StableHlo.Run

/-- Closes `∀ y ∈ [a₁, …, aₙ], b ≠ y` for literal references. -/
macro "ref_notin" : tactic =>
  `(tactic| (repeat' (first | exact List.forall_mem_nil _ | (refine List.forall_mem_cons.mpr ⟨by decide, ?_⟩))))
-- ==== Proof.KState0.lean ====
/- The contents of the kernel program's buffers at its segment boundaries: each named value's buffer holds that value of the argument arrays. -/
import proofs.«127768_j9405978378358_1_alg».proof.Proof.FrameKernelIdealP
import proofs.«127768_j9405978378358_1_alg».proof.Proof.KVals
import proofs.«127768_j9405978378358_1_alg».proof.Proof.KIn
import proofs.«127768_j9405978378358_1_alg».proof.Proof.KSeg_hostOps0
import proofs.«127768_j9405978378358_1_alg».proof.Proof.KSeg_hostOps0_1
import proofs.«127768_j9405978378358_1_alg».proof.Proof.KSeg_hostOps0_2
import proofs.«127768_j9405978378358_1_alg».proof.Proof.KSeg_hostOps0_3
import proofs.«127768_j9405978378358_1_alg».proof.Proof.KSeg_hostOps0_4
import proofs.«127768_j9405978378358_1_alg».proof.Proof.KSeg_hostOps1
import proofs.«127768_j9405978378358_1_alg».proof.Proof.KSeg_hostOps1_1
import proofs.«127768_j9405978378358_1_alg».proof.Proof.KSeg_hostOps1_2
import proofs.«127768_j9405978378358_1_alg».proof.Proof.KReg0
import proofs.«127768_j9405978378358_1_alg».proof.Proof.KReg1
import proofs.«127768_j9405978378358_1_alg».proof.Proof.RefTac

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.StableHlo Idealize.SL.Sem

variable (m : (ℓ : Loc nD τ sig) → Buf (Elt Ideal) ℓ) (ρ : Dev nD → PrngReg)

theorem s_init_main_arg0 (c : Dev nD) : W0 (F := Ideal) m ρ c (Proc.devRef .tc main_arg0) = (inK m c).a0 := rfl
theorem s_init_main_arg1 (c : Dev nD) : W0 (F := Ideal) m ρ c (Proc.devRef .tc main_arg1) = (inK m c).a1 := rfl
theorem s_init_main_arg2 (c : Dev nD) : W0 (F := Ideal) m ρ c (Proc.devRef .tc main_arg2) = (inK m c).a2 := rfl
theorem s_init_main_arg3 (c : Dev nD) : W0 (F := Ideal) m ρ c (Proc.devRef .tc main_arg3) = (inK m c).a3 := rfl
theorem s_init_main_arg4 (c : Dev nD) : W0 (F := Ideal) m ρ c (Proc.devRef .tc main_arg4) = (inK m c).a4 := rfl
theorem s_init_main_arg5 (c : Dev nD) : W0 (F := Ideal) m ρ c (Proc.devRef .tc main_arg5) = (inK m c).a5 := rfl
theorem s_init_main_arg6 (c : Dev nD) : W0 (F := Ideal) m ρ c (Proc.devRef .tc main_arg6) = (inK m c).a6 := rfl
theorem s_init_main_arg7 (c : Dev nD) : W0 (F := Ideal) m ρ c (Proc.devRef .tc main_arg7) = (inK m c).a7 := rfl
theorem s_init_main_arg8 (c : Dev nD) : W0 (F := Ideal) m ρ c (Proc.devRef .tc main_arg8) = (inK m c).a8 := rfl
theorem s_init_main_arg9 (c : Dev nD) : W0 (F := Ideal) m ρ c (Proc.devRef .tc main_arg9) = (inK m c).a9 := rfl
theorem s_init_main_arg10 (c : Dev nD) : W0 (F := Ideal) m ρ c (Proc.devRef .tc main_arg10) = (inK m c).a10 := rfl
theorem s_init_main_arg11 (c : Dev nD) : W0 (F := Ideal) m ρ c (Proc.devRef .tc main_arg11) = (inK m c).a11 := rfl
theorem s_init_main_arg12 (c : Dev nD) : W0 (F := Ideal) m ρ c (Proc.devRef .tc main_arg12) = (inK m c).a12 := rfl
theorem s_init_main_arg13 (c : Dev nD) : W0 (F := Ideal) m ρ c (Proc.devRef .tc main_arg13) = (inK m c).a13 := rfl

theorem s0_main_arg2 (c : Dev nD) : W1 (F := Ideal) m ρ c (Proc.devRef .tc main_arg2) = (inK m c).a2 :=
  (keep_hostOps0 (F := Ideal) (W0 m ρ c) main_arg2 (by ref_notin)).trans (s_init_main_arg2 m ρ c)
theorem s0_main_arg4 (c : Dev nD) : W1 (F := Ideal) m ρ c (Proc.devRef .tc main_arg4) = (inK m c).a4 :=
  (keep_hostOps0 (F := Ideal) (W0 m ρ c) main_arg4 (by ref_notin)).trans (s_init_main_arg4 m ρ c)
theorem s0_main_arg0 (c : Dev nD) : W1 (F := Ideal) m ρ c (Proc.devRef .tc main_arg0) = (inK m c).a0 :=
  (keep_hostOps0 (F := Ideal) (W0 m ρ c) main_arg0 (by ref_notin)).trans (s_init_main_arg0 m ρ c)
theorem s0_main_arg3 (c : Dev nD) : W1 (F := Ideal) m ρ c (Proc.devRef .tc main_arg3) = (inK m c).a3 :=
  (keep_hostOps0 (F := Ideal) (W0 m ρ c) main_arg3 (by ref_notin)).trans (s_init_main_arg3 m ρ c)
theorem s0_main_arg5 (c : Dev nD) : W1 (F := Ideal) m ρ c (Proc.devRef .tc main_arg5) = (inK m c).a5 :=
  (keep_hostOps0 (F := Ideal) (W0 m ρ c) main_arg5 (by ref_notin)).trans (s_init_main_arg5 m ρ c)
theorem s0_main_arg10 (c : Dev nD) : W1 (F := Ideal) m ρ c (Proc.devRef .tc main_arg10) = (inK m c).a10 :=
  (keep_hostOps0 (F := Ideal) (W0 m ρ c) main_arg10 (by ref_notin)).trans (s_init_main_arg10 m ρ c)
theorem s0_main_arg11 (c : Dev nD) : W1 (F := Ideal) m ρ c (Proc.devRef .tc main_arg11) = (inK m c).a11 :=
  (keep_hostOps0 (F := Ideal) (W0 m ρ c) main_arg11 (by ref_notin)).trans (s_init_main_arg11 m ρ c)
theorem s0_main_arg6 (c : Dev nD) : W1 (F := Ideal) m ρ c (Proc.devRef .tc main_arg6) = (inK m c).a6 :=
  (keep_hostOps0 (F := Ideal) (W0 m ρ c) main_arg6 (by ref_notin)).trans (s_init_main_arg6 m ρ c)
theorem s0_main_arg8 (c : Dev nD) : W1 (F := Ideal) m ρ c (Proc.devRef .tc main_arg8) = (inK m c).a8 :=
  (keep_hostOps0 (F := Ideal) (W0 m ρ c) main_arg8 (by ref_notin)).trans (s_init_main_arg8 m ρ c)
theorem s0_main_arg7 (c : Dev nD) : W1 (F := Ideal) m ρ c (Proc.devRef .tc main_arg7) = (inK m c).a7 :=
  (keep_hostOps0 (F := Ideal) (W0 m ρ c) main_arg7 (by ref_notin)).trans (s_init_main_arg7 m ρ c)
theorem s0_main_arg9 (c : Dev nD) : W1 (F := Ideal) m ρ c (Proc.devRef .tc main_arg9) = (inK m c).a9 :=
  (keep_hostOps0 (F := Ideal) (W0 m ρ c) main_arg9 (by ref_notin)).trans (s_init_main_arg9 m ρ c)
theorem s0_main_arg12 (c : Dev nD) : W1 (F := Ideal) m ρ c (Proc.devRef .tc main_arg12) = (inK m c).a12 :=
  (keep_hostOps0 (F := Ideal) (W0 m ρ c) main_arg12 (by ref_notin)).trans (s_init_main_arg12 m ρ c)
theorem s0_main_arg13 (c : Dev nD) : W1 (F := Ideal) m ρ c (Proc.devRef .tc main_arg13) = (inK m c).a13 :=
  (keep_hostOps0 (F := Ideal) (W0 m ρ c) main_arg13 (by ref_notin)).trans (s_init_main_arg13 m ρ c)
theorem s0_main_v1 (c : Dev nD) : W1 (F := Ideal) m ρ c (Proc.devRef .tc main_v1) = kv_main_v1 (inK m c) := by
  refine (c_main_v1 (F := Ideal) (W0 m ρ c)).trans ?_
  rw [s_init_main_arg1 m ρ c]
  rfl
theorem s0_main_v3 (c : Dev nD) : W1 (F := Ideal) m ρ c (Proc.devRef .tc main_v3) = kv_main_v3 (inK m c) := by
  refine (c_main_v3 (F := Ideal) (W0 m ρ c)).trans ?_
  rw [s_init_main_arg1 m ρ c]
  rfl
theorem s0_main_v4 (c : Dev nD) : W1 (F := Ideal) m ρ c (Proc.devRef .tc main_v4) = kv_main_v4 (inK m c) := by
  refine (c_main_v4 (F := Ideal) (W0 m ρ c)).trans ?_
  rfl
theorem s0_main_v7 (c : Dev nD) : W1 (F := Ideal) m ρ c (Proc.devRef .tc main_v7) = kv_main_v7 (inK m c) := by
  refine (c_main_v7 (F := Ideal) (W0 m ρ c)).trans ?_
  rw [show after (hostOps0 (F := Ideal)) (W0 m ρ c) (Proc.devRef .tc main_v1) = _ from s0_main_v1 m ρ c, show after (hostOps0 (F := Ideal)) (W0 m ρ c) (Proc.devRef .tc main_v4) = _ from s0_main_v4 m ρ c]
  rfl
theorem s0_main_v10 (c : Dev nD) : W1 (F := Ideal) m ρ c (Proc.devRef .tc main_v10) = kv_main_v10 (inK m c) := by
  refine (c_main_v10 (F := Ideal) (W0 m ρ c)).trans ?_
  rw [show after (hostOps0 (F := Ideal)) (W0 m ρ c) (Proc.devRef .tc main_v3) = _ from s0_main_v3 m ρ c, show after (hostOps0 (F := Ideal)) (W0 m ρ c) (Proc.devRef .tc main_v4) = _ from s0_main_v4 m ρ c]
  rfl
theorem s0_main_v12 (c : Dev nD) : W1 (F := Ideal) m ρ c (Proc.devRef .tc main_v12) = kv_main_v12 (inK m c) := by
  refine (c_main_v12 (F := Ideal) (W0 m ρ c)).trans ?_
  rw [show after (hostOps0 (F := Ideal)) (W0 m ρ c) (Proc.devRef .tc main_v7) = _ from s0_main_v7 m ρ c]
  rfl
theorem s0_main_v14 (c : Dev nD) : W1 (F := Ideal) m ρ c (Proc.devRef .tc main_v14) = kv_main_v14 (inK m c) := by
  refine (c_main_v14 (F := Ideal) (W0 m ρ c)).trans ?_
  rw [show after (hostOps0 (F := Ideal)) (W0 m ρ c) (Proc.devRef .tc main_v7) = _ from s0_main_v7 m ρ c]
  rfl
theorem s0_main_cst_4 (c : Dev nD) : W1 (F := Ideal) m ρ c (Proc.devRef .tc main_cst_4) = kv_main_cst_4 (inK m c) := by
  refine (c_main_cst_4 (F := Ideal) (W0 m ρ c)).trans ?_
  rfl

theorem s1_main_v1 (c : Dev nD) : W2 (F := Ideal) m ρ c (Proc.devRef .tc main_v1) = kv_main_v1 (inK m c) :=
  (keep_hostOps0_1 (F := Ideal) (W1 m ρ c) main_v1 (by ref_notin)).trans (s0_main_v1 m ρ c)
theorem s1_main_v3 (c : Dev nD) : W2 (F := Ideal) m ρ c (Proc.devRef .tc main_v3) = kv_main_v3 (inK m c) :=
  (keep_hostOps0_1 (F := Ideal) (W1 m ρ c) main_v3 (by ref_notin)).trans (s0_main_v3 m ρ c)
theorem s1_main_v10 (c : Dev nD) : W2 (F := Ideal) m ρ c (Proc.devRef .tc main_v10) = kv_main_v10 (inK m c) :=
  (keep_hostOps0_1 (F := Ideal) (W1 m ρ c) main_v10 (by ref_notin)).trans (s0_main_v10 m ρ c)
theorem s1_main_arg2 (c : Dev nD) : W2 (F := Ideal) m ρ c (Proc.devRef .tc main_arg2) = (inK m c).a2 :=
  (keep_hostOps0_1 (F := Ideal) (W1 m ρ c) main_arg2 (by ref_notin)).trans (s0_main_arg2 m ρ c)
theorem s1_main_arg4 (c : Dev nD) : W2 (F := Ideal) m ρ c (Proc.devRef .tc main_arg4) = (inK m c).a4 :=
  (keep_hostOps0_1 (F := Ideal) (W1 m ρ c) main_arg4 (by ref_notin)).trans (s0_main_arg4 m ρ c)
theorem s1_main_arg0 (c : Dev nD) : W2 (F := Ideal) m ρ c (Proc.devRef .tc main_arg0) = (inK m c).a0 :=
  (keep_hostOps0_1 (F := Ideal) (W1 m ρ c) main_arg0 (by ref_notin)).trans (s0_main_arg0 m ρ c)
theorem s1_main_arg3 (c : Dev nD) : W2 (F := Ideal) m ρ c (Proc.devRef .tc main_arg3) = (inK m c).a3 :=
  (keep_hostOps0_1 (F := Ideal) (W1 m ρ c) main_arg3 (by ref_notin)).trans (s0_main_arg3 m ρ c)
theorem s1_main_arg5 (c : Dev nD) : W2 (F := Ideal) m ρ c (Proc.devRef .tc main_arg5) = (inK m c).a5 :=
  (keep_hostOps0_1 (F := Ideal) (W1 m ρ c) main_arg5 (by ref_notin)).trans (s0_main_arg5 m ρ c)
theorem s1_main_arg10 (c : Dev nD) : W2 (F := Ideal) m ρ c (Proc.devRef .tc main_arg10) = (inK m c).a10 :=
  (keep_hostOps0_1 (F := Ideal) (W1 m ρ c) main_arg10 (by ref_notin)).trans (s0_main_arg10 m ρ c)
theorem s1_main_arg11 (c : Dev nD) : W2 (F := Ideal) m ρ c (Proc.devRef .tc main_arg11) = (inK m c).a11 :=
  (keep_hostOps0_1 (F := Ideal) (W1 m ρ c) main_arg11 (by ref_notin)).trans (s0_main_arg11 m ρ c)
theorem s1_main_arg6 (c : Dev nD) : W2 (F := Ideal) m ρ c (Proc.devRef .tc main_arg6) = (inK m c).a6 :=
  (keep_hostOps0_1 (F := Ideal) (W1 m ρ c) main_arg6 (by ref_notin)).trans (s0_main_arg6 m ρ c)
theorem s1_main_arg8 (c : Dev nD) : W2 (F := Ideal) m ρ c (Proc.devRef .tc main_arg8) = (inK m c).a8 :=
  (keep_hostOps0_1 (F := Ideal) (W1 m ρ c) main_arg8 (by ref_notin)).trans (s0_main_arg8 m ρ c)
theorem s1_main_arg7 (c : Dev nD) : W2 (F := Ideal) m ρ c (Proc.devRef .tc main_arg7) = (inK m c).a7 :=
  (keep_hostOps0_1 (F := Ideal) (W1 m ρ c) main_arg7 (by ref_notin)).trans (s0_main_arg7 m ρ c)
theorem s1_main_arg9 (c : Dev nD) : W2 (F := Ideal) m ρ c (Proc.devRef .tc main_arg9) = (inK m c).a9 :=
  (keep_hostOps0_1 (F := Ideal) (W1 m ρ c) main_arg9 (by ref_notin)).trans (s0_main_arg9 m ρ c)
theorem s1_main_arg12 (c : Dev nD) : W2 (F := Ideal) m ρ c (Proc.devRef .tc main_arg12) = (inK m c).a12 :=
  (keep_hostOps0_1 (F := Ideal) (W1 m ρ c) main_arg12 (by ref_notin)).trans (s0_main_arg12 m ρ c)
theorem s1_main_arg13 (c : Dev nD) : W2 (F := Ideal) m ρ c (Proc.devRef .tc main_arg13) = (inK m c).a13 :=
  (keep_hostOps0_1 (F := Ideal) (W1 m ρ c) main_arg13 (by ref_notin)).trans (s0_main_arg13 m ρ c)
theorem s1_main_v15 (c : Dev nD) : W2 (F := Ideal) m ρ c (Proc.devRef .tc main_v15) = kv_main_v15 (inK m c) := by
  refine (c_main_v15 (F := Ideal) (W1 m ρ c)).trans ?_
  rw [s0_main_v12 m ρ c, s0_main_v14 m ρ c, s0_main_cst_4 m ρ c]
  rfl

theorem s2_main_v1 (c : Dev nD) : W3 (F := Ideal) m ρ c (Proc.devRef .tc main_v1) = kv_main_v1 (inK m c) :=
  (keep_hostOps0_2 (F := Ideal) (W2 m ρ c) main_v1 (by ref_notin)).trans (s1_main_v1 m ρ c)
theorem s2_main_v3 (c : Dev nD) : W3 (F := Ideal) m ρ c (Proc.devRef .tc main_v3) = kv_main_v3 (inK m c) :=
  (keep_hostOps0_2 (F := Ideal) (W2 m ρ c) main_v3 (by ref_notin)).trans (s1_main_v3 m ρ c)
theorem s2_main_v15 (c : Dev nD) : W3 (F := Ideal) m ρ c (Proc.devRef .tc main_v15) = kv_main_v15 (inK m c) :=
  (keep_hostOps0_2 (F := Ideal) (W2 m ρ c) main_v15 (by ref_notin)).trans (s1_main_v15 m ρ c)
theorem s2_main_arg2 (c : Dev nD) : W3 (F := Ideal) m ρ c (Proc.devRef .tc main_arg2) = (inK m c).a2 :=
  (keep_hostOps0_2 (F := Ideal) (W2 m ρ c) main_arg2 (by ref_notin)).trans (s1_main_arg2 m ρ c)
theorem s2_main_arg4 (c : Dev nD) : W3 (F := Ideal) m ρ c (Proc.devRef .tc main_arg4) = (inK m c).a4 :=
  (keep_hostOps0_2 (F := Ideal) (W2 m ρ c) main_arg4 (by ref_notin)).trans (s1_main_arg4 m ρ c)
theorem s2_main_arg0 (c : Dev nD) : W3 (F := Ideal) m ρ c (Proc.devRef .tc main_arg0) = (inK m c).a0 :=
  (keep_hostOps0_2 (F := Ideal) (W2 m ρ c) main_arg0 (by ref_notin)).trans (s1_main_arg0 m ρ c)
theorem s2_main_arg3 (c : Dev nD) : W3 (F := Ideal) m ρ c (Proc.devRef .tc main_arg3) = (inK m c).a3 :=
  (keep_hostOps0_2 (F := Ideal) (W2 m ρ c) main_arg3 (by ref_notin)).trans (s1_main_arg3 m ρ c)
theorem s2_main_arg5 (c : Dev nD) : W3 (F := Ideal) m ρ c (Proc.devRef .tc main_arg5) = (inK m c).a5 :=
  (keep_hostOps0_2 (F := Ideal) (W2 m ρ c) main_arg5 (by ref_notin)).trans (s1_main_arg5 m ρ c)
theorem s2_main_arg10 (c : Dev nD) : W3 (F := Ideal) m ρ c (Proc.devRef .tc main_arg10) = (inK m c).a10 :=
  (keep_hostOps0_2 (F := Ideal) (W2 m ρ c) main_arg10 (by ref_notin)).trans (s1_main_arg10 m ρ c)
theorem s2_main_arg11 (c : Dev nD) : W3 (F := Ideal) m ρ c (Proc.devRef .tc main_arg11) = (inK m c).a11 :=
  (keep_hostOps0_2 (F := Ideal) (W2 m ρ c) main_arg11 (by ref_notin)).trans (s1_main_arg11 m ρ c)
theorem s2_main_arg6 (c : Dev nD) : W3 (F := Ideal) m ρ c (Proc.devRef .tc main_arg6) = (inK m c).a6 :=
  (keep_hostOps0_2 (F := Ideal) (W2 m ρ c) main_arg6 (by ref_notin)).trans (s1_main_arg6 m ρ c)
theorem s2_main_arg8 (c : Dev nD) : W3 (F := Ideal) m ρ c (Proc.devRef .tc main_arg8) = (inK m c).a8 :=
  (keep_hostOps0_2 (F := Ideal) (W2 m ρ c) main_arg8 (by ref_notin)).trans (s1_main_arg8 m ρ c)
theorem s2_main_arg7 (c : Dev nD) : W3 (F := Ideal) m ρ c (Proc.devRef .tc main_arg7) = (inK m c).a7 :=
  (keep_hostOps0_2 (F := Ideal) (W2 m ρ c) main_arg7 (by ref_notin)).trans (s1_main_arg7 m ρ c)
theorem s2_main_arg9 (c : Dev nD) : W3 (F := Ideal) m ρ c (Proc.devRef .tc main_arg9) = (inK m c).a9 :=
  (keep_hostOps0_2 (F := Ideal) (W2 m ρ c) main_arg9 (by ref_notin)).trans (s1_main_arg9 m ρ c)
theorem s2_main_arg12 (c : Dev nD) : W3 (F := Ideal) m ρ c (Proc.devRef .tc main_arg12) = (inK m c).a12 :=
  (keep_hostOps0_2 (F := Ideal) (W2 m ρ c) main_arg12 (by ref_notin)).trans (s1_main_arg12 m ρ c)
theorem s2_main_arg13 (c : Dev nD) : W3 (F := Ideal) m ρ c (Proc.devRef .tc main_arg13) = (inK m c).a13 :=
  (keep_hostOps0_2 (F := Ideal) (W2 m ρ c) main_arg13 (by ref_notin)).trans (s1_main_arg13 m ρ c)
theorem s2_main_v17 (c : Dev nD) : W3 (F := Ideal) m ρ c (Proc.devRef .tc main_v17) = kv_main_v17 (inK m c) := by
  refine (c_main_v17 (F := Ideal) (W2 m ρ c)).trans ?_
  rw [s1_main_v10 m ρ c]
  rfl
theorem s2_main_v19 (c : Dev nD) : W3 (F := Ideal) m ρ c (Proc.devRef .tc main_v19) = kv_main_v19 (inK m c) := by
  refine (c_main_v19 (F := Ideal) (W2 m ρ c)).trans ?_
  rw [s1_main_v10 m ρ c]
  rfl
theorem s2_main_cst_7 (c : Dev nD) : W3 (F := Ideal) m ρ c (Proc.devRef .tc main_cst_7) = kv_main_cst_7 (inK m c) := by
  refine (c_main_cst_7 (F := Ideal) (W2 m ρ c)).trans ?_
  rfl

theorem s3_main_v1 (c : Dev nD) : W4 (F := Ideal) m ρ c (Proc.devRef .tc main_v1) = kv_main_v1 (inK m c) :=
  (keep_hostOps0_3 (F := Ideal) (W3 m ρ c) main_v1 (by ref_notin)).trans (s2_main_v1 m ρ c)
theorem s3_main_v3 (c : Dev nD) : W4 (F := Ideal) m ρ c (Proc.devRef .tc main_v3) = kv_main_v3 (inK m c) :=
  (keep_hostOps0_3 (F := Ideal) (W3 m ρ c) main_v3 (by ref_notin)).trans (s2_main_v3 m ρ c)
theorem s3_main_v15 (c : Dev nD) : W4 (F := Ideal) m ρ c (Proc.devRef .tc main_v15) = kv_main_v15 (inK m c) :=
  (keep_hostOps0_3 (F := Ideal) (W3 m ρ c) main_v15 (by ref_notin)).trans (s2_main_v15 m ρ c)
theorem s3_main_arg2 (c : Dev nD) : W4 (F := Ideal) m ρ c (Proc.devRef .tc main_arg2) = (inK m c).a2 :=
  (keep_hostOps0_3 (F := Ideal) (W3 m ρ c) main_arg2 (by ref_notin)).trans (s2_main_arg2 m ρ c)
theorem s3_main_arg4 (c : Dev nD) : W4 (F := Ideal) m ρ c (Proc.devRef .tc main_arg4) = (inK m c).a4 :=
  (keep_hostOps0_3 (F := Ideal) (W3 m ρ c) main_arg4 (by ref_notin)).trans (s2_main_arg4 m ρ c)
theorem s3_main_arg0 (c : Dev nD) : W4 (F := Ideal) m ρ c (Proc.devRef .tc main_arg0) = (inK m c).a0 :=
  (keep_hostOps0_3 (F := Ideal) (W3 m ρ c) main_arg0 (by ref_notin)).trans (s2_main_arg0 m ρ c)
theorem s3_main_arg3 (c : Dev nD) : W4 (F := Ideal) m ρ c (Proc.devRef .tc main_arg3) = (inK m c).a3 :=
  (keep_hostOps0_3 (F := Ideal) (W3 m ρ c) main_arg3 (by ref_notin)).trans (s2_main_arg3 m ρ c)
theorem s3_main_arg5 (c : Dev nD) : W4 (F := Ideal) m ρ c (Proc.devRef .tc main_arg5) = (inK m c).a5 :=
  (keep_hostOps0_3 (F := Ideal) (W3 m ρ c) main_arg5 (by ref_notin)).trans (s2_main_arg5 m ρ c)
theorem s3_main_arg10 (c : Dev nD) : W4 (F := Ideal) m ρ c (Proc.devRef .tc main_arg10) = (inK m c).a10 :=
  (keep_hostOps0_3 (F := Ideal) (W3 m ρ c) main_arg10 (by ref_notin)).trans (s2_main_arg10 m ρ c)
theorem s3_main_arg11 (c : Dev nD) : W4 (F := Ideal) m ρ c (Proc.devRef .tc main_arg11) = (inK m c).a11 :=
  (keep_hostOps0_3 (F := Ideal) (W3 m ρ c) main_arg11 (by ref_notin)).trans (s2_main_arg11 m ρ c)
theorem s3_main_arg6 (c : Dev nD) : W4 (F := Ideal) m ρ c (Proc.devRef .tc main_arg6) = (inK m c).a6 :=
  (keep_hostOps0_3 (F := Ideal) (W3 m ρ c) main_arg6 (by ref_notin)).trans (s2_main_arg6 m ρ c)
theorem s3_main_arg8 (c : Dev nD) : W4 (F := Ideal) m ρ c (Proc.devRef .tc main_arg8) = (inK m c).a8 :=
  (keep_hostOps0_3 (F := Ideal) (W3 m ρ c) main_arg8 (by ref_notin)).trans (s2_main_arg8 m ρ c)
theorem s3_main_arg7 (c : Dev nD) : W4 (F := Ideal) m ρ c (Proc.devRef .tc main_arg7) = (inK m c).a7 :=
  (keep_hostOps0_3 (F := Ideal) (W3 m ρ c) main_arg7 (by ref_notin)).trans (s2_main_arg7 m ρ c)
theorem s3_main_arg9 (c : Dev nD) : W4 (F := Ideal) m ρ c (Proc.devRef .tc main_arg9) = (inK m c).a9 :=
  (keep_hostOps0_3 (F := Ideal) (W3 m ρ c) main_arg9 (by ref_notin)).trans (s2_main_arg9 m ρ c)
theorem s3_main_arg12 (c : Dev nD) : W4 (F := Ideal) m ρ c (Proc.devRef .tc main_arg12) = (inK m c).a12 :=
  (keep_hostOps0_3 (F := Ideal) (W3 m ρ c) main_arg12 (by ref_notin)).trans (s2_main_arg12 m ρ c)
theorem s3_main_arg13 (c : Dev nD) : W4 (F := Ideal) m ρ c (Proc.devRef .tc main_arg13) = (inK m c).a13 :=
  (keep_hostOps0_3 (F := Ideal) (W3 m ρ c) main_arg13 (by ref_notin)).trans (s2_main_arg13 m ρ c)
theorem s3_main_v20 (c : Dev nD) : W4 (F := Ideal) m ρ c (Proc.devRef .tc main_v20) = kv_main_v20 (inK m c) := by
  refine (c_main_v20 (F := Ideal) (W3 m ρ c)).trans ?_
  rw [s2_main_v17 m ρ c, s2_main_v19 m ρ c, s2_main_cst_7 m ρ c]
  rfl

theorem s4_main_v1 (c : Dev nD) : W5 (F := Ideal) m ρ c (Proc.devRef .tc main_v1) = kv_main_v1 (inK m c) :=
  (keep_hostOps0_4 (F := Ideal) (W4 m ρ c) main_v1 (by ref_notin)).trans (s3_main_v1 m ρ c)
theorem s4_main_v3 (c : Dev nD) : W5 (F := Ideal) m ρ c (Proc.devRef .tc main_v3) = kv_main_v3 (inK m c) :=
  (keep_hostOps0_4 (F := Ideal) (W4 m ρ c) main_v3 (by ref_notin)).trans (s3_main_v3 m ρ c)
theorem s4_main_v15 (c : Dev nD) : W5 (F := Ideal) m ρ c (Proc.devRef .tc main_v15) = kv_main_v15 (inK m c) :=
  (keep_hostOps0_4 (F := Ideal) (W4 m ρ c) main_v15 (by ref_notin)).trans (s3_main_v15 m ρ c)
theorem s4_main_v20 (c : Dev nD) : W5 (F := Ideal) m ρ c (Proc.devRef .tc main_v20) = kv_main_v20 (inK m c) :=
  (keep_hostOps0_4 (F := Ideal) (W4 m ρ c) main_v20 (by ref_notin)).trans (s3_main_v20 m ρ c)
theorem s4_main_arg0 (c : Dev nD) : W5 (F := Ideal) m ρ c (Proc.devRef .tc main_arg0) = (inK m c).a0 :=
  (keep_hostOps0_4 (F := Ideal) (W4 m ρ c) main_arg0 (by ref_notin)).trans (s3_main_arg0 m ρ c)
theorem s4_main_arg3 (c : Dev nD) : W5 (F := Ideal) m ρ c (Proc.devRef .tc main_arg3) = (inK m c).a3 :=
  (keep_hostOps0_4 (F := Ideal) (W4 m ρ c) main_arg3 (by ref_notin)).trans (s3_main_arg3 m ρ c)
theorem s4_main_arg5 (c : Dev nD) : W5 (F := Ideal) m ρ c (Proc.devRef .tc main_arg5) = (inK m c).a5 :=
  (keep_hostOps0_4 (F := Ideal) (W4 m ρ c) main_arg5 (by ref_notin)).trans (s3_main_arg5 m ρ c)
theorem s4_main_arg10 (c : Dev nD) : W5 (F := Ideal) m ρ c (Proc.devRef .tc main_arg10) = (inK m c).a10 :=
  (keep_hostOps0_4 (F := Ideal) (W4 m ρ c) main_arg10 (by ref_notin)).trans (s3_main_arg10 m ρ c)
theorem s4_main_arg11 (c : Dev nD) : W5 (F := Ideal) m ρ c (Proc.devRef .tc main_arg11) = (inK m c).a11 :=
  (keep_hostOps0_4 (F := Ideal) (W4 m ρ c) main_arg11 (by ref_notin)).trans (s3_main_arg11 m ρ c)
theorem s4_main_arg6 (c : Dev nD) : W5 (F := Ideal) m ρ c (Proc.devRef .tc main_arg6) = (inK m c).a6 :=
  (keep_hostOps0_4 (F := Ideal) (W4 m ρ c) main_arg6 (by ref_notin)).trans (s3_main_arg6 m ρ c)
theorem s4_main_arg8 (c : Dev nD) : W5 (F := Ideal) m ρ c (Proc.devRef .tc main_arg8) = (inK m c).a8 :=
  (keep_hostOps0_4 (F := Ideal) (W4 m ρ c) main_arg8 (by ref_notin)).trans (s3_main_arg8 m ρ c)
theorem s4_main_arg7 (c : Dev nD) : W5 (F := Ideal) m ρ c (Proc.devRef .tc main_arg7) = (inK m c).a7 :=
  (keep_hostOps0_4 (F := Ideal) (W4 m ρ c) main_arg7 (by ref_notin)).trans (s3_main_arg7 m ρ c)
theorem s4_main_arg9 (c : Dev nD) : W5 (F := Ideal) m ρ c (Proc.devRef .tc main_arg9) = (inK m c).a9 :=
  (keep_hostOps0_4 (F := Ideal) (W4 m ρ c) main_arg9 (by ref_notin)).trans (s3_main_arg9 m ρ c)
theorem s4_main_arg12 (c : Dev nD) : W5 (F := Ideal) m ρ c (Proc.devRef .tc main_arg12) = (inK m c).a12 :=
  (keep_hostOps0_4 (F := Ideal) (W4 m ρ c) main_arg12 (by ref_notin)).trans (s3_main_arg12 m ρ c)
theorem s4_main_arg13 (c : Dev nD) : W5 (F := Ideal) m ρ c (Proc.devRef .tc main_arg13) = (inK m c).a13 :=
  (keep_hostOps0_4 (F := Ideal) (W4 m ρ c) main_arg13 (by ref_notin)).trans (s3_main_arg13 m ρ c)
theorem s4_main_v21 (c : Dev nD) : W5 (F := Ideal) m ρ c (Proc.devRef .tc main_v21) = kv_main_v21 (inK m c) := by
  refine (c_main_v21 (F := Ideal) (W4 m ρ c)).trans ?_
  rw [s3_main_arg2 m ρ c, s3_main_arg4 m ρ c]
  rfl

theorem s5_main_v1 (c : Dev nD) : W6 (F := Ideal) m ρ c (Proc.devRef .tc main_v1) = kv_main_v1 (inK m c) :=
  (W6_of_ne m ρ c main_v1 (by decide)).trans (s4_main_v1 m ρ c)
theorem s5_main_v3 (c : Dev nD) : W6 (F := Ideal) m ρ c (Proc.devRef .tc main_v3) = kv_main_v3 (inK m c) :=
  (W6_of_ne m ρ c main_v3 (by decide)).trans (s4_main_v3 m ρ c)
theorem s5_main_v15 (c : Dev nD) : W6 (F := Ideal) m ρ c (Proc.devRef .tc main_v15) = kv_main_v15 (inK m c) :=
  (W6_of_ne m ρ c main_v15 (by decide)).trans (s4_main_v15 m ρ c)
theorem s5_main_v20 (c : Dev nD) : W6 (F := Ideal) m ρ c (Proc.devRef .tc main_v20) = kv_main_v20 (inK m c) :=
  (W6_of_ne m ρ c main_v20 (by decide)).trans (s4_main_v20 m ρ c)
theorem s5_main_arg0 (c : Dev nD) : W6 (F := Ideal) m ρ c (Proc.devRef .tc main_arg0) = (inK m c).a0 :=
  ((W6_arr m ρ c 0).trans (((dat0 (V5 m ρ) c).arrAt_in 0 rfl _).trans (A_eq0 (V5 m ρ) c 0))).trans (s4_main_arg0 m ρ c)
theorem s5_main_arg3 (c : Dev nD) : W6 (F := Ideal) m ρ c (Proc.devRef .tc main_arg3) = (inK m c).a3 :=
  (W6_of_ne m ρ c main_arg3 (by decide)).trans (s4_main_arg3 m ρ c)
theorem s5_main_arg5 (c : Dev nD) : W6 (F := Ideal) m ρ c (Proc.devRef .tc main_arg5) = (inK m c).a5 :=
  (W6_of_ne m ρ c main_arg5 (by decide)).trans (s4_main_arg5 m ρ c)
theorem s5_main_arg10 (c : Dev nD) : W6 (F := Ideal) m ρ c (Proc.devRef .tc main_arg10) = (inK m c).a10 :=
  (W6_of_ne m ρ c main_arg10 (by decide)).trans (s4_main_arg10 m ρ c)
theorem s5_main_arg11 (c : Dev nD) : W6 (F := Ideal) m ρ c (Proc.devRef .tc main_arg11) = (inK m c).a11 :=
  (W6_of_ne m ρ c main_arg11 (by decide)).trans (s4_main_arg11 m ρ c)
theorem s5_main_arg6 (c : Dev nD) : W6 (F := Ideal) m ρ c (Proc.devRef .tc main_arg6) = (inK m c).a6 :=
  (W6_of_ne m ρ c main_arg6 (by decide)).trans (s4_main_arg6 m ρ c)
theorem s5_main_arg8 (c : Dev nD) : W6 (F := Ideal) m ρ c (Proc.devRef .tc main_arg8) = (inK m c).a8 :=
  (W6_of_ne m ρ c main_arg8 (by decide)).trans (s4_main_arg8 m ρ c)
theorem s5_main_arg7 (c : Dev nD) : W6 (F := Ideal) m ρ c (Proc.devRef .tc main_arg7) = (inK m c).a7 :=
  (W6_of_ne m ρ c main_arg7 (by decide)).trans (s4_main_arg7 m ρ c)
theorem s5_main_arg9 (c : Dev nD) : W6 (F := Ideal) m ρ c (Proc.devRef .tc main_arg9) = (inK m c).a9 :=
  (W6_of_ne m ρ c main_arg9 (by decide)).trans (s4_main_arg9 m ρ c)
theorem s5_main_arg12 (c : Dev nD) : W6 (F := Ideal) m ρ c (Proc.devRef .tc main_arg12) = (inK m c).a12 :=
  (W6_of_ne m ρ c main_arg12 (by decide)).trans (s4_main_arg12 m ρ c)
theorem s5_main_arg13 (c : Dev nD) : W6 (F := Ideal) m ρ c (Proc.devRef .tc main_arg13) = (inK m c).a13 :=
  (W6_of_ne m ρ c main_arg13 (by decide)).trans (s4_main_arg13 m ρ c)
theorem s5_main_v22 (c : Dev nD) : W6 (F := Ideal) m ρ c (Proc.devRef .tc main_v22) = kv_main_v22 (inK m c) := by
  refine (W6_arr m ρ c 2).trans ?_
  rw [Cert.KernelIdeal.RegionValue.arr0 (V5 m ρ) c]
  show Cert.Dense.mm (W5 m ρ c (Proc.devRef .tc main_arg0)) (W5 m ρ c (Proc.devRef .tc main_v21)) = _
  rw [s4_main_arg0 m ρ c, s4_main_v21 m ρ c]
  rfl

theorem s6_main_v1 (c : Dev nD) : W7 (F := Ideal) m ρ c (Proc.devRef .tc main_v1) = kv_main_v1 (inK m c) :=
  (keep_hostOps1 (F := Ideal) (W6 m ρ c) main_v1 (by ref_notin)).trans (s5_main_v1 m ρ c)
theorem s6_main_v3 (c : Dev nD) : W7 (F := Ideal) m ρ c (Proc.devRef .tc main_v3) = kv_main_v3 (inK m c) :=
  (keep_hostOps1 (F := Ideal) (W6 m ρ c) main_v3 (by ref_notin)).trans (s5_main_v3 m ρ c)
theorem s6_main_v15 (c : Dev nD) : W7 (F := Ideal) m ρ c (Proc.devRef .tc main_v15) = kv_main_v15 (inK m c) :=
  (keep_hostOps1 (F := Ideal) (W6 m ρ c) main_v15 (by ref_notin)).trans (s5_main_v15 m ρ c)
theorem s6_main_v20 (c : Dev nD) : W7 (F := Ideal) m ρ c (Proc.devRef .tc main_v20) = kv_main_v20 (inK m c) :=
  (keep_hostOps1 (F := Ideal) (W6 m ρ c) main_v20 (by ref_notin)).trans (s5_main_v20 m ρ c)
theorem s6_main_arg0 (c : Dev nD) : W7 (F := Ideal) m ρ c (Proc.devRef .tc main_arg0) = (inK m c).a0 :=
  (keep_hostOps1 (F := Ideal) (W6 m ρ c) main_arg0 (by ref_notin)).trans (s5_main_arg0 m ρ c)
theorem s6_main_arg10 (c : Dev nD) : W7 (F := Ideal) m ρ c (Proc.devRef .tc main_arg10) = (inK m c).a10 :=
  (keep_hostOps1 (F := Ideal) (W6 m ρ c) main_arg10 (by ref_notin)).trans (s5_main_arg10 m ρ c)
theorem s6_main_arg11 (c : Dev nD) : W7 (F := Ideal) m ρ c (Proc.devRef .tc main_arg11) = (inK m c).a11 :=
  (keep_hostOps1 (F := Ideal) (W6 m ρ c) main_arg11 (by ref_notin)).trans (s5_main_arg11 m ρ c)
theorem s6_main_arg6 (c : Dev nD) : W7 (F := Ideal) m ρ c (Proc.devRef .tc main_arg6) = (inK m c).a6 :=
  (keep_hostOps1 (F := Ideal) (W6 m ρ c) main_arg6 (by ref_notin)).trans (s5_main_arg6 m ρ c)
theorem s6_main_arg8 (c : Dev nD) : W7 (F := Ideal) m ρ c (Proc.devRef .tc main_arg8) = (inK m c).a8 :=
  (keep_hostOps1 (F := Ideal) (W6 m ρ c) main_arg8 (by ref_notin)).trans (s5_main_arg8 m ρ c)
theorem s6_main_arg7 (c : Dev nD) : W7 (F := Ideal) m ρ c (Proc.devRef .tc main_arg7) = (inK m c).a7 :=
  (keep_hostOps1 (F := Ideal) (W6 m ρ c) main_arg7 (by ref_notin)).trans (s5_main_arg7 m ρ c)
theorem s6_main_arg9 (c : Dev nD) : W7 (F := Ideal) m ρ c (Proc.devRef .tc main_arg9) = (inK m c).a9 :=
  (keep_hostOps1 (F := Ideal) (W6 m ρ c) main_arg9 (by ref_notin)).trans (s5_main_arg9 m ρ c)
theorem s6_main_arg12 (c : Dev nD) : W7 (F := Ideal) m ρ c (Proc.devRef .tc main_arg12) = (inK m c).a12 :=
  (keep_hostOps1 (F := Ideal) (W6 m ρ c) main_arg12 (by ref_notin)).trans (s5_main_arg12 m ρ c)
theorem s6_main_arg13 (c : Dev nD) : W7 (F := Ideal) m ρ c (Proc.devRef .tc main_arg13) = (inK m c).a13 :=
  (keep_hostOps1 (F := Ideal) (W6 m ρ c) main_arg13 (by ref_notin)).trans (s5_main_arg13 m ρ c)
theorem s6_main_v48 (c : Dev nD) : W7 (F := Ideal) m ρ c (Proc.devRef .tc main_v48) = kv_main_v48 (inK m c) := by
  refine (c_main_v48 (F := Ideal) (W6 m ρ c)).trans ?_
  rw [s5_main_v1 m ρ c, s5_main_v3 m ρ c, s5_main_v22 m ρ c, s5_main_v20 m ρ c, s5_main_v15 m ρ c]
  rfl
theorem s6_main_v52 (c : Dev nD) : W7 (F := Ideal) m ρ c (Proc.devRef .tc main_v52) = kv_main_v52 (inK m c) := by
  refine (c_main_v52 (F := Ideal) (W6 m ρ c)).trans ?_
  rw [show after (hostOps1 (F := Ideal)) (W6 m ρ c) (Proc.devRef .tc main_v48) = _ from s6_main_v48 m ρ c, s5_main_arg3 m ρ c]
  rfl
theorem s6_main_v56 (c : Dev nD) : W7 (F := Ideal) m ρ c (Proc.devRef .tc main_v56) = kv_main_v56 (inK m c) := by
  refine (c_main_v56 (F := Ideal) (W6 m ρ c)).trans ?_
  rw [show after (hostOps1 (F := Ideal)) (W6 m ρ c) (Proc.devRef .tc main_v48) = _ from s6_main_v48 m ρ c, s5_main_arg5 m ρ c]
  rfl
theorem s6_main_v59 (c : Dev nD) : W7 (F := Ideal) m ρ c (Proc.devRef .tc main_v59) = kv_main_v59 (inK m c) := by
  refine (c_main_v59 (F := Ideal) (W6 m ρ c)).trans ?_
  rw [show after (hostOps1 (F := Ideal)) (W6 m ρ c) (Proc.devRef .tc main_v52) = _ from s6_main_v52 m ρ c]
  rfl
theorem s6_main_c_15 (c : Dev nD) : W7 (F := Ideal) m ρ c (Proc.devRef .tc main_c_15) = kv_main_c_15 (inK m c) := by
  refine (c_main_c_15 (F := Ideal) (W6 m ρ c)).trans ?_
  rfl

theorem s7_main_v1 (c : Dev nD) : W8 (F := Ideal) m ρ c (Proc.devRef .tc main_v1) = kv_main_v1 (inK m c) :=
  (keep_hostOps1_1 (F := Ideal) (W7 m ρ c) main_v1 (by ref_notin)).trans (s6_main_v1 m ρ c)
theorem s7_main_v3 (c : Dev nD) : W8 (F := Ideal) m ρ c (Proc.devRef .tc main_v3) = kv_main_v3 (inK m c) :=
  (keep_hostOps1_1 (F := Ideal) (W7 m ρ c) main_v3 (by ref_notin)).trans (s6_main_v3 m ρ c)
theorem s7_main_v15 (c : Dev nD) : W8 (F := Ideal) m ρ c (Proc.devRef .tc main_v15) = kv_main_v15 (inK m c) :=
  (keep_hostOps1_1 (F := Ideal) (W7 m ρ c) main_v15 (by ref_notin)).trans (s6_main_v15 m ρ c)
theorem s7_main_v20 (c : Dev nD) : W8 (F := Ideal) m ρ c (Proc.devRef .tc main_v20) = kv_main_v20 (inK m c) :=
  (keep_hostOps1_1 (F := Ideal) (W7 m ρ c) main_v20 (by ref_notin)).trans (s6_main_v20 m ρ c)
theorem s7_main_v52 (c : Dev nD) : W8 (F := Ideal) m ρ c (Proc.devRef .tc main_v52) = kv_main_v52 (inK m c) :=
  (keep_hostOps1_1 (F := Ideal) (W7 m ρ c) main_v52 (by ref_notin)).trans (s6_main_v52 m ρ c)
theorem s7_main_v56 (c : Dev nD) : W8 (F := Ideal) m ρ c (Proc.devRef .tc main_v56) = kv_main_v56 (inK m c) :=
  (keep_hostOps1_1 (F := Ideal) (W7 m ρ c) main_v56 (by ref_notin)).trans (s6_main_v56 m ρ c)
theorem s7_main_v59 (c : Dev nD) : W8 (F := Ideal) m ρ c (Proc.devRef .tc main_v59) = kv_main_v59 (inK m c) :=
  (keep_hostOps1_1 (F := Ideal) (W7 m ρ c) main_v59 (by ref_notin)).trans (s6_main_v59 m ρ c)
theorem s7_main_arg0 (c : Dev nD) : W8 (F := Ideal) m ρ c (Proc.devRef .tc main_arg0) = (inK m c).a0 :=
  (keep_hostOps1_1 (F := Ideal) (W7 m ρ c) main_arg0 (by ref_notin)).trans (s6_main_arg0 m ρ c)
theorem s7_main_arg10 (c : Dev nD) : W8 (F := Ideal) m ρ c (Proc.devRef .tc main_arg10) = (inK m c).a10 :=
  (keep_hostOps1_1 (F := Ideal) (W7 m ρ c) main_arg10 (by ref_notin)).trans (s6_main_arg10 m ρ c)
theorem s7_main_arg11 (c : Dev nD) : W8 (F := Ideal) m ρ c (Proc.devRef .tc main_arg11) = (inK m c).a11 :=
  (keep_hostOps1_1 (F := Ideal) (W7 m ρ c) main_arg11 (by ref_notin)).trans (s6_main_arg11 m ρ c)
theorem s7_main_arg6 (c : Dev nD) : W8 (F := Ideal) m ρ c (Proc.devRef .tc main_arg6) = (inK m c).a6 :=
  (keep_hostOps1_1 (F := Ideal) (W7 m ρ c) main_arg6 (by ref_notin)).trans (s6_main_arg6 m ρ c)
theorem s7_main_arg8 (c : Dev nD) : W8 (F := Ideal) m ρ c (Proc.devRef .tc main_arg8) = (inK m c).a8 :=
  (keep_hostOps1_1 (F := Ideal) (W7 m ρ c) main_arg8 (by ref_notin)).trans (s6_main_arg8 m ρ c)
theorem s7_main_arg7 (c : Dev nD) : W8 (F := Ideal) m ρ c (Proc.devRef .tc main_arg7) = (inK m c).a7 :=
  (keep_hostOps1_1 (F := Ideal) (W7 m ρ c) main_arg7 (by ref_notin)).trans (s6_main_arg7 m ρ c)
theorem s7_main_arg9 (c : Dev nD) : W8 (F := Ideal) m ρ c (Proc.devRef .tc main_arg9) = (inK m c).a9 :=
  (keep_hostOps1_1 (F := Ideal) (W7 m ρ c) main_arg9 (by ref_notin)).trans (s6_main_arg9 m ρ c)
theorem s7_main_arg12 (c : Dev nD) : W8 (F := Ideal) m ρ c (Proc.devRef .tc main_arg12) = (inK m c).a12 :=
  (keep_hostOps1_1 (F := Ideal) (W7 m ρ c) main_arg12 (by ref_notin)).trans (s6_main_arg12 m ρ c)
theorem s7_main_arg13 (c : Dev nD) : W8 (F := Ideal) m ρ c (Proc.devRef .tc main_arg13) = (inK m c).a13 :=
  (keep_hostOps1_1 (F := Ideal) (W7 m ρ c) main_arg13 (by ref_notin)).trans (s6_main_arg13 m ρ c)
theorem s7_main_call2_v5 (c : Dev nD) : W8 (F := Ideal) m ρ c (Proc.devRef .tc main_call2_v5) = kv_main_call2_v5 (inK m c) := by
  refine (c_main_call2_v5 (F := Ideal) (W7 m ρ c)).trans ?_
  rw [s6_main_v52 m ρ c]
  rfl
theorem s7_main_call2_v8 (c : Dev nD) : W8 (F := Ideal) m ρ c (Proc.devRef .tc main_call2_v8) = kv_main_call2_v8 (inK m c) := by
  refine (c_main_call2_v8 (F := Ideal) (W7 m ρ c)).trans ?_
  rw [s6_main_c_15 m ρ c]
  rfl
theorem s7_main_call2_v11 (c : Dev nD) : W8 (F := Ideal) m ρ c (Proc.devRef .tc main_call2_v11) = kv_main_call2_v11 (inK m c) := by
  refine (c_main_call2_v11 (F := Ideal) (W7 m ρ c)).trans ?_
  rw [show after (hostOps1_1 (F := Ideal)) (W7 m ρ c) (Proc.devRef .tc main_call2_v5) = _ from s7_main_call2_v5 m ρ c, show after (hostOps1_1 (F := Ideal)) (W7 m ρ c) (Proc.devRef .tc main_call2_v8) = _ from s7_main_call2_v8 m ρ c]
  rfl
theorem s7_main_v60 (c : Dev nD) : W8 (F := Ideal) m ρ c (Proc.devRef .tc main_v60) = kv_main_v60 (inK m c) := by
  refine (c_main_v60 (F := Ideal) (W7 m ρ c)).trans ?_
  rw [show after (hostOps1_1 (F := Ideal)) (W7 m ρ c) (Proc.devRef .tc main_call2_v8) = _ from s7_main_call2_v8 m ρ c, show after (hostOps1_1 (F := Ideal)) (W7 m ρ c) (Proc.devRef .tc main_call2_v11) = _ from s7_main_call2_v11 m ρ c]
  rfl

theorem s8_main_v1 (c : Dev nD) : W9 (F := Ideal) m ρ c (Proc.devRef .tc main_v1) = kv_main_v1 (inK m c) :=
  (keep_hostOps1_2 (F := Ideal) (W8 m ρ c) main_v1 (by ref_notin)).trans (s7_main_v1 m ρ c)
theorem s8_main_v3 (c : Dev nD) : W9 (F := Ideal) m ρ c (Proc.devRef .tc main_v3) = kv_main_v3 (inK m c) :=
  (keep_hostOps1_2 (F := Ideal) (W8 m ρ c) main_v3 (by ref_notin)).trans (s7_main_v3 m ρ c)
theorem s8_main_v15 (c : Dev nD) : W9 (F := Ideal) m ρ c (Proc.devRef .tc main_v15) = kv_main_v15 (inK m c) :=
  (keep_hostOps1_2 (F := Ideal) (W8 m ρ c) main_v15 (by ref_notin)).trans (s7_main_v15 m ρ c)
theorem s8_main_v20 (c : Dev nD) : W9 (F := Ideal) m ρ c (Proc.devRef .tc main_v20) = kv_main_v20 (inK m c) :=
  (keep_hostOps1_2 (F := Ideal) (W8 m ρ c) main_v20 (by ref_notin)).trans (s7_main_v20 m ρ c)
theorem s8_main_v52 (c : Dev nD) : W9 (F := Ideal) m ρ c (Proc.devRef .tc main_v52) = kv_main_v52 (inK m c) :=
  (keep_hostOps1_2 (F := Ideal) (W8 m ρ c) main_v52 (by ref_notin)).trans (s7_main_v52 m ρ c)
theorem s8_main_v56 (c : Dev nD) : W9 (F := Ideal) m ρ c (Proc.devRef .tc main_v56) = kv_main_v56 (inK m c) :=
  (keep_hostOps1_2 (F := Ideal) (W8 m ρ c) main_v56 (by ref_notin)).trans (s7_main_v56 m ρ c)
theorem s8_main_arg0 (c : Dev nD) : W9 (F := Ideal) m ρ c (Proc.devRef .tc main_arg0) = (inK m c).a0 :=
  (keep_hostOps1_2 (F := Ideal) (W8 m ρ c) main_arg0 (by ref_notin)).trans (s7_main_arg0 m ρ c)
theorem s8_main_arg10 (c : Dev nD) : W9 (F := Ideal) m ρ c (Proc.devRef .tc main_arg10) = (inK m c).a10 :=
  (keep_hostOps1_2 (F := Ideal) (W8 m ρ c) main_arg10 (by ref_notin)).trans (s7_main_arg10 m ρ c)
theorem s8_main_arg11 (c : Dev nD) : W9 (F := Ideal) m ρ c (Proc.devRef .tc main_arg11) = (inK m c).a11 :=
  (keep_hostOps1_2 (F := Ideal) (W8 m ρ c) main_arg11 (by ref_notin)).trans (s7_main_arg11 m ρ c)
theorem s8_main_arg6 (c : Dev nD) : W9 (F := Ideal) m ρ c (Proc.devRef .tc main_arg6) = (inK m c).a6 :=
  (keep_hostOps1_2 (F := Ideal) (W8 m ρ c) main_arg6 (by ref_notin)).trans (s7_main_arg6 m ρ c)
theorem s8_main_arg8 (c : Dev nD) : W9 (F := Ideal) m ρ c (Proc.devRef .tc main_arg8) = (inK m c).a8 :=
  (keep_hostOps1_2 (F := Ideal) (W8 m ρ c) main_arg8 (by ref_notin)).trans (s7_main_arg8 m ρ c)
theorem s8_main_arg7 (c : Dev nD) : W9 (F := Ideal) m ρ c (Proc.devRef .tc main_arg7) = (inK m c).a7 :=
  (keep_hostOps1_2 (F := Ideal) (W8 m ρ c) main_arg7 (by ref_notin)).trans (s7_main_arg7 m ρ c)
theorem s8_main_arg9 (c : Dev nD) : W9 (F := Ideal) m ρ c (Proc.devRef .tc main_arg9) = (inK m c).a9 :=
  (keep_hostOps1_2 (F := Ideal) (W8 m ρ c) main_arg9 (by ref_notin)).trans (s7_main_arg9 m ρ c)
theorem s8_main_arg12 (c : Dev nD) : W9 (F := Ideal) m ρ c (Proc.devRef .tc main_arg12) = (inK m c).a12 :=
  (keep_hostOps1_2 (F := Ideal) (W8 m ρ c) main_arg12 (by ref_notin)).trans (s7_main_arg12 m ρ c)
theorem s8_main_arg13 (c : Dev nD) : W9 (F := Ideal) m ρ c (Proc.devRef .tc main_arg13) = (inK m c).a13 :=
  (keep_hostOps1_2 (F := Ideal) (W8 m ρ c) main_arg13 (by ref_notin)).trans (s7_main_arg13 m ρ c)
theorem s8_main_v62 (c : Dev nD) : W9 (F := Ideal) m ρ c (Proc.devRef .tc main_v62) = kv_main_v62 (inK m c) := by
  refine (c_main_v62 (F := Ideal) (W8 m ρ c)).trans ?_
  rw [s7_main_arg10 m ρ c]
  rfl
theorem s8_main_v64 (c : Dev nD) : W9 (F := Ideal) m ρ c (Proc.devRef .tc main_v64) = kv_main_v64 (inK m c) := by
  refine (c_main_v64 (F := Ideal) (W8 m ρ c)).trans ?_
  rw [s7_main_arg11 m ρ c]
  rfl
theorem s8_main_v65 (c : Dev nD) : W9 (F := Ideal) m ρ c (Proc.devRef .tc main_v65) = kv_main_v65 (inK m c) := by
  refine (c_main_v65 (F := Ideal) (W8 m ρ c)).trans ?_
  rw [s7_main_v59 m ρ c]
  rfl
theorem s8_main_v66 (c : Dev nD) : W9 (F := Ideal) m ρ c (Proc.devRef .tc main_v66) = kv_main_v66 (inK m c) := by
  refine (c_main_v66 (F := Ideal) (W8 m ρ c)).trans ?_
  rw [s7_main_v60 m ρ c]
  rfl
theorem s8_main_v67 (c : Dev nD) : W9 (F := Ideal) m ρ c (Proc.devRef .tc main_v67) = kv_main_v67 (inK m c) := by
  refine (c_main_v67 (F := Ideal) (W8 m ρ c)).trans ?_
  rw [show after (hostOps1_2 (F := Ideal)) (W8 m ρ c) (Proc.devRef .tc main_v62) = _ from s8_main_v62 m ρ c]
  rfl
theorem s8_main_v68 (c : Dev nD) : W9 (F := Ideal) m ρ c (Proc.devRef .tc main_v68) = kv_main_v68 (inK m c) := by
  refine (c_main_v68 (F := Ideal) (W8 m ρ c)).trans ?_
  rw [show after (hostOps1_2 (F := Ideal)) (W8 m ρ c) (Proc.devRef .tc main_v64) = _ from s8_main_v64 m ρ c]
  rfl

theorem s9_main_v1 (c : Dev nD) : W10 (F := Ideal) m ρ c (Proc.devRef .tc main_v1) = kv_main_v1 (inK m c) :=
  (W10_of_ne m ρ c main_v1 (by decide)).trans (s8_main_v1 m ρ c)
theorem s9_main_v3 (c : Dev nD) : W10 (F := Ideal) m ρ c (Proc.devRef .tc main_v3) = kv_main_v3 (inK m c) :=
  (W10_of_ne m ρ c main_v3 (by decide)).trans (s8_main_v3 m ρ c)
theorem s9_main_v15 (c : Dev nD) : W10 (F := Ideal) m ρ c (Proc.devRef .tc main_v15) = kv_main_v15 (inK m c) :=
  (W10_of_ne m ρ c main_v15 (by decide)).trans (s8_main_v15 m ρ c)
theorem s9_main_v20 (c : Dev nD) : W10 (F := Ideal) m ρ c (Proc.devRef .tc main_v20) = kv_main_v20 (inK m c) :=
  (W10_of_ne m ρ c main_v20 (by decide)).trans (s8_main_v20 m ρ c)
theorem s9_main_arg0 (c : Dev nD) : W10 (F := Ideal) m ρ c (Proc.devRef .tc main_arg0) = (inK m c).a0 :=
  (W10_of_ne m ρ c main_arg0 (by decide)).trans (s8_main_arg0 m ρ c)
theorem s9_main_arg10 (c : Dev nD) : W10 (F := Ideal) m ρ c (Proc.devRef .tc main_arg10) = (inK m c).a10 :=
  (W10_of_ne m ρ c main_arg10 (by decide)).trans (s8_main_arg10 m ρ c)
theorem s9_main_arg11 (c : Dev nD) : W10 (F := Ideal) m ρ c (Proc.devRef .tc main_arg11) = (inK m c).a11 :=
  (W10_of_ne m ρ c main_arg11 (by decide)).trans (s8_main_arg11 m ρ c)
theorem s9_main_arg6 (c : Dev nD) : W10 (F := Ideal) m ρ c (Proc.devRef .tc main_arg6) = (inK m c).a6 :=
  (W10_of_ne m ρ c main_arg6 (by decide)).trans (s8_main_arg6 m ρ c)
theorem s9_main_arg8 (c : Dev nD) : W10 (F := Ideal) m ρ c (Proc.devRef .tc main_arg8) = (inK m c).a8 :=
  (W10_of_ne m ρ c main_arg8 (by decide)).trans (s8_main_arg8 m ρ c)
theorem s9_main_arg7 (c : Dev nD) : W10 (F := Ideal) m ρ c (Proc.devRef .tc main_arg7) = (inK m c).a7 :=
  (W10_of_ne m ρ c main_arg7 (by decide)).trans (s8_main_arg7 m ρ c)
theorem s9_main_arg9 (c : Dev nD) : W10 (F := Ideal) m ρ c (Proc.devRef .tc main_arg9) = (inK m c).a9 :=
  (W10_of_ne m ρ c main_arg9 (by decide)).trans (s8_main_arg9 m ρ c)
theorem s9_main_arg12 (c : Dev nD) : W10 (F := Ideal) m ρ c (Proc.devRef .tc main_arg12) = (inK m c).a12 :=
  (W10_of_ne m ρ c main_arg12 (by decide)).trans (s8_main_arg12 m ρ c)
theorem s9_main_arg13 (c : Dev nD) : W10 (F := Ideal) m ρ c (Proc.devRef .tc main_arg13) = (inK m c).a13 :=
  (W10_of_ne m ρ c main_arg13 (by decide)).trans (s8_main_arg13 m ρ c)
theorem s9_main_v69 (c : Dev nD) : W10 (F := Ideal) m ρ c (Proc.devRef .tc main_v69) = kv_main_v69 (inK m c) := by
  refine (W10_arr m ρ c 6).trans ?_
  rw [Cert.KernelIdeal.RegionValue.arr1 (V9 m ρ) c]
  show Cert.KernelIdeal.RegionValue.bnK (W9 m ρ c (Proc.devRef .tc main_v52)) (W9 m ρ c (Proc.devRef .tc main_v56)) (W9 m ρ c (Proc.devRef .tc main_v65)) (W9 m ρ c (Proc.devRef .tc main_v66)) (W9 m ρ c (Proc.devRef .tc main_v67)) (W9 m ρ c (Proc.devRef .tc main_v68)) = _
  rw [s8_main_v52 m ρ c, s8_main_v56 m ρ c, s8_main_v65 m ρ c, s8_main_v66 m ρ c, s8_main_v67 m ρ c, s8_main_v68 m ρ c]
  rfl

end Cert.KernelIdeal.Val

end
-- ==== Proof.KState1.lean ====
/- The contents of the kernel program's buffers at its segment boundaries: each named value's buffer holds that value of the argument arrays. -/
import proofs.«127768_j9405978378358_1_alg».proof.Proof.FrameKernelIdealP
import proofs.«127768_j9405978378358_1_alg».proof.Proof.KVals
import proofs.«127768_j9405978378358_1_alg».proof.Proof.KSeg_hostOps2
import proofs.«127768_j9405978378358_1_alg».proof.Proof.KSeg_hostOps3
import proofs.«127768_j9405978378358_1_alg».proof.Proof.KSeg_hostOps3_1
import proofs.«127768_j9405978378358_1_alg».proof.Proof.KSeg_hostOps3_2
import proofs.«127768_j9405978378358_1_alg».proof.Proof.KReg2
import proofs.«127768_j9405978378358_1_alg».proof.Proof.KReg3
import proofs.«127768_j9405978378358_1_alg».proof.Proof.KState0
import proofs.«127768_j9405978378358_1_alg».proof.Proof.RefTac

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.StableHlo Idealize.SL.Sem

variable (m : (ℓ : Loc nD τ sig) → Buf (Elt Ideal) ℓ) (ρ : Dev nD → PrngReg)

theorem s10_main_v1 (c : Dev nD) : W11 (F := Ideal) m ρ c (Proc.devRef .tc main_v1) = kv_main_v1 (inK m c) :=
  (keep_hostOps2 (F := Ideal) (W10 m ρ c) main_v1 (by ref_notin)).trans (s9_main_v1 m ρ c)
theorem s10_main_v3 (c : Dev nD) : W11 (F := Ideal) m ρ c (Proc.devRef .tc main_v3) = kv_main_v3 (inK m c) :=
  (keep_hostOps2 (F := Ideal) (W10 m ρ c) main_v3 (by ref_notin)).trans (s9_main_v3 m ρ c)
theorem s10_main_v15 (c : Dev nD) : W11 (F := Ideal) m ρ c (Proc.devRef .tc main_v15) = kv_main_v15 (inK m c) :=
  (keep_hostOps2 (F := Ideal) (W10 m ρ c) main_v15 (by ref_notin)).trans (s9_main_v15 m ρ c)
theorem s10_main_v20 (c : Dev nD) : W11 (F := Ideal) m ρ c (Proc.devRef .tc main_v20) = kv_main_v20 (inK m c) :=
  (keep_hostOps2 (F := Ideal) (W10 m ρ c) main_v20 (by ref_notin)).trans (s9_main_v20 m ρ c)
theorem s10_main_v69 (c : Dev nD) : W11 (F := Ideal) m ρ c (Proc.devRef .tc main_v69) = kv_main_v69 (inK m c) :=
  (keep_hostOps2 (F := Ideal) (W10 m ρ c) main_v69 (by ref_notin)).trans (s9_main_v69 m ρ c)
theorem s10_main_arg0 (c : Dev nD) : W11 (F := Ideal) m ρ c (Proc.devRef .tc main_arg0) = (inK m c).a0 :=
  (keep_hostOps2 (F := Ideal) (W10 m ρ c) main_arg0 (by ref_notin)).trans (s9_main_arg0 m ρ c)
theorem s10_main_arg10 (c : Dev nD) : W11 (F := Ideal) m ρ c (Proc.devRef .tc main_arg10) = (inK m c).a10 :=
  (keep_hostOps2 (F := Ideal) (W10 m ρ c) main_arg10 (by ref_notin)).trans (s9_main_arg10 m ρ c)
theorem s10_main_arg11 (c : Dev nD) : W11 (F := Ideal) m ρ c (Proc.devRef .tc main_arg11) = (inK m c).a11 :=
  (keep_hostOps2 (F := Ideal) (W10 m ρ c) main_arg11 (by ref_notin)).trans (s9_main_arg11 m ρ c)
theorem s10_main_arg6 (c : Dev nD) : W11 (F := Ideal) m ρ c (Proc.devRef .tc main_arg6) = (inK m c).a6 :=
  (keep_hostOps2 (F := Ideal) (W10 m ρ c) main_arg6 (by ref_notin)).trans (s9_main_arg6 m ρ c)
theorem s10_main_arg8 (c : Dev nD) : W11 (F := Ideal) m ρ c (Proc.devRef .tc main_arg8) = (inK m c).a8 :=
  (keep_hostOps2 (F := Ideal) (W10 m ρ c) main_arg8 (by ref_notin)).trans (s9_main_arg8 m ρ c)
theorem s10_main_arg7 (c : Dev nD) : W11 (F := Ideal) m ρ c (Proc.devRef .tc main_arg7) = (inK m c).a7 :=
  (keep_hostOps2 (F := Ideal) (W10 m ρ c) main_arg7 (by ref_notin)).trans (s9_main_arg7 m ρ c)
theorem s10_main_arg9 (c : Dev nD) : W11 (F := Ideal) m ρ c (Proc.devRef .tc main_arg9) = (inK m c).a9 :=
  (keep_hostOps2 (F := Ideal) (W10 m ρ c) main_arg9 (by ref_notin)).trans (s9_main_arg9 m ρ c)
theorem s10_main_arg12 (c : Dev nD) : W11 (F := Ideal) m ρ c (Proc.devRef .tc main_arg12) = (inK m c).a12 :=
  (keep_hostOps2 (F := Ideal) (W10 m ρ c) main_arg12 (by ref_notin)).trans (s9_main_arg12 m ρ c)
theorem s10_main_arg13 (c : Dev nD) : W11 (F := Ideal) m ρ c (Proc.devRef .tc main_arg13) = (inK m c).a13 :=
  (keep_hostOps2 (F := Ideal) (W10 m ρ c) main_arg13 (by ref_notin)).trans (s9_main_arg13 m ρ c)
theorem s10_main_v71 (c : Dev nD) : W11 (F := Ideal) m ρ c (Proc.devRef .tc main_v71) = kv_main_v71 (inK m c) := by
  refine (c_main_v71 (F := Ideal) (W10 m ρ c)).trans ?_
  rw [s9_main_arg6 m ρ c]
  rfl
theorem s10_main_v73 (c : Dev nD) : W11 (F := Ideal) m ρ c (Proc.devRef .tc main_v73) = kv_main_v73 (inK m c) := by
  refine (c_main_v73 (F := Ideal) (W10 m ρ c)).trans ?_
  rw [s9_main_arg8 m ρ c]
  rfl
theorem s10_main_v74 (c : Dev nD) : W11 (F := Ideal) m ρ c (Proc.devRef .tc main_v74) = kv_main_v74 (inK m c) := by
  refine (c_main_v74 (F := Ideal) (W10 m ρ c)).trans ?_
  rw [show after (hostOps2 (F := Ideal)) (W10 m ρ c) (Proc.devRef .tc main_v71) = _ from s10_main_v71 m ρ c, show after (hostOps2 (F := Ideal)) (W10 m ρ c) (Proc.devRef .tc main_v73) = _ from s10_main_v73 m ρ c]
  rfl

theorem s11_main_v1 (c : Dev nD) : W12 (F := Ideal) m ρ c (Proc.devRef .tc main_v1) = kv_main_v1 (inK m c) :=
  (W12_of_ne m ρ c main_v1 (by decide)).trans (s10_main_v1 m ρ c)
theorem s11_main_v3 (c : Dev nD) : W12 (F := Ideal) m ρ c (Proc.devRef .tc main_v3) = kv_main_v3 (inK m c) :=
  (W12_of_ne m ρ c main_v3 (by decide)).trans (s10_main_v3 m ρ c)
theorem s11_main_v15 (c : Dev nD) : W12 (F := Ideal) m ρ c (Proc.devRef .tc main_v15) = kv_main_v15 (inK m c) :=
  (W12_of_ne m ρ c main_v15 (by decide)).trans (s10_main_v15 m ρ c)
theorem s11_main_v20 (c : Dev nD) : W12 (F := Ideal) m ρ c (Proc.devRef .tc main_v20) = kv_main_v20 (inK m c) :=
  (W12_of_ne m ρ c main_v20 (by decide)).trans (s10_main_v20 m ρ c)
theorem s11_main_arg0 (c : Dev nD) : W12 (F := Ideal) m ρ c (Proc.devRef .tc main_arg0) = (inK m c).a0 :=
  (W12_of_ne m ρ c main_arg0 (by decide)).trans (s10_main_arg0 m ρ c)
theorem s11_main_arg10 (c : Dev nD) : W12 (F := Ideal) m ρ c (Proc.devRef .tc main_arg10) = (inK m c).a10 :=
  (W12_of_ne m ρ c main_arg10 (by decide)).trans (s10_main_arg10 m ρ c)
theorem s11_main_arg11 (c : Dev nD) : W12 (F := Ideal) m ρ c (Proc.devRef .tc main_arg11) = (inK m c).a11 :=
  (W12_of_ne m ρ c main_arg11 (by decide)).trans (s10_main_arg11 m ρ c)
theorem s11_main_arg6 (c : Dev nD) : W12 (F := Ideal) m ρ c (Proc.devRef .tc main_arg6) = (inK m c).a6 :=
  (W12_of_ne m ρ c main_arg6 (by decide)).trans (s10_main_arg6 m ρ c)
theorem s11_main_arg8 (c : Dev nD) : W12 (F := Ideal) m ρ c (Proc.devRef .tc main_arg8) = (inK m c).a8 :=
  (W12_of_ne m ρ c main_arg8 (by decide)).trans (s10_main_arg8 m ρ c)
theorem s11_main_arg7 (c : Dev nD) : W12 (F := Ideal) m ρ c (Proc.devRef .tc main_arg7) = (inK m c).a7 :=
  (W12_of_ne m ρ c main_arg7 (by decide)).trans (s10_main_arg7 m ρ c)
theorem s11_main_arg9 (c : Dev nD) : W12 (F := Ideal) m ρ c (Proc.devRef .tc main_arg9) = (inK m c).a9 :=
  (W12_of_ne m ρ c main_arg9 (by decide)).trans (s10_main_arg9 m ρ c)
theorem s11_main_arg12 (c : Dev nD) : W12 (F := Ideal) m ρ c (Proc.devRef .tc main_arg12) = (inK m c).a12 :=
  (W12_of_ne m ρ c main_arg12 (by decide)).trans (s10_main_arg12 m ρ c)
theorem s11_main_arg13 (c : Dev nD) : W12 (F := Ideal) m ρ c (Proc.devRef .tc main_arg13) = (inK m c).a13 :=
  (W12_of_ne m ρ c main_arg13 (by decide)).trans (s10_main_arg13 m ρ c)
theorem s11_main_v75 (c : Dev nD) : W12 (F := Ideal) m ρ c (Proc.devRef .tc main_v75) = kv_main_v75 (inK m c) := by
  refine (W12_arr m ρ c 2).trans ?_
  rw [Cert.KernelIdeal.RegionValue.arr2 (V11 m ρ) c]
  show Cert.Dense.mm (W11 m ρ c (Proc.devRef .tc main_v69)) (W11 m ρ c (Proc.devRef .tc main_v74)) = _
  rw [s10_main_v69 m ρ c, s10_main_v74 m ρ c]
  rfl

theorem s12_main_v1 (c : Dev nD) : W13 (F := Ideal) m ρ c (Proc.devRef .tc main_v1) = kv_main_v1 (inK m c) :=
  (keep_hostOps3 (F := Ideal) (W12 m ρ c) main_v1 (by ref_notin)).trans (s11_main_v1 m ρ c)
theorem s12_main_v3 (c : Dev nD) : W13 (F := Ideal) m ρ c (Proc.devRef .tc main_v3) = kv_main_v3 (inK m c) :=
  (keep_hostOps3 (F := Ideal) (W12 m ρ c) main_v3 (by ref_notin)).trans (s11_main_v3 m ρ c)
theorem s12_main_v15 (c : Dev nD) : W13 (F := Ideal) m ρ c (Proc.devRef .tc main_v15) = kv_main_v15 (inK m c) :=
  (keep_hostOps3 (F := Ideal) (W12 m ρ c) main_v15 (by ref_notin)).trans (s11_main_v15 m ρ c)
theorem s12_main_v20 (c : Dev nD) : W13 (F := Ideal) m ρ c (Proc.devRef .tc main_v20) = kv_main_v20 (inK m c) :=
  (keep_hostOps3 (F := Ideal) (W12 m ρ c) main_v20 (by ref_notin)).trans (s11_main_v20 m ρ c)
theorem s12_main_arg0 (c : Dev nD) : W13 (F := Ideal) m ρ c (Proc.devRef .tc main_arg0) = (inK m c).a0 :=
  (keep_hostOps3 (F := Ideal) (W12 m ρ c) main_arg0 (by ref_notin)).trans (s11_main_arg0 m ρ c)
theorem s12_main_arg10 (c : Dev nD) : W13 (F := Ideal) m ρ c (Proc.devRef .tc main_arg10) = (inK m c).a10 :=
  (keep_hostOps3 (F := Ideal) (W12 m ρ c) main_arg10 (by ref_notin)).trans (s11_main_arg10 m ρ c)
theorem s12_main_arg11 (c : Dev nD) : W13 (F := Ideal) m ρ c (Proc.devRef .tc main_arg11) = (inK m c).a11 :=
  (keep_hostOps3 (F := Ideal) (W12 m ρ c) main_arg11 (by ref_notin)).trans (s11_main_arg11 m ρ c)
theorem s12_main_arg6 (c : Dev nD) : W13 (F := Ideal) m ρ c (Proc.devRef .tc main_arg6) = (inK m c).a6 :=
  (keep_hostOps3 (F := Ideal) (W12 m ρ c) main_arg6 (by ref_notin)).trans (s11_main_arg6 m ρ c)
theorem s12_main_arg8 (c : Dev nD) : W13 (F := Ideal) m ρ c (Proc.devRef .tc main_arg8) = (inK m c).a8 :=
  (keep_hostOps3 (F := Ideal) (W12 m ρ c) main_arg8 (by ref_notin)).trans (s11_main_arg8 m ρ c)
theorem s12_main_arg7 (c : Dev nD) : W13 (F := Ideal) m ρ c (Proc.devRef .tc main_arg7) = (inK m c).a7 :=
  (keep_hostOps3 (F := Ideal) (W12 m ρ c) main_arg7 (by ref_notin)).trans (s11_main_arg7 m ρ c)
theorem s12_main_arg9 (c : Dev nD) : W13 (F := Ideal) m ρ c (Proc.devRef .tc main_arg9) = (inK m c).a9 :=
  (keep_hostOps3 (F := Ideal) (W12 m ρ c) main_arg9 (by ref_notin)).trans (s11_main_arg9 m ρ c)
theorem s12_main_arg12 (c : Dev nD) : W13 (F := Ideal) m ρ c (Proc.devRef .tc main_arg12) = (inK m c).a12 :=
  (keep_hostOps3 (F := Ideal) (W12 m ρ c) main_arg12 (by ref_notin)).trans (s11_main_arg12 m ρ c)
theorem s12_main_arg13 (c : Dev nD) : W13 (F := Ideal) m ρ c (Proc.devRef .tc main_arg13) = (inK m c).a13 :=
  (keep_hostOps3 (F := Ideal) (W12 m ρ c) main_arg13 (by ref_notin)).trans (s11_main_arg13 m ρ c)
theorem s12_main_v101 (c : Dev nD) : W13 (F := Ideal) m ρ c (Proc.devRef .tc main_v101) = kv_main_v101 (inK m c) := by
  refine (c_main_v101 (F := Ideal) (W12 m ρ c)).trans ?_
  rw [s11_main_v1 m ρ c, s11_main_v3 m ρ c, s11_main_v75 m ρ c, s11_main_v20 m ρ c, s11_main_v15 m ρ c]
  rfl
theorem s12_main_v104 (c : Dev nD) : W13 (F := Ideal) m ρ c (Proc.devRef .tc main_v104) = kv_main_v104 (inK m c) := by
  refine (c_main_v104 (F := Ideal) (W12 m ρ c)).trans ?_
  rw [s11_main_arg7 m ρ c]
  rfl
theorem s12_main_v107 (c : Dev nD) : W13 (F := Ideal) m ρ c (Proc.devRef .tc main_v107) = kv_main_v107 (inK m c) := by
  refine (c_main_v107 (F := Ideal) (W12 m ρ c)).trans ?_
  rw [show after (hostOps3 (F := Ideal)) (W12 m ρ c) (Proc.devRef .tc main_v101) = _ from s12_main_v101 m ρ c, show after (hostOps3 (F := Ideal)) (W12 m ρ c) (Proc.devRef .tc main_v104) = _ from s12_main_v104 m ρ c]
  rfl
theorem s12_main_v110 (c : Dev nD) : W13 (F := Ideal) m ρ c (Proc.devRef .tc main_v110) = kv_main_v110 (inK m c) := by
  refine (c_main_v110 (F := Ideal) (W12 m ρ c)).trans ?_
  rw [s11_main_arg9 m ρ c]
  rfl
theorem s12_main_v113 (c : Dev nD) : W13 (F := Ideal) m ρ c (Proc.devRef .tc main_v113) = kv_main_v113 (inK m c) := by
  refine (c_main_v113 (F := Ideal) (W12 m ρ c)).trans ?_
  rw [show after (hostOps3 (F := Ideal)) (W12 m ρ c) (Proc.devRef .tc main_v101) = _ from s12_main_v101 m ρ c, show after (hostOps3 (F := Ideal)) (W12 m ρ c) (Proc.devRef .tc main_v110) = _ from s12_main_v110 m ρ c]
  rfl
theorem s12_main_v116 (c : Dev nD) : W13 (F := Ideal) m ρ c (Proc.devRef .tc main_v116) = kv_main_v116 (inK m c) := by
  refine (c_main_v116 (F := Ideal) (W12 m ρ c)).trans ?_
  rw [show after (hostOps3 (F := Ideal)) (W12 m ρ c) (Proc.devRef .tc main_v107) = _ from s12_main_v107 m ρ c]
  rfl
theorem s12_main_c_24 (c : Dev nD) : W13 (F := Ideal) m ρ c (Proc.devRef .tc main_c_24) = kv_main_c_24 (inK m c) := by
  refine (c_main_c_24 (F := Ideal) (W12 m ρ c)).trans ?_
  rfl

theorem s13_main_v1 (c : Dev nD) : W14 (F := Ideal) m ρ c (Proc.devRef .tc main_v1) = kv_main_v1 (inK m c) :=
  (keep_hostOps3_1 (F := Ideal) (W13 m ρ c) main_v1 (by ref_notin)).trans (s12_main_v1 m ρ c)
theorem s13_main_v3 (c : Dev nD) : W14 (F := Ideal) m ρ c (Proc.devRef .tc main_v3) = kv_main_v3 (inK m c) :=
  (keep_hostOps3_1 (F := Ideal) (W13 m ρ c) main_v3 (by ref_notin)).trans (s12_main_v3 m ρ c)
theorem s13_main_v15 (c : Dev nD) : W14 (F := Ideal) m ρ c (Proc.devRef .tc main_v15) = kv_main_v15 (inK m c) :=
  (keep_hostOps3_1 (F := Ideal) (W13 m ρ c) main_v15 (by ref_notin)).trans (s12_main_v15 m ρ c)
theorem s13_main_v20 (c : Dev nD) : W14 (F := Ideal) m ρ c (Proc.devRef .tc main_v20) = kv_main_v20 (inK m c) :=
  (keep_hostOps3_1 (F := Ideal) (W13 m ρ c) main_v20 (by ref_notin)).trans (s12_main_v20 m ρ c)
theorem s13_main_v107 (c : Dev nD) : W14 (F := Ideal) m ρ c (Proc.devRef .tc main_v107) = kv_main_v107 (inK m c) :=
  (keep_hostOps3_1 (F := Ideal) (W13 m ρ c) main_v107 (by ref_notin)).trans (s12_main_v107 m ρ c)
theorem s13_main_v113 (c : Dev nD) : W14 (F := Ideal) m ρ c (Proc.devRef .tc main_v113) = kv_main_v113 (inK m c) :=
  (keep_hostOps3_1 (F := Ideal) (W13 m ρ c) main_v113 (by ref_notin)).trans (s12_main_v113 m ρ c)
theorem s13_main_v116 (c : Dev nD) : W14 (F := Ideal) m ρ c (Proc.devRef .tc main_v116) = kv_main_v116 (inK m c) :=
  (keep_hostOps3_1 (F := Ideal) (W13 m ρ c) main_v116 (by ref_notin)).trans (s12_main_v116 m ρ c)
theorem s13_main_arg0 (c : Dev nD) : W14 (F := Ideal) m ρ c (Proc.devRef .tc main_arg0) = (inK m c).a0 :=
  (keep_hostOps3_1 (F := Ideal) (W13 m ρ c) main_arg0 (by ref_notin)).trans (s12_main_arg0 m ρ c)
theorem s13_main_arg10 (c : Dev nD) : W14 (F := Ideal) m ρ c (Proc.devRef .tc main_arg10) = (inK m c).a10 :=
  (keep_hostOps3_1 (F := Ideal) (W13 m ρ c) main_arg10 (by ref_notin)).trans (s12_main_arg10 m ρ c)
theorem s13_main_arg11 (c : Dev nD) : W14 (F := Ideal) m ρ c (Proc.devRef .tc main_arg11) = (inK m c).a11 :=
  (keep_hostOps3_1 (F := Ideal) (W13 m ρ c) main_arg11 (by ref_notin)).trans (s12_main_arg11 m ρ c)
theorem s13_main_arg6 (c : Dev nD) : W14 (F := Ideal) m ρ c (Proc.devRef .tc main_arg6) = (inK m c).a6 :=
  (keep_hostOps3_1 (F := Ideal) (W13 m ρ c) main_arg6 (by ref_notin)).trans (s12_main_arg6 m ρ c)
theorem s13_main_arg8 (c : Dev nD) : W14 (F := Ideal) m ρ c (Proc.devRef .tc main_arg8) = (inK m c).a8 :=
  (keep_hostOps3_1 (F := Ideal) (W13 m ρ c) main_arg8 (by ref_notin)).trans (s12_main_arg8 m ρ c)
theorem s13_main_arg7 (c : Dev nD) : W14 (F := Ideal) m ρ c (Proc.devRef .tc main_arg7) = (inK m c).a7 :=
  (keep_hostOps3_1 (F := Ideal) (W13 m ρ c) main_arg7 (by ref_notin)).trans (s12_main_arg7 m ρ c)
theorem s13_main_arg9 (c : Dev nD) : W14 (F := Ideal) m ρ c (Proc.devRef .tc main_arg9) = (inK m c).a9 :=
  (keep_hostOps3_1 (F := Ideal) (W13 m ρ c) main_arg9 (by ref_notin)).trans (s12_main_arg9 m ρ c)
theorem s13_main_arg12 (c : Dev nD) : W14 (F := Ideal) m ρ c (Proc.devRef .tc main_arg12) = (inK m c).a12 :=
  (keep_hostOps3_1 (F := Ideal) (W13 m ρ c) main_arg12 (by ref_notin)).trans (s12_main_arg12 m ρ c)
theorem s13_main_arg13 (c : Dev nD) : W14 (F := Ideal) m ρ c (Proc.devRef .tc main_arg13) = (inK m c).a13 :=
  (keep_hostOps3_1 (F := Ideal) (W13 m ρ c) main_arg13 (by ref_notin)).trans (s12_main_arg13 m ρ c)
theorem s13_main_call3_v5 (c : Dev nD) : W14 (F := Ideal) m ρ c (Proc.devRef .tc main_call3_v5) = kv_main_call3_v5 (inK m c) := by
  refine (c_main_call3_v5 (F := Ideal) (W13 m ρ c)).trans ?_
  rw [s12_main_v107 m ρ c]
  rfl
theorem s13_main_call3_v8 (c : Dev nD) : W14 (F := Ideal) m ρ c (Proc.devRef .tc main_call3_v8) = kv_main_call3_v8 (inK m c) := by
  refine (c_main_call3_v8 (F := Ideal) (W13 m ρ c)).trans ?_
  rw [s12_main_c_24 m ρ c]
  rfl
theorem s13_main_call3_v11 (c : Dev nD) : W14 (F := Ideal) m ρ c (Proc.devRef .tc main_call3_v11) = kv_main_call3_v11 (inK m c) := by
  refine (c_main_call3_v11 (F := Ideal) (W13 m ρ c)).trans ?_
  rw [show after (hostOps3_1 (F := Ideal)) (W13 m ρ c) (Proc.devRef .tc main_call3_v5) = _ from s13_main_call3_v5 m ρ c, show after (hostOps3_1 (F := Ideal)) (W13 m ρ c) (Proc.devRef .tc main_call3_v8) = _ from s13_main_call3_v8 m ρ c]
  rfl
theorem s13_main_v117 (c : Dev nD) : W14 (F := Ideal) m ρ c (Proc.devRef .tc main_v117) = kv_main_v117 (inK m c) := by
  refine (c_main_v117 (F := Ideal) (W13 m ρ c)).trans ?_
  rw [show after (hostOps3_1 (F := Ideal)) (W13 m ρ c) (Proc.devRef .tc main_call3_v8) = _ from s13_main_call3_v8 m ρ c, show after (hostOps3_1 (F := Ideal)) (W13 m ρ c) (Proc.devRef .tc main_call3_v11) = _ from s13_main_call3_v11 m ρ c]
  rfl

theorem s14_main_v1 (c : Dev nD) : W15 (F := Ideal) m ρ c (Proc.devRef .tc main_v1) = kv_main_v1 (inK m c) :=
  (keep_hostOps3_2 (F := Ideal) (W14 m ρ c) main_v1 (by ref_notin)).trans (s13_main_v1 m ρ c)
theorem s14_main_v3 (c : Dev nD) : W15 (F := Ideal) m ρ c (Proc.devRef .tc main_v3) = kv_main_v3 (inK m c) :=
  (keep_hostOps3_2 (F := Ideal) (W14 m ρ c) main_v3 (by ref_notin)).trans (s13_main_v3 m ρ c)
theorem s14_main_v15 (c : Dev nD) : W15 (F := Ideal) m ρ c (Proc.devRef .tc main_v15) = kv_main_v15 (inK m c) :=
  (keep_hostOps3_2 (F := Ideal) (W14 m ρ c) main_v15 (by ref_notin)).trans (s13_main_v15 m ρ c)
theorem s14_main_v20 (c : Dev nD) : W15 (F := Ideal) m ρ c (Proc.devRef .tc main_v20) = kv_main_v20 (inK m c) :=
  (keep_hostOps3_2 (F := Ideal) (W14 m ρ c) main_v20 (by ref_notin)).trans (s13_main_v20 m ρ c)
theorem s14_main_v107 (c : Dev nD) : W15 (F := Ideal) m ρ c (Proc.devRef .tc main_v107) = kv_main_v107 (inK m c) :=
  (keep_hostOps3_2 (F := Ideal) (W14 m ρ c) main_v107 (by ref_notin)).trans (s13_main_v107 m ρ c)
theorem s14_main_v113 (c : Dev nD) : W15 (F := Ideal) m ρ c (Proc.devRef .tc main_v113) = kv_main_v113 (inK m c) :=
  (keep_hostOps3_2 (F := Ideal) (W14 m ρ c) main_v113 (by ref_notin)).trans (s13_main_v113 m ρ c)
theorem s14_main_arg0 (c : Dev nD) : W15 (F := Ideal) m ρ c (Proc.devRef .tc main_arg0) = (inK m c).a0 :=
  (keep_hostOps3_2 (F := Ideal) (W14 m ρ c) main_arg0 (by ref_notin)).trans (s13_main_arg0 m ρ c)
theorem s14_main_arg10 (c : Dev nD) : W15 (F := Ideal) m ρ c (Proc.devRef .tc main_arg10) = (inK m c).a10 :=
  (keep_hostOps3_2 (F := Ideal) (W14 m ρ c) main_arg10 (by ref_notin)).trans (s13_main_arg10 m ρ c)
theorem s14_main_arg11 (c : Dev nD) : W15 (F := Ideal) m ρ c (Proc.devRef .tc main_arg11) = (inK m c).a11 :=
  (keep_hostOps3_2 (F := Ideal) (W14 m ρ c) main_arg11 (by ref_notin)).trans (s13_main_arg11 m ρ c)
theorem s14_main_arg6 (c : Dev nD) : W15 (F := Ideal) m ρ c (Proc.devRef .tc main_arg6) = (inK m c).a6 :=
  (keep_hostOps3_2 (F := Ideal) (W14 m ρ c) main_arg6 (by ref_notin)).trans (s13_main_arg6 m ρ c)
theorem s14_main_arg8 (c : Dev nD) : W15 (F := Ideal) m ρ c (Proc.devRef .tc main_arg8) = (inK m c).a8 :=
  (keep_hostOps3_2 (F := Ideal) (W14 m ρ c) main_arg8 (by ref_notin)).trans (s13_main_arg8 m ρ c)
theorem s14_main_arg7 (c : Dev nD) : W15 (F := Ideal) m ρ c (Proc.devRef .tc main_arg7) = (inK m c).a7 :=
  (keep_hostOps3_2 (F := Ideal) (W14 m ρ c) main_arg7 (by ref_notin)).trans (s13_main_arg7 m ρ c)
theorem s14_main_arg9 (c : Dev nD) : W15 (F := Ideal) m ρ c (Proc.devRef .tc main_arg9) = (inK m c).a9 :=
  (keep_hostOps3_2 (F := Ideal) (W14 m ρ c) main_arg9 (by ref_notin)).trans (s13_main_arg9 m ρ c)
theorem s14_main_arg12 (c : Dev nD) : W15 (F := Ideal) m ρ c (Proc.devRef .tc main_arg12) = (inK m c).a12 :=
  (keep_hostOps3_2 (F := Ideal) (W14 m ρ c) main_arg12 (by ref_notin)).trans (s13_main_arg12 m ρ c)
theorem s14_main_arg13 (c : Dev nD) : W15 (F := Ideal) m ρ c (Proc.devRef .tc main_arg13) = (inK m c).a13 :=
  (keep_hostOps3_2 (F := Ideal) (W14 m ρ c) main_arg13 (by ref_notin)).trans (s13_main_arg13 m ρ c)
theorem s14_main_v119 (c : Dev nD) : W15 (F := Ideal) m ρ c (Proc.devRef .tc main_v119) = kv_main_v119 (inK m c) := by
  refine (c_main_v119 (F := Ideal) (W14 m ρ c)).trans ?_
  rw [s13_main_arg10 m ρ c]
  rfl
theorem s14_main_v121 (c : Dev nD) : W15 (F := Ideal) m ρ c (Proc.devRef .tc main_v121) = kv_main_v121 (inK m c) := by
  refine (c_main_v121 (F := Ideal) (W14 m ρ c)).trans ?_
  rw [s13_main_arg11 m ρ c]
  rfl
theorem s14_main_v122 (c : Dev nD) : W15 (F := Ideal) m ρ c (Proc.devRef .tc main_v122) = kv_main_v122 (inK m c) := by
  refine (c_main_v122 (F := Ideal) (W14 m ρ c)).trans ?_
  rw [s13_main_v116 m ρ c]
  rfl
theorem s14_main_v123 (c : Dev nD) : W15 (F := Ideal) m ρ c (Proc.devRef .tc main_v123) = kv_main_v123 (inK m c) := by
  refine (c_main_v123 (F := Ideal) (W14 m ρ c)).trans ?_
  rw [s13_main_v117 m ρ c]
  rfl
theorem s14_main_v124 (c : Dev nD) : W15 (F := Ideal) m ρ c (Proc.devRef .tc main_v124) = kv_main_v124 (inK m c) := by
  refine (c_main_v124 (F := Ideal) (W14 m ρ c)).trans ?_
  rw [show after (hostOps3_2 (F := Ideal)) (W14 m ρ c) (Proc.devRef .tc main_v119) = _ from s14_main_v119 m ρ c]
  rfl
theorem s14_main_v125 (c : Dev nD) : W15 (F := Ideal) m ρ c (Proc.devRef .tc main_v125) = kv_main_v125 (inK m c) := by
  refine (c_main_v125 (F := Ideal) (W14 m ρ c)).trans ?_
  rw [show after (hostOps3_2 (F := Ideal)) (W14 m ρ c) (Proc.devRef .tc main_v121) = _ from s14_main_v121 m ρ c]
  rfl

theorem s15_main_v1 (c : Dev nD) : W16 (F := Ideal) m ρ c (Proc.devRef .tc main_v1) = kv_main_v1 (inK m c) :=
  (W16_of_ne m ρ c main_v1 (by decide)).trans (s14_main_v1 m ρ c)
theorem s15_main_v3 (c : Dev nD) : W16 (F := Ideal) m ρ c (Proc.devRef .tc main_v3) = kv_main_v3 (inK m c) :=
  (W16_of_ne m ρ c main_v3 (by decide)).trans (s14_main_v3 m ρ c)
theorem s15_main_v15 (c : Dev nD) : W16 (F := Ideal) m ρ c (Proc.devRef .tc main_v15) = kv_main_v15 (inK m c) :=
  (W16_of_ne m ρ c main_v15 (by decide)).trans (s14_main_v15 m ρ c)
theorem s15_main_v20 (c : Dev nD) : W16 (F := Ideal) m ρ c (Proc.devRef .tc main_v20) = kv_main_v20 (inK m c) :=
  (W16_of_ne m ρ c main_v20 (by decide)).trans (s14_main_v20 m ρ c)
theorem s15_main_arg0 (c : Dev nD) : W16 (F := Ideal) m ρ c (Proc.devRef .tc main_arg0) = (inK m c).a0 :=
  (W16_of_ne m ρ c main_arg0 (by decide)).trans (s14_main_arg0 m ρ c)
theorem s15_main_arg10 (c : Dev nD) : W16 (F := Ideal) m ρ c (Proc.devRef .tc main_arg10) = (inK m c).a10 :=
  (W16_of_ne m ρ c main_arg10 (by decide)).trans (s14_main_arg10 m ρ c)
theorem s15_main_arg11 (c : Dev nD) : W16 (F := Ideal) m ρ c (Proc.devRef .tc main_arg11) = (inK m c).a11 :=
  (W16_of_ne m ρ c main_arg11 (by decide)).trans (s14_main_arg11 m ρ c)
theorem s15_main_arg6 (c : Dev nD) : W16 (F := Ideal) m ρ c (Proc.devRef .tc main_arg6) = (inK m c).a6 :=
  (W16_of_ne m ρ c main_arg6 (by decide)).trans (s14_main_arg6 m ρ c)
theorem s15_main_arg8 (c : Dev nD) : W16 (F := Ideal) m ρ c (Proc.devRef .tc main_arg8) = (inK m c).a8 :=
  (W16_of_ne m ρ c main_arg8 (by decide)).trans (s14_main_arg8 m ρ c)
theorem s15_main_arg7 (c : Dev nD) : W16 (F := Ideal) m ρ c (Proc.devRef .tc main_arg7) = (inK m c).a7 :=
  (W16_of_ne m ρ c main_arg7 (by decide)).trans (s14_main_arg7 m ρ c)
theorem s15_main_arg9 (c : Dev nD) : W16 (F := Ideal) m ρ c (Proc.devRef .tc main_arg9) = (inK m c).a9 :=
  (W16_of_ne m ρ c main_arg9 (by decide)).trans (s14_main_arg9 m ρ c)
theorem s15_main_arg12 (c : Dev nD) : W16 (F := Ideal) m ρ c (Proc.devRef .tc main_arg12) = (inK m c).a12 :=
  (W16_of_ne m ρ c main_arg12 (by decide)).trans (s14_main_arg12 m ρ c)
theorem s15_main_arg13 (c : Dev nD) : W16 (F := Ideal) m ρ c (Proc.devRef .tc main_arg13) = (inK m c).a13 :=
  (W16_of_ne m ρ c main_arg13 (by decide)).trans (s14_main_arg13 m ρ c)
theorem s15_main_v126 (c : Dev nD) : W16 (F := Ideal) m ρ c (Proc.devRef .tc main_v126) = kv_main_v126 (inK m c) := by
  refine (W16_arr m ρ c 6).trans ?_
  rw [Cert.KernelIdeal.RegionValue.arr3 (V15 m ρ) c]
  show Cert.KernelIdeal.RegionValue.bnK (W15 m ρ c (Proc.devRef .tc main_v107)) (W15 m ρ c (Proc.devRef .tc main_v113)) (W15 m ρ c (Proc.devRef .tc main_v122)) (W15 m ρ c (Proc.devRef .tc main_v123)) (W15 m ρ c (Proc.devRef .tc main_v124)) (W15 m ρ c (Proc.devRef .tc main_v125)) = _
  rw [s14_main_v107 m ρ c, s14_main_v113 m ρ c, s14_main_v122 m ρ c, s14_main_v123 m ρ c, s14_main_v124 m ρ c, s14_main_v125 m ρ c]
  rfl

end Cert.KernelIdeal.Val

end
-- ==== Proof.KState2.lean ====
/- The contents of the kernel program's buffers at its segment boundaries: each named value's buffer holds that value of the argument arrays. -/
import proofs.«127768_j9405978378358_1_alg».proof.Proof.FrameKernelIdealP
import proofs.«127768_j9405978378358_1_alg».proof.Proof.KVals
import proofs.«127768_j9405978378358_1_alg».proof.Proof.KSeg_hostOps4
import proofs.«127768_j9405978378358_1_alg».proof.Proof.KSeg_hostOps5
import proofs.«127768_j9405978378358_1_alg».proof.Proof.KSeg_hostOps5_1
import proofs.«127768_j9405978378358_1_alg».proof.Proof.KSeg_hostOps5_2
import proofs.«127768_j9405978378358_1_alg».proof.Proof.KReg4
import proofs.«127768_j9405978378358_1_alg».proof.Proof.KReg5
import proofs.«127768_j9405978378358_1_alg».proof.Proof.KState1
import proofs.«127768_j9405978378358_1_alg».proof.Proof.RefTac

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.StableHlo Idealize.SL.Sem

variable (m : (ℓ : Loc nD τ sig) → Buf (Elt Ideal) ℓ) (ρ : Dev nD → PrngReg)

theorem s16_main_v1 (c : Dev nD) : W17 (F := Ideal) m ρ c (Proc.devRef .tc main_v1) = kv_main_v1 (inK m c) :=
  (keep_hostOps4 (F := Ideal) (W16 m ρ c) main_v1 (by ref_notin)).trans (s15_main_v1 m ρ c)
theorem s16_main_v3 (c : Dev nD) : W17 (F := Ideal) m ρ c (Proc.devRef .tc main_v3) = kv_main_v3 (inK m c) :=
  (keep_hostOps4 (F := Ideal) (W16 m ρ c) main_v3 (by ref_notin)).trans (s15_main_v3 m ρ c)
theorem s16_main_v15 (c : Dev nD) : W17 (F := Ideal) m ρ c (Proc.devRef .tc main_v15) = kv_main_v15 (inK m c) :=
  (keep_hostOps4 (F := Ideal) (W16 m ρ c) main_v15 (by ref_notin)).trans (s15_main_v15 m ρ c)
theorem s16_main_v20 (c : Dev nD) : W17 (F := Ideal) m ρ c (Proc.devRef .tc main_v20) = kv_main_v20 (inK m c) :=
  (keep_hostOps4 (F := Ideal) (W16 m ρ c) main_v20 (by ref_notin)).trans (s15_main_v20 m ρ c)
theorem s16_main_v126 (c : Dev nD) : W17 (F := Ideal) m ρ c (Proc.devRef .tc main_v126) = kv_main_v126 (inK m c) :=
  (keep_hostOps4 (F := Ideal) (W16 m ρ c) main_v126 (by ref_notin)).trans (s15_main_v126 m ρ c)
theorem s16_main_arg0 (c : Dev nD) : W17 (F := Ideal) m ρ c (Proc.devRef .tc main_arg0) = (inK m c).a0 :=
  (keep_hostOps4 (F := Ideal) (W16 m ρ c) main_arg0 (by ref_notin)).trans (s15_main_arg0 m ρ c)
theorem s16_main_arg10 (c : Dev nD) : W17 (F := Ideal) m ρ c (Proc.devRef .tc main_arg10) = (inK m c).a10 :=
  (keep_hostOps4 (F := Ideal) (W16 m ρ c) main_arg10 (by ref_notin)).trans (s15_main_arg10 m ρ c)
theorem s16_main_arg11 (c : Dev nD) : W17 (F := Ideal) m ρ c (Proc.devRef .tc main_arg11) = (inK m c).a11 :=
  (keep_hostOps4 (F := Ideal) (W16 m ρ c) main_arg11 (by ref_notin)).trans (s15_main_arg11 m ρ c)
theorem s16_main_arg6 (c : Dev nD) : W17 (F := Ideal) m ρ c (Proc.devRef .tc main_arg6) = (inK m c).a6 :=
  (keep_hostOps4 (F := Ideal) (W16 m ρ c) main_arg6 (by ref_notin)).trans (s15_main_arg6 m ρ c)
theorem s16_main_arg8 (c : Dev nD) : W17 (F := Ideal) m ρ c (Proc.devRef .tc main_arg8) = (inK m c).a8 :=
  (keep_hostOps4 (F := Ideal) (W16 m ρ c) main_arg8 (by ref_notin)).trans (s15_main_arg8 m ρ c)
theorem s16_main_arg7 (c : Dev nD) : W17 (F := Ideal) m ρ c (Proc.devRef .tc main_arg7) = (inK m c).a7 :=
  (keep_hostOps4 (F := Ideal) (W16 m ρ c) main_arg7 (by ref_notin)).trans (s15_main_arg7 m ρ c)
theorem s16_main_arg9 (c : Dev nD) : W17 (F := Ideal) m ρ c (Proc.devRef .tc main_arg9) = (inK m c).a9 :=
  (keep_hostOps4 (F := Ideal) (W16 m ρ c) main_arg9 (by ref_notin)).trans (s15_main_arg9 m ρ c)
theorem s16_main_arg12 (c : Dev nD) : W17 (F := Ideal) m ρ c (Proc.devRef .tc main_arg12) = (inK m c).a12 :=
  (keep_hostOps4 (F := Ideal) (W16 m ρ c) main_arg12 (by ref_notin)).trans (s15_main_arg12 m ρ c)
theorem s16_main_arg13 (c : Dev nD) : W17 (F := Ideal) m ρ c (Proc.devRef .tc main_arg13) = (inK m c).a13 :=
  (keep_hostOps4 (F := Ideal) (W16 m ρ c) main_arg13 (by ref_notin)).trans (s15_main_arg13 m ρ c)
theorem s16_main_v128 (c : Dev nD) : W17 (F := Ideal) m ρ c (Proc.devRef .tc main_v128) = kv_main_v128 (inK m c) := by
  refine (c_main_v128 (F := Ideal) (W16 m ρ c)).trans ?_
  rw [s15_main_arg6 m ρ c]
  rfl
theorem s16_main_v130 (c : Dev nD) : W17 (F := Ideal) m ρ c (Proc.devRef .tc main_v130) = kv_main_v130 (inK m c) := by
  refine (c_main_v130 (F := Ideal) (W16 m ρ c)).trans ?_
  rw [s15_main_arg8 m ρ c]
  rfl
theorem s16_main_v131 (c : Dev nD) : W17 (F := Ideal) m ρ c (Proc.devRef .tc main_v131) = kv_main_v131 (inK m c) := by
  refine (c_main_v131 (F := Ideal) (W16 m ρ c)).trans ?_
  rw [show after (hostOps4 (F := Ideal)) (W16 m ρ c) (Proc.devRef .tc main_v128) = _ from s16_main_v128 m ρ c, show after (hostOps4 (F := Ideal)) (W16 m ρ c) (Proc.devRef .tc main_v130) = _ from s16_main_v130 m ρ c]
  rfl

theorem s17_main_v1 (c : Dev nD) : W18 (F := Ideal) m ρ c (Proc.devRef .tc main_v1) = kv_main_v1 (inK m c) :=
  (W18_of_ne m ρ c main_v1 (by decide)).trans (s16_main_v1 m ρ c)
theorem s17_main_v3 (c : Dev nD) : W18 (F := Ideal) m ρ c (Proc.devRef .tc main_v3) = kv_main_v3 (inK m c) :=
  (W18_of_ne m ρ c main_v3 (by decide)).trans (s16_main_v3 m ρ c)
theorem s17_main_v15 (c : Dev nD) : W18 (F := Ideal) m ρ c (Proc.devRef .tc main_v15) = kv_main_v15 (inK m c) :=
  (W18_of_ne m ρ c main_v15 (by decide)).trans (s16_main_v15 m ρ c)
theorem s17_main_v20 (c : Dev nD) : W18 (F := Ideal) m ρ c (Proc.devRef .tc main_v20) = kv_main_v20 (inK m c) :=
  (W18_of_ne m ρ c main_v20 (by decide)).trans (s16_main_v20 m ρ c)
theorem s17_main_arg0 (c : Dev nD) : W18 (F := Ideal) m ρ c (Proc.devRef .tc main_arg0) = (inK m c).a0 :=
  (W18_of_ne m ρ c main_arg0 (by decide)).trans (s16_main_arg0 m ρ c)
theorem s17_main_arg10 (c : Dev nD) : W18 (F := Ideal) m ρ c (Proc.devRef .tc main_arg10) = (inK m c).a10 :=
  (W18_of_ne m ρ c main_arg10 (by decide)).trans (s16_main_arg10 m ρ c)
theorem s17_main_arg11 (c : Dev nD) : W18 (F := Ideal) m ρ c (Proc.devRef .tc main_arg11) = (inK m c).a11 :=
  (W18_of_ne m ρ c main_arg11 (by decide)).trans (s16_main_arg11 m ρ c)
theorem s17_main_arg6 (c : Dev nD) : W18 (F := Ideal) m ρ c (Proc.devRef .tc main_arg6) = (inK m c).a6 :=
  (W18_of_ne m ρ c main_arg6 (by decide)).trans (s16_main_arg6 m ρ c)
theorem s17_main_arg8 (c : Dev nD) : W18 (F := Ideal) m ρ c (Proc.devRef .tc main_arg8) = (inK m c).a8 :=
  (W18_of_ne m ρ c main_arg8 (by decide)).trans (s16_main_arg8 m ρ c)
theorem s17_main_arg7 (c : Dev nD) : W18 (F := Ideal) m ρ c (Proc.devRef .tc main_arg7) = (inK m c).a7 :=
  (W18_of_ne m ρ c main_arg7 (by decide)).trans (s16_main_arg7 m ρ c)
theorem s17_main_arg9 (c : Dev nD) : W18 (F := Ideal) m ρ c (Proc.devRef .tc main_arg9) = (inK m c).a9 :=
  (W18_of_ne m ρ c main_arg9 (by decide)).trans (s16_main_arg9 m ρ c)
theorem s17_main_arg12 (c : Dev nD) : W18 (F := Ideal) m ρ c (Proc.devRef .tc main_arg12) = (inK m c).a12 :=
  (W18_of_ne m ρ c main_arg12 (by decide)).trans (s16_main_arg12 m ρ c)
theorem s17_main_arg13 (c : Dev nD) : W18 (F := Ideal) m ρ c (Proc.devRef .tc main_arg13) = (inK m c).a13 :=
  (W18_of_ne m ρ c main_arg13 (by decide)).trans (s16_main_arg13 m ρ c)
theorem s17_main_v132 (c : Dev nD) : W18 (F := Ideal) m ρ c (Proc.devRef .tc main_v132) = kv_main_v132 (inK m c) := by
  refine (W18_arr m ρ c 2).trans ?_
  rw [Cert.KernelIdeal.RegionValue.arr4 (V17 m ρ) c]
  show Cert.Dense.mm (W17 m ρ c (Proc.devRef .tc main_v126)) (W17 m ρ c (Proc.devRef .tc main_v131)) = _
  rw [s16_main_v126 m ρ c, s16_main_v131 m ρ c]
  rfl

theorem s18_main_v1 (c : Dev nD) : W19 (F := Ideal) m ρ c (Proc.devRef .tc main_v1) = kv_main_v1 (inK m c) :=
  (keep_hostOps5 (F := Ideal) (W18 m ρ c) main_v1 (by ref_notin)).trans (s17_main_v1 m ρ c)
theorem s18_main_v3 (c : Dev nD) : W19 (F := Ideal) m ρ c (Proc.devRef .tc main_v3) = kv_main_v3 (inK m c) :=
  (keep_hostOps5 (F := Ideal) (W18 m ρ c) main_v3 (by ref_notin)).trans (s17_main_v3 m ρ c)
theorem s18_main_v15 (c : Dev nD) : W19 (F := Ideal) m ρ c (Proc.devRef .tc main_v15) = kv_main_v15 (inK m c) :=
  (keep_hostOps5 (F := Ideal) (W18 m ρ c) main_v15 (by ref_notin)).trans (s17_main_v15 m ρ c)
theorem s18_main_v20 (c : Dev nD) : W19 (F := Ideal) m ρ c (Proc.devRef .tc main_v20) = kv_main_v20 (inK m c) :=
  (keep_hostOps5 (F := Ideal) (W18 m ρ c) main_v20 (by ref_notin)).trans (s17_main_v20 m ρ c)
theorem s18_main_arg0 (c : Dev nD) : W19 (F := Ideal) m ρ c (Proc.devRef .tc main_arg0) = (inK m c).a0 :=
  (keep_hostOps5 (F := Ideal) (W18 m ρ c) main_arg0 (by ref_notin)).trans (s17_main_arg0 m ρ c)
theorem s18_main_arg10 (c : Dev nD) : W19 (F := Ideal) m ρ c (Proc.devRef .tc main_arg10) = (inK m c).a10 :=
  (keep_hostOps5 (F := Ideal) (W18 m ρ c) main_arg10 (by ref_notin)).trans (s17_main_arg10 m ρ c)
theorem s18_main_arg11 (c : Dev nD) : W19 (F := Ideal) m ρ c (Proc.devRef .tc main_arg11) = (inK m c).a11 :=
  (keep_hostOps5 (F := Ideal) (W18 m ρ c) main_arg11 (by ref_notin)).trans (s17_main_arg11 m ρ c)
theorem s18_main_arg6 (c : Dev nD) : W19 (F := Ideal) m ρ c (Proc.devRef .tc main_arg6) = (inK m c).a6 :=
  (keep_hostOps5 (F := Ideal) (W18 m ρ c) main_arg6 (by ref_notin)).trans (s17_main_arg6 m ρ c)
theorem s18_main_arg8 (c : Dev nD) : W19 (F := Ideal) m ρ c (Proc.devRef .tc main_arg8) = (inK m c).a8 :=
  (keep_hostOps5 (F := Ideal) (W18 m ρ c) main_arg8 (by ref_notin)).trans (s17_main_arg8 m ρ c)
theorem s18_main_arg7 (c : Dev nD) : W19 (F := Ideal) m ρ c (Proc.devRef .tc main_arg7) = (inK m c).a7 :=
  (keep_hostOps5 (F := Ideal) (W18 m ρ c) main_arg7 (by ref_notin)).trans (s17_main_arg7 m ρ c)
theorem s18_main_arg9 (c : Dev nD) : W19 (F := Ideal) m ρ c (Proc.devRef .tc main_arg9) = (inK m c).a9 :=
  (keep_hostOps5 (F := Ideal) (W18 m ρ c) main_arg9 (by ref_notin)).trans (s17_main_arg9 m ρ c)
theorem s18_main_arg12 (c : Dev nD) : W19 (F := Ideal) m ρ c (Proc.devRef .tc main_arg12) = (inK m c).a12 :=
  (keep_hostOps5 (F := Ideal) (W18 m ρ c) main_arg12 (by ref_notin)).trans (s17_main_arg12 m ρ c)
theorem s18_main_arg13 (c : Dev nD) : W19 (F := Ideal) m ρ c (Proc.devRef .tc main_arg13) = (inK m c).a13 :=
  (keep_hostOps5 (F := Ideal) (W18 m ρ c) main_arg13 (by ref_notin)).trans (s17_main_arg13 m ρ c)
theorem s18_main_v158 (c : Dev nD) : W19 (F := Ideal) m ρ c (Proc.devRef .tc main_v158) = kv_main_v158 (inK m c) := by
  refine (c_main_v158 (F := Ideal) (W18 m ρ c)).trans ?_
  rw [s17_main_v1 m ρ c, s17_main_v3 m ρ c, s17_main_v132 m ρ c, s17_main_v20 m ρ c, s17_main_v15 m ρ c]
  rfl
theorem s18_main_v161 (c : Dev nD) : W19 (F := Ideal) m ρ c (Proc.devRef .tc main_v161) = kv_main_v161 (inK m c) := by
  refine (c_main_v161 (F := Ideal) (W18 m ρ c)).trans ?_
  rw [s17_main_arg7 m ρ c]
  rfl
theorem s18_main_v164 (c : Dev nD) : W19 (F := Ideal) m ρ c (Proc.devRef .tc main_v164) = kv_main_v164 (inK m c) := by
  refine (c_main_v164 (F := Ideal) (W18 m ρ c)).trans ?_
  rw [show after (hostOps5 (F := Ideal)) (W18 m ρ c) (Proc.devRef .tc main_v158) = _ from s18_main_v158 m ρ c, show after (hostOps5 (F := Ideal)) (W18 m ρ c) (Proc.devRef .tc main_v161) = _ from s18_main_v161 m ρ c]
  rfl
theorem s18_main_v167 (c : Dev nD) : W19 (F := Ideal) m ρ c (Proc.devRef .tc main_v167) = kv_main_v167 (inK m c) := by
  refine (c_main_v167 (F := Ideal) (W18 m ρ c)).trans ?_
  rw [s17_main_arg9 m ρ c]
  rfl
theorem s18_main_v170 (c : Dev nD) : W19 (F := Ideal) m ρ c (Proc.devRef .tc main_v170) = kv_main_v170 (inK m c) := by
  refine (c_main_v170 (F := Ideal) (W18 m ρ c)).trans ?_
  rw [show after (hostOps5 (F := Ideal)) (W18 m ρ c) (Proc.devRef .tc main_v158) = _ from s18_main_v158 m ρ c, show after (hostOps5 (F := Ideal)) (W18 m ρ c) (Proc.devRef .tc main_v167) = _ from s18_main_v167 m ρ c]
  rfl
theorem s18_main_v173 (c : Dev nD) : W19 (F := Ideal) m ρ c (Proc.devRef .tc main_v173) = kv_main_v173 (inK m c) := by
  refine (c_main_v173 (F := Ideal) (W18 m ρ c)).trans ?_
  rw [show after (hostOps5 (F := Ideal)) (W18 m ρ c) (Proc.devRef .tc main_v164) = _ from s18_main_v164 m ρ c]
  rfl
theorem s18_main_c_33 (c : Dev nD) : W19 (F := Ideal) m ρ c (Proc.devRef .tc main_c_33) = kv_main_c_33 (inK m c) := by
  refine (c_main_c_33 (F := Ideal) (W18 m ρ c)).trans ?_
  rfl

theorem s19_main_v1 (c : Dev nD) : W20 (F := Ideal) m ρ c (Proc.devRef .tc main_v1) = kv_main_v1 (inK m c) :=
  (keep_hostOps5_1 (F := Ideal) (W19 m ρ c) main_v1 (by ref_notin)).trans (s18_main_v1 m ρ c)
theorem s19_main_v3 (c : Dev nD) : W20 (F := Ideal) m ρ c (Proc.devRef .tc main_v3) = kv_main_v3 (inK m c) :=
  (keep_hostOps5_1 (F := Ideal) (W19 m ρ c) main_v3 (by ref_notin)).trans (s18_main_v3 m ρ c)
theorem s19_main_v15 (c : Dev nD) : W20 (F := Ideal) m ρ c (Proc.devRef .tc main_v15) = kv_main_v15 (inK m c) :=
  (keep_hostOps5_1 (F := Ideal) (W19 m ρ c) main_v15 (by ref_notin)).trans (s18_main_v15 m ρ c)
theorem s19_main_v20 (c : Dev nD) : W20 (F := Ideal) m ρ c (Proc.devRef .tc main_v20) = kv_main_v20 (inK m c) :=
  (keep_hostOps5_1 (F := Ideal) (W19 m ρ c) main_v20 (by ref_notin)).trans (s18_main_v20 m ρ c)
theorem s19_main_v164 (c : Dev nD) : W20 (F := Ideal) m ρ c (Proc.devRef .tc main_v164) = kv_main_v164 (inK m c) :=
  (keep_hostOps5_1 (F := Ideal) (W19 m ρ c) main_v164 (by ref_notin)).trans (s18_main_v164 m ρ c)
theorem s19_main_v170 (c : Dev nD) : W20 (F := Ideal) m ρ c (Proc.devRef .tc main_v170) = kv_main_v170 (inK m c) :=
  (keep_hostOps5_1 (F := Ideal) (W19 m ρ c) main_v170 (by ref_notin)).trans (s18_main_v170 m ρ c)
theorem s19_main_v173 (c : Dev nD) : W20 (F := Ideal) m ρ c (Proc.devRef .tc main_v173) = kv_main_v173 (inK m c) :=
  (keep_hostOps5_1 (F := Ideal) (W19 m ρ c) main_v173 (by ref_notin)).trans (s18_main_v173 m ρ c)
theorem s19_main_arg0 (c : Dev nD) : W20 (F := Ideal) m ρ c (Proc.devRef .tc main_arg0) = (inK m c).a0 :=
  (keep_hostOps5_1 (F := Ideal) (W19 m ρ c) main_arg0 (by ref_notin)).trans (s18_main_arg0 m ρ c)
theorem s19_main_arg10 (c : Dev nD) : W20 (F := Ideal) m ρ c (Proc.devRef .tc main_arg10) = (inK m c).a10 :=
  (keep_hostOps5_1 (F := Ideal) (W19 m ρ c) main_arg10 (by ref_notin)).trans (s18_main_arg10 m ρ c)
theorem s19_main_arg11 (c : Dev nD) : W20 (F := Ideal) m ρ c (Proc.devRef .tc main_arg11) = (inK m c).a11 :=
  (keep_hostOps5_1 (F := Ideal) (W19 m ρ c) main_arg11 (by ref_notin)).trans (s18_main_arg11 m ρ c)
theorem s19_main_arg6 (c : Dev nD) : W20 (F := Ideal) m ρ c (Proc.devRef .tc main_arg6) = (inK m c).a6 :=
  (keep_hostOps5_1 (F := Ideal) (W19 m ρ c) main_arg6 (by ref_notin)).trans (s18_main_arg6 m ρ c)
theorem s19_main_arg8 (c : Dev nD) : W20 (F := Ideal) m ρ c (Proc.devRef .tc main_arg8) = (inK m c).a8 :=
  (keep_hostOps5_1 (F := Ideal) (W19 m ρ c) main_arg8 (by ref_notin)).trans (s18_main_arg8 m ρ c)
theorem s19_main_arg7 (c : Dev nD) : W20 (F := Ideal) m ρ c (Proc.devRef .tc main_arg7) = (inK m c).a7 :=
  (keep_hostOps5_1 (F := Ideal) (W19 m ρ c) main_arg7 (by ref_notin)).trans (s18_main_arg7 m ρ c)
theorem s19_main_arg9 (c : Dev nD) : W20 (F := Ideal) m ρ c (Proc.devRef .tc main_arg9) = (inK m c).a9 :=
  (keep_hostOps5_1 (F := Ideal) (W19 m ρ c) main_arg9 (by ref_notin)).trans (s18_main_arg9 m ρ c)
theorem s19_main_arg12 (c : Dev nD) : W20 (F := Ideal) m ρ c (Proc.devRef .tc main_arg12) = (inK m c).a12 :=
  (keep_hostOps5_1 (F := Ideal) (W19 m ρ c) main_arg12 (by ref_notin)).trans (s18_main_arg12 m ρ c)
theorem s19_main_arg13 (c : Dev nD) : W20 (F := Ideal) m ρ c (Proc.devRef .tc main_arg13) = (inK m c).a13 :=
  (keep_hostOps5_1 (F := Ideal) (W19 m ρ c) main_arg13 (by ref_notin)).trans (s18_main_arg13 m ρ c)
theorem s19_main_call4_v5 (c : Dev nD) : W20 (F := Ideal) m ρ c (Proc.devRef .tc main_call4_v5) = kv_main_call4_v5 (inK m c) := by
  refine (c_main_call4_v5 (F := Ideal) (W19 m ρ c)).trans ?_
  rw [s18_main_v164 m ρ c]
  rfl
theorem s19_main_call4_v8 (c : Dev nD) : W20 (F := Ideal) m ρ c (Proc.devRef .tc main_call4_v8) = kv_main_call4_v8 (inK m c) := by
  refine (c_main_call4_v8 (F := Ideal) (W19 m ρ c)).trans ?_
  rw [s18_main_c_33 m ρ c]
  rfl
theorem s19_main_call4_v11 (c : Dev nD) : W20 (F := Ideal) m ρ c (Proc.devRef .tc main_call4_v11) = kv_main_call4_v11 (inK m c) := by
  refine (c_main_call4_v11 (F := Ideal) (W19 m ρ c)).trans ?_
  rw [show after (hostOps5_1 (F := Ideal)) (W19 m ρ c) (Proc.devRef .tc main_call4_v5) = _ from s19_main_call4_v5 m ρ c, show after (hostOps5_1 (F := Ideal)) (W19 m ρ c) (Proc.devRef .tc main_call4_v8) = _ from s19_main_call4_v8 m ρ c]
  rfl
theorem s19_main_v174 (c : Dev nD) : W20 (F := Ideal) m ρ c (Proc.devRef .tc main_v174) = kv_main_v174 (inK m c) := by
  refine (c_main_v174 (F := Ideal) (W19 m ρ c)).trans ?_
  rw [show after (hostOps5_1 (F := Ideal)) (W19 m ρ c) (Proc.devRef .tc main_call4_v8) = _ from s19_main_call4_v8 m ρ c, show after (hostOps5_1 (F := Ideal)) (W19 m ρ c) (Proc.devRef .tc main_call4_v11) = _ from s19_main_call4_v11 m ρ c]
  rfl

theorem s20_main_v1 (c : Dev nD) : W21 (F := Ideal) m ρ c (Proc.devRef .tc main_v1) = kv_main_v1 (inK m c) :=
  (keep_hostOps5_2 (F := Ideal) (W20 m ρ c) main_v1 (by ref_notin)).trans (s19_main_v1 m ρ c)
theorem s20_main_v3 (c : Dev nD) : W21 (F := Ideal) m ρ c (Proc.devRef .tc main_v3) = kv_main_v3 (inK m c) :=
  (keep_hostOps5_2 (F := Ideal) (W20 m ρ c) main_v3 (by ref_notin)).trans (s19_main_v3 m ρ c)
theorem s20_main_v15 (c : Dev nD) : W21 (F := Ideal) m ρ c (Proc.devRef .tc main_v15) = kv_main_v15 (inK m c) :=
  (keep_hostOps5_2 (F := Ideal) (W20 m ρ c) main_v15 (by ref_notin)).trans (s19_main_v15 m ρ c)
theorem s20_main_v20 (c : Dev nD) : W21 (F := Ideal) m ρ c (Proc.devRef .tc main_v20) = kv_main_v20 (inK m c) :=
  (keep_hostOps5_2 (F := Ideal) (W20 m ρ c) main_v20 (by ref_notin)).trans (s19_main_v20 m ρ c)
theorem s20_main_v164 (c : Dev nD) : W21 (F := Ideal) m ρ c (Proc.devRef .tc main_v164) = kv_main_v164 (inK m c) :=
  (keep_hostOps5_2 (F := Ideal) (W20 m ρ c) main_v164 (by ref_notin)).trans (s19_main_v164 m ρ c)
theorem s20_main_v170 (c : Dev nD) : W21 (F := Ideal) m ρ c (Proc.devRef .tc main_v170) = kv_main_v170 (inK m c) :=
  (keep_hostOps5_2 (F := Ideal) (W20 m ρ c) main_v170 (by ref_notin)).trans (s19_main_v170 m ρ c)
theorem s20_main_arg0 (c : Dev nD) : W21 (F := Ideal) m ρ c (Proc.devRef .tc main_arg0) = (inK m c).a0 :=
  (keep_hostOps5_2 (F := Ideal) (W20 m ρ c) main_arg0 (by ref_notin)).trans (s19_main_arg0 m ρ c)
theorem s20_main_arg10 (c : Dev nD) : W21 (F := Ideal) m ρ c (Proc.devRef .tc main_arg10) = (inK m c).a10 :=
  (keep_hostOps5_2 (F := Ideal) (W20 m ρ c) main_arg10 (by ref_notin)).trans (s19_main_arg10 m ρ c)
theorem s20_main_arg11 (c : Dev nD) : W21 (F := Ideal) m ρ c (Proc.devRef .tc main_arg11) = (inK m c).a11 :=
  (keep_hostOps5_2 (F := Ideal) (W20 m ρ c) main_arg11 (by ref_notin)).trans (s19_main_arg11 m ρ c)
theorem s20_main_arg6 (c : Dev nD) : W21 (F := Ideal) m ρ c (Proc.devRef .tc main_arg6) = (inK m c).a6 :=
  (keep_hostOps5_2 (F := Ideal) (W20 m ρ c) main_arg6 (by ref_notin)).trans (s19_main_arg6 m ρ c)
theorem s20_main_arg8 (c : Dev nD) : W21 (F := Ideal) m ρ c (Proc.devRef .tc main_arg8) = (inK m c).a8 :=
  (keep_hostOps5_2 (F := Ideal) (W20 m ρ c) main_arg8 (by ref_notin)).trans (s19_main_arg8 m ρ c)
theorem s20_main_arg7 (c : Dev nD) : W21 (F := Ideal) m ρ c (Proc.devRef .tc main_arg7) = (inK m c).a7 :=
  (keep_hostOps5_2 (F := Ideal) (W20 m ρ c) main_arg7 (by ref_notin)).trans (s19_main_arg7 m ρ c)
theorem s20_main_arg9 (c : Dev nD) : W21 (F := Ideal) m ρ c (Proc.devRef .tc main_arg9) = (inK m c).a9 :=
  (keep_hostOps5_2 (F := Ideal) (W20 m ρ c) main_arg9 (by ref_notin)).trans (s19_main_arg9 m ρ c)
theorem s20_main_arg12 (c : Dev nD) : W21 (F := Ideal) m ρ c (Proc.devRef .tc main_arg12) = (inK m c).a12 :=
  (keep_hostOps5_2 (F := Ideal) (W20 m ρ c) main_arg12 (by ref_notin)).trans (s19_main_arg12 m ρ c)
theorem s20_main_arg13 (c : Dev nD) : W21 (F := Ideal) m ρ c (Proc.devRef .tc main_arg13) = (inK m c).a13 :=
  (keep_hostOps5_2 (F := Ideal) (W20 m ρ c) main_arg13 (by ref_notin)).trans (s19_main_arg13 m ρ c)
theorem s20_main_v176 (c : Dev nD) : W21 (F := Ideal) m ρ c (Proc.devRef .tc main_v176) = kv_main_v176 (inK m c) := by
  refine (c_main_v176 (F := Ideal) (W20 m ρ c)).trans ?_
  rw [s19_main_arg10 m ρ c]
  rfl
theorem s20_main_v178 (c : Dev nD) : W21 (F := Ideal) m ρ c (Proc.devRef .tc main_v178) = kv_main_v178 (inK m c) := by
  refine (c_main_v178 (F := Ideal) (W20 m ρ c)).trans ?_
  rw [s19_main_arg11 m ρ c]
  rfl
theorem s20_main_v179 (c : Dev nD) : W21 (F := Ideal) m ρ c (Proc.devRef .tc main_v179) = kv_main_v179 (inK m c) := by
  refine (c_main_v179 (F := Ideal) (W20 m ρ c)).trans ?_
  rw [s19_main_v173 m ρ c]
  rfl
theorem s20_main_v180 (c : Dev nD) : W21 (F := Ideal) m ρ c (Proc.devRef .tc main_v180) = kv_main_v180 (inK m c) := by
  refine (c_main_v180 (F := Ideal) (W20 m ρ c)).trans ?_
  rw [s19_main_v174 m ρ c]
  rfl
theorem s20_main_v181 (c : Dev nD) : W21 (F := Ideal) m ρ c (Proc.devRef .tc main_v181) = kv_main_v181 (inK m c) := by
  refine (c_main_v181 (F := Ideal) (W20 m ρ c)).trans ?_
  rw [show after (hostOps5_2 (F := Ideal)) (W20 m ρ c) (Proc.devRef .tc main_v176) = _ from s20_main_v176 m ρ c]
  rfl
theorem s20_main_v182 (c : Dev nD) : W21 (F := Ideal) m ρ c (Proc.devRef .tc main_v182) = kv_main_v182 (inK m c) := by
  refine (c_main_v182 (F := Ideal) (W20 m ρ c)).trans ?_
  rw [show after (hostOps5_2 (F := Ideal)) (W20 m ρ c) (Proc.devRef .tc main_v178) = _ from s20_main_v178 m ρ c]
  rfl

theorem s21_main_v1 (c : Dev nD) : W22 (F := Ideal) m ρ c (Proc.devRef .tc main_v1) = kv_main_v1 (inK m c) :=
  (W22_of_ne m ρ c main_v1 (by decide)).trans (s20_main_v1 m ρ c)
theorem s21_main_v3 (c : Dev nD) : W22 (F := Ideal) m ρ c (Proc.devRef .tc main_v3) = kv_main_v3 (inK m c) :=
  (W22_of_ne m ρ c main_v3 (by decide)).trans (s20_main_v3 m ρ c)
theorem s21_main_v15 (c : Dev nD) : W22 (F := Ideal) m ρ c (Proc.devRef .tc main_v15) = kv_main_v15 (inK m c) :=
  (W22_of_ne m ρ c main_v15 (by decide)).trans (s20_main_v15 m ρ c)
theorem s21_main_v20 (c : Dev nD) : W22 (F := Ideal) m ρ c (Proc.devRef .tc main_v20) = kv_main_v20 (inK m c) :=
  (W22_of_ne m ρ c main_v20 (by decide)).trans (s20_main_v20 m ρ c)
theorem s21_main_arg0 (c : Dev nD) : W22 (F := Ideal) m ρ c (Proc.devRef .tc main_arg0) = (inK m c).a0 :=
  (W22_of_ne m ρ c main_arg0 (by decide)).trans (s20_main_arg0 m ρ c)
theorem s21_main_arg10 (c : Dev nD) : W22 (F := Ideal) m ρ c (Proc.devRef .tc main_arg10) = (inK m c).a10 :=
  (W22_of_ne m ρ c main_arg10 (by decide)).trans (s20_main_arg10 m ρ c)
theorem s21_main_arg11 (c : Dev nD) : W22 (F := Ideal) m ρ c (Proc.devRef .tc main_arg11) = (inK m c).a11 :=
  (W22_of_ne m ρ c main_arg11 (by decide)).trans (s20_main_arg11 m ρ c)
theorem s21_main_arg6 (c : Dev nD) : W22 (F := Ideal) m ρ c (Proc.devRef .tc main_arg6) = (inK m c).a6 :=
  (W22_of_ne m ρ c main_arg6 (by decide)).trans (s20_main_arg6 m ρ c)
theorem s21_main_arg8 (c : Dev nD) : W22 (F := Ideal) m ρ c (Proc.devRef .tc main_arg8) = (inK m c).a8 :=
  (W22_of_ne m ρ c main_arg8 (by decide)).trans (s20_main_arg8 m ρ c)
theorem s21_main_arg7 (c : Dev nD) : W22 (F := Ideal) m ρ c (Proc.devRef .tc main_arg7) = (inK m c).a7 :=
  (W22_of_ne m ρ c main_arg7 (by decide)).trans (s20_main_arg7 m ρ c)
theorem s21_main_arg9 (c : Dev nD) : W22 (F := Ideal) m ρ c (Proc.devRef .tc main_arg9) = (inK m c).a9 :=
  (W22_of_ne m ρ c main_arg9 (by decide)).trans (s20_main_arg9 m ρ c)
theorem s21_main_arg12 (c : Dev nD) : W22 (F := Ideal) m ρ c (Proc.devRef .tc main_arg12) = (inK m c).a12 :=
  (W22_of_ne m ρ c main_arg12 (by decide)).trans (s20_main_arg12 m ρ c)
theorem s21_main_arg13 (c : Dev nD) : W22 (F := Ideal) m ρ c (Proc.devRef .tc main_arg13) = (inK m c).a13 :=
  (W22_of_ne m ρ c main_arg13 (by decide)).trans (s20_main_arg13 m ρ c)
theorem s21_main_v183 (c : Dev nD) : W22 (F := Ideal) m ρ c (Proc.devRef .tc main_v183) = kv_main_v183 (inK m c) := by
  refine (W22_arr m ρ c 6).trans ?_
  rw [Cert.KernelIdeal.RegionValue.arr5 (V21 m ρ) c]
  show Cert.KernelIdeal.RegionValue.bnK (W21 m ρ c (Proc.devRef .tc main_v164)) (W21 m ρ c (Proc.devRef .tc main_v170)) (W21 m ρ c (Proc.devRef .tc main_v179)) (W21 m ρ c (Proc.devRef .tc main_v180)) (W21 m ρ c (Proc.devRef .tc main_v181)) (W21 m ρ c (Proc.devRef .tc main_v182)) = _
  rw [s20_main_v164 m ρ c, s20_main_v170 m ρ c, s20_main_v179 m ρ c, s20_main_v180 m ρ c, s20_main_v181 m ρ c, s20_main_v182 m ρ c]
  rfl

end Cert.KernelIdeal.Val

end
-- ==== Proof.KState3.lean ====
/- The contents of the kernel program's buffers at its segment boundaries: each named value's buffer holds that value of the argument arrays. -/
import proofs.«127768_j9405978378358_1_alg».proof.Proof.FrameKernelIdealP
import proofs.«127768_j9405978378358_1_alg».proof.Proof.KVals
import proofs.«127768_j9405978378358_1_alg».proof.Proof.KSeg_hostOps6
import proofs.«127768_j9405978378358_1_alg».proof.Proof.KSeg_hostOps7
import proofs.«127768_j9405978378358_1_alg».proof.Proof.KSeg_hostOps7_1
import proofs.«127768_j9405978378358_1_alg».proof.Proof.KSeg_hostOps7_2
import proofs.«127768_j9405978378358_1_alg».proof.Proof.KReg6
import proofs.«127768_j9405978378358_1_alg».proof.Proof.KReg7
import proofs.«127768_j9405978378358_1_alg».proof.Proof.KState2
import proofs.«127768_j9405978378358_1_alg».proof.Proof.RefTac

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.StableHlo Idealize.SL.Sem

variable (m : (ℓ : Loc nD τ sig) → Buf (Elt Ideal) ℓ) (ρ : Dev nD → PrngReg)

theorem s22_main_v1 (c : Dev nD) : W23 (F := Ideal) m ρ c (Proc.devRef .tc main_v1) = kv_main_v1 (inK m c) :=
  (keep_hostOps6 (F := Ideal) (W22 m ρ c) main_v1 (by ref_notin)).trans (s21_main_v1 m ρ c)
theorem s22_main_v3 (c : Dev nD) : W23 (F := Ideal) m ρ c (Proc.devRef .tc main_v3) = kv_main_v3 (inK m c) :=
  (keep_hostOps6 (F := Ideal) (W22 m ρ c) main_v3 (by ref_notin)).trans (s21_main_v3 m ρ c)
theorem s22_main_v15 (c : Dev nD) : W23 (F := Ideal) m ρ c (Proc.devRef .tc main_v15) = kv_main_v15 (inK m c) :=
  (keep_hostOps6 (F := Ideal) (W22 m ρ c) main_v15 (by ref_notin)).trans (s21_main_v15 m ρ c)
theorem s22_main_v20 (c : Dev nD) : W23 (F := Ideal) m ρ c (Proc.devRef .tc main_v20) = kv_main_v20 (inK m c) :=
  (keep_hostOps6 (F := Ideal) (W22 m ρ c) main_v20 (by ref_notin)).trans (s21_main_v20 m ρ c)
theorem s22_main_v183 (c : Dev nD) : W23 (F := Ideal) m ρ c (Proc.devRef .tc main_v183) = kv_main_v183 (inK m c) :=
  (keep_hostOps6 (F := Ideal) (W22 m ρ c) main_v183 (by ref_notin)).trans (s21_main_v183 m ρ c)
theorem s22_main_arg0 (c : Dev nD) : W23 (F := Ideal) m ρ c (Proc.devRef .tc main_arg0) = (inK m c).a0 :=
  (keep_hostOps6 (F := Ideal) (W22 m ρ c) main_arg0 (by ref_notin)).trans (s21_main_arg0 m ρ c)
theorem s22_main_arg10 (c : Dev nD) : W23 (F := Ideal) m ρ c (Proc.devRef .tc main_arg10) = (inK m c).a10 :=
  (keep_hostOps6 (F := Ideal) (W22 m ρ c) main_arg10 (by ref_notin)).trans (s21_main_arg10 m ρ c)
theorem s22_main_arg11 (c : Dev nD) : W23 (F := Ideal) m ρ c (Proc.devRef .tc main_arg11) = (inK m c).a11 :=
  (keep_hostOps6 (F := Ideal) (W22 m ρ c) main_arg11 (by ref_notin)).trans (s21_main_arg11 m ρ c)
theorem s22_main_arg6 (c : Dev nD) : W23 (F := Ideal) m ρ c (Proc.devRef .tc main_arg6) = (inK m c).a6 :=
  (keep_hostOps6 (F := Ideal) (W22 m ρ c) main_arg6 (by ref_notin)).trans (s21_main_arg6 m ρ c)
theorem s22_main_arg8 (c : Dev nD) : W23 (F := Ideal) m ρ c (Proc.devRef .tc main_arg8) = (inK m c).a8 :=
  (keep_hostOps6 (F := Ideal) (W22 m ρ c) main_arg8 (by ref_notin)).trans (s21_main_arg8 m ρ c)
theorem s22_main_arg7 (c : Dev nD) : W23 (F := Ideal) m ρ c (Proc.devRef .tc main_arg7) = (inK m c).a7 :=
  (keep_hostOps6 (F := Ideal) (W22 m ρ c) main_arg7 (by ref_notin)).trans (s21_main_arg7 m ρ c)
theorem s22_main_arg9 (c : Dev nD) : W23 (F := Ideal) m ρ c (Proc.devRef .tc main_arg9) = (inK m c).a9 :=
  (keep_hostOps6 (F := Ideal) (W22 m ρ c) main_arg9 (by ref_notin)).trans (s21_main_arg9 m ρ c)
theorem s22_main_arg12 (c : Dev nD) : W23 (F := Ideal) m ρ c (Proc.devRef .tc main_arg12) = (inK m c).a12 :=
  (keep_hostOps6 (F := Ideal) (W22 m ρ c) main_arg12 (by ref_notin)).trans (s21_main_arg12 m ρ c)
theorem s22_main_arg13 (c : Dev nD) : W23 (F := Ideal) m ρ c (Proc.devRef .tc main_arg13) = (inK m c).a13 :=
  (keep_hostOps6 (F := Ideal) (W22 m ρ c) main_arg13 (by ref_notin)).trans (s21_main_arg13 m ρ c)
theorem s22_main_v185 (c : Dev nD) : W23 (F := Ideal) m ρ c (Proc.devRef .tc main_v185) = kv_main_v185 (inK m c) := by
  refine (c_main_v185 (F := Ideal) (W22 m ρ c)).trans ?_
  rw [s21_main_arg6 m ρ c]
  rfl
theorem s22_main_v187 (c : Dev nD) : W23 (F := Ideal) m ρ c (Proc.devRef .tc main_v187) = kv_main_v187 (inK m c) := by
  refine (c_main_v187 (F := Ideal) (W22 m ρ c)).trans ?_
  rw [s21_main_arg8 m ρ c]
  rfl
theorem s22_main_v188 (c : Dev nD) : W23 (F := Ideal) m ρ c (Proc.devRef .tc main_v188) = kv_main_v188 (inK m c) := by
  refine (c_main_v188 (F := Ideal) (W22 m ρ c)).trans ?_
  rw [show after (hostOps6 (F := Ideal)) (W22 m ρ c) (Proc.devRef .tc main_v185) = _ from s22_main_v185 m ρ c, show after (hostOps6 (F := Ideal)) (W22 m ρ c) (Proc.devRef .tc main_v187) = _ from s22_main_v187 m ρ c]
  rfl

theorem s23_main_v1 (c : Dev nD) : W24 (F := Ideal) m ρ c (Proc.devRef .tc main_v1) = kv_main_v1 (inK m c) :=
  (W24_of_ne m ρ c main_v1 (by decide)).trans (s22_main_v1 m ρ c)
theorem s23_main_v3 (c : Dev nD) : W24 (F := Ideal) m ρ c (Proc.devRef .tc main_v3) = kv_main_v3 (inK m c) :=
  (W24_of_ne m ρ c main_v3 (by decide)).trans (s22_main_v3 m ρ c)
theorem s23_main_v15 (c : Dev nD) : W24 (F := Ideal) m ρ c (Proc.devRef .tc main_v15) = kv_main_v15 (inK m c) :=
  (W24_of_ne m ρ c main_v15 (by decide)).trans (s22_main_v15 m ρ c)
theorem s23_main_v20 (c : Dev nD) : W24 (F := Ideal) m ρ c (Proc.devRef .tc main_v20) = kv_main_v20 (inK m c) :=
  (W24_of_ne m ρ c main_v20 (by decide)).trans (s22_main_v20 m ρ c)
theorem s23_main_arg0 (c : Dev nD) : W24 (F := Ideal) m ρ c (Proc.devRef .tc main_arg0) = (inK m c).a0 :=
  (W24_of_ne m ρ c main_arg0 (by decide)).trans (s22_main_arg0 m ρ c)
theorem s23_main_arg10 (c : Dev nD) : W24 (F := Ideal) m ρ c (Proc.devRef .tc main_arg10) = (inK m c).a10 :=
  (W24_of_ne m ρ c main_arg10 (by decide)).trans (s22_main_arg10 m ρ c)
theorem s23_main_arg11 (c : Dev nD) : W24 (F := Ideal) m ρ c (Proc.devRef .tc main_arg11) = (inK m c).a11 :=
  (W24_of_ne m ρ c main_arg11 (by decide)).trans (s22_main_arg11 m ρ c)
theorem s23_main_arg6 (c : Dev nD) : W24 (F := Ideal) m ρ c (Proc.devRef .tc main_arg6) = (inK m c).a6 :=
  (W24_of_ne m ρ c main_arg6 (by decide)).trans (s22_main_arg6 m ρ c)
theorem s23_main_arg8 (c : Dev nD) : W24 (F := Ideal) m ρ c (Proc.devRef .tc main_arg8) = (inK m c).a8 :=
  (W24_of_ne m ρ c main_arg8 (by decide)).trans (s22_main_arg8 m ρ c)
theorem s23_main_arg7 (c : Dev nD) : W24 (F := Ideal) m ρ c (Proc.devRef .tc main_arg7) = (inK m c).a7 :=
  (W24_of_ne m ρ c main_arg7 (by decide)).trans (s22_main_arg7 m ρ c)
theorem s23_main_arg9 (c : Dev nD) : W24 (F := Ideal) m ρ c (Proc.devRef .tc main_arg9) = (inK m c).a9 :=
  (W24_of_ne m ρ c main_arg9 (by decide)).trans (s22_main_arg9 m ρ c)
theorem s23_main_arg12 (c : Dev nD) : W24 (F := Ideal) m ρ c (Proc.devRef .tc main_arg12) = (inK m c).a12 :=
  (W24_of_ne m ρ c main_arg12 (by decide)).trans (s22_main_arg12 m ρ c)
theorem s23_main_arg13 (c : Dev nD) : W24 (F := Ideal) m ρ c (Proc.devRef .tc main_arg13) = (inK m c).a13 :=
  (W24_of_ne m ρ c main_arg13 (by decide)).trans (s22_main_arg13 m ρ c)
theorem s23_main_v189 (c : Dev nD) : W24 (F := Ideal) m ρ c (Proc.devRef .tc main_v189) = kv_main_v189 (inK m c) := by
  refine (W24_arr m ρ c 2).trans ?_
  rw [Cert.KernelIdeal.RegionValue.arr6 (V23 m ρ) c]
  show Cert.Dense.mm (W23 m ρ c (Proc.devRef .tc main_v183)) (W23 m ρ c (Proc.devRef .tc main_v188)) = _
  rw [s22_main_v183 m ρ c, s22_main_v188 m ρ c]
  rfl

theorem s24_main_v1 (c : Dev nD) : W25 (F := Ideal) m ρ c (Proc.devRef .tc main_v1) = kv_main_v1 (inK m c) :=
  (keep_hostOps7 (F := Ideal) (W24 m ρ c) main_v1 (by ref_notin)).trans (s23_main_v1 m ρ c)
theorem s24_main_v3 (c : Dev nD) : W25 (F := Ideal) m ρ c (Proc.devRef .tc main_v3) = kv_main_v3 (inK m c) :=
  (keep_hostOps7 (F := Ideal) (W24 m ρ c) main_v3 (by ref_notin)).trans (s23_main_v3 m ρ c)
theorem s24_main_v15 (c : Dev nD) : W25 (F := Ideal) m ρ c (Proc.devRef .tc main_v15) = kv_main_v15 (inK m c) :=
  (keep_hostOps7 (F := Ideal) (W24 m ρ c) main_v15 (by ref_notin)).trans (s23_main_v15 m ρ c)
theorem s24_main_v20 (c : Dev nD) : W25 (F := Ideal) m ρ c (Proc.devRef .tc main_v20) = kv_main_v20 (inK m c) :=
  (keep_hostOps7 (F := Ideal) (W24 m ρ c) main_v20 (by ref_notin)).trans (s23_main_v20 m ρ c)
theorem s24_main_arg0 (c : Dev nD) : W25 (F := Ideal) m ρ c (Proc.devRef .tc main_arg0) = (inK m c).a0 :=
  (keep_hostOps7 (F := Ideal) (W24 m ρ c) main_arg0 (by ref_notin)).trans (s23_main_arg0 m ρ c)
theorem s24_main_arg10 (c : Dev nD) : W25 (F := Ideal) m ρ c (Proc.devRef .tc main_arg10) = (inK m c).a10 :=
  (keep_hostOps7 (F := Ideal) (W24 m ρ c) main_arg10 (by ref_notin)).trans (s23_main_arg10 m ρ c)
theorem s24_main_arg11 (c : Dev nD) : W25 (F := Ideal) m ρ c (Proc.devRef .tc main_arg11) = (inK m c).a11 :=
  (keep_hostOps7 (F := Ideal) (W24 m ρ c) main_arg11 (by ref_notin)).trans (s23_main_arg11 m ρ c)
theorem s24_main_arg6 (c : Dev nD) : W25 (F := Ideal) m ρ c (Proc.devRef .tc main_arg6) = (inK m c).a6 :=
  (keep_hostOps7 (F := Ideal) (W24 m ρ c) main_arg6 (by ref_notin)).trans (s23_main_arg6 m ρ c)
theorem s24_main_arg8 (c : Dev nD) : W25 (F := Ideal) m ρ c (Proc.devRef .tc main_arg8) = (inK m c).a8 :=
  (keep_hostOps7 (F := Ideal) (W24 m ρ c) main_arg8 (by ref_notin)).trans (s23_main_arg8 m ρ c)
theorem s24_main_arg7 (c : Dev nD) : W25 (F := Ideal) m ρ c (Proc.devRef .tc main_arg7) = (inK m c).a7 :=
  (keep_hostOps7 (F := Ideal) (W24 m ρ c) main_arg7 (by ref_notin)).trans (s23_main_arg7 m ρ c)
theorem s24_main_arg9 (c : Dev nD) : W25 (F := Ideal) m ρ c (Proc.devRef .tc main_arg9) = (inK m c).a9 :=
  (keep_hostOps7 (F := Ideal) (W24 m ρ c) main_arg9 (by ref_notin)).trans (s23_main_arg9 m ρ c)
theorem s24_main_arg12 (c : Dev nD) : W25 (F := Ideal) m ρ c (Proc.devRef .tc main_arg12) = (inK m c).a12 :=
  (keep_hostOps7 (F := Ideal) (W24 m ρ c) main_arg12 (by ref_notin)).trans (s23_main_arg12 m ρ c)
theorem s24_main_arg13 (c : Dev nD) : W25 (F := Ideal) m ρ c (Proc.devRef .tc main_arg13) = (inK m c).a13 :=
  (keep_hostOps7 (F := Ideal) (W24 m ρ c) main_arg13 (by ref_notin)).trans (s23_main_arg13 m ρ c)
theorem s24_main_v215 (c : Dev nD) : W25 (F := Ideal) m ρ c (Proc.devRef .tc main_v215) = kv_main_v215 (inK m c) := by
  refine (c_main_v215 (F := Ideal) (W24 m ρ c)).trans ?_
  rw [s23_main_v1 m ρ c, s23_main_v3 m ρ c, s23_main_v189 m ρ c, s23_main_v20 m ρ c, s23_main_v15 m ρ c]
  rfl
theorem s24_main_v218 (c : Dev nD) : W25 (F := Ideal) m ρ c (Proc.devRef .tc main_v218) = kv_main_v218 (inK m c) := by
  refine (c_main_v218 (F := Ideal) (W24 m ρ c)).trans ?_
  rw [s23_main_arg7 m ρ c]
  rfl
theorem s24_main_v221 (c : Dev nD) : W25 (F := Ideal) m ρ c (Proc.devRef .tc main_v221) = kv_main_v221 (inK m c) := by
  refine (c_main_v221 (F := Ideal) (W24 m ρ c)).trans ?_
  rw [show after (hostOps7 (F := Ideal)) (W24 m ρ c) (Proc.devRef .tc main_v215) = _ from s24_main_v215 m ρ c, show after (hostOps7 (F := Ideal)) (W24 m ρ c) (Proc.devRef .tc main_v218) = _ from s24_main_v218 m ρ c]
  rfl
theorem s24_main_v224 (c : Dev nD) : W25 (F := Ideal) m ρ c (Proc.devRef .tc main_v224) = kv_main_v224 (inK m c) := by
  refine (c_main_v224 (F := Ideal) (W24 m ρ c)).trans ?_
  rw [s23_main_arg9 m ρ c]
  rfl
theorem s24_main_v227 (c : Dev nD) : W25 (F := Ideal) m ρ c (Proc.devRef .tc main_v227) = kv_main_v227 (inK m c) := by
  refine (c_main_v227 (F := Ideal) (W24 m ρ c)).trans ?_
  rw [show after (hostOps7 (F := Ideal)) (W24 m ρ c) (Proc.devRef .tc main_v215) = _ from s24_main_v215 m ρ c, show after (hostOps7 (F := Ideal)) (W24 m ρ c) (Proc.devRef .tc main_v224) = _ from s24_main_v224 m ρ c]
  rfl
theorem s24_main_v230 (c : Dev nD) : W25 (F := Ideal) m ρ c (Proc.devRef .tc main_v230) = kv_main_v230 (inK m c) := by
  refine (c_main_v230 (F := Ideal) (W24 m ρ c)).trans ?_
  rw [show after (hostOps7 (F := Ideal)) (W24 m ρ c) (Proc.devRef .tc main_v221) = _ from s24_main_v221 m ρ c]
  rfl
theorem s24_main_c_42 (c : Dev nD) : W25 (F := Ideal) m ρ c (Proc.devRef .tc main_c_42) = kv_main_c_42 (inK m c) := by
  refine (c_main_c_42 (F := Ideal) (W24 m ρ c)).trans ?_
  rfl

theorem s25_main_v1 (c : Dev nD) : W26 (F := Ideal) m ρ c (Proc.devRef .tc main_v1) = kv_main_v1 (inK m c) :=
  (keep_hostOps7_1 (F := Ideal) (W25 m ρ c) main_v1 (by ref_notin)).trans (s24_main_v1 m ρ c)
theorem s25_main_v3 (c : Dev nD) : W26 (F := Ideal) m ρ c (Proc.devRef .tc main_v3) = kv_main_v3 (inK m c) :=
  (keep_hostOps7_1 (F := Ideal) (W25 m ρ c) main_v3 (by ref_notin)).trans (s24_main_v3 m ρ c)
theorem s25_main_v15 (c : Dev nD) : W26 (F := Ideal) m ρ c (Proc.devRef .tc main_v15) = kv_main_v15 (inK m c) :=
  (keep_hostOps7_1 (F := Ideal) (W25 m ρ c) main_v15 (by ref_notin)).trans (s24_main_v15 m ρ c)
theorem s25_main_v20 (c : Dev nD) : W26 (F := Ideal) m ρ c (Proc.devRef .tc main_v20) = kv_main_v20 (inK m c) :=
  (keep_hostOps7_1 (F := Ideal) (W25 m ρ c) main_v20 (by ref_notin)).trans (s24_main_v20 m ρ c)
theorem s25_main_v221 (c : Dev nD) : W26 (F := Ideal) m ρ c (Proc.devRef .tc main_v221) = kv_main_v221 (inK m c) :=
  (keep_hostOps7_1 (F := Ideal) (W25 m ρ c) main_v221 (by ref_notin)).trans (s24_main_v221 m ρ c)
theorem s25_main_v227 (c : Dev nD) : W26 (F := Ideal) m ρ c (Proc.devRef .tc main_v227) = kv_main_v227 (inK m c) :=
  (keep_hostOps7_1 (F := Ideal) (W25 m ρ c) main_v227 (by ref_notin)).trans (s24_main_v227 m ρ c)
theorem s25_main_v230 (c : Dev nD) : W26 (F := Ideal) m ρ c (Proc.devRef .tc main_v230) = kv_main_v230 (inK m c) :=
  (keep_hostOps7_1 (F := Ideal) (W25 m ρ c) main_v230 (by ref_notin)).trans (s24_main_v230 m ρ c)
theorem s25_main_arg0 (c : Dev nD) : W26 (F := Ideal) m ρ c (Proc.devRef .tc main_arg0) = (inK m c).a0 :=
  (keep_hostOps7_1 (F := Ideal) (W25 m ρ c) main_arg0 (by ref_notin)).trans (s24_main_arg0 m ρ c)
theorem s25_main_arg10 (c : Dev nD) : W26 (F := Ideal) m ρ c (Proc.devRef .tc main_arg10) = (inK m c).a10 :=
  (keep_hostOps7_1 (F := Ideal) (W25 m ρ c) main_arg10 (by ref_notin)).trans (s24_main_arg10 m ρ c)
theorem s25_main_arg11 (c : Dev nD) : W26 (F := Ideal) m ρ c (Proc.devRef .tc main_arg11) = (inK m c).a11 :=
  (keep_hostOps7_1 (F := Ideal) (W25 m ρ c) main_arg11 (by ref_notin)).trans (s24_main_arg11 m ρ c)
theorem s25_main_arg6 (c : Dev nD) : W26 (F := Ideal) m ρ c (Proc.devRef .tc main_arg6) = (inK m c).a6 :=
  (keep_hostOps7_1 (F := Ideal) (W25 m ρ c) main_arg6 (by ref_notin)).trans (s24_main_arg6 m ρ c)
theorem s25_main_arg8 (c : Dev nD) : W26 (F := Ideal) m ρ c (Proc.devRef .tc main_arg8) = (inK m c).a8 :=
  (keep_hostOps7_1 (F := Ideal) (W25 m ρ c) main_arg8 (by ref_notin)).trans (s24_main_arg8 m ρ c)
theorem s25_main_arg7 (c : Dev nD) : W26 (F := Ideal) m ρ c (Proc.devRef .tc main_arg7) = (inK m c).a7 :=
  (keep_hostOps7_1 (F := Ideal) (W25 m ρ c) main_arg7 (by ref_notin)).trans (s24_main_arg7 m ρ c)
theorem s25_main_arg9 (c : Dev nD) : W26 (F := Ideal) m ρ c (Proc.devRef .tc main_arg9) = (inK m c).a9 :=
  (keep_hostOps7_1 (F := Ideal) (W25 m ρ c) main_arg9 (by ref_notin)).trans (s24_main_arg9 m ρ c)
theorem s25_main_arg12 (c : Dev nD) : W26 (F := Ideal) m ρ c (Proc.devRef .tc main_arg12) = (inK m c).a12 :=
  (keep_hostOps7_1 (F := Ideal) (W25 m ρ c) main_arg12 (by ref_notin)).trans (s24_main_arg12 m ρ c)
theorem s25_main_arg13 (c : Dev nD) : W26 (F := Ideal) m ρ c (Proc.devRef .tc main_arg13) = (inK m c).a13 :=
  (keep_hostOps7_1 (F := Ideal) (W25 m ρ c) main_arg13 (by ref_notin)).trans (s24_main_arg13 m ρ c)
theorem s25_main_call5_v5 (c : Dev nD) : W26 (F := Ideal) m ρ c (Proc.devRef .tc main_call5_v5) = kv_main_call5_v5 (inK m c) := by
  refine (c_main_call5_v5 (F := Ideal) (W25 m ρ c)).trans ?_
  rw [s24_main_v221 m ρ c]
  rfl
theorem s25_main_call5_v8 (c : Dev nD) : W26 (F := Ideal) m ρ c (Proc.devRef .tc main_call5_v8) = kv_main_call5_v8 (inK m c) := by
  refine (c_main_call5_v8 (F := Ideal) (W25 m ρ c)).trans ?_
  rw [s24_main_c_42 m ρ c]
  rfl
theorem s25_main_call5_v11 (c : Dev nD) : W26 (F := Ideal) m ρ c (Proc.devRef .tc main_call5_v11) = kv_main_call5_v11 (inK m c) := by
  refine (c_main_call5_v11 (F := Ideal) (W25 m ρ c)).trans ?_
  rw [show after (hostOps7_1 (F := Ideal)) (W25 m ρ c) (Proc.devRef .tc main_call5_v5) = _ from s25_main_call5_v5 m ρ c, show after (hostOps7_1 (F := Ideal)) (W25 m ρ c) (Proc.devRef .tc main_call5_v8) = _ from s25_main_call5_v8 m ρ c]
  rfl
theorem s25_main_v231 (c : Dev nD) : W26 (F := Ideal) m ρ c (Proc.devRef .tc main_v231) = kv_main_v231 (inK m c) := by
  refine (c_main_v231 (F := Ideal) (W25 m ρ c)).trans ?_
  rw [show after (hostOps7_1 (F := Ideal)) (W25 m ρ c) (Proc.devRef .tc main_call5_v8) = _ from s25_main_call5_v8 m ρ c, show after (hostOps7_1 (F := Ideal)) (W25 m ρ c) (Proc.devRef .tc main_call5_v11) = _ from s25_main_call5_v11 m ρ c]
  rfl

theorem s26_main_v1 (c : Dev nD) : W27 (F := Ideal) m ρ c (Proc.devRef .tc main_v1) = kv_main_v1 (inK m c) :=
  (keep_hostOps7_2 (F := Ideal) (W26 m ρ c) main_v1 (by ref_notin)).trans (s25_main_v1 m ρ c)
theorem s26_main_v3 (c : Dev nD) : W27 (F := Ideal) m ρ c (Proc.devRef .tc main_v3) = kv_main_v3 (inK m c) :=
  (keep_hostOps7_2 (F := Ideal) (W26 m ρ c) main_v3 (by ref_notin)).trans (s25_main_v3 m ρ c)
theorem s26_main_v15 (c : Dev nD) : W27 (F := Ideal) m ρ c (Proc.devRef .tc main_v15) = kv_main_v15 (inK m c) :=
  (keep_hostOps7_2 (F := Ideal) (W26 m ρ c) main_v15 (by ref_notin)).trans (s25_main_v15 m ρ c)
theorem s26_main_v20 (c : Dev nD) : W27 (F := Ideal) m ρ c (Proc.devRef .tc main_v20) = kv_main_v20 (inK m c) :=
  (keep_hostOps7_2 (F := Ideal) (W26 m ρ c) main_v20 (by ref_notin)).trans (s25_main_v20 m ρ c)
theorem s26_main_v221 (c : Dev nD) : W27 (F := Ideal) m ρ c (Proc.devRef .tc main_v221) = kv_main_v221 (inK m c) :=
  (keep_hostOps7_2 (F := Ideal) (W26 m ρ c) main_v221 (by ref_notin)).trans (s25_main_v221 m ρ c)
theorem s26_main_v227 (c : Dev nD) : W27 (F := Ideal) m ρ c (Proc.devRef .tc main_v227) = kv_main_v227 (inK m c) :=
  (keep_hostOps7_2 (F := Ideal) (W26 m ρ c) main_v227 (by ref_notin)).trans (s25_main_v227 m ρ c)
theorem s26_main_arg0 (c : Dev nD) : W27 (F := Ideal) m ρ c (Proc.devRef .tc main_arg0) = (inK m c).a0 :=
  (keep_hostOps7_2 (F := Ideal) (W26 m ρ c) main_arg0 (by ref_notin)).trans (s25_main_arg0 m ρ c)
theorem s26_main_arg10 (c : Dev nD) : W27 (F := Ideal) m ρ c (Proc.devRef .tc main_arg10) = (inK m c).a10 :=
  (keep_hostOps7_2 (F := Ideal) (W26 m ρ c) main_arg10 (by ref_notin)).trans (s25_main_arg10 m ρ c)
theorem s26_main_arg11 (c : Dev nD) : W27 (F := Ideal) m ρ c (Proc.devRef .tc main_arg11) = (inK m c).a11 :=
  (keep_hostOps7_2 (F := Ideal) (W26 m ρ c) main_arg11 (by ref_notin)).trans (s25_main_arg11 m ρ c)
theorem s26_main_arg6 (c : Dev nD) : W27 (F := Ideal) m ρ c (Proc.devRef .tc main_arg6) = (inK m c).a6 :=
  (keep_hostOps7_2 (F := Ideal) (W26 m ρ c) main_arg6 (by ref_notin)).trans (s25_main_arg6 m ρ c)
theorem s26_main_arg8 (c : Dev nD) : W27 (F := Ideal) m ρ c (Proc.devRef .tc main_arg8) = (inK m c).a8 :=
  (keep_hostOps7_2 (F := Ideal) (W26 m ρ c) main_arg8 (by ref_notin)).trans (s25_main_arg8 m ρ c)
theorem s26_main_arg7 (c : Dev nD) : W27 (F := Ideal) m ρ c (Proc.devRef .tc main_arg7) = (inK m c).a7 :=
  (keep_hostOps7_2 (F := Ideal) (W26 m ρ c) main_arg7 (by ref_notin)).trans (s25_main_arg7 m ρ c)
theorem s26_main_arg9 (c : Dev nD) : W27 (F := Ideal) m ρ c (Proc.devRef .tc main_arg9) = (inK m c).a9 :=
  (keep_hostOps7_2 (F := Ideal) (W26 m ρ c) main_arg9 (by ref_notin)).trans (s25_main_arg9 m ρ c)
theorem s26_main_arg12 (c : Dev nD) : W27 (F := Ideal) m ρ c (Proc.devRef .tc main_arg12) = (inK m c).a12 :=
  (keep_hostOps7_2 (F := Ideal) (W26 m ρ c) main_arg12 (by ref_notin)).trans (s25_main_arg12 m ρ c)
theorem s26_main_arg13 (c : Dev nD) : W27 (F := Ideal) m ρ c (Proc.devRef .tc main_arg13) = (inK m c).a13 :=
  (keep_hostOps7_2 (F := Ideal) (W26 m ρ c) main_arg13 (by ref_notin)).trans (s25_main_arg13 m ρ c)
theorem s26_main_v233 (c : Dev nD) : W27 (F := Ideal) m ρ c (Proc.devRef .tc main_v233) = kv_main_v233 (inK m c) := by
  refine (c_main_v233 (F := Ideal) (W26 m ρ c)).trans ?_
  rw [s25_main_arg10 m ρ c]
  rfl
theorem s26_main_v235 (c : Dev nD) : W27 (F := Ideal) m ρ c (Proc.devRef .tc main_v235) = kv_main_v235 (inK m c) := by
  refine (c_main_v235 (F := Ideal) (W26 m ρ c)).trans ?_
  rw [s25_main_arg11 m ρ c]
  rfl
theorem s26_main_v236 (c : Dev nD) : W27 (F := Ideal) m ρ c (Proc.devRef .tc main_v236) = kv_main_v236 (inK m c) := by
  refine (c_main_v236 (F := Ideal) (W26 m ρ c)).trans ?_
  rw [s25_main_v230 m ρ c]
  rfl
theorem s26_main_v237 (c : Dev nD) : W27 (F := Ideal) m ρ c (Proc.devRef .tc main_v237) = kv_main_v237 (inK m c) := by
  refine (c_main_v237 (F := Ideal) (W26 m ρ c)).trans ?_
  rw [s25_main_v231 m ρ c]
  rfl
theorem s26_main_v238 (c : Dev nD) : W27 (F := Ideal) m ρ c (Proc.devRef .tc main_v238) = kv_main_v238 (inK m c) := by
  refine (c_main_v238 (F := Ideal) (W26 m ρ c)).trans ?_
  rw [show after (hostOps7_2 (F := Ideal)) (W26 m ρ c) (Proc.devRef .tc main_v233) = _ from s26_main_v233 m ρ c]
  rfl
theorem s26_main_v239 (c : Dev nD) : W27 (F := Ideal) m ρ c (Proc.devRef .tc main_v239) = kv_main_v239 (inK m c) := by
  refine (c_main_v239 (F := Ideal) (W26 m ρ c)).trans ?_
  rw [show after (hostOps7_2 (F := Ideal)) (W26 m ρ c) (Proc.devRef .tc main_v235) = _ from s26_main_v235 m ρ c]
  rfl

theorem s27_main_v1 (c : Dev nD) : W28 (F := Ideal) m ρ c (Proc.devRef .tc main_v1) = kv_main_v1 (inK m c) :=
  (W28_of_ne m ρ c main_v1 (by decide)).trans (s26_main_v1 m ρ c)
theorem s27_main_v3 (c : Dev nD) : W28 (F := Ideal) m ρ c (Proc.devRef .tc main_v3) = kv_main_v3 (inK m c) :=
  (W28_of_ne m ρ c main_v3 (by decide)).trans (s26_main_v3 m ρ c)
theorem s27_main_v15 (c : Dev nD) : W28 (F := Ideal) m ρ c (Proc.devRef .tc main_v15) = kv_main_v15 (inK m c) :=
  (W28_of_ne m ρ c main_v15 (by decide)).trans (s26_main_v15 m ρ c)
theorem s27_main_v20 (c : Dev nD) : W28 (F := Ideal) m ρ c (Proc.devRef .tc main_v20) = kv_main_v20 (inK m c) :=
  (W28_of_ne m ρ c main_v20 (by decide)).trans (s26_main_v20 m ρ c)
theorem s27_main_arg0 (c : Dev nD) : W28 (F := Ideal) m ρ c (Proc.devRef .tc main_arg0) = (inK m c).a0 :=
  (W28_of_ne m ρ c main_arg0 (by decide)).trans (s26_main_arg0 m ρ c)
theorem s27_main_arg10 (c : Dev nD) : W28 (F := Ideal) m ρ c (Proc.devRef .tc main_arg10) = (inK m c).a10 :=
  (W28_of_ne m ρ c main_arg10 (by decide)).trans (s26_main_arg10 m ρ c)
theorem s27_main_arg11 (c : Dev nD) : W28 (F := Ideal) m ρ c (Proc.devRef .tc main_arg11) = (inK m c).a11 :=
  (W28_of_ne m ρ c main_arg11 (by decide)).trans (s26_main_arg11 m ρ c)
theorem s27_main_arg6 (c : Dev nD) : W28 (F := Ideal) m ρ c (Proc.devRef .tc main_arg6) = (inK m c).a6 :=
  (W28_of_ne m ρ c main_arg6 (by decide)).trans (s26_main_arg6 m ρ c)
theorem s27_main_arg8 (c : Dev nD) : W28 (F := Ideal) m ρ c (Proc.devRef .tc main_arg8) = (inK m c).a8 :=
  (W28_of_ne m ρ c main_arg8 (by decide)).trans (s26_main_arg8 m ρ c)
theorem s27_main_arg7 (c : Dev nD) : W28 (F := Ideal) m ρ c (Proc.devRef .tc main_arg7) = (inK m c).a7 :=
  (W28_of_ne m ρ c main_arg7 (by decide)).trans (s26_main_arg7 m ρ c)
theorem s27_main_arg9 (c : Dev nD) : W28 (F := Ideal) m ρ c (Proc.devRef .tc main_arg9) = (inK m c).a9 :=
  (W28_of_ne m ρ c main_arg9 (by decide)).trans (s26_main_arg9 m ρ c)
theorem s27_main_arg12 (c : Dev nD) : W28 (F := Ideal) m ρ c (Proc.devRef .tc main_arg12) = (inK m c).a12 :=
  (W28_of_ne m ρ c main_arg12 (by decide)).trans (s26_main_arg12 m ρ c)
theorem s27_main_arg13 (c : Dev nD) : W28 (F := Ideal) m ρ c (Proc.devRef .tc main_arg13) = (inK m c).a13 :=
  (W28_of_ne m ρ c main_arg13 (by decide)).trans (s26_main_arg13 m ρ c)
theorem s27_main_v240 (c : Dev nD) : W28 (F := Ideal) m ρ c (Proc.devRef .tc main_v240) = kv_main_v240 (inK m c) := by
  refine (W28_arr m ρ c 6).trans ?_
  rw [Cert.KernelIdeal.RegionValue.arr7 (V27 m ρ) c]
  show Cert.KernelIdeal.RegionValue.bnK (W27 m ρ c (Proc.devRef .tc main_v221)) (W27 m ρ c (Proc.devRef .tc main_v227)) (W27 m ρ c (Proc.devRef .tc main_v236)) (W27 m ρ c (Proc.devRef .tc main_v237)) (W27 m ρ c (Proc.devRef .tc main_v238)) (W27 m ρ c (Proc.devRef .tc main_v239)) = _
  rw [s26_main_v221 m ρ c, s26_main_v227 m ρ c, s26_main_v236 m ρ c, s26_main_v237 m ρ c, s26_main_v238 m ρ c, s26_main_v239 m ρ c]
  rfl

end Cert.KernelIdeal.Val

end
-- ==== Proof.KState4.lean ====
/- The contents of the kernel program's buffers at its segment boundaries: each named value's buffer holds that value of the argument arrays. -/
import proofs.«127768_j9405978378358_1_alg».proof.Proof.FrameKernelIdealP
import proofs.«127768_j9405978378358_1_alg».proof.Proof.KVals
import proofs.«127768_j9405978378358_1_alg».proof.Proof.KSeg_hostOps8
import proofs.«127768_j9405978378358_1_alg».proof.Proof.KSeg_hostOps9
import proofs.«127768_j9405978378358_1_alg».proof.Proof.KSeg_hostOps9_1
import proofs.«127768_j9405978378358_1_alg».proof.Proof.KSeg_hostOps9_2
import proofs.«127768_j9405978378358_1_alg».proof.Proof.KReg8
import proofs.«127768_j9405978378358_1_alg».proof.Proof.KReg9
import proofs.«127768_j9405978378358_1_alg».proof.Proof.KState3
import proofs.«127768_j9405978378358_1_alg».proof.Proof.RefTac

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.StableHlo Idealize.SL.Sem

variable (m : (ℓ : Loc nD τ sig) → Buf (Elt Ideal) ℓ) (ρ : Dev nD → PrngReg)

theorem s28_main_v1 (c : Dev nD) : W29 (F := Ideal) m ρ c (Proc.devRef .tc main_v1) = kv_main_v1 (inK m c) :=
  (keep_hostOps8 (F := Ideal) (W28 m ρ c) main_v1 (by ref_notin)).trans (s27_main_v1 m ρ c)
theorem s28_main_v3 (c : Dev nD) : W29 (F := Ideal) m ρ c (Proc.devRef .tc main_v3) = kv_main_v3 (inK m c) :=
  (keep_hostOps8 (F := Ideal) (W28 m ρ c) main_v3 (by ref_notin)).trans (s27_main_v3 m ρ c)
theorem s28_main_v15 (c : Dev nD) : W29 (F := Ideal) m ρ c (Proc.devRef .tc main_v15) = kv_main_v15 (inK m c) :=
  (keep_hostOps8 (F := Ideal) (W28 m ρ c) main_v15 (by ref_notin)).trans (s27_main_v15 m ρ c)
theorem s28_main_v20 (c : Dev nD) : W29 (F := Ideal) m ρ c (Proc.devRef .tc main_v20) = kv_main_v20 (inK m c) :=
  (keep_hostOps8 (F := Ideal) (W28 m ρ c) main_v20 (by ref_notin)).trans (s27_main_v20 m ρ c)
theorem s28_main_v240 (c : Dev nD) : W29 (F := Ideal) m ρ c (Proc.devRef .tc main_v240) = kv_main_v240 (inK m c) :=
  (keep_hostOps8 (F := Ideal) (W28 m ρ c) main_v240 (by ref_notin)).trans (s27_main_v240 m ρ c)
theorem s28_main_arg0 (c : Dev nD) : W29 (F := Ideal) m ρ c (Proc.devRef .tc main_arg0) = (inK m c).a0 :=
  (keep_hostOps8 (F := Ideal) (W28 m ρ c) main_arg0 (by ref_notin)).trans (s27_main_arg0 m ρ c)
theorem s28_main_arg10 (c : Dev nD) : W29 (F := Ideal) m ρ c (Proc.devRef .tc main_arg10) = (inK m c).a10 :=
  (keep_hostOps8 (F := Ideal) (W28 m ρ c) main_arg10 (by ref_notin)).trans (s27_main_arg10 m ρ c)
theorem s28_main_arg11 (c : Dev nD) : W29 (F := Ideal) m ρ c (Proc.devRef .tc main_arg11) = (inK m c).a11 :=
  (keep_hostOps8 (F := Ideal) (W28 m ρ c) main_arg11 (by ref_notin)).trans (s27_main_arg11 m ρ c)
theorem s28_main_arg6 (c : Dev nD) : W29 (F := Ideal) m ρ c (Proc.devRef .tc main_arg6) = (inK m c).a6 :=
  (keep_hostOps8 (F := Ideal) (W28 m ρ c) main_arg6 (by ref_notin)).trans (s27_main_arg6 m ρ c)
theorem s28_main_arg8 (c : Dev nD) : W29 (F := Ideal) m ρ c (Proc.devRef .tc main_arg8) = (inK m c).a8 :=
  (keep_hostOps8 (F := Ideal) (W28 m ρ c) main_arg8 (by ref_notin)).trans (s27_main_arg8 m ρ c)
theorem s28_main_arg7 (c : Dev nD) : W29 (F := Ideal) m ρ c (Proc.devRef .tc main_arg7) = (inK m c).a7 :=
  (keep_hostOps8 (F := Ideal) (W28 m ρ c) main_arg7 (by ref_notin)).trans (s27_main_arg7 m ρ c)
theorem s28_main_arg9 (c : Dev nD) : W29 (F := Ideal) m ρ c (Proc.devRef .tc main_arg9) = (inK m c).a9 :=
  (keep_hostOps8 (F := Ideal) (W28 m ρ c) main_arg9 (by ref_notin)).trans (s27_main_arg9 m ρ c)
theorem s28_main_arg12 (c : Dev nD) : W29 (F := Ideal) m ρ c (Proc.devRef .tc main_arg12) = (inK m c).a12 :=
  (keep_hostOps8 (F := Ideal) (W28 m ρ c) main_arg12 (by ref_notin)).trans (s27_main_arg12 m ρ c)
theorem s28_main_arg13 (c : Dev nD) : W29 (F := Ideal) m ρ c (Proc.devRef .tc main_arg13) = (inK m c).a13 :=
  (keep_hostOps8 (F := Ideal) (W28 m ρ c) main_arg13 (by ref_notin)).trans (s27_main_arg13 m ρ c)
theorem s28_main_v242 (c : Dev nD) : W29 (F := Ideal) m ρ c (Proc.devRef .tc main_v242) = kv_main_v242 (inK m c) := by
  refine (c_main_v242 (F := Ideal) (W28 m ρ c)).trans ?_
  rw [s27_main_arg6 m ρ c]
  rfl
theorem s28_main_v244 (c : Dev nD) : W29 (F := Ideal) m ρ c (Proc.devRef .tc main_v244) = kv_main_v244 (inK m c) := by
  refine (c_main_v244 (F := Ideal) (W28 m ρ c)).trans ?_
  rw [s27_main_arg8 m ρ c]
  rfl
theorem s28_main_v245 (c : Dev nD) : W29 (F := Ideal) m ρ c (Proc.devRef .tc main_v245) = kv_main_v245 (inK m c) := by
  refine (c_main_v245 (F := Ideal) (W28 m ρ c)).trans ?_
  rw [show after (hostOps8 (F := Ideal)) (W28 m ρ c) (Proc.devRef .tc main_v242) = _ from s28_main_v242 m ρ c, show after (hostOps8 (F := Ideal)) (W28 m ρ c) (Proc.devRef .tc main_v244) = _ from s28_main_v244 m ρ c]
  rfl

theorem s29_main_v1 (c : Dev nD) : W30 (F := Ideal) m ρ c (Proc.devRef .tc main_v1) = kv_main_v1 (inK m c) :=
  (W30_of_ne m ρ c main_v1 (by decide)).trans (s28_main_v1 m ρ c)
theorem s29_main_v3 (c : Dev nD) : W30 (F := Ideal) m ρ c (Proc.devRef .tc main_v3) = kv_main_v3 (inK m c) :=
  (W30_of_ne m ρ c main_v3 (by decide)).trans (s28_main_v3 m ρ c)
theorem s29_main_v15 (c : Dev nD) : W30 (F := Ideal) m ρ c (Proc.devRef .tc main_v15) = kv_main_v15 (inK m c) :=
  (W30_of_ne m ρ c main_v15 (by decide)).trans (s28_main_v15 m ρ c)
theorem s29_main_v20 (c : Dev nD) : W30 (F := Ideal) m ρ c (Proc.devRef .tc main_v20) = kv_main_v20 (inK m c) :=
  (W30_of_ne m ρ c main_v20 (by decide)).trans (s28_main_v20 m ρ c)
theorem s29_main_arg0 (c : Dev nD) : W30 (F := Ideal) m ρ c (Proc.devRef .tc main_arg0) = (inK m c).a0 :=
  (W30_of_ne m ρ c main_arg0 (by decide)).trans (s28_main_arg0 m ρ c)
theorem s29_main_arg10 (c : Dev nD) : W30 (F := Ideal) m ρ c (Proc.devRef .tc main_arg10) = (inK m c).a10 :=
  (W30_of_ne m ρ c main_arg10 (by decide)).trans (s28_main_arg10 m ρ c)
theorem s29_main_arg11 (c : Dev nD) : W30 (F := Ideal) m ρ c (Proc.devRef .tc main_arg11) = (inK m c).a11 :=
  (W30_of_ne m ρ c main_arg11 (by decide)).trans (s28_main_arg11 m ρ c)
theorem s29_main_arg6 (c : Dev nD) : W30 (F := Ideal) m ρ c (Proc.devRef .tc main_arg6) = (inK m c).a6 :=
  (W30_of_ne m ρ c main_arg6 (by decide)).trans (s28_main_arg6 m ρ c)
theorem s29_main_arg8 (c : Dev nD) : W30 (F := Ideal) m ρ c (Proc.devRef .tc main_arg8) = (inK m c).a8 :=
  (W30_of_ne m ρ c main_arg8 (by decide)).trans (s28_main_arg8 m ρ c)
theorem s29_main_arg7 (c : Dev nD) : W30 (F := Ideal) m ρ c (Proc.devRef .tc main_arg7) = (inK m c).a7 :=
  (W30_of_ne m ρ c main_arg7 (by decide)).trans (s28_main_arg7 m ρ c)
theorem s29_main_arg9 (c : Dev nD) : W30 (F := Ideal) m ρ c (Proc.devRef .tc main_arg9) = (inK m c).a9 :=
  (W30_of_ne m ρ c main_arg9 (by decide)).trans (s28_main_arg9 m ρ c)
theorem s29_main_arg12 (c : Dev nD) : W30 (F := Ideal) m ρ c (Proc.devRef .tc main_arg12) = (inK m c).a12 :=
  (W30_of_ne m ρ c main_arg12 (by decide)).trans (s28_main_arg12 m ρ c)
theorem s29_main_arg13 (c : Dev nD) : W30 (F := Ideal) m ρ c (Proc.devRef .tc main_arg13) = (inK m c).a13 :=
  (W30_of_ne m ρ c main_arg13 (by decide)).trans (s28_main_arg13 m ρ c)
theorem s29_main_v246 (c : Dev nD) : W30 (F := Ideal) m ρ c (Proc.devRef .tc main_v246) = kv_main_v246 (inK m c) := by
  refine (W30_arr m ρ c 2).trans ?_
  rw [Cert.KernelIdeal.RegionValue.arr8 (V29 m ρ) c]
  show Cert.Dense.mm (W29 m ρ c (Proc.devRef .tc main_v240)) (W29 m ρ c (Proc.devRef .tc main_v245)) = _
  rw [s28_main_v240 m ρ c, s28_main_v245 m ρ c]
  rfl

theorem s30_main_v1 (c : Dev nD) : W31 (F := Ideal) m ρ c (Proc.devRef .tc main_v1) = kv_main_v1 (inK m c) :=
  (keep_hostOps9 (F := Ideal) (W30 m ρ c) main_v1 (by ref_notin)).trans (s29_main_v1 m ρ c)
theorem s30_main_v3 (c : Dev nD) : W31 (F := Ideal) m ρ c (Proc.devRef .tc main_v3) = kv_main_v3 (inK m c) :=
  (keep_hostOps9 (F := Ideal) (W30 m ρ c) main_v3 (by ref_notin)).trans (s29_main_v3 m ρ c)
theorem s30_main_v15 (c : Dev nD) : W31 (F := Ideal) m ρ c (Proc.devRef .tc main_v15) = kv_main_v15 (inK m c) :=
  (keep_hostOps9 (F := Ideal) (W30 m ρ c) main_v15 (by ref_notin)).trans (s29_main_v15 m ρ c)
theorem s30_main_v20 (c : Dev nD) : W31 (F := Ideal) m ρ c (Proc.devRef .tc main_v20) = kv_main_v20 (inK m c) :=
  (keep_hostOps9 (F := Ideal) (W30 m ρ c) main_v20 (by ref_notin)).trans (s29_main_v20 m ρ c)
theorem s30_main_arg0 (c : Dev nD) : W31 (F := Ideal) m ρ c (Proc.devRef .tc main_arg0) = (inK m c).a0 :=
  (keep_hostOps9 (F := Ideal) (W30 m ρ c) main_arg0 (by ref_notin)).trans (s29_main_arg0 m ρ c)
theorem s30_main_arg10 (c : Dev nD) : W31 (F := Ideal) m ρ c (Proc.devRef .tc main_arg10) = (inK m c).a10 :=
  (keep_hostOps9 (F := Ideal) (W30 m ρ c) main_arg10 (by ref_notin)).trans (s29_main_arg10 m ρ c)
theorem s30_main_arg11 (c : Dev nD) : W31 (F := Ideal) m ρ c (Proc.devRef .tc main_arg11) = (inK m c).a11 :=
  (keep_hostOps9 (F := Ideal) (W30 m ρ c) main_arg11 (by ref_notin)).trans (s29_main_arg11 m ρ c)
theorem s30_main_arg6 (c : Dev nD) : W31 (F := Ideal) m ρ c (Proc.devRef .tc main_arg6) = (inK m c).a6 :=
  (keep_hostOps9 (F := Ideal) (W30 m ρ c) main_arg6 (by ref_notin)).trans (s29_main_arg6 m ρ c)
theorem s30_main_arg8 (c : Dev nD) : W31 (F := Ideal) m ρ c (Proc.devRef .tc main_arg8) = (inK m c).a8 :=
  (keep_hostOps9 (F := Ideal) (W30 m ρ c) main_arg8 (by ref_notin)).trans (s29_main_arg8 m ρ c)
theorem s30_main_arg7 (c : Dev nD) : W31 (F := Ideal) m ρ c (Proc.devRef .tc main_arg7) = (inK m c).a7 :=
  (keep_hostOps9 (F := Ideal) (W30 m ρ c) main_arg7 (by ref_notin)).trans (s29_main_arg7 m ρ c)
theorem s30_main_arg9 (c : Dev nD) : W31 (F := Ideal) m ρ c (Proc.devRef .tc main_arg9) = (inK m c).a9 :=
  (keep_hostOps9 (F := Ideal) (W30 m ρ c) main_arg9 (by ref_notin)).trans (s29_main_arg9 m ρ c)
theorem s30_main_arg12 (c : Dev nD) : W31 (F := Ideal) m ρ c (Proc.devRef .tc main_arg12) = (inK m c).a12 :=
  (keep_hostOps9 (F := Ideal) (W30 m ρ c) main_arg12 (by ref_notin)).trans (s29_main_arg12 m ρ c)
theorem s30_main_arg13 (c : Dev nD) : W31 (F := Ideal) m ρ c (Proc.devRef .tc main_arg13) = (inK m c).a13 :=
  (keep_hostOps9 (F := Ideal) (W30 m ρ c) main_arg13 (by ref_notin)).trans (s29_main_arg13 m ρ c)
theorem s30_main_v272 (c : Dev nD) : W31 (F := Ideal) m ρ c (Proc.devRef .tc main_v272) = kv_main_v272 (inK m c) := by
  refine (c_main_v272 (F := Ideal) (W30 m ρ c)).trans ?_
  rw [s29_main_v1 m ρ c, s29_main_v3 m ρ c, s29_main_v246 m ρ c, s29_main_v20 m ρ c, s29_main_v15 m ρ c]
  rfl
theorem s30_main_v275 (c : Dev nD) : W31 (F := Ideal) m ρ c (Proc.devRef .tc main_v275) = kv_main_v275 (inK m c) := by
  refine (c_main_v275 (F := Ideal) (W30 m ρ c)).trans ?_
  rw [s29_main_arg7 m ρ c]
  rfl
theorem s30_main_v278 (c : Dev nD) : W31 (F := Ideal) m ρ c (Proc.devRef .tc main_v278) = kv_main_v278 (inK m c) := by
  refine (c_main_v278 (F := Ideal) (W30 m ρ c)).trans ?_
  rw [show after (hostOps9 (F := Ideal)) (W30 m ρ c) (Proc.devRef .tc main_v272) = _ from s30_main_v272 m ρ c, show after (hostOps9 (F := Ideal)) (W30 m ρ c) (Proc.devRef .tc main_v275) = _ from s30_main_v275 m ρ c]
  rfl
theorem s30_main_v281 (c : Dev nD) : W31 (F := Ideal) m ρ c (Proc.devRef .tc main_v281) = kv_main_v281 (inK m c) := by
  refine (c_main_v281 (F := Ideal) (W30 m ρ c)).trans ?_
  rw [s29_main_arg9 m ρ c]
  rfl
theorem s30_main_v284 (c : Dev nD) : W31 (F := Ideal) m ρ c (Proc.devRef .tc main_v284) = kv_main_v284 (inK m c) := by
  refine (c_main_v284 (F := Ideal) (W30 m ρ c)).trans ?_
  rw [show after (hostOps9 (F := Ideal)) (W30 m ρ c) (Proc.devRef .tc main_v272) = _ from s30_main_v272 m ρ c, show after (hostOps9 (F := Ideal)) (W30 m ρ c) (Proc.devRef .tc main_v281) = _ from s30_main_v281 m ρ c]
  rfl
theorem s30_main_v287 (c : Dev nD) : W31 (F := Ideal) m ρ c (Proc.devRef .tc main_v287) = kv_main_v287 (inK m c) := by
  refine (c_main_v287 (F := Ideal) (W30 m ρ c)).trans ?_
  rw [show after (hostOps9 (F := Ideal)) (W30 m ρ c) (Proc.devRef .tc main_v278) = _ from s30_main_v278 m ρ c]
  rfl
theorem s30_main_c_51 (c : Dev nD) : W31 (F := Ideal) m ρ c (Proc.devRef .tc main_c_51) = kv_main_c_51 (inK m c) := by
  refine (c_main_c_51 (F := Ideal) (W30 m ρ c)).trans ?_
  rfl

theorem s31_main_v1 (c : Dev nD) : W32 (F := Ideal) m ρ c (Proc.devRef .tc main_v1) = kv_main_v1 (inK m c) :=
  (keep_hostOps9_1 (F := Ideal) (W31 m ρ c) main_v1 (by ref_notin)).trans (s30_main_v1 m ρ c)
theorem s31_main_v3 (c : Dev nD) : W32 (F := Ideal) m ρ c (Proc.devRef .tc main_v3) = kv_main_v3 (inK m c) :=
  (keep_hostOps9_1 (F := Ideal) (W31 m ρ c) main_v3 (by ref_notin)).trans (s30_main_v3 m ρ c)
theorem s31_main_v15 (c : Dev nD) : W32 (F := Ideal) m ρ c (Proc.devRef .tc main_v15) = kv_main_v15 (inK m c) :=
  (keep_hostOps9_1 (F := Ideal) (W31 m ρ c) main_v15 (by ref_notin)).trans (s30_main_v15 m ρ c)
theorem s31_main_v20 (c : Dev nD) : W32 (F := Ideal) m ρ c (Proc.devRef .tc main_v20) = kv_main_v20 (inK m c) :=
  (keep_hostOps9_1 (F := Ideal) (W31 m ρ c) main_v20 (by ref_notin)).trans (s30_main_v20 m ρ c)
theorem s31_main_v278 (c : Dev nD) : W32 (F := Ideal) m ρ c (Proc.devRef .tc main_v278) = kv_main_v278 (inK m c) :=
  (keep_hostOps9_1 (F := Ideal) (W31 m ρ c) main_v278 (by ref_notin)).trans (s30_main_v278 m ρ c)
theorem s31_main_v284 (c : Dev nD) : W32 (F := Ideal) m ρ c (Proc.devRef .tc main_v284) = kv_main_v284 (inK m c) :=
  (keep_hostOps9_1 (F := Ideal) (W31 m ρ c) main_v284 (by ref_notin)).trans (s30_main_v284 m ρ c)
theorem s31_main_v287 (c : Dev nD) : W32 (F := Ideal) m ρ c (Proc.devRef .tc main_v287) = kv_main_v287 (inK m c) :=
  (keep_hostOps9_1 (F := Ideal) (W31 m ρ c) main_v287 (by ref_notin)).trans (s30_main_v287 m ρ c)
theorem s31_main_arg0 (c : Dev nD) : W32 (F := Ideal) m ρ c (Proc.devRef .tc main_arg0) = (inK m c).a0 :=
  (keep_hostOps9_1 (F := Ideal) (W31 m ρ c) main_arg0 (by ref_notin)).trans (s30_main_arg0 m ρ c)
theorem s31_main_arg10 (c : Dev nD) : W32 (F := Ideal) m ρ c (Proc.devRef .tc main_arg10) = (inK m c).a10 :=
  (keep_hostOps9_1 (F := Ideal) (W31 m ρ c) main_arg10 (by ref_notin)).trans (s30_main_arg10 m ρ c)
theorem s31_main_arg11 (c : Dev nD) : W32 (F := Ideal) m ρ c (Proc.devRef .tc main_arg11) = (inK m c).a11 :=
  (keep_hostOps9_1 (F := Ideal) (W31 m ρ c) main_arg11 (by ref_notin)).trans (s30_main_arg11 m ρ c)
theorem s31_main_arg6 (c : Dev nD) : W32 (F := Ideal) m ρ c (Proc.devRef .tc main_arg6) = (inK m c).a6 :=
  (keep_hostOps9_1 (F := Ideal) (W31 m ρ c) main_arg6 (by ref_notin)).trans (s30_main_arg6 m ρ c)
theorem s31_main_arg8 (c : Dev nD) : W32 (F := Ideal) m ρ c (Proc.devRef .tc main_arg8) = (inK m c).a8 :=
  (keep_hostOps9_1 (F := Ideal) (W31 m ρ c) main_arg8 (by ref_notin)).trans (s30_main_arg8 m ρ c)
theorem s31_main_arg7 (c : Dev nD) : W32 (F := Ideal) m ρ c (Proc.devRef .tc main_arg7) = (inK m c).a7 :=
  (keep_hostOps9_1 (F := Ideal) (W31 m ρ c) main_arg7 (by ref_notin)).trans (s30_main_arg7 m ρ c)
theorem s31_main_arg9 (c : Dev nD) : W32 (F := Ideal) m ρ c (Proc.devRef .tc main_arg9) = (inK m c).a9 :=
  (keep_hostOps9_1 (F := Ideal) (W31 m ρ c) main_arg9 (by ref_notin)).trans (s30_main_arg9 m ρ c)
theorem s31_main_arg12 (c : Dev nD) : W32 (F := Ideal) m ρ c (Proc.devRef .tc main_arg12) = (inK m c).a12 :=
  (keep_hostOps9_1 (F := Ideal) (W31 m ρ c) main_arg12 (by ref_notin)).trans (s30_main_arg12 m ρ c)
theorem s31_main_arg13 (c : Dev nD) : W32 (F := Ideal) m ρ c (Proc.devRef .tc main_arg13) = (inK m c).a13 :=
  (keep_hostOps9_1 (F := Ideal) (W31 m ρ c) main_arg13 (by ref_notin)).trans (s30_main_arg13 m ρ c)
theorem s31_main_call6_v5 (c : Dev nD) : W32 (F := Ideal) m ρ c (Proc.devRef .tc main_call6_v5) = kv_main_call6_v5 (inK m c) := by
  refine (c_main_call6_v5 (F := Ideal) (W31 m ρ c)).trans ?_
  rw [s30_main_v278 m ρ c]
  rfl
theorem s31_main_call6_v8 (c : Dev nD) : W32 (F := Ideal) m ρ c (Proc.devRef .tc main_call6_v8) = kv_main_call6_v8 (inK m c) := by
  refine (c_main_call6_v8 (F := Ideal) (W31 m ρ c)).trans ?_
  rw [s30_main_c_51 m ρ c]
  rfl
theorem s31_main_call6_v11 (c : Dev nD) : W32 (F := Ideal) m ρ c (Proc.devRef .tc main_call6_v11) = kv_main_call6_v11 (inK m c) := by
  refine (c_main_call6_v11 (F := Ideal) (W31 m ρ c)).trans ?_
  rw [show after (hostOps9_1 (F := Ideal)) (W31 m ρ c) (Proc.devRef .tc main_call6_v5) = _ from s31_main_call6_v5 m ρ c, show after (hostOps9_1 (F := Ideal)) (W31 m ρ c) (Proc.devRef .tc main_call6_v8) = _ from s31_main_call6_v8 m ρ c]
  rfl
theorem s31_main_v288 (c : Dev nD) : W32 (F := Ideal) m ρ c (Proc.devRef .tc main_v288) = kv_main_v288 (inK m c) := by
  refine (c_main_v288 (F := Ideal) (W31 m ρ c)).trans ?_
  rw [show after (hostOps9_1 (F := Ideal)) (W31 m ρ c) (Proc.devRef .tc main_call6_v8) = _ from s31_main_call6_v8 m ρ c, show after (hostOps9_1 (F := Ideal)) (W31 m ρ c) (Proc.devRef .tc main_call6_v11) = _ from s31_main_call6_v11 m ρ c]
  rfl

theorem s32_main_v1 (c : Dev nD) : W33 (F := Ideal) m ρ c (Proc.devRef .tc main_v1) = kv_main_v1 (inK m c) :=
  (keep_hostOps9_2 (F := Ideal) (W32 m ρ c) main_v1 (by ref_notin)).trans (s31_main_v1 m ρ c)
theorem s32_main_v3 (c : Dev nD) : W33 (F := Ideal) m ρ c (Proc.devRef .tc main_v3) = kv_main_v3 (inK m c) :=
  (keep_hostOps9_2 (F := Ideal) (W32 m ρ c) main_v3 (by ref_notin)).trans (s31_main_v3 m ρ c)
theorem s32_main_v15 (c : Dev nD) : W33 (F := Ideal) m ρ c (Proc.devRef .tc main_v15) = kv_main_v15 (inK m c) :=
  (keep_hostOps9_2 (F := Ideal) (W32 m ρ c) main_v15 (by ref_notin)).trans (s31_main_v15 m ρ c)
theorem s32_main_v20 (c : Dev nD) : W33 (F := Ideal) m ρ c (Proc.devRef .tc main_v20) = kv_main_v20 (inK m c) :=
  (keep_hostOps9_2 (F := Ideal) (W32 m ρ c) main_v20 (by ref_notin)).trans (s31_main_v20 m ρ c)
theorem s32_main_v278 (c : Dev nD) : W33 (F := Ideal) m ρ c (Proc.devRef .tc main_v278) = kv_main_v278 (inK m c) :=
  (keep_hostOps9_2 (F := Ideal) (W32 m ρ c) main_v278 (by ref_notin)).trans (s31_main_v278 m ρ c)
theorem s32_main_v284 (c : Dev nD) : W33 (F := Ideal) m ρ c (Proc.devRef .tc main_v284) = kv_main_v284 (inK m c) :=
  (keep_hostOps9_2 (F := Ideal) (W32 m ρ c) main_v284 (by ref_notin)).trans (s31_main_v284 m ρ c)
theorem s32_main_arg0 (c : Dev nD) : W33 (F := Ideal) m ρ c (Proc.devRef .tc main_arg0) = (inK m c).a0 :=
  (keep_hostOps9_2 (F := Ideal) (W32 m ρ c) main_arg0 (by ref_notin)).trans (s31_main_arg0 m ρ c)
theorem s32_main_arg10 (c : Dev nD) : W33 (F := Ideal) m ρ c (Proc.devRef .tc main_arg10) = (inK m c).a10 :=
  (keep_hostOps9_2 (F := Ideal) (W32 m ρ c) main_arg10 (by ref_notin)).trans (s31_main_arg10 m ρ c)
theorem s32_main_arg11 (c : Dev nD) : W33 (F := Ideal) m ρ c (Proc.devRef .tc main_arg11) = (inK m c).a11 :=
  (keep_hostOps9_2 (F := Ideal) (W32 m ρ c) main_arg11 (by ref_notin)).trans (s31_main_arg11 m ρ c)
theorem s32_main_arg6 (c : Dev nD) : W33 (F := Ideal) m ρ c (Proc.devRef .tc main_arg6) = (inK m c).a6 :=
  (keep_hostOps9_2 (F := Ideal) (W32 m ρ c) main_arg6 (by ref_notin)).trans (s31_main_arg6 m ρ c)
theorem s32_main_arg8 (c : Dev nD) : W33 (F := Ideal) m ρ c (Proc.devRef .tc main_arg8) = (inK m c).a8 :=
  (keep_hostOps9_2 (F := Ideal) (W32 m ρ c) main_arg8 (by ref_notin)).trans (s31_main_arg8 m ρ c)
theorem s32_main_arg7 (c : Dev nD) : W33 (F := Ideal) m ρ c (Proc.devRef .tc main_arg7) = (inK m c).a7 :=
  (keep_hostOps9_2 (F := Ideal) (W32 m ρ c) main_arg7 (by ref_notin)).trans (s31_main_arg7 m ρ c)
theorem s32_main_arg9 (c : Dev nD) : W33 (F := Ideal) m ρ c (Proc.devRef .tc main_arg9) = (inK m c).a9 :=
  (keep_hostOps9_2 (F := Ideal) (W32 m ρ c) main_arg9 (by ref_notin)).trans (s31_main_arg9 m ρ c)
theorem s32_main_arg12 (c : Dev nD) : W33 (F := Ideal) m ρ c (Proc.devRef .tc main_arg12) = (inK m c).a12 :=
  (keep_hostOps9_2 (F := Ideal) (W32 m ρ c) main_arg12 (by ref_notin)).trans (s31_main_arg12 m ρ c)
theorem s32_main_arg13 (c : Dev nD) : W33 (F := Ideal) m ρ c (Proc.devRef .tc main_arg13) = (inK m c).a13 :=
  (keep_hostOps9_2 (F := Ideal) (W32 m ρ c) main_arg13 (by ref_notin)).trans (s31_main_arg13 m ρ c)
theorem s32_main_v290 (c : Dev nD) : W33 (F := Ideal) m ρ c (Proc.devRef .tc main_v290) = kv_main_v290 (inK m c) := by
  refine (c_main_v290 (F := Ideal) (W32 m ρ c)).trans ?_
  rw [s31_main_arg10 m ρ c]
  rfl
theorem s32_main_v292 (c : Dev nD) : W33 (F := Ideal) m ρ c (Proc.devRef .tc main_v292) = kv_main_v292 (inK m c) := by
  refine (c_main_v292 (F := Ideal) (W32 m ρ c)).trans ?_
  rw [s31_main_arg11 m ρ c]
  rfl
theorem s32_main_v293 (c : Dev nD) : W33 (F := Ideal) m ρ c (Proc.devRef .tc main_v293) = kv_main_v293 (inK m c) := by
  refine (c_main_v293 (F := Ideal) (W32 m ρ c)).trans ?_
  rw [s31_main_v287 m ρ c]
  rfl
theorem s32_main_v294 (c : Dev nD) : W33 (F := Ideal) m ρ c (Proc.devRef .tc main_v294) = kv_main_v294 (inK m c) := by
  refine (c_main_v294 (F := Ideal) (W32 m ρ c)).trans ?_
  rw [s31_main_v288 m ρ c]
  rfl
theorem s32_main_v295 (c : Dev nD) : W33 (F := Ideal) m ρ c (Proc.devRef .tc main_v295) = kv_main_v295 (inK m c) := by
  refine (c_main_v295 (F := Ideal) (W32 m ρ c)).trans ?_
  rw [show after (hostOps9_2 (F := Ideal)) (W32 m ρ c) (Proc.devRef .tc main_v290) = _ from s32_main_v290 m ρ c]
  rfl
theorem s32_main_v296 (c : Dev nD) : W33 (F := Ideal) m ρ c (Proc.devRef .tc main_v296) = kv_main_v296 (inK m c) := by
  refine (c_main_v296 (F := Ideal) (W32 m ρ c)).trans ?_
  rw [show after (hostOps9_2 (F := Ideal)) (W32 m ρ c) (Proc.devRef .tc main_v292) = _ from s32_main_v292 m ρ c]
  rfl

theorem s33_main_v1 (c : Dev nD) : W34 (F := Ideal) m ρ c (Proc.devRef .tc main_v1) = kv_main_v1 (inK m c) :=
  (W34_of_ne m ρ c main_v1 (by decide)).trans (s32_main_v1 m ρ c)
theorem s33_main_v3 (c : Dev nD) : W34 (F := Ideal) m ρ c (Proc.devRef .tc main_v3) = kv_main_v3 (inK m c) :=
  (W34_of_ne m ρ c main_v3 (by decide)).trans (s32_main_v3 m ρ c)
theorem s33_main_v15 (c : Dev nD) : W34 (F := Ideal) m ρ c (Proc.devRef .tc main_v15) = kv_main_v15 (inK m c) :=
  (W34_of_ne m ρ c main_v15 (by decide)).trans (s32_main_v15 m ρ c)
theorem s33_main_v20 (c : Dev nD) : W34 (F := Ideal) m ρ c (Proc.devRef .tc main_v20) = kv_main_v20 (inK m c) :=
  (W34_of_ne m ρ c main_v20 (by decide)).trans (s32_main_v20 m ρ c)
theorem s33_main_arg0 (c : Dev nD) : W34 (F := Ideal) m ρ c (Proc.devRef .tc main_arg0) = (inK m c).a0 :=
  (W34_of_ne m ρ c main_arg0 (by decide)).trans (s32_main_arg0 m ρ c)
theorem s33_main_arg10 (c : Dev nD) : W34 (F := Ideal) m ρ c (Proc.devRef .tc main_arg10) = (inK m c).a10 :=
  (W34_of_ne m ρ c main_arg10 (by decide)).trans (s32_main_arg10 m ρ c)
theorem s33_main_arg11 (c : Dev nD) : W34 (F := Ideal) m ρ c (Proc.devRef .tc main_arg11) = (inK m c).a11 :=
  (W34_of_ne m ρ c main_arg11 (by decide)).trans (s32_main_arg11 m ρ c)
theorem s33_main_arg6 (c : Dev nD) : W34 (F := Ideal) m ρ c (Proc.devRef .tc main_arg6) = (inK m c).a6 :=
  (W34_of_ne m ρ c main_arg6 (by decide)).trans (s32_main_arg6 m ρ c)
theorem s33_main_arg8 (c : Dev nD) : W34 (F := Ideal) m ρ c (Proc.devRef .tc main_arg8) = (inK m c).a8 :=
  (W34_of_ne m ρ c main_arg8 (by decide)).trans (s32_main_arg8 m ρ c)
theorem s33_main_arg7 (c : Dev nD) : W34 (F := Ideal) m ρ c (Proc.devRef .tc main_arg7) = (inK m c).a7 :=
  (W34_of_ne m ρ c main_arg7 (by decide)).trans (s32_main_arg7 m ρ c)
theorem s33_main_arg9 (c : Dev nD) : W34 (F := Ideal) m ρ c (Proc.devRef .tc main_arg9) = (inK m c).a9 :=
  (W34_of_ne m ρ c main_arg9 (by decide)).trans (s32_main_arg9 m ρ c)
theorem s33_main_arg12 (c : Dev nD) : W34 (F := Ideal) m ρ c (Proc.devRef .tc main_arg12) = (inK m c).a12 :=
  (W34_of_ne m ρ c main_arg12 (by decide)).trans (s32_main_arg12 m ρ c)
theorem s33_main_arg13 (c : Dev nD) : W34 (F := Ideal) m ρ c (Proc.devRef .tc main_arg13) = (inK m c).a13 :=
  (W34_of_ne m ρ c main_arg13 (by decide)).trans (s32_main_arg13 m ρ c)
theorem s33_main_v297 (c : Dev nD) : W34 (F := Ideal) m ρ c (Proc.devRef .tc main_v297) = kv_main_v297 (inK m c) := by
  refine (W34_arr m ρ c 6).trans ?_
  rw [Cert.KernelIdeal.RegionValue.arr9 (V33 m ρ) c]
  show Cert.KernelIdeal.RegionValue.bnK (W33 m ρ c (Proc.devRef .tc main_v278)) (W33 m ρ c (Proc.devRef .tc main_v284)) (W33 m ρ c (Proc.devRef .tc main_v293)) (W33 m ρ c (Proc.devRef .tc main_v294)) (W33 m ρ c (Proc.devRef .tc main_v295)) (W33 m ρ c (Proc.devRef .tc main_v296)) = _
  rw [s32_main_v278 m ρ c, s32_main_v284 m ρ c, s32_main_v293 m ρ c, s32_main_v294 m ρ c, s32_main_v295 m ρ c, s32_main_v296 m ρ c]
  rfl

end Cert.KernelIdeal.Val

end
-- ==== Proof.KState5.lean ====
/- The contents of the kernel program's buffers at its segment boundaries: each named value's buffer holds that value of the argument arrays. -/
import proofs.«127768_j9405978378358_1_alg».proof.Proof.FrameKernelIdealP
import proofs.«127768_j9405978378358_1_alg».proof.Proof.KVals
import proofs.«127768_j9405978378358_1_alg».proof.Proof.KSeg_hostOps10
import proofs.«127768_j9405978378358_1_alg».proof.Proof.KSeg_hostOps11
import proofs.«127768_j9405978378358_1_alg».proof.Proof.KSeg_hostOps11_1
import proofs.«127768_j9405978378358_1_alg».proof.Proof.KSeg_hostOps11_2
import proofs.«127768_j9405978378358_1_alg».proof.Proof.KReg10
import proofs.«127768_j9405978378358_1_alg».proof.Proof.KReg11
import proofs.«127768_j9405978378358_1_alg».proof.Proof.KState4
import proofs.«127768_j9405978378358_1_alg».proof.Proof.RefTac

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.StableHlo Idealize.SL.Sem

variable (m : (ℓ : Loc nD τ sig) → Buf (Elt Ideal) ℓ) (ρ : Dev nD → PrngReg)

theorem s34_main_v1 (c : Dev nD) : W35 (F := Ideal) m ρ c (Proc.devRef .tc main_v1) = kv_main_v1 (inK m c) :=
  (keep_hostOps10 (F := Ideal) (W34 m ρ c) main_v1 (by ref_notin)).trans (s33_main_v1 m ρ c)
theorem s34_main_v3 (c : Dev nD) : W35 (F := Ideal) m ρ c (Proc.devRef .tc main_v3) = kv_main_v3 (inK m c) :=
  (keep_hostOps10 (F := Ideal) (W34 m ρ c) main_v3 (by ref_notin)).trans (s33_main_v3 m ρ c)
theorem s34_main_v15 (c : Dev nD) : W35 (F := Ideal) m ρ c (Proc.devRef .tc main_v15) = kv_main_v15 (inK m c) :=
  (keep_hostOps10 (F := Ideal) (W34 m ρ c) main_v15 (by ref_notin)).trans (s33_main_v15 m ρ c)
theorem s34_main_v20 (c : Dev nD) : W35 (F := Ideal) m ρ c (Proc.devRef .tc main_v20) = kv_main_v20 (inK m c) :=
  (keep_hostOps10 (F := Ideal) (W34 m ρ c) main_v20 (by ref_notin)).trans (s33_main_v20 m ρ c)
theorem s34_main_v297 (c : Dev nD) : W35 (F := Ideal) m ρ c (Proc.devRef .tc main_v297) = kv_main_v297 (inK m c) :=
  (keep_hostOps10 (F := Ideal) (W34 m ρ c) main_v297 (by ref_notin)).trans (s33_main_v297 m ρ c)
theorem s34_main_arg0 (c : Dev nD) : W35 (F := Ideal) m ρ c (Proc.devRef .tc main_arg0) = (inK m c).a0 :=
  (keep_hostOps10 (F := Ideal) (W34 m ρ c) main_arg0 (by ref_notin)).trans (s33_main_arg0 m ρ c)
theorem s34_main_arg10 (c : Dev nD) : W35 (F := Ideal) m ρ c (Proc.devRef .tc main_arg10) = (inK m c).a10 :=
  (keep_hostOps10 (F := Ideal) (W34 m ρ c) main_arg10 (by ref_notin)).trans (s33_main_arg10 m ρ c)
theorem s34_main_arg11 (c : Dev nD) : W35 (F := Ideal) m ρ c (Proc.devRef .tc main_arg11) = (inK m c).a11 :=
  (keep_hostOps10 (F := Ideal) (W34 m ρ c) main_arg11 (by ref_notin)).trans (s33_main_arg11 m ρ c)
theorem s34_main_arg6 (c : Dev nD) : W35 (F := Ideal) m ρ c (Proc.devRef .tc main_arg6) = (inK m c).a6 :=
  (keep_hostOps10 (F := Ideal) (W34 m ρ c) main_arg6 (by ref_notin)).trans (s33_main_arg6 m ρ c)
theorem s34_main_arg8 (c : Dev nD) : W35 (F := Ideal) m ρ c (Proc.devRef .tc main_arg8) = (inK m c).a8 :=
  (keep_hostOps10 (F := Ideal) (W34 m ρ c) main_arg8 (by ref_notin)).trans (s33_main_arg8 m ρ c)
theorem s34_main_arg7 (c : Dev nD) : W35 (F := Ideal) m ρ c (Proc.devRef .tc main_arg7) = (inK m c).a7 :=
  (keep_hostOps10 (F := Ideal) (W34 m ρ c) main_arg7 (by ref_notin)).trans (s33_main_arg7 m ρ c)
theorem s34_main_arg9 (c : Dev nD) : W35 (F := Ideal) m ρ c (Proc.devRef .tc main_arg9) = (inK m c).a9 :=
  (keep_hostOps10 (F := Ideal) (W34 m ρ c) main_arg9 (by ref_notin)).trans (s33_main_arg9 m ρ c)
theorem s34_main_arg12 (c : Dev nD) : W35 (F := Ideal) m ρ c (Proc.devRef .tc main_arg12) = (inK m c).a12 :=
  (keep_hostOps10 (F := Ideal) (W34 m ρ c) main_arg12 (by ref_notin)).trans (s33_main_arg12 m ρ c)
theorem s34_main_arg13 (c : Dev nD) : W35 (F := Ideal) m ρ c (Proc.devRef .tc main_arg13) = (inK m c).a13 :=
  (keep_hostOps10 (F := Ideal) (W34 m ρ c) main_arg13 (by ref_notin)).trans (s33_main_arg13 m ρ c)
theorem s34_main_v299 (c : Dev nD) : W35 (F := Ideal) m ρ c (Proc.devRef .tc main_v299) = kv_main_v299 (inK m c) := by
  refine (c_main_v299 (F := Ideal) (W34 m ρ c)).trans ?_
  rw [s33_main_arg6 m ρ c]
  rfl
theorem s34_main_v301 (c : Dev nD) : W35 (F := Ideal) m ρ c (Proc.devRef .tc main_v301) = kv_main_v301 (inK m c) := by
  refine (c_main_v301 (F := Ideal) (W34 m ρ c)).trans ?_
  rw [s33_main_arg8 m ρ c]
  rfl
theorem s34_main_v302 (c : Dev nD) : W35 (F := Ideal) m ρ c (Proc.devRef .tc main_v302) = kv_main_v302 (inK m c) := by
  refine (c_main_v302 (F := Ideal) (W34 m ρ c)).trans ?_
  rw [show after (hostOps10 (F := Ideal)) (W34 m ρ c) (Proc.devRef .tc main_v299) = _ from s34_main_v299 m ρ c, show after (hostOps10 (F := Ideal)) (W34 m ρ c) (Proc.devRef .tc main_v301) = _ from s34_main_v301 m ρ c]
  rfl

theorem s35_main_v1 (c : Dev nD) : W36 (F := Ideal) m ρ c (Proc.devRef .tc main_v1) = kv_main_v1 (inK m c) :=
  (W36_of_ne m ρ c main_v1 (by decide)).trans (s34_main_v1 m ρ c)
theorem s35_main_v3 (c : Dev nD) : W36 (F := Ideal) m ρ c (Proc.devRef .tc main_v3) = kv_main_v3 (inK m c) :=
  (W36_of_ne m ρ c main_v3 (by decide)).trans (s34_main_v3 m ρ c)
theorem s35_main_v15 (c : Dev nD) : W36 (F := Ideal) m ρ c (Proc.devRef .tc main_v15) = kv_main_v15 (inK m c) :=
  (W36_of_ne m ρ c main_v15 (by decide)).trans (s34_main_v15 m ρ c)
theorem s35_main_v20 (c : Dev nD) : W36 (F := Ideal) m ρ c (Proc.devRef .tc main_v20) = kv_main_v20 (inK m c) :=
  (W36_of_ne m ρ c main_v20 (by decide)).trans (s34_main_v20 m ρ c)
theorem s35_main_arg0 (c : Dev nD) : W36 (F := Ideal) m ρ c (Proc.devRef .tc main_arg0) = (inK m c).a0 :=
  (W36_of_ne m ρ c main_arg0 (by decide)).trans (s34_main_arg0 m ρ c)
theorem s35_main_arg10 (c : Dev nD) : W36 (F := Ideal) m ρ c (Proc.devRef .tc main_arg10) = (inK m c).a10 :=
  (W36_of_ne m ρ c main_arg10 (by decide)).trans (s34_main_arg10 m ρ c)
theorem s35_main_arg11 (c : Dev nD) : W36 (F := Ideal) m ρ c (Proc.devRef .tc main_arg11) = (inK m c).a11 :=
  (W36_of_ne m ρ c main_arg11 (by decide)).trans (s34_main_arg11 m ρ c)
theorem s35_main_arg6 (c : Dev nD) : W36 (F := Ideal) m ρ c (Proc.devRef .tc main_arg6) = (inK m c).a6 :=
  (W36_of_ne m ρ c main_arg6 (by decide)).trans (s34_main_arg6 m ρ c)
theorem s35_main_arg8 (c : Dev nD) : W36 (F := Ideal) m ρ c (Proc.devRef .tc main_arg8) = (inK m c).a8 :=
  (W36_of_ne m ρ c main_arg8 (by decide)).trans (s34_main_arg8 m ρ c)
theorem s35_main_arg7 (c : Dev nD) : W36 (F := Ideal) m ρ c (Proc.devRef .tc main_arg7) = (inK m c).a7 :=
  (W36_of_ne m ρ c main_arg7 (by decide)).trans (s34_main_arg7 m ρ c)
theorem s35_main_arg9 (c : Dev nD) : W36 (F := Ideal) m ρ c (Proc.devRef .tc main_arg9) = (inK m c).a9 :=
  (W36_of_ne m ρ c main_arg9 (by decide)).trans (s34_main_arg9 m ρ c)
theorem s35_main_arg12 (c : Dev nD) : W36 (F := Ideal) m ρ c (Proc.devRef .tc main_arg12) = (inK m c).a12 :=
  (W36_of_ne m ρ c main_arg12 (by decide)).trans (s34_main_arg12 m ρ c)
theorem s35_main_arg13 (c : Dev nD) : W36 (F := Ideal) m ρ c (Proc.devRef .tc main_arg13) = (inK m c).a13 :=
  (W36_of_ne m ρ c main_arg13 (by decide)).trans (s34_main_arg13 m ρ c)
theorem s35_main_v303 (c : Dev nD) : W36 (F := Ideal) m ρ c (Proc.devRef .tc main_v303) = kv_main_v303 (inK m c) := by
  refine (W36_arr m ρ c 2).trans ?_
  rw [Cert.KernelIdeal.RegionValue.arr10 (V35 m ρ) c]
  show Cert.Dense.mm (W35 m ρ c (Proc.devRef .tc main_v297)) (W35 m ρ c (Proc.devRef .tc main_v302)) = _
  rw [s34_main_v297 m ρ c, s34_main_v302 m ρ c]
  rfl

theorem s36_main_v1 (c : Dev nD) : W37 (F := Ideal) m ρ c (Proc.devRef .tc main_v1) = kv_main_v1 (inK m c) :=
  (keep_hostOps11 (F := Ideal) (W36 m ρ c) main_v1 (by ref_notin)).trans (s35_main_v1 m ρ c)
theorem s36_main_v3 (c : Dev nD) : W37 (F := Ideal) m ρ c (Proc.devRef .tc main_v3) = kv_main_v3 (inK m c) :=
  (keep_hostOps11 (F := Ideal) (W36 m ρ c) main_v3 (by ref_notin)).trans (s35_main_v3 m ρ c)
theorem s36_main_v15 (c : Dev nD) : W37 (F := Ideal) m ρ c (Proc.devRef .tc main_v15) = kv_main_v15 (inK m c) :=
  (keep_hostOps11 (F := Ideal) (W36 m ρ c) main_v15 (by ref_notin)).trans (s35_main_v15 m ρ c)
theorem s36_main_v20 (c : Dev nD) : W37 (F := Ideal) m ρ c (Proc.devRef .tc main_v20) = kv_main_v20 (inK m c) :=
  (keep_hostOps11 (F := Ideal) (W36 m ρ c) main_v20 (by ref_notin)).trans (s35_main_v20 m ρ c)
theorem s36_main_arg0 (c : Dev nD) : W37 (F := Ideal) m ρ c (Proc.devRef .tc main_arg0) = (inK m c).a0 :=
  (keep_hostOps11 (F := Ideal) (W36 m ρ c) main_arg0 (by ref_notin)).trans (s35_main_arg0 m ρ c)
theorem s36_main_arg10 (c : Dev nD) : W37 (F := Ideal) m ρ c (Proc.devRef .tc main_arg10) = (inK m c).a10 :=
  (keep_hostOps11 (F := Ideal) (W36 m ρ c) main_arg10 (by ref_notin)).trans (s35_main_arg10 m ρ c)
theorem s36_main_arg11 (c : Dev nD) : W37 (F := Ideal) m ρ c (Proc.devRef .tc main_arg11) = (inK m c).a11 :=
  (keep_hostOps11 (F := Ideal) (W36 m ρ c) main_arg11 (by ref_notin)).trans (s35_main_arg11 m ρ c)
theorem s36_main_arg6 (c : Dev nD) : W37 (F := Ideal) m ρ c (Proc.devRef .tc main_arg6) = (inK m c).a6 :=
  (keep_hostOps11 (F := Ideal) (W36 m ρ c) main_arg6 (by ref_notin)).trans (s35_main_arg6 m ρ c)
theorem s36_main_arg8 (c : Dev nD) : W37 (F := Ideal) m ρ c (Proc.devRef .tc main_arg8) = (inK m c).a8 :=
  (keep_hostOps11 (F := Ideal) (W36 m ρ c) main_arg8 (by ref_notin)).trans (s35_main_arg8 m ρ c)
theorem s36_main_arg7 (c : Dev nD) : W37 (F := Ideal) m ρ c (Proc.devRef .tc main_arg7) = (inK m c).a7 :=
  (keep_hostOps11 (F := Ideal) (W36 m ρ c) main_arg7 (by ref_notin)).trans (s35_main_arg7 m ρ c)
theorem s36_main_arg9 (c : Dev nD) : W37 (F := Ideal) m ρ c (Proc.devRef .tc main_arg9) = (inK m c).a9 :=
  (keep_hostOps11 (F := Ideal) (W36 m ρ c) main_arg9 (by ref_notin)).trans (s35_main_arg9 m ρ c)
theorem s36_main_arg12 (c : Dev nD) : W37 (F := Ideal) m ρ c (Proc.devRef .tc main_arg12) = (inK m c).a12 :=
  (keep_hostOps11 (F := Ideal) (W36 m ρ c) main_arg12 (by ref_notin)).trans (s35_main_arg12 m ρ c)
theorem s36_main_arg13 (c : Dev nD) : W37 (F := Ideal) m ρ c (Proc.devRef .tc main_arg13) = (inK m c).a13 :=
  (keep_hostOps11 (F := Ideal) (W36 m ρ c) main_arg13 (by ref_notin)).trans (s35_main_arg13 m ρ c)
theorem s36_main_v329 (c : Dev nD) : W37 (F := Ideal) m ρ c (Proc.devRef .tc main_v329) = kv_main_v329 (inK m c) := by
  refine (c_main_v329 (F := Ideal) (W36 m ρ c)).trans ?_
  rw [s35_main_v1 m ρ c, s35_main_v3 m ρ c, s35_main_v303 m ρ c, s35_main_v20 m ρ c, s35_main_v15 m ρ c]
  rfl
theorem s36_main_v332 (c : Dev nD) : W37 (F := Ideal) m ρ c (Proc.devRef .tc main_v332) = kv_main_v332 (inK m c) := by
  refine (c_main_v332 (F := Ideal) (W36 m ρ c)).trans ?_
  rw [s35_main_arg7 m ρ c]
  rfl
theorem s36_main_v335 (c : Dev nD) : W37 (F := Ideal) m ρ c (Proc.devRef .tc main_v335) = kv_main_v335 (inK m c) := by
  refine (c_main_v335 (F := Ideal) (W36 m ρ c)).trans ?_
  rw [show after (hostOps11 (F := Ideal)) (W36 m ρ c) (Proc.devRef .tc main_v329) = _ from s36_main_v329 m ρ c, show after (hostOps11 (F := Ideal)) (W36 m ρ c) (Proc.devRef .tc main_v332) = _ from s36_main_v332 m ρ c]
  rfl
theorem s36_main_v338 (c : Dev nD) : W37 (F := Ideal) m ρ c (Proc.devRef .tc main_v338) = kv_main_v338 (inK m c) := by
  refine (c_main_v338 (F := Ideal) (W36 m ρ c)).trans ?_
  rw [s35_main_arg9 m ρ c]
  rfl
theorem s36_main_v341 (c : Dev nD) : W37 (F := Ideal) m ρ c (Proc.devRef .tc main_v341) = kv_main_v341 (inK m c) := by
  refine (c_main_v341 (F := Ideal) (W36 m ρ c)).trans ?_
  rw [show after (hostOps11 (F := Ideal)) (W36 m ρ c) (Proc.devRef .tc main_v329) = _ from s36_main_v329 m ρ c, show after (hostOps11 (F := Ideal)) (W36 m ρ c) (Proc.devRef .tc main_v338) = _ from s36_main_v338 m ρ c]
  rfl
theorem s36_main_v344 (c : Dev nD) : W37 (F := Ideal) m ρ c (Proc.devRef .tc main_v344) = kv_main_v344 (inK m c) := by
  refine (c_main_v344 (F := Ideal) (W36 m ρ c)).trans ?_
  rw [show after (hostOps11 (F := Ideal)) (W36 m ρ c) (Proc.devRef .tc main_v335) = _ from s36_main_v335 m ρ c]
  rfl
theorem s36_main_c_60 (c : Dev nD) : W37 (F := Ideal) m ρ c (Proc.devRef .tc main_c_60) = kv_main_c_60 (inK m c) := by
  refine (c_main_c_60 (F := Ideal) (W36 m ρ c)).trans ?_
  rfl

theorem s37_main_v1 (c : Dev nD) : W38 (F := Ideal) m ρ c (Proc.devRef .tc main_v1) = kv_main_v1 (inK m c) :=
  (keep_hostOps11_1 (F := Ideal) (W37 m ρ c) main_v1 (by ref_notin)).trans (s36_main_v1 m ρ c)
theorem s37_main_v3 (c : Dev nD) : W38 (F := Ideal) m ρ c (Proc.devRef .tc main_v3) = kv_main_v3 (inK m c) :=
  (keep_hostOps11_1 (F := Ideal) (W37 m ρ c) main_v3 (by ref_notin)).trans (s36_main_v3 m ρ c)
theorem s37_main_v15 (c : Dev nD) : W38 (F := Ideal) m ρ c (Proc.devRef .tc main_v15) = kv_main_v15 (inK m c) :=
  (keep_hostOps11_1 (F := Ideal) (W37 m ρ c) main_v15 (by ref_notin)).trans (s36_main_v15 m ρ c)
theorem s37_main_v20 (c : Dev nD) : W38 (F := Ideal) m ρ c (Proc.devRef .tc main_v20) = kv_main_v20 (inK m c) :=
  (keep_hostOps11_1 (F := Ideal) (W37 m ρ c) main_v20 (by ref_notin)).trans (s36_main_v20 m ρ c)
theorem s37_main_v335 (c : Dev nD) : W38 (F := Ideal) m ρ c (Proc.devRef .tc main_v335) = kv_main_v335 (inK m c) :=
  (keep_hostOps11_1 (F := Ideal) (W37 m ρ c) main_v335 (by ref_notin)).trans (s36_main_v335 m ρ c)
theorem s37_main_v341 (c : Dev nD) : W38 (F := Ideal) m ρ c (Proc.devRef .tc main_v341) = kv_main_v341 (inK m c) :=
  (keep_hostOps11_1 (F := Ideal) (W37 m ρ c) main_v341 (by ref_notin)).trans (s36_main_v341 m ρ c)
theorem s37_main_v344 (c : Dev nD) : W38 (F := Ideal) m ρ c (Proc.devRef .tc main_v344) = kv_main_v344 (inK m c) :=
  (keep_hostOps11_1 (F := Ideal) (W37 m ρ c) main_v344 (by ref_notin)).trans (s36_main_v344 m ρ c)
theorem s37_main_arg0 (c : Dev nD) : W38 (F := Ideal) m ρ c (Proc.devRef .tc main_arg0) = (inK m c).a0 :=
  (keep_hostOps11_1 (F := Ideal) (W37 m ρ c) main_arg0 (by ref_notin)).trans (s36_main_arg0 m ρ c)
theorem s37_main_arg10 (c : Dev nD) : W38 (F := Ideal) m ρ c (Proc.devRef .tc main_arg10) = (inK m c).a10 :=
  (keep_hostOps11_1 (F := Ideal) (W37 m ρ c) main_arg10 (by ref_notin)).trans (s36_main_arg10 m ρ c)
theorem s37_main_arg11 (c : Dev nD) : W38 (F := Ideal) m ρ c (Proc.devRef .tc main_arg11) = (inK m c).a11 :=
  (keep_hostOps11_1 (F := Ideal) (W37 m ρ c) main_arg11 (by ref_notin)).trans (s36_main_arg11 m ρ c)
theorem s37_main_arg6 (c : Dev nD) : W38 (F := Ideal) m ρ c (Proc.devRef .tc main_arg6) = (inK m c).a6 :=
  (keep_hostOps11_1 (F := Ideal) (W37 m ρ c) main_arg6 (by ref_notin)).trans (s36_main_arg6 m ρ c)
theorem s37_main_arg8 (c : Dev nD) : W38 (F := Ideal) m ρ c (Proc.devRef .tc main_arg8) = (inK m c).a8 :=
  (keep_hostOps11_1 (F := Ideal) (W37 m ρ c) main_arg8 (by ref_notin)).trans (s36_main_arg8 m ρ c)
theorem s37_main_arg7 (c : Dev nD) : W38 (F := Ideal) m ρ c (Proc.devRef .tc main_arg7) = (inK m c).a7 :=
  (keep_hostOps11_1 (F := Ideal) (W37 m ρ c) main_arg7 (by ref_notin)).trans (s36_main_arg7 m ρ c)
theorem s37_main_arg9 (c : Dev nD) : W38 (F := Ideal) m ρ c (Proc.devRef .tc main_arg9) = (inK m c).a9 :=
  (keep_hostOps11_1 (F := Ideal) (W37 m ρ c) main_arg9 (by ref_notin)).trans (s36_main_arg9 m ρ c)
theorem s37_main_arg12 (c : Dev nD) : W38 (F := Ideal) m ρ c (Proc.devRef .tc main_arg12) = (inK m c).a12 :=
  (keep_hostOps11_1 (F := Ideal) (W37 m ρ c) main_arg12 (by ref_notin)).trans (s36_main_arg12 m ρ c)
theorem s37_main_arg13 (c : Dev nD) : W38 (F := Ideal) m ρ c (Proc.devRef .tc main_arg13) = (inK m c).a13 :=
  (keep_hostOps11_1 (F := Ideal) (W37 m ρ c) main_arg13 (by ref_notin)).trans (s36_main_arg13 m ρ c)
theorem s37_main_call7_v5 (c : Dev nD) : W38 (F := Ideal) m ρ c (Proc.devRef .tc main_call7_v5) = kv_main_call7_v5 (inK m c) := by
  refine (c_main_call7_v5 (F := Ideal) (W37 m ρ c)).trans ?_
  rw [s36_main_v335 m ρ c]
  rfl
theorem s37_main_call7_v8 (c : Dev nD) : W38 (F := Ideal) m ρ c (Proc.devRef .tc main_call7_v8) = kv_main_call7_v8 (inK m c) := by
  refine (c_main_call7_v8 (F := Ideal) (W37 m ρ c)).trans ?_
  rw [s36_main_c_60 m ρ c]
  rfl
theorem s37_main_call7_v11 (c : Dev nD) : W38 (F := Ideal) m ρ c (Proc.devRef .tc main_call7_v11) = kv_main_call7_v11 (inK m c) := by
  refine (c_main_call7_v11 (F := Ideal) (W37 m ρ c)).trans ?_
  rw [show after (hostOps11_1 (F := Ideal)) (W37 m ρ c) (Proc.devRef .tc main_call7_v5) = _ from s37_main_call7_v5 m ρ c, show after (hostOps11_1 (F := Ideal)) (W37 m ρ c) (Proc.devRef .tc main_call7_v8) = _ from s37_main_call7_v8 m ρ c]
  rfl
theorem s37_main_v345 (c : Dev nD) : W38 (F := Ideal) m ρ c (Proc.devRef .tc main_v345) = kv_main_v345 (inK m c) := by
  refine (c_main_v345 (F := Ideal) (W37 m ρ c)).trans ?_
  rw [show after (hostOps11_1 (F := Ideal)) (W37 m ρ c) (Proc.devRef .tc main_call7_v8) = _ from s37_main_call7_v8 m ρ c, show after (hostOps11_1 (F := Ideal)) (W37 m ρ c) (Proc.devRef .tc main_call7_v11) = _ from s37_main_call7_v11 m ρ c]
  rfl

theorem s38_main_v1 (c : Dev nD) : W39 (F := Ideal) m ρ c (Proc.devRef .tc main_v1) = kv_main_v1 (inK m c) :=
  (keep_hostOps11_2 (F := Ideal) (W38 m ρ c) main_v1 (by ref_notin)).trans (s37_main_v1 m ρ c)
theorem s38_main_v3 (c : Dev nD) : W39 (F := Ideal) m ρ c (Proc.devRef .tc main_v3) = kv_main_v3 (inK m c) :=
  (keep_hostOps11_2 (F := Ideal) (W38 m ρ c) main_v3 (by ref_notin)).trans (s37_main_v3 m ρ c)
theorem s38_main_v15 (c : Dev nD) : W39 (F := Ideal) m ρ c (Proc.devRef .tc main_v15) = kv_main_v15 (inK m c) :=
  (keep_hostOps11_2 (F := Ideal) (W38 m ρ c) main_v15 (by ref_notin)).trans (s37_main_v15 m ρ c)
theorem s38_main_v20 (c : Dev nD) : W39 (F := Ideal) m ρ c (Proc.devRef .tc main_v20) = kv_main_v20 (inK m c) :=
  (keep_hostOps11_2 (F := Ideal) (W38 m ρ c) main_v20 (by ref_notin)).trans (s37_main_v20 m ρ c)
theorem s38_main_v335 (c : Dev nD) : W39 (F := Ideal) m ρ c (Proc.devRef .tc main_v335) = kv_main_v335 (inK m c) :=
  (keep_hostOps11_2 (F := Ideal) (W38 m ρ c) main_v335 (by ref_notin)).trans (s37_main_v335 m ρ c)
theorem s38_main_v341 (c : Dev nD) : W39 (F := Ideal) m ρ c (Proc.devRef .tc main_v341) = kv_main_v341 (inK m c) :=
  (keep_hostOps11_2 (F := Ideal) (W38 m ρ c) main_v341 (by ref_notin)).trans (s37_main_v341 m ρ c)
theorem s38_main_arg0 (c : Dev nD) : W39 (F := Ideal) m ρ c (Proc.devRef .tc main_arg0) = (inK m c).a0 :=
  (keep_hostOps11_2 (F := Ideal) (W38 m ρ c) main_arg0 (by ref_notin)).trans (s37_main_arg0 m ρ c)
theorem s38_main_arg10 (c : Dev nD) : W39 (F := Ideal) m ρ c (Proc.devRef .tc main_arg10) = (inK m c).a10 :=
  (keep_hostOps11_2 (F := Ideal) (W38 m ρ c) main_arg10 (by ref_notin)).trans (s37_main_arg10 m ρ c)
theorem s38_main_arg11 (c : Dev nD) : W39 (F := Ideal) m ρ c (Proc.devRef .tc main_arg11) = (inK m c).a11 :=
  (keep_hostOps11_2 (F := Ideal) (W38 m ρ c) main_arg11 (by ref_notin)).trans (s37_main_arg11 m ρ c)
theorem s38_main_arg6 (c : Dev nD) : W39 (F := Ideal) m ρ c (Proc.devRef .tc main_arg6) = (inK m c).a6 :=
  (keep_hostOps11_2 (F := Ideal) (W38 m ρ c) main_arg6 (by ref_notin)).trans (s37_main_arg6 m ρ c)
theorem s38_main_arg8 (c : Dev nD) : W39 (F := Ideal) m ρ c (Proc.devRef .tc main_arg8) = (inK m c).a8 :=
  (keep_hostOps11_2 (F := Ideal) (W38 m ρ c) main_arg8 (by ref_notin)).trans (s37_main_arg8 m ρ c)
theorem s38_main_arg7 (c : Dev nD) : W39 (F := Ideal) m ρ c (Proc.devRef .tc main_arg7) = (inK m c).a7 :=
  (keep_hostOps11_2 (F := Ideal) (W38 m ρ c) main_arg7 (by ref_notin)).trans (s37_main_arg7 m ρ c)
theorem s38_main_arg9 (c : Dev nD) : W39 (F := Ideal) m ρ c (Proc.devRef .tc main_arg9) = (inK m c).a9 :=
  (keep_hostOps11_2 (F := Ideal) (W38 m ρ c) main_arg9 (by ref_notin)).trans (s37_main_arg9 m ρ c)
theorem s38_main_arg12 (c : Dev nD) : W39 (F := Ideal) m ρ c (Proc.devRef .tc main_arg12) = (inK m c).a12 :=
  (keep_hostOps11_2 (F := Ideal) (W38 m ρ c) main_arg12 (by ref_notin)).trans (s37_main_arg12 m ρ c)
theorem s38_main_arg13 (c : Dev nD) : W39 (F := Ideal) m ρ c (Proc.devRef .tc main_arg13) = (inK m c).a13 :=
  (keep_hostOps11_2 (F := Ideal) (W38 m ρ c) main_arg13 (by ref_notin)).trans (s37_main_arg13 m ρ c)
theorem s38_main_v347 (c : Dev nD) : W39 (F := Ideal) m ρ c (Proc.devRef .tc main_v347) = kv_main_v347 (inK m c) := by
  refine (c_main_v347 (F := Ideal) (W38 m ρ c)).trans ?_
  rw [s37_main_arg10 m ρ c]
  rfl
theorem s38_main_v349 (c : Dev nD) : W39 (F := Ideal) m ρ c (Proc.devRef .tc main_v349) = kv_main_v349 (inK m c) := by
  refine (c_main_v349 (F := Ideal) (W38 m ρ c)).trans ?_
  rw [s37_main_arg11 m ρ c]
  rfl
theorem s38_main_v350 (c : Dev nD) : W39 (F := Ideal) m ρ c (Proc.devRef .tc main_v350) = kv_main_v350 (inK m c) := by
  refine (c_main_v350 (F := Ideal) (W38 m ρ c)).trans ?_
  rw [s37_main_v344 m ρ c]
  rfl
theorem s38_main_v351 (c : Dev nD) : W39 (F := Ideal) m ρ c (Proc.devRef .tc main_v351) = kv_main_v351 (inK m c) := by
  refine (c_main_v351 (F := Ideal) (W38 m ρ c)).trans ?_
  rw [s37_main_v345 m ρ c]
  rfl
theorem s38_main_v352 (c : Dev nD) : W39 (F := Ideal) m ρ c (Proc.devRef .tc main_v352) = kv_main_v352 (inK m c) := by
  refine (c_main_v352 (F := Ideal) (W38 m ρ c)).trans ?_
  rw [show after (hostOps11_2 (F := Ideal)) (W38 m ρ c) (Proc.devRef .tc main_v347) = _ from s38_main_v347 m ρ c]
  rfl
theorem s38_main_v353 (c : Dev nD) : W39 (F := Ideal) m ρ c (Proc.devRef .tc main_v353) = kv_main_v353 (inK m c) := by
  refine (c_main_v353 (F := Ideal) (W38 m ρ c)).trans ?_
  rw [show after (hostOps11_2 (F := Ideal)) (W38 m ρ c) (Proc.devRef .tc main_v349) = _ from s38_main_v349 m ρ c]
  rfl

theorem s39_main_v1 (c : Dev nD) : W40 (F := Ideal) m ρ c (Proc.devRef .tc main_v1) = kv_main_v1 (inK m c) :=
  (W40_of_ne m ρ c main_v1 (by decide)).trans (s38_main_v1 m ρ c)
theorem s39_main_v3 (c : Dev nD) : W40 (F := Ideal) m ρ c (Proc.devRef .tc main_v3) = kv_main_v3 (inK m c) :=
  (W40_of_ne m ρ c main_v3 (by decide)).trans (s38_main_v3 m ρ c)
theorem s39_main_v15 (c : Dev nD) : W40 (F := Ideal) m ρ c (Proc.devRef .tc main_v15) = kv_main_v15 (inK m c) :=
  (W40_of_ne m ρ c main_v15 (by decide)).trans (s38_main_v15 m ρ c)
theorem s39_main_v20 (c : Dev nD) : W40 (F := Ideal) m ρ c (Proc.devRef .tc main_v20) = kv_main_v20 (inK m c) :=
  (W40_of_ne m ρ c main_v20 (by decide)).trans (s38_main_v20 m ρ c)
theorem s39_main_arg0 (c : Dev nD) : W40 (F := Ideal) m ρ c (Proc.devRef .tc main_arg0) = (inK m c).a0 :=
  (W40_of_ne m ρ c main_arg0 (by decide)).trans (s38_main_arg0 m ρ c)
theorem s39_main_arg10 (c : Dev nD) : W40 (F := Ideal) m ρ c (Proc.devRef .tc main_arg10) = (inK m c).a10 :=
  (W40_of_ne m ρ c main_arg10 (by decide)).trans (s38_main_arg10 m ρ c)
theorem s39_main_arg11 (c : Dev nD) : W40 (F := Ideal) m ρ c (Proc.devRef .tc main_arg11) = (inK m c).a11 :=
  (W40_of_ne m ρ c main_arg11 (by decide)).trans (s38_main_arg11 m ρ c)
theorem s39_main_arg6 (c : Dev nD) : W40 (F := Ideal) m ρ c (Proc.devRef .tc main_arg6) = (inK m c).a6 :=
  (W40_of_ne m ρ c main_arg6 (by decide)).trans (s38_main_arg6 m ρ c)
theorem s39_main_arg8 (c : Dev nD) : W40 (F := Ideal) m ρ c (Proc.devRef .tc main_arg8) = (inK m c).a8 :=
  (W40_of_ne m ρ c main_arg8 (by decide)).trans (s38_main_arg8 m ρ c)
theorem s39_main_arg7 (c : Dev nD) : W40 (F := Ideal) m ρ c (Proc.devRef .tc main_arg7) = (inK m c).a7 :=
  (W40_of_ne m ρ c main_arg7 (by decide)).trans (s38_main_arg7 m ρ c)
theorem s39_main_arg9 (c : Dev nD) : W40 (F := Ideal) m ρ c (Proc.devRef .tc main_arg9) = (inK m c).a9 :=
  (W40_of_ne m ρ c main_arg9 (by decide)).trans (s38_main_arg9 m ρ c)
theorem s39_main_arg12 (c : Dev nD) : W40 (F := Ideal) m ρ c (Proc.devRef .tc main_arg12) = (inK m c).a12 :=
  (W40_of_ne m ρ c main_arg12 (by decide)).trans (s38_main_arg12 m ρ c)
theorem s39_main_arg13 (c : Dev nD) : W40 (F := Ideal) m ρ c (Proc.devRef .tc main_arg13) = (inK m c).a13 :=
  (W40_of_ne m ρ c main_arg13 (by decide)).trans (s38_main_arg13 m ρ c)
theorem s39_main_v354 (c : Dev nD) : W40 (F := Ideal) m ρ c (Proc.devRef .tc main_v354) = kv_main_v354 (inK m c) := by
  refine (W40_arr m ρ c 6).trans ?_
  rw [Cert.KernelIdeal.RegionValue.arr11 (V39 m ρ) c]
  show Cert.KernelIdeal.RegionValue.bnK (W39 m ρ c (Proc.devRef .tc main_v335)) (W39 m ρ c (Proc.devRef .tc main_v341)) (W39 m ρ c (Proc.devRef .tc main_v350)) (W39 m ρ c (Proc.devRef .tc main_v351)) (W39 m ρ c (Proc.devRef .tc main_v352)) (W39 m ρ c (Proc.devRef .tc main_v353)) = _
  rw [s38_main_v335 m ρ c, s38_main_v341 m ρ c, s38_main_v350 m ρ c, s38_main_v351 m ρ c, s38_main_v352 m ρ c, s38_main_v353 m ρ c]
  rfl

end Cert.KernelIdeal.Val

end
-- ==== Proof.KState6.lean ====
/- The contents of the kernel program's buffers at its segment boundaries: each named value's buffer holds that value of the argument arrays. -/
import proofs.«127768_j9405978378358_1_alg».proof.Proof.FrameKernelIdealP
import proofs.«127768_j9405978378358_1_alg».proof.Proof.KVals
import proofs.«127768_j9405978378358_1_alg».proof.Proof.KSeg_hostOps12
import proofs.«127768_j9405978378358_1_alg».proof.Proof.KSeg_hostOps13
import proofs.«127768_j9405978378358_1_alg».proof.Proof.KSeg_hostOps13_1
import proofs.«127768_j9405978378358_1_alg».proof.Proof.KSeg_hostOps13_2
import proofs.«127768_j9405978378358_1_alg».proof.Proof.KReg12
import proofs.«127768_j9405978378358_1_alg».proof.Proof.KReg13
import proofs.«127768_j9405978378358_1_alg».proof.Proof.KState5
import proofs.«127768_j9405978378358_1_alg».proof.Proof.RefTac

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.StableHlo Idealize.SL.Sem

variable (m : (ℓ : Loc nD τ sig) → Buf (Elt Ideal) ℓ) (ρ : Dev nD → PrngReg)

theorem s40_main_v1 (c : Dev nD) : W41 (F := Ideal) m ρ c (Proc.devRef .tc main_v1) = kv_main_v1 (inK m c) :=
  (keep_hostOps12 (F := Ideal) (W40 m ρ c) main_v1 (by ref_notin)).trans (s39_main_v1 m ρ c)
theorem s40_main_v3 (c : Dev nD) : W41 (F := Ideal) m ρ c (Proc.devRef .tc main_v3) = kv_main_v3 (inK m c) :=
  (keep_hostOps12 (F := Ideal) (W40 m ρ c) main_v3 (by ref_notin)).trans (s39_main_v3 m ρ c)
theorem s40_main_v15 (c : Dev nD) : W41 (F := Ideal) m ρ c (Proc.devRef .tc main_v15) = kv_main_v15 (inK m c) :=
  (keep_hostOps12 (F := Ideal) (W40 m ρ c) main_v15 (by ref_notin)).trans (s39_main_v15 m ρ c)
theorem s40_main_v20 (c : Dev nD) : W41 (F := Ideal) m ρ c (Proc.devRef .tc main_v20) = kv_main_v20 (inK m c) :=
  (keep_hostOps12 (F := Ideal) (W40 m ρ c) main_v20 (by ref_notin)).trans (s39_main_v20 m ρ c)
theorem s40_main_v354 (c : Dev nD) : W41 (F := Ideal) m ρ c (Proc.devRef .tc main_v354) = kv_main_v354 (inK m c) :=
  (keep_hostOps12 (F := Ideal) (W40 m ρ c) main_v354 (by ref_notin)).trans (s39_main_v354 m ρ c)
theorem s40_main_arg0 (c : Dev nD) : W41 (F := Ideal) m ρ c (Proc.devRef .tc main_arg0) = (inK m c).a0 :=
  (keep_hostOps12 (F := Ideal) (W40 m ρ c) main_arg0 (by ref_notin)).trans (s39_main_arg0 m ρ c)
theorem s40_main_arg10 (c : Dev nD) : W41 (F := Ideal) m ρ c (Proc.devRef .tc main_arg10) = (inK m c).a10 :=
  (keep_hostOps12 (F := Ideal) (W40 m ρ c) main_arg10 (by ref_notin)).trans (s39_main_arg10 m ρ c)
theorem s40_main_arg11 (c : Dev nD) : W41 (F := Ideal) m ρ c (Proc.devRef .tc main_arg11) = (inK m c).a11 :=
  (keep_hostOps12 (F := Ideal) (W40 m ρ c) main_arg11 (by ref_notin)).trans (s39_main_arg11 m ρ c)
theorem s40_main_arg7 (c : Dev nD) : W41 (F := Ideal) m ρ c (Proc.devRef .tc main_arg7) = (inK m c).a7 :=
  (keep_hostOps12 (F := Ideal) (W40 m ρ c) main_arg7 (by ref_notin)).trans (s39_main_arg7 m ρ c)
theorem s40_main_arg9 (c : Dev nD) : W41 (F := Ideal) m ρ c (Proc.devRef .tc main_arg9) = (inK m c).a9 :=
  (keep_hostOps12 (F := Ideal) (W40 m ρ c) main_arg9 (by ref_notin)).trans (s39_main_arg9 m ρ c)
theorem s40_main_arg12 (c : Dev nD) : W41 (F := Ideal) m ρ c (Proc.devRef .tc main_arg12) = (inK m c).a12 :=
  (keep_hostOps12 (F := Ideal) (W40 m ρ c) main_arg12 (by ref_notin)).trans (s39_main_arg12 m ρ c)
theorem s40_main_arg13 (c : Dev nD) : W41 (F := Ideal) m ρ c (Proc.devRef .tc main_arg13) = (inK m c).a13 :=
  (keep_hostOps12 (F := Ideal) (W40 m ρ c) main_arg13 (by ref_notin)).trans (s39_main_arg13 m ρ c)
theorem s40_main_v356 (c : Dev nD) : W41 (F := Ideal) m ρ c (Proc.devRef .tc main_v356) = kv_main_v356 (inK m c) := by
  refine (c_main_v356 (F := Ideal) (W40 m ρ c)).trans ?_
  rw [s39_main_arg6 m ρ c]
  rfl
theorem s40_main_v358 (c : Dev nD) : W41 (F := Ideal) m ρ c (Proc.devRef .tc main_v358) = kv_main_v358 (inK m c) := by
  refine (c_main_v358 (F := Ideal) (W40 m ρ c)).trans ?_
  rw [s39_main_arg8 m ρ c]
  rfl
theorem s40_main_v359 (c : Dev nD) : W41 (F := Ideal) m ρ c (Proc.devRef .tc main_v359) = kv_main_v359 (inK m c) := by
  refine (c_main_v359 (F := Ideal) (W40 m ρ c)).trans ?_
  rw [show after (hostOps12 (F := Ideal)) (W40 m ρ c) (Proc.devRef .tc main_v356) = _ from s40_main_v356 m ρ c, show after (hostOps12 (F := Ideal)) (W40 m ρ c) (Proc.devRef .tc main_v358) = _ from s40_main_v358 m ρ c]
  rfl

theorem s41_main_v1 (c : Dev nD) : W42 (F := Ideal) m ρ c (Proc.devRef .tc main_v1) = kv_main_v1 (inK m c) :=
  (W42_of_ne m ρ c main_v1 (by decide)).trans (s40_main_v1 m ρ c)
theorem s41_main_v3 (c : Dev nD) : W42 (F := Ideal) m ρ c (Proc.devRef .tc main_v3) = kv_main_v3 (inK m c) :=
  (W42_of_ne m ρ c main_v3 (by decide)).trans (s40_main_v3 m ρ c)
theorem s41_main_v15 (c : Dev nD) : W42 (F := Ideal) m ρ c (Proc.devRef .tc main_v15) = kv_main_v15 (inK m c) :=
  (W42_of_ne m ρ c main_v15 (by decide)).trans (s40_main_v15 m ρ c)
theorem s41_main_v20 (c : Dev nD) : W42 (F := Ideal) m ρ c (Proc.devRef .tc main_v20) = kv_main_v20 (inK m c) :=
  (W42_of_ne m ρ c main_v20 (by decide)).trans (s40_main_v20 m ρ c)
theorem s41_main_arg0 (c : Dev nD) : W42 (F := Ideal) m ρ c (Proc.devRef .tc main_arg0) = (inK m c).a0 :=
  (W42_of_ne m ρ c main_arg0 (by decide)).trans (s40_main_arg0 m ρ c)
theorem s41_main_arg10 (c : Dev nD) : W42 (F := Ideal) m ρ c (Proc.devRef .tc main_arg10) = (inK m c).a10 :=
  (W42_of_ne m ρ c main_arg10 (by decide)).trans (s40_main_arg10 m ρ c)
theorem s41_main_arg11 (c : Dev nD) : W42 (F := Ideal) m ρ c (Proc.devRef .tc main_arg11) = (inK m c).a11 :=
  (W42_of_ne m ρ c main_arg11 (by decide)).trans (s40_main_arg11 m ρ c)
theorem s41_main_arg7 (c : Dev nD) : W42 (F := Ideal) m ρ c (Proc.devRef .tc main_arg7) = (inK m c).a7 :=
  (W42_of_ne m ρ c main_arg7 (by decide)).trans (s40_main_arg7 m ρ c)
theorem s41_main_arg9 (c : Dev nD) : W42 (F := Ideal) m ρ c (Proc.devRef .tc main_arg9) = (inK m c).a9 :=
  (W42_of_ne m ρ c main_arg9 (by decide)).trans (s40_main_arg9 m ρ c)
theorem s41_main_arg12 (c : Dev nD) : W42 (F := Ideal) m ρ c (Proc.devRef .tc main_arg12) = (inK m c).a12 :=
  (W42_of_ne m ρ c main_arg12 (by decide)).trans (s40_main_arg12 m ρ c)
theorem s41_main_arg13 (c : Dev nD) : W42 (F := Ideal) m ρ c (Proc.devRef .tc main_arg13) = (inK m c).a13 :=
  (W42_of_ne m ρ c main_arg13 (by decide)).trans (s40_main_arg13 m ρ c)
theorem s41_main_v360 (c : Dev nD) : W42 (F := Ideal) m ρ c (Proc.devRef .tc main_v360) = kv_main_v360 (inK m c) := by
  refine (W42_arr m ρ c 2).trans ?_
  rw [Cert.KernelIdeal.RegionValue.arr12 (V41 m ρ) c]
  show Cert.Dense.mm (W41 m ρ c (Proc.devRef .tc main_v354)) (W41 m ρ c (Proc.devRef .tc main_v359)) = _
  rw [s40_main_v354 m ρ c, s40_main_v359 m ρ c]
  rfl

theorem s42_main_v1 (c : Dev nD) : W43 (F := Ideal) m ρ c (Proc.devRef .tc main_v1) = kv_main_v1 (inK m c) :=
  (keep_hostOps13 (F := Ideal) (W42 m ρ c) main_v1 (by ref_notin)).trans (s41_main_v1 m ρ c)
theorem s42_main_v3 (c : Dev nD) : W43 (F := Ideal) m ρ c (Proc.devRef .tc main_v3) = kv_main_v3 (inK m c) :=
  (keep_hostOps13 (F := Ideal) (W42 m ρ c) main_v3 (by ref_notin)).trans (s41_main_v3 m ρ c)
theorem s42_main_v15 (c : Dev nD) : W43 (F := Ideal) m ρ c (Proc.devRef .tc main_v15) = kv_main_v15 (inK m c) :=
  (keep_hostOps13 (F := Ideal) (W42 m ρ c) main_v15 (by ref_notin)).trans (s41_main_v15 m ρ c)
theorem s42_main_v20 (c : Dev nD) : W43 (F := Ideal) m ρ c (Proc.devRef .tc main_v20) = kv_main_v20 (inK m c) :=
  (keep_hostOps13 (F := Ideal) (W42 m ρ c) main_v20 (by ref_notin)).trans (s41_main_v20 m ρ c)
theorem s42_main_arg0 (c : Dev nD) : W43 (F := Ideal) m ρ c (Proc.devRef .tc main_arg0) = (inK m c).a0 :=
  (keep_hostOps13 (F := Ideal) (W42 m ρ c) main_arg0 (by ref_notin)).trans (s41_main_arg0 m ρ c)
theorem s42_main_arg10 (c : Dev nD) : W43 (F := Ideal) m ρ c (Proc.devRef .tc main_arg10) = (inK m c).a10 :=
  (keep_hostOps13 (F := Ideal) (W42 m ρ c) main_arg10 (by ref_notin)).trans (s41_main_arg10 m ρ c)
theorem s42_main_arg11 (c : Dev nD) : W43 (F := Ideal) m ρ c (Proc.devRef .tc main_arg11) = (inK m c).a11 :=
  (keep_hostOps13 (F := Ideal) (W42 m ρ c) main_arg11 (by ref_notin)).trans (s41_main_arg11 m ρ c)
theorem s42_main_arg12 (c : Dev nD) : W43 (F := Ideal) m ρ c (Proc.devRef .tc main_arg12) = (inK m c).a12 :=
  (keep_hostOps13 (F := Ideal) (W42 m ρ c) main_arg12 (by ref_notin)).trans (s41_main_arg12 m ρ c)
theorem s42_main_arg13 (c : Dev nD) : W43 (F := Ideal) m ρ c (Proc.devRef .tc main_arg13) = (inK m c).a13 :=
  (keep_hostOps13 (F := Ideal) (W42 m ρ c) main_arg13 (by ref_notin)).trans (s41_main_arg13 m ρ c)
theorem s42_main_v386 (c : Dev nD) : W43 (F := Ideal) m ρ c (Proc.devRef .tc main_v386) = kv_main_v386 (inK m c) := by
  refine (c_main_v386 (F := Ideal) (W42 m ρ c)).trans ?_
  rw [s41_main_v1 m ρ c, s41_main_v3 m ρ c, s41_main_v360 m ρ c, s41_main_v20 m ρ c, s41_main_v15 m ρ c]
  rfl
theorem s42_main_v389 (c : Dev nD) : W43 (F := Ideal) m ρ c (Proc.devRef .tc main_v389) = kv_main_v389 (inK m c) := by
  refine (c_main_v389 (F := Ideal) (W42 m ρ c)).trans ?_
  rw [s41_main_arg7 m ρ c]
  rfl
theorem s42_main_v392 (c : Dev nD) : W43 (F := Ideal) m ρ c (Proc.devRef .tc main_v392) = kv_main_v392 (inK m c) := by
  refine (c_main_v392 (F := Ideal) (W42 m ρ c)).trans ?_
  rw [show after (hostOps13 (F := Ideal)) (W42 m ρ c) (Proc.devRef .tc main_v386) = _ from s42_main_v386 m ρ c, show after (hostOps13 (F := Ideal)) (W42 m ρ c) (Proc.devRef .tc main_v389) = _ from s42_main_v389 m ρ c]
  rfl
theorem s42_main_v395 (c : Dev nD) : W43 (F := Ideal) m ρ c (Proc.devRef .tc main_v395) = kv_main_v395 (inK m c) := by
  refine (c_main_v395 (F := Ideal) (W42 m ρ c)).trans ?_
  rw [s41_main_arg9 m ρ c]
  rfl
theorem s42_main_v398 (c : Dev nD) : W43 (F := Ideal) m ρ c (Proc.devRef .tc main_v398) = kv_main_v398 (inK m c) := by
  refine (c_main_v398 (F := Ideal) (W42 m ρ c)).trans ?_
  rw [show after (hostOps13 (F := Ideal)) (W42 m ρ c) (Proc.devRef .tc main_v386) = _ from s42_main_v386 m ρ c, show after (hostOps13 (F := Ideal)) (W42 m ρ c) (Proc.devRef .tc main_v395) = _ from s42_main_v395 m ρ c]
  rfl
theorem s42_main_v401 (c : Dev nD) : W43 (F := Ideal) m ρ c (Proc.devRef .tc main_v401) = kv_main_v401 (inK m c) := by
  refine (c_main_v401 (F := Ideal) (W42 m ρ c)).trans ?_
  rw [show after (hostOps13 (F := Ideal)) (W42 m ρ c) (Proc.devRef .tc main_v392) = _ from s42_main_v392 m ρ c]
  rfl
theorem s42_main_c_69 (c : Dev nD) : W43 (F := Ideal) m ρ c (Proc.devRef .tc main_c_69) = kv_main_c_69 (inK m c) := by
  refine (c_main_c_69 (F := Ideal) (W42 m ρ c)).trans ?_
  rfl

theorem s43_main_v1 (c : Dev nD) : W44 (F := Ideal) m ρ c (Proc.devRef .tc main_v1) = kv_main_v1 (inK m c) :=
  (keep_hostOps13_1 (F := Ideal) (W43 m ρ c) main_v1 (by ref_notin)).trans (s42_main_v1 m ρ c)
theorem s43_main_v3 (c : Dev nD) : W44 (F := Ideal) m ρ c (Proc.devRef .tc main_v3) = kv_main_v3 (inK m c) :=
  (keep_hostOps13_1 (F := Ideal) (W43 m ρ c) main_v3 (by ref_notin)).trans (s42_main_v3 m ρ c)
theorem s43_main_v15 (c : Dev nD) : W44 (F := Ideal) m ρ c (Proc.devRef .tc main_v15) = kv_main_v15 (inK m c) :=
  (keep_hostOps13_1 (F := Ideal) (W43 m ρ c) main_v15 (by ref_notin)).trans (s42_main_v15 m ρ c)
theorem s43_main_v20 (c : Dev nD) : W44 (F := Ideal) m ρ c (Proc.devRef .tc main_v20) = kv_main_v20 (inK m c) :=
  (keep_hostOps13_1 (F := Ideal) (W43 m ρ c) main_v20 (by ref_notin)).trans (s42_main_v20 m ρ c)
theorem s43_main_v392 (c : Dev nD) : W44 (F := Ideal) m ρ c (Proc.devRef .tc main_v392) = kv_main_v392 (inK m c) :=
  (keep_hostOps13_1 (F := Ideal) (W43 m ρ c) main_v392 (by ref_notin)).trans (s42_main_v392 m ρ c)
theorem s43_main_v398 (c : Dev nD) : W44 (F := Ideal) m ρ c (Proc.devRef .tc main_v398) = kv_main_v398 (inK m c) :=
  (keep_hostOps13_1 (F := Ideal) (W43 m ρ c) main_v398 (by ref_notin)).trans (s42_main_v398 m ρ c)
theorem s43_main_v401 (c : Dev nD) : W44 (F := Ideal) m ρ c (Proc.devRef .tc main_v401) = kv_main_v401 (inK m c) :=
  (keep_hostOps13_1 (F := Ideal) (W43 m ρ c) main_v401 (by ref_notin)).trans (s42_main_v401 m ρ c)
theorem s43_main_arg0 (c : Dev nD) : W44 (F := Ideal) m ρ c (Proc.devRef .tc main_arg0) = (inK m c).a0 :=
  (keep_hostOps13_1 (F := Ideal) (W43 m ρ c) main_arg0 (by ref_notin)).trans (s42_main_arg0 m ρ c)
theorem s43_main_arg10 (c : Dev nD) : W44 (F := Ideal) m ρ c (Proc.devRef .tc main_arg10) = (inK m c).a10 :=
  (keep_hostOps13_1 (F := Ideal) (W43 m ρ c) main_arg10 (by ref_notin)).trans (s42_main_arg10 m ρ c)
theorem s43_main_arg11 (c : Dev nD) : W44 (F := Ideal) m ρ c (Proc.devRef .tc main_arg11) = (inK m c).a11 :=
  (keep_hostOps13_1 (F := Ideal) (W43 m ρ c) main_arg11 (by ref_notin)).trans (s42_main_arg11 m ρ c)
theorem s43_main_arg12 (c : Dev nD) : W44 (F := Ideal) m ρ c (Proc.devRef .tc main_arg12) = (inK m c).a12 :=
  (keep_hostOps13_1 (F := Ideal) (W43 m ρ c) main_arg12 (by ref_notin)).trans (s42_main_arg12 m ρ c)
theorem s43_main_arg13 (c : Dev nD) : W44 (F := Ideal) m ρ c (Proc.devRef .tc main_arg13) = (inK m c).a13 :=
  (keep_hostOps13_1 (F := Ideal) (W43 m ρ c) main_arg13 (by ref_notin)).trans (s42_main_arg13 m ρ c)
theorem s43_main_call8_v5 (c : Dev nD) : W44 (F := Ideal) m ρ c (Proc.devRef .tc main_call8_v5) = kv_main_call8_v5 (inK m c) := by
  refine (c_main_call8_v5 (F := Ideal) (W43 m ρ c)).trans ?_
  rw [s42_main_v392 m ρ c]
  rfl
theorem s43_main_call8_v8 (c : Dev nD) : W44 (F := Ideal) m ρ c (Proc.devRef .tc main_call8_v8) = kv_main_call8_v8 (inK m c) := by
  refine (c_main_call8_v8 (F := Ideal) (W43 m ρ c)).trans ?_
  rw [s42_main_c_69 m ρ c]
  rfl
theorem s43_main_call8_v11 (c : Dev nD) : W44 (F := Ideal) m ρ c (Proc.devRef .tc main_call8_v11) = kv_main_call8_v11 (inK m c) := by
  refine (c_main_call8_v11 (F := Ideal) (W43 m ρ c)).trans ?_
  rw [show after (hostOps13_1 (F := Ideal)) (W43 m ρ c) (Proc.devRef .tc main_call8_v5) = _ from s43_main_call8_v5 m ρ c, show after (hostOps13_1 (F := Ideal)) (W43 m ρ c) (Proc.devRef .tc main_call8_v8) = _ from s43_main_call8_v8 m ρ c]
  rfl
theorem s43_main_v402 (c : Dev nD) : W44 (F := Ideal) m ρ c (Proc.devRef .tc main_v402) = kv_main_v402 (inK m c) := by
  refine (c_main_v402 (F := Ideal) (W43 m ρ c)).trans ?_
  rw [show after (hostOps13_1 (F := Ideal)) (W43 m ρ c) (Proc.devRef .tc main_call8_v8) = _ from s43_main_call8_v8 m ρ c, show after (hostOps13_1 (F := Ideal)) (W43 m ρ c) (Proc.devRef .tc main_call8_v11) = _ from s43_main_call8_v11 m ρ c]
  rfl

theorem s44_main_v1 (c : Dev nD) : W45 (F := Ideal) m ρ c (Proc.devRef .tc main_v1) = kv_main_v1 (inK m c) :=
  (keep_hostOps13_2 (F := Ideal) (W44 m ρ c) main_v1 (by ref_notin)).trans (s43_main_v1 m ρ c)
theorem s44_main_v3 (c : Dev nD) : W45 (F := Ideal) m ρ c (Proc.devRef .tc main_v3) = kv_main_v3 (inK m c) :=
  (keep_hostOps13_2 (F := Ideal) (W44 m ρ c) main_v3 (by ref_notin)).trans (s43_main_v3 m ρ c)
theorem s44_main_v15 (c : Dev nD) : W45 (F := Ideal) m ρ c (Proc.devRef .tc main_v15) = kv_main_v15 (inK m c) :=
  (keep_hostOps13_2 (F := Ideal) (W44 m ρ c) main_v15 (by ref_notin)).trans (s43_main_v15 m ρ c)
theorem s44_main_v20 (c : Dev nD) : W45 (F := Ideal) m ρ c (Proc.devRef .tc main_v20) = kv_main_v20 (inK m c) :=
  (keep_hostOps13_2 (F := Ideal) (W44 m ρ c) main_v20 (by ref_notin)).trans (s43_main_v20 m ρ c)
theorem s44_main_v392 (c : Dev nD) : W45 (F := Ideal) m ρ c (Proc.devRef .tc main_v392) = kv_main_v392 (inK m c) :=
  (keep_hostOps13_2 (F := Ideal) (W44 m ρ c) main_v392 (by ref_notin)).trans (s43_main_v392 m ρ c)
theorem s44_main_v398 (c : Dev nD) : W45 (F := Ideal) m ρ c (Proc.devRef .tc main_v398) = kv_main_v398 (inK m c) :=
  (keep_hostOps13_2 (F := Ideal) (W44 m ρ c) main_v398 (by ref_notin)).trans (s43_main_v398 m ρ c)
theorem s44_main_arg0 (c : Dev nD) : W45 (F := Ideal) m ρ c (Proc.devRef .tc main_arg0) = (inK m c).a0 :=
  (keep_hostOps13_2 (F := Ideal) (W44 m ρ c) main_arg0 (by ref_notin)).trans (s43_main_arg0 m ρ c)
theorem s44_main_arg12 (c : Dev nD) : W45 (F := Ideal) m ρ c (Proc.devRef .tc main_arg12) = (inK m c).a12 :=
  (keep_hostOps13_2 (F := Ideal) (W44 m ρ c) main_arg12 (by ref_notin)).trans (s43_main_arg12 m ρ c)
theorem s44_main_arg13 (c : Dev nD) : W45 (F := Ideal) m ρ c (Proc.devRef .tc main_arg13) = (inK m c).a13 :=
  (keep_hostOps13_2 (F := Ideal) (W44 m ρ c) main_arg13 (by ref_notin)).trans (s43_main_arg13 m ρ c)
theorem s44_main_v404 (c : Dev nD) : W45 (F := Ideal) m ρ c (Proc.devRef .tc main_v404) = kv_main_v404 (inK m c) := by
  refine (c_main_v404 (F := Ideal) (W44 m ρ c)).trans ?_
  rw [s43_main_arg10 m ρ c]
  rfl
theorem s44_main_v406 (c : Dev nD) : W45 (F := Ideal) m ρ c (Proc.devRef .tc main_v406) = kv_main_v406 (inK m c) := by
  refine (c_main_v406 (F := Ideal) (W44 m ρ c)).trans ?_
  rw [s43_main_arg11 m ρ c]
  rfl
theorem s44_main_v407 (c : Dev nD) : W45 (F := Ideal) m ρ c (Proc.devRef .tc main_v407) = kv_main_v407 (inK m c) := by
  refine (c_main_v407 (F := Ideal) (W44 m ρ c)).trans ?_
  rw [s43_main_v401 m ρ c]
  rfl
theorem s44_main_v408 (c : Dev nD) : W45 (F := Ideal) m ρ c (Proc.devRef .tc main_v408) = kv_main_v408 (inK m c) := by
  refine (c_main_v408 (F := Ideal) (W44 m ρ c)).trans ?_
  rw [s43_main_v402 m ρ c]
  rfl
theorem s44_main_v409 (c : Dev nD) : W45 (F := Ideal) m ρ c (Proc.devRef .tc main_v409) = kv_main_v409 (inK m c) := by
  refine (c_main_v409 (F := Ideal) (W44 m ρ c)).trans ?_
  rw [show after (hostOps13_2 (F := Ideal)) (W44 m ρ c) (Proc.devRef .tc main_v404) = _ from s44_main_v404 m ρ c]
  rfl
theorem s44_main_v410 (c : Dev nD) : W45 (F := Ideal) m ρ c (Proc.devRef .tc main_v410) = kv_main_v410 (inK m c) := by
  refine (c_main_v410 (F := Ideal) (W44 m ρ c)).trans ?_
  rw [show after (hostOps13_2 (F := Ideal)) (W44 m ρ c) (Proc.devRef .tc main_v406) = _ from s44_main_v406 m ρ c]
  rfl

theorem s45_main_v1 (c : Dev nD) : W46 (F := Ideal) m ρ c (Proc.devRef .tc main_v1) = kv_main_v1 (inK m c) :=
  (W46_of_ne m ρ c main_v1 (by decide)).trans (s44_main_v1 m ρ c)
theorem s45_main_v3 (c : Dev nD) : W46 (F := Ideal) m ρ c (Proc.devRef .tc main_v3) = kv_main_v3 (inK m c) :=
  (W46_of_ne m ρ c main_v3 (by decide)).trans (s44_main_v3 m ρ c)
theorem s45_main_v15 (c : Dev nD) : W46 (F := Ideal) m ρ c (Proc.devRef .tc main_v15) = kv_main_v15 (inK m c) :=
  (W46_of_ne m ρ c main_v15 (by decide)).trans (s44_main_v15 m ρ c)
theorem s45_main_v20 (c : Dev nD) : W46 (F := Ideal) m ρ c (Proc.devRef .tc main_v20) = kv_main_v20 (inK m c) :=
  (W46_of_ne m ρ c main_v20 (by decide)).trans (s44_main_v20 m ρ c)
theorem s45_main_arg0 (c : Dev nD) : W46 (F := Ideal) m ρ c (Proc.devRef .tc main_arg0) = (inK m c).a0 :=
  (W46_of_ne m ρ c main_arg0 (by decide)).trans (s44_main_arg0 m ρ c)
theorem s45_main_arg12 (c : Dev nD) : W46 (F := Ideal) m ρ c (Proc.devRef .tc main_arg12) = (inK m c).a12 :=
  (W46_of_ne m ρ c main_arg12 (by decide)).trans (s44_main_arg12 m ρ c)
theorem s45_main_arg13 (c : Dev nD) : W46 (F := Ideal) m ρ c (Proc.devRef .tc main_arg13) = (inK m c).a13 :=
  (W46_of_ne m ρ c main_arg13 (by decide)).trans (s44_main_arg13 m ρ c)
theorem s45_main_v411 (c : Dev nD) : W46 (F := Ideal) m ρ c (Proc.devRef .tc main_v411) = kv_main_v411 (inK m c) := by
  refine (W46_arr m ρ c 6).trans ?_
  rw [Cert.KernelIdeal.RegionValue.arr13 (V45 m ρ) c]
  show Cert.KernelIdeal.RegionValue.bnK (W45 m ρ c (Proc.devRef .tc main_v392)) (W45 m ρ c (Proc.devRef .tc main_v398)) (W45 m ρ c (Proc.devRef .tc main_v407)) (W45 m ρ c (Proc.devRef .tc main_v408)) (W45 m ρ c (Proc.devRef .tc main_v409)) (W45 m ρ c (Proc.devRef .tc main_v410)) = _
  rw [s44_main_v392 m ρ c, s44_main_v398 m ρ c, s44_main_v407 m ρ c, s44_main_v408 m ρ c, s44_main_v409 m ρ c, s44_main_v410 m ρ c]
  rfl

end Cert.KernelIdeal.Val

end
-- ==== Proof.KState7.lean ====
/- The contents of the kernel program's buffers at its segment boundaries: each named value's buffer holds that value of the argument arrays. -/
import proofs.«127768_j9405978378358_1_alg».proof.Proof.FrameKernelIdealP
import proofs.«127768_j9405978378358_1_alg».proof.Proof.KVals
import proofs.«127768_j9405978378358_1_alg».proof.Proof.KSeg_hostOps14
import proofs.«127768_j9405978378358_1_alg».proof.Proof.KSeg_hostOps15
import proofs.«127768_j9405978378358_1_alg».proof.Proof.KReg14
import proofs.«127768_j9405978378358_1_alg».proof.Proof.KState6
import proofs.«127768_j9405978378358_1_alg».proof.Proof.RefTac

set_option maxRecDepth 16384

noncomputable section

namespace Cert.KernelIdeal.Val

open Cert.KernelIdeal Cert.KernelIdeal.Gen Cert.KernelIdeal.GenP Idealize.ShloMosaic Idealize.ShloMosaic.TcCoe Idealize.ShloMosaic.StableHlo Idealize.SL.Sem

variable (m : (ℓ : Loc nD τ sig) → Buf (Elt Ideal) ℓ) (ρ : Dev nD → PrngReg)

theorem s46_main_v1 (c : Dev nD) : W47 (F := Ideal) m ρ c (Proc.devRef .tc main_v1) = kv_main_v1 (inK m c) :=
  (keep_hostOps14 (F := Ideal) (W46 m ρ c) main_v1 (by ref_notin)).trans (s45_main_v1 m ρ c)
theorem s46_main_v3 (c : Dev nD) : W47 (F := Ideal) m ρ c (Proc.devRef .tc main_v3) = kv_main_v3 (inK m c) :=
  (keep_hostOps14 (F := Ideal) (W46 m ρ c) main_v3 (by ref_notin)).trans (s45_main_v3 m ρ c)
theorem s46_main_v15 (c : Dev nD) : W47 (F := Ideal) m ρ c (Proc.devRef .tc main_v15) = kv_main_v15 (inK m c) :=
  (keep_hostOps14 (F := Ideal) (W46 m ρ c) main_v15 (by ref_notin)).trans (s45_main_v15 m ρ c)
theorem s46_main_v20 (c : Dev nD) : W47 (F := Ideal) m ρ c (Proc.devRef .tc main_v20) = kv_main_v20 (inK m c) :=
  (keep_hostOps14 (F := Ideal) (W46 m ρ c) main_v20 (by ref_notin)).trans (s45_main_v20 m ρ c)
theorem s46_main_arg12 (c : Dev nD) : W47 (F := Ideal) m ρ c (Proc.devRef .tc main_arg12) = (inK m c).a12 :=
  (keep_hostOps14 (F := Ideal) (W46 m ρ c) main_arg12 (by ref_notin)).trans (s45_main_arg12 m ρ c)
theorem s46_main_arg13 (c : Dev nD) : W47 (F := Ideal) m ρ c (Proc.devRef .tc main_arg13) = (inK m c).a13 :=
  (keep_hostOps14 (F := Ideal) (W46 m ρ c) main_arg13 (by ref_notin)).trans (s45_main_arg13 m ρ c)
theorem s46_main_v412 (c : Dev nD) : W47 (F := Ideal) m ρ c (Proc.devRef .tc main_v412) = kv_main_v412 (inK m c) := by
  refine (c_main_v412 (F := Ideal) (W46 m ρ c)).trans ?_
  rw [s45_main_v411 m ρ c, s45_main_arg0 m ρ c]
  rfl

theorem s47_main_v1 (c : Dev nD) : W48 (F := Ideal) m ρ c (Proc.devRef .tc main_v1) = kv_main_v1 (inK m c) :=
  (W48_of_ne m ρ c main_v1 (by decide)).trans (s46_main_v1 m ρ c)
theorem s47_main_v3 (c : Dev nD) : W48 (F := Ideal) m ρ c (Proc.devRef .tc main_v3) = kv_main_v3 (inK m c) :=
  (W48_of_ne m ρ c main_v3 (by decide)).trans (s46_main_v3 m ρ c)
theorem s47_main_v15 (c : Dev nD) : W48 (F := Ideal) m ρ c (Proc.devRef .tc main_v15) = kv_main_v15 (inK m c) :=
  (W48_of_ne m ρ c main_v15 (by decide)).trans (s46_main_v15 m ρ c)
theorem s47_main_v20 (c : Dev nD) : W48 (F := Ideal) m ρ c (Proc.devRef .tc main_v20) = kv_main_v20 (inK m c) :=
  (W48_of_ne m ρ c main_v20 (by decide)).trans (s46_main_v20 m ρ c)
theorem s47_main_arg13 (c : Dev nD) : W48 (F := Ideal) m ρ c (Proc.devRef .tc main_arg13) = (inK m c).a13 :=
  (W48_of_ne m ρ c main_arg13 (by decide)).trans (s46_main_arg13 m ρ c)
theorem s47_main_v413 (c : Dev nD) : W48 (F := Ideal) m ρ c (Proc.devRef .tc main_v413) = kv_main_v413 (inK m c) := by
  refine (W48_arr m ρ c 2).trans ?_
  rw [Cert.KernelIdeal.RegionValue.arr14 (V47 m ρ) c]
  show Cert.Dense.mm (W47 m ρ c (Proc.devRef .tc main_v412)) (W47 m ρ c (Proc.devRef .tc main_arg12)) = _
  rw [s46_main_v412 m ρ c, s46_main_arg12 m ρ c]
  rfl

theorem s48_main_v439 (c : Dev nD) : W49 (F := Ideal) m ρ c (Proc.devRef .tc main_v439) = kv_main_v439 (inK m c) := by
  refine (c_main_v439 (F := Ideal) (W48 m ρ c)).trans ?_
  rw [s47_main_v1 m ρ c, s47_main_v3 m ρ c, s47_main_v413 m ρ c, s47_main_v20 m ρ c, s47_main_v15 m ρ c]
  rfl
theorem s48_main_v442 (c : Dev nD) : W49 (F := Ideal) m ρ c (Proc.devRef .tc main_v442) = kv_main_v442 (inK m c) := by
  refine (c_main_v442 (F := Ideal) (W48 m ρ c)).trans ?_
  rw [show after (hostOps15 (F := Ideal)) (W48 m ρ c) (Proc.devRef .tc main_v439) = _ from s48_main_v439 m ρ c, s47_main_arg13 m ρ c]
  rfl

end Cert.KernelIdeal.Val

end
-- ==== Proof.RFun.lean ====
/- The host-side stages of this program as pure functions of their operands: each is the composition of the program's own operations between two named values, spelled with the program's own operation terms. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- Stage 0: the value named by 1 buffer of the program, as a function of the named values it is computed from. -/
def rf0 (x0 : (⟨S100000x48, .f32⟩ : BufTy).Contents (Elt F)) (x1 : (⟨S48, .f32⟩ : BufTy).Contents (Elt F)) : (⟨S100000x48, .f32⟩ : BufTy).Contents (Elt F) :=
  ((addf : (⟨S100000x48, .f32⟩ : BufTy).Contents (Elt F) → (⟨S100000x48, .f32⟩ : BufTy).Contents (Elt F) → (⟨S100000x48, .f32⟩ : BufTy).Contents (Elt F)) x0 ((broadcastInDim S100000x48 ![0, 1] bcast_S1x48_S100000x48_0_1 : (⟨S1x48, .f32⟩ : BufTy).Contents (Elt F) → (⟨S100000x48, .f32⟩ : BufTy).Contents (Elt F)) ((broadcastInDim S1x48 ![1] bcast_S48_S1x48_1 : (⟨S48, .f32⟩ : BufTy).Contents (Elt F) → (⟨S1x48, .f32⟩ : BufTy).Contents (Elt F)) x1)))

/-- Stage 1: the value named by 1 buffer of the program, as a function of the named values it is computed from. -/
def rf1 (x0 : (⟨S2x1000000, .i32⟩ : BufTy).Contents (Elt F)) : (⟨S1000000, .i32⟩ : BufTy).Contents (Elt F) :=
  (shapeCast S1000000 (((extractStridedSlice S1x1000000 ![0, 0] · slices_S2x1000000_S1x1000000_0_0) : (⟨S2x1000000, .i32⟩ : BufTy).Contents (Elt F) → (⟨S1x1000000, .i32⟩ : BufTy).Contents (Elt F)) x0) shapeCasts_S1x1000000_S1000000)

/-- Stage 2: the value named by 1 buffer of the program, as a function of the named values it is computed from. -/
def rf2 (x0 : (⟨S2x1000000, .i32⟩ : BufTy).Contents (Elt F)) : (⟨S1000000, .i32⟩ : BufTy).Contents (Elt F) :=
  (shapeCast S1000000 (((extractStridedSlice S1x1000000 ![1, 0] · slices_S2x1000000_S1x1000000_1_0) : (⟨S2x1000000, .i32⟩ : BufTy).Contents (Elt F) → (⟨S1x1000000, .i32⟩ : BufTy).Contents (Elt F)) x0) shapeCasts_S1x1000000_S1000000)

/-- Stage 3: the value named by 1 buffer of the program, as a function of the named values it is computed from. -/
def rf3  : (⟨S1000000, .f32⟩ : BufTy).Contents (Elt F) :=
  ((broadcastInDim S1000000 ![] bcast_S_S1000000 : (⟨S_, .f32⟩ : BufTy).Contents (Elt F) → (⟨S1000000, .f32⟩ : BufTy).Contents (Elt F)) ((constant S_ .f32 0x3F800000#32) : (⟨S_, .f32⟩ : BufTy).Contents (Elt F)))

/-- Stage 4: the value named by 1 buffer of the program, as a function of the named values it is computed from. -/
def rf4 (x0 : (⟨S1000000, .i32⟩ : BufTy).Contents (Elt F)) (x1 : (⟨S1000000, .f32⟩ : BufTy).Contents (Elt F)) : (⟨S100000, .f32⟩ : BufTy).Contents (Elt F) :=
  (((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x00000000#32) : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) x0) x1)

/-- Stage 5: the value named by 1 buffer of the program, as a function of the named values it is computed from. -/
def rf5 (x0 : (⟨S1000000, .i32⟩ : BufTy).Contents (Elt F)) (x1 : (⟨S1000000, .f32⟩ : BufTy).Contents (Elt F)) : (⟨S20000, .f32⟩ : BufTy).Contents (Elt F) :=
  (((fun x i u => Host.scatterAdd scatter_S20000_S1000000x1_S1000000_n_0_0_1 x i u) : (⟨S20000, .f32⟩ : BufTy).Contents (Elt F) → (⟨S1000000x1, .i32⟩ : BufTy).Contents (Elt F) → (⟨S1000000, .f32⟩ : BufTy).Contents (Elt F) → (⟨S20000, .f32⟩ : BufTy).Contents (Elt F)) ((broadcastInDim S20000 ![] bcast_S_S20000 : (⟨S_, .f32⟩ : BufTy).Contents (Elt F) → (⟨S20000, .f32⟩ : BufTy).Contents (Elt F)) ((constant S_ .f32 0x00000000#32) : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) x0) x1)

/-- Stage 6: the value named by 1 buffer of the program, as a function of the named values it is computed from. -/
def rf6 (x0 : (⟨S100000, .f32⟩ : BufTy).Contents (Elt F)) : (⟨S100000, .f32⟩ : BufTy).Contents (Elt F) :=
  ((select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ((cmpf .ogt : (⟨S100000, .f32⟩ : BufTy).Contents (Elt F) → (⟨S100000, .f32⟩ : BufTy).Contents (Elt F) → (⟨S100000, .i1⟩ : BufTy).Contents (Elt F)) x0 ((broadcastInDim S100000 ![] bcast_S_S100000 : (⟨S_, .f32⟩ : BufTy).Contents (Elt F) → (⟨S100000, .f32⟩ : BufTy).Contents (Elt F)) ((constant S_ .f32 0x00000000#32) : (⟨S_, .f32⟩ : BufTy).Contents (Elt F)))) ((Host.divf : (⟨S100000, .f32⟩ : BufTy).Contents (Elt F) → (⟨S100000, .f32⟩ : BufTy).Contents (Elt F) → (⟨S100000, .f32⟩ : BufTy).Contents (Elt F)) ((broadcastInDim S100000 ![] bcast_S_S100000 : (⟨S_, .f32⟩ : BufTy).Contents (Elt F) → (⟨S100000, .f32⟩ : BufTy).Contents (Elt F)) ((constant S_ .f32 0x3F800000#32) : (⟨S_, .f32⟩ : BufTy).Contents (Elt F))) x0) (((broadcastInDim S100000 ![] bcast_S_S100000) : (⟨S_, .f32⟩ : BufTy).Contents (Elt F) → (⟨S100000, .f32⟩ : BufTy).Contents (Elt F)) ((id : (⟨S_, .f32⟩ : BufTy).Contents (Elt F) → (⟨S_, .f32⟩ : BufTy).Contents (Elt F)) ((constant S_ .f32 0x00000000#32) : (⟨S_, .f32⟩ : BufTy).Contents (Elt F)))))

/-- Stage 7: the value named by 1 buffer of the program, as a function of the named values it is computed from. -/
def rf7 (x0 : (⟨S20000, .f32⟩ : BufTy).Contents (Elt F)) : (⟨S20000, .f32⟩ : BufTy).Contents (Elt F) :=
  ((select : (⟨S20000, .i1⟩ : BufTy).Contents (Elt F) → (⟨S20000, .f32⟩ : BufTy).Contents (Elt F) → (⟨S20000, .f32⟩ : BufTy).Contents (Elt F) → (⟨S20000, .f32⟩ : BufTy).Contents (Elt F)) ((cmpf .ogt : (⟨S20000, .f32⟩ : BufTy).Contents (Elt F) → (⟨S20000, .f32⟩ : BufTy).Contents (Elt F) → (⟨S20000, .i1⟩ : BufTy).Contents (Elt F)) x0 ((broadcastInDim S20000 ![] bcast_S_S20000 : (⟨S_, .f32⟩ : BufTy).Contents (Elt F) → (⟨S20000, .f32⟩ : BufTy).Contents (Elt F)) ((constant S_ .f32 0x00000000#32) : (⟨S_, .f32⟩ : BufTy).Contents (Elt F)))) ((Host.divf : (⟨S20000, .f32⟩ : BufTy).Contents (Elt F) → (⟨S20000, .f32⟩ : BufTy).Contents (Elt F) → (⟨S20000, .f32⟩ : BufTy).Contents (Elt F)) ((broadcastInDim S20000 ![] bcast_S_S20000 : (⟨S_, .f32⟩ : BufTy).Contents (Elt F) → (⟨S20000, .f32⟩ : BufTy).Contents (Elt F)) ((constant S_ .f32 0x3F800000#32) : (⟨S_, .f32⟩ : BufTy).Contents (Elt F))) x0) (((broadcastInDim S20000 ![] bcast_S_S20000) : (⟨S_, .f32⟩ : BufTy).Contents (Elt F) → (⟨S20000, .f32⟩ : BufTy).Contents (Elt F)) ((id : (⟨S_, .f32⟩ : BufTy).Contents (Elt F) → (⟨S_, .f32⟩ : BufTy).Contents (Elt F)) ((constant S_ .f32 0x00000000#32) : (⟨S_, .f32⟩ : BufTy).Contents (Elt F)))))

/-- Stage 8: the value named by 2 buffers of the program, as a function of the named values it is computed from. -/
def rf8 (x0 : (⟨S100000x96, .f32⟩ : BufTy).Contents (Elt F)) (x1 : (⟨S96x80, .f32⟩ : BufTy).Contents (Elt F)) : (⟨S100000x80, .f32⟩ : BufTy).Contents (Elt F) :=
  (((fun l r => Host.dotGeneral dot_S100000x96_S96x80_S100000x80_1_0_0_1_n_n none l r) : (⟨S100000x96, .f32⟩ : BufTy).Contents (Elt F) → (⟨S96x80, .f32⟩ : BufTy).Contents (Elt F) → (⟨S100000x80, .f32⟩ : BufTy).Contents (Elt F)) x0 x1)

/-- Stage 9: the value named by 14 buffers of the program, as a function of the named values it is computed from. -/
def rf9 (x0 : (⟨S1000000, .i32⟩ : BufTy).Contents (Elt F)) (x1 : (⟨S1000000, .i32⟩ : BufTy).Contents (Elt F)) (x2 : (⟨S100000x80, .f32⟩ : BufTy).Contents (Elt F)) (x3 : (⟨S20000, .f32⟩ : BufTy).Contents (Elt F)) (x4 : (⟨S100000, .f32⟩ : BufTy).Contents (Elt F)) : (⟨S100000x80, .f32⟩ : BufTy).Contents (Elt F) :=
  ((mulf : (⟨S100000x80, .f32⟩ : BufTy).Contents (Elt F) → (⟨S100000x80, .f32⟩ : BufTy).Contents (Elt F) → (⟨S100000x80, .f32⟩ : BufTy).Contents (Elt F)) (((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)) ((broadcastInDim S100000x80 ![] bcast_S_S100000x80 : (⟨S_, .f32⟩ : BufTy).Contents (Elt F) → (⟨S100000x80, .f32⟩ : BufTy).Contents (Elt F)) ((constant S_ .f32 0x00000000#32) : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) x0) (((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)) ((mulf : (⟨S20000x80, .f32⟩ : BufTy).Contents (Elt F) → (⟨S20000x80, .f32⟩ : BufTy).Contents (Elt F) → (⟨S20000x80, .f32⟩ : BufTy).Contents (Elt F)) (((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)) ((broadcastInDim S20000x80 ![] bcast_S_S20000x80 : (⟨S_, .f32⟩ : BufTy).Contents (Elt F) → (⟨S20000x80, .f32⟩ : BufTy).Contents (Elt F)) ((constant S_ .f32 0x00000000#32) : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) x1) (((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)) x2 ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) x0 ((broadcastInDim S1000000 ![] bcast_S_S1000000 : (⟨S_, .i32⟩ : BufTy).Contents (Elt F) → (⟨S1000000, .i32⟩ : BufTy).Contents (Elt F)) ((constantI S_ 32 0#32) : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) x0 ((broadcastInDim S1000000 ![] bcast_S_S1000000 : (⟨S_, .i32⟩ : BufTy).Contents (Elt F) → (⟨S1000000, .i32⟩ : BufTy).Contents (Elt F)) ((constantI S_ 32 100000#32) : (⟨S_, .i32⟩ : BufTy).Contents (Elt F)))) x0)))) ((broadcastInDim S20000x80 ![0, 1] bcast_S20000x1_S20000x80_0_1 : (⟨S20000x1, .f32⟩ : BufTy).Contents (Elt F) → (⟨S20000x80, .f32⟩ : BufTy).Contents (Elt F)) ((broadcastInDim S20000x1 ![0] bcast_S20000_S20000x1_0 : (⟨S20000, .f32⟩ : BufTy).Contents (Elt F) → (⟨S20000x1, .f32⟩ : BufTy).Contents (Elt F)) x3))) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) x1 ((broadcastInDim S1000000 ![] bcast_S_S1000000 : (⟨S_, .i32⟩ : BufTy).Contents (Elt F) → (⟨S1000000, .i32⟩ : BufTy).Contents (Elt F)) ((constantI S_ 32 0#32) : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) x1 ((broadcastInDim S1000000 ![] bcast_S_S1000000 : (⟨S_, .i32⟩ : BufTy).Contents (Elt F) → (⟨S1000000, .i32⟩ : BufTy).Contents (Elt F)) ((constantI S_ 32 20000#32) : (⟨S_, .i32⟩ : BufTy).Contents (Elt F)))) x1)))) ((broadcastInDim S100000x80 ![0, 1] bcast_S100000x1_S100000x80_0_1 : (⟨S100000x1, .f32⟩ : BufTy).Contents (Elt F) → (⟨S100000x80, .f32⟩ : BufTy).Contents (Elt F)) ((broadcastInDim S100000x1 ![0] bcast_S100000_S100000x1_0 : (⟨S100000, .f32⟩ : BufTy).Contents (Elt F) → (⟨S100000x1, .f32⟩ : BufTy).Contents (Elt F)) x4)))

/-- Stage 10: the value named by 7 buffers of the program, as a function of the named values it is computed from. -/
def rf10 (x0 : (⟨S100000x80, .f32⟩ : BufTy).Contents (Elt F)) (x1 : (⟨S80, .f32⟩ : BufTy).Contents (Elt F)) : (⟨S100000x80, .f32⟩ : BufTy).Contents (Elt F) :=
  ((addf : (⟨S100000x80, .f32⟩ : BufTy).Contents (Elt F) → (⟨S100000x80, .f32⟩ : BufTy).Contents (Elt F) → (⟨S100000x80, .f32⟩ : BufTy).Contents (Elt F)) x0 ((broadcastInDim S100000x80 ![0, 1] bcast_S1x80_S100000x80_0_1 : (⟨S1x80, .f32⟩ : BufTy).Contents (Elt F) → (⟨S100000x80, .f32⟩ : BufTy).Contents (Elt F)) ((broadcastInDim S1x80 ![1] bcast_S80_S1x80_1 : (⟨S80, .f32⟩ : BufTy).Contents (Elt F) → (⟨S1x80, .f32⟩ : BufTy).Contents (Elt F)) x1)))

/-- Stage 11: the value named by 2 buffers of the program, as a function of the named values it is computed from. -/
def rf11 (x0 : (⟨S7x80, .f32⟩ : BufTy).Contents (Elt F)) : (⟨S80, .f32⟩ : BufTy).Contents (Elt F) :=
  (shapeCast S80 (((extractStridedSlice S1x80 ![0, 0] · slices_S7x80_S1x80_0_0) : (⟨S7x80, .f32⟩ : BufTy).Contents (Elt F) → (⟨S1x80, .f32⟩ : BufTy).Contents (Elt F)) x0) shapeCasts_S1x80_S80)

/-- Stage 12: the value named by 7 buffers of the program, as a function of the named values it is computed from. -/
def rf12 (x0 : (⟨S100000x80, .f32⟩ : BufTy).Contents (Elt F)) : (⟨S80, .f32⟩ : BufTy).Contents (Elt F) :=
  ((Host.divf : (⟨S80, .f32⟩ : BufTy).Contents (Elt F) → (⟨S80, .f32⟩ : BufTy).Contents (Elt F) → (⟨S80, .f32⟩ : BufTy).Contents (Elt F)) (((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)) x0 ((constant S_ .f32 0x00000000#32) : (⟨S_, .f32⟩ : BufTy).Contents (Elt F))) ((broadcastInDim S80 ![] bcast_S_S80 : (⟨S_, .f32⟩ : BufTy).Contents (Elt F) → (⟨S80, .f32⟩ : BufTy).Contents (Elt F)) ((constant S_ .f32 0x47C35000#32) : (⟨S_, .f32⟩ : BufTy).Contents (Elt F))))

/-- Stage 13: the value named by 7 buffers of the program, as a function of the named values it is computed from. -/
def rf13 (x0 : (⟨S100000x80, .f32⟩ : BufTy).Contents (Elt F)) : (⟨S100000x80, .f32⟩ : BufTy).Contents (Elt F) :=
  ((subf : (⟨S100000x80, .f32⟩ : BufTy).Contents (Elt F) → (⟨S100000x80, .f32⟩ : BufTy).Contents (Elt F) → (⟨S100000x80, .f32⟩ : BufTy).Contents (Elt F)) x0 (((broadcastInDim S100000x80 ![0, 1] bcast_S1x80_S100000x80_0_1) : (⟨S1x80, .f32⟩ : BufTy).Contents (Elt F) → (⟨S100000x80, .f32⟩ : BufTy).Contents (Elt F)) ((Host.divf : (⟨S1x80, .f32⟩ : BufTy).Contents (Elt F) → (⟨S1x80, .f32⟩ : BufTy).Contents (Elt F) → (⟨S1x80, .f32⟩ : BufTy).Contents (Elt F)) (((broadcastInDim S1x80 ![1] bcast_S80_S1x80_1) : (⟨S80, .f32⟩ : BufTy).Contents (Elt F) → (⟨S1x80, .f32⟩ : BufTy).Contents (Elt F)) (((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)) x0 ((constant S_ .f32 0x00000000#32) : (⟨S_, .f32⟩ : BufTy).Contents (Elt F)))) (((broadcastInDim S1x80 ![] bcast_S_S1x80) : (⟨S_, .f32⟩ : BufTy).Contents (Elt F) → (⟨S1x80, .f32⟩ : BufTy).Contents (Elt F)) ((constant S_ .f32 0x47C35000#32) : (⟨S_, .f32⟩ : BufTy).Contents (Elt F))))))

/-- Stage 14: the value named by 7 buffers of the program, as a function of the named values it is computed from. -/
def rf14  : (⟨S_, .f32⟩ : BufTy).Contents (Elt F) :=
  ((subf : (⟨S_, .f32⟩ : BufTy).Contents (Elt F) → (⟨S_, .f32⟩ : BufTy).Contents (Elt F) → (⟨S_, .f32⟩ : BufTy).Contents (Elt F)) ((constant S_ .f32 0x47C35000#32) : (⟨S_, .f32⟩ : BufTy).Contents (Elt F)) (((sitofp .f32) : (⟨S_, .i32⟩ : BufTy).Contents (Elt F) → (⟨S_, .f32⟩ : BufTy).Contents (Elt F)) ((constantI S_ 32 0#32) : (⟨S_, .i32⟩ : BufTy).Contents (Elt F))))

/-- Stage 15: the value named by 7 buffers of the program, as a function of the named values it is computed from. -/
def rf15 (x0 : (⟨S100000x80, .f32⟩ : BufTy).Contents (Elt F)) (x1 : (⟨S_, .f32⟩ : BufTy).Contents (Elt F)) : (⟨S80, .f32⟩ : BufTy).Contents (Elt F) :=
  ((Host.divf : (⟨S80, .f32⟩ : BufTy).Contents (Elt F) → (⟨S80, .f32⟩ : BufTy).Contents (Elt F) → (⟨S80, .f32⟩ : BufTy).Contents (Elt F)) (((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)) ((mulf : (⟨S100000x80, .f32⟩ : BufTy).Contents (Elt F) → (⟨S100000x80, .f32⟩ : BufTy).Contents (Elt F) → (⟨S100000x80, .f32⟩ : BufTy).Contents (Elt F)) x0 x0) ((constant S_ .f32 0x00000000#32) : (⟨S_, .f32⟩ : BufTy).Contents (Elt F))) (((broadcastInDim S80 ![] bcast_S_S80) : (⟨S_, .f32⟩ : BufTy).Contents (Elt F) → (⟨S80, .f32⟩ : BufTy).Contents (Elt F)) x1))

/-- Stage 16: the value named by 7 buffers of the program, as a function of the named values it is computed from. -/
def rf16 (x0 : (⟨S_, .f32⟩ : BufTy).Contents (Elt F)) (x1 : (⟨S80, .f32⟩ : BufTy).Contents (Elt F)) : (⟨S80, .f32⟩ : BufTy).Contents (Elt F) :=
  (((fun p a b => select (broadcastInDim S80 ![] bcast_S_S80 p) a b) : (⟨S_, .i1⟩ : BufTy).Contents (Elt F) → (⟨S80, .f32⟩ : BufTy).Contents (Elt F) → (⟨S80, .f32⟩ : BufTy).Contents (Elt F) → (⟨S80, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) x0 ((constant S_ .f32 0x00000000#32) : (⟨S_, .f32⟩ : BufTy).Contents (Elt F))) x1 (((broadcastInDim S80 ![] bcast_S_S80) : (⟨S_, .f32⟩ : BufTy).Contents (Elt F) → (⟨S80, .f32⟩ : BufTy).Contents (Elt F)) ((id : (⟨S_, .f32⟩ : BufTy).Contents (Elt F) → (⟨S_, .f32⟩ : BufTy).Contents (Elt F)) ((constant S_ .f32 0x7FC00000#32) : (⟨S_, .f32⟩ : BufTy).Contents (Elt F)))))

/-- Stage 17: the value named by 7 buffers of the program, as a function of the named values it is computed from. -/
def rf17 (x0 : (⟨S80, .f32⟩ : BufTy).Contents (Elt F)) (x1 : (⟨S100000x80, .f32⟩ : BufTy).Contents (Elt F)) (x2 : (⟨S80, .f32⟩ : BufTy).Contents (Elt F)) (x3 : (⟨S80, .f32⟩ : BufTy).Contents (Elt F)) (x4 : (⟨S80, .f32⟩ : BufTy).Contents (Elt F)) : (⟨S100000x80, .f32⟩ : BufTy).Contents (Elt F) :=
  ((maximumf : (⟨S100000x80, .f32⟩ : BufTy).Contents (Elt F) → (⟨S100000x80, .f32⟩ : BufTy).Contents (Elt F) → (⟨S100000x80, .f32⟩ : BufTy).Contents (Elt F)) ((addf : (⟨S100000x80, .f32⟩ : BufTy).Contents (Elt F) → (⟨S100000x80, .f32⟩ : BufTy).Contents (Elt F) → (⟨S100000x80, .f32⟩ : BufTy).Contents (Elt F)) ((mulf : (⟨S100000x80, .f32⟩ : BufTy).Contents (Elt F) → (⟨S100000x80, .f32⟩ : BufTy).Contents (Elt F) → (⟨S100000x80, .f32⟩ : BufTy).Contents (Elt F)) ((mulf : (⟨S100000x80, .f32⟩ : BufTy).Contents (Elt F) → (⟨S100000x80, .f32⟩ : BufTy).Contents (Elt F) → (⟨S100000x80, .f32⟩ : BufTy).Contents (Elt F)) ((broadcastInDim S100000x80 ![0, 1] bcast_S1x80_S100000x80_0_1 : (⟨S1x80, .f32⟩ : BufTy).Contents (Elt F) → (⟨S100000x80, .f32⟩ : BufTy).Contents (Elt F)) ((broadcastInDim S1x80 ![1] bcast_S80_S1x80_1 : (⟨S80, .f32⟩ : BufTy).Contents (Elt F) → (⟨S1x80, .f32⟩ : BufTy).Contents (Elt F)) x0)) ((subf : (⟨S100000x80, .f32⟩ : BufTy).Contents (Elt F) → (⟨S100000x80, .f32⟩ : BufTy).Contents (Elt F) → (⟨S100000x80, .f32⟩ : BufTy).Contents (Elt F)) x1 ((broadcastInDim S100000x80 ![0, 1] bcast_S1x80_S100000x80_0_1 : (⟨S1x80, .f32⟩ : BufTy).Contents (Elt F) → (⟨S100000x80, .f32⟩ : BufTy).Contents (Elt F)) ((broadcastInDim S1x80 ![1] bcast_S80_S1x80_1 : (⟨S80, .f32⟩ : BufTy).Contents (Elt F) → (⟨S1x80, .f32⟩ : BufTy).Contents (Elt F)) x2)))) ((broadcastInDim S100000x80 ![0, 1] bcast_S1x80_S100000x80_0_1 : (⟨S1x80, .f32⟩ : BufTy).Contents (Elt F) → (⟨S100000x80, .f32⟩ : BufTy).Contents (Elt F)) ((broadcastInDim S1x80 ![1] bcast_S80_S1x80_1 : (⟨S80, .f32⟩ : BufTy).Contents (Elt F) → (⟨S1x80, .f32⟩ : BufTy).Contents (Elt F)) ((Host.rsqrt : (⟨S80, .f32⟩ : BufTy).Contents (Elt F) → (⟨S80, .f32⟩ : BufTy).Contents (Elt F)) ((addf : (⟨S80, .f32⟩ : BufTy).Contents (Elt F) → (⟨S80, .f32⟩ : BufTy).Contents (Elt F) → (⟨S80, .f32⟩ : BufTy).Contents (Elt F)) x3 ((broadcastInDim S80 ![] bcast_S_S80 : (⟨S_, .f32⟩ : BufTy).Contents (Elt F) → (⟨S80, .f32⟩ : BufTy).Contents (Elt F)) ((constant S_ .f32 0x3727C5AC#32) : (⟨S_, .f32⟩ : BufTy).Contents (Elt F)))))))) ((broadcastInDim S100000x80 ![0, 1] bcast_S1x80_S100000x80_0_1 : (⟨S1x80, .f32⟩ : BufTy).Contents (Elt F) → (⟨S100000x80, .f32⟩ : BufTy).Contents (Elt F)) ((broadcastInDim S1x80 ![1] bcast_S80_S1x80_1 : (⟨S80, .f32⟩ : BufTy).Contents (Elt F) → (⟨S1x80, .f32⟩ : BufTy).Contents (Elt F)) x4))) (((broadcastInDim S100000x80 ![] bcast_S_S100000x80) : (⟨S_, .f32⟩ : BufTy).Contents (Elt F) → (⟨S100000x80, .f32⟩ : BufTy).Contents (Elt F)) ((constant S_ .f32 0x00000000#32) : (⟨S_, .f32⟩ : BufTy).Contents (Elt F))))

/-- Stage 18: the value named by 7 buffers of the program, as a function of the named values it is computed from. -/
def rf18 (x0 : (⟨S100000x80, .f32⟩ : BufTy).Contents (Elt F)) (x1 : (⟨S100000x80, .f32⟩ : BufTy).Contents (Elt F)) (x2 : (⟨S80, .f32⟩ : BufTy).Contents (Elt F)) : (⟨S100000x80, .f32⟩ : BufTy).Contents (Elt F) :=
  ((addf : (⟨S100000x80, .f32⟩ : BufTy).Contents (Elt F) → (⟨S100000x80, .f32⟩ : BufTy).Contents (Elt F) → (⟨S100000x80, .f32⟩ : BufTy).Contents (Elt F)) x0 ((addf : (⟨S100000x80, .f32⟩ : BufTy).Contents (Elt F) → (⟨S100000x80, .f32⟩ : BufTy).Contents (Elt F) → (⟨S100000x80, .f32⟩ : BufTy).Contents (Elt F)) x1 ((broadcastInDim S100000x80 ![0, 1] bcast_S1x80_S100000x80_0_1 : (⟨S1x80, .f32⟩ : BufTy).Contents (Elt F) → (⟨S100000x80, .f32⟩ : BufTy).Contents (Elt F)) ((broadcastInDim S1x80 ![1] bcast_S80_S1x80_1 : (⟨S80, .f32⟩ : BufTy).Contents (Elt F) → (⟨S1x80, .f32⟩ : BufTy).Contents (Elt F)) x2))))

/-- Stage 19: the value named by 2 buffers of the program, as a function of the named values it is computed from. -/
def rf19 (x0 : (⟨S6x80x80, .f32⟩ : BufTy).Contents (Elt F)) : (⟨S80x80, .f32⟩ : BufTy).Contents (Elt F) :=
  (shapeCast S80x80 (((extractStridedSlice S1x80x80 ![0, 0, 0] · slices_S6x80x80_S1x80x80_0_0_0) : (⟨S6x80x80, .f32⟩ : BufTy).Contents (Elt F) → (⟨S1x80x80, .f32⟩ : BufTy).Contents (Elt F)) x0) shapeCasts_S1x80x80_S80x80)

/-- Stage 20: the value named by 2 buffers of the program, as a function of the named values it is computed from. -/
def rf20 (x0 : (⟨S6x80, .f32⟩ : BufTy).Contents (Elt F)) : (⟨S80, .f32⟩ : BufTy).Contents (Elt F) :=
  (shapeCast S80 (((extractStridedSlice S1x80 ![0, 0] · slices_S6x80_S1x80_0_0) : (⟨S6x80, .f32⟩ : BufTy).Contents (Elt F) → (⟨S1x80, .f32⟩ : BufTy).Contents (Elt F)) x0) shapeCasts_S1x80_S80)

/-- Stage 21: the value named by 12 buffers of the program, as a function of the named values it is computed from. -/
def rf21 (x0 : (⟨S100000x80, .f32⟩ : BufTy).Contents (Elt F)) (x1 : (⟨S80x80, .f32⟩ : BufTy).Contents (Elt F)) : (⟨S100000x80, .f32⟩ : BufTy).Contents (Elt F) :=
  (((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)) x0 x1)

/-- Stage 22: the value named by 2 buffers of the program, as a function of the named values it is computed from. -/
def rf22 (x0 : (⟨S7x80, .f32⟩ : BufTy).Contents (Elt F)) : (⟨S80, .f32⟩ : BufTy).Contents (Elt F) :=
  (shapeCast S80 (((extractStridedSlice S1x80 ![1, 0] · slices_S7x80_S1x80_1_0) : (⟨S7x80, .f32⟩ : BufTy).Contents (Elt F) → (⟨S1x80, .f32⟩ : BufTy).Contents (Elt F)) x0) shapeCasts_S1x80_S80)

/-- Stage 23: the value named by 2 buffers of the program, as a function of the named values it is computed from. -/
def rf23 (x0 : (⟨S6x80x80, .f32⟩ : BufTy).Contents (Elt F)) : (⟨S80x80, .f32⟩ : BufTy).Contents (Elt F) :=
  (shapeCast S80x80 (((extractStridedSlice S1x80x80 ![1, 0, 0] · slices_S6x80x80_S1x80x80_1_0_0) : (⟨S6x80x80, .f32⟩ : BufTy).Contents (Elt F) → (⟨S1x80x80, .f32⟩ : BufTy).Contents (Elt F)) x0) shapeCasts_S1x80x80_S80x80)

/-- Stage 24: the value named by 2 buffers of the program, as a function of the named values it is computed from. -/
def rf24 (x0 : (⟨S6x80, .f32⟩ : BufTy).Contents (Elt F)) : (⟨S80, .f32⟩ : BufTy).Contents (Elt F) :=
  (shapeCast S80 (((extractStridedSlice S1x80 ![1, 0] · slices_S6x80_S1x80_1_0) : (⟨S6x80, .f32⟩ : BufTy).Contents (Elt F) → (⟨S1x80, .f32⟩ : BufTy).Contents (Elt F)) x0) shapeCasts_S1x80_S80)

/-- Stage 25: the value named by 2 buffers of the program, as a function of the named values it is computed from. -/
def rf25 (x0 : (⟨S7x80, .f32⟩ : BufTy).Contents (Elt F)) : (⟨S80, .f32⟩ : BufTy).Contents (Elt F) :=
  (shapeCast S80 (((extractStridedSlice S1x80 ![2, 0] · slices_S7x80_S1x80_2_0) : (⟨S7x80, .f32⟩ : BufTy).Contents (Elt F) → (⟨S1x80, .f32⟩ : BufTy).Contents (Elt F)) x0) shapeCasts_S1x80_S80)

/-- Stage 26: the value named by 2 buffers of the program, as a function of the named values it is computed from. -/
def rf26 (x0 : (⟨S6x80x80, .f32⟩ : BufTy).Contents (Elt F)) : (⟨S80x80, .f32⟩ : BufTy).Contents (Elt F) :=
  (shapeCast S80x80 (((extractStridedSlice S1x80x80 ![2, 0, 0] · slices_S6x80x80_S1x80x80_2_0_0) : (⟨S6x80x80, .f32⟩ : BufTy).Contents (Elt F) → (⟨S1x80x80, .f32⟩ : BufTy).Contents (Elt F)) x0) shapeCasts_S1x80x80_S80x80)

/-- Stage 27: the value named by 2 buffers of the program, as a function of the named values it is computed from. -/
def rf27 (x0 : (⟨S6x80, .f32⟩ : BufTy).Contents (Elt F)) : (⟨S80, .f32⟩ : BufTy).Contents (Elt F) :=
  (shapeCast S80 (((extractStridedSlice S1x80 ![2, 0] · slices_S6x80_S1x80_2_0) : (⟨S6x80, .f32⟩ : BufTy).Contents (Elt F) → (⟨S1x80, .f32⟩ : BufTy).Contents (Elt F)) x0) shapeCasts_S1x80_S80)

/-- Stage 28: the value named by 2 buffers of the program, as a function of the named values it is computed from. -/
def rf28 (x0 : (⟨S7x80, .f32⟩ : BufTy).Contents (Elt F)) : (⟨S80, .f32⟩ : BufTy).Contents (Elt F) :=
  (shapeCast S80 (((extractStridedSlice S1x80 ![3, 0] · slices_S7x80_S1x80_3_0) : (⟨S7x80, .f32⟩ : BufTy).Contents (Elt F) → (⟨S1x80, .f32⟩ : BufTy).Contents (Elt F)) x0) shapeCasts_S1x80_S80)

/-- Stage 29: the value named by 2 buffers of the program, as a function of the named values it is computed from. -/
def rf29 (x0 : (⟨S6x80x80, .f32⟩ : BufTy).Contents (Elt F)) : (⟨S80x80, .f32⟩ : BufTy).Contents (Elt F) :=
  (shapeCast S80x80 (((extractStridedSlice S1x80x80 ![3, 0, 0] · slices_S6x80x80_S1x80x80_3_0_0) : (⟨S6x80x80, .f32⟩ : BufTy).Contents (Elt F) → (⟨S1x80x80, .f32⟩ : BufTy).Contents (Elt F)) x0) shapeCasts_S1x80x80_S80x80)

/-- Stage 30: the value named by 2 buffers of the program, as a function of the named values it is computed from. -/
def rf30 (x0 : (⟨S6x80, .f32⟩ : BufTy).Contents (Elt F)) : (⟨S80, .f32⟩ : BufTy).Contents (Elt F) :=
  (shapeCast S80 (((extractStridedSlice S1x80 ![3, 0] · slices_S6x80_S1x80_3_0) : (⟨S6x80, .f32⟩ : BufTy).Contents (Elt F) → (⟨S1x80, .f32⟩ : BufTy).Contents (Elt F)) x0) shapeCasts_S1x80_S80)

/-- Stage 31: the value named by 2 buffers of the program, as a function of the named values it is computed from. -/
def rf31 (x0 : (⟨S7x80, .f32⟩ : BufTy).Contents (Elt F)) : (⟨S80, .f32⟩ : BufTy).Contents (Elt F) :=
  (shapeCast S80 (((extractStridedSlice S1x80 ![4, 0] · slices_S7x80_S1x80_4_0) : (⟨S7x80, .f32⟩ : BufTy).Contents (Elt F) → (⟨S1x80, .f32⟩ : BufTy).Contents (Elt F)) x0) shapeCasts_S1x80_S80)

/-- Stage 32: the value named by 2 buffers of the program, as a function of the named values it is computed from. -/
def rf32 (x0 : (⟨S6x80x80, .f32⟩ : BufTy).Contents (Elt F)) : (⟨S80x80, .f32⟩ : BufTy).Contents (Elt F) :=
  (shapeCast S80x80 (((extractStridedSlice S1x80x80 ![4, 0, 0] · slices_S6x80x80_S1x80x80_4_0_0) : (⟨S6x80x80, .f32⟩ : BufTy).Contents (Elt F) → (⟨S1x80x80, .f32⟩ : BufTy).Contents (Elt F)) x0) shapeCasts_S1x80x80_S80x80)

/-- Stage 33: the value named by 2 buffers of the program, as a function of the named values it is computed from. -/
def rf33 (x0 : (⟨S6x80, .f32⟩ : BufTy).Contents (Elt F)) : (⟨S80, .f32⟩ : BufTy).Contents (Elt F) :=
  (shapeCast S80 (((extractStridedSlice S1x80 ![4, 0] · slices_S6x80_S1x80_4_0) : (⟨S6x80, .f32⟩ : BufTy).Contents (Elt F) → (⟨S1x80, .f32⟩ : BufTy).Contents (Elt F)) x0) shapeCasts_S1x80_S80)

/-- Stage 34: the value named by 2 buffers of the program, as a function of the named values it is computed from. -/
def rf34 (x0 : (⟨S7x80, .f32⟩ : BufTy).Contents (Elt F)) : (⟨S80, .f32⟩ : BufTy).Contents (Elt F) :=
  (shapeCast S80 (((extractStridedSlice S1x80 ![5, 0] · slices_S7x80_S1x80_5_0) : (⟨S7x80, .f32⟩ : BufTy).Contents (Elt F) → (⟨S1x80, .f32⟩ : BufTy).Contents (Elt F)) x0) shapeCasts_S1x80_S80)

/-- Stage 35: the value named by 2 buffers of the program, as a function of the named values it is computed from. -/
def rf35 (x0 : (⟨S6x80x80, .f32⟩ : BufTy).Contents (Elt F)) : (⟨S80x80, .f32⟩ : BufTy).Contents (Elt F) :=
  (shapeCast S80x80 (((extractStridedSlice S1x80x80 ![5, 0, 0] · slices_S6x80x80_S1x80x80_5_0_0) : (⟨S6x80x80, .f32⟩ : BufTy).Contents (Elt F) → (⟨S1x80x80, .f32⟩ : BufTy).Contents (Elt F)) x0) shapeCasts_S1x80x80_S80x80)

/-- Stage 36: the value named by 2 buffers of the program, as a function of the named values it is computed from. -/
def rf36 (x0 : (⟨S6x80, .f32⟩ : BufTy).Contents (Elt F)) : (⟨S80, .f32⟩ : BufTy).Contents (Elt F) :=
  (shapeCast S80 (((extractStridedSlice S1x80 ![5, 0] · slices_S6x80_S1x80_5_0) : (⟨S6x80, .f32⟩ : BufTy).Contents (Elt F) → (⟨S1x80, .f32⟩ : BufTy).Contents (Elt F)) x0) shapeCasts_S1x80_S80)

/-- Stage 37: the value named by 2 buffers of the program, as a function of the named values it is computed from. -/
def rf37 (x0 : (⟨S7x80, .f32⟩ : BufTy).Contents (Elt F)) : (⟨S80, .f32⟩ : BufTy).Contents (Elt F) :=
  (shapeCast S80 (((extractStridedSlice S1x80 ![6, 0] · slices_S7x80_S1x80_6_0) : (⟨S7x80, .f32⟩ : BufTy).Contents (Elt F) → (⟨S1x80, .f32⟩ : BufTy).Contents (Elt F)) x0) shapeCasts_S1x80_S80)

/-- Stage 38: the value named by 1 buffer of the program, as a function of the named values it is computed from. -/
def rf38 (x0 : (⟨S100000x80, .f32⟩ : BufTy).Contents (Elt F)) (x1 : (⟨S100000x96, .f32⟩ : BufTy).Contents (Elt F)) : (⟨S100000x176, .f32⟩ : BufTy).Contents (Elt F) :=
  (((fun a b => concatenate S100000x176 1 [⟨S100000x80, a⟩, ⟨S100000x96, b⟩] concatenates_S100000x80_S100000x96_S100000x176_d1) : (⟨S100000x80, .f32⟩ : BufTy).Contents (Elt F) → (⟨S100000x96, .f32⟩ : BufTy).Contents (Elt F) → (⟨S100000x176, .f32⟩ : BufTy).Contents (Elt F)) x0 x1)

/-- Stage 39: the value named by 1 buffer of the program, as a function of the named values it is computed from. -/
def rf39 (x0 : (⟨S100000x176, .f32⟩ : BufTy).Contents (Elt F)) (x1 : (⟨S176x48, .f32⟩ : BufTy).Contents (Elt F)) : (⟨S100000x48, .f32⟩ : BufTy).Contents (Elt F) :=
  (((fun l r => Host.dotGeneral dot_S100000x176_S176x48_S100000x48_1_0_0_1_n_n none l r) : (⟨S100000x176, .f32⟩ : BufTy).Contents (Elt F) → (⟨S176x48, .f32⟩ : BufTy).Contents (Elt F) → (⟨S100000x48, .f32⟩ : BufTy).Contents (Elt F)) x0 x1)

/-- Stage 40: the value named by 1 buffer of the program, as a function of the named values it is computed from. -/
def rf40 (x0 : (⟨S1000000, .i32⟩ : BufTy).Contents (Elt F)) (x1 : (⟨S1000000, .i32⟩ : BufTy).Contents (Elt F)) (x2 : (⟨S100000x48, .f32⟩ : BufTy).Contents (Elt F)) (x3 : (⟨S20000, .f32⟩ : BufTy).Contents (Elt F)) (x4 : (⟨S100000, .f32⟩ : BufTy).Contents (Elt F)) : (⟨S100000x48, .f32⟩ : BufTy).Contents (Elt F) :=
  ((mulf : (⟨S100000x48, .f32⟩ : BufTy).Contents (Elt F) → (⟨S100000x48, .f32⟩ : BufTy).Contents (Elt F) → (⟨S100000x48, .f32⟩ : BufTy).Contents (Elt F)) (((fun x i u => Host.scatterAdd scatter_S100000x48_S1000000x1_S1000000x48_1_0_0_1 x i u) : (⟨S100000x48, .f32⟩ : BufTy).Contents (Elt F) → (⟨S1000000x1, .i32⟩ : BufTy).Contents (Elt F) → (⟨S1000000x48, .f32⟩ : BufTy).Contents (Elt F) → (⟨S100000x48, .f32⟩ : BufTy).Contents (Elt F)) ((broadcastInDim S100000x48 ![] bcast_S_S100000x48 : (⟨S_, .f32⟩ : BufTy).Contents (Elt F) → (⟨S100000x48, .f32⟩ : BufTy).Contents (Elt F)) ((constant S_ .f32 0x00000000#32) : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) x0) (((fun x i => Host.gather gather_S20000x48_S1000000x1_S1000000x48_1_0_n_n_0_1_148 x i) : (⟨S20000x48, .f32⟩ : BufTy).Contents (Elt F) → (⟨S1000000x1, .i32⟩ : BufTy).Contents (Elt F) → (⟨S1000000x48, .f32⟩ : BufTy).Contents (Elt F)) ((mulf : (⟨S20000x48, .f32⟩ : BufTy).Contents (Elt F) → (⟨S20000x48, .f32⟩ : BufTy).Contents (Elt F) → (⟨S20000x48, .f32⟩ : BufTy).Contents (Elt F)) (((fun x i u => Host.scatterAdd scatter_S20000x48_S1000000x1_S1000000x48_1_0_0_1 x i u) : (⟨S20000x48, .f32⟩ : BufTy).Contents (Elt F) → (⟨S1000000x1, .i32⟩ : BufTy).Contents (Elt F) → (⟨S1000000x48, .f32⟩ : BufTy).Contents (Elt F) → (⟨S20000x48, .f32⟩ : BufTy).Contents (Elt F)) ((broadcastInDim S20000x48 ![] bcast_S_S20000x48 : (⟨S_, .f32⟩ : BufTy).Contents (Elt F) → (⟨S20000x48, .f32⟩ : BufTy).Contents (Elt F)) ((constant S_ .f32 0x00000000#32) : (⟨S_, .f32⟩ : BufTy).Contents (Elt F))) ((broadcastInDim S1000000x1 ![0] bcast_S1000000_S1000000x1_0 : (⟨S1000000, .i32⟩ : BufTy).Contents (Elt F) → (⟨S1000000x1, .i32⟩ : BufTy).Contents (Elt F)) x1) (((fun x i => Host.gather gather_S100000x48_S1000000x1_S1000000x48_1_0_n_n_0_1_148 x i) : (⟨S100000x48, .f32⟩ : BufTy).Contents (Elt F) → (⟨S1000000x1, .i32⟩ : BufTy).Contents (Elt F) → (⟨S1000000x48, .f32⟩ : BufTy).Contents (Elt F)) x2 ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) x0 ((broadcastInDim S1000000 ![] bcast_S_S1000000 : (⟨S_, .i32⟩ : BufTy).Contents (Elt F) → (⟨S1000000, .i32⟩ : BufTy).Contents (Elt F)) ((constantI S_ 32 0#32) : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) x0 ((broadcastInDim S1000000 ![] bcast_S_S1000000 : (⟨S_, .i32⟩ : BufTy).Contents (Elt F) → (⟨S1000000, .i32⟩ : BufTy).Contents (Elt F)) ((constantI S_ 32 100000#32) : (⟨S_, .i32⟩ : BufTy).Contents (Elt F)))) x0)))) ((broadcastInDim S20000x48 ![0, 1] bcast_S20000x1_S20000x48_0_1 : (⟨S20000x1, .f32⟩ : BufTy).Contents (Elt F) → (⟨S20000x48, .f32⟩ : BufTy).Contents (Elt F)) ((broadcastInDim S20000x1 ![0] bcast_S20000_S20000x1_0 : (⟨S20000, .f32⟩ : BufTy).Contents (Elt F) → (⟨S20000x1, .f32⟩ : BufTy).Contents (Elt F)) x3))) ((broadcastInDim S1000000x1 ![0] bcast_S1000000_S1000000x1_0 : (⟨S1000000, .i32⟩ : BufTy).Contents (Elt F) → (⟨S1000000x1, .i32⟩ : BufTy).Contents (Elt F)) ((select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)) ((cmpi .slt : (⟨S1000000, .i32⟩ : BufTy).Contents (Elt F) → (⟨S1000000, .i32⟩ : BufTy).Contents (Elt F) → (⟨S1000000, .i1⟩ : BufTy).Contents (Elt F)) x1 ((broadcastInDim S1000000 ![] bcast_S_S1000000 : (⟨S_, .i32⟩ : BufTy).Contents (Elt F) → (⟨S1000000, .i32⟩ : BufTy).Contents (Elt F)) ((constantI S_ 32 0#32) : (⟨S_, .i32⟩ : BufTy).Contents (Elt F)))) ((addi : (⟨S1000000, .i32⟩ : BufTy).Contents (Elt F) → (⟨S1000000, .i32⟩ : BufTy).Contents (Elt F) → (⟨S1000000, .i32⟩ : BufTy).Contents (Elt F)) x1 ((broadcastInDim S1000000 ![] bcast_S_S1000000 : (⟨S_, .i32⟩ : BufTy).Contents (Elt F) → (⟨S1000000, .i32⟩ : BufTy).Contents (Elt F)) ((constantI S_ 32 20000#32) : (⟨S_, .i32⟩ : BufTy).Contents (Elt F)))) x1)))) ((broadcastInDim S100000x48 ![0, 1] bcast_S100000x1_S100000x48_0_1 : (⟨S100000x1, .f32⟩ : BufTy).Contents (Elt F) → (⟨S100000x48, .f32⟩ : BufTy).Contents (Elt F)) ((broadcastInDim S100000x1 ![0] bcast_S100000_S100000x1_0 : (⟨S100000, .f32⟩ : BufTy).Contents (Elt F) → (⟨S100000x1, .f32⟩ : BufTy).Contents (Elt F)) x4)))

end Cert.ReferenceIdeal.Val

end
-- ==== Proof.RVals.lean ====
/- Every named value of the program as a function of the fourteen argument arrays: each is its stage function applied to the named values before it. -/
import proofs.«127768_j9405978378358_1_alg».proof.Proof.RFun
import proofs.«127768_j9405978378358_1_alg».proof.Proof.SpecInputs

set_option maxRecDepth 16384

noncomputable section

namespace Cert.ReferenceIdeal.Val

open Cert.ReferenceIdeal Cert.ReferenceIdeal.Gen Idealize.ShloMosaic Idealize.ShloMosaic.TcCoe Idealize.ShloMosaic.StableHlo

def rv_main_v1 (a : Cert.Spec.Inputs Ideal) : (⟨S1000000, .i32⟩ : BufTy).Contents (Elt Ideal) :=
  rf1 (F := Ideal) a.a1

def rv_main_v3 (a : Cert.Spec.Inputs Ideal) : (⟨S1000000, .i32⟩ : BufTy).Contents (Elt Ideal) :=
  rf2 (F := Ideal) a.a1

def rv_main_v4 (a : Cert.Spec.Inputs Ideal) : (⟨S1000000, .f32⟩ : BufTy).Contents (Elt Ideal) :=
  rf3 (F := Ideal)

def rv_main_v7 (a : Cert.Spec.Inputs Ideal) : (⟨S100000, .f32⟩ : BufTy).Contents (Elt Ideal) :=
  rf4 (F := Ideal) (rv_main_v1 a) (rv_main_v4 a)

def rv_main_v10 (a : Cert.Spec.Inputs Ideal) : (⟨S20000, .f32⟩ : BufTy).Contents (Elt Ideal) :=
  rf5 (F := Ideal) (rv_main_v3 a) (rv_main_v4 a)

def rv_main_v15 (a : Cert.Spec.Inputs Ideal) : (⟨S100000, .f32⟩ : BufTy).Contents (Elt Ideal) :=
  rf6 (F := Ideal) (rv_main_v7 a)

def rv_main_v20 (a : Cert.Spec.Inputs Ideal) : (⟨S20000, .f32⟩ : BufTy).Contents (Elt Ideal) :=
  rf7 (F := Ideal) (rv_main_v10 a)

def rv_main_v21 (a : Cert.Spec.Inputs Ideal) : (⟨S100000x80, .f32⟩ : BufTy).Contents (Elt Ideal) :=
  rf8 (F := Ideal) a.a0 a.a2

def rv_main_v47 (a : Cert.Spec.Inputs Ideal) : (⟨S100000x80, .f32⟩ : BufTy).Contents (Elt Ideal) :=
  rf9 (F := Ideal) (rv_main_v1 a) (rv_main_v3 a) (rv_main_v21 a) (rv_main_v20 a) (rv_main_v15 a)

def rv_main_v50 (a : Cert.Spec.Inputs Ideal) : (⟨S100000x80, .f32⟩ : BufTy).Contents (Elt Ideal) :=
  rf10 (F := Ideal) (rv_main_v47 a) a.a3

def rv_main_v52 (a : Cert.Spec.Inputs Ideal) : (⟨S80, .f32⟩ : BufTy).Contents (Elt Ideal) :=
  rf11 (F := Ideal) a.a10

def rv_main_v54 (a : Cert.Spec.Inputs Ideal) : (⟨S80, .f32⟩ : BufTy).Contents (Elt Ideal) :=
  rf11 (F := Ideal) a.a11

def rv_main_v57 (a : Cert.Spec.Inputs Ideal) : (⟨S80, .f32⟩ : BufTy).Contents (Elt Ideal) :=
  rf12 (F := Ideal) (rv_main_v50 a)

def rv_main_call2_v5 (a : Cert.Spec.Inputs Ideal) : (⟨S100000x80, .f32⟩ : BufTy).Contents (Elt Ideal) :=
  rf13 (F := Ideal) (rv_main_v50 a)

def rv_main_call2_v8 (a : Cert.Spec.Inputs Ideal) : (⟨S_, .f32⟩ : BufTy).Contents (Elt Ideal) :=
  rf14 (F := Ideal)

def rv_main_call2_v11 (a : Cert.Spec.Inputs Ideal) : (⟨S80, .f32⟩ : BufTy).Contents (Elt Ideal) :=
  rf15 (F := Ideal) (rv_main_call2_v5 a) (rv_main_call2_v8 a)

def rv_main_v58 (a : Cert.Spec.Inputs Ideal) : (⟨S80, .f32⟩ : BufTy).Contents (Elt Ideal) :=
  rf16 (F := Ideal) (rv_main_call2_v8 a) (rv_main_call2_v11 a)

def rv_main_v74 (a : Cert.Spec.Inputs Ideal) : (⟨S100000x80, .f32⟩ : BufTy).Contents (Elt Ideal) :=
  rf17 (F := Ideal) (rv_main_v52 a) (rv_main_v50 a) (rv_main_v57 a) (rv_main_v58 a) (rv_main_v54 a)

def rv_main_v75 (a : Cert.Spec.Inputs Ideal) : (⟨S100000x80, .f32⟩ : BufTy).Contents (Elt Ideal) :=
  rf8 (F := Ideal) a.a0 a.a4

def rv_main_v101 (a : Cert.Spec.Inputs Ideal) : (⟨S100000x80, .f32⟩ : BufTy).Contents (Elt Ideal) :=
  rf9 (F := Ideal) (rv_main_v1 a) (rv_main_v3 a) (rv_main_v75 a) (rv_main_v20 a) (rv_main_v15 a)

def rv_main_v105 (a : Cert.Spec.Inputs Ideal) : (⟨S100000x80, .f32⟩ : BufTy).Contents (Elt Ideal) :=
  rf18 (F := Ideal) (rv_main_v74 a) (rv_main_v101 a) a.a5

def rv_main_v107 (a : Cert.Spec.Inputs Ideal) : (⟨S80x80, .f32⟩ : BufTy).Contents (Elt Ideal) :=
  rf19 (F := Ideal) a.a6

def rv_main_v109 (a : Cert.Spec.Inputs Ideal) : (⟨S80, .f32⟩ : BufTy).Contents (Elt Ideal) :=
  rf20 (F := Ideal) a.a7

def rv_main_v110 (a : Cert.Spec.Inputs Ideal) : (⟨S100000x80, .f32⟩ : BufTy).Contents (Elt Ideal) :=
  rf21 (F := Ideal) (rv_main_v105 a) (rv_main_v107 a)

def rv_main_v136 (a : Cert.Spec.Inputs Ideal) : (⟨S100000x80, .f32⟩ : BufTy).Contents (Elt Ideal) :=
  rf9 (F := Ideal) (rv_main_v1 a) (rv_main_v3 a) (rv_main_v110 a) (rv_main_v20 a) (rv_main_v15 a)

def rv_main_v139 (a : Cert.Spec.Inputs Ideal) : (⟨S100000x80, .f32⟩ : BufTy).Contents (Elt Ideal) :=
  rf10 (F := Ideal) (rv_main_v136 a) (rv_main_v109 a)

def rv_main_v141 (a : Cert.Spec.Inputs Ideal) : (⟨S80, .f32⟩ : BufTy).Contents (Elt Ideal) :=
  rf22 (F := Ideal) a.a10

def rv_main_v143 (a : Cert.Spec.Inputs Ideal) : (⟨S80, .f32⟩ : BufTy).Contents (Elt Ideal) :=
  rf22 (F := Ideal) a.a11

def rv_main_v146 (a : Cert.Spec.Inputs Ideal) : (⟨S80, .f32⟩ : BufTy).Contents (Elt Ideal) :=
  rf12 (F := Ideal) (rv_main_v139 a)

def rv_main_call4_v5 (a : Cert.Spec.Inputs Ideal) : (⟨S100000x80, .f32⟩ : BufTy).Contents (Elt Ideal) :=
  rf13 (F := Ideal) (rv_main_v139 a)

def rv_main_call4_v8 (a : Cert.Spec.Inputs Ideal) : (⟨S_, .f32⟩ : BufTy).Contents (Elt Ideal) :=
  rf14 (F := Ideal)

def rv_main_call4_v11 (a : Cert.Spec.Inputs Ideal) : (⟨S80, .f32⟩ : BufTy).Contents (Elt Ideal) :=
  rf15 (F := Ideal) (rv_main_call4_v5 a) (rv_main_call4_v8 a)

def rv_main_v147 (a : Cert.Spec.Inputs Ideal) : (⟨S80, .f32⟩ : BufTy).Contents (Elt Ideal) :=
  rf16 (F := Ideal) (rv_main_call4_v8 a) (rv_main_call4_v11 a)

def rv_main_v163 (a : Cert.Spec.Inputs Ideal) : (⟨S100000x80, .f32⟩ : BufTy).Contents (Elt Ideal) :=
  rf17 (F := Ideal) (rv_main_v141 a) (rv_main_v139 a) (rv_main_v146 a) (rv_main_v147 a) (rv_main_v143 a)

def rv_main_v165 (a : Cert.Spec.Inputs Ideal) : (⟨S80x80, .f32⟩ : BufTy).Contents (Elt Ideal) :=
  rf19 (F := Ideal) a.a8

def rv_main_v167 (a : Cert.Spec.Inputs Ideal) : (⟨S80, .f32⟩ : BufTy).Contents (Elt Ideal) :=
  rf20 (F := Ideal) a.a9

def rv_main_v168 (a : Cert.Spec.Inputs Ideal) : (⟨S100000x80, .f32⟩ : BufTy).Contents (Elt Ideal) :=
  rf21 (F := Ideal) (rv_main_v105 a) (rv_main_v165 a)

def rv_main_v194 (a : Cert.Spec.Inputs Ideal) : (⟨S100000x80, .f32⟩ : BufTy).Contents (Elt Ideal) :=
  rf9 (F := Ideal) (rv_main_v1 a) (rv_main_v3 a) (rv_main_v168 a) (rv_main_v20 a) (rv_main_v15 a)

def rv_main_v198 (a : Cert.Spec.Inputs Ideal) : (⟨S100000x80, .f32⟩ : BufTy).Contents (Elt Ideal) :=
  rf18 (F := Ideal) (rv_main_v163 a) (rv_main_v194 a) (rv_main_v167 a)

def rv_main_v200 (a : Cert.Spec.Inputs Ideal) : (⟨S80x80, .f32⟩ : BufTy).Contents (Elt Ideal) :=
  rf23 (F := Ideal) a.a6

def rv_main_v202 (a : Cert.Spec.Inputs Ideal) : (⟨S80, .f32⟩ : BufTy).Contents (Elt Ideal) :=
  rf24 (F := Ideal) a.a7

def rv_main_v203 (a : Cert.Spec.Inputs Ideal) : (⟨S100000x80, .f32⟩ : BufTy).Contents (Elt Ideal) :=
  rf21 (F := Ideal) (rv_main_v198 a) (rv_main_v200 a)

def rv_main_v229 (a : Cert.Spec.Inputs Ideal) : (⟨S100000x80, .f32⟩ : BufTy).Contents (Elt Ideal) :=
  rf9 (F := Ideal) (rv_main_v1 a) (rv_main_v3 a) (rv_main_v203 a) (rv_main_v20 a) (rv_main_v15 a)

def rv_main_v232 (a : Cert.Spec.Inputs Ideal) : (⟨S100000x80, .f32⟩ : BufTy).Contents (Elt Ideal) :=
  rf10 (F := Ideal) (rv_main_v229 a) (rv_main_v202 a)

def rv_main_v234 (a : Cert.Spec.Inputs Ideal) : (⟨S80, .f32⟩ : BufTy).Contents (Elt Ideal) :=
  rf25 (F := Ideal) a.a10

def rv_main_v236 (a : Cert.Spec.Inputs Ideal) : (⟨S80, .f32⟩ : BufTy).Contents (Elt Ideal) :=
  rf25 (F := Ideal) a.a11

def rv_main_v239 (a : Cert.Spec.Inputs Ideal) : (⟨S80, .f32⟩ : BufTy).Contents (Elt Ideal) :=
  rf12 (F := Ideal) (rv_main_v232 a)

def rv_main_call6_v5 (a : Cert.Spec.Inputs Ideal) : (⟨S100000x80, .f32⟩ : BufTy).Contents (Elt Ideal) :=
  rf13 (F := Ideal) (rv_main_v232 a)

def rv_main_call6_v8 (a : Cert.Spec.Inputs Ideal) : (⟨S_, .f32⟩ : BufTy).Contents (Elt Ideal) :=
  rf14 (F := Ideal)

def rv_main_call6_v11 (a : Cert.Spec.Inputs Ideal) : (⟨S80, .f32⟩ : BufTy).Contents (Elt Ideal) :=
  rf15 (F := Ideal) (rv_main_call6_v5 a) (rv_main_call6_v8 a)

def rv_main_v240 (a : Cert.Spec.Inputs Ideal) : (⟨S80, .f32⟩ : BufTy).Contents (Elt Ideal) :=
  rf16 (F := Ideal) (rv_main_call6_v8 a) (rv_main_call6_v11 a)

def rv_main_v256 (a : Cert.Spec.Inputs Ideal) : (⟨S100000x80, .f32⟩ : BufTy).Contents (Elt Ideal) :=
  rf17 (F := Ideal) (rv_main_v234 a) (rv_main_v232 a) (rv_main_v239 a) (rv_main_v240 a) (rv_main_v236 a)

def rv_main_v258 (a : Cert.Spec.Inputs Ideal) : (⟨S80x80, .f32⟩ : BufTy).Contents (Elt Ideal) :=
  rf23 (F := Ideal) a.a8

def rv_main_v260 (a : Cert.Spec.Inputs Ideal) : (⟨S80, .f32⟩ : BufTy).Contents (Elt Ideal) :=
  rf24 (F := Ideal) a.a9

def rv_main_v261 (a : Cert.Spec.Inputs Ideal) : (⟨S100000x80, .f32⟩ : BufTy).Contents (Elt Ideal) :=
  rf21 (F := Ideal) (rv_main_v198 a) (rv_main_v258 a)

def rv_main_v287 (a : Cert.Spec.Inputs Ideal) : (⟨S100000x80, .f32⟩ : BufTy).Contents (Elt Ideal) :=
  rf9 (F := Ideal) (rv_main_v1 a) (rv_main_v3 a) (rv_main_v261 a) (rv_main_v20 a) (rv_main_v15 a)

def rv_main_v291 (a : Cert.Spec.Inputs Ideal) : (⟨S100000x80, .f32⟩ : BufTy).Contents (Elt Ideal) :=
  rf18 (F := Ideal) (rv_main_v256 a) (rv_main_v287 a) (rv_main_v260 a)

def rv_main_v293 (a : Cert.Spec.Inputs Ideal) : (⟨S80x80, .f32⟩ : BufTy).Contents (Elt Ideal) :=
  rf26 (F := Ideal) a.a6

def rv_main_v295 (a : Cert.Spec.Inputs Ideal) : (⟨S80, .f32⟩ : BufTy).Contents (Elt Ideal) :=
  rf27 (F := Ideal) a.a7

def rv_main_v296 (a : Cert.Spec.Inputs Ideal) : (⟨S100000x80, .f32⟩ : BufTy).Contents (Elt Ideal) :=
  rf21 (F := Ideal) (rv_main_v291 a) (rv_main_v293 a)

def rv_main_v322 (a : Cert.Spec.Inputs Ideal) : (⟨S100000x80, .f32⟩ : BufTy).Contents (Elt Ideal) :=
  rf9 (F := Ideal) (rv_main_v1 a) (rv_main_v3 a) (rv_main_v296 a) (rv_main_v20 a) (rv_main_v15 a)

def rv_main_v325 (a : Cert.Spec.Inputs Ideal) : (⟨S100000x80, .f32⟩ : BufTy).Contents (Elt Ideal) :=
  rf10 (F := Ideal) (rv_main_v322 a) (rv_main_v295 a)

def rv_main_v327 (a : Cert.Spec.Inputs Ideal) : (⟨S80, .f32⟩ : BufTy).Contents (Elt Ideal) :=
  rf28 (F := Ideal) a.a10

def rv_main_v329 (a : Cert.Spec.Inputs Ideal) : (⟨S80, .f32⟩ : BufTy).Contents (Elt Ideal) :=
  rf28 (F := Ideal) a.a11

def rv_main_v332 (a : Cert.Spec.Inputs Ideal) : (⟨S80, .f32⟩ : BufTy).Contents (Elt Ideal) :=
  rf12 (F := Ideal) (rv_main_v325 a)

def rv_main_call8_v5 (a : Cert.Spec.Inputs Ideal) : (⟨S100000x80, .f32⟩ : BufTy).Contents (Elt Ideal) :=
  rf13 (F := Ideal) (rv_main_v325 a)

def rv_main_call8_v8 (a : Cert.Spec.Inputs Ideal) : (⟨S_, .f32⟩ : BufTy).Contents (Elt Ideal) :=
  rf14 (F := Ideal)

def rv_main_call8_v11 (a : Cert.Spec.Inputs Ideal) : (⟨S80, .f32⟩ : BufTy).Contents (Elt Ideal) :=
  rf15 (F := Ideal) (rv_main_call8_v5 a) (rv_main_call8_v8 a)

def rv_main_v333 (a : Cert.Spec.Inputs Ideal) : (⟨S80, .f32⟩ : BufTy).Contents (Elt Ideal) :=
  rf16 (F := Ideal) (rv_main_call8_v8 a) (rv_main_call8_v11 a)

def rv_main_v349 (a : Cert.Spec.Inputs Ideal) : (⟨S100000x80, .f32⟩ : BufTy).Contents (Elt Ideal) :=
  rf17 (F := Ideal) (rv_main_v327 a) (rv_main_v325 a) (rv_main_v332 a) (rv_main_v333 a) (rv_main_v329 a)

def rv_main_v351 (a : Cert.Spec.Inputs Ideal) : (⟨S80x80, .f32⟩ : BufTy).Contents (Elt Ideal) :=
  rf26 (F := Ideal) a.a8

def rv_main_v353 (a : Cert.Spec.Inputs Ideal) : (⟨S80, .f32⟩ : BufTy).Contents (Elt Ideal) :=
  rf27 (F := Ideal) a.a9

def rv_main_v354 (a : Cert.Spec.Inputs Ideal) : (⟨S100000x80, .f32⟩ : BufTy).Contents (Elt Ideal) :=
  rf21 (F := Ideal) (rv_main_v291 a) (rv_main_v351 a)

def rv_main_v380 (a : Cert.Spec.Inputs Ideal) : (⟨S100000x80, .f32⟩ : BufTy).Contents (Elt Ideal) :=
  rf9 (F := Ideal) (rv_main_v1 a) (rv_main_v3 a) (rv_main_v354 a) (rv_main_v20 a) (rv_main_v15 a)

def rv_main_v384 (a : Cert.Spec.Inputs Ideal) : (⟨S100000x80, .f32⟩ : BufTy).Contents (Elt Ideal) :=
  rf18 (F := Ideal) (rv_main_v349 a) (rv_main_v380 a) (rv_main_v353 a)

def rv_main_v386 (a : Cert.Spec.Inputs Ideal) : (⟨S80x80, .f32⟩ : BufTy).Contents (Elt Ideal) :=
  rf29 (F := Ideal) a.a6

def rv_main_v388 (a : Cert.Spec.Inputs Ideal) : (⟨S80, .f32⟩ : BufTy).Contents (Elt Ideal) :=
  rf30 (F := Ideal) a.a7

def rv_main_v389 (a : Cert.Spec.Inputs Ideal) : (⟨S100000x80, .f32⟩ : BufTy).Contents (Elt Ideal) :=
  rf21 (F := Ideal) (rv_main_v384 a) (rv_main_v386 a)

def rv_main_v415 (a : Cert.Spec.Inputs Ideal) : (⟨S100000x80, .f32⟩ : BufTy).Contents (Elt Ideal) :=
  rf9 (F := Ideal) (rv_main_v1 a) (rv_main_v3 a) (rv_main_v389 a) (rv_main_v20 a) (rv_main_v15 a)

def rv_main_v418 (a : Cert.Spec.Inputs Ideal) : (⟨S100000x80, .f32⟩ : BufTy).Contents (Elt Ideal) :=
  rf10 (F := Ideal) (rv_main_v415 a) (rv_main_v388 a)

def rv_main_v420 (a : Cert.Spec.Inputs Ideal) : (⟨S80, .f32⟩ : BufTy).Contents (Elt Ideal) :=
  rf31 (F := Ideal) a.a10

def rv_main_v422 (a : Cert.Spec.Inputs Ideal) : (⟨S80, .f32⟩ : BufTy).Contents (Elt Ideal) :=
  rf31 (F := Ideal) a.a11

def rv_main_v425 (a : Cert.Spec.Inputs Ideal) : (⟨S80, .f32⟩ : BufTy).Contents (Elt Ideal) :=
  rf12 (F := Ideal) (rv_main_v418 a)

def rv_main_call10_v5 (a : Cert.Spec.Inputs Ideal) : (⟨S100000x80, .f32⟩ : BufTy).Contents (Elt Ideal) :=
  rf13 (F := Ideal) (rv_main_v418 a)

def rv_main_call10_v8 (a : Cert.Spec.Inputs Ideal) : (⟨S_, .f32⟩ : BufTy).Contents (Elt Ideal) :=
  rf14 (F := Ideal)

def rv_main_call10_v11 (a : Cert.Spec.Inputs Ideal) : (⟨S80, .f32⟩ : BufTy).Contents (Elt Ideal) :=
  rf15 (F := Ideal) (rv_main_call10_v5 a) (rv_main_call10_v8 a)

def rv_main_v426 (a : Cert.Spec.Inputs Ideal) : (⟨S80, .f32⟩ : BufTy).Contents (Elt Ideal) :=
  rf16 (F := Ideal) (rv_main_call10_v8 a) (rv_main_call10_v11 a)

def rv_main_v442 (a : Cert.Spec.Inputs Ideal) : (⟨S100000x80, .f32⟩ : BufTy).Contents (Elt Ideal) :=
  rf17 (F := Ideal) (rv_main_v420 a) (rv_main_v418 a) (rv_main_v425 a) (rv_main_v426 a) (rv_main_v422 a)

def rv_main_v444 (a : Cert.Spec.Inputs Ideal) : (⟨S80x80, .f32⟩ : BufTy).Contents (Elt Ideal) :=
  rf29 (F := Ideal) a.a8

def rv_main_v446 (a : Cert.Spec.Inputs Ideal) : (⟨S80, .f32⟩ : BufTy).Contents (Elt Ideal) :=
  rf30 (F := Ideal) a.a9

def rv_main_v447 (a : Cert.Spec.Inputs Ideal) : (⟨S100000x80, .f32⟩ : BufTy).Contents (Elt Ideal) :=
  rf21 (F := Ideal) (rv_main_v384 a) (rv_main_v444 a)

def rv_main_v473 (a : Cert.Spec.Inputs Ideal) : (⟨S100000x80, .f32⟩ : BufTy).Contents (Elt Ideal) :=
  rf9 (F := Ideal) (rv_main_v1 a) (rv_main_v3 a) (rv_main_v447 a) (rv_main_v20 a) (rv_main_v15 a)

def rv_main_v477 (a : Cert.Spec.Inputs Ideal) : (⟨S100000x80, .f32⟩ : BufTy).Contents (Elt Ideal) :=
  rf18 (F := Ideal) (rv_main_v442 a) (rv_main_v473 a) (rv_main_v446 a)

def rv_main_v479 (a : Cert.Spec.Inputs Ideal) : (⟨S80x80, .f32⟩ : BufTy).Contents (Elt Ideal) :=
  rf32 (F := Ideal) a.a6

def rv_main_v481 (a : Cert.Spec.Inputs Ideal) : (⟨S80, .f32⟩ : BufTy).Contents (Elt Ideal) :=
  rf33 (F := Ideal) a.a7

def rv_main_v482 (a : Cert.Spec.Inputs Ideal) : (⟨S100000x80, .f32⟩ : BufTy).Contents (Elt Ideal) :=
  rf21 (F := Ideal) (rv_main_v477 a) (rv_main_v479 a)

def rv_main_v508 (a : Cert.Spec.Inputs Ideal) : (⟨S100000x80, .f32⟩ : BufTy).Contents (Elt Ideal) :=
  rf9 (F := Ideal) (rv_main_v1 a) (rv_main_v3 a) (rv_main_v482 a) (rv_main_v20 a) (rv_main_v15 a)

def rv_main_v511 (a : Cert.Spec.Inputs Ideal) : (⟨S100000x80, .f32⟩ : BufTy).Contents (Elt Ideal) :=
  rf10 (F := Ideal) (rv_main_v508 a) (rv_main_v481 a)

def rv_main_v513 (a : Cert.Spec.Inputs Ideal) : (⟨S80, .f32⟩ : BufTy).Contents (Elt Ideal) :=
  rf34 (F := Ideal) a.a10

def rv_main_v515 (a : Cert.Spec.Inputs Ideal) : (⟨S80, .f32⟩ : BufTy).Contents (Elt Ideal) :=
  rf34 (F := Ideal) a.a11

def rv_main_v518 (a : Cert.Spec.Inputs Ideal) : (⟨S80, .f32⟩ : BufTy).Contents (Elt Ideal) :=
  rf12 (F := Ideal) (rv_main_v511 a)

def rv_main_call12_v5 (a : Cert.Spec.Inputs Ideal) : (⟨S100000x80, .f32⟩ : BufTy).Contents (Elt Ideal) :=
  rf13 (F := Ideal) (rv_main_v511 a)

def rv_main_call12_v8 (a : Cert.Spec.Inputs Ideal) : (⟨S_, .f32⟩ : BufTy).Contents (Elt Ideal) :=
  rf14 (F := Ideal)

def rv_main_call12_v11 (a : Cert.Spec.Inputs Ideal) : (⟨S80, .f32⟩ : BufTy).Contents (Elt Ideal) :=
  rf15 (F := Ideal) (rv_main_call12_v5 a) (rv_main_call12_v8 a)

def rv_main_v519 (a : Cert.Spec.Inputs Ideal) : (⟨S80, .f32⟩ : BufTy).Contents (Elt Ideal) :=
  rf16 (F := Ideal) (rv_main_call12_v8 a) (rv_main_call12_v11 a)

def rv_main_v535 (a : Cert.Spec.Inputs Ideal) : (⟨S100000x80, .f32⟩ : BufTy).Contents (Elt Ideal) :=
  rf17 (F := Ideal) (rv_main_v513 a) (rv_main_v511 a) (rv_main_v518 a) (rv_main_v519 a) (rv_main_v515 a)

def rv_main_v537 (a : Cert.Spec.Inputs Ideal) : (⟨S80x80, .f32⟩ : BufTy).Contents (Elt Ideal) :=
  rf32 (F := Ideal) a.a8

def rv_main_v539 (a : Cert.Spec.Inputs Ideal) : (⟨S80, .f32⟩ : BufTy).Contents (Elt Ideal) :=
  rf33 (F := Ideal) a.a9

def rv_main_v540 (a : Cert.Spec.Inputs Ideal) : (⟨S100000x80, .f32⟩ : BufTy).Contents (Elt Ideal) :=
  rf21 (F := Ideal) (rv_main_v477 a) (rv_main_v537 a)

def rv_main_v566 (a : Cert.Spec.Inputs Ideal) : (⟨S100000x80, .f32⟩ : BufTy).Contents (Elt Ideal) :=
  rf9 (F := Ideal) (rv_main_v1 a) (rv_main_v3 a) (rv_main_v540 a) (rv_main_v20 a) (rv_main_v15 a)

def rv_main_v570 (a : Cert.Spec.Inputs Ideal) : (⟨S100000x80, .f32⟩ : BufTy).Contents (Elt Ideal) :=
  rf18 (F := Ideal) (rv_main_v535 a) (rv_main_v566 a) (rv_main_v539 a)

def rv_main_v572 (a : Cert.Spec.Inputs Ideal) : (⟨S80x80, .f32⟩ : BufTy).Contents (Elt Ideal) :=
  rf35 (F := Ideal) a.a6

def rv_main_v574 (a : Cert.Spec.Inputs Ideal) : (⟨S80, .f32⟩ : BufTy).Contents (Elt Ideal) :=
  rf36 (F := Ideal) a.a7

def rv_main_v575 (a : Cert.Spec.Inputs Ideal) : (⟨S100000x80, .f32⟩ : BufTy).Contents (Elt Ideal) :=
  rf21 (F := Ideal) (rv_main_v570 a) (rv_main_v572 a)

def rv_main_v601 (a : Cert.Spec.Inputs Ideal) : (⟨S100000x80, .f32⟩ : BufTy).Contents (Elt Ideal) :=
  rf9 (F := Ideal) (rv_main_v1 a) (rv_main_v3 a) (rv_main_v575 a) (rv_main_v20 a) (rv_main_v15 a)

def rv_main_v604 (a : Cert.Spec.Inputs Ideal) : (⟨S100000x80, .f32⟩ : BufTy).Contents (Elt Ideal) :=
  rf10 (F := Ideal) (rv_main_v601 a) (rv_main_v574 a)

def rv_main_v606 (a : Cert.Spec.Inputs Ideal) : (⟨S80, .f32⟩ : BufTy).Contents (Elt Ideal) :=
  rf37 (F := Ideal) a.a10

def rv_main_v608 (a : Cert.Spec.Inputs Ideal) : (⟨S80, .f32⟩ : BufTy).Contents (Elt Ideal) :=
  rf37 (F := Ideal) a.a11

def rv_main_v611 (a : Cert.Spec.Inputs Ideal) : (⟨S80, .f32⟩ : BufTy).Contents (Elt Ideal) :=
  rf12 (F := Ideal) (rv_main_v604 a)

def rv_main_call14_v5 (a : Cert.Spec.Inputs Ideal) : (⟨S100000x80, .f32⟩ : BufTy).Contents (Elt Ideal) :=
  rf13 (F := Ideal) (rv_main_v604 a)

def rv_main_call14_v8 (a : Cert.Spec.Inputs Ideal) : (⟨S_, .f32⟩ : BufTy).Contents (Elt Ideal) :=
  rf14 (F := Ideal)

def rv_main_call14_v11 (a : Cert.Spec.Inputs Ideal) : (⟨S80, .f32⟩ : BufTy).Contents (Elt Ideal) :=
  rf15 (F := Ideal) (rv_main_call14_v5 a) (rv_main_call14_v8 a)

def rv_main_v612 (a : Cert.Spec.Inputs Ideal) : (⟨S80, .f32⟩ : BufTy).Contents (Elt Ideal) :=
  rf16 (F := Ideal) (rv_main_call14_v8 a) (rv_main_call14_v11 a)

def rv_main_v628 (a : Cert.Spec.Inputs Ideal) : (⟨S100000x80, .f32⟩ : BufTy).Contents (Elt Ideal) :=
  rf17 (F := Ideal) (rv_main_v606 a) (rv_main_v604 a) (rv_main_v611 a) (rv_main_v612 a) (rv_main_v608 a)

def rv_main_v630 (a : Cert.Spec.Inputs Ideal) : (⟨S80x80, .f32⟩ : BufTy).Contents (Elt Ideal) :=
  rf35 (F := Ideal) a.a8

def rv_main_v632 (a : Cert.Spec.Inputs Ideal) : (⟨S80, .f32⟩ : BufTy).Contents (Elt Ideal) :=
  rf36 (F := Ideal) a.a9

def rv_main_v633 (a : Cert.Spec.Inputs Ideal) : (⟨S100000x80, .f32⟩ : BufTy).Contents (Elt Ideal) :=
  rf21 (F := Ideal) (rv_main_v570 a) (rv_main_v630 a)

def rv_main_v659 (a : Cert.Spec.Inputs Ideal) : (⟨S100000x80, .f32⟩ : BufTy).Contents (Elt Ideal) :=
  rf9 (F := Ideal) (rv_main_v1 a) (rv_main_v3 a) (rv_main_v633 a) (rv_main_v20 a) (rv_main_v15 a)

def rv_main_v663 (a : Cert.Spec.Inputs Ideal) : (⟨S100000x80, .f32⟩ : BufTy).Contents (Elt Ideal) :=
  rf18 (F := Ideal) (rv_main_v628 a) (rv_main_v659 a) (rv_main_v632 a)

def rv_main_v664 (a : Cert.Spec.Inputs Ideal) : (⟨S100000x176, .f32⟩ : BufTy).Contents (Elt Ideal) :=
  rf38 (F := Ideal) (rv_main_v663 a) a.a0

def rv_main_v665 (a : Cert.Spec.Inputs Ideal) : (⟨S100000x48, .f32⟩ : BufTy).Contents (Elt Ideal) :=
  rf39 (F := Ideal) (rv_main_v664 a) a.a12

def rv_main_v691 (a : Cert.Spec.Inputs Ideal) : (⟨S100000x48, .f32⟩ : BufTy).Contents (Elt Ideal) :=
  rf40 (F := Ideal) (rv_main_v1 a) (rv_main_v3 a) (rv_main_v665 a) (rv_main_v20 a) (rv_main_v15 a)

def rv_main_v694 (a : Cert.Spec.Inputs Ideal) : (⟨S100000x48, .f32⟩ : BufTy).Contents (Elt Ideal) :=
  rf0 (F := Ideal) (rv_main_v691 a) a.a13

end Cert.ReferenceIdeal.Val

end
-- ==== Proof.RPieces.lean ====
/- The reference program's operations cut into consecutive pieces. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- Operations 1 to 34 of the program. -/
abbrev pc0 : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_cst (constant S_ .f32 0x3F800000#32),
    StableHlo.unary main_cst main_v4 (broadcastInDim S1000000 ![] bcast_S_S1000000 : (⟨S_, .f32⟩ : BufTy).Contents (Elt F) → (⟨S1000000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v1 main_v6 (broadcastInDim S1000000x1 ![0] bcast_S1000000_S1000000x1_0 : (⟨S1000000, .i32⟩ : BufTy).Contents (Elt F) → (⟨S1000000x1, .i32⟩ : BufTy).Contents (Elt F)),
    StableHlo.ternary main_v5 main_v6 main_v4 main_v7 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_1 (constant S_ .f32 0x00000000#32),
    StableHlo.unary main_cst_1 main_v8 (broadcastInDim S20000 ![] bcast_S_S20000 : (⟨S_, .f32⟩ : BufTy).Contents (Elt F) → (⟨S20000, .f32⟩ : BufTy).Contents (Elt F)),
    StableHlo.unary main_v3 main_v9 (broadcastInDim S1000000x1 ![0] bcast_S1000000_S1000000x1_0 : (⟨S1000000, .i32⟩ : BufTy).Contents (Elt F) → (⟨S1000000x1, .i32⟩ : BufTy).Contents (Elt F)),
    StableHlo.ternary main_v8 main_v9 main_v4 main_v10 ((fun x i u => Host.scatterAdd scatter_S20000_S1000000x1_S1000000_n_0_0_1 x i u) : (⟨S20000, .f32⟩ : BufTy).Contents (Elt F) → (⟨S1000000x1, .i32⟩ : BufTy).Contents (Elt F) → (⟨S1000000, .f32⟩ : BufTy).Contents (Elt F) → (⟨S20000, .f32⟩ : BufTy).Contents (Elt F)),
    StableHlo.nullary main_cst_2 (constant S_ .f32 0x00000000#32),
    StableHlo.unary main_cst_2 main_v11 (broadcastInDim S100000 ![] bcast_S_S100000 : (⟨S_, .f32⟩ : BufTy).Contents (Elt F) → (⟨S100000, .f32⟩ : BufTy).Contents (Elt F)),
    StableHlo.binary main_v7 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.unary main_cst_3 main_v13 (broadcastInDim S100000 ![] bcast_S_S100000 : (⟨S_, .f32⟩ : BufTy).Contents (Elt F) → (⟨S100000, .f32⟩ : BufTy).Contents (Elt F)),
    StableHlo.binary main_v13 main_v7 main_v14 (Host.divf : (⟨S100000, .f32⟩ : BufTy).Contents (Elt F) → (⟨S100000, .f32⟩ : BufTy).Contents (Elt F) → (⟨S100000, .f32⟩ : BufTy).Contents (Elt F)),
    StableHlo.nullary main_cst_4 (constant S_ .f32 0x00000000#32),
    StableHlo.TRef.unary (.of main_cst_4 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v12 : StableHlo.TRef sig ⟨S100000, .i1⟩) (.of main_v14 : StableHlo.TRef sig ⟨S100000, .f32⟩) (.of main_call0_v1 : StableHlo.TRef sig ⟨S100000, .f32⟩) (.of main_v15 : StableHlo.TRef sig ⟨S100000, .f32⟩) select,
    StableHlo.nullary main_cst_5 (constant S_ .f32 0x00000000#32),
    StableHlo.unary main_cst_5 main_v16 (broadcastInDim S20000 ![] bcast_S_S20000 : (⟨S_, .f32⟩ : BufTy).Contents (Elt F) → (⟨S20000, .f32⟩ : BufTy).Contents (Elt F)),
    StableHlo.binary main_v10 main_v16 main_v17 (cmpf .ogt : (⟨S20000, .f32⟩ : BufTy).Contents (Elt F) → (⟨S20000, .f32⟩ : BufTy).Contents (Elt F) → (⟨S20000, .i1⟩ : BufTy).Contents (Elt F)),
    StableHlo.nullary main_cst_6 (constant S_ .f32 0x3F800000#32),
    StableHlo.unary main_cst_6 main_v18 (broadcastInDim S20000 ![] bcast_S_S20000 : (⟨S_, .f32⟩ : BufTy).Contents (Elt F) → (⟨S20000, .f32⟩ : BufTy).Contents (Elt F)),
    StableHlo.binary main_v18 main_v10 main_v19 (Host.divf : (⟨S20000, .f32⟩ : BufTy).Contents (Elt F) → (⟨S20000, .f32⟩ : BufTy).Contents (Elt F) → (⟨S20000, .f32⟩ : BufTy).Contents (Elt F)),
    StableHlo.nullary main_cst_7 (constant S_ .f32 0x00000000#32),
    StableHlo.TRef.unary (.of main_cst_7 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S20000, .f32⟩) (broadcastInDim S20000 ![] bcast_S_S20000),
    StableHlo.TRef.ternary (.of main_v17 : StableHlo.TRef sig ⟨S20000, .i1⟩) (.of main_v19 : StableHlo.TRef sig ⟨S20000, .f32⟩) (.of main_call1_v1 : StableHlo.TRef sig ⟨S20000, .f32⟩) (.of main_v20 : StableHlo.TRef sig ⟨S20000, .f32⟩) select ]

/-- Operations 35 to 64 of the program. -/
abbrev pc1 : List (HloOp τ sig (Elt F)) :=
  [ StableHlo.binary main_arg0 main_arg2 main_v21 ((fun l r => Host.dotGeneral dot_S100000x96_S96x80_S100000x80_1_0_0_1_n_n none l r) : (⟨S100000x96, .f32⟩ : BufTy).Contents (Elt F) → (⟨S96x80, .f32⟩ : BufTy).Contents (Elt F) → (⟨S100000x80, .f32⟩ : BufTy).Contents (Elt F)),
    StableHlo.nullary main_c (constantI S_ 32 0#32),
    StableHlo.unary main_c main_v22 (broadcastInDim S1000000 ![] bcast_S_S1000000 : (⟨S_, .i32⟩ : BufTy).Contents (Elt F) → (⟨S1000000, .i32⟩ : BufTy).Contents (Elt F)),
    StableHlo.binary main_v1 main_v22 main_v23 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 100000#32),
    StableHlo.unary main_c_8 main_v24 (broadcastInDim S1000000 ![] bcast_S_S1000000 : (⟨S_, .i32⟩ : BufTy).Contents (Elt F) → (⟨S1000000, .i32⟩ : BufTy).Contents (Elt F)),
    StableHlo.binary main_v1 main_v24 main_v25 (addi : (⟨S1000000, .i32⟩ : BufTy).Contents (Elt F) → (⟨S1000000, .i32⟩ : BufTy).Contents (Elt F) → (⟨S1000000, .i32⟩ : BufTy).Contents (Elt F)),
    StableHlo.ternary main_v23 main_v25 main_v1 main_v26 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v26 main_v27 (broadcastInDim S1000000x1 ![0] bcast_S1000000_S1000000x1_0 : (⟨S1000000, .i32⟩ : BufTy).Contents (Elt F) → (⟨S1000000x1, .i32⟩ : BufTy).Contents (Elt F)),
    StableHlo.binary main_v21 main_v27 main_v28 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_9 (constant S_ .f32 0x00000000#32),
    StableHlo.unary main_cst_9 main_v29 (broadcastInDim S20000x80 ![] bcast_S_S20000x80 : (⟨S_, .f32⟩ : BufTy).Contents (Elt F) → (⟨S20000x80, .f32⟩ : BufTy).Contents (Elt F)),
    StableHlo.unary main_v3 main_v30 (broadcastInDim S1000000x1 ![0] bcast_S1000000_S1000000x1_0 : (⟨S1000000, .i32⟩ : BufTy).Contents (Elt F) → (⟨S1000000x1, .i32⟩ : BufTy).Contents (Elt F)),
    StableHlo.ternary main_v29 main_v30 main_v28 main_v31 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v32 (broadcastInDim S20000x1 ![0] bcast_S20000_S20000x1_0 : (⟨S20000, .f32⟩ : BufTy).Contents (Elt F) → (⟨S20000x1, .f32⟩ : BufTy).Contents (Elt F)),
    StableHlo.unary main_v32 main_v33 (broadcastInDim S20000x80 ![0, 1] bcast_S20000x1_S20000x80_0_1 : (⟨S20000x1, .f32⟩ : BufTy).Contents (Elt F) → (⟨S20000x80, .f32⟩ : BufTy).Contents (Elt F)),
    StableHlo.binary main_v31 main_v33 main_v34 (mulf : (⟨S20000x80, .f32⟩ : BufTy).Contents (Elt F) → (⟨S20000x80, .f32⟩ : BufTy).Contents (Elt F) → (⟨S20000x80, .f32⟩ : BufTy).Contents (Elt F)),
    StableHlo.nullary main_c_10 (constantI S_ 32 0#32),
    StableHlo.unary main_c_10 main_v35 (broadcastInDim S1000000 ![] bcast_S_S1000000 : (⟨S_, .i32⟩ : BufTy).Contents (Elt F) → (⟨S1000000, .i32⟩ : BufTy).Contents (Elt F)),
    StableHlo.binary main_v3 main_v35 main_v36 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 20000#32),
    StableHlo.unary main_c_11 main_v37 (broadcastInDim S1000000 ![] bcast_S_S1000000 : (⟨S_, .i32⟩ : BufTy).Contents (Elt F) → (⟨S1000000, .i32⟩ : BufTy).Contents (Elt F)),
    StableHlo.binary main_v3 main_v37 main_v38 (addi : (⟨S1000000, .i32⟩ : BufTy).Contents (Elt F) → (⟨S1000000, .i32⟩ : BufTy).Contents (Elt F) → (⟨S1000000, .i32⟩ : BufTy).Contents (Elt F)),
    StableHlo.ternary main_v36 main_v38 main_v3 main_v39 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v39 main_v40 (broadcastInDim S1000000x1 ![0] bcast_S1000000_S1000000x1_0 : (⟨S1000000, .i32⟩ : BufTy).Contents (Elt F) → (⟨S1000000x1, .i32⟩ : BufTy).Contents (Elt F)),
    StableHlo.binary main_v34 main_v40 main_v41 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_12 (constant S_ .f32 0x00000000#32),
    StableHlo.unary main_cst_12 main_v42 (broadcastInDim S100000x80 ![] bcast_S_S100000x80 : (⟨S_, .f32⟩ : BufTy).Contents (Elt F) → (⟨S100000x80, .f32⟩ : BufTy).Contents (Elt F)),
    StableHlo.unary main_v1 main_v43 (broadcastInDim S1000000x1 ![0] bcast_S1000000_S1000000x1_0 : (⟨S1000000, .i32⟩ : BufTy).Contents (Elt F) → (⟨S1000000x1, .i32⟩ : BufTy).Contents (Elt F)),
    StableHlo.ternary main_v42 main_v43 main_v41 main_v44 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)) ]

/-- Operations 65 to 70 of the program. -/
abbrev pc2 : List (HloOp τ sig (Elt F)) :=
  [ StableHlo.unary main_v15 main_v45 (broadcastInDim S100000x1 ![0] bcast_S100000_S100000x1_0 : (⟨S100000, .f32⟩ : BufTy).Contents (Elt F) → (⟨S100000x1, .f32⟩ : BufTy).Contents (Elt F)),
    StableHlo.unary main_v45 main_v46 (broadcastInDim S100000x80 ![0, 1] bcast_S100000x1_S100000x80_0_1 : (⟨S100000x1, .f32⟩ : BufTy).Contents (Elt F) → (⟨S100000x80, .f32⟩ : BufTy).Contents (Elt F)),
    StableHlo.binary main_v44 main_v46 main_v47 (mulf : (⟨S100000x80, .f32⟩ : BufTy).Contents (Elt F) → (⟨S100000x80, .f32⟩ : BufTy).Contents (Elt F) → (⟨S100000x80, .f32⟩ : BufTy).Contents (Elt F)),
    StableHlo.unary main_arg3 main_v48 (broadcastInDim S1x80 ![1] bcast_S80_S1x80_1 : (⟨S80, .f32⟩ : BufTy).Contents (Elt F) → (⟨S1x80, .f32⟩ : BufTy).Contents (Elt F)),
    StableHlo.unary main_v48 main_v49 (broadcastInDim S100000x80 ![0, 1] bcast_S1x80_S100000x80_0_1 : (⟨S1x80, .f32⟩ : BufTy).Contents (Elt F) → (⟨S100000x80, .f32⟩ : BufTy).Contents (Elt F)),
    StableHlo.binary main_v47 main_v49 main_v50 (addf : (⟨S100000x80, .f32⟩ : BufTy).Contents (Elt F) → (⟨S100000x80, .f32⟩ : BufTy).Contents (Elt F) → (⟨S100000x80, .f32⟩ : BufTy).Contents (Elt F)) ]

/-- Operations 71 to 121 of the program. -/
abbrev pc3 : List (HloOp τ sig (Elt F)) :=
  [ StableHlo.unary main_arg10 main_v51 ((extractStridedSlice S1x80 ![0, 0] · slices_S7x80_S1x80_0_0) : (⟨S7x80, .f32⟩ : BufTy).Contents (Elt F) → (⟨S1x80, .f32⟩ : BufTy).Contents (Elt F)),
    StableHlo.reshape main_v51 main_v52 rfl shapeCasts_S1x80_S80,
    StableHlo.unary main_arg11 main_v53 ((extractStridedSlice S1x80 ![0, 0] · slices_S7x80_S1x80_0_0) : (⟨S7x80, .f32⟩ : BufTy).Contents (Elt F) → (⟨S1x80, .f32⟩ : BufTy).Contents (Elt F)),
    StableHlo.reshape main_v53 main_v54 rfl shapeCasts_S1x80_S80,
    StableHlo.nullary main_cst_13 (constant S_ .f32 0x00000000#32),
    StableHlo.binary main_v50 main_cst_13 main_v55 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_14 (constant S_ .f32 0x47C35000#32),
    StableHlo.unary main_cst_14 main_v56 (broadcastInDim S80 ![] bcast_S_S80 : (⟨S_, .f32⟩ : BufTy).Contents (Elt F) → (⟨S80, .f32⟩ : BufTy).Contents (Elt F)),
    StableHlo.binary main_v55 main_v56 main_v57 (Host.divf : (⟨S80, .f32⟩ : BufTy).Contents (Elt F) → (⟨S80, .f32⟩ : BufTy).Contents (Elt F) → (⟨S80, .f32⟩ : BufTy).Contents (Elt F)),
    StableHlo.nullary main_c_15 (constantI S_ 32 0#32),
    StableHlo.TRef.nullary (.of main_call2_cst : StableHlo.TRef sig ⟨S_, .f32⟩) (constant S_ .f32 0x00000000#32),
    StableHlo.TRef.binary (.of main_v50 : StableHlo.TRef sig ⟨S100000x80, .f32⟩) (.of main_call2_cst : StableHlo.TRef sig ⟨S_, .f32⟩) (.of main_call2_v0 : StableHlo.TRef sig ⟨S80, .f32⟩) (fun x v => Host.reduceAdd x v reducesTo_S100000x80_S80_d0 h_S_),
    StableHlo.TRef.unary (.of main_call2_v0 : StableHlo.TRef sig ⟨S80, .f32⟩) (.of main_call2_v1 : StableHlo.TRef sig ⟨S1x80, .f32⟩) (broadcastInDim S1x80 ![1] bcast_S80_S1x80_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x80, .f32⟩) (broadcastInDim S1x80 ![] bcast_S_S1x80),
    StableHlo.TRef.binary (.of main_call2_v1 : StableHlo.TRef sig ⟨S1x80, .f32⟩) (.of main_call2_v2 : StableHlo.TRef sig ⟨S1x80, .f32⟩) (.of main_call2_v3 : StableHlo.TRef sig ⟨S1x80, .f32⟩) Host.divf,
    StableHlo.TRef.unary (.of main_call2_v3 : StableHlo.TRef sig ⟨S1x80, .f32⟩) (.of main_call2_v4 : StableHlo.TRef sig ⟨S100000x80, .f32⟩) (broadcastInDim S100000x80 ![0, 1] bcast_S1x80_S100000x80_0_1),
    StableHlo.TRef.binary (.of main_v50 : StableHlo.TRef sig ⟨S100000x80, .f32⟩) (.of main_call2_v4 : StableHlo.TRef sig ⟨S100000x80, .f32⟩) (.of main_call2_v5 : StableHlo.TRef sig ⟨S100000x80, .f32⟩) subf,
    StableHlo.TRef.binary (.of main_call2_v5 : StableHlo.TRef sig ⟨S100000x80, .f32⟩) (.of main_call2_v5 : StableHlo.TRef sig ⟨S100000x80, .f32⟩) (.of main_call2_v6 : StableHlo.TRef sig ⟨S100000x80, .f32⟩) mulf,
    StableHlo.TRef.unary (.of main_c_15 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x80, .f32⟩) (.of main_call2_cst_2 : StableHlo.TRef sig ⟨S_, .f32⟩) (.of main_call2_v9 : StableHlo.TRef sig ⟨S80, .f32⟩) (fun x v => Host.reduceAdd x v reducesTo_S100000x80_S80_d0 h_S_),
    StableHlo.TRef.unary (.of main_call2_v8 : StableHlo.TRef sig ⟨S_, .f32⟩) (.of main_call2_v10 : StableHlo.TRef sig ⟨S80, .f32⟩) (broadcastInDim S80 ![] bcast_S_S80),
    StableHlo.TRef.binary (.of main_call2_v9 : StableHlo.TRef sig ⟨S80, .f32⟩) (.of main_call2_v10 : StableHlo.TRef sig ⟨S80, .f32⟩) (.of main_call2_v11 : StableHlo.TRef sig ⟨S80, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S80, .f32⟩) (broadcastInDim S80 ![] bcast_S_S80),
    StableHlo.TRef.ternary (.of main_call2_v12 : StableHlo.TRef sig ⟨S_, .i1⟩) (.of main_call2_v11 : StableHlo.TRef sig ⟨S80, .f32⟩) (.of main_call2_call0_v1 : StableHlo.TRef sig ⟨S80, .f32⟩) (.of main_v58 : StableHlo.TRef sig ⟨S80, .f32⟩) (fun p a b => select (broadcastInDim S80 ![] bcast_S_S80 p) a b),
    StableHlo.unary main_v57 main_v59 (broadcastInDim S1x80 ![1] bcast_S80_S1x80_1 : (⟨S80, .f32⟩ : BufTy).Contents (Elt F) → (⟨S1x80, .f32⟩ : BufTy).Contents (Elt F)),
    StableHlo.unary main_v59 main_v60 (broadcastInDim S100000x80 ![0, 1] bcast_S1x80_S100000x80_0_1 : (⟨S1x80, .f32⟩ : BufTy).Contents (Elt F) → (⟨S100000x80, .f32⟩ : BufTy).Contents (Elt F)),
    StableHlo.binary main_v50 main_v60 main_v61 (subf : (⟨S100000x80, .f32⟩ : BufTy).Contents (Elt F) → (⟨S100000x80, .f32⟩ : BufTy).Contents (Elt F) → (⟨S100000x80, .f32⟩ : BufTy).Contents (Elt F)),
    StableHlo.unary main_v52 main_v62 (broadcastInDim S1x80 ![1] bcast_S80_S1x80_1 : (⟨S80, .f32⟩ : BufTy).Contents (Elt F) → (⟨S1x80, .f32⟩ : BufTy).Contents (Elt F)),
    StableHlo.unary main_v62 main_v63 (broadcastInDim S100000x80 ![0, 1] bcast_S1x80_S100000x80_0_1 : (⟨S1x80, .f32⟩ : BufTy).Contents (Elt F) → (⟨S100000x80, .f32⟩ : BufTy).Contents (Elt F)),
    StableHlo.binary main_v63 main_v61 main_v64 (mulf : (⟨S100000x80, .f32⟩ : BufTy).Contents (Elt F) → (⟨S100000x80, .f32⟩ : BufTy).Contents (Elt F) → (⟨S100000x80, .f32⟩ : BufTy).Contents (Elt F)),
    StableHlo.nullary main_cst_16 (constant S_ .f32 0x3727C5AC#32),
    StableHlo.unary main_cst_16 main_v65 (broadcastInDim S80 ![] bcast_S_S80 : (⟨S_, .f32⟩ : BufTy).Contents (Elt F) → (⟨S80, .f32⟩ : BufTy).Contents (Elt F)),
    StableHlo.binary main_v58 main_v65 main_v66 (addf : (⟨S80, .f32⟩ : BufTy).Contents (Elt F) → (⟨S80, .f32⟩ : BufTy).Contents (Elt F) → (⟨S80, .f32⟩ : BufTy).Contents (Elt F)),
    StableHlo.unary main_v66 main_v67 (Host.rsqrt : (⟨S80, .f32⟩ : BufTy).Contents (Elt F) → (⟨S80, .f32⟩ : BufTy).Contents (Elt F)),
    StableHlo.unary main_v67 main_v68 (broadcastInDim S1x80 ![1] bcast_S80_S1x80_1 : (⟨S80, .f32⟩ : BufTy).Contents (Elt F) → (⟨S1x80, .f32⟩ : BufTy).Contents (Elt F)),
    StableHlo.unary main_v68 main_v69 (broadcastInDim S100000x80 ![0, 1] bcast_S1x80_S100000x80_0_1 : (⟨S1x80, .f32⟩ : BufTy).Contents (Elt F) → (⟨S100000x80, .f32⟩ : BufTy).Contents (Elt F)),
    StableHlo.binary main_v64 main_v69 main_v70 (mulf : (⟨S100000x80, .f32⟩ : BufTy).Contents (Elt F) → (⟨S100000x80, .f32⟩ : BufTy).Contents (Elt F) → (⟨S100000x80, .f32⟩ : BufTy).Contents (Elt F)),
    StableHlo.unary main_v54 main_v71 (broadcastInDim S1x80 ![1] bcast_S80_S1x80_1 : (⟨S80, .f32⟩ : BufTy).Contents (Elt F) → (⟨S1x80, .f32⟩ : BufTy).Contents (Elt F)),
    StableHlo.unary main_v71 main_v72 (broadcastInDim S100000x80 ![0, 1] bcast_S1x80_S100000x80_0_1 : (⟨S1x80, .f32⟩ : BufTy).Contents (Elt F) → (⟨S100000x80, .f32⟩ : BufTy).Contents (Elt F)),
    StableHlo.binary main_v70 main_v72 main_v73 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x80, .f32⟩) (broadcastInDim S100000x80 ![] bcast_S_S100000x80),
    StableHlo.TRef.binary (.of main_v73 : StableHlo.TRef sig ⟨S100000x80, .f32⟩) (.of main_call3_v0 : StableHlo.TRef sig ⟨S100000x80, .f32⟩) (.of main_v74 : StableHlo.TRef sig ⟨S100000x80, .f32⟩) maximumf ]

/-- Operations 122 to 147 of the program. -/
abbrev pc4 : List (HloOp τ sig (Elt F)) :=
  [ StableHlo.binary main_arg0 main_arg4 main_v75 ((fun l r => Host.dotGeneral dot_S100000x96_S96x80_S100000x80_1_0_0_1_n_n none l r) : (⟨S100000x96, .f32⟩ : BufTy).Contents (Elt F) → (⟨S96x80, .f32⟩ : BufTy).Contents (Elt F) → (⟨S100000x80, .f32⟩ : BufTy).Contents (Elt F)),
    StableHlo.nullary main_c_17 (constantI S_ 32 0#32),
    StableHlo.unary main_c_17 main_v76 (broadcastInDim S1000000 ![] bcast_S_S1000000 : (⟨S_, .i32⟩ : BufTy).Contents (Elt F) → (⟨S1000000, .i32⟩ : BufTy).Contents (Elt F)),
    StableHlo.binary main_v1 main_v76 main_v77 (cmpi .slt : (⟨S1000000, .i32⟩ : BufTy).Contents (Elt F) → (⟨S1000000, .i32⟩ : BufTy).Contents (Elt F) → (⟨S1000000, .i1⟩ : BufTy).Contents (Elt F)),
    StableHlo.nullary main_c_18 (constantI S_ 32 100000#32),
    StableHlo.unary main_c_18 main_v78 (broadcastInDim S1000000 ![] bcast_S_S1000000 : (⟨S_, .i32⟩ : BufTy).Contents (Elt F) → (⟨S1000000, .i32⟩ : BufTy).Contents (Elt F)),
    StableHlo.binary main_v1 main_v78 main_v79 (addi : (⟨S1000000, .i32⟩ : BufTy).Contents (Elt F) → (⟨S1000000, .i32⟩ : BufTy).Contents (Elt F) → (⟨S1000000, .i32⟩ : BufTy).Contents (Elt F)),
    StableHlo.ternary main_v77 main_v79 main_v1 main_v80 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v80 main_v81 (broadcastInDim S1000000x1 ![0] bcast_S1000000_S1000000x1_0 : (⟨S1000000, .i32⟩ : BufTy).Contents (Elt F) → (⟨S1000000x1, .i32⟩ : BufTy).Contents (Elt F)),
    StableHlo.binary main_v75 main_v81 main_v82 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_19 (constant S_ .f32 0x00000000#32),
    StableHlo.unary main_cst_19 main_v83 (broadcastInDim S20000x80 ![] bcast_S_S20000x80 : (⟨S_, .f32⟩ : BufTy).Contents (Elt F) → (⟨S20000x80, .f32⟩ : BufTy).Contents (Elt F)),
    StableHlo.unary main_v3 main_v84 (broadcastInDim S1000000x1 ![0] bcast_S1000000_S1000000x1_0 : (⟨S1000000, .i32⟩ : BufTy).Contents (Elt F) → (⟨S1000000x1, .i32⟩ : BufTy).Contents (Elt F)),
    StableHlo.ternary main_v83 main_v84 main_v82 main_v85 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v86 (broadcastInDim S20000x1 ![0] bcast_S20000_S20000x1_0 : (⟨S20000, .f32⟩ : BufTy).Contents (Elt F) → (⟨S20000x1, .f32⟩ : BufTy).Contents (Elt F)),
    StableHlo.unary main_v86 main_v87 (broadcastInDim S20000x80 ![0, 1] bcast_S20000x1_S20000x80_0_1 : (⟨S20000x1, .f32⟩ : BufTy).Contents (Elt F) → (⟨S20000x80, .f32⟩ : BufTy).Contents (Elt F)),
    StableHlo.binary main_v85 main_v87 main_v88 (mulf : (⟨S20000x80, .f32⟩ : BufTy).Contents (Elt F) → (⟨S20000x80, .f32⟩ : BufTy).Contents (Elt F) → (⟨S20000x80, .f32⟩ : BufTy).Contents (Elt F)),
    StableHlo.nullary main_c_20 (constantI S_ 32 0#32),
    StableHlo.unary main_c_20 main_v89 (broadcastInDim S1000000 ![] bcast_S_S1000000 : (⟨S_, .i32⟩ : BufTy).Contents (Elt F) → (⟨S1000000, .i32⟩ : BufTy).Contents (Elt F)),
    StableHlo.binary main_v3 main_v89 main_v90 (cmpi .slt : (⟨S1000000, .i32⟩ : BufTy).Contents (Elt F) → (⟨S1000000, .i32⟩ : BufTy).Contents (Elt F) → (⟨S1000000, .i1⟩ : BufTy).Contents (Elt F)),
    StableHlo.nullary main_c_21 (constantI S_ 32 20000#32),
    StableHlo.unary main_c_21 main_v91 (broadcastInDim S1000000 ![] bcast_S_S1000000 : (⟨S_, .i32⟩ : BufTy).Contents (Elt F) → (⟨S1000000, .i32⟩ : BufTy).Contents (Elt F)),
    StableHlo.binary main_v3 main_v91 main_v92 (addi : (⟨S1000000, .i32⟩ : BufTy).Contents (Elt F) → (⟨S1000000, .i32⟩ : BufTy).Contents (Elt F) → (⟨S1000000, .i32⟩ : BufTy).Contents (Elt F)),
    StableHlo.ternary main_v90 main_v92 main_v3 main_v93 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v93 main_v94 (broadcastInDim S1000000x1 ![0] bcast_S1000000_S1000000x1_0 : (⟨S1000000, .i32⟩ : BufTy).Contents (Elt F) → (⟨S1000000x1, .i32⟩ : BufTy).Contents (Elt F)),
    StableHlo.binary main_v88 main_v94 main_v95 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)) ]

/-- Operations 148 to 158 of the program. -/
abbrev pc5 : List (HloOp τ sig (Elt F)) :=
  [ StableHlo.nullary main_cst_22 (constant S_ .f32 0x00000000#32),
    StableHlo.unary main_cst_22 main_v96 (broadcastInDim S100000x80 ![] bcast_S_S100000x80 : (⟨S_, .f32⟩ : BufTy).Contents (Elt F) → (⟨S100000x80, .f32⟩ : BufTy).Contents (Elt F)),
    StableHlo.unary main_v1 main_v97 (broadcastInDim S1000000x1 ![0] bcast_S1000000_S1000000x1_0 : (⟨S1000000, .i32⟩ : BufTy).Contents (Elt F) → (⟨S1000000x1, .i32⟩ : BufTy).Contents (Elt F)),
    StableHlo.ternary main_v96 main_v97 main_v95 main_v98 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v99 (broadcastInDim S100000x1 ![0] bcast_S100000_S100000x1_0 : (⟨S100000, .f32⟩ : BufTy).Contents (Elt F) → (⟨S100000x1, .f32⟩ : BufTy).Contents (Elt F)),
    StableHlo.unary main_v99 main_v100 (broadcastInDim S100000x80 ![0, 1] bcast_S100000x1_S100000x80_0_1 : (⟨S100000x1, .f32⟩ : BufTy).Contents (Elt F) → (⟨S100000x80, .f32⟩ : BufTy).Contents (Elt F)),
    StableHlo.binary main_v98 main_v100 main_v101 (mulf : (⟨S100000x80, .f32⟩ : BufTy).Contents (Elt F) → (⟨S100000x80, .f32⟩ : BufTy).Contents (Elt F) → (⟨S100000x80, .f32⟩ : BufTy).Contents (Elt F)),
    StableHlo.unary main_arg5 main_v102 (broadcastInDim S1x80 ![1] bcast_S80_S1x80_1 : (⟨S80, .f32⟩ : BufTy).Contents (Elt F) → (⟨S1x80, .f32⟩ : BufTy).Contents (Elt F)),
    StableHlo.unary main_v102 main_v103 (broadcastInDim S100000x80 ![0, 1] bcast_S1x80_S100000x80_0_1 : (⟨S1x80, .f32⟩ : BufTy).Contents (Elt F) → (⟨S100000x80, .f32⟩ : BufTy).Contents (Elt F)),
    StableHlo.binary main_v101 main_v103 main_v104 (addf : (⟨S100000x80, .f32⟩ : BufTy).Contents (Elt F) → (⟨S100000x80, .f32⟩ : BufTy).Contents (Elt F) → (⟨S100000x80, .f32⟩ : BufTy).Contents (Elt F)),
    StableHlo.binary main_v74 main_v104 main_v105 (addf : (⟨S100000x80, .f32⟩ : BufTy).Contents (Elt F) → (⟨S100000x80, .f32⟩ : BufTy).Contents (Elt F) → (⟨S100000x80, .f32⟩ : BufTy).Contents (Elt F)) ]

/-- Operations 159 to 198 of the program. -/
abbrev pc6 : List (HloOp τ sig (Elt F)) :=
  [ StableHlo.unary main_arg6 main_v106 ((extractStridedSlice S1x80x80 ![0, 0, 0] · slices_S6x80x80_S1x80x80_0_0_0) : (⟨S6x80x80, .f32⟩ : BufTy).Contents (Elt F) → (⟨S1x80x80, .f32⟩ : BufTy).Contents (Elt F)),
    StableHlo.reshape main_v106 main_v107 rfl shapeCasts_S1x80x80_S80x80,
    StableHlo.unary main_arg7 main_v108 ((extractStridedSlice S1x80 ![0, 0] · slices_S6x80_S1x80_0_0) : (⟨S6x80, .f32⟩ : BufTy).Contents (Elt F) → (⟨S1x80, .f32⟩ : BufTy).Contents (Elt F)),
    StableHlo.reshape main_v108 main_v109 rfl shapeCasts_S1x80_S80,
    StableHlo.binary main_v105 main_v107 main_v110 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_23 (constantI S_ 32 0#32),
    StableHlo.unary main_c_23 main_v111 (broadcastInDim S1000000 ![] bcast_S_S1000000 : (⟨S_, .i32⟩ : BufTy).Contents (Elt F) → (⟨S1000000, .i32⟩ : BufTy).Contents (Elt F)),
    StableHlo.binary main_v1 main_v111 main_v112 (cmpi .slt : (⟨S1000000, .i32⟩ : BufTy).Contents (Elt F) → (⟨S1000000, .i32⟩ : BufTy).Contents (Elt F) → (⟨S1000000, .i1⟩ : BufTy).Contents (Elt F)),
    StableHlo.nullary main_c_24 (constantI S_ 32 100000#32),
    StableHlo.unary main_c_24 main_v113 (broadcastInDim S1000000 ![] bcast_S_S1000000 : (⟨S_, .i32⟩ : BufTy).Contents (Elt F) → (⟨S1000000, .i32⟩ : BufTy).Contents (Elt F)),
    StableHlo.binary main_v1 main_v113 main_v114 (addi : (⟨S1000000, .i32⟩ : BufTy).Contents (Elt F) → (⟨S1000000, .i32⟩ : BufTy).Contents (Elt F) → (⟨S1000000, .i32⟩ : BufTy).Contents (Elt F)),
    StableHlo.ternary main_v112 main_v114 main_v1 main_v115 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v115 main_v116 (broadcastInDim S1000000x1 ![0] bcast_S1000000_S1000000x1_0 : (⟨S1000000, .i32⟩ : BufTy).Contents (Elt F) → (⟨S1000000x1, .i32⟩ : BufTy).Contents (Elt F)),
    StableHlo.binary main_v110 main_v116 main_v117 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_25 (constant S_ .f32 0x00000000#32),
    StableHlo.unary main_cst_25 main_v118 (broadcastInDim S20000x80 ![] bcast_S_S20000x80 : (⟨S_, .f32⟩ : BufTy).Contents (Elt F) → (⟨S20000x80, .f32⟩ : BufTy).Contents (Elt F)),
    StableHlo.unary main_v3 main_v119 (broadcastInDim S1000000x1 ![0] bcast_S1000000_S1000000x1_0 : (⟨S1000000, .i32⟩ : BufTy).Contents (Elt F) → (⟨S1000000x1, .i32⟩ : BufTy).Contents (Elt F)),
    StableHlo.ternary main_v118 main_v119 main_v117 main_v120 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v121 (broadcastInDim S20000x1 ![0] bcast_S20000_S20000x1_0 : (⟨S20000, .f32⟩ : BufTy).Contents (Elt F) → (⟨S20000x1, .f32⟩ : BufTy).Contents (Elt F)),
    StableHlo.unary main_v121 main_v122 (broadcastInDim S20000x80 ![0, 1] bcast_S20000x1_S20000x80_0_1 : (⟨S20000x1, .f32⟩ : BufTy).Contents (Elt F) → (⟨S20000x80, .f32⟩ : BufTy).Contents (Elt F)),
    StableHlo.binary main_v120 main_v122 main_v123 (mulf : (⟨S20000x80, .f32⟩ : BufTy).Contents (Elt F) → (⟨S20000x80, .f32⟩ : BufTy).Contents (Elt F) → (⟨S20000x80, .f32⟩ : BufTy).Contents (Elt F)),
    StableHlo.nullary main_c_26 (constantI S_ 32 0#32),
    StableHlo.unary main_c_26 main_v124 (broadcastInDim S1000000 ![] bcast_S_S1000000 : (⟨S_, .i32⟩ : BufTy).Contents (Elt F) → (⟨S1000000, .i32⟩ : BufTy).Contents (Elt F)),
    StableHlo.binary main_v3 main_v124 main_v125 (cmpi .slt : (⟨S1000000, .i32⟩ : BufTy).Contents (Elt F) → (⟨S1000000, .i32⟩ : BufTy).Contents (Elt F) → (⟨S1000000, .i1⟩ : BufTy).Contents (Elt F)),
    StableHlo.nullary main_c_27 (constantI S_ 32 20000#32),
    StableHlo.unary main_c_27 main_v126 (broadcastInDim S1000000 ![] bcast_S_S1000000 : (⟨S_, .i32⟩ : BufTy).Contents (Elt F) → (⟨S1000000, .i32⟩ : BufTy).Contents (Elt F)),
    StableHlo.binary main_v3 main_v126 main_v127 (addi : (⟨S1000000, .i32⟩ : BufTy).Contents (Elt F) → (⟨S1000000, .i32⟩ : BufTy).Contents (Elt F) → (⟨S1000000, .i32⟩ : BufTy).Contents (Elt F)),
    StableHlo.ternary main_v125 main_v127 main_v3 main_v128 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v128 main_v129 (broadcastInDim S1000000x1 ![0] bcast_S1000000_S1000000x1_0 : (⟨S1000000, .i32⟩ : BufTy).Contents (Elt F) → (⟨S1000000x1, .i32⟩ : BufTy).Contents (Elt F)),
    StableHlo.binary main_v123 main_v129 main_v130 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_28 (constant S_ .f32 0x00000000#32),
    StableHlo.unary main_cst_28 main_v131 (broadcastInDim S100000x80 ![] bcast_S_S100000x80 : (⟨S_, .f32⟩ : BufTy).Contents (Elt F) → (⟨S100000x80, .f32⟩ : BufTy).Contents (Elt F)),
    StableHlo.unary main_v1 main_v132 (broadcastInDim S1000000x1 ![0] bcast_S1000000_S1000000x1_0 : (⟨S1000000, .i32⟩ : BufTy).Contents (Elt F) → (⟨S1000000x1, .i32⟩ : BufTy).Contents (Elt F)),
    StableHlo.ternary main_v131 main_v132 main_v130 main_v133 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v134 (broadcastInDim S100000x1 ![0] bcast_S100000_S100000x1_0 : (⟨S100000, .f32⟩ : BufTy).Contents (Elt F) → (⟨S100000x1, .f32⟩ : BufTy).Contents (Elt F)),
    StableHlo.unary main_v134 main_v135 (broadcastInDim S100000x80 ![0, 1] bcast_S100000x1_S100000x80_0_1 : (⟨S100000x1, .f32⟩ : BufTy).Contents (Elt F) → (⟨S100000x80, .f32⟩ : BufTy).Contents (Elt F)),
    StableHlo.binary main_v133 main_v135 main_v136 (mulf : (⟨S100000x80, .f32⟩ : BufTy).Contents (Elt F) → (⟨S100000x80, .f32⟩ : BufTy).Contents (Elt F) → (⟨S100000x80, .f32⟩ : BufTy).Contents (Elt F)),
    StableHlo.unary main_v109 main_v137 (broadcastInDim S1x80 ![1] bcast_S80_S1x80_1 : (⟨S80, .f32⟩ : BufTy).Contents (Elt F) → (⟨S1x80, .f32⟩ : BufTy).Contents (Elt F)),
    StableHlo.unary main_v137 main_v138 (broadcastInDim S100000x80 ![0, 1] bcast_S1x80_S100000x80_0_1 : (⟨S1x80, .f32⟩ : BufTy).Contents (Elt F) → (⟨S100000x80, .f32⟩ : BufTy).Contents (Elt F)),
    StableHlo.binary main_v136 main_v138 main_v139 (addf : (⟨S100000x80, .f32⟩ : BufTy).Contents (Elt F) → (⟨S100000x80, .f32⟩ : BufTy).Contents (Elt F) → (⟨S100000x80, .f32⟩ : BufTy).Contents (Elt F)) ]

/-- Operations 199 to 207 of the program. -/
abbrev pc7 : List (HloOp τ sig (Elt F)) :=
  [ StableHlo.unary main_arg10 main_v140 ((extractStridedSlice S1x80 ![1, 0] · slices_S7x80_S1x80_1_0) : (⟨S7x80, .f32⟩ : BufTy).Contents (Elt F) → (⟨S1x80, .f32⟩ : BufTy).Contents (Elt F)),
    StableHlo.reshape main_v140 main_v141 rfl shapeCasts_S1x80_S80,
    StableHlo.unary main_arg11 main_v142 ((extractStridedSlice S1x80 ![1, 0] · slices_S7x80_S1x80_1_0) : (⟨S7x80, .f32⟩ : BufTy).Contents (Elt F) → (⟨S1x80, .f32⟩ : BufTy).Contents (Elt F)),
    StableHlo.reshape main_v142 main_v143 rfl shapeCasts_S1x80_S80,
    StableHlo.nullary main_cst_29 (constant S_ .f32 0x00000000#32),
    StableHlo.binary main_v139 main_cst_29 main_v144 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_30 (constant S_ .f32 0x47C35000#32),
    StableHlo.unary main_cst_30 main_v145 (broadcastInDim S80 ![] bcast_S_S80 : (⟨S_, .f32⟩ : BufTy).Contents (Elt F) → (⟨S80, .f32⟩ : BufTy).Contents (Elt F)),
    StableHlo.binary main_v144 main_v145 main_v146 (Host.divf : (⟨S80, .f32⟩ : BufTy).Contents (Elt F) → (⟨S80, .f32⟩ : BufTy).Contents (Elt F) → (⟨S80, .f32⟩ : BufTy).Contents (Elt F)) ]

/-- Operations 208 to 249 of the program. -/
abbrev pc8 : List (HloOp τ sig (Elt F)) :=
  [ StableHlo.nullary main_c_31 (constantI S_ 32 0#32),
    StableHlo.TRef.nullary (.of main_call4_cst : StableHlo.TRef sig ⟨S_, .f32⟩) (constant S_ .f32 0x00000000#32),
    StableHlo.TRef.binary (.of main_v139 : StableHlo.TRef sig ⟨S100000x80, .f32⟩) (.of main_call4_cst : StableHlo.TRef sig ⟨S_, .f32⟩) (.of main_call4_v0 : StableHlo.TRef sig ⟨S80, .f32⟩) (fun x v => Host.reduceAdd x v reducesTo_S100000x80_S80_d0 h_S_),
    StableHlo.TRef.unary (.of main_call4_v0 : StableHlo.TRef sig ⟨S80, .f32⟩) (.of main_call4_v1 : StableHlo.TRef sig ⟨S1x80, .f32⟩) (broadcastInDim S1x80 ![1] bcast_S80_S1x80_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x80, .f32⟩) (broadcastInDim S1x80 ![] bcast_S_S1x80),
    StableHlo.TRef.binary (.of main_call4_v1 : StableHlo.TRef sig ⟨S1x80, .f32⟩) (.of main_call4_v2 : StableHlo.TRef sig ⟨S1x80, .f32⟩) (.of main_call4_v3 : StableHlo.TRef sig ⟨S1x80, .f32⟩) Host.divf,
    StableHlo.TRef.unary (.of main_call4_v3 : StableHlo.TRef sig ⟨S1x80, .f32⟩) (.of main_call4_v4 : StableHlo.TRef sig ⟨S100000x80, .f32⟩) (broadcastInDim S100000x80 ![0, 1] bcast_S1x80_S100000x80_0_1),
    StableHlo.TRef.binary (.of main_v139 : StableHlo.TRef sig ⟨S100000x80, .f32⟩) (.of main_call4_v4 : StableHlo.TRef sig ⟨S100000x80, .f32⟩) (.of main_call4_v5 : StableHlo.TRef sig ⟨S100000x80, .f32⟩) subf,
    StableHlo.TRef.binary (.of main_call4_v5 : StableHlo.TRef sig ⟨S100000x80, .f32⟩) (.of main_call4_v5 : StableHlo.TRef sig ⟨S100000x80, .f32⟩) (.of main_call4_v6 : StableHlo.TRef sig ⟨S100000x80, .f32⟩) mulf,
    StableHlo.TRef.unary (.of main_c_31 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x80, .f32⟩) (.of main_call4_cst_2 : StableHlo.TRef sig ⟨S_, .f32⟩) (.of main_call4_v9 : StableHlo.TRef sig ⟨S80, .f32⟩) (fun x v => Host.reduceAdd x v reducesTo_S100000x80_S80_d0 h_S_),
    StableHlo.TRef.unary (.of main_call4_v8 : StableHlo.TRef sig ⟨S_, .f32⟩) (.of main_call4_v10 : StableHlo.TRef sig ⟨S80, .f32⟩) (broadcastInDim S80 ![] bcast_S_S80),
    StableHlo.TRef.binary (.of main_call4_v9 : StableHlo.TRef sig ⟨S80, .f32⟩) (.of main_call4_v10 : StableHlo.TRef sig ⟨S80, .f32⟩) (.of main_call4_v11 : StableHlo.TRef sig ⟨S80, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S80, .f32⟩) (broadcastInDim S80 ![] bcast_S_S80),
    StableHlo.TRef.ternary (.of main_call4_v12 : StableHlo.TRef sig ⟨S_, .i1⟩) (.of main_call4_v11 : StableHlo.TRef sig ⟨S80, .f32⟩) (.of main_call4_call0_v1 : StableHlo.TRef sig ⟨S80, .f32⟩) (.of main_v147 : StableHlo.TRef sig ⟨S80, .f32⟩) (fun p a b => select (broadcastInDim S80 ![] bcast_S_S80 p) a b),
    StableHlo.unary main_v146 main_v148 (broadcastInDim S1x80 ![1] bcast_S80_S1x80_1 : (⟨S80, .f32⟩ : BufTy).Contents (Elt F) → (⟨S1x80, .f32⟩ : BufTy).Contents (Elt F)),
    StableHlo.unary main_v148 main_v149 (broadcastInDim S100000x80 ![0, 1] bcast_S1x80_S100000x80_0_1 : (⟨S1x80, .f32⟩ : BufTy).Contents (Elt F) → (⟨S100000x80, .f32⟩ : BufTy).Contents (Elt F)),
    StableHlo.binary main_v139 main_v149 main_v150 (subf : (⟨S100000x80, .f32⟩ : BufTy).Contents (Elt F) → (⟨S100000x80, .f32⟩ : BufTy).Contents (Elt F) → (⟨S100000x80, .f32⟩ : BufTy).Contents (Elt F)),
    StableHlo.unary main_v141 main_v151 (broadcastInDim S1x80 ![1] bcast_S80_S1x80_1 : (⟨S80, .f32⟩ : BufTy).Contents (Elt F) → (⟨S1x80, .f32⟩ : BufTy).Contents (Elt F)),
    StableHlo.unary main_v151 main_v152 (broadcastInDim S100000x80 ![0, 1] bcast_S1x80_S100000x80_0_1 : (⟨S1x80, .f32⟩ : BufTy).Contents (Elt F) → (⟨S100000x80, .f32⟩ : BufTy).Contents (Elt F)),
    StableHlo.binary main_v152 main_v150 main_v153 (mulf : (⟨S100000x80, .f32⟩ : BufTy).Contents (Elt F) → (⟨S100000x80, .f32⟩ : BufTy).Contents (Elt F) → (⟨S100000x80, .f32⟩ : BufTy).Contents (Elt F)),
    StableHlo.nullary main_cst_32 (constant S_ .f32 0x3727C5AC#32),
    StableHlo.unary main_cst_32 main_v154 (broadcastInDim S80 ![] bcast_S_S80 : (⟨S_, .f32⟩ : BufTy).Contents (Elt F) → (⟨S80, .f32⟩ : BufTy).Contents (Elt F)),
    StableHlo.binary main_v147 main_v154 main_v155 (addf : (⟨S80, .f32⟩ : BufTy).Contents (Elt F) → (⟨S80, .f32⟩ : BufTy).Contents (Elt F) → (⟨S80, .f32⟩ : BufTy).Contents (Elt F)),
    StableHlo.unary main_v155 main_v156 (Host.rsqrt : (⟨S80, .f32⟩ : BufTy).Contents (Elt F) → (⟨S80, .f32⟩ : BufTy).Contents (Elt F)),
    StableHlo.unary main_v156 main_v157 (broadcastInDim S1x80 ![1] bcast_S80_S1x80_1 : (⟨S80, .f32⟩ : BufTy).Contents (Elt F) → (⟨S1x80, .f32⟩ : BufTy).Contents (Elt F)),
    StableHlo.unary main_v157 main_v158 (broadcastInDim S100000x80 ![0, 1] bcast_S1x80_S100000x80_0_1 : (⟨S1x80, .f32⟩ : BufTy).Contents (Elt F) → (⟨S100000x80, .f32⟩ : BufTy).Contents (Elt F)),
    StableHlo.binary main_v153 main_v158 main_v159 (mulf : (⟨S100000x80, .f32⟩ : BufTy).Contents (Elt F) → (⟨S100000x80, .f32⟩ : BufTy).Contents (Elt F) → (⟨S100000x80, .f32⟩ : BufTy).Contents (Elt F)),
    StableHlo.unary main_v143 main_v160 (broadcastInDim S1x80 ![1] bcast_S80_S1x80_1 : (⟨S80, .f32⟩ : BufTy).Contents (Elt F) → (⟨S1x80, .f32⟩ : BufTy).Contents (Elt F)),
    StableHlo.unary main_v160 main_v161 (broadcastInDim S100000x80 ![0, 1] bcast_S1x80_S100000x80_0_1 : (⟨S1x80, .f32⟩ : BufTy).Contents (Elt F) → (⟨S100000x80, .f32⟩ : BufTy).Contents (Elt F)),
    StableHlo.binary main_v159 main_v161 main_v162 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x80, .f32⟩) (broadcastInDim S100000x80 ![] bcast_S_S100000x80),
    StableHlo.TRef.binary (.of main_v162 : StableHlo.TRef sig ⟨S100000x80, .f32⟩) (.of main_call5_v0 : StableHlo.TRef sig ⟨S100000x80, .f32⟩) (.of main_v163 : StableHlo.TRef sig ⟨S100000x80, .f32⟩) maximumf ]

/-- Operations 250 to 290 of the program. -/
abbrev pc9 : List (HloOp τ sig (Elt F)) :=
  [ StableHlo.unary main_arg8 main_v164 ((extractStridedSlice S1x80x80 ![0, 0, 0] · slices_S6x80x80_S1x80x80_0_0_0) : (⟨S6x80x80, .f32⟩ : BufTy).Contents (Elt F) → (⟨S1x80x80, .f32⟩ : BufTy).Contents (Elt F)),
    StableHlo.reshape main_v164 main_v165 rfl shapeCasts_S1x80x80_S80x80,
    StableHlo.unary main_arg9 main_v166 ((extractStridedSlice S1x80 ![0, 0] · slices_S6x80_S1x80_0_0) : (⟨S6x80, .f32⟩ : BufTy).Contents (Elt F) → (⟨S1x80, .f32⟩ : BufTy).Contents (Elt F)),
    StableHlo.reshape main_v166 main_v167 rfl shapeCasts_S1x80_S80,
    StableHlo.binary main_v105 main_v165 main_v168 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_33 (constantI S_ 32 0#32),
    StableHlo.unary main_c_33 main_v169 (broadcastInDim S1000000 ![] bcast_S_S1000000 : (⟨S_, .i32⟩ : BufTy).Contents (Elt F) → (⟨S1000000, .i32⟩ : BufTy).Contents (Elt F)),
    StableHlo.binary main_v1 main_v169 main_v170 (cmpi .slt : (⟨S1000000, .i32⟩ : BufTy).Contents (Elt F) → (⟨S1000000, .i32⟩ : BufTy).Contents (Elt F) → (⟨S1000000, .i1⟩ : BufTy).Contents (Elt F)),
    StableHlo.nullary main_c_34 (constantI S_ 32 100000#32),
    StableHlo.unary main_c_34 main_v171 (broadcastInDim S1000000 ![] bcast_S_S1000000 : (⟨S_, .i32⟩ : BufTy).Contents (Elt F) → (⟨S1000000, .i32⟩ : BufTy).Contents (Elt F)),
    StableHlo.binary main_v1 main_v171 main_v172 (addi : (⟨S1000000, .i32⟩ : BufTy).Contents (Elt F) → (⟨S1000000, .i32⟩ : BufTy).Contents (Elt F) → (⟨S1000000, .i32⟩ : BufTy).Contents (Elt F)),
    StableHlo.ternary main_v170 main_v172 main_v1 main_v173 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v173 main_v174 (broadcastInDim S1000000x1 ![0] bcast_S1000000_S1000000x1_0 : (⟨S1000000, .i32⟩ : BufTy).Contents (Elt F) → (⟨S1000000x1, .i32⟩ : BufTy).Contents (Elt F)),
    StableHlo.binary main_v168 main_v174 main_v175 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_35 (constant S_ .f32 0x00000000#32),
    StableHlo.unary main_cst_35 main_v176 (broadcastInDim S20000x80 ![] bcast_S_S20000x80 : (⟨S_, .f32⟩ : BufTy).Contents (Elt F) → (⟨S20000x80, .f32⟩ : BufTy).Contents (Elt F)),
    StableHlo.unary main_v3 main_v177 (broadcastInDim S1000000x1 ![0] bcast_S1000000_S1000000x1_0 : (⟨S1000000, .i32⟩ : BufTy).Contents (Elt F) → (⟨S1000000x1, .i32⟩ : BufTy).Contents (Elt F)),
    StableHlo.ternary main_v176 main_v177 main_v175 main_v178 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v179 (broadcastInDim S20000x1 ![0] bcast_S20000_S20000x1_0 : (⟨S20000, .f32⟩ : BufTy).Contents (Elt F) → (⟨S20000x1, .f32⟩ : BufTy).Contents (Elt F)),
    StableHlo.unary main_v179 main_v180 (broadcastInDim S20000x80 ![0, 1] bcast_S20000x1_S20000x80_0_1 : (⟨S20000x1, .f32⟩ : BufTy).Contents (Elt F) → (⟨S20000x80, .f32⟩ : BufTy).Contents (Elt F)),
    StableHlo.binary main_v178 main_v180 main_v181 (mulf : (⟨S20000x80, .f32⟩ : BufTy).Contents (Elt F) → (⟨S20000x80, .f32⟩ : BufTy).Contents (Elt F) → (⟨S20000x80, .f32⟩ : BufTy).Contents (Elt F)),
    StableHlo.nullary main_c_36 (constantI S_ 32 0#32),
    StableHlo.unary main_c_36 main_v182 (broadcastInDim S1000000 ![] bcast_S_S1000000 : (⟨S_, .i32⟩ : BufTy).Contents (Elt F) → (⟨S1000000, .i32⟩ : BufTy).Contents (Elt F)),
    StableHlo.binary main_v3 main_v182 main_v183 (cmpi .slt : (⟨S1000000, .i32⟩ : BufTy).Contents (Elt F) → (⟨S1000000, .i32⟩ : BufTy).Contents (Elt F) → (⟨S1000000, .i1⟩ : BufTy).Contents (Elt F)),
    StableHlo.nullary main_c_37 (constantI S_ 32 20000#32),
    StableHlo.unary main_c_37 main_v184 (broadcastInDim S1000000 ![] bcast_S_S1000000 : (⟨S_, .i32⟩ : BufTy).Contents (Elt F) → (⟨S1000000, .i32⟩ : BufTy).Contents (Elt F)),
    StableHlo.binary main_v3 main_v184 main_v185 (addi : (⟨S1000000, .i32⟩ : BufTy).Contents (Elt F) → (⟨S1000000, .i32⟩ : BufTy).Contents (Elt F) → (⟨S1000000, .i32⟩ : BufTy).Contents (Elt F)),
    StableHlo.ternary main_v183 main_v185 main_v3 main_v186 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v186 main_v187 (broadcastInDim S1000000x1 ![0] bcast_S1000000_S1000000x1_0 : (⟨S1000000, .i32⟩ : BufTy).Contents (Elt F) → (⟨S1000000x1, .i32⟩ : BufTy).Contents (Elt F)),
    StableHlo.binary main_v181 main_v187 main_v188 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_38 (constant S_ .f32 0x00000000#32),
    StableHlo.unary main_cst_38 main_v189 (broadcastInDim S100000x80 ![] bcast_S_S100000x80 : (⟨S_, .f32⟩ : BufTy).Contents (Elt F) → (⟨S100000x80, .f32⟩ : BufTy).Contents (Elt F)),
    StableHlo.unary main_v1 main_v190 (broadcastInDim S1000000x1 ![0] bcast_S1000000_S1000000x1_0 : (⟨S1000000, .i32⟩ : BufTy).Contents (Elt F) → (⟨S1000000x1, .i32⟩ : BufTy).Contents (Elt F)),
    StableHlo.ternary main_v189 main_v190 main_v188 main_v191 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v192 (broadcastInDim S100000x1 ![0] bcast_S100000_S100000x1_0 : (⟨S100000, .f32⟩ : BufTy).Contents (Elt F) → (⟨S100000x1, .f32⟩ : BufTy).Contents (Elt F)),
    StableHlo.unary main_v192 main_v193 (broadcastInDim S100000x80 ![0, 1] bcast_S100000x1_S100000x80_0_1 : (⟨S100000x1, .f32⟩ : BufTy).Contents (Elt F) → (⟨S100000x80, .f32⟩ : BufTy).Contents (Elt F)),
    StableHlo.binary main_v191 main_v193 main_v194 (mulf : (⟨S100000x80, .f32⟩ : BufTy).Contents (Elt F) → (⟨S100000x80, .f32⟩ : BufTy).Contents (Elt F) → (⟨S100000x80, .f32⟩ : BufTy).Contents (Elt F)),
    StableHlo.unary main_v167 main_v195 (broadcastInDim S1x80 ![1] bcast_S80_S1x80_1 : (⟨S80, .f32⟩ : BufTy).Contents (Elt F) → (⟨S1x80, .f32⟩ : BufTy).Contents (Elt F)),
    StableHlo.unary main_v195 main_v196 (broadcastInDim S100000x80 ![0, 1] bcast_S1x80_S100000x80_0_1 : (⟨S1x80, .f32⟩ : BufTy).Contents (Elt F) → (⟨S100000x80, .f32⟩ : BufTy).Contents (Elt F)),
    StableHlo.binary main_v194 main_v196 main_v197 (addf : (⟨S100000x80, .f32⟩ : BufTy).Contents (Elt F) → (⟨S100000x80, .f32⟩ : BufTy).Contents (Elt F) → (⟨S100000x80, .f32⟩ : BufTy).Contents (Elt F)),
    StableHlo.binary main_v163 main_v197 main_v198 (addf : (⟨S100000x80, .f32⟩ : BufTy).Contents (Elt F) → (⟨S100000x80, .f32⟩ : BufTy).Contents (Elt F) → (⟨S100000x80, .f32⟩ : BufTy).Contents (Elt F)) ]

/-- Operations 291 to 330 of the program. -/
abbrev pc10 : List (HloOp τ sig (Elt F)) :=
  [ StableHlo.unary main_arg6 main_v199 ((extractStridedSlice S1x80x80 ![1, 0, 0] · slices_S6x80x80_S1x80x80_1_0_0) : (⟨S6x80x80, .f32⟩ : BufTy).Contents (Elt F) → (⟨S1x80x80, .f32⟩ : BufTy).Contents (Elt F)),
    StableHlo.reshape main_v199 main_v200 rfl shapeCasts_S1x80x80_S80x80,
    StableHlo.unary main_arg7 main_v201 ((extractStridedSlice S1x80 ![1, 0] · slices_S6x80_S1x80_1_0) : (⟨S6x80, .f32⟩ : BufTy).Contents (Elt F) → (⟨S1x80, .f32⟩ : BufTy).Contents (Elt F)),
    StableHlo.reshape main_v201 main_v202 rfl shapeCasts_S1x80_S80,
    StableHlo.binary main_v198 main_v200 main_v203 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_39 (constantI S_ 32 0#32),
    StableHlo.unary main_c_39 main_v204 (broadcastInDim S1000000 ![] bcast_S_S1000000 : (⟨S_, .i32⟩ : BufTy).Contents (Elt F) → (⟨S1000000, .i32⟩ : BufTy).Contents (Elt F)),
    StableHlo.binary main_v1 main_v204 main_v205 (cmpi .slt : (⟨S1000000, .i32⟩ : BufTy).Contents (Elt F) → (⟨S1000000, .i32⟩ : BufTy).Contents (Elt F) → (⟨S1000000, .i1⟩ : BufTy).Contents (Elt F)),
    StableHlo.nullary main_c_40 (constantI S_ 32 100000#32),
    StableHlo.unary main_c_40 main_v206 (broadcastInDim S1000000 ![] bcast_S_S1000000 : (⟨S_, .i32⟩ : BufTy).Contents (Elt F) → (⟨S1000000, .i32⟩ : BufTy).Contents (Elt F)),
    StableHlo.binary main_v1 main_v206 main_v207 (addi : (⟨S1000000, .i32⟩ : BufTy).Contents (Elt F) → (⟨S1000000, .i32⟩ : BufTy).Contents (Elt F) → (⟨S1000000, .i32⟩ : BufTy).Contents (Elt F)),
    StableHlo.ternary main_v205 main_v207 main_v1 main_v208 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v208 main_v209 (broadcastInDim S1000000x1 ![0] bcast_S1000000_S1000000x1_0 : (⟨S1000000, .i32⟩ : BufTy).Contents (Elt F) → (⟨S1000000x1, .i32⟩ : BufTy).Contents (Elt F)),
    StableHlo.binary main_v203 main_v209 main_v210 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_41 (constant S_ .f32 0x00000000#32),
    StableHlo.unary main_cst_41 main_v211 (broadcastInDim S20000x80 ![] bcast_S_S20000x80 : (⟨S_, .f32⟩ : BufTy).Contents (Elt F) → (⟨S20000x80, .f32⟩ : BufTy).Contents (Elt F)),
    StableHlo.unary main_v3 main_v212 (broadcastInDim S1000000x1 ![0] bcast_S1000000_S1000000x1_0 : (⟨S1000000, .i32⟩ : BufTy).Contents (Elt F) → (⟨S1000000x1, .i32⟩ : BufTy).Contents (Elt F)),
    StableHlo.ternary main_v211 main_v212 main_v210 main_v213 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v214 (broadcastInDim S20000x1 ![0] bcast_S20000_S20000x1_0 : (⟨S20000, .f32⟩ : BufTy).Contents (Elt F) → (⟨S20000x1, .f32⟩ : BufTy).Contents (Elt F)),
    StableHlo.unary main_v214 main_v215 (broadcastInDim S20000x80 ![0, 1] bcast_S20000x1_S20000x80_0_1 : (⟨S20000x1, .f32⟩ : BufTy).Contents (Elt F) → (⟨S20000x80, .f32⟩ : BufTy).Contents (Elt F)),
    StableHlo.binary main_v213 main_v215 main_v216 (mulf : (⟨S20000x80, .f32⟩ : BufTy).Contents (Elt F) → (⟨S20000x80, .f32⟩ : BufTy).Contents (Elt F) → (⟨S20000x80, .f32⟩ : BufTy).Contents (Elt F)),
    StableHlo.nullary main_c_42 (constantI S_ 32 0#32),
    StableHlo.unary main_c_42 main_v217 (broadcastInDim S1000000 ![] bcast_S_S1000000 : (⟨S_, .i32⟩ : BufTy).Contents (Elt F) → (⟨S1000000, .i32⟩ : BufTy).Contents (Elt F)),
    StableHlo.binary main_v3 main_v217 main_v218 (cmpi .slt : (⟨S1000000, .i32⟩ : BufTy).Contents (Elt F) → (⟨S1000000, .i32⟩ : BufTy).Contents (Elt F) → (⟨S1000000, .i1⟩ : BufTy).Contents (Elt F)),
    StableHlo.nullary main_c_43 (constantI S_ 32 20000#32),
    StableHlo.unary main_c_43 main_v219 (broadcastInDim S1000000 ![] bcast_S_S1000000 : (⟨S_, .i32⟩ : BufTy).Contents (Elt F) → (⟨S1000000, .i32⟩ : BufTy).Contents (Elt F)),
    StableHlo.binary main_v3 main_v219 main_v220 (addi : (⟨S1000000, .i32⟩ : BufTy).Contents (Elt F) → (⟨S1000000, .i32⟩ : BufTy).Contents (Elt F) → (⟨S1000000, .i32⟩ : BufTy).Contents (Elt F)),
    StableHlo.ternary main_v218 main_v220 main_v3 main_v221 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v221 main_v222 (broadcastInDim S1000000x1 ![0] bcast_S1000000_S1000000x1_0 : (⟨S1000000, .i32⟩ : BufTy).Contents (Elt F) → (⟨S1000000x1, .i32⟩ : BufTy).Contents (Elt F)),
    StableHlo.binary main_v216 main_v222 main_v223 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_44 (constant S_ .f32 0x00000000#32),
    StableHlo.unary main_cst_44 main_v224 (broadcastInDim S100000x80 ![] bcast_S_S100000x80 : (⟨S_, .f32⟩ : BufTy).Contents (Elt F) → (⟨S100000x80, .f32⟩ : BufTy).Contents (Elt F)),
    StableHlo.unary main_v1 main_v225 (broadcastInDim S1000000x1 ![0] bcast_S1000000_S1000000x1_0 : (⟨S1000000, .i32⟩ : BufTy).Contents (Elt F) → (⟨S1000000x1, .i32⟩ : BufTy).Contents (Elt F)),
    StableHlo.ternary main_v224 main_v225 main_v223 main_v226 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v227 (broadcastInDim S100000x1 ![0] bcast_S100000_S100000x1_0 : (⟨S100000, .f32⟩ : BufTy).Contents (Elt F) → (⟨S100000x1, .f32⟩ : BufTy).Contents (Elt F)),
    StableHlo.unary main_v227 main_v228 (broadcastInDim S100000x80 ![0, 1] bcast_S100000x1_S100000x80_0_1 : (⟨S100000x1, .f32⟩ : BufTy).Contents (Elt F) → (⟨S100000x80, .f32⟩ : BufTy).Contents (Elt F)),
    StableHlo.binary main_v226 main_v228 main_v229 (mulf : (⟨S100000x80, .f32⟩ : BufTy).Contents (Elt F) → (⟨S100000x80, .f32⟩ : BufTy).Contents (Elt F) → (⟨S100000x80, .f32⟩ : BufTy).Contents (Elt F)),
    StableHlo.unary main_v202 main_v230 (broadcastInDim S1x80 ![1] bcast_S80_S1x80_1 : (⟨S80, .f32⟩ : BufTy).Contents (Elt F) → (⟨S1x80, .f32⟩ : BufTy).Contents (Elt F)),
    StableHlo.unary main_v230 main_v231 (broadcastInDim S100000x80 ![0, 1] bcast_S1x80_S100000x80_0_1 : (⟨S1x80, .f32⟩ : BufTy).Contents (Elt F) → (⟨S100000x80, .f32⟩ : BufTy).Contents (Elt F)),
    StableHlo.binary main_v229 main_v231 main_v232 (addf : (⟨S100000x80, .f32⟩ : BufTy).Contents (Elt F) → (⟨S100000x80, .f32⟩ : BufTy).Contents (Elt F) → (⟨S100000x80, .f32⟩ : BufTy).Contents (Elt F)) ]

/-- Operations 331 to 371 of the program. -/
abbrev pc11 : List (HloOp τ sig (Elt F)) :=
  [ StableHlo.unary main_arg10 main_v233 ((extractStridedSlice S1x80 ![2, 0] · slices_S7x80_S1x80_2_0) : (⟨S7x80, .f32⟩ : BufTy).Contents (Elt F) → (⟨S1x80, .f32⟩ : BufTy).Contents (Elt F)),
    StableHlo.reshape main_v233 main_v234 rfl shapeCasts_S1x80_S80,
    StableHlo.unary main_arg11 main_v235 ((extractStridedSlice S1x80 ![2, 0] · slices_S7x80_S1x80_2_0) : (⟨S7x80, .f32⟩ : BufTy).Contents (Elt F) → (⟨S1x80, .f32⟩ : BufTy).Contents (Elt F)),
    StableHlo.reshape main_v235 main_v236 rfl shapeCasts_S1x80_S80,
    StableHlo.nullary main_cst_45 (constant S_ .f32 0x00000000#32),
    StableHlo.binary main_v232 main_cst_45 main_v237 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_46 (constant S_ .f32 0x47C35000#32),
    StableHlo.unary main_cst_46 main_v238 (broadcastInDim S80 ![] bcast_S_S80 : (⟨S_, .f32⟩ : BufTy).Contents (Elt F) → (⟨S80, .f32⟩ : BufTy).Contents (Elt F)),
    StableHlo.binary main_v237 main_v238 main_v239 (Host.divf : (⟨S80, .f32⟩ : BufTy).Contents (Elt F) → (⟨S80, .f32⟩ : BufTy).Contents (Elt F) → (⟨S80, .f32⟩ : BufTy).Contents (Elt F)),
    StableHlo.nullary main_c_47 (constantI S_ 32 0#32),
    StableHlo.TRef.nullary (.of main_call6_cst : StableHlo.TRef sig ⟨S_, .f32⟩) (constant S_ .f32 0x00000000#32),
    StableHlo.TRef.binary (.of main_v232 : StableHlo.TRef sig ⟨S100000x80, .f32⟩) (.of main_call6_cst : StableHlo.TRef sig ⟨S_, .f32⟩) (.of main_call6_v0 : StableHlo.TRef sig ⟨S80, .f32⟩) (fun x v => Host.reduceAdd x v reducesTo_S100000x80_S80_d0 h_S_),
    StableHlo.TRef.unary (.of main_call6_v0 : StableHlo.TRef sig ⟨S80, .f32⟩) (.of main_call6_v1 : StableHlo.TRef sig ⟨S1x80, .f32⟩) (broadcastInDim S1x80 ![1] bcast_S80_S1x80_1),
    StableHlo.TRef.nullary (.of main_call6_cst_0 : StableHlo.TRef sig ⟨S_, .f32⟩) (constant S_ .f32 0x47C35000#32),
    StableHlo.TRef.unary (.of main_call6_cst_0 : StableHlo.TRef sig ⟨S_, .f32⟩) (.of main_call6_v2 : StableHlo.TRef sig ⟨S1x80, .f32⟩) (broadcastInDim S1x80 ![] bcast_S_S1x80),
    StableHlo.TRef.binary (.of main_call6_v1 : StableHlo.TRef sig ⟨S1x80, .f32⟩) (.of main_call6_v2 : StableHlo.TRef sig ⟨S1x80, .f32⟩) (.of main_call6_v3 : StableHlo.TRef sig ⟨S1x80, .f32⟩) Host.divf,
    StableHlo.TRef.unary (.of main_call6_v3 : StableHlo.TRef sig ⟨S1x80, .f32⟩) (.of main_call6_v4 : StableHlo.TRef sig ⟨S100000x80, .f32⟩) (broadcastInDim S100000x80 ![0, 1] bcast_S1x80_S100000x80_0_1),
    StableHlo.TRef.binary (.of main_v232 : StableHlo.TRef sig ⟨S100000x80, .f32⟩) (.of main_call6_v4 : StableHlo.TRef sig ⟨S100000x80, .f32⟩) (.of main_call6_v5 : StableHlo.TRef sig ⟨S100000x80, .f32⟩) subf,
    StableHlo.TRef.binary (.of main_call6_v5 : StableHlo.TRef sig ⟨S100000x80, .f32⟩) (.of main_call6_v5 : StableHlo.TRef sig ⟨S100000x80, .f32⟩) (.of main_call6_v6 : StableHlo.TRef sig ⟨S100000x80, .f32⟩) mulf,
    StableHlo.TRef.unary (.of main_c_47 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47C35000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S100000x80, .f32⟩) (.of main_call6_cst_2 : StableHlo.TRef sig ⟨S_, .f32⟩) (.of main_call6_v9 : StableHlo.TRef sig ⟨S80, .f32⟩) (fun x v => Host.reduceAdd x v reducesTo_S100000x80_S80_d0 h_S_),
    StableHlo.TRef.unary (.of main_call6_v8 : StableHlo.TRef sig ⟨S_, .f32⟩) (.of main_call6_v10 : StableHlo.TRef sig ⟨S80, .f32⟩) (broadcastInDim S80 ![] bcast_S_S80),
    StableHlo.TRef.binary (.of main_call6_v9 : StableHlo.TRef sig ⟨S80, .f32⟩) (.of main_call6_v10 : StableHlo.TRef sig ⟨S80, .f32⟩) (.of main_call6_v11 : StableHlo.TRef sig ⟨S80, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S80, .f32⟩) (broadcastInDim S80 ![] bcast_S_S80),
    StableHlo.TRef.ternary (.of main_call6_v12 : StableHlo.TRef sig ⟨S_, .i1⟩) (.of main_call6_v11 : StableHlo.TRef sig ⟨S80, .f32⟩) (.of main_call6_call0_v1 : StableHlo.TRef sig ⟨S80, .f32⟩) (.of main_v240 : StableHlo.TRef sig ⟨S80, .f32⟩) (fun p a b => select (broadcastInDim S80 ![] bcast_S_S80 p) a b),
    StableHlo.unary main_v239 main_v241 (broadcastInDim S1x80 ![1] bcast_S80_S1x80_1 : (⟨S80, .f32⟩ : BufTy).Contents (Elt F) → (⟨S1x80, .f32⟩ : BufTy).Contents (Elt F)),
    StableHlo.unary main_v241 main_v242 (broadcastInDim S100000x80 ![0, 1] bcast_S1x80_S100000x80_0_1 : (⟨S1x80, .f32⟩ : BufTy).Contents (Elt F) → (⟨S100000x80, .f32⟩ : BufTy).Contents (Elt F)),
    StableHlo.binary main_v232 main_v242 main_v243 (subf : (⟨S100000x80, .f32⟩ : BufTy).Contents (Elt F) → (⟨S100000x80, .f32⟩ : BufTy).Contents (Elt F) → (⟨S100000x80, .f32⟩ : BufTy).Contents (Elt F)),
    StableHlo.unary main_v234 main_v244 (broadcastInDim S1x80 ![1] bcast_S80_S1x80_1 : (⟨S80, .f32⟩ : BufTy).Contents (Elt F) → (⟨S1x80, .f32⟩ : BufTy).Contents (Elt F)),
    StableHlo.unary main_v244 main_v245 (broadcastInDim S100000x80 ![0, 1] bcast_S1x80_S100000x80_0_1 : (⟨S1x80, .f32⟩ : BufTy).Contents (Elt F) → (⟨S100000x80, .f32⟩ : BufTy).Contents (Elt F)),
    StableHlo.binary main_v245 main_v243 main_v246 (mulf : (⟨S100000x80, .f32⟩ : BufTy).Contents (Elt F) → (⟨S100000x80, .f32⟩ : BufTy).Contents (Elt F) → (⟨S100000x80, .f32⟩ : BufTy).Contents (Elt F)),
    StableHlo.nullary main_cst_48 (constant S_ .f32 0x3727C5AC#32),
    StableHlo.unary main_cst_48 main_v247 (broadcastInDim S80 ![] bcast_S_S80 : (⟨S_, .f32⟩ : BufTy).Contents (Elt F) → (⟨S80, .f32⟩ : BufTy).Contents (Elt F)),
    StableHlo.binary main_v240 main_v247 main_v248 (addf : (⟨S80, .f32⟩ : BufTy).Contents (Elt F) → (⟨S80, .f32⟩ : BufTy).Contents (Elt F) → (⟨S80, .f32⟩ : BufTy).Contents (Elt F)) ]

/-- Operations 372 to 381 of the program. -/
abbrev pc12 : List (HloOp τ sig (Elt F)) :=
  [ StableHlo.unary main_v248 main_v249 (Host.rsqrt : (⟨S80, .f32⟩ : BufTy).Contents (Elt F) → (⟨S80, .f32⟩ : BufTy).Contents (Elt F)),
    StableHlo.unary main_v249 main_v250 (broadcastInDim S1x80 ![1] bcast_S80_S1x80_1 : (⟨S80, .f32⟩ : BufTy).Contents (Elt F) → (⟨S1x80, .f32⟩ : BufTy).Contents (Elt F)),
    StableHlo.unary main_v250 main_v251 (broadcastInDim S100000x80 ![0, 1] bcast_S1x80_S100000x80_0_1 : (⟨S1x80, .f32⟩ : BufTy).Contents (Elt F) → (⟨S100000x80, .f32⟩ : BufTy).Contents (Elt F)),
    StableHlo.binary main_v246 main_v251 main_v252 (mulf : (⟨S100000x80, .f32⟩ : BufTy).Contents (Elt F) → (⟨S100000x80, .f32⟩ : BufTy).Contents (Elt F) → (⟨S100000x80, .f32⟩ : BufTy).Contents (Elt F)),
    StableHlo.unary main_v236 main_v253 (broadcastInDim S1x80 ![1] bcast_S80_S1x80_1 : (⟨S80, .f32⟩ : BufTy).Contents (Elt F) → (⟨S1x80, .f32⟩ : BufTy).Contents (Elt F)),
    StableHlo.unary main_v253 main_v254 (broadcastInDim S100000x80 ![0, 1] bcast_S1x80_S100000x80_0_1 : (⟨S1x80, .f32⟩ : BufTy).Contents (Elt F) → (⟨S100000x80, .f32⟩ : BufTy).Contents (Elt F)),
    StableHlo.binary main_v252 main_v254 main_v255 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S100000x80, .f32⟩) (broadcastInDim S100000x80 ![] bcast_S_S100000x80),
    StableHlo.TRef.binary (.of main_v255 : StableHlo.TRef sig ⟨S100000x80, .f32⟩) (.of main_call7_v0 : StableHlo.TRef sig ⟨S100000x80, .f32⟩) (.of main_v256 : StableHlo.TRef sig ⟨S100000x80, .f32⟩) maximumf ]

/-- Operations 382 to 422 of the program. -/
abbrev pc13 : List (HloOp τ sig (Elt F)) :=
  [ StableHlo.unary main_arg8 main_v257 ((extractStridedSlice S1x80x80 ![1, 0, 0] · slices_S6x80x80_S1x80x80_1_0_0) : (⟨S6x80x80, .f32⟩ : BufTy).Contents (Elt F) → (⟨S1x80x80, .f32⟩ : BufTy).Contents (Elt F)),
    StableHlo.reshape main_v257 main_v258 rfl shapeCasts_S1x80x80_S80x80,
    StableHlo.unary main_arg9 main_v259 ((extractStridedSlice S1x80 ![1, 0] · slices_S6x80_S1x80_1_0) : (⟨S6x80, .f32⟩ : BufTy).Contents (Elt F) → (⟨S1x80, .f32⟩ : BufTy).Contents (Elt F)),
    StableHlo.reshape main_v259 main_v260 rfl shapeCasts_S1x80_S80,
    StableHlo.binary main_v198 main_v258 main_v261 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_49 (constantI S_ 32 0#32),
    StableHlo.unary main_c_49 main_v262 (broadcastInDim S1000000 ![] bcast_S_S1000000 : (⟨S_, .i32⟩ : BufTy).Contents (Elt F) → (⟨S1000000, .i32⟩ : BufTy).Contents (Elt F)),
    StableHlo.binary main_v1 main_v262 main_v263 (cmpi .slt : (⟨S1000000, .i32⟩ : BufTy).Contents (Elt F) → (⟨S1000000, .i32⟩ : BufTy).Contents (Elt F) → (⟨S1000000, .i1⟩ : BufTy).Contents (Elt F)),
    StableHlo.nullary main_c_50 (constantI S_ 32 100000#32),
    StableHlo.unary main_c_50 main_v264 (broadcastInDim S1000000 ![] bcast_S_S1000000 : (⟨S_, .i32⟩ : BufTy).Contents (Elt F) → (⟨S1000000, .i32⟩ : BufTy).Contents (Elt F)),
    StableHlo.binary main_v1 main_v264 main_v265 (addi : (⟨S1000000, .i32⟩ : BufTy).Contents (Elt F) → (⟨S1000000, .i32⟩ : BufTy).Contents (Elt F) → (⟨S1000000, .i32⟩ : BufTy).Contents (Elt F)),
    StableHlo.ternary main_v263 main_v265 main_v1 main_v266 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v266 main_v267 (broadcastInDim S1000000x1 ![0] bcast_S1000000_S1000000x1_0 : (⟨S1000000, .i32⟩ : BufTy).Contents (Elt F) → (⟨S1000000x1, .i32⟩ : BufTy).Contents (Elt F)),
    StableHlo.binary main_v261 main_v267 main_v268 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_51 (constant S_ .f32 0x00000000#32),
    StableHlo.unary main_cst_51 main_v269 (broadcastInDim S20000x80 ![] bcast_S_S20000x80 : (⟨S_, .f32⟩ : BufTy).Contents (Elt F) → (⟨S20000x80, .f32⟩ : BufTy).Contents (Elt F)),
    StableHlo.unary main_v3 main_v270 (broadcastInDim S1000000x1 ![0] bcast_S1000000_S1000000x1_0 : (⟨S1000000, .i32⟩ : BufTy).Contents (Elt F) → (⟨S1000000x1, .i32⟩ : BufTy).Contents (Elt F)),
    StableHlo.ternary main_v269 main_v270 main_v268 main_v271 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v272 (broadcastInDim S20000x1 ![0] bcast_S20000_S20000x1_0 : (⟨S20000, .f32⟩ : BufTy).Contents (Elt F) → (⟨S20000x1, .f32⟩ : BufTy).Contents (Elt F)),
    StableHlo.unary main_v272 main_v273 (broadcastInDim S20000x80 ![0, 1] bcast_S20000x1_S20000x80_0_1 : (⟨S20000x1, .f32⟩ : BufTy).Contents (Elt F) → (⟨S20000x80, .f32⟩ : BufTy).Contents (Elt F)),
    StableHlo.binary main_v271 main_v273 main_v274 (mulf : (⟨S20000x80, .f32⟩ : BufTy).Contents (Elt F) → (⟨S20000x80, .f32⟩ : BufTy).Contents (Elt F) → (⟨S20000x80, .f32⟩ : BufTy).Contents (Elt F)),
    StableHlo.nullary main_c_52 (constantI S_ 32 0#32),
    StableHlo.unary main_c_52 main_v275 (broadcastInDim S1000000 ![] bcast_S_S1000000 : (⟨S_, .i32⟩ : BufTy).Contents (Elt F) → (⟨S1000000, .i32⟩ : BufTy).Contents (Elt F)),
    StableHlo.binary main_v3 main_v275 main_v276 (cmpi .slt : (⟨S1000000, .i32⟩ : BufTy).Contents (Elt F) → (⟨S1000000, .i32⟩ : BufTy).Contents (Elt F) → (⟨S1000000, .i1⟩ : BufTy).Contents (Elt F)),
    StableHlo.nullary main_c_53 (constantI S_ 32 20000#32),
    StableHlo.unary main_c_53 main_v277 (broadcastInDim S1000000 ![] bcast_S_S1000000 : (⟨S_, .i32⟩ : BufTy).Contents (Elt F) → (⟨S1000000, .i32⟩ : BufTy).Contents (Elt F)),
    StableHlo.binary main_v3 main_v277 main_v278 (addi : (⟨S1000000, .i32⟩ : BufTy).Contents (Elt F) → (⟨S1000000, .i32⟩ : BufTy).Contents (Elt F) → (⟨S1000000, .i32⟩ : BufTy).Contents (Elt F)),
    StableHlo.ternary main_v276 main_v278 main_v3 main_v279 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v279 main_v280 (broadcastInDim S1000000x1 ![0] bcast_S1000000_S1000000x1_0 : (⟨S1000000, .i32⟩ : BufTy).Contents (Elt F) → (⟨S1000000x1, .i32⟩ : BufTy).Contents (Elt F)),
    StableHlo.binary main_v274 main_v280 main_v281 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_54 (constant S_ .f32 0x00000000#32),
    StableHlo.unary main_cst_54 main_v282 (broadcastInDim S100000x80 ![] bcast_S_S100000x80 : (⟨S_, .f32⟩ : BufTy).Contents (Elt F) → (⟨S100000x80, .f32⟩ : BufTy).Contents (Elt F)),
    StableHlo.unary main_v1 main_v283 (broadcastInDim S1000000x1 ![0] bcast_S1000000_S1000000x1_0 : (⟨S1000000, .i32⟩ : BufTy).Contents (Elt F) → (⟨S1000000x1, .i32⟩ : BufTy).Contents (Elt F)),
    StableHlo.ternary main_v282 main_v283 main_v281 main_v284 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v285 (broadcastInDim S100000x1 ![0] bcast_S100000_S100000x1_0 : (⟨S100000, .f32⟩ : BufTy).Contents (Elt F) → (⟨S100000x1, .f32⟩ : BufTy).Contents (Elt F)),
    StableHlo.unary main_v285 main_v286 (broadcastInDim S100000x80 ![0, 1] bcast_S100000x1_S100000x80_0_1 : (⟨S100000x1, .f32⟩ : BufTy).Contents (Elt F) → (⟨S100000x80, .f32⟩ : BufTy).Contents (Elt F)),
    StableHlo.binary main_v284 main_v286 main_v287 (mulf : (⟨S100000x80, .f32⟩ : BufTy).Contents (Elt F) → (⟨S100000x80, .f32⟩ : BufTy).Contents (Elt F) → (⟨S100000x80, .f32⟩ : BufTy).Contents (Elt F)),
    StableHlo.unary main_v260 main_v288 (broadcastInDim S1x80 ![1] bcast_S80_S1x80_1 : (⟨S80, .f32⟩ : BufTy).Contents (Elt F) → (⟨S1x80, .f32⟩ : BufTy).Contents (Elt F)),
    StableHlo.unary main_v288 main_v289 (broadcastInDim S100000x80 ![0, 1] bcast_S1x80_S100000x80_0_1 : (⟨S1x80, .f32⟩ : BufTy).Contents (Elt F) → (⟨S100000x80, .f32⟩ : BufTy).Contents (Elt F)),
    StableHlo.binary main_v287 main_v289 main_v290 (addf : (⟨S100000x80, .f32⟩ : BufTy).Contents (Elt F) → (⟨S100000x80, .f32⟩ : BufTy).Contents (Elt F) → (⟨S100000x80, .f32⟩ : BufTy).Contents (Elt F)),
    StableHlo.binary main_v256 main_v290 main_v291 (addf : (⟨S100000x80, .f32⟩ : BufTy).Contents (Elt F) → (⟨S100000x80, .f32⟩ : BufTy).Contents (Elt F) → (⟨S100000x80, .f32⟩ : BufTy).Contents (Elt F)) ]

/-- Operations 423 to 433 of the program. -/
abbrev pc14 : List (HloOp τ sig (Elt F)) :=
  [ StableHlo.unary main_arg6 main_v292 ((extractStridedSlice S1x80x80 ![2, 0, 0] · slices_S6x80x80_S1x80x80_2_0_0) : (⟨S6x80x80, .f32⟩ : BufTy).Contents (Elt F) → (⟨S1x80x80, .f32⟩ : BufTy).Contents (Elt F)),
    StableHlo.reshape main_v292 main_v293 rfl shapeCasts_S1x80x80_S80x80,
    StableHlo.unary main_arg7 main_v294 ((extractStridedSlice S1x80 ![2, 0] · slices_S6x80_S1x80_2_0) : (⟨S6x80, .f32⟩ : BufTy).Contents (Elt F) → (⟨S1x80, .f32⟩ : BufTy).Contents (Elt F)),
    StableHlo.reshape main_v294 main_v295 rfl shapeCasts_S1x80_S80,
    StableHlo.binary main_v291 main_v293 main_v296 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_55 (constantI S_ 32 0#32),
    StableHlo.unary main_c_55 main_v297 (broadcastInDim S1000000 ![] bcast_S_S1000000 : (⟨S_, .i32⟩ : BufTy).Contents (Elt F) → (⟨S1000000, .i32⟩ : BufTy).Contents (Elt F)),
    StableHlo.binary main_v1 main_v297 main_v298 (cmpi .slt : (⟨S1000000, .i32⟩ : BufTy).Contents (Elt F) → (⟨S1000000, .i32⟩ : BufTy).Contents (Elt F) → (⟨S1000000, .i1⟩ : BufTy).Contents (Elt F)),
    StableHlo.nullary main_c_56 (constantI S_ 32 100000#32),
    StableHlo.unary main_c_56 main_v299 (broadcastInDim S1000000 ![] bcast_S_S1000000 : (⟨S_, .i32⟩ : BufTy).Contents (Elt F) → (⟨S1000000, .i32⟩ : BufTy).Contents (Elt F)),
    StableHlo.binary main_v1 main_v299 main_v300 (addi : (⟨S1000000, .i32⟩ : BufTy).Contents (Elt F) → (⟨S1000000, .i32⟩ : BufTy).Contents (Elt F) → (⟨S1000000, .i32⟩ : BufTy).Contents (Elt F)) ]

/-- Operations 434 to 462 of the program. -/
abbrev pc15 : List (HloOp τ sig (Elt F)) :=
  [ StableHlo.ternary main_v298 main_v300 main_v1 main_v301 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v301 main_v302 (broadcastInDim S1000000x1 ![0] bcast_S1000000_S1000000x1_0 : (⟨S1000000, .i32⟩ : BufTy).Contents (Elt F) → (⟨S1000000x1, .i32⟩ : BufTy).Contents (Elt F)),
    StableHlo.binary main_v296 main_v302 main_v303 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_57 (constant S_ .f32 0x00000000#32),
    StableHlo.unary main_cst_57 main_v304 (broadcastInDim S20000x80 ![] bcast_S_S20000x80 : (⟨S_, .f32⟩ : BufTy).Contents (Elt F) → (⟨S20000x80, .f32⟩ : BufTy).Contents (Elt F)),
    StableHlo.unary main_v3 main_v305 (broadcastInDim S1000000x1 ![0] bcast_S1000000_S1000000x1_0 : (⟨S1000000, .i32⟩ : BufTy).Contents (Elt F) → (⟨S1000000x1, .i32⟩ : BufTy).Contents (Elt F)),
    StableHlo.ternary main_v304 main_v305 main_v303 main_v306 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v307 (broadcastInDim S20000x1 ![0] bcast_S20000_S20000x1_0 : (⟨S20000, .f32⟩ : BufTy).Contents (Elt F) → (⟨S20000x1, .f32⟩ : BufTy).Contents (Elt F)),
    StableHlo.unary main_v307 main_v308 (broadcastInDim S20000x80 ![0, 1] bcast_S20000x1_S20000x80_0_1 : (⟨S20000x1, .f32⟩ : BufTy).Contents (Elt F) → (⟨S20000x80, .f32⟩ : BufTy).Contents (Elt F)),
    StableHlo.binary main_v306 main_v308 main_v309 (mulf : (⟨S20000x80, .f32⟩ : BufTy).Contents (Elt F) → (⟨S20000x80, .f32⟩ : BufTy).Contents (Elt F) → (⟨S20000x80, .f32⟩ : BufTy).Contents (Elt F)),
    StableHlo.nullary main_c_58 (constantI S_ 32 0#32),
    StableHlo.unary main_c_58 main_v310 (broadcastInDim S1000000 ![] bcast_S_S1000000 : (⟨S_, .i32⟩ : BufTy).Contents (Elt F) → (⟨S1000000, .i32⟩ : BufTy).Contents (Elt F)),
    StableHlo.binary main_v3 main_v310 main_v311 (cmpi .slt : (⟨S1000000, .i32⟩ : BufTy).Contents (Elt F) → (⟨S1000000, .i32⟩ : BufTy).Contents (Elt F) → (⟨S1000000, .i1⟩ : BufTy).Contents (Elt F)),
    StableHlo.nullary main_c_59 (constantI S_ 32 20000#32),
    StableHlo.unary main_c_59 main_v312 (broadcastInDim S1000000 ![] bcast_S_S1000000 : (⟨S_, .i32⟩ : BufTy).Contents (Elt F) → (⟨S1000000, .i32⟩ : BufTy).Contents (Elt F)),
    StableHlo.binary main_v3 main_v312 main_v313 (addi : (⟨S1000000, .i32⟩ : BufTy).Contents (Elt F) → (⟨S1000000, .i32⟩ : BufTy).Contents (Elt F) → (⟨S1000000, .i32⟩ : BufTy).Contents (Elt F)),
    StableHlo.ternary main_v311 main_v313 main_v3 main_v314 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v314 main_v315 (broadcastInDim S1000000x1 ![0] bcast_S1000000_S1000000x1_0 : (⟨S1000000, .i32⟩ : BufTy).Contents (Elt F) → (⟨S1000000x1, .i32⟩ : BufTy).Contents (Elt F)),
    StableHlo.binary main_v309 main_v315 main_v316 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_60 (constant S_ .f32 0x00000000#32),
    StableHlo.unary main_cst_60 main_v317 (broadcastInDim S100000x80 ![] bcast_S_S100000x80 : (⟨S_, .f32⟩ : BufTy).Contents (Elt F) → (⟨S100000x80, .f32⟩ : BufTy).Contents (Elt F)),
    StableHlo.unary main_v1 main_v318 (broadcastInDim S1000000x1 ![0] bcast_S1000000_S1000000x1_0 : (⟨S1000000, .i32⟩ : BufTy).Contents (Elt F) → (⟨S1000000x1, .i32⟩ : BufTy).Contents (Elt F)),
    StableHlo.ternary main_v317 main_v318 main_v316 main_v319 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v320 (broadcastInDim S100000x1 ![0] bcast_S100000_S100000x1_0 : (⟨S100000, .f32⟩ : BufTy).Contents (Elt F) → (⟨S100000x1, .f32⟩ : BufTy).Contents (Elt F)),
    StableHlo.unary main_v320 main_v321 (broadcastInDim S100000x80 ![0, 1] bcast_S100000x1_S100000x80_0_1 : (⟨S100000x1, .f32⟩ : BufTy).Contents (Elt F) → (⟨S100000x80, .f32⟩ : BufTy).Contents (Elt F)),
    StableHlo.binary main_v319 main_v321 main_v322 (mulf : (⟨S100000x80, .f32⟩ : BufTy).Contents (Elt F) → (⟨S100000x80, .f32⟩ : BufTy).Contents (Elt F) → (⟨S100000x80, .f32⟩ : BufTy).Contents (Elt F)),
    StableHlo.unary main_v295 main_v323 (broadcastInDim S1x80 ![1] bcast_S80_S1x80_1 : (⟨S80, .f32⟩ : BufTy).Contents (Elt F) → (⟨S1x80, .f32⟩ : BufTy).Contents (Elt F)),
    StableHlo.unary main_v323 main_v324 (broadcastInDim S100000x80 ![0, 1] bcast_S1x80_S100000x80_0_1 : (⟨S1x80, .f32⟩ : BufTy).Contents (Elt F) → (⟨S100000x80, .f32⟩ : BufTy).Contents (Elt F)),
    StableHlo.binary main_v322 main_v324 main_v325 (addf : (⟨S100000x80, .f32⟩ : BufTy).Contents (Elt F) → (⟨S100000x80, .f32⟩ : BufTy).Contents (Elt F) → (⟨S100000x80, .f32⟩ : BufTy).Contents (Elt F)) ]

/-- Operations 463 to 513 of the program. -/
abbrev pc16 : List (HloOp τ sig (Elt F)) :=
  [ StableHlo.unary main_arg10 main_v326 ((extractStridedSlice S1x80 ![3, 0] · slices_S7x80_S1x80_3_0) : (⟨S7x80, .f32⟩ : BufTy).Contents (Elt F) → (⟨S1x80, .f32⟩ : BufTy).Contents (Elt F)),
    StableHlo.reshape main_v326 main_v327 rfl shapeCasts_S1x80_S80,
    StableHlo.unary main_arg11 main_v328 ((extractStridedSlice S1x80 ![3, 0] · slices_S7x80_S1x80_3_0) : (⟨S7x80, .f32⟩ : BufTy).Contents (Elt F) → (⟨S1x80, .f32⟩ : BufTy).Contents (Elt F)),
    StableHlo.reshape main_v328 main_v329 rfl shapeCasts_S1x80_S80,
    StableHlo.nullary main_cst_61 (constant S_ .f32 0x00000000#32),
    StableHlo.binary main_v325 main_cst_61 main_v330 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_62 (constant S_ .f32 0x47C35000#32),
    StableHlo.unary main_cst_62 main_v331 (broadcastInDim S80 ![] bcast_S_S80 : (⟨S_, .f32⟩ : BufTy).Contents (Elt F) → (⟨S80, .f32⟩ : BufTy).Contents (Elt F)),
    StableHlo.binary main_v330 main_v331 main_v332 (Host.divf : (⟨S80, .f32⟩ : BufTy).Contents (Elt F) → (⟨S80, .f32⟩ : BufTy).Contents (Elt F) → (⟨S80, .f32⟩ : BufTy).Contents (Elt F)),
    StableHlo.nullary main_c_63 (constantI S_ 32 0#32),
    StableHlo.TRef.nullary (.of main_call8_cst : StableHlo.TRef sig ⟨S_, .f32⟩) (constant S_ .f32 0x00000000#32),
    StableHlo.TRef.binary (.of main_v325 : StableHlo.TRef sig ⟨S100000x80, .f32⟩) (.of main_call8_cst : StableHlo.TRef sig ⟨S_, .f32⟩) (.of main_call8_v0 : StableHlo.TRef sig ⟨S80, .f32⟩) (fun x v => Host.reduceAdd x v reducesTo_S100000x80_S80_d0 h_S_),
    StableHlo.TRef.unary (.of main_call8_v0 : StableHlo.TRef sig ⟨S80, .f32⟩) (.of main_call8_v1 : StableHlo.TRef sig ⟨S1x80, .f32⟩) (broadcastInDim S1x80 ![1] bcast_S80_S1x80_1),
    StableHlo.TRef.nullary (.of main_call8_cst_0 : StableHlo.TRef sig ⟨S_, .f32⟩) (constant S_ .f32 0x47C35000#32),
    StableHlo.TRef.unary (.of main_call8_cst_0 : StableHlo.TRef sig ⟨S_, .f32⟩) (.of main_call8_v2 : StableHlo.TRef sig ⟨S1x80, .f32⟩) (broadcastInDim S1x80 ![] bcast_S_S1x80),
    StableHlo.TRef.binary (.of main_call8_v1 : StableHlo.TRef sig ⟨S1x80, .f32⟩) (.of main_call8_v2 : StableHlo.TRef sig ⟨S1x80, .f32⟩) (.of main_call8_v3 : StableHlo.TRef sig ⟨S1x80, .f32⟩) Host.divf,
    StableHlo.TRef.unary (.of main_call8_v3 : StableHlo.TRef sig ⟨S1x80, .f32⟩) (.of main_call8_v4 : StableHlo.TRef sig ⟨S100000x80, .f32⟩) (broadcastInDim S100000x80 ![0, 1] bcast_S1x80_S100000x80_0_1),
    StableHlo.TRef.binary (.of main_v325 : StableHlo.TRef sig ⟨S100000x80, .f32⟩) (.of main_call8_v4 : StableHlo.TRef sig ⟨S100000x80, .f32⟩) (.of main_call8_v5 : StableHlo.TRef sig ⟨S100000x80, .f32⟩) subf,
    StableHlo.TRef.binary (.of main_call8_v5 : StableHlo.TRef sig ⟨S100000x80, .f32⟩) (.of main_call8_v5 : StableHlo.TRef sig ⟨S100000x80, .f32⟩) (.of main_call8_v6 : StableHlo.TRef sig ⟨S100000x80, .f32⟩) mulf,
    StableHlo.TRef.unary (.of main_c_63 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x47C35000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S100000x80, .f32⟩) (.of main_call8_cst_2 : StableHlo.TRef sig ⟨S_, .f32⟩) (.of main_call8_v9 : StableHlo.TRef sig ⟨S80, .f32⟩) (fun x v => Host.reduceAdd x v reducesTo_S100000x80_S80_d0 h_S_),
    StableHlo.TRef.unary (.of main_call8_v8 : StableHlo.TRef sig ⟨S_, .f32⟩) (.of main_call8_v10 : StableHlo.TRef sig ⟨S80, .f32⟩) (broadcastInDim S80 ![] bcast_S_S80),
    StableHlo.TRef.binary (.of main_call8_v9 : StableHlo.TRef sig ⟨S80, .f32⟩) (.of main_call8_v10 : StableHlo.TRef sig ⟨S80, .f32⟩) (.of main_call8_v11 : StableHlo.TRef sig ⟨S80, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S80, .f32⟩) (broadcastInDim S80 ![] bcast_S_S80),
    StableHlo.TRef.ternary (.of main_call8_v12 : StableHlo.TRef sig ⟨S_, .i1⟩) (.of main_call8_v11 : StableHlo.TRef sig ⟨S80, .f32⟩) (.of main_call8_call0_v1 : StableHlo.TRef sig ⟨S80, .f32⟩) (.of main_v333 : StableHlo.TRef sig ⟨S80, .f32⟩) (fun p a b => select (broadcastInDim S80 ![] bcast_S_S80 p) a b),
    StableHlo.unary main_v332 main_v334 (broadcastInDim S1x80 ![1] bcast_S80_S1x80_1 : (⟨S80, .f32⟩ : BufTy).Contents (Elt F) → (⟨S1x80, .f32⟩ : BufTy).Contents (Elt F)),
    StableHlo.unary main_v334 main_v335 (broadcastInDim S100000x80 ![0, 1] bcast_S1x80_S100000x80_0_1 : (⟨S1x80, .f32⟩ : BufTy).Contents (Elt F) → (⟨S100000x80, .f32⟩ : BufTy).Contents (Elt F)),
    StableHlo.binary main_v325 main_v335 main_v336 (subf : (⟨S100000x80, .f32⟩ : BufTy).Contents (Elt F) → (⟨S100000x80, .f32⟩ : BufTy).Contents (Elt F) → (⟨S100000x80, .f32⟩ : BufTy).Contents (Elt F)),
    StableHlo.unary main_v327 main_v337 (broadcastInDim S1x80 ![1] bcast_S80_S1x80_1 : (⟨S80, .f32⟩ : BufTy).Contents (Elt F) → (⟨S1x80, .f32⟩ : BufTy).Contents (Elt F)),
    StableHlo.unary main_v337 main_v338 (broadcastInDim S100000x80 ![0, 1] bcast_S1x80_S100000x80_0_1 : (⟨S1x80, .f32⟩ : BufTy).Contents (Elt F) → (⟨S100000x80, .f32⟩ : BufTy).Contents (Elt F)),
    StableHlo.binary main_v338 main_v336 main_v339 (mulf : (⟨S100000x80, .f32⟩ : BufTy).Contents (Elt F) → (⟨S100000x80, .f32⟩ : BufTy).Contents (Elt F) → (⟨S100000x80, .f32⟩ : BufTy).Contents (Elt F)),
    StableHlo.nullary main_cst_64 (constant S_ .f32 0x3727C5AC#32),
    StableHlo.unary main_cst_64 main_v340 (broadcastInDim S80 ![] bcast_S_S80 : (⟨S_, .f32⟩ : BufTy).Contents (Elt F) → (⟨S80, .f32⟩ : BufTy).Contents (Elt F)),
    StableHlo.binary main_v333 main_v340 main_v341 (addf : (⟨S80, .f32⟩ : BufTy).Contents (Elt F) → (⟨S80, .f32⟩ : BufTy).Contents (Elt F) → (⟨S80, .f32⟩ : BufTy).Contents (Elt F)),
    StableHlo.unary main_v341 main_v342 (Host.rsqrt : (⟨S80, .f32⟩ : BufTy).Contents (Elt F) → (⟨S80, .f32⟩ : BufTy).Contents (Elt F)),
    StableHlo.unary main_v342 main_v343 (broadcastInDim S1x80 ![1] bcast_S80_S1x80_1 : (⟨S80, .f32⟩ : BufTy).Contents (Elt F) → (⟨S1x80, .f32⟩ : BufTy).Contents (Elt F)),
    StableHlo.unary main_v343 main_v344 (broadcastInDim S100000x80 ![0, 1] bcast_S1x80_S100000x80_0_1 : (⟨S1x80, .f32⟩ : BufTy).Contents (Elt F) → (⟨S100000x80, .f32⟩ : BufTy).Contents (Elt F)),
    StableHlo.binary main_v339 main_v344 main_v345 (mulf : (⟨S100000x80, .f32⟩ : BufTy).Contents (Elt F) → (⟨S100000x80, .f32⟩ : BufTy).Contents (Elt F) → (⟨S100000x80, .f32⟩ : BufTy).Contents (Elt F)),
    StableHlo.unary main_v329 main_v346 (broadcastInDim S1x80 ![1] bcast_S80_S1x80_1 : (⟨S80, .f32⟩ : BufTy).Contents (Elt F) → (⟨S1x80, .f32⟩ : BufTy).Contents (Elt F)),
    StableHlo.unary main_v346 main_v347 (broadcastInDim S100000x80 ![0, 1] bcast_S1x80_S100000x80_0_1 : (⟨S1x80, .f32⟩ : BufTy).Contents (Elt F) → (⟨S100000x80, .f32⟩ : BufTy).Contents (Elt F)),
    StableHlo.binary main_v345 main_v347 main_v348 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S100000x80, .f32⟩) (broadcastInDim S100000x80 ![] bcast_S_S100000x80),
    StableHlo.TRef.binary (.of main_v348 : StableHlo.TRef sig ⟨S100000x80, .f32⟩) (.of main_call9_v0 : StableHlo.TRef sig ⟨S100000x80, .f32⟩) (.of main_v349 : StableHlo.TRef sig ⟨S100000x80, .f32⟩) maximumf ]

/-- Operations 514 to 516 of the program. -/
abbrev pc17 : List (HloOp τ sig (Elt F)) :=
  [ StableHlo.unary main_arg8 main_v350 ((extractStridedSlice S1x80x80 ![2, 0, 0] · slices_S6x80x80_S1x80x80_2_0_0) : (⟨S6x80x80, .f32⟩ : BufTy).Contents (Elt F) → (⟨S1x80x80, .f32⟩ : BufTy).Contents (Elt F)),
    StableHlo.reshape main_v350 main_v351 rfl shapeCasts_S1x80x80_S80x80,
    StableHlo.unary main_arg9 main_v352 ((extractStridedSlice S1x80 ![2, 0] · slices_S6x80_S1x80_2_0) : (⟨S6x80, .f32⟩ : BufTy).Contents (Elt F) → (⟨S1x80, .f32⟩ : BufTy).Contents (Elt F)) ]

/-- Operations 517 to 554 of the program. -/
abbrev pc18 : List (HloOp τ sig (Elt F)) :=
  [ StableHlo.reshape main_v352 main_v353 rfl shapeCasts_S1x80_S80,
    StableHlo.binary main_v291 main_v351 main_v354 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_65 (constantI S_ 32 0#32),
    StableHlo.unary main_c_65 main_v355 (broadcastInDim S1000000 ![] bcast_S_S1000000 : (⟨S_, .i32⟩ : BufTy).Contents (Elt F) → (⟨S1000000, .i32⟩ : BufTy).Contents (Elt F)),
    StableHlo.binary main_v1 main_v355 main_v356 (cmpi .slt : (⟨S1000000, .i32⟩ : BufTy).Contents (Elt F) → (⟨S1000000, .i32⟩ : BufTy).Contents (Elt F) → (⟨S1000000, .i1⟩ : BufTy).Contents (Elt F)),
    StableHlo.nullary main_c_66 (constantI S_ 32 100000#32),
    StableHlo.unary main_c_66 main_v357 (broadcastInDim S1000000 ![] bcast_S_S1000000 : (⟨S_, .i32⟩ : BufTy).Contents (Elt F) → (⟨S1000000, .i32⟩ : BufTy).Contents (Elt F)),
    StableHlo.binary main_v1 main_v357 main_v358 (addi : (⟨S1000000, .i32⟩ : BufTy).Contents (Elt F) → (⟨S1000000, .i32⟩ : BufTy).Contents (Elt F) → (⟨S1000000, .i32⟩ : BufTy).Contents (Elt F)),
    StableHlo.ternary main_v356 main_v358 main_v1 main_v359 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v359 main_v360 (broadcastInDim S1000000x1 ![0] bcast_S1000000_S1000000x1_0 : (⟨S1000000, .i32⟩ : BufTy).Contents (Elt F) → (⟨S1000000x1, .i32⟩ : BufTy).Contents (Elt F)),
    StableHlo.binary main_v354 main_v360 main_v361 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_67 (constant S_ .f32 0x00000000#32),
    StableHlo.unary main_cst_67 main_v362 (broadcastInDim S20000x80 ![] bcast_S_S20000x80 : (⟨S_, .f32⟩ : BufTy).Contents (Elt F) → (⟨S20000x80, .f32⟩ : BufTy).Contents (Elt F)),
    StableHlo.unary main_v3 main_v363 (broadcastInDim S1000000x1 ![0] bcast_S1000000_S1000000x1_0 : (⟨S1000000, .i32⟩ : BufTy).Contents (Elt F) → (⟨S1000000x1, .i32⟩ : BufTy).Contents (Elt F)),
    StableHlo.ternary main_v362 main_v363 main_v361 main_v364 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v365 (broadcastInDim S20000x1 ![0] bcast_S20000_S20000x1_0 : (⟨S20000, .f32⟩ : BufTy).Contents (Elt F) → (⟨S20000x1, .f32⟩ : BufTy).Contents (Elt F)),
    StableHlo.unary main_v365 main_v366 (broadcastInDim S20000x80 ![0, 1] bcast_S20000x1_S20000x80_0_1 : (⟨S20000x1, .f32⟩ : BufTy).Contents (Elt F) → (⟨S20000x80, .f32⟩ : BufTy).Contents (Elt F)),
    StableHlo.binary main_v364 main_v366 main_v367 (mulf : (⟨S20000x80, .f32⟩ : BufTy).Contents (Elt F) → (⟨S20000x80, .f32⟩ : BufTy).Contents (Elt F) → (⟨S20000x80, .f32⟩ : BufTy).Contents (Elt F)),
    StableHlo.nullary main_c_68 (constantI S_ 32 0#32),
    StableHlo.unary main_c_68 main_v368 (broadcastInDim S1000000 ![] bcast_S_S1000000 : (⟨S_, .i32⟩ : BufTy).Contents (Elt F) → (⟨S1000000, .i32⟩ : BufTy).Contents (Elt F)),
    StableHlo.binary main_v3 main_v368 main_v369 (cmpi .slt : (⟨S1000000, .i32⟩ : BufTy).Contents (Elt F) → (⟨S1000000, .i32⟩ : BufTy).Contents (Elt F) → (⟨S1000000, .i1⟩ : BufTy).Contents (Elt F)),
    StableHlo.nullary main_c_69 (constantI S_ 32 20000#32),
    StableHlo.unary main_c_69 main_v370 (broadcastInDim S1000000 ![] bcast_S_S1000000 : (⟨S_, .i32⟩ : BufTy).Contents (Elt F) → (⟨S1000000, .i32⟩ : BufTy).Contents (Elt F)),
    StableHlo.binary main_v3 main_v370 main_v371 (addi : (⟨S1000000, .i32⟩ : BufTy).Contents (Elt F) → (⟨S1000000, .i32⟩ : BufTy).Contents (Elt F) → (⟨S1000000, .i32⟩ : BufTy).Contents (Elt F)),
    StableHlo.ternary main_v369 main_v371 main_v3 main_v372 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v372 main_v373 (broadcastInDim S1000000x1 ![0] bcast_S1000000_S1000000x1_0 : (⟨S1000000, .i32⟩ : BufTy).Contents (Elt F) → (⟨S1000000x1, .i32⟩ : BufTy).Contents (Elt F)),
    StableHlo.binary main_v367 main_v373 main_v374 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_70 (constant S_ .f32 0x00000000#32),
    StableHlo.unary main_cst_70 main_v375 (broadcastInDim S100000x80 ![] bcast_S_S100000x80 : (⟨S_, .f32⟩ : BufTy).Contents (Elt F) → (⟨S100000x80, .f32⟩ : BufTy).Contents (Elt F)),
    StableHlo.unary main_v1 main_v376 (broadcastInDim S1000000x1 ![0] bcast_S1000000_S1000000x1_0 : (⟨S1000000, .i32⟩ : BufTy).Contents (Elt F) → (⟨S1000000x1, .i32⟩ : BufTy).Contents (Elt F)),
    StableHlo.ternary main_v375 main_v376 main_v374 main_v377 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v378 (broadcastInDim S100000x1 ![0] bcast_S100000_S100000x1_0 : (⟨S100000, .f32⟩ : BufTy).Contents (Elt F) → (⟨S100000x1, .f32⟩ : BufTy).Contents (Elt F)),
    StableHlo.unary main_v378 main_v379 (broadcastInDim S100000x80 ![0, 1] bcast_S100000x1_S100000x80_0_1 : (⟨S100000x1, .f32⟩ : BufTy).Contents (Elt F) → (⟨S100000x80, .f32⟩ : BufTy).Contents (Elt F)),
    StableHlo.binary main_v377 main_v379 main_v380 (mulf : (⟨S100000x80, .f32⟩ : BufTy).Contents (Elt F) → (⟨S100000x80, .f32⟩ : BufTy).Contents (Elt F) → (⟨S100000x80, .f32⟩ : BufTy).Contents (Elt F)),
    StableHlo.unary main_v353 main_v381 (broadcastInDim S1x80 ![1] bcast_S80_S1x80_1 : (⟨S80, .f32⟩ : BufTy).Contents (Elt F) → (⟨S1x80, .f32⟩ : BufTy).Contents (Elt F)),
    StableHlo.unary main_v381 main_v382 (broadcastInDim S100000x80 ![0, 1] bcast_S1x80_S100000x80_0_1 : (⟨S1x80, .f32⟩ : BufTy).Contents (Elt F) → (⟨S100000x80, .f32⟩ : BufTy).Contents (Elt F)),
    StableHlo.binary main_v380 main_v382 main_v383 (addf : (⟨S100000x80, .f32⟩ : BufTy).Contents (Elt F) → (⟨S100000x80, .f32⟩ : BufTy).Contents (Elt F) → (⟨S100000x80, .f32⟩ : BufTy).Contents (Elt F)),
    StableHlo.binary main_v349 main_v383 main_v384 (addf : (⟨S100000x80, .f32⟩ : BufTy).Contents (Elt F) → (⟨S100000x80, .f32⟩ : BufTy).Contents (Elt F) → (⟨S100000x80, .f32⟩ : BufTy).Contents (Elt F)) ]

/-- Operations 555 to 576 of the program. -/
abbrev pc19 : List (HloOp τ sig (Elt F)) :=
  [ StableHlo.unary main_arg6 main_v385 ((extractStridedSlice S1x80x80 ![3, 0, 0] · slices_S6x80x80_S1x80x80_3_0_0) : (⟨S6x80x80, .f32⟩ : BufTy).Contents (Elt F) → (⟨S1x80x80, .f32⟩ : BufTy).Contents (Elt F)),
    StableHlo.reshape main_v385 main_v386 rfl shapeCasts_S1x80x80_S80x80,
    StableHlo.unary main_arg7 main_v387 ((extractStridedSlice S1x80 ![3, 0] · slices_S6x80_S1x80_3_0) : (⟨S6x80, .f32⟩ : BufTy).Contents (Elt F) → (⟨S1x80, .f32⟩ : BufTy).Contents (Elt F)),
    StableHlo.reshape main_v387 main_v388 rfl shapeCasts_S1x80_S80,
    StableHlo.binary main_v384 main_v386 main_v389 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_71 (constantI S_ 32 0#32),
    StableHlo.unary main_c_71 main_v390 (broadcastInDim S1000000 ![] bcast_S_S1000000 : (⟨S_, .i32⟩ : BufTy).Contents (Elt F) → (⟨S1000000, .i32⟩ : BufTy).Contents (Elt F)),
    StableHlo.binary main_v1 main_v390 main_v391 (cmpi .slt : (⟨S1000000, .i32⟩ : BufTy).Contents (Elt F) → (⟨S1000000, .i32⟩ : BufTy).Contents (Elt F) → (⟨S1000000, .i1⟩ : BufTy).Contents (Elt F)),
    StableHlo.nullary main_c_72 (constantI S_ 32 100000#32),
    StableHlo.unary main_c_72 main_v392 (broadcastInDim S1000000 ![] bcast_S_S1000000 : (⟨S_, .i32⟩ : BufTy).Contents (Elt F) → (⟨S1000000, .i32⟩ : BufTy).Contents (Elt F)),
    StableHlo.binary main_v1 main_v392 main_v393 (addi : (⟨S1000000, .i32⟩ : BufTy).Contents (Elt F) → (⟨S1000000, .i32⟩ : BufTy).Contents (Elt F) → (⟨S1000000, .i32⟩ : BufTy).Contents (Elt F)),
    StableHlo.ternary main_v391 main_v393 main_v1 main_v394 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v394 main_v395 (broadcastInDim S1000000x1 ![0] bcast_S1000000_S1000000x1_0 : (⟨S1000000, .i32⟩ : BufTy).Contents (Elt F) → (⟨S1000000x1, .i32⟩ : BufTy).Contents (Elt F)),
    StableHlo.binary main_v389 main_v395 main_v396 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_73 (constant S_ .f32 0x00000000#32),
    StableHlo.unary main_cst_73 main_v397 (broadcastInDim S20000x80 ![] bcast_S_S20000x80 : (⟨S_, .f32⟩ : BufTy).Contents (Elt F) → (⟨S20000x80, .f32⟩ : BufTy).Contents (Elt F)),
    StableHlo.unary main_v3 main_v398 (broadcastInDim S1000000x1 ![0] bcast_S1000000_S1000000x1_0 : (⟨S1000000, .i32⟩ : BufTy).Contents (Elt F) → (⟨S1000000x1, .i32⟩ : BufTy).Contents (Elt F)),
    StableHlo.ternary main_v397 main_v398 main_v396 main_v399 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v400 (broadcastInDim S20000x1 ![0] bcast_S20000_S20000x1_0 : (⟨S20000, .f32⟩ : BufTy).Contents (Elt F) → (⟨S20000x1, .f32⟩ : BufTy).Contents (Elt F)),
    StableHlo.unary main_v400 main_v401 (broadcastInDim S20000x80 ![0, 1] bcast_S20000x1_S20000x80_0_1 : (⟨S20000x1, .f32⟩ : BufTy).Contents (Elt F) → (⟨S20000x80, .f32⟩ : BufTy).Contents (Elt F)),
    StableHlo.binary main_v399 main_v401 main_v402 (mulf : (⟨S20000x80, .f32⟩ : BufTy).Contents (Elt F) → (⟨S20000x80, .f32⟩ : BufTy).Contents (Elt F) → (⟨S20000x80, .f32⟩ : BufTy).Contents (Elt F)),
    StableHlo.nullary main_c_74 (constantI S_ 32 0#32) ]

/-- Operations 577 to 594 of the program. -/
abbrev pc20 : List (HloOp τ sig (Elt F)) :=
  [ StableHlo.unary main_c_74 main_v403 (broadcastInDim S1000000 ![] bcast_S_S1000000 : (⟨S_, .i32⟩ : BufTy).Contents (Elt F) → (⟨S1000000, .i32⟩ : BufTy).Contents (Elt F)),
    StableHlo.binary main_v3 main_v403 main_v404 (cmpi .slt : (⟨S1000000, .i32⟩ : BufTy).Contents (Elt F) → (⟨S1000000, .i32⟩ : BufTy).Contents (Elt F) → (⟨S1000000, .i1⟩ : BufTy).Contents (Elt F)),
    StableHlo.nullary main_c_75 (constantI S_ 32 20000#32),
    StableHlo.unary main_c_75 main_v405 (broadcastInDim S1000000 ![] bcast_S_S1000000 : (⟨S_, .i32⟩ : BufTy).Contents (Elt F) → (⟨S1000000, .i32⟩ : BufTy).Contents (Elt F)),
    StableHlo.binary main_v3 main_v405 main_v406 (addi : (⟨S1000000, .i32⟩ : BufTy).Contents (Elt F) → (⟨S1000000, .i32⟩ : BufTy).Contents (Elt F) → (⟨S1000000, .i32⟩ : BufTy).Contents (Elt F)),
    StableHlo.ternary main_v404 main_v406 main_v3 main_v407 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v407 main_v408 (broadcastInDim S1000000x1 ![0] bcast_S1000000_S1000000x1_0 : (⟨S1000000, .i32⟩ : BufTy).Contents (Elt F) → (⟨S1000000x1, .i32⟩ : BufTy).Contents (Elt F)),
    StableHlo.binary main_v402 main_v408 main_v409 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_76 (constant S_ .f32 0x00000000#32),
    StableHlo.unary main_cst_76 main_v410 (broadcastInDim S100000x80 ![] bcast_S_S100000x80 : (⟨S_, .f32⟩ : BufTy).Contents (Elt F) → (⟨S100000x80, .f32⟩ : BufTy).Contents (Elt F)),
    StableHlo.unary main_v1 main_v411 (broadcastInDim S1000000x1 ![0] bcast_S1000000_S1000000x1_0 : (⟨S1000000, .i32⟩ : BufTy).Contents (Elt F) → (⟨S1000000x1, .i32⟩ : BufTy).Contents (Elt F)),
    StableHlo.ternary main_v410 main_v411 main_v409 main_v412 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v413 (broadcastInDim S100000x1 ![0] bcast_S100000_S100000x1_0 : (⟨S100000, .f32⟩ : BufTy).Contents (Elt F) → (⟨S100000x1, .f32⟩ : BufTy).Contents (Elt F)),
    StableHlo.unary main_v413 main_v414 (broadcastInDim S100000x80 ![0, 1] bcast_S100000x1_S100000x80_0_1 : (⟨S100000x1, .f32⟩ : BufTy).Contents (Elt F) → (⟨S100000x80, .f32⟩ : BufTy).Contents (Elt F)),
    StableHlo.binary main_v412 main_v414 main_v415 (mulf : (⟨S100000x80, .f32⟩ : BufTy).Contents (Elt F) → (⟨S100000x80, .f32⟩ : BufTy).Contents (Elt F) → (⟨S100000x80, .f32⟩ : BufTy).Contents (Elt F)),
    StableHlo.unary main_v388 main_v416 (broadcastInDim S1x80 ![1] bcast_S80_S1x80_1 : (⟨S80, .f32⟩ : BufTy).Contents (Elt F) → (⟨S1x80, .f32⟩ : BufTy).Contents (Elt F)),
    StableHlo.unary main_v416 main_v417 (broadcastInDim S100000x80 ![0, 1] bcast_S1x80_S100000x80_0_1 : (⟨S1x80, .f32⟩ : BufTy).Contents (Elt F) → (⟨S100000x80, .f32⟩ : BufTy).Contents (Elt F)),
    StableHlo.binary main_v415 main_v417 main_v418 (addf : (⟨S100000x80, .f32⟩ : BufTy).Contents (Elt F) → (⟨S100000x80, .f32⟩ : BufTy).Contents (Elt F) → (⟨S100000x80, .f32⟩ : BufTy).Contents (Elt F)) ]

/-- Operations 595 to 645 of the program. -/
abbrev pc21 : List (HloOp τ sig (Elt F)) :=
  [ StableHlo.unary main_arg10 main_v419 ((extractStridedSlice S1x80 ![4, 0] · slices_S7x80_S1x80_4_0) : (⟨S7x80, .f32⟩ : BufTy).Contents (Elt F) → (⟨S1x80, .f32⟩ : BufTy).Contents (Elt F)),
    StableHlo.reshape main_v419 main_v420 rfl shapeCasts_S1x80_S80,
    StableHlo.unary main_arg11 main_v421 ((extractStridedSlice S1x80 ![4, 0] · slices_S7x80_S1x80_4_0) : (⟨S7x80, .f32⟩ : BufTy).Contents (Elt F) → (⟨S1x80, .f32⟩ : BufTy).Contents (Elt F)),
    StableHlo.reshape main_v421 main_v422 rfl shapeCasts_S1x80_S80,
    StableHlo.nullary main_cst_77 (constant S_ .f32 0x00000000#32),
    StableHlo.binary main_v418 main_cst_77 main_v423 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_78 (constant S_ .f32 0x47C35000#32),
    StableHlo.unary main_cst_78 main_v424 (broadcastInDim S80 ![] bcast_S_S80 : (⟨S_, .f32⟩ : BufTy).Contents (Elt F) → (⟨S80, .f32⟩ : BufTy).Contents (Elt F)),
    StableHlo.binary main_v423 main_v424 main_v425 (Host.divf : (⟨S80, .f32⟩ : BufTy).Contents (Elt F) → (⟨S80, .f32⟩ : BufTy).Contents (Elt F) → (⟨S80, .f32⟩ : BufTy).Contents (Elt F)),
    StableHlo.nullary main_c_79 (constantI S_ 32 0#32),
    StableHlo.TRef.nullary (.of main_call10_cst : StableHlo.TRef sig ⟨S_, .f32⟩) (constant S_ .f32 0x00000000#32),
    StableHlo.TRef.binary (.of main_v418 : StableHlo.TRef sig ⟨S100000x80, .f32⟩) (.of main_call10_cst : StableHlo.TRef sig ⟨S_, .f32⟩) (.of main_call10_v0 : StableHlo.TRef sig ⟨S80, .f32⟩) (fun x v => Host.reduceAdd x v reducesTo_S100000x80_S80_d0 h_S_),
    StableHlo.TRef.unary (.of main_call10_v0 : StableHlo.TRef sig ⟨S80, .f32⟩) (.of main_call10_v1 : StableHlo.TRef sig ⟨S1x80, .f32⟩) (broadcastInDim S1x80 ![1] bcast_S80_S1x80_1),
    StableHlo.TRef.nullary (.of main_call10_cst_0 : StableHlo.TRef sig ⟨S_, .f32⟩) (constant S_ .f32 0x47C35000#32),
    StableHlo.TRef.unary (.of main_call10_cst_0 : StableHlo.TRef sig ⟨S_, .f32⟩) (.of main_call10_v2 : StableHlo.TRef sig ⟨S1x80, .f32⟩) (broadcastInDim S1x80 ![] bcast_S_S1x80),
    StableHlo.TRef.binary (.of main_call10_v1 : StableHlo.TRef sig ⟨S1x80, .f32⟩) (.of main_call10_v2 : StableHlo.TRef sig ⟨S1x80, .f32⟩) (.of main_call10_v3 : StableHlo.TRef sig ⟨S1x80, .f32⟩) Host.divf,
    StableHlo.TRef.unary (.of main_call10_v3 : StableHlo.TRef sig ⟨S1x80, .f32⟩) (.of main_call10_v4 : StableHlo.TRef sig ⟨S100000x80, .f32⟩) (broadcastInDim S100000x80 ![0, 1] bcast_S1x80_S100000x80_0_1),
    StableHlo.TRef.binary (.of main_v418 : StableHlo.TRef sig ⟨S100000x80, .f32⟩) (.of main_call10_v4 : StableHlo.TRef sig ⟨S100000x80, .f32⟩) (.of main_call10_v5 : StableHlo.TRef sig ⟨S100000x80, .f32⟩) subf,
    StableHlo.TRef.binary (.of main_call10_v5 : StableHlo.TRef sig ⟨S100000x80, .f32⟩) (.of main_call10_v5 : StableHlo.TRef sig ⟨S100000x80, .f32⟩) (.of main_call10_v6 : StableHlo.TRef sig ⟨S100000x80, .f32⟩) mulf,
    StableHlo.TRef.unary (.of main_c_79 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x47C35000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S100000x80, .f32⟩) (.of main_call10_cst_2 : StableHlo.TRef sig ⟨S_, .f32⟩) (.of main_call10_v9 : StableHlo.TRef sig ⟨S80, .f32⟩) (fun x v => Host.reduceAdd x v reducesTo_S100000x80_S80_d0 h_S_),
    StableHlo.TRef.unary (.of main_call10_v8 : StableHlo.TRef sig ⟨S_, .f32⟩) (.of main_call10_v10 : StableHlo.TRef sig ⟨S80, .f32⟩) (broadcastInDim S80 ![] bcast_S_S80),
    StableHlo.TRef.binary (.of main_call10_v9 : StableHlo.TRef sig ⟨S80, .f32⟩) (.of main_call10_v10 : StableHlo.TRef sig ⟨S80, .f32⟩) (.of main_call10_v11 : StableHlo.TRef sig ⟨S80, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S80, .f32⟩) (broadcastInDim S80 ![] bcast_S_S80),
    StableHlo.TRef.ternary (.of main_call10_v12 : StableHlo.TRef sig ⟨S_, .i1⟩) (.of main_call10_v11 : StableHlo.TRef sig ⟨S80, .f32⟩) (.of main_call10_call0_v1 : StableHlo.TRef sig ⟨S80, .f32⟩) (.of main_v426 : StableHlo.TRef sig ⟨S80, .f32⟩) (fun p a b => select (broadcastInDim S80 ![] bcast_S_S80 p) a b),
    StableHlo.unary main_v425 main_v427 (broadcastInDim S1x80 ![1] bcast_S80_S1x80_1 : (⟨S80, .f32⟩ : BufTy).Contents (Elt F) → (⟨S1x80, .f32⟩ : BufTy).Contents (Elt F)),
    StableHlo.unary main_v427 main_v428 (broadcastInDim S100000x80 ![0, 1] bcast_S1x80_S100000x80_0_1 : (⟨S1x80, .f32⟩ : BufTy).Contents (Elt F) → (⟨S100000x80, .f32⟩ : BufTy).Contents (Elt F)),
    StableHlo.binary main_v418 main_v428 main_v429 (subf : (⟨S100000x80, .f32⟩ : BufTy).Contents (Elt F) → (⟨S100000x80, .f32⟩ : BufTy).Contents (Elt F) → (⟨S100000x80, .f32⟩ : BufTy).Contents (Elt F)),
    StableHlo.unary main_v420 main_v430 (broadcastInDim S1x80 ![1] bcast_S80_S1x80_1 : (⟨S80, .f32⟩ : BufTy).Contents (Elt F) → (⟨S1x80, .f32⟩ : BufTy).Contents (Elt F)),
    StableHlo.unary main_v430 main_v431 (broadcastInDim S100000x80 ![0, 1] bcast_S1x80_S100000x80_0_1 : (⟨S1x80, .f32⟩ : BufTy).Contents (Elt F) → (⟨S100000x80, .f32⟩ : BufTy).Contents (Elt F)),
    StableHlo.binary main_v431 main_v429 main_v432 (mulf : (⟨S100000x80, .f32⟩ : BufTy).Contents (Elt F) → (⟨S100000x80, .f32⟩ : BufTy).Contents (Elt F) → (⟨S100000x80, .f32⟩ : BufTy).Contents (Elt F)),
    StableHlo.nullary main_cst_80 (constant S_ .f32 0x3727C5AC#32),
    StableHlo.unary main_cst_80 main_v433 (broadcastInDim S80 ![] bcast_S_S80 : (⟨S_, .f32⟩ : BufTy).Contents (Elt F) → (⟨S80, .f32⟩ : BufTy).Contents (Elt F)),
    StableHlo.binary main_v426 main_v433 main_v434 (addf : (⟨S80, .f32⟩ : BufTy).Contents (Elt F) → (⟨S80, .f32⟩ : BufTy).Contents (Elt F) → (⟨S80, .f32⟩ : BufTy).Contents (Elt F)),
    StableHlo.unary main_v434 main_v435 (Host.rsqrt : (⟨S80, .f32⟩ : BufTy).Contents (Elt F) → (⟨S80, .f32⟩ : BufTy).Contents (Elt F)),
    StableHlo.unary main_v435 main_v436 (broadcastInDim S1x80 ![1] bcast_S80_S1x80_1 : (⟨S80, .f32⟩ : BufTy).Contents (Elt F) → (⟨S1x80, .f32⟩ : BufTy).Contents (Elt F)),
    StableHlo.unary main_v436 main_v437 (broadcastInDim S100000x80 ![0, 1] bcast_S1x80_S100000x80_0_1 : (⟨S1x80, .f32⟩ : BufTy).Contents (Elt F) → (⟨S100000x80, .f32⟩ : BufTy).Contents (Elt F)),
    StableHlo.binary main_v432 main_v437 main_v438 (mulf : (⟨S100000x80, .f32⟩ : BufTy).Contents (Elt F) → (⟨S100000x80, .f32⟩ : BufTy).Contents (Elt F) → (⟨S100000x80, .f32⟩ : BufTy).Contents (Elt F)),
    StableHlo.unary main_v422 main_v439 (broadcastInDim S1x80 ![1] bcast_S80_S1x80_1 : (⟨S80, .f32⟩ : BufTy).Contents (Elt F) → (⟨S1x80, .f32⟩ : BufTy).Contents (Elt F)),
    StableHlo.unary main_v439 main_v440 (broadcastInDim S100000x80 ![0, 1] bcast_S1x80_S100000x80_0_1 : (⟨S1x80, .f32⟩ : BufTy).Contents (Elt F) → (⟨S100000x80, .f32⟩ : BufTy).Contents (Elt F)),
    StableHlo.binary main_v438 main_v440 main_v441 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S100000x80, .f32⟩) (broadcastInDim S100000x80 ![] bcast_S_S100000x80),
    StableHlo.TRef.binary (.of main_v441 : StableHlo.TRef sig ⟨S100000x80, .f32⟩) (.of main_call11_v0 : StableHlo.TRef sig ⟨S100000x80, .f32⟩) (.of main_v442 : StableHlo.TRef sig ⟨S100000x80, .f32⟩) maximumf ]

/-- Operations 646 to 659 of the program. -/
abbrev pc22 : List (HloOp τ sig (Elt F)) :=
  [ StableHlo.unary main_arg8 main_v443 ((extractStridedSlice S1x80x80 ![3, 0, 0] · slices_S6x80x80_S1x80x80_3_0_0) : (⟨S6x80x80, .f32⟩ : BufTy).Contents (Elt F) → (⟨S1x80x80, .f32⟩ : BufTy).Contents (Elt F)),
    StableHlo.reshape main_v443 main_v444 rfl shapeCasts_S1x80x80_S80x80,
    StableHlo.unary main_arg9 main_v445 ((extractStridedSlice S1x80 ![3, 0] · slices_S6x80_S1x80_3_0) : (⟨S6x80, .f32⟩ : BufTy).Contents (Elt F) → (⟨S1x80, .f32⟩ : BufTy).Contents (Elt F)),
    StableHlo.reshape main_v445 main_v446 rfl shapeCasts_S1x80_S80,
    StableHlo.binary main_v384 main_v444 main_v447 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_81 (constantI S_ 32 0#32),
    StableHlo.unary main_c_81 main_v448 (broadcastInDim S1000000 ![] bcast_S_S1000000 : (⟨S_, .i32⟩ : BufTy).Contents (Elt F) → (⟨S1000000, .i32⟩ : BufTy).Contents (Elt F)),
    StableHlo.binary main_v1 main_v448 main_v449 (cmpi .slt : (⟨S1000000, .i32⟩ : BufTy).Contents (Elt F) → (⟨S1000000, .i32⟩ : BufTy).Contents (Elt F) → (⟨S1000000, .i1⟩ : BufTy).Contents (Elt F)),
    StableHlo.nullary main_c_82 (constantI S_ 32 100000#32),
    StableHlo.unary main_c_82 main_v450 (broadcastInDim S1000000 ![] bcast_S_S1000000 : (⟨S_, .i32⟩ : BufTy).Contents (Elt F) → (⟨S1000000, .i32⟩ : BufTy).Contents (Elt F)),
    StableHlo.binary main_v1 main_v450 main_v451 (addi : (⟨S1000000, .i32⟩ : BufTy).Contents (Elt F) → (⟨S1000000, .i32⟩ : BufTy).Contents (Elt F) → (⟨S1000000, .i32⟩ : BufTy).Contents (Elt F)),
    StableHlo.ternary main_v449 main_v451 main_v1 main_v452 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v452 main_v453 (broadcastInDim S1000000x1 ![0] bcast_S1000000_S1000000x1_0 : (⟨S1000000, .i32⟩ : BufTy).Contents (Elt F) → (⟨S1000000x1, .i32⟩ : BufTy).Contents (Elt F)),
    StableHlo.binary main_v447 main_v453 main_v454 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)) ]

/-- Operations 660 to 686 of the program. -/
abbrev pc23 : List (HloOp τ sig (Elt F)) :=
  [ StableHlo.nullary main_cst_83 (constant S_ .f32 0x00000000#32),
    StableHlo.unary main_cst_83 main_v455 (broadcastInDim S20000x80 ![] bcast_S_S20000x80 : (⟨S_, .f32⟩ : BufTy).Contents (Elt F) → (⟨S20000x80, .f32⟩ : BufTy).Contents (Elt F)),
    StableHlo.unary main_v3 main_v456 (broadcastInDim S1000000x1 ![0] bcast_S1000000_S1000000x1_0 : (⟨S1000000, .i32⟩ : BufTy).Contents (Elt F) → (⟨S1000000x1, .i32⟩ : BufTy).Contents (Elt F)),
    StableHlo.ternary main_v455 main_v456 main_v454 main_v457 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v458 (broadcastInDim S20000x1 ![0] bcast_S20000_S20000x1_0 : (⟨S20000, .f32⟩ : BufTy).Contents (Elt F) → (⟨S20000x1, .f32⟩ : BufTy).Contents (Elt F)),
    StableHlo.unary main_v458 main_v459 (broadcastInDim S20000x80 ![0, 1] bcast_S20000x1_S20000x80_0_1 : (⟨S20000x1, .f32⟩ : BufTy).Contents (Elt F) → (⟨S20000x80, .f32⟩ : BufTy).Contents (Elt F)),
    StableHlo.binary main_v457 main_v459 main_v460 (mulf : (⟨S20000x80, .f32⟩ : BufTy).Contents (Elt F) → (⟨S20000x80, .f32⟩ : BufTy).Contents (Elt F) → (⟨S20000x80, .f32⟩ : BufTy).Contents (Elt F)),
    StableHlo.nullary main_c_84 (constantI S_ 32 0#32),
    StableHlo.unary main_c_84 main_v461 (broadcastInDim S1000000 ![] bcast_S_S1000000 : (⟨S_, .i32⟩ : BufTy).Contents (Elt F) → (⟨S1000000, .i32⟩ : BufTy).Contents (Elt F)),
    StableHlo.binary main_v3 main_v461 main_v462 (cmpi .slt : (⟨S1000000, .i32⟩ : BufTy).Contents (Elt F) → (⟨S1000000, .i32⟩ : BufTy).Contents (Elt F) → (⟨S1000000, .i1⟩ : BufTy).Contents (Elt F)),
    StableHlo.nullary main_c_85 (constantI S_ 32 20000#32),
    StableHlo.unary main_c_85 main_v463 (broadcastInDim S1000000 ![] bcast_S_S1000000 : (⟨S_, .i32⟩ : BufTy).Contents (Elt F) → (⟨S1000000, .i32⟩ : BufTy).Contents (Elt F)),
    StableHlo.binary main_v3 main_v463 main_v464 (addi : (⟨S1000000, .i32⟩ : BufTy).Contents (Elt F) → (⟨S1000000, .i32⟩ : BufTy).Contents (Elt F) → (⟨S1000000, .i32⟩ : BufTy).Contents (Elt F)),
    StableHlo.ternary main_v462 main_v464 main_v3 main_v465 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v465 main_v466 (broadcastInDim S1000000x1 ![0] bcast_S1000000_S1000000x1_0 : (⟨S1000000, .i32⟩ : BufTy).Contents (Elt F) → (⟨S1000000x1, .i32⟩ : BufTy).Contents (Elt F)),
    StableHlo.binary main_v460 main_v466 main_v467 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_86 (constant S_ .f32 0x00000000#32),
    StableHlo.unary main_cst_86 main_v468 (broadcastInDim S100000x80 ![] bcast_S_S100000x80 : (⟨S_, .f32⟩ : BufTy).Contents (Elt F) → (⟨S100000x80, .f32⟩ : BufTy).Contents (Elt F)),
    StableHlo.unary main_v1 main_v469 (broadcastInDim S1000000x1 ![0] bcast_S1000000_S1000000x1_0 : (⟨S1000000, .i32⟩ : BufTy).Contents (Elt F) → (⟨S1000000x1, .i32⟩ : BufTy).Contents (Elt F)),
    StableHlo.ternary main_v468 main_v469 main_v467 main_v470 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v471 (broadcastInDim S100000x1 ![0] bcast_S100000_S100000x1_0 : (⟨S100000, .f32⟩ : BufTy).Contents (Elt F) → (⟨S100000x1, .f32⟩ : BufTy).Contents (Elt F)),
    StableHlo.unary main_v471 main_v472 (broadcastInDim S100000x80 ![0, 1] bcast_S100000x1_S100000x80_0_1 : (⟨S100000x1, .f32⟩ : BufTy).Contents (Elt F) → (⟨S100000x80, .f32⟩ : BufTy).Contents (Elt F)),
    StableHlo.binary main_v470 main_v472 main_v473 (mulf : (⟨S100000x80, .f32⟩ : BufTy).Contents (Elt F) → (⟨S100000x80, .f32⟩ : BufTy).Contents (Elt F) → (⟨S100000x80, .f32⟩ : BufTy).Contents (Elt F)),
    StableHlo.unary main_v446 main_v474 (broadcastInDim S1x80 ![1] bcast_S80_S1x80_1 : (⟨S80, .f32⟩ : BufTy).Contents (Elt F) → (⟨S1x80, .f32⟩ : BufTy).Contents (Elt F)),
    StableHlo.unary main_v474 main_v475 (broadcastInDim S100000x80 ![0, 1] bcast_S1x80_S100000x80_0_1 : (⟨S1x80, .f32⟩ : BufTy).Contents (Elt F) → (⟨S100000x80, .f32⟩ : BufTy).Contents (Elt F)),
    StableHlo.binary main_v473 main_v475 main_v476 (addf : (⟨S100000x80, .f32⟩ : BufTy).Contents (Elt F) → (⟨S100000x80, .f32⟩ : BufTy).Contents (Elt F) → (⟨S100000x80, .f32⟩ : BufTy).Contents (Elt F)),
    StableHlo.binary main_v442 main_v476 main_v477 (addf : (⟨S100000x80, .f32⟩ : BufTy).Contents (Elt F) → (⟨S100000x80, .f32⟩ : BufTy).Contents (Elt F) → (⟨S100000x80, .f32⟩ : BufTy).Contents (Elt F)) ]

/-- Operations 687 to 719 of the program. -/
abbrev pc24 : List (HloOp τ sig (Elt F)) :=
  [ StableHlo.unary main_arg6 main_v478 ((extractStridedSlice S1x80x80 ![4, 0, 0] · slices_S6x80x80_S1x80x80_4_0_0) : (⟨S6x80x80, .f32⟩ : BufTy).Contents (Elt F) → (⟨S1x80x80, .f32⟩ : BufTy).Contents (Elt F)),
    StableHlo.reshape main_v478 main_v479 rfl shapeCasts_S1x80x80_S80x80,
    StableHlo.unary main_arg7 main_v480 ((extractStridedSlice S1x80 ![4, 0] · slices_S6x80_S1x80_4_0) : (⟨S6x80, .f32⟩ : BufTy).Contents (Elt F) → (⟨S1x80, .f32⟩ : BufTy).Contents (Elt F)),
    StableHlo.reshape main_v480 main_v481 rfl shapeCasts_S1x80_S80,
    StableHlo.binary main_v477 main_v479 main_v482 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_87 (constantI S_ 32 0#32),
    StableHlo.unary main_c_87 main_v483 (broadcastInDim S1000000 ![] bcast_S_S1000000 : (⟨S_, .i32⟩ : BufTy).Contents (Elt F) → (⟨S1000000, .i32⟩ : BufTy).Contents (Elt F)),
    StableHlo.binary main_v1 main_v483 main_v484 (cmpi .slt : (⟨S1000000, .i32⟩ : BufTy).Contents (Elt F) → (⟨S1000000, .i32⟩ : BufTy).Contents (Elt F) → (⟨S1000000, .i1⟩ : BufTy).Contents (Elt F)),
    StableHlo.nullary main_c_88 (constantI S_ 32 100000#32),
    StableHlo.unary main_c_88 main_v485 (broadcastInDim S1000000 ![] bcast_S_S1000000 : (⟨S_, .i32⟩ : BufTy).Contents (Elt F) → (⟨S1000000, .i32⟩ : BufTy).Contents (Elt F)),
    StableHlo.binary main_v1 main_v485 main_v486 (addi : (⟨S1000000, .i32⟩ : BufTy).Contents (Elt F) → (⟨S1000000, .i32⟩ : BufTy).Contents (Elt F) → (⟨S1000000, .i32⟩ : BufTy).Contents (Elt F)),
    StableHlo.ternary main_v484 main_v486 main_v1 main_v487 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v487 main_v488 (broadcastInDim S1000000x1 ![0] bcast_S1000000_S1000000x1_0 : (⟨S1000000, .i32⟩ : BufTy).Contents (Elt F) → (⟨S1000000x1, .i32⟩ : BufTy).Contents (Elt F)),
    StableHlo.binary main_v482 main_v488 main_v489 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_89 (constant S_ .f32 0x00000000#32),
    StableHlo.unary main_cst_89 main_v490 (broadcastInDim S20000x80 ![] bcast_S_S20000x80 : (⟨S_, .f32⟩ : BufTy).Contents (Elt F) → (⟨S20000x80, .f32⟩ : BufTy).Contents (Elt F)),
    StableHlo.unary main_v3 main_v491 (broadcastInDim S1000000x1 ![0] bcast_S1000000_S1000000x1_0 : (⟨S1000000, .i32⟩ : BufTy).Contents (Elt F) → (⟨S1000000x1, .i32⟩ : BufTy).Contents (Elt F)),
    StableHlo.ternary main_v490 main_v491 main_v489 main_v492 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v493 (broadcastInDim S20000x1 ![0] bcast_S20000_S20000x1_0 : (⟨S20000, .f32⟩ : BufTy).Contents (Elt F) → (⟨S20000x1, .f32⟩ : BufTy).Contents (Elt F)),
    StableHlo.unary main_v493 main_v494 (broadcastInDim S20000x80 ![0, 1] bcast_S20000x1_S20000x80_0_1 : (⟨S20000x1, .f32⟩ : BufTy).Contents (Elt F) → (⟨S20000x80, .f32⟩ : BufTy).Contents (Elt F)),
    StableHlo.binary main_v492 main_v494 main_v495 (mulf : (⟨S20000x80, .f32⟩ : BufTy).Contents (Elt F) → (⟨S20000x80, .f32⟩ : BufTy).Contents (Elt F) → (⟨S20000x80, .f32⟩ : BufTy).Contents (Elt F)),
    StableHlo.nullary main_c_90 (constantI S_ 32 0#32),
    StableHlo.unary main_c_90 main_v496 (broadcastInDim S1000000 ![] bcast_S_S1000000 : (⟨S_, .i32⟩ : BufTy).Contents (Elt F) → (⟨S1000000, .i32⟩ : BufTy).Contents (Elt F)),
    StableHlo.binary main_v3 main_v496 main_v497 (cmpi .slt : (⟨S1000000, .i32⟩ : BufTy).Contents (Elt F) → (⟨S1000000, .i32⟩ : BufTy).Contents (Elt F) → (⟨S1000000, .i1⟩ : BufTy).Contents (Elt F)),
    StableHlo.nullary main_c_91 (constantI S_ 32 20000#32),
    StableHlo.unary main_c_91 main_v498 (broadcastInDim S1000000 ![] bcast_S_S1000000 : (⟨S_, .i32⟩ : BufTy).Contents (Elt F) → (⟨S1000000, .i32⟩ : BufTy).Contents (Elt F)),
    StableHlo.binary main_v3 main_v498 main_v499 (addi : (⟨S1000000, .i32⟩ : BufTy).Contents (Elt F) → (⟨S1000000, .i32⟩ : BufTy).Contents (Elt F) → (⟨S1000000, .i32⟩ : BufTy).Contents (Elt F)),
    StableHlo.ternary main_v497 main_v499 main_v3 main_v500 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v500 main_v501 (broadcastInDim S1000000x1 ![0] bcast_S1000000_S1000000x1_0 : (⟨S1000000, .i32⟩ : BufTy).Contents (Elt F) → (⟨S1000000x1, .i32⟩ : BufTy).Contents (Elt F)),
    StableHlo.binary main_v495 main_v501 main_v502 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_92 (constant S_ .f32 0x00000000#32),
    StableHlo.unary main_cst_92 main_v503 (broadcastInDim S100000x80 ![] bcast_S_S100000x80 : (⟨S_, .f32⟩ : BufTy).Contents (Elt F) → (⟨S100000x80, .f32⟩ : BufTy).Contents (Elt F)),
    StableHlo.unary main_v1 main_v504 (broadcastInDim S1000000x1 ![0] bcast_S1000000_S1000000x1_0 : (⟨S1000000, .i32⟩ : BufTy).Contents (Elt F) → (⟨S1000000x1, .i32⟩ : BufTy).Contents (Elt F)) ]

/-- Operations 720 to 726 of the program. -/
abbrev pc25 : List (HloOp τ sig (Elt F)) :=
  [ StableHlo.ternary main_v503 main_v504 main_v502 main_v505 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v506 (broadcastInDim S100000x1 ![0] bcast_S100000_S100000x1_0 : (⟨S100000, .f32⟩ : BufTy).Contents (Elt F) → (⟨S100000x1, .f32⟩ : BufTy).Contents (Elt F)),
    StableHlo.unary main_v506 main_v507 (broadcastInDim S100000x80 ![0, 1] bcast_S100000x1_S100000x80_0_1 : (⟨S100000x1, .f32⟩ : BufTy).Contents (Elt F) → (⟨S100000x80, .f32⟩ : BufTy).Contents (Elt F)),
    StableHlo.binary main_v505 main_v507 main_v508 (mulf : (⟨S100000x80, .f32⟩ : BufTy).Contents (Elt F) → (⟨S100000x80, .f32⟩ : BufTy).Contents (Elt F) → (⟨S100000x80, .f32⟩ : BufTy).Contents (Elt F)),
    StableHlo.unary main_v481 main_v509 (broadcastInDim S1x80 ![1] bcast_S80_S1x80_1 : (⟨S80, .f32⟩ : BufTy).Contents (Elt F) → (⟨S1x80, .f32⟩ : BufTy).Contents (Elt F)),
    StableHlo.unary main_v509 main_v510 (broadcastInDim S100000x80 ![0, 1] bcast_S1x80_S100000x80_0_1 : (⟨S1x80, .f32⟩ : BufTy).Contents (Elt F) → (⟨S100000x80, .f32⟩ : BufTy).Contents (Elt F)),
    StableHlo.binary main_v508 main_v510 main_v511 (addf : (⟨S100000x80, .f32⟩ : BufTy).Contents (Elt F) → (⟨S100000x80, .f32⟩ : BufTy).Contents (Elt F) → (⟨S100000x80, .f32⟩ : BufTy).Contents (Elt F)) ]

/-- Operations 727 to 777 of the program. -/
abbrev pc26 : List (HloOp τ sig (Elt F)) :=
  [ StableHlo.unary main_arg10 main_v512 ((extractStridedSlice S1x80 ![5, 0] · slices_S7x80_S1x80_5_0) : (⟨S7x80, .f32⟩ : BufTy).Contents (Elt F) → (⟨S1x80, .f32⟩ : BufTy).Contents (Elt F)),
    StableHlo.reshape main_v512 main_v513 rfl shapeCasts_S1x80_S80,
    StableHlo.unary main_arg11 main_v514 ((extractStridedSlice S1x80 ![5, 0] · slices_S7x80_S1x80_5_0) : (⟨S7x80, .f32⟩ : BufTy).Contents (Elt F) → (⟨S1x80, .f32⟩ : BufTy).Contents (Elt F)),
    StableHlo.reshape main_v514 main_v515 rfl shapeCasts_S1x80_S80,
    StableHlo.nullary main_cst_93 (constant S_ .f32 0x00000000#32),
    StableHlo.binary main_v511 main_cst_93 main_v516 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_94 (constant S_ .f32 0x47C35000#32),
    StableHlo.unary main_cst_94 main_v517 (broadcastInDim S80 ![] bcast_S_S80 : (⟨S_, .f32⟩ : BufTy).Contents (Elt F) → (⟨S80, .f32⟩ : BufTy).Contents (Elt F)),
    StableHlo.binary main_v516 main_v517 main_v518 (Host.divf : (⟨S80, .f32⟩ : BufTy).Contents (Elt F) → (⟨S80, .f32⟩ : BufTy).Contents (Elt F) → (⟨S80, .f32⟩ : BufTy).Contents (Elt F)),
    StableHlo.nullary main_c_95 (constantI S_ 32 0#32),
    StableHlo.TRef.nullary (.of main_call12_cst : StableHlo.TRef sig ⟨S_, .f32⟩) (constant S_ .f32 0x00000000#32),
    StableHlo.TRef.binary (.of main_v511 : StableHlo.TRef sig ⟨S100000x80, .f32⟩) (.of main_call12_cst : StableHlo.TRef sig ⟨S_, .f32⟩) (.of main_call12_v0 : StableHlo.TRef sig ⟨S80, .f32⟩) (fun x v => Host.reduceAdd x v reducesTo_S100000x80_S80_d0 h_S_),
    StableHlo.TRef.unary (.of main_call12_v0 : StableHlo.TRef sig ⟨S80, .f32⟩) (.of main_call12_v1 : StableHlo.TRef sig ⟨S1x80, .f32⟩) (broadcastInDim S1x80 ![1] bcast_S80_S1x80_1),
    StableHlo.TRef.nullary (.of main_call12_cst_0 : StableHlo.TRef sig ⟨S_, .f32⟩) (constant S_ .f32 0x47C35000#32),
    StableHlo.TRef.unary (.of main_call12_cst_0 : StableHlo.TRef sig ⟨S_, .f32⟩) (.of main_call12_v2 : StableHlo.TRef sig ⟨S1x80, .f32⟩) (broadcastInDim S1x80 ![] bcast_S_S1x80),
    StableHlo.TRef.binary (.of main_call12_v1 : StableHlo.TRef sig ⟨S1x80, .f32⟩) (.of main_call12_v2 : StableHlo.TRef sig ⟨S1x80, .f32⟩) (.of main_call12_v3 : StableHlo.TRef sig ⟨S1x80, .f32⟩) Host.divf,
    StableHlo.TRef.unary (.of main_call12_v3 : StableHlo.TRef sig ⟨S1x80, .f32⟩) (.of main_call12_v4 : StableHlo.TRef sig ⟨S100000x80, .f32⟩) (broadcastInDim S100000x80 ![0, 1] bcast_S1x80_S100000x80_0_1),
    StableHlo.TRef.binary (.of main_v511 : StableHlo.TRef sig ⟨S100000x80, .f32⟩) (.of main_call12_v4 : StableHlo.TRef sig ⟨S100000x80, .f32⟩) (.of main_call12_v5 : StableHlo.TRef sig ⟨S100000x80, .f32⟩) subf,
    StableHlo.TRef.binary (.of main_call12_v5 : StableHlo.TRef sig ⟨S100000x80, .f32⟩) (.of main_call12_v5 : StableHlo.TRef sig ⟨S100000x80, .f32⟩) (.of main_call12_v6 : StableHlo.TRef sig ⟨S100000x80, .f32⟩) mulf,
    StableHlo.TRef.unary (.of main_c_95 : StableHlo.TRef sig ⟨S_, .i32⟩) (.of main_call12_v7 : StableHlo.TRef sig ⟨S_, .f32⟩) (sitofp .f32),
    StableHlo.TRef.nullary (.of main_call12_cst_1 : StableHlo.TRef sig ⟨S_, .f32⟩) (constant S_ .f32 0x47C35000#32),
    StableHlo.TRef.binary (.of main_call12_cst_1 : StableHlo.TRef sig ⟨S_, .f32⟩) (.of main_call12_v7 : StableHlo.TRef sig ⟨S_, .f32⟩) (.of main_call12_v8 : StableHlo.TRef sig ⟨S_, .f32⟩) subf,
    StableHlo.TRef.nullary (.of main_call12_cst_2 : StableHlo.TRef sig ⟨S_, .f32⟩) (constant S_ .f32 0x00000000#32),
    StableHlo.TRef.binary (.of main_call12_v6 : StableHlo.TRef sig ⟨S100000x80, .f32⟩) (.of main_call12_cst_2 : StableHlo.TRef sig ⟨S_, .f32⟩) (.of main_call12_v9 : StableHlo.TRef sig ⟨S80, .f32⟩) (fun x v => Host.reduceAdd x v reducesTo_S100000x80_S80_d0 h_S_),
    StableHlo.TRef.unary (.of main_call12_v8 : StableHlo.TRef sig ⟨S_, .f32⟩) (.of main_call12_v10 : StableHlo.TRef sig ⟨S80, .f32⟩) (broadcastInDim S80 ![] bcast_S_S80),
    StableHlo.TRef.binary (.of main_call12_v9 : StableHlo.TRef sig ⟨S80, .f32⟩) (.of main_call12_v10 : StableHlo.TRef sig ⟨S80, .f32⟩) (.of main_call12_v11 : StableHlo.TRef sig ⟨S80, .f32⟩) Host.divf,
    StableHlo.TRef.nullary (.of main_call12_cst_3 : StableHlo.TRef sig ⟨S_, .f32⟩) (constant S_ .f32 0x00000000#32),
    StableHlo.TRef.binary (.of main_call12_v8 : StableHlo.TRef sig ⟨S_, .f32⟩) (.of main_call12_cst_3 : StableHlo.TRef sig ⟨S_, .f32⟩) (.of main_call12_v12 : StableHlo.TRef sig ⟨S_, .i1⟩) (cmpf .ogt),
    StableHlo.TRef.nullary (.of main_call12_cst_4 : StableHlo.TRef sig ⟨S_, .f32⟩) (constant S_ .f32 0x7FC00000#32),
    StableHlo.TRef.unary (.of main_call12_cst_4 : StableHlo.TRef sig ⟨S_, .f32⟩) (.of main_call12_call0_v0 : StableHlo.TRef sig ⟨S_, .f32⟩) id,
    StableHlo.TRef.unary (.of main_call12_call0_v0 : StableHlo.TRef sig ⟨S_, .f32⟩) (.of main_call12_call0_v1 : StableHlo.TRef sig ⟨S80, .f32⟩) (broadcastInDim S80 ![] bcast_S_S80),
    StableHlo.TRef.ternary (.of main_call12_v12 : StableHlo.TRef sig ⟨S_, .i1⟩) (.of main_call12_v11 : StableHlo.TRef sig ⟨S80, .f32⟩) (.of main_call12_call0_v1 : StableHlo.TRef sig ⟨S80, .f32⟩) (.of main_v519 : StableHlo.TRef sig ⟨S80, .f32⟩) (fun p a b => select (broadcastInDim S80 ![] bcast_S_S80 p) a b),
    StableHlo.unary main_v518 main_v520 (broadcastInDim S1x80 ![1] bcast_S80_S1x80_1 : (⟨S80, .f32⟩ : BufTy).Contents (Elt F) → (⟨S1x80, .f32⟩ : BufTy).Contents (Elt F)),
    StableHlo.unary main_v520 main_v521 (broadcastInDim S100000x80 ![0, 1] bcast_S1x80_S100000x80_0_1 : (⟨S1x80, .f32⟩ : BufTy).Contents (Elt F) → (⟨S100000x80, .f32⟩ : BufTy).Contents (Elt F)),
    StableHlo.binary main_v511 main_v521 main_v522 (subf : (⟨S100000x80, .f32⟩ : BufTy).Contents (Elt F) → (⟨S100000x80, .f32⟩ : BufTy).Contents (Elt F) → (⟨S100000x80, .f32⟩ : BufTy).Contents (Elt F)),
    StableHlo.unary main_v513 main_v523 (broadcastInDim S1x80 ![1] bcast_S80_S1x80_1 : (⟨S80, .f32⟩ : BufTy).Contents (Elt F) → (⟨S1x80, .f32⟩ : BufTy).Contents (Elt F)),
    StableHlo.unary main_v523 main_v524 (broadcastInDim S100000x80 ![0, 1] bcast_S1x80_S100000x80_0_1 : (⟨S1x80, .f32⟩ : BufTy).Contents (Elt F) → (⟨S100000x80, .f32⟩ : BufTy).Contents (Elt F)),
    StableHlo.binary main_v524 main_v522 main_v525 (mulf : (⟨S100000x80, .f32⟩ : BufTy).Contents (Elt F) → (⟨S100000x80, .f32⟩ : BufTy).Contents (Elt F) → (⟨S100000x80, .f32⟩ : BufTy).Contents (Elt F)),
    StableHlo.nullary main_cst_96 (constant S_ .f32 0x3727C5AC#32),
    StableHlo.unary main_cst_96 main_v526 (broadcastInDim S80 ![] bcast_S_S80 : (⟨S_, .f32⟩ : BufTy).Contents (Elt F) → (⟨S80, .f32⟩ : BufTy).Contents (Elt F)),
    StableHlo.binary main_v519 main_v526 main_v527 (addf : (⟨S80, .f32⟩ : BufTy).Contents (Elt F) → (⟨S80, .f32⟩ : BufTy).Contents (Elt F) → (⟨S80, .f32⟩ : BufTy).Contents (Elt F)),
    StableHlo.unary main_v527 main_v528 (Host.rsqrt : (⟨S80, .f32⟩ : BufTy).Contents (Elt F) → (⟨S80, .f32⟩ : BufTy).Contents (Elt F)),
    StableHlo.unary main_v528 main_v529 (broadcastInDim S1x80 ![1] bcast_S80_S1x80_1 : (⟨S80, .f32⟩ : BufTy).Contents (Elt F) → (⟨S1x80, .f32⟩ : BufTy).Contents (Elt F)),
    StableHlo.unary main_v529 main_v530 (broadcastInDim S100000x80 ![0, 1] bcast_S1x80_S100000x80_0_1 : (⟨S1x80, .f32⟩ : BufTy).Contents (Elt F) → (⟨S100000x80, .f32⟩ : BufTy).Contents (Elt F)),
    StableHlo.binary main_v525 main_v530 main_v531 (mulf : (⟨S100000x80, .f32⟩ : BufTy).Contents (Elt F) → (⟨S100000x80, .f32⟩ : BufTy).Contents (Elt F) → (⟨S100000x80, .f32⟩ : BufTy).Contents (Elt F)),
    StableHlo.unary main_v515 main_v532 (broadcastInDim S1x80 ![1] bcast_S80_S1x80_1 : (⟨S80, .f32⟩ : BufTy).Contents (Elt F) → (⟨S1x80, .f32⟩ : BufTy).Contents (Elt F)),
    StableHlo.unary main_v532 main_v533 (broadcastInDim S100000x80 ![0, 1] bcast_S1x80_S100000x80_0_1 : (⟨S1x80, .f32⟩ : BufTy).Contents (Elt F) → (⟨S100000x80, .f32⟩ : BufTy).Contents (Elt F)),
    StableHlo.binary main_v531 main_v533 main_v534 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S100000x80, .f32⟩) (broadcastInDim S100000x80 ![] bcast_S_S100000x80),
    StableHlo.TRef.binary (.of main_v534 : StableHlo.TRef sig ⟨S100000x80, .f32⟩) (.of main_call13_v0 : StableHlo.TRef sig ⟨S100000x80, .f32⟩) (.of main_v535 : StableHlo.TRef sig ⟨S100000x80, .f32⟩) maximumf ]

/-- Operations 778 to 802 of the program. -/
abbrev pc27 : List (HloOp τ sig (Elt F)) :=
  [ StableHlo.unary main_arg8 main_v536 ((extractStridedSlice S1x80x80 ![4, 0, 0] · slices_S6x80x80_S1x80x80_4_0_0) : (⟨S6x80x80, .f32⟩ : BufTy).Contents (Elt F) → (⟨S1x80x80, .f32⟩ : BufTy).Contents (Elt F)),
    StableHlo.reshape main_v536 main_v537 rfl shapeCasts_S1x80x80_S80x80,
    StableHlo.unary main_arg9 main_v538 ((extractStridedSlice S1x80 ![4, 0] · slices_S6x80_S1x80_4_0) : (⟨S6x80, .f32⟩ : BufTy).Contents (Elt F) → (⟨S1x80, .f32⟩ : BufTy).Contents (Elt F)),
    StableHlo.reshape main_v538 main_v539 rfl shapeCasts_S1x80_S80,
    StableHlo.binary main_v477 main_v537 main_v540 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_97 (constantI S_ 32 0#32),
    StableHlo.unary main_c_97 main_v541 (broadcastInDim S1000000 ![] bcast_S_S1000000 : (⟨S_, .i32⟩ : BufTy).Contents (Elt F) → (⟨S1000000, .i32⟩ : BufTy).Contents (Elt F)),
    StableHlo.binary main_v1 main_v541 main_v542 (cmpi .slt : (⟨S1000000, .i32⟩ : BufTy).Contents (Elt F) → (⟨S1000000, .i32⟩ : BufTy).Contents (Elt F) → (⟨S1000000, .i1⟩ : BufTy).Contents (Elt F)),
    StableHlo.nullary main_c_98 (constantI S_ 32 100000#32),
    StableHlo.unary main_c_98 main_v543 (broadcastInDim S1000000 ![] bcast_S_S1000000 : (⟨S_, .i32⟩ : BufTy).Contents (Elt F) → (⟨S1000000, .i32⟩ : BufTy).Contents (Elt F)),
    StableHlo.binary main_v1 main_v543 main_v544 (addi : (⟨S1000000, .i32⟩ : BufTy).Contents (Elt F) → (⟨S1000000, .i32⟩ : BufTy).Contents (Elt F) → (⟨S1000000, .i32⟩ : BufTy).Contents (Elt F)),
    StableHlo.ternary main_v542 main_v544 main_v1 main_v545 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v545 main_v546 (broadcastInDim S1000000x1 ![0] bcast_S1000000_S1000000x1_0 : (⟨S1000000, .i32⟩ : BufTy).Contents (Elt F) → (⟨S1000000x1, .i32⟩ : BufTy).Contents (Elt F)),
    StableHlo.binary main_v540 main_v546 main_v547 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_99 (constant S_ .f32 0x00000000#32),
    StableHlo.unary main_cst_99 main_v548 (broadcastInDim S20000x80 ![] bcast_S_S20000x80 : (⟨S_, .f32⟩ : BufTy).Contents (Elt F) → (⟨S20000x80, .f32⟩ : BufTy).Contents (Elt F)),
    StableHlo.unary main_v3 main_v549 (broadcastInDim S1000000x1 ![0] bcast_S1000000_S1000000x1_0 : (⟨S1000000, .i32⟩ : BufTy).Contents (Elt F) → (⟨S1000000x1, .i32⟩ : BufTy).Contents (Elt F)),
    StableHlo.ternary main_v548 main_v549 main_v547 main_v550 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v551 (broadcastInDim S20000x1 ![0] bcast_S20000_S20000x1_0 : (⟨S20000, .f32⟩ : BufTy).Contents (Elt F) → (⟨S20000x1, .f32⟩ : BufTy).Contents (Elt F)),
    StableHlo.unary main_v551 main_v552 (broadcastInDim S20000x80 ![0, 1] bcast_S20000x1_S20000x80_0_1 : (⟨S20000x1, .f32⟩ : BufTy).Contents (Elt F) → (⟨S20000x80, .f32⟩ : BufTy).Contents (Elt F)),
    StableHlo.binary main_v550 main_v552 main_v553 (mulf : (⟨S20000x80, .f32⟩ : BufTy).Contents (Elt F) → (⟨S20000x80, .f32⟩ : BufTy).Contents (Elt F) → (⟨S20000x80, .f32⟩ : BufTy).Contents (Elt F)),
    StableHlo.nullary main_c_100 (constantI S_ 32 0#32),
    StableHlo.unary main_c_100 main_v554 (broadcastInDim S1000000 ![] bcast_S_S1000000 : (⟨S_, .i32⟩ : BufTy).Contents (Elt F) → (⟨S1000000, .i32⟩ : BufTy).Contents (Elt F)),
    StableHlo.binary main_v3 main_v554 main_v555 (cmpi .slt : (⟨S1000000, .i32⟩ : BufTy).Contents (Elt F) → (⟨S1000000, .i32⟩ : BufTy).Contents (Elt F) → (⟨S1000000, .i1⟩ : BufTy).Contents (Elt F)),
    StableHlo.nullary main_c_101 (constantI S_ 32 20000#32) ]

/-- Operations 803 to 818 of the program. -/
abbrev pc28 : List (HloOp τ sig (Elt F)) :=
  [ StableHlo.unary main_c_101 main_v556 (broadcastInDim S1000000 ![] bcast_S_S1000000 : (⟨S_, .i32⟩ : BufTy).Contents (Elt F) → (⟨S1000000, .i32⟩ : BufTy).Contents (Elt F)),
    StableHlo.binary main_v3 main_v556 main_v557 (addi : (⟨S1000000, .i32⟩ : BufTy).Contents (Elt F) → (⟨S1000000, .i32⟩ : BufTy).Contents (Elt F) → (⟨S1000000, .i32⟩ : BufTy).Contents (Elt F)),
    StableHlo.ternary main_v555 main_v557 main_v3 main_v558 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v558 main_v559 (broadcastInDim S1000000x1 ![0] bcast_S1000000_S1000000x1_0 : (⟨S1000000, .i32⟩ : BufTy).Contents (Elt F) → (⟨S1000000x1, .i32⟩ : BufTy).Contents (Elt F)),
    StableHlo.binary main_v553 main_v559 main_v560 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_102 (constant S_ .f32 0x00000000#32),
    StableHlo.unary main_cst_102 main_v561 (broadcastInDim S100000x80 ![] bcast_S_S100000x80 : (⟨S_, .f32⟩ : BufTy).Contents (Elt F) → (⟨S100000x80, .f32⟩ : BufTy).Contents (Elt F)),
    StableHlo.unary main_v1 main_v562 (broadcastInDim S1000000x1 ![0] bcast_S1000000_S1000000x1_0 : (⟨S1000000, .i32⟩ : BufTy).Contents (Elt F) → (⟨S1000000x1, .i32⟩ : BufTy).Contents (Elt F)),
    StableHlo.ternary main_v561 main_v562 main_v560 main_v563 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v564 (broadcastInDim S100000x1 ![0] bcast_S100000_S100000x1_0 : (⟨S100000, .f32⟩ : BufTy).Contents (Elt F) → (⟨S100000x1, .f32⟩ : BufTy).Contents (Elt F)),
    StableHlo.unary main_v564 main_v565 (broadcastInDim S100000x80 ![0, 1] bcast_S100000x1_S100000x80_0_1 : (⟨S100000x1, .f32⟩ : BufTy).Contents (Elt F) → (⟨S100000x80, .f32⟩ : BufTy).Contents (Elt F)),
    StableHlo.binary main_v563 main_v565 main_v566 (mulf : (⟨S100000x80, .f32⟩ : BufTy).Contents (Elt F) → (⟨S100000x80, .f32⟩ : BufTy).Contents (Elt F) → (⟨S100000x80, .f32⟩ : BufTy).Contents (Elt F)),
    StableHlo.unary main_v539 main_v567 (broadcastInDim S1x80 ![1] bcast_S80_S1x80_1 : (⟨S80, .f32⟩ : BufTy).Contents (Elt F) → (⟨S1x80, .f32⟩ : BufTy).Contents (Elt F)),
    StableHlo.unary main_v567 main_v568 (broadcastInDim S100000x80 ![0, 1] bcast_S1x80_S100000x80_0_1 : (⟨S1x80, .f32⟩ : BufTy).Contents (Elt F) → (⟨S100000x80, .f32⟩ : BufTy).Contents (Elt F)),
    StableHlo.binary main_v566 main_v568 main_v569 (addf : (⟨S100000x80, .f32⟩ : BufTy).Contents (Elt F) → (⟨S100000x80, .f32⟩ : BufTy).Contents (Elt F) → (⟨S100000x80, .f32⟩ : BufTy).Contents (Elt F)),
    StableHlo.binary main_v535 main_v569 main_v570 (addf : (⟨S100000x80, .f32⟩ : BufTy).Contents (Elt F) → (⟨S100000x80, .f32⟩ : BufTy).Contents (Elt F) → (⟨S100000x80, .f32⟩ : BufTy).Contents (Elt F)) ]

/-- Operations 819 to 858 of the program. -/
abbrev pc29 : List (HloOp τ sig (Elt F)) :=
  [ StableHlo.unary main_arg6 main_v571 ((extractStridedSlice S1x80x80 ![5, 0, 0] · slices_S6x80x80_S1x80x80_5_0_0) : (⟨S6x80x80, .f32⟩ : BufTy).Contents (Elt F) → (⟨S1x80x80, .f32⟩ : BufTy).Contents (Elt F)),
    StableHlo.reshape main_v571 main_v572 rfl shapeCasts_S1x80x80_S80x80,
    StableHlo.unary main_arg7 main_v573 ((extractStridedSlice S1x80 ![5, 0] · slices_S6x80_S1x80_5_0) : (⟨S6x80, .f32⟩ : BufTy).Contents (Elt F) → (⟨S1x80, .f32⟩ : BufTy).Contents (Elt F)),
    StableHlo.reshape main_v573 main_v574 rfl shapeCasts_S1x80_S80,
    StableHlo.binary main_v570 main_v572 main_v575 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_103 (constantI S_ 32 0#32),
    StableHlo.unary main_c_103 main_v576 (broadcastInDim S1000000 ![] bcast_S_S1000000 : (⟨S_, .i32⟩ : BufTy).Contents (Elt F) → (⟨S1000000, .i32⟩ : BufTy).Contents (Elt F)),
    StableHlo.binary main_v1 main_v576 main_v577 (cmpi .slt : (⟨S1000000, .i32⟩ : BufTy).Contents (Elt F) → (⟨S1000000, .i32⟩ : BufTy).Contents (Elt F) → (⟨S1000000, .i1⟩ : BufTy).Contents (Elt F)),
    StableHlo.nullary main_c_104 (constantI S_ 32 100000#32),
    StableHlo.unary main_c_104 main_v578 (broadcastInDim S1000000 ![] bcast_S_S1000000 : (⟨S_, .i32⟩ : BufTy).Contents (Elt F) → (⟨S1000000, .i32⟩ : BufTy).Contents (Elt F)),
    StableHlo.binary main_v1 main_v578 main_v579 (addi : (⟨S1000000, .i32⟩ : BufTy).Contents (Elt F) → (⟨S1000000, .i32⟩ : BufTy).Contents (Elt F) → (⟨S1000000, .i32⟩ : BufTy).Contents (Elt F)),
    StableHlo.ternary main_v577 main_v579 main_v1 main_v580 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v580 main_v581 (broadcastInDim S1000000x1 ![0] bcast_S1000000_S1000000x1_0 : (⟨S1000000, .i32⟩ : BufTy).Contents (Elt F) → (⟨S1000000x1, .i32⟩ : BufTy).Contents (Elt F)),
    StableHlo.binary main_v575 main_v581 main_v582 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_105 (constant S_ .f32 0x00000000#32),
    StableHlo.unary main_cst_105 main_v583 (broadcastInDim S20000x80 ![] bcast_S_S20000x80 : (⟨S_, .f32⟩ : BufTy).Contents (Elt F) → (⟨S20000x80, .f32⟩ : BufTy).Contents (Elt F)),
    StableHlo.unary main_v3 main_v584 (broadcastInDim S1000000x1 ![0] bcast_S1000000_S1000000x1_0 : (⟨S1000000, .i32⟩ : BufTy).Contents (Elt F) → (⟨S1000000x1, .i32⟩ : BufTy).Contents (Elt F)),
    StableHlo.ternary main_v583 main_v584 main_v582 main_v585 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v586 (broadcastInDim S20000x1 ![0] bcast_S20000_S20000x1_0 : (⟨S20000, .f32⟩ : BufTy).Contents (Elt F) → (⟨S20000x1, .f32⟩ : BufTy).Contents (Elt F)),
    StableHlo.unary main_v586 main_v587 (broadcastInDim S20000x80 ![0, 1] bcast_S20000x1_S20000x80_0_1 : (⟨S20000x1, .f32⟩ : BufTy).Contents (Elt F) → (⟨S20000x80, .f32⟩ : BufTy).Contents (Elt F)),
    StableHlo.binary main_v585 main_v587 main_v588 (mulf : (⟨S20000x80, .f32⟩ : BufTy).Contents (Elt F) → (⟨S20000x80, .f32⟩ : BufTy).Contents (Elt F) → (⟨S20000x80, .f32⟩ : BufTy).Contents (Elt F)),
    StableHlo.nullary main_c_106 (constantI S_ 32 0#32),
    StableHlo.unary main_c_106 main_v589 (broadcastInDim S1000000 ![] bcast_S_S1000000 : (⟨S_, .i32⟩ : BufTy).Contents (Elt F) → (⟨S1000000, .i32⟩ : BufTy).Contents (Elt F)),
    StableHlo.binary main_v3 main_v589 main_v590 (cmpi .slt : (⟨S1000000, .i32⟩ : BufTy).Contents (Elt F) → (⟨S1000000, .i32⟩ : BufTy).Contents (Elt F) → (⟨S1000000, .i1⟩ : BufTy).Contents (Elt F)),
    StableHlo.nullary main_c_107 (constantI S_ 32 20000#32),
    StableHlo.unary main_c_107 main_v591 (broadcastInDim S1000000 ![] bcast_S_S1000000 : (⟨S_, .i32⟩ : BufTy).Contents (Elt F) → (⟨S1000000, .i32⟩ : BufTy).Contents (Elt F)),
    StableHlo.binary main_v3 main_v591 main_v592 (addi : (⟨S1000000, .i32⟩ : BufTy).Contents (Elt F) → (⟨S1000000, .i32⟩ : BufTy).Contents (Elt F) → (⟨S1000000, .i32⟩ : BufTy).Contents (Elt F)),
    StableHlo.ternary main_v590 main_v592 main_v3 main_v593 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v593 main_v594 (broadcastInDim S1000000x1 ![0] bcast_S1000000_S1000000x1_0 : (⟨S1000000, .i32⟩ : BufTy).Contents (Elt F) → (⟨S1000000x1, .i32⟩ : BufTy).Contents (Elt F)),
    StableHlo.binary main_v588 main_v594 main_v595 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_108 (constant S_ .f32 0x00000000#32),
    StableHlo.unary main_cst_108 main_v596 (broadcastInDim S100000x80 ![] bcast_S_S100000x80 : (⟨S_, .f32⟩ : BufTy).Contents (Elt F) → (⟨S100000x80, .f32⟩ : BufTy).Contents (Elt F)),
    StableHlo.unary main_v1 main_v597 (broadcastInDim S1000000x1 ![0] bcast_S1000000_S1000000x1_0 : (⟨S1000000, .i32⟩ : BufTy).Contents (Elt F) → (⟨S1000000x1, .i32⟩ : BufTy).Contents (Elt F)),
    StableHlo.ternary main_v596 main_v597 main_v595 main_v598 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v599 (broadcastInDim S100000x1 ![0] bcast_S100000_S100000x1_0 : (⟨S100000, .f32⟩ : BufTy).Contents (Elt F) → (⟨S100000x1, .f32⟩ : BufTy).Contents (Elt F)),
    StableHlo.unary main_v599 main_v600 (broadcastInDim S100000x80 ![0, 1] bcast_S100000x1_S100000x80_0_1 : (⟨S100000x1, .f32⟩ : BufTy).Contents (Elt F) → (⟨S100000x80, .f32⟩ : BufTy).Contents (Elt F)),
    StableHlo.binary main_v598 main_v600 main_v601 (mulf : (⟨S100000x80, .f32⟩ : BufTy).Contents (Elt F) → (⟨S100000x80, .f32⟩ : BufTy).Contents (Elt F) → (⟨S100000x80, .f32⟩ : BufTy).Contents (Elt F)),
    StableHlo.unary main_v574 main_v602 (broadcastInDim S1x80 ![1] bcast_S80_S1x80_1 : (⟨S80, .f32⟩ : BufTy).Contents (Elt F) → (⟨S1x80, .f32⟩ : BufTy).Contents (Elt F)),
    StableHlo.unary main_v602 main_v603 (broadcastInDim S100000x80 ![0, 1] bcast_S1x80_S100000x80_0_1 : (⟨S1x80, .f32⟩ : BufTy).Contents (Elt F) → (⟨S100000x80, .f32⟩ : BufTy).Contents (Elt F)),
    StableHlo.binary main_v601 main_v603 main_v604 (addf : (⟨S100000x80, .f32⟩ : BufTy).Contents (Elt F) → (⟨S100000x80, .f32⟩ : BufTy).Contents (Elt F) → (⟨S100000x80, .f32⟩ : BufTy).Contents (Elt F)) ]

/-- Operations 859 to 862 of the program. -/
abbrev pc30 : List (HloOp τ sig (Elt F)) :=
  [ StableHlo.unary main_arg10 main_v605 ((extractStridedSlice S1x80 ![6, 0] · slices_S7x80_S1x80_6_0) : (⟨S7x80, .f32⟩ : BufTy).Contents (Elt F) → (⟨S1x80, .f32⟩ : BufTy).Contents (Elt F)),
    StableHlo.reshape main_v605 main_v606 rfl shapeCasts_S1x80_S80,
    StableHlo.unary main_arg11 main_v607 ((extractStridedSlice S1x80 ![6, 0] · slices_S7x80_S1x80_6_0) : (⟨S7x80, .f32⟩ : BufTy).Contents (Elt F) → (⟨S1x80, .f32⟩ : BufTy).Contents (Elt F)),
    StableHlo.reshape main_v607 main_v608 rfl shapeCasts_S1x80_S80 ]

/-- Operations 863 to 909 of the program. -/
abbrev pc31 : List (HloOp τ sig (Elt F)) :=
  [ StableHlo.nullary main_cst_109 (constant S_ .f32 0x00000000#32),
    StableHlo.binary main_v604 main_cst_109 main_v609 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_110 (constant S_ .f32 0x47C35000#32),
    StableHlo.unary main_cst_110 main_v610 (broadcastInDim S80 ![] bcast_S_S80 : (⟨S_, .f32⟩ : BufTy).Contents (Elt F) → (⟨S80, .f32⟩ : BufTy).Contents (Elt F)),
    StableHlo.binary main_v609 main_v610 main_v611 (Host.divf : (⟨S80, .f32⟩ : BufTy).Contents (Elt F) → (⟨S80, .f32⟩ : BufTy).Contents (Elt F) → (⟨S80, .f32⟩ : BufTy).Contents (Elt F)),
    StableHlo.nullary main_c_111 (constantI S_ 32 0#32),
    StableHlo.TRef.nullary (.of main_call14_cst : StableHlo.TRef sig ⟨S_, .f32⟩) (constant S_ .f32 0x00000000#32),
    StableHlo.TRef.binary (.of main_v604 : StableHlo.TRef sig ⟨S100000x80, .f32⟩) (.of main_call14_cst : StableHlo.TRef sig ⟨S_, .f32⟩) (.of main_call14_v0 : StableHlo.TRef sig ⟨S80, .f32⟩) (fun x v => Host.reduceAdd x v reducesTo_S100000x80_S80_d0 h_S_),
    StableHlo.TRef.unary (.of main_call14_v0 : StableHlo.TRef sig ⟨S80, .f32⟩) (.of main_call14_v1 : StableHlo.TRef sig ⟨S1x80, .f32⟩) (broadcastInDim S1x80 ![1] bcast_S80_S1x80_1),
    StableHlo.TRef.nullary (.of main_call14_cst_0 : StableHlo.TRef sig ⟨S_, .f32⟩) (constant S_ .f32 0x47C35000#32),
    StableHlo.TRef.unary (.of main_call14_cst_0 : StableHlo.TRef sig ⟨S_, .f32⟩) (.of main_call14_v2 : StableHlo.TRef sig ⟨S1x80, .f32⟩) (broadcastInDim S1x80 ![] bcast_S_S1x80),
    StableHlo.TRef.binary (.of main_call14_v1 : StableHlo.TRef sig ⟨S1x80, .f32⟩) (.of main_call14_v2 : StableHlo.TRef sig ⟨S1x80, .f32⟩) (.of main_call14_v3 : StableHlo.TRef sig ⟨S1x80, .f32⟩) Host.divf,
    StableHlo.TRef.unary (.of main_call14_v3 : StableHlo.TRef sig ⟨S1x80, .f32⟩) (.of main_call14_v4 : StableHlo.TRef sig ⟨S100000x80, .f32⟩) (broadcastInDim S100000x80 ![0, 1] bcast_S1x80_S100000x80_0_1),
    StableHlo.TRef.binary (.of main_v604 : StableHlo.TRef sig ⟨S100000x80, .f32⟩) (.of main_call14_v4 : StableHlo.TRef sig ⟨S100000x80, .f32⟩) (.of main_call14_v5 : StableHlo.TRef sig ⟨S100000x80, .f32⟩) subf,
    StableHlo.TRef.binary (.of main_call14_v5 : StableHlo.TRef sig ⟨S100000x80, .f32⟩) (.of main_call14_v5 : StableHlo.TRef sig ⟨S100000x80, .f32⟩) (.of main_call14_v6 : StableHlo.TRef sig ⟨S100000x80, .f32⟩) mulf,
    StableHlo.TRef.unary (.of main_c_111 : StableHlo.TRef sig ⟨S_, .i32⟩) (.of main_call14_v7 : StableHlo.TRef sig ⟨S_, .f32⟩) (sitofp .f32),
    StableHlo.TRef.nullary (.of main_call14_cst_1 : StableHlo.TRef sig ⟨S_, .f32⟩) (constant S_ .f32 0x47C35000#32),
    StableHlo.TRef.binary (.of main_call14_cst_1 : StableHlo.TRef sig ⟨S_, .f32⟩) (.of main_call14_v7 : StableHlo.TRef sig ⟨S_, .f32⟩) (.of main_call14_v8 : StableHlo.TRef sig ⟨S_, .f32⟩) subf,
    StableHlo.TRef.nullary (.of main_call14_cst_2 : StableHlo.TRef sig ⟨S_, .f32⟩) (constant S_ .f32 0x00000000#32),
    StableHlo.TRef.binary (.of main_call14_v6 : StableHlo.TRef sig ⟨S100000x80, .f32⟩) (.of main_call14_cst_2 : StableHlo.TRef sig ⟨S_, .f32⟩) (.of main_call14_v9 : StableHlo.TRef sig ⟨S80, .f32⟩) (fun x v => Host.reduceAdd x v reducesTo_S100000x80_S80_d0 h_S_),
    StableHlo.TRef.unary (.of main_call14_v8 : StableHlo.TRef sig ⟨S_, .f32⟩) (.of main_call14_v10 : StableHlo.TRef sig ⟨S80, .f32⟩) (broadcastInDim S80 ![] bcast_S_S80),
    StableHlo.TRef.binary (.of main_call14_v9 : StableHlo.TRef sig ⟨S80, .f32⟩) (.of main_call14_v10 : StableHlo.TRef sig ⟨S80, .f32⟩) (.of main_call14_v11 : StableHlo.TRef sig ⟨S80, .f32⟩) Host.divf,
    StableHlo.TRef.nullary (.of main_call14_cst_3 : StableHlo.TRef sig ⟨S_, .f32⟩) (constant S_ .f32 0x00000000#32),
    StableHlo.TRef.binary (.of main_call14_v8 : StableHlo.TRef sig ⟨S_, .f32⟩) (.of main_call14_cst_3 : StableHlo.TRef sig ⟨S_, .f32⟩) (.of main_call14_v12 : StableHlo.TRef sig ⟨S_, .i1⟩) (cmpf .ogt),
    StableHlo.TRef.nullary (.of main_call14_cst_4 : StableHlo.TRef sig ⟨S_, .f32⟩) (constant S_ .f32 0x7FC00000#32),
    StableHlo.TRef.unary (.of main_call14_cst_4 : StableHlo.TRef sig ⟨S_, .f32⟩) (.of main_call14_call0_v0 : StableHlo.TRef sig ⟨S_, .f32⟩) id,
    StableHlo.TRef.unary (.of main_call14_call0_v0 : StableHlo.TRef sig ⟨S_, .f32⟩) (.of main_call14_call0_v1 : StableHlo.TRef sig ⟨S80, .f32⟩) (broadcastInDim S80 ![] bcast_S_S80),
    StableHlo.TRef.ternary (.of main_call14_v12 : StableHlo.TRef sig ⟨S_, .i1⟩) (.of main_call14_v11 : StableHlo.TRef sig ⟨S80, .f32⟩) (.of main_call14_call0_v1 : StableHlo.TRef sig ⟨S80, .f32⟩) (.of main_v612 : StableHlo.TRef sig ⟨S80, .f32⟩) (fun p a b => select (broadcastInDim S80 ![] bcast_S_S80 p) a b),
    StableHlo.unary main_v611 main_v613 (broadcastInDim S1x80 ![1] bcast_S80_S1x80_1 : (⟨S80, .f32⟩ : BufTy).Contents (Elt F) → (⟨S1x80, .f32⟩ : BufTy).Contents (Elt F)),
    StableHlo.unary main_v613 main_v614 (broadcastInDim S100000x80 ![0, 1] bcast_S1x80_S100000x80_0_1 : (⟨S1x80, .f32⟩ : BufTy).Contents (Elt F) → (⟨S100000x80, .f32⟩ : BufTy).Contents (Elt F)),
    StableHlo.binary main_v604 main_v614 main_v615 (subf : (⟨S100000x80, .f32⟩ : BufTy).Contents (Elt F) → (⟨S100000x80, .f32⟩ : BufTy).Contents (Elt F) → (⟨S100000x80, .f32⟩ : BufTy).Contents (Elt F)),
    StableHlo.unary main_v606 main_v616 (broadcastInDim S1x80 ![1] bcast_S80_S1x80_1 : (⟨S80, .f32⟩ : BufTy).Contents (Elt F) → (⟨S1x80, .f32⟩ : BufTy).Contents (Elt F)),
    StableHlo.unary main_v616 main_v617 (broadcastInDim S100000x80 ![0, 1] bcast_S1x80_S100000x80_0_1 : (⟨S1x80, .f32⟩ : BufTy).Contents (Elt F) → (⟨S100000x80, .f32⟩ : BufTy).Contents (Elt F)),
    StableHlo.binary main_v617 main_v615 main_v618 (mulf : (⟨S100000x80, .f32⟩ : BufTy).Contents (Elt F) → (⟨S100000x80, .f32⟩ : BufTy).Contents (Elt F) → (⟨S100000x80, .f32⟩ : BufTy).Contents (Elt F)),
    StableHlo.nullary main_cst_112 (constant S_ .f32 0x3727C5AC#32),
    StableHlo.unary main_cst_112 main_v619 (broadcastInDim S80 ![] bcast_S_S80 : (⟨S_, .f32⟩ : BufTy).Contents (Elt F) → (⟨S80, .f32⟩ : BufTy).Contents (Elt F)),
    StableHlo.binary main_v612 main_v619 main_v620 (addf : (⟨S80, .f32⟩ : BufTy).Contents (Elt F) → (⟨S80, .f32⟩ : BufTy).Contents (Elt F) → (⟨S80, .f32⟩ : BufTy).Contents (Elt F)),
    StableHlo.unary main_v620 main_v621 (Host.rsqrt : (⟨S80, .f32⟩ : BufTy).Contents (Elt F) → (⟨S80, .f32⟩ : BufTy).Contents (Elt F)),
    StableHlo.unary main_v621 main_v622 (broadcastInDim S1x80 ![1] bcast_S80_S1x80_1 : (⟨S80, .f32⟩ : BufTy).Contents (Elt F) → (⟨S1x80, .f32⟩ : BufTy).Contents (Elt F)),
    StableHlo.unary main_v622 main_v623 (broadcastInDim S100000x80 ![0, 1] bcast_S1x80_S100000x80_0_1 : (⟨S1x80, .f32⟩ : BufTy).Contents (Elt F) → (⟨S100000x80, .f32⟩ : BufTy).Contents (Elt F)),
    StableHlo.binary main_v618 main_v623 main_v624 (mulf : (⟨S100000x80, .f32⟩ : BufTy).Contents (Elt F) → (⟨S100000x80, .f32⟩ : BufTy).Contents (Elt F) → (⟨S100000x80, .f32⟩ : BufTy).Contents (Elt F)),
    StableHlo.unary main_v608 main_v625 (broadcastInDim S1x80 ![1] bcast_S80_S1x80_1 : (⟨S80, .f32⟩ : BufTy).Contents (Elt F) → (⟨S1x80, .f32⟩ : BufTy).Contents (Elt F)),
    StableHlo.unary main_v625 main_v626 (broadcastInDim S100000x80 ![0, 1] bcast_S1x80_S100000x80_0_1 : (⟨S1x80, .f32⟩ : BufTy).Contents (Elt F) → (⟨S100000x80, .f32⟩ : BufTy).Contents (Elt F)),
    StableHlo.binary main_v624 main_v626 main_v627 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call15_cst : StableHlo.TRef sig ⟨S_, .f32⟩) (constant S_ .f32 0x00000000#32),
    StableHlo.TRef.unary (.of main_call15_cst : StableHlo.TRef sig ⟨S_, .f32⟩) (.of main_call15_v0 : StableHlo.TRef sig ⟨S100000x80, .f32⟩) (broadcastInDim S100000x80 ![] bcast_S_S100000x80),
    StableHlo.TRef.binary (.of main_v627 : StableHlo.TRef sig ⟨S100000x80, .f32⟩) (.of main_call15_v0 : StableHlo.TRef sig ⟨S100000x80, .f32⟩) (.of main_v628 : StableHlo.TRef sig ⟨S100000x80, .f32⟩) maximumf ]

/-- Operations 910 to 945 of the program. -/
abbrev pc32 : List (HloOp τ sig (Elt F)) :=
  [ StableHlo.unary main_arg8 main_v629 ((extractStridedSlice S1x80x80 ![5, 0, 0] · slices_S6x80x80_S1x80x80_5_0_0) : (⟨S6x80x80, .f32⟩ : BufTy).Contents (Elt F) → (⟨S1x80x80, .f32⟩ : BufTy).Contents (Elt F)),
    StableHlo.reshape main_v629 main_v630 rfl shapeCasts_S1x80x80_S80x80,
    StableHlo.unary main_arg9 main_v631 ((extractStridedSlice S1x80 ![5, 0] · slices_S6x80_S1x80_5_0) : (⟨S6x80, .f32⟩ : BufTy).Contents (Elt F) → (⟨S1x80, .f32⟩ : BufTy).Contents (Elt F)),
    StableHlo.reshape main_v631 main_v632 rfl shapeCasts_S1x80_S80,
    StableHlo.binary main_v570 main_v630 main_v633 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_113 (constantI S_ 32 0#32),
    StableHlo.unary main_c_113 main_v634 (broadcastInDim S1000000 ![] bcast_S_S1000000 : (⟨S_, .i32⟩ : BufTy).Contents (Elt F) → (⟨S1000000, .i32⟩ : BufTy).Contents (Elt F)),
    StableHlo.binary main_v1 main_v634 main_v635 (cmpi .slt : (⟨S1000000, .i32⟩ : BufTy).Contents (Elt F) → (⟨S1000000, .i32⟩ : BufTy).Contents (Elt F) → (⟨S1000000, .i1⟩ : BufTy).Contents (Elt F)),
    StableHlo.nullary main_c_114 (constantI S_ 32 100000#32),
    StableHlo.unary main_c_114 main_v636 (broadcastInDim S1000000 ![] bcast_S_S1000000 : (⟨S_, .i32⟩ : BufTy).Contents (Elt F) → (⟨S1000000, .i32⟩ : BufTy).Contents (Elt F)),
    StableHlo.binary main_v1 main_v636 main_v637 (addi : (⟨S1000000, .i32⟩ : BufTy).Contents (Elt F) → (⟨S1000000, .i32⟩ : BufTy).Contents (Elt F) → (⟨S1000000, .i32⟩ : BufTy).Contents (Elt F)),
    StableHlo.ternary main_v635 main_v637 main_v1 main_v638 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v638 main_v639 (broadcastInDim S1000000x1 ![0] bcast_S1000000_S1000000x1_0 : (⟨S1000000, .i32⟩ : BufTy).Contents (Elt F) → (⟨S1000000x1, .i32⟩ : BufTy).Contents (Elt F)),
    StableHlo.binary main_v633 main_v639 main_v640 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_115 (constant S_ .f32 0x00000000#32),
    StableHlo.unary main_cst_115 main_v641 (broadcastInDim S20000x80 ![] bcast_S_S20000x80 : (⟨S_, .f32⟩ : BufTy).Contents (Elt F) → (⟨S20000x80, .f32⟩ : BufTy).Contents (Elt F)),
    StableHlo.unary main_v3 main_v642 (broadcastInDim S1000000x1 ![0] bcast_S1000000_S1000000x1_0 : (⟨S1000000, .i32⟩ : BufTy).Contents (Elt F) → (⟨S1000000x1, .i32⟩ : BufTy).Contents (Elt F)),
    StableHlo.ternary main_v641 main_v642 main_v640 main_v643 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v644 (broadcastInDim S20000x1 ![0] bcast_S20000_S20000x1_0 : (⟨S20000, .f32⟩ : BufTy).Contents (Elt F) → (⟨S20000x1, .f32⟩ : BufTy).Contents (Elt F)),
    StableHlo.unary main_v644 main_v645 (broadcastInDim S20000x80 ![0, 1] bcast_S20000x1_S20000x80_0_1 : (⟨S20000x1, .f32⟩ : BufTy).Contents (Elt F) → (⟨S20000x80, .f32⟩ : BufTy).Contents (Elt F)),
    StableHlo.binary main_v643 main_v645 main_v646 (mulf : (⟨S20000x80, .f32⟩ : BufTy).Contents (Elt F) → (⟨S20000x80, .f32⟩ : BufTy).Contents (Elt F) → (⟨S20000x80, .f32⟩ : BufTy).Contents (Elt F)),
    StableHlo.nullary main_c_116 (constantI S_ 32 0#32),
    StableHlo.unary main_c_116 main_v647 (broadcastInDim S1000000 ![] bcast_S_S1000000 : (⟨S_, .i32⟩ : BufTy).Contents (Elt F) → (⟨S1000000, .i32⟩ : BufTy).Contents (Elt F)),
    StableHlo.binary main_v3 main_v647 main_v648 (cmpi .slt : (⟨S1000000, .i32⟩ : BufTy).Contents (Elt F) → (⟨S1000000, .i32⟩ : BufTy).Contents (Elt F) → (⟨S1000000, .i1⟩ : BufTy).Contents (Elt F)),
    StableHlo.nullary main_c_117 (constantI S_ 32 20000#32),
    StableHlo.unary main_c_117 main_v649 (broadcastInDim S1000000 ![] bcast_S_S1000000 : (⟨S_, .i32⟩ : BufTy).Contents (Elt F) → (⟨S1000000, .i32⟩ : BufTy).Contents (Elt F)),
    StableHlo.binary main_v3 main_v649 main_v650 (addi : (⟨S1000000, .i32⟩ : BufTy).Contents (Elt F) → (⟨S1000000, .i32⟩ : BufTy).Contents (Elt F) → (⟨S1000000, .i32⟩ : BufTy).Contents (Elt F)),
    StableHlo.ternary main_v648 main_v650 main_v3 main_v651 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v651 main_v652 (broadcastInDim S1000000x1 ![0] bcast_S1000000_S1000000x1_0 : (⟨S1000000, .i32⟩ : BufTy).Contents (Elt F) → (⟨S1000000x1, .i32⟩ : BufTy).Contents (Elt F)),
    StableHlo.binary main_v646 main_v652 main_v653 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_118 (constant S_ .f32 0x00000000#32),
    StableHlo.unary main_cst_118 main_v654 (broadcastInDim S100000x80 ![] bcast_S_S100000x80 : (⟨S_, .f32⟩ : BufTy).Contents (Elt F) → (⟨S100000x80, .f32⟩ : BufTy).Contents (Elt F)),
    StableHlo.unary main_v1 main_v655 (broadcastInDim S1000000x1 ![0] bcast_S1000000_S1000000x1_0 : (⟨S1000000, .i32⟩ : BufTy).Contents (Elt F) → (⟨S1000000x1, .i32⟩ : BufTy).Contents (Elt F)),
    StableHlo.ternary main_v654 main_v655 main_v653 main_v656 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v657 (broadcastInDim S100000x1 ![0] bcast_S100000_S100000x1_0 : (⟨S100000, .f32⟩ : BufTy).Contents (Elt F) → (⟨S100000x1, .f32⟩ : BufTy).Contents (Elt F)),
    StableHlo.unary main_v657 main_v658 (broadcastInDim S100000x80 ![0, 1] bcast_S100000x1_S100000x80_0_1 : (⟨S100000x1, .f32⟩ : BufTy).Contents (Elt F) → (⟨S100000x80, .f32⟩ : BufTy).Contents (Elt F)) ]

/-- Operations 946 to 950 of the program. -/
abbrev pc33 : List (HloOp τ sig (Elt F)) :=
  [ StableHlo.binary main_v656 main_v658 main_v659 (mulf : (⟨S100000x80, .f32⟩ : BufTy).Contents (Elt F) → (⟨S100000x80, .f32⟩ : BufTy).Contents (Elt F) → (⟨S100000x80, .f32⟩ : BufTy).Contents (Elt F)),
    StableHlo.unary main_v632 main_v660 (broadcastInDim S1x80 ![1] bcast_S80_S1x80_1 : (⟨S80, .f32⟩ : BufTy).Contents (Elt F) → (⟨S1x80, .f32⟩ : BufTy).Contents (Elt F)),
    StableHlo.unary main_v660 main_v661 (broadcastInDim S100000x80 ![0, 1] bcast_S1x80_S100000x80_0_1 : (⟨S1x80, .f32⟩ : BufTy).Contents (Elt F) → (⟨S100000x80, .f32⟩ : BufTy).Contents (Elt F)),
    StableHlo.binary main_v659 main_v661 main_v662 (addf : (⟨S100000x80, .f32⟩ : BufTy).Contents (Elt F) → (⟨S100000x80, .f32⟩ : BufTy).Contents (Elt F) → (⟨S100000x80, .f32⟩ : BufTy).Contents (Elt F)),
    StableHlo.binary main_v628 main_v662 main_v663 (addf : (⟨S100000x80, .f32⟩ : BufTy).Contents (Elt F) → (⟨S100000x80, .f32⟩ : BufTy).Contents (Elt F) → (⟨S100000x80, .f32⟩ : BufTy).Contents (Elt F)) ]

/-- Operations 951 to 987 of the program. -/
abbrev pc34 : List (HloOp τ sig (Elt F)) :=
  [ StableHlo.binary main_v663 main_arg0 main_v664 ((fun a b => concatenate S100000x176 1 [⟨S100000x80, a⟩, ⟨S100000x96, b⟩] concatenates_S100000x80_S100000x96_S100000x176_d1) : (⟨S100000x80, .f32⟩ : BufTy).Contents (Elt F) → (⟨S100000x96, .f32⟩ : BufTy).Contents (Elt F) → (⟨S100000x176, .f32⟩ : BufTy).Contents (Elt F)),
    StableHlo.binary main_v664 main_arg12 main_v665 ((fun l r => Host.dotGeneral dot_S100000x176_S176x48_S100000x48_1_0_0_1_n_n none l r) : (⟨S100000x176, .f32⟩ : BufTy).Contents (Elt F) → (⟨S176x48, .f32⟩ : BufTy).Contents (Elt F) → (⟨S100000x48, .f32⟩ : BufTy).Contents (Elt F)),
    StableHlo.nullary main_c_119 (constantI S_ 32 0#32),
    StableHlo.unary main_c_119 main_v666 (broadcastInDim S1000000 ![] bcast_S_S1000000 : (⟨S_, .i32⟩ : BufTy).Contents (Elt F) → (⟨S1000000, .i32⟩ : BufTy).Contents (Elt F)),
    StableHlo.binary main_v1 main_v666 main_v667 (cmpi .slt : (⟨S1000000, .i32⟩ : BufTy).Contents (Elt F) → (⟨S1000000, .i32⟩ : BufTy).Contents (Elt F) → (⟨S1000000, .i1⟩ : BufTy).Contents (Elt F)),
    StableHlo.nullary main_c_120 (constantI S_ 32 100000#32),
    StableHlo.unary main_c_120 main_v668 (broadcastInDim S1000000 ![] bcast_S_S1000000 : (⟨S_, .i32⟩ : BufTy).Contents (Elt F) → (⟨S1000000, .i32⟩ : BufTy).Contents (Elt F)),
    StableHlo.binary main_v1 main_v668 main_v669 (addi : (⟨S1000000, .i32⟩ : BufTy).Contents (Elt F) → (⟨S1000000, .i32⟩ : BufTy).Contents (Elt F) → (⟨S1000000, .i32⟩ : BufTy).Contents (Elt F)),
    StableHlo.ternary main_v667 main_v669 main_v1 main_v670 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v670 main_v671 (broadcastInDim S1000000x1 ![0] bcast_S1000000_S1000000x1_0 : (⟨S1000000, .i32⟩ : BufTy).Contents (Elt F) → (⟨S1000000x1, .i32⟩ : BufTy).Contents (Elt F)),
    StableHlo.binary main_v665 main_v671 main_v672 ((fun x i => Host.gather gather_S100000x48_S1000000x1_S1000000x48_1_0_n_n_0_1_148 x i) : (⟨S100000x48, .f32⟩ : BufTy).Contents (Elt F) → (⟨S1000000x1, .i32⟩ : BufTy).Contents (Elt F) → (⟨S1000000x48, .f32⟩ : BufTy).Contents (Elt F)),
    StableHlo.nullary main_cst_121 (constant S_ .f32 0x00000000#32),
    StableHlo.unary main_cst_121 main_v673 (broadcastInDim S20000x48 ![] bcast_S_S20000x48 : (⟨S_, .f32⟩ : BufTy).Contents (Elt F) → (⟨S20000x48, .f32⟩ : BufTy).Contents (Elt F)),
    StableHlo.unary main_v3 main_v674 (broadcastInDim S1000000x1 ![0] bcast_S1000000_S1000000x1_0 : (⟨S1000000, .i32⟩ : BufTy).Contents (Elt F) → (⟨S1000000x1, .i32⟩ : BufTy).Contents (Elt F)),
    StableHlo.ternary main_v673 main_v674 main_v672 main_v675 ((fun x i u => Host.scatterAdd scatter_S20000x48_S1000000x1_S1000000x48_1_0_0_1 x i u) : (⟨S20000x48, .f32⟩ : BufTy).Contents (Elt F) → (⟨S1000000x1, .i32⟩ : BufTy).Contents (Elt F) → (⟨S1000000x48, .f32⟩ : BufTy).Contents (Elt F) → (⟨S20000x48, .f32⟩ : BufTy).Contents (Elt F)),
    StableHlo.unary main_v20 main_v676 (broadcastInDim S20000x1 ![0] bcast_S20000_S20000x1_0 : (⟨S20000, .f32⟩ : BufTy).Contents (Elt F) → (⟨S20000x1, .f32⟩ : BufTy).Contents (Elt F)),
    StableHlo.unary main_v676 main_v677 (broadcastInDim S20000x48 ![0, 1] bcast_S20000x1_S20000x48_0_1 : (⟨S20000x1, .f32⟩ : BufTy).Contents (Elt F) → (⟨S20000x48, .f32⟩ : BufTy).Contents (Elt F)),
    StableHlo.binary main_v675 main_v677 main_v678 (mulf : (⟨S20000x48, .f32⟩ : BufTy).Contents (Elt F) → (⟨S20000x48, .f32⟩ : BufTy).Contents (Elt F) → (⟨S20000x48, .f32⟩ : BufTy).Contents (Elt F)),
    StableHlo.nullary main_c_122 (constantI S_ 32 0#32),
    StableHlo.unary main_c_122 main_v679 (broadcastInDim S1000000 ![] bcast_S_S1000000 : (⟨S_, .i32⟩ : BufTy).Contents (Elt F) → (⟨S1000000, .i32⟩ : BufTy).Contents (Elt F)),
    StableHlo.binary main_v3 main_v679 main_v680 (cmpi .slt : (⟨S1000000, .i32⟩ : BufTy).Contents (Elt F) → (⟨S1000000, .i32⟩ : BufTy).Contents (Elt F) → (⟨S1000000, .i1⟩ : BufTy).Contents (Elt F)),
    StableHlo.nullary main_c_123 (constantI S_ 32 20000#32),
    StableHlo.unary main_c_123 main_v681 (broadcastInDim S1000000 ![] bcast_S_S1000000 : (⟨S_, .i32⟩ : BufTy).Contents (Elt F) → (⟨S1000000, .i32⟩ : BufTy).Contents (Elt F)),
    StableHlo.binary main_v3 main_v681 main_v682 (addi : (⟨S1000000, .i32⟩ : BufTy).Contents (Elt F) → (⟨S1000000, .i32⟩ : BufTy).Contents (Elt F) → (⟨S1000000, .i32⟩ : BufTy).Contents (Elt F)),
    StableHlo.ternary main_v680 main_v682 main_v3 main_v683 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v683 main_v684 (broadcastInDim S1000000x1 ![0] bcast_S1000000_S1000000x1_0 : (⟨S1000000, .i32⟩ : BufTy).Contents (Elt F) → (⟨S1000000x1, .i32⟩ : BufTy).Contents (Elt F)),
    StableHlo.binary main_v678 main_v684 main_v685 ((fun x i => Host.gather gather_S20000x48_S1000000x1_S1000000x48_1_0_n_n_0_1_148 x i) : (⟨S20000x48, .f32⟩ : BufTy).Contents (Elt F) → (⟨S1000000x1, .i32⟩ : BufTy).Contents (Elt F) → (⟨S1000000x48, .f32⟩ : BufTy).Contents (Elt F)),
    StableHlo.nullary main_cst_124 (constant S_ .f32 0x00000000#32),
    StableHlo.unary main_cst_124 main_v686 (broadcastInDim S100000x48 ![] bcast_S_S100000x48 : (⟨S_, .f32⟩ : BufTy).Contents (Elt F) → (⟨S100000x48, .f32⟩ : BufTy).Contents (Elt F)),
    StableHlo.unary main_v1 main_v687 (broadcastInDim S1000000x1 ![0] bcast_S1000000_S1000000x1_0 : (⟨S1000000, .i32⟩ : BufTy).Contents (Elt F) → (⟨S1000000x1, .i32⟩ : BufTy).Contents (Elt F)),
    StableHlo.ternary main_v686 main_v687 main_v685 main_v688 ((fun x i u => Host.scatterAdd scatter_S100000x48_S1000000x1_S1000000x48_1_0_0_1 x i u) : (⟨S100000x48, .f32⟩ : BufTy).Contents (Elt F) → (⟨S1000000x1, .i32⟩ : BufTy).Contents (Elt F) → (⟨S1000000x48, .f32⟩ : BufTy).Contents (Elt F) → (⟨S100000x48, .f32⟩ : BufTy).Contents (Elt F)),
    StableHlo.unary main_v15 main_v689 (broadcastInDim S100000x1 ![0] bcast_S100000_S100000x1_0 : (⟨S100000, .f32⟩ : BufTy).Contents (Elt F) → (⟨S100000x1, .f32⟩ : BufTy).Contents (Elt F)),
    StableHlo.unary main_v689 main_v690 (broadcastInDim S100000x48 ![0, 1] bcast_S100000x1_S100000x48_0_1 : (⟨S100000x1, .f32⟩ : BufTy).Contents (Elt F) → (⟨S100000x48, .f32⟩ : BufTy).Contents (Elt F)),
    StableHlo.binary main_v688 main_v690 main_v691 (mulf : (⟨S100000x48, .f32⟩ : BufTy).Contents (Elt F) → (⟨S100000x48, .f32⟩ : BufTy).Contents (Elt F) → (⟨S100000x48, .f32⟩ : BufTy).Contents (Elt F)),
    StableHlo.unary main_arg13 main_v692 (broadcastInDim S1x48 ![1] bcast_S48_S1x48_1 : (⟨S48, .f32⟩ : BufTy).Contents (Elt F) → (⟨S1x48, .f32⟩ : BufTy).Contents (Elt F)),
    StableHlo.unary main_v692 main_v693 (broadcastInDim S100000x48 ![0, 1] bcast_S1x48_S100000x48_0_1 : (⟨S1x48, .f32⟩ : BufTy).Contents (Elt F) → (⟨S100000x48, .f32⟩ : BufTy).Contents (Elt F)),
    StableHlo.binary main_v691 main_v693 main_v694 (addf : (⟨S100000x48, .f32⟩ : BufTy).Contents (Elt F) → (⟨S100000x48, .f32⟩ : BufTy).Contents (Elt F) → (⟨S100000x48, .f32⟩ : BufTy).Contents (Elt F)) ]

end Cert.ReferenceIdeal.Val

end
-- ==== Proof.RefOps0.lean ====
/- The reference program's operations 0: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0, in order (a called function's operations at the call's own buffers). -/
abbrev ops_part0 : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.nullary main_cst (constant S_ .f32 0x3F800000#32),
    StableHlo.unary main_cst main_v4 (broadcastInDim S1000000 ![] bcast_S_S1000000 : (⟨S_, .f32⟩ : BufTy).Contents (Elt F) → (⟨S1000000, .f32⟩ : BufTy).Contents (Elt F)),
    StableHlo.nullary main_cst_0 (constant S_ .f32 0x00000000#32),
    StableHlo.unary main_cst_0 main_v5 (broadcastInDim S100000 ![] bcast_S_S100000 : (⟨S_, .f32⟩ : BufTy).Contents (Elt F) → (⟨S100000, .f32⟩ : BufTy).Contents (Elt F)),
    StableHlo.unary main_v1 main_v6 (broadcastInDim S1000000x1 ![0] bcast_S1000000_S1000000x1_0 : (⟨S1000000, .i32⟩ : BufTy).Contents (Elt F) → (⟨S1000000x1, .i32⟩ : BufTy).Contents (Elt F)),
    StableHlo.ternary main_v5 main_v6 main_v4 main_v7 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_1 (constant S_ .f32 0x00000000#32),
    StableHlo.unary main_cst_1 main_v8 (broadcastInDim S20000 ![] bcast_S_S20000 : (⟨S_, .f32⟩ : BufTy).Contents (Elt F) → (⟨S20000, .f32⟩ : BufTy).Contents (Elt F)),
    StableHlo.unary main_v3 main_v9 (broadcastInDim S1000000x1 ![0] bcast_S1000000_S1000000x1_0 : (⟨S1000000, .i32⟩ : BufTy).Contents (Elt F) → (⟨S1000000x1, .i32⟩ : BufTy).Contents (Elt F)),
    StableHlo.ternary main_v8 main_v9 main_v4 main_v10 ((fun x i u => Host.scatterAdd scatter_S20000_S1000000x1_S1000000_n_0_0_1 x i u) : (⟨S20000, .f32⟩ : BufTy).Contents (Elt F) → (⟨S1000000x1, .i32⟩ : BufTy).Contents (Elt F) → (⟨S1000000, .f32⟩ : BufTy).Contents (Elt F) → (⟨S20000, .f32⟩ : BufTy).Contents (Elt F)),
    StableHlo.nullary main_cst_2 (constant S_ .f32 0x00000000#32),
    StableHlo.unary main_cst_2 main_v11 (broadcastInDim S100000 ![] bcast_S_S100000 : (⟨S_, .f32⟩ : BufTy).Contents (Elt F) → (⟨S100000, .f32⟩ : BufTy).Contents (Elt F)),
    StableHlo.binary main_v7 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0x3F800000#32),
    StableHlo.unary main_cst_3 main_v13 (broadcastInDim S100000 ![] bcast_S_S100000 : (⟨S_, .f32⟩ : BufTy).Contents (Elt F) → (⟨S100000, .f32⟩ : BufTy).Contents (Elt F)),
    StableHlo.binary main_v13 main_v7 main_v14 (Host.divf : (⟨S100000, .f32⟩ : BufTy).Contents (Elt F) → (⟨S100000, .f32⟩ : BufTy).Contents (Elt F) → (⟨S100000, .f32⟩ : BufTy).Contents (Elt F)),
    StableHlo.nullary main_cst_4 (constant S_ .f32 0x00000000#32),
    StableHlo.TRef.unary (.of main_cst_4 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v12 : StableHlo.TRef sig ⟨S100000, .i1⟩) (.of main_v14 : StableHlo.TRef sig ⟨S100000, .f32⟩) (.of main_call0_v1 : StableHlo.TRef sig ⟨S100000, .f32⟩) (.of main_v15 : StableHlo.TRef sig ⟨S100000, .f32⟩) select,
    StableHlo.nullary main_cst_5 (constant S_ .f32 0x00000000#32),
    StableHlo.unary main_cst_5 main_v16 (broadcastInDim S20000 ![] bcast_S_S20000 : (⟨S_, .f32⟩ : BufTy).Contents (Elt F) → (⟨S20000, .f32⟩ : BufTy).Contents (Elt F)),
    StableHlo.binary main_v10 main_v16 main_v17 (cmpf .ogt : (⟨S20000, .f32⟩ : BufTy).Contents (Elt F) → (⟨S20000, .f32⟩ : BufTy).Contents (Elt F) → (⟨S20000, .i1⟩ : BufTy).Contents (Elt F)),
    StableHlo.nullary main_cst_6 (constant S_ .f32 0x3F800000#32),
    StableHlo.unary main_cst_6 main_v18 (broadcastInDim S20000 ![] bcast_S_S20000 : (⟨S_, .f32⟩ : BufTy).Contents (Elt F) → (⟨S20000, .f32⟩ : BufTy).Contents (Elt F)),
    StableHlo.binary main_v18 main_v10 main_v19 (Host.divf : (⟨S20000, .f32⟩ : BufTy).Contents (Elt F) → (⟨S20000, .f32⟩ : BufTy).Contents (Elt F) → (⟨S20000, .f32⟩ : BufTy).Contents (Elt F)),
    StableHlo.nullary main_cst_7 (constant S_ .f32 0x00000000#32),
    StableHlo.TRef.unary (.of main_cst_7 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S20000, .f32⟩) (broadcastInDim S20000 ![] bcast_S_S20000),
    StableHlo.TRef.ternary (.of main_v17 : StableHlo.TRef sig ⟨S20000, .i1⟩) (.of main_v19 : StableHlo.TRef sig ⟨S20000, .f32⟩) (.of main_call1_v1 : StableHlo.TRef sig ⟨S20000, .f32⟩) (.of main_v20 : StableHlo.TRef sig ⟨S20000, .f32⟩) select,
    StableHlo.binary main_arg0 main_arg2 main_v21 ((fun l r => Host.dotGeneral dot_S100000x96_S96x80_S100000x80_1_0_0_1_n_n none l r) : (⟨S100000x96, .f32⟩ : BufTy).Contents (Elt F) → (⟨S96x80, .f32⟩ : BufTy).Contents (Elt F) → (⟨S100000x80, .f32⟩ : BufTy).Contents (Elt F)),
    StableHlo.nullary main_c (constantI S_ 32 0#32),
    StableHlo.unary main_c main_v22 (broadcastInDim S1000000 ![] bcast_S_S1000000 : (⟨S_, .i32⟩ : BufTy).Contents (Elt F) → (⟨S1000000, .i32⟩ : BufTy).Contents (Elt F)),
    StableHlo.binary main_v1 main_v22 main_v23 (cmpi .slt : (⟨S1000000, .i32⟩ : BufTy).Contents (Elt F) → (⟨S1000000, .i32⟩ : BufTy).Contents (Elt F) → (⟨S1000000, .i1⟩ : BufTy).Contents (Elt F)),
    StableHlo.nullary main_c_8 (constantI S_ 32 100000#32),
    StableHlo.unary main_c_8 main_v24 (broadcastInDim S1000000 ![] bcast_S_S1000000 : (⟨S_, .i32⟩ : BufTy).Contents (Elt F) → (⟨S1000000, .i32⟩ : BufTy).Contents (Elt F)),
    StableHlo.binary main_v1 main_v24 main_v25 (addi : (⟨S1000000, .i32⟩ : BufTy).Contents (Elt F) → (⟨S1000000, .i32⟩ : BufTy).Contents (Elt F) → (⟨S1000000, .i32⟩ : BufTy).Contents (Elt F)),
    StableHlo.ternary main_v23 main_v25 main_v1 main_v26 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v26 main_v27 (broadcastInDim S1000000x1 ![0] bcast_S1000000_S1000000x1_0 : (⟨S1000000, .i32⟩ : BufTy).Contents (Elt F) → (⟨S1000000x1, .i32⟩ : BufTy).Contents (Elt F)),
    StableHlo.binary main_v21 main_v27 main_v28 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_9 (constant S_ .f32 0x00000000#32),
    StableHlo.unary main_cst_9 main_v29 (broadcastInDim S20000x80 ![] bcast_S_S20000x80 : (⟨S_, .f32⟩ : BufTy).Contents (Elt F) → (⟨S20000x80, .f32⟩ : BufTy).Contents (Elt F)),
    StableHlo.unary main_v3 main_v30 (broadcastInDim S1000000x1 ![0] bcast_S1000000_S1000000x1_0 : (⟨S1000000, .i32⟩ : BufTy).Contents (Elt F) → (⟨S1000000x1, .i32⟩ : BufTy).Contents (Elt F)),
    StableHlo.ternary main_v29 main_v30 main_v28 main_v31 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v32 (broadcastInDim S20000x1 ![0] bcast_S20000_S20000x1_0 : (⟨S20000, .f32⟩ : BufTy).Contents (Elt F) → (⟨S20000x1, .f32⟩ : BufTy).Contents (Elt F)),
    StableHlo.unary main_v32 main_v33 (broadcastInDim S20000x80 ![0, 1] bcast_S20000x1_S20000x80_0_1 : (⟨S20000x1, .f32⟩ : BufTy).Contents (Elt F) → (⟨S20000x80, .f32⟩ : BufTy).Contents (Elt F)),
    StableHlo.binary main_v31 main_v33 main_v34 (mulf : (⟨S20000x80, .f32⟩ : BufTy).Contents (Elt F) → (⟨S20000x80, .f32⟩ : BufTy).Contents (Elt F) → (⟨S20000x80, .f32⟩ : BufTy).Contents (Elt F)),
    StableHlo.nullary main_c_10 (constantI S_ 32 0#32),
    StableHlo.unary main_c_10 main_v35 (broadcastInDim S1000000 ![] bcast_S_S1000000 : (⟨S_, .i32⟩ : BufTy).Contents (Elt F) → (⟨S1000000, .i32⟩ : BufTy).Contents (Elt F)),
    StableHlo.binary main_v3 main_v35 main_v36 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 20000#32),
    StableHlo.unary main_c_11 main_v37 (broadcastInDim S1000000 ![] bcast_S_S1000000 : (⟨S_, .i32⟩ : BufTy).Contents (Elt F) → (⟨S1000000, .i32⟩ : BufTy).Contents (Elt F)),
    StableHlo.binary main_v3 main_v37 main_v38 (addi : (⟨S1000000, .i32⟩ : BufTy).Contents (Elt F) → (⟨S1000000, .i32⟩ : BufTy).Contents (Elt F) → (⟨S1000000, .i32⟩ : BufTy).Contents (Elt F)),
    StableHlo.ternary main_v36 main_v38 main_v3 main_v39 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v39 main_v40 (broadcastInDim S1000000x1 ![0] bcast_S1000000_S1000000x1_0 : (⟨S1000000, .i32⟩ : BufTy).Contents (Elt F) → (⟨S1000000x1, .i32⟩ : BufTy).Contents (Elt F)),
    StableHlo.binary main_v34 main_v40 main_v41 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_12 (constant S_ .f32 0x00000000#32),
    StableHlo.unary main_cst_12 main_v42 (broadcastInDim S100000x80 ![] bcast_S_S100000x80 : (⟨S_, .f32⟩ : BufTy).Contents (Elt F) → (⟨S100000x80, .f32⟩ : BufTy).Contents (Elt F)),
    StableHlo.unary main_v1 main_v43 (broadcastInDim S1000000x1 ![0] bcast_S1000000_S1000000x1_0 : (⟨S1000000, .i32⟩ : BufTy).Contents (Elt F) → (⟨S1000000x1, .i32⟩ : BufTy).Contents (Elt F)),
    StableHlo.ternary main_v42 main_v43 main_v41 main_v44 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)) ]

/-- Each touches TensorCore references only. -/
theorem ops_part0_sub : (ops_part0 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub ..⟩

set_option maxHeartbeats 4000000 in
/-- The window is its operations run in sequence. -/
theorem main_part0_eq (c : Dev nD) : main_part0 (F := F) c = seq ops_part0 := rfl

end Cert.ReferenceIdeal.RefRun

end
-- ==== Proof.RefOps1.lean ====
/- The reference program's operations 1: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 1, in order (a called function's operations at the call's own buffers). -/
abbrev ops_part1 : List (HloOp τ sig (Elt F)) :=
  [ StableHlo.unary main_v15 main_v45 (broadcastInDim S100000x1 ![0] bcast_S100000_S100000x1_0 : (⟨S100000, .f32⟩ : BufTy).Contents (Elt F) → (⟨S100000x1, .f32⟩ : BufTy).Contents (Elt F)),
    StableHlo.unary main_v45 main_v46 (broadcastInDim S100000x80 ![0, 1] bcast_S100000x1_S100000x80_0_1 : (⟨S100000x1, .f32⟩ : BufTy).Contents (Elt F) → (⟨S100000x80, .f32⟩ : BufTy).Contents (Elt F)),
    StableHlo.binary main_v44 main_v46 main_v47 (mulf : (⟨S100000x80, .f32⟩ : BufTy).Contents (Elt F) → (⟨S100000x80, .f32⟩ : BufTy).Contents (Elt F) → (⟨S100000x80, .f32⟩ : BufTy).Contents (Elt F)),
    StableHlo.unary main_arg3 main_v48 (broadcastInDim S1x80 ![1] bcast_S80_S1x80_1 : (⟨S80, .f32⟩ : BufTy).Contents (Elt F) → (⟨S1x80, .f32⟩ : BufTy).Contents (Elt F)),
    StableHlo.unary main_v48 main_v49 (broadcastInDim S100000x80 ![0, 1] bcast_S1x80_S100000x80_0_1 : (⟨S1x80, .f32⟩ : BufTy).Contents (Elt F) → (⟨S100000x80, .f32⟩ : BufTy).Contents (Elt F)),
    StableHlo.binary main_v47 main_v49 main_v50 (addf : (⟨S100000x80, .f32⟩ : BufTy).Contents (Elt F) → (⟨S100000x80, .f32⟩ : BufTy).Contents (Elt F) → (⟨S100000x80, .f32⟩ : BufTy).Contents (Elt F)),
    StableHlo.unary main_arg10 main_v51 ((extractStridedSlice S1x80 ![0, 0] · slices_S7x80_S1x80_0_0) : (⟨S7x80, .f32⟩ : BufTy).Contents (Elt F) → (⟨S1x80, .f32⟩ : BufTy).Contents (Elt F)),
    StableHlo.reshape main_v51 main_v52 rfl shapeCasts_S1x80_S80,
    StableHlo.unary main_arg11 main_v53 ((extractStridedSlice S1x80 ![0, 0] · slices_S7x80_S1x80_0_0) : (⟨S7x80, .f32⟩ : BufTy).Contents (Elt F) → (⟨S1x80, .f32⟩ : BufTy).Contents (Elt F)),
    StableHlo.reshape main_v53 main_v54 rfl shapeCasts_S1x80_S80,
    StableHlo.nullary main_cst_13 (constant S_ .f32 0x00000000#32),
    StableHlo.binary main_v50 main_cst_13 main_v55 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_14 (constant S_ .f32 0x47C35000#32),
    StableHlo.unary main_cst_14 main_v56 (broadcastInDim S80 ![] bcast_S_S80 : (⟨S_, .f32⟩ : BufTy).Contents (Elt F) → (⟨S80, .f32⟩ : BufTy).Contents (Elt F)),
    StableHlo.binary main_v55 main_v56 main_v57 (Host.divf : (⟨S80, .f32⟩ : BufTy).Contents (Elt F) → (⟨S80, .f32⟩ : BufTy).Contents (Elt F) → (⟨S80, .f32⟩ : BufTy).Contents (Elt F)),
    StableHlo.nullary main_c_15 (constantI S_ 32 0#32),
    StableHlo.TRef.nullary (.of main_call2_cst : StableHlo.TRef sig ⟨S_, .f32⟩) (constant S_ .f32 0x00000000#32),
    StableHlo.TRef.binary (.of main_v50 : StableHlo.TRef sig ⟨S100000x80, .f32⟩) (.of main_call2_cst : StableHlo.TRef sig ⟨S_, .f32⟩) (.of main_call2_v0 : StableHlo.TRef sig ⟨S80, .f32⟩) (fun x v => Host.reduceAdd x v reducesTo_S100000x80_S80_d0 h_S_),
    StableHlo.TRef.unary (.of main_call2_v0 : StableHlo.TRef sig ⟨S80, .f32⟩) (.of main_call2_v1 : StableHlo.TRef sig ⟨S1x80, .f32⟩) (broadcastInDim S1x80 ![1] bcast_S80_S1x80_1),
    StableHlo.TRef.nullary (.of main_call2_cst_0 : StableHlo.TRef sig ⟨S_, .f32⟩) (constant S_ .f32 0x47C35000#32),
    StableHlo.TRef.unary (.of main_call2_cst_0 : StableHlo.TRef sig ⟨S_, .f32⟩) (.of main_call2_v2 : StableHlo.TRef sig ⟨S1x80, .f32⟩) (broadcastInDim S1x80 ![] bcast_S_S1x80),
    StableHlo.TRef.binary (.of main_call2_v1 : StableHlo.TRef sig ⟨S1x80, .f32⟩) (.of main_call2_v2 : StableHlo.TRef sig ⟨S1x80, .f32⟩) (.of main_call2_v3 : StableHlo.TRef sig ⟨S1x80, .f32⟩) Host.divf,
    StableHlo.TRef.unary (.of main_call2_v3 : StableHlo.TRef sig ⟨S1x80, .f32⟩) (.of main_call2_v4 : StableHlo.TRef sig ⟨S100000x80, .f32⟩) (broadcastInDim S100000x80 ![0, 1] bcast_S1x80_S100000x80_0_1),
    StableHlo.TRef.binary (.of main_v50 : StableHlo.TRef sig ⟨S100000x80, .f32⟩) (.of main_call2_v4 : StableHlo.TRef sig ⟨S100000x80, .f32⟩) (.of main_call2_v5 : StableHlo.TRef sig ⟨S100000x80, .f32⟩) subf,
    StableHlo.TRef.binary (.of main_call2_v5 : StableHlo.TRef sig ⟨S100000x80, .f32⟩) (.of main_call2_v5 : StableHlo.TRef sig ⟨S100000x80, .f32⟩) (.of main_call2_v6 : StableHlo.TRef sig ⟨S100000x80, .f32⟩) mulf,
    StableHlo.TRef.unary (.of main_c_15 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47C35000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S100000x80, .f32⟩) (.of main_call2_cst_2 : StableHlo.TRef sig ⟨S_, .f32⟩) (.of main_call2_v9 : StableHlo.TRef sig ⟨S80, .f32⟩) (fun x v => Host.reduceAdd x v reducesTo_S100000x80_S80_d0 h_S_),
    StableHlo.TRef.unary (.of main_call2_v8 : StableHlo.TRef sig ⟨S_, .f32⟩) (.of main_call2_v10 : StableHlo.TRef sig ⟨S80, .f32⟩) (broadcastInDim S80 ![] bcast_S_S80),
    StableHlo.TRef.binary (.of main_call2_v9 : StableHlo.TRef sig ⟨S80, .f32⟩) (.of main_call2_v10 : StableHlo.TRef sig ⟨S80, .f32⟩) (.of main_call2_v11 : StableHlo.TRef sig ⟨S80, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S80, .f32⟩) (broadcastInDim S80 ![] bcast_S_S80),
    StableHlo.TRef.ternary (.of main_call2_v12 : StableHlo.TRef sig ⟨S_, .i1⟩) (.of main_call2_v11 : StableHlo.TRef sig ⟨S80, .f32⟩) (.of main_call2_call0_v1 : StableHlo.TRef sig ⟨S80, .f32⟩) (.of main_v58 : StableHlo.TRef sig ⟨S80, .f32⟩) (fun p a b => select (broadcastInDim S80 ![] bcast_S_S80 p) a b),
    StableHlo.unary main_v57 main_v59 (broadcastInDim S1x80 ![1] bcast_S80_S1x80_1 : (⟨S80, .f32⟩ : BufTy).Contents (Elt F) → (⟨S1x80, .f32⟩ : BufTy).Contents (Elt F)),
    StableHlo.unary main_v59 main_v60 (broadcastInDim S100000x80 ![0, 1] bcast_S1x80_S100000x80_0_1 : (⟨S1x80, .f32⟩ : BufTy).Contents (Elt F) → (⟨S100000x80, .f32⟩ : BufTy).Contents (Elt F)),
    StableHlo.binary main_v50 main_v60 main_v61 (subf : (⟨S100000x80, .f32⟩ : BufTy).Contents (Elt F) → (⟨S100000x80, .f32⟩ : BufTy).Contents (Elt F) → (⟨S100000x80, .f32⟩ : BufTy).Contents (Elt F)),
    StableHlo.unary main_v52 main_v62 (broadcastInDim S1x80 ![1] bcast_S80_S1x80_1 : (⟨S80, .f32⟩ : BufTy).Contents (Elt F) → (⟨S1x80, .f32⟩ : BufTy).Contents (Elt F)),
    StableHlo.unary main_v62 main_v63 (broadcastInDim S100000x80 ![0, 1] bcast_S1x80_S100000x80_0_1 : (⟨S1x80, .f32⟩ : BufTy).Contents (Elt F) → (⟨S100000x80, .f32⟩ : BufTy).Contents (Elt F)),
    StableHlo.binary main_v63 main_v61 main_v64 (mulf : (⟨S100000x80, .f32⟩ : BufTy).Contents (Elt F) → (⟨S100000x80, .f32⟩ : BufTy).Contents (Elt F) → (⟨S100000x80, .f32⟩ : BufTy).Contents (Elt F)),
    StableHlo.nullary main_cst_16 (constant S_ .f32 0x3727C5AC#32),
    StableHlo.unary main_cst_16 main_v65 (broadcastInDim S80 ![] bcast_S_S80 : (⟨S_, .f32⟩ : BufTy).Contents (Elt F) → (⟨S80, .f32⟩ : BufTy).Contents (Elt F)),
    StableHlo.binary main_v58 main_v65 main_v66 (addf : (⟨S80, .f32⟩ : BufTy).Contents (Elt F) → (⟨S80, .f32⟩ : BufTy).Contents (Elt F) → (⟨S80, .f32⟩ : BufTy).Contents (Elt F)),
    StableHlo.unary main_v66 main_v67 (Host.rsqrt : (⟨S80, .f32⟩ : BufTy).Contents (Elt F) → (⟨S80, .f32⟩ : BufTy).Contents (Elt F)),
    StableHlo.unary main_v67 main_v68 (broadcastInDim S1x80 ![1] bcast_S80_S1x80_1 : (⟨S80, .f32⟩ : BufTy).Contents (Elt F) → (⟨S1x80, .f32⟩ : BufTy).Contents (Elt F)),
    StableHlo.unary main_v68 main_v69 (broadcastInDim S100000x80 ![0, 1] bcast_S1x80_S100000x80_0_1 : (⟨S1x80, .f32⟩ : BufTy).Contents (Elt F) → (⟨S100000x80, .f32⟩ : BufTy).Contents (Elt F)),
    StableHlo.binary main_v64 main_v69 main_v70 (mulf : (⟨S100000x80, .f32⟩ : BufTy).Contents (Elt F) → (⟨S100000x80, .f32⟩ : BufTy).Contents (Elt F) → (⟨S100000x80, .f32⟩ : BufTy).Contents (Elt F)),
    StableHlo.unary main_v54 main_v71 (broadcastInDim S1x80 ![1] bcast_S80_S1x80_1 : (⟨S80, .f32⟩ : BufTy).Contents (Elt F) → (⟨S1x80, .f32⟩ : BufTy).Contents (Elt F)),
    StableHlo.unary main_v71 main_v72 (broadcastInDim S100000x80 ![0, 1] bcast_S1x80_S100000x80_0_1 : (⟨S1x80, .f32⟩ : BufTy).Contents (Elt F) → (⟨S100000x80, .f32⟩ : BufTy).Contents (Elt F)),
    StableHlo.binary main_v70 main_v72 main_v73 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x80, .f32⟩) (broadcastInDim S100000x80 ![] bcast_S_S100000x80),
    StableHlo.TRef.binary (.of main_v73 : StableHlo.TRef sig ⟨S100000x80, .f32⟩) (.of main_call3_v0 : StableHlo.TRef sig ⟨S100000x80, .f32⟩) (.of main_v74 : StableHlo.TRef sig ⟨S100000x80, .f32⟩) maximumf,
    StableHlo.binary main_arg0 main_arg4 main_v75 ((fun l r => Host.dotGeneral dot_S100000x96_S96x80_S100000x80_1_0_0_1_n_n none l r) : (⟨S100000x96, .f32⟩ : BufTy).Contents (Elt F) → (⟨S96x80, .f32⟩ : BufTy).Contents (Elt F) → (⟨S100000x80, .f32⟩ : BufTy).Contents (Elt F)),
    StableHlo.nullary main_c_17 (constantI S_ 32 0#32),
    StableHlo.unary main_c_17 main_v76 (broadcastInDim S1000000 ![] bcast_S_S1000000 : (⟨S_, .i32⟩ : BufTy).Contents (Elt F) → (⟨S1000000, .i32⟩ : BufTy).Contents (Elt F)),
    StableHlo.binary main_v1 main_v76 main_v77 (cmpi .slt : (⟨S1000000, .i32⟩ : BufTy).Contents (Elt F) → (⟨S1000000, .i32⟩ : BufTy).Contents (Elt F) → (⟨S1000000, .i1⟩ : BufTy).Contents (Elt F)),
    StableHlo.nullary main_c_18 (constantI S_ 32 100000#32),
    StableHlo.unary main_c_18 main_v78 (broadcastInDim S1000000 ![] bcast_S_S1000000 : (⟨S_, .i32⟩ : BufTy).Contents (Elt F) → (⟨S1000000, .i32⟩ : BufTy).Contents (Elt F)),
    StableHlo.binary main_v1 main_v78 main_v79 (addi : (⟨S1000000, .i32⟩ : BufTy).Contents (Elt F) → (⟨S1000000, .i32⟩ : BufTy).Contents (Elt F) → (⟨S1000000, .i32⟩ : BufTy).Contents (Elt F)),
    StableHlo.ternary main_v77 main_v79 main_v1 main_v80 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v80 main_v81 (broadcastInDim S1000000x1 ![0] bcast_S1000000_S1000000x1_0 : (⟨S1000000, .i32⟩ : BufTy).Contents (Elt F) → (⟨S1000000x1, .i32⟩ : BufTy).Contents (Elt F)),
    StableHlo.binary main_v75 main_v81 main_v82 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_19 (constant S_ .f32 0x00000000#32),
    StableHlo.unary main_cst_19 main_v83 (broadcastInDim S20000x80 ![] bcast_S_S20000x80 : (⟨S_, .f32⟩ : BufTy).Contents (Elt F) → (⟨S20000x80, .f32⟩ : BufTy).Contents (Elt F)),
    StableHlo.unary main_v3 main_v84 (broadcastInDim S1000000x1 ![0] bcast_S1000000_S1000000x1_0 : (⟨S1000000, .i32⟩ : BufTy).Contents (Elt F) → (⟨S1000000x1, .i32⟩ : BufTy).Contents (Elt F)),
    StableHlo.ternary main_v83 main_v84 main_v82 main_v85 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v86 (broadcastInDim S20000x1 ![0] bcast_S20000_S20000x1_0 : (⟨S20000, .f32⟩ : BufTy).Contents (Elt F) → (⟨S20000x1, .f32⟩ : BufTy).Contents (Elt F)),
    StableHlo.unary main_v86 main_v87 (broadcastInDim S20000x80 ![0, 1] bcast_S20000x1_S20000x80_0_1 : (⟨S20000x1, .f32⟩ : BufTy).Contents (Elt F) → (⟨S20000x80, .f32⟩ : BufTy).Contents (Elt F)),
    StableHlo.binary main_v85 main_v87 main_v88 (mulf : (⟨S20000x80, .f32⟩ : BufTy).Contents (Elt F) → (⟨S20000x80, .f32⟩ : BufTy).Contents (Elt F) → (⟨S20000x80, .f32⟩ : BufTy).Contents (Elt F)),
    StableHlo.nullary main_c_20 (constantI S_ 32 0#32),
    StableHlo.unary main_c_20 main_v89 (broadcastInDim S1000000 ![] bcast_S_S1000000 : (⟨S_, .i32⟩ : BufTy).Contents (Elt F) → (⟨S1000000, .i32⟩ : BufTy).Contents (Elt F)),
    StableHlo.binary main_v3 main_v89 main_v90 (cmpi .slt : (⟨S1000000, .i32⟩ : BufTy).Contents (Elt F) → (⟨S1000000, .i32⟩ : BufTy).Contents (Elt F) → (⟨S1000000, .i1⟩ : BufTy).Contents (Elt F)),
    StableHlo.nullary main_c_21 (constantI S_ 32 20000#32),
    StableHlo.unary main_c_21 main_v91 (broadcastInDim S1000000 ![] bcast_S_S1000000 : (⟨S_, .i32⟩ : BufTy).Contents (Elt F) → (⟨S1000000, .i32⟩ : BufTy).Contents (Elt F)),
    StableHlo.binary main_v3 main_v91 main_v92 (addi : (⟨S1000000, .i32⟩ : BufTy).Contents (Elt F) → (⟨S1000000, .i32⟩ : BufTy).Contents (Elt F) → (⟨S1000000, .i32⟩ : BufTy).Contents (Elt F)),
    StableHlo.ternary main_v90 main_v92 main_v3 main_v93 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v93 main_v94 (broadcastInDim S1000000x1 ![0] bcast_S1000000_S1000000x1_0 : (⟨S1000000, .i32⟩ : BufTy).Contents (Elt F) → (⟨S1000000x1, .i32⟩ : BufTy).Contents (Elt F)),
    StableHlo.binary main_v88 main_v94 main_v95 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)) ]

/-- Each touches TensorCore references only. -/
theorem ops_part1_sub : (ops_part1 : List (HloOp τ sig (Elt F))).Forall fun op => op.bufs ⊆ tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

set_option maxHeartbeats 4000000 in
/-- The window is its operations run in sequence. -/
theorem main_part1_eq (c : Dev nD) : main_part1 (F := F) c = seq ops_part1 := rfl

end Cert.ReferenceIdeal.RefRun

end
-- ==== Proof.RefOps2.lean ====
/- The reference program's operations 2: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 2, in order (a called function's operations at the call's own buffers). -/
abbrev ops_part2 : List (HloOp τ sig (Elt F)) :=
  [ StableHlo.nullary main_cst_22 (constant S_ .f32 0x00000000#32),
    StableHlo.unary main_cst_22 main_v96 (broadcastInDim S100000x80 ![] bcast_S_S100000x80 : (⟨S_, .f32⟩ : BufTy).Contents (Elt F) → (⟨S100000x80, .f32⟩ : BufTy).Contents (Elt F)),
    StableHlo.unary main_v1 main_v97 (broadcastInDim S1000000x1 ![0] bcast_S1000000_S1000000x1_0 : (⟨S1000000, .i32⟩ : BufTy).Contents (Elt F) → (⟨S1000000x1, .i32⟩ : BufTy).Contents (Elt F)),
    StableHlo.ternary main_v96 main_v97 main_v95 main_v98 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v99 (broadcastInDim S100000x1 ![0] bcast_S100000_S100000x1_0 : (⟨S100000, .f32⟩ : BufTy).Contents (Elt F) → (⟨S100000x1, .f32⟩ : BufTy).Contents (Elt F)),
    StableHlo.unary main_v99 main_v100 (broadcastInDim S100000x80 ![0, 1] bcast_S100000x1_S100000x80_0_1 : (⟨S100000x1, .f32⟩ : BufTy).Contents (Elt F) → (⟨S100000x80, .f32⟩ : BufTy).Contents (Elt F)),
    StableHlo.binary main_v98 main_v100 main_v101 (mulf : (⟨S100000x80, .f32⟩ : BufTy).Contents (Elt F) → (⟨S100000x80, .f32⟩ : BufTy).Contents (Elt F) → (⟨S100000x80, .f32⟩ : BufTy).Contents (Elt F)),
    StableHlo.unary main_arg5 main_v102 (broadcastInDim S1x80 ![1] bcast_S80_S1x80_1 : (⟨S80, .f32⟩ : BufTy).Contents (Elt F) → (⟨S1x80, .f32⟩ : BufTy).Contents (Elt F)),
    StableHlo.unary main_v102 main_v103 (broadcastInDim S100000x80 ![0, 1] bcast_S1x80_S100000x80_0_1 : (⟨S1x80, .f32⟩ : BufTy).Contents (Elt F) → (⟨S100000x80, .f32⟩ : BufTy).Contents (Elt F)),
    StableHlo.binary main_v101 main_v103 main_v104 (addf : (⟨S100000x80, .f32⟩ : BufTy).Contents (Elt F) → (⟨S100000x80, .f32⟩ : BufTy).Contents (Elt F) → (⟨S100000x80, .f32⟩ : BufTy).Contents (Elt F)),
    StableHlo.binary main_v74 main_v104 main_v105 (addf : (⟨S100000x80, .f32⟩ : BufTy).Contents (Elt F) → (⟨S100000x80, .f32⟩ : BufTy).Contents (Elt F) → (⟨S100000x80, .f32⟩ : BufTy).Contents (Elt F)),
    StableHlo.unary main_arg6 main_v106 ((extractStridedSlice S1x80x80 ![0, 0, 0] · slices_S6x80x80_S1x80x80_0_0_0) : (⟨S6x80x80, .f32⟩ : BufTy).Contents (Elt F) → (⟨S1x80x80, .f32⟩ : BufTy).Contents (Elt F)),
    StableHlo.reshape main_v106 main_v107 rfl shapeCasts_S1x80x80_S80x80,
    StableHlo.unary main_arg7 main_v108 ((extractStridedSlice S1x80 ![0, 0] · slices_S6x80_S1x80_0_0) : (⟨S6x80, .f32⟩ : BufTy).Contents (Elt F) → (⟨S1x80, .f32⟩ : BufTy).Contents (Elt F)),
    StableHlo.reshape main_v108 main_v109 rfl shapeCasts_S1x80_S80,
    StableHlo.binary main_v105 main_v107 main_v110 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_23 (constantI S_ 32 0#32),
    StableHlo.unary main_c_23 main_v111 (broadcastInDim S1000000 ![] bcast_S_S1000000 : (⟨S_, .i32⟩ : BufTy).Contents (Elt F) → (⟨S1000000, .i32⟩ : BufTy).Contents (Elt F)),
    StableHlo.binary main_v1 main_v111 main_v112 (cmpi .slt : (⟨S1000000, .i32⟩ : BufTy).Contents (Elt F) → (⟨S1000000, .i32⟩ : BufTy).Contents (Elt F) → (⟨S1000000, .i1⟩ : BufTy).Contents (Elt F)),
    StableHlo.nullary main_c_24 (constantI S_ 32 100000#32),
    StableHlo.unary main_c_24 main_v113 (broadcastInDim S1000000 ![] bcast_S_S1000000 : (⟨S_, .i32⟩ : BufTy).Contents (Elt F) → (⟨S1000000, .i32⟩ : BufTy).Contents (Elt F)),
    StableHlo.binary main_v1 main_v113 main_v114 (addi : (⟨S1000000, .i32⟩ : BufTy).Contents (Elt F) → (⟨S1000000, .i32⟩ : BufTy).Contents (Elt F) → (⟨S1000000, .i32⟩ : BufTy).Contents (Elt F)),
    StableHlo.ternary main_v112 main_v114 main_v1 main_v115 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v115 main_v116 (broadcastInDim S1000000x1 ![0] bcast_S1000000_S1000000x1_0 : (⟨S1000000, .i32⟩ : BufTy).Contents (Elt F) → (⟨S1000000x1, .i32⟩ : BufTy).Contents (Elt F)),
    StableHlo.binary main_v110 main_v116 main_v117 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_25 (constant S_ .f32 0x00000000#32),
    StableHlo.unary main_cst_25 main_v118 (broadcastInDim S20000x80 ![] bcast_S_S20000x80 : (⟨S_, .f32⟩ : BufTy).Contents (Elt F) → (⟨S20000x80, .f32⟩ : BufTy).Contents (Elt F)),
    StableHlo.unary main_v3 main_v119 (broadcastInDim S1000000x1 ![0] bcast_S1000000_S1000000x1_0 : (⟨S1000000, .i32⟩ : BufTy).Contents (Elt F) → (⟨S1000000x1, .i32⟩ : BufTy).Contents (Elt F)),
    StableHlo.ternary main_v118 main_v119 main_v117 main_v120 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v121 (broadcastInDim S20000x1 ![0] bcast_S20000_S20000x1_0 : (⟨S20000, .f32⟩ : BufTy).Contents (Elt F) → (⟨S20000x1, .f32⟩ : BufTy).Contents (Elt F)),
    StableHlo.unary main_v121 main_v122 (broadcastInDim S20000x80 ![0, 1] bcast_S20000x1_S20000x80_0_1 : (⟨S20000x1, .f32⟩ : BufTy).Contents (Elt F) → (⟨S20000x80, .f32⟩ : BufTy).Contents (Elt F)),
    StableHlo.binary main_v120 main_v122 main_v123 (mulf : (⟨S20000x80, .f32⟩ : BufTy).Contents (Elt F) → (⟨S20000x80, .f32⟩ : BufTy).Contents (Elt F) → (⟨S20000x80, .f32⟩ : BufTy).Contents (Elt F)),
    StableHlo.nullary main_c_26 (constantI S_ 32 0#32),
    StableHlo.unary main_c_26 main_v124 (broadcastInDim S1000000 ![] bcast_S_S1000000 : (⟨S_, .i32⟩ : BufTy).Contents (Elt F) → (⟨S1000000, .i32⟩ : BufTy).Contents (Elt F)),
    StableHlo.binary main_v3 main_v124 main_v125 (cmpi .slt : (⟨S1000000, .i32⟩ : BufTy).Contents (Elt F) → (⟨S1000000, .i32⟩ : BufTy).Contents (Elt F) → (⟨S1000000, .i1⟩ : BufTy).Contents (Elt F)),
    StableHlo.nullary main_c_27 (constantI S_ 32 20000#32),
    StableHlo.unary main_c_27 main_v126 (broadcastInDim S1000000 ![] bcast_S_S1000000 : (⟨S_, .i32⟩ : BufTy).Contents (Elt F) → (⟨S1000000, .i32⟩ : BufTy).Contents (Elt F)),
    StableHlo.binary main_v3 main_v126 main_v127 (addi : (⟨S1000000, .i32⟩ : BufTy).Contents (Elt F) → (⟨S1000000, .i32⟩ : BufTy).Contents (Elt F) → (⟨S1000000, .i32⟩ : BufTy).Contents (Elt F)),
    StableHlo.ternary main_v125 main_v127 main_v3 main_v128 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v128 main_v129 (broadcastInDim S1000000x1 ![0] bcast_S1000000_S1000000x1_0 : (⟨S1000000, .i32⟩ : BufTy).Contents (Elt F) → (⟨S1000000x1, .i32⟩ : BufTy).Contents (Elt F)),
    StableHlo.binary main_v123 main_v129 main_v130 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_28 (constant S_ .f32 0x00000000#32),
    StableHlo.unary main_cst_28 main_v131 (broadcastInDim S100000x80 ![] bcast_S_S100000x80 : (⟨S_, .f32⟩ : BufTy).Contents (Elt F) → (⟨S100000x80, .f32⟩ : BufTy).Contents (Elt F)),
    StableHlo.unary main_v1 main_v132 (broadcastInDim S1000000x1 ![0] bcast_S1000000_S1000000x1_0 : (⟨S1000000, .i32⟩ : BufTy).Contents (Elt F) → (⟨S1000000x1, .i32⟩ : BufTy).Contents (Elt F)),
    StableHlo.ternary main_v131 main_v132 main_v130 main_v133 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v134 (broadcastInDim S100000x1 ![0] bcast_S100000_S100000x1_0 : (⟨S100000, .f32⟩ : BufTy).Contents (Elt F) → (⟨S100000x1, .f32⟩ : BufTy).Contents (Elt F)),
    StableHlo.unary main_v134 main_v135 (broadcastInDim S100000x80 ![0, 1] bcast_S100000x1_S100000x80_0_1 : (⟨S100000x1, .f32⟩ : BufTy).Contents (Elt F) → (⟨S100000x80, .f32⟩ : BufTy).Contents (Elt F)),
    StableHlo.binary main_v133 main_v135 main_v136 (mulf : (⟨S100000x80, .f32⟩ : BufTy).Contents (Elt F) → (⟨S100000x80, .f32⟩ : BufTy).Contents (Elt F) → (⟨S100000x80, .f32⟩ : BufTy).Contents (Elt F)),
    StableHlo.unary main_v109 main_v137 (broadcastInDim S1x80 ![1] bcast_S80_S1x80_1 : (⟨S80, .f32⟩ : BufTy).Contents (Elt F) → (⟨S1x80, .f32⟩ : BufTy).Contents (Elt F)),
    StableHlo.unary main_v137 main_v138 (broadcastInDim S100000x80 ![0, 1] bcast_S1x80_S100000x80_0_1 : (⟨S1x80, .f32⟩ : BufTy).Contents (Elt F) → (⟨S100000x80, .f32⟩ : BufTy).Contents (Elt F)),
    StableHlo.binary main_v136 main_v138 main_v139 (addf : (⟨S100000x80, .f32⟩ : BufTy).Contents (Elt F) → (⟨S100000x80, .f32⟩ : BufTy).Contents (Elt F) → (⟨S100000x80, .f32⟩ : BufTy).Contents (Elt F)),
    StableHlo.unary main_arg10 main_v140 ((extractStridedSlice S1x80 ![1, 0] · slices_S7x80_S1x80_1_0) : (⟨S7x80, .f32⟩ : BufTy).Contents (Elt F) → (⟨S1x80, .f32⟩ : BufTy).Contents (Elt F)),
    StableHlo.reshape main_v140 main_v141 rfl shapeCasts_S1x80_S80,
    StableHlo.unary main_arg11 main_v142 ((extractStridedSlice S1x80 ![1, 0] · slices_S7x80_S1x80_1_0) : (⟨S7x80, .f32⟩ : BufTy).Contents (Elt F) → (⟨S1x80, .f32⟩ : BufTy).Contents (Elt F)),
    StableHlo.reshape main_v142 main_v143 rfl shapeCasts_S1x80_S80,
    StableHlo.nullary main_cst_29 (constant S_ .f32 0x00000000#32),
    StableHlo.binary main_v139 main_cst_29 main_v144 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_30 (constant S_ .f32 0x47C35000#32),
    StableHlo.unary main_cst_30 main_v145 (broadcastInDim S80 ![] bcast_S_S80 : (⟨S_, .f32⟩ : BufTy).Contents (Elt F) → (⟨S80, .f32⟩ : BufTy).Contents (Elt F)),
    StableHlo.binary main_v144 main_v145 main_v146 (Host.divf : (⟨S80, .f32⟩ : BufTy).Contents (Elt F) → (⟨S80, .f32⟩ : BufTy).Contents (Elt F) → (⟨S80, .f32⟩ : BufTy).Contents (Elt F)) ]

/-- Each touches TensorCore references only. -/
theorem ops_part2_sub : (ops_part2 : List (HloOp τ sig (Elt F))).Forall fun op => op.bufs ⊆ tcRefs τ sig :=
  ⟨StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub ..⟩

set_option maxHeartbeats 4000000 in
/-- The window is its operations run in sequence. -/
theorem main_part2_eq (c : Dev nD) : main_part2 (F := F) c = seq ops_part2 := rfl

end Cert.ReferenceIdeal.RefRun

end
-- ==== Proof.RefOps3.lean ====
/- The reference program's operations 3: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 3, in order (a called function's operations at the call's own buffers). -/
abbrev ops_part3 : List (HloOp τ sig (Elt F)) :=
  [ StableHlo.nullary main_c_31 (constantI S_ 32 0#32),
    StableHlo.TRef.nullary (.of main_call4_cst : StableHlo.TRef sig ⟨S_, .f32⟩) (constant S_ .f32 0x00000000#32),
    StableHlo.TRef.binary (.of main_v139 : StableHlo.TRef sig ⟨S100000x80, .f32⟩) (.of main_call4_cst : StableHlo.TRef sig ⟨S_, .f32⟩) (.of main_call4_v0 : StableHlo.TRef sig ⟨S80, .f32⟩) (fun x v => Host.reduceAdd x v reducesTo_S100000x80_S80_d0 h_S_),
    StableHlo.TRef.unary (.of main_call4_v0 : StableHlo.TRef sig ⟨S80, .f32⟩) (.of main_call4_v1 : StableHlo.TRef sig ⟨S1x80, .f32⟩) (broadcastInDim S1x80 ![1] bcast_S80_S1x80_1),
    StableHlo.TRef.nullary (.of main_call4_cst_0 : StableHlo.TRef sig ⟨S_, .f32⟩) (constant S_ .f32 0x47C35000#32),
    StableHlo.TRef.unary (.of main_call4_cst_0 : StableHlo.TRef sig ⟨S_, .f32⟩) (.of main_call4_v2 : StableHlo.TRef sig ⟨S1x80, .f32⟩) (broadcastInDim S1x80 ![] bcast_S_S1x80),
    StableHlo.TRef.binary (.of main_call4_v1 : StableHlo.TRef sig ⟨S1x80, .f32⟩) (.of main_call4_v2 : StableHlo.TRef sig ⟨S1x80, .f32⟩) (.of main_call4_v3 : StableHlo.TRef sig ⟨S1x80, .f32⟩) Host.divf,
    StableHlo.TRef.unary (.of main_call4_v3 : StableHlo.TRef sig ⟨S1x80, .f32⟩) (.of main_call4_v4 : StableHlo.TRef sig ⟨S100000x80, .f32⟩) (broadcastInDim S100000x80 ![0, 1] bcast_S1x80_S100000x80_0_1),
    StableHlo.TRef.binary (.of main_v139 : StableHlo.TRef sig ⟨S100000x80, .f32⟩) (.of main_call4_v4 : StableHlo.TRef sig ⟨S100000x80, .f32⟩) (.of main_call4_v5 : StableHlo.TRef sig ⟨S100000x80, .f32⟩) subf,
    StableHlo.TRef.binary (.of main_call4_v5 : StableHlo.TRef sig ⟨S100000x80, .f32⟩) (.of main_call4_v5 : StableHlo.TRef sig ⟨S100000x80, .f32⟩) (.of main_call4_v6 : StableHlo.TRef sig ⟨S100000x80, .f32⟩) mulf,
    StableHlo.TRef.unary (.of main_c_31 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47C35000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S100000x80, .f32⟩) (.of main_call4_cst_2 : StableHlo.TRef sig ⟨S_, .f32⟩) (.of main_call4_v9 : StableHlo.TRef sig ⟨S80, .f32⟩) (fun x v => Host.reduceAdd x v reducesTo_S100000x80_S80_d0 h_S_),
    StableHlo.TRef.unary (.of main_call4_v8 : StableHlo.TRef sig ⟨S_, .f32⟩) (.of main_call4_v10 : StableHlo.TRef sig ⟨S80, .f32⟩) (broadcastInDim S80 ![] bcast_S_S80),
    StableHlo.TRef.binary (.of main_call4_v9 : StableHlo.TRef sig ⟨S80, .f32⟩) (.of main_call4_v10 : StableHlo.TRef sig ⟨S80, .f32⟩) (.of main_call4_v11 : StableHlo.TRef sig ⟨S80, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S80, .f32⟩) (broadcastInDim S80 ![] bcast_S_S80),
    StableHlo.TRef.ternary (.of main_call4_v12 : StableHlo.TRef sig ⟨S_, .i1⟩) (.of main_call4_v11 : StableHlo.TRef sig ⟨S80, .f32⟩) (.of main_call4_call0_v1 : StableHlo.TRef sig ⟨S80, .f32⟩) (.of main_v147 : StableHlo.TRef sig ⟨S80, .f32⟩) (fun p a b => select (broadcastInDim S80 ![] bcast_S_S80 p) a b),
    StableHlo.unary main_v146 main_v148 (broadcastInDim S1x80 ![1] bcast_S80_S1x80_1 : (⟨S80, .f32⟩ : BufTy).Contents (Elt F) → (⟨S1x80, .f32⟩ : BufTy).Contents (Elt F)),
    StableHlo.unary main_v148 main_v149 (broadcastInDim S100000x80 ![0, 1] bcast_S1x80_S100000x80_0_1 : (⟨S1x80, .f32⟩ : BufTy).Contents (Elt F) → (⟨S100000x80, .f32⟩ : BufTy).Contents (Elt F)),
    StableHlo.binary main_v139 main_v149 main_v150 (subf : (⟨S100000x80, .f32⟩ : BufTy).Contents (Elt F) → (⟨S100000x80, .f32⟩ : BufTy).Contents (Elt F) → (⟨S100000x80, .f32⟩ : BufTy).Contents (Elt F)),
    StableHlo.unary main_v141 main_v151 (broadcastInDim S1x80 ![1] bcast_S80_S1x80_1 : (⟨S80, .f32⟩ : BufTy).Contents (Elt F) → (⟨S1x80, .f32⟩ : BufTy).Contents (Elt F)),
    StableHlo.unary main_v151 main_v152 (broadcastInDim S100000x80 ![0, 1] bcast_S1x80_S100000x80_0_1 : (⟨S1x80, .f32⟩ : BufTy).Contents (Elt F) → (⟨S100000x80, .f32⟩ : BufTy).Contents (Elt F)),
    StableHlo.binary main_v152 main_v150 main_v153 (mulf : (⟨S100000x80, .f32⟩ : BufTy).Contents (Elt F) → (⟨S100000x80, .f32⟩ : BufTy).Contents (Elt F) → (⟨S100000x80, .f32⟩ : BufTy).Contents (Elt F)),
    StableHlo.nullary main_cst_32 (constant S_ .f32 0x3727C5AC#32),
    StableHlo.unary main_cst_32 main_v154 (broadcastInDim S80 ![] bcast_S_S80 : (⟨S_, .f32⟩ : BufTy).Contents (Elt F) → (⟨S80, .f32⟩ : BufTy).Contents (Elt F)),
    StableHlo.binary main_v147 main_v154 main_v155 (addf : (⟨S80, .f32⟩ : BufTy).Contents (Elt F) → (⟨S80, .f32⟩ : BufTy).Contents (Elt F) → (⟨S80, .f32⟩ : BufTy).Contents (Elt F)),
    StableHlo.unary main_v155 main_v156 (Host.rsqrt : (⟨S80, .f32⟩ : BufTy).Contents (Elt F) → (⟨S80, .f32⟩ : BufTy).Contents (Elt F)),
    StableHlo.unary main_v156 main_v157 (broadcastInDim S1x80 ![1] bcast_S80_S1x80_1 : (⟨S80, .f32⟩ : BufTy).Contents (Elt F) → (⟨S1x80, .f32⟩ : BufTy).Contents (Elt F)),
    StableHlo.unary main_v157 main_v158 (broadcastInDim S100000x80 ![0, 1] bcast_S1x80_S100000x80_0_1 : (⟨S1x80, .f32⟩ : BufTy).Contents (Elt F) → (⟨S100000x80, .f32⟩ : BufTy).Contents (Elt F)),
    StableHlo.binary main_v153 main_v158 main_v159 (mulf : (⟨S100000x80, .f32⟩ : BufTy).Contents (Elt F) → (⟨S100000x80, .f32⟩ : BufTy).Contents (Elt F) → (⟨S100000x80, .f32⟩ : BufTy).Contents (Elt F)),
    StableHlo.unary main_v143 main_v160 (broadcastInDim S1x80 ![1] bcast_S80_S1x80_1 : (⟨S80, .f32⟩ : BufTy).Contents (Elt F) → (⟨S1x80, .f32⟩ : BufTy).Contents (Elt F)),
    StableHlo.unary main_v160 main_v161 (broadcastInDim S100000x80 ![0, 1] bcast_S1x80_S100000x80_0_1 : (⟨S1x80, .f32⟩ : BufTy).Contents (Elt F) → (⟨S100000x80, .f32⟩ : BufTy).Contents (Elt F)),
    StableHlo.binary main_v159 main_v161 main_v162 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S100000x80, .f32⟩) (broadcastInDim S100000x80 ![] bcast_S_S100000x80),
    StableHlo.TRef.binary (.of main_v162 : StableHlo.TRef sig ⟨S100000x80, .f32⟩) (.of main_call5_v0 : StableHlo.TRef sig ⟨S100000x80, .f32⟩) (.of main_v163 : StableHlo.TRef sig ⟨S100000x80, .f32⟩) maximumf,
    StableHlo.unary main_arg8 main_v164 ((extractStridedSlice S1x80x80 ![0, 0, 0] · slices_S6x80x80_S1x80x80_0_0_0) : (⟨S6x80x80, .f32⟩ : BufTy).Contents (Elt F) → (⟨S1x80x80, .f32⟩ : BufTy).Contents (Elt F)),
    StableHlo.reshape main_v164 main_v165 rfl shapeCasts_S1x80x80_S80x80,
    StableHlo.unary main_arg9 main_v166 ((extractStridedSlice S1x80 ![0, 0] · slices_S6x80_S1x80_0_0) : (⟨S6x80, .f32⟩ : BufTy).Contents (Elt F) → (⟨S1x80, .f32⟩ : BufTy).Contents (Elt F)),
    StableHlo.reshape main_v166 main_v167 rfl shapeCasts_S1x80_S80,
    StableHlo.binary main_v105 main_v165 main_v168 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_33 (constantI S_ 32 0#32),
    StableHlo.unary main_c_33 main_v169 (broadcastInDim S1000000 ![] bcast_S_S1000000 : (⟨S_, .i32⟩ : BufTy).Contents (Elt F) → (⟨S1000000, .i32⟩ : BufTy).Contents (Elt F)),
    StableHlo.binary main_v1 main_v169 main_v170 (cmpi .slt : (⟨S1000000, .i32⟩ : BufTy).Contents (Elt F) → (⟨S1000000, .i32⟩ : BufTy).Contents (Elt F) → (⟨S1000000, .i1⟩ : BufTy).Contents (Elt F)),
    StableHlo.nullary main_c_34 (constantI S_ 32 100000#32),
    StableHlo.unary main_c_34 main_v171 (broadcastInDim S1000000 ![] bcast_S_S1000000 : (⟨S_, .i32⟩ : BufTy).Contents (Elt F) → (⟨S1000000, .i32⟩ : BufTy).Contents (Elt F)),
    StableHlo.binary main_v1 main_v171 main_v172 (addi : (⟨S1000000, .i32⟩ : BufTy).Contents (Elt F) → (⟨S1000000, .i32⟩ : BufTy).Contents (Elt F) → (⟨S1000000, .i32⟩ : BufTy).Contents (Elt F)),
    StableHlo.ternary main_v170 main_v172 main_v1 main_v173 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v173 main_v174 (broadcastInDim S1000000x1 ![0] bcast_S1000000_S1000000x1_0 : (⟨S1000000, .i32⟩ : BufTy).Contents (Elt F) → (⟨S1000000x1, .i32⟩ : BufTy).Contents (Elt F)),
    StableHlo.binary main_v168 main_v174 main_v175 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_35 (constant S_ .f32 0x00000000#32),
    StableHlo.unary main_cst_35 main_v176 (broadcastInDim S20000x80 ![] bcast_S_S20000x80 : (⟨S_, .f32⟩ : BufTy).Contents (Elt F) → (⟨S20000x80, .f32⟩ : BufTy).Contents (Elt F)),
    StableHlo.unary main_v3 main_v177 (broadcastInDim S1000000x1 ![0] bcast_S1000000_S1000000x1_0 : (⟨S1000000, .i32⟩ : BufTy).Contents (Elt F) → (⟨S1000000x1, .i32⟩ : BufTy).Contents (Elt F)),
    StableHlo.ternary main_v176 main_v177 main_v175 main_v178 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v179 (broadcastInDim S20000x1 ![0] bcast_S20000_S20000x1_0 : (⟨S20000, .f32⟩ : BufTy).Contents (Elt F) → (⟨S20000x1, .f32⟩ : BufTy).Contents (Elt F)),
    StableHlo.unary main_v179 main_v180 (broadcastInDim S20000x80 ![0, 1] bcast_S20000x1_S20000x80_0_1 : (⟨S20000x1, .f32⟩ : BufTy).Contents (Elt F) → (⟨S20000x80, .f32⟩ : BufTy).Contents (Elt F)),
    StableHlo.binary main_v178 main_v180 main_v181 (mulf : (⟨S20000x80, .f32⟩ : BufTy).Contents (Elt F) → (⟨S20000x80, .f32⟩ : BufTy).Contents (Elt F) → (⟨S20000x80, .f32⟩ : BufTy).Contents (Elt F)),
    StableHlo.nullary main_c_36 (constantI S_ 32 0#32),
    StableHlo.unary main_c_36 main_v182 (broadcastInDim S1000000 ![] bcast_S_S1000000 : (⟨S_, .i32⟩ : BufTy).Contents (Elt F) → (⟨S1000000, .i32⟩ : BufTy).Contents (Elt F)),
    StableHlo.binary main_v3 main_v182 main_v183 (cmpi .slt : (⟨S1000000, .i32⟩ : BufTy).Contents (Elt F) → (⟨S1000000, .i32⟩ : BufTy).Contents (Elt F) → (⟨S1000000, .i1⟩ : BufTy).Contents (Elt F)),
    StableHlo.nullary main_c_37 (constantI S_ 32 20000#32),
    StableHlo.unary main_c_37 main_v184 (broadcastInDim S1000000 ![] bcast_S_S1000000 : (⟨S_, .i32⟩ : BufTy).Contents (Elt F) → (⟨S1000000, .i32⟩ : BufTy).Contents (Elt F)),
    StableHlo.binary main_v3 main_v184 main_v185 (addi : (⟨S1000000, .i32⟩ : BufTy).Contents (Elt F) → (⟨S1000000, .i32⟩ : BufTy).Contents (Elt F) → (⟨S1000000, .i32⟩ : BufTy).Contents (Elt F)),
    StableHlo.ternary main_v183 main_v185 main_v3 main_v186 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v186 main_v187 (broadcastInDim S1000000x1 ![0] bcast_S1000000_S1000000x1_0 : (⟨S1000000, .i32⟩ : BufTy).Contents (Elt F) → (⟨S1000000x1, .i32⟩ : BufTy).Contents (Elt F)),
    StableHlo.binary main_v181 main_v187 main_v188 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_38 (constant S_ .f32 0x00000000#32),
    StableHlo.unary main_cst_38 main_v189 (broadcastInDim S100000x80 ![] bcast_S_S100000x80 : (⟨S_, .f32⟩ : BufTy).Contents (Elt F) → (⟨S100000x80, .f32⟩ : BufTy).Contents (Elt F)),
    StableHlo.unary main_v1 main_v190 (broadcastInDim S1000000x1 ![0] bcast_S1000000_S1000000x1_0 : (⟨S1000000, .i32⟩ : BufTy).Contents (Elt F) → (⟨S1000000x1, .i32⟩ : BufTy).Contents (Elt F)),
    StableHlo.ternary main_v189 main_v190 main_v188 main_v191 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v192 (broadcastInDim S100000x1 ![0] bcast_S100000_S100000x1_0 : (⟨S100000, .f32⟩ : BufTy).Contents (Elt F) → (⟨S100000x1, .f32⟩ : BufTy).Contents (Elt F)),
    StableHlo.unary main_v192 main_v193 (broadcastInDim S100000x80 ![0, 1] bcast_S100000x1_S100000x80_0_1 : (⟨S100000x1, .f32⟩ : BufTy).Contents (Elt F) → (⟨S100000x80, .f32⟩ : BufTy).Contents (Elt F)),
    StableHlo.binary main_v191 main_v193 main_v194 (mulf : (⟨S100000x80, .f32⟩ : BufTy).Contents (Elt F) → (⟨S100000x80, .f32⟩ : BufTy).Contents (Elt F) → (⟨S100000x80, .f32⟩ : BufTy).Contents (Elt F)),
    StableHlo.unary main_v167 main_v195 (broadcastInDim S1x80 ![1] bcast_S80_S1x80_1 : (⟨S80, .f32⟩ : BufTy).Contents (Elt F) → (⟨S1x80, .f32⟩ : BufTy).Contents (Elt F)),
    StableHlo.unary main_v195 main_v196 (broadcastInDim S100000x80 ![0, 1] bcast_S1x80_S100000x80_0_1 : (⟨S1x80, .f32⟩ : BufTy).Contents (Elt F) → (⟨S100000x80, .f32⟩ : BufTy).Contents (Elt F)),
    StableHlo.binary main_v194 main_v196 main_v197 (addf : (⟨S100000x80, .f32⟩ : BufTy).Contents (Elt F) → (⟨S100000x80, .f32⟩ : BufTy).Contents (Elt F) → (⟨S100000x80, .f32⟩ : BufTy).Contents (Elt F)),
    StableHlo.binary main_v163 main_v197 main_v198 (addf : (⟨S100000x80, .f32⟩ : BufTy).Contents (Elt F) → (⟨S100000x80, .f32⟩ : BufTy).Contents (Elt F) → (⟨S100000x80, .f32⟩ : BufTy).Contents (Elt F)) ]

/-- Each touches TensorCore references only. -/
theorem ops_part3_sub : (ops_part3 : List (HloOp τ sig (Elt F))).Forall fun op => op.bufs ⊆ tcRefs τ sig :=
  ⟨StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub ..⟩

set_option maxHeartbeats 4000000 in
/-- The window is its operations run in sequence. -/
theorem main_part3_eq (c : Dev nD) : main_part3 (F := F) c = seq ops_part3 := rfl

end Cert.ReferenceIdeal.RefRun

end
-- ==== Proof.RefOps4.lean ====
/- The reference program's operations 4: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 4, in order (a called function's operations at the call's own buffers). -/
abbrev ops_part4 : List (HloOp τ sig (Elt F)) :=
  [ StableHlo.unary main_arg6 main_v199 ((extractStridedSlice S1x80x80 ![1, 0, 0] · slices_S6x80x80_S1x80x80_1_0_0) : (⟨S6x80x80, .f32⟩ : BufTy).Contents (Elt F) → (⟨S1x80x80, .f32⟩ : BufTy).Contents (Elt F)),
    StableHlo.reshape main_v199 main_v200 rfl shapeCasts_S1x80x80_S80x80,
    StableHlo.unary main_arg7 main_v201 ((extractStridedSlice S1x80 ![1, 0] · slices_S6x80_S1x80_1_0) : (⟨S6x80, .f32⟩ : BufTy).Contents (Elt F) → (⟨S1x80, .f32⟩ : BufTy).Contents (Elt F)),
    StableHlo.reshape main_v201 main_v202 rfl shapeCasts_S1x80_S80,
    StableHlo.binary main_v198 main_v200 main_v203 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_39 (constantI S_ 32 0#32),
    StableHlo.unary main_c_39 main_v204 (broadcastInDim S1000000 ![] bcast_S_S1000000 : (⟨S_, .i32⟩ : BufTy).Contents (Elt F) → (⟨S1000000, .i32⟩ : BufTy).Contents (Elt F)),
    StableHlo.binary main_v1 main_v204 main_v205 (cmpi .slt : (⟨S1000000, .i32⟩ : BufTy).Contents (Elt F) → (⟨S1000000, .i32⟩ : BufTy).Contents (Elt F) → (⟨S1000000, .i1⟩ : BufTy).Contents (Elt F)),
    StableHlo.nullary main_c_40 (constantI S_ 32 100000#32),
    StableHlo.unary main_c_40 main_v206 (broadcastInDim S1000000 ![] bcast_S_S1000000 : (⟨S_, .i32⟩ : BufTy).Contents (Elt F) → (⟨S1000000, .i32⟩ : BufTy).Contents (Elt F)),
    StableHlo.binary main_v1 main_v206 main_v207 (addi : (⟨S1000000, .i32⟩ : BufTy).Contents (Elt F) → (⟨S1000000, .i32⟩ : BufTy).Contents (Elt F) → (⟨S1000000, .i32⟩ : BufTy).Contents (Elt F)),
    StableHlo.ternary main_v205 main_v207 main_v1 main_v208 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v208 main_v209 (broadcastInDim S1000000x1 ![0] bcast_S1000000_S1000000x1_0 : (⟨S1000000, .i32⟩ : BufTy).Contents (Elt F) → (⟨S1000000x1, .i32⟩ : BufTy).Contents (Elt F)),
    StableHlo.binary main_v203 main_v209 main_v210 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_41 (constant S_ .f32 0x00000000#32),
    StableHlo.unary main_cst_41 main_v211 (broadcastInDim S20000x80 ![] bcast_S_S20000x80 : (⟨S_, .f32⟩ : BufTy).Contents (Elt F) → (⟨S20000x80, .f32⟩ : BufTy).Contents (Elt F)),
    StableHlo.unary main_v3 main_v212 (broadcastInDim S1000000x1 ![0] bcast_S1000000_S1000000x1_0 : (⟨S1000000, .i32⟩ : BufTy).Contents (Elt F) → (⟨S1000000x1, .i32⟩ : BufTy).Contents (Elt F)),
    StableHlo.ternary main_v211 main_v212 main_v210 main_v213 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v214 (broadcastInDim S20000x1 ![0] bcast_S20000_S20000x1_0 : (⟨S20000, .f32⟩ : BufTy).Contents (Elt F) → (⟨S20000x1, .f32⟩ : BufTy).Contents (Elt F)),
    StableHlo.unary main_v214 main_v215 (broadcastInDim S20000x80 ![0, 1] bcast_S20000x1_S20000x80_0_1 : (⟨S20000x1, .f32⟩ : BufTy).Contents (Elt F) → (⟨S20000x80, .f32⟩ : BufTy).Contents (Elt F)),
    StableHlo.binary main_v213 main_v215 main_v216 (mulf : (⟨S20000x80, .f32⟩ : BufTy).Contents (Elt F) → (⟨S20000x80, .f32⟩ : BufTy).Contents (Elt F) → (⟨S20000x80, .f32⟩ : BufTy).Contents (Elt F)),
    StableHlo.nullary main_c_42 (constantI S_ 32 0#32),
    StableHlo.unary main_c_42 main_v217 (broadcastInDim S1000000 ![] bcast_S_S1000000 : (⟨S_, .i32⟩ : BufTy).Contents (Elt F) → (⟨S1000000, .i32⟩ : BufTy).Contents (Elt F)),
    StableHlo.binary main_v3 main_v217 main_v218 (cmpi .slt : (⟨S1000000, .i32⟩ : BufTy).Contents (Elt F) → (⟨S1000000, .i32⟩ : BufTy).Contents (Elt F) → (⟨S1000000, .i1⟩ : BufTy).Contents (Elt F)),
    StableHlo.nullary main_c_43 (constantI S_ 32 20000#32),
    StableHlo.unary main_c_43 main_v219 (broadcastInDim S1000000 ![] bcast_S_S1000000 : (⟨S_, .i32⟩ : BufTy).Contents (Elt F) → (⟨S1000000, .i32⟩ : BufTy).Contents (Elt F)),
    StableHlo.binary main_v3 main_v219 main_v220 (addi : (⟨S1000000, .i32⟩ : BufTy).Contents (Elt F) → (⟨S1000000, .i32⟩ : BufTy).Contents (Elt F) → (⟨S1000000, .i32⟩ : BufTy).Contents (Elt F)),
    StableHlo.ternary main_v218 main_v220 main_v3 main_v221 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v221 main_v222 (broadcastInDim S1000000x1 ![0] bcast_S1000000_S1000000x1_0 : (⟨S1000000, .i32⟩ : BufTy).Contents (Elt F) → (⟨S1000000x1, .i32⟩ : BufTy).Contents (Elt F)),
    StableHlo.binary main_v216 main_v222 main_v223 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_44 (constant S_ .f32 0x00000000#32),
    StableHlo.unary main_cst_44 main_v224 (broadcastInDim S100000x80 ![] bcast_S_S100000x80 : (⟨S_, .f32⟩ : BufTy).Contents (Elt F) → (⟨S100000x80, .f32⟩ : BufTy).Contents (Elt F)),
    StableHlo.unary main_v1 main_v225 (broadcastInDim S1000000x1 ![0] bcast_S1000000_S1000000x1_0 : (⟨S1000000, .i32⟩ : BufTy).Contents (Elt F) → (⟨S1000000x1, .i32⟩ : BufTy).Contents (Elt F)),
    StableHlo.ternary main_v224 main_v225 main_v223 main_v226 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v227 (broadcastInDim S100000x1 ![0] bcast_S100000_S100000x1_0 : (⟨S100000, .f32⟩ : BufTy).Contents (Elt F) → (⟨S100000x1, .f32⟩ : BufTy).Contents (Elt F)),
    StableHlo.unary main_v227 main_v228 (broadcastInDim S100000x80 ![0, 1] bcast_S100000x1_S100000x80_0_1 : (⟨S100000x1, .f32⟩ : BufTy).Contents (Elt F) → (⟨S100000x80, .f32⟩ : BufTy).Contents (Elt F)),
    StableHlo.binary main_v226 main_v228 main_v229 (mulf : (⟨S100000x80, .f32⟩ : BufTy).Contents (Elt F) → (⟨S100000x80, .f32⟩ : BufTy).Contents (Elt F) → (⟨S100000x80, .f32⟩ : BufTy).Contents (Elt F)),
    StableHlo.unary main_v202 main_v230 (broadcastInDim S1x80 ![1] bcast_S80_S1x80_1 : (⟨S80, .f32⟩ : BufTy).Contents (Elt F) → (⟨S1x80, .f32⟩ : BufTy).Contents (Elt F)),
    StableHlo.unary main_v230 main_v231 (broadcastInDim S100000x80 ![0, 1] bcast_S1x80_S100000x80_0_1 : (⟨S1x80, .f32⟩ : BufTy).Contents (Elt F) → (⟨S100000x80, .f32⟩ : BufTy).Contents (Elt F)),
    StableHlo.binary main_v229 main_v231 main_v232 (addf : (⟨S100000x80, .f32⟩ : BufTy).Contents (Elt F) → (⟨S100000x80, .f32⟩ : BufTy).Contents (Elt F) → (⟨S100000x80, .f32⟩ : BufTy).Contents (Elt F)),
    StableHlo.unary main_arg10 main_v233 ((extractStridedSlice S1x80 ![2, 0] · slices_S7x80_S1x80_2_0) : (⟨S7x80, .f32⟩ : BufTy).Contents (Elt F) → (⟨S1x80, .f32⟩ : BufTy).Contents (Elt F)),
    StableHlo.reshape main_v233 main_v234 rfl shapeCasts_S1x80_S80,
    StableHlo.unary main_arg11 main_v235 ((extractStridedSlice S1x80 ![2, 0] · slices_S7x80_S1x80_2_0) : (⟨S7x80, .f32⟩ : BufTy).Contents (Elt F) → (⟨S1x80, .f32⟩ : BufTy).Contents (Elt F)),
    StableHlo.reshape main_v235 main_v236 rfl shapeCasts_S1x80_S80,
    StableHlo.nullary main_cst_45 (constant S_ .f32 0x00000000#32),
    StableHlo.binary main_v232 main_cst_45 main_v237 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_46 (constant S_ .f32 0x47C35000#32),
    StableHlo.unary main_cst_46 main_v238 (broadcastInDim S80 ![] bcast_S_S80 : (⟨S_, .f32⟩ : BufTy).Contents (Elt F) → (⟨S80, .f32⟩ : BufTy).Contents (Elt F)),
    StableHlo.binary main_v237 main_v238 main_v239 (Host.divf : (⟨S80, .f32⟩ : BufTy).Contents (Elt F) → (⟨S80, .f32⟩ : BufTy).Contents (Elt F) → (⟨S80, .f32⟩ : BufTy).Contents (Elt F)),
    StableHlo.nullary main_c_47 (constantI S_ 32 0#32),
    StableHlo.TRef.nullary (.of main_call6_cst : StableHlo.TRef sig ⟨S_, .f32⟩) (constant S_ .f32 0x00000000#32),
    StableHlo.TRef.binary (.of main_v232 : StableHlo.TRef sig ⟨S100000x80, .f32⟩) (.of main_call6_cst : StableHlo.TRef sig ⟨S_, .f32⟩) (.of main_call6_v0 : StableHlo.TRef sig ⟨S80, .f32⟩) (fun x v => Host.reduceAdd x v reducesTo_S100000x80_S80_d0 h_S_),
    StableHlo.TRef.unary (.of main_call6_v0 : StableHlo.TRef sig ⟨S80, .f32⟩) (.of main_call6_v1 : StableHlo.TRef sig ⟨S1x80, .f32⟩) (broadcastInDim S1x80 ![1] bcast_S80_S1x80_1),
    StableHlo.TRef.nullary (.of main_call6_cst_0 : StableHlo.TRef sig ⟨S_, .f32⟩) (constant S_ .f32 0x47C35000#32),
    StableHlo.TRef.unary (.of main_call6_cst_0 : StableHlo.TRef sig ⟨S_, .f32⟩) (.of main_call6_v2 : StableHlo.TRef sig ⟨S1x80, .f32⟩) (broadcastInDim S1x80 ![] bcast_S_S1x80),
    StableHlo.TRef.binary (.of main_call6_v1 : StableHlo.TRef sig ⟨S1x80, .f32⟩) (.of main_call6_v2 : StableHlo.TRef sig ⟨S1x80, .f32⟩) (.of main_call6_v3 : StableHlo.TRef sig ⟨S1x80, .f32⟩) Host.divf,
    StableHlo.TRef.unary (.of main_call6_v3 : StableHlo.TRef sig ⟨S1x80, .f32⟩) (.of main_call6_v4 : StableHlo.TRef sig ⟨S100000x80, .f32⟩) (broadcastInDim S100000x80 ![0, 1] bcast_S1x80_S100000x80_0_1),
    StableHlo.TRef.binary (.of main_v232 : StableHlo.TRef sig ⟨S100000x80, .f32⟩) (.of main_call6_v4 : StableHlo.TRef sig ⟨S100000x80, .f32⟩) (.of main_call6_v5 : StableHlo.TRef sig ⟨S100000x80, .f32⟩) subf,
    StableHlo.TRef.binary (.of main_call6_v5 : StableHlo.TRef sig ⟨S100000x80, .f32⟩) (.of main_call6_v5 : StableHlo.TRef sig ⟨S100000x80, .f32⟩) (.of main_call6_v6 : StableHlo.TRef sig ⟨S100000x80, .f32⟩) mulf,
    StableHlo.TRef.unary (.of main_c_47 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47C35000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S100000x80, .f32⟩) (.of main_call6_cst_2 : StableHlo.TRef sig ⟨S_, .f32⟩) (.of main_call6_v9 : StableHlo.TRef sig ⟨S80, .f32⟩) (fun x v => Host.reduceAdd x v reducesTo_S100000x80_S80_d0 h_S_),
    StableHlo.TRef.unary (.of main_call6_v8 : StableHlo.TRef sig ⟨S_, .f32⟩) (.of main_call6_v10 : StableHlo.TRef sig ⟨S80, .f32⟩) (broadcastInDim S80 ![] bcast_S_S80),
    StableHlo.TRef.binary (.of main_call6_v9 : StableHlo.TRef sig ⟨S80, .f32⟩) (.of main_call6_v10 : StableHlo.TRef sig ⟨S80, .f32⟩) (.of main_call6_v11 : StableHlo.TRef sig ⟨S80, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S80, .f32⟩) (broadcastInDim S80 ![] bcast_S_S80),
    StableHlo.TRef.ternary (.of main_call6_v12 : StableHlo.TRef sig ⟨S_, .i1⟩) (.of main_call6_v11 : StableHlo.TRef sig ⟨S80, .f32⟩) (.of main_call6_call0_v1 : StableHlo.TRef sig ⟨S80, .f32⟩) (.of main_v240 : StableHlo.TRef sig ⟨S80, .f32⟩) (fun p a b => select (broadcastInDim S80 ![] bcast_S_S80 p) a b),
    StableHlo.unary main_v239 main_v241 (broadcastInDim S1x80 ![1] bcast_S80_S1x80_1 : (⟨S80, .f32⟩ : BufTy).Contents (Elt F) → (⟨S1x80, .f32⟩ : BufTy).Contents (Elt F)),
    StableHlo.unary main_v241 main_v242 (broadcastInDim S100000x80 ![0, 1] bcast_S1x80_S100000x80_0_1 : (⟨S1x80, .f32⟩ : BufTy).Contents (Elt F) → (⟨S100000x80, .f32⟩ : BufTy).Contents (Elt F)),
    StableHlo.binary main_v232 main_v242 main_v243 (subf : (⟨S100000x80, .f32⟩ : BufTy).Contents (Elt F) → (⟨S100000x80, .f32⟩ : BufTy).Contents (Elt F) → (⟨S100000x80, .f32⟩ : BufTy).Contents (Elt F)),
    StableHlo.unary main_v234 main_v244 (broadcastInDim S1x80 ![1] bcast_S80_S1x80_1 : (⟨S80, .f32⟩ : BufTy).Contents (Elt F) → (⟨S1x80, .f32⟩ : BufTy).Contents (Elt F)),
    StableHlo.unary main_v244 main_v245 (broadcastInDim S100000x80 ![0, 1] bcast_S1x80_S100000x80_0_1 : (⟨S1x80, .f32⟩ : BufTy).Contents (Elt F) → (⟨S100000x80, .f32⟩ : BufTy).Contents (Elt F)),
    StableHlo.binary main_v245 main_v243 main_v246 (mulf : (⟨S100000x80, .f32⟩ : BufTy).Contents (Elt F) → (⟨S100000x80, .f32⟩ : BufTy).Contents (Elt F) → (⟨S100000x80, .f32⟩ : BufTy).Contents (Elt F)),
    StableHlo.nullary main_cst_48 (constant S_ .f32 0x3727C5AC#32),
    StableHlo.unary main_cst_48 main_v247 (broadcastInDim S80 ![] bcast_S_S80 : (⟨S_, .f32⟩ : BufTy).Contents (Elt F) → (⟨S80, .f32⟩ : BufTy).Contents (Elt F)),
    StableHlo.binary main_v240 main_v247 main_v248 (addf : (⟨S80, .f32⟩ : BufTy).Contents (Elt F) → (⟨S80, .f32⟩ : BufTy).Contents (Elt F) → (⟨S80, .f32⟩ : BufTy).Contents (Elt F)) ]

/-- Each touches TensorCore references only. -/
theorem ops_part4_sub : (ops_part4 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

set_option maxHeartbeats 4000000 in
/-- The window is its operations run in sequence. -/
theorem main_part4_eq (c : Dev nD) : main_part4 (F := F) c = seq ops_part4 := rfl

end Cert.ReferenceIdeal.RefRun

end
-- ==== Proof.RefOps5.lean ====
/- The reference program's operations 5: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 5, in order (a called function's operations at the call's own buffers). -/
abbrev ops_part5 : List (HloOp τ sig (Elt F)) :=
  [ StableHlo.unary main_v248 main_v249 (Host.rsqrt : (⟨S80, .f32⟩ : BufTy).Contents (Elt F) → (⟨S80, .f32⟩ : BufTy).Contents (Elt F)),
    StableHlo.unary main_v249 main_v250 (broadcastInDim S1x80 ![1] bcast_S80_S1x80_1 : (⟨S80, .f32⟩ : BufTy).Contents (Elt F) → (⟨S1x80, .f32⟩ : BufTy).Contents (Elt F)),
    StableHlo.unary main_v250 main_v251 (broadcastInDim S100000x80 ![0, 1] bcast_S1x80_S100000x80_0_1 : (⟨S1x80, .f32⟩ : BufTy).Contents (Elt F) → (⟨S100000x80, .f32⟩ : BufTy).Contents (Elt F)),
    StableHlo.binary main_v246 main_v251 main_v252 (mulf : (⟨S100000x80, .f32⟩ : BufTy).Contents (Elt F) → (⟨S100000x80, .f32⟩ : BufTy).Contents (Elt F) → (⟨S100000x80, .f32⟩ : BufTy).Contents (Elt F)),
    StableHlo.unary main_v236 main_v253 (broadcastInDim S1x80 ![1] bcast_S80_S1x80_1 : (⟨S80, .f32⟩ : BufTy).Contents (Elt F) → (⟨S1x80, .f32⟩ : BufTy).Contents (Elt F)),
    StableHlo.unary main_v253 main_v254 (broadcastInDim S100000x80 ![0, 1] bcast_S1x80_S100000x80_0_1 : (⟨S1x80, .f32⟩ : BufTy).Contents (Elt F) → (⟨S100000x80, .f32⟩ : BufTy).Contents (Elt F)),
    StableHlo.binary main_v252 main_v254 main_v255 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S100000x80, .f32⟩) (broadcastInDim S100000x80 ![] bcast_S_S100000x80),
    StableHlo.TRef.binary (.of main_v255 : StableHlo.TRef sig ⟨S100000x80, .f32⟩) (.of main_call7_v0 : StableHlo.TRef sig ⟨S100000x80, .f32⟩) (.of main_v256 : StableHlo.TRef sig ⟨S100000x80, .f32⟩) maximumf,
    StableHlo.unary main_arg8 main_v257 ((extractStridedSlice S1x80x80 ![1, 0, 0] · slices_S6x80x80_S1x80x80_1_0_0) : (⟨S6x80x80, .f32⟩ : BufTy).Contents (Elt F) → (⟨S1x80x80, .f32⟩ : BufTy).Contents (Elt F)),
    StableHlo.reshape main_v257 main_v258 rfl shapeCasts_S1x80x80_S80x80,
    StableHlo.unary main_arg9 main_v259 ((extractStridedSlice S1x80 ![1, 0] · slices_S6x80_S1x80_1_0) : (⟨S6x80, .f32⟩ : BufTy).Contents (Elt F) → (⟨S1x80, .f32⟩ : BufTy).Contents (Elt F)),
    StableHlo.reshape main_v259 main_v260 rfl shapeCasts_S1x80_S80,
    StableHlo.binary main_v198 main_v258 main_v261 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_49 (constantI S_ 32 0#32),
    StableHlo.unary main_c_49 main_v262 (broadcastInDim S1000000 ![] bcast_S_S1000000 : (⟨S_, .i32⟩ : BufTy).Contents (Elt F) → (⟨S1000000, .i32⟩ : BufTy).Contents (Elt F)),
    StableHlo.binary main_v1 main_v262 main_v263 (cmpi .slt : (⟨S1000000, .i32⟩ : BufTy).Contents (Elt F) → (⟨S1000000, .i32⟩ : BufTy).Contents (Elt F) → (⟨S1000000, .i1⟩ : BufTy).Contents (Elt F)),
    StableHlo.nullary main_c_50 (constantI S_ 32 100000#32),
    StableHlo.unary main_c_50 main_v264 (broadcastInDim S1000000 ![] bcast_S_S1000000 : (⟨S_, .i32⟩ : BufTy).Contents (Elt F) → (⟨S1000000, .i32⟩ : BufTy).Contents (Elt F)),
    StableHlo.binary main_v1 main_v264 main_v265 (addi : (⟨S1000000, .i32⟩ : BufTy).Contents (Elt F) → (⟨S1000000, .i32⟩ : BufTy).Contents (Elt F) → (⟨S1000000, .i32⟩ : BufTy).Contents (Elt F)),
    StableHlo.ternary main_v263 main_v265 main_v1 main_v266 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v266 main_v267 (broadcastInDim S1000000x1 ![0] bcast_S1000000_S1000000x1_0 : (⟨S1000000, .i32⟩ : BufTy).Contents (Elt F) → (⟨S1000000x1, .i32⟩ : BufTy).Contents (Elt F)),
    StableHlo.binary main_v261 main_v267 main_v268 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_51 (constant S_ .f32 0x00000000#32),
    StableHlo.unary main_cst_51 main_v269 (broadcastInDim S20000x80 ![] bcast_S_S20000x80 : (⟨S_, .f32⟩ : BufTy).Contents (Elt F) → (⟨S20000x80, .f32⟩ : BufTy).Contents (Elt F)),
    StableHlo.unary main_v3 main_v270 (broadcastInDim S1000000x1 ![0] bcast_S1000000_S1000000x1_0 : (⟨S1000000, .i32⟩ : BufTy).Contents (Elt F) → (⟨S1000000x1, .i32⟩ : BufTy).Contents (Elt F)),
    StableHlo.ternary main_v269 main_v270 main_v268 main_v271 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v272 (broadcastInDim S20000x1 ![0] bcast_S20000_S20000x1_0 : (⟨S20000, .f32⟩ : BufTy).Contents (Elt F) → (⟨S20000x1, .f32⟩ : BufTy).Contents (Elt F)),
    StableHlo.unary main_v272 main_v273 (broadcastInDim S20000x80 ![0, 1] bcast_S20000x1_S20000x80_0_1 : (⟨S20000x1, .f32⟩ : BufTy).Contents (Elt F) → (⟨S20000x80, .f32⟩ : BufTy).Contents (Elt F)),
    StableHlo.binary main_v271 main_v273 main_v274 (mulf : (⟨S20000x80, .f32⟩ : BufTy).Contents (Elt F) → (⟨S20000x80, .f32⟩ : BufTy).Contents (Elt F) → (⟨S20000x80, .f32⟩ : BufTy).Contents (Elt F)),
    StableHlo.nullary main_c_52 (constantI S_ 32 0#32),
    StableHlo.unary main_c_52 main_v275 (broadcastInDim S1000000 ![] bcast_S_S1000000 : (⟨S_, .i32⟩ : BufTy).Contents (Elt F) → (⟨S1000000, .i32⟩ : BufTy).Contents (Elt F)),
    StableHlo.binary main_v3 main_v275 main_v276 (cmpi .slt : (⟨S1000000, .i32⟩ : BufTy).Contents (Elt F) → (⟨S1000000, .i32⟩ : BufTy).Contents (Elt F) → (⟨S1000000, .i1⟩ : BufTy).Contents (Elt F)),
    StableHlo.nullary main_c_53 (constantI S_ 32 20000#32),
    StableHlo.unary main_c_53 main_v277 (broadcastInDim S1000000 ![] bcast_S_S1000000 : (⟨S_, .i32⟩ : BufTy).Contents (Elt F) → (⟨S1000000, .i32⟩ : BufTy).Contents (Elt F)),
    StableHlo.binary main_v3 main_v277 main_v278 (addi : (⟨S1000000, .i32⟩ : BufTy).Contents (Elt F) → (⟨S1000000, .i32⟩ : BufTy).Contents (Elt F) → (⟨S1000000, .i32⟩ : BufTy).Contents (Elt F)),
    StableHlo.ternary main_v276 main_v278 main_v3 main_v279 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v279 main_v280 (broadcastInDim S1000000x1 ![0] bcast_S1000000_S1000000x1_0 : (⟨S1000000, .i32⟩ : BufTy).Contents (Elt F) → (⟨S1000000x1, .i32⟩ : BufTy).Contents (Elt F)),
    StableHlo.binary main_v274 main_v280 main_v281 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_54 (constant S_ .f32 0x00000000#32),
    StableHlo.unary main_cst_54 main_v282 (broadcastInDim S100000x80 ![] bcast_S_S100000x80 : (⟨S_, .f32⟩ : BufTy).Contents (Elt F) → (⟨S100000x80, .f32⟩ : BufTy).Contents (Elt F)),
    StableHlo.unary main_v1 main_v283 (broadcastInDim S1000000x1 ![0] bcast_S1000000_S1000000x1_0 : (⟨S1000000, .i32⟩ : BufTy).Contents (Elt F) → (⟨S1000000x1, .i32⟩ : BufTy).Contents (Elt F)),
    StableHlo.ternary main_v282 main_v283 main_v281 main_v284 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v285 (broadcastInDim S100000x1 ![0] bcast_S100000_S100000x1_0 : (⟨S100000, .f32⟩ : BufTy).Contents (Elt F) → (⟨S100000x1, .f32⟩ : BufTy).Contents (Elt F)),
    StableHlo.unary main_v285 main_v286 (broadcastInDim S100000x80 ![0, 1] bcast_S100000x1_S100000x80_0_1 : (⟨S100000x1, .f32⟩ : BufTy).Contents (Elt F) → (⟨S100000x80, .f32⟩ : BufTy).Contents (Elt F)),
    StableHlo.binary main_v284 main_v286 main_v287 (mulf : (⟨S100000x80, .f32⟩ : BufTy).Contents (Elt F) → (⟨S100000x80, .f32⟩ : BufTy).Contents (Elt F) → (⟨S100000x80, .f32⟩ : BufTy).Contents (Elt F)),
    StableHlo.unary main_v260 main_v288 (broadcastInDim S1x80 ![1] bcast_S80_S1x80_1 : (⟨S80, .f32⟩ : BufTy).Contents (Elt F) → (⟨S1x80, .f32⟩ : BufTy).Contents (Elt F)),
    StableHlo.unary main_v288 main_v289 (broadcastInDim S100000x80 ![0, 1] bcast_S1x80_S100000x80_0_1 : (⟨S1x80, .f32⟩ : BufTy).Contents (Elt F) → (⟨S100000x80, .f32⟩ : BufTy).Contents (Elt F)),
    StableHlo.binary main_v287 main_v289 main_v290 (addf : (⟨S100000x80, .f32⟩ : BufTy).Contents (Elt F) → (⟨S100000x80, .f32⟩ : BufTy).Contents (Elt F) → (⟨S100000x80, .f32⟩ : BufTy).Contents (Elt F)),
    StableHlo.binary main_v256 main_v290 main_v291 (addf : (⟨S100000x80, .f32⟩ : BufTy).Contents (Elt F) → (⟨S100000x80, .f32⟩ : BufTy).Contents (Elt F) → (⟨S100000x80, .f32⟩ : BufTy).Contents (Elt F)),
    StableHlo.unary main_arg6 main_v292 ((extractStridedSlice S1x80x80 ![2, 0, 0] · slices_S6x80x80_S1x80x80_2_0_0) : (⟨S6x80x80, .f32⟩ : BufTy).Contents (Elt F) → (⟨S1x80x80, .f32⟩ : BufTy).Contents (Elt F)),
    StableHlo.reshape main_v292 main_v293 rfl shapeCasts_S1x80x80_S80x80,
    StableHlo.unary main_arg7 main_v294 ((extractStridedSlice S1x80 ![2, 0] · slices_S6x80_S1x80_2_0) : (⟨S6x80, .f32⟩ : BufTy).Contents (Elt F) → (⟨S1x80, .f32⟩ : BufTy).Contents (Elt F)),
    StableHlo.reshape main_v294 main_v295 rfl shapeCasts_S1x80_S80,
    StableHlo.binary main_v291 main_v293 main_v296 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_55 (constantI S_ 32 0#32),
    StableHlo.unary main_c_55 main_v297 (broadcastInDim S1000000 ![] bcast_S_S1000000 : (⟨S_, .i32⟩ : BufTy).Contents (Elt F) → (⟨S1000000, .i32⟩ : BufTy).Contents (Elt F)),
    StableHlo.binary main_v1 main_v297 main_v298 (cmpi .slt : (⟨S1000000, .i32⟩ : BufTy).Contents (Elt F) → (⟨S1000000, .i32⟩ : BufTy).Contents (Elt F) → (⟨S1000000, .i1⟩ : BufTy).Contents (Elt F)),
    StableHlo.nullary main_c_56 (constantI S_ 32 100000#32),
    StableHlo.unary main_c_56 main_v299 (broadcastInDim S1000000 ![] bcast_S_S1000000 : (⟨S_, .i32⟩ : BufTy).Contents (Elt F) → (⟨S1000000, .i32⟩ : BufTy).Contents (Elt F)),
    StableHlo.binary main_v1 main_v299 main_v300 (addi : (⟨S1000000, .i32⟩ : BufTy).Contents (Elt F) → (⟨S1000000, .i32⟩ : BufTy).Contents (Elt F) → (⟨S1000000, .i32⟩ : BufTy).Contents (Elt F)) ]

/-- Each touches TensorCore references only. -/
theorem ops_part5_sub : (ops_part5 : List (HloOp τ sig (Elt F))).Forall fun op => op.bufs ⊆ tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩

set_option maxHeartbeats 4000000 in
/-- The window is its operations run in sequence. -/
theorem main_part5_eq (c : Dev nD) : main_part5 (F := F) c = seq ops_part5 := rfl

end Cert.ReferenceIdeal.RefRun

end
-- ==== Proof.RefOps6.lean ====
/- The reference program's operations 6: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 6, in order (a called function's operations at the call's own buffers). -/
abbrev ops_part6 : List (HloOp τ sig (Elt F)) :=
  [ StableHlo.ternary main_v298 main_v300 main_v1 main_v301 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v301 main_v302 (broadcastInDim S1000000x1 ![0] bcast_S1000000_S1000000x1_0 : (⟨S1000000, .i32⟩ : BufTy).Contents (Elt F) → (⟨S1000000x1, .i32⟩ : BufTy).Contents (Elt F)),
    StableHlo.binary main_v296 main_v302 main_v303 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_57 (constant S_ .f32 0x00000000#32),
    StableHlo.unary main_cst_57 main_v304 (broadcastInDim S20000x80 ![] bcast_S_S20000x80 : (⟨S_, .f32⟩ : BufTy).Contents (Elt F) → (⟨S20000x80, .f32⟩ : BufTy).Contents (Elt F)),
    StableHlo.unary main_v3 main_v305 (broadcastInDim S1000000x1 ![0] bcast_S1000000_S1000000x1_0 : (⟨S1000000, .i32⟩ : BufTy).Contents (Elt F) → (⟨S1000000x1, .i32⟩ : BufTy).Contents (Elt F)),
    StableHlo.ternary main_v304 main_v305 main_v303 main_v306 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v307 (broadcastInDim S20000x1 ![0] bcast_S20000_S20000x1_0 : (⟨S20000, .f32⟩ : BufTy).Contents (Elt F) → (⟨S20000x1, .f32⟩ : BufTy).Contents (Elt F)),
    StableHlo.unary main_v307 main_v308 (broadcastInDim S20000x80 ![0, 1] bcast_S20000x1_S20000x80_0_1 : (⟨S20000x1, .f32⟩ : BufTy).Contents (Elt F) → (⟨S20000x80, .f32⟩ : BufTy).Contents (Elt F)),
    StableHlo.binary main_v306 main_v308 main_v309 (mulf : (⟨S20000x80, .f32⟩ : BufTy).Contents (Elt F) → (⟨S20000x80, .f32⟩ : BufTy).Contents (Elt F) → (⟨S20000x80, .f32⟩ : BufTy).Contents (Elt F)),
    StableHlo.nullary main_c_58 (constantI S_ 32 0#32),
    StableHlo.unary main_c_58 main_v310 (broadcastInDim S1000000 ![] bcast_S_S1000000 : (⟨S_, .i32⟩ : BufTy).Contents (Elt F) → (⟨S1000000, .i32⟩ : BufTy).Contents (Elt F)),
    StableHlo.binary main_v3 main_v310 main_v311 (cmpi .slt : (⟨S1000000, .i32⟩ : BufTy).Contents (Elt F) → (⟨S1000000, .i32⟩ : BufTy).Contents (Elt F) → (⟨S1000000, .i1⟩ : BufTy).Contents (Elt F)),
    StableHlo.nullary main_c_59 (constantI S_ 32 20000#32),
    StableHlo.unary main_c_59 main_v312 (broadcastInDim S1000000 ![] bcast_S_S1000000 : (⟨S_, .i32⟩ : BufTy).Contents (Elt F) → (⟨S1000000, .i32⟩ : BufTy).Contents (Elt F)),
    StableHlo.binary main_v3 main_v312 main_v313 (addi : (⟨S1000000, .i32⟩ : BufTy).Contents (Elt F) → (⟨S1000000, .i32⟩ : BufTy).Contents (Elt F) → (⟨S1000000, .i32⟩ : BufTy).Contents (Elt F)),
    StableHlo.ternary main_v311 main_v313 main_v3 main_v314 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v314 main_v315 (broadcastInDim S1000000x1 ![0] bcast_S1000000_S1000000x1_0 : (⟨S1000000, .i32⟩ : BufTy).Contents (Elt F) → (⟨S1000000x1, .i32⟩ : BufTy).Contents (Elt F)),
    StableHlo.binary main_v309 main_v315 main_v316 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_60 (constant S_ .f32 0x00000000#32),
    StableHlo.unary main_cst_60 main_v317 (broadcastInDim S100000x80 ![] bcast_S_S100000x80 : (⟨S_, .f32⟩ : BufTy).Contents (Elt F) → (⟨S100000x80, .f32⟩ : BufTy).Contents (Elt F)),
    StableHlo.unary main_v1 main_v318 (broadcastInDim S1000000x1 ![0] bcast_S1000000_S1000000x1_0 : (⟨S1000000, .i32⟩ : BufTy).Contents (Elt F) → (⟨S1000000x1, .i32⟩ : BufTy).Contents (Elt F)),
    StableHlo.ternary main_v317 main_v318 main_v316 main_v319 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v320 (broadcastInDim S100000x1 ![0] bcast_S100000_S100000x1_0 : (⟨S100000, .f32⟩ : BufTy).Contents (Elt F) → (⟨S100000x1, .f32⟩ : BufTy).Contents (Elt F)),
    StableHlo.unary main_v320 main_v321 (broadcastInDim S100000x80 ![0, 1] bcast_S100000x1_S100000x80_0_1 : (⟨S100000x1, .f32⟩ : BufTy).Contents (Elt F) → (⟨S100000x80, .f32⟩ : BufTy).Contents (Elt F)),
    StableHlo.binary main_v319 main_v321 main_v322 (mulf : (⟨S100000x80, .f32⟩ : BufTy).Contents (Elt F) → (⟨S100000x80, .f32⟩ : BufTy).Contents (Elt F) → (⟨S100000x80, .f32⟩ : BufTy).Contents (Elt F)),
    StableHlo.unary main_v295 main_v323 (broadcastInDim S1x80 ![1] bcast_S80_S1x80_1 : (⟨S80, .f32⟩ : BufTy).Contents (Elt F) → (⟨S1x80, .f32⟩ : BufTy).Contents (Elt F)),
    StableHlo.unary main_v323 main_v324 (broadcastInDim S100000x80 ![0, 1] bcast_S1x80_S100000x80_0_1 : (⟨S1x80, .f32⟩ : BufTy).Contents (Elt F) → (⟨S100000x80, .f32⟩ : BufTy).Contents (Elt F)),
    StableHlo.binary main_v322 main_v324 main_v325 (addf : (⟨S100000x80, .f32⟩ : BufTy).Contents (Elt F) → (⟨S100000x80, .f32⟩ : BufTy).Contents (Elt F) → (⟨S100000x80, .f32⟩ : BufTy).Contents (Elt F)),
    StableHlo.unary main_arg10 main_v326 ((extractStridedSlice S1x80 ![3, 0] · slices_S7x80_S1x80_3_0) : (⟨S7x80, .f32⟩ : BufTy).Contents (Elt F) → (⟨S1x80, .f32⟩ : BufTy).Contents (Elt F)),
    StableHlo.reshape main_v326 main_v327 rfl shapeCasts_S1x80_S80,
    StableHlo.unary main_arg11 main_v328 ((extractStridedSlice S1x80 ![3, 0] · slices_S7x80_S1x80_3_0) : (⟨S7x80, .f32⟩ : BufTy).Contents (Elt F) → (⟨S1x80, .f32⟩ : BufTy).Contents (Elt F)),
    StableHlo.reshape main_v328 main_v329 rfl shapeCasts_S1x80_S80,
    StableHlo.nullary main_cst_61 (constant S_ .f32 0x00000000#32),
    StableHlo.binary main_v325 main_cst_61 main_v330 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_62 (constant S_ .f32 0x47C35000#32),
    StableHlo.unary main_cst_62 main_v331 (broadcastInDim S80 ![] bcast_S_S80 : (⟨S_, .f32⟩ : BufTy).Contents (Elt F) → (⟨S80, .f32⟩ : BufTy).Contents (Elt F)),
    StableHlo.binary main_v330 main_v331 main_v332 (Host.divf : (⟨S80, .f32⟩ : BufTy).Contents (Elt F) → (⟨S80, .f32⟩ : BufTy).Contents (Elt F) → (⟨S80, .f32⟩ : BufTy).Contents (Elt F)),
    StableHlo.nullary main_c_63 (constantI S_ 32 0#32),
    StableHlo.TRef.nullary (.of main_call8_cst : StableHlo.TRef sig ⟨S_, .f32⟩) (constant S_ .f32 0x00000000#32),
    StableHlo.TRef.binary (.of main_v325 : StableHlo.TRef sig ⟨S100000x80, .f32⟩) (.of main_call8_cst : StableHlo.TRef sig ⟨S_, .f32⟩) (.of main_call8_v0 : StableHlo.TRef sig ⟨S80, .f32⟩) (fun x v => Host.reduceAdd x v reducesTo_S100000x80_S80_d0 h_S_),
    StableHlo.TRef.unary (.of main_call8_v0 : StableHlo.TRef sig ⟨S80, .f32⟩) (.of main_call8_v1 : StableHlo.TRef sig ⟨S1x80, .f32⟩) (broadcastInDim S1x80 ![1] bcast_S80_S1x80_1),
    StableHlo.TRef.nullary (.of main_call8_cst_0 : StableHlo.TRef sig ⟨S_, .f32⟩) (constant S_ .f32 0x47C35000#32),
    StableHlo.TRef.unary (.of main_call8_cst_0 : StableHlo.TRef sig ⟨S_, .f32⟩) (.of main_call8_v2 : StableHlo.TRef sig ⟨S1x80, .f32⟩) (broadcastInDim S1x80 ![] bcast_S_S1x80),
    StableHlo.TRef.binary (.of main_call8_v1 : StableHlo.TRef sig ⟨S1x80, .f32⟩) (.of main_call8_v2 : StableHlo.TRef sig ⟨S1x80, .f32⟩) (.of main_call8_v3 : StableHlo.TRef sig ⟨S1x80, .f32⟩) Host.divf,
    StableHlo.TRef.unary (.of main_call8_v3 : StableHlo.TRef sig ⟨S1x80, .f32⟩) (.of main_call8_v4 : StableHlo.TRef sig ⟨S100000x80, .f32⟩) (broadcastInDim S100000x80 ![0, 1] bcast_S1x80_S100000x80_0_1),
    StableHlo.TRef.binary (.of main_v325 : StableHlo.TRef sig ⟨S100000x80, .f32⟩) (.of main_call8_v4 : StableHlo.TRef sig ⟨S100000x80, .f32⟩) (.of main_call8_v5 : StableHlo.TRef sig ⟨S100000x80, .f32⟩) subf,
    StableHlo.TRef.binary (.of main_call8_v5 : StableHlo.TRef sig ⟨S100000x80, .f32⟩) (.of main_call8_v5 : StableHlo.TRef sig ⟨S100000x80, .f32⟩) (.of main_call8_v6 : StableHlo.TRef sig ⟨S100000x80, .f32⟩) mulf,
    StableHlo.TRef.unary (.of main_c_63 : StableHlo.TRef sig ⟨S_, .i32⟩) (.of main_call8_v7 : StableHlo.TRef sig ⟨S_, .f32⟩) (sitofp .f32),
    StableHlo.TRef.nullary (.of main_call8_cst_1 : StableHlo.TRef sig ⟨S_, .f32⟩) (constant S_ .f32 0x47C35000#32),
    StableHlo.TRef.binary (.of main_call8_cst_1 : StableHlo.TRef sig ⟨S_, .f32⟩) (.of main_call8_v7 : StableHlo.TRef sig ⟨S_, .f32⟩) (.of main_call8_v8 : StableHlo.TRef sig ⟨S_, .f32⟩) subf,
    StableHlo.TRef.nullary (.of main_call8_cst_2 : StableHlo.TRef sig ⟨S_, .f32⟩) (constant S_ .f32 0x00000000#32),
    StableHlo.TRef.binary (.of main_call8_v6 : StableHlo.TRef sig ⟨S100000x80, .f32⟩) (.of main_call8_cst_2 : StableHlo.TRef sig ⟨S_, .f32⟩) (.of main_call8_v9 : StableHlo.TRef sig ⟨S80, .f32⟩) (fun x v => Host.reduceAdd x v reducesTo_S100000x80_S80_d0 h_S_),
    StableHlo.TRef.unary (.of main_call8_v8 : StableHlo.TRef sig ⟨S_, .f32⟩) (.of main_call8_v10 : StableHlo.TRef sig ⟨S80, .f32⟩) (broadcastInDim S80 ![] bcast_S_S80),
    StableHlo.TRef.binary (.of main_call8_v9 : StableHlo.TRef sig ⟨S80, .f32⟩) (.of main_call8_v10 : StableHlo.TRef sig ⟨S80, .f32⟩) (.of main_call8_v11 : StableHlo.TRef sig ⟨S80, .f32⟩) Host.divf,
    StableHlo.TRef.nullary (.of main_call8_cst_3 : StableHlo.TRef sig ⟨S_, .f32⟩) (constant S_ .f32 0x00000000#32),
    StableHlo.TRef.binary (.of main_call8_v8 : StableHlo.TRef sig ⟨S_, .f32⟩) (.of main_call8_cst_3 : StableHlo.TRef sig ⟨S_, .f32⟩) (.of main_call8_v12 : StableHlo.TRef sig ⟨S_, .i1⟩) (cmpf .ogt),
    StableHlo.TRef.nullary (.of main_call8_cst_4 : StableHlo.TRef sig ⟨S_, .f32⟩) (constant S_ .f32 0x7FC00000#32),
    StableHlo.TRef.unary (.of main_call8_cst_4 : StableHlo.TRef sig ⟨S_, .f32⟩) (.of main_call8_call0_v0 : StableHlo.TRef sig ⟨S_, .f32⟩) id,
    StableHlo.TRef.unary (.of main_call8_call0_v0 : StableHlo.TRef sig ⟨S_, .f32⟩) (.of main_call8_call0_v1 : StableHlo.TRef sig ⟨S80, .f32⟩) (broadcastInDim S80 ![] bcast_S_S80),
    StableHlo.TRef.ternary (.of main_call8_v12 : StableHlo.TRef sig ⟨S_, .i1⟩) (.of main_call8_v11 : StableHlo.TRef sig ⟨S80, .f32⟩) (.of main_call8_call0_v1 : StableHlo.TRef sig ⟨S80, .f32⟩) (.of main_v333 : StableHlo.TRef sig ⟨S80, .f32⟩) (fun p a b => select (broadcastInDim S80 ![] bcast_S_S80 p) a b),
    StableHlo.unary main_v332 main_v334 (broadcastInDim S1x80 ![1] bcast_S80_S1x80_1 : (⟨S80, .f32⟩ : BufTy).Contents (Elt F) → (⟨S1x80, .f32⟩ : BufTy).Contents (Elt F)),
    StableHlo.unary main_v334 main_v335 (broadcastInDim S100000x80 ![0, 1] bcast_S1x80_S100000x80_0_1 : (⟨S1x80, .f32⟩ : BufTy).Contents (Elt F) → (⟨S100000x80, .f32⟩ : BufTy).Contents (Elt F)),
    StableHlo.binary main_v325 main_v335 main_v336 (subf : (⟨S100000x80, .f32⟩ : BufTy).Contents (Elt F) → (⟨S100000x80, .f32⟩ : BufTy).Contents (Elt F) → (⟨S100000x80, .f32⟩ : BufTy).Contents (Elt F)),
    StableHlo.unary main_v327 main_v337 (broadcastInDim S1x80 ![1] bcast_S80_S1x80_1 : (⟨S80, .f32⟩ : BufTy).Contents (Elt F) → (⟨S1x80, .f32⟩ : BufTy).Contents (Elt F)),
    StableHlo.unary main_v337 main_v338 (broadcastInDim S100000x80 ![0, 1] bcast_S1x80_S100000x80_0_1 : (⟨S1x80, .f32⟩ : BufTy).Contents (Elt F) → (⟨S100000x80, .f32⟩ : BufTy).Contents (Elt F)),
    StableHlo.binary main_v338 main_v336 main_v339 (mulf : (⟨S100000x80, .f32⟩ : BufTy).Contents (Elt F) → (⟨S100000x80, .f32⟩ : BufTy).Contents (Elt F) → (⟨S100000x80, .f32⟩ : BufTy).Contents (Elt F)),
    StableHlo.nullary main_cst_64 (constant S_ .f32 0x3727C5AC#32),
    StableHlo.unary main_cst_64 main_v340 (broadcastInDim S80 ![] bcast_S_S80 : (⟨S_, .f32⟩ : BufTy).Contents (Elt F) → (⟨S80, .f32⟩ : BufTy).Contents (Elt F)),
    StableHlo.binary main_v333 main_v340 main_v341 (addf : (⟨S80, .f32⟩ : BufTy).Contents (Elt F) → (⟨S80, .f32⟩ : BufTy).Contents (Elt F) → (⟨S80, .f32⟩ : BufTy).Contents (Elt F)),
    StableHlo.unary main_v341 main_v342 (Host.rsqrt : (⟨S80, .f32⟩ : BufTy).Contents (Elt F) → (⟨S80, .f32⟩ : BufTy).Contents (Elt F)),
    StableHlo.unary main_v342 main_v343 (broadcastInDim S1x80 ![1] bcast_S80_S1x80_1 : (⟨S80, .f32⟩ : BufTy).Contents (Elt F) → (⟨S1x80, .f32⟩ : BufTy).Contents (Elt F)),
    StableHlo.unary main_v343 main_v344 (broadcastInDim S100000x80 ![0, 1] bcast_S1x80_S100000x80_0_1 : (⟨S1x80, .f32⟩ : BufTy).Contents (Elt F) → (⟨S100000x80, .f32⟩ : BufTy).Contents (Elt F)),
    StableHlo.binary main_v339 main_v344 main_v345 (mulf : (⟨S100000x80, .f32⟩ : BufTy).Contents (Elt F) → (⟨S100000x80, .f32⟩ : BufTy).Contents (Elt F) → (⟨S100000x80, .f32⟩ : BufTy).Contents (Elt F)),
    StableHlo.unary main_v329 main_v346 (broadcastInDim S1x80 ![1] bcast_S80_S1x80_1 : (⟨S80, .f32⟩ : BufTy).Contents (Elt F) → (⟨S1x80, .f32⟩ : BufTy).Contents (Elt F)),
    StableHlo.unary main_v346 main_v347 (broadcastInDim S100000x80 ![0, 1] bcast_S1x80_S100000x80_0_1 : (⟨S1x80, .f32⟩ : BufTy).Contents (Elt F) → (⟨S100000x80, .f32⟩ : BufTy).Contents (Elt F)),
    StableHlo.binary main_v345 main_v347 main_v348 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S100000x80, .f32⟩) (broadcastInDim S100000x80 ![] bcast_S_S100000x80),
    StableHlo.TRef.binary (.of main_v348 : StableHlo.TRef sig ⟨S100000x80, .f32⟩) (.of main_call9_v0 : StableHlo.TRef sig ⟨S100000x80, .f32⟩) (.of main_v349 : StableHlo.TRef sig ⟨S100000x80, .f32⟩) maximumf,
    StableHlo.unary main_arg8 main_v350 ((extractStridedSlice S1x80x80 ![2, 0, 0] · slices_S6x80x80_S1x80x80_2_0_0) : (⟨S6x80x80, .f32⟩ : BufTy).Contents (Elt F) → (⟨S1x80x80, .f32⟩ : BufTy).Contents (Elt F)),
    StableHlo.reshape main_v350 main_v351 rfl shapeCasts_S1x80x80_S80x80,
    StableHlo.unary main_arg9 main_v352 ((extractStridedSlice S1x80 ![2, 0] · slices_S6x80_S1x80_2_0) : (⟨S6x80, .f32⟩ : BufTy).Contents (Elt F) → (⟨S1x80, .f32⟩ : BufTy).Contents (Elt F)) ]

/-- Each touches TensorCore references only. -/
theorem ops_part6_sub : (ops_part6 : List (HloOp τ sig (Elt F))).Forall fun op => op.bufs ⊆ tcRefs τ sig :=
  ⟨StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub ..⟩

set_option maxHeartbeats 4000000 in
/-- The window is its operations run in sequence. -/
theorem main_part6_eq (c : Dev nD) : main_part6 (F := F) c = seq ops_part6 := rfl

end Cert.ReferenceIdeal.RefRun

end
-- ==== Proof.RefOps7.lean ====
/- The reference program's operations 7: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 7, in order (a called function's operations at the call's own buffers). -/
abbrev ops_part7 : List (HloOp τ sig (Elt F)) :=
  [ StableHlo.reshape main_v352 main_v353 rfl shapeCasts_S1x80_S80,
    StableHlo.binary main_v291 main_v351 main_v354 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_65 (constantI S_ 32 0#32),
    StableHlo.unary main_c_65 main_v355 (broadcastInDim S1000000 ![] bcast_S_S1000000 : (⟨S_, .i32⟩ : BufTy).Contents (Elt F) → (⟨S1000000, .i32⟩ : BufTy).Contents (Elt F)),
    StableHlo.binary main_v1 main_v355 main_v356 (cmpi .slt : (⟨S1000000, .i32⟩ : BufTy).Contents (Elt F) → (⟨S1000000, .i32⟩ : BufTy).Contents (Elt F) → (⟨S1000000, .i1⟩ : BufTy).Contents (Elt F)),
    StableHlo.nullary main_c_66 (constantI S_ 32 100000#32),
    StableHlo.unary main_c_66 main_v357 (broadcastInDim S1000000 ![] bcast_S_S1000000 : (⟨S_, .i32⟩ : BufTy).Contents (Elt F) → (⟨S1000000, .i32⟩ : BufTy).Contents (Elt F)),
    StableHlo.binary main_v1 main_v357 main_v358 (addi : (⟨S1000000, .i32⟩ : BufTy).Contents (Elt F) → (⟨S1000000, .i32⟩ : BufTy).Contents (Elt F) → (⟨S1000000, .i32⟩ : BufTy).Contents (Elt F)),
    StableHlo.ternary main_v356 main_v358 main_v1 main_v359 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v359 main_v360 (broadcastInDim S1000000x1 ![0] bcast_S1000000_S1000000x1_0 : (⟨S1000000, .i32⟩ : BufTy).Contents (Elt F) → (⟨S1000000x1, .i32⟩ : BufTy).Contents (Elt F)),
    StableHlo.binary main_v354 main_v360 main_v361 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_67 (constant S_ .f32 0x00000000#32),
    StableHlo.unary main_cst_67 main_v362 (broadcastInDim S20000x80 ![] bcast_S_S20000x80 : (⟨S_, .f32⟩ : BufTy).Contents (Elt F) → (⟨S20000x80, .f32⟩ : BufTy).Contents (Elt F)),
    StableHlo.unary main_v3 main_v363 (broadcastInDim S1000000x1 ![0] bcast_S1000000_S1000000x1_0 : (⟨S1000000, .i32⟩ : BufTy).Contents (Elt F) → (⟨S1000000x1, .i32⟩ : BufTy).Contents (Elt F)),
    StableHlo.ternary main_v362 main_v363 main_v361 main_v364 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v365 (broadcastInDim S20000x1 ![0] bcast_S20000_S20000x1_0 : (⟨S20000, .f32⟩ : BufTy).Contents (Elt F) → (⟨S20000x1, .f32⟩ : BufTy).Contents (Elt F)),
    StableHlo.unary main_v365 main_v366 (broadcastInDim S20000x80 ![0, 1] bcast_S20000x1_S20000x80_0_1 : (⟨S20000x1, .f32⟩ : BufTy).Contents (Elt F) → (⟨S20000x80, .f32⟩ : BufTy).Contents (Elt F)),
    StableHlo.binary main_v364 main_v366 main_v367 (mulf : (⟨S20000x80, .f32⟩ : BufTy).Contents (Elt F) → (⟨S20000x80, .f32⟩ : BufTy).Contents (Elt F) → (⟨S20000x80, .f32⟩ : BufTy).Contents (Elt F)),
    StableHlo.nullary main_c_68 (constantI S_ 32 0#32),
    StableHlo.unary main_c_68 main_v368 (broadcastInDim S1000000 ![] bcast_S_S1000000 : (⟨S_, .i32⟩ : BufTy).Contents (Elt F) → (⟨S1000000, .i32⟩ : BufTy).Contents (Elt F)),
    StableHlo.binary main_v3 main_v368 main_v369 (cmpi .slt : (⟨S1000000, .i32⟩ : BufTy).Contents (Elt F) → (⟨S1000000, .i32⟩ : BufTy).Contents (Elt F) → (⟨S1000000, .i1⟩ : BufTy).Contents (Elt F)),
    StableHlo.nullary main_c_69 (constantI S_ 32 20000#32),
    StableHlo.unary main_c_69 main_v370 (broadcastInDim S1000000 ![] bcast_S_S1000000 : (⟨S_, .i32⟩ : BufTy).Contents (Elt F) → (⟨S1000000, .i32⟩ : BufTy).Contents (Elt F)),
    StableHlo.binary main_v3 main_v370 main_v371 (addi : (⟨S1000000, .i32⟩ : BufTy).Contents (Elt F) → (⟨S1000000, .i32⟩ : BufTy).Contents (Elt F) → (⟨S1000000, .i32⟩ : BufTy).Contents (Elt F)),
    StableHlo.ternary main_v369 main_v371 main_v3 main_v372 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v372 main_v373 (broadcastInDim S1000000x1 ![0] bcast_S1000000_S1000000x1_0 : (⟨S1000000, .i32⟩ : BufTy).Contents (Elt F) → (⟨S1000000x1, .i32⟩ : BufTy).Contents (Elt F)),
    StableHlo.binary main_v367 main_v373 main_v374 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_70 (constant S_ .f32 0x00000000#32),
    StableHlo.unary main_cst_70 main_v375 (broadcastInDim S100000x80 ![] bcast_S_S100000x80 : (⟨S_, .f32⟩ : BufTy).Contents (Elt F) → (⟨S100000x80, .f32⟩ : BufTy).Contents (Elt F)),
    StableHlo.unary main_v1 main_v376 (broadcastInDim S1000000x1 ![0] bcast_S1000000_S1000000x1_0 : (⟨S1000000, .i32⟩ : BufTy).Contents (Elt F) → (⟨S1000000x1, .i32⟩ : BufTy).Contents (Elt F)),
    StableHlo.ternary main_v375 main_v376 main_v374 main_v377 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v378 (broadcastInDim S100000x1 ![0] bcast_S100000_S100000x1_0 : (⟨S100000, .f32⟩ : BufTy).Contents (Elt F) → (⟨S100000x1, .f32⟩ : BufTy).Contents (Elt F)),
    StableHlo.unary main_v378 main_v379 (broadcastInDim S100000x80 ![0, 1] bcast_S100000x1_S100000x80_0_1 : (⟨S100000x1, .f32⟩ : BufTy).Contents (Elt F) → (⟨S100000x80, .f32⟩ : BufTy).Contents (Elt F)),
    StableHlo.binary main_v377 main_v379 main_v380 (mulf : (⟨S100000x80, .f32⟩ : BufTy).Contents (Elt F) → (⟨S100000x80, .f32⟩ : BufTy).Contents (Elt F) → (⟨S100000x80, .f32⟩ : BufTy).Contents (Elt F)),
    StableHlo.unary main_v353 main_v381 (broadcastInDim S1x80 ![1] bcast_S80_S1x80_1 : (⟨S80, .f32⟩ : BufTy).Contents (Elt F) → (⟨S1x80, .f32⟩ : BufTy).Contents (Elt F)),
    StableHlo.unary main_v381 main_v382 (broadcastInDim S100000x80 ![0, 1] bcast_S1x80_S100000x80_0_1 : (⟨S1x80, .f32⟩ : BufTy).Contents (Elt F) → (⟨S100000x80, .f32⟩ : BufTy).Contents (Elt F)),
    StableHlo.binary main_v380 main_v382 main_v383 (addf : (⟨S100000x80, .f32⟩ : BufTy).Contents (Elt F) → (⟨S100000x80, .f32⟩ : BufTy).Contents (Elt F) → (⟨S100000x80, .f32⟩ : BufTy).Contents (Elt F)),
    StableHlo.binary main_v349 main_v383 main_v384 (addf : (⟨S100000x80, .f32⟩ : BufTy).Contents (Elt F) → (⟨S100000x80, .f32⟩ : BufTy).Contents (Elt F) → (⟨S100000x80, .f32⟩ : BufTy).Contents (Elt F)),
    StableHlo.unary main_arg6 main_v385 ((extractStridedSlice S1x80x80 ![3, 0, 0] · slices_S6x80x80_S1x80x80_3_0_0) : (⟨S6x80x80, .f32⟩ : BufTy).Contents (Elt F) → (⟨S1x80x80, .f32⟩ : BufTy).Contents (Elt F)),
    StableHlo.reshape main_v385 main_v386 rfl shapeCasts_S1x80x80_S80x80,
    StableHlo.unary main_arg7 main_v387 ((extractStridedSlice S1x80 ![3, 0] · slices_S6x80_S1x80_3_0) : (⟨S6x80, .f32⟩ : BufTy).Contents (Elt F) → (⟨S1x80, .f32⟩ : BufTy).Contents (Elt F)),
    StableHlo.reshape main_v387 main_v388 rfl shapeCasts_S1x80_S80,
    StableHlo.binary main_v384 main_v386 main_v389 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_71 (constantI S_ 32 0#32),
    StableHlo.unary main_c_71 main_v390 (broadcastInDim S1000000 ![] bcast_S_S1000000 : (⟨S_, .i32⟩ : BufTy).Contents (Elt F) → (⟨S1000000, .i32⟩ : BufTy).Contents (Elt F)),
    StableHlo.binary main_v1 main_v390 main_v391 (cmpi .slt : (⟨S1000000, .i32⟩ : BufTy).Contents (Elt F) → (⟨S1000000, .i32⟩ : BufTy).Contents (Elt F) → (⟨S1000000, .i1⟩ : BufTy).Contents (Elt F)),
    StableHlo.nullary main_c_72 (constantI S_ 32 100000#32),
    StableHlo.unary main_c_72 main_v392 (broadcastInDim S1000000 ![] bcast_S_S1000000 : (⟨S_, .i32⟩ : BufTy).Contents (Elt F) → (⟨S1000000, .i32⟩ : BufTy).Contents (Elt F)),
    StableHlo.binary main_v1 main_v392 main_v393 (addi : (⟨S1000000, .i32⟩ : BufTy).Contents (Elt F) → (⟨S1000000, .i32⟩ : BufTy).Contents (Elt F) → (⟨S1000000, .i32⟩ : BufTy).Contents (Elt F)),
    StableHlo.ternary main_v391 main_v393 main_v1 main_v394 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v394 main_v395 (broadcastInDim S1000000x1 ![0] bcast_S1000000_S1000000x1_0 : (⟨S1000000, .i32⟩ : BufTy).Contents (Elt F) → (⟨S1000000x1, .i32⟩ : BufTy).Contents (Elt F)),
    StableHlo.binary main_v389 main_v395 main_v396 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_73 (constant S_ .f32 0x00000000#32),
    StableHlo.unary main_cst_73 main_v397 (broadcastInDim S20000x80 ![] bcast_S_S20000x80 : (⟨S_, .f32⟩ : BufTy).Contents (Elt F) → (⟨S20000x80, .f32⟩ : BufTy).Contents (Elt F)),
    StableHlo.unary main_v3 main_v398 (broadcastInDim S1000000x1 ![0] bcast_S1000000_S1000000x1_0 : (⟨S1000000, .i32⟩ : BufTy).Contents (Elt F) → (⟨S1000000x1, .i32⟩ : BufTy).Contents (Elt F)),
    StableHlo.ternary main_v397 main_v398 main_v396 main_v399 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v400 (broadcastInDim S20000x1 ![0] bcast_S20000_S20000x1_0 : (⟨S20000, .f32⟩ : BufTy).Contents (Elt F) → (⟨S20000x1, .f32⟩ : BufTy).Contents (Elt F)),
    StableHlo.unary main_v400 main_v401 (broadcastInDim S20000x80 ![0, 1] bcast_S20000x1_S20000x80_0_1 : (⟨S20000x1, .f32⟩ : BufTy).Contents (Elt F) → (⟨S20000x80, .f32⟩ : BufTy).Contents (Elt F)),
    StableHlo.binary main_v399 main_v401 main_v402 (mulf : (⟨S20000x80, .f32⟩ : BufTy).Contents (Elt F) → (⟨S20000x80, .f32⟩ : BufTy).Contents (Elt F) → (⟨S20000x80, .f32⟩ : BufTy).Contents (Elt F)),
    StableHlo.nullary main_c_74 (constantI S_ 32 0#32) ]

/-- Each touches TensorCore references only. -/
theorem ops_part7_sub : (ops_part7 : List (HloOp τ sig (Elt F))).Forall fun op => op.bufs ⊆ tcRefs τ sig :=
  ⟨StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub ..⟩

set_option maxHeartbeats 4000000 in
/-- The window is its operations run in sequence. -/
theorem main_part7_eq (c : Dev nD) : main_part7 (F := F) c = seq ops_part7 := rfl

end Cert.ReferenceIdeal.RefRun

end
-- ==== Proof.RefOps8.lean ====
/- The reference program's operations 8: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 8, in order (a called function's operations at the call's own buffers). -/
abbrev ops_part8 : List (HloOp τ sig (Elt F)) :=
  [ StableHlo.unary main_c_74 main_v403 (broadcastInDim S1000000 ![] bcast_S_S1000000 : (⟨S_, .i32⟩ : BufTy).Contents (Elt F) → (⟨S1000000, .i32⟩ : BufTy).Contents (Elt F)),
    StableHlo.binary main_v3 main_v403 main_v404 (cmpi .slt : (⟨S1000000, .i32⟩ : BufTy).Contents (Elt F) → (⟨S1000000, .i32⟩ : BufTy).Contents (Elt F) → (⟨S1000000, .i1⟩ : BufTy).Contents (Elt F)),
    StableHlo.nullary main_c_75 (constantI S_ 32 20000#32),
    StableHlo.unary main_c_75 main_v405 (broadcastInDim S1000000 ![] bcast_S_S1000000 : (⟨S_, .i32⟩ : BufTy).Contents (Elt F) → (⟨S1000000, .i32⟩ : BufTy).Contents (Elt F)),
    StableHlo.binary main_v3 main_v405 main_v406 (addi : (⟨S1000000, .i32⟩ : BufTy).Contents (Elt F) → (⟨S1000000, .i32⟩ : BufTy).Contents (Elt F) → (⟨S1000000, .i32⟩ : BufTy).Contents (Elt F)),
    StableHlo.ternary main_v404 main_v406 main_v3 main_v407 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v407 main_v408 (broadcastInDim S1000000x1 ![0] bcast_S1000000_S1000000x1_0 : (⟨S1000000, .i32⟩ : BufTy).Contents (Elt F) → (⟨S1000000x1, .i32⟩ : BufTy).Contents (Elt F)),
    StableHlo.binary main_v402 main_v408 main_v409 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_76 (constant S_ .f32 0x00000000#32),
    StableHlo.unary main_cst_76 main_v410 (broadcastInDim S100000x80 ![] bcast_S_S100000x80 : (⟨S_, .f32⟩ : BufTy).Contents (Elt F) → (⟨S100000x80, .f32⟩ : BufTy).Contents (Elt F)),
    StableHlo.unary main_v1 main_v411 (broadcastInDim S1000000x1 ![0] bcast_S1000000_S1000000x1_0 : (⟨S1000000, .i32⟩ : BufTy).Contents (Elt F) → (⟨S1000000x1, .i32⟩ : BufTy).Contents (Elt F)),
    StableHlo.ternary main_v410 main_v411 main_v409 main_v412 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v413 (broadcastInDim S100000x1 ![0] bcast_S100000_S100000x1_0 : (⟨S100000, .f32⟩ : BufTy).Contents (Elt F) → (⟨S100000x1, .f32⟩ : BufTy).Contents (Elt F)),
    StableHlo.unary main_v413 main_v414 (broadcastInDim S100000x80 ![0, 1] bcast_S100000x1_S100000x80_0_1 : (⟨S100000x1, .f32⟩ : BufTy).Contents (Elt F) → (⟨S100000x80, .f32⟩ : BufTy).Contents (Elt F)),
    StableHlo.binary main_v412 main_v414 main_v415 (mulf : (⟨S100000x80, .f32⟩ : BufTy).Contents (Elt F) → (⟨S100000x80, .f32⟩ : BufTy).Contents (Elt F) → (⟨S100000x80, .f32⟩ : BufTy).Contents (Elt F)),
    StableHlo.unary main_v388 main_v416 (broadcastInDim S1x80 ![1] bcast_S80_S1x80_1 : (⟨S80, .f32⟩ : BufTy).Contents (Elt F) → (⟨S1x80, .f32⟩ : BufTy).Contents (Elt F)),
    StableHlo.unary main_v416 main_v417 (broadcastInDim S100000x80 ![0, 1] bcast_S1x80_S100000x80_0_1 : (⟨S1x80, .f32⟩ : BufTy).Contents (Elt F) → (⟨S100000x80, .f32⟩ : BufTy).Contents (Elt F)),
    StableHlo.binary main_v415 main_v417 main_v418 (addf : (⟨S100000x80, .f32⟩ : BufTy).Contents (Elt F) → (⟨S100000x80, .f32⟩ : BufTy).Contents (Elt F) → (⟨S100000x80, .f32⟩ : BufTy).Contents (Elt F)),
    StableHlo.unary main_arg10 main_v419 ((extractStridedSlice S1x80 ![4, 0] · slices_S7x80_S1x80_4_0) : (⟨S7x80, .f32⟩ : BufTy).Contents (Elt F) → (⟨S1x80, .f32⟩ : BufTy).Contents (Elt F)),
    StableHlo.reshape main_v419 main_v420 rfl shapeCasts_S1x80_S80,
    StableHlo.unary main_arg11 main_v421 ((extractStridedSlice S1x80 ![4, 0] · slices_S7x80_S1x80_4_0) : (⟨S7x80, .f32⟩ : BufTy).Contents (Elt F) → (⟨S1x80, .f32⟩ : BufTy).Contents (Elt F)),
    StableHlo.reshape main_v421 main_v422 rfl shapeCasts_S1x80_S80,
    StableHlo.nullary main_cst_77 (constant S_ .f32 0x00000000#32),
    StableHlo.binary main_v418 main_cst_77 main_v423 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_78 (constant S_ .f32 0x47C35000#32),
    StableHlo.unary main_cst_78 main_v424 (broadcastInDim S80 ![] bcast_S_S80 : (⟨S_, .f32⟩ : BufTy).Contents (Elt F) → (⟨S80, .f32⟩ : BufTy).Contents (Elt F)),
    StableHlo.binary main_v423 main_v424 main_v425 (Host.divf : (⟨S80, .f32⟩ : BufTy).Contents (Elt F) → (⟨S80, .f32⟩ : BufTy).Contents (Elt F) → (⟨S80, .f32⟩ : BufTy).Contents (Elt F)),
    StableHlo.nullary main_c_79 (constantI S_ 32 0#32),
    StableHlo.TRef.nullary (.of main_call10_cst : StableHlo.TRef sig ⟨S_, .f32⟩) (constant S_ .f32 0x00000000#32),
    StableHlo.TRef.binary (.of main_v418 : StableHlo.TRef sig ⟨S100000x80, .f32⟩) (.of main_call10_cst : StableHlo.TRef sig ⟨S_, .f32⟩) (.of main_call10_v0 : StableHlo.TRef sig ⟨S80, .f32⟩) (fun x v => Host.reduceAdd x v reducesTo_S100000x80_S80_d0 h_S_),
    StableHlo.TRef.unary (.of main_call10_v0 : StableHlo.TRef sig ⟨S80, .f32⟩) (.of main_call10_v1 : StableHlo.TRef sig ⟨S1x80, .f32⟩) (broadcastInDim S1x80 ![1] bcast_S80_S1x80_1),
    StableHlo.TRef.nullary (.of main_call10_cst_0 : StableHlo.TRef sig ⟨S_, .f32⟩) (constant S_ .f32 0x47C35000#32),
    StableHlo.TRef.unary (.of main_call10_cst_0 : StableHlo.TRef sig ⟨S_, .f32⟩) (.of main_call10_v2 : StableHlo.TRef sig ⟨S1x80, .f32⟩) (broadcastInDim S1x80 ![] bcast_S_S1x80),
    StableHlo.TRef.binary (.of main_call10_v1 : StableHlo.TRef sig ⟨S1x80, .f32⟩) (.of main_call10_v2 : StableHlo.TRef sig ⟨S1x80, .f32⟩) (.of main_call10_v3 : StableHlo.TRef sig ⟨S1x80, .f32⟩) Host.divf,
    StableHlo.TRef.unary (.of main_call10_v3 : StableHlo.TRef sig ⟨S1x80, .f32⟩) (.of main_call10_v4 : StableHlo.TRef sig ⟨S100000x80, .f32⟩) (broadcastInDim S100000x80 ![0, 1] bcast_S1x80_S100000x80_0_1),
    StableHlo.TRef.binary (.of main_v418 : StableHlo.TRef sig ⟨S100000x80, .f32⟩) (.of main_call10_v4 : StableHlo.TRef sig ⟨S100000x80, .f32⟩) (.of main_call10_v5 : StableHlo.TRef sig ⟨S100000x80, .f32⟩) subf,
    StableHlo.TRef.binary (.of main_call10_v5 : StableHlo.TRef sig ⟨S100000x80, .f32⟩) (.of main_call10_v5 : StableHlo.TRef sig ⟨S100000x80, .f32⟩) (.of main_call10_v6 : StableHlo.TRef sig ⟨S100000x80, .f32⟩) mulf,
    StableHlo.TRef.unary (.of main_c_79 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x47C35000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S100000x80, .f32⟩) (.of main_call10_cst_2 : StableHlo.TRef sig ⟨S_, .f32⟩) (.of main_call10_v9 : StableHlo.TRef sig ⟨S80, .f32⟩) (fun x v => Host.reduceAdd x v reducesTo_S100000x80_S80_d0 h_S_),
    StableHlo.TRef.unary (.of main_call10_v8 : StableHlo.TRef sig ⟨S_, .f32⟩) (.of main_call10_v10 : StableHlo.TRef sig ⟨S80, .f32⟩) (broadcastInDim S80 ![] bcast_S_S80),
    StableHlo.TRef.binary (.of main_call10_v9 : StableHlo.TRef sig ⟨S80, .f32⟩) (.of main_call10_v10 : StableHlo.TRef sig ⟨S80, .f32⟩) (.of main_call10_v11 : StableHlo.TRef sig ⟨S80, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S80, .f32⟩) (broadcastInDim S80 ![] bcast_S_S80),
    StableHlo.TRef.ternary (.of main_call10_v12 : StableHlo.TRef sig ⟨S_, .i1⟩) (.of main_call10_v11 : StableHlo.TRef sig ⟨S80, .f32⟩) (.of main_call10_call0_v1 : StableHlo.TRef sig ⟨S80, .f32⟩) (.of main_v426 : StableHlo.TRef sig ⟨S80, .f32⟩) (fun p a b => select (broadcastInDim S80 ![] bcast_S_S80 p) a b),
    StableHlo.unary main_v425 main_v427 (broadcastInDim S1x80 ![1] bcast_S80_S1x80_1 : (⟨S80, .f32⟩ : BufTy).Contents (Elt F) → (⟨S1x80, .f32⟩ : BufTy).Contents (Elt F)),
    StableHlo.unary main_v427 main_v428 (broadcastInDim S100000x80 ![0, 1] bcast_S1x80_S100000x80_0_1 : (⟨S1x80, .f32⟩ : BufTy).Contents (Elt F) → (⟨S100000x80, .f32⟩ : BufTy).Contents (Elt F)),
    StableHlo.binary main_v418 main_v428 main_v429 (subf : (⟨S100000x80, .f32⟩ : BufTy).Contents (Elt F) → (⟨S100000x80, .f32⟩ : BufTy).Contents (Elt F) → (⟨S100000x80, .f32⟩ : BufTy).Contents (Elt F)),
    StableHlo.unary main_v420 main_v430 (broadcastInDim S1x80 ![1] bcast_S80_S1x80_1 : (⟨S80, .f32⟩ : BufTy).Contents (Elt F) → (⟨S1x80, .f32⟩ : BufTy).Contents (Elt F)),
    StableHlo.unary main_v430 main_v431 (broadcastInDim S100000x80 ![0, 1] bcast_S1x80_S100000x80_0_1 : (⟨S1x80, .f32⟩ : BufTy).Contents (Elt F) → (⟨S100000x80, .f32⟩ : BufTy).Contents (Elt F)),
    StableHlo.binary main_v431 main_v429 main_v432 (mulf : (⟨S100000x80, .f32⟩ : BufTy).Contents (Elt F) → (⟨S100000x80, .f32⟩ : BufTy).Contents (Elt F) → (⟨S100000x80, .f32⟩ : BufTy).Contents (Elt F)),
    StableHlo.nullary main_cst_80 (constant S_ .f32 0x3727C5AC#32),
    StableHlo.unary main_cst_80 main_v433 (broadcastInDim S80 ![] bcast_S_S80 : (⟨S_, .f32⟩ : BufTy).Contents (Elt F) → (⟨S80, .f32⟩ : BufTy).Contents (Elt F)),
    StableHlo.binary main_v426 main_v433 main_v434 (addf : (⟨S80, .f32⟩ : BufTy).Contents (Elt F) → (⟨S80, .f32⟩ : BufTy).Contents (Elt F) → (⟨S80, .f32⟩ : BufTy).Contents (Elt F)),
    StableHlo.unary main_v434 main_v435 (Host.rsqrt : (⟨S80, .f32⟩ : BufTy).Contents (Elt F) → (⟨S80, .f32⟩ : BufTy).Contents (Elt F)),
    StableHlo.unary main_v435 main_v436 (broadcastInDim S1x80 ![1] bcast_S80_S1x80_1 : (⟨S80, .f32⟩ : BufTy).Contents (Elt F) → (⟨S1x80, .f32⟩ : BufTy).Contents (Elt F)),
    StableHlo.unary main_v436 main_v437 (broadcastInDim S100000x80 ![0, 1] bcast_S1x80_S100000x80_0_1 : (⟨S1x80, .f32⟩ : BufTy).Contents (Elt F) → (⟨S100000x80, .f32⟩ : BufTy).Contents (Elt F)),
    StableHlo.binary main_v432 main_v437 main_v438 (mulf : (⟨S100000x80, .f32⟩ : BufTy).Contents (Elt F) → (⟨S100000x80, .f32⟩ : BufTy).Contents (Elt F) → (⟨S100000x80, .f32⟩ : BufTy).Contents (Elt F)),
    StableHlo.unary main_v422 main_v439 (broadcastInDim S1x80 ![1] bcast_S80_S1x80_1 : (⟨S80, .f32⟩ : BufTy).Contents (Elt F) → (⟨S1x80, .f32⟩ : BufTy).Contents (Elt F)),
    StableHlo.unary main_v439 main_v440 (broadcastInDim S100000x80 ![0, 1] bcast_S1x80_S100000x80_0_1 : (⟨S1x80, .f32⟩ : BufTy).Contents (Elt F) → (⟨S100000x80, .f32⟩ : BufTy).Contents (Elt F)),
    StableHlo.binary main_v438 main_v440 main_v441 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S100000x80, .f32⟩) (broadcastInDim S100000x80 ![] bcast_S_S100000x80),
    StableHlo.TRef.binary (.of main_v441 : StableHlo.TRef sig ⟨S100000x80, .f32⟩) (.of main_call11_v0 : StableHlo.TRef sig ⟨S100000x80, .f32⟩) (.of main_v442 : StableHlo.TRef sig ⟨S100000x80, .f32⟩) maximumf,
    StableHlo.unary main_arg8 main_v443 ((extractStridedSlice S1x80x80 ![3, 0, 0] · slices_S6x80x80_S1x80x80_3_0_0) : (⟨S6x80x80, .f32⟩ : BufTy).Contents (Elt F) → (⟨S1x80x80, .f32⟩ : BufTy).Contents (Elt F)),
    StableHlo.reshape main_v443 main_v444 rfl shapeCasts_S1x80x80_S80x80,
    StableHlo.unary main_arg9 main_v445 ((extractStridedSlice S1x80 ![3, 0] · slices_S6x80_S1x80_3_0) : (⟨S6x80, .f32⟩ : BufTy).Contents (Elt F) → (⟨S1x80, .f32⟩ : BufTy).Contents (Elt F)),
    StableHlo.reshape main_v445 main_v446 rfl shapeCasts_S1x80_S80,
    StableHlo.binary main_v384 main_v444 main_v447 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_81 (constantI S_ 32 0#32),
    StableHlo.unary main_c_81 main_v448 (broadcastInDim S1000000 ![] bcast_S_S1000000 : (⟨S_, .i32⟩ : BufTy).Contents (Elt F) → (⟨S1000000, .i32⟩ : BufTy).Contents (Elt F)),
    StableHlo.binary main_v1 main_v448 main_v449 (cmpi .slt : (⟨S1000000, .i32⟩ : BufTy).Contents (Elt F) → (⟨S1000000, .i32⟩ : BufTy).Contents (Elt F) → (⟨S1000000, .i1⟩ : BufTy).Contents (Elt F)),
    StableHlo.nullary main_c_82 (constantI S_ 32 100000#32),
    StableHlo.unary main_c_82 main_v450 (broadcastInDim S1000000 ![] bcast_S_S1000000 : (⟨S_, .i32⟩ : BufTy).Contents (Elt F) → (⟨S1000000, .i32⟩ : BufTy).Contents (Elt F)),
    StableHlo.binary main_v1 main_v450 main_v451 (addi : (⟨S1000000, .i32⟩ : BufTy).Contents (Elt F) → (⟨S1000000, .i32⟩ : BufTy).Contents (Elt F) → (⟨S1000000, .i32⟩ : BufTy).Contents (Elt F)),
    StableHlo.ternary main_v449 main_v451 main_v1 main_v452 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v452 main_v453 (broadcastInDim S1000000x1 ![0] bcast_S1000000_S1000000x1_0 : (⟨S1000000, .i32⟩ : BufTy).Contents (Elt F) → (⟨S1000000x1, .i32⟩ : BufTy).Contents (Elt F)),
    StableHlo.binary main_v447 main_v453 main_v454 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)) ]

/-- Each touches TensorCore references only. -/
theorem ops_part8_sub : (ops_part8 : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

set_option maxHeartbeats 4000000 in
/-- The window is its operations run in sequence. -/
theorem main_part8_eq (c : Dev nD) : main_part8 (F := F) c = seq ops_part8 := rfl

end Cert.ReferenceIdeal.RefRun

end
-- ==== Proof.RefOps9.lean ====
/- The reference program's operations 9: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 9, in order (a called function's operations at the call's own buffers). -/
abbrev ops_part9 : List (HloOp τ sig (Elt F)) :=
  [ StableHlo.nullary main_cst_83 (constant S_ .f32 0x00000000#32),
    StableHlo.unary main_cst_83 main_v455 (broadcastInDim S20000x80 ![] bcast_S_S20000x80 : (⟨S_, .f32⟩ : BufTy).Contents (Elt F) → (⟨S20000x80, .f32⟩ : BufTy).Contents (Elt F)),
    StableHlo.unary main_v3 main_v456 (broadcastInDim S1000000x1 ![0] bcast_S1000000_S1000000x1_0 : (⟨S1000000, .i32⟩ : BufTy).Contents (Elt F) → (⟨S1000000x1, .i32⟩ : BufTy).Contents (Elt F)),
    StableHlo.ternary main_v455 main_v456 main_v454 main_v457 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v458 (broadcastInDim S20000x1 ![0] bcast_S20000_S20000x1_0 : (⟨S20000, .f32⟩ : BufTy).Contents (Elt F) → (⟨S20000x1, .f32⟩ : BufTy).Contents (Elt F)),
    StableHlo.unary main_v458 main_v459 (broadcastInDim S20000x80 ![0, 1] bcast_S20000x1_S20000x80_0_1 : (⟨S20000x1, .f32⟩ : BufTy).Contents (Elt F) → (⟨S20000x80, .f32⟩ : BufTy).Contents (Elt F)),
    StableHlo.binary main_v457 main_v459 main_v460 (mulf : (⟨S20000x80, .f32⟩ : BufTy).Contents (Elt F) → (⟨S20000x80, .f32⟩ : BufTy).Contents (Elt F) → (⟨S20000x80, .f32⟩ : BufTy).Contents (Elt F)),
    StableHlo.nullary main_c_84 (constantI S_ 32 0#32),
    StableHlo.unary main_c_84 main_v461 (broadcastInDim S1000000 ![] bcast_S_S1000000 : (⟨S_, .i32⟩ : BufTy).Contents (Elt F) → (⟨S1000000, .i32⟩ : BufTy).Contents (Elt F)),
    StableHlo.binary main_v3 main_v461 main_v462 (cmpi .slt : (⟨S1000000, .i32⟩ : BufTy).Contents (Elt F) → (⟨S1000000, .i32⟩ : BufTy).Contents (Elt F) → (⟨S1000000, .i1⟩ : BufTy).Contents (Elt F)),
    StableHlo.nullary main_c_85 (constantI S_ 32 20000#32),
    StableHlo.unary main_c_85 main_v463 (broadcastInDim S1000000 ![] bcast_S_S1000000 : (⟨S_, .i32⟩ : BufTy).Contents (Elt F) → (⟨S1000000, .i32⟩ : BufTy).Contents (Elt F)),
    StableHlo.binary main_v3 main_v463 main_v464 (addi : (⟨S1000000, .i32⟩ : BufTy).Contents (Elt F) → (⟨S1000000, .i32⟩ : BufTy).Contents (Elt F) → (⟨S1000000, .i32⟩ : BufTy).Contents (Elt F)),
    StableHlo.ternary main_v462 main_v464 main_v3 main_v465 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v465 main_v466 (broadcastInDim S1000000x1 ![0] bcast_S1000000_S1000000x1_0 : (⟨S1000000, .i32⟩ : BufTy).Contents (Elt F) → (⟨S1000000x1, .i32⟩ : BufTy).Contents (Elt F)),
    StableHlo.binary main_v460 main_v466 main_v467 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_86 (constant S_ .f32 0x00000000#32),
    StableHlo.unary main_cst_86 main_v468 (broadcastInDim S100000x80 ![] bcast_S_S100000x80 : (⟨S_, .f32⟩ : BufTy).Contents (Elt F) → (⟨S100000x80, .f32⟩ : BufTy).Contents (Elt F)),
    StableHlo.unary main_v1 main_v469 (broadcastInDim S1000000x1 ![0] bcast_S1000000_S1000000x1_0 : (⟨S1000000, .i32⟩ : BufTy).Contents (Elt F) → (⟨S1000000x1, .i32⟩ : BufTy).Contents (Elt F)),
    StableHlo.ternary main_v468 main_v469 main_v467 main_v470 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v471 (broadcastInDim S100000x1 ![0] bcast_S100000_S100000x1_0 : (⟨S100000, .f32⟩ : BufTy).Contents (Elt F) → (⟨S100000x1, .f32⟩ : BufTy).Contents (Elt F)),
    StableHlo.unary main_v471 main_v472 (broadcastInDim S100000x80 ![0, 1] bcast_S100000x1_S100000x80_0_1 : (⟨S100000x1, .f32⟩ : BufTy).Contents (Elt F) → (⟨S100000x80, .f32⟩ : BufTy).Contents (Elt F)),
    StableHlo.binary main_v470 main_v472 main_v473 (mulf : (⟨S100000x80, .f32⟩ : BufTy).Contents (Elt F) → (⟨S100000x80, .f32⟩ : BufTy).Contents (Elt F) → (⟨S100000x80, .f32⟩ : BufTy).Contents (Elt F)),
    StableHlo.unary main_v446 main_v474 (broadcastInDim S1x80 ![1] bcast_S80_S1x80_1 : (⟨S80, .f32⟩ : BufTy).Contents (Elt F) → (⟨S1x80, .f32⟩ : BufTy).Contents (Elt F)),
    StableHlo.unary main_v474 main_v475 (broadcastInDim S100000x80 ![0, 1] bcast_S1x80_S100000x80_0_1 : (⟨S1x80, .f32⟩ : BufTy).Contents (Elt F) → (⟨S100000x80, .f32⟩ : BufTy).Contents (Elt F)),
    StableHlo.binary main_v473 main_v475 main_v476 (addf : (⟨S100000x80, .f32⟩ : BufTy).Contents (Elt F) → (⟨S100000x80, .f32⟩ : BufTy).Contents (Elt F) → (⟨S100000x80, .f32⟩ : BufTy).Contents (Elt F)),
    StableHlo.binary main_v442 main_v476 main_v477 (addf : (⟨S100000x80, .f32⟩ : BufTy).Contents (Elt F) → (⟨S100000x80, .f32⟩ : BufTy).Contents (Elt F) → (⟨S100000x80, .f32⟩ : BufTy).Contents (Elt F)),
    StableHlo.unary main_arg6 main_v478 ((extractStridedSlice S1x80x80 ![4, 0, 0] · slices_S6x80x80_S1x80x80_4_0_0) : (⟨S6x80x80, .f32⟩ : BufTy).Contents (Elt F) → (⟨S1x80x80, .f32⟩ : BufTy).Contents (Elt F)),
    StableHlo.reshape main_v478 main_v479 rfl shapeCasts_S1x80x80_S80x80,
    StableHlo.unary main_arg7 main_v480 ((extractStridedSlice S1x80 ![4, 0] · slices_S6x80_S1x80_4_0) : (⟨S6x80, .f32⟩ : BufTy).Contents (Elt F) → (⟨S1x80, .f32⟩ : BufTy).Contents (Elt F)),
    StableHlo.reshape main_v480 main_v481 rfl shapeCasts_S1x80_S80,
    StableHlo.binary main_v477 main_v479 main_v482 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_87 (constantI S_ 32 0#32),
    StableHlo.unary main_c_87 main_v483 (broadcastInDim S1000000 ![] bcast_S_S1000000 : (⟨S_, .i32⟩ : BufTy).Contents (Elt F) → (⟨S1000000, .i32⟩ : BufTy).Contents (Elt F)),
    StableHlo.binary main_v1 main_v483 main_v484 (cmpi .slt : (⟨S1000000, .i32⟩ : BufTy).Contents (Elt F) → (⟨S1000000, .i32⟩ : BufTy).Contents (Elt F) → (⟨S1000000, .i1⟩ : BufTy).Contents (Elt F)),
    StableHlo.nullary main_c_88 (constantI S_ 32 100000#32),
    StableHlo.unary main_c_88 main_v485 (broadcastInDim S1000000 ![] bcast_S_S1000000 : (⟨S_, .i32⟩ : BufTy).Contents (Elt F) → (⟨S1000000, .i32⟩ : BufTy).Contents (Elt F)),
    StableHlo.binary main_v1 main_v485 main_v486 (addi : (⟨S1000000, .i32⟩ : BufTy).Contents (Elt F) → (⟨S1000000, .i32⟩ : BufTy).Contents (Elt F) → (⟨S1000000, .i32⟩ : BufTy).Contents (Elt F)),
    StableHlo.ternary main_v484 main_v486 main_v1 main_v487 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v487 main_v488 (broadcastInDim S1000000x1 ![0] bcast_S1000000_S1000000x1_0 : (⟨S1000000, .i32⟩ : BufTy).Contents (Elt F) → (⟨S1000000x1, .i32⟩ : BufTy).Contents (Elt F)),
    StableHlo.binary main_v482 main_v488 main_v489 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_89 (constant S_ .f32 0x00000000#32),
    StableHlo.unary main_cst_89 main_v490 (broadcastInDim S20000x80 ![] bcast_S_S20000x80 : (⟨S_, .f32⟩ : BufTy).Contents (Elt F) → (⟨S20000x80, .f32⟩ : BufTy).Contents (Elt F)),
    StableHlo.unary main_v3 main_v491 (broadcastInDim S1000000x1 ![0] bcast_S1000000_S1000000x1_0 : (⟨S1000000, .i32⟩ : BufTy).Contents (Elt F) → (⟨S1000000x1, .i32⟩ : BufTy).Contents (Elt F)),
    StableHlo.ternary main_v490 main_v491 main_v489 main_v492 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v493 (broadcastInDim S20000x1 ![0] bcast_S20000_S20000x1_0 : (⟨S20000, .f32⟩ : BufTy).Contents (Elt F) → (⟨S20000x1, .f32⟩ : BufTy).Contents (Elt F)),
    StableHlo.unary main_v493 main_v494 (broadcastInDim S20000x80 ![0, 1] bcast_S20000x1_S20000x80_0_1 : (⟨S20000x1, .f32⟩ : BufTy).Contents (Elt F) → (⟨S20000x80, .f32⟩ : BufTy).Contents (Elt F)),
    StableHlo.binary main_v492 main_v494 main_v495 (mulf : (⟨S20000x80, .f32⟩ : BufTy).Contents (Elt F) → (⟨S20000x80, .f32⟩ : BufTy).Contents (Elt F) → (⟨S20000x80, .f32⟩ : BufTy).Contents (Elt F)),
    StableHlo.nullary main_c_90 (constantI S_ 32 0#32),
    StableHlo.unary main_c_90 main_v496 (broadcastInDim S1000000 ![] bcast_S_S1000000 : (⟨S_, .i32⟩ : BufTy).Contents (Elt F) → (⟨S1000000, .i32⟩ : BufTy).Contents (Elt F)),
    StableHlo.binary main_v3 main_v496 main_v497 (cmpi .slt : (⟨S1000000, .i32⟩ : BufTy).Contents (Elt F) → (⟨S1000000, .i32⟩ : BufTy).Contents (Elt F) → (⟨S1000000, .i1⟩ : BufTy).Contents (Elt F)),
    StableHlo.nullary main_c_91 (constantI S_ 32 20000#32),
    StableHlo.unary main_c_91 main_v498 (broadcastInDim S1000000 ![] bcast_S_S1000000 : (⟨S_, .i32⟩ : BufTy).Contents (Elt F) → (⟨S1000000, .i32⟩ : BufTy).Contents (Elt F)),
    StableHlo.binary main_v3 main_v498 main_v499 (addi : (⟨S1000000, .i32⟩ : BufTy).Contents (Elt F) → (⟨S1000000, .i32⟩ : BufTy).Contents (Elt F) → (⟨S1000000, .i32⟩ : BufTy).Contents (Elt F)),
    StableHlo.ternary main_v497 main_v499 main_v3 main_v500 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v500 main_v501 (broadcastInDim S1000000x1 ![0] bcast_S1000000_S1000000x1_0 : (⟨S1000000, .i32⟩ : BufTy).Contents (Elt F) → (⟨S1000000x1, .i32⟩ : BufTy).Contents (Elt F)),
    StableHlo.binary main_v495 main_v501 main_v502 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_92 (constant S_ .f32 0x00000000#32),
    StableHlo.unary main_cst_92 main_v503 (broadcastInDim S100000x80 ![] bcast_S_S100000x80 : (⟨S_, .f32⟩ : BufTy).Contents (Elt F) → (⟨S100000x80, .f32⟩ : BufTy).Contents (Elt F)),
    StableHlo.unary main_v1 main_v504 (broadcastInDim S1000000x1 ![0] bcast_S1000000_S1000000x1_0 : (⟨S1000000, .i32⟩ : BufTy).Contents (Elt F) → (⟨S1000000x1, .i32⟩ : BufTy).Contents (Elt F)) ]

/-- Each touches TensorCore references only. -/
theorem ops_part9_sub : (ops_part9 : List (HloOp τ sig (Elt F))).Forall fun op => op.bufs ⊆ tcRefs τ sig :=
  ⟨StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub ..⟩

set_option maxHeartbeats 4000000 in
/-- The window is its operations run in sequence. -/
theorem main_part9_eq (c : Dev nD) : main_part9 (F := F) c = seq ops_part9 := rfl

end Cert.ReferenceIdeal.RefRun

end
-- ==== Proof.RefOps10.lean ====
/- The reference program's operations 10: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 10, in order (a called function's operations at the call's own buffers). -/
abbrev ops_part10 : List (HloOp τ sig (Elt F)) :=
  [ StableHlo.ternary main_v503 main_v504 main_v502 main_v505 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v506 (broadcastInDim S100000x1 ![0] bcast_S100000_S100000x1_0 : (⟨S100000, .f32⟩ : BufTy).Contents (Elt F) → (⟨S100000x1, .f32⟩ : BufTy).Contents (Elt F)),
    StableHlo.unary main_v506 main_v507 (broadcastInDim S100000x80 ![0, 1] bcast_S100000x1_S100000x80_0_1 : (⟨S100000x1, .f32⟩ : BufTy).Contents (Elt F) → (⟨S100000x80, .f32⟩ : BufTy).Contents (Elt F)),
    StableHlo.binary main_v505 main_v507 main_v508 (mulf : (⟨S100000x80, .f32⟩ : BufTy).Contents (Elt F) → (⟨S100000x80, .f32⟩ : BufTy).Contents (Elt F) → (⟨S100000x80, .f32⟩ : BufTy).Contents (Elt F)),
    StableHlo.unary main_v481 main_v509 (broadcastInDim S1x80 ![1] bcast_S80_S1x80_1 : (⟨S80, .f32⟩ : BufTy).Contents (Elt F) → (⟨S1x80, .f32⟩ : BufTy).Contents (Elt F)),
    StableHlo.unary main_v509 main_v510 (broadcastInDim S100000x80 ![0, 1] bcast_S1x80_S100000x80_0_1 : (⟨S1x80, .f32⟩ : BufTy).Contents (Elt F) → (⟨S100000x80, .f32⟩ : BufTy).Contents (Elt F)),
    StableHlo.binary main_v508 main_v510 main_v511 (addf : (⟨S100000x80, .f32⟩ : BufTy).Contents (Elt F) → (⟨S100000x80, .f32⟩ : BufTy).Contents (Elt F) → (⟨S100000x80, .f32⟩ : BufTy).Contents (Elt F)),
    StableHlo.unary main_arg10 main_v512 ((extractStridedSlice S1x80 ![5, 0] · slices_S7x80_S1x80_5_0) : (⟨S7x80, .f32⟩ : BufTy).Contents (Elt F) → (⟨S1x80, .f32⟩ : BufTy).Contents (Elt F)),
    StableHlo.reshape main_v512 main_v513 rfl shapeCasts_S1x80_S80,
    StableHlo.unary main_arg11 main_v514 ((extractStridedSlice S1x80 ![5, 0] · slices_S7x80_S1x80_5_0) : (⟨S7x80, .f32⟩ : BufTy).Contents (Elt F) → (⟨S1x80, .f32⟩ : BufTy).Contents (Elt F)),
    StableHlo.reshape main_v514 main_v515 rfl shapeCasts_S1x80_S80,
    StableHlo.nullary main_cst_93 (constant S_ .f32 0x00000000#32),
    StableHlo.binary main_v511 main_cst_93 main_v516 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_94 (constant S_ .f32 0x47C35000#32),
    StableHlo.unary main_cst_94 main_v517 (broadcastInDim S80 ![] bcast_S_S80 : (⟨S_, .f32⟩ : BufTy).Contents (Elt F) → (⟨S80, .f32⟩ : BufTy).Contents (Elt F)),
    StableHlo.binary main_v516 main_v517 main_v518 (Host.divf : (⟨S80, .f32⟩ : BufTy).Contents (Elt F) → (⟨S80, .f32⟩ : BufTy).Contents (Elt F) → (⟨S80, .f32⟩ : BufTy).Contents (Elt F)),
    StableHlo.nullary main_c_95 (constantI S_ 32 0#32),
    StableHlo.TRef.nullary (.of main_call12_cst : StableHlo.TRef sig ⟨S_, .f32⟩) (constant S_ .f32 0x00000000#32),
    StableHlo.TRef.binary (.of main_v511 : StableHlo.TRef sig ⟨S100000x80, .f32⟩) (.of main_call12_cst : StableHlo.TRef sig ⟨S_, .f32⟩) (.of main_call12_v0 : StableHlo.TRef sig ⟨S80, .f32⟩) (fun x v => Host.reduceAdd x v reducesTo_S100000x80_S80_d0 h_S_),
    StableHlo.TRef.unary (.of main_call12_v0 : StableHlo.TRef sig ⟨S80, .f32⟩) (.of main_call12_v1 : StableHlo.TRef sig ⟨S1x80, .f32⟩) (broadcastInDim S1x80 ![1] bcast_S80_S1x80_1),
    StableHlo.TRef.nullary (.of main_call12_cst_0 : StableHlo.TRef sig ⟨S_, .f32⟩) (constant S_ .f32 0x47C35000#32),
    StableHlo.TRef.unary (.of main_call12_cst_0 : StableHlo.TRef sig ⟨S_, .f32⟩) (.of main_call12_v2 : StableHlo.TRef sig ⟨S1x80, .f32⟩) (broadcastInDim S1x80 ![] bcast_S_S1x80),
    StableHlo.TRef.binary (.of main_call12_v1 : StableHlo.TRef sig ⟨S1x80, .f32⟩) (.of main_call12_v2 : StableHlo.TRef sig ⟨S1x80, .f32⟩) (.of main_call12_v3 : StableHlo.TRef sig ⟨S1x80, .f32⟩) Host.divf,
    StableHlo.TRef.unary (.of main_call12_v3 : StableHlo.TRef sig ⟨S1x80, .f32⟩) (.of main_call12_v4 : StableHlo.TRef sig ⟨S100000x80, .f32⟩) (broadcastInDim S100000x80 ![0, 1] bcast_S1x80_S100000x80_0_1),
    StableHlo.TRef.binary (.of main_v511 : StableHlo.TRef sig ⟨S100000x80, .f32⟩) (.of main_call12_v4 : StableHlo.TRef sig ⟨S100000x80, .f32⟩) (.of main_call12_v5 : StableHlo.TRef sig ⟨S100000x80, .f32⟩) subf,
    StableHlo.TRef.binary (.of main_call12_v5 : StableHlo.TRef sig ⟨S100000x80, .f32⟩) (.of main_call12_v5 : StableHlo.TRef sig ⟨S100000x80, .f32⟩) (.of main_call12_v6 : StableHlo.TRef sig ⟨S100000x80, .f32⟩) mulf,
    StableHlo.TRef.unary (.of main_c_95 : StableHlo.TRef sig ⟨S_, .i32⟩) (.of main_call12_v7 : StableHlo.TRef sig ⟨S_, .f32⟩) (sitofp .f32),
    StableHlo.TRef.nullary (.of main_call12_cst_1 : StableHlo.TRef sig ⟨S_, .f32⟩) (constant S_ .f32 0x47C35000#32),
    StableHlo.TRef.binary (.of main_call12_cst_1 : StableHlo.TRef sig ⟨S_, .f32⟩) (.of main_call12_v7 : StableHlo.TRef sig ⟨S_, .f32⟩) (.of main_call12_v8 : StableHlo.TRef sig ⟨S_, .f32⟩) subf,
    StableHlo.TRef.nullary (.of main_call12_cst_2 : StableHlo.TRef sig ⟨S_, .f32⟩) (constant S_ .f32 0x00000000#32),
    StableHlo.TRef.binary (.of main_call12_v6 : StableHlo.TRef sig ⟨S100000x80, .f32⟩) (.of main_call12_cst_2 : StableHlo.TRef sig ⟨S_, .f32⟩) (.of main_call12_v9 : StableHlo.TRef sig ⟨S80, .f32⟩) (fun x v => Host.reduceAdd x v reducesTo_S100000x80_S80_d0 h_S_),
    StableHlo.TRef.unary (.of main_call12_v8 : StableHlo.TRef sig ⟨S_, .f32⟩) (.of main_call12_v10 : StableHlo.TRef sig ⟨S80, .f32⟩) (broadcastInDim S80 ![] bcast_S_S80),
    StableHlo.TRef.binary (.of main_call12_v9 : StableHlo.TRef sig ⟨S80, .f32⟩) (.of main_call12_v10 : StableHlo.TRef sig ⟨S80, .f32⟩) (.of main_call12_v11 : StableHlo.TRef sig ⟨S80, .f32⟩) Host.divf,
    StableHlo.TRef.nullary (.of main_call12_cst_3 : StableHlo.TRef sig ⟨S_, .f32⟩) (constant S_ .f32 0x00000000#32),
    StableHlo.TRef.binary (.of main_call12_v8 : StableHlo.TRef sig ⟨S_, .f32⟩) (.of main_call12_cst_3 : StableHlo.TRef sig ⟨S_, .f32⟩) (.of main_call12_v12 : StableHlo.TRef sig ⟨S_, .i1⟩) (cmpf .ogt),
    StableHlo.TRef.nullary (.of main_call12_cst_4 : StableHlo.TRef sig ⟨S_, .f32⟩) (constant S_ .f32 0x7FC00000#32),
    StableHlo.TRef.unary (.of main_call12_cst_4 : StableHlo.TRef sig ⟨S_, .f32⟩) (.of main_call12_call0_v0 : StableHlo.TRef sig ⟨S_, .f32⟩) id,
    StableHlo.TRef.unary (.of main_call12_call0_v0 : StableHlo.TRef sig ⟨S_, .f32⟩) (.of main_call12_call0_v1 : StableHlo.TRef sig ⟨S80, .f32⟩) (broadcastInDim S80 ![] bcast_S_S80),
    StableHlo.TRef.ternary (.of main_call12_v12 : StableHlo.TRef sig ⟨S_, .i1⟩) (.of main_call12_v11 : StableHlo.TRef sig ⟨S80, .f32⟩) (.of main_call12_call0_v1 : StableHlo.TRef sig ⟨S80, .f32⟩) (.of main_v519 : StableHlo.TRef sig ⟨S80, .f32⟩) (fun p a b => select (broadcastInDim S80 ![] bcast_S_S80 p) a b),
    StableHlo.unary main_v518 main_v520 (broadcastInDim S1x80 ![1] bcast_S80_S1x80_1 : (⟨S80, .f32⟩ : BufTy).Contents (Elt F) → (⟨S1x80, .f32⟩ : BufTy).Contents (Elt F)),
    StableHlo.unary main_v520 main_v521 (broadcastInDim S100000x80 ![0, 1] bcast_S1x80_S100000x80_0_1 : (⟨S1x80, .f32⟩ : BufTy).Contents (Elt F) → (⟨S100000x80, .f32⟩ : BufTy).Contents (Elt F)),
    StableHlo.binary main_v511 main_v521 main_v522 (subf : (⟨S100000x80, .f32⟩ : BufTy).Contents (Elt F) → (⟨S100000x80, .f32⟩ : BufTy).Contents (Elt F) → (⟨S100000x80, .f32⟩ : BufTy).Contents (Elt F)),
    StableHlo.unary main_v513 main_v523 (broadcastInDim S1x80 ![1] bcast_S80_S1x80_1 : (⟨S80, .f32⟩ : BufTy).Contents (Elt F) → (⟨S1x80, .f32⟩ : BufTy).Contents (Elt F)),
    StableHlo.unary main_v523 main_v524 (broadcastInDim S100000x80 ![0, 1] bcast_S1x80_S100000x80_0_1 : (⟨S1x80, .f32⟩ : BufTy).Contents (Elt F) → (⟨S100000x80, .f32⟩ : BufTy).Contents (Elt F)),
    StableHlo.binary main_v524 main_v522 main_v525 (mulf : (⟨S100000x80, .f32⟩ : BufTy).Contents (Elt F) → (⟨S100000x80, .f32⟩ : BufTy).Contents (Elt F) → (⟨S100000x80, .f32⟩ : BufTy).Contents (Elt F)),
    StableHlo.nullary main_cst_96 (constant S_ .f32 0x3727C5AC#32),
    StableHlo.unary main_cst_96 main_v526 (broadcastInDim S80 ![] bcast_S_S80 : (⟨S_, .f32⟩ : BufTy).Contents (Elt F) → (⟨S80, .f32⟩ : BufTy).Contents (Elt F)),
    StableHlo.binary main_v519 main_v526 main_v527 (addf : (⟨S80, .f32⟩ : BufTy).Contents (Elt F) → (⟨S80, .f32⟩ : BufTy).Contents (Elt F) → (⟨S80, .f32⟩ : BufTy).Contents (Elt F)),
    StableHlo.unary main_v527 main_v528 (Host.rsqrt : (⟨S80, .f32⟩ : BufTy).Contents (Elt F) → (⟨S80, .f32⟩ : BufTy).Contents (Elt F)),
    StableHlo.unary main_v528 main_v529 (broadcastInDim S1x80 ![1] bcast_S80_S1x80_1 : (⟨S80, .f32⟩ : BufTy).Contents (Elt F) → (⟨S1x80, .f32⟩ : BufTy).Contents (Elt F)),
    StableHlo.unary main_v529 main_v530 (broadcastInDim S100000x80 ![0, 1] bcast_S1x80_S100000x80_0_1 : (⟨S1x80, .f32⟩ : BufTy).Contents (Elt F) → (⟨S100000x80, .f32⟩ : BufTy).Contents (Elt F)),
    StableHlo.binary main_v525 main_v530 main_v531 (mulf : (⟨S100000x80, .f32⟩ : BufTy).Contents (Elt F) → (⟨S100000x80, .f32⟩ : BufTy).Contents (Elt F) → (⟨S100000x80, .f32⟩ : BufTy).Contents (Elt F)),
    StableHlo.unary main_v515 main_v532 (broadcastInDim S1x80 ![1] bcast_S80_S1x80_1 : (⟨S80, .f32⟩ : BufTy).Contents (Elt F) → (⟨S1x80, .f32⟩ : BufTy).Contents (Elt F)),
    StableHlo.unary main_v532 main_v533 (broadcastInDim S100000x80 ![0, 1] bcast_S1x80_S100000x80_0_1 : (⟨S1x80, .f32⟩ : BufTy).Contents (Elt F) → (⟨S100000x80, .f32⟩ : BufTy).Contents (Elt F)),
    StableHlo.binary main_v531 main_v533 main_v534 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S100000x80, .f32⟩) (broadcastInDim S100000x80 ![] bcast_S_S100000x80),
    StableHlo.TRef.binary (.of main_v534 : StableHlo.TRef sig ⟨S100000x80, .f32⟩) (.of main_call13_v0 : StableHlo.TRef sig ⟨S100000x80, .f32⟩) (.of main_v535 : StableHlo.TRef sig ⟨S100000x80, .f32⟩) maximumf,
    StableHlo.unary main_arg8 main_v536 ((extractStridedSlice S1x80x80 ![4, 0, 0] · slices_S6x80x80_S1x80x80_4_0_0) : (⟨S6x80x80, .f32⟩ : BufTy).Contents (Elt F) → (⟨S1x80x80, .f32⟩ : BufTy).Contents (Elt F)),
    StableHlo.reshape main_v536 main_v537 rfl shapeCasts_S1x80x80_S80x80,
    StableHlo.unary main_arg9 main_v538 ((extractStridedSlice S1x80 ![4, 0] · slices_S6x80_S1x80_4_0) : (⟨S6x80, .f32⟩ : BufTy).Contents (Elt F) → (⟨S1x80, .f32⟩ : BufTy).Contents (Elt F)),
    StableHlo.reshape main_v538 main_v539 rfl shapeCasts_S1x80_S80,
    StableHlo.binary main_v477 main_v537 main_v540 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_97 (constantI S_ 32 0#32),
    StableHlo.unary main_c_97 main_v541 (broadcastInDim S1000000 ![] bcast_S_S1000000 : (⟨S_, .i32⟩ : BufTy).Contents (Elt F) → (⟨S1000000, .i32⟩ : BufTy).Contents (Elt F)),
    StableHlo.binary main_v1 main_v541 main_v542 (cmpi .slt : (⟨S1000000, .i32⟩ : BufTy).Contents (Elt F) → (⟨S1000000, .i32⟩ : BufTy).Contents (Elt F) → (⟨S1000000, .i1⟩ : BufTy).Contents (Elt F)),
    StableHlo.nullary main_c_98 (constantI S_ 32 100000#32),
    StableHlo.unary main_c_98 main_v543 (broadcastInDim S1000000 ![] bcast_S_S1000000 : (⟨S_, .i32⟩ : BufTy).Contents (Elt F) → (⟨S1000000, .i32⟩ : BufTy).Contents (Elt F)),
    StableHlo.binary main_v1 main_v543 main_v544 (addi : (⟨S1000000, .i32⟩ : BufTy).Contents (Elt F) → (⟨S1000000, .i32⟩ : BufTy).Contents (Elt F) → (⟨S1000000, .i32⟩ : BufTy).Contents (Elt F)),
    StableHlo.ternary main_v542 main_v544 main_v1 main_v545 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v545 main_v546 (broadcastInDim S1000000x1 ![0] bcast_S1000000_S1000000x1_0 : (⟨S1000000, .i32⟩ : BufTy).Contents (Elt F) → (⟨S1000000x1, .i32⟩ : BufTy).Contents (Elt F)),
    StableHlo.binary main_v540 main_v546 main_v547 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_99 (constant S_ .f32 0x00000000#32),
    StableHlo.unary main_cst_99 main_v548 (broadcastInDim S20000x80 ![] bcast_S_S20000x80 : (⟨S_, .f32⟩ : BufTy).Contents (Elt F) → (⟨S20000x80, .f32⟩ : BufTy).Contents (Elt F)),
    StableHlo.unary main_v3 main_v549 (broadcastInDim S1000000x1 ![0] bcast_S1000000_S1000000x1_0 : (⟨S1000000, .i32⟩ : BufTy).Contents (Elt F) → (⟨S1000000x1, .i32⟩ : BufTy).Contents (Elt F)),
    StableHlo.ternary main_v548 main_v549 main_v547 main_v550 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v551 (broadcastInDim S20000x1 ![0] bcast_S20000_S20000x1_0 : (⟨S20000, .f32⟩ : BufTy).Contents (Elt F) → (⟨S20000x1, .f32⟩ : BufTy).Contents (Elt F)),
    StableHlo.unary main_v551 main_v552 (broadcastInDim S20000x80 ![0, 1] bcast_S20000x1_S20000x80_0_1 : (⟨S20000x1, .f32⟩ : BufTy).Contents (Elt F) → (⟨S20000x80, .f32⟩ : BufTy).Contents (Elt F)),
    StableHlo.binary main_v550 main_v552 main_v553 (mulf : (⟨S20000x80, .f32⟩ : BufTy).Contents (Elt F) → (⟨S20000x80, .f32⟩ : BufTy).Contents (Elt F) → (⟨S20000x80, .f32⟩ : BufTy).Contents (Elt F)),
    StableHlo.nullary main_c_100 (constantI S_ 32 0#32),
    StableHlo.unary main_c_100 main_v554 (broadcastInDim S1000000 ![] bcast_S_S1000000 : (⟨S_, .i32⟩ : BufTy).Contents (Elt F) → (⟨S1000000, .i32⟩ : BufTy).Contents (Elt F)),
    StableHlo.binary main_v3 main_v554 main_v555 (cmpi .slt : (⟨S1000000, .i32⟩ : BufTy).Contents (Elt F) → (⟨S1000000, .i32⟩ : BufTy).Contents (Elt F) → (⟨S1000000, .i1⟩ : BufTy).Contents (Elt F)),
    StableHlo.nullary main_c_101 (constantI S_ 32 20000#32) ]

/-- Each touches TensorCore references only. -/
theorem ops_part10_sub : (ops_part10 : List (HloOp τ sig (Elt F))).Forall fun op => op.bufs ⊆ tcRefs τ sig :=
  ⟨StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub ..⟩

set_option maxHeartbeats 4000000 in
/-- The window is its operations run in sequence. -/
theorem main_part10_eq (c : Dev nD) : main_part10 (F := F) c = seq ops_part10 := rfl

end Cert.ReferenceIdeal.RefRun

end
-- ==== Proof.RefOps11.lean ====
/- The reference program's operations 11: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 11, in order (a called function's operations at the call's own buffers). -/
abbrev ops_part11 : List (HloOp τ sig (Elt F)) :=
  [ StableHlo.unary main_c_101 main_v556 (broadcastInDim S1000000 ![] bcast_S_S1000000 : (⟨S_, .i32⟩ : BufTy).Contents (Elt F) → (⟨S1000000, .i32⟩ : BufTy).Contents (Elt F)),
    StableHlo.binary main_v3 main_v556 main_v557 (addi : (⟨S1000000, .i32⟩ : BufTy).Contents (Elt F) → (⟨S1000000, .i32⟩ : BufTy).Contents (Elt F) → (⟨S1000000, .i32⟩ : BufTy).Contents (Elt F)),
    StableHlo.ternary main_v555 main_v557 main_v3 main_v558 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v558 main_v559 (broadcastInDim S1000000x1 ![0] bcast_S1000000_S1000000x1_0 : (⟨S1000000, .i32⟩ : BufTy).Contents (Elt F) → (⟨S1000000x1, .i32⟩ : BufTy).Contents (Elt F)),
    StableHlo.binary main_v553 main_v559 main_v560 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_102 (constant S_ .f32 0x00000000#32),
    StableHlo.unary main_cst_102 main_v561 (broadcastInDim S100000x80 ![] bcast_S_S100000x80 : (⟨S_, .f32⟩ : BufTy).Contents (Elt F) → (⟨S100000x80, .f32⟩ : BufTy).Contents (Elt F)),
    StableHlo.unary main_v1 main_v562 (broadcastInDim S1000000x1 ![0] bcast_S1000000_S1000000x1_0 : (⟨S1000000, .i32⟩ : BufTy).Contents (Elt F) → (⟨S1000000x1, .i32⟩ : BufTy).Contents (Elt F)),
    StableHlo.ternary main_v561 main_v562 main_v560 main_v563 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v564 (broadcastInDim S100000x1 ![0] bcast_S100000_S100000x1_0 : (⟨S100000, .f32⟩ : BufTy).Contents (Elt F) → (⟨S100000x1, .f32⟩ : BufTy).Contents (Elt F)),
    StableHlo.unary main_v564 main_v565 (broadcastInDim S100000x80 ![0, 1] bcast_S100000x1_S100000x80_0_1 : (⟨S100000x1, .f32⟩ : BufTy).Contents (Elt F) → (⟨S100000x80, .f32⟩ : BufTy).Contents (Elt F)),
    StableHlo.binary main_v563 main_v565 main_v566 (mulf : (⟨S100000x80, .f32⟩ : BufTy).Contents (Elt F) → (⟨S100000x80, .f32⟩ : BufTy).Contents (Elt F) → (⟨S100000x80, .f32⟩ : BufTy).Contents (Elt F)),
    StableHlo.unary main_v539 main_v567 (broadcastInDim S1x80 ![1] bcast_S80_S1x80_1 : (⟨S80, .f32⟩ : BufTy).Contents (Elt F) → (⟨S1x80, .f32⟩ : BufTy).Contents (Elt F)),
    StableHlo.unary main_v567 main_v568 (broadcastInDim S100000x80 ![0, 1] bcast_S1x80_S100000x80_0_1 : (⟨S1x80, .f32⟩ : BufTy).Contents (Elt F) → (⟨S100000x80, .f32⟩ : BufTy).Contents (Elt F)),
    StableHlo.binary main_v566 main_v568 main_v569 (addf : (⟨S100000x80, .f32⟩ : BufTy).Contents (Elt F) → (⟨S100000x80, .f32⟩ : BufTy).Contents (Elt F) → (⟨S100000x80, .f32⟩ : BufTy).Contents (Elt F)),
    StableHlo.binary main_v535 main_v569 main_v570 (addf : (⟨S100000x80, .f32⟩ : BufTy).Contents (Elt F) → (⟨S100000x80, .f32⟩ : BufTy).Contents (Elt F) → (⟨S100000x80, .f32⟩ : BufTy).Contents (Elt F)),
    StableHlo.unary main_arg6 main_v571 ((extractStridedSlice S1x80x80 ![5, 0, 0] · slices_S6x80x80_S1x80x80_5_0_0) : (⟨S6x80x80, .f32⟩ : BufTy).Contents (Elt F) → (⟨S1x80x80, .f32⟩ : BufTy).Contents (Elt F)),
    StableHlo.reshape main_v571 main_v572 rfl shapeCasts_S1x80x80_S80x80,
    StableHlo.unary main_arg7 main_v573 ((extractStridedSlice S1x80 ![5, 0] · slices_S6x80_S1x80_5_0) : (⟨S6x80, .f32⟩ : BufTy).Contents (Elt F) → (⟨S1x80, .f32⟩ : BufTy).Contents (Elt F)),
    StableHlo.reshape main_v573 main_v574 rfl shapeCasts_S1x80_S80,
    StableHlo.binary main_v570 main_v572 main_v575 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_103 (constantI S_ 32 0#32),
    StableHlo.unary main_c_103 main_v576 (broadcastInDim S1000000 ![] bcast_S_S1000000 : (⟨S_, .i32⟩ : BufTy).Contents (Elt F) → (⟨S1000000, .i32⟩ : BufTy).Contents (Elt F)),
    StableHlo.binary main_v1 main_v576 main_v577 (cmpi .slt : (⟨S1000000, .i32⟩ : BufTy).Contents (Elt F) → (⟨S1000000, .i32⟩ : BufTy).Contents (Elt F) → (⟨S1000000, .i1⟩ : BufTy).Contents (Elt F)),
    StableHlo.nullary main_c_104 (constantI S_ 32 100000#32),
    StableHlo.unary main_c_104 main_v578 (broadcastInDim S1000000 ![] bcast_S_S1000000 : (⟨S_, .i32⟩ : BufTy).Contents (Elt F) → (⟨S1000000, .i32⟩ : BufTy).Contents (Elt F)),
    StableHlo.binary main_v1 main_v578 main_v579 (addi : (⟨S1000000, .i32⟩ : BufTy).Contents (Elt F) → (⟨S1000000, .i32⟩ : BufTy).Contents (Elt F) → (⟨S1000000, .i32⟩ : BufTy).Contents (Elt F)),
    StableHlo.ternary main_v577 main_v579 main_v1 main_v580 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v580 main_v581 (broadcastInDim S1000000x1 ![0] bcast_S1000000_S1000000x1_0 : (⟨S1000000, .i32⟩ : BufTy).Contents (Elt F) → (⟨S1000000x1, .i32⟩ : BufTy).Contents (Elt F)),
    StableHlo.binary main_v575 main_v581 main_v582 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_105 (constant S_ .f32 0x00000000#32),
    StableHlo.unary main_cst_105 main_v583 (broadcastInDim S20000x80 ![] bcast_S_S20000x80 : (⟨S_, .f32⟩ : BufTy).Contents (Elt F) → (⟨S20000x80, .f32⟩ : BufTy).Contents (Elt F)),
    StableHlo.unary main_v3 main_v584 (broadcastInDim S1000000x1 ![0] bcast_S1000000_S1000000x1_0 : (⟨S1000000, .i32⟩ : BufTy).Contents (Elt F) → (⟨S1000000x1, .i32⟩ : BufTy).Contents (Elt F)),
    StableHlo.ternary main_v583 main_v584 main_v582 main_v585 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v586 (broadcastInDim S20000x1 ![0] bcast_S20000_S20000x1_0 : (⟨S20000, .f32⟩ : BufTy).Contents (Elt F) → (⟨S20000x1, .f32⟩ : BufTy).Contents (Elt F)),
    StableHlo.unary main_v586 main_v587 (broadcastInDim S20000x80 ![0, 1] bcast_S20000x1_S20000x80_0_1 : (⟨S20000x1, .f32⟩ : BufTy).Contents (Elt F) → (⟨S20000x80, .f32⟩ : BufTy).Contents (Elt F)),
    StableHlo.binary main_v585 main_v587 main_v588 (mulf : (⟨S20000x80, .f32⟩ : BufTy).Contents (Elt F) → (⟨S20000x80, .f32⟩ : BufTy).Contents (Elt F) → (⟨S20000x80, .f32⟩ : BufTy).Contents (Elt F)),
    StableHlo.nullary main_c_106 (constantI S_ 32 0#32),
    StableHlo.unary main_c_106 main_v589 (broadcastInDim S1000000 ![] bcast_S_S1000000 : (⟨S_, .i32⟩ : BufTy).Contents (Elt F) → (⟨S1000000, .i32⟩ : BufTy).Contents (Elt F)),
    StableHlo.binary main_v3 main_v589 main_v590 (cmpi .slt : (⟨S1000000, .i32⟩ : BufTy).Contents (Elt F) → (⟨S1000000, .i32⟩ : BufTy).Contents (Elt F) → (⟨S1000000, .i1⟩ : BufTy).Contents (Elt F)),
    StableHlo.nullary main_c_107 (constantI S_ 32 20000#32),
    StableHlo.unary main_c_107 main_v591 (broadcastInDim S1000000 ![] bcast_S_S1000000 : (⟨S_, .i32⟩ : BufTy).Contents (Elt F) → (⟨S1000000, .i32⟩ : BufTy).Contents (Elt F)),
    StableHlo.binary main_v3 main_v591 main_v592 (addi : (⟨S1000000, .i32⟩ : BufTy).Contents (Elt F) → (⟨S1000000, .i32⟩ : BufTy).Contents (Elt F) → (⟨S1000000, .i32⟩ : BufTy).Contents (Elt F)),
    StableHlo.ternary main_v590 main_v592 main_v3 main_v593 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v593 main_v594 (broadcastInDim S1000000x1 ![0] bcast_S1000000_S1000000x1_0 : (⟨S1000000, .i32⟩ : BufTy).Contents (Elt F) → (⟨S1000000x1, .i32⟩ : BufTy).Contents (Elt F)),
    StableHlo.binary main_v588 main_v594 main_v595 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_108 (constant S_ .f32 0x00000000#32),
    StableHlo.unary main_cst_108 main_v596 (broadcastInDim S100000x80 ![] bcast_S_S100000x80 : (⟨S_, .f32⟩ : BufTy).Contents (Elt F) → (⟨S100000x80, .f32⟩ : BufTy).Contents (Elt F)),
    StableHlo.unary main_v1 main_v597 (broadcastInDim S1000000x1 ![0] bcast_S1000000_S1000000x1_0 : (⟨S1000000, .i32⟩ : BufTy).Contents (Elt F) → (⟨S1000000x1, .i32⟩ : BufTy).Contents (Elt F)),
    StableHlo.ternary main_v596 main_v597 main_v595 main_v598 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v599 (broadcastInDim S100000x1 ![0] bcast_S100000_S100000x1_0 : (⟨S100000, .f32⟩ : BufTy).Contents (Elt F) → (⟨S100000x1, .f32⟩ : BufTy).Contents (Elt F)),
    StableHlo.unary main_v599 main_v600 (broadcastInDim S100000x80 ![0, 1] bcast_S100000x1_S100000x80_0_1 : (⟨S100000x1, .f32⟩ : BufTy).Contents (Elt F) → (⟨S100000x80, .f32⟩ : BufTy).Contents (Elt F)),
    StableHlo.binary main_v598 main_v600 main_v601 (mulf : (⟨S100000x80, .f32⟩ : BufTy).Contents (Elt F) → (⟨S100000x80, .f32⟩ : BufTy).Contents (Elt F) → (⟨S100000x80, .f32⟩ : BufTy).Contents (Elt F)),
    StableHlo.unary main_v574 main_v602 (broadcastInDim S1x80 ![1] bcast_S80_S1x80_1 : (⟨S80, .f32⟩ : BufTy).Contents (Elt F) → (⟨S1x80, .f32⟩ : BufTy).Contents (Elt F)),
    StableHlo.unary main_v602 main_v603 (broadcastInDim S100000x80 ![0, 1] bcast_S1x80_S100000x80_0_1 : (⟨S1x80, .f32⟩ : BufTy).Contents (Elt F) → (⟨S100000x80, .f32⟩ : BufTy).Contents (Elt F)),
    StableHlo.binary main_v601 main_v603 main_v604 (addf : (⟨S100000x80, .f32⟩ : BufTy).Contents (Elt F) → (⟨S100000x80, .f32⟩ : BufTy).Contents (Elt F) → (⟨S100000x80, .f32⟩ : BufTy).Contents (Elt F)),
    StableHlo.unary main_arg10 main_v605 ((extractStridedSlice S1x80 ![6, 0] · slices_S7x80_S1x80_6_0) : (⟨S7x80, .f32⟩ : BufTy).Contents (Elt F) → (⟨S1x80, .f32⟩ : BufTy).Contents (Elt F)),
    StableHlo.reshape main_v605 main_v606 rfl shapeCasts_S1x80_S80,
    StableHlo.unary main_arg11 main_v607 ((extractStridedSlice S1x80 ![6, 0] · slices_S7x80_S1x80_6_0) : (⟨S7x80, .f32⟩ : BufTy).Contents (Elt F) → (⟨S1x80, .f32⟩ : BufTy).Contents (Elt F)),
    StableHlo.reshape main_v607 main_v608 rfl shapeCasts_S1x80_S80 ]

/-- Each touches TensorCore references only. -/
theorem ops_part11_sub : (ops_part11 : List (HloOp τ sig (Elt F))).Forall fun op => op.bufs ⊆ tcRefs τ sig :=
  ⟨StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub ..⟩

set_option maxHeartbeats 4000000 in
/-- The window is its operations run in sequence. -/
theorem main_part11_eq (c : Dev nD) : main_part11 (F := F) c = seq ops_part11 := rfl

end Cert.ReferenceIdeal.RefRun

end
-- ==== Proof.RefOps12.lean ====
/- The reference program's operations 12: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 12, in order (a called function's operations at the call's own buffers). -/
abbrev ops_part12 : List (HloOp τ sig (Elt F)) :=
  [ StableHlo.nullary main_cst_109 (constant S_ .f32 0x00000000#32),
    StableHlo.binary main_v604 main_cst_109 main_v609 ((fun x v => Host.reduceAdd x v reducesTo_S100000x80_S80_d0 h_S_) : (⟨S100000x80, .f32⟩ : BufTy).Contents (Elt F) → (⟨S_, .f32⟩ : BufTy).Contents (Elt F) → (⟨S80, .f32⟩ : BufTy).Contents (Elt F)),
    StableHlo.nullary main_cst_110 (constant S_ .f32 0x47C35000#32),
    StableHlo.unary main_cst_110 main_v610 (broadcastInDim S80 ![] bcast_S_S80 : (⟨S_, .f32⟩ : BufTy).Contents (Elt F) → (⟨S80, .f32⟩ : BufTy).Contents (Elt F)),
    StableHlo.binary main_v609 main_v610 main_v611 (Host.divf : (⟨S80, .f32⟩ : BufTy).Contents (Elt F) → (⟨S80, .f32⟩ : BufTy).Contents (Elt F) → (⟨S80, .f32⟩ : BufTy).Contents (Elt F)),
    StableHlo.nullary main_c_111 (constantI S_ 32 0#32),
    StableHlo.TRef.nullary (.of main_call14_cst : StableHlo.TRef sig ⟨S_, .f32⟩) (constant S_ .f32 0x00000000#32),
    StableHlo.TRef.binary (.of main_v604 : StableHlo.TRef sig ⟨S100000x80, .f32⟩) (.of main_call14_cst : StableHlo.TRef sig ⟨S_, .f32⟩) (.of main_call14_v0 : StableHlo.TRef sig ⟨S80, .f32⟩) (fun x v => Host.reduceAdd x v reducesTo_S100000x80_S80_d0 h_S_),
    StableHlo.TRef.unary (.of main_call14_v0 : StableHlo.TRef sig ⟨S80, .f32⟩) (.of main_call14_v1 : StableHlo.TRef sig ⟨S1x80, .f32⟩) (broadcastInDim S1x80 ![1] bcast_S80_S1x80_1),
    StableHlo.TRef.nullary (.of main_call14_cst_0 : StableHlo.TRef sig ⟨S_, .f32⟩) (constant S_ .f32 0x47C35000#32),
    StableHlo.TRef.unary (.of main_call14_cst_0 : StableHlo.TRef sig ⟨S_, .f32⟩) (.of main_call14_v2 : StableHlo.TRef sig ⟨S1x80, .f32⟩) (broadcastInDim S1x80 ![] bcast_S_S1x80),
    StableHlo.TRef.binary (.of main_call14_v1 : StableHlo.TRef sig ⟨S1x80, .f32⟩) (.of main_call14_v2 : StableHlo.TRef sig ⟨S1x80, .f32⟩) (.of main_call14_v3 : StableHlo.TRef sig ⟨S1x80, .f32⟩) Host.divf,
    StableHlo.TRef.unary (.of main_call14_v3 : StableHlo.TRef sig ⟨S1x80, .f32⟩) (.of main_call14_v4 : StableHlo.TRef sig ⟨S100000x80, .f32⟩) (broadcastInDim S100000x80 ![0, 1] bcast_S1x80_S100000x80_0_1),
    StableHlo.TRef.binary (.of main_v604 : StableHlo.TRef sig ⟨S100000x80, .f32⟩) (.of main_call14_v4 : StableHlo.TRef sig ⟨S100000x80, .f32⟩) (.of main_call14_v5 : StableHlo.TRef sig ⟨S100000x80, .f32⟩) subf,
    StableHlo.TRef.binary (.of main_call14_v5 : StableHlo.TRef sig ⟨S100000x80, .f32⟩) (.of main_call14_v5 : StableHlo.TRef sig ⟨S100000x80, .f32⟩) (.of main_call14_v6 : StableHlo.TRef sig ⟨S100000x80, .f32⟩) mulf,
    StableHlo.TRef.unary (.of main_c_111 : StableHlo.TRef sig ⟨S_, .i32⟩) (.of main_call14_v7 : StableHlo.TRef sig ⟨S_, .f32⟩) (sitofp .f32),
    StableHlo.TRef.nullary (.of main_call14_cst_1 : StableHlo.TRef sig ⟨S_, .f32⟩) (constant S_ .f32 0x47C35000#32),
    StableHlo.TRef.binary (.of main_call14_cst_1 : StableHlo.TRef sig ⟨S_, .f32⟩) (.of main_call14_v7 : StableHlo.TRef sig ⟨S_, .f32⟩) (.of main_call14_v8 : StableHlo.TRef sig ⟨S_, .f32⟩) subf,
    StableHlo.TRef.nullary (.of main_call14_cst_2 : StableHlo.TRef sig ⟨S_, .f32⟩) (constant S_ .f32 0x00000000#32),
    StableHlo.TRef.binary (.of main_call14_v6 : StableHlo.TRef sig ⟨S100000x80, .f32⟩) (.of main_call14_cst_2 : StableHlo.TRef sig ⟨S_, .f32⟩) (.of main_call14_v9 : StableHlo.TRef sig ⟨S80, .f32⟩) (fun x v => Host.reduceAdd x v reducesTo_S100000x80_S80_d0 h_S_),
    StableHlo.TRef.unary (.of main_call14_v8 : StableHlo.TRef sig ⟨S_, .f32⟩) (.of main_call14_v10 : StableHlo.TRef sig ⟨S80, .f32⟩) (broadcastInDim S80 ![] bcast_S_S80),
    StableHlo.TRef.binary (.of main_call14_v9 : StableHlo.TRef sig ⟨S80, .f32⟩) (.of main_call14_v10 : StableHlo.TRef sig ⟨S80, .f32⟩) (.of main_call14_v11 : StableHlo.TRef sig ⟨S80, .f32⟩) Host.divf,
    StableHlo.TRef.nullary (.of main_call14_cst_3 : StableHlo.TRef sig ⟨S_, .f32⟩) (constant S_ .f32 0x00000000#32),
    StableHlo.TRef.binary (.of main_call14_v8 : StableHlo.TRef sig ⟨S_, .f32⟩) (.of main_call14_cst_3 : StableHlo.TRef sig ⟨S_, .f32⟩) (.of main_call14_v12 : StableHlo.TRef sig ⟨S_, .i1⟩) (cmpf .ogt),
    StableHlo.TRef.nullary (.of main_call14_cst_4 : StableHlo.TRef sig ⟨S_, .f32⟩) (constant S_ .f32 0x7FC00000#32),
    StableHlo.TRef.unary (.of main_call14_cst_4 : StableHlo.TRef sig ⟨S_, .f32⟩) (.of main_call14_call0_v0 : StableHlo.TRef sig ⟨S_, .f32⟩) id,
    StableHlo.TRef.unary (.of main_call14_call0_v0 : StableHlo.TRef sig ⟨S_, .f32⟩) (.of main_call14_call0_v1 : StableHlo.TRef sig ⟨S80, .f32⟩) (broadcastInDim S80 ![] bcast_S_S80),
    StableHlo.TRef.ternary (.of main_call14_v12 : StableHlo.TRef sig ⟨S_, .i1⟩) (.of main_call14_v11 : StableHlo.TRef sig ⟨S80, .f32⟩) (.of main_call14_call0_v1 : StableHlo.TRef sig ⟨S80, .f32⟩) (.of main_v612 : StableHlo.TRef sig ⟨S80, .f32⟩) (fun p a b => select (broadcastInDim S80 ![] bcast_S_S80 p) a b),
    StableHlo.unary main_v611 main_v613 (broadcastInDim S1x80 ![1] bcast_S80_S1x80_1 : (⟨S80, .f32⟩ : BufTy).Contents (Elt F) → (⟨S1x80, .f32⟩ : BufTy).Contents (Elt F)),
    StableHlo.unary main_v613 main_v614 (broadcastInDim S100000x80 ![0, 1] bcast_S1x80_S100000x80_0_1 : (⟨S1x80, .f32⟩ : BufTy).Contents (Elt F) → (⟨S100000x80, .f32⟩ : BufTy).Contents (Elt F)),
    StableHlo.binary main_v604 main_v614 main_v615 (subf : (⟨S100000x80, .f32⟩ : BufTy).Contents (Elt F) → (⟨S100000x80, .f32⟩ : BufTy).Contents (Elt F) → (⟨S100000x80, .f32⟩ : BufTy).Contents (Elt F)),
    StableHlo.unary main_v606 main_v616 (broadcastInDim S1x80 ![1] bcast_S80_S1x80_1 : (⟨S80, .f32⟩ : BufTy).Contents (Elt F) → (⟨S1x80, .f32⟩ : BufTy).Contents (Elt F)),
    StableHlo.unary main_v616 main_v617 (broadcastInDim S100000x80 ![0, 1] bcast_S1x80_S100000x80_0_1 : (⟨S1x80, .f32⟩ : BufTy).Contents (Elt F) → (⟨S100000x80, .f32⟩ : BufTy).Contents (Elt F)),
    StableHlo.binary main_v617 main_v615 main_v618 (mulf : (⟨S100000x80, .f32⟩ : BufTy).Contents (Elt F) → (⟨S100000x80, .f32⟩ : BufTy).Contents (Elt F) → (⟨S100000x80, .f32⟩ : BufTy).Contents (Elt F)),
    StableHlo.nullary main_cst_112 (constant S_ .f32 0x3727C5AC#32),
    StableHlo.unary main_cst_112 main_v619 (broadcastInDim S80 ![] bcast_S_S80 : (⟨S_, .f32⟩ : BufTy).Contents (Elt F) → (⟨S80, .f32⟩ : BufTy).Contents (Elt F)),
    StableHlo.binary main_v612 main_v619 main_v620 (addf : (⟨S80, .f32⟩ : BufTy).Contents (Elt F) → (⟨S80, .f32⟩ : BufTy).Contents (Elt F) → (⟨S80, .f32⟩ : BufTy).Contents (Elt F)),
    StableHlo.unary main_v620 main_v621 (Host.rsqrt : (⟨S80, .f32⟩ : BufTy).Contents (Elt F) → (⟨S80, .f32⟩ : BufTy).Contents (Elt F)),
    StableHlo.unary main_v621 main_v622 (broadcastInDim S1x80 ![1] bcast_S80_S1x80_1 : (⟨S80, .f32⟩ : BufTy).Contents (Elt F) → (⟨S1x80, .f32⟩ : BufTy).Contents (Elt F)),
    StableHlo.unary main_v622 main_v623 (broadcastInDim S100000x80 ![0, 1] bcast_S1x80_S100000x80_0_1 : (⟨S1x80, .f32⟩ : BufTy).Contents (Elt F) → (⟨S100000x80, .f32⟩ : BufTy).Contents (Elt F)),
    StableHlo.binary main_v618 main_v623 main_v624 (mulf : (⟨S100000x80, .f32⟩ : BufTy).Contents (Elt F) → (⟨S100000x80, .f32⟩ : BufTy).Contents (Elt F) → (⟨S100000x80, .f32⟩ : BufTy).Contents (Elt F)),
    StableHlo.unary main_v608 main_v625 (broadcastInDim S1x80 ![1] bcast_S80_S1x80_1 : (⟨S80, .f32⟩ : BufTy).Contents (Elt F) → (⟨S1x80, .f32⟩ : BufTy).Contents (Elt F)),
    StableHlo.unary main_v625 main_v626 (broadcastInDim S100000x80 ![0, 1] bcast_S1x80_S100000x80_0_1 : (⟨S1x80, .f32⟩ : BufTy).Contents (Elt F) → (⟨S100000x80, .f32⟩ : BufTy).Contents (Elt F)),
    StableHlo.binary main_v624 main_v626 main_v627 (addf : (⟨S100000x80, .f32⟩ : BufTy).Contents (Elt F) → (⟨S100000x80, .f32⟩ : BufTy).Contents (Elt F) → (⟨S100000x80, .f32⟩ : BufTy).Contents (Elt F)),
    StableHlo.TRef.nullary (.of main_call15_cst : StableHlo.TRef sig ⟨S_, .f32⟩) (constant S_ .f32 0x00000000#32),
    StableHlo.TRef.unary (.of main_call15_cst : StableHlo.TRef sig ⟨S_, .f32⟩) (.of main_call15_v0 : StableHlo.TRef sig ⟨S100000x80, .f32⟩) (broadcastInDim S100000x80 ![] bcast_S_S100000x80),
    StableHlo.TRef.binary (.of main_v627 : StableHlo.TRef sig ⟨S100000x80, .f32⟩) (.of main_call15_v0 : StableHlo.TRef sig ⟨S100000x80, .f32⟩) (.of main_v628 : StableHlo.TRef sig ⟨S100000x80, .f32⟩) maximumf,
    StableHlo.unary main_arg8 main_v629 ((extractStridedSlice S1x80x80 ![5, 0, 0] · slices_S6x80x80_S1x80x80_5_0_0) : (⟨S6x80x80, .f32⟩ : BufTy).Contents (Elt F) → (⟨S1x80x80, .f32⟩ : BufTy).Contents (Elt F)),
    StableHlo.reshape main_v629 main_v630 rfl shapeCasts_S1x80x80_S80x80,
    StableHlo.unary main_arg9 main_v631 ((extractStridedSlice S1x80 ![5, 0] · slices_S6x80_S1x80_5_0) : (⟨S6x80, .f32⟩ : BufTy).Contents (Elt F) → (⟨S1x80, .f32⟩ : BufTy).Contents (Elt F)),
    StableHlo.reshape main_v631 main_v632 rfl shapeCasts_S1x80_S80,
    StableHlo.binary main_v570 main_v630 main_v633 ((fun l r => Host.dotGeneral dot_S100000x80_S80x80_S100000x80_1_0_0_1_n_n none l r) : (⟨S100000x80, .f32⟩ : BufTy).Contents (Elt F) → (⟨S80x80, .f32⟩ : BufTy).Contents (Elt F) → (⟨S100000x80, .f32⟩ : BufTy).Contents (Elt F)),
    StableHlo.nullary main_c_113 (constantI S_ 32 0#32),
    StableHlo.unary main_c_113 main_v634 (broadcastInDim S1000000 ![] bcast_S_S1000000 : (⟨S_, .i32⟩ : BufTy).Contents (Elt F) → (⟨S1000000, .i32⟩ : BufTy).Contents (Elt F)),
    StableHlo.binary main_v1 main_v634 main_v635 (cmpi .slt : (⟨S1000000, .i32⟩ : BufTy).Contents (Elt F) → (⟨S1000000, .i32⟩ : BufTy).Contents (Elt F) → (⟨S1000000, .i1⟩ : BufTy).Contents (Elt F)),
    StableHlo.nullary main_c_114 (constantI S_ 32 100000#32),
    StableHlo.unary main_c_114 main_v636 (broadcastInDim S1000000 ![] bcast_S_S1000000 : (⟨S_, .i32⟩ : BufTy).Contents (Elt F) → (⟨S1000000, .i32⟩ : BufTy).Contents (Elt F)),
    StableHlo.binary main_v1 main_v636 main_v637 (addi : (⟨S1000000, .i32⟩ : BufTy).Contents (Elt F) → (⟨S1000000, .i32⟩ : BufTy).Contents (Elt F) → (⟨S1000000, .i32⟩ : BufTy).Contents (Elt F)),
    StableHlo.ternary main_v635 main_v637 main_v1 main_v638 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v638 main_v639 (broadcastInDim S1000000x1 ![0] bcast_S1000000_S1000000x1_0 : (⟨S1000000, .i32⟩ : BufTy).Contents (Elt F) → (⟨S1000000x1, .i32⟩ : BufTy).Contents (Elt F)),
    StableHlo.binary main_v633 main_v639 main_v640 ((fun x i => Host.gather gather_S100000x80_S1000000x1_S1000000x80_1_0_n_n_0_1_180 x i) : (⟨S100000x80, .f32⟩ : BufTy).Contents (Elt F) → (⟨S1000000x1, .i32⟩ : BufTy).Contents (Elt F) → (⟨S1000000x80, .f32⟩ : BufTy).Contents (Elt F)),
    StableHlo.nullary main_cst_115 (constant S_ .f32 0x00000000#32),
    StableHlo.unary main_cst_115 main_v641 (broadcastInDim S20000x80 ![] bcast_S_S20000x80 : (⟨S_, .f32⟩ : BufTy).Contents (Elt F) → (⟨S20000x80, .f32⟩ : BufTy).Contents (Elt F)),
    StableHlo.unary main_v3 main_v642 (broadcastInDim S1000000x1 ![0] bcast_S1000000_S1000000x1_0 : (⟨S1000000, .i32⟩ : BufTy).Contents (Elt F) → (⟨S1000000x1, .i32⟩ : BufTy).Contents (Elt F)),
    StableHlo.ternary main_v641 main_v642 main_v640 main_v643 ((fun x i u => Host.scatterAdd scatter_S20000x80_S1000000x1_S1000000x80_1_0_0_1 x i u) : (⟨S20000x80, .f32⟩ : BufTy).Contents (Elt F) → (⟨S1000000x1, .i32⟩ : BufTy).Contents (Elt F) → (⟨S1000000x80, .f32⟩ : BufTy).Contents (Elt F) → (⟨S20000x80, .f32⟩ : BufTy).Contents (Elt F)),
    StableHlo.unary main_v20 main_v644 (broadcastInDim S20000x1 ![0] bcast_S20000_S20000x1_0 : (⟨S20000, .f32⟩ : BufTy).Contents (Elt F) → (⟨S20000x1, .f32⟩ : BufTy).Contents (Elt F)),
    StableHlo.unary main_v644 main_v645 (broadcastInDim S20000x80 ![0, 1] bcast_S20000x1_S20000x80_0_1 : (⟨S20000x1, .f32⟩ : BufTy).Contents (Elt F) → (⟨S20000x80, .f32⟩ : BufTy).Contents (Elt F)),
    StableHlo.binary main_v643 main_v645 main_v646 (mulf : (⟨S20000x80, .f32⟩ : BufTy).Contents (Elt F) → (⟨S20000x80, .f32⟩ : BufTy).Contents (Elt F) → (⟨S20000x80, .f32⟩ : BufTy).Contents (Elt F)),
    StableHlo.nullary main_c_116 (constantI S_ 32 0#32),
    StableHlo.unary main_c_116 main_v647 (broadcastInDim S1000000 ![] bcast_S_S1000000 : (⟨S_, .i32⟩ : BufTy).Contents (Elt F) → (⟨S1000000, .i32⟩ : BufTy).Contents (Elt F)),
    StableHlo.binary main_v3 main_v647 main_v648 (cmpi .slt : (⟨S1000000, .i32⟩ : BufTy).Contents (Elt F) → (⟨S1000000, .i32⟩ : BufTy).Contents (Elt F) → (⟨S1000000, .i1⟩ : BufTy).Contents (Elt F)),
    StableHlo.nullary main_c_117 (constantI S_ 32 20000#32),
    StableHlo.unary main_c_117 main_v649 (broadcastInDim S1000000 ![] bcast_S_S1000000 : (⟨S_, .i32⟩ : BufTy).Contents (Elt F) → (⟨S1000000, .i32⟩ : BufTy).Contents (Elt F)),
    StableHlo.binary main_v3 main_v649 main_v650 (addi : (⟨S1000000, .i32⟩ : BufTy).Contents (Elt F) → (⟨S1000000, .i32⟩ : BufTy).Contents (Elt F) → (⟨S1000000, .i32⟩ : BufTy).Contents (Elt F)),
    StableHlo.ternary main_v648 main_v650 main_v3 main_v651 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v651 main_v652 (broadcastInDim S1000000x1 ![0] bcast_S1000000_S1000000x1_0 : (⟨S1000000, .i32⟩ : BufTy).Contents (Elt F) → (⟨S1000000x1, .i32⟩ : BufTy).Contents (Elt F)),
    StableHlo.binary main_v646 main_v652 main_v653 ((fun x i => Host.gather gather_S20000x80_S1000000x1_S1000000x80_1_0_n_n_0_1_180 x i) : (⟨S20000x80, .f32⟩ : BufTy).Contents (Elt F) → (⟨S1000000x1, .i32⟩ : BufTy).Contents (Elt F) → (⟨S1000000x80, .f32⟩ : BufTy).Contents (Elt F)),
    StableHlo.nullary main_cst_118 (constant S_ .f32 0x00000000#32),
    StableHlo.unary main_cst_118 main_v654 (broadcastInDim S100000x80 ![] bcast_S_S100000x80 : (⟨S_, .f32⟩ : BufTy).Contents (Elt F) → (⟨S100000x80, .f32⟩ : BufTy).Contents (Elt F)),
    StableHlo.unary main_v1 main_v655 (broadcastInDim S1000000x1 ![0] bcast_S1000000_S1000000x1_0 : (⟨S1000000, .i32⟩ : BufTy).Contents (Elt F) → (⟨S1000000x1, .i32⟩ : BufTy).Contents (Elt F)),
    StableHlo.ternary main_v654 main_v655 main_v653 main_v656 ((fun x i u => Host.scatterAdd scatter_S100000x80_S1000000x1_S1000000x80_1_0_0_1 x i u) : (⟨S100000x80, .f32⟩ : BufTy).Contents (Elt F) → (⟨S1000000x1, .i32⟩ : BufTy).Contents (Elt F) → (⟨S1000000x80, .f32⟩ : BufTy).Contents (Elt F) → (⟨S100000x80, .f32⟩ : BufTy).Contents (Elt F)),
    StableHlo.unary main_v15 main_v657 (broadcastInDim S100000x1 ![0] bcast_S100000_S100000x1_0 : (⟨S100000, .f32⟩ : BufTy).Contents (Elt F) → (⟨S100000x1, .f32⟩ : BufTy).Contents (Elt F)),
    StableHlo.unary main_v657 main_v658 (broadcastInDim S100000x80 ![0, 1] bcast_S100000x1_S100000x80_0_1 : (⟨S100000x1, .f32⟩ : BufTy).Contents (Elt F) → (⟨S100000x80, .f32⟩ : BufTy).Contents (Elt F)) ]

/-- Each touches TensorCore references only. -/
theorem ops_part12_sub : (ops_part12 : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub ..⟩

set_option maxHeartbeats 4000000 in
/-- The window is its operations run in sequence. -/
theorem main_part12_eq (c : Dev nD) : main_part12 (F := F) c = seq ops_part12 := rfl

end Cert.ReferenceIdeal.RefRun

end
-- ==== Proof.RefOps13.lean ====
/- The reference program's operations 13: the operations of one window of its main function, in order,
   as a list, with the window equal to the list run in sequence. -/
import proofs.«127768_j9405978378358_1_alg».proof.ReferenceIdeal
import proofs.«127768_j9405978378358_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 13, in order (a called function's operations at the call's own buffers). -/
abbrev ops_part13 : List (HloOp τ sig (Elt F)) :=
  [ StableHlo.binary main_v656 main_v658 main_v659 (mulf : (⟨S100000x80, .f32⟩ : BufTy).Contents (Elt F) → (⟨S100000x80, .f32⟩ : BufTy).Contents (Elt F) → (⟨S100000x80, .f32⟩ : BufTy).Contents (Elt F)),
    StableHlo.unary main_v632 main_v660 (broadcastInDim S1x80 ![1] bcast_S80_S1x80_1 : (⟨S80, .f32⟩ : BufTy).Contents (Elt F) → (⟨S1x80, .f32⟩ : BufTy).Contents (Elt F)),
    StableHlo.unary main_v660 main_v661 (broadcastInDim S100000x80 ![0, 1] bcast_S1x80_S100000x80_0_1 : (⟨S1x80, .f32⟩ : BufTy).Contents (Elt F) → (⟨S100000x80, .f32⟩ : BufTy).Contents (Elt F)),
    StableHlo.binary main_v659 main_v661 main_v662 (addf : (⟨S100000x80, .f32⟩ : BufTy).Contents (Elt F) → (⟨S100000x80, .f32⟩ : BufTy).Contents (Elt F) → (⟨S100000x80, .f32⟩ : BufTy).Contents (Elt F)),
    StableHlo.binary main_v628 main_v662 main_v663 (addf : (⟨S100000x80, .f32⟩ : BufTy).Contents (Elt F) → (⟨S100000x80, .f32⟩ : BufTy).Contents (Elt F) → (⟨S100000x80, .f32⟩ : BufTy).Contents (Elt F)),
    StableHlo.binary main_v663 main_arg0 main_v664 ((fun a b => concatenate S100000x176 1 [⟨S100000x80, a⟩, ⟨S100000x96, b⟩] concatenates_S100000x80_S100000x96_S100000x176_d1) : (⟨S100000x80, .f32⟩ : BufTy).Contents (Elt F) → (⟨S100000x96, .f32⟩ : BufTy).Contents (Elt F) → (⟨S100000x176, .f32⟩ : BufTy).Contents (Elt F)),
    StableHlo.binary main_v664 main_arg12 main_v665 ((fun l r => Host.dotGeneral dot_S100000x176_S176x48_S100000x48_1_0_0_1_n_n none l r) : (⟨S100000x176, .f32⟩ : BufTy).Contents (Elt F) → (⟨S176x48, .f32⟩ : BufTy).Contents (Elt F) → (⟨S100000x48, .f32⟩ : BufTy).Contents (Elt F)),
    StableHlo.nullary main_c_119 (constantI S_ 32 0#32),
    StableHlo.unary main_c_119 main_v666 (broadcastInDim S1000000 ![] bcast_S_S1000000 : (⟨S_, .i32⟩ : BufTy).Contents (Elt F) → (⟨S1000000, .i32⟩ : BufTy).Contents (Elt F)),
    StableHlo.binary main_v1 main_v666 main_v667 (cmpi .slt : (⟨S1000000, .i32⟩ : BufTy).Contents (Elt F) → (⟨S1000000, .i32⟩ : BufTy).Contents (Elt F) → (⟨S1000000, .i1⟩ : BufTy).Contents (Elt F)),
    StableHlo.nullary main_c_120 (constantI S_ 32 100000#32),
    StableHlo.unary main_c_120 main_v668 (broadcastInDim S1000000 ![] bcast_S_S1000000 : (⟨S_, .i32⟩ : BufTy).Contents (Elt F) → (⟨S1000000, .i32⟩ : BufTy).Contents (Elt F)),
    StableHlo.binary main_v1 main_v668 main_v669 (addi : (⟨S1000000, .i32⟩ : BufTy).Contents (Elt F) → (⟨S1000000, .i32⟩ : BufTy).Contents (Elt F) → (⟨S1000000, .i32⟩ : BufTy).Contents (Elt F)),
    StableHlo.ternary main_v667 main_v669 main_v1 main_v670 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v670 main_v671 (broadcastInDim S1000000x1 ![0] bcast_S1000000_S1000000x1_0 : (⟨S1000000, .i32⟩ : BufTy).Contents (Elt F) → (⟨S1000000x1, .i32⟩ : BufTy).Contents (Elt F)),
    StableHlo.binary main_v665 main_v671 main_v672 ((fun x i => Host.gather gather_S100000x48_S1000000x1_S1000000x48_1_0_n_n_0_1_148 x i) : (⟨S100000x48, .f32⟩ : BufTy).Contents (Elt F) → (⟨S1000000x1, .i32⟩ : BufTy).Contents (Elt F) → (⟨S1000000x48, .f32⟩ : BufTy).Contents (Elt F)),
    StableHlo.nullary main_cst_121 (constant S_ .f32 0x00000000#32),
    StableHlo.unary main_cst_121 main_v673 (broadcastInDim S20000x48 ![] bcast_S_S20000x48 : (⟨S_, .f32⟩ : BufTy).Contents (Elt F) → (⟨S20000x48, .f32⟩ : BufTy).Contents (Elt F)),
    StableHlo.unary main_v3 main_v674 (broadcastInDim S1000000x1 ![0] bcast_S1000000_S1000000x1_0 : (⟨S1000000, .i32⟩ : BufTy).Contents (Elt F) → (⟨S1000000x1, .i32⟩ : BufTy).Contents (Elt F)),
    StableHlo.ternary main_v673 main_v674 main_v672 main_v675 ((fun x i u => Host.scatterAdd scatter_S20000x48_S1000000x1_S1000000x48_1_0_0_1 x i u) : (⟨S20000x48, .f32⟩ : BufTy).Contents (Elt F) → (⟨S1000000x1, .i32⟩ : BufTy).Contents (Elt F) → (⟨S1000000x48, .f32⟩ : BufTy).Contents (Elt F) → (⟨S20000x48, .f32⟩ : BufTy).Contents (Elt F)),
    StableHlo.unary main_v20 main_v676 (broadcastInDim S20000x1 ![0] bcast_S20000_S20000x1_0 : (⟨S20000, .f32⟩ : BufTy).Contents (Elt F) → (⟨S20000x1, .f32⟩ : BufTy).Contents (Elt F)),
    StableHlo.unary main_v676 main_v677 (broadcastInDim S20000x48 ![0, 1] bcast_S20000x1_S20000x48_0_1 : (⟨S20000x1, .f32⟩ : BufTy).Contents (Elt F) → (⟨S20000x48, .f32⟩ : BufTy).Contents (Elt F)),
    StableHlo.binary main_v675 main_v677 main_v678 (mulf : (⟨S20000x48, .f32⟩ : BufTy).Contents (Elt F) → (⟨S20000x48, .f32⟩ : BufTy).Contents (Elt F) → (⟨S20000x48, .f32⟩ : BufTy).Contents (Elt F)),
    StableHlo.nullary main_c_122 (constantI S_ 32 0#32),
    StableHlo.unary main_c_122 main_v679 (broadcastInDim S1000000 ![] bcast_S_S1000000 : (⟨S_, .i32⟩ : BufTy).Contents (Elt F) → (⟨S1000000, .i32⟩ : BufTy).Contents (Elt F)),
    StableHlo.binary main_v3 main_v679 main_v680 (cmpi .slt : (⟨S1000000, .i32⟩ : BufTy).Contents (Elt F) → (⟨S1000000, .i32⟩ : BufTy).Contents (Elt F) → (⟨S1000000, .i1⟩ : BufTy).Contents (Elt F)),
    StableHlo.nullary main_c_123 (constantI S_ 32 20000#32),
    StableHlo.unary main_c_123 main_v681 (broadcastInDim S1000000 ![] bcast_S_S1000000 : (⟨S_, .i32⟩ : BufTy).Contents (Elt F) → (⟨S1000000, .i32⟩ : BufTy).Contents (Elt F)),
    StableHlo.binary main_v3 main_v681 main_v682 (addi : (⟨S1000000, .i32⟩ : BufTy).Contents (Elt F) → (⟨S1000000, .i32⟩ : BufTy).Contents (Elt F) → (⟨S1000000, .i32⟩ : BufTy).Contents (Elt F)),
    StableHlo.ternary main_v680 main_v682 main_v3 main_v683 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v683 main_v684 (broadcastInDim S1000000x1 ![0] bcast_S1000000_S1000000x1_0 : (⟨S1000000, .i32⟩ : BufTy).Contents (Elt F) → (⟨S1000000x1, .i32⟩ : BufTy).Contents (Elt F)),
    StableHlo.binary main_v678 main_v684 main_v685 ((fun x i => Host.gather gather_S20000x48_S1000000x1_S1000000x48_1_0_n_n_0_1_148 x i) : (⟨S20000x48, .f32⟩ : BufTy).Contents (Elt F) → (⟨S1000000x1, .i32⟩ : BufTy).Contents (Elt F) → (⟨S1000000x48, .f32⟩ : BufTy).Contents (Elt F)),
    StableHlo.nullary main_cst_124 (constant S_ .f32 0x00000000#32),
    StableHlo.unary main_cst_124 main_v686 (broadcastInDim S100000x48 ![] bcast_S_S100000x48 : (⟨S_, .f32⟩ : BufTy).Contents (Elt F) → (⟨S100000x48, .f32⟩ : BufTy).Contents (Elt F)),
    StableHlo.unary main_v1 main_v687 (broadcastInDim S1000000x1 ![0] bcast_S1000000_S1000000x1_0 : (⟨S1000000, .i32⟩ : BufTy).Contents (Elt F) → (⟨S1000000x1, .i32⟩ : BufTy).Contents (Elt F)),
    StableHlo.ternary main_v686 main_v687 main_v685 main_v688 ((fun x i u => Host.scatterAdd scatter_S100000x48_S1000000x1_S1000000x48_1_0_0_1 x i u) : (⟨S100000x48, .f32⟩ : BufTy).Contents (Elt F) → (⟨S1000000x1, .i32⟩ : BufTy).Contents (Elt F) → (⟨S1000000x48, .f32⟩ : BufTy).Contents (Elt F) → (⟨S100000x48, .f32⟩ : BufTy).Contents (Elt F)),
    StableHlo.unary main_v15 main_v689 (broadcastInDim S100000x1 ![0] bcast_S100000_S100000x1_0 : (⟨S100000, .f32⟩ : BufTy).Contents (Elt F) → (⟨S100000x1, .f32⟩ : BufTy).Contents (Elt F)),
    StableHlo.unary main_v689 main_v690 (broadcastInDim S100000x48 ![0, 1] bcast_S100000x1_S100000x48_0_1 : (⟨S100000x1, .f32⟩ : BufTy).Contents (Elt F) → (⟨S100000x48, .f32⟩ : BufTy).Contents (Elt F)),
    StableHlo.binary main_v688 main_v690 main_v691 (mulf : (⟨S100000x48, .f32⟩ : BufTy).Contents (Elt F) → (⟨S100000x48, .f32⟩ : BufTy).Contents (Elt F) → (⟨S100000x48, .f32⟩ : BufTy).Contents (Elt F)),
    StableHlo.unary main_arg13 main_v692 (broadcastInDim S1x48 ![1] bcast_S48_S1x48_1 : (⟨S48, .f32⟩ : BufTy).Contents (Elt F) → (⟨S1x48, .f32⟩ : BufTy).Contents (Elt F)),
    StableHlo.unary main_v692 main_v693 (broadcastInDim S100000x48 ![0, 1] bcast_S1x48_S100000x48_0_1 : (⟨S1x48, .f32⟩ : BufTy).Contents (Elt F) → (⟨S100000x48, .f32⟩ : BufTy).Contents (Elt F)),
    StableHlo.binary main_v691 main_v693 main_v694 (addf : (⟨S100000x48, .f32⟩ : BufTy).Contents (Elt F) → (⟨S100000x48, .f32⟩ : BufTy).Contents (Elt F) → (⟨S100000x48, .f32⟩ : BufTy).Contents (Elt F)) ]

/-- Each touches TensorCore references only. -/
theorem ops_part13_sub : (ops_part13 : List (HloOp τ sig (Elt F))).Forall fun op => op.bufs ⊆ tcRefs τ sig :=
  ⟨StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub ..⟩

set_option maxHeartbeats 4000000 in
/-- The window is its operations run in sequence. -/
theorem main_part13_eq (c : Dev nD) : main_part13 (F := F) c = seq ops_part13 := rfl

end Cert.ReferenceIdeal.RefRun

end
-- ==== Proof.RPiecesParts.lean ====
/- Each window of the reference program's main function as the pieces it consists of. -/
import proofs.«127768_j9405978378358_1_alg».proof.Proof.RPieces
import proofs.«127768_j9405978378358_1_alg».proof.Proof.RefOps0
import proofs.«127768_j9405978378358_1_alg».proof.Proof.RefOps1
import proofs.«127768_j9405978378358_1_alg».proof.Proof.RefOps2
import proofs.«127768_j9405978378358_1_alg».proof.Proof.RefOps3
import proofs.«127768_j9405978378358_1_alg».proof.Proof.RefOps4
import proofs.«127768_j9405978378358_1_alg».proof.Proof.RefOps5
import proofs.«127768_j9405978378358_1_alg».proof.Proof.RefOps6
import proofs.«127768_j9405978378358_1_alg».proof.Proof.RefOps7
import proofs.«127768_j9405978378358_1_alg».proof.Proof.RefOps8
import proofs.«127768_j9405978378358_1_alg».proof.Proof.RefOps9
import proofs.«127768_j9405978378358_1_alg».proof.Proof.RefOps10
import proofs.«127768_j9405978378358_1_alg».proof.Proof.RefOps11
import proofs.«127768_j9405978378358_1_alg».proof.Proof.RefOps12
import proofs.«127768_j9405978378358_1_alg».proof.Proof.RefOps13

set_option maxRecDepth 16384

noncomputable section

namespace Cert.ReferenceIdeal.Val

open Cert.ReferenceIdeal Cert.ReferenceIdeal.Gen Cert.ReferenceIdeal.RefRun Idealize.ShloMosaic Idealize.ShloMosaic.TcCoe Idealize.ShloMosaic.StableHlo

variable {F : FTy → Type} [FloatOps F]

theorem part0_pieces : (ops_part0 : List (HloOp τ sig (Elt F))) = pc0 ++ (pc1) := rfl

theorem part1_pieces : (ops_part1 : List (HloOp τ sig (Elt F))) = pc2 ++ (pc3 ++ (pc4)) := rfl

theorem part2_pieces : (ops_part2 : List (HloOp τ sig (Elt F))) = pc5 ++ (pc6 ++ (pc7)) := rfl

theorem part3_pieces : (ops_part3 : List (HloOp τ sig (Elt F))) = pc8 ++ (pc9) := rfl

theorem part4_pieces : (ops_part4 : List (HloOp τ sig (Elt F))) = pc10 ++ (pc11) := rfl

theorem part5_pieces : (ops_part5 : List (HloOp τ sig (Elt F))) = pc12 ++ (pc13 ++ (pc14)) := rfl

theorem part6_pieces : (ops_part6 : List (HloOp τ sig (Elt F))) = pc15 ++ (pc16 ++ (pc17)) := rfl

theorem part7_pieces : (ops_part7 : List (HloOp τ sig (Elt F))) = pc18 ++ (pc19) := rfl

theorem part8_pieces : (ops_part8 : List (HloOp τ sig (Elt F))) = pc20 ++ (pc21 ++ (pc22)) := rfl

theorem part9_pieces : (ops_part9 : List (HloOp τ sig (Elt F))) = pc23 ++ (pc24) := rfl

theorem part10_pieces : (ops_part10 : List (HloOp τ sig (Elt F))) = pc25 ++ (pc26 ++ (pc27)) := rfl

theorem part11_pieces : (ops_part11 : List (HloOp τ sig (Elt F))) = pc28 ++ (pc29 ++ (pc30)) := rfl

theorem part12_pieces : (ops_part12 : List (HloOp τ sig (Elt F))) = pc31 ++ (pc32) := rfl

theorem part13_pieces : (ops_part13 : List (HloOp τ sig (Elt F))) = pc33 ++ (pc34) := rfl

end Cert.ReferenceIdeal.Val

end
-- ==== Proof.RefRun.lean ====
/- The reference program's run: its main function is its operations run in sequence, so every weakly fair
   execution terminates with every buffer at the fold of the operations' results over the launch contents. -/
import proofs.«127768_j9405978378358_1_alg».proof.Proof.RefOps0
import proofs.«127768_j9405978378358_1_alg».proof.Proof.RefOps1
import proofs.«127768_j9405978378358_1_alg».proof.Proof.RefOps2
import proofs.«127768_j9405978378358_1_alg».proof.Proof.RefOps3
import proofs.«127768_j9405978378358_1_alg».proof.Proof.RefOps4
import proofs.«127768_j9405978378358_1_alg».proof.Proof.RefOps5
import proofs.«127768_j9405978378358_1_alg».proof.Proof.RefOps6
import proofs.«127768_j9405978378358_1_alg».proof.Proof.RefOps7
import proofs.«127768_j9405978378358_1_alg».proof.Proof.RefOps8
import proofs.«127768_j9405978378358_1_alg».proof.Proof.RefOps9
import proofs.«127768_j9405978378358_1_alg».proof.Proof.RefOps10
import proofs.«127768_j9405978378358_1_alg».proof.Proof.RefOps11
import proofs.«127768_j9405978378358_1_alg».proof.Proof.RefOps12
import proofs.«127768_j9405978378358_1_alg».proof.Proof.RefOps13
import Idealize.ShloMosaic.Lib.Pipeline.Frame

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The main function's operations, in order. -/
abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ (ops_part10 ++ (ops_part11 ++ (ops_part12 ++ (ops_part13)))))))))))))

theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h, List.forall_iff_forall_mem.mp ops_part7_sub op h, List.forall_iff_forall_mem.mp ops_part8_sub op h, List.forall_iff_forall_mem.mp ops_part9_sub op h, List.forall_iff_forall_mem.mp ops_part10_sub op h, List.forall_iff_forall_mem.mp ops_part11_sub op h, List.forall_iff_forall_mem.mp ops_part12_sub op h, List.forall_iff_forall_mem.mp ops_part13_sub op h]

/-- Every weakly fair execution of the main function terminates, and in every final state each buffer holds the
    fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RSeg_chunk22.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc34 : List (Ref sig .tc) := [main_v664, main_v665, main_c_119, main_v666, main_v667, main_c_120, main_v668, main_v669, main_v670, main_v671, main_v672, main_cst_121, main_v673, main_v674, main_v675, main_v676, main_v677, main_v678, main_c_122, main_v679, main_v680, main_c_123, main_v681, main_v682, main_v683, main_v684, main_v685, main_cst_124, main_v686, main_v687, main_v688, main_v689, main_v690, main_v691, main_v692, main_v693, main_v694]

/-- A buffer the piece does not write keeps its contents. -/
theorem keep_pc34 (V : Valuation τ sig (Elt F)) (b : Ref sig .tc) (hb : ∀ y ∈ wr_pc34, b ≠ y) :
    after (pc34 (F := F)) V (Proc.devRef .tc b) = V (Proc.devRef .tc b) :=
  after_of_forall_not_mem (b := Proc.devRef .tc b) _ _ (List.forall_iff_forall_mem.mp (by
    simp only [pc34, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v664 (V : Valuation τ sig (Elt F)) :
    (after (pc34 (F := F)) V) (Proc.devRef .tc main_v664) = rf38 (V (Proc.devRef .tc main_v663)) (V (Proc.devRef .tc main_arg0)) := by
  unfold rf38
  dsimp only [pc34]
  after_results_simp <;> rfl

theorem c_main_v665 (V : Valuation τ sig (Elt F)) :
    (after (pc34 (F := F)) V) (Proc.devRef .tc main_v665) = rf39 ((after (pc34 (F := F)) V) (Proc.devRef .tc main_v664)) (V (Proc.devRef .tc main_arg12)) := by
  unfold rf39
  dsimp only [pc34]
  after_results_simp <;> rfl

theorem c_main_v691 (V : Valuation τ sig (Elt F)) :
    (after (pc34 (F := F)) V) (Proc.devRef .tc main_v691) = rf40 (V (Proc.devRef .tc main_v1)) (V (Proc.devRef .tc main_v3)) ((after (pc34 (F := F)) V) (Proc.devRef .tc main_v665)) (V (Proc.devRef .tc main_v20)) (V (Proc.devRef .tc main_v15)) := by
  unfold rf40
  dsimp only [pc34]
  after_results_simp <;> rfl

theorem c_main_v694 (V : Valuation τ sig (Elt F)) :
    (after (pc34 (F := F)) V) (Proc.devRef .tc main_v694) = rf0 ((after (pc34 (F := F)) V) (Proc.devRef .tc main_v691)) (V (Proc.devRef .tc main_arg13)) := by
  unfold rf0
  dsimp only [pc34]
  after_results_simp <;> rfl

end Cert.ReferenceIdeal.Val

end
-- ==== Proof.RSeg_chunk19.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc29 : List (Ref sig .tc) := [main_v571, main_v572, main_v573, main_v574, main_v575, main_c_103, main_v576, main_v577, main_c_104, main_v578, main_v579, main_v580, main_v581, main_v582, main_cst_105, main_v583, main_v584, main_v585, main_v586, main_v587, main_v588, main_c_106, main_v589, main_v590, main_c_107, main_v591, main_v592, main_v593, main_v594, main_v595, main_cst_108, main_v596, main_v597, main_v598, main_v599, main_v600, main_v601, main_v602, main_v603, main_v604]

/-- A buffer the piece does not write keeps its contents. -/
theorem keep_pc29 (V : Valuation τ sig (Elt F)) (b : Ref sig .tc) (hb : ∀ y ∈ wr_pc29, b ≠ y) :
    after (pc29 (F := F)) V (Proc.devRef .tc b) = V (Proc.devRef .tc b) :=
  after_of_forall_not_mem (b := Proc.devRef .tc b) _ _ (List.forall_iff_forall_mem.mp (by
    simp only [pc29, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v572 (V : Valuation τ sig (Elt F)) :
    (after (pc29 (F := F)) V) (Proc.devRef .tc main_v572) = rf35 (V (Proc.devRef .tc main_arg6)) := by
  unfold rf35
  dsimp only [pc29]
  after_results_simp <;> rfl

theorem c_main_v574 (V : Valuation τ sig (Elt F)) :
    (after (pc29 (F := F)) V) (Proc.devRef .tc main_v574) = rf36 (V (Proc.devRef .tc main_arg7)) := by
  unfold rf36
  dsimp only [pc29]
  after_results_simp <;> rfl

theorem c_main_v575 (V : Valuation τ sig (Elt F)) :
    (after (pc29 (F := F)) V) (Proc.devRef .tc main_v575) = rf21 (V (Proc.devRef .tc main_v570)) ((after (pc29 (F := F)) V) (Proc.devRef .tc main_v572)) := by
  unfold rf21
  dsimp only [pc29]
  after_results_simp <;> rfl

theorem c_main_v601 (V : Valuation τ sig (Elt F)) :
    (after (pc29 (F := F)) V) (Proc.devRef .tc main_v601) = rf9 (V (Proc.devRef .tc main_v1)) (V (Proc.devRef .tc main_v3)) ((after (pc29 (F := F)) V) (Proc.devRef .tc main_v575)) (V (Proc.devRef .tc main_v20)) (V (Proc.devRef .tc main_v15)) := by
  unfold rf9
  dsimp only [pc29]
  after_results_simp <;> rfl

theorem c_main_v604 (V : Valuation τ sig (Elt F)) :
    (after (pc29 (F := F)) V) (Proc.devRef .tc main_v604) = rf10 ((after (pc29 (F := F)) V) (Proc.devRef .tc main_v601)) ((after (pc29 (F := F)) V) (Proc.devRef .tc main_v574)) := by
  unfold rf10
  dsimp only [pc29]
  after_results_simp <;> rfl

end Cert.ReferenceIdeal.Val

end
-- ==== Proof.RSeg_chunk20.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc30 : List (Ref sig .tc) := [main_v605, main_v606, main_v607, main_v608]

/-- A buffer the piece does not write keeps its contents. -/
theorem keep_pc30 (V : Valuation τ sig (Elt F)) (b : Ref sig .tc) (hb : ∀ y ∈ wr_pc30, b ≠ y) :
    after (pc30 (F := F)) V (Proc.devRef .tc b) = V (Proc.devRef .tc b) :=
  after_of_forall_not_mem (b := Proc.devRef .tc b) _ _ (List.forall_iff_forall_mem.mp (by
    simp only [pc30, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- The buffers the piece writes. -/
abbrev wr_pc31 : List (Ref sig .tc) := [main_cst_109, main_v609, main_cst_110, main_v610, main_v611, main_c_111, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v612, main_v613, main_v614, main_v615, main_v616, main_v617, main_v618, main_cst_112, main_v619, main_v620, main_v621, main_v622, main_v623, main_v624, main_v625, main_v626, main_v627, main_call15_cst, main_call15_v0, main_v628]

/-- A buffer the piece does not write keeps its contents. -/
theorem keep_pc31 (V : Valuation τ sig (Elt F)) (b : Ref sig .tc) (hb : ∀ y ∈ wr_pc31, b ≠ y) :
    after (pc31 (F := F)) V (Proc.devRef .tc b) = V (Proc.devRef .tc b) :=
  after_of_forall_not_mem (b := Proc.devRef .tc b) _ _ (List.forall_iff_forall_mem.mp (by
    simp only [pc31, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- A buffer the stretch does not write keeps its contents. -/
theorem keepS_chunk20 (V : Valuation τ sig (Elt F)) (b : Ref sig .tc) (h0 : ∀ y ∈ wr_pc30, b ≠ y) (h1 : ∀ y ∈ wr_pc31, b ≠ y) :
    (after (pc31 (F := F)) (after (pc30 (F := F)) V)) (Proc.devRef .tc b) = V (Proc.devRef .tc b) :=
  ((keep_pc31 _ b h1).trans (keep_pc30 _ b h0))

theorem c_main_v606 (V : Valuation τ sig (Elt F)) :
    (after (pc31 (F := F)) (after (pc30 (F := F)) V)) (Proc.devRef .tc main_v606) = rf37 (V (Proc.devRef .tc main_arg10)) := by
  unfold rf37
  dsimp only [pc30, pc31]
  after_results_simp <;> rfl

theorem c_main_v608 (V : Valuation τ sig (Elt F)) :
    (after (pc31 (F := F)) (after (pc30 (F := F)) V)) (Proc.devRef .tc main_v608) = rf37 (V (Proc.devRef .tc main_arg11)) := by
  unfold rf37
  dsimp only [pc30, pc31]
  after_results_simp <;> rfl

theorem c_main_v611 (V : Valuation τ sig (Elt F)) :
    (after (pc31 (F := F)) (after (pc30 (F := F)) V)) (Proc.devRef .tc main_v611) = rf12 (V (Proc.devRef .tc main_v604)) := by
  unfold rf12
  dsimp only [pc30, pc31]
  after_results_simp <;> rfl

theorem c_main_call14_v5 (V : Valuation τ sig (Elt F)) :
    (after (pc31 (F := F)) (after (pc30 (F := F)) V)) (Proc.devRef .tc main_call14_v5) = rf13 (V (Proc.devRef .tc main_v604)) := by
  unfold rf13
  dsimp only [pc30, pc31]
  after_results_simp <;> rfl

theorem c_main_call14_v8 (V : Valuation τ sig (Elt F)) :
    (after (pc31 (F := F)) (after (pc30 (F := F)) V)) (Proc.devRef .tc main_call14_v8) = rf14  := by
  unfold rf14
  dsimp only [pc30, pc31]
  after_results_simp <;> rfl

theorem c_main_call14_v11 (V : Valuation τ sig (Elt F)) :
    (after (pc31 (F := F)) (after (pc30 (F := F)) V)) (Proc.devRef .tc main_call14_v11) = rf15 ((after (pc31 (F := F)) (after (pc30 (F := F)) V)) (Proc.devRef .tc main_call14_v5)) ((after (pc31 (F := F)) (after (pc30 (F := F)) V)) (Proc.devRef .tc main_call14_v8)) := by
  unfold rf15
  dsimp only [pc30, pc31]
  after_results_simp <;> rfl

theorem c_main_v612 (V : Valuation τ sig (Elt F)) :
    (after (pc31 (F := F)) (after (pc30 (F := F)) V)) (Proc.devRef .tc main_v612) = rf16 ((after (pc31 (F := F)) (after (pc30 (F := F)) V)) (Proc.devRef .tc main_call14_v8)) ((after (pc31 (F := F)) (after (pc30 (F := F)) V)) (Proc.devRef .tc main_call14_v11)) := by
  unfold rf16
  dsimp only [pc30, pc31]
  after_results_simp <;> rfl

theorem c_main_v628 (V : Valuation τ sig (Elt F)) :
    (after (pc31 (F := F)) (after (pc30 (F := F)) V)) (Proc.devRef .tc main_v628) = rf17 ((after (pc31 (F := F)) (after (pc30 (F := F)) V)) (Proc.devRef .tc main_v606)) (V (Proc.devRef .tc main_v604)) ((after (pc31 (F := F)) (after (pc30 (F := F)) V)) (Proc.devRef .tc main_v611)) ((after (pc31 (F := F)) (after (pc30 (F := F)) V)) (Proc.devRef .tc main_v612)) ((after (pc31 (F := F)) (after (pc30 (F := F)) V)) (Proc.devRef .tc main_v608)) := by
  unfold rf17
  dsimp only [pc30, pc31]
  after_results_simp <;> rfl

end Cert.ReferenceIdeal.Val

end
-- ==== Proof.RSeg_chunk21.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc32 : List (Ref sig .tc) := [main_v629, main_v630, main_v631, main_v632, main_v633, main_c_113, main_v634, main_v635, main_c_114, main_v636, main_v637, main_v638, main_v639, main_v640, main_cst_115, main_v641, main_v642, main_v643, main_v644, main_v645, main_v646, main_c_116, main_v647, main_v648, main_c_117, main_v649, main_v650, main_v651, main_v652, main_v653, main_cst_118, main_v654, main_v655, main_v656, main_v657, main_v658]

/-- A buffer the piece does not write keeps its contents. -/
theorem keep_pc32 (V : Valuation τ sig (Elt F)) (b : Ref sig .tc) (hb : ∀ y ∈ wr_pc32, b ≠ y) :
    after (pc32 (F := F)) V (Proc.devRef .tc b) = V (Proc.devRef .tc b) :=
  after_of_forall_not_mem (b := Proc.devRef .tc b) _ _ (List.forall_iff_forall_mem.mp (by
    simp only [pc32, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- The buffers the piece writes. -/
abbrev wr_pc33 : List (Ref sig .tc) := [main_v659, main_v660, main_v661, main_v662, main_v663]

/-- A buffer the piece does not write keeps its contents. -/
theorem keep_pc33 (V : Valuation τ sig (Elt F)) (b : Ref sig .tc) (hb : ∀ y ∈ wr_pc33, b ≠ y) :
    after (pc33 (F := F)) V (Proc.devRef .tc b) = V (Proc.devRef .tc b) :=
  after_of_forall_not_mem (b := Proc.devRef .tc b) _ _ (List.forall_iff_forall_mem.mp (by
    simp only [pc33, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- A buffer the stretch does not write keeps its contents. -/
theorem keepS_chunk21 (V : Valuation τ sig (Elt F)) (b : Ref sig .tc) (h0 : ∀ y ∈ wr_pc32, b ≠ y) (h1 : ∀ y ∈ wr_pc33, b ≠ y) :
    (after (pc33 (F := F)) (after (pc32 (F := F)) V)) (Proc.devRef .tc b) = V (Proc.devRef .tc b) :=
  ((keep_pc33 _ b h1).trans (keep_pc32 _ b h0))

theorem c_main_v630 (V : Valuation τ sig (Elt F)) :
    (after (pc33 (F := F)) (after (pc32 (F := F)) V)) (Proc.devRef .tc main_v630) = rf35 (V (Proc.devRef .tc main_arg8)) := by
  unfold rf35
  dsimp only [pc32, pc33]
  after_results_simp <;> rfl

theorem c_main_v632 (V : Valuation τ sig (Elt F)) :
    (after (pc33 (F := F)) (after (pc32 (F := F)) V)) (Proc.devRef .tc main_v632) = rf36 (V (Proc.devRef .tc main_arg9)) := by
  unfold rf36
  dsimp only [pc32, pc33]
  after_results_simp <;> rfl

theorem c_main_v633 (V : Valuation τ sig (Elt F)) :
    (after (pc33 (F := F)) (after (pc32 (F := F)) V)) (Proc.devRef .tc main_v633) = rf21 (V (Proc.devRef .tc main_v570)) ((after (pc33 (F := F)) (after (pc32 (F := F)) V)) (Proc.devRef .tc main_v630)) := by
  unfold rf21
  dsimp only [pc32, pc33]
  after_results_simp <;> rfl

theorem c_main_v659 (V : Valuation τ sig (Elt F)) :
    (after (pc33 (F := F)) (after (pc32 (F := F)) V)) (Proc.devRef .tc main_v659) = rf9 (V (Proc.devRef .tc main_v1)) (V (Proc.devRef .tc main_v3)) ((after (pc33 (F := F)) (after (pc32 (F := F)) V)) (Proc.devRef .tc main_v633)) (V (Proc.devRef .tc main_v20)) (V (Proc.devRef .tc main_v15)) := by
  unfold rf9
  dsimp only [pc32, pc33]
  after_results_simp <;> rfl

theorem c_main_v663 (V : Valuation τ sig (Elt F)) :
    (after (pc33 (F := F)) (after (pc32 (F := F)) V)) (Proc.devRef .tc main_v663) = rf18 (V (Proc.devRef .tc main_v628)) ((after (pc33 (F := F)) (after (pc32 (F := F)) V)) (Proc.devRef .tc main_v659)) ((after (pc33 (F := F)) (after (pc32 (F := F)) V)) (Proc.devRef .tc main_v632)) := by
  unfold rf18
  dsimp only [pc32, pc33]
  after_results_simp <;> rfl

end Cert.ReferenceIdeal.Val

end
-- ==== Proof.RSeg_chunk16.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc24 : List (Ref sig .tc) := [main_v478, main_v479, main_v480, main_v481, main_v482, main_c_87, main_v483, main_v484, main_c_88, main_v485, main_v486, main_v487, main_v488, main_v489, main_cst_89, main_v490, main_v491, main_v492, main_v493, main_v494, main_v495, main_c_90, main_v496, main_v497, main_c_91, main_v498, main_v499, main_v500, main_v501, main_v502, main_cst_92, main_v503, main_v504]

/-- A buffer the piece does not write keeps its contents. -/
theorem keep_pc24 (V : Valuation τ sig (Elt F)) (b : Ref sig .tc) (hb : ∀ y ∈ wr_pc24, b ≠ y) :
    after (pc24 (F := F)) V (Proc.devRef .tc b) = V (Proc.devRef .tc b) :=
  after_of_forall_not_mem (b := Proc.devRef .tc b) _ _ (List.forall_iff_forall_mem.mp (by
    simp only [pc24, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- The buffers the piece writes. -/
abbrev wr_pc25 : List (Ref sig .tc) := [main_v505, main_v506, main_v507, main_v508, main_v509, main_v510, main_v511]

/-- A buffer the piece does not write keeps its contents. -/
theorem keep_pc25 (V : Valuation τ sig (Elt F)) (b : Ref sig .tc) (hb : ∀ y ∈ wr_pc25, b ≠ y) :
    after (pc25 (F := F)) V (Proc.devRef .tc b) = V (Proc.devRef .tc b) :=
  after_of_forall_not_mem (b := Proc.devRef .tc b) _ _ (List.forall_iff_forall_mem.mp (by
    simp only [pc25, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- A buffer the stretch does not write keeps its contents. -/
theorem keepS_chunk16 (V : Valuation τ sig (Elt F)) (b : Ref sig .tc) (h0 : ∀ y ∈ wr_pc24, b ≠ y) (h1 : ∀ y ∈ wr_pc25, b ≠ y) :
    (after (pc25 (F := F)) (after (pc24 (F := F)) V)) (Proc.devRef .tc b) = V (Proc.devRef .tc b) :=
  ((keep_pc25 _ b h1).trans (keep_pc24 _ b h0))

theorem c_main_v479 (V : Valuation τ sig (Elt F)) :
    (after (pc25 (F := F)) (after (pc24 (F := F)) V)) (Proc.devRef .tc main_v479) = rf32 (V (Proc.devRef .tc main_arg6)) := by
  unfold rf32
  dsimp only [pc24, pc25]
  after_results_simp <;> rfl

theorem c_main_v481 (V : Valuation τ sig (Elt F)) :
    (after (pc25 (F := F)) (after (pc24 (F := F)) V)) (Proc.devRef .tc main_v481) = rf33 (V (Proc.devRef .tc main_arg7)) := by
  unfold rf33
  dsimp only [pc24, pc25]
  after_results_simp <;> rfl

theorem c_main_v482 (V : Valuation τ sig (Elt F)) :
    (after (pc25 (F := F)) (after (pc24 (F := F)) V)) (Proc.devRef .tc main_v482) = rf21 (V (Proc.devRef .tc main_v477)) ((after (pc25 (F := F)) (after (pc24 (F := F)) V)) (Proc.devRef .tc main_v479)) := by
  unfold rf21
  dsimp only [pc24, pc25]
  after_results_simp <;> rfl

theorem c_main_v508 (V : Valuation τ sig (Elt F)) :
    (after (pc25 (F := F)) (after (pc24 (F := F)) V)) (Proc.devRef .tc main_v508) = rf9 (V (Proc.devRef .tc main_v1)) (V (Proc.devRef .tc main_v3)) ((after (pc25 (F := F)) (after (pc24 (F := F)) V)) (Proc.devRef .tc main_v482)) (V (Proc.devRef .tc main_v20)) (V (Proc.devRef .tc main_v15)) := by
  unfold rf9
  dsimp only [pc24, pc25]
  after_results_simp <;> rfl

theorem c_main_v511 (V : Valuation τ sig (Elt F)) :
    (after (pc25 (F := F)) (after (pc24 (F := F)) V)) (Proc.devRef .tc main_v511) = rf10 ((after (pc25 (F := F)) (after (pc24 (F := F)) V)) (Proc.devRef .tc main_v508)) ((after (pc25 (F := F)) (after (pc24 (F := F)) V)) (Proc.devRef .tc main_v481)) := by
  unfold rf10
  dsimp only [pc24, pc25]
  after_results_simp <;> rfl

end Cert.ReferenceIdeal.Val

end
-- ==== Proof.RSeg_chunk17.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc26 : List (Ref sig .tc) := [main_v512, main_v513, main_v514, main_v515, main_cst_93, main_v516, main_cst_94, main_v517, main_v518, main_c_95, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v519, main_v520, main_v521, main_v522, main_v523, main_v524, main_v525, main_cst_96, main_v526, main_v527, main_v528, main_v529, main_v530, main_v531, main_v532, main_v533, main_v534, main_call13_cst, main_call13_v0, main_v535]

/-- A buffer the piece does not write keeps its contents. -/
theorem keep_pc26 (V : Valuation τ sig (Elt F)) (b : Ref sig .tc) (hb : ∀ y ∈ wr_pc26, b ≠ y) :
    after (pc26 (F := F)) V (Proc.devRef .tc b) = V (Proc.devRef .tc b) :=
  after_of_forall_not_mem (b := Proc.devRef .tc b) _ _ (List.forall_iff_forall_mem.mp (by
    simp only [pc26, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v513 (V : Valuation τ sig (Elt F)) :
    (after (pc26 (F := F)) V) (Proc.devRef .tc main_v513) = rf34 (V (Proc.devRef .tc main_arg10)) := by
  unfold rf34
  dsimp only [pc26]
  after_results_simp <;> rfl

theorem c_main_v515 (V : Valuation τ sig (Elt F)) :
    (after (pc26 (F := F)) V) (Proc.devRef .tc main_v515) = rf34 (V (Proc.devRef .tc main_arg11)) := by
  unfold rf34
  dsimp only [pc26]
  after_results_simp <;> rfl

theorem c_main_v518 (V : Valuation τ sig (Elt F)) :
    (after (pc26 (F := F)) V) (Proc.devRef .tc main_v518) = rf12 (V (Proc.devRef .tc main_v511)) := by
  unfold rf12
  dsimp only [pc26]
  after_results_simp <;> rfl

theorem c_main_call12_v5 (V : Valuation τ sig (Elt F)) :
    (after (pc26 (F := F)) V) (Proc.devRef .tc main_call12_v5) = rf13 (V (Proc.devRef .tc main_v511)) := by
  unfold rf13
  dsimp only [pc26]
  after_results_simp <;> rfl

theorem c_main_call12_v8 (V : Valuation τ sig (Elt F)) :
    (after (pc26 (F := F)) V) (Proc.devRef .tc main_call12_v8) = rf14  := by
  unfold rf14
  dsimp only [pc26]
  after_results_simp <;> rfl

theorem c_main_call12_v11 (V : Valuation τ sig (Elt F)) :
    (after (pc26 (F := F)) V) (Proc.devRef .tc main_call12_v11) = rf15 ((after (pc26 (F := F)) V) (Proc.devRef .tc main_call12_v5)) ((after (pc26 (F := F)) V) (Proc.devRef .tc main_call12_v8)) := by
  unfold rf15
  dsimp only [pc26]
  after_results_simp <;> rfl

theorem c_main_v519 (V : Valuation τ sig (Elt F)) :
    (after (pc26 (F := F)) V) (Proc.devRef .tc main_v519) = rf16 ((after (pc26 (F := F)) V) (Proc.devRef .tc main_call12_v8)) ((after (pc26 (F := F)) V) (Proc.devRef .tc main_call12_v11)) := by
  unfold rf16
  dsimp only [pc26]
  after_results_simp <;> rfl

theorem c_main_v535 (V : Valuation τ sig (Elt F)) :
    (after (pc26 (F := F)) V) (Proc.devRef .tc main_v535) = rf17 ((after (pc26 (F := F)) V) (Proc.devRef .tc main_v513)) (V (Proc.devRef .tc main_v511)) ((after (pc26 (F := F)) V) (Proc.devRef .tc main_v518)) ((after (pc26 (F := F)) V) (Proc.devRef .tc main_v519)) ((after (pc26 (F := F)) V) (Proc.devRef .tc main_v515)) := by
  unfold rf17
  dsimp only [pc26]
  after_results_simp <;> rfl

end Cert.ReferenceIdeal.Val

end
-- ==== Proof.RSeg_chunk18.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc27 : List (Ref sig .tc) := [main_v536, main_v537, main_v538, main_v539, main_v540, main_c_97, main_v541, main_v542, main_c_98, main_v543, main_v544, main_v545, main_v546, main_v547, main_cst_99, main_v548, main_v549, main_v550, main_v551, main_v552, main_v553, main_c_100, main_v554, main_v555, main_c_101]

/-- A buffer the piece does not write keeps its contents. -/
theorem keep_pc27 (V : Valuation τ sig (Elt F)) (b : Ref sig .tc) (hb : ∀ y ∈ wr_pc27, b ≠ y) :
    after (pc27 (F := F)) V (Proc.devRef .tc b) = V (Proc.devRef .tc b) :=
  after_of_forall_not_mem (b := Proc.devRef .tc b) _ _ (List.forall_iff_forall_mem.mp (by
    simp only [pc27, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- The buffers the piece writes. -/
abbrev wr_pc28 : List (Ref sig .tc) := [main_v556, main_v557, main_v558, main_v559, main_v560, main_cst_102, main_v561, main_v562, main_v563, main_v564, main_v565, main_v566, main_v567, main_v568, main_v569, main_v570]

/-- A buffer the piece does not write keeps its contents. -/
theorem keep_pc28 (V : Valuation τ sig (Elt F)) (b : Ref sig .tc) (hb : ∀ y ∈ wr_pc28, b ≠ y) :
    after (pc28 (F := F)) V (Proc.devRef .tc b) = V (Proc.devRef .tc b) :=
  after_of_forall_not_mem (b := Proc.devRef .tc b) _ _ (List.forall_iff_forall_mem.mp (by
    simp only [pc28, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- A buffer the stretch does not write keeps its contents. -/
theorem keepS_chunk18 (V : Valuation τ sig (Elt F)) (b : Ref sig .tc) (h0 : ∀ y ∈ wr_pc27, b ≠ y) (h1 : ∀ y ∈ wr_pc28, b ≠ y) :
    (after (pc28 (F := F)) (after (pc27 (F := F)) V)) (Proc.devRef .tc b) = V (Proc.devRef .tc b) :=
  ((keep_pc28 _ b h1).trans (keep_pc27 _ b h0))

theorem c_main_v537 (V : Valuation τ sig (Elt F)) :
    (after (pc28 (F := F)) (after (pc27 (F := F)) V)) (Proc.devRef .tc main_v537) = rf32 (V (Proc.devRef .tc main_arg8)) := by
  unfold rf32
  dsimp only [pc27, pc28]
  after_results_simp <;> rfl

theorem c_main_v539 (V : Valuation τ sig (Elt F)) :
    (after (pc28 (F := F)) (after (pc27 (F := F)) V)) (Proc.devRef .tc main_v539) = rf33 (V (Proc.devRef .tc main_arg9)) := by
  unfold rf33
  dsimp only [pc27, pc28]
  after_results_simp <;> rfl

theorem c_main_v540 (V : Valuation τ sig (Elt F)) :
    (after (pc28 (F := F)) (after (pc27 (F := F)) V)) (Proc.devRef .tc main_v540) = rf21 (V (Proc.devRef .tc main_v477)) ((after (pc28 (F := F)) (after (pc27 (F := F)) V)) (Proc.devRef .tc main_v537)) := by
  unfold rf21
  dsimp only [pc27, pc28]
  after_results_simp <;> rfl

theorem c_main_v566 (V : Valuation τ sig (Elt F)) :
    (after (pc28 (F := F)) (after (pc27 (F := F)) V)) (Proc.devRef .tc main_v566) = rf9 (V (Proc.devRef .tc main_v1)) (V (Proc.devRef .tc main_v3)) ((after (pc28 (F := F)) (after (pc27 (F := F)) V)) (Proc.devRef .tc main_v540)) (V (Proc.devRef .tc main_v20)) (V (Proc.devRef .tc main_v15)) := by
  unfold rf9
  dsimp only [pc27, pc28]
  after_results_simp <;> rfl

theorem c_main_v570 (V : Valuation τ sig (Elt F)) :
    (after (pc28 (F := F)) (after (pc27 (F := F)) V)) (Proc.devRef .tc main_v570) = rf18 (V (Proc.devRef .tc main_v535)) ((after (pc28 (F := F)) (after (pc27 (F := F)) V)) (Proc.devRef .tc main_v566)) ((after (pc28 (F := F)) (after (pc27 (F := F)) V)) (Proc.devRef .tc main_v539)) := by
  unfold rf18
  dsimp only [pc27, pc28]
  after_results_simp <;> rfl

end Cert.ReferenceIdeal.Val

end
-- ==== Proof.RSeg_chunk13.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc19 : List (Ref sig .tc) := [main_v385, main_v386, main_v387, main_v388, main_v389, main_c_71, main_v390, main_v391, main_c_72, main_v392, main_v393, main_v394, main_v395, main_v396, main_cst_73, main_v397, main_v398, main_v399, main_v400, main_v401, main_v402, main_c_74]

/-- A buffer the piece does not write keeps its contents. -/
theorem keep_pc19 (V : Valuation τ sig (Elt F)) (b : Ref sig .tc) (hb : ∀ y ∈ wr_pc19, b ≠ y) :
    after (pc19 (F := F)) V (Proc.devRef .tc b) = V (Proc.devRef .tc b) :=
  after_of_forall_not_mem (b := Proc.devRef .tc b) _ _ (List.forall_iff_forall_mem.mp (by
    simp only [pc19, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- The buffers the piece writes. -/
abbrev wr_pc20 : List (Ref sig .tc) := [main_v403, main_v404, main_c_75, main_v405, main_v406, main_v407, main_v408, main_v409, main_cst_76, main_v410, main_v411, main_v412, main_v413, main_v414, main_v415, main_v416, main_v417, main_v418]

/-- A buffer the piece does not write keeps its contents. -/
theorem keep_pc20 (V : Valuation τ sig (Elt F)) (b : Ref sig .tc) (hb : ∀ y ∈ wr_pc20, b ≠ y) :
    after (pc20 (F := F)) V (Proc.devRef .tc b) = V (Proc.devRef .tc b) :=
  after_of_forall_not_mem (b := Proc.devRef .tc b) _ _ (List.forall_iff_forall_mem.mp (by
    simp only [pc20, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- A buffer the stretch does not write keeps its contents. -/
theorem keepS_chunk13 (V : Valuation τ sig (Elt F)) (b : Ref sig .tc) (h0 : ∀ y ∈ wr_pc19, b ≠ y) (h1 : ∀ y ∈ wr_pc20, b ≠ y) :
    (after (pc20 (F := F)) (after (pc19 (F := F)) V)) (Proc.devRef .tc b) = V (Proc.devRef .tc b) :=
  ((keep_pc20 _ b h1).trans (keep_pc19 _ b h0))

theorem c_main_v386 (V : Valuation τ sig (Elt F)) :
    (after (pc20 (F := F)) (after (pc19 (F := F)) V)) (Proc.devRef .tc main_v386) = rf29 (V (Proc.devRef .tc main_arg6)) := by
  unfold rf29
  dsimp only [pc19, pc20]
  after_results_simp <;> rfl

theorem c_main_v388 (V : Valuation τ sig (Elt F)) :
    (after (pc20 (F := F)) (after (pc19 (F := F)) V)) (Proc.devRef .tc main_v388) = rf30 (V (Proc.devRef .tc main_arg7)) := by
  unfold rf30
  dsimp only [pc19, pc20]
  after_results_simp <;> rfl

theorem c_main_v389 (V : Valuation τ sig (Elt F)) :
    (after (pc20 (F := F)) (after (pc19 (F := F)) V)) (Proc.devRef .tc main_v389) = rf21 (V (Proc.devRef .tc main_v384)) ((after (pc20 (F := F)) (after (pc19 (F := F)) V)) (Proc.devRef .tc main_v386)) := by
  unfold rf21
  dsimp only [pc19, pc20]
  after_results_simp <;> rfl

theorem c_main_v415 (V : Valuation τ sig (Elt F)) :
    (after (pc20 (F := F)) (after (pc19 (F := F)) V)) (Proc.devRef .tc main_v415) = rf9 (V (Proc.devRef .tc main_v1)) (V (Proc.devRef .tc main_v3)) ((after (pc20 (F := F)) (after (pc19 (F := F)) V)) (Proc.devRef .tc main_v389)) (V (Proc.devRef .tc main_v20)) (V (Proc.devRef .tc main_v15)) := by
  unfold rf9
  dsimp only [pc19, pc20]
  after_results_simp <;> rfl

theorem c_main_v418 (V : Valuation τ sig (Elt F)) :
    (after (pc20 (F := F)) (after (pc19 (F := F)) V)) (Proc.devRef .tc main_v418) = rf10 ((after (pc20 (F := F)) (after (pc19 (F := F)) V)) (Proc.devRef .tc main_v415)) ((after (pc20 (F := F)) (after (pc19 (F := F)) V)) (Proc.devRef .tc main_v388)) := by
  unfold rf10
  dsimp only [pc19, pc20]
  after_results_simp <;> rfl

end Cert.ReferenceIdeal.Val

end
-- ==== Proof.RSeg_chunk14.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc21 : List (Ref sig .tc) := [main_v419, main_v420, main_v421, main_v422, main_cst_77, main_v423, main_cst_78, main_v424, main_v425, main_c_79, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v426, main_v427, main_v428, main_v429, main_v430, main_v431, main_v432, main_cst_80, main_v433, main_v434, main_v435, main_v436, main_v437, main_v438, main_v439, main_v440, main_v441, main_call11_cst, main_call11_v0, main_v442]

/-- A buffer the piece does not write keeps its contents. -/
theorem keep_pc21 (V : Valuation τ sig (Elt F)) (b : Ref sig .tc) (hb : ∀ y ∈ wr_pc21, b ≠ y) :
    after (pc21 (F := F)) V (Proc.devRef .tc b) = V (Proc.devRef .tc b) :=
  after_of_forall_not_mem (b := Proc.devRef .tc b) _ _ (List.forall_iff_forall_mem.mp (by
    simp only [pc21, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v420 (V : Valuation τ sig (Elt F)) :
    (after (pc21 (F := F)) V) (Proc.devRef .tc main_v420) = rf31 (V (Proc.devRef .tc main_arg10)) := by
  unfold rf31
  dsimp only [pc21]
  after_results_simp <;> rfl

theorem c_main_v422 (V : Valuation τ sig (Elt F)) :
    (after (pc21 (F := F)) V) (Proc.devRef .tc main_v422) = rf31 (V (Proc.devRef .tc main_arg11)) := by
  unfold rf31
  dsimp only [pc21]
  after_results_simp <;> rfl

theorem c_main_v425 (V : Valuation τ sig (Elt F)) :
    (after (pc21 (F := F)) V) (Proc.devRef .tc main_v425) = rf12 (V (Proc.devRef .tc main_v418)) := by
  unfold rf12
  dsimp only [pc21]
  after_results_simp <;> rfl

theorem c_main_call10_v5 (V : Valuation τ sig (Elt F)) :
    (after (pc21 (F := F)) V) (Proc.devRef .tc main_call10_v5) = rf13 (V (Proc.devRef .tc main_v418)) := by
  unfold rf13
  dsimp only [pc21]
  after_results_simp <;> rfl

theorem c_main_call10_v8 (V : Valuation τ sig (Elt F)) :
    (after (pc21 (F := F)) V) (Proc.devRef .tc main_call10_v8) = rf14  := by
  unfold rf14
  dsimp only [pc21]
  after_results_simp <;> rfl

theorem c_main_call10_v11 (V : Valuation τ sig (Elt F)) :
    (after (pc21 (F := F)) V) (Proc.devRef .tc main_call10_v11) = rf15 ((after (pc21 (F := F)) V) (Proc.devRef .tc main_call10_v5)) ((after (pc21 (F := F)) V) (Proc.devRef .tc main_call10_v8)) := by
  unfold rf15
  dsimp only [pc21]
  after_results_simp <;> rfl

theorem c_main_v426 (V : Valuation τ sig (Elt F)) :
    (after (pc21 (F := F)) V) (Proc.devRef .tc main_v426) = rf16 ((after (pc21 (F := F)) V) (Proc.devRef .tc main_call10_v8)) ((after (pc21 (F := F)) V) (Proc.devRef .tc main_call10_v11)) := by
  unfold rf16
  dsimp only [pc21]
  after_results_simp <;> rfl

theorem c_main_v442 (V : Valuation τ sig (Elt F)) :
    (after (pc21 (F := F)) V) (Proc.devRef .tc main_v442) = rf17 ((after (pc21 (F := F)) V) (Proc.devRef .tc main_v420)) (V (Proc.devRef .tc main_v418)) ((after (pc21 (F := F)) V) (Proc.devRef .tc main_v425)) ((after (pc21 (F := F)) V) (Proc.devRef .tc main_v426)) ((after (pc21 (F := F)) V) (Proc.devRef .tc main_v422)) := by
  unfold rf17
  dsimp only [pc21]
  after_results_simp <;> rfl

end Cert.ReferenceIdeal.Val

end
-- ==== Proof.RSeg_chunk15.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc22 : List (Ref sig .tc) := [main_v443, main_v444, main_v445, main_v446, main_v447, main_c_81, main_v448, main_v449, main_c_82, main_v450, main_v451, main_v452, main_v453, main_v454]

/-- A buffer the piece does not write keeps its contents. -/
theorem keep_pc22 (V : Valuation τ sig (Elt F)) (b : Ref sig .tc) (hb : ∀ y ∈ wr_pc22, b ≠ y) :
    after (pc22 (F := F)) V (Proc.devRef .tc b) = V (Proc.devRef .tc b) :=
  after_of_forall_not_mem (b := Proc.devRef .tc b) _ _ (List.forall_iff_forall_mem.mp (by
    simp only [pc22, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- The buffers the piece writes. -/
abbrev wr_pc23 : List (Ref sig .tc) := [main_cst_83, main_v455, main_v456, main_v457, main_v458, main_v459, main_v460, main_c_84, main_v461, main_v462, main_c_85, main_v463, main_v464, main_v465, main_v466, main_v467, main_cst_86, main_v468, main_v469, main_v470, main_v471, main_v472, main_v473, main_v474, main_v475, main_v476, main_v477]

/-- A buffer the piece does not write keeps its contents. -/
theorem keep_pc23 (V : Valuation τ sig (Elt F)) (b : Ref sig .tc) (hb : ∀ y ∈ wr_pc23, b ≠ y) :
    after (pc23 (F := F)) V (Proc.devRef .tc b) = V (Proc.devRef .tc b) :=
  after_of_forall_not_mem (b := Proc.devRef .tc b) _ _ (List.forall_iff_forall_mem.mp (by
    simp only [pc23, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- A buffer the stretch does not write keeps its contents. -/
theorem keepS_chunk15 (V : Valuation τ sig (Elt F)) (b : Ref sig .tc) (h0 : ∀ y ∈ wr_pc22, b ≠ y) (h1 : ∀ y ∈ wr_pc23, b ≠ y) :
    (after (pc23 (F := F)) (after (pc22 (F := F)) V)) (Proc.devRef .tc b) = V (Proc.devRef .tc b) :=
  ((keep_pc23 _ b h1).trans (keep_pc22 _ b h0))

theorem c_main_v444 (V : Valuation τ sig (Elt F)) :
    (after (pc23 (F := F)) (after (pc22 (F := F)) V)) (Proc.devRef .tc main_v444) = rf29 (V (Proc.devRef .tc main_arg8)) := by
  unfold rf29
  dsimp only [pc22, pc23]
  after_results_simp <;> rfl

theorem c_main_v446 (V : Valuation τ sig (Elt F)) :
    (after (pc23 (F := F)) (after (pc22 (F := F)) V)) (Proc.devRef .tc main_v446) = rf30 (V (Proc.devRef .tc main_arg9)) := by
  unfold rf30
  dsimp only [pc22, pc23]
  after_results_simp <;> rfl

theorem c_main_v447 (V : Valuation τ sig (Elt F)) :
    (after (pc23 (F := F)) (after (pc22 (F := F)) V)) (Proc.devRef .tc main_v447) = rf21 (V (Proc.devRef .tc main_v384)) ((after (pc23 (F := F)) (after (pc22 (F := F)) V)) (Proc.devRef .tc main_v444)) := by
  unfold rf21
  dsimp only [pc22, pc23]
  after_results_simp <;> rfl

theorem c_main_v473 (V : Valuation τ sig (Elt F)) :
    (after (pc23 (F := F)) (after (pc22 (F := F)) V)) (Proc.devRef .tc main_v473) = rf9 (V (Proc.devRef .tc main_v1)) (V (Proc.devRef .tc main_v3)) ((after (pc23 (F := F)) (after (pc22 (F := F)) V)) (Proc.devRef .tc main_v447)) (V (Proc.devRef .tc main_v20)) (V (Proc.devRef .tc main_v15)) := by
  unfold rf9
  dsimp only [pc22, pc23]
  after_results_simp <;> rfl

theorem c_main_v477 (V : Valuation τ sig (Elt F)) :
    (after (pc23 (F := F)) (after (pc22 (F := F)) V)) (Proc.devRef .tc main_v477) = rf18 (V (Proc.devRef .tc main_v442)) ((after (pc23 (F := F)) (after (pc22 (F := F)) V)) (Proc.devRef .tc main_v473)) ((after (pc23 (F := F)) (after (pc22 (F := F)) V)) (Proc.devRef .tc main_v446)) := by
  unfold rf18
  dsimp only [pc22, pc23]
  after_results_simp <;> rfl

end Cert.ReferenceIdeal.Val

end
-- ==== Proof.RSeg_chunk10.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc14 : List (Ref sig .tc) := [main_v292, main_v293, main_v294, main_v295, main_v296, main_c_55, main_v297, main_v298, main_c_56, main_v299, main_v300]

/-- A buffer the piece does not write keeps its contents. -/
theorem keep_pc14 (V : Valuation τ sig (Elt F)) (b : Ref sig .tc) (hb : ∀ y ∈ wr_pc14, b ≠ y) :
    after (pc14 (F := F)) V (Proc.devRef .tc b) = V (Proc.devRef .tc b) :=
  after_of_forall_not_mem (b := Proc.devRef .tc b) _ _ (List.forall_iff_forall_mem.mp (by
    simp only [pc14, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- The buffers the piece writes. -/
abbrev wr_pc15 : List (Ref sig .tc) := [main_v301, main_v302, main_v303, main_cst_57, main_v304, main_v305, main_v306, main_v307, main_v308, main_v309, main_c_58, main_v310, main_v311, main_c_59, main_v312, main_v313, main_v314, main_v315, main_v316, main_cst_60, main_v317, main_v318, main_v319, main_v320, main_v321, main_v322, main_v323, main_v324, main_v325]

/-- A buffer the piece does not write keeps its contents. -/
theorem keep_pc15 (V : Valuation τ sig (Elt F)) (b : Ref sig .tc) (hb : ∀ y ∈ wr_pc15, b ≠ y) :
    after (pc15 (F := F)) V (Proc.devRef .tc b) = V (Proc.devRef .tc b) :=
  after_of_forall_not_mem (b := Proc.devRef .tc b) _ _ (List.forall_iff_forall_mem.mp (by
    simp only [pc15, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- A buffer the stretch does not write keeps its contents. -/
theorem keepS_chunk10 (V : Valuation τ sig (Elt F)) (b : Ref sig .tc) (h0 : ∀ y ∈ wr_pc14, b ≠ y) (h1 : ∀ y ∈ wr_pc15, b ≠ y) :
    (after (pc15 (F := F)) (after (pc14 (F := F)) V)) (Proc.devRef .tc b) = V (Proc.devRef .tc b) :=
  ((keep_pc15 _ b h1).trans (keep_pc14 _ b h0))

theorem c_main_v293 (V : Valuation τ sig (Elt F)) :
    (after (pc15 (F := F)) (after (pc14 (F := F)) V)) (Proc.devRef .tc main_v293) = rf26 (V (Proc.devRef .tc main_arg6)) := by
  unfold rf26
  dsimp only [pc14, pc15]
  after_results_simp <;> rfl

theorem c_main_v295 (V : Valuation τ sig (Elt F)) :
    (after (pc15 (F := F)) (after (pc14 (F := F)) V)) (Proc.devRef .tc main_v295) = rf27 (V (Proc.devRef .tc main_arg7)) := by
  unfold rf27
  dsimp only [pc14, pc15]
  after_results_simp <;> rfl

theorem c_main_v296 (V : Valuation τ sig (Elt F)) :
    (after (pc15 (F := F)) (after (pc14 (F := F)) V)) (Proc.devRef .tc main_v296) = rf21 (V (Proc.devRef .tc main_v291)) ((after (pc15 (F := F)) (after (pc14 (F := F)) V)) (Proc.devRef .tc main_v293)) := by
  unfold rf21
  dsimp only [pc14, pc15]
  after_results_simp <;> rfl

theorem c_main_v322 (V : Valuation τ sig (Elt F)) :
    (after (pc15 (F := F)) (after (pc14 (F := F)) V)) (Proc.devRef .tc main_v322) = rf9 (V (Proc.devRef .tc main_v1)) (V (Proc.devRef .tc main_v3)) ((after (pc15 (F := F)) (after (pc14 (F := F)) V)) (Proc.devRef .tc main_v296)) (V (Proc.devRef .tc main_v20)) (V (Proc.devRef .tc main_v15)) := by
  unfold rf9
  dsimp only [pc14, pc15]
  after_results_simp <;> rfl

theorem c_main_v325 (V : Valuation τ sig (Elt F)) :
    (after (pc15 (F := F)) (after (pc14 (F := F)) V)) (Proc.devRef .tc main_v325) = rf10 ((after (pc15 (F := F)) (after (pc14 (F := F)) V)) (Proc.devRef .tc main_v322)) ((after (pc15 (F := F)) (after (pc14 (F := F)) V)) (Proc.devRef .tc main_v295)) := by
  unfold rf10
  dsimp only [pc14, pc15]
  after_results_simp <;> rfl

end Cert.ReferenceIdeal.Val

end
-- ==== Proof.RSeg_chunk11.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc16 : List (Ref sig .tc) := [main_v326, main_v327, main_v328, main_v329, main_cst_61, main_v330, main_cst_62, main_v331, main_v332, main_c_63, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v333, main_v334, main_v335, main_v336, main_v337, main_v338, main_v339, main_cst_64, main_v340, main_v341, main_v342, main_v343, main_v344, main_v345, main_v346, main_v347, main_v348, main_call9_cst, main_call9_v0, main_v349]

/-- A buffer the piece does not write keeps its contents. -/
theorem keep_pc16 (V : Valuation τ sig (Elt F)) (b : Ref sig .tc) (hb : ∀ y ∈ wr_pc16, b ≠ y) :
    after (pc16 (F := F)) V (Proc.devRef .tc b) = V (Proc.devRef .tc b) :=
  after_of_forall_not_mem (b := Proc.devRef .tc b) _ _ (List.forall_iff_forall_mem.mp (by
    simp only [pc16, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v327 (V : Valuation τ sig (Elt F)) :
    (after (pc16 (F := F)) V) (Proc.devRef .tc main_v327) = rf28 (V (Proc.devRef .tc main_arg10)) := by
  unfold rf28
  dsimp only [pc16]
  after_results_simp <;> rfl

theorem c_main_v329 (V : Valuation τ sig (Elt F)) :
    (after (pc16 (F := F)) V) (Proc.devRef .tc main_v329) = rf28 (V (Proc.devRef .tc main_arg11)) := by
  unfold rf28
  dsimp only [pc16]
  after_results_simp <;> rfl

theorem c_main_v332 (V : Valuation τ sig (Elt F)) :
    (after (pc16 (F := F)) V) (Proc.devRef .tc main_v332) = rf12 (V (Proc.devRef .tc main_v325)) := by
  unfold rf12
  dsimp only [pc16]
  after_results_simp <;> rfl

theorem c_main_call8_v5 (V : Valuation τ sig (Elt F)) :
    (after (pc16 (F := F)) V) (Proc.devRef .tc main_call8_v5) = rf13 (V (Proc.devRef .tc main_v325)) := by
  unfold rf13
  dsimp only [pc16]
  after_results_simp <;> rfl

theorem c_main_call8_v8 (V : Valuation τ sig (Elt F)) :
    (after (pc16 (F := F)) V) (Proc.devRef .tc main_call8_v8) = rf14  := by
  unfold rf14
  dsimp only [pc16]
  after_results_simp <;> rfl

theorem c_main_call8_v11 (V : Valuation τ sig (Elt F)) :
    (after (pc16 (F := F)) V) (Proc.devRef .tc main_call8_v11) = rf15 ((after (pc16 (F := F)) V) (Proc.devRef .tc main_call8_v5)) ((after (pc16 (F := F)) V) (Proc.devRef .tc main_call8_v8)) := by
  unfold rf15
  dsimp only [pc16]
  after_results_simp <;> rfl

theorem c_main_v333 (V : Valuation τ sig (Elt F)) :
    (after (pc16 (F := F)) V) (Proc.devRef .tc main_v333) = rf16 ((after (pc16 (F := F)) V) (Proc.devRef .tc main_call8_v8)) ((after (pc16 (F := F)) V) (Proc.devRef .tc main_call8_v11)) := by
  unfold rf16
  dsimp only [pc16]
  after_results_simp <;> rfl

theorem c_main_v349 (V : Valuation τ sig (Elt F)) :
    (after (pc16 (F := F)) V) (Proc.devRef .tc main_v349) = rf17 ((after (pc16 (F := F)) V) (Proc.devRef .tc main_v327)) (V (Proc.devRef .tc main_v325)) ((after (pc16 (F := F)) V) (Proc.devRef .tc main_v332)) ((after (pc16 (F := F)) V) (Proc.devRef .tc main_v333)) ((after (pc16 (F := F)) V) (Proc.devRef .tc main_v329)) := by
  unfold rf17
  dsimp only [pc16]
  after_results_simp <;> rfl

end Cert.ReferenceIdeal.Val

end
-- ==== Proof.RSeg_chunk12.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc17 : List (Ref sig .tc) := [main_v350, main_v351, main_v352]

/-- A buffer the piece does not write keeps its contents. -/
theorem keep_pc17 (V : Valuation τ sig (Elt F)) (b : Ref sig .tc) (hb : ∀ y ∈ wr_pc17, b ≠ y) :
    after (pc17 (F := F)) V (Proc.devRef .tc b) = V (Proc.devRef .tc b) :=
  after_of_forall_not_mem (b := Proc.devRef .tc b) _ _ (List.forall_iff_forall_mem.mp (by
    simp only [pc17, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- The buffers the piece writes. -/
abbrev wr_pc18 : List (Ref sig .tc) := [main_v353, main_v354, main_c_65, main_v355, main_v356, main_c_66, main_v357, main_v358, main_v359, main_v360, main_v361, main_cst_67, main_v362, main_v363, main_v364, main_v365, main_v366, main_v367, main_c_68, main_v368, main_v369, main_c_69, main_v370, main_v371, main_v372, main_v373, main_v374, main_cst_70, main_v375, main_v376, main_v377, main_v378, main_v379, main_v380, main_v381, main_v382, main_v383, main_v384]

/-- A buffer the piece does not write keeps its contents. -/
theorem keep_pc18 (V : Valuation τ sig (Elt F)) (b : Ref sig .tc) (hb : ∀ y ∈ wr_pc18, b ≠ y) :
    after (pc18 (F := F)) V (Proc.devRef .tc b) = V (Proc.devRef .tc b) :=
  after_of_forall_not_mem (b := Proc.devRef .tc b) _ _ (List.forall_iff_forall_mem.mp (by
    simp only [pc18, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- A buffer the stretch does not write keeps its contents. -/
theorem keepS_chunk12 (V : Valuation τ sig (Elt F)) (b : Ref sig .tc) (h0 : ∀ y ∈ wr_pc17, b ≠ y) (h1 : ∀ y ∈ wr_pc18, b ≠ y) :
    (after (pc18 (F := F)) (after (pc17 (F := F)) V)) (Proc.devRef .tc b) = V (Proc.devRef .tc b) :=
  ((keep_pc18 _ b h1).trans (keep_pc17 _ b h0))

theorem c_main_v351 (V : Valuation τ sig (Elt F)) :
    (after (pc18 (F := F)) (after (pc17 (F := F)) V)) (Proc.devRef .tc main_v351) = rf26 (V (Proc.devRef .tc main_arg8)) := by
  unfold rf26
  dsimp only [pc17, pc18]
  after_results_simp <;> rfl

theorem c_main_v353 (V : Valuation τ sig (Elt F)) :
    (after (pc18 (F := F)) (after (pc17 (F := F)) V)) (Proc.devRef .tc main_v353) = rf27 (V (Proc.devRef .tc main_arg9)) := by
  unfold rf27
  dsimp only [pc17, pc18]
  after_results_simp <;> rfl

theorem c_main_v354 (V : Valuation τ sig (Elt F)) :
    (after (pc18 (F := F)) (after (pc17 (F := F)) V)) (Proc.devRef .tc main_v354) = rf21 (V (Proc.devRef .tc main_v291)) ((after (pc18 (F := F)) (after (pc17 (F := F)) V)) (Proc.devRef .tc main_v351)) := by
  unfold rf21
  dsimp only [pc17, pc18]
  after_results_simp <;> rfl

theorem c_main_v380 (V : Valuation τ sig (Elt F)) :
    (after (pc18 (F := F)) (after (pc17 (F := F)) V)) (Proc.devRef .tc main_v380) = rf9 (V (Proc.devRef .tc main_v1)) (V (Proc.devRef .tc main_v3)) ((after (pc18 (F := F)) (after (pc17 (F := F)) V)) (Proc.devRef .tc main_v354)) (V (Proc.devRef .tc main_v20)) (V (Proc.devRef .tc main_v15)) := by
  unfold rf9
  dsimp only [pc17, pc18]
  after_results_simp <;> rfl

theorem c_main_v384 (V : Valuation τ sig (Elt F)) :
    (after (pc18 (F := F)) (after (pc17 (F := F)) V)) (Proc.devRef .tc main_v384) = rf18 (V (Proc.devRef .tc main_v349)) ((after (pc18 (F := F)) (after (pc17 (F := F)) V)) (Proc.devRef .tc main_v380)) ((after (pc18 (F := F)) (after (pc17 (F := F)) V)) (Proc.devRef .tc main_v353)) := by
  unfold rf18
  dsimp only [pc17, pc18]
  after_results_simp <;> rfl

end Cert.ReferenceIdeal.Val

end
-- ==== Proof.RSeg_chunk7.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc10 : List (Ref sig .tc) := [main_v199, main_v200, main_v201, main_v202, main_v203, main_c_39, main_v204, main_v205, main_c_40, main_v206, main_v207, main_v208, main_v209, main_v210, main_cst_41, main_v211, main_v212, main_v213, main_v214, main_v215, main_v216, main_c_42, main_v217, main_v218, main_c_43, main_v219, main_v220, main_v221, main_v222, main_v223, main_cst_44, main_v224, main_v225, main_v226, main_v227, main_v228, main_v229, main_v230, main_v231, main_v232]

/-- A buffer the piece does not write keeps its contents. -/
theorem keep_pc10 (V : Valuation τ sig (Elt F)) (b : Ref sig .tc) (hb : ∀ y ∈ wr_pc10, b ≠ y) :
    after (pc10 (F := F)) V (Proc.devRef .tc b) = V (Proc.devRef .tc b) :=
  after_of_forall_not_mem (b := Proc.devRef .tc b) _ _ (List.forall_iff_forall_mem.mp (by
    simp only [pc10, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v200 (V : Valuation τ sig (Elt F)) :
    (after (pc10 (F := F)) V) (Proc.devRef .tc main_v200) = rf23 (V (Proc.devRef .tc main_arg6)) := by
  unfold rf23
  dsimp only [pc10]
  after_results_simp <;> rfl

theorem c_main_v202 (V : Valuation τ sig (Elt F)) :
    (after (pc10 (F := F)) V) (Proc.devRef .tc main_v202) = rf24 (V (Proc.devRef .tc main_arg7)) := by
  unfold rf24
  dsimp only [pc10]
  after_results_simp <;> rfl

theorem c_main_v203 (V : Valuation τ sig (Elt F)) :
    (after (pc10 (F := F)) V) (Proc.devRef .tc main_v203) = rf21 (V (Proc.devRef .tc main_v198)) ((after (pc10 (F := F)) V) (Proc.devRef .tc main_v200)) := by
  unfold rf21
  dsimp only [pc10]
  after_results_simp <;> rfl

theorem c_main_v229 (V : Valuation τ sig (Elt F)) :
    (after (pc10 (F := F)) V) (Proc.devRef .tc main_v229) = rf9 (V (Proc.devRef .tc main_v1)) (V (Proc.devRef .tc main_v3)) ((after (pc10 (F := F)) V) (Proc.devRef .tc main_v203)) (V (Proc.devRef .tc main_v20)) (V (Proc.devRef .tc main_v15)) := by
  unfold rf9
  dsimp only [pc10]
  after_results_simp <;> rfl

theorem c_main_v232 (V : Valuation τ sig (Elt F)) :
    (after (pc10 (F := F)) V) (Proc.devRef .tc main_v232) = rf10 ((after (pc10 (F := F)) V) (Proc.devRef .tc main_v229)) ((after (pc10 (F := F)) V) (Proc.devRef .tc main_v202)) := by
  unfold rf10
  dsimp only [pc10]
  after_results_simp <;> rfl

end Cert.ReferenceIdeal.Val

end
-- ==== Proof.RSeg_chunk8.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc11 : List (Ref sig .tc) := [main_v233, main_v234, main_v235, main_v236, main_cst_45, main_v237, main_cst_46, main_v238, main_v239, main_c_47, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v240, main_v241, main_v242, main_v243, main_v244, main_v245, main_v246, main_cst_48, main_v247, main_v248]

/-- A buffer the piece does not write keeps its contents. -/
theorem keep_pc11 (V : Valuation τ sig (Elt F)) (b : Ref sig .tc) (hb : ∀ y ∈ wr_pc11, b ≠ y) :
    after (pc11 (F := F)) V (Proc.devRef .tc b) = V (Proc.devRef .tc b) :=
  after_of_forall_not_mem (b := Proc.devRef .tc b) _ _ (List.forall_iff_forall_mem.mp (by
    simp only [pc11, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- The buffers the piece writes. -/
abbrev wr_pc12 : List (Ref sig .tc) := [main_v249, main_v250, main_v251, main_v252, main_v253, main_v254, main_v255, main_call7_cst, main_call7_v0, main_v256]

/-- A buffer the piece does not write keeps its contents. -/
theorem keep_pc12 (V : Valuation τ sig (Elt F)) (b : Ref sig .tc) (hb : ∀ y ∈ wr_pc12, b ≠ y) :
    after (pc12 (F := F)) V (Proc.devRef .tc b) = V (Proc.devRef .tc b) :=
  after_of_forall_not_mem (b := Proc.devRef .tc b) _ _ (List.forall_iff_forall_mem.mp (by
    simp only [pc12, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- A buffer the stretch does not write keeps its contents. -/
theorem keepS_chunk8 (V : Valuation τ sig (Elt F)) (b : Ref sig .tc) (h0 : ∀ y ∈ wr_pc11, b ≠ y) (h1 : ∀ y ∈ wr_pc12, b ≠ y) :
    (after (pc12 (F := F)) (after (pc11 (F := F)) V)) (Proc.devRef .tc b) = V (Proc.devRef .tc b) :=
  ((keep_pc12 _ b h1).trans (keep_pc11 _ b h0))

theorem c_main_v234 (V : Valuation τ sig (Elt F)) :
    (after (pc12 (F := F)) (after (pc11 (F := F)) V)) (Proc.devRef .tc main_v234) = rf25 (V (Proc.devRef .tc main_arg10)) := by
  unfold rf25
  dsimp only [pc11, pc12]
  after_results_simp <;> rfl

theorem c_main_v236 (V : Valuation τ sig (Elt F)) :
    (after (pc12 (F := F)) (after (pc11 (F := F)) V)) (Proc.devRef .tc main_v236) = rf25 (V (Proc.devRef .tc main_arg11)) := by
  unfold rf25
  dsimp only [pc11, pc12]
  after_results_simp <;> rfl

theorem c_main_v239 (V : Valuation τ sig (Elt F)) :
    (after (pc12 (F := F)) (after (pc11 (F := F)) V)) (Proc.devRef .tc main_v239) = rf12 (V (Proc.devRef .tc main_v232)) := by
  unfold rf12
  dsimp only [pc11, pc12]
  after_results_simp <;> rfl

theorem c_main_call6_v5 (V : Valuation τ sig (Elt F)) :
    (after (pc12 (F := F)) (after (pc11 (F := F)) V)) (Proc.devRef .tc main_call6_v5) = rf13 (V (Proc.devRef .tc main_v232)) := by
  unfold rf13
  dsimp only [pc11, pc12]
  after_results_simp <;> rfl

theorem c_main_call6_v8 (V : Valuation τ sig (Elt F)) :
    (after (pc12 (F := F)) (after (pc11 (F := F)) V)) (Proc.devRef .tc main_call6_v8) = rf14  := by
  unfold rf14
  dsimp only [pc11, pc12]
  after_results_simp <;> rfl

theorem c_main_call6_v11 (V : Valuation τ sig (Elt F)) :
    (after (pc12 (F := F)) (after (pc11 (F := F)) V)) (Proc.devRef .tc main_call6_v11) = rf15 ((after (pc12 (F := F)) (after (pc11 (F := F)) V)) (Proc.devRef .tc main_call6_v5)) ((after (pc12 (F := F)) (after (pc11 (F := F)) V)) (Proc.devRef .tc main_call6_v8)) := by
  unfold rf15
  dsimp only [pc11, pc12]
  after_results_simp <;> rfl

theorem c_main_v240 (V : Valuation τ sig (Elt F)) :
    (after (pc12 (F := F)) (after (pc11 (F := F)) V)) (Proc.devRef .tc main_v240) = rf16 ((after (pc12 (F := F)) (after (pc11 (F := F)) V)) (Proc.devRef .tc main_call6_v8)) ((after (pc12 (F := F)) (after (pc11 (F := F)) V)) (Proc.devRef .tc main_call6_v11)) := by
  unfold rf16
  dsimp only [pc11, pc12]
  after_results_simp <;> rfl

theorem c_main_v256 (V : Valuation τ sig (Elt F)) :
    (after (pc12 (F := F)) (after (pc11 (F := F)) V)) (Proc.devRef .tc main_v256) = rf17 ((after (pc12 (F := F)) (after (pc11 (F := F)) V)) (Proc.devRef .tc main_v234)) (V (Proc.devRef .tc main_v232)) ((after (pc12 (F := F)) (after (pc11 (F := F)) V)) (Proc.devRef .tc main_v239)) ((after (pc12 (F := F)) (after (pc11 (F := F)) V)) (Proc.devRef .tc main_v240)) ((after (pc12 (F := F)) (after (pc11 (F := F)) V)) (Proc.devRef .tc main_v236)) := by
  unfold rf17
  dsimp only [pc11, pc12]
  after_results_simp <;> rfl

end Cert.ReferenceIdeal.Val

end
-- ==== Proof.RSeg_chunk9.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc13 : List (Ref sig .tc) := [main_v257, main_v258, main_v259, main_v260, main_v261, main_c_49, main_v262, main_v263, main_c_50, main_v264, main_v265, main_v266, main_v267, main_v268, main_cst_51, main_v269, main_v270, main_v271, main_v272, main_v273, main_v274, main_c_52, main_v275, main_v276, main_c_53, main_v277, main_v278, main_v279, main_v280, main_v281, main_cst_54, main_v282, main_v283, main_v284, main_v285, main_v286, main_v287, main_v288, main_v289, main_v290, main_v291]

/-- A buffer the piece does not write keeps its contents. -/
theorem keep_pc13 (V : Valuation τ sig (Elt F)) (b : Ref sig .tc) (hb : ∀ y ∈ wr_pc13, b ≠ y) :
    after (pc13 (F := F)) V (Proc.devRef .tc b) = V (Proc.devRef .tc b) :=
  after_of_forall_not_mem (b := Proc.devRef .tc b) _ _ (List.forall_iff_forall_mem.mp (by
    simp only [pc13, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v258 (V : Valuation τ sig (Elt F)) :
    (after (pc13 (F := F)) V) (Proc.devRef .tc main_v258) = rf23 (V (Proc.devRef .tc main_arg8)) := by
  unfold rf23
  dsimp only [pc13]
  after_results_simp <;> rfl

theorem c_main_v260 (V : Valuation τ sig (Elt F)) :
    (after (pc13 (F := F)) V) (Proc.devRef .tc main_v260) = rf24 (V (Proc.devRef .tc main_arg9)) := by
  unfold rf24
  dsimp only [pc13]
  after_results_simp <;> rfl

theorem c_main_v261 (V : Valuation τ sig (Elt F)) :
    (after (pc13 (F := F)) V) (Proc.devRef .tc main_v261) = rf21 (V (Proc.devRef .tc main_v198)) ((after (pc13 (F := F)) V) (Proc.devRef .tc main_v258)) := by
  unfold rf21
  dsimp only [pc13]
  after_results_simp <;> rfl

theorem c_main_v287 (V : Valuation τ sig (Elt F)) :
    (after (pc13 (F := F)) V) (Proc.devRef .tc main_v287) = rf9 (V (Proc.devRef .tc main_v1)) (V (Proc.devRef .tc main_v3)) ((after (pc13 (F := F)) V) (Proc.devRef .tc main_v261)) (V (Proc.devRef .tc main_v20)) (V (Proc.devRef .tc main_v15)) := by
  unfold rf9
  dsimp only [pc13]
  after_results_simp <;> rfl

theorem c_main_v291 (V : Valuation τ sig (Elt F)) :
    (after (pc13 (F := F)) V) (Proc.devRef .tc main_v291) = rf18 (V (Proc.devRef .tc main_v256)) ((after (pc13 (F := F)) V) (Proc.devRef .tc main_v287)) ((after (pc13 (F := F)) V) (Proc.devRef .tc main_v260)) := by
  unfold rf18
  dsimp only [pc13]
  after_results_simp <;> rfl

end Cert.ReferenceIdeal.Val

end
-- ==== Proof.RSeg_chunk4.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc6 : List (Ref sig .tc) := [main_v106, main_v107, main_v108, main_v109, main_v110, main_c_23, main_v111, main_v112, main_c_24, main_v113, main_v114, main_v115, main_v116, main_v117, main_cst_25, main_v118, main_v119, main_v120, main_v121, main_v122, main_v123, main_c_26, main_v124, main_v125, main_c_27, main_v126, main_v127, main_v128, main_v129, main_v130, main_cst_28, main_v131, main_v132, main_v133, main_v134, main_v135, main_v136, main_v137, main_v138, main_v139]

/-- A buffer the piece does not write keeps its contents. -/
theorem keep_pc6 (V : Valuation τ sig (Elt F)) (b : Ref sig .tc) (hb : ∀ y ∈ wr_pc6, b ≠ y) :
    after (pc6 (F := F)) V (Proc.devRef .tc b) = V (Proc.devRef .tc b) :=
  after_of_forall_not_mem (b := Proc.devRef .tc b) _ _ (List.forall_iff_forall_mem.mp (by
    simp only [pc6, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v107 (V : Valuation τ sig (Elt F)) :
    (after (pc6 (F := F)) V) (Proc.devRef .tc main_v107) = rf19 (V (Proc.devRef .tc main_arg6)) := by
  unfold rf19
  dsimp only [pc6]
  after_results_simp <;> rfl

theorem c_main_v109 (V : Valuation τ sig (Elt F)) :
    (after (pc6 (F := F)) V) (Proc.devRef .tc main_v109) = rf20 (V (Proc.devRef .tc main_arg7)) := by
  unfold rf20
  dsimp only [pc6]
  after_results_simp <;> rfl

theorem c_main_v110 (V : Valuation τ sig (Elt F)) :
    (after (pc6 (F := F)) V) (Proc.devRef .tc main_v110) = rf21 (V (Proc.devRef .tc main_v105)) ((after (pc6 (F := F)) V) (Proc.devRef .tc main_v107)) := by
  unfold rf21
  dsimp only [pc6]
  after_results_simp <;> rfl

theorem c_main_v136 (V : Valuation τ sig (Elt F)) :
    (after (pc6 (F := F)) V) (Proc.devRef .tc main_v136) = rf9 (V (Proc.devRef .tc main_v1)) (V (Proc.devRef .tc main_v3)) ((after (pc6 (F := F)) V) (Proc.devRef .tc main_v110)) (V (Proc.devRef .tc main_v20)) (V (Proc.devRef .tc main_v15)) := by
  unfold rf9
  dsimp only [pc6]
  after_results_simp <;> rfl

theorem c_main_v139 (V : Valuation τ sig (Elt F)) :
    (after (pc6 (F := F)) V) (Proc.devRef .tc main_v139) = rf10 ((after (pc6 (F := F)) V) (Proc.devRef .tc main_v136)) ((after (pc6 (F := F)) V) (Proc.devRef .tc main_v109)) := by
  unfold rf10
  dsimp only [pc6]
  after_results_simp <;> rfl

end Cert.ReferenceIdeal.Val

end
-- ==== Proof.RSeg_chunk5.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc7 : List (Ref sig .tc) := [main_v140, main_v141, main_v142, main_v143, main_cst_29, main_v144, main_cst_30, main_v145, main_v146]

/-- A buffer the piece does not write keeps its contents. -/
theorem keep_pc7 (V : Valuation τ sig (Elt F)) (b : Ref sig .tc) (hb : ∀ y ∈ wr_pc7, b ≠ y) :
    after (pc7 (F := F)) V (Proc.devRef .tc b) = V (Proc.devRef .tc b) :=
  after_of_forall_not_mem (b := Proc.devRef .tc b) _ _ (List.forall_iff_forall_mem.mp (by
    simp only [pc7, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- The buffers the piece writes. -/
abbrev wr_pc8 : List (Ref sig .tc) := [main_c_31, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v147, main_v148, main_v149, main_v150, main_v151, main_v152, main_v153, main_cst_32, main_v154, main_v155, main_v156, main_v157, main_v158, main_v159, main_v160, main_v161, main_v162, main_call5_cst, main_call5_v0, main_v163]

/-- A buffer the piece does not write keeps its contents. -/
theorem keep_pc8 (V : Valuation τ sig (Elt F)) (b : Ref sig .tc) (hb : ∀ y ∈ wr_pc8, b ≠ y) :
    after (pc8 (F := F)) V (Proc.devRef .tc b) = V (Proc.devRef .tc b) :=
  after_of_forall_not_mem (b := Proc.devRef .tc b) _ _ (List.forall_iff_forall_mem.mp (by
    simp only [pc8, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- A buffer the stretch does not write keeps its contents. -/
theorem keepS_chunk5 (V : Valuation τ sig (Elt F)) (b : Ref sig .tc) (h0 : ∀ y ∈ wr_pc7, b ≠ y) (h1 : ∀ y ∈ wr_pc8, b ≠ y) :
    (after (pc8 (F := F)) (after (pc7 (F := F)) V)) (Proc.devRef .tc b) = V (Proc.devRef .tc b) :=
  ((keep_pc8 _ b h1).trans (keep_pc7 _ b h0))

theorem c_main_v141 (V : Valuation τ sig (Elt F)) :
    (after (pc8 (F := F)) (after (pc7 (F := F)) V)) (Proc.devRef .tc main_v141) = rf22 (V (Proc.devRef .tc main_arg10)) := by
  unfold rf22
  dsimp only [pc7, pc8]
  after_results_simp <;> rfl

theorem c_main_v143 (V : Valuation τ sig (Elt F)) :
    (after (pc8 (F := F)) (after (pc7 (F := F)) V)) (Proc.devRef .tc main_v143) = rf22 (V (Proc.devRef .tc main_arg11)) := by
  unfold rf22
  dsimp only [pc7, pc8]
  after_results_simp <;> rfl

theorem c_main_v146 (V : Valuation τ sig (Elt F)) :
    (after (pc8 (F := F)) (after (pc7 (F := F)) V)) (Proc.devRef .tc main_v146) = rf12 (V (Proc.devRef .tc main_v139)) := by
  unfold rf12
  dsimp only [pc7, pc8]
  after_results_simp <;> rfl

theorem c_main_call4_v5 (V : Valuation τ sig (Elt F)) :
    (after (pc8 (F := F)) (after (pc7 (F := F)) V)) (Proc.devRef .tc main_call4_v5) = rf13 (V (Proc.devRef .tc main_v139)) := by
  unfold rf13
  dsimp only [pc7, pc8]
  after_results_simp <;> rfl

theorem c_main_call4_v8 (V : Valuation τ sig (Elt F)) :
    (after (pc8 (F := F)) (after (pc7 (F := F)) V)) (Proc.devRef .tc main_call4_v8) = rf14  := by
  unfold rf14
  dsimp only [pc7, pc8]
  after_results_simp <;> rfl

theorem c_main_call4_v11 (V : Valuation τ sig (Elt F)) :
    (after (pc8 (F := F)) (after (pc7 (F := F)) V)) (Proc.devRef .tc main_call4_v11) = rf15 ((after (pc8 (F := F)) (after (pc7 (F := F)) V)) (Proc.devRef .tc main_call4_v5)) ((after (pc8 (F := F)) (after (pc7 (F := F)) V)) (Proc.devRef .tc main_call4_v8)) := by
  unfold rf15
  dsimp only [pc7, pc8]
  after_results_simp <;> rfl

theorem c_main_v147 (V : Valuation τ sig (Elt F)) :
    (after (pc8 (F := F)) (after (pc7 (F := F)) V)) (Proc.devRef .tc main_v147) = rf16 ((after (pc8 (F := F)) (after (pc7 (F := F)) V)) (Proc.devRef .tc main_call4_v8)) ((after (pc8 (F := F)) (after (pc7 (F := F)) V)) (Proc.devRef .tc main_call4_v11)) := by
  unfold rf16
  dsimp only [pc7, pc8]
  after_results_simp <;> rfl

theorem c_main_v163 (V : Valuation τ sig (Elt F)) :
    (after (pc8 (F := F)) (after (pc7 (F := F)) V)) (Proc.devRef .tc main_v163) = rf17 ((after (pc8 (F := F)) (after (pc7 (F := F)) V)) (Proc.devRef .tc main_v141)) (V (Proc.devRef .tc main_v139)) ((after (pc8 (F := F)) (after (pc7 (F := F)) V)) (Proc.devRef .tc main_v146)) ((after (pc8 (F := F)) (after (pc7 (F := F)) V)) (Proc.devRef .tc main_v147)) ((after (pc8 (F := F)) (after (pc7 (F := F)) V)) (Proc.devRef .tc main_v143)) := by
  unfold rf17
  dsimp only [pc7, pc8]
  after_results_simp <;> rfl

end Cert.ReferenceIdeal.Val

end
-- ==== Proof.RSeg_chunk6.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc9 : List (Ref sig .tc) := [main_v164, main_v165, main_v166, main_v167, main_v168, main_c_33, main_v169, main_v170, main_c_34, main_v171, main_v172, main_v173, main_v174, main_v175, main_cst_35, main_v176, main_v177, main_v178, main_v179, main_v180, main_v181, main_c_36, main_v182, main_v183, main_c_37, main_v184, main_v185, main_v186, main_v187, main_v188, main_cst_38, main_v189, main_v190, main_v191, main_v192, main_v193, main_v194, main_v195, main_v196, main_v197, main_v198]

/-- A buffer the piece does not write keeps its contents. -/
theorem keep_pc9 (V : Valuation τ sig (Elt F)) (b : Ref sig .tc) (hb : ∀ y ∈ wr_pc9, b ≠ y) :
    after (pc9 (F := F)) V (Proc.devRef .tc b) = V (Proc.devRef .tc b) :=
  after_of_forall_not_mem (b := Proc.devRef .tc b) _ _ (List.forall_iff_forall_mem.mp (by
    simp only [pc9, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v165 (V : Valuation τ sig (Elt F)) :
    (after (pc9 (F := F)) V) (Proc.devRef .tc main_v165) = rf19 (V (Proc.devRef .tc main_arg8)) := by
  unfold rf19
  dsimp only [pc9]
  after_results_simp <;> rfl

theorem c_main_v167 (V : Valuation τ sig (Elt F)) :
    (after (pc9 (F := F)) V) (Proc.devRef .tc main_v167) = rf20 (V (Proc.devRef .tc main_arg9)) := by
  unfold rf20
  dsimp only [pc9]
  after_results_simp <;> rfl

theorem c_main_v168 (V : Valuation τ sig (Elt F)) :
    (after (pc9 (F := F)) V) (Proc.devRef .tc main_v168) = rf21 (V (Proc.devRef .tc main_v105)) ((after (pc9 (F := F)) V) (Proc.devRef .tc main_v165)) := by
  unfold rf21
  dsimp only [pc9]
  after_results_simp <;> rfl

theorem c_main_v194 (V : Valuation τ sig (Elt F)) :
    (after (pc9 (F := F)) V) (Proc.devRef .tc main_v194) = rf9 (V (Proc.devRef .tc main_v1)) (V (Proc.devRef .tc main_v3)) ((after (pc9 (F := F)) V) (Proc.devRef .tc main_v168)) (V (Proc.devRef .tc main_v20)) (V (Proc.devRef .tc main_v15)) := by
  unfold rf9
  dsimp only [pc9]
  after_results_simp <;> rfl

theorem c_main_v198 (V : Valuation τ sig (Elt F)) :
    (after (pc9 (F := F)) V) (Proc.devRef .tc main_v198) = rf18 (V (Proc.devRef .tc main_v163)) ((after (pc9 (F := F)) V) (Proc.devRef .tc main_v194)) ((after (pc9 (F := F)) V) (Proc.devRef .tc main_v167)) := by
  unfold rf18
  dsimp only [pc9]
  after_results_simp <;> rfl

end Cert.ReferenceIdeal.Val

end
-- ==== Proof.RSeg_chunk1.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc1 : List (Ref sig .tc) := [main_v21, main_c, main_v22, main_v23, main_c_8, main_v24, main_v25, main_v26, main_v27, main_v28, main_cst_9, main_v29, main_v30, main_v31, main_v32, main_v33, main_v34, main_c_10, main_v35, main_v36, main_c_11, main_v37, main_v38, main_v39, main_v40, main_v41, main_cst_12, main_v42, main_v43, main_v44]

/-- A buffer the piece does not write keeps its contents. -/
theorem keep_pc1 (V : Valuation τ sig (Elt F)) (b : Ref sig .tc) (hb : ∀ y ∈ wr_pc1, b ≠ y) :
    after (pc1 (F := F)) V (Proc.devRef .tc b) = V (Proc.devRef .tc b) :=
  after_of_forall_not_mem (b := Proc.devRef .tc b) _ _ (List.forall_iff_forall_mem.mp (by
    simp only [pc1, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- The buffers the piece writes. -/
abbrev wr_pc2 : List (Ref sig .tc) := [main_v45, main_v46, main_v47, main_v48, main_v49, main_v50]

/-- A buffer the piece does not write keeps its contents. -/
theorem keep_pc2 (V : Valuation τ sig (Elt F)) (b : Ref sig .tc) (hb : ∀ y ∈ wr_pc2, b ≠ y) :
    after (pc2 (F := F)) V (Proc.devRef .tc b) = V (Proc.devRef .tc b) :=
  after_of_forall_not_mem (b := Proc.devRef .tc b) _ _ (List.forall_iff_forall_mem.mp (by
    simp only [pc2, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- A buffer the stretch does not write keeps its contents. -/
theorem keepS_chunk1 (V : Valuation τ sig (Elt F)) (b : Ref sig .tc) (h0 : ∀ y ∈ wr_pc1, b ≠ y) (h1 : ∀ y ∈ wr_pc2, b ≠ y) :
    (after (pc2 (F := F)) (after (pc1 (F := F)) V)) (Proc.devRef .tc b) = V (Proc.devRef .tc b) :=
  ((keep_pc2 _ b h1).trans (keep_pc1 _ b h0))

theorem c_main_v21 (V : Valuation τ sig (Elt F)) :
    (after (pc2 (F := F)) (after (pc1 (F := F)) V)) (Proc.devRef .tc main_v21) = rf8 (V (Proc.devRef .tc main_arg0)) (V (Proc.devRef .tc main_arg2)) := by
  unfold rf8
  dsimp only [pc1, pc2]
  after_results_simp <;> rfl

theorem c_main_v47 (V : Valuation τ sig (Elt F)) :
    (after (pc2 (F := F)) (after (pc1 (F := F)) V)) (Proc.devRef .tc main_v47) = rf9 (V (Proc.devRef .tc main_v1)) (V (Proc.devRef .tc main_v3)) ((after (pc2 (F := F)) (after (pc1 (F := F)) V)) (Proc.devRef .tc main_v21)) (V (Proc.devRef .tc main_v20)) (V (Proc.devRef .tc main_v15)) := by
  unfold rf9
  dsimp only [pc1, pc2]
  after_results_simp <;> rfl

theorem c_main_v50 (V : Valuation τ sig (Elt F)) :
    (after (pc2 (F := F)) (after (pc1 (F := F)) V)) (Proc.devRef .tc main_v50) = rf10 ((after (pc2 (F := F)) (after (pc1 (F := F)) V)) (Proc.devRef .tc main_v47)) (V (Proc.devRef .tc main_arg3)) := by
  unfold rf10
  dsimp only [pc1, pc2]
  after_results_simp <;> rfl

end Cert.ReferenceIdeal.Val

end
-- ==== Proof.RSeg_chunk2.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc3 : List (Ref sig .tc) := [main_v51, main_v52, main_v53, main_v54, main_cst_13, main_v55, main_cst_14, main_v56, main_v57, main_c_15, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v58, main_v59, main_v60, main_v61, main_v62, main_v63, main_v64, main_cst_16, main_v65, main_v66, main_v67, main_v68, main_v69, main_v70, main_v71, main_v72, main_v73, main_call3_cst, main_call3_v0, main_v74]

/-- A buffer the piece does not write keeps its contents. -/
theorem keep_pc3 (V : Valuation τ sig (Elt F)) (b : Ref sig .tc) (hb : ∀ y ∈ wr_pc3, b ≠ y) :
    after (pc3 (F := F)) V (Proc.devRef .tc b) = V (Proc.devRef .tc b) :=
  after_of_forall_not_mem (b := Proc.devRef .tc b) _ _ (List.forall_iff_forall_mem.mp (by
    simp only [pc3, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v52 (V : Valuation τ sig (Elt F)) :
    (after (pc3 (F := F)) V) (Proc.devRef .tc main_v52) = rf11 (V (Proc.devRef .tc main_arg10)) := by
  unfold rf11
  dsimp only [pc3]
  after_results_simp <;> rfl

theorem c_main_v54 (V : Valuation τ sig (Elt F)) :
    (after (pc3 (F := F)) V) (Proc.devRef .tc main_v54) = rf11 (V (Proc.devRef .tc main_arg11)) := by
  unfold rf11
  dsimp only [pc3]
  after_results_simp <;> rfl

theorem c_main_v57 (V : Valuation τ sig (Elt F)) :
    (after (pc3 (F := F)) V) (Proc.devRef .tc main_v57) = rf12 (V (Proc.devRef .tc main_v50)) := by
  unfold rf12
  dsimp only [pc3]
  after_results_simp <;> rfl

theorem c_main_call2_v5 (V : Valuation τ sig (Elt F)) :
    (after (pc3 (F := F)) V) (Proc.devRef .tc main_call2_v5) = rf13 (V (Proc.devRef .tc main_v50)) := by
  unfold rf13
  dsimp only [pc3]
  after_results_simp <;> rfl

theorem c_main_call2_v8 (V : Valuation τ sig (Elt F)) :
    (after (pc3 (F := F)) V) (Proc.devRef .tc main_call2_v8) = rf14  := by
  unfold rf14
  dsimp only [pc3]
  after_results_simp <;> rfl

theorem c_main_call2_v11 (V : Valuation τ sig (Elt F)) :
    (after (pc3 (F := F)) V) (Proc.devRef .tc main_call2_v11) = rf15 ((after (pc3 (F := F)) V) (Proc.devRef .tc main_call2_v5)) ((after (pc3 (F := F)) V) (Proc.devRef .tc main_call2_v8)) := by
  unfold rf15
  dsimp only [pc3]
  after_results_simp <;> rfl

theorem c_main_v58 (V : Valuation τ sig (Elt F)) :
    (after (pc3 (F := F)) V) (Proc.devRef .tc main_v58) = rf16 ((after (pc3 (F := F)) V) (Proc.devRef .tc main_call2_v8)) ((after (pc3 (F := F)) V) (Proc.devRef .tc main_call2_v11)) := by
  unfold rf16
  dsimp only [pc3]
  after_results_simp <;> rfl

theorem c_main_v74 (V : Valuation τ sig (Elt F)) :
    (after (pc3 (F := F)) V) (Proc.devRef .tc main_v74) = rf17 ((after (pc3 (F := F)) V) (Proc.devRef .tc main_v52)) (V (Proc.devRef .tc main_v50)) ((after (pc3 (F := F)) V) (Proc.devRef .tc main_v57)) ((after (pc3 (F := F)) V) (Proc.devRef .tc main_v58)) ((after (pc3 (F := F)) V) (Proc.devRef .tc main_v54)) := by
  unfold rf17
  dsimp only [pc3]
  after_results_simp <;> rfl

end Cert.ReferenceIdeal.Val

end
-- ==== Proof.RSeg_chunk3.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc4 : List (Ref sig .tc) := [main_v75, main_c_17, main_v76, main_v77, main_c_18, main_v78, main_v79, main_v80, main_v81, main_v82, main_cst_19, main_v83, main_v84, main_v85, main_v86, main_v87, main_v88, main_c_20, main_v89, main_v90, main_c_21, main_v91, main_v92, main_v93, main_v94, main_v95]

/-- A buffer the piece does not write keeps its contents. -/
theorem keep_pc4 (V : Valuation τ sig (Elt F)) (b : Ref sig .tc) (hb : ∀ y ∈ wr_pc4, b ≠ y) :
    after (pc4 (F := F)) V (Proc.devRef .tc b) = V (Proc.devRef .tc b) :=
  after_of_forall_not_mem (b := Proc.devRef .tc b) _ _ (List.forall_iff_forall_mem.mp (by
    simp only [pc4, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- The buffers the piece writes. -/
abbrev wr_pc5 : List (Ref sig .tc) := [main_cst_22, main_v96, main_v97, main_v98, main_v99, main_v100, main_v101, main_v102, main_v103, main_v104, main_v105]

/-- A buffer the piece does not write keeps its contents. -/
theorem keep_pc5 (V : Valuation τ sig (Elt F)) (b : Ref sig .tc) (hb : ∀ y ∈ wr_pc5, b ≠ y) :
    after (pc5 (F := F)) V (Proc.devRef .tc b) = V (Proc.devRef .tc b) :=
  after_of_forall_not_mem (b := Proc.devRef .tc b) _ _ (List.forall_iff_forall_mem.mp (by
    simp only [pc5, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

/-- A buffer the stretch does not write keeps its contents. -/
theorem keepS_chunk3 (V : Valuation τ sig (Elt F)) (b : Ref sig .tc) (h0 : ∀ y ∈ wr_pc4, b ≠ y) (h1 : ∀ y ∈ wr_pc5, b ≠ y) :
    (after (pc5 (F := F)) (after (pc4 (F := F)) V)) (Proc.devRef .tc b) = V (Proc.devRef .tc b) :=
  ((keep_pc5 _ b h1).trans (keep_pc4 _ b h0))

theorem c_main_v75 (V : Valuation τ sig (Elt F)) :
    (after (pc5 (F := F)) (after (pc4 (F := F)) V)) (Proc.devRef .tc main_v75) = rf8 (V (Proc.devRef .tc main_arg0)) (V (Proc.devRef .tc main_arg4)) := by
  unfold rf8
  dsimp only [pc4, pc5]
  after_results_simp <;> rfl

theorem c_main_v101 (V : Valuation τ sig (Elt F)) :
    (after (pc5 (F := F)) (after (pc4 (F := F)) V)) (Proc.devRef .tc main_v101) = rf9 (V (Proc.devRef .tc main_v1)) (V (Proc.devRef .tc main_v3)) ((after (pc5 (F := F)) (after (pc4 (F := F)) V)) (Proc.devRef .tc main_v75)) (V (Proc.devRef .tc main_v20)) (V (Proc.devRef .tc main_v15)) := by
  unfold rf9
  dsimp only [pc4, pc5]
  after_results_simp <;> rfl

theorem c_main_v105 (V : Valuation τ sig (Elt F)) :
    (after (pc5 (F := F)) (after (pc4 (F := F)) V)) (Proc.devRef .tc main_v105) = rf18 (V (Proc.devRef .tc main_v74)) ((after (pc5 (F := F)) (after (pc4 (F := F)) V)) (Proc.devRef .tc main_v101)) (V (Proc.devRef .tc main_arg5)) := by
  unfold rf18
  dsimp only [pc4, pc5]
  after_results_simp <;> rfl

end Cert.ReferenceIdeal.Val

end
-- ==== Proof.RSeg_chunk0.lean ====
/- One stretch of the program's host operations: every value the stretch names is the stage function of the values it is computed from, and a buffer the stretch does not write keeps its contents. -/
import proofs.«127768_j9405978378358_1_alg».proof.Proof.RPieces
import proofs.«127768_j9405978378358_1_alg».proof.Proof.RFun

set_option maxRecDepth 16384

noncomputable section

namespace Cert.ReferenceIdeal.Val

open Cert.ReferenceIdeal Cert.ReferenceIdeal.Gen Idealize.ShloMosaic Idealize.ShloMosaic.TcCoe Idealize.ShloMosaic.StableHlo

variable {F : FTy → Type} [FloatOps F]

/-- The buffers the piece writes. -/
abbrev wr_pc0 : List (Ref sig .tc) := [main_v0, main_v1, main_v2, main_v3, main_cst, main_v4, main_cst_0, main_v5, main_v6, main_v7, main_cst_1, main_v8, main_v9, main_v10, main_cst_2, main_v11, main_v12, main_cst_3, main_v13, main_v14, main_cst_4, main_call0_v0, main_call0_v1, main_v15, main_cst_5, main_v16, main_v17, main_cst_6, main_v18, main_v19, main_cst_7, main_call1_v0, main_call1_v1, main_v20]

/-- A buffer the piece does not write keeps its contents. -/
theorem keep_pc0 (V : Valuation τ sig (Elt F)) (b : Ref sig .tc) (hb : ∀ y ∈ wr_pc0, b ≠ y) :
    after (pc0 (F := F)) V (Proc.devRef .tc b) = V (Proc.devRef .tc b) :=
  after_of_forall_not_mem (b := Proc.devRef .tc b) _ _ (List.forall_iff_forall_mem.mp (by
    simp only [pc0, List.Forall, StableHlo.nullary_writes, StableHlo.unary_writes, StableHlo.binary_writes, StableHlo.ternary_writes, StableHlo.quaternary_writes, StableHlo.reshape_writes, Finset.mem_singleton]
    repeat' apply And.intro
    all_goals exact devRef_ne_of_ne (hb _ (by decide))))

theorem c_main_v1 (V : Valuation τ sig (Elt F)) :
    (after (pc0 (F := F)) V) (Proc.devRef .tc main_v1) = rf1 (V (Proc.devRef .tc main_arg1)) := by
  unfold rf1
  dsimp only [pc0]
  after_results_simp <;> rfl

theorem c_main_v3 (V : Valuation τ sig (Elt F)) :
    (after (pc0 (F := F)) V) (Proc.devRef .tc main_v3) = rf2 (V (Proc.devRef .tc main_arg1)) := by
  unfold rf2
  dsimp only [pc0]
  after_results_simp <;> rfl

theorem c_main_v4 (V : Valuation τ sig (Elt F)) :
    (after (pc0 (F := F)) V) (Proc.devRef .tc main_v4) = rf3  := by
  unfold rf3
  dsimp only [pc0]
  after_results_simp <;> rfl

theorem c_main_v7 (V : Valuation τ sig (Elt F)) :
    (after (pc0 (F := F)) V) (Proc.devRef .tc main_v7) = rf4 ((after (pc0 (F := F)) V) (Proc.devRef .tc main_v1)) ((after (pc0 (F := F)) V) (Proc.devRef .tc main_v4)) := by
  unfold rf4
  dsimp only [pc0]
  after_results_simp <;> rfl

theorem c_main_v10 (V : Valuation τ sig (Elt F)) :
    (after (pc0 (F := F)) V) (Proc.devRef .tc main_v10) = rf5 ((after (pc0 (F := F)) V) (Proc.devRef .tc main_v3)) ((after (pc0 (F := F)) V) (Proc.devRef .tc main_v4)) := by
  unfold rf5
  dsimp only [pc0]
  after_results_simp <;> rfl

theorem c_main_v15 (V : Valuation τ sig (Elt F)) :
    (after (pc0 (F := F)) V) (Proc.devRef .tc main_v15) = rf6 ((after (pc0 (F := F)) V) (Proc.devRef .tc main_v7)) := by
  unfold rf6
  dsimp only [pc0]
  after_results_simp <;> rfl

theorem c_main_v20 (V : Valuation τ sig (Elt F)) :
    (after (pc0 (F := F)) V) (Proc.devRef .tc main_v20) = rf7 ((after (pc0 (F := F)) V) (Proc.devRef .tc main_v10)) := by
  unfold rf7
  dsimp only [pc0]
  after_results_simp <;> rfl

end Cert.ReferenceIdeal.Val

end
-- ==== Proof.RState0.lean ====
/- The contents of the reference program's buffers after each stretch of its operations: each named value's buffer holds that value of the argument arrays. -/
import proofs.«127768_j9405978378358_1_alg».proof.Proof.RVals
import proofs.«127768_j9405978378358_1_alg».proof.Proof.RSeg_chunk0
import proofs.«127768_j9405978378358_1_alg».proof.Proof.RefTac

set_option maxRecDepth 16384

noncomputable section

namespace Cert.ReferenceIdeal.Val

open Cert.ReferenceIdeal Cert.ReferenceIdeal.Gen Idealize.ShloMosaic Idealize.ShloMosaic.TcCoe Idealize.ShloMosaic.StableHlo

variable (V0 : Valuation τ sig (Elt Ideal))

/-- The argument arrays of a valuation. -/
noncomputable def inR : Cert.Spec.Inputs Ideal :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11), V0 (Proc.devRef .tc main_arg12), V0 (Proc.devRef .tc main_arg13)⟩

/-- The contents before any operation. -/
abbrev S_init : Valuation τ sig (Elt Ideal) := V0
theorem r_init_main_arg0 : S_init V0 (Proc.devRef .tc main_arg0) = (inR V0).a0 := rfl
theorem r_init_main_arg1 : S_init V0 (Proc.devRef .tc main_arg1) = (inR V0).a1 := rfl
theorem r_init_main_arg2 : S_init V0 (Proc.devRef .tc main_arg2) = (inR V0).a2 := rfl
theorem r_init_main_arg3 : S_init V0 (Proc.devRef .tc main_arg3) = (inR V0).a3 := rfl
theorem r_init_main_arg4 : S_init V0 (Proc.devRef .tc main_arg4) = (inR V0).a4 := rfl
theorem r_init_main_arg5 : S_init V0 (Proc.devRef .tc main_arg5) = (inR V0).a5 := rfl
theorem r_init_main_arg6 : S_init V0 (Proc.devRef .tc main_arg6) = (inR V0).a6 := rfl
theorem r_init_main_arg7 : S_init V0 (Proc.devRef .tc main_arg7) = (inR V0).a7 := rfl
theorem r_init_main_arg8 : S_init V0 (Proc.devRef .tc main_arg8) = (inR V0).a8 := rfl
theorem r_init_main_arg9 : S_init V0 (Proc.devRef .tc main_arg9) = (inR V0).a9 := rfl
theorem r_init_main_arg10 : S_init V0 (Proc.devRef .tc main_arg10) = (inR V0).a10 := rfl
theorem r_init_main_arg11 : S_init V0 (Proc.devRef .tc main_arg11) = (inR V0).a11 := rfl
theorem r_init_main_arg12 : S_init V0 (Proc.devRef .tc main_arg12) = (inR V0).a12 := rfl
theorem r_init_main_arg13 : S_init V0 (Proc.devRef .tc main_arg13) = (inR V0).a13 := rfl

/-- The contents after stretch 0. -/
abbrev S0 : Valuation τ sig (Elt Ideal) := (after (pc0 (F := Ideal)) (S_init V0))

theorem r0_main_arg0 : S0 V0 (Proc.devRef .tc main_arg0) = (inR V0).a0 :=
  (keep_pc0 (F := Ideal) (S_init V0) main_arg0 (by ref_notin)).trans (r_init_main_arg0 V0)
theorem r0_main_arg2 : S0 V0 (Proc.devRef .tc main_arg2) = (inR V0).a2 :=
  (keep_pc0 (F := Ideal) (S_init V0) main_arg2 (by ref_notin)).trans (r_init_main_arg2 V0)
theorem r0_main_arg3 : S0 V0 (Proc.devRef .tc main_arg3) = (inR V0).a3 :=
  (keep_pc0 (F := Ideal) (S_init V0) main_arg3 (by ref_notin)).trans (r_init_main_arg3 V0)
theorem r0_main_arg10 : S0 V0 (Proc.devRef .tc main_arg10) = (inR V0).a10 :=
  (keep_pc0 (F := Ideal) (S_init V0) main_arg10 (by ref_notin)).trans (r_init_main_arg10 V0)
theorem r0_main_arg11 : S0 V0 (Proc.devRef .tc main_arg11) = (inR V0).a11 :=
  (keep_pc0 (F := Ideal) (S_init V0) main_arg11 (by ref_notin)).trans (r_init_main_arg11 V0)
theorem r0_main_arg4 : S0 V0 (Proc.devRef .tc main_arg4) = (inR V0).a4 :=
  (keep_pc0 (F := Ideal) (S_init V0) main_arg4 (by ref_notin)).trans (r_init_main_arg4 V0)
theorem r0_main_arg5 : S0 V0 (Proc.devRef .tc main_arg5) = (inR V0).a5 :=
  (keep_pc0 (F := Ideal) (S_init V0) main_arg5 (by ref_notin)).trans (r_init_main_arg5 V0)
theorem r0_main_arg6 : S0 V0 (Proc.devRef .tc main_arg6) = (inR V0).a6 :=
  (keep_pc0 (F := Ideal) (S_init V0) main_arg6 (by ref_notin)).trans (r_init_main_arg6 V0)
theorem r0_main_arg7 : S0 V0 (Proc.devRef .tc main_arg7) = (inR V0).a7 :=
  (keep_pc0 (F := Ideal) (S_init V0) main_arg7 (by ref_notin)).trans (r_init_main_arg7 V0)
theorem r0_main_arg8 : S0 V0 (Proc.devRef .tc main_arg8) = (inR V0).a8 :=
  (keep_pc0 (F := Ideal) (S_init V0) main_arg8 (by ref_notin)).trans (r_init_main_arg8 V0)
theorem r0_main_arg9 : S0 V0 (Proc.devRef .tc main_arg9) = (inR V0).a9 :=
  (keep_pc0 (F := Ideal) (S_init V0) main_arg9 (by ref_notin)).trans (r_init_main_arg9 V0)
theorem r0_main_arg12 : S0 V0 (Proc.devRef .tc main_arg12) = (inR V0).a12 :=
  (keep_pc0 (F := Ideal) (S_init V0) main_arg12 (by ref_notin)).trans (r_init_main_arg12 V0)
theorem r0_main_arg13 : S0 V0 (Proc.devRef .tc main_arg13) = (inR V0).a13 :=
  (keep_pc0 (F := Ideal) (S_init V0) main_arg13 (by ref_notin)).trans (r_init_main_arg13 V0)
theorem r0_main_v1 : S0 V0 (Proc.devRef .tc main_v1) = rv_main_v1 (inR V0) := by
  refine (c_main_v1 (F := Ideal) (S_init V0)).trans ?_
  rw [r_init_main_arg1 V0]
  rfl
theorem r0_main_v3 : S0 V0 (Proc.devRef .tc main_v3) = rv_main_v3 (inR V0) := by
  refine (c_main_v3 (F := Ideal) (S_init V0)).trans ?_
  rw [r_init_main_arg1 V0]
  rfl
theorem r0_main_v4 : S0 V0 (Proc.devRef .tc main_v4) = rv_main_v4 (inR V0) := by
  refine (c_main_v4 (F := Ideal) (S_init V0)).trans ?_
  rfl
theorem r0_main_v7 : S0 V0 (Proc.devRef .tc main_v7) = rv_main_v7 (inR V0) := by
  refine (c_main_v7 (F := Ideal) (S_init V0)).trans ?_
  rw [show (after (pc0 (F := Ideal)) (S_init V0)) (Proc.devRef .tc main_v1) = _ from r0_main_v1 V0, show (after (pc0 (F := Ideal)) (S_init V0)) (Proc.devRef .tc main_v4) = _ from r0_main_v4 V0]
  rfl
theorem r0_main_v10 : S0 V0 (Proc.devRef .tc main_v10) = rv_main_v10 (inR V0) := by
  refine (c_main_v10 (F := Ideal) (S_init V0)).trans ?_
  rw [show (after (pc0 (F := Ideal)) (S_init V0)) (Proc.devRef .tc main_v3) = _ from r0_main_v3 V0, show (after (pc0 (F := Ideal)) (S_init V0)) (Proc.devRef .tc main_v4) = _ from r0_main_v4 V0]
  rfl
theorem r0_main_v15 : S0 V0 (Proc.devRef .tc main_v15) = rv_main_v15 (inR V0) := by
  refine (c_main_v15 (F := Ideal) (S_init V0)).trans ?_
  rw [show (after (pc0 (F := Ideal)) (S_init V0)) (Proc.devRef .tc main_v7) = _ from r0_main_v7 V0]
  rfl
theorem r0_main_v20 : S0 V0 (Proc.devRef .tc main_v20) = rv_main_v20 (inR V0) := by
  refine (c_main_v20 (F := Ideal) (S_init V0)).trans ?_
  rw [show (after (pc0 (F := Ideal)) (S_init V0)) (Proc.devRef .tc main_v10) = _ from r0_main_v10 V0]
  rfl

end Cert.ReferenceIdeal.Val

end
-- ==== Proof.RState1.lean ====
/- The contents of the reference program's buffers after each stretch of its operations: each named value's buffer holds that value of the argument arrays. -/
import proofs.«127768_j9405978378358_1_alg».proof.Proof.RVals
import proofs.«127768_j9405978378358_1_alg».proof.Proof.RSeg_chunk1
import proofs.«127768_j9405978378358_1_alg».proof.Proof.RSeg_chunk2
import proofs.«127768_j9405978378358_1_alg».proof.Proof.RSeg_chunk3
import proofs.«127768_j9405978378358_1_alg».proof.Proof.RState0
import proofs.«127768_j9405978378358_1_alg».proof.Proof.RefTac

set_option maxRecDepth 16384

noncomputable section

namespace Cert.ReferenceIdeal.Val

open Cert.ReferenceIdeal Cert.ReferenceIdeal.Gen Idealize.ShloMosaic Idealize.ShloMosaic.TcCoe Idealize.ShloMosaic.StableHlo

variable (V0 : Valuation τ sig (Elt Ideal))

/-- The contents after stretch 1. -/
abbrev S1 : Valuation τ sig (Elt Ideal) := (after (pc2 (F := Ideal)) (after (pc1 (F := Ideal)) (S0 V0)))

theorem r1_main_v1 : S1 V0 (Proc.devRef .tc main_v1) = rv_main_v1 (inR V0) :=
  (keepS_chunk1 (F := Ideal) (S0 V0) main_v1 (by ref_notin) (by ref_notin)).trans (r0_main_v1 V0)
theorem r1_main_v3 : S1 V0 (Proc.devRef .tc main_v3) = rv_main_v3 (inR V0) :=
  (keepS_chunk1 (F := Ideal) (S0 V0) main_v3 (by ref_notin) (by ref_notin)).trans (r0_main_v3 V0)
theorem r1_main_v15 : S1 V0 (Proc.devRef .tc main_v15) = rv_main_v15 (inR V0) :=
  (keepS_chunk1 (F := Ideal) (S0 V0) main_v15 (by ref_notin) (by ref_notin)).trans (r0_main_v15 V0)
theorem r1_main_v20 : S1 V0 (Proc.devRef .tc main_v20) = rv_main_v20 (inR V0) :=
  (keepS_chunk1 (F := Ideal) (S0 V0) main_v20 (by ref_notin) (by ref_notin)).trans (r0_main_v20 V0)
theorem r1_main_arg0 : S1 V0 (Proc.devRef .tc main_arg0) = (inR V0).a0 :=
  (keepS_chunk1 (F := Ideal) (S0 V0) main_arg0 (by ref_notin) (by ref_notin)).trans (r0_main_arg0 V0)
theorem r1_main_arg10 : S1 V0 (Proc.devRef .tc main_arg10) = (inR V0).a10 :=
  (keepS_chunk1 (F := Ideal) (S0 V0) main_arg10 (by ref_notin) (by ref_notin)).trans (r0_main_arg10 V0)
theorem r1_main_arg11 : S1 V0 (Proc.devRef .tc main_arg11) = (inR V0).a11 :=
  (keepS_chunk1 (F := Ideal) (S0 V0) main_arg11 (by ref_notin) (by ref_notin)).trans (r0_main_arg11 V0)
theorem r1_main_arg4 : S1 V0 (Proc.devRef .tc main_arg4) = (inR V0).a4 :=
  (keepS_chunk1 (F := Ideal) (S0 V0) main_arg4 (by ref_notin) (by ref_notin)).trans (r0_main_arg4 V0)
theorem r1_main_arg5 : S1 V0 (Proc.devRef .tc main_arg5) = (inR V0).a5 :=
  (keepS_chunk1 (F := Ideal) (S0 V0) main_arg5 (by ref_notin) (by ref_notin)).trans (r0_main_arg5 V0)
theorem r1_main_arg6 : S1 V0 (Proc.devRef .tc main_arg6) = (inR V0).a6 :=
  (keepS_chunk1 (F := Ideal) (S0 V0) main_arg6 (by ref_notin) (by ref_notin)).trans (r0_main_arg6 V0)
theorem r1_main_arg7 : S1 V0 (Proc.devRef .tc main_arg7) = (inR V0).a7 :=
  (keepS_chunk1 (F := Ideal) (S0 V0) main_arg7 (by ref_notin) (by ref_notin)).trans (r0_main_arg7 V0)
theorem r1_main_arg8 : S1 V0 (Proc.devRef .tc main_arg8) = (inR V0).a8 :=
  (keepS_chunk1 (F := Ideal) (S0 V0) main_arg8 (by ref_notin) (by ref_notin)).trans (r0_main_arg8 V0)
theorem r1_main_arg9 : S1 V0 (Proc.devRef .tc main_arg9) = (inR V0).a9 :=
  (keepS_chunk1 (F := Ideal) (S0 V0) main_arg9 (by ref_notin) (by ref_notin)).trans (r0_main_arg9 V0)
theorem r1_main_arg12 : S1 V0 (Proc.devRef .tc main_arg12) = (inR V0).a12 :=
  (keepS_chunk1 (F := Ideal) (S0 V0) main_arg12 (by ref_notin) (by ref_notin)).trans (r0_main_arg12 V0)
theorem r1_main_arg13 : S1 V0 (Proc.devRef .tc main_arg13) = (inR V0).a13 :=
  (keepS_chunk1 (F := Ideal) (S0 V0) main_arg13 (by ref_notin) (by ref_notin)).trans (r0_main_arg13 V0)
theorem r1_main_v21 : S1 V0 (Proc.devRef .tc main_v21) = rv_main_v21 (inR V0) := by
  refine (c_main_v21 (F := Ideal) (S0 V0)).trans ?_
  rw [r0_main_arg0 V0, r0_main_arg2 V0]
  rfl
theorem r1_main_v47 : S1 V0 (Proc.devRef .tc main_v47) = rv_main_v47 (inR V0) := by
  refine (c_main_v47 (F := Ideal) (S0 V0)).trans ?_
  rw [r0_main_v1 V0, r0_main_v3 V0, show (after (pc2 (F := Ideal)) (after (pc1 (F := Ideal)) (S0 V0))) (Proc.devRef .tc main_v21) = _ from r1_main_v21 V0, r0_main_v20 V0, r0_main_v15 V0]
  rfl
theorem r1_main_v50 : S1 V0 (Proc.devRef .tc main_v50) = rv_main_v50 (inR V0) := by
  refine (c_main_v50 (F := Ideal) (S0 V0)).trans ?_
  rw [show (after (pc2 (F := Ideal)) (after (pc1 (F := Ideal)) (S0 V0))) (Proc.devRef .tc main_v47) = _ from r1_main_v47 V0, r0_main_arg3 V0]
  rfl

/-- The contents after stretch 2. -/
abbrev S2 : Valuation τ sig (Elt Ideal) := (after (pc3 (F := Ideal)) (S1 V0))

theorem r2_main_v1 : S2 V0 (Proc.devRef .tc main_v1) = rv_main_v1 (inR V0) :=
  (keep_pc3 (F := Ideal) (S1 V0) main_v1 (by ref_notin)).trans (r1_main_v1 V0)
theorem r2_main_v3 : S2 V0 (Proc.devRef .tc main_v3) = rv_main_v3 (inR V0) :=
  (keep_pc3 (F := Ideal) (S1 V0) main_v3 (by ref_notin)).trans (r1_main_v3 V0)
theorem r2_main_v15 : S2 V0 (Proc.devRef .tc main_v15) = rv_main_v15 (inR V0) :=
  (keep_pc3 (F := Ideal) (S1 V0) main_v15 (by ref_notin)).trans (r1_main_v15 V0)
theorem r2_main_v20 : S2 V0 (Proc.devRef .tc main_v20) = rv_main_v20 (inR V0) :=
  (keep_pc3 (F := Ideal) (S1 V0) main_v20 (by ref_notin)).trans (r1_main_v20 V0)
theorem r2_main_arg0 : S2 V0 (Proc.devRef .tc main_arg0) = (inR V0).a0 :=
  (keep_pc3 (F := Ideal) (S1 V0) main_arg0 (by ref_notin)).trans (r1_main_arg0 V0)
theorem r2_main_arg10 : S2 V0 (Proc.devRef .tc main_arg10) = (inR V0).a10 :=
  (keep_pc3 (F := Ideal) (S1 V0) main_arg10 (by ref_notin)).trans (r1_main_arg10 V0)
theorem r2_main_arg11 : S2 V0 (Proc.devRef .tc main_arg11) = (inR V0).a11 :=
  (keep_pc3 (F := Ideal) (S1 V0) main_arg11 (by ref_notin)).trans (r1_main_arg11 V0)
theorem r2_main_arg4 : S2 V0 (Proc.devRef .tc main_arg4) = (inR V0).a4 :=
  (keep_pc3 (F := Ideal) (S1 V0) main_arg4 (by ref_notin)).trans (r1_main_arg4 V0)
theorem r2_main_arg5 : S2 V0 (Proc.devRef .tc main_arg5) = (inR V0).a5 :=
  (keep_pc3 (F := Ideal) (S1 V0) main_arg5 (by ref_notin)).trans (r1_main_arg5 V0)
theorem r2_main_arg6 : S2 V0 (Proc.devRef .tc main_arg6) = (inR V0).a6 :=
  (keep_pc3 (F := Ideal) (S1 V0) main_arg6 (by ref_notin)).trans (r1_main_arg6 V0)
theorem r2_main_arg7 : S2 V0 (Proc.devRef .tc main_arg7) = (inR V0).a7 :=
  (keep_pc3 (F := Ideal) (S1 V0) main_arg7 (by ref_notin)).trans (r1_main_arg7 V0)
theorem r2_main_arg8 : S2 V0 (Proc.devRef .tc main_arg8) = (inR V0).a8 :=
  (keep_pc3 (F := Ideal) (S1 V0) main_arg8 (by ref_notin)).trans (r1_main_arg8 V0)
theorem r2_main_arg9 : S2 V0 (Proc.devRef .tc main_arg9) = (inR V0).a9 :=
  (keep_pc3 (F := Ideal) (S1 V0) main_arg9 (by ref_notin)).trans (r1_main_arg9 V0)
theorem r2_main_arg12 : S2 V0 (Proc.devRef .tc main_arg12) = (inR V0).a12 :=
  (keep_pc3 (F := Ideal) (S1 V0) main_arg12 (by ref_notin)).trans (r1_main_arg12 V0)
theorem r2_main_arg13 : S2 V0 (Proc.devRef .tc main_arg13) = (inR V0).a13 :=
  (keep_pc3 (F := Ideal) (S1 V0) main_arg13 (by ref_notin)).trans (r1_main_arg13 V0)
theorem r2_main_v52 : S2 V0 (Proc.devRef .tc main_v52) = rv_main_v52 (inR V0) := by
  refine (c_main_v52 (F := Ideal) (S1 V0)).trans ?_
  rw [r1_main_arg10 V0]
  rfl
theorem r2_main_v54 : S2 V0 (Proc.devRef .tc main_v54) = rv_main_v54 (inR V0) := by
  refine (c_main_v54 (F := Ideal) (S1 V0)).trans ?_
  rw [r1_main_arg11 V0]
  rfl
theorem r2_main_v57 : S2 V0 (Proc.devRef .tc main_v57) = rv_main_v57 (inR V0) := by
  refine (c_main_v57 (F := Ideal) (S1 V0)).trans ?_
  rw [r1_main_v50 V0]
  rfl
theorem r2_main_call2_v5 : S2 V0 (Proc.devRef .tc main_call2_v5) = rv_main_call2_v5 (inR V0) := by
  refine (c_main_call2_v5 (F := Ideal) (S1 V0)).trans ?_
  rw [r1_main_v50 V0]
  rfl
theorem r2_main_call2_v8 : S2 V0 (Proc.devRef .tc main_call2_v8) = rv_main_call2_v8 (inR V0) := by
  refine (c_main_call2_v8 (F := Ideal) (S1 V0)).trans ?_
  rfl
theorem r2_main_call2_v11 : S2 V0 (Proc.devRef .tc main_call2_v11) = rv_main_call2_v11 (inR V0) := by
  refine (c_main_call2_v11 (F := Ideal) (S1 V0)).trans ?_
  rw [show (after (pc3 (F := Ideal)) (S1 V0)) (Proc.devRef .tc main_call2_v5) = _ from r2_main_call2_v5 V0, show (after (pc3 (F := Ideal)) (S1 V0)) (Proc.devRef .tc main_call2_v8) = _ from r2_main_call2_v8 V0]
  rfl
theorem r2_main_v58 : S2 V0 (Proc.devRef .tc main_v58) = rv_main_v58 (inR V0) := by
  refine (c_main_v58 (F := Ideal) (S1 V0)).trans ?_
  rw [show (after (pc3 (F := Ideal)) (S1 V0)) (Proc.devRef .tc main_call2_v8) = _ from r2_main_call2_v8 V0, show (after (pc3 (F := Ideal)) (S1 V0)) (Proc.devRef .tc main_call2_v11) = _ from r2_main_call2_v11 V0]
  rfl
theorem r2_main_v74 : S2 V0 (Proc.devRef .tc main_v74) = rv_main_v74 (inR V0) := by
  refine (c_main_v74 (F := Ideal) (S1 V0)).trans ?_
  rw [show (after (pc3 (F := Ideal)) (S1 V0)) (Proc.devRef .tc main_v52) = _ from r2_main_v52 V0, r1_main_v50 V0, show (after (pc3 (F := Ideal)) (S1 V0)) (Proc.devRef .tc main_v57) = _ from r2_main_v57 V0, show (after (pc3 (F := Ideal)) (S1 V0)) (Proc.devRef .tc main_v58) = _ from r2_main_v58 V0, show (after (pc3 (F := Ideal)) (S1 V0)) (Proc.devRef .tc main_v54) = _ from r2_main_v54 V0]
  rfl

/-- The contents after stretch 3. -/
abbrev S3 : Valuation τ sig (Elt Ideal) := (after (pc5 (F := Ideal)) (after (pc4 (F := Ideal)) (S2 V0)))

theorem r3_main_v1 : S3 V0 (Proc.devRef .tc main_v1) = rv_main_v1 (inR V0) :=
  (keepS_chunk3 (F := Ideal) (S2 V0) main_v1 (by ref_notin) (by ref_notin)).trans (r2_main_v1 V0)
theorem r3_main_v3 : S3 V0 (Proc.devRef .tc main_v3) = rv_main_v3 (inR V0) :=
  (keepS_chunk3 (F := Ideal) (S2 V0) main_v3 (by ref_notin) (by ref_notin)).trans (r2_main_v3 V0)
theorem r3_main_v15 : S3 V0 (Proc.devRef .tc main_v15) = rv_main_v15 (inR V0) :=
  (keepS_chunk3 (F := Ideal) (S2 V0) main_v15 (by ref_notin) (by ref_notin)).trans (r2_main_v15 V0)
theorem r3_main_v20 : S3 V0 (Proc.devRef .tc main_v20) = rv_main_v20 (inR V0) :=
  (keepS_chunk3 (F := Ideal) (S2 V0) main_v20 (by ref_notin) (by ref_notin)).trans (r2_main_v20 V0)
theorem r3_main_arg0 : S3 V0 (Proc.devRef .tc main_arg0) = (inR V0).a0 :=
  (keepS_chunk3 (F := Ideal) (S2 V0) main_arg0 (by ref_notin) (by ref_notin)).trans (r2_main_arg0 V0)
theorem r3_main_arg10 : S3 V0 (Proc.devRef .tc main_arg10) = (inR V0).a10 :=
  (keepS_chunk3 (F := Ideal) (S2 V0) main_arg10 (by ref_notin) (by ref_notin)).trans (r2_main_arg10 V0)
theorem r3_main_arg11 : S3 V0 (Proc.devRef .tc main_arg11) = (inR V0).a11 :=
  (keepS_chunk3 (F := Ideal) (S2 V0) main_arg11 (by ref_notin) (by ref_notin)).trans (r2_main_arg11 V0)
theorem r3_main_arg6 : S3 V0 (Proc.devRef .tc main_arg6) = (inR V0).a6 :=
  (keepS_chunk3 (F := Ideal) (S2 V0) main_arg6 (by ref_notin) (by ref_notin)).trans (r2_main_arg6 V0)
theorem r3_main_arg7 : S3 V0 (Proc.devRef .tc main_arg7) = (inR V0).a7 :=
  (keepS_chunk3 (F := Ideal) (S2 V0) main_arg7 (by ref_notin) (by ref_notin)).trans (r2_main_arg7 V0)
theorem r3_main_arg8 : S3 V0 (Proc.devRef .tc main_arg8) = (inR V0).a8 :=
  (keepS_chunk3 (F := Ideal) (S2 V0) main_arg8 (by ref_notin) (by ref_notin)).trans (r2_main_arg8 V0)
theorem r3_main_arg9 : S3 V0 (Proc.devRef .tc main_arg9) = (inR V0).a9 :=
  (keepS_chunk3 (F := Ideal) (S2 V0) main_arg9 (by ref_notin) (by ref_notin)).trans (r2_main_arg9 V0)
theorem r3_main_arg12 : S3 V0 (Proc.devRef .tc main_arg12) = (inR V0).a12 :=
  (keepS_chunk3 (F := Ideal) (S2 V0) main_arg12 (by ref_notin) (by ref_notin)).trans (r2_main_arg12 V0)
theorem r3_main_arg13 : S3 V0 (Proc.devRef .tc main_arg13) = (inR V0).a13 :=
  (keepS_chunk3 (F := Ideal) (S2 V0) main_arg13 (by ref_notin) (by ref_notin)).trans (r2_main_arg13 V0)
theorem r3_main_v75 : S3 V0 (Proc.devRef .tc main_v75) = rv_main_v75 (inR V0) := by
  refine (c_main_v75 (F := Ideal) (S2 V0)).trans ?_
  rw [r2_main_arg0 V0, r2_main_arg4 V0]
  rfl
theorem r3_main_v101 : S3 V0 (Proc.devRef .tc main_v101) = rv_main_v101 (inR V0) := by
  refine (c_main_v101 (F := Ideal) (S2 V0)).trans ?_
  rw [r2_main_v1 V0, r2_main_v3 V0, show (after (pc5 (F := Ideal)) (after (pc4 (F := Ideal)) (S2 V0))) (Proc.devRef .tc main_v75) = _ from r3_main_v75 V0, r2_main_v20 V0, r2_main_v15 V0]
  rfl
theorem r3_main_v105 : S3 V0 (Proc.devRef .tc main_v105) = rv_main_v105 (inR V0) := by
  refine (c_main_v105 (F := Ideal) (S2 V0)).trans ?_
  rw [r2_main_v74 V0, show (after (pc5 (F := Ideal)) (after (pc4 (F := Ideal)) (S2 V0))) (Proc.devRef .tc main_v101) = _ from r3_main_v101 V0, r2_main_arg5 V0]
  rfl

end Cert.ReferenceIdeal.Val

end
-- ==== Proof.RState2.lean ====
/- The contents of the reference program's buffers after each stretch of its operations: each named value's buffer holds that value of the argument arrays. -/
import proofs.«127768_j9405978378358_1_alg».proof.Proof.RVals
import proofs.«127768_j9405978378358_1_alg».proof.Proof.RSeg_chunk4
import proofs.«127768_j9405978378358_1_alg».proof.Proof.RSeg_chunk5
import proofs.«127768_j9405978378358_1_alg».proof.Proof.RSeg_chunk6
import proofs.«127768_j9405978378358_1_alg».proof.Proof.RState1
import proofs.«127768_j9405978378358_1_alg».proof.Proof.RefTac

set_option maxRecDepth 16384

noncomputable section

namespace Cert.ReferenceIdeal.Val

open Cert.ReferenceIdeal Cert.ReferenceIdeal.Gen Idealize.ShloMosaic Idealize.ShloMosaic.TcCoe Idealize.ShloMosaic.StableHlo

variable (V0 : Valuation τ sig (Elt Ideal))

/-- The contents after stretch 4. -/
abbrev S4 : Valuation τ sig (Elt Ideal) := (after (pc6 (F := Ideal)) (S3 V0))

theorem r4_main_v1 : S4 V0 (Proc.devRef .tc main_v1) = rv_main_v1 (inR V0) :=
  (keep_pc6 (F := Ideal) (S3 V0) main_v1 (by ref_notin)).trans (r3_main_v1 V0)
theorem r4_main_v3 : S4 V0 (Proc.devRef .tc main_v3) = rv_main_v3 (inR V0) :=
  (keep_pc6 (F := Ideal) (S3 V0) main_v3 (by ref_notin)).trans (r3_main_v3 V0)
theorem r4_main_v15 : S4 V0 (Proc.devRef .tc main_v15) = rv_main_v15 (inR V0) :=
  (keep_pc6 (F := Ideal) (S3 V0) main_v15 (by ref_notin)).trans (r3_main_v15 V0)
theorem r4_main_v20 : S4 V0 (Proc.devRef .tc main_v20) = rv_main_v20 (inR V0) :=
  (keep_pc6 (F := Ideal) (S3 V0) main_v20 (by ref_notin)).trans (r3_main_v20 V0)
theorem r4_main_v105 : S4 V0 (Proc.devRef .tc main_v105) = rv_main_v105 (inR V0) :=
  (keep_pc6 (F := Ideal) (S3 V0) main_v105 (by ref_notin)).trans (r3_main_v105 V0)
theorem r4_main_arg0 : S4 V0 (Proc.devRef .tc main_arg0) = (inR V0).a0 :=
  (keep_pc6 (F := Ideal) (S3 V0) main_arg0 (by ref_notin)).trans (r3_main_arg0 V0)
theorem r4_main_arg10 : S4 V0 (Proc.devRef .tc main_arg10) = (inR V0).a10 :=
  (keep_pc6 (F := Ideal) (S3 V0) main_arg10 (by ref_notin)).trans (r3_main_arg10 V0)
theorem r4_main_arg11 : S4 V0 (Proc.devRef .tc main_arg11) = (inR V0).a11 :=
  (keep_pc6 (F := Ideal) (S3 V0) main_arg11 (by ref_notin)).trans (r3_main_arg11 V0)
theorem r4_main_arg6 : S4 V0 (Proc.devRef .tc main_arg6) = (inR V0).a6 :=
  (keep_pc6 (F := Ideal) (S3 V0) main_arg6 (by ref_notin)).trans (r3_main_arg6 V0)
theorem r4_main_arg7 : S4 V0 (Proc.devRef .tc main_arg7) = (inR V0).a7 :=
  (keep_pc6 (F := Ideal) (S3 V0) main_arg7 (by ref_notin)).trans (r3_main_arg7 V0)
theorem r4_main_arg8 : S4 V0 (Proc.devRef .tc main_arg8) = (inR V0).a8 :=
  (keep_pc6 (F := Ideal) (S3 V0) main_arg8 (by ref_notin)).trans (r3_main_arg8 V0)
theorem r4_main_arg9 : S4 V0 (Proc.devRef .tc main_arg9) = (inR V0).a9 :=
  (keep_pc6 (F := Ideal) (S3 V0) main_arg9 (by ref_notin)).trans (r3_main_arg9 V0)
theorem r4_main_arg12 : S4 V0 (Proc.devRef .tc main_arg12) = (inR V0).a12 :=
  (keep_pc6 (F := Ideal) (S3 V0) main_arg12 (by ref_notin)).trans (r3_main_arg12 V0)
theorem r4_main_arg13 : S4 V0 (Proc.devRef .tc main_arg13) = (inR V0).a13 :=
  (keep_pc6 (F := Ideal) (S3 V0) main_arg13 (by ref_notin)).trans (r3_main_arg13 V0)
theorem r4_main_v107 : S4 V0 (Proc.devRef .tc main_v107) = rv_main_v107 (inR V0) := by
  refine (c_main_v107 (F := Ideal) (S3 V0)).trans ?_
  rw [r3_main_arg6 V0]
  rfl
theorem r4_main_v109 : S4 V0 (Proc.devRef .tc main_v109) = rv_main_v109 (inR V0) := by
  refine (c_main_v109 (F := Ideal) (S3 V0)).trans ?_
  rw [r3_main_arg7 V0]
  rfl
theorem r4_main_v110 : S4 V0 (Proc.devRef .tc main_v110) = rv_main_v110 (inR V0) := by
  refine (c_main_v110 (F := Ideal) (S3 V0)).trans ?_
  rw [r3_main_v105 V0, show (after (pc6 (F := Ideal)) (S3 V0)) (Proc.devRef .tc main_v107) = _ from r4_main_v107 V0]
  rfl
theorem r4_main_v136 : S4 V0 (Proc.devRef .tc main_v136) = rv_main_v136 (inR V0) := by
  refine (c_main_v136 (F := Ideal) (S3 V0)).trans ?_
  rw [r3_main_v1 V0, r3_main_v3 V0, show (after (pc6 (F := Ideal)) (S3 V0)) (Proc.devRef .tc main_v110) = _ from r4_main_v110 V0, r3_main_v20 V0, r3_main_v15 V0]
  rfl
theorem r4_main_v139 : S4 V0 (Proc.devRef .tc main_v139) = rv_main_v139 (inR V0) := by
  refine (c_main_v139 (F := Ideal) (S3 V0)).trans ?_
  rw [show (after (pc6 (F := Ideal)) (S3 V0)) (Proc.devRef .tc main_v136) = _ from r4_main_v136 V0, show (after (pc6 (F := Ideal)) (S3 V0)) (Proc.devRef .tc main_v109) = _ from r4_main_v109 V0]
  rfl

/-- The contents after stretch 5. -/
abbrev S5 : Valuation τ sig (Elt Ideal) := (after (pc8 (F := Ideal)) (after (pc7 (F := Ideal)) (S4 V0)))

theorem r5_main_v1 : S5 V0 (Proc.devRef .tc main_v1) = rv_main_v1 (inR V0) :=
  (keepS_chunk5 (F := Ideal) (S4 V0) main_v1 (by ref_notin) (by ref_notin)).trans (r4_main_v1 V0)
theorem r5_main_v3 : S5 V0 (Proc.devRef .tc main_v3) = rv_main_v3 (inR V0) :=
  (keepS_chunk5 (F := Ideal) (S4 V0) main_v3 (by ref_notin) (by ref_notin)).trans (r4_main_v3 V0)
theorem r5_main_v15 : S5 V0 (Proc.devRef .tc main_v15) = rv_main_v15 (inR V0) :=
  (keepS_chunk5 (F := Ideal) (S4 V0) main_v15 (by ref_notin) (by ref_notin)).trans (r4_main_v15 V0)
theorem r5_main_v20 : S5 V0 (Proc.devRef .tc main_v20) = rv_main_v20 (inR V0) :=
  (keepS_chunk5 (F := Ideal) (S4 V0) main_v20 (by ref_notin) (by ref_notin)).trans (r4_main_v20 V0)
theorem r5_main_v105 : S5 V0 (Proc.devRef .tc main_v105) = rv_main_v105 (inR V0) :=
  (keepS_chunk5 (F := Ideal) (S4 V0) main_v105 (by ref_notin) (by ref_notin)).trans (r4_main_v105 V0)
theorem r5_main_arg0 : S5 V0 (Proc.devRef .tc main_arg0) = (inR V0).a0 :=
  (keepS_chunk5 (F := Ideal) (S4 V0) main_arg0 (by ref_notin) (by ref_notin)).trans (r4_main_arg0 V0)
theorem r5_main_arg10 : S5 V0 (Proc.devRef .tc main_arg10) = (inR V0).a10 :=
  (keepS_chunk5 (F := Ideal) (S4 V0) main_arg10 (by ref_notin) (by ref_notin)).trans (r4_main_arg10 V0)
theorem r5_main_arg11 : S5 V0 (Proc.devRef .tc main_arg11) = (inR V0).a11 :=
  (keepS_chunk5 (F := Ideal) (S4 V0) main_arg11 (by ref_notin) (by ref_notin)).trans (r4_main_arg11 V0)
theorem r5_main_arg6 : S5 V0 (Proc.devRef .tc main_arg6) = (inR V0).a6 :=
  (keepS_chunk5 (F := Ideal) (S4 V0) main_arg6 (by ref_notin) (by ref_notin)).trans (r4_main_arg6 V0)
theorem r5_main_arg7 : S5 V0 (Proc.devRef .tc main_arg7) = (inR V0).a7 :=
  (keepS_chunk5 (F := Ideal) (S4 V0) main_arg7 (by ref_notin) (by ref_notin)).trans (r4_main_arg7 V0)
theorem r5_main_arg8 : S5 V0 (Proc.devRef .tc main_arg8) = (inR V0).a8 :=
  (keepS_chunk5 (F := Ideal) (S4 V0) main_arg8 (by ref_notin) (by ref_notin)).trans (r4_main_arg8 V0)
theorem r5_main_arg9 : S5 V0 (Proc.devRef .tc main_arg9) = (inR V0).a9 :=
  (keepS_chunk5 (F := Ideal) (S4 V0) main_arg9 (by ref_notin) (by ref_notin)).trans (r4_main_arg9 V0)
theorem r5_main_arg12 : S5 V0 (Proc.devRef .tc main_arg12) = (inR V0).a12 :=
  (keepS_chunk5 (F := Ideal) (S4 V0) main_arg12 (by ref_notin) (by ref_notin)).trans (r4_main_arg12 V0)
theorem r5_main_arg13 : S5 V0 (Proc.devRef .tc main_arg13) = (inR V0).a13 :=
  (keepS_chunk5 (F := Ideal) (S4 V0) main_arg13 (by ref_notin) (by ref_notin)).trans (r4_main_arg13 V0)
theorem r5_main_v141 : S5 V0 (Proc.devRef .tc main_v141) = rv_main_v141 (inR V0) := by
  refine (c_main_v141 (F := Ideal) (S4 V0)).trans ?_
  rw [r4_main_arg10 V0]
  rfl
theorem r5_main_v143 : S5 V0 (Proc.devRef .tc main_v143) = rv_main_v143 (inR V0) := by
  refine (c_main_v143 (F := Ideal) (S4 V0)).trans ?_
  rw [r4_main_arg11 V0]
  rfl
theorem r5_main_v146 : S5 V0 (Proc.devRef .tc main_v146) = rv_main_v146 (inR V0) := by
  refine (c_main_v146 (F := Ideal) (S4 V0)).trans ?_
  rw [r4_main_v139 V0]
  rfl
theorem r5_main_call4_v5 : S5 V0 (Proc.devRef .tc main_call4_v5) = rv_main_call4_v5 (inR V0) := by
  refine (c_main_call4_v5 (F := Ideal) (S4 V0)).trans ?_
  rw [r4_main_v139 V0]
  rfl
theorem r5_main_call4_v8 : S5 V0 (Proc.devRef .tc main_call4_v8) = rv_main_call4_v8 (inR V0) := by
  refine (c_main_call4_v8 (F := Ideal) (S4 V0)).trans ?_
  rfl
theorem r5_main_call4_v11 : S5 V0 (Proc.devRef .tc main_call4_v11) = rv_main_call4_v11 (inR V0) := by
  refine (c_main_call4_v11 (F := Ideal) (S4 V0)).trans ?_
  rw [show (after (pc8 (F := Ideal)) (after (pc7 (F := Ideal)) (S4 V0))) (Proc.devRef .tc main_call4_v5) = _ from r5_main_call4_v5 V0, show (after (pc8 (F := Ideal)) (after (pc7 (F := Ideal)) (S4 V0))) (Proc.devRef .tc main_call4_v8) = _ from r5_main_call4_v8 V0]
  rfl
theorem r5_main_v147 : S5 V0 (Proc.devRef .tc main_v147) = rv_main_v147 (inR V0) := by
  refine (c_main_v147 (F := Ideal) (S4 V0)).trans ?_
  rw [show (after (pc8 (F := Ideal)) (after (pc7 (F := Ideal)) (S4 V0))) (Proc.devRef .tc main_call4_v8) = _ from r5_main_call4_v8 V0, show (after (pc8 (F := Ideal)) (after (pc7 (F := Ideal)) (S4 V0))) (Proc.devRef .tc main_call4_v11) = _ from r5_main_call4_v11 V0]
  rfl
theorem r5_main_v163 : S5 V0 (Proc.devRef .tc main_v163) = rv_main_v163 (inR V0) := by
  refine (c_main_v163 (F := Ideal) (S4 V0)).trans ?_
  rw [show (after (pc8 (F := Ideal)) (after (pc7 (F := Ideal)) (S4 V0))) (Proc.devRef .tc main_v141) = _ from r5_main_v141 V0, r4_main_v139 V0, show (after (pc8 (F := Ideal)) (after (pc7 (F := Ideal)) (S4 V0))) (Proc.devRef .tc main_v146) = _ from r5_main_v146 V0, show (after (pc8 (F := Ideal)) (after (pc7 (F := Ideal)) (S4 V0))) (Proc.devRef .tc main_v147) = _ from r5_main_v147 V0, show (after (pc8 (F := Ideal)) (after (pc7 (F := Ideal)) (S4 V0))) (Proc.devRef .tc main_v143) = _ from r5_main_v143 V0]
  rfl

/-- The contents after stretch 6. -/
abbrev S6 : Valuation τ sig (Elt Ideal) := (after (pc9 (F := Ideal)) (S5 V0))

theorem r6_main_v1 : S6 V0 (Proc.devRef .tc main_v1) = rv_main_v1 (inR V0) :=
  (keep_pc9 (F := Ideal) (S5 V0) main_v1 (by ref_notin)).trans (r5_main_v1 V0)
theorem r6_main_v3 : S6 V0 (Proc.devRef .tc main_v3) = rv_main_v3 (inR V0) :=
  (keep_pc9 (F := Ideal) (S5 V0) main_v3 (by ref_notin)).trans (r5_main_v3 V0)
theorem r6_main_v15 : S6 V0 (Proc.devRef .tc main_v15) = rv_main_v15 (inR V0) :=
  (keep_pc9 (F := Ideal) (S5 V0) main_v15 (by ref_notin)).trans (r5_main_v15 V0)
theorem r6_main_v20 : S6 V0 (Proc.devRef .tc main_v20) = rv_main_v20 (inR V0) :=
  (keep_pc9 (F := Ideal) (S5 V0) main_v20 (by ref_notin)).trans (r5_main_v20 V0)
theorem r6_main_arg0 : S6 V0 (Proc.devRef .tc main_arg0) = (inR V0).a0 :=
  (keep_pc9 (F := Ideal) (S5 V0) main_arg0 (by ref_notin)).trans (r5_main_arg0 V0)
theorem r6_main_arg10 : S6 V0 (Proc.devRef .tc main_arg10) = (inR V0).a10 :=
  (keep_pc9 (F := Ideal) (S5 V0) main_arg10 (by ref_notin)).trans (r5_main_arg10 V0)
theorem r6_main_arg11 : S6 V0 (Proc.devRef .tc main_arg11) = (inR V0).a11 :=
  (keep_pc9 (F := Ideal) (S5 V0) main_arg11 (by ref_notin)).trans (r5_main_arg11 V0)
theorem r6_main_arg6 : S6 V0 (Proc.devRef .tc main_arg6) = (inR V0).a6 :=
  (keep_pc9 (F := Ideal) (S5 V0) main_arg6 (by ref_notin)).trans (r5_main_arg6 V0)
theorem r6_main_arg7 : S6 V0 (Proc.devRef .tc main_arg7) = (inR V0).a7 :=
  (keep_pc9 (F := Ideal) (S5 V0) main_arg7 (by ref_notin)).trans (r5_main_arg7 V0)
theorem r6_main_arg8 : S6 V0 (Proc.devRef .tc main_arg8) = (inR V0).a8 :=
  (keep_pc9 (F := Ideal) (S5 V0) main_arg8 (by ref_notin)).trans (r5_main_arg8 V0)
theorem r6_main_arg9 : S6 V0 (Proc.devRef .tc main_arg9) = (inR V0).a9 :=
  (keep_pc9 (F := Ideal) (S5 V0) main_arg9 (by ref_notin)).trans (r5_main_arg9 V0)
theorem r6_main_arg12 : S6 V0 (Proc.devRef .tc main_arg12) = (inR V0).a12 :=
  (keep_pc9 (F := Ideal) (S5 V0) main_arg12 (by ref_notin)).trans (r5_main_arg12 V0)
theorem r6_main_arg13 : S6 V0 (Proc.devRef .tc main_arg13) = (inR V0).a13 :=
  (keep_pc9 (F := Ideal) (S5 V0) main_arg13 (by ref_notin)).trans (r5_main_arg13 V0)
theorem r6_main_v165 : S6 V0 (Proc.devRef .tc main_v165) = rv_main_v165 (inR V0) := by
  refine (c_main_v165 (F := Ideal) (S5 V0)).trans ?_
  rw [r5_main_arg8 V0]
  rfl
theorem r6_main_v167 : S6 V0 (Proc.devRef .tc main_v167) = rv_main_v167 (inR V0) := by
  refine (c_main_v167 (F := Ideal) (S5 V0)).trans ?_
  rw [r5_main_arg9 V0]
  rfl
theorem r6_main_v168 : S6 V0 (Proc.devRef .tc main_v168) = rv_main_v168 (inR V0) := by
  refine (c_main_v168 (F := Ideal) (S5 V0)).trans ?_
  rw [r5_main_v105 V0, show (after (pc9 (F := Ideal)) (S5 V0)) (Proc.devRef .tc main_v165) = _ from r6_main_v165 V0]
  rfl
theorem r6_main_v194 : S6 V0 (Proc.devRef .tc main_v194) = rv_main_v194 (inR V0) := by
  refine (c_main_v194 (F := Ideal) (S5 V0)).trans ?_
  rw [r5_main_v1 V0, r5_main_v3 V0, show (after (pc9 (F := Ideal)) (S5 V0)) (Proc.devRef .tc main_v168) = _ from r6_main_v168 V0, r5_main_v20 V0, r5_main_v15 V0]
  rfl
theorem r6_main_v198 : S6 V0 (Proc.devRef .tc main_v198) = rv_main_v198 (inR V0) := by
  refine (c_main_v198 (F := Ideal) (S5 V0)).trans ?_
  rw [r5_main_v163 V0, show (after (pc9 (F := Ideal)) (S5 V0)) (Proc.devRef .tc main_v194) = _ from r6_main_v194 V0, show (after (pc9 (F := Ideal)) (S5 V0)) (Proc.devRef .tc main_v167) = _ from r6_main_v167 V0]
  rfl

end Cert.ReferenceIdeal.Val

end
-- ==== Proof.RState3.lean ====
/- The contents of the reference program's buffers after each stretch of its operations: each named value's buffer holds that value of the argument arrays. -/
import proofs.«127768_j9405978378358_1_alg».proof.Proof.RVals
import proofs.«127768_j9405978378358_1_alg».proof.Proof.RSeg_chunk7
import proofs.«127768_j9405978378358_1_alg».proof.Proof.RSeg_chunk8
import proofs.«127768_j9405978378358_1_alg».proof.Proof.RSeg_chunk9
import proofs.«127768_j9405978378358_1_alg».proof.Proof.RState2
import proofs.«127768_j9405978378358_1_alg».proof.Proof.RefTac

set_option maxRecDepth 16384

noncomputable section

namespace Cert.ReferenceIdeal.Val

open Cert.ReferenceIdeal Cert.ReferenceIdeal.Gen Idealize.ShloMosaic Idealize.ShloMosaic.TcCoe Idealize.ShloMosaic.StableHlo

variable (V0 : Valuation τ sig (Elt Ideal))

/-- The contents after stretch 7. -/
abbrev S7 : Valuation τ sig (Elt Ideal) := (after (pc10 (F := Ideal)) (S6 V0))

theorem r7_main_v1 : S7 V0 (Proc.devRef .tc main_v1) = rv_main_v1 (inR V0) :=
  (keep_pc10 (F := Ideal) (S6 V0) main_v1 (by ref_notin)).trans (r6_main_v1 V0)
theorem r7_main_v3 : S7 V0 (Proc.devRef .tc main_v3) = rv_main_v3 (inR V0) :=
  (keep_pc10 (F := Ideal) (S6 V0) main_v3 (by ref_notin)).trans (r6_main_v3 V0)
theorem r7_main_v15 : S7 V0 (Proc.devRef .tc main_v15) = rv_main_v15 (inR V0) :=
  (keep_pc10 (F := Ideal) (S6 V0) main_v15 (by ref_notin)).trans (r6_main_v15 V0)
theorem r7_main_v20 : S7 V0 (Proc.devRef .tc main_v20) = rv_main_v20 (inR V0) :=
  (keep_pc10 (F := Ideal) (S6 V0) main_v20 (by ref_notin)).trans (r6_main_v20 V0)
theorem r7_main_v198 : S7 V0 (Proc.devRef .tc main_v198) = rv_main_v198 (inR V0) :=
  (keep_pc10 (F := Ideal) (S6 V0) main_v198 (by ref_notin)).trans (r6_main_v198 V0)
theorem r7_main_arg0 : S7 V0 (Proc.devRef .tc main_arg0) = (inR V0).a0 :=
  (keep_pc10 (F := Ideal) (S6 V0) main_arg0 (by ref_notin)).trans (r6_main_arg0 V0)
theorem r7_main_arg10 : S7 V0 (Proc.devRef .tc main_arg10) = (inR V0).a10 :=
  (keep_pc10 (F := Ideal) (S6 V0) main_arg10 (by ref_notin)).trans (r6_main_arg10 V0)
theorem r7_main_arg11 : S7 V0 (Proc.devRef .tc main_arg11) = (inR V0).a11 :=
  (keep_pc10 (F := Ideal) (S6 V0) main_arg11 (by ref_notin)).trans (r6_main_arg11 V0)
theorem r7_main_arg6 : S7 V0 (Proc.devRef .tc main_arg6) = (inR V0).a6 :=
  (keep_pc10 (F := Ideal) (S6 V0) main_arg6 (by ref_notin)).trans (r6_main_arg6 V0)
theorem r7_main_arg7 : S7 V0 (Proc.devRef .tc main_arg7) = (inR V0).a7 :=
  (keep_pc10 (F := Ideal) (S6 V0) main_arg7 (by ref_notin)).trans (r6_main_arg7 V0)
theorem r7_main_arg8 : S7 V0 (Proc.devRef .tc main_arg8) = (inR V0).a8 :=
  (keep_pc10 (F := Ideal) (S6 V0) main_arg8 (by ref_notin)).trans (r6_main_arg8 V0)
theorem r7_main_arg9 : S7 V0 (Proc.devRef .tc main_arg9) = (inR V0).a9 :=
  (keep_pc10 (F := Ideal) (S6 V0) main_arg9 (by ref_notin)).trans (r6_main_arg9 V0)
theorem r7_main_arg12 : S7 V0 (Proc.devRef .tc main_arg12) = (inR V0).a12 :=
  (keep_pc10 (F := Ideal) (S6 V0) main_arg12 (by ref_notin)).trans (r6_main_arg12 V0)
theorem r7_main_arg13 : S7 V0 (Proc.devRef .tc main_arg13) = (inR V0).a13 :=
  (keep_pc10 (F := Ideal) (S6 V0) main_arg13 (by ref_notin)).trans (r6_main_arg13 V0)
theorem r7_main_v200 : S7 V0 (Proc.devRef .tc main_v200) = rv_main_v200 (inR V0) := by
  refine (c_main_v200 (F := Ideal) (S6 V0)).trans ?_
  rw [r6_main_arg6 V0]
  rfl
theorem r7_main_v202 : S7 V0 (Proc.devRef .tc main_v202) = rv_main_v202 (inR V0) := by
  refine (c_main_v202 (F := Ideal) (S6 V0)).trans ?_
  rw [r6_main_arg7 V0]
  rfl
theorem r7_main_v203 : S7 V0 (Proc.devRef .tc main_v203) = rv_main_v203 (inR V0) := by
  refine (c_main_v203 (F := Ideal) (S6 V0)).trans ?_
  rw [r6_main_v198 V0, show (after (pc10 (F := Ideal)) (S6 V0)) (Proc.devRef .tc main_v200) = _ from r7_main_v200 V0]
  rfl
theorem r7_main_v229 : S7 V0 (Proc.devRef .tc main_v229) = rv_main_v229 (inR V0) := by
  refine (c_main_v229 (F := Ideal) (S6 V0)).trans ?_
  rw [r6_main_v1 V0, r6_main_v3 V0, show (after (pc10 (F := Ideal)) (S6 V0)) (Proc.devRef .tc main_v203) = _ from r7_main_v203 V0, r6_main_v20 V0, r6_main_v15 V0]
  rfl
theorem r7_main_v232 : S7 V0 (Proc.devRef .tc main_v232) = rv_main_v232 (inR V0) := by
  refine (c_main_v232 (F := Ideal) (S6 V0)).trans ?_
  rw [show (after (pc10 (F := Ideal)) (S6 V0)) (Proc.devRef .tc main_v229) = _ from r7_main_v229 V0, show (after (pc10 (F := Ideal)) (S6 V0)) (Proc.devRef .tc main_v202) = _ from r7_main_v202 V0]
  rfl

/-- The contents after stretch 8. -/
abbrev S8 : Valuation τ sig (Elt Ideal) := (after (pc12 (F := Ideal)) (after (pc11 (F := Ideal)) (S7 V0)))

theorem r8_main_v1 : S8 V0 (Proc.devRef .tc main_v1) = rv_main_v1 (inR V0) :=
  (keepS_chunk8 (F := Ideal) (S7 V0) main_v1 (by ref_notin) (by ref_notin)).trans (r7_main_v1 V0)
theorem r8_main_v3 : S8 V0 (Proc.devRef .tc main_v3) = rv_main_v3 (inR V0) :=
  (keepS_chunk8 (F := Ideal) (S7 V0) main_v3 (by ref_notin) (by ref_notin)).trans (r7_main_v3 V0)
theorem r8_main_v15 : S8 V0 (Proc.devRef .tc main_v15) = rv_main_v15 (inR V0) :=
  (keepS_chunk8 (F := Ideal) (S7 V0) main_v15 (by ref_notin) (by ref_notin)).trans (r7_main_v15 V0)
theorem r8_main_v20 : S8 V0 (Proc.devRef .tc main_v20) = rv_main_v20 (inR V0) :=
  (keepS_chunk8 (F := Ideal) (S7 V0) main_v20 (by ref_notin) (by ref_notin)).trans (r7_main_v20 V0)
theorem r8_main_v198 : S8 V0 (Proc.devRef .tc main_v198) = rv_main_v198 (inR V0) :=
  (keepS_chunk8 (F := Ideal) (S7 V0) main_v198 (by ref_notin) (by ref_notin)).trans (r7_main_v198 V0)
theorem r8_main_arg0 : S8 V0 (Proc.devRef .tc main_arg0) = (inR V0).a0 :=
  (keepS_chunk8 (F := Ideal) (S7 V0) main_arg0 (by ref_notin) (by ref_notin)).trans (r7_main_arg0 V0)
theorem r8_main_arg10 : S8 V0 (Proc.devRef .tc main_arg10) = (inR V0).a10 :=
  (keepS_chunk8 (F := Ideal) (S7 V0) main_arg10 (by ref_notin) (by ref_notin)).trans (r7_main_arg10 V0)
theorem r8_main_arg11 : S8 V0 (Proc.devRef .tc main_arg11) = (inR V0).a11 :=
  (keepS_chunk8 (F := Ideal) (S7 V0) main_arg11 (by ref_notin) (by ref_notin)).trans (r7_main_arg11 V0)
theorem r8_main_arg6 : S8 V0 (Proc.devRef .tc main_arg6) = (inR V0).a6 :=
  (keepS_chunk8 (F := Ideal) (S7 V0) main_arg6 (by ref_notin) (by ref_notin)).trans (r7_main_arg6 V0)
theorem r8_main_arg7 : S8 V0 (Proc.devRef .tc main_arg7) = (inR V0).a7 :=
  (keepS_chunk8 (F := Ideal) (S7 V0) main_arg7 (by ref_notin) (by ref_notin)).trans (r7_main_arg7 V0)
theorem r8_main_arg8 : S8 V0 (Proc.devRef .tc main_arg8) = (inR V0).a8 :=
  (keepS_chunk8 (F := Ideal) (S7 V0) main_arg8 (by ref_notin) (by ref_notin)).trans (r7_main_arg8 V0)
theorem r8_main_arg9 : S8 V0 (Proc.devRef .tc main_arg9) = (inR V0).a9 :=
  (keepS_chunk8 (F := Ideal) (S7 V0) main_arg9 (by ref_notin) (by ref_notin)).trans (r7_main_arg9 V0)
theorem r8_main_arg12 : S8 V0 (Proc.devRef .tc main_arg12) = (inR V0).a12 :=
  (keepS_chunk8 (F := Ideal) (S7 V0) main_arg12 (by ref_notin) (by ref_notin)).trans (r7_main_arg12 V0)
theorem r8_main_arg13 : S8 V0 (Proc.devRef .tc main_arg13) = (inR V0).a13 :=
  (keepS_chunk8 (F := Ideal) (S7 V0) main_arg13 (by ref_notin) (by ref_notin)).trans (r7_main_arg13 V0)
theorem r8_main_v234 : S8 V0 (Proc.devRef .tc main_v234) = rv_main_v234 (inR V0) := by
  refine (c_main_v234 (F := Ideal) (S7 V0)).trans ?_
  rw [r7_main_arg10 V0]
  rfl
theorem r8_main_v236 : S8 V0 (Proc.devRef .tc main_v236) = rv_main_v236 (inR V0) := by
  refine (c_main_v236 (F := Ideal) (S7 V0)).trans ?_
  rw [r7_main_arg11 V0]
  rfl
theorem r8_main_v239 : S8 V0 (Proc.devRef .tc main_v239) = rv_main_v239 (inR V0) := by
  refine (c_main_v239 (F := Ideal) (S7 V0)).trans ?_
  rw [r7_main_v232 V0]
  rfl
theorem r8_main_call6_v5 : S8 V0 (Proc.devRef .tc main_call6_v5) = rv_main_call6_v5 (inR V0) := by
  refine (c_main_call6_v5 (F := Ideal) (S7 V0)).trans ?_
  rw [r7_main_v232 V0]
  rfl
theorem r8_main_call6_v8 : S8 V0 (Proc.devRef .tc main_call6_v8) = rv_main_call6_v8 (inR V0) := by
  refine (c_main_call6_v8 (F := Ideal) (S7 V0)).trans ?_
  rfl
theorem r8_main_call6_v11 : S8 V0 (Proc.devRef .tc main_call6_v11) = rv_main_call6_v11 (inR V0) := by
  refine (c_main_call6_v11 (F := Ideal) (S7 V0)).trans ?_
  rw [show (after (pc12 (F := Ideal)) (after (pc11 (F := Ideal)) (S7 V0))) (Proc.devRef .tc main_call6_v5) = _ from r8_main_call6_v5 V0, show (after (pc12 (F := Ideal)) (after (pc11 (F := Ideal)) (S7 V0))) (Proc.devRef .tc main_call6_v8) = _ from r8_main_call6_v8 V0]
  rfl
theorem r8_main_v240 : S8 V0 (Proc.devRef .tc main_v240) = rv_main_v240 (inR V0) := by
  refine (c_main_v240 (F := Ideal) (S7 V0)).trans ?_
  rw [show (after (pc12 (F := Ideal)) (after (pc11 (F := Ideal)) (S7 V0))) (Proc.devRef .tc main_call6_v8) = _ from r8_main_call6_v8 V0, show (after (pc12 (F := Ideal)) (after (pc11 (F := Ideal)) (S7 V0))) (Proc.devRef .tc main_call6_v11) = _ from r8_main_call6_v11 V0]
  rfl
theorem r8_main_v256 : S8 V0 (Proc.devRef .tc main_v256) = rv_main_v256 (inR V0) := by
  refine (c_main_v256 (F := Ideal) (S7 V0)).trans ?_
  rw [show (after (pc12 (F := Ideal)) (after (pc11 (F := Ideal)) (S7 V0))) (Proc.devRef .tc main_v234) = _ from r8_main_v234 V0, r7_main_v232 V0, show (after (pc12 (F := Ideal)) (after (pc11 (F := Ideal)) (S7 V0))) (Proc.devRef .tc main_v239) = _ from r8_main_v239 V0, show (after (pc12 (F := Ideal)) (after (pc11 (F := Ideal)) (S7 V0))) (Proc.devRef .tc main_v240) = _ from r8_main_v240 V0, show (after (pc12 (F := Ideal)) (after (pc11 (F := Ideal)) (S7 V0))) (Proc.devRef .tc main_v236) = _ from r8_main_v236 V0]
  rfl

/-- The contents after stretch 9. -/
abbrev S9 : Valuation τ sig (Elt Ideal) := (after (pc13 (F := Ideal)) (S8 V0))

theorem r9_main_v1 : S9 V0 (Proc.devRef .tc main_v1) = rv_main_v1 (inR V0) :=
  (keep_pc13 (F := Ideal) (S8 V0) main_v1 (by ref_notin)).trans (r8_main_v1 V0)
theorem r9_main_v3 : S9 V0 (Proc.devRef .tc main_v3) = rv_main_v3 (inR V0) :=
  (keep_pc13 (F := Ideal) (S8 V0) main_v3 (by ref_notin)).trans (r8_main_v3 V0)
theorem r9_main_v15 : S9 V0 (Proc.devRef .tc main_v15) = rv_main_v15 (inR V0) :=
  (keep_pc13 (F := Ideal) (S8 V0) main_v15 (by ref_notin)).trans (r8_main_v15 V0)
theorem r9_main_v20 : S9 V0 (Proc.devRef .tc main_v20) = rv_main_v20 (inR V0) :=
  (keep_pc13 (F := Ideal) (S8 V0) main_v20 (by ref_notin)).trans (r8_main_v20 V0)
theorem r9_main_arg0 : S9 V0 (Proc.devRef .tc main_arg0) = (inR V0).a0 :=
  (keep_pc13 (F := Ideal) (S8 V0) main_arg0 (by ref_notin)).trans (r8_main_arg0 V0)
theorem r9_main_arg10 : S9 V0 (Proc.devRef .tc main_arg10) = (inR V0).a10 :=
  (keep_pc13 (F := Ideal) (S8 V0) main_arg10 (by ref_notin)).trans (r8_main_arg10 V0)
theorem r9_main_arg11 : S9 V0 (Proc.devRef .tc main_arg11) = (inR V0).a11 :=
  (keep_pc13 (F := Ideal) (S8 V0) main_arg11 (by ref_notin)).trans (r8_main_arg11 V0)
theorem r9_main_arg6 : S9 V0 (Proc.devRef .tc main_arg6) = (inR V0).a6 :=
  (keep_pc13 (F := Ideal) (S8 V0) main_arg6 (by ref_notin)).trans (r8_main_arg6 V0)
theorem r9_main_arg7 : S9 V0 (Proc.devRef .tc main_arg7) = (inR V0).a7 :=
  (keep_pc13 (F := Ideal) (S8 V0) main_arg7 (by ref_notin)).trans (r8_main_arg7 V0)
theorem r9_main_arg8 : S9 V0 (Proc.devRef .tc main_arg8) = (inR V0).a8 :=
  (keep_pc13 (F := Ideal) (S8 V0) main_arg8 (by ref_notin)).trans (r8_main_arg8 V0)
theorem r9_main_arg9 : S9 V0 (Proc.devRef .tc main_arg9) = (inR V0).a9 :=
  (keep_pc13 (F := Ideal) (S8 V0) main_arg9 (by ref_notin)).trans (r8_main_arg9 V0)
theorem r9_main_arg12 : S9 V0 (Proc.devRef .tc main_arg12) = (inR V0).a12 :=
  (keep_pc13 (F := Ideal) (S8 V0) main_arg12 (by ref_notin)).trans (r8_main_arg12 V0)
theorem r9_main_arg13 : S9 V0 (Proc.devRef .tc main_arg13) = (inR V0).a13 :=
  (keep_pc13 (F := Ideal) (S8 V0) main_arg13 (by ref_notin)).trans (r8_main_arg13 V0)
theorem r9_main_v258 : S9 V0 (Proc.devRef .tc main_v258) = rv_main_v258 (inR V0) := by
  refine (c_main_v258 (F := Ideal) (S8 V0)).trans ?_
  rw [r8_main_arg8 V0]
  rfl
theorem r9_main_v260 : S9 V0 (Proc.devRef .tc main_v260) = rv_main_v260 (inR V0) := by
  refine (c_main_v260 (F := Ideal) (S8 V0)).trans ?_
  rw [r8_main_arg9 V0]
  rfl
theorem r9_main_v261 : S9 V0 (Proc.devRef .tc main_v261) = rv_main_v261 (inR V0) := by
  refine (c_main_v261 (F := Ideal) (S8 V0)).trans ?_
  rw [r8_main_v198 V0, show (after (pc13 (F := Ideal)) (S8 V0)) (Proc.devRef .tc main_v258) = _ from r9_main_v258 V0]
  rfl
theorem r9_main_v287 : S9 V0 (Proc.devRef .tc main_v287) = rv_main_v287 (inR V0) := by
  refine (c_main_v287 (F := Ideal) (S8 V0)).trans ?_
  rw [r8_main_v1 V0, r8_main_v3 V0, show (after (pc13 (F := Ideal)) (S8 V0)) (Proc.devRef .tc main_v261) = _ from r9_main_v261 V0, r8_main_v20 V0, r8_main_v15 V0]
  rfl
theorem r9_main_v291 : S9 V0 (Proc.devRef .tc main_v291) = rv_main_v291 (inR V0) := by
  refine (c_main_v291 (F := Ideal) (S8 V0)).trans ?_
  rw [r8_main_v256 V0, show (after (pc13 (F := Ideal)) (S8 V0)) (Proc.devRef .tc main_v287) = _ from r9_main_v287 V0, show (after (pc13 (F := Ideal)) (S8 V0)) (Proc.devRef .tc main_v260) = _ from r9_main_v260 V0]
  rfl

end Cert.ReferenceIdeal.Val

end
-- ==== Proof.RState4.lean ====
/- The contents of the reference program's buffers after each stretch of its operations: each named value's buffer holds that value of the argument arrays. -/
import proofs.«127768_j9405978378358_1_alg».proof.Proof.RVals
import proofs.«127768_j9405978378358_1_alg».proof.Proof.RSeg_chunk10
import proofs.«127768_j9405978378358_1_alg».proof.Proof.RSeg_chunk11
import proofs.«127768_j9405978378358_1_alg».proof.Proof.RSeg_chunk12
import proofs.«127768_j9405978378358_1_alg».proof.Proof.RState3
import proofs.«127768_j9405978378358_1_alg».proof.Proof.RefTac

set_option maxRecDepth 16384

noncomputable section

namespace Cert.ReferenceIdeal.Val

open Cert.ReferenceIdeal Cert.ReferenceIdeal.Gen Idealize.ShloMosaic Idealize.ShloMosaic.TcCoe Idealize.ShloMosaic.StableHlo

variable (V0 : Valuation τ sig (Elt Ideal))

/-- The contents after stretch 10. -/
abbrev S10 : Valuation τ sig (Elt Ideal) := (after (pc15 (F := Ideal)) (after (pc14 (F := Ideal)) (S9 V0)))

theorem r10_main_v1 : S10 V0 (Proc.devRef .tc main_v1) = rv_main_v1 (inR V0) :=
  (keepS_chunk10 (F := Ideal) (S9 V0) main_v1 (by ref_notin) (by ref_notin)).trans (r9_main_v1 V0)
theorem r10_main_v3 : S10 V0 (Proc.devRef .tc main_v3) = rv_main_v3 (inR V0) :=
  (keepS_chunk10 (F := Ideal) (S9 V0) main_v3 (by ref_notin) (by ref_notin)).trans (r9_main_v3 V0)
theorem r10_main_v15 : S10 V0 (Proc.devRef .tc main_v15) = rv_main_v15 (inR V0) :=
  (keepS_chunk10 (F := Ideal) (S9 V0) main_v15 (by ref_notin) (by ref_notin)).trans (r9_main_v15 V0)
theorem r10_main_v20 : S10 V0 (Proc.devRef .tc main_v20) = rv_main_v20 (inR V0) :=
  (keepS_chunk10 (F := Ideal) (S9 V0) main_v20 (by ref_notin) (by ref_notin)).trans (r9_main_v20 V0)
theorem r10_main_v291 : S10 V0 (Proc.devRef .tc main_v291) = rv_main_v291 (inR V0) :=
  (keepS_chunk10 (F := Ideal) (S9 V0) main_v291 (by ref_notin) (by ref_notin)).trans (r9_main_v291 V0)
theorem r10_main_arg0 : S10 V0 (Proc.devRef .tc main_arg0) = (inR V0).a0 :=
  (keepS_chunk10 (F := Ideal) (S9 V0) main_arg0 (by ref_notin) (by ref_notin)).trans (r9_main_arg0 V0)
theorem r10_main_arg10 : S10 V0 (Proc.devRef .tc main_arg10) = (inR V0).a10 :=
  (keepS_chunk10 (F := Ideal) (S9 V0) main_arg10 (by ref_notin) (by ref_notin)).trans (r9_main_arg10 V0)
theorem r10_main_arg11 : S10 V0 (Proc.devRef .tc main_arg11) = (inR V0).a11 :=
  (keepS_chunk10 (F := Ideal) (S9 V0) main_arg11 (by ref_notin) (by ref_notin)).trans (r9_main_arg11 V0)
theorem r10_main_arg6 : S10 V0 (Proc.devRef .tc main_arg6) = (inR V0).a6 :=
  (keepS_chunk10 (F := Ideal) (S9 V0) main_arg6 (by ref_notin) (by ref_notin)).trans (r9_main_arg6 V0)
theorem r10_main_arg7 : S10 V0 (Proc.devRef .tc main_arg7) = (inR V0).a7 :=
  (keepS_chunk10 (F := Ideal) (S9 V0) main_arg7 (by ref_notin) (by ref_notin)).trans (r9_main_arg7 V0)
theorem r10_main_arg8 : S10 V0 (Proc.devRef .tc main_arg8) = (inR V0).a8 :=
  (keepS_chunk10 (F := Ideal) (S9 V0) main_arg8 (by ref_notin) (by ref_notin)).trans (r9_main_arg8 V0)
theorem r10_main_arg9 : S10 V0 (Proc.devRef .tc main_arg9) = (inR V0).a9 :=
  (keepS_chunk10 (F := Ideal) (S9 V0) main_arg9 (by ref_notin) (by ref_notin)).trans (r9_main_arg9 V0)
theorem r10_main_arg12 : S10 V0 (Proc.devRef .tc main_arg12) = (inR V0).a12 :=
  (keepS_chunk10 (F := Ideal) (S9 V0) main_arg12 (by ref_notin) (by ref_notin)).trans (r9_main_arg12 V0)
theorem r10_main_arg13 : S10 V0 (Proc.devRef .tc main_arg13) = (inR V0).a13 :=
  (keepS_chunk10 (F := Ideal) (S9 V0) main_arg13 (by ref_notin) (by ref_notin)).trans (r9_main_arg13 V0)
theorem r10_main_v293 : S10 V0 (Proc.devRef .tc main_v293) = rv_main_v293 (inR V0) := by
  refine (c_main_v293 (F := Ideal) (S9 V0)).trans ?_
  rw [r9_main_arg6 V0]
  rfl
theorem r10_main_v295 : S10 V0 (Proc.devRef .tc main_v295) = rv_main_v295 (inR V0) := by
  refine (c_main_v295 (F := Ideal) (S9 V0)).trans ?_
  rw [r9_main_arg7 V0]
  rfl
theorem r10_main_v296 : S10 V0 (Proc.devRef .tc main_v296) = rv_main_v296 (inR V0) := by
  refine (c_main_v296 (F := Ideal) (S9 V0)).trans ?_
  rw [r9_main_v291 V0, show (after (pc15 (F := Ideal)) (after (pc14 (F := Ideal)) (S9 V0))) (Proc.devRef .tc main_v293) = _ from r10_main_v293 V0]
  rfl
theorem r10_main_v322 : S10 V0 (Proc.devRef .tc main_v322) = rv_main_v322 (inR V0) := by
  refine (c_main_v322 (F := Ideal) (S9 V0)).trans ?_
  rw [r9_main_v1 V0, r9_main_v3 V0, show (after (pc15 (F := Ideal)) (after (pc14 (F := Ideal)) (S9 V0))) (Proc.devRef .tc main_v296) = _ from r10_main_v296 V0, r9_main_v20 V0, r9_main_v15 V0]
  rfl
theorem r10_main_v325 : S10 V0 (Proc.devRef .tc main_v325) = rv_main_v325 (inR V0) := by
  refine (c_main_v325 (F := Ideal) (S9 V0)).trans ?_
  rw [show (after (pc15 (F := Ideal)) (after (pc14 (F := Ideal)) (S9 V0))) (Proc.devRef .tc main_v322) = _ from r10_main_v322 V0, show (after (pc15 (F := Ideal)) (after (pc14 (F := Ideal)) (S9 V0))) (Proc.devRef .tc main_v295) = _ from r10_main_v295 V0]
  rfl

/-- The contents after stretch 11. -/
abbrev S11 : Valuation τ sig (Elt Ideal) := (after (pc16 (F := Ideal)) (S10 V0))

theorem r11_main_v1 : S11 V0 (Proc.devRef .tc main_v1) = rv_main_v1 (inR V0) :=
  (keep_pc16 (F := Ideal) (S10 V0) main_v1 (by ref_notin)).trans (r10_main_v1 V0)
theorem r11_main_v3 : S11 V0 (Proc.devRef .tc main_v3) = rv_main_v3 (inR V0) :=
  (keep_pc16 (F := Ideal) (S10 V0) main_v3 (by ref_notin)).trans (r10_main_v3 V0)
theorem r11_main_v15 : S11 V0 (Proc.devRef .tc main_v15) = rv_main_v15 (inR V0) :=
  (keep_pc16 (F := Ideal) (S10 V0) main_v15 (by ref_notin)).trans (r10_main_v15 V0)
theorem r11_main_v20 : S11 V0 (Proc.devRef .tc main_v20) = rv_main_v20 (inR V0) :=
  (keep_pc16 (F := Ideal) (S10 V0) main_v20 (by ref_notin)).trans (r10_main_v20 V0)
theorem r11_main_v291 : S11 V0 (Proc.devRef .tc main_v291) = rv_main_v291 (inR V0) :=
  (keep_pc16 (F := Ideal) (S10 V0) main_v291 (by ref_notin)).trans (r10_main_v291 V0)
theorem r11_main_arg0 : S11 V0 (Proc.devRef .tc main_arg0) = (inR V0).a0 :=
  (keep_pc16 (F := Ideal) (S10 V0) main_arg0 (by ref_notin)).trans (r10_main_arg0 V0)
theorem r11_main_arg10 : S11 V0 (Proc.devRef .tc main_arg10) = (inR V0).a10 :=
  (keep_pc16 (F := Ideal) (S10 V0) main_arg10 (by ref_notin)).trans (r10_main_arg10 V0)
theorem r11_main_arg11 : S11 V0 (Proc.devRef .tc main_arg11) = (inR V0).a11 :=
  (keep_pc16 (F := Ideal) (S10 V0) main_arg11 (by ref_notin)).trans (r10_main_arg11 V0)
theorem r11_main_arg6 : S11 V0 (Proc.devRef .tc main_arg6) = (inR V0).a6 :=
  (keep_pc16 (F := Ideal) (S10 V0) main_arg6 (by ref_notin)).trans (r10_main_arg6 V0)
theorem r11_main_arg7 : S11 V0 (Proc.devRef .tc main_arg7) = (inR V0).a7 :=
  (keep_pc16 (F := Ideal) (S10 V0) main_arg7 (by ref_notin)).trans (r10_main_arg7 V0)
theorem r11_main_arg8 : S11 V0 (Proc.devRef .tc main_arg8) = (inR V0).a8 :=
  (keep_pc16 (F := Ideal) (S10 V0) main_arg8 (by ref_notin)).trans (r10_main_arg8 V0)
theorem r11_main_arg9 : S11 V0 (Proc.devRef .tc main_arg9) = (inR V0).a9 :=
  (keep_pc16 (F := Ideal) (S10 V0) main_arg9 (by ref_notin)).trans (r10_main_arg9 V0)
theorem r11_main_arg12 : S11 V0 (Proc.devRef .tc main_arg12) = (inR V0).a12 :=
  (keep_pc16 (F := Ideal) (S10 V0) main_arg12 (by ref_notin)).trans (r10_main_arg12 V0)
theorem r11_main_arg13 : S11 V0 (Proc.devRef .tc main_arg13) = (inR V0).a13 :=
  (keep_pc16 (F := Ideal) (S10 V0) main_arg13 (by ref_notin)).trans (r10_main_arg13 V0)
theorem r11_main_v327 : S11 V0 (Proc.devRef .tc main_v327) = rv_main_v327 (inR V0) := by
  refine (c_main_v327 (F := Ideal) (S10 V0)).trans ?_
  rw [r10_main_arg10 V0]
  rfl
theorem r11_main_v329 : S11 V0 (Proc.devRef .tc main_v329) = rv_main_v329 (inR V0) := by
  refine (c_main_v329 (F := Ideal) (S10 V0)).trans ?_
  rw [r10_main_arg11 V0]
  rfl
theorem r11_main_v332 : S11 V0 (Proc.devRef .tc main_v332) = rv_main_v332 (inR V0) := by
  refine (c_main_v332 (F := Ideal) (S10 V0)).trans ?_
  rw [r10_main_v325 V0]
  rfl
theorem r11_main_call8_v5 : S11 V0 (Proc.devRef .tc main_call8_v5) = rv_main_call8_v5 (inR V0) := by
  refine (c_main_call8_v5 (F := Ideal) (S10 V0)).trans ?_
  rw [r10_main_v325 V0]
  rfl
theorem r11_main_call8_v8 : S11 V0 (Proc.devRef .tc main_call8_v8) = rv_main_call8_v8 (inR V0) := by
  refine (c_main_call8_v8 (F := Ideal) (S10 V0)).trans ?_
  rfl
theorem r11_main_call8_v11 : S11 V0 (Proc.devRef .tc main_call8_v11) = rv_main_call8_v11 (inR V0) := by
  refine (c_main_call8_v11 (F := Ideal) (S10 V0)).trans ?_
  rw [show (after (pc16 (F := Ideal)) (S10 V0)) (Proc.devRef .tc main_call8_v5) = _ from r11_main_call8_v5 V0, show (after (pc16 (F := Ideal)) (S10 V0)) (Proc.devRef .tc main_call8_v8) = _ from r11_main_call8_v8 V0]
  rfl
theorem r11_main_v333 : S11 V0 (Proc.devRef .tc main_v333) = rv_main_v333 (inR V0) := by
  refine (c_main_v333 (F := Ideal) (S10 V0)).trans ?_
  rw [show (after (pc16 (F := Ideal)) (S10 V0)) (Proc.devRef .tc main_call8_v8) = _ from r11_main_call8_v8 V0, show (after (pc16 (F := Ideal)) (S10 V0)) (Proc.devRef .tc main_call8_v11) = _ from r11_main_call8_v11 V0]
  rfl
theorem r11_main_v349 : S11 V0 (Proc.devRef .tc main_v349) = rv_main_v349 (inR V0) := by
  refine (c_main_v349 (F := Ideal) (S10 V0)).trans ?_
  rw [show (after (pc16 (F := Ideal)) (S10 V0)) (Proc.devRef .tc main_v327) = _ from r11_main_v327 V0, r10_main_v325 V0, show (after (pc16 (F := Ideal)) (S10 V0)) (Proc.devRef .tc main_v332) = _ from r11_main_v332 V0, show (after (pc16 (F := Ideal)) (S10 V0)) (Proc.devRef .tc main_v333) = _ from r11_main_v333 V0, show (after (pc16 (F := Ideal)) (S10 V0)) (Proc.devRef .tc main_v329) = _ from r11_main_v329 V0]
  rfl

/-- The contents after stretch 12. -/
abbrev S12 : Valuation τ sig (Elt Ideal) := (after (pc18 (F := Ideal)) (after (pc17 (F := Ideal)) (S11 V0)))

theorem r12_main_v1 : S12 V0 (Proc.devRef .tc main_v1) = rv_main_v1 (inR V0) :=
  (keepS_chunk12 (F := Ideal) (S11 V0) main_v1 (by ref_notin) (by ref_notin)).trans (r11_main_v1 V0)
theorem r12_main_v3 : S12 V0 (Proc.devRef .tc main_v3) = rv_main_v3 (inR V0) :=
  (keepS_chunk12 (F := Ideal) (S11 V0) main_v3 (by ref_notin) (by ref_notin)).trans (r11_main_v3 V0)
theorem r12_main_v15 : S12 V0 (Proc.devRef .tc main_v15) = rv_main_v15 (inR V0) :=
  (keepS_chunk12 (F := Ideal) (S11 V0) main_v15 (by ref_notin) (by ref_notin)).trans (r11_main_v15 V0)
theorem r12_main_v20 : S12 V0 (Proc.devRef .tc main_v20) = rv_main_v20 (inR V0) :=
  (keepS_chunk12 (F := Ideal) (S11 V0) main_v20 (by ref_notin) (by ref_notin)).trans (r11_main_v20 V0)
theorem r12_main_arg0 : S12 V0 (Proc.devRef .tc main_arg0) = (inR V0).a0 :=
  (keepS_chunk12 (F := Ideal) (S11 V0) main_arg0 (by ref_notin) (by ref_notin)).trans (r11_main_arg0 V0)
theorem r12_main_arg10 : S12 V0 (Proc.devRef .tc main_arg10) = (inR V0).a10 :=
  (keepS_chunk12 (F := Ideal) (S11 V0) main_arg10 (by ref_notin) (by ref_notin)).trans (r11_main_arg10 V0)
theorem r12_main_arg11 : S12 V0 (Proc.devRef .tc main_arg11) = (inR V0).a11 :=
  (keepS_chunk12 (F := Ideal) (S11 V0) main_arg11 (by ref_notin) (by ref_notin)).trans (r11_main_arg11 V0)
theorem r12_main_arg6 : S12 V0 (Proc.devRef .tc main_arg6) = (inR V0).a6 :=
  (keepS_chunk12 (F := Ideal) (S11 V0) main_arg6 (by ref_notin) (by ref_notin)).trans (r11_main_arg6 V0)
theorem r12_main_arg7 : S12 V0 (Proc.devRef .tc main_arg7) = (inR V0).a7 :=
  (keepS_chunk12 (F := Ideal) (S11 V0) main_arg7 (by ref_notin) (by ref_notin)).trans (r11_main_arg7 V0)
theorem r12_main_arg8 : S12 V0 (Proc.devRef .tc main_arg8) = (inR V0).a8 :=
  (keepS_chunk12 (F := Ideal) (S11 V0) main_arg8 (by ref_notin) (by ref_notin)).trans (r11_main_arg8 V0)
theorem r12_main_arg9 : S12 V0 (Proc.devRef .tc main_arg9) = (inR V0).a9 :=
  (keepS_chunk12 (F := Ideal) (S11 V0) main_arg9 (by ref_notin) (by ref_notin)).trans (r11_main_arg9 V0)
theorem r12_main_arg12 : S12 V0 (Proc.devRef .tc main_arg12) = (inR V0).a12 :=
  (keepS_chunk12 (F := Ideal) (S11 V0) main_arg12 (by ref_notin) (by ref_notin)).trans (r11_main_arg12 V0)
theorem r12_main_arg13 : S12 V0 (Proc.devRef .tc main_arg13) = (inR V0).a13 :=
  (keepS_chunk12 (F := Ideal) (S11 V0) main_arg13 (by ref_notin) (by ref_notin)).trans (r11_main_arg13 V0)
theorem r12_main_v351 : S12 V0 (Proc.devRef .tc main_v351) = rv_main_v351 (inR V0) := by
  refine (c_main_v351 (F := Ideal) (S11 V0)).trans ?_
  rw [r11_main_arg8 V0]
  rfl
theorem r12_main_v353 : S12 V0 (Proc.devRef .tc main_v353) = rv_main_v353 (inR V0) := by
  refine (c_main_v353 (F := Ideal) (S11 V0)).trans ?_
  rw [r11_main_arg9 V0]
  rfl
theorem r12_main_v354 : S12 V0 (Proc.devRef .tc main_v354) = rv_main_v354 (inR V0) := by
  refine (c_main_v354 (F := Ideal) (S11 V0)).trans ?_
  rw [r11_main_v291 V0, show (after (pc18 (F := Ideal)) (after (pc17 (F := Ideal)) (S11 V0))) (Proc.devRef .tc main_v351) = _ from r12_main_v351 V0]
  rfl
theorem r12_main_v380 : S12 V0 (Proc.devRef .tc main_v380) = rv_main_v380 (inR V0) := by
  refine (c_main_v380 (F := Ideal) (S11 V0)).trans ?_
  rw [r11_main_v1 V0, r11_main_v3 V0, show (after (pc18 (F := Ideal)) (after (pc17 (F := Ideal)) (S11 V0))) (Proc.devRef .tc main_v354) = _ from r12_main_v354 V0, r11_main_v20 V0, r11_main_v15 V0]
  rfl
theorem r12_main_v384 : S12 V0 (Proc.devRef .tc main_v384) = rv_main_v384 (inR V0) := by
  refine (c_main_v384 (F := Ideal) (S11 V0)).trans ?_
  rw [r11_main_v349 V0, show (after (pc18 (F := Ideal)) (after (pc17 (F := Ideal)) (S11 V0))) (Proc.devRef .tc main_v380) = _ from r12_main_v380 V0, show (after (pc18 (F := Ideal)) (after (pc17 (F := Ideal)) (S11 V0))) (Proc.devRef .tc main_v353) = _ from r12_main_v353 V0]
  rfl

end Cert.ReferenceIdeal.Val

end
-- ==== Proof.RState5.lean ====
/- The contents of the reference program's buffers after each stretch of its operations: each named value's buffer holds that value of the argument arrays. -/
import proofs.«127768_j9405978378358_1_alg».proof.Proof.RVals
import proofs.«127768_j9405978378358_1_alg».proof.Proof.RSeg_chunk13
import proofs.«127768_j9405978378358_1_alg».proof.Proof.RSeg_chunk14
import proofs.«127768_j9405978378358_1_alg».proof.Proof.RSeg_chunk15
import proofs.«127768_j9405978378358_1_alg».proof.Proof.RState4
import proofs.«127768_j9405978378358_1_alg».proof.Proof.RefTac

set_option maxRecDepth 16384

noncomputable section

namespace Cert.ReferenceIdeal.Val

open Cert.ReferenceIdeal Cert.ReferenceIdeal.Gen Idealize.ShloMosaic Idealize.ShloMosaic.TcCoe Idealize.ShloMosaic.StableHlo

variable (V0 : Valuation τ sig (Elt Ideal))

/-- The contents after stretch 13. -/
abbrev S13 : Valuation τ sig (Elt Ideal) := (after (pc20 (F := Ideal)) (after (pc19 (F := Ideal)) (S12 V0)))

theorem r13_main_v1 : S13 V0 (Proc.devRef .tc main_v1) = rv_main_v1 (inR V0) :=
  (keepS_chunk13 (F := Ideal) (S12 V0) main_v1 (by ref_notin) (by ref_notin)).trans (r12_main_v1 V0)
theorem r13_main_v3 : S13 V0 (Proc.devRef .tc main_v3) = rv_main_v3 (inR V0) :=
  (keepS_chunk13 (F := Ideal) (S12 V0) main_v3 (by ref_notin) (by ref_notin)).trans (r12_main_v3 V0)
theorem r13_main_v15 : S13 V0 (Proc.devRef .tc main_v15) = rv_main_v15 (inR V0) :=
  (keepS_chunk13 (F := Ideal) (S12 V0) main_v15 (by ref_notin) (by ref_notin)).trans (r12_main_v15 V0)
theorem r13_main_v20 : S13 V0 (Proc.devRef .tc main_v20) = rv_main_v20 (inR V0) :=
  (keepS_chunk13 (F := Ideal) (S12 V0) main_v20 (by ref_notin) (by ref_notin)).trans (r12_main_v20 V0)
theorem r13_main_v384 : S13 V0 (Proc.devRef .tc main_v384) = rv_main_v384 (inR V0) :=
  (keepS_chunk13 (F := Ideal) (S12 V0) main_v384 (by ref_notin) (by ref_notin)).trans (r12_main_v384 V0)
theorem r13_main_arg0 : S13 V0 (Proc.devRef .tc main_arg0) = (inR V0).a0 :=
  (keepS_chunk13 (F := Ideal) (S12 V0) main_arg0 (by ref_notin) (by ref_notin)).trans (r12_main_arg0 V0)
theorem r13_main_arg10 : S13 V0 (Proc.devRef .tc main_arg10) = (inR V0).a10 :=
  (keepS_chunk13 (F := Ideal) (S12 V0) main_arg10 (by ref_notin) (by ref_notin)).trans (r12_main_arg10 V0)
theorem r13_main_arg11 : S13 V0 (Proc.devRef .tc main_arg11) = (inR V0).a11 :=
  (keepS_chunk13 (F := Ideal) (S12 V0) main_arg11 (by ref_notin) (by ref_notin)).trans (r12_main_arg11 V0)
theorem r13_main_arg6 : S13 V0 (Proc.devRef .tc main_arg6) = (inR V0).a6 :=
  (keepS_chunk13 (F := Ideal) (S12 V0) main_arg6 (by ref_notin) (by ref_notin)).trans (r12_main_arg6 V0)
theorem r13_main_arg7 : S13 V0 (Proc.devRef .tc main_arg7) = (inR V0).a7 :=
  (keepS_chunk13 (F := Ideal) (S12 V0) main_arg7 (by ref_notin) (by ref_notin)).trans (r12_main_arg7 V0)
theorem r13_main_arg8 : S13 V0 (Proc.devRef .tc main_arg8) = (inR V0).a8 :=
  (keepS_chunk13 (F := Ideal) (S12 V0) main_arg8 (by ref_notin) (by ref_notin)).trans (r12_main_arg8 V0)
theorem r13_main_arg9 : S13 V0 (Proc.devRef .tc main_arg9) = (inR V0).a9 :=
  (keepS_chunk13 (F := Ideal) (S12 V0) main_arg9 (by ref_notin) (by ref_notin)).trans (r12_main_arg9 V0)
theorem r13_main_arg12 : S13 V0 (Proc.devRef .tc main_arg12) = (inR V0).a12 :=
  (keepS_chunk13 (F := Ideal) (S12 V0) main_arg12 (by ref_notin) (by ref_notin)).trans (r12_main_arg12 V0)
theorem r13_main_arg13 : S13 V0 (Proc.devRef .tc main_arg13) = (inR V0).a13 :=
  (keepS_chunk13 (F := Ideal) (S12 V0) main_arg13 (by ref_notin) (by ref_notin)).trans (r12_main_arg13 V0)
theorem r13_main_v386 : S13 V0 (Proc.devRef .tc main_v386) = rv_main_v386 (inR V0) := by
  refine (c_main_v386 (F := Ideal) (S12 V0)).trans ?_
  rw [r12_main_arg6 V0]
  rfl
theorem r13_main_v388 : S13 V0 (Proc.devRef .tc main_v388) = rv_main_v388 (inR V0) := by
  refine (c_main_v388 (F := Ideal) (S12 V0)).trans ?_
  rw [r12_main_arg7 V0]
  rfl
theorem r13_main_v389 : S13 V0 (Proc.devRef .tc main_v389) = rv_main_v389 (inR V0) := by
  refine (c_main_v389 (F := Ideal) (S12 V0)).trans ?_
  rw [r12_main_v384 V0, show (after (pc20 (F := Ideal)) (after (pc19 (F := Ideal)) (S12 V0))) (Proc.devRef .tc main_v386) = _ from r13_main_v386 V0]
  rfl
theorem r13_main_v415 : S13 V0 (Proc.devRef .tc main_v415) = rv_main_v415 (inR V0) := by
  refine (c_main_v415 (F := Ideal) (S12 V0)).trans ?_
  rw [r12_main_v1 V0, r12_main_v3 V0, show (after (pc20 (F := Ideal)) (after (pc19 (F := Ideal)) (S12 V0))) (Proc.devRef .tc main_v389) = _ from r13_main_v389 V0, r12_main_v20 V0, r12_main_v15 V0]
  rfl
theorem r13_main_v418 : S13 V0 (Proc.devRef .tc main_v418) = rv_main_v418 (inR V0) := by
  refine (c_main_v418 (F := Ideal) (S12 V0)).trans ?_
  rw [show (after (pc20 (F := Ideal)) (after (pc19 (F := Ideal)) (S12 V0))) (Proc.devRef .tc main_v415) = _ from r13_main_v415 V0, show (after (pc20 (F := Ideal)) (after (pc19 (F := Ideal)) (S12 V0))) (Proc.devRef .tc main_v388) = _ from r13_main_v388 V0]
  rfl

/-- The contents after stretch 14. -/
abbrev S14 : Valuation τ sig (Elt Ideal) := (after (pc21 (F := Ideal)) (S13 V0))

theorem r14_main_v1 : S14 V0 (Proc.devRef .tc main_v1) = rv_main_v1 (inR V0) :=
  (keep_pc21 (F := Ideal) (S13 V0) main_v1 (by ref_notin)).trans (r13_main_v1 V0)
theorem r14_main_v3 : S14 V0 (Proc.devRef .tc main_v3) = rv_main_v3 (inR V0) :=
  (keep_pc21 (F := Ideal) (S13 V0) main_v3 (by ref_notin)).trans (r13_main_v3 V0)
theorem r14_main_v15 : S14 V0 (Proc.devRef .tc main_v15) = rv_main_v15 (inR V0) :=
  (keep_pc21 (F := Ideal) (S13 V0) main_v15 (by ref_notin)).trans (r13_main_v15 V0)
theorem r14_main_v20 : S14 V0 (Proc.devRef .tc main_v20) = rv_main_v20 (inR V0) :=
  (keep_pc21 (F := Ideal) (S13 V0) main_v20 (by ref_notin)).trans (r13_main_v20 V0)
theorem r14_main_v384 : S14 V0 (Proc.devRef .tc main_v384) = rv_main_v384 (inR V0) :=
  (keep_pc21 (F := Ideal) (S13 V0) main_v384 (by ref_notin)).trans (r13_main_v384 V0)
theorem r14_main_arg0 : S14 V0 (Proc.devRef .tc main_arg0) = (inR V0).a0 :=
  (keep_pc21 (F := Ideal) (S13 V0) main_arg0 (by ref_notin)).trans (r13_main_arg0 V0)
theorem r14_main_arg10 : S14 V0 (Proc.devRef .tc main_arg10) = (inR V0).a10 :=
  (keep_pc21 (F := Ideal) (S13 V0) main_arg10 (by ref_notin)).trans (r13_main_arg10 V0)
theorem r14_main_arg11 : S14 V0 (Proc.devRef .tc main_arg11) = (inR V0).a11 :=
  (keep_pc21 (F := Ideal) (S13 V0) main_arg11 (by ref_notin)).trans (r13_main_arg11 V0)
theorem r14_main_arg6 : S14 V0 (Proc.devRef .tc main_arg6) = (inR V0).a6 :=
  (keep_pc21 (F := Ideal) (S13 V0) main_arg6 (by ref_notin)).trans (r13_main_arg6 V0)
theorem r14_main_arg7 : S14 V0 (Proc.devRef .tc main_arg7) = (inR V0).a7 :=
  (keep_pc21 (F := Ideal) (S13 V0) main_arg7 (by ref_notin)).trans (r13_main_arg7 V0)
theorem r14_main_arg8 : S14 V0 (Proc.devRef .tc main_arg8) = (inR V0).a8 :=
  (keep_pc21 (F := Ideal) (S13 V0) main_arg8 (by ref_notin)).trans (r13_main_arg8 V0)
theorem r14_main_arg9 : S14 V0 (Proc.devRef .tc main_arg9) = (inR V0).a9 :=
  (keep_pc21 (F := Ideal) (S13 V0) main_arg9 (by ref_notin)).trans (r13_main_arg9 V0)
theorem r14_main_arg12 : S14 V0 (Proc.devRef .tc main_arg12) = (inR V0).a12 :=
  (keep_pc21 (F := Ideal) (S13 V0) main_arg12 (by ref_notin)).trans (r13_main_arg12 V0)
theorem r14_main_arg13 : S14 V0 (Proc.devRef .tc main_arg13) = (inR V0).a13 :=
  (keep_pc21 (F := Ideal) (S13 V0) main_arg13 (by ref_notin)).trans (r13_main_arg13 V0)
theorem r14_main_v420 : S14 V0 (Proc.devRef .tc main_v420) = rv_main_v420 (inR V0) := by
  refine (c_main_v420 (F := Ideal) (S13 V0)).trans ?_
  rw [r13_main_arg10 V0]
  rfl
theorem r14_main_v422 : S14 V0 (Proc.devRef .tc main_v422) = rv_main_v422 (inR V0) := by
  refine (c_main_v422 (F := Ideal) (S13 V0)).trans ?_
  rw [r13_main_arg11 V0]
  rfl
theorem r14_main_v425 : S14 V0 (Proc.devRef .tc main_v425) = rv_main_v425 (inR V0) := by
  refine (c_main_v425 (F := Ideal) (S13 V0)).trans ?_
  rw [r13_main_v418 V0]
  rfl
theorem r14_main_call10_v5 : S14 V0 (Proc.devRef .tc main_call10_v5) = rv_main_call10_v5 (inR V0) := by
  refine (c_main_call10_v5 (F := Ideal) (S13 V0)).trans ?_
  rw [r13_main_v418 V0]
  rfl
theorem r14_main_call10_v8 : S14 V0 (Proc.devRef .tc main_call10_v8) = rv_main_call10_v8 (inR V0) := by
  refine (c_main_call10_v8 (F := Ideal) (S13 V0)).trans ?_
  rfl
theorem r14_main_call10_v11 : S14 V0 (Proc.devRef .tc main_call10_v11) = rv_main_call10_v11 (inR V0) := by
  refine (c_main_call10_v11 (F := Ideal) (S13 V0)).trans ?_
  rw [show (after (pc21 (F := Ideal)) (S13 V0)) (Proc.devRef .tc main_call10_v5) = _ from r14_main_call10_v5 V0, show (after (pc21 (F := Ideal)) (S13 V0)) (Proc.devRef .tc main_call10_v8) = _ from r14_main_call10_v8 V0]
  rfl
theorem r14_main_v426 : S14 V0 (Proc.devRef .tc main_v426) = rv_main_v426 (inR V0) := by
  refine (c_main_v426 (F := Ideal) (S13 V0)).trans ?_
  rw [show (after (pc21 (F := Ideal)) (S13 V0)) (Proc.devRef .tc main_call10_v8) = _ from r14_main_call10_v8 V0, show (after (pc21 (F := Ideal)) (S13 V0)) (Proc.devRef .tc main_call10_v11) = _ from r14_main_call10_v11 V0]
  rfl
theorem r14_main_v442 : S14 V0 (Proc.devRef .tc main_v442) = rv_main_v442 (inR V0) := by
  refine (c_main_v442 (F := Ideal) (S13 V0)).trans ?_
  rw [show (after (pc21 (F := Ideal)) (S13 V0)) (Proc.devRef .tc main_v420) = _ from r14_main_v420 V0, r13_main_v418 V0, show (after (pc21 (F := Ideal)) (S13 V0)) (Proc.devRef .tc main_v425) = _ from r14_main_v425 V0, show (after (pc21 (F := Ideal)) (S13 V0)) (Proc.devRef .tc main_v426) = _ from r14_main_v426 V0, show (after (pc21 (F := Ideal)) (S13 V0)) (Proc.devRef .tc main_v422) = _ from r14_main_v422 V0]
  rfl

/-- The contents after stretch 15. -/
abbrev S15 : Valuation τ sig (Elt Ideal) := (after (pc23 (F := Ideal)) (after (pc22 (F := Ideal)) (S14 V0)))

theorem r15_main_v1 : S15 V0 (Proc.devRef .tc main_v1) = rv_main_v1 (inR V0) :=
  (keepS_chunk15 (F := Ideal) (S14 V0) main_v1 (by ref_notin) (by ref_notin)).trans (r14_main_v1 V0)
theorem r15_main_v3 : S15 V0 (Proc.devRef .tc main_v3) = rv_main_v3 (inR V0) :=
  (keepS_chunk15 (F := Ideal) (S14 V0) main_v3 (by ref_notin) (by ref_notin)).trans (r14_main_v3 V0)
theorem r15_main_v15 : S15 V0 (Proc.devRef .tc main_v15) = rv_main_v15 (inR V0) :=
  (keepS_chunk15 (F := Ideal) (S14 V0) main_v15 (by ref_notin) (by ref_notin)).trans (r14_main_v15 V0)
theorem r15_main_v20 : S15 V0 (Proc.devRef .tc main_v20) = rv_main_v20 (inR V0) :=
  (keepS_chunk15 (F := Ideal) (S14 V0) main_v20 (by ref_notin) (by ref_notin)).trans (r14_main_v20 V0)
theorem r15_main_arg0 : S15 V0 (Proc.devRef .tc main_arg0) = (inR V0).a0 :=
  (keepS_chunk15 (F := Ideal) (S14 V0) main_arg0 (by ref_notin) (by ref_notin)).trans (r14_main_arg0 V0)
theorem r15_main_arg10 : S15 V0 (Proc.devRef .tc main_arg10) = (inR V0).a10 :=
  (keepS_chunk15 (F := Ideal) (S14 V0) main_arg10 (by ref_notin) (by ref_notin)).trans (r14_main_arg10 V0)
theorem r15_main_arg11 : S15 V0 (Proc.devRef .tc main_arg11) = (inR V0).a11 :=
  (keepS_chunk15 (F := Ideal) (S14 V0) main_arg11 (by ref_notin) (by ref_notin)).trans (r14_main_arg11 V0)
theorem r15_main_arg6 : S15 V0 (Proc.devRef .tc main_arg6) = (inR V0).a6 :=
  (keepS_chunk15 (F := Ideal) (S14 V0) main_arg6 (by ref_notin) (by ref_notin)).trans (r14_main_arg6 V0)
theorem r15_main_arg7 : S15 V0 (Proc.devRef .tc main_arg7) = (inR V0).a7 :=
  (keepS_chunk15 (F := Ideal) (S14 V0) main_arg7 (by ref_notin) (by ref_notin)).trans (r14_main_arg7 V0)
theorem r15_main_arg8 : S15 V0 (Proc.devRef .tc main_arg8) = (inR V0).a8 :=
  (keepS_chunk15 (F := Ideal) (S14 V0) main_arg8 (by ref_notin) (by ref_notin)).trans (r14_main_arg8 V0)
theorem r15_main_arg9 : S15 V0 (Proc.devRef .tc main_arg9) = (inR V0).a9 :=
  (keepS_chunk15 (F := Ideal) (S14 V0) main_arg9 (by ref_notin) (by ref_notin)).trans (r14_main_arg9 V0)
theorem r15_main_arg12 : S15 V0 (Proc.devRef .tc main_arg12) = (inR V0).a12 :=
  (keepS_chunk15 (F := Ideal) (S14 V0) main_arg12 (by ref_notin) (by ref_notin)).trans (r14_main_arg12 V0)
theorem r15_main_arg13 : S15 V0 (Proc.devRef .tc main_arg13) = (inR V0).a13 :=
  (keepS_chunk15 (F := Ideal) (S14 V0) main_arg13 (by ref_notin) (by ref_notin)).trans (r14_main_arg13 V0)
theorem r15_main_v444 : S15 V0 (Proc.devRef .tc main_v444) = rv_main_v444 (inR V0) := by
  refine (c_main_v444 (F := Ideal) (S14 V0)).trans ?_
  rw [r14_main_arg8 V0]
  rfl
theorem r15_main_v446 : S15 V0 (Proc.devRef .tc main_v446) = rv_main_v446 (inR V0) := by
  refine (c_main_v446 (F := Ideal) (S14 V0)).trans ?_
  rw [r14_main_arg9 V0]
  rfl
theorem r15_main_v447 : S15 V0 (Proc.devRef .tc main_v447) = rv_main_v447 (inR V0) := by
  refine (c_main_v447 (F := Ideal) (S14 V0)).trans ?_
  rw [r14_main_v384 V0, show (after (pc23 (F := Ideal)) (after (pc22 (F := Ideal)) (S14 V0))) (Proc.devRef .tc main_v444) = _ from r15_main_v444 V0]
  rfl
theorem r15_main_v473 : S15 V0 (Proc.devRef .tc main_v473) = rv_main_v473 (inR V0) := by
  refine (c_main_v473 (F := Ideal) (S14 V0)).trans ?_
  rw [r14_main_v1 V0, r14_main_v3 V0, show (after (pc23 (F := Ideal)) (after (pc22 (F := Ideal)) (S14 V0))) (Proc.devRef .tc main_v447) = _ from r15_main_v447 V0, r14_main_v20 V0, r14_main_v15 V0]
  rfl
theorem r15_main_v477 : S15 V0 (Proc.devRef .tc main_v477) = rv_main_v477 (inR V0) := by
  refine (c_main_v477 (F := Ideal) (S14 V0)).trans ?_
  rw [r14_main_v442 V0, show (after (pc23 (F := Ideal)) (after (pc22 (F := Ideal)) (S14 V0))) (Proc.devRef .tc main_v473) = _ from r15_main_v473 V0, show (after (pc23 (F := Ideal)) (after (pc22 (F := Ideal)) (S14 V0))) (Proc.devRef .tc main_v446) = _ from r15_main_v446 V0]
  rfl

end Cert.ReferenceIdeal.Val

end
-- ==== Proof.RState6.lean ====
/- The contents of the reference program's buffers after each stretch of its operations: each named value's buffer holds that value of the argument arrays. -/
import proofs.«127768_j9405978378358_1_alg».proof.Proof.RVals
import proofs.«127768_j9405978378358_1_alg».proof.Proof.RSeg_chunk16
import proofs.«127768_j9405978378358_1_alg».proof.Proof.RSeg_chunk17
import proofs.«127768_j9405978378358_1_alg».proof.Proof.RSeg_chunk18
import proofs.«127768_j9405978378358_1_alg».proof.Proof.RState5
import proofs.«127768_j9405978378358_1_alg».proof.Proof.RefTac

set_option maxRecDepth 16384

noncomputable section

namespace Cert.ReferenceIdeal.Val

open Cert.ReferenceIdeal Cert.ReferenceIdeal.Gen Idealize.ShloMosaic Idealize.ShloMosaic.TcCoe Idealize.ShloMosaic.StableHlo

variable (V0 : Valuation τ sig (Elt Ideal))

/-- The contents after stretch 16. -/
abbrev S16 : Valuation τ sig (Elt Ideal) := (after (pc25 (F := Ideal)) (after (pc24 (F := Ideal)) (S15 V0)))

theorem r16_main_v1 : S16 V0 (Proc.devRef .tc main_v1) = rv_main_v1 (inR V0) :=
  (keepS_chunk16 (F := Ideal) (S15 V0) main_v1 (by ref_notin) (by ref_notin)).trans (r15_main_v1 V0)
theorem r16_main_v3 : S16 V0 (Proc.devRef .tc main_v3) = rv_main_v3 (inR V0) :=
  (keepS_chunk16 (F := Ideal) (S15 V0) main_v3 (by ref_notin) (by ref_notin)).trans (r15_main_v3 V0)
theorem r16_main_v15 : S16 V0 (Proc.devRef .tc main_v15) = rv_main_v15 (inR V0) :=
  (keepS_chunk16 (F := Ideal) (S15 V0) main_v15 (by ref_notin) (by ref_notin)).trans (r15_main_v15 V0)
theorem r16_main_v20 : S16 V0 (Proc.devRef .tc main_v20) = rv_main_v20 (inR V0) :=
  (keepS_chunk16 (F := Ideal) (S15 V0) main_v20 (by ref_notin) (by ref_notin)).trans (r15_main_v20 V0)
theorem r16_main_v477 : S16 V0 (Proc.devRef .tc main_v477) = rv_main_v477 (inR V0) :=
  (keepS_chunk16 (F := Ideal) (S15 V0) main_v477 (by ref_notin) (by ref_notin)).trans (r15_main_v477 V0)
theorem r16_main_arg0 : S16 V0 (Proc.devRef .tc main_arg0) = (inR V0).a0 :=
  (keepS_chunk16 (F := Ideal) (S15 V0) main_arg0 (by ref_notin) (by ref_notin)).trans (r15_main_arg0 V0)
theorem r16_main_arg10 : S16 V0 (Proc.devRef .tc main_arg10) = (inR V0).a10 :=
  (keepS_chunk16 (F := Ideal) (S15 V0) main_arg10 (by ref_notin) (by ref_notin)).trans (r15_main_arg10 V0)
theorem r16_main_arg11 : S16 V0 (Proc.devRef .tc main_arg11) = (inR V0).a11 :=
  (keepS_chunk16 (F := Ideal) (S15 V0) main_arg11 (by ref_notin) (by ref_notin)).trans (r15_main_arg11 V0)
theorem r16_main_arg6 : S16 V0 (Proc.devRef .tc main_arg6) = (inR V0).a6 :=
  (keepS_chunk16 (F := Ideal) (S15 V0) main_arg6 (by ref_notin) (by ref_notin)).trans (r15_main_arg6 V0)
theorem r16_main_arg7 : S16 V0 (Proc.devRef .tc main_arg7) = (inR V0).a7 :=
  (keepS_chunk16 (F := Ideal) (S15 V0) main_arg7 (by ref_notin) (by ref_notin)).trans (r15_main_arg7 V0)
theorem r16_main_arg8 : S16 V0 (Proc.devRef .tc main_arg8) = (inR V0).a8 :=
  (keepS_chunk16 (F := Ideal) (S15 V0) main_arg8 (by ref_notin) (by ref_notin)).trans (r15_main_arg8 V0)
theorem r16_main_arg9 : S16 V0 (Proc.devRef .tc main_arg9) = (inR V0).a9 :=
  (keepS_chunk16 (F := Ideal) (S15 V0) main_arg9 (by ref_notin) (by ref_notin)).trans (r15_main_arg9 V0)
theorem r16_main_arg12 : S16 V0 (Proc.devRef .tc main_arg12) = (inR V0).a12 :=
  (keepS_chunk16 (F := Ideal) (S15 V0) main_arg12 (by ref_notin) (by ref_notin)).trans (r15_main_arg12 V0)
theorem r16_main_arg13 : S16 V0 (Proc.devRef .tc main_arg13) = (inR V0).a13 :=
  (keepS_chunk16 (F := Ideal) (S15 V0) main_arg13 (by ref_notin) (by ref_notin)).trans (r15_main_arg13 V0)
theorem r16_main_v479 : S16 V0 (Proc.devRef .tc main_v479) = rv_main_v479 (inR V0) := by
  refine (c_main_v479 (F := Ideal) (S15 V0)).trans ?_
  rw [r15_main_arg6 V0]
  rfl
theorem r16_main_v481 : S16 V0 (Proc.devRef .tc main_v481) = rv_main_v481 (inR V0) := by
  refine (c_main_v481 (F := Ideal) (S15 V0)).trans ?_
  rw [r15_main_arg7 V0]
  rfl
theorem r16_main_v482 : S16 V0 (Proc.devRef .tc main_v482) = rv_main_v482 (inR V0) := by
  refine (c_main_v482 (F := Ideal) (S15 V0)).trans ?_
  rw [r15_main_v477 V0, show (after (pc25 (F := Ideal)) (after (pc24 (F := Ideal)) (S15 V0))) (Proc.devRef .tc main_v479) = _ from r16_main_v479 V0]
  rfl
theorem r16_main_v508 : S16 V0 (Proc.devRef .tc main_v508) = rv_main_v508 (inR V0) := by
  refine (c_main_v508 (F := Ideal) (S15 V0)).trans ?_
  rw [r15_main_v1 V0, r15_main_v3 V0, show (after (pc25 (F := Ideal)) (after (pc24 (F := Ideal)) (S15 V0))) (Proc.devRef .tc main_v482) = _ from r16_main_v482 V0, r15_main_v20 V0, r15_main_v15 V0]
  rfl
theorem r16_main_v511 : S16 V0 (Proc.devRef .tc main_v511) = rv_main_v511 (inR V0) := by
  refine (c_main_v511 (F := Ideal) (S15 V0)).trans ?_
  rw [show (after (pc25 (F := Ideal)) (after (pc24 (F := Ideal)) (S15 V0))) (Proc.devRef .tc main_v508) = _ from r16_main_v508 V0, show (after (pc25 (F := Ideal)) (after (pc24 (F := Ideal)) (S15 V0))) (Proc.devRef .tc main_v481) = _ from r16_main_v481 V0]
  rfl

/-- The contents after stretch 17. -/
abbrev S17 : Valuation τ sig (Elt Ideal) := (after (pc26 (F := Ideal)) (S16 V0))

theorem r17_main_v1 : S17 V0 (Proc.devRef .tc main_v1) = rv_main_v1 (inR V0) :=
  (keep_pc26 (F := Ideal) (S16 V0) main_v1 (by ref_notin)).trans (r16_main_v1 V0)
theorem r17_main_v3 : S17 V0 (Proc.devRef .tc main_v3) = rv_main_v3 (inR V0) :=
  (keep_pc26 (F := Ideal) (S16 V0) main_v3 (by ref_notin)).trans (r16_main_v3 V0)
theorem r17_main_v15 : S17 V0 (Proc.devRef .tc main_v15) = rv_main_v15 (inR V0) :=
  (keep_pc26 (F := Ideal) (S16 V0) main_v15 (by ref_notin)).trans (r16_main_v15 V0)
theorem r17_main_v20 : S17 V0 (Proc.devRef .tc main_v20) = rv_main_v20 (inR V0) :=
  (keep_pc26 (F := Ideal) (S16 V0) main_v20 (by ref_notin)).trans (r16_main_v20 V0)
theorem r17_main_v477 : S17 V0 (Proc.devRef .tc main_v477) = rv_main_v477 (inR V0) :=
  (keep_pc26 (F := Ideal) (S16 V0) main_v477 (by ref_notin)).trans (r16_main_v477 V0)
theorem r17_main_arg0 : S17 V0 (Proc.devRef .tc main_arg0) = (inR V0).a0 :=
  (keep_pc26 (F := Ideal) (S16 V0) main_arg0 (by ref_notin)).trans (r16_main_arg0 V0)
theorem r17_main_arg10 : S17 V0 (Proc.devRef .tc main_arg10) = (inR V0).a10 :=
  (keep_pc26 (F := Ideal) (S16 V0) main_arg10 (by ref_notin)).trans (r16_main_arg10 V0)
theorem r17_main_arg11 : S17 V0 (Proc.devRef .tc main_arg11) = (inR V0).a11 :=
  (keep_pc26 (F := Ideal) (S16 V0) main_arg11 (by ref_notin)).trans (r16_main_arg11 V0)
theorem r17_main_arg6 : S17 V0 (Proc.devRef .tc main_arg6) = (inR V0).a6 :=
  (keep_pc26 (F := Ideal) (S16 V0) main_arg6 (by ref_notin)).trans (r16_main_arg6 V0)
theorem r17_main_arg7 : S17 V0 (Proc.devRef .tc main_arg7) = (inR V0).a7 :=
  (keep_pc26 (F := Ideal) (S16 V0) main_arg7 (by ref_notin)).trans (r16_main_arg7 V0)
theorem r17_main_arg8 : S17 V0 (Proc.devRef .tc main_arg8) = (inR V0).a8 :=
  (keep_pc26 (F := Ideal) (S16 V0) main_arg8 (by ref_notin)).trans (r16_main_arg8 V0)
theorem r17_main_arg9 : S17 V0 (Proc.devRef .tc main_arg9) = (inR V0).a9 :=
  (keep_pc26 (F := Ideal) (S16 V0) main_arg9 (by ref_notin)).trans (r16_main_arg9 V0)
theorem r17_main_arg12 : S17 V0 (Proc.devRef .tc main_arg12) = (inR V0).a12 :=
  (keep_pc26 (F := Ideal) (S16 V0) main_arg12 (by ref_notin)).trans (r16_main_arg12 V0)
theorem r17_main_arg13 : S17 V0 (Proc.devRef .tc main_arg13) = (inR V0).a13 :=
  (keep_pc26 (F := Ideal) (S16 V0) main_arg13 (by ref_notin)).trans (r16_main_arg13 V0)
theorem r17_main_v513 : S17 V0 (Proc.devRef .tc main_v513) = rv_main_v513 (inR V0) := by
  refine (c_main_v513 (F := Ideal) (S16 V0)).trans ?_
  rw [r16_main_arg10 V0]
  rfl
theorem r17_main_v515 : S17 V0 (Proc.devRef .tc main_v515) = rv_main_v515 (inR V0) := by
  refine (c_main_v515 (F := Ideal) (S16 V0)).trans ?_
  rw [r16_main_arg11 V0]
  rfl
theorem r17_main_v518 : S17 V0 (Proc.devRef .tc main_v518) = rv_main_v518 (inR V0) := by
  refine (c_main_v518 (F := Ideal) (S16 V0)).trans ?_
  rw [r16_main_v511 V0]
  rfl
theorem r17_main_call12_v5 : S17 V0 (Proc.devRef .tc main_call12_v5) = rv_main_call12_v5 (inR V0) := by
  refine (c_main_call12_v5 (F := Ideal) (S16 V0)).trans ?_
  rw [r16_main_v511 V0]
  rfl
theorem r17_main_call12_v8 : S17 V0 (Proc.devRef .tc main_call12_v8) = rv_main_call12_v8 (inR V0) := by
  refine (c_main_call12_v8 (F := Ideal) (S16 V0)).trans ?_
  rfl
theorem r17_main_call12_v11 : S17 V0 (Proc.devRef .tc main_call12_v11) = rv_main_call12_v11 (inR V0) := by
  refine (c_main_call12_v11 (F := Ideal) (S16 V0)).trans ?_
  rw [show (after (pc26 (F := Ideal)) (S16 V0)) (Proc.devRef .tc main_call12_v5) = _ from r17_main_call12_v5 V0, show (after (pc26 (F := Ideal)) (S16 V0)) (Proc.devRef .tc main_call12_v8) = _ from r17_main_call12_v8 V0]
  rfl
theorem r17_main_v519 : S17 V0 (Proc.devRef .tc main_v519) = rv_main_v519 (inR V0) := by
  refine (c_main_v519 (F := Ideal) (S16 V0)).trans ?_
  rw [show (after (pc26 (F := Ideal)) (S16 V0)) (Proc.devRef .tc main_call12_v8) = _ from r17_main_call12_v8 V0, show (after (pc26 (F := Ideal)) (S16 V0)) (Proc.devRef .tc main_call12_v11) = _ from r17_main_call12_v11 V0]
  rfl
theorem r17_main_v535 : S17 V0 (Proc.devRef .tc main_v535) = rv_main_v535 (inR V0) := by
  refine (c_main_v535 (F := Ideal) (S16 V0)).trans ?_
  rw [show (after (pc26 (F := Ideal)) (S16 V0)) (Proc.devRef .tc main_v513) = _ from r17_main_v513 V0, r16_main_v511 V0, show (after (pc26 (F := Ideal)) (S16 V0)) (Proc.devRef .tc main_v518) = _ from r17_main_v518 V0, show (after (pc26 (F := Ideal)) (S16 V0)) (Proc.devRef .tc main_v519) = _ from r17_main_v519 V0, show (after (pc26 (F := Ideal)) (S16 V0)) (Proc.devRef .tc main_v515) = _ from r17_main_v515 V0]
  rfl

/-- The contents after stretch 18. -/
abbrev S18 : Valuation τ sig (Elt Ideal) := (after (pc28 (F := Ideal)) (after (pc27 (F := Ideal)) (S17 V0)))

theorem r18_main_v1 : S18 V0 (Proc.devRef .tc main_v1) = rv_main_v1 (inR V0) :=
  (keepS_chunk18 (F := Ideal) (S17 V0) main_v1 (by ref_notin) (by ref_notin)).trans (r17_main_v1 V0)
theorem r18_main_v3 : S18 V0 (Proc.devRef .tc main_v3) = rv_main_v3 (inR V0) :=
  (keepS_chunk18 (F := Ideal) (S17 V0) main_v3 (by ref_notin) (by ref_notin)).trans (r17_main_v3 V0)
theorem r18_main_v15 : S18 V0 (Proc.devRef .tc main_v15) = rv_main_v15 (inR V0) :=
  (keepS_chunk18 (F := Ideal) (S17 V0) main_v15 (by ref_notin) (by ref_notin)).trans (r17_main_v15 V0)
theorem r18_main_v20 : S18 V0 (Proc.devRef .tc main_v20) = rv_main_v20 (inR V0) :=
  (keepS_chunk18 (F := Ideal) (S17 V0) main_v20 (by ref_notin) (by ref_notin)).trans (r17_main_v20 V0)
theorem r18_main_arg0 : S18 V0 (Proc.devRef .tc main_arg0) = (inR V0).a0 :=
  (keepS_chunk18 (F := Ideal) (S17 V0) main_arg0 (by ref_notin) (by ref_notin)).trans (r17_main_arg0 V0)
theorem r18_main_arg10 : S18 V0 (Proc.devRef .tc main_arg10) = (inR V0).a10 :=
  (keepS_chunk18 (F := Ideal) (S17 V0) main_arg10 (by ref_notin) (by ref_notin)).trans (r17_main_arg10 V0)
theorem r18_main_arg11 : S18 V0 (Proc.devRef .tc main_arg11) = (inR V0).a11 :=
  (keepS_chunk18 (F := Ideal) (S17 V0) main_arg11 (by ref_notin) (by ref_notin)).trans (r17_main_arg11 V0)
theorem r18_main_arg6 : S18 V0 (Proc.devRef .tc main_arg6) = (inR V0).a6 :=
  (keepS_chunk18 (F := Ideal) (S17 V0) main_arg6 (by ref_notin) (by ref_notin)).trans (r17_main_arg6 V0)
theorem r18_main_arg7 : S18 V0 (Proc.devRef .tc main_arg7) = (inR V0).a7 :=
  (keepS_chunk18 (F := Ideal) (S17 V0) main_arg7 (by ref_notin) (by ref_notin)).trans (r17_main_arg7 V0)
theorem r18_main_arg8 : S18 V0 (Proc.devRef .tc main_arg8) = (inR V0).a8 :=
  (keepS_chunk18 (F := Ideal) (S17 V0) main_arg8 (by ref_notin) (by ref_notin)).trans (r17_main_arg8 V0)
theorem r18_main_arg9 : S18 V0 (Proc.devRef .tc main_arg9) = (inR V0).a9 :=
  (keepS_chunk18 (F := Ideal) (S17 V0) main_arg9 (by ref_notin) (by ref_notin)).trans (r17_main_arg9 V0)
theorem r18_main_arg12 : S18 V0 (Proc.devRef .tc main_arg12) = (inR V0).a12 :=
  (keepS_chunk18 (F := Ideal) (S17 V0) main_arg12 (by ref_notin) (by ref_notin)).trans (r17_main_arg12 V0)
theorem r18_main_arg13 : S18 V0 (Proc.devRef .tc main_arg13) = (inR V0).a13 :=
  (keepS_chunk18 (F := Ideal) (S17 V0) main_arg13 (by ref_notin) (by ref_notin)).trans (r17_main_arg13 V0)
theorem r18_main_v537 : S18 V0 (Proc.devRef .tc main_v537) = rv_main_v537 (inR V0) := by
  refine (c_main_v537 (F := Ideal) (S17 V0)).trans ?_
  rw [r17_main_arg8 V0]
  rfl
theorem r18_main_v539 : S18 V0 (Proc.devRef .tc main_v539) = rv_main_v539 (inR V0) := by
  refine (c_main_v539 (F := Ideal) (S17 V0)).trans ?_
  rw [r17_main_arg9 V0]
  rfl
theorem r18_main_v540 : S18 V0 (Proc.devRef .tc main_v540) = rv_main_v540 (inR V0) := by
  refine (c_main_v540 (F := Ideal) (S17 V0)).trans ?_
  rw [r17_main_v477 V0, show (after (pc28 (F := Ideal)) (after (pc27 (F := Ideal)) (S17 V0))) (Proc.devRef .tc main_v537) = _ from r18_main_v537 V0]
  rfl
theorem r18_main_v566 : S18 V0 (Proc.devRef .tc main_v566) = rv_main_v566 (inR V0) := by
  refine (c_main_v566 (F := Ideal) (S17 V0)).trans ?_
  rw [r17_main_v1 V0, r17_main_v3 V0, show (after (pc28 (F := Ideal)) (after (pc27 (F := Ideal)) (S17 V0))) (Proc.devRef .tc main_v540) = _ from r18_main_v540 V0, r17_main_v20 V0, r17_main_v15 V0]
  rfl
theorem r18_main_v570 : S18 V0 (Proc.devRef .tc main_v570) = rv_main_v570 (inR V0) := by
  refine (c_main_v570 (F := Ideal) (S17 V0)).trans ?_
  rw [r17_main_v535 V0, show (after (pc28 (F := Ideal)) (after (pc27 (F := Ideal)) (S17 V0))) (Proc.devRef .tc main_v566) = _ from r18_main_v566 V0, show (after (pc28 (F := Ideal)) (after (pc27 (F := Ideal)) (S17 V0))) (Proc.devRef .tc main_v539) = _ from r18_main_v539 V0]
  rfl

end Cert.ReferenceIdeal.Val

end
-- ==== Proof.RState7.lean ====
/- The contents of the reference program's buffers after each stretch of its operations: each named value's buffer holds that value of the argument arrays. -/
import proofs.«127768_j9405978378358_1_alg».proof.Proof.RVals
import proofs.«127768_j9405978378358_1_alg».proof.Proof.RSeg_chunk19
import proofs.«127768_j9405978378358_1_alg».proof.Proof.RSeg_chunk20
import proofs.«127768_j9405978378358_1_alg».proof.Proof.RSeg_chunk21
import proofs.«127768_j9405978378358_1_alg».proof.Proof.RState6
import proofs.«127768_j9405978378358_1_alg».proof.Proof.RefTac

set_option maxRecDepth 16384

noncomputable section

namespace Cert.ReferenceIdeal.Val

open Cert.ReferenceIdeal Cert.ReferenceIdeal.Gen Idealize.ShloMosaic Idealize.ShloMosaic.TcCoe Idealize.ShloMosaic.StableHlo

variable (V0 : Valuation τ sig (Elt Ideal))

/-- The contents after stretch 19. -/
abbrev S19 : Valuation τ sig (Elt Ideal) := (after (pc29 (F := Ideal)) (S18 V0))

theorem r19_main_v1 : S19 V0 (Proc.devRef .tc main_v1) = rv_main_v1 (inR V0) :=
  (keep_pc29 (F := Ideal) (S18 V0) main_v1 (by ref_notin)).trans (r18_main_v1 V0)
theorem r19_main_v3 : S19 V0 (Proc.devRef .tc main_v3) = rv_main_v3 (inR V0) :=
  (keep_pc29 (F := Ideal) (S18 V0) main_v3 (by ref_notin)).trans (r18_main_v3 V0)
theorem r19_main_v15 : S19 V0 (Proc.devRef .tc main_v15) = rv_main_v15 (inR V0) :=
  (keep_pc29 (F := Ideal) (S18 V0) main_v15 (by ref_notin)).trans (r18_main_v15 V0)
theorem r19_main_v20 : S19 V0 (Proc.devRef .tc main_v20) = rv_main_v20 (inR V0) :=
  (keep_pc29 (F := Ideal) (S18 V0) main_v20 (by ref_notin)).trans (r18_main_v20 V0)
theorem r19_main_v570 : S19 V0 (Proc.devRef .tc main_v570) = rv_main_v570 (inR V0) :=
  (keep_pc29 (F := Ideal) (S18 V0) main_v570 (by ref_notin)).trans (r18_main_v570 V0)
theorem r19_main_arg0 : S19 V0 (Proc.devRef .tc main_arg0) = (inR V0).a0 :=
  (keep_pc29 (F := Ideal) (S18 V0) main_arg0 (by ref_notin)).trans (r18_main_arg0 V0)
theorem r19_main_arg10 : S19 V0 (Proc.devRef .tc main_arg10) = (inR V0).a10 :=
  (keep_pc29 (F := Ideal) (S18 V0) main_arg10 (by ref_notin)).trans (r18_main_arg10 V0)
theorem r19_main_arg11 : S19 V0 (Proc.devRef .tc main_arg11) = (inR V0).a11 :=
  (keep_pc29 (F := Ideal) (S18 V0) main_arg11 (by ref_notin)).trans (r18_main_arg11 V0)
theorem r19_main_arg8 : S19 V0 (Proc.devRef .tc main_arg8) = (inR V0).a8 :=
  (keep_pc29 (F := Ideal) (S18 V0) main_arg8 (by ref_notin)).trans (r18_main_arg8 V0)
theorem r19_main_arg9 : S19 V0 (Proc.devRef .tc main_arg9) = (inR V0).a9 :=
  (keep_pc29 (F := Ideal) (S18 V0) main_arg9 (by ref_notin)).trans (r18_main_arg9 V0)
theorem r19_main_arg12 : S19 V0 (Proc.devRef .tc main_arg12) = (inR V0).a12 :=
  (keep_pc29 (F := Ideal) (S18 V0) main_arg12 (by ref_notin)).trans (r18_main_arg12 V0)
theorem r19_main_arg13 : S19 V0 (Proc.devRef .tc main_arg13) = (inR V0).a13 :=
  (keep_pc29 (F := Ideal) (S18 V0) main_arg13 (by ref_notin)).trans (r18_main_arg13 V0)
theorem r19_main_v572 : S19 V0 (Proc.devRef .tc main_v572) = rv_main_v572 (inR V0) := by
  refine (c_main_v572 (F := Ideal) (S18 V0)).trans ?_
  rw [r18_main_arg6 V0]
  rfl
theorem r19_main_v574 : S19 V0 (Proc.devRef .tc main_v574) = rv_main_v574 (inR V0) := by
  refine (c_main_v574 (F := Ideal) (S18 V0)).trans ?_
  rw [r18_main_arg7 V0]
  rfl
theorem r19_main_v575 : S19 V0 (Proc.devRef .tc main_v575) = rv_main_v575 (inR V0) := by
  refine (c_main_v575 (F := Ideal) (S18 V0)).trans ?_
  rw [r18_main_v570 V0, show (after (pc29 (F := Ideal)) (S18 V0)) (Proc.devRef .tc main_v572) = _ from r19_main_v572 V0]
  rfl
theorem r19_main_v601 : S19 V0 (Proc.devRef .tc main_v601) = rv_main_v601 (inR V0) := by
  refine (c_main_v601 (F := Ideal) (S18 V0)).trans ?_
  rw [r18_main_v1 V0, r18_main_v3 V0, show (after (pc29 (F := Ideal)) (S18 V0)) (Proc.devRef .tc main_v575) = _ from r19_main_v575 V0, r18_main_v20 V0, r18_main_v15 V0]
  rfl
theorem r19_main_v604 : S19 V0 (Proc.devRef .tc main_v604) = rv_main_v604 (inR V0) := by
  refine (c_main_v604 (F := Ideal) (S18 V0)).trans ?_
  rw [show (after (pc29 (F := Ideal)) (S18 V0)) (Proc.devRef .tc main_v601) = _ from r19_main_v601 V0, show (after (pc29 (F := Ideal)) (S18 V0)) (Proc.devRef .tc main_v574) = _ from r19_main_v574 V0]
  rfl

/-- The contents after stretch 20. -/
abbrev S20 : Valuation τ sig (Elt Ideal) := (after (pc31 (F := Ideal)) (after (pc30 (F := Ideal)) (S19 V0)))

theorem r20_main_v1 : S20 V0 (Proc.devRef .tc main_v1) = rv_main_v1 (inR V0) :=
  (keepS_chunk20 (F := Ideal) (S19 V0) main_v1 (by ref_notin) (by ref_notin)).trans (r19_main_v1 V0)
theorem r20_main_v3 : S20 V0 (Proc.devRef .tc main_v3) = rv_main_v3 (inR V0) :=
  (keepS_chunk20 (F := Ideal) (S19 V0) main_v3 (by ref_notin) (by ref_notin)).trans (r19_main_v3 V0)
theorem r20_main_v15 : S20 V0 (Proc.devRef .tc main_v15) = rv_main_v15 (inR V0) :=
  (keepS_chunk20 (F := Ideal) (S19 V0) main_v15 (by ref_notin) (by ref_notin)).trans (r19_main_v15 V0)
theorem r20_main_v20 : S20 V0 (Proc.devRef .tc main_v20) = rv_main_v20 (inR V0) :=
  (keepS_chunk20 (F := Ideal) (S19 V0) main_v20 (by ref_notin) (by ref_notin)).trans (r19_main_v20 V0)
theorem r20_main_v570 : S20 V0 (Proc.devRef .tc main_v570) = rv_main_v570 (inR V0) :=
  (keepS_chunk20 (F := Ideal) (S19 V0) main_v570 (by ref_notin) (by ref_notin)).trans (r19_main_v570 V0)
theorem r20_main_arg0 : S20 V0 (Proc.devRef .tc main_arg0) = (inR V0).a0 :=
  (keepS_chunk20 (F := Ideal) (S19 V0) main_arg0 (by ref_notin) (by ref_notin)).trans (r19_main_arg0 V0)
theorem r20_main_arg8 : S20 V0 (Proc.devRef .tc main_arg8) = (inR V0).a8 :=
  (keepS_chunk20 (F := Ideal) (S19 V0) main_arg8 (by ref_notin) (by ref_notin)).trans (r19_main_arg8 V0)
theorem r20_main_arg9 : S20 V0 (Proc.devRef .tc main_arg9) = (inR V0).a9 :=
  (keepS_chunk20 (F := Ideal) (S19 V0) main_arg9 (by ref_notin) (by ref_notin)).trans (r19_main_arg9 V0)
theorem r20_main_arg12 : S20 V0 (Proc.devRef .tc main_arg12) = (inR V0).a12 :=
  (keepS_chunk20 (F := Ideal) (S19 V0) main_arg12 (by ref_notin) (by ref_notin)).trans (r19_main_arg12 V0)
theorem r20_main_arg13 : S20 V0 (Proc.devRef .tc main_arg13) = (inR V0).a13 :=
  (keepS_chunk20 (F := Ideal) (S19 V0) main_arg13 (by ref_notin) (by ref_notin)).trans (r19_main_arg13 V0)
theorem r20_main_v606 : S20 V0 (Proc.devRef .tc main_v606) = rv_main_v606 (inR V0) := by
  refine (c_main_v606 (F := Ideal) (S19 V0)).trans ?_
  rw [r19_main_arg10 V0]
  rfl
theorem r20_main_v608 : S20 V0 (Proc.devRef .tc main_v608) = rv_main_v608 (inR V0) := by
  refine (c_main_v608 (F := Ideal) (S19 V0)).trans ?_
  rw [r19_main_arg11 V0]
  rfl
theorem r20_main_v611 : S20 V0 (Proc.devRef .tc main_v611) = rv_main_v611 (inR V0) := by
  refine (c_main_v611 (F := Ideal) (S19 V0)).trans ?_
  rw [r19_main_v604 V0]
  rfl
theorem r20_main_call14_v5 : S20 V0 (Proc.devRef .tc main_call14_v5) = rv_main_call14_v5 (inR V0) := by
  refine (c_main_call14_v5 (F := Ideal) (S19 V0)).trans ?_
  rw [r19_main_v604 V0]
  rfl
theorem r20_main_call14_v8 : S20 V0 (Proc.devRef .tc main_call14_v8) = rv_main_call14_v8 (inR V0) := by
  refine (c_main_call14_v8 (F := Ideal) (S19 V0)).trans ?_
  rfl
theorem r20_main_call14_v11 : S20 V0 (Proc.devRef .tc main_call14_v11) = rv_main_call14_v11 (inR V0) := by
  refine (c_main_call14_v11 (F := Ideal) (S19 V0)).trans ?_
  rw [show (after (pc31 (F := Ideal)) (after (pc30 (F := Ideal)) (S19 V0))) (Proc.devRef .tc main_call14_v5) = _ from r20_main_call14_v5 V0, show (after (pc31 (F := Ideal)) (after (pc30 (F := Ideal)) (S19 V0))) (Proc.devRef .tc main_call14_v8) = _ from r20_main_call14_v8 V0]
  rfl
theorem r20_main_v612 : S20 V0 (Proc.devRef .tc main_v612) = rv_main_v612 (inR V0) := by
  refine (c_main_v612 (F := Ideal) (S19 V0)).trans ?_
  rw [show (after (pc31 (F := Ideal)) (after (pc30 (F := Ideal)) (S19 V0))) (Proc.devRef .tc main_call14_v8) = _ from r20_main_call14_v8 V0, show (after (pc31 (F := Ideal)) (after (pc30 (F := Ideal)) (S19 V0))) (Proc.devRef .tc main_call14_v11) = _ from r20_main_call14_v11 V0]
  rfl
theorem r20_main_v628 : S20 V0 (Proc.devRef .tc main_v628) = rv_main_v628 (inR V0) := by
  refine (c_main_v628 (F := Ideal) (S19 V0)).trans ?_
  rw [show (after (pc31 (F := Ideal)) (after (pc30 (F := Ideal)) (S19 V0))) (Proc.devRef .tc main_v606) = _ from r20_main_v606 V0, r19_main_v604 V0, show (after (pc31 (F := Ideal)) (after (pc30 (F := Ideal)) (S19 V0))) (Proc.devRef .tc main_v611) = _ from r20_main_v611 V0, show (after (pc31 (F := Ideal)) (after (pc30 (F := Ideal)) (S19 V0))) (Proc.devRef .tc main_v612) = _ from r20_main_v612 V0, show (after (pc31 (F := Ideal)) (after (pc30 (F := Ideal)) (S19 V0))) (Proc.devRef .tc main_v608) = _ from r20_main_v608 V0]
  rfl

/-- The contents after stretch 21. -/
abbrev S21 : Valuation τ sig (Elt Ideal) := (after (pc33 (F := Ideal)) (after (pc32 (F := Ideal)) (S20 V0)))

theorem r21_main_v1 : S21 V0 (Proc.devRef .tc main_v1) = rv_main_v1 (inR V0) :=
  (keepS_chunk21 (F := Ideal) (S20 V0) main_v1 (by ref_notin) (by ref_notin)).trans (r20_main_v1 V0)
theorem r21_main_v3 : S21 V0 (Proc.devRef .tc main_v3) = rv_main_v3 (inR V0) :=
  (keepS_chunk21 (F := Ideal) (S20 V0) main_v3 (by ref_notin) (by ref_notin)).trans (r20_main_v3 V0)
theorem r21_main_v15 : S21 V0 (Proc.devRef .tc main_v15) = rv_main_v15 (inR V0) :=
  (keepS_chunk21 (F := Ideal) (S20 V0) main_v15 (by ref_notin) (by ref_notin)).trans (r20_main_v15 V0)
theorem r21_main_v20 : S21 V0 (Proc.devRef .tc main_v20) = rv_main_v20 (inR V0) :=
  (keepS_chunk21 (F := Ideal) (S20 V0) main_v20 (by ref_notin) (by ref_notin)).trans (r20_main_v20 V0)
theorem r21_main_arg0 : S21 V0 (Proc.devRef .tc main_arg0) = (inR V0).a0 :=
  (keepS_chunk21 (F := Ideal) (S20 V0) main_arg0 (by ref_notin) (by ref_notin)).trans (r20_main_arg0 V0)
theorem r21_main_arg12 : S21 V0 (Proc.devRef .tc main_arg12) = (inR V0).a12 :=
  (keepS_chunk21 (F := Ideal) (S20 V0) main_arg12 (by ref_notin) (by ref_notin)).trans (r20_main_arg12 V0)
theorem r21_main_arg13 : S21 V0 (Proc.devRef .tc main_arg13) = (inR V0).a13 :=
  (keepS_chunk21 (F := Ideal) (S20 V0) main_arg13 (by ref_notin) (by ref_notin)).trans (r20_main_arg13 V0)
theorem r21_main_v630 : S21 V0 (Proc.devRef .tc main_v630) = rv_main_v630 (inR V0) := by
  refine (c_main_v630 (F := Ideal) (S20 V0)).trans ?_
  rw [r20_main_arg8 V0]
  rfl
theorem r21_main_v632 : S21 V0 (Proc.devRef .tc main_v632) = rv_main_v632 (inR V0) := by
  refine (c_main_v632 (F := Ideal) (S20 V0)).trans ?_
  rw [r20_main_arg9 V0]
  rfl
theorem r21_main_v633 : S21 V0 (Proc.devRef .tc main_v633) = rv_main_v633 (inR V0) := by
  refine (c_main_v633 (F := Ideal) (S20 V0)).trans ?_
  rw [r20_main_v570 V0, show (after (pc33 (F := Ideal)) (after (pc32 (F := Ideal)) (S20 V0))) (Proc.devRef .tc main_v630) = _ from r21_main_v630 V0]
  rfl
theorem r21_main_v659 : S21 V0 (Proc.devRef .tc main_v659) = rv_main_v659 (inR V0) := by
  refine (c_main_v659 (F := Ideal) (S20 V0)).trans ?_
  rw [r20_main_v1 V0, r20_main_v3 V0, show (after (pc33 (F := Ideal)) (after (pc32 (F := Ideal)) (S20 V0))) (Proc.devRef .tc main_v633) = _ from r21_main_v633 V0, r20_main_v20 V0, r20_main_v15 V0]
  rfl
theorem r21_main_v663 : S21 V0 (Proc.devRef .tc main_v663) = rv_main_v663 (inR V0) := by
  refine (c_main_v663 (F := Ideal) (S20 V0)).trans ?_
  rw [r20_main_v628 V0, show (after (pc33 (F := Ideal)) (after (pc32 (F := Ideal)) (S20 V0))) (Proc.devRef .tc main_v659) = _ from r21_main_v659 V0, show (after (pc33 (F := Ideal)) (after (pc32 (F := Ideal)) (S20 V0))) (Proc.devRef .tc main_v632) = _ from r21_main_v632 V0]
  rfl

end Cert.ReferenceIdeal.Val

end
-- ==== Proof.RState8.lean ====
/- The contents of the reference program's buffers after each stretch of its operations: each named value's buffer holds that value of the argument arrays. -/
import proofs.«127768_j9405978378358_1_alg».proof.Proof.RVals
import proofs.«127768_j9405978378358_1_alg».proof.Proof.RPiecesParts
import proofs.«127768_j9405978378358_1_alg».proof.Proof.RefRun
import proofs.«127768_j9405978378358_1_alg».proof.Proof.RSeg_chunk22
import proofs.«127768_j9405978378358_1_alg».proof.Proof.RState7
import proofs.«127768_j9405978378358_1_alg».proof.Proof.RefTac

set_option maxRecDepth 16384

noncomputable section

namespace Cert.ReferenceIdeal.Val

open Cert.ReferenceIdeal Cert.ReferenceIdeal.Gen Cert.ReferenceIdeal.RefRun Idealize.ShloMosaic Idealize.ShloMosaic.TcCoe Idealize.ShloMosaic.StableHlo

variable (V0 : Valuation τ sig (Elt Ideal))

/-- The contents after stretch 22. -/
abbrev S22 : Valuation τ sig (Elt Ideal) := (after (pc34 (F := Ideal)) (S21 V0))

theorem r22_main_v664 : S22 V0 (Proc.devRef .tc main_v664) = rv_main_v664 (inR V0) := by
  refine (c_main_v664 (F := Ideal) (S21 V0)).trans ?_
  rw [r21_main_v663 V0, r21_main_arg0 V0]
  rfl
theorem r22_main_v665 : S22 V0 (Proc.devRef .tc main_v665) = rv_main_v665 (inR V0) := by
  refine (c_main_v665 (F := Ideal) (S21 V0)).trans ?_
  rw [show (after (pc34 (F := Ideal)) (S21 V0)) (Proc.devRef .tc main_v664) = _ from r22_main_v664 V0, r21_main_arg12 V0]
  rfl
theorem r22_main_v691 : S22 V0 (Proc.devRef .tc main_v691) = rv_main_v691 (inR V0) := by
  refine (c_main_v691 (F := Ideal) (S21 V0)).trans ?_
  rw [r21_main_v1 V0, r21_main_v3 V0, show (after (pc34 (F := Ideal)) (S21 V0)) (Proc.devRef .tc main_v665) = _ from r22_main_v665 V0, r21_main_v20 V0, r21_main_v15 V0]
  rfl
theorem r22_main_v694 : S22 V0 (Proc.devRef .tc main_v694) = rv_main_v694 (inR V0) := by
  refine (c_main_v694 (F := Ideal) (S21 V0)).trans ?_
  rw [show (after (pc34 (F := Ideal)) (S21 V0)) (Proc.devRef .tc main_v691) = _ from r22_main_v691 V0, r21_main_arg13 V0]
  rfl

/-- The whole program's operations leave the contents of the last stretch. -/
theorem after_ops : after (RefRun.ops (F := Ideal)) V0 = S22 V0 := by
  simp only [RefRun.ops, part0_pieces, part1_pieces, part2_pieces, part3_pieces, part4_pieces, part5_pieces, part6_pieces, part7_pieces, part8_pieces, part9_pieces, part10_pieces, part11_pieces, part12_pieces, part13_pieces, after_append]

end Cert.ReferenceIdeal.Val

end
-- ==== Proof.RefKeep.lean ====
/- The reference program leaves its arguments as launched: no operation of its main function writes an argument's
   buffer, so the fold of the operations' results over any contents is the identity at each argument; with the run
   of the main function this is the reference's frame. -/
import proofs.«127768_j9405978378358_1_alg».proof.Defs
import proofs.«127768_j9405978378358_1_alg».proof.Proof.Gen.Pre_finite_inputs
import proofs.«127768_j9405978378358_1_alg».proof.Proof.RefRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A single written reference that is on a list of references lies in the list's image among the device buffers. -/
theorem singleton_sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The references window 0 writes, in the order of its operations. -/
abbrev W_part0 : List (Ref sig .tc) :=
  [
    main_v0, main_v1, main_v2, main_v3, main_cst, main_v4, main_cst_0, main_v5, main_v6, main_v7,
    main_cst_1, main_v8, main_v9, main_v10, main_cst_2, main_v11, main_v12, main_cst_3, main_v13, main_v14,
    main_cst_4, main_call0_v0, main_call0_v1, main_v15, main_cst_5, main_v16, main_v17, main_cst_6, main_v18, main_v19,
    main_cst_7, main_call1_v0, main_call1_v1, main_v20, main_v21, main_c, main_v22, main_v23, main_c_8, main_v24,
    main_v25, main_v26, main_v27, main_v28, main_cst_9, main_v29, main_v30, main_v31, main_v32, main_v33,
    main_v34, main_c_10, main_v35, main_v36, main_c_11, main_v37, main_v38, main_v39, main_v40, main_v41,
    main_cst_12, main_v42, main_v43, main_v44 ]

set_option maxHeartbeats 4000000 in
/-- Each operation of window 0 writes one reference of that list. -/
theorem ops_part0_writes : (ops_part0 : List (HloOp τ sig (Elt F))).Forall fun op =>
    op.writes ⊆ (W_part0.map (Proc.devRef (τ := τ) .tc)).toFinset := by
  simp only [ops_part0, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 1 writes, in the order of its operations. -/
abbrev W_part1 : List (Ref sig .tc) :=
  [
    main_v45, main_v46, main_v47, main_v48, main_v49, main_v50, main_v51, main_v52, main_v53, main_v54,
    main_cst_13, main_v55, main_cst_14, main_v56, main_v57, main_c_15, main_call2_cst, main_call2_v0, main_call2_v1, main_call2_cst_0,
    main_call2_v2, main_call2_v3, main_call2_v4, main_call2_v5, main_call2_v6, main_call2_v7, main_call2_cst_1, main_call2_v8, main_call2_cst_2, main_call2_v9,
    main_call2_v10, main_call2_v11, main_call2_cst_3, main_call2_v12, main_call2_cst_4, main_call2_call0_v0, main_call2_call0_v1, main_v58, main_v59, main_v60,
    main_v61, main_v62, main_v63, main_v64, main_cst_16, main_v65, main_v66, main_v67, main_v68, main_v69,
    main_v70, main_v71, main_v72, main_v73, main_call3_cst, main_call3_v0, main_v74, main_v75, main_c_17, main_v76,
    main_v77, main_c_18, main_v78, main_v79, main_v80, main_v81, main_v82, main_cst_19, main_v83, main_v84,
    main_v85, main_v86, main_v87, main_v88, main_c_20, main_v89, main_v90, main_c_21, main_v91, main_v92,
    main_v93, main_v94, main_v95 ]

set_option maxHeartbeats 4000000 in
/-- Each operation of window 1 writes one reference of that list. -/
theorem ops_part1_writes : (ops_part1 : List (HloOp τ sig (Elt F))).Forall fun op =>
    op.writes ⊆ (W_part1.map (Proc.devRef (τ := τ) .tc)).toFinset := by
  simp only [ops_part1, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 2 writes, in the order of its operations. -/
abbrev W_part2 : List (Ref sig .tc) :=
  [
    main_cst_22, main_v96, main_v97, main_v98, main_v99, main_v100, main_v101, main_v102, main_v103, main_v104,
    main_v105, main_v106, main_v107, main_v108, main_v109, main_v110, main_c_23, main_v111, main_v112, main_c_24,
    main_v113, main_v114, main_v115, main_v116, main_v117, main_cst_25, main_v118, main_v119, main_v120, main_v121,
    main_v122, main_v123, main_c_26, main_v124, main_v125, main_c_27, main_v126, main_v127, main_v128, main_v129,
    main_v130, main_cst_28, main_v131, main_v132, main_v133, main_v134, main_v135, main_v136, main_v137, main_v138,
    main_v139, main_v140, main_v141, main_v142, main_v143, main_cst_29, main_v144, main_cst_30, main_v145, main_v146 ]

set_option maxHeartbeats 4000000 in
/-- Each operation of window 2 writes one reference of that list. -/
theorem ops_part2_writes : (ops_part2 : List (HloOp τ sig (Elt F))).Forall fun op =>
    op.writes ⊆ (W_part2.map (Proc.devRef (τ := τ) .tc)).toFinset := by
  simp only [ops_part2, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 3 writes, in the order of its operations. -/
abbrev W_part3 : List (Ref sig .tc) :=
  [
    main_c_31, main_call4_cst, main_call4_v0, main_call4_v1, main_call4_cst_0, main_call4_v2, main_call4_v3, main_call4_v4, main_call4_v5, main_call4_v6,
    main_call4_v7, main_call4_cst_1, main_call4_v8, main_call4_cst_2, main_call4_v9, main_call4_v10, main_call4_v11, main_call4_cst_3, main_call4_v12, main_call4_cst_4,
    main_call4_call0_v0, main_call4_call0_v1, main_v147, main_v148, main_v149, main_v150, main_v151, main_v152, main_v153, main_cst_32,
    main_v154, main_v155, main_v156, main_v157, main_v158, main_v159, main_v160, main_v161, main_v162, main_call5_cst,
    main_call5_v0, main_v163, main_v164, main_v165, main_v166, main_v167, main_v168, main_c_33, main_v169, main_v170,
    main_c_34, main_v171, main_v172, main_v173, main_v174, main_v175, main_cst_35, main_v176, main_v177, main_v178,
    main_v179, main_v180, main_v181, main_c_36, main_v182, main_v183, main_c_37, main_v184, main_v185, main_v186,
    main_v187, main_v188, main_cst_38, main_v189, main_v190, main_v191, main_v192, main_v193, main_v194, main_v195,
    main_v196, main_v197, main_v198 ]

set_option maxHeartbeats 4000000 in
/-- Each operation of window 3 writes one reference of that list. -/
theorem ops_part3_writes : (ops_part3 : List (HloOp τ sig (Elt F))).Forall fun op =>
    op.writes ⊆ (W_part3.map (Proc.devRef (τ := τ) .tc)).toFinset := by
  simp only [ops_part3, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 4 writes, in the order of its operations. -/
abbrev W_part4 : List (Ref sig .tc) :=
  [
    main_v199, main_v200, main_v201, main_v202, main_v203, main_c_39, main_v204, main_v205, main_c_40, main_v206,
    main_v207, main_v208, main_v209, main_v210, main_cst_41, main_v211, main_v212, main_v213, main_v214, main_v215,
    main_v216, main_c_42, main_v217, main_v218, main_c_43, main_v219, main_v220, main_v221, main_v222, main_v223,
    main_cst_44, main_v224, main_v225, main_v226, main_v227, main_v228, main_v229, main_v230, main_v231, main_v232,
    main_v233, main_v234, main_v235, main_v236, main_cst_45, main_v237, main_cst_46, main_v238, main_v239, main_c_47,
    main_call6_cst, main_call6_v0, main_call6_v1, main_call6_cst_0, main_call6_v2, main_call6_v3, main_call6_v4, main_call6_v5, main_call6_v6, main_call6_v7,
    main_call6_cst_1, main_call6_v8, main_call6_cst_2, main_call6_v9, main_call6_v10, main_call6_v11, main_call6_cst_3, main_call6_v12, main_call6_cst_4, main_call6_call0_v0,
    main_call6_call0_v1, main_v240, main_v241, main_v242, main_v243, main_v244, main_v245, main_v246, main_cst_48, main_v247,
    main_v248 ]

set_option maxHeartbeats 4000000 in
/-- Each operation of window 4 writes one reference of that list. -/
theorem ops_part4_writes : (ops_part4 : List (HloOp τ sig (Elt F))).Forall fun op =>
    op.writes ⊆ (W_part4.map (Proc.devRef (τ := τ) .tc)).toFinset := by
  simp only [ops_part4, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 5 writes, in the order of its operations. -/
abbrev W_part5 : List (Ref sig .tc) :=
  [
    main_v249, main_v250, main_v251, main_v252, main_v253, main_v254, main_v255, main_call7_cst, main_call7_v0, main_v256,
    main_v257, main_v258, main_v259, main_v260, main_v261, main_c_49, main_v262, main_v263, main_c_50, main_v264,
    main_v265, main_v266, main_v267, main_v268, main_cst_51, main_v269, main_v270, main_v271, main_v272, main_v273,
    main_v274, main_c_52, main_v275, main_v276, main_c_53, main_v277, main_v278, main_v279, main_v280, main_v281,
    main_cst_54, main_v282, main_v283, main_v284, main_v285, main_v286, main_v287, main_v288, main_v289, main_v290,
    main_v291, main_v292, main_v293, main_v294, main_v295, main_v296, main_c_55, main_v297, main_v298, main_c_56,
    main_v299, main_v300 ]

set_option maxHeartbeats 4000000 in
/-- Each operation of window 5 writes one reference of that list. -/
theorem ops_part5_writes : (ops_part5 : List (HloOp τ sig (Elt F))).Forall fun op =>
    op.writes ⊆ (W_part5.map (Proc.devRef (τ := τ) .tc)).toFinset := by
  simp only [ops_part5, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 6 writes, in the order of its operations. -/
abbrev W_part6 : List (Ref sig .tc) :=
  [
    main_v301, main_v302, main_v303, main_cst_57, main_v304, main_v305, main_v306, main_v307, main_v308, main_v309,
    main_c_58, main_v310, main_v311, main_c_59, main_v312, main_v313, main_v314, main_v315, main_v316, main_cst_60,
    main_v317, main_v318, main_v319, main_v320, main_v321, main_v322, main_v323, main_v324, main_v325, main_v326,
    main_v327, main_v328, main_v329, main_cst_61, main_v330, main_cst_62, main_v331, main_v332, main_c_63, main_call8_cst,
    main_call8_v0, main_call8_v1, main_call8_cst_0, main_call8_v2, main_call8_v3, main_call8_v4, main_call8_v5, main_call8_v6, main_call8_v7, main_call8_cst_1,
    main_call8_v8, main_call8_cst_2, main_call8_v9, main_call8_v10, main_call8_v11, main_call8_cst_3, main_call8_v12, main_call8_cst_4, main_call8_call0_v0, main_call8_call0_v1,
    main_v333, main_v334, main_v335, main_v336, main_v337, main_v338, main_v339, main_cst_64, main_v340, main_v341,
    main_v342, main_v343, main_v344, main_v345, main_v346, main_v347, main_v348, main_call9_cst, main_call9_v0, main_v349,
    main_v350, main_v351, main_v352 ]

set_option maxHeartbeats 4000000 in
/-- Each operation of window 6 writes one reference of that list. -/
theorem ops_part6_writes : (ops_part6 : List (HloOp τ sig (Elt F))).Forall fun op =>
    op.writes ⊆ (W_part6.map (Proc.devRef (τ := τ) .tc)).toFinset := by
  simp only [ops_part6, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 7 writes, in the order of its operations. -/
abbrev W_part7 : List (Ref sig .tc) :=
  [
    main_v353, main_v354, main_c_65, main_v355, main_v356, main_c_66, main_v357, main_v358, main_v359, main_v360,
    main_v361, main_cst_67, main_v362, main_v363, main_v364, main_v365, main_v366, main_v367, main_c_68, main_v368,
    main_v369, main_c_69, main_v370, main_v371, main_v372, main_v373, main_v374, main_cst_70, main_v375, main_v376,
    main_v377, main_v378, main_v379, main_v380, main_v381, main_v382, main_v383, main_v384, main_v385, main_v386,
    main_v387, main_v388, main_v389, main_c_71, main_v390, main_v391, main_c_72, main_v392, main_v393, main_v394,
    main_v395, main_v396, main_cst_73, main_v397, main_v398, main_v399, main_v400, main_v401, main_v402, main_c_74 ]

set_option maxHeartbeats 4000000 in
/-- Each operation of window 7 writes one reference of that list. -/
theorem ops_part7_writes : (ops_part7 : List (HloOp τ sig (Elt F))).Forall fun op =>
    op.writes ⊆ (W_part7.map (Proc.devRef (τ := τ) .tc)).toFinset := by
  simp only [ops_part7, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 8 writes, in the order of its operations. -/
abbrev W_part8 : List (Ref sig .tc) :=
  [
    main_v403, main_v404, main_c_75, main_v405, main_v406, main_v407, main_v408, main_v409, main_cst_76, main_v410,
    main_v411, main_v412, main_v413, main_v414, main_v415, main_v416, main_v417, main_v418, main_v419, main_v420,
    main_v421, main_v422, main_cst_77, main_v423, main_cst_78, main_v424, main_v425, main_c_79, main_call10_cst, main_call10_v0,
    main_call10_v1, main_call10_cst_0, main_call10_v2, main_call10_v3, main_call10_v4, main_call10_v5, main_call10_v6, main_call10_v7, main_call10_cst_1, main_call10_v8,
    main_call10_cst_2, main_call10_v9, main_call10_v10, main_call10_v11, main_call10_cst_3, main_call10_v12, main_call10_cst_4, main_call10_call0_v0, main_call10_call0_v1, main_v426,
    main_v427, main_v428, main_v429, main_v430, main_v431, main_v432, main_cst_80, main_v433, main_v434, main_v435,
    main_v436, main_v437, main_v438, main_v439, main_v440, main_v441, main_call11_cst, main_call11_v0, main_v442, main_v443,
    main_v444, main_v445, main_v446, main_v447, main_c_81, main_v448, main_v449, main_c_82, main_v450, main_v451,
    main_v452, main_v453, main_v454 ]

set_option maxHeartbeats 4000000 in
/-- Each operation of window 8 writes one reference of that list. -/
theorem ops_part8_writes : (ops_part8 : List (HloOp τ sig (Elt F))).Forall fun op =>
    op.writes ⊆ (W_part8.map (Proc.devRef (τ := τ) .tc)).toFinset := by
  simp only [ops_part8, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 9 writes, in the order of its operations. -/
abbrev W_part9 : List (Ref sig .tc) :=
  [
    main_cst_83, main_v455, main_v456, main_v457, main_v458, main_v459, main_v460, main_c_84, main_v461, main_v462,
    main_c_85, main_v463, main_v464, main_v465, main_v466, main_v467, main_cst_86, main_v468, main_v469, main_v470,
    main_v471, main_v472, main_v473, main_v474, main_v475, main_v476, main_v477, main_v478, main_v479, main_v480,
    main_v481, main_v482, main_c_87, main_v483, main_v484, main_c_88, main_v485, main_v486, main_v487, main_v488,
    main_v489, main_cst_89, main_v490, main_v491, main_v492, main_v493, main_v494, main_v495, main_c_90, main_v496,
    main_v497, main_c_91, main_v498, main_v499, main_v500, main_v501, main_v502, main_cst_92, main_v503, main_v504 ]

set_option maxHeartbeats 4000000 in
/-- Each operation of window 9 writes one reference of that list. -/
theorem ops_part9_writes : (ops_part9 : List (HloOp τ sig (Elt F))).Forall fun op =>
    op.writes ⊆ (W_part9.map (Proc.devRef (τ := τ) .tc)).toFinset := by
  simp only [ops_part9, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 10 writes, in the order of its operations. -/
abbrev W_part10 : List (Ref sig .tc) :=
  [
    main_v505, main_v506, main_v507, main_v508, main_v509, main_v510, main_v511, main_v512, main_v513, main_v514,
    main_v515, main_cst_93, main_v516, main_cst_94, main_v517, main_v518, main_c_95, main_call12_cst, main_call12_v0, main_call12_v1,
    main_call12_cst_0, main_call12_v2, main_call12_v3, main_call12_v4, main_call12_v5, main_call12_v6, main_call12_v7, main_call12_cst_1, main_call12_v8, main_call12_cst_2,
    main_call12_v9, main_call12_v10, main_call12_v11, main_call12_cst_3, main_call12_v12, main_call12_cst_4, main_call12_call0_v0, main_call12_call0_v1, main_v519, main_v520,
    main_v521, main_v522, main_v523, main_v524, main_v525, main_cst_96, main_v526, main_v527, main_v528, main_v529,
    main_v530, main_v531, main_v532, main_v533, main_v534, main_call13_cst, main_call13_v0, main_v535, main_v536, main_v537,
    main_v538, main_v539, main_v540, main_c_97, main_v541, main_v542, main_c_98, main_v543, main_v544, main_v545,
    main_v546, main_v547, main_cst_99, main_v548, main_v549, main_v550, main_v551, main_v552, main_v553, main_c_100,
    main_v554, main_v555, main_c_101 ]

set_option maxHeartbeats 4000000 in
/-- Each operation of window 10 writes one reference of that list. -/
theorem ops_part10_writes : (ops_part10 : List (HloOp τ sig (Elt F))).Forall fun op =>
    op.writes ⊆ (W_part10.map (Proc.devRef (τ := τ) .tc)).toFinset := by
  simp only [ops_part10, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 11 writes, in the order of its operations. -/
abbrev W_part11 : List (Ref sig .tc) :=
  [
    main_v556, main_v557, main_v558, main_v559, main_v560, main_cst_102, main_v561, main_v562, main_v563, main_v564,
    main_v565, main_v566, main_v567, main_v568, main_v569, main_v570, main_v571, main_v572, main_v573, main_v574,
    main_v575, main_c_103, main_v576, main_v577, main_c_104, main_v578, main_v579, main_v580, main_v581, main_v582,
    main_cst_105, main_v583, main_v584, main_v585, main_v586, main_v587, main_v588, main_c_106, main_v589, main_v590,
    main_c_107, main_v591, main_v592, main_v593, main_v594, main_v595, main_cst_108, main_v596, main_v597, main_v598,
    main_v599, main_v600, main_v601, main_v602, main_v603, main_v604, main_v605, main_v606, main_v607, main_v608 ]

set_option maxHeartbeats 4000000 in
/-- Each operation of window 11 writes one reference of that list. -/
theorem ops_part11_writes : (ops_part11 : List (HloOp τ sig (Elt F))).Forall fun op =>
    op.writes ⊆ (W_part11.map (Proc.devRef (τ := τ) .tc)).toFinset := by
  simp only [ops_part11, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 12 writes, in the order of its operations. -/
abbrev W_part12 : List (Ref sig .tc) :=
  [
    main_cst_109, main_v609, main_cst_110, main_v610, main_v611, main_c_111, main_call14_cst, main_call14_v0, main_call14_v1, main_call14_cst_0,
    main_call14_v2, main_call14_v3, main_call14_v4, main_call14_v5, main_call14_v6, main_call14_v7, main_call14_cst_1, main_call14_v8, main_call14_cst_2, main_call14_v9,
    main_call14_v10, main_call14_v11, main_call14_cst_3, main_call14_v12, main_call14_cst_4, main_call14_call0_v0, main_call14_call0_v1, main_v612, main_v613, main_v614,
    main_v615, main_v616, main_v617, main_v618, main_cst_112, main_v619, main_v620, main_v621, main_v622, main_v623,
    main_v624, main_v625, main_v626, main_v627, main_call15_cst, main_call15_v0, main_v628, main_v629, main_v630, main_v631,
    main_v632, main_v633, main_c_113, main_v634, main_v635, main_c_114, main_v636, main_v637, main_v638, main_v639,
    main_v640, main_cst_115, main_v641, main_v642, main_v643, main_v644, main_v645, main_v646, main_c_116, main_v647,
    main_v648, main_c_117, main_v649, main_v650, main_v651, main_v652, main_v653, main_cst_118, main_v654, main_v655,
    main_v656, main_v657, main_v658 ]

set_option maxHeartbeats 4000000 in
/-- Each operation of window 12 writes one reference of that list. -/
theorem ops_part12_writes : (ops_part12 : List (HloOp τ sig (Elt F))).Forall fun op =>
    op.writes ⊆ (W_part12.map (Proc.devRef (τ := τ) .tc)).toFinset := by
  simp only [ops_part12, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- The references window 13 writes, in the order of its operations. -/
abbrev W_part13 : List (Ref sig .tc) :=
  [
    main_v659, main_v660, main_v661, main_v662, main_v663, main_v664, main_v665, main_c_119, main_v666, main_v667,
    main_c_120, main_v668, main_v669, main_v670, main_v671, main_v672, main_cst_121, main_v673, main_v674, main_v675,
    main_v676, main_v677, main_v678, main_c_122, main_v679, main_v680, main_c_123, main_v681, main_v682, main_v683,
    main_v684, main_v685, main_cst_124, main_v686, main_v687, main_v688, main_v689, main_v690, main_v691, main_v692,
    main_v693, main_v694 ]

set_option maxHeartbeats 4000000 in
/-- Each operation of window 13 writes one reference of that list. -/
theorem ops_part13_writes : (ops_part13 : List (HloOp τ sig (Elt F))).Forall fun op =>
    op.writes ⊆ (W_part13.map (Proc.devRef (τ := τ) .tc)).toFinset := by
  simp only [ops_part13, List.Forall, StableHlo.nullary_writes, StableHlo.unary_writes, StableHlo.binary_writes,
    StableHlo.ternary_writes, StableHlo.quaternary_writes, StableHlo.reshape_writes]
  repeat' apply And.intro
  all_goals exact singleton_sub_of_mem (by decide)

/-- A reference no window writes keeps its contents through the whole main function. -/
theorem keep_of_not_mem (r : Ref sig .tc) (h0 : r ∉ W_part0) (h1 : r ∉ W_part1) (h2 : r ∉ W_part2) (h3 : r ∉ W_part3) (h4 : r ∉ W_part4) (h5 : r ∉ W_part5) (h6 : r ∉ W_part6) (h7 : r ∉ W_part7) (h8 : r ∉ W_part8) (h9 : r ∉ W_part9) (h10 : r ∉ W_part10) (h11 : r ∉ W_part11) (h12 : r ∉ W_part12) (h13 : r ∉ W_part13)
    (V : Valuation τ sig (Elt F)) : after ops V (Proc.devRef .tc r) = V (Proc.devRef .tc r) := by
  simp only [ops, StableHlo.after_append]
  rw [after_of_writes_sub ops_part13 _ ops_part13_writes h13,
    after_of_writes_sub ops_part12 _ ops_part12_writes h12,
    after_of_writes_sub ops_part11 _ ops_part11_writes h11,
    after_of_writes_sub ops_part10 _ ops_part10_writes h10,
    after_of_writes_sub ops_part9 _ ops_part9_writes h9,
    after_of_writes_sub ops_part8 _ ops_part8_writes h8,
    after_of_writes_sub ops_part7 _ ops_part7_writes h7,
    after_of_writes_sub ops_part6 _ ops_part6_writes h6,
    after_of_writes_sub ops_part5 _ ops_part5_writes h5,
    after_of_writes_sub ops_part4 _ ops_part4_writes h4,
    after_of_writes_sub ops_part3 _ ops_part3_writes h3,
    after_of_writes_sub ops_part2 _ ops_part2_writes h2,
    after_of_writes_sub ops_part1 _ ops_part1_writes h1,
    after_of_writes_sub ops_part0 _ ops_part0_writes h0]

/-- Argument 0 is written by no operation. -/
theorem keep_arg0 (V : Valuation τ sig (Elt F)) : after ops V (Proc.devRef .tc main_arg0) = V (Proc.devRef .tc main_arg0) :=
  keep_of_not_mem main_arg0 (by decide) (by decide) (by decide) (by decide) (by decide) (by decide) (by decide) (by decide) (by decide) (by decide) (by decide) (by decide) (by decide) (by decide) V

/-- Argument 1 is written by no operation. -/
theorem keep_arg1 (V : Valuation τ sig (Elt F)) : after ops V (Proc.devRef .tc main_arg1) = V (Proc.devRef .tc main_arg1) :=
  keep_of_not_mem main_arg1 (by decide) (by decide) (by decide) (by decide) (by decide) (by decide) (by decide) (by decide) (by decide) (by decide) (by decide) (by decide) (by decide) (by decide) V

/-- Argument 2 is written by no operation. -/
theorem keep_arg2 (V : Valuation τ sig (Elt F)) : after ops V (Proc.devRef .tc main_arg2) = V (Proc.devRef .tc main_arg2) :=
  keep_of_not_mem main_arg2 (by decide) (by decide) (by decide) (by decide) (by decide) (by decide) (by decide) (by decide) (by decide) (by decide) (by decide) (by decide) (by decide) (by decide) V

/-- Argument 3 is written by no operation. -/
theorem keep_arg3 (V : Valuation τ sig (Elt F)) : after ops V (Proc.devRef .tc main_arg3) = V (Proc.devRef .tc main_arg3) :=
  keep_of_not_mem main_arg3 (by decide) (by decide) (by decide) (by decide) (by decide) (by decide) (by decide) (by decide) (by decide) (by decide) (by decide) (by decide) (by decide) (by decide) V

/-- Argument 4 is written by no operation. -/
theorem keep_arg4 (V : Valuation τ sig (Elt F)) : after ops V (Proc.devRef .tc main_arg4) = V (Proc.devRef .tc main_arg4) :=
  keep_of_not_mem main_arg4 (by decide) (by decide) (by decide) (by decide) (by decide) (by decide) (by decide) (by decide) (by decide) (by decide) (by decide) (by decide) (by decide) (by decide) V

/-- Argument 5 is written by no operation. -/
theorem keep_arg5 (V : Valuation τ sig (Elt F)) : after ops V (Proc.devRef .tc main_arg5) = V (Proc.devRef .tc main_arg5) :=
  keep_of_not_mem main_arg5 (by decide) (by decide) (by decide) (by decide) (by decide) (by decide) (by decide) (by decide) (by decide) (by decide) (by decide) (by decide) (by decide) (by decide) V

/-- Argument 6 is written by no operation. -/
theorem keep_arg6 (V : Valuation τ sig (Elt F)) : after ops V (Proc.devRef .tc main_arg6) = V (Proc.devRef .tc main_arg6) :=
  keep_of_not_mem main_arg6 (by decide) (by decide) (by decide) (by decide) (by decide) (by decide) (by decide) (by decide) (by decide) (by decide) (by decide) (by decide) (by decide) (by decide) V

/-- Argument 7 is written by no operation. -/
theorem keep_arg7 (V : Valuation τ sig (Elt F)) : after ops V (Proc.devRef .tc main_arg7) = V (Proc.devRef .tc main_arg7) :=
  keep_of_not_mem main_arg7 (by decide) (by decide) (by decide) (by decide) (by decide) (by decide) (by decide) (by decide) (by decide) (by decide) (by decide) (by decide) (by decide) (by decide) V

/-- Argument 8 is written by no operation. -/
theorem keep_arg8 (V : Valuation τ sig (Elt F)) : after ops V (Proc.devRef .tc main_arg8) = V (Proc.devRef .tc main_arg8) :=
  keep_of_not_mem main_arg8 (by decide) (by decide) (by decide) (by decide) (by decide) (by decide) (by decide) (by decide) (by decide) (by decide) (by decide) (by decide) (by decide) (by decide) V

/-- Argument 9 is written by no operation. -/
theorem keep_arg9 (V : Valuation τ sig (Elt F)) : after ops V (Proc.devRef .tc main_arg9) = V (Proc.devRef .tc main_arg9) :=
  keep_of_not_mem main_arg9 (by decide) (by decide) (by decide) (by decide) (by decide) (by decide) (by decide) (by decide) (by decide) (by decide) (by decide) (by decide) (by decide) (by decide) V

/-- Argument 10 is written by no operation. -/
theorem keep_arg10 (V : Valuation τ sig (Elt F)) : after ops V (Proc.devRef .tc main_arg10) = V (Proc.devRef .tc main_arg10) :=
  keep_of_not_mem main_arg10 (by decide) (by decide) (by decide) (by decide) (by decide) (by decide) (by decide) (by decide) (by decide) (by decide) (by decide) (by decide) (by decide) (by decide) V

/-- Argument 11 is written by no operation. -/
theorem keep_arg11 (V : Valuation τ sig (Elt F)) : after ops V (Proc.devRef .tc main_arg11) = V (Proc.devRef .tc main_arg11) :=
  keep_of_not_mem main_arg11 (by decide) (by decide) (by decide) (by decide) (by decide) (by decide) (by decide) (by decide) (by decide) (by decide) (by decide) (by decide) (by decide) (by decide) V

/-- Argument 12 is written by no operation. -/
theorem keep_arg12 (V : Valuation τ sig (Elt F)) : after ops V (Proc.devRef .tc main_arg12) = V (Proc.devRef .tc main_arg12) :=
  keep_of_not_mem main_arg12 (by decide) (by decide) (by decide) (by decide) (by decide) (by decide) (by decide) (by decide) (by decide) (by decide) (by decide) (by decide) (by decide) (by decide) V

/-- Argument 13 is written by no operation. -/
theorem keep_arg13 (V : Valuation τ sig (Elt F)) : after ops V (Proc.devRef .tc main_arg13) = V (Proc.devRef .tc main_arg13) :=
  keep_of_not_mem main_arg13 (by decide) (by decide) (by decide) (by decide) (by decide) (by decide) (by decide) (by decide) (by decide) (by decide) (by decide) (by decide) (by decide) (by decide) V

/-- The reference's frame: every weakly fair execution of its main function terminates and leaves each argument's buffer
    as launched. -/
theorem frame_ref : Cert.frame_ReferenceIdeal (hReferenceIdeal := Cert.ReferenceIdeal.Gen.facts)
    (hPre_finite_inputs := Cert.Pre_finite_inputs.Gen.facts) :=
  fun m ρ _ => (θ_run defs _ _).mono (fun r h c =>
    ⟨(h c main_arg0).trans (keep_arg0 _),
      (h c main_arg1).trans (keep_arg1 _),
      (h c main_arg2).trans (keep_arg2 _),
      (h c main_arg3).trans (keep_arg3 _),
      (h c main_arg4).trans (keep_arg4 _),
      (h c main_arg5).trans (keep_arg5 _),
      (h c main_arg6).trans (keep_arg6 _),
      (h c main_arg7).trans (keep_arg7 _),
      (h c main_arg8).trans (keep_arg8 _),
      (h c main_arg9).trans (keep_arg9 _),
      (h c main_arg10).trans (keep_arg10 _),
      (h c main_arg11).trans (keep_arg11 _),
      (h c main_arg12).trans (keep_arg12 _),
      (h c main_arg13).trans (keep_arg13 _)⟩)
    (run_after m ρ)

end Cert.ReferenceIdeal.RefRun

end
-- ==== Proof.LibRowGather.lean ====
/-
  A gather of whole rows, read at an index, at any extents.

  `x[idx]` of a table `x : [N, C]` at a column of row numbers `idx : [E, 1]` is the array `[E, C]` whose row `e` is row
  `idx e` of the table: the start index is read as a signed integer and clamped into `[0, N − 1]`, the slice is one whole
  row, so entry `(e, q)` is `x (clamp (idx e), q)`.  The clamped row number depends on `idx` and `e` only — not on the
  table, nor on its width — which is what lets a map applied to every row of the table be taken before or after the gather.
-/
import Idealize.ShloMosaic.PureOps.Ideal.Laws
import Idealize.ShloMosaic.Lib.ValueIdx
import Idealize.ShloMosaic.Lib.Pipeline.Value

noncomputable section

namespace Cert.RowGather

open Idealize.ShloMosaic Idealize.ShloMosaic.ValueIdx

variable {α : Type}

/-- The row a gather reads for entry `e`: the start index read signed, clamped into `[0, N − 1]`. -/
def rowOf {N E w : ℕ} (hN : 0 < N) (idx : IVec ⟨2, ![E, 1]⟩ w) (e : Fin E) : Fin N :=
  ⟨min (idx (ix2 e (0 : Fin 1))).toInt.toNat (N - 1), by omega⟩

/-- A gather of whole rows (the result's second axis the offset axis, the table's first axis collapsed and named by the
    start index, one index per result row) reads, at `(e, q)`, the table at row `rowOf idx e` and column `q`. -/
theorem rowGather_apply {N C E w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (q : Fin C) :
    Host.gather d x idx (ix2 e q) = x (ix2 (rowOf hN idx e) q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![E, 1]⟩ ⟨2, ![E, C]⟩) = D
  unfold Host.gather
  refine congrArg x (funext fun a => Fin.ext ?_)
  show D.start (ix2 e q) idx a + D.batchCoord (ix2 e q) a + D.offCoord (ix2 e q) a = _
  have hob : D.operandBatchingDims = [] := by subst hD; rfl
  have hcd : D.collapsedSliceDims = [0] := by subst hD; rfl
  have hsm : D.startIndexMap = [0] := by subst hD; rfl
  rw [GatherDims.batchCoord_eq_zero _ _ _ (by rw [hob]; exact List.not_mem_nil), Nat.add_zero]
  match a with
  | ⟨0, _⟩ =>
    rw [GatherDims.offCoord_eq_zero _ _ _ (fun h => ((GatherDims.mem_sKept _ _).mp h).1 (by rw [hcd]; exact List.mem_singleton.mpr rfl)),
      Nat.add_zero]
    unfold GatherDims.start
    have hmem : (⟨0, by decide⟩ : Fin 2) ∈ D.startIndexMap := by rw [hsm]; exact List.mem_singleton.mpr rfl
    rw [dif_pos hmem]
    have hsi : D.siIdx (ix2 e q) ⟨List.idxOf (⟨0, by decide⟩ : Fin 2) D.startIndexMap, List.idxOf_lt_length_iff.2 hmem⟩
        = ix2 e (0 : Fin 1) := by
      subst hD
      funext b; refine Fin.ext ?_
      match b with
      | ⟨0, _⟩ => rfl
      | ⟨1, _⟩ => rfl
    rw [hsi]
    subst hD
    rfl
  | ⟨1, _⟩ =>
    have hst : D.start (ix2 e q) idx ⟨1, by show 1 < 2; omega⟩ = 0 := by
      unfold GatherDims.start
      rw [dif_neg (by rw [hsm]; exact fun h => Nat.one_ne_zero (congrArg Fin.val (List.mem_singleton.mp h)))]
    rw [hst, Nat.zero_add]
    subst hD
    rfl

end Cert.RowGather

end
-- ==== Proof.LibScatterRows.lean ====
/-
  An accumulating scatter of whole rows, at any extents.

  Scattering the rows of `upd : [E, C]` into a table `x : [N, C]` at a column of row numbers `idx : [E, 1]`, adding
  where rows collide, gives at entry `(i, q)` the table's entry plus the sum of `upd (e, q)` over the rows `e` whose
  row number, read as a signed integer, is exactly `i`: the start index is not clamped, so a row whose number is
  negative or at least `N` lands nowhere and contributes to no entry.  The set of rows landing at `i` depends on
  `idx` and `i` only.  The same holds for a vector `x : [N]` and updates `upd : [E]`.  A gather of single elements
  of a vector reads the clamped row number, and the clamp is the identity on a row number already in range, which
  is what relates a gather to the scatter at the same indices.
-/
import Idealize.ShloMosaic.PureOps.Ideal.Laws
import Idealize.ShloMosaic.Lib.ValueIdx
import Idealize.ShloMosaic.Lib.Pipeline.Value
import proofs.«127768_j9405978378358_1_alg».proof.Proof.LibRowGather

noncomputable section

namespace Cert.ScatterRows

open Idealize.ShloMosaic Idealize.ShloMosaic.ValueIdx

/-- The update rows that land at row `i`: those whose row number, read signed, is `i`. -/
def landsAt {N E w : ℕ} (idx : IVec ⟨2, ![E, 1]⟩ w) (i : Fin N) : Finset (Fin E) :=
  Finset.univ.filter (fun e => (idx (ix2 e (0 : Fin 1))).toInt = (i.val : Int))

/-- The window of update `(e, q')` of a row scatter: on the table's first axis it starts at the row number and has
    coordinate `0`; on the second axis it starts at `0` and has coordinate `q'`. -/
theorem start_window {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (q' : Fin C) :
    d.start (ix2 e q') idx ⟨0, Nat.zero_lt_two⟩ = (idx (ix2 e (0 : Fin 1))).toInt ∧
    d.start (ix2 e q') idx ⟨1, Nat.one_lt_two⟩ = 0 ∧
    d.window (ix2 e q') ⟨0, Nat.zero_lt_two⟩ = 0 ∧
    d.window (ix2 e q') ⟨1, Nat.one_lt_two⟩ = q'.val := by
  obtain ⟨uw, iw, sd, iv, wf⟩ := d
  dsimp only at h1 h2 h3 h4
  subst h1 h2 h3 h4
  generalize hD : (⟨[1], [0], [0], 1, wf⟩ : ScatterDims ⟨2, ![N, C]⟩ ⟨2, ![E, 1]⟩ ⟨2, ![E, C]⟩) = D
  have hsd : D.scatterDimsToOperandDims = [0] := by subst hD; rfl
  refine ⟨?_, ?_, ?_, ?_⟩
  · unfold ScatterDims.start
    have hmem : (⟨0, by decide⟩ : Fin 2) ∈ D.scatterDimsToOperandDims := by rw [hsd]; exact List.mem_singleton.mpr rfl
    rw [dif_pos hmem]
    have hsi : D.siIdx (ix2 e q') ⟨List.idxOf (⟨0, by decide⟩ : Fin 2) D.scatterDimsToOperandDims,
        List.idxOf_lt_length_iff.2 hmem⟩ = ix2 e (0 : Fin 1) := by
      subst hD
      funext b; refine Fin.ext ?_
      match b with
      | ⟨0, _⟩ => rfl
      | ⟨1, _⟩ => rfl
    rw [hsi]
  · unfold ScatterDims.start
    rw [dif_neg (by rw [hsd]; exact fun h => Nat.one_ne_zero (congrArg Fin.val (List.mem_singleton.mp h)))]
  · subst hD; rfl
  · subst hD; rfl

/-- Update `(e, q')` of a row scatter lands at entry `(i, q)` exactly when its row number, read signed, is `i` and
    its column is `q`. -/
theorem resultIdx?_eq_some_iff {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (q' : Fin C) (i : Fin N) (q : Fin C) :
    d.resultIdx? (ix2 e q') idx = some (ix2 i q) ↔
      (idx (ix2 e (0 : Fin 1))).toInt = (i.val : Int) ∧ q' = q := by
  obtain ⟨hs0, hs1, hw0, hw1⟩ := start_window d h1 h2 h3 h4 idx e q'
  unfold ScatterDims.resultIdx?
  constructor
  · intro h
    split_ifs at h with hc
    have hf := Option.some.inj h
    have e0 := congrArg Fin.val (congrFun hf ⟨0, Nat.zero_lt_two⟩)
    have e1 := congrArg Fin.val (congrFun hf ⟨1, Nat.one_lt_two⟩)
    have c0 := (hc ⟨0, Nat.zero_lt_two⟩).1
    simp only [hs0, hw0] at e0 c0
    simp only [hs1, hw1] at e1
    refine ⟨?_, Fin.ext ?_⟩
    · change ((idx (ix2 e (0 : Fin 1))).toInt + ((0 : ℕ) : ℤ)).toNat = i.val at e0
      omega
    · change ((0 : ℤ) + ((q'.val : ℕ) : ℤ)).toNat = q.val at e1
      omega
  · rintro ⟨hi, rfl⟩
    have hc : ∀ a : Fin 2, 0 ≤ d.start (ix2 e q') idx a + d.window (ix2 e q') a ∧
        d.start (ix2 e q') idx a + d.window (ix2 e q') a < (⟨2, ![N, C]⟩ : Shape).size a := by
      intro a
      match a with
      | ⟨0, _⟩ =>
        rw [hs0, hw0, hi]
        change (0 : ℤ) ≤ (i.val : ℤ) + ((0 : ℕ) : ℤ) ∧ (i.val : ℤ) + ((0 : ℕ) : ℤ) < (N : ℤ)
        have := i.isLt
        omega
      | ⟨1, _⟩ =>
        rw [hs1, hw1]
        change (0 : ℤ) ≤ 0 + (q'.val : ℤ) ∧ 0 + (q'.val : ℤ) < (C : ℤ)
        have := q'.isLt
        omega
    rw [dif_pos hc]
    refine congrArg some (funext fun a => Fin.ext ?_)
    match a with
    | ⟨0, _⟩ =>
      change (d.start (ix2 e q') idx ⟨0, Nat.zero_lt_two⟩ + d.window (ix2 e q') ⟨0, Nat.zero_lt_two⟩).toNat = i.val
      rw [hs0, hw0, hi]; omega
    | ⟨1, _⟩ =>
      change (d.start (ix2 e q') idx ⟨1, Nat.one_lt_two⟩ + d.window (ix2 e q') ⟨1, Nat.one_lt_two⟩).toNat = q'.val
      rw [hs1, hw1]; omega

/-- An accumulating scatter of whole rows: entry `(i, q)` of the result is the table's entry plus the sum, over the
    update rows landing at `i`, of their entry in column `q`. -/
theorem scatterRows_apply {N C E w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (i : Fin N) (q : Fin C) :
    Host.scatterAdd (F := Ideal) d x idx upd (ix2 i q) = x (ix2 i q) + ∑ e ∈ landsAt idx i, upd (ix2 e q) := by
  show x (ix2 i q) + ∑ j ∈ Finset.univ.filter (fun j => d.resultIdx? j idx = some (ix2 i q)), upd j = _
  congr 1
  rw [Finset.sum_filter, sum_idx2]
  simp only [resultIdx?_eq_some_iff d h1 h2 h3 h4]
  unfold landsAt
  rw [Finset.sum_filter]
  refine Finset.sum_congr rfl fun a _ => ?_
  by_cases ha : (idx (ix2 a (0 : Fin 1))).toInt = (i.val : Int)
  · simp only [ha, true_and, if_true]
    rw [Finset.sum_ite_eq' Finset.univ q (fun b => upd (ix2 a b))]
    simp
  · simp only [ha, false_and, if_false]
    exact Finset.sum_const_zero

/-- The clamp into `[0, N − 1]` is the identity on a row number already in range: a row that lands at `i` is read
    back from row `i` by a gather at the same indices. -/
theorem rowOf_of_toInt {N E w : ℕ} (hN : 0 < N) (idx : IVec ⟨2, ![E, 1]⟩ w) (e : Fin E) (i : Fin N)
    (h : (idx (ix2 e (0 : Fin 1))).toInt = (i.val : Int)) : Cert.RowGather.rowOf hN idx e = i := by
  refine Fin.ext ?_
  show min (idx (ix2 e (0 : Fin 1))).toInt.toNat (N - 1) = i.val
  rw [h]
  have := i.isLt
  omega

/-- A row lands at `i` exactly when it is a member of `landsAt idx i`. -/
theorem mem_landsAt {N E w : ℕ} (idx : IVec ⟨2, ![E, 1]⟩ w) (i : Fin N) (e : Fin E) :
    e ∈ landsAt idx i ↔ (idx (ix2 e (0 : Fin 1))).toInt = (i.val : Int) := by
  unfold landsAt
  rw [Finset.mem_filter]
  exact ⟨fun h => h.2, fun h => ⟨Finset.mem_univ _, h⟩⟩

/-! ## The rank-1 forms -/

/-- A rank-1 index set is its one coordinate range … -/
def idxEquiv1 {n : ℕ} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ a : Fin n, f (ix1 a) := by
  rw [← Equiv.sum_comp (idxEquiv1 (n := n)).symm f]
  rfl

/-- The window of update `e` of an element scatter into a vector: it starts at the row number and has coordinate
    `0`. -/
theorem start_window1 {N E w : ℕ}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) :
    d.start (ix1 e) idx ⟨0, Nat.one_pos⟩ = (idx (ix2 e (0 : Fin 1))).toInt ∧
    d.window (ix1 e) ⟨0, Nat.one_pos⟩ = 0 := by
  obtain ⟨uw, iw, sd, iv, wf⟩ := d
  dsimp only at h1 h2 h3 h4
  subst h1 h2 h3 h4
  generalize hD : (⟨[], [0], [0], 1, wf⟩ : ScatterDims ⟨1, ![N]⟩ ⟨2, ![E, 1]⟩ ⟨1, ![E]⟩) = D
  have hsd : D.scatterDimsToOperandDims = [0] := by subst hD; rfl
  refine ⟨?_, ?_⟩
  · unfold ScatterDims.start
    have hmem : (⟨0, Nat.one_pos⟩ : Fin 1) ∈ D.scatterDimsToOperandDims := by rw [hsd]; exact List.mem_singleton.mpr rfl
    rw [dif_pos hmem]
    have hsi : D.siIdx (ix1 e) ⟨List.idxOf (⟨0, Nat.one_pos⟩ : Fin 1) D.scatterDimsToOperandDims,
        List.idxOf_lt_length_iff.2 hmem⟩ = ix2 e (0 : Fin 1) := by
      subst hD
      funext b; refine Fin.ext ?_
      match b with
      | ⟨0, _⟩ => rfl
      | ⟨1, _⟩ => rfl
    rw [hsi]
  · subst hD; rfl

/-- Update `e` of an element scatter into a vector lands at entry `i` exactly when its row number, read signed,
    is `i`. -/
theorem resultIdx?_eq_some_iff1 {N E w : ℕ}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  obtain ⟨hs0, hw0⟩ := start_window1 d h1 h2 h3 h4 idx e
  unfold ScatterDims.resultIdx?
  constructor
  · intro h
    split_ifs at h with hc
    have hf := Option.some.inj h
    have e0 := congrArg Fin.val (congrFun hf ⟨0, Nat.one_pos⟩)
    have c0 := (hc ⟨0, Nat.one_pos⟩).1
    simp only [hs0, hw0] at e0 c0
    change ((idx (ix2 e (0 : Fin 1))).toInt + ((0 : ℕ) : ℤ)).toNat = i.val at e0
    omega
  · intro hi
    have hc : ∀ a : Fin 1, 0 ≤ d.start (ix1 e) idx a + d.window (ix1 e) a ∧
        d.start (ix1 e) idx a + d.window (ix1 e) a < (⟨1, ![N]⟩ : Shape).size a := by
      intro a
      match a with
      | ⟨0, _⟩ =>
        rw [hs0, hw0, hi]
        change (0 : ℤ) ≤ (i.val : ℤ) + ((0 : ℕ) : ℤ) ∧ (i.val : ℤ) + ((0 : ℕ) : ℤ) < (N : ℤ)
        have := i.isLt
        omega
    rw [dif_pos hc]
    refine congrArg some (funext fun a => Fin.ext ?_)
    match a with
    | ⟨0, _⟩ =>
      change (d.start (ix1 e) idx ⟨0, Nat.one_pos⟩ + d.window (ix1 e) ⟨0, Nat.one_pos⟩).toNat = i.val
      rw [hs0, hw0, hi]; omega

/-- An accumulating scatter of single elements into a vector: entry `i` of the result is the vector's entry plus the
    sum of the updates landing at `i`. -/
theorem scatterElems_apply {N E w : ℕ}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ .f32) (idx : IVec ⟨2, ![E, 1]⟩ w) (upd : FVec Ideal ⟨1, ![E]⟩ .f32) (i : Fin N) :
    Host.scatterAdd (F := Ideal) d x idx upd (ix1 i) = x (ix1 i) + ∑ e ∈ landsAt idx i, upd (ix1 e) := by
  show x (ix1 i) + ∑ j ∈ Finset.univ.filter (fun j => d.resultIdx? j idx = some (ix1 i)), upd j = _
  congr 1
  rw [Finset.sum_filter, sum_idx1]
  simp only [resultIdx?_eq_some_iff1 d h1 h2 h3 h4]
  unfold landsAt
  rw [Finset.sum_filter]

/-- A gather of single elements of a vector (the one operand axis collapsed and named by the start index, one index
    per result entry) reads, at `e`, the vector at the clamped row number of `e`. -/
theorem elemGather_apply {α : Type} {N E w : ℕ} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 (Cert.RowGather.rowOf hN idx e)) := by
  obtain ⟨od, cd, ob, sb, sm, iv, ss, wf⟩ := d
  dsimp only at h1 h2 h3 h4 h5 h6 h7
  subst h1 h2 h3 h4 h5 h6 h7
  generalize hD : (⟨[], [0], [], [], [0], 1, ![1], wf⟩ : GatherDims ⟨1, ![N]⟩ ⟨2, ![E, 1]⟩ ⟨1, ![E]⟩) = D
  unfold Host.gather
  refine congrArg x (funext fun a => Fin.ext ?_)
  show D.start (ix1 e) idx a + D.batchCoord (ix1 e) a + D.offCoord (ix1 e) a = _
  have hob : D.operandBatchingDims = [] := by subst hD; rfl
  have hcd : D.collapsedSliceDims = [0] := by subst hD; rfl
  have hsm : D.startIndexMap = [0] := by subst hD; rfl
  rw [GatherDims.batchCoord_eq_zero _ _ _ (by rw [hob]; exact List.not_mem_nil), Nat.add_zero]
  match a with
  | ⟨0, _⟩ =>
    rw [GatherDims.offCoord_eq_zero _ _ _
      (fun h => ((GatherDims.mem_sKept _ _).mp h).1 (by rw [hcd]; exact List.mem_singleton.mpr rfl)), Nat.add_zero]
    unfold GatherDims.start
    have hmem : (⟨0, Nat.one_pos⟩ : Fin 1) ∈ D.startIndexMap := by rw [hsm]; exact List.mem_singleton.mpr rfl
    rw [dif_pos hmem]
    have hsi : D.siIdx (ix1 e) ⟨List.idxOf (⟨0, Nat.one_pos⟩ : Fin 1) D.startIndexMap,
        List.idxOf_lt_length_iff.2 hmem⟩ = ix2 e (0 : Fin 1) := by
      subst hD
      funext b; refine Fin.ext ?_
      match b with
      | ⟨0, _⟩ => rfl
      | ⟨1, _⟩ => rfl
    rw [hsi]
    subst hD
    rfl

end Cert.ScatterRows

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«127768_j9405978378358_1_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.SpecGraph.lean ====
/- The hypergraph reduction, one column at a time. For node features `col` (one column of an [N, C] array), the
   reduction first sums, for every hyperedge `h`, the features of the nodes incident to it and scales the sum by the
   hyperedge's inverse degree, then sums, for every node `n`, those hyperedge values over the hyperedges incident to it
   and scales by the node's inverse degree: D⁻¹ H B⁻¹ Hᵀ applied to the column. Incidence is given by index arrays: a
   scatter adds update row `e` at the row its index names (rows out of range are dropped), a gather reads the row its
   index names (clamped into range). Because both steps act on each column by itself, the reduction of an array is the
   reduction of its columns, whatever the number of columns. -/
import proofs.«127768_j9405978378358_1_alg».proof.Proof.LibRowGather
import proofs.«127768_j9405978378358_1_alg».proof.Proof.LibScatterRows
import proofs.«127768_j9405978378358_1_alg».proof.Proof.LibHostLayout
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx Cert.RowGather Cert.ScatterRows Cert.HostLayout

/-- The reduction of one column: `gN` / `gH` are the index arrays the two gathers read through (node rows, hyperedge
    rows), `sH` / `sN` the index arrays the two scatters add through; `binv` / `dinv` the inverse degrees. -/
def grCol {N H E : ℕ} (hN : 0 < N) (hH : 0 < H) (gN sH gH sN : IVec ⟨2, ![E, 1]⟩ 32)
    (binv : Fin H → EReal) (dinv : Fin N → EReal) (col : Fin N → EReal) (n : Fin N) : EReal :=
  (Ideal.ofBits .f32 0x00000000#32 + ∑ e ∈ landsAt sN n,
      ((Ideal.ofBits .f32 0x00000000#32 + ∑ e' ∈ landsAt sH (rowOf hH gH e), col (rowOf hN gN e')) * binv (rowOf hH gH e)))
    * dinv n

/-- The host's reduction chain — gather the node rows, add them into the hyperedges, scale by the inverse hyperedge
    degrees, gather the hyperedge rows, add them into the nodes, scale by the inverse node degrees — read at entry
    `(n, q)` is the reduction of column `q`. -/
theorem gr_apply {N H E C : ℕ} (hN : 0 < N) (hH : 0 < H)
    (s2 : ScatterDims ⟨2, ![N, C]⟩ ⟨2, ![E, 1]⟩ ⟨2, ![E, C]⟩)
    (s2a : s2.updateWindowDims = [1]) (s2b : s2.insertedWindowDims = [0]) (s2c : s2.scatterDimsToOperandDims = [0]) (s2d : s2.indexVectorDim = 1)
    (g2 : GatherDims ⟨2, ![H, C]⟩ ⟨2, ![E, 1]⟩ ⟨2, ![E, C]⟩)
    (g2a : g2.offsetDims = [1]) (g2b : g2.collapsedSliceDims = [0]) (g2c : g2.operandBatchingDims = [])
    (g2d : g2.startIndicesBatchingDims = []) (g2e : g2.startIndexMap = [0]) (g2f : g2.indexVectorDim = 1) (g2g : g2.sliceSizes = ![1, C])
    (s1 : ScatterDims ⟨2, ![H, C]⟩ ⟨2, ![E, 1]⟩ ⟨2, ![E, C]⟩)
    (s1a : s1.updateWindowDims = [1]) (s1b : s1.insertedWindowDims = [0]) (s1c : s1.scatterDimsToOperandDims = [0]) (s1d : s1.indexVectorDim = 1)
    (g1 : GatherDims ⟨2, ![N, C]⟩ ⟨2, ![E, 1]⟩ ⟨2, ![E, C]⟩)
    (g1a : g1.offsetDims = [1]) (g1b : g1.collapsedSliceDims = [0]) (g1c : g1.operandBatchingDims = [])
    (g1d : g1.startIndicesBatchingDims = []) (g1e : g1.startIndexMap = [0]) (g1f : g1.indexVectorDim = 1) (g1g : g1.sliceSizes = ![1, C])
    (zN : (⟨0, ![]⟩ : Shape).BroadcastsInDim ⟨2, ![N, C]⟩ ![]) (zH : (⟨0, ![]⟩ : Shape).BroadcastsInDim ⟨2, ![H, C]⟩ ![])
    (cH1 : (⟨1, ![H]⟩ : Shape).BroadcastsInDim ⟨2, ![H, 1]⟩ ![0]) (cH2 : (⟨2, ![H, 1]⟩ : Shape).BroadcastsInDim ⟨2, ![H, C]⟩ ![0, 1])
    (cN1 : (⟨1, ![N]⟩ : Shape).BroadcastsInDim ⟨2, ![N, 1]⟩ ![0]) (cN2 : (⟨2, ![N, 1]⟩ : Shape).BroadcastsInDim ⟨2, ![N, C]⟩ ![0, 1])
    (gN sH gH sN : IVec ⟨2, ![E, 1]⟩ 32) (xw : FVec Ideal ⟨2, ![N, C]⟩ .f32)
    (binv : FVec Ideal ⟨1, ![H]⟩ .f32) (dinv : FVec Ideal ⟨1, ![N]⟩ .f32) (n : Fin N) (q : Fin C) :
    mulf (Host.scatterAdd (F := Ideal) s2 (broadcastInDim ⟨2, ![N, C]⟩ ![] zN (constant (F := Ideal) ⟨0, ![]⟩ .f32 0x00000000#32)) sN
        (Host.gather g2 (mulf (Host.scatterAdd (F := Ideal) s1 (broadcastInDim ⟨2, ![H, C]⟩ ![] zH (constant (F := Ideal) ⟨0, ![]⟩ .f32 0x00000000#32)) sH
            (Host.gather g1 xw gN))
          (broadcastInDim ⟨2, ![H, C]⟩ ![0, 1] cH2 (broadcastInDim ⟨2, ![H, 1]⟩ ![0] cH1 binv))) gH))
      (broadcastInDim ⟨2, ![N, C]⟩ ![0, 1] cN2 (broadcastInDim ⟨2, ![N, 1]⟩ ![0] cN1 dinv)) (ix2 n q)
    = grCol hN hH gN sH gH sN (fun h => binv (ix1 h)) (fun r => dinv (ix1 r)) (fun r => xw (ix2 r q)) n := by
  unfold grCol
  rw [mulf_apply, bcast_col_mat, bcast_vec_col, scatterRows_apply s2 s2a s2b s2c s2d, bcast_scalar_mat, constant_apply]
  refine congrArg (· * dinv (ix1 n)) (congrArg (Ideal.ofBits .f32 0x00000000#32 + ·) (Finset.sum_congr rfl fun e _ => ?_))
  rw [rowGather_apply hH g2 g2a g2b g2c g2d g2e g2f g2g, mulf_apply, bcast_col_mat, bcast_vec_col,
    scatterRows_apply s1 s1a s1b s1c s1d, bcast_scalar_mat, constant_apply]
  refine congrArg (· * binv (ix1 (rowOf hH gH e))) (congrArg (Ideal.ofBits .f32 0x00000000#32 + ·) (Finset.sum_congr rfl fun e' _ => ?_))
  exact rowGather_apply hN g1 g1a g1b g1c g1d g1e g1f g1g xw gN e' q

/-- The reduction only looks at the column it is given: equal columns have equal reductions. -/
theorem grCol_congr {N H E : ℕ} (hN : 0 < N) (hH : 0 < H) (gN sH gH sN : IVec ⟨2, ![E, 1]⟩ 32)
    (binv : Fin H → EReal) (dinv : Fin N → EReal) (col col' : Fin N → EReal) (h : ∀ r, col r = col' r) (n : Fin N) :
    grCol hN hH gN sH gH sN binv dinv col n = grCol hN hH gN sH gH sN binv dinv col' n := by
  rw [show col = col' from funext h]

end Cert.Spec

end
-- ==== Proof.BridgeFns.lean ====
/- Stages the two programs spell with the same operations are the same function: the two spellings differ only in which program's shape names and side-condition proofs they cite. -/
import proofs.«127768_j9405978378358_1_alg».proof.Proof.KFun
import proofs.«127768_j9405978378358_1_alg».proof.Proof.RFun
import proofs.«127768_j9405978378358_1_alg».proof.Proof.SpecGraph
import proofs.«127768_j9405978378358_1_alg».proof.Proof.LibDense
import proofs.«127768_j9405978378358_1_alg».proof.Proof.LibHostLayout
import Idealize.ShloMosaic.PureOps.Ideal
import Idealize.ShloMosaic.Lib.ValueIdx
import Idealize.ShloMosaic.Lib.Pipeline.Value

set_option maxRecDepth 16384

noncomputable section

namespace Cert.Bridge

open Idealize.ShloMosaic Idealize.ShloMosaic.TcCoe Idealize.ShloMosaic.StableHlo Idealize.ShloMosaic.ValueIdx
open Cert.KernelIdeal.Val Cert.ReferenceIdeal.Val Cert.Dense Cert.Spec

theorem kf0_eq (x0 : (⟨Cert.KernelIdeal.S100000x48, .f32⟩ : BufTy).Contents (Elt Ideal)) (x1 : (⟨Cert.KernelIdeal.S48, .f32⟩ : BufTy).Contents (Elt Ideal)) : kf0 (F := Ideal) x0 x1 = rf0 (F := Ideal) x0 x1 := rfl
theorem kf1_eq (x0 : (⟨Cert.KernelIdeal.S2x1000000, .i32⟩ : BufTy).Contents (Elt Ideal)) : kf1 (F := Ideal) x0 = rf1 (F := Ideal) x0 := rfl
theorem kf2_eq (x0 : (⟨Cert.KernelIdeal.S2x1000000, .i32⟩ : BufTy).Contents (Elt Ideal)) : kf2 (F := Ideal) x0 = rf2 (F := Ideal) x0 := rfl
theorem kf3_eq  : kf3 (F := Ideal)  = rf3 (F := Ideal)  := rfl
theorem kf4_eq (x0 : (⟨Cert.KernelIdeal.S1000000, .i32⟩ : BufTy).Contents (Elt Ideal)) (x1 : (⟨Cert.KernelIdeal.S1000000, .f32⟩ : BufTy).Contents (Elt Ideal)) : kf4 (F := Ideal) x0 x1 = rf4 (F := Ideal) x0 x1 := rfl
theorem kf5_eq (x0 : (⟨Cert.KernelIdeal.S1000000, .i32⟩ : BufTy).Contents (Elt Ideal)) (x1 : (⟨Cert.KernelIdeal.S1000000, .f32⟩ : BufTy).Contents (Elt Ideal)) : kf5 (F := Ideal) x0 x1 = rf5 (F := Ideal) x0 x1 := rfl
theorem kf17_eq (x0 : (⟨Cert.KernelIdeal.S100000x80, .f32⟩ : BufTy).Contents (Elt Ideal)) : kf17 (F := Ideal) x0 = rf12 (F := Ideal) x0 := rfl
theorem kf19_eq (x0 : (⟨Cert.KernelIdeal.S100000x80, .f32⟩ : BufTy).Contents (Elt Ideal)) : kf19 (F := Ideal) x0 = rf13 (F := Ideal) x0 := rfl
theorem kf21_eq (x0 : (⟨Cert.KernelIdeal.S100000x80, .f32⟩ : BufTy).Contents (Elt Ideal)) (x1 : (⟨Cert.KernelIdeal.S_, .f32⟩ : BufTy).Contents (Elt Ideal)) : kf21 (F := Ideal) x0 x1 = rf15 (F := Ideal) x0 x1 := rfl
theorem kf22_eq (x0 : (⟨Cert.KernelIdeal.S_, .f32⟩ : BufTy).Contents (Elt Ideal)) (x1 : (⟨Cert.KernelIdeal.S80, .f32⟩ : BufTy).Contents (Elt Ideal)) : kf22 (F := Ideal) x0 x1 = rf16 (F := Ideal) x0 x1 := rfl
theorem kf23_eq (x0 : (⟨Cert.KernelIdeal.S7x80, .f32⟩ : BufTy).Contents (Elt Ideal)) : kf23 (F := Ideal) x0 = rf11 (F := Ideal) x0 := rfl
theorem kf25_eq (x0 : (⟨Cert.KernelIdeal.S6x80x80, .f32⟩ : BufTy).Contents (Elt Ideal)) : kf25 (F := Ideal) x0 = rf19 (F := Ideal) x0 := rfl
theorem kf27_eq (x0 : (⟨Cert.KernelIdeal.S6x80, .f32⟩ : BufTy).Contents (Elt Ideal)) : kf27 (F := Ideal) x0 = rf20 (F := Ideal) x0 := rfl
theorem kf28_eq (x0 : (⟨Cert.KernelIdeal.S7x80, .f32⟩ : BufTy).Contents (Elt Ideal)) : kf28 (F := Ideal) x0 = rf22 (F := Ideal) x0 := rfl
theorem kf29_eq (x0 : (⟨Cert.KernelIdeal.S6x80x80, .f32⟩ : BufTy).Contents (Elt Ideal)) : kf29 (F := Ideal) x0 = rf23 (F := Ideal) x0 := rfl
theorem kf30_eq (x0 : (⟨Cert.KernelIdeal.S6x80, .f32⟩ : BufTy).Contents (Elt Ideal)) : kf30 (F := Ideal) x0 = rf24 (F := Ideal) x0 := rfl
theorem kf31_eq (x0 : (⟨Cert.KernelIdeal.S7x80, .f32⟩ : BufTy).Contents (Elt Ideal)) : kf31 (F := Ideal) x0 = rf25 (F := Ideal) x0 := rfl
theorem kf32_eq (x0 : (⟨Cert.KernelIdeal.S6x80x80, .f32⟩ : BufTy).Contents (Elt Ideal)) : kf32 (F := Ideal) x0 = rf26 (F := Ideal) x0 := rfl
theorem kf33_eq (x0 : (⟨Cert.KernelIdeal.S6x80, .f32⟩ : BufTy).Contents (Elt Ideal)) : kf33 (F := Ideal) x0 = rf27 (F := Ideal) x0 := rfl
theorem kf34_eq (x0 : (⟨Cert.KernelIdeal.S7x80, .f32⟩ : BufTy).Contents (Elt Ideal)) : kf34 (F := Ideal) x0 = rf28 (F := Ideal) x0 := rfl
theorem kf35_eq (x0 : (⟨Cert.KernelIdeal.S6x80x80, .f32⟩ : BufTy).Contents (Elt Ideal)) : kf35 (F := Ideal) x0 = rf29 (F := Ideal) x0 := rfl
theorem kf36_eq (x0 : (⟨Cert.KernelIdeal.S6x80, .f32⟩ : BufTy).Contents (Elt Ideal)) : kf36 (F := Ideal) x0 = rf30 (F := Ideal) x0 := rfl
theorem kf37_eq (x0 : (⟨Cert.KernelIdeal.S7x80, .f32⟩ : BufTy).Contents (Elt Ideal)) : kf37 (F := Ideal) x0 = rf31 (F := Ideal) x0 := rfl
theorem kf38_eq (x0 : (⟨Cert.KernelIdeal.S6x80x80, .f32⟩ : BufTy).Contents (Elt Ideal)) : kf38 (F := Ideal) x0 = rf32 (F := Ideal) x0 := rfl
theorem kf39_eq (x0 : (⟨Cert.KernelIdeal.S6x80, .f32⟩ : BufTy).Contents (Elt Ideal)) : kf39 (F := Ideal) x0 = rf33 (F := Ideal) x0 := rfl
theorem kf40_eq (x0 : (⟨Cert.KernelIdeal.S7x80, .f32⟩ : BufTy).Contents (Elt Ideal)) : kf40 (F := Ideal) x0 = rf34 (F := Ideal) x0 := rfl
theorem kf41_eq (x0 : (⟨Cert.KernelIdeal.S6x80x80, .f32⟩ : BufTy).Contents (Elt Ideal)) : kf41 (F := Ideal) x0 = rf35 (F := Ideal) x0 := rfl
theorem kf42_eq (x0 : (⟨Cert.KernelIdeal.S6x80, .f32⟩ : BufTy).Contents (Elt Ideal)) : kf42 (F := Ideal) x0 = rf36 (F := Ideal) x0 := rfl
theorem kf43_eq (x0 : (⟨Cert.KernelIdeal.S7x80, .f32⟩ : BufTy).Contents (Elt Ideal)) : kf43 (F := Ideal) x0 = rf37 (F := Ideal) x0 := rfl
theorem kf44_eq (x0 : (⟨Cert.KernelIdeal.S100000x80, .f32⟩ : BufTy).Contents (Elt Ideal)) (x1 : (⟨Cert.KernelIdeal.S100000x96, .f32⟩ : BufTy).Contents (Elt Ideal)) : kf44 (F := Ideal) x0 x1 = rf38 (F := Ideal) x0 x1 := rfl
theorem kf45_eq (x0 : (⟨Cert.KernelIdeal.S1000000, .i32⟩ : BufTy).Contents (Elt Ideal)) (x1 : (⟨Cert.KernelIdeal.S1000000, .i32⟩ : BufTy).Contents (Elt Ideal)) (x2 : (⟨Cert.KernelIdeal.S100000x48, .f32⟩ : BufTy).Contents (Elt Ideal)) (x3 : (⟨Cert.KernelIdeal.S20000, .f32⟩ : BufTy).Contents (Elt Ideal)) (x4 : (⟨Cert.KernelIdeal.S100000, .f32⟩ : BufTy).Contents (Elt Ideal)) : kf45 (F := Ideal) x0 x1 x2 x3 x4 = rf40 (F := Ideal) x0 x1 x2 x3 x4 := rfl

/-- The divisor of the variance, N minus the zero degrees-of-freedom word, the word named or spelled in place. -/
theorem kf20_18_eq : kf20 (F := Ideal) (kf18 (F := Ideal)) = rf14 (F := Ideal) := rfl
/-- The guarded inverse degrees: the kernel program names the comparison, the quotient and the zero fill, the reference does not. -/
theorem dinv_eq (d : (⟨Cert.KernelIdeal.S100000, .f32⟩ : BufTy).Contents (Elt Ideal)) :
    kf9 (F := Ideal) (kf6 (F := Ideal) d) (kf7 (F := Ideal) d) (kf8 (F := Ideal)) = rf6 (F := Ideal) d := rfl
theorem binv_eq (d : (⟨Cert.KernelIdeal.S20000, .f32⟩ : BufTy).Contents (Elt Ideal)) :
    kf12 (F := Ideal) (kf10 (F := Ideal) d) (kf11 (F := Ideal) d) (kf8 (F := Ideal)) = rf7 (F := Ideal) d := rfl

end Cert.Bridge

end
-- ==== Proof.BridgeGraph.lean ====
/- The kernel program reduces the two projections of a block side by side, as the 160 columns of one array, and cuts the result in two; the reference reduces each 80-column projection by itself. Both are the column-by-column reduction, so each half of the wide reduction is the reduction of the array holding that half's columns. -/
import proofs.«127768_j9405978378358_1_alg».proof.Proof.KFun
import proofs.«127768_j9405978378358_1_alg».proof.Proof.RFun
import proofs.«127768_j9405978378358_1_alg».proof.Proof.SpecGraph
import proofs.«127768_j9405978378358_1_alg».proof.Proof.LibDense
import proofs.«127768_j9405978378358_1_alg».proof.Proof.LibHostLayout
import Idealize.ShloMosaic.PureOps.Ideal
import Idealize.ShloMosaic.Lib.ValueIdx
import Idealize.ShloMosaic.Lib.Pipeline.Value

set_option maxRecDepth 16384

noncomputable section

namespace Cert.Bridge

open Idealize.ShloMosaic Idealize.ShloMosaic.TcCoe Idealize.ShloMosaic.StableHlo Idealize.ShloMosaic.ValueIdx
open Cert.KernelIdeal.Val Cert.ReferenceIdeal.Val Cert.Dense Cert.Spec Cert.HostLayout

/-- The index array a gather reads through: negative indices wrapped by the axis length, then one index per row. -/
def idxG (lim : BitVec 32) (v : IVec ⟨1, ![1000000]⟩ 32) : IVec ⟨2, ![1000000, 1]⟩ 32 :=
  broadcastInDim ⟨2, ![1000000, 1]⟩ ![0] (by decide)
    (select (cmpi .slt v (broadcastInDim ⟨1, ![1000000]⟩ ![] (by decide) (constantI ⟨0, ![]⟩ 32 0#32)))
      (addi v (broadcastInDim ⟨1, ![1000000]⟩ ![] (by decide) (constantI ⟨0, ![]⟩ 32 lim))) v)

/-- The index array a scatter adds through: one index per row, as given. -/
def idxS (v : IVec ⟨1, ![1000000]⟩ 32) : IVec ⟨2, ![1000000, 1]⟩ 32 :=
  broadcastInDim ⟨2, ![1000000, 1]⟩ ![0] (by decide) v

/-- The reduction of one column of node features through the incidence pairs `ni` / `ei`. -/
def red (ni ei : IVec ⟨1, ![1000000]⟩ 32) (binv : FVec Ideal ⟨1, ![20000]⟩ .f32) (dinv : FVec Ideal ⟨1, ![100000]⟩ .f32)
    (col : Fin 100000 → EReal) (n : Fin 100000) : EReal :=
  grCol (N := 100000) (H := 20000) (by decide) (by decide) (idxG 100000#32 ni) (idxS ei) (idxG 20000#32 ei) (idxS ni)
    (fun h => binv (ix1 h)) (fun r => dinv (ix1 r)) col n

/-- The kernel program's 160-column reduction at an entry is the reduction of that column. -/
theorem kf14_apply (ni ei : IVec ⟨1, ![1000000]⟩ 32) (xw : FVec Ideal ⟨2, ![100000, 160]⟩ .f32)
    (binv : FVec Ideal ⟨1, ![20000]⟩ .f32) (dinv : FVec Ideal ⟨1, ![100000]⟩ .f32) (n : Fin 100000) (q : Fin 160) :
    kf14 (F := Ideal) ni ei xw binv dinv (ix2 n q) = red ni ei binv dinv (fun r => xw (ix2 r q)) n := by
  unfold kf14 red
  refine gr_apply (N := 100000) (H := 20000) (E := 1000000) (C := 160) (by decide) (by decide)
    Cert.KernelIdeal.scatter_S100000x160_S1000000x1_S1000000x160_1_0_0_1 rfl rfl rfl rfl
    Cert.KernelIdeal.gather_S20000x160_S1000000x1_S1000000x160_1_0_n_n_0_1_1160 rfl rfl rfl rfl rfl rfl rfl
    Cert.KernelIdeal.scatter_S20000x160_S1000000x1_S1000000x160_1_0_0_1 rfl rfl rfl rfl
    Cert.KernelIdeal.gather_S100000x160_S1000000x1_S1000000x160_1_0_n_n_0_1_1160 rfl rfl rfl rfl rfl rfl rfl
    _ _ _ _ _ _ _ _ _ _ xw binv dinv n q

/-- The reference's 80-column reduction at an entry is the reduction of that column. -/
theorem rf9_apply (ni ei : IVec ⟨1, ![1000000]⟩ 32) (xw : FVec Ideal ⟨2, ![100000, 80]⟩ .f32)
    (binv : FVec Ideal ⟨1, ![20000]⟩ .f32) (dinv : FVec Ideal ⟨1, ![100000]⟩ .f32) (n : Fin 100000) (q : Fin 80) :
    rf9 (F := Ideal) ni ei xw binv dinv (ix2 n q) = red ni ei binv dinv (fun r => xw (ix2 r q)) n := by
  unfold rf9 red
  refine gr_apply (N := 100000) (H := 20000) (E := 1000000) (C := 80) (by decide) (by decide)
    Cert.ReferenceIdeal.scatter_S100000x80_S1000000x1_S1000000x80_1_0_0_1 rfl rfl rfl rfl
    Cert.ReferenceIdeal.gather_S20000x80_S1000000x1_S1000000x80_1_0_n_n_0_1_180 rfl rfl rfl rfl rfl rfl rfl
    Cert.ReferenceIdeal.scatter_S20000x80_S1000000x1_S1000000x80_1_0_0_1 rfl rfl rfl rfl
    Cert.ReferenceIdeal.gather_S100000x80_S1000000x1_S1000000x80_1_0_n_n_0_1_180 rfl rfl rfl rfl rfl rfl rfl
    _ _ _ _ _ _ _ _ _ _ xw binv dinv n q

/-- The left half: columns 0 … 79 of the wide reduction, a bias row added, are the reduction of the array holding
    the wide array's columns 0 … 79, the same bias row added. -/
theorem om_core (ni ei : IVec ⟨1, ![1000000]⟩ 32) (binv : FVec Ideal ⟨1, ![20000]⟩ .f32) (dinv : FVec Ideal ⟨1, ![100000]⟩ .f32)
    (xwK : FVec Ideal ⟨2, ![100000, 160]⟩ .f32) (xwR : FVec Ideal ⟨2, ![100000, 80]⟩ .f32) (b : FVec Ideal ⟨1, ![80]⟩ .f32)
    (hcol : ∀ (r : Fin 100000) (q : Fin 80), xwK (ix2 r (⟨q.val, by omega⟩ : Fin 160)) = xwR (ix2 r q)) :
    kf15 (F := Ideal) (kf14 (F := Ideal) ni ei xwK binv dinv) b = rf10 (F := Ideal) (rf9 (F := Ideal) ni ei xwR binv dinv) b := by
  funext i
  obtain ⟨n, q, rfl⟩ : ∃ (n : Fin 100000) (q : Fin 80), i = ix2 n q := ⟨i 0, i 1, eq_ix2 i⟩
  unfold kf15 rf10
  beta_reduce
  rw [addf_apply, addf_apply, rf9_apply,
    extractStridedSlice_apply ![0, 0] _ _ (ix2 n q) (ix2 n (⟨q.val, by omega⟩ : Fin 160)) (fun a => by
      match a with
      | ⟨0, _⟩ => simp [ix2]
      | ⟨1, _⟩ => simp [ix2]),
    kf14_apply]
  refine congrArg₂ (· + ·) (grCol_congr _ _ _ _ _ _ _ _ _ _ (fun r => hcol r q) n) ?_
  rw [bcast_vec_mat]

/-- The right half: columns 80 … 159 of the wide reduction, a bias row added, are the reduction of the array holding
    the wide array's columns 80 … 159, the same bias row added. -/
theorem os_core (ni ei : IVec ⟨1, ![1000000]⟩ 32) (binv : FVec Ideal ⟨1, ![20000]⟩ .f32) (dinv : FVec Ideal ⟨1, ![100000]⟩ .f32)
    (xwK : FVec Ideal ⟨2, ![100000, 160]⟩ .f32) (xwR : FVec Ideal ⟨2, ![100000, 80]⟩ .f32) (b : FVec Ideal ⟨1, ![80]⟩ .f32)
    (hcol : ∀ (r : Fin 100000) (q : Fin 80), xwK (ix2 r (⟨q.val + 80, by omega⟩ : Fin 160)) = xwR (ix2 r q)) :
    kf16 (F := Ideal) (kf14 (F := Ideal) ni ei xwK binv dinv) b = rf10 (F := Ideal) (rf9 (F := Ideal) ni ei xwR binv dinv) b := by
  funext i
  obtain ⟨n, q, rfl⟩ : ∃ (n : Fin 100000) (q : Fin 80), i = ix2 n q := ⟨i 0, i 1, eq_ix2 i⟩
  unfold kf16 rf10
  beta_reduce
  rw [addf_apply, addf_apply, rf9_apply,
    extractStridedSlice_apply ![0, 80] _ _ (ix2 n q) (ix2 n (⟨q.val + 80, by omega⟩ : Fin 160)) (fun a => by
      match a with
      | ⟨0, _⟩ => simp [ix2]
      | ⟨1, _⟩ => simp [ix2]; omega),
    kf14_apply]
  refine congrArg₂ (· + ·) (grCol_congr _ _ _ _ _ _ _ _ _ _ (fun r => hcol r q) n) ?_
  rw [bcast_vec_mat]

end Cert.Bridge

end
-- ==== Proof.BridgeLayer.lean ====
/- One block of the network in the two programs. The kernel program multiplies the block's input by the two weight matrices set side by side, reduces the 160 columns at once, cuts the result in two, and normalises, rectifies and adds the second half in one kernel; the reference multiplies, reduces and adds the bias once per weight matrix, normalises, rectifies and adds. Column by column the two products and the two reductions agree; the mean and the variance are the same functions of the same array; and the normalisations differ only in how a product of three factors is bracketed, which on the extended reals is the same product. -/
import proofs.«127768_j9405978378358_1_alg».proof.Proof.KFun
import proofs.«127768_j9405978378358_1_alg».proof.Proof.RFun
import proofs.«127768_j9405978378358_1_alg».proof.Proof.SpecGraph
import proofs.«127768_j9405978378358_1_alg».proof.Proof.LibDense
import proofs.«127768_j9405978378358_1_alg».proof.Proof.LibHostLayout
import Idealize.ShloMosaic.PureOps.Ideal
import Idealize.ShloMosaic.Lib.ValueIdx
import Idealize.ShloMosaic.Lib.Pipeline.Value
import proofs.«127768_j9405978378358_1_alg».proof.Proof.BridgeFns
import proofs.«127768_j9405978378358_1_alg».proof.Proof.BridgeGraph
import proofs.«127768_j9405978378358_1_alg».proof.Proof.KBnSpec

set_option maxRecDepth 16384

noncomputable section

namespace Cert.Bridge

open Idealize.ShloMosaic Idealize.ShloMosaic.TcCoe Idealize.ShloMosaic.StableHlo Idealize.ShloMosaic.ValueIdx
open Cert.KernelIdeal.Val Cert.ReferenceIdeal.Val Cert.Dense Cert.Spec

open Cert.KernelIdeal.RegionValue Cert.HostLayout

theorem hostRsqrt_apply {s : Shape} (x : FVec Ideal s .f32) (i : s.Idx) : Host.rsqrt (F := Ideal) x i = Ideal.rsqrt (x i) := rfl

theorem bcast_scalar_vec {α : Type} {n : ℕ} (x : (⟨0, ![]⟩ : Shape).Idx → α)
    (h : (⟨0, ![]⟩ : Shape).BroadcastsInDim ⟨1, ![n]⟩ ![]) (q : Fin n) :
    broadcastInDim ⟨1, ![n]⟩ ![] h x (ix1 q) = x ix0 :=
  broadcastInDim_apply ![] h x (ix1 q) ix0 fun a => a.elim0

/-- The kernel's normalisation with its statistics cast to one-row arrays is the reference's normalisation and
    rectifier, the second half added: g · ((x − μ) · r) = (g · (x − μ)) · r. -/
theorem bn_bridge (om os : FVec Ideal ⟨2, ![100000, 80]⟩ .f32) (mu var g be : FVec Ideal ⟨1, ![80]⟩ .f32) :
    bnK om os (kf24 (F := Ideal) mu) (kf24 (F := Ideal) var) (kf24 (F := Ideal) g) (kf24 (F := Ideal) be)
      = addf (rf17 (F := Ideal) g om mu var be) os := by
  funext i
  obtain ⟨p, q, rfl⟩ : ∃ (p : Fin 100000) (q : Fin 80), i = ix2 p q := ⟨i 0, i 1, eq_ix2 i⟩
  have hrow : ∀ v : FVec Ideal ⟨1, ![80]⟩ .f32, kf24 (F := Ideal) v (ix2 (0 : Fin 1) q) = v (ix1 q) := fun v => by
    unfold kf24
    rw [shapeCast_row]
    rfl
  rw [bnK_eq_bn, bn_apply, hrow, hrow, hrow, hrow, addf_apply]
  unfold rf17
  beta_reduce
  rw [maximumf_apply, addf_apply, mulf_apply, mulf_apply, subf_apply, bcast_vec_mat, bcast_vec_mat, bcast_vec_mat, bcast_vec_mat,
    bcast_scalar_mat, constant_apply, Ideal.ofBits_zero_f32, hostRsqrt_apply, addf_apply, bcast_scalar_vec, constant_apply, mul_assoc]

/-- Left columns of a product with two matrices set side by side: the product with the first. -/
theorem cols_left {K : ℕ} (X : Mat 100000 K) (W Ws : Mat K 80) (cat : Mat K 160)
    (hcat : ∀ (k : Fin K) (q : Fin 80), cat (ix2 k (⟨q.val, by omega⟩ : Fin 160)) = W (ix2 k q)) (r : Fin 100000) (q : Fin 80) :
    mm X cat (ix2 r (⟨q.val, by omega⟩ : Fin 160)) = mm X W (ix2 r q) := by
  rw [mm_apply, mm_apply]
  exact Finset.sum_congr rfl fun k _ => congrArg (X (ix2 r k) * ·) (hcat k q)

/-- Right columns of a product with two matrices set side by side: the product with the second. -/
theorem cols_right {K : ℕ} (X : Mat 100000 K) (W Ws : Mat K 80) (cat : Mat K 160)
    (hcat : ∀ (k : Fin K) (q : Fin 80), cat (ix2 k (⟨q.val + 80, by omega⟩ : Fin 160)) = Ws (ix2 k q)) (r : Fin 100000) (q : Fin 80) :
    mm X cat (ix2 r (⟨q.val + 80, by omega⟩ : Fin 160)) = mm X Ws (ix2 r q) := by
  rw [mm_apply, mm_apply]
  exact Finset.sum_congr rfl fun k _ => congrArg (X (ix2 r k) * ·) (hcat k q)

theorem cat96_left (W Ws : FVec Ideal ⟨2, ![96, 80]⟩ .f32) (k : Fin 96) (q : Fin 80) :
    kf13 (F := Ideal) W Ws (ix2 k (⟨q.val, by omega⟩ : Fin 160)) = W (ix2 k q) := by
  unfold kf13
  beta_reduce
  exact concatenate_pair_apply_left (t := ⟨2, ![96, 160]⟩) (s₁ := ⟨2, ![96, 80]⟩) (s₂ := ⟨2, ![96, 80]⟩) 1 W Ws _ _ rfl (ix2 k q) (fun b => by
    match b with
    | ⟨0, _⟩ => rfl
    | ⟨1, _⟩ => rfl)

theorem cat96_right (W Ws : FVec Ideal ⟨2, ![96, 80]⟩ .f32) (k : Fin 96) (q : Fin 80) :
    kf13 (F := Ideal) W Ws (ix2 k (⟨q.val + 80, by omega⟩ : Fin 160)) = Ws (ix2 k q) := by
  unfold kf13
  beta_reduce
  exact concatenate_pair_apply_right (t := ⟨2, ![96, 160]⟩) (s₁ := ⟨2, ![96, 80]⟩) (s₂ := ⟨2, ![96, 80]⟩) 1 W Ws _ _ rfl rfl (ix2 k q) (fun b hb => by
    match b with
    | ⟨0, _⟩ => rfl
    | ⟨1, _⟩ => exact absurd rfl hb) rfl

theorem cat80_left (W Ws : FVec Ideal ⟨2, ![80, 80]⟩ .f32) (k : Fin 80) (q : Fin 80) :
    kf26 (F := Ideal) W Ws (ix2 k (⟨q.val, by omega⟩ : Fin 160)) = W (ix2 k q) := by
  unfold kf26
  beta_reduce
  exact concatenate_pair_apply_left (t := ⟨2, ![80, 160]⟩) (s₁ := ⟨2, ![80, 80]⟩) (s₂ := ⟨2, ![80, 80]⟩) 1 W Ws _ _ rfl (ix2 k q) (fun b => by
    match b with
    | ⟨0, _⟩ => rfl
    | ⟨1, _⟩ => rfl)

theorem cat80_right (W Ws : FVec Ideal ⟨2, ![80, 80]⟩ .f32) (k : Fin 80) (q : Fin 80) :
    kf26 (F := Ideal) W Ws (ix2 k (⟨q.val + 80, by omega⟩ : Fin 160)) = Ws (ix2 k q) := by
  unfold kf26
  beta_reduce
  exact concatenate_pair_apply_right (t := ⟨2, ![80, 160]⟩) (s₁ := ⟨2, ![80, 80]⟩) (s₂ := ⟨2, ![80, 80]⟩) 1 W Ws _ _ rfl rfl (ix2 k q) (fun b hb => by
    match b with
    | ⟨0, _⟩ => rfl
    | ⟨1, _⟩ => exact absurd rfl hb) rfl

theorem rf8_mm (X : FVec Ideal ⟨2, ![100000, 96]⟩ .f32) (W : FVec Ideal ⟨2, ![96, 80]⟩ .f32) : rf8 (F := Ideal) X W = mm X W := by
  unfold rf8
  beta_reduce
  exact hostDot_eq_mm _ rfl rfl rfl rfl rfl rfl _ X W

theorem rf21_mm (X : FVec Ideal ⟨2, ![100000, 80]⟩ .f32) (W : FVec Ideal ⟨2, ![80, 80]⟩ .f32) : rf21 (F := Ideal) X W = mm X W := by
  unfold rf21
  beta_reduce
  exact hostDot_eq_mm _ rfl rfl rfl rfl rfl rfl _ X W

theorem rf39_mm (X : FVec Ideal ⟨2, ![100000, 176]⟩ .f32) (W : FVec Ideal ⟨2, ![176, 48]⟩ .f32) : rf39 (F := Ideal) X W = mm X W := by
  unfold rf39
  beta_reduce
  exact hostDot_eq_mm _ rfl rfl rfl rfl rfl rfl _ X W

/-- A block, given the two programs' products column by column. -/
theorem block_of_cols (ni ei : IVec ⟨1, ![1000000]⟩ 32) (binv : FVec Ideal ⟨1, ![20000]⟩ .f32) (dinv : FVec Ideal ⟨1, ![100000]⟩ .f32)
    (xwK : FVec Ideal ⟨2, ![100000, 160]⟩ .f32) (xw1 xw2 : FVec Ideal ⟨2, ![100000, 80]⟩ .f32)
    (h1 : ∀ (r : Fin 100000) (q : Fin 80), xwK (ix2 r (⟨q.val, by omega⟩ : Fin 160)) = xw1 (ix2 r q))
    (h2 : ∀ (r : Fin 100000) (q : Fin 80), xwK (ix2 r (⟨q.val + 80, by omega⟩ : Fin 160)) = xw2 (ix2 r q))
    (b sb g be : FVec Ideal ⟨1, ![80]⟩ .f32) :
    bnK (kf15 (F := Ideal) (kf14 (F := Ideal) ni ei xwK binv dinv) b) (kf16 (F := Ideal) (kf14 (F := Ideal) ni ei xwK binv dinv) sb)
        (kf24 (F := Ideal) (kf17 (F := Ideal) (kf15 (F := Ideal) (kf14 (F := Ideal) ni ei xwK binv dinv) b)))
        (kf24 (F := Ideal) (kf22 (F := Ideal) (kf20 (F := Ideal) (kf18 (F := Ideal)))
          (kf21 (F := Ideal) (kf19 (F := Ideal) (kf15 (F := Ideal) (kf14 (F := Ideal) ni ei xwK binv dinv) b)) (kf20 (F := Ideal) (kf18 (F := Ideal))))))
        (kf24 (F := Ideal) g) (kf24 (F := Ideal) be)
      = rf18 (F := Ideal)
          (rf17 (F := Ideal) g (rf10 (F := Ideal) (rf9 (F := Ideal) ni ei xw1 binv dinv) b)
            (rf12 (F := Ideal) (rf10 (F := Ideal) (rf9 (F := Ideal) ni ei xw1 binv dinv) b))
            (rf16 (F := Ideal) (rf14 (F := Ideal)) (rf15 (F := Ideal) (rf13 (F := Ideal) (rf10 (F := Ideal) (rf9 (F := Ideal) ni ei xw1 binv dinv) b)) (rf14 (F := Ideal))))
            be)
          (rf9 (F := Ideal) ni ei xw2 binv dinv) sb := by
  rw [om_core ni ei binv dinv xwK xw1 b h1, os_core ni ei binv dinv xwK xw2 sb h2, kf17_eq, kf19_eq, kf20_18_eq, kf21_eq, kf22_eq, bn_bridge]
  rfl

/-- The first block: 96 input features. -/
theorem block96 (ni ei : IVec ⟨1, ![1000000]⟩ 32) (binv : FVec Ideal ⟨1, ![20000]⟩ .f32) (dinv : FVec Ideal ⟨1, ![100000]⟩ .f32)
    (X : FVec Ideal ⟨2, ![100000, 96]⟩ .f32) (W Ws : FVec Ideal ⟨2, ![96, 80]⟩ .f32) (b sb g be : FVec Ideal ⟨1, ![80]⟩ .f32) :
    bnK (kf15 (F := Ideal) (kf14 (F := Ideal) ni ei (mm X (kf13 (F := Ideal) W Ws)) binv dinv) b) (kf16 (F := Ideal) (kf14 (F := Ideal) ni ei (mm X (kf13 (F := Ideal) W Ws)) binv dinv) sb)
        (kf24 (F := Ideal) (kf17 (F := Ideal) (kf15 (F := Ideal) (kf14 (F := Ideal) ni ei (mm X (kf13 (F := Ideal) W Ws)) binv dinv) b)))
        (kf24 (F := Ideal) (kf22 (F := Ideal) (kf20 (F := Ideal) (kf18 (F := Ideal)))
          (kf21 (F := Ideal) (kf19 (F := Ideal) (kf15 (F := Ideal) (kf14 (F := Ideal) ni ei (mm X (kf13 (F := Ideal) W Ws)) binv dinv) b)) (kf20 (F := Ideal) (kf18 (F := Ideal))))))
        (kf24 (F := Ideal) g) (kf24 (F := Ideal) be)
      = rf18 (F := Ideal)
          (rf17 (F := Ideal) g (rf10 (F := Ideal) (rf9 (F := Ideal) ni ei (rf8 (F := Ideal) X W) binv dinv) b)
            (rf12 (F := Ideal) (rf10 (F := Ideal) (rf9 (F := Ideal) ni ei (rf8 (F := Ideal) X W) binv dinv) b))
            (rf16 (F := Ideal) (rf14 (F := Ideal)) (rf15 (F := Ideal) (rf13 (F := Ideal) (rf10 (F := Ideal) (rf9 (F := Ideal) ni ei (rf8 (F := Ideal) X W) binv dinv) b)) (rf14 (F := Ideal))))
            be)
          (rf9 (F := Ideal) ni ei (rf8 (F := Ideal) X Ws) binv dinv) sb := by
  rw [rf8_mm, rf8_mm]
  exact block_of_cols ni ei binv dinv _ _ _ (cols_left X W Ws _ (cat96_left W Ws)) (cols_right X W Ws _ (cat96_right W Ws)) b sb g be

/-- Blocks two to seven: 80 input features. -/
theorem block80 (ni ei : IVec ⟨1, ![1000000]⟩ 32) (binv : FVec Ideal ⟨1, ![20000]⟩ .f32) (dinv : FVec Ideal ⟨1, ![100000]⟩ .f32)
    (X : FVec Ideal ⟨2, ![100000, 80]⟩ .f32) (W Ws : FVec Ideal ⟨2, ![80, 80]⟩ .f32) (b sb g be : FVec Ideal ⟨1, ![80]⟩ .f32) :
    bnK (kf15 (F := Ideal) (kf14 (F := Ideal) ni ei (mm X (kf26 (F := Ideal) W Ws)) binv dinv) b) (kf16 (F := Ideal) (kf14 (F := Ideal) ni ei (mm X (kf26 (F := Ideal) W Ws)) binv dinv) sb)
        (kf24 (F := Ideal) (kf17 (F := Ideal) (kf15 (F := Ideal) (kf14 (F := Ideal) ni ei (mm X (kf26 (F := Ideal) W Ws)) binv dinv) b)))
        (kf24 (F := Ideal) (kf22 (F := Ideal) (kf20 (F := Ideal) (kf18 (F := Ideal)))
          (kf21 (F := Ideal) (kf19 (F := Ideal) (kf15 (F := Ideal) (kf14 (F := Ideal) ni ei (mm X (kf26 (F := Ideal) W Ws)) binv dinv) b)) (kf20 (F := Ideal) (kf18 (F := Ideal))))))
        (kf24 (F := Ideal) g) (kf24 (F := Ideal) be)
      = rf18 (F := Ideal)
          (rf17 (F := Ideal) g (rf10 (F := Ideal) (rf9 (F := Ideal) ni ei (rf21 (F := Ideal) X W) binv dinv) b)
            (rf12 (F := Ideal) (rf10 (F := Ideal) (rf9 (F := Ideal) ni ei (rf21 (F := Ideal) X W) binv dinv) b))
            (rf16 (F := Ideal) (rf14 (F := Ideal)) (rf15 (F := Ideal) (rf13 (F := Ideal) (rf10 (F := Ideal) (rf9 (F := Ideal) ni ei (rf21 (F := Ideal) X W) binv dinv) b)) (rf14 (F := Ideal))))
            be)
          (rf9 (F := Ideal) ni ei (rf21 (F := Ideal) X Ws) binv dinv) sb := by
  rw [rf21_mm, rf21_mm]
  exact block_of_cols ni ei binv dinv _ _ _ (cols_left X W Ws _ (cat80_left W Ws)) (cols_right X W Ws _ (cat80_right W Ws)) b sb g be

/-- The mixing layer: the same operations in both programs but for the product, a matrix product in both. -/
theorem mix (ni ei : IVec ⟨1, ![1000000]⟩ 32) (binv : FVec Ideal ⟨1, ![20000]⟩ .f32) (dinv : FVec Ideal ⟨1, ![100000]⟩ .f32)
    (xcur : FVec Ideal ⟨2, ![100000, 80]⟩ .f32) (x0 : FVec Ideal ⟨2, ![100000, 96]⟩ .f32) (wmix : FVec Ideal ⟨2, ![176, 48]⟩ .f32) (bmix : FVec Ideal ⟨1, ![48]⟩ .f32) :
    kf0 (F := Ideal) (kf45 (F := Ideal) ni ei (mm (kf44 (F := Ideal) xcur x0) wmix) binv dinv) bmix
      = rf0 (F := Ideal) (rf40 (F := Ideal) ni ei (rf39 (F := Ideal) (rf38 (F := Ideal) xcur x0) wmix) binv dinv) bmix := by
  rw [rf39_mm, kf0_eq, kf45_eq, kf44_eq]

end Cert.Bridge

end
-- ==== Proof.BridgeTop.lean ====
/- The two programs' results are the same function of the fourteen argument arrays: the incidence indices and the inverse degrees are computed by the same operations; block by block the two programs agree; and the mixing layer differs only in the spelling of a matrix product. -/
import proofs.«127768_j9405978378358_1_alg».proof.Proof.KFun
import proofs.«127768_j9405978378358_1_alg».proof.Proof.RFun
import proofs.«127768_j9405978378358_1_alg».proof.Proof.SpecGraph
import proofs.«127768_j9405978378358_1_alg».proof.Proof.LibDense
import proofs.«127768_j9405978378358_1_alg».proof.Proof.LibHostLayout
import Idealize.ShloMosaic.PureOps.Ideal
import Idealize.ShloMosaic.Lib.ValueIdx
import Idealize.ShloMosaic.Lib.Pipeline.Value
import proofs.«127768_j9405978378358_1_alg».proof.Proof.BridgeFns
import proofs.«127768_j9405978378358_1_alg».proof.Proof.BridgeGraph
import proofs.«127768_j9405978378358_1_alg».proof.Proof.BridgeLayer
import proofs.«127768_j9405978378358_1_alg».proof.Proof.KVals
import proofs.«127768_j9405978378358_1_alg».proof.Proof.RVals

set_option maxRecDepth 16384

noncomputable section

namespace Cert.Bridge

open Idealize.ShloMosaic Idealize.ShloMosaic.TcCoe Idealize.ShloMosaic.StableHlo Idealize.ShloMosaic.ValueIdx
open Cert.KernelIdeal.Val Cert.ReferenceIdeal.Val Cert.Dense Cert.Spec Cert.HostLayout

open Cert.KernelIdeal.RegionValue

variable (a : Cert.Spec.Inputs Ideal)

theorem setup_ni : kv_main_v1 a = rv_main_v1 a := by
  unfold kv_main_v1 rv_main_v1
  exact kf1_eq _
theorem setup_ei : kv_main_v3 a = rv_main_v3 a := by
  unfold kv_main_v3 rv_main_v3
  exact kf2_eq _
theorem setup_dinv : kv_main_v15 a = rv_main_v15 a := by
  simp only [kv_main_v15, kv_main_v12, kv_main_v14, kv_main_cst_4, kv_main_v7, kv_main_v4, rv_main_v15, rv_main_v7, rv_main_v4]
  rw [setup_ni a, dinv_eq, kf4_eq, kf3_eq]
theorem setup_binv : kv_main_v20 a = rv_main_v20 a := by
  simp only [kv_main_v20, kv_main_v17, kv_main_v19, kv_main_cst_7, kv_main_v10, kv_main_v4, rv_main_v20, rv_main_v10, rv_main_v4]
  rw [setup_ei a, binv_eq, kf5_eq, kf3_eq]

theorem block1 : kv_main_v69 a = rv_main_v105 a := by
  simp only [kv_main_v21, kv_main_v22, kv_main_v48, kv_main_v52, kv_main_v56, kv_main_v59, kv_main_c_15, kv_main_call2_v5, kv_main_call2_v8, kv_main_call2_v11, kv_main_v60, kv_main_v62, kv_main_v64, kv_main_v65, kv_main_v66, kv_main_v67, kv_main_v68, kv_main_v69, rv_main_v21, rv_main_v47, rv_main_v50, rv_main_v52, rv_main_v54, rv_main_v57, rv_main_call2_v5, rv_main_call2_v8, rv_main_call2_v11, rv_main_v58, rv_main_v74, rv_main_v75, rv_main_v101, rv_main_v105]
  rw [setup_ni a, setup_ei a, setup_dinv a, setup_binv a]
  simp only [kf23_eq, kf25_eq, kf27_eq, kf28_eq, kf29_eq, kf30_eq, kf31_eq, kf32_eq, kf33_eq, kf34_eq, kf35_eq, kf36_eq, kf37_eq, kf38_eq, kf39_eq, kf40_eq, kf41_eq, kf42_eq, kf43_eq]
  exact block96 _ _ _ _ _ _ _ _ _ _ _

theorem block2 : kv_main_v126 a = rv_main_v198 a := by
  simp only [kv_main_v71, kv_main_v73, kv_main_v74, kv_main_v75, kv_main_v101, kv_main_v104, kv_main_v107, kv_main_v110, kv_main_v113, kv_main_v116, kv_main_c_24, kv_main_call3_v5, kv_main_call3_v8, kv_main_call3_v11, kv_main_v117, kv_main_v119, kv_main_v121, kv_main_v122, kv_main_v123, kv_main_v124, kv_main_v125, kv_main_v126, rv_main_v107, rv_main_v109, rv_main_v110, rv_main_v136, rv_main_v139, rv_main_v141, rv_main_v143, rv_main_v146, rv_main_call4_v5, rv_main_call4_v8, rv_main_call4_v11, rv_main_v147, rv_main_v163, rv_main_v165, rv_main_v167, rv_main_v168, rv_main_v194, rv_main_v198]
  rw [setup_ni a, setup_ei a, setup_dinv a, setup_binv a, block1 a]
  simp only [kf23_eq, kf25_eq, kf27_eq, kf28_eq, kf29_eq, kf30_eq, kf31_eq, kf32_eq, kf33_eq, kf34_eq, kf35_eq, kf36_eq, kf37_eq, kf38_eq, kf39_eq, kf40_eq, kf41_eq, kf42_eq, kf43_eq]
  exact block80 _ _ _ _ _ _ _ _ _ _ _

theorem block3 : kv_main_v183 a = rv_main_v291 a := by
  simp only [kv_main_v128, kv_main_v130, kv_main_v131, kv_main_v132, kv_main_v158, kv_main_v161, kv_main_v164, kv_main_v167, kv_main_v170, kv_main_v173, kv_main_c_33, kv_main_call4_v5, kv_main_call4_v8, kv_main_call4_v11, kv_main_v174, kv_main_v176, kv_main_v178, kv_main_v179, kv_main_v180, kv_main_v181, kv_main_v182, kv_main_v183, rv_main_v200, rv_main_v202, rv_main_v203, rv_main_v229, rv_main_v232, rv_main_v234, rv_main_v236, rv_main_v239, rv_main_call6_v5, rv_main_call6_v8, rv_main_call6_v11, rv_main_v240, rv_main_v256, rv_main_v258, rv_main_v260, rv_main_v261, rv_main_v287, rv_main_v291]
  rw [setup_ni a, setup_ei a, setup_dinv a, setup_binv a, block2 a]
  simp only [kf23_eq, kf25_eq, kf27_eq, kf28_eq, kf29_eq, kf30_eq, kf31_eq, kf32_eq, kf33_eq, kf34_eq, kf35_eq, kf36_eq, kf37_eq, kf38_eq, kf39_eq, kf40_eq, kf41_eq, kf42_eq, kf43_eq]
  exact block80 _ _ _ _ _ _ _ _ _ _ _

theorem block4 : kv_main_v240 a = rv_main_v384 a := by
  simp only [kv_main_v185, kv_main_v187, kv_main_v188, kv_main_v189, kv_main_v215, kv_main_v218, kv_main_v221, kv_main_v224, kv_main_v227, kv_main_v230, kv_main_c_42, kv_main_call5_v5, kv_main_call5_v8, kv_main_call5_v11, kv_main_v231, kv_main_v233, kv_main_v235, kv_main_v236, kv_main_v237, kv_main_v238, kv_main_v239, kv_main_v240, rv_main_v293, rv_main_v295, rv_main_v296, rv_main_v322, rv_main_v325, rv_main_v327, rv_main_v329, rv_main_v332, rv_main_call8_v5, rv_main_call8_v8, rv_main_call8_v11, rv_main_v333, rv_main_v349, rv_main_v351, rv_main_v353, rv_main_v354, rv_main_v380, rv_main_v384]
  rw [setup_ni a, setup_ei a, setup_dinv a, setup_binv a, block3 a]
  simp only [kf23_eq, kf25_eq, kf27_eq, kf28_eq, kf29_eq, kf30_eq, kf31_eq, kf32_eq, kf33_eq, kf34_eq, kf35_eq, kf36_eq, kf37_eq, kf38_eq, kf39_eq, kf40_eq, kf41_eq, kf42_eq, kf43_eq]
  exact block80 _ _ _ _ _ _ _ _ _ _ _

theorem block5 : kv_main_v297 a = rv_main_v477 a := by
  simp only [kv_main_v242, kv_main_v244, kv_main_v245, kv_main_v246, kv_main_v272, kv_main_v275, kv_main_v278, kv_main_v281, kv_main_v284, kv_main_v287, kv_main_c_51, kv_main_call6_v5, kv_main_call6_v8, kv_main_call6_v11, kv_main_v288, kv_main_v290, kv_main_v292, kv_main_v293, kv_main_v294, kv_main_v295, kv_main_v296, kv_main_v297, rv_main_v386, rv_main_v388, rv_main_v389, rv_main_v415, rv_main_v418, rv_main_v420, rv_main_v422, rv_main_v425, rv_main_call10_v5, rv_main_call10_v8, rv_main_call10_v11, rv_main_v426, rv_main_v442, rv_main_v444, rv_main_v446, rv_main_v447, rv_main_v473, rv_main_v477]
  rw [setup_ni a, setup_ei a, setup_dinv a, setup_binv a, block4 a]
  simp only [kf23_eq, kf25_eq, kf27_eq, kf28_eq, kf29_eq, kf30_eq, kf31_eq, kf32_eq, kf33_eq, kf34_eq, kf35_eq, kf36_eq, kf37_eq, kf38_eq, kf39_eq, kf40_eq, kf41_eq, kf42_eq, kf43_eq]
  exact block80 _ _ _ _ _ _ _ _ _ _ _

theorem block6 : kv_main_v354 a = rv_main_v570 a := by
  simp only [kv_main_v299, kv_main_v301, kv_main_v302, kv_main_v303, kv_main_v329, kv_main_v332, kv_main_v335, kv_main_v338, kv_main_v341, kv_main_v344, kv_main_c_60, kv_main_call7_v5, kv_main_call7_v8, kv_main_call7_v11, kv_main_v345, kv_main_v347, kv_main_v349, kv_main_v350, kv_main_v351, kv_main_v352, kv_main_v353, kv_main_v354, rv_main_v479, rv_main_v481, rv_main_v482, rv_main_v508, rv_main_v511, rv_main_v513, rv_main_v515, rv_main_v518, rv_main_call12_v5, rv_main_call12_v8, rv_main_call12_v11, rv_main_v519, rv_main_v535, rv_main_v537, rv_main_v539, rv_main_v540, rv_main_v566, rv_main_v570]
  rw [setup_ni a, setup_ei a, setup_dinv a, setup_binv a, block5 a]
  simp only [kf23_eq, kf25_eq, kf27_eq, kf28_eq, kf29_eq, kf30_eq, kf31_eq, kf32_eq, kf33_eq, kf34_eq, kf35_eq, kf36_eq, kf37_eq, kf38_eq, kf39_eq, kf40_eq, kf41_eq, kf42_eq, kf43_eq]
  exact block80 _ _ _ _ _ _ _ _ _ _ _

theorem block7 : kv_main_v411 a = rv_main_v663 a := by
  simp only [kv_main_v356, kv_main_v358, kv_main_v359, kv_main_v360, kv_main_v386, kv_main_v389, kv_main_v392, kv_main_v395, kv_main_v398, kv_main_v401, kv_main_c_69, kv_main_call8_v5, kv_main_call8_v8, kv_main_call8_v11, kv_main_v402, kv_main_v404, kv_main_v406, kv_main_v407, kv_main_v408, kv_main_v409, kv_main_v410, kv_main_v411, rv_main_v572, rv_main_v574, rv_main_v575, rv_main_v601, rv_main_v604, rv_main_v606, rv_main_v608, rv_main_v611, rv_main_call14_v5, rv_main_call14_v8, rv_main_call14_v11, rv_main_v612, rv_main_v628, rv_main_v630, rv_main_v632, rv_main_v633, rv_main_v659, rv_main_v663]
  rw [setup_ni a, setup_ei a, setup_dinv a, setup_binv a, block6 a]
  simp only [kf23_eq, kf25_eq, kf27_eq, kf28_eq, kf29_eq, kf30_eq, kf31_eq, kf32_eq, kf33_eq, kf34_eq, kf35_eq, kf36_eq, kf37_eq, kf38_eq, kf39_eq, kf40_eq, kf41_eq, kf42_eq, kf43_eq]
  exact block80 _ _ _ _ _ _ _ _ _ _ _

/-- The two results are one function of the arguments. -/
theorem results_eq : kv_main_v442 a = rv_main_v694 a := by
  simp only [kv_main_v412, kv_main_v413, kv_main_v439, kv_main_v442, rv_main_v664, rv_main_v665, rv_main_v691, rv_main_v694]
  rw [setup_ni a, setup_ei a, setup_dinv a, setup_binv a, block7 a]
  exact mix _ _ _ _ _ _ _ _

end Cert.Bridge

end
-- ==== Proof.lean ====
/- Equivalence of a seven-block hypergraph network in two programs. Every block multiplies the node features by a
   convolution matrix and a skip matrix, passes each product through the hypergraph reduction D⁻¹ H B⁻¹ Hᵀ (sum the
   node rows into their hyperedges, scale by inverse hyperedge degree, sum the hyperedge rows back into their nodes,
   scale by inverse node degree), adds a bias, and returns relu(batch-norm(convolution branch)) + skip branch; a last
   mixing layer multiplies [features, input] by a 176 × 48 matrix, reduces and adds a bias. One program does the two
   products of a block as ONE product with the two matrices set side by side, reduces the 160 columns at once and
   cuts the result in two, and normalises, rectifies and adds in one kernel; the other does each branch by itself
   on the host. The reduction acts on each column by itself, so a half of the wide reduction is the reduction of that
   half's columns; the mean and variance are the same operations on the same array; the normalisations differ only
   in the bracketing of a product of three extended reals, and multiplication there is associative. No law that
   fails at infinite values is used, so the precondition is never opened. -/
import proofs.«127768_j9405978378358_1_alg».proof.Defs
import proofs.«127768_j9405978378358_1_alg».proof.Proof.Gen.Kernel
import proofs.«127768_j9405978378358_1_alg».proof.Proof.FrameKernelP
import proofs.«127768_j9405978378358_1_alg».proof.Proof.Gen.KernelIdeal
import proofs.«127768_j9405978378358_1_alg».proof.Proof.FrameKernelIdealP
import proofs.«127768_j9405978378358_1_alg».proof.Proof.Gen.ReferenceIdeal
import proofs.«127768_j9405978378358_1_alg».proof.Proof.Gen.Pre_finite_inputs
import proofs.«127768_j9405978378358_1_alg».proof.Proof.KRun
import proofs.«127768_j9405978378358_1_alg».proof.Proof.KState7
import proofs.«127768_j9405978378358_1_alg».proof.Proof.RState8
import proofs.«127768_j9405978378358_1_alg».proof.Proof.RefKeep
import proofs.«127768_j9405978378358_1_alg».proof.Proof.BridgeTop
import Idealize.ShloMosaic.Adequacy
import Idealize.ShloMosaic.Init

set_option maxRecDepth 16384

noncomputable section

namespace Cert.Proof

open Idealize.ShloMosaic Idealize.SL.Sem Idealize.ShloMosaic.StableHlo

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := Cert.ReferenceIdeal.RefRun.frame_ref

/-- Arguments that agree give the two programs the same record of argument arrays. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Val.inR (launchContents m' c) = Cert.KernelIdeal.Val.inK m c := by
  unfold Cert.ReferenceIdeal.Val.inR Cert.KernelIdeal.Val.inK
  rw [show launchContents m' c (Proc.devRef .tc Cert.ReferenceIdeal.main_arg0) = _ from h0,
    show launchContents m' c (Proc.devRef .tc Cert.ReferenceIdeal.main_arg1) = _ from h1,
    show launchContents m' c (Proc.devRef .tc Cert.ReferenceIdeal.main_arg2) = _ from h2,
    show launchContents m' c (Proc.devRef .tc Cert.ReferenceIdeal.main_arg3) = _ from h3,
    show launchContents m' c (Proc.devRef .tc Cert.ReferenceIdeal.main_arg4) = _ from h4,
    show launchContents m' c (Proc.devRef .tc Cert.ReferenceIdeal.main_arg5) = _ from h5,
    show launchContents m' c (Proc.devRef .tc Cert.ReferenceIdeal.main_arg6) = _ from h6,
    show launchContents m' c (Proc.devRef .tc Cert.ReferenceIdeal.main_arg7) = _ from h7,
    show launchContents m' c (Proc.devRef .tc Cert.ReferenceIdeal.main_arg8) = _ from h8,
    show launchContents m' c (Proc.devRef .tc Cert.ReferenceIdeal.main_arg9) = _ from h9,
    show launchContents m' c (Proc.devRef .tc Cert.ReferenceIdeal.main_arg10) = _ from h10,
    show launchContents m' c (Proc.devRef .tc Cert.ReferenceIdeal.main_arg11) = _ from h11,
    show launchContents m' c (Proc.devRef .tc Cert.ReferenceIdeal.main_arg12) = _ from h12,
    show launchContents m' c (Proc.devRef .tc Cert.ReferenceIdeal.main_arg13) = _ from h13]

/-- Both idealized programs end with their result at one function of the argument arrays. -/
theorem algebraic : Cert.algebraic_KernelIdeal_ReferenceIdeal := by
  intro m ρ m' ρ' _ hagree
  refine ⟨fun c => Cert.KernelIdeal.Val.kv_main_v442 (Cert.KernelIdeal.Val.inK m c), ?_, ?_⟩
  · exact (θ_run Cert.KernelIdeal.defs _ _).mono
      (fun r h c => ⟨(h c).1.trans (Cert.KernelIdeal.Val.s48_main_v442 m ρ c), (h c).2⟩)
      (Cert.KernelIdeal.Val.run_result (F := Ideal) m ρ)
  · refine (θ_run Cert.ReferenceIdeal.defs _ _).mono (fun r h c => ?_) (Cert.ReferenceIdeal.RefRun.run_after (F := Ideal) m' ρ')
    obtain ⟨h0, h1, h2, h3, h4, h5, h6, h7, h8, h9, h10, h11, h12, h13⟩ := hagree c
    refine ⟨?_, (h c Cert.ReferenceIdeal.main_arg0).trans (Cert.ReferenceIdeal.RefRun.keep_arg0 _),
      (h c Cert.ReferenceIdeal.main_arg1).trans (Cert.ReferenceIdeal.RefRun.keep_arg1 _),
      (h c Cert.ReferenceIdeal.main_arg2).trans (Cert.ReferenceIdeal.RefRun.keep_arg2 _),
      (h c Cert.ReferenceIdeal.main_arg3).trans (Cert.ReferenceIdeal.RefRun.keep_arg3 _),
      (h c Cert.ReferenceIdeal.main_arg4).trans (Cert.ReferenceIdeal.RefRun.keep_arg4 _),
      (h c Cert.ReferenceIdeal.main_arg5).trans (Cert.ReferenceIdeal.RefRun.keep_arg5 _),
      (h c Cert.ReferenceIdeal.main_arg6).trans (Cert.ReferenceIdeal.RefRun.keep_arg6 _),
      (h c Cert.ReferenceIdeal.main_arg7).trans (Cert.ReferenceIdeal.RefRun.keep_arg7 _),
      (h c Cert.ReferenceIdeal.main_arg8).trans (Cert.ReferenceIdeal.RefRun.keep_arg8 _),
      (h c Cert.ReferenceIdeal.main_arg9).trans (Cert.ReferenceIdeal.RefRun.keep_arg9 _),
      (h c Cert.ReferenceIdeal.main_arg10).trans (Cert.ReferenceIdeal.RefRun.keep_arg10 _),
      (h c Cert.ReferenceIdeal.main_arg11).trans (Cert.ReferenceIdeal.RefRun.keep_arg11 _),
      (h c Cert.ReferenceIdeal.main_arg12).trans (Cert.ReferenceIdeal.RefRun.keep_arg12 _),
      (h c Cert.ReferenceIdeal.main_arg13).trans (Cert.ReferenceIdeal.RefRun.keep_arg13 _)⟩
    rw [h c Cert.ReferenceIdeal.main_v694, Cert.ReferenceIdeal.Val.after_ops, Cert.ReferenceIdeal.Val.r22_main_v694,
      inputs_eq m m' c h0 h1 h2 h3 h4 h5 h6 h7 h8 h9 h10 h11 h12 h13]
    exact (Cert.Bridge.results_eq _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
